-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x50 : Shape := ⟨2, ![16384, 50]⟩
abbrev S100000x64 : Shape := ⟨2, ![100000, 64]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S16384x50 : S_.BroadcastsInDim S16384x50 (![] : Fin 0 → Fin S16384x50.rank)
  reducesTo_S16384x50_S_d0_1 : S16384x50.ReducesTo [0, 1] S_

variable [Facts]

def fn_part1 {F : FTy → Type} [FloatOps F] (main_arg0 : IVec S16384x50 32) (main_v13 : IVec S_ 1) (main_v15 : IVec S16384x50 1) (main_c_5 : IVec S_ 32) : IVec S_ 1 :=
  let main_v16 : IVec S16384x50 32 := broadcastInDim S16384x50 ![] bcast_S_S16384x50 main_c_5
  let main_v17 : IVec S16384x50 1 := cmpi .sle main_arg0 main_v16
  let main_v18 : IVec S16384x50 1 := andi main_v15 main_v17
  let main_c_6 : IVec S_ 1 := constantI S_ 1 1#1
  let main_v19 : IVec S_ 1 := (fun x v => Host.reduce IntOp.andi x v reducesTo_S16384x50_S_d0_1 h_S_) main_v18 main_c_6
  let main_v20 : IVec S_ 1 := andi main_v13 main_v19
  main_v20

def fn {F : FTy → Type} [FloatOps F] (main_arg0 : IVec S16384x50 32) (main_arg1 : FVec F S100000x64 .f32) (main_arg2 : FVec F S64x64 .f32) (main_arg3 : FVec F S64 .f32) : IVec S_ 1 :=
  let main_v0 : FVec F S100000x64 .f32 := Host.absf main_arg1
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_c_4 : IVec S_ 32 := constantI S_ 32 0#32
  let main_v14 : IVec S16384x50 32 := broadcastInDim S16384x50 ![] bcast_S_S16384x50 main_c_4
  let main_v15 : IVec S16384x50 1 := cmpi .sge main_arg0 main_v14
  let main_c_5 : IVec S_ 32 := constantI S_ 32 99999#32
  fn_part1 (F := F) main_arg0 main_v13 main_v15 main_c_5
-- ==== Kernel.lean ====
abbrev S16384x50 : Shape := ⟨2, ![16384, 50]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S100000x128 : Shape := ⟨2, ![100000, 128]⟩
abbrev S64x1 : Shape := ⟨2, ![64, 1]⟩
abbrev S4096x50x64 : Shape := ⟨3, ![4096, 50, 64]⟩
abbrev S128x50 : Shape := ⟨2, ![128, 50]⟩
abbrev S8x56x128 : Shape := ⟨3, ![8, 56, 128]⟩
abbrev S8x50x64 : Shape := ⟨3, ![8, 50, 64]⟩
abbrev S1x50x128 : Shape := ⟨3, ![1, 50, 128]⟩
abbrev S50x128 : Shape := ⟨2, ![50, 128]⟩
abbrev S1x50 : Shape := ⟨2, ![1, 50]⟩
abbrev S50 : Shape := ⟨1, ![50]⟩
abbrev S1x1x16 : Shape := ⟨3, ![1, 1, 16]⟩
abbrev S16 : Shape := ⟨1, ![16]⟩
abbrev S1x50x64 : Shape := ⟨3, ![1, 50, 64]⟩
abbrev S50x64 : Shape := ⟨2, ![50, 64]⟩
abbrev S50x64x16384 : Shape := ⟨3, ![50, 64, 16384]⟩
abbrev S512x50x64 : Shape := ⟨3, ![512, 50, 64]⟩
abbrev S50x64x512 : Shape := ⟨3, ![50, 64, 512]⟩
abbrev S512x1x64 : Shape := ⟨3, ![512, 1, 64]⟩
abbrev S512x64 : Shape := ⟨2, ![512, 64]⟩
abbrev S64x512 : Shape := ⟨2, ![64, 512]⟩
abbrev S1x64x512 : Shape := ⟨3, ![1, 64, 512]⟩
abbrev S16384x50x64 : Shape := ⟨3, ![16384, 50, 64]⟩

abbrev nBuf : Table → Nat
  | .hbm => 18
  | .local .tc .vmem => 24
  | .local .scVector .vmem => 12
  | _ => 0

abbrev bufTy : (tb : Table) → Fin (nBuf tb) → BufTy
  | .hbm, ⟨0, _⟩ => ⟨S16384x50, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S_, .i32⟩
  | .hbm, ⟨5, _⟩ => ⟨S_, .f32⟩
  | .hbm, ⟨6, _⟩ => ⟨S100000x128, .f32⟩
  | .hbm, ⟨7, _⟩ => ⟨S64x64, .f32⟩
  | .hbm, ⟨8, _⟩ => ⟨S64x1, .f32⟩
  | .hbm, ⟨9, _⟩ => ⟨S4096x50x64, .f32⟩
  | .hbm, ⟨10, _⟩ => ⟨S4096x50x64, .f32⟩
  | .hbm, ⟨11, _⟩ => ⟨S4096x50x64, .f32⟩
  | .hbm, ⟨12, _⟩ => ⟨S4096x50x64, .f32⟩
  | .hbm, ⟨13, _⟩ => ⟨S50x64x16384, .f32⟩
  | .hbm, ⟨14, _⟩ => ⟨S50x64x16384, .f32⟩
  | .hbm, ⟨15, _⟩ => ⟨S50x64x16384, .f32⟩
  | .hbm, ⟨16, _⟩ => ⟨S50x64x16384, .f32⟩
  | .hbm, ⟨17, _⟩ => ⟨S16384x50x64, .f32⟩
  | .local .tc .vmem, ⟨0, _⟩ => ⟨S512x50x64, .f32⟩
  | .local .tc .vmem, ⟨1, _⟩ => ⟨S512x50x64, .f32⟩
  | .local .tc .vmem, ⟨2, _⟩ => ⟨S64x64, .f32⟩
  | .local .tc .vmem, ⟨3, _⟩ => ⟨S64x1, .f32⟩
  | .local .tc .vmem, ⟨4, _⟩ => ⟨S50x64x512, .f32⟩
  | .local .tc .vmem, ⟨5, _⟩ => ⟨S50x64x512, .f32⟩
  | .local .tc .vmem, ⟨6, _⟩ => ⟨S512x50x64, .f32⟩
  | .local .tc .vmem, ⟨7, _⟩ => ⟨S512x50x64, .f32⟩
  | .local .tc .vmem, ⟨8, _⟩ => ⟨S64x64, .f32⟩
  | .local .tc .vmem, ⟨9, _⟩ => ⟨S64x1, .f32⟩
  | .local .tc .vmem, ⟨10, _⟩ => ⟨S50x64x512, .f32⟩
  | .local .tc .vmem, ⟨11, _⟩ => ⟨S50x64x512, .f32⟩
  | .local .tc .vmem, ⟨12, _⟩ => ⟨S512x50x64, .f32⟩
  | .local .tc .vmem, ⟨13, _⟩ => ⟨S512x50x64, .f32⟩
  | .local .tc .vmem, ⟨14, _⟩ => ⟨S64x64, .f32⟩
  | .local .tc .vmem, ⟨15, _⟩ => ⟨S64x1, .f32⟩
  | .local .tc .vmem, ⟨16, _⟩ => ⟨S50x64x512, .f32⟩
  | .local .tc .vmem, ⟨17, _⟩ => ⟨S50x64x512, .f32⟩
  | .local .tc .vmem, ⟨18, _⟩ => ⟨S512x50x64, .f32⟩
  | .local .tc .vmem, ⟨19, _⟩ => ⟨S512x50x64, .f32⟩
  | .local .tc .vmem, ⟨20, _⟩ => ⟨S64x64, .f32⟩
  | .local .tc .vmem, ⟨21, _⟩ => ⟨S64x1, .f32⟩
  | .local .tc .vmem, ⟨22, _⟩ => ⟨S50x64x512, .f32⟩
  | .local .tc .vmem, ⟨23, _⟩ => ⟨S50x64x512, .f32⟩
  | .local .scVector .vmem, ⟨0, _⟩ => ⟨S128x50, .i32⟩
  | .local .scVector .vmem, ⟨1, _⟩ => ⟨S8x56x128, .f32⟩
  | .local .scVector .vmem, ⟨2, _⟩ => ⟨S8x50x64, .f32⟩
  | .local .scVector .vmem, ⟨3, _⟩ => ⟨S128x50, .i32⟩
  | .local .scVector .vmem, ⟨4, _⟩ => ⟨S8x56x128, .f32⟩
  | .local .scVector .vmem, ⟨5, _⟩ => ⟨S8x50x64, .f32⟩
  | .local .scVector .vmem, ⟨6, _⟩ => ⟨S128x50, .i32⟩
  | .local .scVector .vmem, ⟨7, _⟩ => ⟨S8x56x128, .f32⟩
  | .local .scVector .vmem, ⟨8, _⟩ => ⟨S8x50x64, .f32⟩
  | .local .scVector .vmem, ⟨9, _⟩ => ⟨S128x50, .i32⟩
  | .local .scVector .vmem, ⟨10, _⟩ => ⟨S8x56x128, .f32⟩
  | .local .scVector .vmem, ⟨11, _⟩ => ⟨S8x50x64, .f32⟩
  | _, _ => ⟨S16384x50, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 92 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | ⟨26, _⟩ => false
  | ⟨27, _⟩ => false
  | ⟨28, _⟩ => false
  | ⟨29, _⟩ => false
  | ⟨30, _⟩ => false
  | ⟨31, _⟩ => false
  | ⟨32, _⟩ => false
  | ⟨33, _⟩ => false
  | ⟨34, _⟩ => false
  | ⟨35, _⟩ => false
  | ⟨36, _⟩ => false
  | ⟨37, _⟩ => false
  | ⟨38, _⟩ => false
  | ⟨39, _⟩ => false
  | ⟨40, _⟩ => false
  | ⟨41, _⟩ => false
  | ⟨42, _⟩ => false
  | ⟨43, _⟩ => false
  | ⟨44, _⟩ => false
  | ⟨45, _⟩ => false
  | ⟨46, _⟩ => false
  | ⟨47, _⟩ => false
  | ⟨48, _⟩ => false
  | ⟨49, _⟩ => false
  | ⟨50, _⟩ => false
  | ⟨51, _⟩ => false
  | ⟨52, _⟩ => false
  | ⟨53, _⟩ => false
  | ⟨54, _⟩ => false
  | ⟨55, _⟩ => false
  | ⟨56, _⟩ => false
  | ⟨57, _⟩ => false
  | ⟨58, _⟩ => false
  | ⟨59, _⟩ => false
  | ⟨60, _⟩ => false
  | ⟨61, _⟩ => false
  | ⟨62, _⟩ => false
  | ⟨63, _⟩ => false
  | ⟨64, _⟩ => false
  | ⟨65, _⟩ => false
  | ⟨66, _⟩ => false
  | ⟨67, _⟩ => false
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | _ => false

abbrev sig : RefSig :=
  ofTables nBuf rfl bufTy 4 92 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v0_scv : Ref sig .scVector := ⟨.hbm, 6, rfl⟩
abbrev main_arg0_scv : Ref sig .scVector := ⟨.hbm, 0, rfl⟩
abbrev main_v3_scv : Ref sig .scVector := ⟨.hbm, 9, rfl⟩
abbrev main_v4_scv : Ref sig .scVector := ⟨.hbm, 10, rfl⟩
abbrev main_v5_scv : Ref sig .scVector := ⟨.hbm, 11, rfl⟩
abbrev main_v6_scv : Ref sig .scVector := ⟨.hbm, 12, rfl⟩
abbrev cc4_stg0_0 : Ref sig .tc := ⟨.vmem, 0, rfl⟩
abbrev cc4_stg0_1 : Ref sig .tc := ⟨.vmem, 1, rfl⟩
abbrev cc4_stg1_0 : Ref sig .tc := ⟨.vmem, 2, rfl⟩
abbrev cc4_stg2_0 : Ref sig .tc := ⟨.vmem, 3, rfl⟩
abbrev cc4_stg3_0 : Ref sig .tc := ⟨.vmem, 4, rfl⟩
abbrev cc4_stg3_1 : Ref sig .tc := ⟨.vmem, 5, rfl⟩
abbrev cc5_stg0_0 : Ref sig .tc := ⟨.vmem, 6, rfl⟩
abbrev cc5_stg0_1 : Ref sig .tc := ⟨.vmem, 7, rfl⟩
abbrev cc5_stg1_0 : Ref sig .tc := ⟨.vmem, 8, rfl⟩
abbrev cc5_stg2_0 : Ref sig .tc := ⟨.vmem, 9, rfl⟩
abbrev cc5_stg3_0 : Ref sig .tc := ⟨.vmem, 10, rfl⟩
abbrev cc5_stg3_1 : Ref sig .tc := ⟨.vmem, 11, rfl⟩
abbrev cc6_stg0_0 : Ref sig .tc := ⟨.vmem, 12, rfl⟩
abbrev cc6_stg0_1 : Ref sig .tc := ⟨.vmem, 13, rfl⟩
abbrev cc6_stg1_0 : Ref sig .tc := ⟨.vmem, 14, rfl⟩
abbrev cc6_stg2_0 : Ref sig .tc := ⟨.vmem, 15, rfl⟩
abbrev cc6_stg3_0 : Ref sig .tc := ⟨.vmem, 16, rfl⟩
abbrev cc6_stg3_1 : Ref sig .tc := ⟨.vmem, 17, rfl⟩
abbrev cc7_stg0_0 : Ref sig .tc := ⟨.vmem, 18, rfl⟩
abbrev cc7_stg0_1 : Ref sig .tc := ⟨.vmem, 19, rfl⟩
abbrev cc7_stg1_0 : Ref sig .tc := ⟨.vmem, 20, rfl⟩
abbrev cc7_stg2_0 : Ref sig .tc := ⟨.vmem, 21, rfl⟩
abbrev cc7_stg3_0 : Ref sig .tc := ⟨.vmem, 22, rfl⟩
abbrev cc7_stg3_1 : Ref sig .tc := ⟨.vmem, 23, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc1_scratch0 : Ref sig .scVector := ⟨.vmem, 3, rfl⟩
abbrev cc1_scratch1 : Ref sig .scVector := ⟨.vmem, 4, rfl⟩
abbrev cc1_scratch2 : Ref sig .scVector := ⟨.vmem, 5, rfl⟩
abbrev cc2_scratch0 : Ref sig .scVector := ⟨.vmem, 6, rfl⟩
abbrev cc2_scratch1 : Ref sig .scVector := ⟨.vmem, 7, rfl⟩
abbrev cc2_scratch2 : Ref sig .scVector := ⟨.vmem, 8, rfl⟩
abbrev cc3_scratch0 : Ref sig .scVector := ⟨.vmem, 9, rfl⟩
abbrev cc3_scratch1 : Ref sig .scVector := ⟨.vmem, 10, rfl⟩
abbrev cc3_scratch2 : Ref sig .scVector := ⟨.vmem, 11, rfl⟩
abbrev cc4_sem0_0 : DmaSem sig := 68
abbrev cc4_sem0_1 : DmaSem sig := 69
abbrev cc4_sem1_0 : DmaSem sig := 70
abbrev cc4_sem2_0 : DmaSem sig := 71
abbrev cc4_sem3_0 : DmaSem sig := 72
abbrev cc4_sem3_1 : DmaSem sig := 73
abbrev cc5_sem0_0 : DmaSem sig := 74
abbrev cc5_sem0_1 : DmaSem sig := 75
abbrev cc5_sem1_0 : DmaSem sig := 76
abbrev cc5_sem2_0 : DmaSem sig := 77
abbrev cc5_sem3_0 : DmaSem sig := 78
abbrev cc5_sem3_1 : DmaSem sig := 79
abbrev cc6_sem0_0 : DmaSem sig := 80
abbrev cc6_sem0_1 : DmaSem sig := 81
abbrev cc6_sem1_0 : DmaSem sig := 82
abbrev cc6_sem2_0 : DmaSem sig := 83
abbrev cc6_sem3_0 : DmaSem sig := 84
abbrev cc6_sem3_1 : DmaSem sig := 85
abbrev cc7_sem0_0 : DmaSem sig := 86
abbrev cc7_sem0_1 : DmaSem sig := 87
abbrev cc7_sem1_0 : DmaSem sig := 88
abbrev cc7_sem2_0 : DmaSem sig := 89
abbrev cc7_sem3_0 : DmaSem sig := 90
abbrev cc7_sem3_1 : DmaSem sig := 91
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c0_i32 v2
  let c0_i32_301_r0 : BitVec 32 := 0#32
  ![v3.toNat, 0]
@[reducible] def k0_t1_loop : Scf.Loop 32 :=
  let c0_i32_51 : BitVec 32 := 0#32
  let c15_i32 : BitVec 32 := 15#32
  let v44 : BitVec 32 := Scalar.addi c0_i32_51 c15_i32
  let c1_i32_52 : BitVec 32 := 1#32
  ⟨c0_i32_51, v44, c1_i32_52⟩
def k0_off2 (k0_t1 : Fin k0_t1_loop.trips) (c0_i32_301 : BitVec 32) : Fin 2 → Nat :=
  let c0_i32_51 : BitVec 32 := 0#32
  let c1_i32_52 : BitVec 32 := 1#32
  let arg24 : BitVec 32 := Scf.iv c0_i32_51 c1_i32_52 k0_t1
  let c8_i32 : BitVec 32 := 8#32
  let v237 : BitVec 32 := Scalar.muli arg24 c8_i32
  let v238 : BitVec 32 := Scalar.addi v237 c0_i32_301
  let c0_i32_305 : BitVec 32 := 0#32
  ![v238.toNat, 0]
@[reducible] def k0_t2_loop : Scf.Loop 32 :=
  let c0_i32_309 : BitVec 32 := 0#32
  let c50_i32_310 : BitVec 32 := 50#32
  let v244 : BitVec 32 := Scalar.addi c0_i32_309 c50_i32_310
  let c1_i32_311 : BitVec 32 := 1#32
  ⟨c0_i32_309, v244, c1_i32_311⟩
def k0_off3 (k0_t2 : Fin k0_t2_loop.trips) : Fin 3 → Nat :=
  let c0_i32_620 : BitVec 32 := 0#32
  let v509 : Index := Scalar.indexCast c0_i32_620
  let c0_i32_309 : BitVec 32 := 0#32
  let c1_i32_311 : BitVec 32 := 1#32
  let arg25 : BitVec 32 := Scf.iv c0_i32_309 c1_i32_311 k0_t2
  let v510 : Index := Scalar.indexCast arg25
  let c0 : Index := 0#32
  ![0, v510.toNat, 0]
def k0_off4 (k0_t2 : Fin k0_t2_loop.trips) : Fin 3 → Nat :=
  let c0_i32_621 : BitVec 32 := 0#32
  let v513 : Index := Scalar.indexCast c0_i32_621
  let c0_i32_309 : BitVec 32 := 0#32
  let c1_i32_311 : BitVec 32 := 1#32
  let arg25 : BitVec 32 := Scf.iv c0_i32_309 c1_i32_311 k0_t2
  let v514 : Index := Scalar.indexCast arg25
  let c0_622 : Index := 0#32
  ![0, v514.toNat, 0]
def k0_off5 (k0_t2 : Fin k0_t2_loop.trips) : Fin 3 → Nat :=
  let c0_i32_623 : BitVec 32 := 0#32
  let v518 : Index := Scalar.indexCast c0_i32_623
  let c0_i32_309 : BitVec 32 := 0#32
  let c1_i32_311 : BitVec 32 := 1#32
  let arg25 : BitVec 32 := Scf.iv c0_i32_309 c1_i32_311 k0_t2
  let v519 : Index := Scalar.indexCast arg25
  let c16 : Index := 16#32
  ![0, v519.toNat, 16]
def k0_off6 (k0_t2 : Fin k0_t2_loop.trips) : Fin 3 → Nat :=
  let c0_i32_624 : BitVec 32 := 0#32
  let v522 : Index := Scalar.indexCast c0_i32_624
  let c0_i32_309 : BitVec 32 := 0#32
  let c1_i32_311 : BitVec 32 := 1#32
  let arg25 : BitVec 32 := Scf.iv c0_i32_309 c1_i32_311 k0_t2
  let v523 : Index := Scalar.indexCast arg25
  let c16_625 : Index := 16#32
  ![0, v523.toNat, 16]
def k0_off7 (k0_t2 : Fin k0_t2_loop.trips) : Fin 3 → Nat :=
  let c0_i32_626 : BitVec 32 := 0#32
  let v527 : Index := Scalar.indexCast c0_i32_626
  let c0_i32_309 : BitVec 32 := 0#32
  let c1_i32_311 : BitVec 32 := 1#32
  let arg25 : BitVec 32 := Scf.iv c0_i32_309 c1_i32_311 k0_t2
  let v528 : Index := Scalar.indexCast arg25
  let c32 : Index := 32#32
  ![0, v528.toNat, 32]
def k0_off8 (k0_t2 : Fin k0_t2_loop.trips) : Fin 3 → Nat :=
  let c0_i32_627 : BitVec 32 := 0#32
  let v531 : Index := Scalar.indexCast c0_i32_627
  let c0_i32_309 : BitVec 32 := 0#32
  let c1_i32_311 : BitVec 32 := 1#32
  let arg25 : BitVec 32 := Scf.iv c0_i32_309 c1_i32_311 k0_t2
  let v532 : Index := Scalar.indexCast arg25
  let c32_628 : Index := 32#32
  ![0, v532.toNat, 32]
def k0_off9 (k0_t2 : Fin k0_t2_loop.trips) : Fin 3 → Nat :=
  let c0_i32_629 : BitVec 32 := 0#32
  let v536 : Index := Scalar.indexCast c0_i32_629
  let c0_i32_309 : BitVec 32 := 0#32
  let c1_i32_311 : BitVec 32 := 1#32
  let arg25 : BitVec 32 := Scf.iv c0_i32_309 c1_i32_311 k0_t2
  let v537 : Index := Scalar.indexCast arg25
  let c48 : Index := 48#32
  ![0, v537.toNat, 48]
def k0_off10 (k0_t2 : Fin k0_t2_loop.trips) : Fin 3 → Nat :=
  let c0_i32_630 : BitVec 32 := 0#32
  let v540 : Index := Scalar.indexCast c0_i32_630
  let c0_i32_309 : BitVec 32 := 0#32
  let c1_i32_311 : BitVec 32 := 1#32
  let arg25 : BitVec 32 := Scf.iv c0_i32_309 c1_i32_311 k0_t2
  let v541 : Index := Scalar.indexCast arg25
  let c48_631 : Index := 48#32
  ![0, v541.toNat, 48]
def k0_off11 (i : grid0.Coords) (k0_t1 : Fin k0_t1_loop.trips) (c0_i32_301 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_51 : BitVec 32 := 0#32
  let c1_i32_52 : BitVec 32 := 1#32
  let arg24 : BitVec 32 := Scf.iv c0_i32_51 c1_i32_52 k0_t1
  let c8_i32 : BitVec 32 := 8#32
  let v237 : BitVec 32 := Scalar.muli arg24 c8_i32
  let v238 : BitVec 32 := Scalar.addi v237 c0_i32_301
  let v245 : BitVec 32 := Scalar.addi v2 v238
  let c0_i32_316 : BitVec 32 := 0#32
  let c0_i32_317 : BitVec 32 := 0#32
  ![v245.toNat, 0, 0]
@[reducible] def k0_t3_loop : Scf.Loop 32 :=
  let c0_i32_331 : BitVec 32 := 0#32
  let c50_i32_332 : BitVec 32 := 50#32
  let v261 : BitVec 32 := Scalar.addi c0_i32_331 c50_i32_332
  let c1_i32_333 : BitVec 32 := 1#32
  ⟨c0_i32_331, v261, c1_i32_333⟩
def k0_off12 (k0_t3 : Fin k0_t3_loop.trips) : Fin 3 → Nat :=
  let c1_i32_620 : BitVec 32 := 1#32
  let v509 : Index := Scalar.indexCast c1_i32_620
  let c0_i32_331 : BitVec 32 := 0#32
  let c1_i32_333 : BitVec 32 := 1#32
  let arg25 : BitVec 32 := Scf.iv c0_i32_331 c1_i32_333 k0_t3
  let v510 : Index := Scalar.indexCast arg25
  let c0 : Index := 0#32
  ![1, v510.toNat, 0]
def k0_off13 (k0_t3 : Fin k0_t3_loop.trips) : Fin 3 → Nat :=
  let c1_i32_621 : BitVec 32 := 1#32
  let v513 : Index := Scalar.indexCast c1_i32_621
  let c0_i32_331 : BitVec 32 := 0#32
  let c1_i32_333 : BitVec 32 := 1#32
  let arg25 : BitVec 32 := Scf.iv c0_i32_331 c1_i32_333 k0_t3
  let v514 : Index := Scalar.indexCast arg25
  let c0_622 : Index := 0#32
  ![1, v514.toNat, 0]
def k0_off14 (k0_t3 : Fin k0_t3_loop.trips) : Fin 3 → Nat :=
  let c1_i32_623 : BitVec 32 := 1#32
  let v518 : Index := Scalar.indexCast c1_i32_623
  let c0_i32_331 : BitVec 32 := 0#32
  let c1_i32_333 : BitVec 32 := 1#32
  let arg25 : BitVec 32 := Scf.iv c0_i32_331 c1_i32_333 k0_t3
  let v519 : Index := Scalar.indexCast arg25
  let c16 : Index := 16#32
  ![1, v519.toNat, 16]
def k0_off15 (k0_t3 : Fin k0_t3_loop.trips) : Fin 3 → Nat :=
  let c1_i32_624 : BitVec 32 := 1#32
  let v522 : Index := Scalar.indexCast c1_i32_624
  let c0_i32_331 : BitVec 32 := 0#32
  let c1_i32_333 : BitVec 32 := 1#32
  let arg25 : BitVec 32 := Scf.iv c0_i32_331 c1_i32_333 k0_t3
  let v523 : Index := Scalar.indexCast arg25
  let c16_625 : Index := 16#32
  ![1, v523.toNat, 16]
def k0_off16 (k0_t3 : Fin k0_t3_loop.trips) : Fin 3 → Nat :=
  let c1_i32_626 : BitVec 32 := 1#32
  let v527 : Index := Scalar.indexCast c1_i32_626
  let c0_i32_331 : BitVec 32 := 0#32
  let c1_i32_333 : BitVec 32 := 1#32
  let arg25 : BitVec 32 := Scf.iv c0_i32_331 c1_i32_333 k0_t3
  let v528 : Index := Scalar.indexCast arg25
  let c32 : Index := 32#32
  ![1, v528.toNat, 32]
def k0_off17 (k0_t3 : Fin k0_t3_loop.trips) : Fin 3 → Nat :=
  let c1_i32_627 : BitVec 32 := 1#32
  let v531 : Index := Scalar.indexCast c1_i32_627
  let c0_i32_331 : BitVec 32 := 0#32
  let c1_i32_333 : BitVec 32 := 1#32
  let arg25 : BitVec 32 := Scf.iv c0_i32_331 c1_i32_333 k0_t3
  let v532 : Index := Scalar.indexCast arg25
  let c32_628 : Index := 32#32
  ![1, v532.toNat, 32]
def k0_off18 (k0_t3 : Fin k0_t3_loop.trips) : Fin 3 → Nat :=
  let c1_i32_629 : BitVec 32 := 1#32
  let v536 : Index := Scalar.indexCast c1_i32_629
  let c0_i32_331 : BitVec 32 := 0#32
  let c1_i32_333 : BitVec 32 := 1#32
  let arg25 : BitVec 32 := Scf.iv c0_i32_331 c1_i32_333 k0_t3
  let v537 : Index := Scalar.indexCast arg25
  let c48 : Index := 48#32
  ![1, v537.toNat, 48]
def k0_off19 (k0_t3 : Fin k0_t3_loop.trips) : Fin 3 → Nat :=
  let c1_i32_630 : BitVec 32 := 1#32
  let v540 : Index := Scalar.indexCast c1_i32_630
  let c0_i32_331 : BitVec 32 := 0#32
  let c1_i32_333 : BitVec 32 := 1#32
  let arg25 : BitVec 32 := Scf.iv c0_i32_331 c1_i32_333 k0_t3
  let v541 : Index := Scalar.indexCast arg25
  let c48_631 : Index := 48#32
  ![1, v541.toNat, 48]
@[reducible] def k0_t4_loop : Scf.Loop 32 :=
  let c0_i32_353 : BitVec 32 := 0#32
  let c50_i32_354 : BitVec 32 := 50#32
  let v278 : BitVec 32 := Scalar.addi c0_i32_353 c50_i32_354
  let c1_i32_355 : BitVec 32 := 1#32
  ⟨c0_i32_353, v278, c1_i32_355⟩
def k0_off20 (k0_t4 : Fin k0_t4_loop.trips) : Fin 3 → Nat :=
  let c2_i32_620 : BitVec 32 := 2#32
  let v509 : Index := Scalar.indexCast c2_i32_620
  let c0_i32_353 : BitVec 32 := 0#32
  let c1_i32_355 : BitVec 32 := 1#32
  let arg25 : BitVec 32 := Scf.iv c0_i32_353 c1_i32_355 k0_t4
  let v510 : Index := Scalar.indexCast arg25
  let c0 : Index := 0#32
  ![2, v510.toNat, 0]
def k0_off21 (k0_t4 : Fin k0_t4_loop.trips) : Fin 3 → Nat :=
  let c2_i32_621 : BitVec 32 := 2#32
  let v513 : Index := Scalar.indexCast c2_i32_621
  let c0_i32_353 : BitVec 32 := 0#32
  let c1_i32_355 : BitVec 32 := 1#32
  let arg25 : BitVec 32 := Scf.iv c0_i32_353 c1_i32_355 k0_t4
  let v514 : Index := Scalar.indexCast arg25
  let c0_622 : Index := 0#32
  ![2, v514.toNat, 0]
def k0_off22 (k0_t4 : Fin k0_t4_loop.trips) : Fin 3 → Nat :=
  let c2_i32_623 : BitVec 32 := 2#32
  let v518 : Index := Scalar.indexCast c2_i32_623
  let c0_i32_353 : BitVec 32 := 0#32
  let c1_i32_355 : BitVec 32 := 1#32
  let arg25 : BitVec 32 := Scf.iv c0_i32_353 c1_i32_355 k0_t4
  let v519 : Index := Scalar.indexCast arg25
  let c16 : Index := 16#32
  ![2, v519.toNat, 16]
def k0_off23 (k0_t4 : Fin k0_t4_loop.trips) : Fin 3 → Nat :=
  let c2_i32_624 : BitVec 32 := 2#32
  let v522 : Index := Scalar.indexCast c2_i32_624
  let c0_i32_353 : BitVec 32 := 0#32
  let c1_i32_355 : BitVec 32 := 1#32
  let arg25 : BitVec 32 := Scf.iv c0_i32_353 c1_i32_355 k0_t4
  let v523 : Index := Scalar.indexCast arg25
  let c16_625 : Index := 16#32
  ![2, v523.toNat, 16]
def k0_off24 (k0_t4 : Fin k0_t4_loop.trips) : Fin 3 → Nat :=
  let c2_i32_626 : BitVec 32 := 2#32
  let v527 : Index := Scalar.indexCast c2_i32_626
  let c0_i32_353 : BitVec 32 := 0#32
  let c1_i32_355 : BitVec 32 := 1#32
  let arg25 : BitVec 32 := Scf.iv c0_i32_353 c1_i32_355 k0_t4
  let v528 : Index := Scalar.indexCast arg25
  let c32 : Index := 32#32
  ![2, v528.toNat, 32]
def k0_off25 (k0_t4 : Fin k0_t4_loop.trips) : Fin 3 → Nat :=
  let c2_i32_627 : BitVec 32 := 2#32
  let v531 : Index := Scalar.indexCast c2_i32_627
  let c0_i32_353 : BitVec 32 := 0#32
  let c1_i32_355 : BitVec 32 := 1#32
  let arg25 : BitVec 32 := Scf.iv c0_i32_353 c1_i32_355 k0_t4
  let v532 : Index := Scalar.indexCast arg25
  let c32_628 : Index := 32#32
  ![2, v532.toNat, 32]
def k0_off26 (k0_t4 : Fin k0_t4_loop.trips) : Fin 3 → Nat :=
  let c2_i32_629 : BitVec 32 := 2#32
  let v536 : Index := Scalar.indexCast c2_i32_629
  let c0_i32_353 : BitVec 32 := 0#32
  let c1_i32_355 : BitVec 32 := 1#32
  let arg25 : BitVec 32 := Scf.iv c0_i32_353 c1_i32_355 k0_t4
  let v537 : Index := Scalar.indexCast arg25
  let c48 : Index := 48#32
  ![2, v537.toNat, 48]
def k0_off27 (k0_t4 : Fin k0_t4_loop.trips) : Fin 3 → Nat :=
  let c2_i32_630 : BitVec 32 := 2#32
  let v540 : Index := Scalar.indexCast c2_i32_630
  let c0_i32_353 : BitVec 32 := 0#32
  let c1_i32_355 : BitVec 32 := 1#32
  let arg25 : BitVec 32 := Scf.iv c0_i32_353 c1_i32_355 k0_t4
  let v541 : Index := Scalar.indexCast arg25
  let c48_631 : Index := 48#32
  ![2, v541.toNat, 48]
@[reducible] def k0_t5_loop : Scf.Loop 32 :=
  let c0_i32_375 : BitVec 32 := 0#32
  let c50_i32_376 : BitVec 32 := 50#32
  let v295 : BitVec 32 := Scalar.addi c0_i32_375 c50_i32_376
  let c1_i32_377 : BitVec 32 := 1#32
  ⟨c0_i32_375, v295, c1_i32_377⟩
def k0_off28 (k0_t5 : Fin k0_t5_loop.trips) : Fin 3 → Nat :=
  let c3_i32_620 : BitVec 32 := 3#32
  let v509 : Index := Scalar.indexCast c3_i32_620
  let c0_i32_375 : BitVec 32 := 0#32
  let c1_i32_377 : BitVec 32 := 1#32
  let arg25 : BitVec 32 := Scf.iv c0_i32_375 c1_i32_377 k0_t5
  let v510 : Index := Scalar.indexCast arg25
  let c0 : Index := 0#32
  ![3, v510.toNat, 0]
def k0_off29 (k0_t5 : Fin k0_t5_loop.trips) : Fin 3 → Nat :=
  let c3_i32_621 : BitVec 32 := 3#32
  let v513 : Index := Scalar.indexCast c3_i32_621
  let c0_i32_375 : BitVec 32 := 0#32
  let c1_i32_377 : BitVec 32 := 1#32
  let arg25 : BitVec 32 := Scf.iv c0_i32_375 c1_i32_377 k0_t5
  let v514 : Index := Scalar.indexCast arg25
  let c0_622 : Index := 0#32
  ![3, v514.toNat, 0]
def k0_off30 (k0_t5 : Fin k0_t5_loop.trips) : Fin 3 → Nat :=
  let c3_i32_623 : BitVec 32 := 3#32
  let v518 : Index := Scalar.indexCast c3_i32_623
  let c0_i32_375 : BitVec 32 := 0#32
  let c1_i32_377 : BitVec 32 := 1#32
  let arg25 : BitVec 32 := Scf.iv c0_i32_375 c1_i32_377 k0_t5
  let v519 : Index := Scalar.indexCast arg25
  let c16 : Index := 16#32
  ![3, v519.toNat, 16]
def k0_off31 (k0_t5 : Fin k0_t5_loop.trips) : Fin 3 → Nat :=
  let c3_i32_624 : BitVec 32 := 3#32
  let v522 : Index := Scalar.indexCast c3_i32_624
  let c0_i32_375 : BitVec 32 := 0#32
  let c1_i32_377 : BitVec 32 := 1#32
  let arg25 : BitVec 32 := Scf.iv c0_i32_375 c1_i32_377 k0_t5
  let v523 : Index := Scalar.indexCast arg25
  let c16_625 : Index := 16#32
  ![3, v523.toNat, 16]
def k0_off32 (k0_t5 : Fin k0_t5_loop.trips) : Fin 3 → Nat :=
  let c3_i32_626 : BitVec 32 := 3#32
  let v527 : Index := Scalar.indexCast c3_i32_626
  let c0_i32_375 : BitVec 32 := 0#32
  let c1_i32_377 : BitVec 32 := 1#32
  let arg25 : BitVec 32 := Scf.iv c0_i32_375 c1_i32_377 k0_t5
  let v528 : Index := Scalar.indexCast arg25
  let c32 : Index := 32#32
  ![3, v528.toNat, 32]
def k0_off33 (k0_t5 : Fin k0_t5_loop.trips) : Fin 3 → Nat :=
  let c3_i32_627 : BitVec 32 := 3#32
  let v531 : Index := Scalar.indexCast c3_i32_627
  let c0_i32_375 : BitVec 32 := 0#32
  let c1_i32_377 : BitVec 32 := 1#32
  let arg25 : BitVec 32 := Scf.iv c0_i32_375 c1_i32_377 k0_t5
  let v532 : Index := Scalar.indexCast arg25
  let c32_628 : Index := 32#32
  ![3, v532.toNat, 32]
def k0_off34 (k0_t5 : Fin k0_t5_loop.trips) : Fin 3 → Nat :=
  let c3_i32_629 : BitVec 32 := 3#32
  let v536 : Index := Scalar.indexCast c3_i32_629
  let c0_i32_375 : BitVec 32 := 0#32
  let c1_i32_377 : BitVec 32 := 1#32
  let arg25 : BitVec 32 := Scf.iv c0_i32_375 c1_i32_377 k0_t5
  let v537 : Index := Scalar.indexCast arg25
  let c48 : Index := 48#32
  ![3, v537.toNat, 48]
def k0_off35 (k0_t5 : Fin k0_t5_loop.trips) : Fin 3 → Nat :=
  let c3_i32_630 : BitVec 32 := 3#32
  let v540 : Index := Scalar.indexCast c3_i32_630
  let c0_i32_375 : BitVec 32 := 0#32
  let c1_i32_377 : BitVec 32 := 1#32
  let arg25 : BitVec 32 := Scf.iv c0_i32_375 c1_i32_377 k0_t5
  let v541 : Index := Scalar.indexCast arg25
  let c48_631 : Index := 48#32
  ![3, v541.toNat, 48]
@[reducible] def k0_t6_loop : Scf.Loop 32 :=
  let c0_i32_397 : BitVec 32 := 0#32
  let c50_i32_398 : BitVec 32 := 50#32
  let v312 : BitVec 32 := Scalar.addi c0_i32_397 c50_i32_398
  let c1_i32_399 : BitVec 32 := 1#32
  ⟨c0_i32_397, v312, c1_i32_399⟩
def k0_off36 (k0_t6 : Fin k0_t6_loop.trips) : Fin 3 → Nat :=
  let c4_i32_620 : BitVec 32 := 4#32
  let v509 : Index := Scalar.indexCast c4_i32_620
  let c0_i32_397 : BitVec 32 := 0#32
  let c1_i32_399 : BitVec 32 := 1#32
  let arg25 : BitVec 32 := Scf.iv c0_i32_397 c1_i32_399 k0_t6
  let v510 : Index := Scalar.indexCast arg25
  let c0 : Index := 0#32
  ![4, v510.toNat, 0]
def k0_off37 (k0_t6 : Fin k0_t6_loop.trips) : Fin 3 → Nat :=
  let c4_i32_621 : BitVec 32 := 4#32
  let v513 : Index := Scalar.indexCast c4_i32_621
  let c0_i32_397 : BitVec 32 := 0#32
  let c1_i32_399 : BitVec 32 := 1#32
  let arg25 : BitVec 32 := Scf.iv c0_i32_397 c1_i32_399 k0_t6
  let v514 : Index := Scalar.indexCast arg25
  let c0_622 : Index := 0#32
  ![4, v514.toNat, 0]
def k0_off38 (k0_t6 : Fin k0_t6_loop.trips) : Fin 3 → Nat :=
  let c4_i32_623 : BitVec 32 := 4#32
  let v518 : Index := Scalar.indexCast c4_i32_623
  let c0_i32_397 : BitVec 32 := 0#32
  let c1_i32_399 : BitVec 32 := 1#32
  let arg25 : BitVec 32 := Scf.iv c0_i32_397 c1_i32_399 k0_t6
  let v519 : Index := Scalar.indexCast arg25
  let c16 : Index := 16#32
  ![4, v519.toNat, 16]
def k0_off39 (k0_t6 : Fin k0_t6_loop.trips) : Fin 3 → Nat :=
  let c4_i32_624 : BitVec 32 := 4#32
  let v522 : Index := Scalar.indexCast c4_i32_624
  let c0_i32_397 : BitVec 32 := 0#32
  let c1_i32_399 : BitVec 32 := 1#32
  let arg25 : BitVec 32 := Scf.iv c0_i32_397 c1_i32_399 k0_t6
  let v523 : Index := Scalar.indexCast arg25
  let c16_625 : Index := 16#32
  ![4, v523.toNat, 16]
def k0_off40 (k0_t6 : Fin k0_t6_loop.trips) : Fin 3 → Nat :=
  let c4_i32_626 : BitVec 32 := 4#32
  let v527 : Index := Scalar.indexCast c4_i32_626
  let c0_i32_397 : BitVec 32 := 0#32
  let c1_i32_399 : BitVec 32 := 1#32
  let arg25 : BitVec 32 := Scf.iv c0_i32_397 c1_i32_399 k0_t6
  let v528 : Index := Scalar.indexCast arg25
  let c32 : Index := 32#32
  ![4, v528.toNat, 32]
def k0_off41 (k0_t6 : Fin k0_t6_loop.trips) : Fin 3 → Nat :=
  let c4_i32_627 : BitVec 32 := 4#32
  let v531 : Index := Scalar.indexCast c4_i32_627
  let c0_i32_397 : BitVec 32 := 0#32
  let c1_i32_399 : BitVec 32 := 1#32
  let arg25 : BitVec 32 := Scf.iv c0_i32_397 c1_i32_399 k0_t6
  let v532 : Index := Scalar.indexCast arg25
  let c32_628 : Index := 32#32
  ![4, v532.toNat, 32]
def k0_off42 (k0_t6 : Fin k0_t6_loop.trips) : Fin 3 → Nat :=
  let c4_i32_629 : BitVec 32 := 4#32
  let v536 : Index := Scalar.indexCast c4_i32_629
  let c0_i32_397 : BitVec 32 := 0#32
  let c1_i32_399 : BitVec 32 := 1#32
  let arg25 : BitVec 32 := Scf.iv c0_i32_397 c1_i32_399 k0_t6
  let v537 : Index := Scalar.indexCast arg25
  let c48 : Index := 48#32
  ![4, v537.toNat, 48]
def k0_off43 (k0_t6 : Fin k0_t6_loop.trips) : Fin 3 → Nat :=
  let c4_i32_630 : BitVec 32 := 4#32
  let v540 : Index := Scalar.indexCast c4_i32_630
  let c0_i32_397 : BitVec 32 := 0#32
  let c1_i32_399 : BitVec 32 := 1#32
  let arg25 : BitVec 32 := Scf.iv c0_i32_397 c1_i32_399 k0_t6
  let v541 : Index := Scalar.indexCast arg25
  let c48_631 : Index := 48#32
  ![4, v541.toNat, 48]
@[reducible] def k0_t7_loop : Scf.Loop 32 :=
  let c0_i32_419 : BitVec 32 := 0#32
  let c50_i32_420 : BitVec 32 := 50#32
  let v329 : BitVec 32 := Scalar.addi c0_i32_419 c50_i32_420
  let c1_i32_421 : BitVec 32 := 1#32
  ⟨c0_i32_419, v329, c1_i32_421⟩
def k0_off44 (k0_t7 : Fin k0_t7_loop.trips) : Fin 3 → Nat :=
  let c5_i32_620 : BitVec 32 := 5#32
  let v509 : Index := Scalar.indexCast c5_i32_620
  let c0_i32_419 : BitVec 32 := 0#32
  let c1_i32_421 : BitVec 32 := 1#32
  let arg25 : BitVec 32 := Scf.iv c0_i32_419 c1_i32_421 k0_t7
  let v510 : Index := Scalar.indexCast arg25
  let c0 : Index := 0#32
  ![5, v510.toNat, 0]
def k0_off45 (k0_t7 : Fin k0_t7_loop.trips) : Fin 3 → Nat :=
  let c5_i32_621 : BitVec 32 := 5#32
  let v513 : Index := Scalar.indexCast c5_i32_621
  let c0_i32_419 : BitVec 32 := 0#32
  let c1_i32_421 : BitVec 32 := 1#32
  let arg25 : BitVec 32 := Scf.iv c0_i32_419 c1_i32_421 k0_t7
  let v514 : Index := Scalar.indexCast arg25
  let c0_622 : Index := 0#32
  ![5, v514.toNat, 0]
def k0_off46 (k0_t7 : Fin k0_t7_loop.trips) : Fin 3 → Nat :=
  let c5_i32_623 : BitVec 32 := 5#32
  let v518 : Index := Scalar.indexCast c5_i32_623
  let c0_i32_419 : BitVec 32 := 0#32
  let c1_i32_421 : BitVec 32 := 1#32
  let arg25 : BitVec 32 := Scf.iv c0_i32_419 c1_i32_421 k0_t7
  let v519 : Index := Scalar.indexCast arg25
  let c16 : Index := 16#32
  ![5, v519.toNat, 16]
def k0_off47 (k0_t7 : Fin k0_t7_loop.trips) : Fin 3 → Nat :=
  let c5_i32_624 : BitVec 32 := 5#32
  let v522 : Index := Scalar.indexCast c5_i32_624
  let c0_i32_419 : BitVec 32 := 0#32
  let c1_i32_421 : BitVec 32 := 1#32
  let arg25 : BitVec 32 := Scf.iv c0_i32_419 c1_i32_421 k0_t7
  let v523 : Index := Scalar.indexCast arg25
  let c16_625 : Index := 16#32
  ![5, v523.toNat, 16]
def k0_off48 (k0_t7 : Fin k0_t7_loop.trips) : Fin 3 → Nat :=
  let c5_i32_626 : BitVec 32 := 5#32
  let v527 : Index := Scalar.indexCast c5_i32_626
  let c0_i32_419 : BitVec 32 := 0#32
  let c1_i32_421 : BitVec 32 := 1#32
  let arg25 : BitVec 32 := Scf.iv c0_i32_419 c1_i32_421 k0_t7
  let v528 : Index := Scalar.indexCast arg25
  let c32 : Index := 32#32
  ![5, v528.toNat, 32]
def k0_off49 (k0_t7 : Fin k0_t7_loop.trips) : Fin 3 → Nat :=
  let c5_i32_627 : BitVec 32 := 5#32
  let v531 : Index := Scalar.indexCast c5_i32_627
  let c0_i32_419 : BitVec 32 := 0#32
  let c1_i32_421 : BitVec 32 := 1#32
  let arg25 : BitVec 32 := Scf.iv c0_i32_419 c1_i32_421 k0_t7
  let v532 : Index := Scalar.indexCast arg25
  let c32_628 : Index := 32#32
  ![5, v532.toNat, 32]
def k0_off50 (k0_t7 : Fin k0_t7_loop.trips) : Fin 3 → Nat :=
  let c5_i32_629 : BitVec 32 := 5#32
  let v536 : Index := Scalar.indexCast c5_i32_629
  let c0_i32_419 : BitVec 32 := 0#32
  let c1_i32_421 : BitVec 32 := 1#32
  let arg25 : BitVec 32 := Scf.iv c0_i32_419 c1_i32_421 k0_t7
  let v537 : Index := Scalar.indexCast arg25
  let c48 : Index := 48#32
  ![5, v537.toNat, 48]
def k0_off51 (k0_t7 : Fin k0_t7_loop.trips) : Fin 3 → Nat :=
  let c5_i32_630 : BitVec 32 := 5#32
  let v540 : Index := Scalar.indexCast c5_i32_630
  let c0_i32_419 : BitVec 32 := 0#32
  let c1_i32_421 : BitVec 32 := 1#32
  let arg25 : BitVec 32 := Scf.iv c0_i32_419 c1_i32_421 k0_t7
  let v541 : Index := Scalar.indexCast arg25
  let c48_631 : Index := 48#32
  ![5, v541.toNat, 48]
@[reducible] def k0_t8_loop : Scf.Loop 32 :=
  let c0_i32_441 : BitVec 32 := 0#32
  let c50_i32_442 : BitVec 32 := 50#32
  let v346 : BitVec 32 := Scalar.addi c0_i32_441 c50_i32_442
  let c1_i32_443 : BitVec 32 := 1#32
  ⟨c0_i32_441, v346, c1_i32_443⟩
def k0_off52 (k0_t8 : Fin k0_t8_loop.trips) : Fin 3 → Nat :=
  let c6_i32_620 : BitVec 32 := 6#32
  let v509 : Index := Scalar.indexCast c6_i32_620
  let c0_i32_441 : BitVec 32 := 0#32
  let c1_i32_443 : BitVec 32 := 1#32
  let arg25 : BitVec 32 := Scf.iv c0_i32_441 c1_i32_443 k0_t8
  let v510 : Index := Scalar.indexCast arg25
  let c0 : Index := 0#32
  ![6, v510.toNat, 0]
def k0_off53 (k0_t8 : Fin k0_t8_loop.trips) : Fin 3 → Nat :=
  let c6_i32_621 : BitVec 32 := 6#32
  let v513 : Index := Scalar.indexCast c6_i32_621
  let c0_i32_441 : BitVec 32 := 0#32
  let c1_i32_443 : BitVec 32 := 1#32
  let arg25 : BitVec 32 := Scf.iv c0_i32_441 c1_i32_443 k0_t8
  let v514 : Index := Scalar.indexCast arg25
  let c0_622 : Index := 0#32
  ![6, v514.toNat, 0]
def k0_off54 (k0_t8 : Fin k0_t8_loop.trips) : Fin 3 → Nat :=
  let c6_i32_623 : BitVec 32 := 6#32
  let v518 : Index := Scalar.indexCast c6_i32_623
  let c0_i32_441 : BitVec 32 := 0#32
  let c1_i32_443 : BitVec 32 := 1#32
  let arg25 : BitVec 32 := Scf.iv c0_i32_441 c1_i32_443 k0_t8
  let v519 : Index := Scalar.indexCast arg25
  let c16 : Index := 16#32
  ![6, v519.toNat, 16]
def k0_off55 (k0_t8 : Fin k0_t8_loop.trips) : Fin 3 → Nat :=
  let c6_i32_624 : BitVec 32 := 6#32
  let v522 : Index := Scalar.indexCast c6_i32_624
  let c0_i32_441 : BitVec 32 := 0#32
  let c1_i32_443 : BitVec 32 := 1#32
  let arg25 : BitVec 32 := Scf.iv c0_i32_441 c1_i32_443 k0_t8
  let v523 : Index := Scalar.indexCast arg25
  let c16_625 : Index := 16#32
  ![6, v523.toNat, 16]
def k0_off56 (k0_t8 : Fin k0_t8_loop.trips) : Fin 3 → Nat :=
  let c6_i32_626 : BitVec 32 := 6#32
  let v527 : Index := Scalar.indexCast c6_i32_626
  let c0_i32_441 : BitVec 32 := 0#32
  let c1_i32_443 : BitVec 32 := 1#32
  let arg25 : BitVec 32 := Scf.iv c0_i32_441 c1_i32_443 k0_t8
  let v528 : Index := Scalar.indexCast arg25
  let c32 : Index := 32#32
  ![6, v528.toNat, 32]
def k0_off57 (k0_t8 : Fin k0_t8_loop.trips) : Fin 3 → Nat :=
  let c6_i32_627 : BitVec 32 := 6#32
  let v531 : Index := Scalar.indexCast c6_i32_627
  let c0_i32_441 : BitVec 32 := 0#32
  let c1_i32_443 : BitVec 32 := 1#32
  let arg25 : BitVec 32 := Scf.iv c0_i32_441 c1_i32_443 k0_t8
  let v532 : Index := Scalar.indexCast arg25
  let c32_628 : Index := 32#32
  ![6, v532.toNat, 32]
def k0_off58 (k0_t8 : Fin k0_t8_loop.trips) : Fin 3 → Nat :=
  let c6_i32_629 : BitVec 32 := 6#32
  let v536 : Index := Scalar.indexCast c6_i32_629
  let c0_i32_441 : BitVec 32 := 0#32
  let c1_i32_443 : BitVec 32 := 1#32
  let arg25 : BitVec 32 := Scf.iv c0_i32_441 c1_i32_443 k0_t8
  let v537 : Index := Scalar.indexCast arg25
  let c48 : Index := 48#32
  ![6, v537.toNat, 48]
def k0_off59 (k0_t8 : Fin k0_t8_loop.trips) : Fin 3 → Nat :=
  let c6_i32_630 : BitVec 32 := 6#32
  let v540 : Index := Scalar.indexCast c6_i32_630
  let c0_i32_441 : BitVec 32 := 0#32
  let c1_i32_443 : BitVec 32 := 1#32
  let arg25 : BitVec 32 := Scf.iv c0_i32_441 c1_i32_443 k0_t8
  let v541 : Index := Scalar.indexCast arg25
  let c48_631 : Index := 48#32
  ![6, v541.toNat, 48]
@[reducible] def k0_t9_loop : Scf.Loop 32 :=
  let c0_i32_463 : BitVec 32 := 0#32
  let c50_i32_464 : BitVec 32 := 50#32
  let v363 : BitVec 32 := Scalar.addi c0_i32_463 c50_i32_464
  let c1_i32_465 : BitVec 32 := 1#32
  ⟨c0_i32_463, v363, c1_i32_465⟩
def k0_off60 (k0_t9 : Fin k0_t9_loop.trips) : Fin 3 → Nat :=
  let c7_i32_620 : BitVec 32 := 7#32
  let v509 : Index := Scalar.indexCast c7_i32_620
  let c0_i32_463 : BitVec 32 := 0#32
  let c1_i32_465 : BitVec 32 := 1#32
  let arg25 : BitVec 32 := Scf.iv c0_i32_463 c1_i32_465 k0_t9
  let v510 : Index := Scalar.indexCast arg25
  let c0 : Index := 0#32
  ![7, v510.toNat, 0]
def k0_off61 (k0_t9 : Fin k0_t9_loop.trips) : Fin 3 → Nat :=
  let c7_i32_621 : BitVec 32 := 7#32
  let v513 : Index := Scalar.indexCast c7_i32_621
  let c0_i32_463 : BitVec 32 := 0#32
  let c1_i32_465 : BitVec 32 := 1#32
  let arg25 : BitVec 32 := Scf.iv c0_i32_463 c1_i32_465 k0_t9
  let v514 : Index := Scalar.indexCast arg25
  let c0_622 : Index := 0#32
  ![7, v514.toNat, 0]
def k0_off62 (k0_t9 : Fin k0_t9_loop.trips) : Fin 3 → Nat :=
  let c7_i32_623 : BitVec 32 := 7#32
  let v518 : Index := Scalar.indexCast c7_i32_623
  let c0_i32_463 : BitVec 32 := 0#32
  let c1_i32_465 : BitVec 32 := 1#32
  let arg25 : BitVec 32 := Scf.iv c0_i32_463 c1_i32_465 k0_t9
  let v519 : Index := Scalar.indexCast arg25
  let c16 : Index := 16#32
  ![7, v519.toNat, 16]
def k0_off63 (k0_t9 : Fin k0_t9_loop.trips) : Fin 3 → Nat :=
  let c7_i32_624 : BitVec 32 := 7#32
  let v522 : Index := Scalar.indexCast c7_i32_624
  let c0_i32_463 : BitVec 32 := 0#32
  let c1_i32_465 : BitVec 32 := 1#32
  let arg25 : BitVec 32 := Scf.iv c0_i32_463 c1_i32_465 k0_t9
  let v523 : Index := Scalar.indexCast arg25
  let c16_625 : Index := 16#32
  ![7, v523.toNat, 16]
def k0_off64 (k0_t9 : Fin k0_t9_loop.trips) : Fin 3 → Nat :=
  let c7_i32_626 : BitVec 32 := 7#32
  let v527 : Index := Scalar.indexCast c7_i32_626
  let c0_i32_463 : BitVec 32 := 0#32
  let c1_i32_465 : BitVec 32 := 1#32
  let arg25 : BitVec 32 := Scf.iv c0_i32_463 c1_i32_465 k0_t9
  let v528 : Index := Scalar.indexCast arg25
  let c32 : Index := 32#32
  ![7, v528.toNat, 32]
def k0_off65 (k0_t9 : Fin k0_t9_loop.trips) : Fin 3 → Nat :=
  let c7_i32_627 : BitVec 32 := 7#32
  let v531 : Index := Scalar.indexCast c7_i32_627
  let c0_i32_463 : BitVec 32 := 0#32
  let c1_i32_465 : BitVec 32 := 1#32
  let arg25 : BitVec 32 := Scf.iv c0_i32_463 c1_i32_465 k0_t9
  let v532 : Index := Scalar.indexCast arg25
  let c32_628 : Index := 32#32
  ![7, v532.toNat, 32]
def k0_off66 (k0_t9 : Fin k0_t9_loop.trips) : Fin 3 → Nat :=
  let c7_i32_629 : BitVec 32 := 7#32
  let v536 : Index := Scalar.indexCast c7_i32_629
  let c0_i32_463 : BitVec 32 := 0#32
  let c1_i32_465 : BitVec 32 := 1#32
  let arg25 : BitVec 32 := Scf.iv c0_i32_463 c1_i32_465 k0_t9
  let v537 : Index := Scalar.indexCast arg25
  let c48 : Index := 48#32
  ![7, v537.toNat, 48]
def k0_off67 (k0_t9 : Fin k0_t9_loop.trips) : Fin 3 → Nat :=
  let c7_i32_630 : BitVec 32 := 7#32
  let v540 : Index := Scalar.indexCast c7_i32_630
  let c0_i32_463 : BitVec 32 := 0#32
  let c1_i32_465 : BitVec 32 := 1#32
  let arg25 : BitVec 32 := Scf.iv c0_i32_463 c1_i32_465 k0_t9
  let v541 : Index := Scalar.indexCast arg25
  let c48_631 : Index := 48#32
  ![7, v541.toNat, 48]
def k0_off68 (k0_t1 : Fin k0_t1_loop.trips) (c0_i32_477 : BitVec 32) : Fin 2 → Nat :=
  let c0_i32_51 : BitVec 32 := 0#32
  let c1_i32_52 : BitVec 32 := 1#32
  let arg24 : BitVec 32 := Scf.iv c0_i32_51 c1_i32_52 k0_t1
  let c8_i32_476 : BitVec 32 := 8#32
  let v373 : BitVec 32 := Scalar.muli arg24 c8_i32_476
  let v374 : BitVec 32 := Scalar.addi v373 c0_i32_477
  let c8_i32_487 : BitVec 32 := 8#32
  let v384 : BitVec 32 := Scalar.addi v374 c8_i32_487
  let c0_i32_491 : BitVec 32 := 0#32
  ![v384.toNat, 0]
@[reducible] def k0_t10_loop : Scf.Loop 32 :=
  let c0_i32_61 : BitVec 32 := 0#32
  let c50_i32 : BitVec 32 := 50#32
  let v50 : BitVec 32 := Scalar.addi c0_i32_61 c50_i32
  let c1_i32_62 : BitVec 32 := 1#32
  ⟨c0_i32_61, v50, c1_i32_62⟩
def k0_off69 (k0_t10 : Fin k0_t10_loop.trips) : Fin 3 → Nat :=
  let c0_i32_301 : BitVec 32 := 0#32
  let v237 : Index := Scalar.indexCast c0_i32_301
  let c0_i32_61 : BitVec 32 := 0#32
  let c1_i32_62 : BitVec 32 := 1#32
  let arg24 : BitVec 32 := Scf.iv c0_i32_61 c1_i32_62 k0_t10
  let v238 : Index := Scalar.indexCast arg24
  let c0 : Index := 0#32
  ![0, v238.toNat, 0]
def k0_off70 (k0_t10 : Fin k0_t10_loop.trips) : Fin 3 → Nat :=
  let c0_i32_302 : BitVec 32 := 0#32
  let v241 : Index := Scalar.indexCast c0_i32_302
  let c0_i32_61 : BitVec 32 := 0#32
  let c1_i32_62 : BitVec 32 := 1#32
  let arg24 : BitVec 32 := Scf.iv c0_i32_61 c1_i32_62 k0_t10
  let v242 : Index := Scalar.indexCast arg24
  let c0_303 : Index := 0#32
  ![0, v242.toNat, 0]
def k0_off71 (k0_t10 : Fin k0_t10_loop.trips) : Fin 3 → Nat :=
  let c0_i32_304 : BitVec 32 := 0#32
  let v246 : Index := Scalar.indexCast c0_i32_304
  let c0_i32_61 : BitVec 32 := 0#32
  let c1_i32_62 : BitVec 32 := 1#32
  let arg24 : BitVec 32 := Scf.iv c0_i32_61 c1_i32_62 k0_t10
  let v247 : Index := Scalar.indexCast arg24
  let c16 : Index := 16#32
  ![0, v247.toNat, 16]
def k0_off72 (k0_t10 : Fin k0_t10_loop.trips) : Fin 3 → Nat :=
  let c0_i32_305 : BitVec 32 := 0#32
  let v250 : Index := Scalar.indexCast c0_i32_305
  let c0_i32_61 : BitVec 32 := 0#32
  let c1_i32_62 : BitVec 32 := 1#32
  let arg24 : BitVec 32 := Scf.iv c0_i32_61 c1_i32_62 k0_t10
  let v251 : Index := Scalar.indexCast arg24
  let c16_306 : Index := 16#32
  ![0, v251.toNat, 16]
def k0_off73 (k0_t10 : Fin k0_t10_loop.trips) : Fin 3 → Nat :=
  let c0_i32_307 : BitVec 32 := 0#32
  let v255 : Index := Scalar.indexCast c0_i32_307
  let c0_i32_61 : BitVec 32 := 0#32
  let c1_i32_62 : BitVec 32 := 1#32
  let arg24 : BitVec 32 := Scf.iv c0_i32_61 c1_i32_62 k0_t10
  let v256 : Index := Scalar.indexCast arg24
  let c32 : Index := 32#32
  ![0, v256.toNat, 32]
def k0_off74 (k0_t10 : Fin k0_t10_loop.trips) : Fin 3 → Nat :=
  let c0_i32_308 : BitVec 32 := 0#32
  let v259 : Index := Scalar.indexCast c0_i32_308
  let c0_i32_61 : BitVec 32 := 0#32
  let c1_i32_62 : BitVec 32 := 1#32
  let arg24 : BitVec 32 := Scf.iv c0_i32_61 c1_i32_62 k0_t10
  let v260 : Index := Scalar.indexCast arg24
  let c32_309 : Index := 32#32
  ![0, v260.toNat, 32]
def k0_off75 (k0_t10 : Fin k0_t10_loop.trips) : Fin 3 → Nat :=
  let c0_i32_310 : BitVec 32 := 0#32
  let v264 : Index := Scalar.indexCast c0_i32_310
  let c0_i32_61 : BitVec 32 := 0#32
  let c1_i32_62 : BitVec 32 := 1#32
  let arg24 : BitVec 32 := Scf.iv c0_i32_61 c1_i32_62 k0_t10
  let v265 : Index := Scalar.indexCast arg24
  let c48 : Index := 48#32
  ![0, v265.toNat, 48]
def k0_off76 (k0_t10 : Fin k0_t10_loop.trips) : Fin 3 → Nat :=
  let c0_i32_311 : BitVec 32 := 0#32
  let v268 : Index := Scalar.indexCast c0_i32_311
  let c0_i32_61 : BitVec 32 := 0#32
  let c1_i32_62 : BitVec 32 := 1#32
  let arg24 : BitVec 32 := Scf.iv c0_i32_61 c1_i32_62 k0_t10
  let v269 : Index := Scalar.indexCast arg24
  let c48_312 : Index := 48#32
  ![0, v269.toNat, 48]
def k0_off77 (i : grid0.Coords) (c120_i32_64 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v51 : BitVec 32 := Scalar.addi v2 c120_i32_64
  let c0_i32_68 : BitVec 32 := 0#32
  let c0_i32_69 : BitVec 32 := 0#32
  ![v51.toNat, 0, 0]
@[reducible] def k0_t11_loop : Scf.Loop 32 :=
  let c0_i32_81 : BitVec 32 := 0#32
  let c50_i32_82 : BitVec 32 := 50#32
  let v65 : BitVec 32 := Scalar.addi c0_i32_81 c50_i32_82
  let c1_i32_83 : BitVec 32 := 1#32
  ⟨c0_i32_81, v65, c1_i32_83⟩
def k0_off78 (k0_t11 : Fin k0_t11_loop.trips) : Fin 3 → Nat :=
  let c1_i32_301 : BitVec 32 := 1#32
  let v237 : Index := Scalar.indexCast c1_i32_301
  let c0_i32_81 : BitVec 32 := 0#32
  let c1_i32_83 : BitVec 32 := 1#32
  let arg24 : BitVec 32 := Scf.iv c0_i32_81 c1_i32_83 k0_t11
  let v238 : Index := Scalar.indexCast arg24
  let c0 : Index := 0#32
  ![1, v238.toNat, 0]
def k0_off79 (k0_t11 : Fin k0_t11_loop.trips) : Fin 3 → Nat :=
  let c1_i32_302 : BitVec 32 := 1#32
  let v241 : Index := Scalar.indexCast c1_i32_302
  let c0_i32_81 : BitVec 32 := 0#32
  let c1_i32_83 : BitVec 32 := 1#32
  let arg24 : BitVec 32 := Scf.iv c0_i32_81 c1_i32_83 k0_t11
  let v242 : Index := Scalar.indexCast arg24
  let c0_303 : Index := 0#32
  ![1, v242.toNat, 0]
def k0_off80 (k0_t11 : Fin k0_t11_loop.trips) : Fin 3 → Nat :=
  let c1_i32_304 : BitVec 32 := 1#32
  let v246 : Index := Scalar.indexCast c1_i32_304
  let c0_i32_81 : BitVec 32 := 0#32
  let c1_i32_83 : BitVec 32 := 1#32
  let arg24 : BitVec 32 := Scf.iv c0_i32_81 c1_i32_83 k0_t11
  let v247 : Index := Scalar.indexCast arg24
  let c16 : Index := 16#32
  ![1, v247.toNat, 16]
def k0_off81 (k0_t11 : Fin k0_t11_loop.trips) : Fin 3 → Nat :=
  let c1_i32_305 : BitVec 32 := 1#32
  let v250 : Index := Scalar.indexCast c1_i32_305
  let c0_i32_81 : BitVec 32 := 0#32
  let c1_i32_83 : BitVec 32 := 1#32
  let arg24 : BitVec 32 := Scf.iv c0_i32_81 c1_i32_83 k0_t11
  let v251 : Index := Scalar.indexCast arg24
  let c16_306 : Index := 16#32
  ![1, v251.toNat, 16]
def k0_off82 (k0_t11 : Fin k0_t11_loop.trips) : Fin 3 → Nat :=
  let c1_i32_307 : BitVec 32 := 1#32
  let v255 : Index := Scalar.indexCast c1_i32_307
  let c0_i32_81 : BitVec 32 := 0#32
  let c1_i32_83 : BitVec 32 := 1#32
  let arg24 : BitVec 32 := Scf.iv c0_i32_81 c1_i32_83 k0_t11
  let v256 : Index := Scalar.indexCast arg24
  let c32 : Index := 32#32
  ![1, v256.toNat, 32]
def k0_off83 (k0_t11 : Fin k0_t11_loop.trips) : Fin 3 → Nat :=
  let c1_i32_308 : BitVec 32 := 1#32
  let v259 : Index := Scalar.indexCast c1_i32_308
  let c0_i32_81 : BitVec 32 := 0#32
  let c1_i32_83 : BitVec 32 := 1#32
  let arg24 : BitVec 32 := Scf.iv c0_i32_81 c1_i32_83 k0_t11
  let v260 : Index := Scalar.indexCast arg24
  let c32_309 : Index := 32#32
  ![1, v260.toNat, 32]
def k0_off84 (k0_t11 : Fin k0_t11_loop.trips) : Fin 3 → Nat :=
  let c1_i32_310 : BitVec 32 := 1#32
  let v264 : Index := Scalar.indexCast c1_i32_310
  let c0_i32_81 : BitVec 32 := 0#32
  let c1_i32_83 : BitVec 32 := 1#32
  let arg24 : BitVec 32 := Scf.iv c0_i32_81 c1_i32_83 k0_t11
  let v265 : Index := Scalar.indexCast arg24
  let c48 : Index := 48#32
  ![1, v265.toNat, 48]
def k0_off85 (k0_t11 : Fin k0_t11_loop.trips) : Fin 3 → Nat :=
  let c1_i32_311 : BitVec 32 := 1#32
  let v268 : Index := Scalar.indexCast c1_i32_311
  let c0_i32_81 : BitVec 32 := 0#32
  let c1_i32_83 : BitVec 32 := 1#32
  let arg24 : BitVec 32 := Scf.iv c0_i32_81 c1_i32_83 k0_t11
  let v269 : Index := Scalar.indexCast arg24
  let c48_312 : Index := 48#32
  ![1, v269.toNat, 48]
@[reducible] def k0_t12_loop : Scf.Loop 32 :=
  let c0_i32_102 : BitVec 32 := 0#32
  let c50_i32_103 : BitVec 32 := 50#32
  let v80 : BitVec 32 := Scalar.addi c0_i32_102 c50_i32_103
  let c1_i32_104 : BitVec 32 := 1#32
  ⟨c0_i32_102, v80, c1_i32_104⟩
def k0_off86 (k0_t12 : Fin k0_t12_loop.trips) : Fin 3 → Nat :=
  let c2_i32_301 : BitVec 32 := 2#32
  let v237 : Index := Scalar.indexCast c2_i32_301
  let c0_i32_102 : BitVec 32 := 0#32
  let c1_i32_104 : BitVec 32 := 1#32
  let arg24 : BitVec 32 := Scf.iv c0_i32_102 c1_i32_104 k0_t12
  let v238 : Index := Scalar.indexCast arg24
  let c0 : Index := 0#32
  ![2, v238.toNat, 0]
def k0_off87 (k0_t12 : Fin k0_t12_loop.trips) : Fin 3 → Nat :=
  let c2_i32_302 : BitVec 32 := 2#32
  let v241 : Index := Scalar.indexCast c2_i32_302
  let c0_i32_102 : BitVec 32 := 0#32
  let c1_i32_104 : BitVec 32 := 1#32
  let arg24 : BitVec 32 := Scf.iv c0_i32_102 c1_i32_104 k0_t12
  let v242 : Index := Scalar.indexCast arg24
  let c0_303 : Index := 0#32
  ![2, v242.toNat, 0]
def k0_off88 (k0_t12 : Fin k0_t12_loop.trips) : Fin 3 → Nat :=
  let c2_i32_304 : BitVec 32 := 2#32
  let v246 : Index := Scalar.indexCast c2_i32_304
  let c0_i32_102 : BitVec 32 := 0#32
  let c1_i32_104 : BitVec 32 := 1#32
  let arg24 : BitVec 32 := Scf.iv c0_i32_102 c1_i32_104 k0_t12
  let v247 : Index := Scalar.indexCast arg24
  let c16 : Index := 16#32
  ![2, v247.toNat, 16]
def k0_off89 (k0_t12 : Fin k0_t12_loop.trips) : Fin 3 → Nat :=
  let c2_i32_305 : BitVec 32 := 2#32
  let v250 : Index := Scalar.indexCast c2_i32_305
  let c0_i32_102 : BitVec 32 := 0#32
  let c1_i32_104 : BitVec 32 := 1#32
  let arg24 : BitVec 32 := Scf.iv c0_i32_102 c1_i32_104 k0_t12
  let v251 : Index := Scalar.indexCast arg24
  let c16_306 : Index := 16#32
  ![2, v251.toNat, 16]
def k0_off90 (k0_t12 : Fin k0_t12_loop.trips) : Fin 3 → Nat :=
  let c2_i32_307 : BitVec 32 := 2#32
  let v255 : Index := Scalar.indexCast c2_i32_307
  let c0_i32_102 : BitVec 32 := 0#32
  let c1_i32_104 : BitVec 32 := 1#32
  let arg24 : BitVec 32 := Scf.iv c0_i32_102 c1_i32_104 k0_t12
  let v256 : Index := Scalar.indexCast arg24
  let c32 : Index := 32#32
  ![2, v256.toNat, 32]
def k0_off91 (k0_t12 : Fin k0_t12_loop.trips) : Fin 3 → Nat :=
  let c2_i32_308 : BitVec 32 := 2#32
  let v259 : Index := Scalar.indexCast c2_i32_308
  let c0_i32_102 : BitVec 32 := 0#32
  let c1_i32_104 : BitVec 32 := 1#32
  let arg24 : BitVec 32 := Scf.iv c0_i32_102 c1_i32_104 k0_t12
  let v260 : Index := Scalar.indexCast arg24
  let c32_309 : Index := 32#32
  ![2, v260.toNat, 32]
def k0_off92 (k0_t12 : Fin k0_t12_loop.trips) : Fin 3 → Nat :=
  let c2_i32_310 : BitVec 32 := 2#32
  let v264 : Index := Scalar.indexCast c2_i32_310
  let c0_i32_102 : BitVec 32 := 0#32
  let c1_i32_104 : BitVec 32 := 1#32
  let arg24 : BitVec 32 := Scf.iv c0_i32_102 c1_i32_104 k0_t12
  let v265 : Index := Scalar.indexCast arg24
  let c48 : Index := 48#32
  ![2, v265.toNat, 48]
def k0_off93 (k0_t12 : Fin k0_t12_loop.trips) : Fin 3 → Nat :=
  let c2_i32_311 : BitVec 32 := 2#32
  let v268 : Index := Scalar.indexCast c2_i32_311
  let c0_i32_102 : BitVec 32 := 0#32
  let c1_i32_104 : BitVec 32 := 1#32
  let arg24 : BitVec 32 := Scf.iv c0_i32_102 c1_i32_104 k0_t12
  let v269 : Index := Scalar.indexCast arg24
  let c48_312 : Index := 48#32
  ![2, v269.toNat, 48]
@[reducible] def k0_t13_loop : Scf.Loop 32 :=
  let c0_i32_123 : BitVec 32 := 0#32
  let c50_i32_124 : BitVec 32 := 50#32
  let v95 : BitVec 32 := Scalar.addi c0_i32_123 c50_i32_124
  let c1_i32_125 : BitVec 32 := 1#32
  ⟨c0_i32_123, v95, c1_i32_125⟩
def k0_off94 (k0_t13 : Fin k0_t13_loop.trips) : Fin 3 → Nat :=
  let c3_i32_301 : BitVec 32 := 3#32
  let v237 : Index := Scalar.indexCast c3_i32_301
  let c0_i32_123 : BitVec 32 := 0#32
  let c1_i32_125 : BitVec 32 := 1#32
  let arg24 : BitVec 32 := Scf.iv c0_i32_123 c1_i32_125 k0_t13
  let v238 : Index := Scalar.indexCast arg24
  let c0 : Index := 0#32
  ![3, v238.toNat, 0]
def k0_off95 (k0_t13 : Fin k0_t13_loop.trips) : Fin 3 → Nat :=
  let c3_i32_302 : BitVec 32 := 3#32
  let v241 : Index := Scalar.indexCast c3_i32_302
  let c0_i32_123 : BitVec 32 := 0#32
  let c1_i32_125 : BitVec 32 := 1#32
  let arg24 : BitVec 32 := Scf.iv c0_i32_123 c1_i32_125 k0_t13
  let v242 : Index := Scalar.indexCast arg24
  let c0_303 : Index := 0#32
  ![3, v242.toNat, 0]
def k0_off96 (k0_t13 : Fin k0_t13_loop.trips) : Fin 3 → Nat :=
  let c3_i32_304 : BitVec 32 := 3#32
  let v246 : Index := Scalar.indexCast c3_i32_304
  let c0_i32_123 : BitVec 32 := 0#32
  let c1_i32_125 : BitVec 32 := 1#32
  let arg24 : BitVec 32 := Scf.iv c0_i32_123 c1_i32_125 k0_t13
  let v247 : Index := Scalar.indexCast arg24
  let c16 : Index := 16#32
  ![3, v247.toNat, 16]
def k0_off97 (k0_t13 : Fin k0_t13_loop.trips) : Fin 3 → Nat :=
  let c3_i32_305 : BitVec 32 := 3#32
  let v250 : Index := Scalar.indexCast c3_i32_305
  let c0_i32_123 : BitVec 32 := 0#32
  let c1_i32_125 : BitVec 32 := 1#32
  let arg24 : BitVec 32 := Scf.iv c0_i32_123 c1_i32_125 k0_t13
  let v251 : Index := Scalar.indexCast arg24
  let c16_306 : Index := 16#32
  ![3, v251.toNat, 16]
def k0_off98 (k0_t13 : Fin k0_t13_loop.trips) : Fin 3 → Nat :=
  let c3_i32_307 : BitVec 32 := 3#32
  let v255 : Index := Scalar.indexCast c3_i32_307
  let c0_i32_123 : BitVec 32 := 0#32
  let c1_i32_125 : BitVec 32 := 1#32
  let arg24 : BitVec 32 := Scf.iv c0_i32_123 c1_i32_125 k0_t13
  let v256 : Index := Scalar.indexCast arg24
  let c32 : Index := 32#32
  ![3, v256.toNat, 32]
def k0_off99 (k0_t13 : Fin k0_t13_loop.trips) : Fin 3 → Nat :=
  let c3_i32_308 : BitVec 32 := 3#32
  let v259 : Index := Scalar.indexCast c3_i32_308
  let c0_i32_123 : BitVec 32 := 0#32
  let c1_i32_125 : BitVec 32 := 1#32
  let arg24 : BitVec 32 := Scf.iv c0_i32_123 c1_i32_125 k0_t13
  let v260 : Index := Scalar.indexCast arg24
  let c32_309 : Index := 32#32
  ![3, v260.toNat, 32]
def k0_off100 (k0_t13 : Fin k0_t13_loop.trips) : Fin 3 → Nat :=
  let c3_i32_310 : BitVec 32 := 3#32
  let v264 : Index := Scalar.indexCast c3_i32_310
  let c0_i32_123 : BitVec 32 := 0#32
  let c1_i32_125 : BitVec 32 := 1#32
  let arg24 : BitVec 32 := Scf.iv c0_i32_123 c1_i32_125 k0_t13
  let v265 : Index := Scalar.indexCast arg24
  let c48 : Index := 48#32
  ![3, v265.toNat, 48]
def k0_off101 (k0_t13 : Fin k0_t13_loop.trips) : Fin 3 → Nat :=
  let c3_i32_311 : BitVec 32 := 3#32
  let v268 : Index := Scalar.indexCast c3_i32_311
  let c0_i32_123 : BitVec 32 := 0#32
  let c1_i32_125 : BitVec 32 := 1#32
  let arg24 : BitVec 32 := Scf.iv c0_i32_123 c1_i32_125 k0_t13
  let v269 : Index := Scalar.indexCast arg24
  let c48_312 : Index := 48#32
  ![3, v269.toNat, 48]
@[reducible] def k0_t14_loop : Scf.Loop 32 :=
  let c0_i32_144 : BitVec 32 := 0#32
  let c50_i32_145 : BitVec 32 := 50#32
  let v110 : BitVec 32 := Scalar.addi c0_i32_144 c50_i32_145
  let c1_i32_146 : BitVec 32 := 1#32
  ⟨c0_i32_144, v110, c1_i32_146⟩
def k0_off102 (k0_t14 : Fin k0_t14_loop.trips) : Fin 3 → Nat :=
  let c4_i32_301 : BitVec 32 := 4#32
  let v237 : Index := Scalar.indexCast c4_i32_301
  let c0_i32_144 : BitVec 32 := 0#32
  let c1_i32_146 : BitVec 32 := 1#32
  let arg24 : BitVec 32 := Scf.iv c0_i32_144 c1_i32_146 k0_t14
  let v238 : Index := Scalar.indexCast arg24
  let c0 : Index := 0#32
  ![4, v238.toNat, 0]
def k0_off103 (k0_t14 : Fin k0_t14_loop.trips) : Fin 3 → Nat :=
  let c4_i32_302 : BitVec 32 := 4#32
  let v241 : Index := Scalar.indexCast c4_i32_302
  let c0_i32_144 : BitVec 32 := 0#32
  let c1_i32_146 : BitVec 32 := 1#32
  let arg24 : BitVec 32 := Scf.iv c0_i32_144 c1_i32_146 k0_t14
  let v242 : Index := Scalar.indexCast arg24
  let c0_303 : Index := 0#32
  ![4, v242.toNat, 0]
def k0_off104 (k0_t14 : Fin k0_t14_loop.trips) : Fin 3 → Nat :=
  let c4_i32_304 : BitVec 32 := 4#32
  let v246 : Index := Scalar.indexCast c4_i32_304
  let c0_i32_144 : BitVec 32 := 0#32
  let c1_i32_146 : BitVec 32 := 1#32
  let arg24 : BitVec 32 := Scf.iv c0_i32_144 c1_i32_146 k0_t14
  let v247 : Index := Scalar.indexCast arg24
  let c16 : Index := 16#32
  ![4, v247.toNat, 16]
def k0_off105 (k0_t14 : Fin k0_t14_loop.trips) : Fin 3 → Nat :=
  let c4_i32_305 : BitVec 32 := 4#32
  let v250 : Index := Scalar.indexCast c4_i32_305
  let c0_i32_144 : BitVec 32 := 0#32
  let c1_i32_146 : BitVec 32 := 1#32
  let arg24 : BitVec 32 := Scf.iv c0_i32_144 c1_i32_146 k0_t14
  let v251 : Index := Scalar.indexCast arg24
  let c16_306 : Index := 16#32
  ![4, v251.toNat, 16]
def k0_off106 (k0_t14 : Fin k0_t14_loop.trips) : Fin 3 → Nat :=
  let c4_i32_307 : BitVec 32 := 4#32
  let v255 : Index := Scalar.indexCast c4_i32_307
  let c0_i32_144 : BitVec 32 := 0#32
  let c1_i32_146 : BitVec 32 := 1#32
  let arg24 : BitVec 32 := Scf.iv c0_i32_144 c1_i32_146 k0_t14
  let v256 : Index := Scalar.indexCast arg24
  let c32 : Index := 32#32
  ![4, v256.toNat, 32]
def k0_off107 (k0_t14 : Fin k0_t14_loop.trips) : Fin 3 → Nat :=
  let c4_i32_308 : BitVec 32 := 4#32
  let v259 : Index := Scalar.indexCast c4_i32_308
  let c0_i32_144 : BitVec 32 := 0#32
  let c1_i32_146 : BitVec 32 := 1#32
  let arg24 : BitVec 32 := Scf.iv c0_i32_144 c1_i32_146 k0_t14
  let v260 : Index := Scalar.indexCast arg24
  let c32_309 : Index := 32#32
  ![4, v260.toNat, 32]
def k0_off108 (k0_t14 : Fin k0_t14_loop.trips) : Fin 3 → Nat :=
  let c4_i32_310 : BitVec 32 := 4#32
  let v264 : Index := Scalar.indexCast c4_i32_310
  let c0_i32_144 : BitVec 32 := 0#32
  let c1_i32_146 : BitVec 32 := 1#32
  let arg24 : BitVec 32 := Scf.iv c0_i32_144 c1_i32_146 k0_t14
  let v265 : Index := Scalar.indexCast arg24
  let c48 : Index := 48#32
  ![4, v265.toNat, 48]
def k0_off109 (k0_t14 : Fin k0_t14_loop.trips) : Fin 3 → Nat :=
  let c4_i32_311 : BitVec 32 := 4#32
  let v268 : Index := Scalar.indexCast c4_i32_311
  let c0_i32_144 : BitVec 32 := 0#32
  let c1_i32_146 : BitVec 32 := 1#32
  let arg24 : BitVec 32 := Scf.iv c0_i32_144 c1_i32_146 k0_t14
  let v269 : Index := Scalar.indexCast arg24
  let c48_312 : Index := 48#32
  ![4, v269.toNat, 48]
@[reducible] def k0_t15_loop : Scf.Loop 32 :=
  let c0_i32_165 : BitVec 32 := 0#32
  let c50_i32_166 : BitVec 32 := 50#32
  let v125 : BitVec 32 := Scalar.addi c0_i32_165 c50_i32_166
  let c1_i32_167 : BitVec 32 := 1#32
  ⟨c0_i32_165, v125, c1_i32_167⟩
def k0_off110 (k0_t15 : Fin k0_t15_loop.trips) : Fin 3 → Nat :=
  let c5_i32_301 : BitVec 32 := 5#32
  let v237 : Index := Scalar.indexCast c5_i32_301
  let c0_i32_165 : BitVec 32 := 0#32
  let c1_i32_167 : BitVec 32 := 1#32
  let arg24 : BitVec 32 := Scf.iv c0_i32_165 c1_i32_167 k0_t15
  let v238 : Index := Scalar.indexCast arg24
  let c0 : Index := 0#32
  ![5, v238.toNat, 0]
def k0_off111 (k0_t15 : Fin k0_t15_loop.trips) : Fin 3 → Nat :=
  let c5_i32_302 : BitVec 32 := 5#32
  let v241 : Index := Scalar.indexCast c5_i32_302
  let c0_i32_165 : BitVec 32 := 0#32
  let c1_i32_167 : BitVec 32 := 1#32
  let arg24 : BitVec 32 := Scf.iv c0_i32_165 c1_i32_167 k0_t15
  let v242 : Index := Scalar.indexCast arg24
  let c0_303 : Index := 0#32
  ![5, v242.toNat, 0]
def k0_off112 (k0_t15 : Fin k0_t15_loop.trips) : Fin 3 → Nat :=
  let c5_i32_304 : BitVec 32 := 5#32
  let v246 : Index := Scalar.indexCast c5_i32_304
  let c0_i32_165 : BitVec 32 := 0#32
  let c1_i32_167 : BitVec 32 := 1#32
  let arg24 : BitVec 32 := Scf.iv c0_i32_165 c1_i32_167 k0_t15
  let v247 : Index := Scalar.indexCast arg24
  let c16 : Index := 16#32
  ![5, v247.toNat, 16]
def k0_off113 (k0_t15 : Fin k0_t15_loop.trips) : Fin 3 → Nat :=
  let c5_i32_305 : BitVec 32 := 5#32
  let v250 : Index := Scalar.indexCast c5_i32_305
  let c0_i32_165 : BitVec 32 := 0#32
  let c1_i32_167 : BitVec 32 := 1#32
  let arg24 : BitVec 32 := Scf.iv c0_i32_165 c1_i32_167 k0_t15
  let v251 : Index := Scalar.indexCast arg24
  let c16_306 : Index := 16#32
  ![5, v251.toNat, 16]
def k0_off114 (k0_t15 : Fin k0_t15_loop.trips) : Fin 3 → Nat :=
  let c5_i32_307 : BitVec 32 := 5#32
  let v255 : Index := Scalar.indexCast c5_i32_307
  let c0_i32_165 : BitVec 32 := 0#32
  let c1_i32_167 : BitVec 32 := 1#32
  let arg24 : BitVec 32 := Scf.iv c0_i32_165 c1_i32_167 k0_t15
  let v256 : Index := Scalar.indexCast arg24
  let c32 : Index := 32#32
  ![5, v256.toNat, 32]
def k0_off115 (k0_t15 : Fin k0_t15_loop.trips) : Fin 3 → Nat :=
  let c5_i32_308 : BitVec 32 := 5#32
  let v259 : Index := Scalar.indexCast c5_i32_308
  let c0_i32_165 : BitVec 32 := 0#32
  let c1_i32_167 : BitVec 32 := 1#32
  let arg24 : BitVec 32 := Scf.iv c0_i32_165 c1_i32_167 k0_t15
  let v260 : Index := Scalar.indexCast arg24
  let c32_309 : Index := 32#32
  ![5, v260.toNat, 32]
def k0_off116 (k0_t15 : Fin k0_t15_loop.trips) : Fin 3 → Nat :=
  let c5_i32_310 : BitVec 32 := 5#32
  let v264 : Index := Scalar.indexCast c5_i32_310
  let c0_i32_165 : BitVec 32 := 0#32
  let c1_i32_167 : BitVec 32 := 1#32
  let arg24 : BitVec 32 := Scf.iv c0_i32_165 c1_i32_167 k0_t15
  let v265 : Index := Scalar.indexCast arg24
  let c48 : Index := 48#32
  ![5, v265.toNat, 48]
def k0_off117 (k0_t15 : Fin k0_t15_loop.trips) : Fin 3 → Nat :=
  let c5_i32_311 : BitVec 32 := 5#32
  let v268 : Index := Scalar.indexCast c5_i32_311
  let c0_i32_165 : BitVec 32 := 0#32
  let c1_i32_167 : BitVec 32 := 1#32
  let arg24 : BitVec 32 := Scf.iv c0_i32_165 c1_i32_167 k0_t15
  let v269 : Index := Scalar.indexCast arg24
  let c48_312 : Index := 48#32
  ![5, v269.toNat, 48]
@[reducible] def k0_t16_loop : Scf.Loop 32 :=
  let c0_i32_186 : BitVec 32 := 0#32
  let c50_i32_187 : BitVec 32 := 50#32
  let v140 : BitVec 32 := Scalar.addi c0_i32_186 c50_i32_187
  let c1_i32_188 : BitVec 32 := 1#32
  ⟨c0_i32_186, v140, c1_i32_188⟩
def k0_off118 (k0_t16 : Fin k0_t16_loop.trips) : Fin 3 → Nat :=
  let c6_i32_301 : BitVec 32 := 6#32
  let v237 : Index := Scalar.indexCast c6_i32_301
  let c0_i32_186 : BitVec 32 := 0#32
  let c1_i32_188 : BitVec 32 := 1#32
  let arg24 : BitVec 32 := Scf.iv c0_i32_186 c1_i32_188 k0_t16
  let v238 : Index := Scalar.indexCast arg24
  let c0 : Index := 0#32
  ![6, v238.toNat, 0]
def k0_off119 (k0_t16 : Fin k0_t16_loop.trips) : Fin 3 → Nat :=
  let c6_i32_302 : BitVec 32 := 6#32
  let v241 : Index := Scalar.indexCast c6_i32_302
  let c0_i32_186 : BitVec 32 := 0#32
  let c1_i32_188 : BitVec 32 := 1#32
  let arg24 : BitVec 32 := Scf.iv c0_i32_186 c1_i32_188 k0_t16
  let v242 : Index := Scalar.indexCast arg24
  let c0_303 : Index := 0#32
  ![6, v242.toNat, 0]
def k0_off120 (k0_t16 : Fin k0_t16_loop.trips) : Fin 3 → Nat :=
  let c6_i32_304 : BitVec 32 := 6#32
  let v246 : Index := Scalar.indexCast c6_i32_304
  let c0_i32_186 : BitVec 32 := 0#32
  let c1_i32_188 : BitVec 32 := 1#32
  let arg24 : BitVec 32 := Scf.iv c0_i32_186 c1_i32_188 k0_t16
  let v247 : Index := Scalar.indexCast arg24
  let c16 : Index := 16#32
  ![6, v247.toNat, 16]
def k0_off121 (k0_t16 : Fin k0_t16_loop.trips) : Fin 3 → Nat :=
  let c6_i32_305 : BitVec 32 := 6#32
  let v250 : Index := Scalar.indexCast c6_i32_305
  let c0_i32_186 : BitVec 32 := 0#32
  let c1_i32_188 : BitVec 32 := 1#32
  let arg24 : BitVec 32 := Scf.iv c0_i32_186 c1_i32_188 k0_t16
  let v251 : Index := Scalar.indexCast arg24
  let c16_306 : Index := 16#32
  ![6, v251.toNat, 16]
def k0_off122 (k0_t16 : Fin k0_t16_loop.trips) : Fin 3 → Nat :=
  let c6_i32_307 : BitVec 32 := 6#32
  let v255 : Index := Scalar.indexCast c6_i32_307
  let c0_i32_186 : BitVec 32 := 0#32
  let c1_i32_188 : BitVec 32 := 1#32
  let arg24 : BitVec 32 := Scf.iv c0_i32_186 c1_i32_188 k0_t16
  let v256 : Index := Scalar.indexCast arg24
  let c32 : Index := 32#32
  ![6, v256.toNat, 32]
def k0_off123 (k0_t16 : Fin k0_t16_loop.trips) : Fin 3 → Nat :=
  let c6_i32_308 : BitVec 32 := 6#32
  let v259 : Index := Scalar.indexCast c6_i32_308
  let c0_i32_186 : BitVec 32 := 0#32
  let c1_i32_188 : BitVec 32 := 1#32
  let arg24 : BitVec 32 := Scf.iv c0_i32_186 c1_i32_188 k0_t16
  let v260 : Index := Scalar.indexCast arg24
  let c32_309 : Index := 32#32
  ![6, v260.toNat, 32]
def k0_off124 (k0_t16 : Fin k0_t16_loop.trips) : Fin 3 → Nat :=
  let c6_i32_310 : BitVec 32 := 6#32
  let v264 : Index := Scalar.indexCast c6_i32_310
  let c0_i32_186 : BitVec 32 := 0#32
  let c1_i32_188 : BitVec 32 := 1#32
  let arg24 : BitVec 32 := Scf.iv c0_i32_186 c1_i32_188 k0_t16
  let v265 : Index := Scalar.indexCast arg24
  let c48 : Index := 48#32
  ![6, v265.toNat, 48]
def k0_off125 (k0_t16 : Fin k0_t16_loop.trips) : Fin 3 → Nat :=
  let c6_i32_311 : BitVec 32 := 6#32
  let v268 : Index := Scalar.indexCast c6_i32_311
  let c0_i32_186 : BitVec 32 := 0#32
  let c1_i32_188 : BitVec 32 := 1#32
  let arg24 : BitVec 32 := Scf.iv c0_i32_186 c1_i32_188 k0_t16
  let v269 : Index := Scalar.indexCast arg24
  let c48_312 : Index := 48#32
  ![6, v269.toNat, 48]
@[reducible] def k0_t17_loop : Scf.Loop 32 :=
  let c0_i32_207 : BitVec 32 := 0#32
  let c50_i32_208 : BitVec 32 := 50#32
  let v155 : BitVec 32 := Scalar.addi c0_i32_207 c50_i32_208
  let c1_i32_209 : BitVec 32 := 1#32
  ⟨c0_i32_207, v155, c1_i32_209⟩
def k0_off126 (k0_t17 : Fin k0_t17_loop.trips) : Fin 3 → Nat :=
  let c7_i32_301 : BitVec 32 := 7#32
  let v237 : Index := Scalar.indexCast c7_i32_301
  let c0_i32_207 : BitVec 32 := 0#32
  let c1_i32_209 : BitVec 32 := 1#32
  let arg24 : BitVec 32 := Scf.iv c0_i32_207 c1_i32_209 k0_t17
  let v238 : Index := Scalar.indexCast arg24
  let c0 : Index := 0#32
  ![7, v238.toNat, 0]
def k0_off127 (k0_t17 : Fin k0_t17_loop.trips) : Fin 3 → Nat :=
  let c7_i32_302 : BitVec 32 := 7#32
  let v241 : Index := Scalar.indexCast c7_i32_302
  let c0_i32_207 : BitVec 32 := 0#32
  let c1_i32_209 : BitVec 32 := 1#32
  let arg24 : BitVec 32 := Scf.iv c0_i32_207 c1_i32_209 k0_t17
  let v242 : Index := Scalar.indexCast arg24
  let c0_303 : Index := 0#32
  ![7, v242.toNat, 0]
def k0_off128 (k0_t17 : Fin k0_t17_loop.trips) : Fin 3 → Nat :=
  let c7_i32_304 : BitVec 32 := 7#32
  let v246 : Index := Scalar.indexCast c7_i32_304
  let c0_i32_207 : BitVec 32 := 0#32
  let c1_i32_209 : BitVec 32 := 1#32
  let arg24 : BitVec 32 := Scf.iv c0_i32_207 c1_i32_209 k0_t17
  let v247 : Index := Scalar.indexCast arg24
  let c16 : Index := 16#32
  ![7, v247.toNat, 16]
def k0_off129 (k0_t17 : Fin k0_t17_loop.trips) : Fin 3 → Nat :=
  let c7_i32_305 : BitVec 32 := 7#32
  let v250 : Index := Scalar.indexCast c7_i32_305
  let c0_i32_207 : BitVec 32 := 0#32
  let c1_i32_209 : BitVec 32 := 1#32
  let arg24 : BitVec 32 := Scf.iv c0_i32_207 c1_i32_209 k0_t17
  let v251 : Index := Scalar.indexCast arg24
  let c16_306 : Index := 16#32
  ![7, v251.toNat, 16]
def k0_off130 (k0_t17 : Fin k0_t17_loop.trips) : Fin 3 → Nat :=
  let c7_i32_307 : BitVec 32 := 7#32
  let v255 : Index := Scalar.indexCast c7_i32_307
  let c0_i32_207 : BitVec 32 := 0#32
  let c1_i32_209 : BitVec 32 := 1#32
  let arg24 : BitVec 32 := Scf.iv c0_i32_207 c1_i32_209 k0_t17
  let v256 : Index := Scalar.indexCast arg24
  let c32 : Index := 32#32
  ![7, v256.toNat, 32]
def k0_off131 (k0_t17 : Fin k0_t17_loop.trips) : Fin 3 → Nat :=
  let c7_i32_308 : BitVec 32 := 7#32
  let v259 : Index := Scalar.indexCast c7_i32_308
  let c0_i32_207 : BitVec 32 := 0#32
  let c1_i32_209 : BitVec 32 := 1#32
  let arg24 : BitVec 32 := Scf.iv c0_i32_207 c1_i32_209 k0_t17
  let v260 : Index := Scalar.indexCast arg24
  let c32_309 : Index := 32#32
  ![7, v260.toNat, 32]
def k0_off132 (k0_t17 : Fin k0_t17_loop.trips) : Fin 3 → Nat :=
  let c7_i32_310 : BitVec 32 := 7#32
  let v264 : Index := Scalar.indexCast c7_i32_310
  let c0_i32_207 : BitVec 32 := 0#32
  let c1_i32_209 : BitVec 32 := 1#32
  let arg24 : BitVec 32 := Scf.iv c0_i32_207 c1_i32_209 k0_t17
  let v265 : Index := Scalar.indexCast arg24
  let c48 : Index := 48#32
  ![7, v265.toNat, 48]
def k0_off133 (k0_t17 : Fin k0_t17_loop.trips) : Fin 3 → Nat :=
  let c7_i32_311 : BitVec 32 := 7#32
  let v268 : Index := Scalar.indexCast c7_i32_311
  let c0_i32_207 : BitVec 32 := 0#32
  let c1_i32_209 : BitVec 32 := 1#32
  let arg24 : BitVec 32 := Scf.iv c0_i32_207 c1_i32_209 k0_t17
  let v269 : Index := Scalar.indexCast arg24
  let c48_312 : Index := 48#32
  ![7, v269.toNat, 48]
abbrev grid1 : Pipeline.Grid := ⟨2, ![2, 16], ![false, false]⟩

def k1_off1 (i : grid1.Coords) : Fin 2 → Nat :=
  let c4096_i32 : BitVec 32 := 4096#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c4096_i32 v2
  let c0_i32_300_r0 : BitVec 32 := 0#32
  ![v3.toNat, 0]
@[reducible] def k1_t1_loop : Scf.Loop 32 :=
  let c0_i32_50 : BitVec 32 := 0#32
  let c15_i32 : BitVec 32 := 15#32
  let v44 : BitVec 32 := Scalar.addi c0_i32_50 c15_i32
  let c1_i32_51 : BitVec 32 := 1#32
  ⟨c0_i32_50, v44, c1_i32_51⟩
def k1_off2 (k1_t1 : Fin k1_t1_loop.trips) (c0_i32_300 : BitVec 32) : Fin 2 → Nat :=
  let c0_i32_50 : BitVec 32 := 0#32
  let c1_i32_51 : BitVec 32 := 1#32
  let arg24 : BitVec 32 := Scf.iv c0_i32_50 c1_i32_51 k1_t1
  let c8_i32 : BitVec 32 := 8#32
  let v237 : BitVec 32 := Scalar.muli arg24 c8_i32
  let v238 : BitVec 32 := Scalar.addi v237 c0_i32_300
  let c0_i32_304 : BitVec 32 := 0#32
  ![v238.toNat, 0]
@[reducible] def k1_t2_loop : Scf.Loop 32 :=
  let c0_i32_308 : BitVec 32 := 0#32
  let c50_i32_309 : BitVec 32 := 50#32
  let v244 : BitVec 32 := Scalar.addi c0_i32_308 c50_i32_309
  let c1_i32_310 : BitVec 32 := 1#32
  ⟨c0_i32_308, v244, c1_i32_310⟩
def k1_off3 (k1_t2 : Fin k1_t2_loop.trips) : Fin 3 → Nat :=
  let c0_i32_619 : BitVec 32 := 0#32
  let v509 : Index := Scalar.indexCast c0_i32_619
  let c0_i32_308 : BitVec 32 := 0#32
  let c1_i32_310 : BitVec 32 := 1#32
  let arg25 : BitVec 32 := Scf.iv c0_i32_308 c1_i32_310 k1_t2
  let v510 : Index := Scalar.indexCast arg25
  let c0 : Index := 0#32
  ![0, v510.toNat, 0]
def k1_off4 (k1_t2 : Fin k1_t2_loop.trips) : Fin 3 → Nat :=
  let c0_i32_620 : BitVec 32 := 0#32
  let v513 : Index := Scalar.indexCast c0_i32_620
  let c0_i32_308 : BitVec 32 := 0#32
  let c1_i32_310 : BitVec 32 := 1#32
  let arg25 : BitVec 32 := Scf.iv c0_i32_308 c1_i32_310 k1_t2
  let v514 : Index := Scalar.indexCast arg25
  let c0_621 : Index := 0#32
  ![0, v514.toNat, 0]
def k1_off5 (k1_t2 : Fin k1_t2_loop.trips) : Fin 3 → Nat :=
  let c0_i32_622 : BitVec 32 := 0#32
  let v518 : Index := Scalar.indexCast c0_i32_622
  let c0_i32_308 : BitVec 32 := 0#32
  let c1_i32_310 : BitVec 32 := 1#32
  let arg25 : BitVec 32 := Scf.iv c0_i32_308 c1_i32_310 k1_t2
  let v519 : Index := Scalar.indexCast arg25
  let c16 : Index := 16#32
  ![0, v519.toNat, 16]
def k1_off6 (k1_t2 : Fin k1_t2_loop.trips) : Fin 3 → Nat :=
  let c0_i32_623 : BitVec 32 := 0#32
  let v522 : Index := Scalar.indexCast c0_i32_623
  let c0_i32_308 : BitVec 32 := 0#32
  let c1_i32_310 : BitVec 32 := 1#32
  let arg25 : BitVec 32 := Scf.iv c0_i32_308 c1_i32_310 k1_t2
  let v523 : Index := Scalar.indexCast arg25
  let c16_624 : Index := 16#32
  ![0, v523.toNat, 16]
def k1_off7 (k1_t2 : Fin k1_t2_loop.trips) : Fin 3 → Nat :=
  let c0_i32_625 : BitVec 32 := 0#32
  let v527 : Index := Scalar.indexCast c0_i32_625
  let c0_i32_308 : BitVec 32 := 0#32
  let c1_i32_310 : BitVec 32 := 1#32
  let arg25 : BitVec 32 := Scf.iv c0_i32_308 c1_i32_310 k1_t2
  let v528 : Index := Scalar.indexCast arg25
  let c32 : Index := 32#32
  ![0, v528.toNat, 32]
def k1_off8 (k1_t2 : Fin k1_t2_loop.trips) : Fin 3 → Nat :=
  let c0_i32_626 : BitVec 32 := 0#32
  let v531 : Index := Scalar.indexCast c0_i32_626
  let c0_i32_308 : BitVec 32 := 0#32
  let c1_i32_310 : BitVec 32 := 1#32
  let arg25 : BitVec 32 := Scf.iv c0_i32_308 c1_i32_310 k1_t2
  let v532 : Index := Scalar.indexCast arg25
  let c32_627 : Index := 32#32
  ![0, v532.toNat, 32]
def k1_off9 (k1_t2 : Fin k1_t2_loop.trips) : Fin 3 → Nat :=
  let c0_i32_628 : BitVec 32 := 0#32
  let v536 : Index := Scalar.indexCast c0_i32_628
  let c0_i32_308 : BitVec 32 := 0#32
  let c1_i32_310 : BitVec 32 := 1#32
  let arg25 : BitVec 32 := Scf.iv c0_i32_308 c1_i32_310 k1_t2
  let v537 : Index := Scalar.indexCast arg25
  let c48 : Index := 48#32
  ![0, v537.toNat, 48]
def k1_off10 (k1_t2 : Fin k1_t2_loop.trips) : Fin 3 → Nat :=
  let c0_i32_629 : BitVec 32 := 0#32
  let v540 : Index := Scalar.indexCast c0_i32_629
  let c0_i32_308 : BitVec 32 := 0#32
  let c1_i32_310 : BitVec 32 := 1#32
  let arg25 : BitVec 32 := Scf.iv c0_i32_308 c1_i32_310 k1_t2
  let v541 : Index := Scalar.indexCast arg25
  let c48_630 : Index := 48#32
  ![0, v541.toNat, 48]
def k1_off11 (i : grid1.Coords) (k1_t1 : Fin k1_t1_loop.trips) (c0_i32_300 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let c1_i32_51 : BitVec 32 := 1#32
  let arg24 : BitVec 32 := Scf.iv c0_i32_50 c1_i32_51 k1_t1
  let c8_i32 : BitVec 32 := 8#32
  let v237 : BitVec 32 := Scalar.muli arg24 c8_i32
  let v238 : BitVec 32 := Scalar.addi v237 c0_i32_300
  let v245 : BitVec 32 := Scalar.addi v2 v238
  let c0_i32_315 : BitVec 32 := 0#32
  let c0_i32_316 : BitVec 32 := 0#32
  ![v245.toNat, 0, 0]
@[reducible] def k1_t3_loop : Scf.Loop 32 :=
  let c0_i32_330 : BitVec 32 := 0#32
  let c50_i32_331 : BitVec 32 := 50#32
  let v261 : BitVec 32 := Scalar.addi c0_i32_330 c50_i32_331
  let c1_i32_332 : BitVec 32 := 1#32
  ⟨c0_i32_330, v261, c1_i32_332⟩
def k1_off12 (k1_t3 : Fin k1_t3_loop.trips) : Fin 3 → Nat :=
  let c1_i32_619 : BitVec 32 := 1#32
  let v509 : Index := Scalar.indexCast c1_i32_619
  let c0_i32_330 : BitVec 32 := 0#32
  let c1_i32_332 : BitVec 32 := 1#32
  let arg25 : BitVec 32 := Scf.iv c0_i32_330 c1_i32_332 k1_t3
  let v510 : Index := Scalar.indexCast arg25
  let c0 : Index := 0#32
  ![1, v510.toNat, 0]
def k1_off13 (k1_t3 : Fin k1_t3_loop.trips) : Fin 3 → Nat :=
  let c1_i32_620 : BitVec 32 := 1#32
  let v513 : Index := Scalar.indexCast c1_i32_620
  let c0_i32_330 : BitVec 32 := 0#32
  let c1_i32_332 : BitVec 32 := 1#32
  let arg25 : BitVec 32 := Scf.iv c0_i32_330 c1_i32_332 k1_t3
  let v514 : Index := Scalar.indexCast arg25
  let c0_621 : Index := 0#32
  ![1, v514.toNat, 0]
def k1_off14 (k1_t3 : Fin k1_t3_loop.trips) : Fin 3 → Nat :=
  let c1_i32_622 : BitVec 32 := 1#32
  let v518 : Index := Scalar.indexCast c1_i32_622
  let c0_i32_330 : BitVec 32 := 0#32
  let c1_i32_332 : BitVec 32 := 1#32
  let arg25 : BitVec 32 := Scf.iv c0_i32_330 c1_i32_332 k1_t3
  let v519 : Index := Scalar.indexCast arg25
  let c16 : Index := 16#32
  ![1, v519.toNat, 16]
def k1_off15 (k1_t3 : Fin k1_t3_loop.trips) : Fin 3 → Nat :=
  let c1_i32_623 : BitVec 32 := 1#32
  let v522 : Index := Scalar.indexCast c1_i32_623
  let c0_i32_330 : BitVec 32 := 0#32
  let c1_i32_332 : BitVec 32 := 1#32
  let arg25 : BitVec 32 := Scf.iv c0_i32_330 c1_i32_332 k1_t3
  let v523 : Index := Scalar.indexCast arg25
  let c16_624 : Index := 16#32
  ![1, v523.toNat, 16]
def k1_off16 (k1_t3 : Fin k1_t3_loop.trips) : Fin 3 → Nat :=
  let c1_i32_625 : BitVec 32 := 1#32
  let v527 : Index := Scalar.indexCast c1_i32_625
  let c0_i32_330 : BitVec 32 := 0#32
  let c1_i32_332 : BitVec 32 := 1#32
  let arg25 : BitVec 32 := Scf.iv c0_i32_330 c1_i32_332 k1_t3
  let v528 : Index := Scalar.indexCast arg25
  let c32 : Index := 32#32
  ![1, v528.toNat, 32]
def k1_off17 (k1_t3 : Fin k1_t3_loop.trips) : Fin 3 → Nat :=
  let c1_i32_626 : BitVec 32 := 1#32
  let v531 : Index := Scalar.indexCast c1_i32_626
  let c0_i32_330 : BitVec 32 := 0#32
  let c1_i32_332 : BitVec 32 := 1#32
  let arg25 : BitVec 32 := Scf.iv c0_i32_330 c1_i32_332 k1_t3
  let v532 : Index := Scalar.indexCast arg25
  let c32_627 : Index := 32#32
  ![1, v532.toNat, 32]
def k1_off18 (k1_t3 : Fin k1_t3_loop.trips) : Fin 3 → Nat :=
  let c1_i32_628 : BitVec 32 := 1#32
  let v536 : Index := Scalar.indexCast c1_i32_628
  let c0_i32_330 : BitVec 32 := 0#32
  let c1_i32_332 : BitVec 32 := 1#32
  let arg25 : BitVec 32 := Scf.iv c0_i32_330 c1_i32_332 k1_t3
  let v537 : Index := Scalar.indexCast arg25
  let c48 : Index := 48#32
  ![1, v537.toNat, 48]
def k1_off19 (k1_t3 : Fin k1_t3_loop.trips) : Fin 3 → Nat :=
  let c1_i32_629 : BitVec 32 := 1#32
  let v540 : Index := Scalar.indexCast c1_i32_629
  let c0_i32_330 : BitVec 32 := 0#32
  let c1_i32_332 : BitVec 32 := 1#32
  let arg25 : BitVec 32 := Scf.iv c0_i32_330 c1_i32_332 k1_t3
  let v541 : Index := Scalar.indexCast arg25
  let c48_630 : Index := 48#32
  ![1, v541.toNat, 48]
@[reducible] def k1_t4_loop : Scf.Loop 32 :=
  let c0_i32_352 : BitVec 32 := 0#32
  let c50_i32_353 : BitVec 32 := 50#32
  let v278 : BitVec 32 := Scalar.addi c0_i32_352 c50_i32_353
  let c1_i32_354 : BitVec 32 := 1#32
  ⟨c0_i32_352, v278, c1_i32_354⟩
def k1_off20 (k1_t4 : Fin k1_t4_loop.trips) : Fin 3 → Nat :=
  let c2_i32_619 : BitVec 32 := 2#32
  let v509 : Index := Scalar.indexCast c2_i32_619
  let c0_i32_352 : BitVec 32 := 0#32
  let c1_i32_354 : BitVec 32 := 1#32
  let arg25 : BitVec 32 := Scf.iv c0_i32_352 c1_i32_354 k1_t4
  let v510 : Index := Scalar.indexCast arg25
  let c0 : Index := 0#32
  ![2, v510.toNat, 0]
def k1_off21 (k1_t4 : Fin k1_t4_loop.trips) : Fin 3 → Nat :=
  let c2_i32_620 : BitVec 32 := 2#32
  let v513 : Index := Scalar.indexCast c2_i32_620
  let c0_i32_352 : BitVec 32 := 0#32
  let c1_i32_354 : BitVec 32 := 1#32
  let arg25 : BitVec 32 := Scf.iv c0_i32_352 c1_i32_354 k1_t4
  let v514 : Index := Scalar.indexCast arg25
  let c0_621 : Index := 0#32
  ![2, v514.toNat, 0]
def k1_off22 (k1_t4 : Fin k1_t4_loop.trips) : Fin 3 → Nat :=
  let c2_i32_622 : BitVec 32 := 2#32
  let v518 : Index := Scalar.indexCast c2_i32_622
  let c0_i32_352 : BitVec 32 := 0#32
  let c1_i32_354 : BitVec 32 := 1#32
  let arg25 : BitVec 32 := Scf.iv c0_i32_352 c1_i32_354 k1_t4
  let v519 : Index := Scalar.indexCast arg25
  let c16 : Index := 16#32
  ![2, v519.toNat, 16]
def k1_off23 (k1_t4 : Fin k1_t4_loop.trips) : Fin 3 → Nat :=
  let c2_i32_623 : BitVec 32 := 2#32
  let v522 : Index := Scalar.indexCast c2_i32_623
  let c0_i32_352 : BitVec 32 := 0#32
  let c1_i32_354 : BitVec 32 := 1#32
  let arg25 : BitVec 32 := Scf.iv c0_i32_352 c1_i32_354 k1_t4
  let v523 : Index := Scalar.indexCast arg25
  let c16_624 : Index := 16#32
  ![2, v523.toNat, 16]
def k1_off24 (k1_t4 : Fin k1_t4_loop.trips) : Fin 3 → Nat :=
  let c2_i32_625 : BitVec 32 := 2#32
  let v527 : Index := Scalar.indexCast c2_i32_625
  let c0_i32_352 : BitVec 32 := 0#32
  let c1_i32_354 : BitVec 32 := 1#32
  let arg25 : BitVec 32 := Scf.iv c0_i32_352 c1_i32_354 k1_t4
  let v528 : Index := Scalar.indexCast arg25
  let c32 : Index := 32#32
  ![2, v528.toNat, 32]
def k1_off25 (k1_t4 : Fin k1_t4_loop.trips) : Fin 3 → Nat :=
  let c2_i32_626 : BitVec 32 := 2#32
  let v531 : Index := Scalar.indexCast c2_i32_626
  let c0_i32_352 : BitVec 32 := 0#32
  let c1_i32_354 : BitVec 32 := 1#32
  let arg25 : BitVec 32 := Scf.iv c0_i32_352 c1_i32_354 k1_t4
  let v532 : Index := Scalar.indexCast arg25
  let c32_627 : Index := 32#32
  ![2, v532.toNat, 32]
def k1_off26 (k1_t4 : Fin k1_t4_loop.trips) : Fin 3 → Nat :=
  let c2_i32_628 : BitVec 32 := 2#32
  let v536 : Index := Scalar.indexCast c2_i32_628
  let c0_i32_352 : BitVec 32 := 0#32
  let c1_i32_354 : BitVec 32 := 1#32
  let arg25 : BitVec 32 := Scf.iv c0_i32_352 c1_i32_354 k1_t4
  let v537 : Index := Scalar.indexCast arg25
  let c48 : Index := 48#32
  ![2, v537.toNat, 48]
def k1_off27 (k1_t4 : Fin k1_t4_loop.trips) : Fin 3 → Nat :=
  let c2_i32_629 : BitVec 32 := 2#32
  let v540 : Index := Scalar.indexCast c2_i32_629
  let c0_i32_352 : BitVec 32 := 0#32
  let c1_i32_354 : BitVec 32 := 1#32
  let arg25 : BitVec 32 := Scf.iv c0_i32_352 c1_i32_354 k1_t4
  let v541 : Index := Scalar.indexCast arg25
  let c48_630 : Index := 48#32
  ![2, v541.toNat, 48]
@[reducible] def k1_t5_loop : Scf.Loop 32 :=
  let c0_i32_374 : BitVec 32 := 0#32
  let c50_i32_375 : BitVec 32 := 50#32
  let v295 : BitVec 32 := Scalar.addi c0_i32_374 c50_i32_375
  let c1_i32_376 : BitVec 32 := 1#32
  ⟨c0_i32_374, v295, c1_i32_376⟩
def k1_off28 (k1_t5 : Fin k1_t5_loop.trips) : Fin 3 → Nat :=
  let c3_i32_619 : BitVec 32 := 3#32
  let v509 : Index := Scalar.indexCast c3_i32_619
  let c0_i32_374 : BitVec 32 := 0#32
  let c1_i32_376 : BitVec 32 := 1#32
  let arg25 : BitVec 32 := Scf.iv c0_i32_374 c1_i32_376 k1_t5
  let v510 : Index := Scalar.indexCast arg25
  let c0 : Index := 0#32
  ![3, v510.toNat, 0]
def k1_off29 (k1_t5 : Fin k1_t5_loop.trips) : Fin 3 → Nat :=
  let c3_i32_620 : BitVec 32 := 3#32
  let v513 : Index := Scalar.indexCast c3_i32_620
  let c0_i32_374 : BitVec 32 := 0#32
  let c1_i32_376 : BitVec 32 := 1#32
  let arg25 : BitVec 32 := Scf.iv c0_i32_374 c1_i32_376 k1_t5
  let v514 : Index := Scalar.indexCast arg25
  let c0_621 : Index := 0#32
  ![3, v514.toNat, 0]
def k1_off30 (k1_t5 : Fin k1_t5_loop.trips) : Fin 3 → Nat :=
  let c3_i32_622 : BitVec 32 := 3#32
  let v518 : Index := Scalar.indexCast c3_i32_622
  let c0_i32_374 : BitVec 32 := 0#32
  let c1_i32_376 : BitVec 32 := 1#32
  let arg25 : BitVec 32 := Scf.iv c0_i32_374 c1_i32_376 k1_t5
  let v519 : Index := Scalar.indexCast arg25
  let c16 : Index := 16#32
  ![3, v519.toNat, 16]
def k1_off31 (k1_t5 : Fin k1_t5_loop.trips) : Fin 3 → Nat :=
  let c3_i32_623 : BitVec 32 := 3#32
  let v522 : Index := Scalar.indexCast c3_i32_623
  let c0_i32_374 : BitVec 32 := 0#32
  let c1_i32_376 : BitVec 32 := 1#32
  let arg25 : BitVec 32 := Scf.iv c0_i32_374 c1_i32_376 k1_t5
  let v523 : Index := Scalar.indexCast arg25
  let c16_624 : Index := 16#32
  ![3, v523.toNat, 16]
def k1_off32 (k1_t5 : Fin k1_t5_loop.trips) : Fin 3 → Nat :=
  let c3_i32_625 : BitVec 32 := 3#32
  let v527 : Index := Scalar.indexCast c3_i32_625
  let c0_i32_374 : BitVec 32 := 0#32
  let c1_i32_376 : BitVec 32 := 1#32
  let arg25 : BitVec 32 := Scf.iv c0_i32_374 c1_i32_376 k1_t5
  let v528 : Index := Scalar.indexCast arg25
  let c32 : Index := 32#32
  ![3, v528.toNat, 32]
def k1_off33 (k1_t5 : Fin k1_t5_loop.trips) : Fin 3 → Nat :=
  let c3_i32_626 : BitVec 32 := 3#32
  let v531 : Index := Scalar.indexCast c3_i32_626
  let c0_i32_374 : BitVec 32 := 0#32
  let c1_i32_376 : BitVec 32 := 1#32
  let arg25 : BitVec 32 := Scf.iv c0_i32_374 c1_i32_376 k1_t5
  let v532 : Index := Scalar.indexCast arg25
  let c32_627 : Index := 32#32
  ![3, v532.toNat, 32]
def k1_off34 (k1_t5 : Fin k1_t5_loop.trips) : Fin 3 → Nat :=
  let c3_i32_628 : BitVec 32 := 3#32
  let v536 : Index := Scalar.indexCast c3_i32_628
  let c0_i32_374 : BitVec 32 := 0#32
  let c1_i32_376 : BitVec 32 := 1#32
  let arg25 : BitVec 32 := Scf.iv c0_i32_374 c1_i32_376 k1_t5
  let v537 : Index := Scalar.indexCast arg25
  let c48 : Index := 48#32
  ![3, v537.toNat, 48]
def k1_off35 (k1_t5 : Fin k1_t5_loop.trips) : Fin 3 → Nat :=
  let c3_i32_629 : BitVec 32 := 3#32
  let v540 : Index := Scalar.indexCast c3_i32_629
  let c0_i32_374 : BitVec 32 := 0#32
  let c1_i32_376 : BitVec 32 := 1#32
  let arg25 : BitVec 32 := Scf.iv c0_i32_374 c1_i32_376 k1_t5
  let v541 : Index := Scalar.indexCast arg25
  let c48_630 : Index := 48#32
  ![3, v541.toNat, 48]
@[reducible] def k1_t6_loop : Scf.Loop 32 :=
  let c0_i32_396 : BitVec 32 := 0#32
  let c50_i32_397 : BitVec 32 := 50#32
  let v312 : BitVec 32 := Scalar.addi c0_i32_396 c50_i32_397
  let c1_i32_398 : BitVec 32 := 1#32
  ⟨c0_i32_396, v312, c1_i32_398⟩
def k1_off36 (k1_t6 : Fin k1_t6_loop.trips) : Fin 3 → Nat :=
  let c4_i32_619 : BitVec 32 := 4#32
  let v509 : Index := Scalar.indexCast c4_i32_619
  let c0_i32_396 : BitVec 32 := 0#32
  let c1_i32_398 : BitVec 32 := 1#32
  let arg25 : BitVec 32 := Scf.iv c0_i32_396 c1_i32_398 k1_t6
  let v510 : Index := Scalar.indexCast arg25
  let c0 : Index := 0#32
  ![4, v510.toNat, 0]
def k1_off37 (k1_t6 : Fin k1_t6_loop.trips) : Fin 3 → Nat :=
  let c4_i32_620 : BitVec 32 := 4#32
  let v513 : Index := Scalar.indexCast c4_i32_620
  let c0_i32_396 : BitVec 32 := 0#32
  let c1_i32_398 : BitVec 32 := 1#32
  let arg25 : BitVec 32 := Scf.iv c0_i32_396 c1_i32_398 k1_t6
  let v514 : Index := Scalar.indexCast arg25
  let c0_621 : Index := 0#32
  ![4, v514.toNat, 0]
def k1_off38 (k1_t6 : Fin k1_t6_loop.trips) : Fin 3 → Nat :=
  let c4_i32_622 : BitVec 32 := 4#32
  let v518 : Index := Scalar.indexCast c4_i32_622
  let c0_i32_396 : BitVec 32 := 0#32
  let c1_i32_398 : BitVec 32 := 1#32
  let arg25 : BitVec 32 := Scf.iv c0_i32_396 c1_i32_398 k1_t6
  let v519 : Index := Scalar.indexCast arg25
  let c16 : Index := 16#32
  ![4, v519.toNat, 16]
def k1_off39 (k1_t6 : Fin k1_t6_loop.trips) : Fin 3 → Nat :=
  let c4_i32_623 : BitVec 32 := 4#32
  let v522 : Index := Scalar.indexCast c4_i32_623
  let c0_i32_396 : BitVec 32 := 0#32
  let c1_i32_398 : BitVec 32 := 1#32
  let arg25 : BitVec 32 := Scf.iv c0_i32_396 c1_i32_398 k1_t6
  let v523 : Index := Scalar.indexCast arg25
  let c16_624 : Index := 16#32
  ![4, v523.toNat, 16]
def k1_off40 (k1_t6 : Fin k1_t6_loop.trips) : Fin 3 → Nat :=
  let c4_i32_625 : BitVec 32 := 4#32
  let v527 : Index := Scalar.indexCast c4_i32_625
  let c0_i32_396 : BitVec 32 := 0#32
  let c1_i32_398 : BitVec 32 := 1#32
  let arg25 : BitVec 32 := Scf.iv c0_i32_396 c1_i32_398 k1_t6
  let v528 : Index := Scalar.indexCast arg25
  let c32 : Index := 32#32
  ![4, v528.toNat, 32]
def k1_off41 (k1_t6 : Fin k1_t6_loop.trips) : Fin 3 → Nat :=
  let c4_i32_626 : BitVec 32 := 4#32
  let v531 : Index := Scalar.indexCast c4_i32_626
  let c0_i32_396 : BitVec 32 := 0#32
  let c1_i32_398 : BitVec 32 := 1#32
  let arg25 : BitVec 32 := Scf.iv c0_i32_396 c1_i32_398 k1_t6
  let v532 : Index := Scalar.indexCast arg25
  let c32_627 : Index := 32#32
  ![4, v532.toNat, 32]
def k1_off42 (k1_t6 : Fin k1_t6_loop.trips) : Fin 3 → Nat :=
  let c4_i32_628 : BitVec 32 := 4#32
  let v536 : Index := Scalar.indexCast c4_i32_628
  let c0_i32_396 : BitVec 32 := 0#32
  let c1_i32_398 : BitVec 32 := 1#32
  let arg25 : BitVec 32 := Scf.iv c0_i32_396 c1_i32_398 k1_t6
  let v537 : Index := Scalar.indexCast arg25
  let c48 : Index := 48#32
  ![4, v537.toNat, 48]
def k1_off43 (k1_t6 : Fin k1_t6_loop.trips) : Fin 3 → Nat :=
  let c4_i32_629 : BitVec 32 := 4#32
  let v540 : Index := Scalar.indexCast c4_i32_629
  let c0_i32_396 : BitVec 32 := 0#32
  let c1_i32_398 : BitVec 32 := 1#32
  let arg25 : BitVec 32 := Scf.iv c0_i32_396 c1_i32_398 k1_t6
  let v541 : Index := Scalar.indexCast arg25
  let c48_630 : Index := 48#32
  ![4, v541.toNat, 48]
@[reducible] def k1_t7_loop : Scf.Loop 32 :=
  let c0_i32_418 : BitVec 32 := 0#32
  let c50_i32_419 : BitVec 32 := 50#32
  let v329 : BitVec 32 := Scalar.addi c0_i32_418 c50_i32_419
  let c1_i32_420 : BitVec 32 := 1#32
  ⟨c0_i32_418, v329, c1_i32_420⟩
def k1_off44 (k1_t7 : Fin k1_t7_loop.trips) : Fin 3 → Nat :=
  let c5_i32_619 : BitVec 32 := 5#32
  let v509 : Index := Scalar.indexCast c5_i32_619
  let c0_i32_418 : BitVec 32 := 0#32
  let c1_i32_420 : BitVec 32 := 1#32
  let arg25 : BitVec 32 := Scf.iv c0_i32_418 c1_i32_420 k1_t7
  let v510 : Index := Scalar.indexCast arg25
  let c0 : Index := 0#32
  ![5, v510.toNat, 0]
def k1_off45 (k1_t7 : Fin k1_t7_loop.trips) : Fin 3 → Nat :=
  let c5_i32_620 : BitVec 32 := 5#32
  let v513 : Index := Scalar.indexCast c5_i32_620
  let c0_i32_418 : BitVec 32 := 0#32
  let c1_i32_420 : BitVec 32 := 1#32
  let arg25 : BitVec 32 := Scf.iv c0_i32_418 c1_i32_420 k1_t7
  let v514 : Index := Scalar.indexCast arg25
  let c0_621 : Index := 0#32
  ![5, v514.toNat, 0]
def k1_off46 (k1_t7 : Fin k1_t7_loop.trips) : Fin 3 → Nat :=
  let c5_i32_622 : BitVec 32 := 5#32
  let v518 : Index := Scalar.indexCast c5_i32_622
  let c0_i32_418 : BitVec 32 := 0#32
  let c1_i32_420 : BitVec 32 := 1#32
  let arg25 : BitVec 32 := Scf.iv c0_i32_418 c1_i32_420 k1_t7
  let v519 : Index := Scalar.indexCast arg25
  let c16 : Index := 16#32
  ![5, v519.toNat, 16]
def k1_off47 (k1_t7 : Fin k1_t7_loop.trips) : Fin 3 → Nat :=
  let c5_i32_623 : BitVec 32 := 5#32
  let v522 : Index := Scalar.indexCast c5_i32_623
  let c0_i32_418 : BitVec 32 := 0#32
  let c1_i32_420 : BitVec 32 := 1#32
  let arg25 : BitVec 32 := Scf.iv c0_i32_418 c1_i32_420 k1_t7
  let v523 : Index := Scalar.indexCast arg25
  let c16_624 : Index := 16#32
  ![5, v523.toNat, 16]
def k1_off48 (k1_t7 : Fin k1_t7_loop.trips) : Fin 3 → Nat :=
  let c5_i32_625 : BitVec 32 := 5#32
  let v527 : Index := Scalar.indexCast c5_i32_625
  let c0_i32_418 : BitVec 32 := 0#32
  let c1_i32_420 : BitVec 32 := 1#32
  let arg25 : BitVec 32 := Scf.iv c0_i32_418 c1_i32_420 k1_t7
  let v528 : Index := Scalar.indexCast arg25
  let c32 : Index := 32#32
  ![5, v528.toNat, 32]
def k1_off49 (k1_t7 : Fin k1_t7_loop.trips) : Fin 3 → Nat :=
  let c5_i32_626 : BitVec 32 := 5#32
  let v531 : Index := Scalar.indexCast c5_i32_626
  let c0_i32_418 : BitVec 32 := 0#32
  let c1_i32_420 : BitVec 32 := 1#32
  let arg25 : BitVec 32 := Scf.iv c0_i32_418 c1_i32_420 k1_t7
  let v532 : Index := Scalar.indexCast arg25
  let c32_627 : Index := 32#32
  ![5, v532.toNat, 32]
def k1_off50 (k1_t7 : Fin k1_t7_loop.trips) : Fin 3 → Nat :=
  let c5_i32_628 : BitVec 32 := 5#32
  let v536 : Index := Scalar.indexCast c5_i32_628
  let c0_i32_418 : BitVec 32 := 0#32
  let c1_i32_420 : BitVec 32 := 1#32
  let arg25 : BitVec 32 := Scf.iv c0_i32_418 c1_i32_420 k1_t7
  let v537 : Index := Scalar.indexCast arg25
  let c48 : Index := 48#32
  ![5, v537.toNat, 48]
def k1_off51 (k1_t7 : Fin k1_t7_loop.trips) : Fin 3 → Nat :=
  let c5_i32_629 : BitVec 32 := 5#32
  let v540 : Index := Scalar.indexCast c5_i32_629
  let c0_i32_418 : BitVec 32 := 0#32
  let c1_i32_420 : BitVec 32 := 1#32
  let arg25 : BitVec 32 := Scf.iv c0_i32_418 c1_i32_420 k1_t7
  let v541 : Index := Scalar.indexCast arg25
  let c48_630 : Index := 48#32
  ![5, v541.toNat, 48]
@[reducible] def k1_t8_loop : Scf.Loop 32 :=
  let c0_i32_440 : BitVec 32 := 0#32
  let c50_i32_441 : BitVec 32 := 50#32
  let v346 : BitVec 32 := Scalar.addi c0_i32_440 c50_i32_441
  let c1_i32_442 : BitVec 32 := 1#32
  ⟨c0_i32_440, v346, c1_i32_442⟩
def k1_off52 (k1_t8 : Fin k1_t8_loop.trips) : Fin 3 → Nat :=
  let c6_i32_619 : BitVec 32 := 6#32
  let v509 : Index := Scalar.indexCast c6_i32_619
  let c0_i32_440 : BitVec 32 := 0#32
  let c1_i32_442 : BitVec 32 := 1#32
  let arg25 : BitVec 32 := Scf.iv c0_i32_440 c1_i32_442 k1_t8
  let v510 : Index := Scalar.indexCast arg25
  let c0 : Index := 0#32
  ![6, v510.toNat, 0]
def k1_off53 (k1_t8 : Fin k1_t8_loop.trips) : Fin 3 → Nat :=
  let c6_i32_620 : BitVec 32 := 6#32
  let v513 : Index := Scalar.indexCast c6_i32_620
  let c0_i32_440 : BitVec 32 := 0#32
  let c1_i32_442 : BitVec 32 := 1#32
  let arg25 : BitVec 32 := Scf.iv c0_i32_440 c1_i32_442 k1_t8
  let v514 : Index := Scalar.indexCast arg25
  let c0_621 : Index := 0#32
  ![6, v514.toNat, 0]
def k1_off54 (k1_t8 : Fin k1_t8_loop.trips) : Fin 3 → Nat :=
  let c6_i32_622 : BitVec 32 := 6#32
  let v518 : Index := Scalar.indexCast c6_i32_622
  let c0_i32_440 : BitVec 32 := 0#32
  let c1_i32_442 : BitVec 32 := 1#32
  let arg25 : BitVec 32 := Scf.iv c0_i32_440 c1_i32_442 k1_t8
  let v519 : Index := Scalar.indexCast arg25
  let c16 : Index := 16#32
  ![6, v519.toNat, 16]
def k1_off55 (k1_t8 : Fin k1_t8_loop.trips) : Fin 3 → Nat :=
  let c6_i32_623 : BitVec 32 := 6#32
  let v522 : Index := Scalar.indexCast c6_i32_623
  let c0_i32_440 : BitVec 32 := 0#32
  let c1_i32_442 : BitVec 32 := 1#32
  let arg25 : BitVec 32 := Scf.iv c0_i32_440 c1_i32_442 k1_t8
  let v523 : Index := Scalar.indexCast arg25
  let c16_624 : Index := 16#32
  ![6, v523.toNat, 16]
def k1_off56 (k1_t8 : Fin k1_t8_loop.trips) : Fin 3 → Nat :=
  let c6_i32_625 : BitVec 32 := 6#32
  let v527 : Index := Scalar.indexCast c6_i32_625
  let c0_i32_440 : BitVec 32 := 0#32
  let c1_i32_442 : BitVec 32 := 1#32
  let arg25 : BitVec 32 := Scf.iv c0_i32_440 c1_i32_442 k1_t8
  let v528 : Index := Scalar.indexCast arg25
  let c32 : Index := 32#32
  ![6, v528.toNat, 32]
def k1_off57 (k1_t8 : Fin k1_t8_loop.trips) : Fin 3 → Nat :=
  let c6_i32_626 : BitVec 32 := 6#32
  let v531 : Index := Scalar.indexCast c6_i32_626
  let c0_i32_440 : BitVec 32 := 0#32
  let c1_i32_442 : BitVec 32 := 1#32
  let arg25 : BitVec 32 := Scf.iv c0_i32_440 c1_i32_442 k1_t8
  let v532 : Index := Scalar.indexCast arg25
  let c32_627 : Index := 32#32
  ![6, v532.toNat, 32]
def k1_off58 (k1_t8 : Fin k1_t8_loop.trips) : Fin 3 → Nat :=
  let c6_i32_628 : BitVec 32 := 6#32
  let v536 : Index := Scalar.indexCast c6_i32_628
  let c0_i32_440 : BitVec 32 := 0#32
  let c1_i32_442 : BitVec 32 := 1#32
  let arg25 : BitVec 32 := Scf.iv c0_i32_440 c1_i32_442 k1_t8
  let v537 : Index := Scalar.indexCast arg25
  let c48 : Index := 48#32
  ![6, v537.toNat, 48]
def k1_off59 (k1_t8 : Fin k1_t8_loop.trips) : Fin 3 → Nat :=
  let c6_i32_629 : BitVec 32 := 6#32
  let v540 : Index := Scalar.indexCast c6_i32_629
  let c0_i32_440 : BitVec 32 := 0#32
  let c1_i32_442 : BitVec 32 := 1#32
  let arg25 : BitVec 32 := Scf.iv c0_i32_440 c1_i32_442 k1_t8
  let v541 : Index := Scalar.indexCast arg25
  let c48_630 : Index := 48#32
  ![6, v541.toNat, 48]
@[reducible] def k1_t9_loop : Scf.Loop 32 :=
  let c0_i32_462 : BitVec 32 := 0#32
  let c50_i32_463 : BitVec 32 := 50#32
  let v363 : BitVec 32 := Scalar.addi c0_i32_462 c50_i32_463
  let c1_i32_464 : BitVec 32 := 1#32
  ⟨c0_i32_462, v363, c1_i32_464⟩
def k1_off60 (k1_t9 : Fin k1_t9_loop.trips) : Fin 3 → Nat :=
  let c7_i32_619 : BitVec 32 := 7#32
  let v509 : Index := Scalar.indexCast c7_i32_619
  let c0_i32_462 : BitVec 32 := 0#32
  let c1_i32_464 : BitVec 32 := 1#32
  let arg25 : BitVec 32 := Scf.iv c0_i32_462 c1_i32_464 k1_t9
  let v510 : Index := Scalar.indexCast arg25
  let c0 : Index := 0#32
  ![7, v510.toNat, 0]
def k1_off61 (k1_t9 : Fin k1_t9_loop.trips) : Fin 3 → Nat :=
  let c7_i32_620 : BitVec 32 := 7#32
  let v513 : Index := Scalar.indexCast c7_i32_620
  let c0_i32_462 : BitVec 32 := 0#32
  let c1_i32_464 : BitVec 32 := 1#32
  let arg25 : BitVec 32 := Scf.iv c0_i32_462 c1_i32_464 k1_t9
  let v514 : Index := Scalar.indexCast arg25
  let c0_621 : Index := 0#32
  ![7, v514.toNat, 0]
def k1_off62 (k1_t9 : Fin k1_t9_loop.trips) : Fin 3 → Nat :=
  let c7_i32_622 : BitVec 32 := 7#32
  let v518 : Index := Scalar.indexCast c7_i32_622
  let c0_i32_462 : BitVec 32 := 0#32
  let c1_i32_464 : BitVec 32 := 1#32
  let arg25 : BitVec 32 := Scf.iv c0_i32_462 c1_i32_464 k1_t9
  let v519 : Index := Scalar.indexCast arg25
  let c16 : Index := 16#32
  ![7, v519.toNat, 16]
def k1_off63 (k1_t9 : Fin k1_t9_loop.trips) : Fin 3 → Nat :=
  let c7_i32_623 : BitVec 32 := 7#32
  let v522 : Index := Scalar.indexCast c7_i32_623
  let c0_i32_462 : BitVec 32 := 0#32
  let c1_i32_464 : BitVec 32 := 1#32
  let arg25 : BitVec 32 := Scf.iv c0_i32_462 c1_i32_464 k1_t9
  let v523 : Index := Scalar.indexCast arg25
  let c16_624 : Index := 16#32
  ![7, v523.toNat, 16]
def k1_off64 (k1_t9 : Fin k1_t9_loop.trips) : Fin 3 → Nat :=
  let c7_i32_625 : BitVec 32 := 7#32
  let v527 : Index := Scalar.indexCast c7_i32_625
  let c0_i32_462 : BitVec 32 := 0#32
  let c1_i32_464 : BitVec 32 := 1#32
  let arg25 : BitVec 32 := Scf.iv c0_i32_462 c1_i32_464 k1_t9
  let v528 : Index := Scalar.indexCast arg25
  let c32 : Index := 32#32
  ![7, v528.toNat, 32]
def k1_off65 (k1_t9 : Fin k1_t9_loop.trips) : Fin 3 → Nat :=
  let c7_i32_626 : BitVec 32 := 7#32
  let v531 : Index := Scalar.indexCast c7_i32_626
  let c0_i32_462 : BitVec 32 := 0#32
  let c1_i32_464 : BitVec 32 := 1#32
  let arg25 : BitVec 32 := Scf.iv c0_i32_462 c1_i32_464 k1_t9
  let v532 : Index := Scalar.indexCast arg25
  let c32_627 : Index := 32#32
  ![7, v532.toNat, 32]
def k1_off66 (k1_t9 : Fin k1_t9_loop.trips) : Fin 3 → Nat :=
  let c7_i32_628 : BitVec 32 := 7#32
  let v536 : Index := Scalar.indexCast c7_i32_628
  let c0_i32_462 : BitVec 32 := 0#32
  let c1_i32_464 : BitVec 32 := 1#32
  let arg25 : BitVec 32 := Scf.iv c0_i32_462 c1_i32_464 k1_t9
  let v537 : Index := Scalar.indexCast arg25
  let c48 : Index := 48#32
  ![7, v537.toNat, 48]
def k1_off67 (k1_t9 : Fin k1_t9_loop.trips) : Fin 3 → Nat :=
  let c7_i32_629 : BitVec 32 := 7#32
  let v540 : Index := Scalar.indexCast c7_i32_629
  let c0_i32_462 : BitVec 32 := 0#32
  let c1_i32_464 : BitVec 32 := 1#32
  let arg25 : BitVec 32 := Scf.iv c0_i32_462 c1_i32_464 k1_t9
  let v541 : Index := Scalar.indexCast arg25
  let c48_630 : Index := 48#32
  ![7, v541.toNat, 48]
def k1_off68 (k1_t1 : Fin k1_t1_loop.trips) (c0_i32_476 : BitVec 32) : Fin 2 → Nat :=
  let c0_i32_50 : BitVec 32 := 0#32
  let c1_i32_51 : BitVec 32 := 1#32
  let arg24 : BitVec 32 := Scf.iv c0_i32_50 c1_i32_51 k1_t1
  let c8_i32_475 : BitVec 32 := 8#32
  let v373 : BitVec 32 := Scalar.muli arg24 c8_i32_475
  let v374 : BitVec 32 := Scalar.addi v373 c0_i32_476
  let c8_i32_486 : BitVec 32 := 8#32
  let v384 : BitVec 32 := Scalar.addi v374 c8_i32_486
  let c0_i32_490 : BitVec 32 := 0#32
  ![v384.toNat, 0]
@[reducible] def k1_t10_loop : Scf.Loop 32 :=
  let c0_i32_60 : BitVec 32 := 0#32
  let c50_i32 : BitVec 32 := 50#32
  let v50 : BitVec 32 := Scalar.addi c0_i32_60 c50_i32
  let c1_i32_61 : BitVec 32 := 1#32
  ⟨c0_i32_60, v50, c1_i32_61⟩
def k1_off69 (k1_t10 : Fin k1_t10_loop.trips) : Fin 3 → Nat :=
  let c0_i32_300 : BitVec 32 := 0#32
  let v237 : Index := Scalar.indexCast c0_i32_300
  let c0_i32_60 : BitVec 32 := 0#32
  let c1_i32_61 : BitVec 32 := 1#32
  let arg24 : BitVec 32 := Scf.iv c0_i32_60 c1_i32_61 k1_t10
  let v238 : Index := Scalar.indexCast arg24
  let c0 : Index := 0#32
  ![0, v238.toNat, 0]
def k1_off70 (k1_t10 : Fin k1_t10_loop.trips) : Fin 3 → Nat :=
  let c0_i32_301 : BitVec 32 := 0#32
  let v241 : Index := Scalar.indexCast c0_i32_301
  let c0_i32_60 : BitVec 32 := 0#32
  let c1_i32_61 : BitVec 32 := 1#32
  let arg24 : BitVec 32 := Scf.iv c0_i32_60 c1_i32_61 k1_t10
  let v242 : Index := Scalar.indexCast arg24
  let c0_302 : Index := 0#32
  ![0, v242.toNat, 0]
def k1_off71 (k1_t10 : Fin k1_t10_loop.trips) : Fin 3 → Nat :=
  let c0_i32_303 : BitVec 32 := 0#32
  let v246 : Index := Scalar.indexCast c0_i32_303
  let c0_i32_60 : BitVec 32 := 0#32
  let c1_i32_61 : BitVec 32 := 1#32
  let arg24 : BitVec 32 := Scf.iv c0_i32_60 c1_i32_61 k1_t10
  let v247 : Index := Scalar.indexCast arg24
  let c16 : Index := 16#32
  ![0, v247.toNat, 16]
def k1_off72 (k1_t10 : Fin k1_t10_loop.trips) : Fin 3 → Nat :=
  let c0_i32_304 : BitVec 32 := 0#32
  let v250 : Index := Scalar.indexCast c0_i32_304
  let c0_i32_60 : BitVec 32 := 0#32
  let c1_i32_61 : BitVec 32 := 1#32
  let arg24 : BitVec 32 := Scf.iv c0_i32_60 c1_i32_61 k1_t10
  let v251 : Index := Scalar.indexCast arg24
  let c16_305 : Index := 16#32
  ![0, v251.toNat, 16]
def k1_off73 (k1_t10 : Fin k1_t10_loop.trips) : Fin 3 → Nat :=
  let c0_i32_306 : BitVec 32 := 0#32
  let v255 : Index := Scalar.indexCast c0_i32_306
  let c0_i32_60 : BitVec 32 := 0#32
  let c1_i32_61 : BitVec 32 := 1#32
  let arg24 : BitVec 32 := Scf.iv c0_i32_60 c1_i32_61 k1_t10
  let v256 : Index := Scalar.indexCast arg24
  let c32 : Index := 32#32
  ![0, v256.toNat, 32]
def k1_off74 (k1_t10 : Fin k1_t10_loop.trips) : Fin 3 → Nat :=
  let c0_i32_307 : BitVec 32 := 0#32
  let v259 : Index := Scalar.indexCast c0_i32_307
  let c0_i32_60 : BitVec 32 := 0#32
  let c1_i32_61 : BitVec 32 := 1#32
  let arg24 : BitVec 32 := Scf.iv c0_i32_60 c1_i32_61 k1_t10
  let v260 : Index := Scalar.indexCast arg24
  let c32_308 : Index := 32#32
  ![0, v260.toNat, 32]
def k1_off75 (k1_t10 : Fin k1_t10_loop.trips) : Fin 3 → Nat :=
  let c0_i32_309 : BitVec 32 := 0#32
  let v264 : Index := Scalar.indexCast c0_i32_309
  let c0_i32_60 : BitVec 32 := 0#32
  let c1_i32_61 : BitVec 32 := 1#32
  let arg24 : BitVec 32 := Scf.iv c0_i32_60 c1_i32_61 k1_t10
  let v265 : Index := Scalar.indexCast arg24
  let c48 : Index := 48#32
  ![0, v265.toNat, 48]
def k1_off76 (k1_t10 : Fin k1_t10_loop.trips) : Fin 3 → Nat :=
  let c0_i32_310 : BitVec 32 := 0#32
  let v268 : Index := Scalar.indexCast c0_i32_310
  let c0_i32_60 : BitVec 32 := 0#32
  let c1_i32_61 : BitVec 32 := 1#32
  let arg24 : BitVec 32 := Scf.iv c0_i32_60 c1_i32_61 k1_t10
  let v269 : Index := Scalar.indexCast arg24
  let c48_311 : Index := 48#32
  ![0, v269.toNat, 48]
def k1_off77 (i : grid1.Coords) (c120_i32_63 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v51 : BitVec 32 := Scalar.addi v2 c120_i32_63
  let c0_i32_67 : BitVec 32 := 0#32
  let c0_i32_68 : BitVec 32 := 0#32
  ![v51.toNat, 0, 0]
@[reducible] def k1_t11_loop : Scf.Loop 32 :=
  let c0_i32_80 : BitVec 32 := 0#32
  let c50_i32_81 : BitVec 32 := 50#32
  let v65 : BitVec 32 := Scalar.addi c0_i32_80 c50_i32_81
  let c1_i32_82 : BitVec 32 := 1#32
  ⟨c0_i32_80, v65, c1_i32_82⟩
def k1_off78 (k1_t11 : Fin k1_t11_loop.trips) : Fin 3 → Nat :=
  let c1_i32_300 : BitVec 32 := 1#32
  let v237 : Index := Scalar.indexCast c1_i32_300
  let c0_i32_80 : BitVec 32 := 0#32
  let c1_i32_82 : BitVec 32 := 1#32
  let arg24 : BitVec 32 := Scf.iv c0_i32_80 c1_i32_82 k1_t11
  let v238 : Index := Scalar.indexCast arg24
  let c0 : Index := 0#32
  ![1, v238.toNat, 0]
def k1_off79 (k1_t11 : Fin k1_t11_loop.trips) : Fin 3 → Nat :=
  let c1_i32_301 : BitVec 32 := 1#32
  let v241 : Index := Scalar.indexCast c1_i32_301
  let c0_i32_80 : BitVec 32 := 0#32
  let c1_i32_82 : BitVec 32 := 1#32
  let arg24 : BitVec 32 := Scf.iv c0_i32_80 c1_i32_82 k1_t11
  let v242 : Index := Scalar.indexCast arg24
  let c0_302 : Index := 0#32
  ![1, v242.toNat, 0]
def k1_off80 (k1_t11 : Fin k1_t11_loop.trips) : Fin 3 → Nat :=
  let c1_i32_303 : BitVec 32 := 1#32
  let v246 : Index := Scalar.indexCast c1_i32_303
  let c0_i32_80 : BitVec 32 := 0#32
  let c1_i32_82 : BitVec 32 := 1#32
  let arg24 : BitVec 32 := Scf.iv c0_i32_80 c1_i32_82 k1_t11
  let v247 : Index := Scalar.indexCast arg24
  let c16 : Index := 16#32
  ![1, v247.toNat, 16]
def k1_off81 (k1_t11 : Fin k1_t11_loop.trips) : Fin 3 → Nat :=
  let c1_i32_304 : BitVec 32 := 1#32
  let v250 : Index := Scalar.indexCast c1_i32_304
  let c0_i32_80 : BitVec 32 := 0#32
  let c1_i32_82 : BitVec 32 := 1#32
  let arg24 : BitVec 32 := Scf.iv c0_i32_80 c1_i32_82 k1_t11
  let v251 : Index := Scalar.indexCast arg24
  let c16_305 : Index := 16#32
  ![1, v251.toNat, 16]
def k1_off82 (k1_t11 : Fin k1_t11_loop.trips) : Fin 3 → Nat :=
  let c1_i32_306 : BitVec 32 := 1#32
  let v255 : Index := Scalar.indexCast c1_i32_306
  let c0_i32_80 : BitVec 32 := 0#32
  let c1_i32_82 : BitVec 32 := 1#32
  let arg24 : BitVec 32 := Scf.iv c0_i32_80 c1_i32_82 k1_t11
  let v256 : Index := Scalar.indexCast arg24
  let c32 : Index := 32#32
  ![1, v256.toNat, 32]
def k1_off83 (k1_t11 : Fin k1_t11_loop.trips) : Fin 3 → Nat :=
  let c1_i32_307 : BitVec 32 := 1#32
  let v259 : Index := Scalar.indexCast c1_i32_307
  let c0_i32_80 : BitVec 32 := 0#32
  let c1_i32_82 : BitVec 32 := 1#32
  let arg24 : BitVec 32 := Scf.iv c0_i32_80 c1_i32_82 k1_t11
  let v260 : Index := Scalar.indexCast arg24
  let c32_308 : Index := 32#32
  ![1, v260.toNat, 32]
def k1_off84 (k1_t11 : Fin k1_t11_loop.trips) : Fin 3 → Nat :=
  let c1_i32_309 : BitVec 32 := 1#32
  let v264 : Index := Scalar.indexCast c1_i32_309
  let c0_i32_80 : BitVec 32 := 0#32
  let c1_i32_82 : BitVec 32 := 1#32
  let arg24 : BitVec 32 := Scf.iv c0_i32_80 c1_i32_82 k1_t11
  let v265 : Index := Scalar.indexCast arg24
  let c48 : Index := 48#32
  ![1, v265.toNat, 48]
def k1_off85 (k1_t11 : Fin k1_t11_loop.trips) : Fin 3 → Nat :=
  let c1_i32_310 : BitVec 32 := 1#32
  let v268 : Index := Scalar.indexCast c1_i32_310
  let c0_i32_80 : BitVec 32 := 0#32
  let c1_i32_82 : BitVec 32 := 1#32
  let arg24 : BitVec 32 := Scf.iv c0_i32_80 c1_i32_82 k1_t11
  let v269 : Index := Scalar.indexCast arg24
  let c48_311 : Index := 48#32
  ![1, v269.toNat, 48]
@[reducible] def k1_t12_loop : Scf.Loop 32 :=
  let c0_i32_101 : BitVec 32 := 0#32
  let c50_i32_102 : BitVec 32 := 50#32
  let v80 : BitVec 32 := Scalar.addi c0_i32_101 c50_i32_102
  let c1_i32_103 : BitVec 32 := 1#32
  ⟨c0_i32_101, v80, c1_i32_103⟩
def k1_off86 (k1_t12 : Fin k1_t12_loop.trips) : Fin 3 → Nat :=
  let c2_i32_300 : BitVec 32 := 2#32
  let v237 : Index := Scalar.indexCast c2_i32_300
  let c0_i32_101 : BitVec 32 := 0#32
  let c1_i32_103 : BitVec 32 := 1#32
  let arg24 : BitVec 32 := Scf.iv c0_i32_101 c1_i32_103 k1_t12
  let v238 : Index := Scalar.indexCast arg24
  let c0 : Index := 0#32
  ![2, v238.toNat, 0]
def k1_off87 (k1_t12 : Fin k1_t12_loop.trips) : Fin 3 → Nat :=
  let c2_i32_301 : BitVec 32 := 2#32
  let v241 : Index := Scalar.indexCast c2_i32_301
  let c0_i32_101 : BitVec 32 := 0#32
  let c1_i32_103 : BitVec 32 := 1#32
  let arg24 : BitVec 32 := Scf.iv c0_i32_101 c1_i32_103 k1_t12
  let v242 : Index := Scalar.indexCast arg24
  let c0_302 : Index := 0#32
  ![2, v242.toNat, 0]
def k1_off88 (k1_t12 : Fin k1_t12_loop.trips) : Fin 3 → Nat :=
  let c2_i32_303 : BitVec 32 := 2#32
  let v246 : Index := Scalar.indexCast c2_i32_303
  let c0_i32_101 : BitVec 32 := 0#32
  let c1_i32_103 : BitVec 32 := 1#32
  let arg24 : BitVec 32 := Scf.iv c0_i32_101 c1_i32_103 k1_t12
  let v247 : Index := Scalar.indexCast arg24
  let c16 : Index := 16#32
  ![2, v247.toNat, 16]
def k1_off89 (k1_t12 : Fin k1_t12_loop.trips) : Fin 3 → Nat :=
  let c2_i32_304 : BitVec 32 := 2#32
  let v250 : Index := Scalar.indexCast c2_i32_304
  let c0_i32_101 : BitVec 32 := 0#32
  let c1_i32_103 : BitVec 32 := 1#32
  let arg24 : BitVec 32 := Scf.iv c0_i32_101 c1_i32_103 k1_t12
  let v251 : Index := Scalar.indexCast arg24
  let c16_305 : Index := 16#32
  ![2, v251.toNat, 16]
def k1_off90 (k1_t12 : Fin k1_t12_loop.trips) : Fin 3 → Nat :=
  let c2_i32_306 : BitVec 32 := 2#32
  let v255 : Index := Scalar.indexCast c2_i32_306
  let c0_i32_101 : BitVec 32 := 0#32
  let c1_i32_103 : BitVec 32 := 1#32
  let arg24 : BitVec 32 := Scf.iv c0_i32_101 c1_i32_103 k1_t12
  let v256 : Index := Scalar.indexCast arg24
  let c32 : Index := 32#32
  ![2, v256.toNat, 32]
def k1_off91 (k1_t12 : Fin k1_t12_loop.trips) : Fin 3 → Nat :=
  let c2_i32_307 : BitVec 32 := 2#32
  let v259 : Index := Scalar.indexCast c2_i32_307
  let c0_i32_101 : BitVec 32 := 0#32
  let c1_i32_103 : BitVec 32 := 1#32
  let arg24 : BitVec 32 := Scf.iv c0_i32_101 c1_i32_103 k1_t12
  let v260 : Index := Scalar.indexCast arg24
  let c32_308 : Index := 32#32
  ![2, v260.toNat, 32]
def k1_off92 (k1_t12 : Fin k1_t12_loop.trips) : Fin 3 → Nat :=
  let c2_i32_309 : BitVec 32 := 2#32
  let v264 : Index := Scalar.indexCast c2_i32_309
  let c0_i32_101 : BitVec 32 := 0#32
  let c1_i32_103 : BitVec 32 := 1#32
  let arg24 : BitVec 32 := Scf.iv c0_i32_101 c1_i32_103 k1_t12
  let v265 : Index := Scalar.indexCast arg24
  let c48 : Index := 48#32
  ![2, v265.toNat, 48]
def k1_off93 (k1_t12 : Fin k1_t12_loop.trips) : Fin 3 → Nat :=
  let c2_i32_310 : BitVec 32 := 2#32
  let v268 : Index := Scalar.indexCast c2_i32_310
  let c0_i32_101 : BitVec 32 := 0#32
  let c1_i32_103 : BitVec 32 := 1#32
  let arg24 : BitVec 32 := Scf.iv c0_i32_101 c1_i32_103 k1_t12
  let v269 : Index := Scalar.indexCast arg24
  let c48_311 : Index := 48#32
  ![2, v269.toNat, 48]
@[reducible] def k1_t13_loop : Scf.Loop 32 :=
  let c0_i32_122 : BitVec 32 := 0#32
  let c50_i32_123 : BitVec 32 := 50#32
  let v95 : BitVec 32 := Scalar.addi c0_i32_122 c50_i32_123
  let c1_i32_124 : BitVec 32 := 1#32
  ⟨c0_i32_122, v95, c1_i32_124⟩
def k1_off94 (k1_t13 : Fin k1_t13_loop.trips) : Fin 3 → Nat :=
  let c3_i32_300 : BitVec 32 := 3#32
  let v237 : Index := Scalar.indexCast c3_i32_300
  let c0_i32_122 : BitVec 32 := 0#32
  let c1_i32_124 : BitVec 32 := 1#32
  let arg24 : BitVec 32 := Scf.iv c0_i32_122 c1_i32_124 k1_t13
  let v238 : Index := Scalar.indexCast arg24
  let c0 : Index := 0#32
  ![3, v238.toNat, 0]
def k1_off95 (k1_t13 : Fin k1_t13_loop.trips) : Fin 3 → Nat :=
  let c3_i32_301 : BitVec 32 := 3#32
  let v241 : Index := Scalar.indexCast c3_i32_301
  let c0_i32_122 : BitVec 32 := 0#32
  let c1_i32_124 : BitVec 32 := 1#32
  let arg24 : BitVec 32 := Scf.iv c0_i32_122 c1_i32_124 k1_t13
  let v242 : Index := Scalar.indexCast arg24
  let c0_302 : Index := 0#32
  ![3, v242.toNat, 0]
def k1_off96 (k1_t13 : Fin k1_t13_loop.trips) : Fin 3 → Nat :=
  let c3_i32_303 : BitVec 32 := 3#32
  let v246 : Index := Scalar.indexCast c3_i32_303
  let c0_i32_122 : BitVec 32 := 0#32
  let c1_i32_124 : BitVec 32 := 1#32
  let arg24 : BitVec 32 := Scf.iv c0_i32_122 c1_i32_124 k1_t13
  let v247 : Index := Scalar.indexCast arg24
  let c16 : Index := 16#32
  ![3, v247.toNat, 16]
def k1_off97 (k1_t13 : Fin k1_t13_loop.trips) : Fin 3 → Nat :=
  let c3_i32_304 : BitVec 32 := 3#32
  let v250 : Index := Scalar.indexCast c3_i32_304
  let c0_i32_122 : BitVec 32 := 0#32
  let c1_i32_124 : BitVec 32 := 1#32
  let arg24 : BitVec 32 := Scf.iv c0_i32_122 c1_i32_124 k1_t13
  let v251 : Index := Scalar.indexCast arg24
  let c16_305 : Index := 16#32
  ![3, v251.toNat, 16]
def k1_off98 (k1_t13 : Fin k1_t13_loop.trips) : Fin 3 → Nat :=
  let c3_i32_306 : BitVec 32 := 3#32
  let v255 : Index := Scalar.indexCast c3_i32_306
  let c0_i32_122 : BitVec 32 := 0#32
  let c1_i32_124 : BitVec 32 := 1#32
  let arg24 : BitVec 32 := Scf.iv c0_i32_122 c1_i32_124 k1_t13
  let v256 : Index := Scalar.indexCast arg24
  let c32 : Index := 32#32
  ![3, v256.toNat, 32]
def k1_off99 (k1_t13 : Fin k1_t13_loop.trips) : Fin 3 → Nat :=
  let c3_i32_307 : BitVec 32 := 3#32
  let v259 : Index := Scalar.indexCast c3_i32_307
  let c0_i32_122 : BitVec 32 := 0#32
  let c1_i32_124 : BitVec 32 := 1#32
  let arg24 : BitVec 32 := Scf.iv c0_i32_122 c1_i32_124 k1_t13
  let v260 : Index := Scalar.indexCast arg24
  let c32_308 : Index := 32#32
  ![3, v260.toNat, 32]
def k1_off100 (k1_t13 : Fin k1_t13_loop.trips) : Fin 3 → Nat :=
  let c3_i32_309 : BitVec 32 := 3#32
  let v264 : Index := Scalar.indexCast c3_i32_309
  let c0_i32_122 : BitVec 32 := 0#32
  let c1_i32_124 : BitVec 32 := 1#32
  let arg24 : BitVec 32 := Scf.iv c0_i32_122 c1_i32_124 k1_t13
  let v265 : Index := Scalar.indexCast arg24
  let c48 : Index := 48#32
  ![3, v265.toNat, 48]
def k1_off101 (k1_t13 : Fin k1_t13_loop.trips) : Fin 3 → Nat :=
  let c3_i32_310 : BitVec 32 := 3#32
  let v268 : Index := Scalar.indexCast c3_i32_310
  let c0_i32_122 : BitVec 32 := 0#32
  let c1_i32_124 : BitVec 32 := 1#32
  let arg24 : BitVec 32 := Scf.iv c0_i32_122 c1_i32_124 k1_t13
  let v269 : Index := Scalar.indexCast arg24
  let c48_311 : Index := 48#32
  ![3, v269.toNat, 48]
@[reducible] def k1_t14_loop : Scf.Loop 32 :=
  let c0_i32_143 : BitVec 32 := 0#32
  let c50_i32_144 : BitVec 32 := 50#32
  let v110 : BitVec 32 := Scalar.addi c0_i32_143 c50_i32_144
  let c1_i32_145 : BitVec 32 := 1#32
  ⟨c0_i32_143, v110, c1_i32_145⟩
def k1_off102 (k1_t14 : Fin k1_t14_loop.trips) : Fin 3 → Nat :=
  let c4_i32_300 : BitVec 32 := 4#32
  let v237 : Index := Scalar.indexCast c4_i32_300
  let c0_i32_143 : BitVec 32 := 0#32
  let c1_i32_145 : BitVec 32 := 1#32
  let arg24 : BitVec 32 := Scf.iv c0_i32_143 c1_i32_145 k1_t14
  let v238 : Index := Scalar.indexCast arg24
  let c0 : Index := 0#32
  ![4, v238.toNat, 0]
def k1_off103 (k1_t14 : Fin k1_t14_loop.trips) : Fin 3 → Nat :=
  let c4_i32_301 : BitVec 32 := 4#32
  let v241 : Index := Scalar.indexCast c4_i32_301
  let c0_i32_143 : BitVec 32 := 0#32
  let c1_i32_145 : BitVec 32 := 1#32
  let arg24 : BitVec 32 := Scf.iv c0_i32_143 c1_i32_145 k1_t14
  let v242 : Index := Scalar.indexCast arg24
  let c0_302 : Index := 0#32
  ![4, v242.toNat, 0]
def k1_off104 (k1_t14 : Fin k1_t14_loop.trips) : Fin 3 → Nat :=
  let c4_i32_303 : BitVec 32 := 4#32
  let v246 : Index := Scalar.indexCast c4_i32_303
  let c0_i32_143 : BitVec 32 := 0#32
  let c1_i32_145 : BitVec 32 := 1#32
  let arg24 : BitVec 32 := Scf.iv c0_i32_143 c1_i32_145 k1_t14
  let v247 : Index := Scalar.indexCast arg24
  let c16 : Index := 16#32
  ![4, v247.toNat, 16]
def k1_off105 (k1_t14 : Fin k1_t14_loop.trips) : Fin 3 → Nat :=
  let c4_i32_304 : BitVec 32 := 4#32
  let v250 : Index := Scalar.indexCast c4_i32_304
  let c0_i32_143 : BitVec 32 := 0#32
  let c1_i32_145 : BitVec 32 := 1#32
  let arg24 : BitVec 32 := Scf.iv c0_i32_143 c1_i32_145 k1_t14
  let v251 : Index := Scalar.indexCast arg24
  let c16_305 : Index := 16#32
  ![4, v251.toNat, 16]
def k1_off106 (k1_t14 : Fin k1_t14_loop.trips) : Fin 3 → Nat :=
  let c4_i32_306 : BitVec 32 := 4#32
  let v255 : Index := Scalar.indexCast c4_i32_306
  let c0_i32_143 : BitVec 32 := 0#32
  let c1_i32_145 : BitVec 32 := 1#32
  let arg24 : BitVec 32 := Scf.iv c0_i32_143 c1_i32_145 k1_t14
  let v256 : Index := Scalar.indexCast arg24
  let c32 : Index := 32#32
  ![4, v256.toNat, 32]
def k1_off107 (k1_t14 : Fin k1_t14_loop.trips) : Fin 3 → Nat :=
  let c4_i32_307 : BitVec 32 := 4#32
  let v259 : Index := Scalar.indexCast c4_i32_307
  let c0_i32_143 : BitVec 32 := 0#32
  let c1_i32_145 : BitVec 32 := 1#32
  let arg24 : BitVec 32 := Scf.iv c0_i32_143 c1_i32_145 k1_t14
  let v260 : Index := Scalar.indexCast arg24
  let c32_308 : Index := 32#32
  ![4, v260.toNat, 32]
def k1_off108 (k1_t14 : Fin k1_t14_loop.trips) : Fin 3 → Nat :=
  let c4_i32_309 : BitVec 32 := 4#32
  let v264 : Index := Scalar.indexCast c4_i32_309
  let c0_i32_143 : BitVec 32 := 0#32
  let c1_i32_145 : BitVec 32 := 1#32
  let arg24 : BitVec 32 := Scf.iv c0_i32_143 c1_i32_145 k1_t14
  let v265 : Index := Scalar.indexCast arg24
  let c48 : Index := 48#32
  ![4, v265.toNat, 48]
def k1_off109 (k1_t14 : Fin k1_t14_loop.trips) : Fin 3 → Nat :=
  let c4_i32_310 : BitVec 32 := 4#32
  let v268 : Index := Scalar.indexCast c4_i32_310
  let c0_i32_143 : BitVec 32 := 0#32
  let c1_i32_145 : BitVec 32 := 1#32
  let arg24 : BitVec 32 := Scf.iv c0_i32_143 c1_i32_145 k1_t14
  let v269 : Index := Scalar.indexCast arg24
  let c48_311 : Index := 48#32
  ![4, v269.toNat, 48]
@[reducible] def k1_t15_loop : Scf.Loop 32 :=
  let c0_i32_164 : BitVec 32 := 0#32
  let c50_i32_165 : BitVec 32 := 50#32
  let v125 : BitVec 32 := Scalar.addi c0_i32_164 c50_i32_165
  let c1_i32_166 : BitVec 32 := 1#32
  ⟨c0_i32_164, v125, c1_i32_166⟩
def k1_off110 (k1_t15 : Fin k1_t15_loop.trips) : Fin 3 → Nat :=
  let c5_i32_300 : BitVec 32 := 5#32
  let v237 : Index := Scalar.indexCast c5_i32_300
  let c0_i32_164 : BitVec 32 := 0#32
  let c1_i32_166 : BitVec 32 := 1#32
  let arg24 : BitVec 32 := Scf.iv c0_i32_164 c1_i32_166 k1_t15
  let v238 : Index := Scalar.indexCast arg24
  let c0 : Index := 0#32
  ![5, v238.toNat, 0]
def k1_off111 (k1_t15 : Fin k1_t15_loop.trips) : Fin 3 → Nat :=
  let c5_i32_301 : BitVec 32 := 5#32
  let v241 : Index := Scalar.indexCast c5_i32_301
  let c0_i32_164 : BitVec 32 := 0#32
  let c1_i32_166 : BitVec 32 := 1#32
  let arg24 : BitVec 32 := Scf.iv c0_i32_164 c1_i32_166 k1_t15
  let v242 : Index := Scalar.indexCast arg24
  let c0_302 : Index := 0#32
  ![5, v242.toNat, 0]
def k1_off112 (k1_t15 : Fin k1_t15_loop.trips) : Fin 3 → Nat :=
  let c5_i32_303 : BitVec 32 := 5#32
  let v246 : Index := Scalar.indexCast c5_i32_303
  let c0_i32_164 : BitVec 32 := 0#32
  let c1_i32_166 : BitVec 32 := 1#32
  let arg24 : BitVec 32 := Scf.iv c0_i32_164 c1_i32_166 k1_t15
  let v247 : Index := Scalar.indexCast arg24
  let c16 : Index := 16#32
  ![5, v247.toNat, 16]
def k1_off113 (k1_t15 : Fin k1_t15_loop.trips) : Fin 3 → Nat :=
  let c5_i32_304 : BitVec 32 := 5#32
  let v250 : Index := Scalar.indexCast c5_i32_304
  let c0_i32_164 : BitVec 32 := 0#32
  let c1_i32_166 : BitVec 32 := 1#32
  let arg24 : BitVec 32 := Scf.iv c0_i32_164 c1_i32_166 k1_t15
  let v251 : Index := Scalar.indexCast arg24
  let c16_305 : Index := 16#32
  ![5, v251.toNat, 16]
def k1_off114 (k1_t15 : Fin k1_t15_loop.trips) : Fin 3 → Nat :=
  let c5_i32_306 : BitVec 32 := 5#32
  let v255 : Index := Scalar.indexCast c5_i32_306
  let c0_i32_164 : BitVec 32 := 0#32
  let c1_i32_166 : BitVec 32 := 1#32
  let arg24 : BitVec 32 := Scf.iv c0_i32_164 c1_i32_166 k1_t15
  let v256 : Index := Scalar.indexCast arg24
  let c32 : Index := 32#32
  ![5, v256.toNat, 32]
def k1_off115 (k1_t15 : Fin k1_t15_loop.trips) : Fin 3 → Nat :=
  let c5_i32_307 : BitVec 32 := 5#32
  let v259 : Index := Scalar.indexCast c5_i32_307
  let c0_i32_164 : BitVec 32 := 0#32
  let c1_i32_166 : BitVec 32 := 1#32
  let arg24 : BitVec 32 := Scf.iv c0_i32_164 c1_i32_166 k1_t15
  let v260 : Index := Scalar.indexCast arg24
  let c32_308 : Index := 32#32
  ![5, v260.toNat, 32]
def k1_off116 (k1_t15 : Fin k1_t15_loop.trips) : Fin 3 → Nat :=
  let c5_i32_309 : BitVec 32 := 5#32
  let v264 : Index := Scalar.indexCast c5_i32_309
  let c0_i32_164 : BitVec 32 := 0#32
  let c1_i32_166 : BitVec 32 := 1#32
  let arg24 : BitVec 32 := Scf.iv c0_i32_164 c1_i32_166 k1_t15
  let v265 : Index := Scalar.indexCast arg24
  let c48 : Index := 48#32
  ![5, v265.toNat, 48]
def k1_off117 (k1_t15 : Fin k1_t15_loop.trips) : Fin 3 → Nat :=
  let c5_i32_310 : BitVec 32 := 5#32
  let v268 : Index := Scalar.indexCast c5_i32_310
  let c0_i32_164 : BitVec 32 := 0#32
  let c1_i32_166 : BitVec 32 := 1#32
  let arg24 : BitVec 32 := Scf.iv c0_i32_164 c1_i32_166 k1_t15
  let v269 : Index := Scalar.indexCast arg24
  let c48_311 : Index := 48#32
  ![5, v269.toNat, 48]
@[reducible] def k1_t16_loop : Scf.Loop 32 :=
  let c0_i32_185 : BitVec 32 := 0#32
  let c50_i32_186 : BitVec 32 := 50#32
  let v140 : BitVec 32 := Scalar.addi c0_i32_185 c50_i32_186
  let c1_i32_187 : BitVec 32 := 1#32
  ⟨c0_i32_185, v140, c1_i32_187⟩
def k1_off118 (k1_t16 : Fin k1_t16_loop.trips) : Fin 3 → Nat :=
  let c6_i32_300 : BitVec 32 := 6#32
  let v237 : Index := Scalar.indexCast c6_i32_300
  let c0_i32_185 : BitVec 32 := 0#32
  let c1_i32_187 : BitVec 32 := 1#32
  let arg24 : BitVec 32 := Scf.iv c0_i32_185 c1_i32_187 k1_t16
  let v238 : Index := Scalar.indexCast arg24
  let c0 : Index := 0#32
  ![6, v238.toNat, 0]
def k1_off119 (k1_t16 : Fin k1_t16_loop.trips) : Fin 3 → Nat :=
  let c6_i32_301 : BitVec 32 := 6#32
  let v241 : Index := Scalar.indexCast c6_i32_301
  let c0_i32_185 : BitVec 32 := 0#32
  let c1_i32_187 : BitVec 32 := 1#32
  let arg24 : BitVec 32 := Scf.iv c0_i32_185 c1_i32_187 k1_t16
  let v242 : Index := Scalar.indexCast arg24
  let c0_302 : Index := 0#32
  ![6, v242.toNat, 0]
def k1_off120 (k1_t16 : Fin k1_t16_loop.trips) : Fin 3 → Nat :=
  let c6_i32_303 : BitVec 32 := 6#32
  let v246 : Index := Scalar.indexCast c6_i32_303
  let c0_i32_185 : BitVec 32 := 0#32
  let c1_i32_187 : BitVec 32 := 1#32
  let arg24 : BitVec 32 := Scf.iv c0_i32_185 c1_i32_187 k1_t16
  let v247 : Index := Scalar.indexCast arg24
  let c16 : Index := 16#32
  ![6, v247.toNat, 16]
def k1_off121 (k1_t16 : Fin k1_t16_loop.trips) : Fin 3 → Nat :=
  let c6_i32_304 : BitVec 32 := 6#32
  let v250 : Index := Scalar.indexCast c6_i32_304
  let c0_i32_185 : BitVec 32 := 0#32
  let c1_i32_187 : BitVec 32 := 1#32
  let arg24 : BitVec 32 := Scf.iv c0_i32_185 c1_i32_187 k1_t16
  let v251 : Index := Scalar.indexCast arg24
  let c16_305 : Index := 16#32
  ![6, v251.toNat, 16]
def k1_off122 (k1_t16 : Fin k1_t16_loop.trips) : Fin 3 → Nat :=
  let c6_i32_306 : BitVec 32 := 6#32
  let v255 : Index := Scalar.indexCast c6_i32_306
  let c0_i32_185 : BitVec 32 := 0#32
  let c1_i32_187 : BitVec 32 := 1#32
  let arg24 : BitVec 32 := Scf.iv c0_i32_185 c1_i32_187 k1_t16
  let v256 : Index := Scalar.indexCast arg24
  let c32 : Index := 32#32
  ![6, v256.toNat, 32]
def k1_off123 (k1_t16 : Fin k1_t16_loop.trips) : Fin 3 → Nat :=
  let c6_i32_307 : BitVec 32 := 6#32
  let v259 : Index := Scalar.indexCast c6_i32_307
  let c0_i32_185 : BitVec 32 := 0#32
  let c1_i32_187 : BitVec 32 := 1#32
  let arg24 : BitVec 32 := Scf.iv c0_i32_185 c1_i32_187 k1_t16
  let v260 : Index := Scalar.indexCast arg24
  let c32_308 : Index := 32#32
  ![6, v260.toNat, 32]
def k1_off124 (k1_t16 : Fin k1_t16_loop.trips) : Fin 3 → Nat :=
  let c6_i32_309 : BitVec 32 := 6#32
  let v264 : Index := Scalar.indexCast c6_i32_309
  let c0_i32_185 : BitVec 32 := 0#32
  let c1_i32_187 : BitVec 32 := 1#32
  let arg24 : BitVec 32 := Scf.iv c0_i32_185 c1_i32_187 k1_t16
  let v265 : Index := Scalar.indexCast arg24
  let c48 : Index := 48#32
  ![6, v265.toNat, 48]
def k1_off125 (k1_t16 : Fin k1_t16_loop.trips) : Fin 3 → Nat :=
  let c6_i32_310 : BitVec 32 := 6#32
  let v268 : Index := Scalar.indexCast c6_i32_310
  let c0_i32_185 : BitVec 32 := 0#32
  let c1_i32_187 : BitVec 32 := 1#32
  let arg24 : BitVec 32 := Scf.iv c0_i32_185 c1_i32_187 k1_t16
  let v269 : Index := Scalar.indexCast arg24
  let c48_311 : Index := 48#32
  ![6, v269.toNat, 48]
@[reducible] def k1_t17_loop : Scf.Loop 32 :=
  let c0_i32_206 : BitVec 32 := 0#32
  let c50_i32_207 : BitVec 32 := 50#32
  let v155 : BitVec 32 := Scalar.addi c0_i32_206 c50_i32_207
  let c1_i32_208 : BitVec 32 := 1#32
  ⟨c0_i32_206, v155, c1_i32_208⟩
def k1_off126 (k1_t17 : Fin k1_t17_loop.trips) : Fin 3 → Nat :=
  let c7_i32_300 : BitVec 32 := 7#32
  let v237 : Index := Scalar.indexCast c7_i32_300
  let c0_i32_206 : BitVec 32 := 0#32
  let c1_i32_208 : BitVec 32 := 1#32
  let arg24 : BitVec 32 := Scf.iv c0_i32_206 c1_i32_208 k1_t17
  let v238 : Index := Scalar.indexCast arg24
  let c0 : Index := 0#32
  ![7, v238.toNat, 0]
def k1_off127 (k1_t17 : Fin k1_t17_loop.trips) : Fin 3 → Nat :=
  let c7_i32_301 : BitVec 32 := 7#32
  let v241 : Index := Scalar.indexCast c7_i32_301
  let c0_i32_206 : BitVec 32 := 0#32
  let c1_i32_208 : BitVec 32 := 1#32
  let arg24 : BitVec 32 := Scf.iv c0_i32_206 c1_i32_208 k1_t17
  let v242 : Index := Scalar.indexCast arg24
  let c0_302 : Index := 0#32
  ![7, v242.toNat, 0]
def k1_off128 (k1_t17 : Fin k1_t17_loop.trips) : Fin 3 → Nat :=
  let c7_i32_303 : BitVec 32 := 7#32
  let v246 : Index := Scalar.indexCast c7_i32_303
  let c0_i32_206 : BitVec 32 := 0#32
  let c1_i32_208 : BitVec 32 := 1#32
  let arg24 : BitVec 32 := Scf.iv c0_i32_206 c1_i32_208 k1_t17
  let v247 : Index := Scalar.indexCast arg24
  let c16 : Index := 16#32
  ![7, v247.toNat, 16]
def k1_off129 (k1_t17 : Fin k1_t17_loop.trips) : Fin 3 → Nat :=
  let c7_i32_304 : BitVec 32 := 7#32
  let v250 : Index := Scalar.indexCast c7_i32_304
  let c0_i32_206 : BitVec 32 := 0#32
  let c1_i32_208 : BitVec 32 := 1#32
  let arg24 : BitVec 32 := Scf.iv c0_i32_206 c1_i32_208 k1_t17
  let v251 : Index := Scalar.indexCast arg24
  let c16_305 : Index := 16#32
  ![7, v251.toNat, 16]
def k1_off130 (k1_t17 : Fin k1_t17_loop.trips) : Fin 3 → Nat :=
  let c7_i32_306 : BitVec 32 := 7#32
  let v255 : Index := Scalar.indexCast c7_i32_306
  let c0_i32_206 : BitVec 32 := 0#32
  let c1_i32_208 : BitVec 32 := 1#32
  let arg24 : BitVec 32 := Scf.iv c0_i32_206 c1_i32_208 k1_t17
  let v256 : Index := Scalar.indexCast arg24
  let c32 : Index := 32#32
  ![7, v256.toNat, 32]
def k1_off131 (k1_t17 : Fin k1_t17_loop.trips) : Fin 3 → Nat :=
  let c7_i32_307 : BitVec 32 := 7#32
  let v259 : Index := Scalar.indexCast c7_i32_307
  let c0_i32_206 : BitVec 32 := 0#32
  let c1_i32_208 : BitVec 32 := 1#32
  let arg24 : BitVec 32 := Scf.iv c0_i32_206 c1_i32_208 k1_t17
  let v260 : Index := Scalar.indexCast arg24
  let c32_308 : Index := 32#32
  ![7, v260.toNat, 32]
def k1_off132 (k1_t17 : Fin k1_t17_loop.trips) : Fin 3 → Nat :=
  let c7_i32_309 : BitVec 32 := 7#32
  let v264 : Index := Scalar.indexCast c7_i32_309
  let c0_i32_206 : BitVec 32 := 0#32
  let c1_i32_208 : BitVec 32 := 1#32
  let arg24 : BitVec 32 := Scf.iv c0_i32_206 c1_i32_208 k1_t17
  let v265 : Index := Scalar.indexCast arg24
  let c48 : Index := 48#32
  ![7, v265.toNat, 48]
def k1_off133 (k1_t17 : Fin k1_t17_loop.trips) : Fin 3 → Nat :=
  let c7_i32_310 : BitVec 32 := 7#32
  let v268 : Index := Scalar.indexCast c7_i32_310
  let c0_i32_206 : BitVec 32 := 0#32
  let c1_i32_208 : BitVec 32 := 1#32
  let arg24 : BitVec 32 := Scf.iv c0_i32_206 c1_i32_208 k1_t17
  let v269 : Index := Scalar.indexCast arg24
  let c48_311 : Index := 48#32
  ![7, v269.toNat, 48]
abbrev grid2 : Pipeline.Grid := ⟨2, ![2, 16], ![false, false]⟩

def k2_off1 (i : grid2.Coords) : Fin 2 → Nat :=
  let c8192_i32 : BitVec 32 := 8192#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c8192_i32 v2
  let c0_i32_300_r0 : BitVec 32 := 0#32
  ![v3.toNat, 0]
@[reducible] def k2_t1_loop : Scf.Loop 32 :=
  let c0_i32_50 : BitVec 32 := 0#32
  let c15_i32 : BitVec 32 := 15#32
  let v44 : BitVec 32 := Scalar.addi c0_i32_50 c15_i32
  let c1_i32_51 : BitVec 32 := 1#32
  ⟨c0_i32_50, v44, c1_i32_51⟩
def k2_off2 (k2_t1 : Fin k2_t1_loop.trips) (c0_i32_300 : BitVec 32) : Fin 2 → Nat :=
  let c0_i32_50 : BitVec 32 := 0#32
  let c1_i32_51 : BitVec 32 := 1#32
  let arg24 : BitVec 32 := Scf.iv c0_i32_50 c1_i32_51 k2_t1
  let c8_i32 : BitVec 32 := 8#32
  let v237 : BitVec 32 := Scalar.muli arg24 c8_i32
  let v238 : BitVec 32 := Scalar.addi v237 c0_i32_300
  let c0_i32_304 : BitVec 32 := 0#32
  ![v238.toNat, 0]
@[reducible] def k2_t2_loop : Scf.Loop 32 :=
  let c0_i32_308 : BitVec 32 := 0#32
  let c50_i32_309 : BitVec 32 := 50#32
  let v244 : BitVec 32 := Scalar.addi c0_i32_308 c50_i32_309
  let c1_i32_310 : BitVec 32 := 1#32
  ⟨c0_i32_308, v244, c1_i32_310⟩
def k2_off3 (k2_t2 : Fin k2_t2_loop.trips) : Fin 3 → Nat :=
  let c0_i32_619 : BitVec 32 := 0#32
  let v509 : Index := Scalar.indexCast c0_i32_619
  let c0_i32_308 : BitVec 32 := 0#32
  let c1_i32_310 : BitVec 32 := 1#32
  let arg25 : BitVec 32 := Scf.iv c0_i32_308 c1_i32_310 k2_t2
  let v510 : Index := Scalar.indexCast arg25
  let c0 : Index := 0#32
  ![0, v510.toNat, 0]
def k2_off4 (k2_t2 : Fin k2_t2_loop.trips) : Fin 3 → Nat :=
  let c0_i32_620 : BitVec 32 := 0#32
  let v513 : Index := Scalar.indexCast c0_i32_620
  let c0_i32_308 : BitVec 32 := 0#32
  let c1_i32_310 : BitVec 32 := 1#32
  let arg25 : BitVec 32 := Scf.iv c0_i32_308 c1_i32_310 k2_t2
  let v514 : Index := Scalar.indexCast arg25
  let c0_621 : Index := 0#32
  ![0, v514.toNat, 0]
def k2_off5 (k2_t2 : Fin k2_t2_loop.trips) : Fin 3 → Nat :=
  let c0_i32_622 : BitVec 32 := 0#32
  let v518 : Index := Scalar.indexCast c0_i32_622
  let c0_i32_308 : BitVec 32 := 0#32
  let c1_i32_310 : BitVec 32 := 1#32
  let arg25 : BitVec 32 := Scf.iv c0_i32_308 c1_i32_310 k2_t2
  let v519 : Index := Scalar.indexCast arg25
  let c16 : Index := 16#32
  ![0, v519.toNat, 16]
def k2_off6 (k2_t2 : Fin k2_t2_loop.trips) : Fin 3 → Nat :=
  let c0_i32_623 : BitVec 32 := 0#32
  let v522 : Index := Scalar.indexCast c0_i32_623
  let c0_i32_308 : BitVec 32 := 0#32
  let c1_i32_310 : BitVec 32 := 1#32
  let arg25 : BitVec 32 := Scf.iv c0_i32_308 c1_i32_310 k2_t2
  let v523 : Index := Scalar.indexCast arg25
  let c16_624 : Index := 16#32
  ![0, v523.toNat, 16]
def k2_off7 (k2_t2 : Fin k2_t2_loop.trips) : Fin 3 → Nat :=
  let c0_i32_625 : BitVec 32 := 0#32
  let v527 : Index := Scalar.indexCast c0_i32_625
  let c0_i32_308 : BitVec 32 := 0#32
  let c1_i32_310 : BitVec 32 := 1#32
  let arg25 : BitVec 32 := Scf.iv c0_i32_308 c1_i32_310 k2_t2
  let v528 : Index := Scalar.indexCast arg25
  let c32 : Index := 32#32
  ![0, v528.toNat, 32]
def k2_off8 (k2_t2 : Fin k2_t2_loop.trips) : Fin 3 → Nat :=
  let c0_i32_626 : BitVec 32 := 0#32
  let v531 : Index := Scalar.indexCast c0_i32_626
  let c0_i32_308 : BitVec 32 := 0#32
  let c1_i32_310 : BitVec 32 := 1#32
  let arg25 : BitVec 32 := Scf.iv c0_i32_308 c1_i32_310 k2_t2
  let v532 : Index := Scalar.indexCast arg25
  let c32_627 : Index := 32#32
  ![0, v532.toNat, 32]
def k2_off9 (k2_t2 : Fin k2_t2_loop.trips) : Fin 3 → Nat :=
  let c0_i32_628 : BitVec 32 := 0#32
  let v536 : Index := Scalar.indexCast c0_i32_628
  let c0_i32_308 : BitVec 32 := 0#32
  let c1_i32_310 : BitVec 32 := 1#32
  let arg25 : BitVec 32 := Scf.iv c0_i32_308 c1_i32_310 k2_t2
  let v537 : Index := Scalar.indexCast arg25
  let c48 : Index := 48#32
  ![0, v537.toNat, 48]
def k2_off10 (k2_t2 : Fin k2_t2_loop.trips) : Fin 3 → Nat :=
  let c0_i32_629 : BitVec 32 := 0#32
  let v540 : Index := Scalar.indexCast c0_i32_629
  let c0_i32_308 : BitVec 32 := 0#32
  let c1_i32_310 : BitVec 32 := 1#32
  let arg25 : BitVec 32 := Scf.iv c0_i32_308 c1_i32_310 k2_t2
  let v541 : Index := Scalar.indexCast arg25
  let c48_630 : Index := 48#32
  ![0, v541.toNat, 48]
def k2_off11 (i : grid2.Coords) (k2_t1 : Fin k2_t1_loop.trips) (c0_i32_300 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let c1_i32_51 : BitVec 32 := 1#32
  let arg24 : BitVec 32 := Scf.iv c0_i32_50 c1_i32_51 k2_t1
  let c8_i32 : BitVec 32 := 8#32
  let v237 : BitVec 32 := Scalar.muli arg24 c8_i32
  let v238 : BitVec 32 := Scalar.addi v237 c0_i32_300
  let v245 : BitVec 32 := Scalar.addi v2 v238
  let c0_i32_315 : BitVec 32 := 0#32
  let c0_i32_316 : BitVec 32 := 0#32
  ![v245.toNat, 0, 0]
@[reducible] def k2_t3_loop : Scf.Loop 32 :=
  let c0_i32_330 : BitVec 32 := 0#32
  let c50_i32_331 : BitVec 32 := 50#32
  let v261 : BitVec 32 := Scalar.addi c0_i32_330 c50_i32_331
  let c1_i32_332 : BitVec 32 := 1#32
  ⟨c0_i32_330, v261, c1_i32_332⟩
def k2_off12 (k2_t3 : Fin k2_t3_loop.trips) : Fin 3 → Nat :=
  let c1_i32_619 : BitVec 32 := 1#32
  let v509 : Index := Scalar.indexCast c1_i32_619
  let c0_i32_330 : BitVec 32 := 0#32
  let c1_i32_332 : BitVec 32 := 1#32
  let arg25 : BitVec 32 := Scf.iv c0_i32_330 c1_i32_332 k2_t3
  let v510 : Index := Scalar.indexCast arg25
  let c0 : Index := 0#32
  ![1, v510.toNat, 0]
def k2_off13 (k2_t3 : Fin k2_t3_loop.trips) : Fin 3 → Nat :=
  let c1_i32_620 : BitVec 32 := 1#32
  let v513 : Index := Scalar.indexCast c1_i32_620
  let c0_i32_330 : BitVec 32 := 0#32
  let c1_i32_332 : BitVec 32 := 1#32
  let arg25 : BitVec 32 := Scf.iv c0_i32_330 c1_i32_332 k2_t3
  let v514 : Index := Scalar.indexCast arg25
  let c0_621 : Index := 0#32
  ![1, v514.toNat, 0]
def k2_off14 (k2_t3 : Fin k2_t3_loop.trips) : Fin 3 → Nat :=
  let c1_i32_622 : BitVec 32 := 1#32
  let v518 : Index := Scalar.indexCast c1_i32_622
  let c0_i32_330 : BitVec 32 := 0#32
  let c1_i32_332 : BitVec 32 := 1#32
  let arg25 : BitVec 32 := Scf.iv c0_i32_330 c1_i32_332 k2_t3
  let v519 : Index := Scalar.indexCast arg25
  let c16 : Index := 16#32
  ![1, v519.toNat, 16]
def k2_off15 (k2_t3 : Fin k2_t3_loop.trips) : Fin 3 → Nat :=
  let c1_i32_623 : BitVec 32 := 1#32
  let v522 : Index := Scalar.indexCast c1_i32_623
  let c0_i32_330 : BitVec 32 := 0#32
  let c1_i32_332 : BitVec 32 := 1#32
  let arg25 : BitVec 32 := Scf.iv c0_i32_330 c1_i32_332 k2_t3
  let v523 : Index := Scalar.indexCast arg25
  let c16_624 : Index := 16#32
  ![1, v523.toNat, 16]
def k2_off16 (k2_t3 : Fin k2_t3_loop.trips) : Fin 3 → Nat :=
  let c1_i32_625 : BitVec 32 := 1#32
  let v527 : Index := Scalar.indexCast c1_i32_625
  let c0_i32_330 : BitVec 32 := 0#32
  let c1_i32_332 : BitVec 32 := 1#32
  let arg25 : BitVec 32 := Scf.iv c0_i32_330 c1_i32_332 k2_t3
  let v528 : Index := Scalar.indexCast arg25
  let c32 : Index := 32#32
  ![1, v528.toNat, 32]
def k2_off17 (k2_t3 : Fin k2_t3_loop.trips) : Fin 3 → Nat :=
  let c1_i32_626 : BitVec 32 := 1#32
  let v531 : Index := Scalar.indexCast c1_i32_626
  let c0_i32_330 : BitVec 32 := 0#32
  let c1_i32_332 : BitVec 32 := 1#32
  let arg25 : BitVec 32 := Scf.iv c0_i32_330 c1_i32_332 k2_t3
  let v532 : Index := Scalar.indexCast arg25
  let c32_627 : Index := 32#32
  ![1, v532.toNat, 32]
def k2_off18 (k2_t3 : Fin k2_t3_loop.trips) : Fin 3 → Nat :=
  let c1_i32_628 : BitVec 32 := 1#32
  let v536 : Index := Scalar.indexCast c1_i32_628
  let c0_i32_330 : BitVec 32 := 0#32
  let c1_i32_332 : BitVec 32 := 1#32
  let arg25 : BitVec 32 := Scf.iv c0_i32_330 c1_i32_332 k2_t3
  let v537 : Index := Scalar.indexCast arg25
  let c48 : Index := 48#32
  ![1, v537.toNat, 48]
def k2_off19 (k2_t3 : Fin k2_t3_loop.trips) : Fin 3 → Nat :=
  let c1_i32_629 : BitVec 32 := 1#32
  let v540 : Index := Scalar.indexCast c1_i32_629
  let c0_i32_330 : BitVec 32 := 0#32
  let c1_i32_332 : BitVec 32 := 1#32
  let arg25 : BitVec 32 := Scf.iv c0_i32_330 c1_i32_332 k2_t3
  let v541 : Index := Scalar.indexCast arg25
  let c48_630 : Index := 48#32
  ![1, v541.toNat, 48]
@[reducible] def k2_t4_loop : Scf.Loop 32 :=
  let c0_i32_352 : BitVec 32 := 0#32
  let c50_i32_353 : BitVec 32 := 50#32
  let v278 : BitVec 32 := Scalar.addi c0_i32_352 c50_i32_353
  let c1_i32_354 : BitVec 32 := 1#32
  ⟨c0_i32_352, v278, c1_i32_354⟩
def k2_off20 (k2_t4 : Fin k2_t4_loop.trips) : Fin 3 → Nat :=
  let c2_i32_619 : BitVec 32 := 2#32
  let v509 : Index := Scalar.indexCast c2_i32_619
  let c0_i32_352 : BitVec 32 := 0#32
  let c1_i32_354 : BitVec 32 := 1#32
  let arg25 : BitVec 32 := Scf.iv c0_i32_352 c1_i32_354 k2_t4
  let v510 : Index := Scalar.indexCast arg25
  let c0 : Index := 0#32
  ![2, v510.toNat, 0]
def k2_off21 (k2_t4 : Fin k2_t4_loop.trips) : Fin 3 → Nat :=
  let c2_i32_620 : BitVec 32 := 2#32
  let v513 : Index := Scalar.indexCast c2_i32_620
  let c0_i32_352 : BitVec 32 := 0#32
  let c1_i32_354 : BitVec 32 := 1#32
  let arg25 : BitVec 32 := Scf.iv c0_i32_352 c1_i32_354 k2_t4
  let v514 : Index := Scalar.indexCast arg25
  let c0_621 : Index := 0#32
  ![2, v514.toNat, 0]
def k2_off22 (k2_t4 : Fin k2_t4_loop.trips) : Fin 3 → Nat :=
  let c2_i32_622 : BitVec 32 := 2#32
  let v518 : Index := Scalar.indexCast c2_i32_622
  let c0_i32_352 : BitVec 32 := 0#32
  let c1_i32_354 : BitVec 32 := 1#32
  let arg25 : BitVec 32 := Scf.iv c0_i32_352 c1_i32_354 k2_t4
  let v519 : Index := Scalar.indexCast arg25
  let c16 : Index := 16#32
  ![2, v519.toNat, 16]
def k2_off23 (k2_t4 : Fin k2_t4_loop.trips) : Fin 3 → Nat :=
  let c2_i32_623 : BitVec 32 := 2#32
  let v522 : Index := Scalar.indexCast c2_i32_623
  let c0_i32_352 : BitVec 32 := 0#32
  let c1_i32_354 : BitVec 32 := 1#32
  let arg25 : BitVec 32 := Scf.iv c0_i32_352 c1_i32_354 k2_t4
  let v523 : Index := Scalar.indexCast arg25
  let c16_624 : Index := 16#32
  ![2, v523.toNat, 16]
def k2_off24 (k2_t4 : Fin k2_t4_loop.trips) : Fin 3 → Nat :=
  let c2_i32_625 : BitVec 32 := 2#32
  let v527 : Index := Scalar.indexCast c2_i32_625
  let c0_i32_352 : BitVec 32 := 0#32
  let c1_i32_354 : BitVec 32 := 1#32
  let arg25 : BitVec 32 := Scf.iv c0_i32_352 c1_i32_354 k2_t4
  let v528 : Index := Scalar.indexCast arg25
  let c32 : Index := 32#32
  ![2, v528.toNat, 32]
def k2_off25 (k2_t4 : Fin k2_t4_loop.trips) : Fin 3 → Nat :=
  let c2_i32_626 : BitVec 32 := 2#32
  let v531 : Index := Scalar.indexCast c2_i32_626
  let c0_i32_352 : BitVec 32 := 0#32
  let c1_i32_354 : BitVec 32 := 1#32
  let arg25 : BitVec 32 := Scf.iv c0_i32_352 c1_i32_354 k2_t4
  let v532 : Index := Scalar.indexCast arg25
  let c32_627 : Index := 32#32
  ![2, v532.toNat, 32]
def k2_off26 (k2_t4 : Fin k2_t4_loop.trips) : Fin 3 → Nat :=
  let c2_i32_628 : BitVec 32 := 2#32
  let v536 : Index := Scalar.indexCast c2_i32_628
  let c0_i32_352 : BitVec 32 := 0#32
  let c1_i32_354 : BitVec 32 := 1#32
  let arg25 : BitVec 32 := Scf.iv c0_i32_352 c1_i32_354 k2_t4
  let v537 : Index := Scalar.indexCast arg25
  let c48 : Index := 48#32
  ![2, v537.toNat, 48]
def k2_off27 (k2_t4 : Fin k2_t4_loop.trips) : Fin 3 → Nat :=
  let c2_i32_629 : BitVec 32 := 2#32
  let v540 : Index := Scalar.indexCast c2_i32_629
  let c0_i32_352 : BitVec 32 := 0#32
  let c1_i32_354 : BitVec 32 := 1#32
  let arg25 : BitVec 32 := Scf.iv c0_i32_352 c1_i32_354 k2_t4
  let v541 : Index := Scalar.indexCast arg25
  let c48_630 : Index := 48#32
  ![2, v541.toNat, 48]
@[reducible] def k2_t5_loop : Scf.Loop 32 :=
  let c0_i32_374 : BitVec 32 := 0#32
  let c50_i32_375 : BitVec 32 := 50#32
  let v295 : BitVec 32 := Scalar.addi c0_i32_374 c50_i32_375
  let c1_i32_376 : BitVec 32 := 1#32
  ⟨c0_i32_374, v295, c1_i32_376⟩
def k2_off28 (k2_t5 : Fin k2_t5_loop.trips) : Fin 3 → Nat :=
  let c3_i32_619 : BitVec 32 := 3#32
  let v509 : Index := Scalar.indexCast c3_i32_619
  let c0_i32_374 : BitVec 32 := 0#32
  let c1_i32_376 : BitVec 32 := 1#32
  let arg25 : BitVec 32 := Scf.iv c0_i32_374 c1_i32_376 k2_t5
  let v510 : Index := Scalar.indexCast arg25
  let c0 : Index := 0#32
  ![3, v510.toNat, 0]
def k2_off29 (k2_t5 : Fin k2_t5_loop.trips) : Fin 3 → Nat :=
  let c3_i32_620 : BitVec 32 := 3#32
  let v513 : Index := Scalar.indexCast c3_i32_620
  let c0_i32_374 : BitVec 32 := 0#32
  let c1_i32_376 : BitVec 32 := 1#32
  let arg25 : BitVec 32 := Scf.iv c0_i32_374 c1_i32_376 k2_t5
  let v514 : Index := Scalar.indexCast arg25
  let c0_621 : Index := 0#32
  ![3, v514.toNat, 0]
def k2_off30 (k2_t5 : Fin k2_t5_loop.trips) : Fin 3 → Nat :=
  let c3_i32_622 : BitVec 32 := 3#32
  let v518 : Index := Scalar.indexCast c3_i32_622
  let c0_i32_374 : BitVec 32 := 0#32
  let c1_i32_376 : BitVec 32 := 1#32
  let arg25 : BitVec 32 := Scf.iv c0_i32_374 c1_i32_376 k2_t5
  let v519 : Index := Scalar.indexCast arg25
  let c16 : Index := 16#32
  ![3, v519.toNat, 16]
def k2_off31 (k2_t5 : Fin k2_t5_loop.trips) : Fin 3 → Nat :=
  let c3_i32_623 : BitVec 32 := 3#32
  let v522 : Index := Scalar.indexCast c3_i32_623
  let c0_i32_374 : BitVec 32 := 0#32
  let c1_i32_376 : BitVec 32 := 1#32
  let arg25 : BitVec 32 := Scf.iv c0_i32_374 c1_i32_376 k2_t5
  let v523 : Index := Scalar.indexCast arg25
  let c16_624 : Index := 16#32
  ![3, v523.toNat, 16]
def k2_off32 (k2_t5 : Fin k2_t5_loop.trips) : Fin 3 → Nat :=
  let c3_i32_625 : BitVec 32 := 3#32
  let v527 : Index := Scalar.indexCast c3_i32_625
  let c0_i32_374 : BitVec 32 := 0#32
  let c1_i32_376 : BitVec 32 := 1#32
  let arg25 : BitVec 32 := Scf.iv c0_i32_374 c1_i32_376 k2_t5
  let v528 : Index := Scalar.indexCast arg25
  let c32 : Index := 32#32
  ![3, v528.toNat, 32]
def k2_off33 (k2_t5 : Fin k2_t5_loop.trips) : Fin 3 → Nat :=
  let c3_i32_626 : BitVec 32 := 3#32
  let v531 : Index := Scalar.indexCast c3_i32_626
  let c0_i32_374 : BitVec 32 := 0#32
  let c1_i32_376 : BitVec 32 := 1#32
  let arg25 : BitVec 32 := Scf.iv c0_i32_374 c1_i32_376 k2_t5
  let v532 : Index := Scalar.indexCast arg25
  let c32_627 : Index := 32#32
  ![3, v532.toNat, 32]
def k2_off34 (k2_t5 : Fin k2_t5_loop.trips) : Fin 3 → Nat :=
  let c3_i32_628 : BitVec 32 := 3#32
  let v536 : Index := Scalar.indexCast c3_i32_628
  let c0_i32_374 : BitVec 32 := 0#32
  let c1_i32_376 : BitVec 32 := 1#32
  let arg25 : BitVec 32 := Scf.iv c0_i32_374 c1_i32_376 k2_t5
  let v537 : Index := Scalar.indexCast arg25
  let c48 : Index := 48#32
  ![3, v537.toNat, 48]
def k2_off35 (k2_t5 : Fin k2_t5_loop.trips) : Fin 3 → Nat :=
  let c3_i32_629 : BitVec 32 := 3#32
  let v540 : Index := Scalar.indexCast c3_i32_629
  let c0_i32_374 : BitVec 32 := 0#32
  let c1_i32_376 : BitVec 32 := 1#32
  let arg25 : BitVec 32 := Scf.iv c0_i32_374 c1_i32_376 k2_t5
  let v541 : Index := Scalar.indexCast arg25
  let c48_630 : Index := 48#32
  ![3, v541.toNat, 48]
@[reducible] def k2_t6_loop : Scf.Loop 32 :=
  let c0_i32_396 : BitVec 32 := 0#32
  let c50_i32_397 : BitVec 32 := 50#32
  let v312 : BitVec 32 := Scalar.addi c0_i32_396 c50_i32_397
  let c1_i32_398 : BitVec 32 := 1#32
  ⟨c0_i32_396, v312, c1_i32_398⟩
def k2_off36 (k2_t6 : Fin k2_t6_loop.trips) : Fin 3 → Nat :=
  let c4_i32_619 : BitVec 32 := 4#32
  let v509 : Index := Scalar.indexCast c4_i32_619
  let c0_i32_396 : BitVec 32 := 0#32
  let c1_i32_398 : BitVec 32 := 1#32
  let arg25 : BitVec 32 := Scf.iv c0_i32_396 c1_i32_398 k2_t6
  let v510 : Index := Scalar.indexCast arg25
  let c0 : Index := 0#32
  ![4, v510.toNat, 0]
def k2_off37 (k2_t6 : Fin k2_t6_loop.trips) : Fin 3 → Nat :=
  let c4_i32_620 : BitVec 32 := 4#32
  let v513 : Index := Scalar.indexCast c4_i32_620
  let c0_i32_396 : BitVec 32 := 0#32
  let c1_i32_398 : BitVec 32 := 1#32
  let arg25 : BitVec 32 := Scf.iv c0_i32_396 c1_i32_398 k2_t6
  let v514 : Index := Scalar.indexCast arg25
  let c0_621 : Index := 0#32
  ![4, v514.toNat, 0]
def k2_off38 (k2_t6 : Fin k2_t6_loop.trips) : Fin 3 → Nat :=
  let c4_i32_622 : BitVec 32 := 4#32
  let v518 : Index := Scalar.indexCast c4_i32_622
  let c0_i32_396 : BitVec 32 := 0#32
  let c1_i32_398 : BitVec 32 := 1#32
  let arg25 : BitVec 32 := Scf.iv c0_i32_396 c1_i32_398 k2_t6
  let v519 : Index := Scalar.indexCast arg25
  let c16 : Index := 16#32
  ![4, v519.toNat, 16]
def k2_off39 (k2_t6 : Fin k2_t6_loop.trips) : Fin 3 → Nat :=
  let c4_i32_623 : BitVec 32 := 4#32
  let v522 : Index := Scalar.indexCast c4_i32_623
  let c0_i32_396 : BitVec 32 := 0#32
  let c1_i32_398 : BitVec 32 := 1#32
  let arg25 : BitVec 32 := Scf.iv c0_i32_396 c1_i32_398 k2_t6
  let v523 : Index := Scalar.indexCast arg25
  let c16_624 : Index := 16#32
  ![4, v523.toNat, 16]
def k2_off40 (k2_t6 : Fin k2_t6_loop.trips) : Fin 3 → Nat :=
  let c4_i32_625 : BitVec 32 := 4#32
  let v527 : Index := Scalar.indexCast c4_i32_625
  let c0_i32_396 : BitVec 32 := 0#32
  let c1_i32_398 : BitVec 32 := 1#32
  let arg25 : BitVec 32 := Scf.iv c0_i32_396 c1_i32_398 k2_t6
  let v528 : Index := Scalar.indexCast arg25
  let c32 : Index := 32#32
  ![4, v528.toNat, 32]
def k2_off41 (k2_t6 : Fin k2_t6_loop.trips) : Fin 3 → Nat :=
  let c4_i32_626 : BitVec 32 := 4#32
  let v531 : Index := Scalar.indexCast c4_i32_626
  let c0_i32_396 : BitVec 32 := 0#32
  let c1_i32_398 : BitVec 32 := 1#32
  let arg25 : BitVec 32 := Scf.iv c0_i32_396 c1_i32_398 k2_t6
  let v532 : Index := Scalar.indexCast arg25
  let c32_627 : Index := 32#32
  ![4, v532.toNat, 32]
def k2_off42 (k2_t6 : Fin k2_t6_loop.trips) : Fin 3 → Nat :=
  let c4_i32_628 : BitVec 32 := 4#32
  let v536 : Index := Scalar.indexCast c4_i32_628
  let c0_i32_396 : BitVec 32 := 0#32
  let c1_i32_398 : BitVec 32 := 1#32
  let arg25 : BitVec 32 := Scf.iv c0_i32_396 c1_i32_398 k2_t6
  let v537 : Index := Scalar.indexCast arg25
  let c48 : Index := 48#32
  ![4, v537.toNat, 48]
def k2_off43 (k2_t6 : Fin k2_t6_loop.trips) : Fin 3 → Nat :=
  let c4_i32_629 : BitVec 32 := 4#32
  let v540 : Index := Scalar.indexCast c4_i32_629
  let c0_i32_396 : BitVec 32 := 0#32
  let c1_i32_398 : BitVec 32 := 1#32
  let arg25 : BitVec 32 := Scf.iv c0_i32_396 c1_i32_398 k2_t6
  let v541 : Index := Scalar.indexCast arg25
  let c48_630 : Index := 48#32
  ![4, v541.toNat, 48]
@[reducible] def k2_t7_loop : Scf.Loop 32 :=
  let c0_i32_418 : BitVec 32 := 0#32
  let c50_i32_419 : BitVec 32 := 50#32
  let v329 : BitVec 32 := Scalar.addi c0_i32_418 c50_i32_419
  let c1_i32_420 : BitVec 32 := 1#32
  ⟨c0_i32_418, v329, c1_i32_420⟩
def k2_off44 (k2_t7 : Fin k2_t7_loop.trips) : Fin 3 → Nat :=
  let c5_i32_619 : BitVec 32 := 5#32
  let v509 : Index := Scalar.indexCast c5_i32_619
  let c0_i32_418 : BitVec 32 := 0#32
  let c1_i32_420 : BitVec 32 := 1#32
  let arg25 : BitVec 32 := Scf.iv c0_i32_418 c1_i32_420 k2_t7
  let v510 : Index := Scalar.indexCast arg25
  let c0 : Index := 0#32
  ![5, v510.toNat, 0]
def k2_off45 (k2_t7 : Fin k2_t7_loop.trips) : Fin 3 → Nat :=
  let c5_i32_620 : BitVec 32 := 5#32
  let v513 : Index := Scalar.indexCast c5_i32_620
  let c0_i32_418 : BitVec 32 := 0#32
  let c1_i32_420 : BitVec 32 := 1#32
  let arg25 : BitVec 32 := Scf.iv c0_i32_418 c1_i32_420 k2_t7
  let v514 : Index := Scalar.indexCast arg25
  let c0_621 : Index := 0#32
  ![5, v514.toNat, 0]
def k2_off46 (k2_t7 : Fin k2_t7_loop.trips) : Fin 3 → Nat :=
  let c5_i32_622 : BitVec 32 := 5#32
  let v518 : Index := Scalar.indexCast c5_i32_622
  let c0_i32_418 : BitVec 32 := 0#32
  let c1_i32_420 : BitVec 32 := 1#32
  let arg25 : BitVec 32 := Scf.iv c0_i32_418 c1_i32_420 k2_t7
  let v519 : Index := Scalar.indexCast arg25
  let c16 : Index := 16#32
  ![5, v519.toNat, 16]
def k2_off47 (k2_t7 : Fin k2_t7_loop.trips) : Fin 3 → Nat :=
  let c5_i32_623 : BitVec 32 := 5#32
  let v522 : Index := Scalar.indexCast c5_i32_623
  let c0_i32_418 : BitVec 32 := 0#32
  let c1_i32_420 : BitVec 32 := 1#32
  let arg25 : BitVec 32 := Scf.iv c0_i32_418 c1_i32_420 k2_t7
  let v523 : Index := Scalar.indexCast arg25
  let c16_624 : Index := 16#32
  ![5, v523.toNat, 16]
def k2_off48 (k2_t7 : Fin k2_t7_loop.trips) : Fin 3 → Nat :=
  let c5_i32_625 : BitVec 32 := 5#32
  let v527 : Index := Scalar.indexCast c5_i32_625
  let c0_i32_418 : BitVec 32 := 0#32
  let c1_i32_420 : BitVec 32 := 1#32
  let arg25 : BitVec 32 := Scf.iv c0_i32_418 c1_i32_420 k2_t7
  let v528 : Index := Scalar.indexCast arg25
  let c32 : Index := 32#32
  ![5, v528.toNat, 32]
def k2_off49 (k2_t7 : Fin k2_t7_loop.trips) : Fin 3 → Nat :=
  let c5_i32_626 : BitVec 32 := 5#32
  let v531 : Index := Scalar.indexCast c5_i32_626
  let c0_i32_418 : BitVec 32 := 0#32
  let c1_i32_420 : BitVec 32 := 1#32
  let arg25 : BitVec 32 := Scf.iv c0_i32_418 c1_i32_420 k2_t7
  let v532 : Index := Scalar.indexCast arg25
  let c32_627 : Index := 32#32
  ![5, v532.toNat, 32]
def k2_off50 (k2_t7 : Fin k2_t7_loop.trips) : Fin 3 → Nat :=
  let c5_i32_628 : BitVec 32 := 5#32
  let v536 : Index := Scalar.indexCast c5_i32_628
  let c0_i32_418 : BitVec 32 := 0#32
  let c1_i32_420 : BitVec 32 := 1#32
  let arg25 : BitVec 32 := Scf.iv c0_i32_418 c1_i32_420 k2_t7
  let v537 : Index := Scalar.indexCast arg25
  let c48 : Index := 48#32
  ![5, v537.toNat, 48]
def k2_off51 (k2_t7 : Fin k2_t7_loop.trips) : Fin 3 → Nat :=
  let c5_i32_629 : BitVec 32 := 5#32
  let v540 : Index := Scalar.indexCast c5_i32_629
  let c0_i32_418 : BitVec 32 := 0#32
  let c1_i32_420 : BitVec 32 := 1#32
  let arg25 : BitVec 32 := Scf.iv c0_i32_418 c1_i32_420 k2_t7
  let v541 : Index := Scalar.indexCast arg25
  let c48_630 : Index := 48#32
  ![5, v541.toNat, 48]
@[reducible] def k2_t8_loop : Scf.Loop 32 :=
  let c0_i32_440 : BitVec 32 := 0#32
  let c50_i32_441 : BitVec 32 := 50#32
  let v346 : BitVec 32 := Scalar.addi c0_i32_440 c50_i32_441
  let c1_i32_442 : BitVec 32 := 1#32
  ⟨c0_i32_440, v346, c1_i32_442⟩
def k2_off52 (k2_t8 : Fin k2_t8_loop.trips) : Fin 3 → Nat :=
  let c6_i32_619 : BitVec 32 := 6#32
  let v509 : Index := Scalar.indexCast c6_i32_619
  let c0_i32_440 : BitVec 32 := 0#32
  let c1_i32_442 : BitVec 32 := 1#32
  let arg25 : BitVec 32 := Scf.iv c0_i32_440 c1_i32_442 k2_t8
  let v510 : Index := Scalar.indexCast arg25
  let c0 : Index := 0#32
  ![6, v510.toNat, 0]
def k2_off53 (k2_t8 : Fin k2_t8_loop.trips) : Fin 3 → Nat :=
  let c6_i32_620 : BitVec 32 := 6#32
  let v513 : Index := Scalar.indexCast c6_i32_620
  let c0_i32_440 : BitVec 32 := 0#32
  let c1_i32_442 : BitVec 32 := 1#32
  let arg25 : BitVec 32 := Scf.iv c0_i32_440 c1_i32_442 k2_t8
  let v514 : Index := Scalar.indexCast arg25
  let c0_621 : Index := 0#32
  ![6, v514.toNat, 0]
def k2_off54 (k2_t8 : Fin k2_t8_loop.trips) : Fin 3 → Nat :=
  let c6_i32_622 : BitVec 32 := 6#32
  let v518 : Index := Scalar.indexCast c6_i32_622
  let c0_i32_440 : BitVec 32 := 0#32
  let c1_i32_442 : BitVec 32 := 1#32
  let arg25 : BitVec 32 := Scf.iv c0_i32_440 c1_i32_442 k2_t8
  let v519 : Index := Scalar.indexCast arg25
  let c16 : Index := 16#32
  ![6, v519.toNat, 16]
def k2_off55 (k2_t8 : Fin k2_t8_loop.trips) : Fin 3 → Nat :=
  let c6_i32_623 : BitVec 32 := 6#32
  let v522 : Index := Scalar.indexCast c6_i32_623
  let c0_i32_440 : BitVec 32 := 0#32
  let c1_i32_442 : BitVec 32 := 1#32
  let arg25 : BitVec 32 := Scf.iv c0_i32_440 c1_i32_442 k2_t8
  let v523 : Index := Scalar.indexCast arg25
  let c16_624 : Index := 16#32
  ![6, v523.toNat, 16]
def k2_off56 (k2_t8 : Fin k2_t8_loop.trips) : Fin 3 → Nat :=
  let c6_i32_625 : BitVec 32 := 6#32
  let v527 : Index := Scalar.indexCast c6_i32_625
  let c0_i32_440 : BitVec 32 := 0#32
  let c1_i32_442 : BitVec 32 := 1#32
  let arg25 : BitVec 32 := Scf.iv c0_i32_440 c1_i32_442 k2_t8
  let v528 : Index := Scalar.indexCast arg25
  let c32 : Index := 32#32
  ![6, v528.toNat, 32]
def k2_off57 (k2_t8 : Fin k2_t8_loop.trips) : Fin 3 → Nat :=
  let c6_i32_626 : BitVec 32 := 6#32
  let v531 : Index := Scalar.indexCast c6_i32_626
  let c0_i32_440 : BitVec 32 := 0#32
  let c1_i32_442 : BitVec 32 := 1#32
  let arg25 : BitVec 32 := Scf.iv c0_i32_440 c1_i32_442 k2_t8
  let v532 : Index := Scalar.indexCast arg25
  let c32_627 : Index := 32#32
  ![6, v532.toNat, 32]
def k2_off58 (k2_t8 : Fin k2_t8_loop.trips) : Fin 3 → Nat :=
  let c6_i32_628 : BitVec 32 := 6#32
  let v536 : Index := Scalar.indexCast c6_i32_628
  let c0_i32_440 : BitVec 32 := 0#32
  let c1_i32_442 : BitVec 32 := 1#32
  let arg25 : BitVec 32 := Scf.iv c0_i32_440 c1_i32_442 k2_t8
  let v537 : Index := Scalar.indexCast arg25
  let c48 : Index := 48#32
  ![6, v537.toNat, 48]
def k2_off59 (k2_t8 : Fin k2_t8_loop.trips) : Fin 3 → Nat :=
  let c6_i32_629 : BitVec 32 := 6#32
  let v540 : Index := Scalar.indexCast c6_i32_629
  let c0_i32_440 : BitVec 32 := 0#32
  let c1_i32_442 : BitVec 32 := 1#32
  let arg25 : BitVec 32 := Scf.iv c0_i32_440 c1_i32_442 k2_t8
  let v541 : Index := Scalar.indexCast arg25
  let c48_630 : Index := 48#32
  ![6, v541.toNat, 48]
@[reducible] def k2_t9_loop : Scf.Loop 32 :=
  let c0_i32_462 : BitVec 32 := 0#32
  let c50_i32_463 : BitVec 32 := 50#32
  let v363 : BitVec 32 := Scalar.addi c0_i32_462 c50_i32_463
  let c1_i32_464 : BitVec 32 := 1#32
  ⟨c0_i32_462, v363, c1_i32_464⟩
def k2_off60 (k2_t9 : Fin k2_t9_loop.trips) : Fin 3 → Nat :=
  let c7_i32_619 : BitVec 32 := 7#32
  let v509 : Index := Scalar.indexCast c7_i32_619
  let c0_i32_462 : BitVec 32 := 0#32
  let c1_i32_464 : BitVec 32 := 1#32
  let arg25 : BitVec 32 := Scf.iv c0_i32_462 c1_i32_464 k2_t9
  let v510 : Index := Scalar.indexCast arg25
  let c0 : Index := 0#32
  ![7, v510.toNat, 0]
def k2_off61 (k2_t9 : Fin k2_t9_loop.trips) : Fin 3 → Nat :=
  let c7_i32_620 : BitVec 32 := 7#32
  let v513 : Index := Scalar.indexCast c7_i32_620
  let c0_i32_462 : BitVec 32 := 0#32
  let c1_i32_464 : BitVec 32 := 1#32
  let arg25 : BitVec 32 := Scf.iv c0_i32_462 c1_i32_464 k2_t9
  let v514 : Index := Scalar.indexCast arg25
  let c0_621 : Index := 0#32
  ![7, v514.toNat, 0]
def k2_off62 (k2_t9 : Fin k2_t9_loop.trips) : Fin 3 → Nat :=
  let c7_i32_622 : BitVec 32 := 7#32
  let v518 : Index := Scalar.indexCast c7_i32_622
  let c0_i32_462 : BitVec 32 := 0#32
  let c1_i32_464 : BitVec 32 := 1#32
  let arg25 : BitVec 32 := Scf.iv c0_i32_462 c1_i32_464 k2_t9
  let v519 : Index := Scalar.indexCast arg25
  let c16 : Index := 16#32
  ![7, v519.toNat, 16]
def k2_off63 (k2_t9 : Fin k2_t9_loop.trips) : Fin 3 → Nat :=
  let c7_i32_623 : BitVec 32 := 7#32
  let v522 : Index := Scalar.indexCast c7_i32_623
  let c0_i32_462 : BitVec 32 := 0#32
  let c1_i32_464 : BitVec 32 := 1#32
  let arg25 : BitVec 32 := Scf.iv c0_i32_462 c1_i32_464 k2_t9
  let v523 : Index := Scalar.indexCast arg25
  let c16_624 : Index := 16#32
  ![7, v523.toNat, 16]
def k2_off64 (k2_t9 : Fin k2_t9_loop.trips) : Fin 3 → Nat :=
  let c7_i32_625 : BitVec 32 := 7#32
  let v527 : Index := Scalar.indexCast c7_i32_625
  let c0_i32_462 : BitVec 32 := 0#32
  let c1_i32_464 : BitVec 32 := 1#32
  let arg25 : BitVec 32 := Scf.iv c0_i32_462 c1_i32_464 k2_t9
  let v528 : Index := Scalar.indexCast arg25
  let c32 : Index := 32#32
  ![7, v528.toNat, 32]
def k2_off65 (k2_t9 : Fin k2_t9_loop.trips) : Fin 3 → Nat :=
  let c7_i32_626 : BitVec 32 := 7#32
  let v531 : Index := Scalar.indexCast c7_i32_626
  let c0_i32_462 : BitVec 32 := 0#32
  let c1_i32_464 : BitVec 32 := 1#32
  let arg25 : BitVec 32 := Scf.iv c0_i32_462 c1_i32_464 k2_t9
  let v532 : Index := Scalar.indexCast arg25
  let c32_627 : Index := 32#32
  ![7, v532.toNat, 32]
def k2_off66 (k2_t9 : Fin k2_t9_loop.trips) : Fin 3 → Nat :=
  let c7_i32_628 : BitVec 32 := 7#32
  let v536 : Index := Scalar.indexCast c7_i32_628
  let c0_i32_462 : BitVec 32 := 0#32
  let c1_i32_464 : BitVec 32 := 1#32
  let arg25 : BitVec 32 := Scf.iv c0_i32_462 c1_i32_464 k2_t9
  let v537 : Index := Scalar.indexCast arg25
  let c48 : Index := 48#32
  ![7, v537.toNat, 48]
def k2_off67 (k2_t9 : Fin k2_t9_loop.trips) : Fin 3 → Nat :=
  let c7_i32_629 : BitVec 32 := 7#32
  let v540 : Index := Scalar.indexCast c7_i32_629
  let c0_i32_462 : BitVec 32 := 0#32
  let c1_i32_464 : BitVec 32 := 1#32
  let arg25 : BitVec 32 := Scf.iv c0_i32_462 c1_i32_464 k2_t9
  let v541 : Index := Scalar.indexCast arg25
  let c48_630 : Index := 48#32
  ![7, v541.toNat, 48]
def k2_off68 (k2_t1 : Fin k2_t1_loop.trips) (c0_i32_476 : BitVec 32) : Fin 2 → Nat :=
  let c0_i32_50 : BitVec 32 := 0#32
  let c1_i32_51 : BitVec 32 := 1#32
  let arg24 : BitVec 32 := Scf.iv c0_i32_50 c1_i32_51 k2_t1
  let c8_i32_475 : BitVec 32 := 8#32
  let v373 : BitVec 32 := Scalar.muli arg24 c8_i32_475
  let v374 : BitVec 32 := Scalar.addi v373 c0_i32_476
  let c8_i32_486 : BitVec 32 := 8#32
  let v384 : BitVec 32 := Scalar.addi v374 c8_i32_486
  let c0_i32_490 : BitVec 32 := 0#32
  ![v384.toNat, 0]
@[reducible] def k2_t10_loop : Scf.Loop 32 :=
  let c0_i32_60 : BitVec 32 := 0#32
  let c50_i32 : BitVec 32 := 50#32
  let v50 : BitVec 32 := Scalar.addi c0_i32_60 c50_i32
  let c1_i32_61 : BitVec 32 := 1#32
  ⟨c0_i32_60, v50, c1_i32_61⟩
def k2_off69 (k2_t10 : Fin k2_t10_loop.trips) : Fin 3 → Nat :=
  let c0_i32_300 : BitVec 32 := 0#32
  let v237 : Index := Scalar.indexCast c0_i32_300
  let c0_i32_60 : BitVec 32 := 0#32
  let c1_i32_61 : BitVec 32 := 1#32
  let arg24 : BitVec 32 := Scf.iv c0_i32_60 c1_i32_61 k2_t10
  let v238 : Index := Scalar.indexCast arg24
  let c0 : Index := 0#32
  ![0, v238.toNat, 0]
def k2_off70 (k2_t10 : Fin k2_t10_loop.trips) : Fin 3 → Nat :=
  let c0_i32_301 : BitVec 32 := 0#32
  let v241 : Index := Scalar.indexCast c0_i32_301
  let c0_i32_60 : BitVec 32 := 0#32
  let c1_i32_61 : BitVec 32 := 1#32
  let arg24 : BitVec 32 := Scf.iv c0_i32_60 c1_i32_61 k2_t10
  let v242 : Index := Scalar.indexCast arg24
  let c0_302 : Index := 0#32
  ![0, v242.toNat, 0]
def k2_off71 (k2_t10 : Fin k2_t10_loop.trips) : Fin 3 → Nat :=
  let c0_i32_303 : BitVec 32 := 0#32
  let v246 : Index := Scalar.indexCast c0_i32_303
  let c0_i32_60 : BitVec 32 := 0#32
  let c1_i32_61 : BitVec 32 := 1#32
  let arg24 : BitVec 32 := Scf.iv c0_i32_60 c1_i32_61 k2_t10
  let v247 : Index := Scalar.indexCast arg24
  let c16 : Index := 16#32
  ![0, v247.toNat, 16]
def k2_off72 (k2_t10 : Fin k2_t10_loop.trips) : Fin 3 → Nat :=
  let c0_i32_304 : BitVec 32 := 0#32
  let v250 : Index := Scalar.indexCast c0_i32_304
  let c0_i32_60 : BitVec 32 := 0#32
  let c1_i32_61 : BitVec 32 := 1#32
  let arg24 : BitVec 32 := Scf.iv c0_i32_60 c1_i32_61 k2_t10
  let v251 : Index := Scalar.indexCast arg24
  let c16_305 : Index := 16#32
  ![0, v251.toNat, 16]
def k2_off73 (k2_t10 : Fin k2_t10_loop.trips) : Fin 3 → Nat :=
  let c0_i32_306 : BitVec 32 := 0#32
  let v255 : Index := Scalar.indexCast c0_i32_306
  let c0_i32_60 : BitVec 32 := 0#32
  let c1_i32_61 : BitVec 32 := 1#32
  let arg24 : BitVec 32 := Scf.iv c0_i32_60 c1_i32_61 k2_t10
  let v256 : Index := Scalar.indexCast arg24
  let c32 : Index := 32#32
  ![0, v256.toNat, 32]
def k2_off74 (k2_t10 : Fin k2_t10_loop.trips) : Fin 3 → Nat :=
  let c0_i32_307 : BitVec 32 := 0#32
  let v259 : Index := Scalar.indexCast c0_i32_307
  let c0_i32_60 : BitVec 32 := 0#32
  let c1_i32_61 : BitVec 32 := 1#32
  let arg24 : BitVec 32 := Scf.iv c0_i32_60 c1_i32_61 k2_t10
  let v260 : Index := Scalar.indexCast arg24
  let c32_308 : Index := 32#32
  ![0, v260.toNat, 32]
def k2_off75 (k2_t10 : Fin k2_t10_loop.trips) : Fin 3 → Nat :=
  let c0_i32_309 : BitVec 32 := 0#32
  let v264 : Index := Scalar.indexCast c0_i32_309
  let c0_i32_60 : BitVec 32 := 0#32
  let c1_i32_61 : BitVec 32 := 1#32
  let arg24 : BitVec 32 := Scf.iv c0_i32_60 c1_i32_61 k2_t10
  let v265 : Index := Scalar.indexCast arg24
  let c48 : Index := 48#32
  ![0, v265.toNat, 48]
def k2_off76 (k2_t10 : Fin k2_t10_loop.trips) : Fin 3 → Nat :=
  let c0_i32_310 : BitVec 32 := 0#32
  let v268 : Index := Scalar.indexCast c0_i32_310
  let c0_i32_60 : BitVec 32 := 0#32
  let c1_i32_61 : BitVec 32 := 1#32
  let arg24 : BitVec 32 := Scf.iv c0_i32_60 c1_i32_61 k2_t10
  let v269 : Index := Scalar.indexCast arg24
  let c48_311 : Index := 48#32
  ![0, v269.toNat, 48]
def k2_off77 (i : grid2.Coords) (c120_i32_63 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v51 : BitVec 32 := Scalar.addi v2 c120_i32_63
  let c0_i32_67 : BitVec 32 := 0#32
  let c0_i32_68 : BitVec 32 := 0#32
  ![v51.toNat, 0, 0]
@[reducible] def k2_t11_loop : Scf.Loop 32 :=
  let c0_i32_80 : BitVec 32 := 0#32
  let c50_i32_81 : BitVec 32 := 50#32
  let v65 : BitVec 32 := Scalar.addi c0_i32_80 c50_i32_81
  let c1_i32_82 : BitVec 32 := 1#32
  ⟨c0_i32_80, v65, c1_i32_82⟩
def k2_off78 (k2_t11 : Fin k2_t11_loop.trips) : Fin 3 → Nat :=
  let c1_i32_300 : BitVec 32 := 1#32
  let v237 : Index := Scalar.indexCast c1_i32_300
  let c0_i32_80 : BitVec 32 := 0#32
  let c1_i32_82 : BitVec 32 := 1#32
  let arg24 : BitVec 32 := Scf.iv c0_i32_80 c1_i32_82 k2_t11
  let v238 : Index := Scalar.indexCast arg24
  let c0 : Index := 0#32
  ![1, v238.toNat, 0]
def k2_off79 (k2_t11 : Fin k2_t11_loop.trips) : Fin 3 → Nat :=
  let c1_i32_301 : BitVec 32 := 1#32
  let v241 : Index := Scalar.indexCast c1_i32_301
  let c0_i32_80 : BitVec 32 := 0#32
  let c1_i32_82 : BitVec 32 := 1#32
  let arg24 : BitVec 32 := Scf.iv c0_i32_80 c1_i32_82 k2_t11
  let v242 : Index := Scalar.indexCast arg24
  let c0_302 : Index := 0#32
  ![1, v242.toNat, 0]
def k2_off80 (k2_t11 : Fin k2_t11_loop.trips) : Fin 3 → Nat :=
  let c1_i32_303 : BitVec 32 := 1#32
  let v246 : Index := Scalar.indexCast c1_i32_303
  let c0_i32_80 : BitVec 32 := 0#32
  let c1_i32_82 : BitVec 32 := 1#32
  let arg24 : BitVec 32 := Scf.iv c0_i32_80 c1_i32_82 k2_t11
  let v247 : Index := Scalar.indexCast arg24
  let c16 : Index := 16#32
  ![1, v247.toNat, 16]
def k2_off81 (k2_t11 : Fin k2_t11_loop.trips) : Fin 3 → Nat :=
  let c1_i32_304 : BitVec 32 := 1#32
  let v250 : Index := Scalar.indexCast c1_i32_304
  let c0_i32_80 : BitVec 32 := 0#32
  let c1_i32_82 : BitVec 32 := 1#32
  let arg24 : BitVec 32 := Scf.iv c0_i32_80 c1_i32_82 k2_t11
  let v251 : Index := Scalar.indexCast arg24
  let c16_305 : Index := 16#32
  ![1, v251.toNat, 16]
def k2_off82 (k2_t11 : Fin k2_t11_loop.trips) : Fin 3 → Nat :=
  let c1_i32_306 : BitVec 32 := 1#32
  let v255 : Index := Scalar.indexCast c1_i32_306
  let c0_i32_80 : BitVec 32 := 0#32
  let c1_i32_82 : BitVec 32 := 1#32
  let arg24 : BitVec 32 := Scf.iv c0_i32_80 c1_i32_82 k2_t11
  let v256 : Index := Scalar.indexCast arg24
  let c32 : Index := 32#32
  ![1, v256.toNat, 32]
def k2_off83 (k2_t11 : Fin k2_t11_loop.trips) : Fin 3 → Nat :=
  let c1_i32_307 : BitVec 32 := 1#32
  let v259 : Index := Scalar.indexCast c1_i32_307
  let c0_i32_80 : BitVec 32 := 0#32
  let c1_i32_82 : BitVec 32 := 1#32
  let arg24 : BitVec 32 := Scf.iv c0_i32_80 c1_i32_82 k2_t11
  let v260 : Index := Scalar.indexCast arg24
  let c32_308 : Index := 32#32
  ![1, v260.toNat, 32]
def k2_off84 (k2_t11 : Fin k2_t11_loop.trips) : Fin 3 → Nat :=
  let c1_i32_309 : BitVec 32 := 1#32
  let v264 : Index := Scalar.indexCast c1_i32_309
  let c0_i32_80 : BitVec 32 := 0#32
  let c1_i32_82 : BitVec 32 := 1#32
  let arg24 : BitVec 32 := Scf.iv c0_i32_80 c1_i32_82 k2_t11
  let v265 : Index := Scalar.indexCast arg24
  let c48 : Index := 48#32
  ![1, v265.toNat, 48]
def k2_off85 (k2_t11 : Fin k2_t11_loop.trips) : Fin 3 → Nat :=
  let c1_i32_310 : BitVec 32 := 1#32
  let v268 : Index := Scalar.indexCast c1_i32_310
  let c0_i32_80 : BitVec 32 := 0#32
  let c1_i32_82 : BitVec 32 := 1#32
  let arg24 : BitVec 32 := Scf.iv c0_i32_80 c1_i32_82 k2_t11
  let v269 : Index := Scalar.indexCast arg24
  let c48_311 : Index := 48#32
  ![1, v269.toNat, 48]
@[reducible] def k2_t12_loop : Scf.Loop 32 :=
  let c0_i32_101 : BitVec 32 := 0#32
  let c50_i32_102 : BitVec 32 := 50#32
  let v80 : BitVec 32 := Scalar.addi c0_i32_101 c50_i32_102
  let c1_i32_103 : BitVec 32 := 1#32
  ⟨c0_i32_101, v80, c1_i32_103⟩
def k2_off86 (k2_t12 : Fin k2_t12_loop.trips) : Fin 3 → Nat :=
  let c2_i32_300 : BitVec 32 := 2#32
  let v237 : Index := Scalar.indexCast c2_i32_300
  let c0_i32_101 : BitVec 32 := 0#32
  let c1_i32_103 : BitVec 32 := 1#32
  let arg24 : BitVec 32 := Scf.iv c0_i32_101 c1_i32_103 k2_t12
  let v238 : Index := Scalar.indexCast arg24
  let c0 : Index := 0#32
  ![2, v238.toNat, 0]
def k2_off87 (k2_t12 : Fin k2_t12_loop.trips) : Fin 3 → Nat :=
  let c2_i32_301 : BitVec 32 := 2#32
  let v241 : Index := Scalar.indexCast c2_i32_301
  let c0_i32_101 : BitVec 32 := 0#32
  let c1_i32_103 : BitVec 32 := 1#32
  let arg24 : BitVec 32 := Scf.iv c0_i32_101 c1_i32_103 k2_t12
  let v242 : Index := Scalar.indexCast arg24
  let c0_302 : Index := 0#32
  ![2, v242.toNat, 0]
def k2_off88 (k2_t12 : Fin k2_t12_loop.trips) : Fin 3 → Nat :=
  let c2_i32_303 : BitVec 32 := 2#32
  let v246 : Index := Scalar.indexCast c2_i32_303
  let c0_i32_101 : BitVec 32 := 0#32
  let c1_i32_103 : BitVec 32 := 1#32
  let arg24 : BitVec 32 := Scf.iv c0_i32_101 c1_i32_103 k2_t12
  let v247 : Index := Scalar.indexCast arg24
  let c16 : Index := 16#32
  ![2, v247.toNat, 16]
def k2_off89 (k2_t12 : Fin k2_t12_loop.trips) : Fin 3 → Nat :=
  let c2_i32_304 : BitVec 32 := 2#32
  let v250 : Index := Scalar.indexCast c2_i32_304
  let c0_i32_101 : BitVec 32 := 0#32
  let c1_i32_103 : BitVec 32 := 1#32
  let arg24 : BitVec 32 := Scf.iv c0_i32_101 c1_i32_103 k2_t12
  let v251 : Index := Scalar.indexCast arg24
  let c16_305 : Index := 16#32
  ![2, v251.toNat, 16]
def k2_off90 (k2_t12 : Fin k2_t12_loop.trips) : Fin 3 → Nat :=
  let c2_i32_306 : BitVec 32 := 2#32
  let v255 : Index := Scalar.indexCast c2_i32_306
  let c0_i32_101 : BitVec 32 := 0#32
  let c1_i32_103 : BitVec 32 := 1#32
  let arg24 : BitVec 32 := Scf.iv c0_i32_101 c1_i32_103 k2_t12
  let v256 : Index := Scalar.indexCast arg24
  let c32 : Index := 32#32
  ![2, v256.toNat, 32]
def k2_off91 (k2_t12 : Fin k2_t12_loop.trips) : Fin 3 → Nat :=
  let c2_i32_307 : BitVec 32 := 2#32
  let v259 : Index := Scalar.indexCast c2_i32_307
  let c0_i32_101 : BitVec 32 := 0#32
  let c1_i32_103 : BitVec 32 := 1#32
  let arg24 : BitVec 32 := Scf.iv c0_i32_101 c1_i32_103 k2_t12
  let v260 : Index := Scalar.indexCast arg24
  let c32_308 : Index := 32#32
  ![2, v260.toNat, 32]
def k2_off92 (k2_t12 : Fin k2_t12_loop.trips) : Fin 3 → Nat :=
  let c2_i32_309 : BitVec 32 := 2#32
  let v264 : Index := Scalar.indexCast c2_i32_309
  let c0_i32_101 : BitVec 32 := 0#32
  let c1_i32_103 : BitVec 32 := 1#32
  let arg24 : BitVec 32 := Scf.iv c0_i32_101 c1_i32_103 k2_t12
  let v265 : Index := Scalar.indexCast arg24
  let c48 : Index := 48#32
  ![2, v265.toNat, 48]
def k2_off93 (k2_t12 : Fin k2_t12_loop.trips) : Fin 3 → Nat :=
  let c2_i32_310 : BitVec 32 := 2#32
  let v268 : Index := Scalar.indexCast c2_i32_310
  let c0_i32_101 : BitVec 32 := 0#32
  let c1_i32_103 : BitVec 32 := 1#32
  let arg24 : BitVec 32 := Scf.iv c0_i32_101 c1_i32_103 k2_t12
  let v269 : Index := Scalar.indexCast arg24
  let c48_311 : Index := 48#32
  ![2, v269.toNat, 48]
@[reducible] def k2_t13_loop : Scf.Loop 32 :=
  let c0_i32_122 : BitVec 32 := 0#32
  let c50_i32_123 : BitVec 32 := 50#32
  let v95 : BitVec 32 := Scalar.addi c0_i32_122 c50_i32_123
  let c1_i32_124 : BitVec 32 := 1#32
  ⟨c0_i32_122, v95, c1_i32_124⟩
def k2_off94 (k2_t13 : Fin k2_t13_loop.trips) : Fin 3 → Nat :=
  let c3_i32_300 : BitVec 32 := 3#32
  let v237 : Index := Scalar.indexCast c3_i32_300
  let c0_i32_122 : BitVec 32 := 0#32
  let c1_i32_124 : BitVec 32 := 1#32
  let arg24 : BitVec 32 := Scf.iv c0_i32_122 c1_i32_124 k2_t13
  let v238 : Index := Scalar.indexCast arg24
  let c0 : Index := 0#32
  ![3, v238.toNat, 0]
def k2_off95 (k2_t13 : Fin k2_t13_loop.trips) : Fin 3 → Nat :=
  let c3_i32_301 : BitVec 32 := 3#32
  let v241 : Index := Scalar.indexCast c3_i32_301
  let c0_i32_122 : BitVec 32 := 0#32
  let c1_i32_124 : BitVec 32 := 1#32
  let arg24 : BitVec 32 := Scf.iv c0_i32_122 c1_i32_124 k2_t13
  let v242 : Index := Scalar.indexCast arg24
  let c0_302 : Index := 0#32
  ![3, v242.toNat, 0]
def k2_off96 (k2_t13 : Fin k2_t13_loop.trips) : Fin 3 → Nat :=
  let c3_i32_303 : BitVec 32 := 3#32
  let v246 : Index := Scalar.indexCast c3_i32_303
  let c0_i32_122 : BitVec 32 := 0#32
  let c1_i32_124 : BitVec 32 := 1#32
  let arg24 : BitVec 32 := Scf.iv c0_i32_122 c1_i32_124 k2_t13
  let v247 : Index := Scalar.indexCast arg24
  let c16 : Index := 16#32
  ![3, v247.toNat, 16]
def k2_off97 (k2_t13 : Fin k2_t13_loop.trips) : Fin 3 → Nat :=
  let c3_i32_304 : BitVec 32 := 3#32
  let v250 : Index := Scalar.indexCast c3_i32_304
  let c0_i32_122 : BitVec 32 := 0#32
  let c1_i32_124 : BitVec 32 := 1#32
  let arg24 : BitVec 32 := Scf.iv c0_i32_122 c1_i32_124 k2_t13
  let v251 : Index := Scalar.indexCast arg24
  let c16_305 : Index := 16#32
  ![3, v251.toNat, 16]
def k2_off98 (k2_t13 : Fin k2_t13_loop.trips) : Fin 3 → Nat :=
  let c3_i32_306 : BitVec 32 := 3#32
  let v255 : Index := Scalar.indexCast c3_i32_306
  let c0_i32_122 : BitVec 32 := 0#32
  let c1_i32_124 : BitVec 32 := 1#32
  let arg24 : BitVec 32 := Scf.iv c0_i32_122 c1_i32_124 k2_t13
  let v256 : Index := Scalar.indexCast arg24
  let c32 : Index := 32#32
  ![3, v256.toNat, 32]
def k2_off99 (k2_t13 : Fin k2_t13_loop.trips) : Fin 3 → Nat :=
  let c3_i32_307 : BitVec 32 := 3#32
  let v259 : Index := Scalar.indexCast c3_i32_307
  let c0_i32_122 : BitVec 32 := 0#32
  let c1_i32_124 : BitVec 32 := 1#32
  let arg24 : BitVec 32 := Scf.iv c0_i32_122 c1_i32_124 k2_t13
  let v260 : Index := Scalar.indexCast arg24
  let c32_308 : Index := 32#32
  ![3, v260.toNat, 32]
def k2_off100 (k2_t13 : Fin k2_t13_loop.trips) : Fin 3 → Nat :=
  let c3_i32_309 : BitVec 32 := 3#32
  let v264 : Index := Scalar.indexCast c3_i32_309
  let c0_i32_122 : BitVec 32 := 0#32
  let c1_i32_124 : BitVec 32 := 1#32
  let arg24 : BitVec 32 := Scf.iv c0_i32_122 c1_i32_124 k2_t13
  let v265 : Index := Scalar.indexCast arg24
  let c48 : Index := 48#32
  ![3, v265.toNat, 48]
def k2_off101 (k2_t13 : Fin k2_t13_loop.trips) : Fin 3 → Nat :=
  let c3_i32_310 : BitVec 32 := 3#32
  let v268 : Index := Scalar.indexCast c3_i32_310
  let c0_i32_122 : BitVec 32 := 0#32
  let c1_i32_124 : BitVec 32 := 1#32
  let arg24 : BitVec 32 := Scf.iv c0_i32_122 c1_i32_124 k2_t13
  let v269 : Index := Scalar.indexCast arg24
  let c48_311 : Index := 48#32
  ![3, v269.toNat, 48]
@[reducible] def k2_t14_loop : Scf.Loop 32 :=
  let c0_i32_143 : BitVec 32 := 0#32
  let c50_i32_144 : BitVec 32 := 50#32
  let v110 : BitVec 32 := Scalar.addi c0_i32_143 c50_i32_144
  let c1_i32_145 : BitVec 32 := 1#32
  ⟨c0_i32_143, v110, c1_i32_145⟩
def k2_off102 (k2_t14 : Fin k2_t14_loop.trips) : Fin 3 → Nat :=
  let c4_i32_300 : BitVec 32 := 4#32
  let v237 : Index := Scalar.indexCast c4_i32_300
  let c0_i32_143 : BitVec 32 := 0#32
  let c1_i32_145 : BitVec 32 := 1#32
  let arg24 : BitVec 32 := Scf.iv c0_i32_143 c1_i32_145 k2_t14
  let v238 : Index := Scalar.indexCast arg24
  let c0 : Index := 0#32
  ![4, v238.toNat, 0]
def k2_off103 (k2_t14 : Fin k2_t14_loop.trips) : Fin 3 → Nat :=
  let c4_i32_301 : BitVec 32 := 4#32
  let v241 : Index := Scalar.indexCast c4_i32_301
  let c0_i32_143 : BitVec 32 := 0#32
  let c1_i32_145 : BitVec 32 := 1#32
  let arg24 : BitVec 32 := Scf.iv c0_i32_143 c1_i32_145 k2_t14
  let v242 : Index := Scalar.indexCast arg24
  let c0_302 : Index := 0#32
  ![4, v242.toNat, 0]
def k2_off104 (k2_t14 : Fin k2_t14_loop.trips) : Fin 3 → Nat :=
  let c4_i32_303 : BitVec 32 := 4#32
  let v246 : Index := Scalar.indexCast c4_i32_303
  let c0_i32_143 : BitVec 32 := 0#32
  let c1_i32_145 : BitVec 32 := 1#32
  let arg24 : BitVec 32 := Scf.iv c0_i32_143 c1_i32_145 k2_t14
  let v247 : Index := Scalar.indexCast arg24
  let c16 : Index := 16#32
  ![4, v247.toNat, 16]
def k2_off105 (k2_t14 : Fin k2_t14_loop.trips) : Fin 3 → Nat :=
  let c4_i32_304 : BitVec 32 := 4#32
  let v250 : Index := Scalar.indexCast c4_i32_304
  let c0_i32_143 : BitVec 32 := 0#32
  let c1_i32_145 : BitVec 32 := 1#32
  let arg24 : BitVec 32 := Scf.iv c0_i32_143 c1_i32_145 k2_t14
  let v251 : Index := Scalar.indexCast arg24
  let c16_305 : Index := 16#32
  ![4, v251.toNat, 16]
def k2_off106 (k2_t14 : Fin k2_t14_loop.trips) : Fin 3 → Nat :=
  let c4_i32_306 : BitVec 32 := 4#32
  let v255 : Index := Scalar.indexCast c4_i32_306
  let c0_i32_143 : BitVec 32 := 0#32
  let c1_i32_145 : BitVec 32 := 1#32
  let arg24 : BitVec 32 := Scf.iv c0_i32_143 c1_i32_145 k2_t14
  let v256 : Index := Scalar.indexCast arg24
  let c32 : Index := 32#32
  ![4, v256.toNat, 32]
def k2_off107 (k2_t14 : Fin k2_t14_loop.trips) : Fin 3 → Nat :=
  let c4_i32_307 : BitVec 32 := 4#32
  let v259 : Index := Scalar.indexCast c4_i32_307
  let c0_i32_143 : BitVec 32 := 0#32
  let c1_i32_145 : BitVec 32 := 1#32
  let arg24 : BitVec 32 := Scf.iv c0_i32_143 c1_i32_145 k2_t14
  let v260 : Index := Scalar.indexCast arg24
  let c32_308 : Index := 32#32
  ![4, v260.toNat, 32]
def k2_off108 (k2_t14 : Fin k2_t14_loop.trips) : Fin 3 → Nat :=
  let c4_i32_309 : BitVec 32 := 4#32
  let v264 : Index := Scalar.indexCast c4_i32_309
  let c0_i32_143 : BitVec 32 := 0#32
  let c1_i32_145 : BitVec 32 := 1#32
  let arg24 : BitVec 32 := Scf.iv c0_i32_143 c1_i32_145 k2_t14
  let v265 : Index := Scalar.indexCast arg24
  let c48 : Index := 48#32
  ![4, v265.toNat, 48]
def k2_off109 (k2_t14 : Fin k2_t14_loop.trips) : Fin 3 → Nat :=
  let c4_i32_310 : BitVec 32 := 4#32
  let v268 : Index := Scalar.indexCast c4_i32_310
  let c0_i32_143 : BitVec 32 := 0#32
  let c1_i32_145 : BitVec 32 := 1#32
  let arg24 : BitVec 32 := Scf.iv c0_i32_143 c1_i32_145 k2_t14
  let v269 : Index := Scalar.indexCast arg24
  let c48_311 : Index := 48#32
  ![4, v269.toNat, 48]
@[reducible] def k2_t15_loop : Scf.Loop 32 :=
  let c0_i32_164 : BitVec 32 := 0#32
  let c50_i32_165 : BitVec 32 := 50#32
  let v125 : BitVec 32 := Scalar.addi c0_i32_164 c50_i32_165
  let c1_i32_166 : BitVec 32 := 1#32
  ⟨c0_i32_164, v125, c1_i32_166⟩
def k2_off110 (k2_t15 : Fin k2_t15_loop.trips) : Fin 3 → Nat :=
  let c5_i32_300 : BitVec 32 := 5#32
  let v237 : Index := Scalar.indexCast c5_i32_300
  let c0_i32_164 : BitVec 32 := 0#32
  let c1_i32_166 : BitVec 32 := 1#32
  let arg24 : BitVec 32 := Scf.iv c0_i32_164 c1_i32_166 k2_t15
  let v238 : Index := Scalar.indexCast arg24
  let c0 : Index := 0#32
  ![5, v238.toNat, 0]
def k2_off111 (k2_t15 : Fin k2_t15_loop.trips) : Fin 3 → Nat :=
  let c5_i32_301 : BitVec 32 := 5#32
  let v241 : Index := Scalar.indexCast c5_i32_301
  let c0_i32_164 : BitVec 32 := 0#32
  let c1_i32_166 : BitVec 32 := 1#32
  let arg24 : BitVec 32 := Scf.iv c0_i32_164 c1_i32_166 k2_t15
  let v242 : Index := Scalar.indexCast arg24
  let c0_302 : Index := 0#32
  ![5, v242.toNat, 0]
def k2_off112 (k2_t15 : Fin k2_t15_loop.trips) : Fin 3 → Nat :=
  let c5_i32_303 : BitVec 32 := 5#32
  let v246 : Index := Scalar.indexCast c5_i32_303
  let c0_i32_164 : BitVec 32 := 0#32
  let c1_i32_166 : BitVec 32 := 1#32
  let arg24 : BitVec 32 := Scf.iv c0_i32_164 c1_i32_166 k2_t15
  let v247 : Index := Scalar.indexCast arg24
  let c16 : Index := 16#32
  ![5, v247.toNat, 16]
def k2_off113 (k2_t15 : Fin k2_t15_loop.trips) : Fin 3 → Nat :=
  let c5_i32_304 : BitVec 32 := 5#32
  let v250 : Index := Scalar.indexCast c5_i32_304
  let c0_i32_164 : BitVec 32 := 0#32
  let c1_i32_166 : BitVec 32 := 1#32
  let arg24 : BitVec 32 := Scf.iv c0_i32_164 c1_i32_166 k2_t15
  let v251 : Index := Scalar.indexCast arg24
  let c16_305 : Index := 16#32
  ![5, v251.toNat, 16]
def k2_off114 (k2_t15 : Fin k2_t15_loop.trips) : Fin 3 → Nat :=
  let c5_i32_306 : BitVec 32 := 5#32
  let v255 : Index := Scalar.indexCast c5_i32_306
  let c0_i32_164 : BitVec 32 := 0#32
  let c1_i32_166 : BitVec 32 := 1#32
  let arg24 : BitVec 32 := Scf.iv c0_i32_164 c1_i32_166 k2_t15
  let v256 : Index := Scalar.indexCast arg24
  let c32 : Index := 32#32
  ![5, v256.toNat, 32]
def k2_off115 (k2_t15 : Fin k2_t15_loop.trips) : Fin 3 → Nat :=
  let c5_i32_307 : BitVec 32 := 5#32
  let v259 : Index := Scalar.indexCast c5_i32_307
  let c0_i32_164 : BitVec 32 := 0#32
  let c1_i32_166 : BitVec 32 := 1#32
  let arg24 : BitVec 32 := Scf.iv c0_i32_164 c1_i32_166 k2_t15
  let v260 : Index := Scalar.indexCast arg24
  let c32_308 : Index := 32#32
  ![5, v260.toNat, 32]
def k2_off116 (k2_t15 : Fin k2_t15_loop.trips) : Fin 3 → Nat :=
  let c5_i32_309 : BitVec 32 := 5#32
  let v264 : Index := Scalar.indexCast c5_i32_309
  let c0_i32_164 : BitVec 32 := 0#32
  let c1_i32_166 : BitVec 32 := 1#32
  let arg24 : BitVec 32 := Scf.iv c0_i32_164 c1_i32_166 k2_t15
  let v265 : Index := Scalar.indexCast arg24
  let c48 : Index := 48#32
  ![5, v265.toNat, 48]
def k2_off117 (k2_t15 : Fin k2_t15_loop.trips) : Fin 3 → Nat :=
  let c5_i32_310 : BitVec 32 := 5#32
  let v268 : Index := Scalar.indexCast c5_i32_310
  let c0_i32_164 : BitVec 32 := 0#32
  let c1_i32_166 : BitVec 32 := 1#32
  let arg24 : BitVec 32 := Scf.iv c0_i32_164 c1_i32_166 k2_t15
  let v269 : Index := Scalar.indexCast arg24
  let c48_311 : Index := 48#32
  ![5, v269.toNat, 48]
@[reducible] def k2_t16_loop : Scf.Loop 32 :=
  let c0_i32_185 : BitVec 32 := 0#32
  let c50_i32_186 : BitVec 32 := 50#32
  let v140 : BitVec 32 := Scalar.addi c0_i32_185 c50_i32_186
  let c1_i32_187 : BitVec 32 := 1#32
  ⟨c0_i32_185, v140, c1_i32_187⟩
def k2_off118 (k2_t16 : Fin k2_t16_loop.trips) : Fin 3 → Nat :=
  let c6_i32_300 : BitVec 32 := 6#32
  let v237 : Index := Scalar.indexCast c6_i32_300
  let c0_i32_185 : BitVec 32 := 0#32
  let c1_i32_187 : BitVec 32 := 1#32
  let arg24 : BitVec 32 := Scf.iv c0_i32_185 c1_i32_187 k2_t16
  let v238 : Index := Scalar.indexCast arg24
  let c0 : Index := 0#32
  ![6, v238.toNat, 0]
def k2_off119 (k2_t16 : Fin k2_t16_loop.trips) : Fin 3 → Nat :=
  let c6_i32_301 : BitVec 32 := 6#32
  let v241 : Index := Scalar.indexCast c6_i32_301
  let c0_i32_185 : BitVec 32 := 0#32
  let c1_i32_187 : BitVec 32 := 1#32
  let arg24 : BitVec 32 := Scf.iv c0_i32_185 c1_i32_187 k2_t16
  let v242 : Index := Scalar.indexCast arg24
  let c0_302 : Index := 0#32
  ![6, v242.toNat, 0]
def k2_off120 (k2_t16 : Fin k2_t16_loop.trips) : Fin 3 → Nat :=
  let c6_i32_303 : BitVec 32 := 6#32
  let v246 : Index := Scalar.indexCast c6_i32_303
  let c0_i32_185 : BitVec 32 := 0#32
  let c1_i32_187 : BitVec 32 := 1#32
  let arg24 : BitVec 32 := Scf.iv c0_i32_185 c1_i32_187 k2_t16
  let v247 : Index := Scalar.indexCast arg24
  let c16 : Index := 16#32
  ![6, v247.toNat, 16]
def k2_off121 (k2_t16 : Fin k2_t16_loop.trips) : Fin 3 → Nat :=
  let c6_i32_304 : BitVec 32 := 6#32
  let v250 : Index := Scalar.indexCast c6_i32_304
  let c0_i32_185 : BitVec 32 := 0#32
  let c1_i32_187 : BitVec 32 := 1#32
  let arg24 : BitVec 32 := Scf.iv c0_i32_185 c1_i32_187 k2_t16
  let v251 : Index := Scalar.indexCast arg24
  let c16_305 : Index := 16#32
  ![6, v251.toNat, 16]
def k2_off122 (k2_t16 : Fin k2_t16_loop.trips) : Fin 3 → Nat :=
  let c6_i32_306 : BitVec 32 := 6#32
  let v255 : Index := Scalar.indexCast c6_i32_306
  let c0_i32_185 : BitVec 32 := 0#32
  let c1_i32_187 : BitVec 32 := 1#32
  let arg24 : BitVec 32 := Scf.iv c0_i32_185 c1_i32_187 k2_t16
  let v256 : Index := Scalar.indexCast arg24
  let c32 : Index := 32#32
  ![6, v256.toNat, 32]
def k2_off123 (k2_t16 : Fin k2_t16_loop.trips) : Fin 3 → Nat :=
  let c6_i32_307 : BitVec 32 := 6#32
  let v259 : Index := Scalar.indexCast c6_i32_307
  let c0_i32_185 : BitVec 32 := 0#32
  let c1_i32_187 : BitVec 32 := 1#32
  let arg24 : BitVec 32 := Scf.iv c0_i32_185 c1_i32_187 k2_t16
  let v260 : Index := Scalar.indexCast arg24
  let c32_308 : Index := 32#32
  ![6, v260.toNat, 32]
def k2_off124 (k2_t16 : Fin k2_t16_loop.trips) : Fin 3 → Nat :=
  let c6_i32_309 : BitVec 32 := 6#32
  let v264 : Index := Scalar.indexCast c6_i32_309
  let c0_i32_185 : BitVec 32 := 0#32
  let c1_i32_187 : BitVec 32 := 1#32
  let arg24 : BitVec 32 := Scf.iv c0_i32_185 c1_i32_187 k2_t16
  let v265 : Index := Scalar.indexCast arg24
  let c48 : Index := 48#32
  ![6, v265.toNat, 48]
def k2_off125 (k2_t16 : Fin k2_t16_loop.trips) : Fin 3 → Nat :=
  let c6_i32_310 : BitVec 32 := 6#32
  let v268 : Index := Scalar.indexCast c6_i32_310
  let c0_i32_185 : BitVec 32 := 0#32
  let c1_i32_187 : BitVec 32 := 1#32
  let arg24 : BitVec 32 := Scf.iv c0_i32_185 c1_i32_187 k2_t16
  let v269 : Index := Scalar.indexCast arg24
  let c48_311 : Index := 48#32
  ![6, v269.toNat, 48]
@[reducible] def k2_t17_loop : Scf.Loop 32 :=
  let c0_i32_206 : BitVec 32 := 0#32
  let c50_i32_207 : BitVec 32 := 50#32
  let v155 : BitVec 32 := Scalar.addi c0_i32_206 c50_i32_207
  let c1_i32_208 : BitVec 32 := 1#32
  ⟨c0_i32_206, v155, c1_i32_208⟩
def k2_off126 (k2_t17 : Fin k2_t17_loop.trips) : Fin 3 → Nat :=
  let c7_i32_300 : BitVec 32 := 7#32
  let v237 : Index := Scalar.indexCast c7_i32_300
  let c0_i32_206 : BitVec 32 := 0#32
  let c1_i32_208 : BitVec 32 := 1#32
  let arg24 : BitVec 32 := Scf.iv c0_i32_206 c1_i32_208 k2_t17
  let v238 : Index := Scalar.indexCast arg24
  let c0 : Index := 0#32
  ![7, v238.toNat, 0]
def k2_off127 (k2_t17 : Fin k2_t17_loop.trips) : Fin 3 → Nat :=
  let c7_i32_301 : BitVec 32 := 7#32
  let v241 : Index := Scalar.indexCast c7_i32_301
  let c0_i32_206 : BitVec 32 := 0#32
  let c1_i32_208 : BitVec 32 := 1#32
  let arg24 : BitVec 32 := Scf.iv c0_i32_206 c1_i32_208 k2_t17
  let v242 : Index := Scalar.indexCast arg24
  let c0_302 : Index := 0#32
  ![7, v242.toNat, 0]
def k2_off128 (k2_t17 : Fin k2_t17_loop.trips) : Fin 3 → Nat :=
  let c7_i32_303 : BitVec 32 := 7#32
  let v246 : Index := Scalar.indexCast c7_i32_303
  let c0_i32_206 : BitVec 32 := 0#32
  let c1_i32_208 : BitVec 32 := 1#32
  let arg24 : BitVec 32 := Scf.iv c0_i32_206 c1_i32_208 k2_t17
  let v247 : Index := Scalar.indexCast arg24
  let c16 : Index := 16#32
  ![7, v247.toNat, 16]
def k2_off129 (k2_t17 : Fin k2_t17_loop.trips) : Fin 3 → Nat :=
  let c7_i32_304 : BitVec 32 := 7#32
  let v250 : Index := Scalar.indexCast c7_i32_304
  let c0_i32_206 : BitVec 32 := 0#32
  let c1_i32_208 : BitVec 32 := 1#32
  let arg24 : BitVec 32 := Scf.iv c0_i32_206 c1_i32_208 k2_t17
  let v251 : Index := Scalar.indexCast arg24
  let c16_305 : Index := 16#32
  ![7, v251.toNat, 16]
def k2_off130 (k2_t17 : Fin k2_t17_loop.trips) : Fin 3 → Nat :=
  let c7_i32_306 : BitVec 32 := 7#32
  let v255 : Index := Scalar.indexCast c7_i32_306
  let c0_i32_206 : BitVec 32 := 0#32
  let c1_i32_208 : BitVec 32 := 1#32
  let arg24 : BitVec 32 := Scf.iv c0_i32_206 c1_i32_208 k2_t17
  let v256 : Index := Scalar.indexCast arg24
  let c32 : Index := 32#32
  ![7, v256.toNat, 32]
def k2_off131 (k2_t17 : Fin k2_t17_loop.trips) : Fin 3 → Nat :=
  let c7_i32_307 : BitVec 32 := 7#32
  let v259 : Index := Scalar.indexCast c7_i32_307
  let c0_i32_206 : BitVec 32 := 0#32
  let c1_i32_208 : BitVec 32 := 1#32
  let arg24 : BitVec 32 := Scf.iv c0_i32_206 c1_i32_208 k2_t17
  let v260 : Index := Scalar.indexCast arg24
  let c32_308 : Index := 32#32
  ![7, v260.toNat, 32]
def k2_off132 (k2_t17 : Fin k2_t17_loop.trips) : Fin 3 → Nat :=
  let c7_i32_309 : BitVec 32 := 7#32
  let v264 : Index := Scalar.indexCast c7_i32_309
  let c0_i32_206 : BitVec 32 := 0#32
  let c1_i32_208 : BitVec 32 := 1#32
  let arg24 : BitVec 32 := Scf.iv c0_i32_206 c1_i32_208 k2_t17
  let v265 : Index := Scalar.indexCast arg24
  let c48 : Index := 48#32
  ![7, v265.toNat, 48]
def k2_off133 (k2_t17 : Fin k2_t17_loop.trips) : Fin 3 → Nat :=
  let c7_i32_310 : BitVec 32 := 7#32
  let v268 : Index := Scalar.indexCast c7_i32_310
  let c0_i32_206 : BitVec 32 := 0#32
  let c1_i32_208 : BitVec 32 := 1#32
  let arg24 : BitVec 32 := Scf.iv c0_i32_206 c1_i32_208 k2_t17
  let v269 : Index := Scalar.indexCast arg24
  let c48_311 : Index := 48#32
  ![7, v269.toNat, 48]
abbrev grid3 : Pipeline.Grid := ⟨2, ![2, 16], ![false, false]⟩

def k3_off1 (i : grid3.Coords) : Fin 2 → Nat :=
  let c12288_i32 : BitVec 32 := 12288#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v3 : BitVec 32 := Scalar.addi c12288_i32 v2
  let c0_i32_300_r0 : BitVec 32 := 0#32
  ![v3.toNat, 0]
@[reducible] def k3_t1_loop : Scf.Loop 32 :=
  let c0_i32_50 : BitVec 32 := 0#32
  let c15_i32 : BitVec 32 := 15#32
  let v44 : BitVec 32 := Scalar.addi c0_i32_50 c15_i32
  let c1_i32_51 : BitVec 32 := 1#32
  ⟨c0_i32_50, v44, c1_i32_51⟩
def k3_off2 (k3_t1 : Fin k3_t1_loop.trips) (c0_i32_300 : BitVec 32) : Fin 2 → Nat :=
  let c0_i32_50 : BitVec 32 := 0#32
  let c1_i32_51 : BitVec 32 := 1#32
  let arg24 : BitVec 32 := Scf.iv c0_i32_50 c1_i32_51 k3_t1
  let c8_i32 : BitVec 32 := 8#32
  let v237 : BitVec 32 := Scalar.muli arg24 c8_i32
  let v238 : BitVec 32 := Scalar.addi v237 c0_i32_300
  let c0_i32_304 : BitVec 32 := 0#32
  ![v238.toNat, 0]
@[reducible] def k3_t2_loop : Scf.Loop 32 :=
  let c0_i32_308 : BitVec 32 := 0#32
  let c50_i32_309 : BitVec 32 := 50#32
  let v244 : BitVec 32 := Scalar.addi c0_i32_308 c50_i32_309
  let c1_i32_310 : BitVec 32 := 1#32
  ⟨c0_i32_308, v244, c1_i32_310⟩
def k3_off3 (k3_t2 : Fin k3_t2_loop.trips) : Fin 3 → Nat :=
  let c0_i32_619 : BitVec 32 := 0#32
  let v509 : Index := Scalar.indexCast c0_i32_619
  let c0_i32_308 : BitVec 32 := 0#32
  let c1_i32_310 : BitVec 32 := 1#32
  let arg25 : BitVec 32 := Scf.iv c0_i32_308 c1_i32_310 k3_t2
  let v510 : Index := Scalar.indexCast arg25
  let c0 : Index := 0#32
  ![0, v510.toNat, 0]
def k3_off4 (k3_t2 : Fin k3_t2_loop.trips) : Fin 3 → Nat :=
  let c0_i32_620 : BitVec 32 := 0#32
  let v513 : Index := Scalar.indexCast c0_i32_620
  let c0_i32_308 : BitVec 32 := 0#32
  let c1_i32_310 : BitVec 32 := 1#32
  let arg25 : BitVec 32 := Scf.iv c0_i32_308 c1_i32_310 k3_t2
  let v514 : Index := Scalar.indexCast arg25
  let c0_621 : Index := 0#32
  ![0, v514.toNat, 0]
def k3_off5 (k3_t2 : Fin k3_t2_loop.trips) : Fin 3 → Nat :=
  let c0_i32_622 : BitVec 32 := 0#32
  let v518 : Index := Scalar.indexCast c0_i32_622
  let c0_i32_308 : BitVec 32 := 0#32
  let c1_i32_310 : BitVec 32 := 1#32
  let arg25 : BitVec 32 := Scf.iv c0_i32_308 c1_i32_310 k3_t2
  let v519 : Index := Scalar.indexCast arg25
  let c16 : Index := 16#32
  ![0, v519.toNat, 16]
def k3_off6 (k3_t2 : Fin k3_t2_loop.trips) : Fin 3 → Nat :=
  let c0_i32_623 : BitVec 32 := 0#32
  let v522 : Index := Scalar.indexCast c0_i32_623
  let c0_i32_308 : BitVec 32 := 0#32
  let c1_i32_310 : BitVec 32 := 1#32
  let arg25 : BitVec 32 := Scf.iv c0_i32_308 c1_i32_310 k3_t2
  let v523 : Index := Scalar.indexCast arg25
  let c16_624 : Index := 16#32
  ![0, v523.toNat, 16]
def k3_off7 (k3_t2 : Fin k3_t2_loop.trips) : Fin 3 → Nat :=
  let c0_i32_625 : BitVec 32 := 0#32
  let v527 : Index := Scalar.indexCast c0_i32_625
  let c0_i32_308 : BitVec 32 := 0#32
  let c1_i32_310 : BitVec 32 := 1#32
  let arg25 : BitVec 32 := Scf.iv c0_i32_308 c1_i32_310 k3_t2
  let v528 : Index := Scalar.indexCast arg25
  let c32 : Index := 32#32
  ![0, v528.toNat, 32]
def k3_off8 (k3_t2 : Fin k3_t2_loop.trips) : Fin 3 → Nat :=
  let c0_i32_626 : BitVec 32 := 0#32
  let v531 : Index := Scalar.indexCast c0_i32_626
  let c0_i32_308 : BitVec 32 := 0#32
  let c1_i32_310 : BitVec 32 := 1#32
  let arg25 : BitVec 32 := Scf.iv c0_i32_308 c1_i32_310 k3_t2
  let v532 : Index := Scalar.indexCast arg25
  let c32_627 : Index := 32#32
  ![0, v532.toNat, 32]
def k3_off9 (k3_t2 : Fin k3_t2_loop.trips) : Fin 3 → Nat :=
  let c0_i32_628 : BitVec 32 := 0#32
  let v536 : Index := Scalar.indexCast c0_i32_628
  let c0_i32_308 : BitVec 32 := 0#32
  let c1_i32_310 : BitVec 32 := 1#32
  let arg25 : BitVec 32 := Scf.iv c0_i32_308 c1_i32_310 k3_t2
  let v537 : Index := Scalar.indexCast arg25
  let c48 : Index := 48#32
  ![0, v537.toNat, 48]
def k3_off10 (k3_t2 : Fin k3_t2_loop.trips) : Fin 3 → Nat :=
  let c0_i32_629 : BitVec 32 := 0#32
  let v540 : Index := Scalar.indexCast c0_i32_629
  let c0_i32_308 : BitVec 32 := 0#32
  let c1_i32_310 : BitVec 32 := 1#32
  let arg25 : BitVec 32 := Scf.iv c0_i32_308 c1_i32_310 k3_t2
  let v541 : Index := Scalar.indexCast arg25
  let c48_630 : Index := 48#32
  ![0, v541.toNat, 48]
def k3_off11 (i : grid3.Coords) (k3_t1 : Fin k3_t1_loop.trips) (c0_i32_300 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_50 : BitVec 32 := 0#32
  let c1_i32_51 : BitVec 32 := 1#32
  let arg24 : BitVec 32 := Scf.iv c0_i32_50 c1_i32_51 k3_t1
  let c8_i32 : BitVec 32 := 8#32
  let v237 : BitVec 32 := Scalar.muli arg24 c8_i32
  let v238 : BitVec 32 := Scalar.addi v237 c0_i32_300
  let v245 : BitVec 32 := Scalar.addi v2 v238
  let c0_i32_315 : BitVec 32 := 0#32
  let c0_i32_316 : BitVec 32 := 0#32
  ![v245.toNat, 0, 0]
@[reducible] def k3_t3_loop : Scf.Loop 32 :=
  let c0_i32_330 : BitVec 32 := 0#32
  let c50_i32_331 : BitVec 32 := 50#32
  let v261 : BitVec 32 := Scalar.addi c0_i32_330 c50_i32_331
  let c1_i32_332 : BitVec 32 := 1#32
  ⟨c0_i32_330, v261, c1_i32_332⟩
def k3_off12 (k3_t3 : Fin k3_t3_loop.trips) : Fin 3 → Nat :=
  let c1_i32_619 : BitVec 32 := 1#32
  let v509 : Index := Scalar.indexCast c1_i32_619
  let c0_i32_330 : BitVec 32 := 0#32
  let c1_i32_332 : BitVec 32 := 1#32
  let arg25 : BitVec 32 := Scf.iv c0_i32_330 c1_i32_332 k3_t3
  let v510 : Index := Scalar.indexCast arg25
  let c0 : Index := 0#32
  ![1, v510.toNat, 0]
def k3_off13 (k3_t3 : Fin k3_t3_loop.trips) : Fin 3 → Nat :=
  let c1_i32_620 : BitVec 32 := 1#32
  let v513 : Index := Scalar.indexCast c1_i32_620
  let c0_i32_330 : BitVec 32 := 0#32
  let c1_i32_332 : BitVec 32 := 1#32
  let arg25 : BitVec 32 := Scf.iv c0_i32_330 c1_i32_332 k3_t3
  let v514 : Index := Scalar.indexCast arg25
  let c0_621 : Index := 0#32
  ![1, v514.toNat, 0]
def k3_off14 (k3_t3 : Fin k3_t3_loop.trips) : Fin 3 → Nat :=
  let c1_i32_622 : BitVec 32 := 1#32
  let v518 : Index := Scalar.indexCast c1_i32_622
  let c0_i32_330 : BitVec 32 := 0#32
  let c1_i32_332 : BitVec 32 := 1#32
  let arg25 : BitVec 32 := Scf.iv c0_i32_330 c1_i32_332 k3_t3
  let v519 : Index := Scalar.indexCast arg25
  let c16 : Index := 16#32
  ![1, v519.toNat, 16]
def k3_off15 (k3_t3 : Fin k3_t3_loop.trips) : Fin 3 → Nat :=
  let c1_i32_623 : BitVec 32 := 1#32
  let v522 : Index := Scalar.indexCast c1_i32_623
  let c0_i32_330 : BitVec 32 := 0#32
  let c1_i32_332 : BitVec 32 := 1#32
  let arg25 : BitVec 32 := Scf.iv c0_i32_330 c1_i32_332 k3_t3
  let v523 : Index := Scalar.indexCast arg25
  let c16_624 : Index := 16#32
  ![1, v523.toNat, 16]
def k3_off16 (k3_t3 : Fin k3_t3_loop.trips) : Fin 3 → Nat :=
  let c1_i32_625 : BitVec 32 := 1#32
  let v527 : Index := Scalar.indexCast c1_i32_625
  let c0_i32_330 : BitVec 32 := 0#32
  let c1_i32_332 : BitVec 32 := 1#32
  let arg25 : BitVec 32 := Scf.iv c0_i32_330 c1_i32_332 k3_t3
  let v528 : Index := Scalar.indexCast arg25
  let c32 : Index := 32#32
  ![1, v528.toNat, 32]
def k3_off17 (k3_t3 : Fin k3_t3_loop.trips) : Fin 3 → Nat :=
  let c1_i32_626 : BitVec 32 := 1#32
  let v531 : Index := Scalar.indexCast c1_i32_626
  let c0_i32_330 : BitVec 32 := 0#32
  let c1_i32_332 : BitVec 32 := 1#32
  let arg25 : BitVec 32 := Scf.iv c0_i32_330 c1_i32_332 k3_t3
  let v532 : Index := Scalar.indexCast arg25
  let c32_627 : Index := 32#32
  ![1, v532.toNat, 32]
def k3_off18 (k3_t3 : Fin k3_t3_loop.trips) : Fin 3 → Nat :=
  let c1_i32_628 : BitVec 32 := 1#32
  let v536 : Index := Scalar.indexCast c1_i32_628
  let c0_i32_330 : BitVec 32 := 0#32
  let c1_i32_332 : BitVec 32 := 1#32
  let arg25 : BitVec 32 := Scf.iv c0_i32_330 c1_i32_332 k3_t3
  let v537 : Index := Scalar.indexCast arg25
  let c48 : Index := 48#32
  ![1, v537.toNat, 48]
def k3_off19 (k3_t3 : Fin k3_t3_loop.trips) : Fin 3 → Nat :=
  let c1_i32_629 : BitVec 32 := 1#32
  let v540 : Index := Scalar.indexCast c1_i32_629
  let c0_i32_330 : BitVec 32 := 0#32
  let c1_i32_332 : BitVec 32 := 1#32
  let arg25 : BitVec 32 := Scf.iv c0_i32_330 c1_i32_332 k3_t3
  let v541 : Index := Scalar.indexCast arg25
  let c48_630 : Index := 48#32
  ![1, v541.toNat, 48]
@[reducible] def k3_t4_loop : Scf.Loop 32 :=
  let c0_i32_352 : BitVec 32 := 0#32
  let c50_i32_353 : BitVec 32 := 50#32
  let v278 : BitVec 32 := Scalar.addi c0_i32_352 c50_i32_353
  let c1_i32_354 : BitVec 32 := 1#32
  ⟨c0_i32_352, v278, c1_i32_354⟩
def k3_off20 (k3_t4 : Fin k3_t4_loop.trips) : Fin 3 → Nat :=
  let c2_i32_619 : BitVec 32 := 2#32
  let v509 : Index := Scalar.indexCast c2_i32_619
  let c0_i32_352 : BitVec 32 := 0#32
  let c1_i32_354 : BitVec 32 := 1#32
  let arg25 : BitVec 32 := Scf.iv c0_i32_352 c1_i32_354 k3_t4
  let v510 : Index := Scalar.indexCast arg25
  let c0 : Index := 0#32
  ![2, v510.toNat, 0]
def k3_off21 (k3_t4 : Fin k3_t4_loop.trips) : Fin 3 → Nat :=
  let c2_i32_620 : BitVec 32 := 2#32
  let v513 : Index := Scalar.indexCast c2_i32_620
  let c0_i32_352 : BitVec 32 := 0#32
  let c1_i32_354 : BitVec 32 := 1#32
  let arg25 : BitVec 32 := Scf.iv c0_i32_352 c1_i32_354 k3_t4
  let v514 : Index := Scalar.indexCast arg25
  let c0_621 : Index := 0#32
  ![2, v514.toNat, 0]
def k3_off22 (k3_t4 : Fin k3_t4_loop.trips) : Fin 3 → Nat :=
  let c2_i32_622 : BitVec 32 := 2#32
  let v518 : Index := Scalar.indexCast c2_i32_622
  let c0_i32_352 : BitVec 32 := 0#32
  let c1_i32_354 : BitVec 32 := 1#32
  let arg25 : BitVec 32 := Scf.iv c0_i32_352 c1_i32_354 k3_t4
  let v519 : Index := Scalar.indexCast arg25
  let c16 : Index := 16#32
  ![2, v519.toNat, 16]
def k3_off23 (k3_t4 : Fin k3_t4_loop.trips) : Fin 3 → Nat :=
  let c2_i32_623 : BitVec 32 := 2#32
  let v522 : Index := Scalar.indexCast c2_i32_623
  let c0_i32_352 : BitVec 32 := 0#32
  let c1_i32_354 : BitVec 32 := 1#32
  let arg25 : BitVec 32 := Scf.iv c0_i32_352 c1_i32_354 k3_t4
  let v523 : Index := Scalar.indexCast arg25
  let c16_624 : Index := 16#32
  ![2, v523.toNat, 16]
def k3_off24 (k3_t4 : Fin k3_t4_loop.trips) : Fin 3 → Nat :=
  let c2_i32_625 : BitVec 32 := 2#32
  let v527 : Index := Scalar.indexCast c2_i32_625
  let c0_i32_352 : BitVec 32 := 0#32
  let c1_i32_354 : BitVec 32 := 1#32
  let arg25 : BitVec 32 := Scf.iv c0_i32_352 c1_i32_354 k3_t4
  let v528 : Index := Scalar.indexCast arg25
  let c32 : Index := 32#32
  ![2, v528.toNat, 32]
def k3_off25 (k3_t4 : Fin k3_t4_loop.trips) : Fin 3 → Nat :=
  let c2_i32_626 : BitVec 32 := 2#32
  let v531 : Index := Scalar.indexCast c2_i32_626
  let c0_i32_352 : BitVec 32 := 0#32
  let c1_i32_354 : BitVec 32 := 1#32
  let arg25 : BitVec 32 := Scf.iv c0_i32_352 c1_i32_354 k3_t4
  let v532 : Index := Scalar.indexCast arg25
  let c32_627 : Index := 32#32
  ![2, v532.toNat, 32]
def k3_off26 (k3_t4 : Fin k3_t4_loop.trips) : Fin 3 → Nat :=
  let c2_i32_628 : BitVec 32 := 2#32
  let v536 : Index := Scalar.indexCast c2_i32_628
  let c0_i32_352 : BitVec 32 := 0#32
  let c1_i32_354 : BitVec 32 := 1#32
  let arg25 : BitVec 32 := Scf.iv c0_i32_352 c1_i32_354 k3_t4
  let v537 : Index := Scalar.indexCast arg25
  let c48 : Index := 48#32
  ![2, v537.toNat, 48]
def k3_off27 (k3_t4 : Fin k3_t4_loop.trips) : Fin 3 → Nat :=
  let c2_i32_629 : BitVec 32 := 2#32
  let v540 : Index := Scalar.indexCast c2_i32_629
  let c0_i32_352 : BitVec 32 := 0#32
  let c1_i32_354 : BitVec 32 := 1#32
  let arg25 : BitVec 32 := Scf.iv c0_i32_352 c1_i32_354 k3_t4
  let v541 : Index := Scalar.indexCast arg25
  let c48_630 : Index := 48#32
  ![2, v541.toNat, 48]
@[reducible] def k3_t5_loop : Scf.Loop 32 :=
  let c0_i32_374 : BitVec 32 := 0#32
  let c50_i32_375 : BitVec 32 := 50#32
  let v295 : BitVec 32 := Scalar.addi c0_i32_374 c50_i32_375
  let c1_i32_376 : BitVec 32 := 1#32
  ⟨c0_i32_374, v295, c1_i32_376⟩
def k3_off28 (k3_t5 : Fin k3_t5_loop.trips) : Fin 3 → Nat :=
  let c3_i32_619 : BitVec 32 := 3#32
  let v509 : Index := Scalar.indexCast c3_i32_619
  let c0_i32_374 : BitVec 32 := 0#32
  let c1_i32_376 : BitVec 32 := 1#32
  let arg25 : BitVec 32 := Scf.iv c0_i32_374 c1_i32_376 k3_t5
  let v510 : Index := Scalar.indexCast arg25
  let c0 : Index := 0#32
  ![3, v510.toNat, 0]
def k3_off29 (k3_t5 : Fin k3_t5_loop.trips) : Fin 3 → Nat :=
  let c3_i32_620 : BitVec 32 := 3#32
  let v513 : Index := Scalar.indexCast c3_i32_620
  let c0_i32_374 : BitVec 32 := 0#32
  let c1_i32_376 : BitVec 32 := 1#32
  let arg25 : BitVec 32 := Scf.iv c0_i32_374 c1_i32_376 k3_t5
  let v514 : Index := Scalar.indexCast arg25
  let c0_621 : Index := 0#32
  ![3, v514.toNat, 0]
def k3_off30 (k3_t5 : Fin k3_t5_loop.trips) : Fin 3 → Nat :=
  let c3_i32_622 : BitVec 32 := 3#32
  let v518 : Index := Scalar.indexCast c3_i32_622
  let c0_i32_374 : BitVec 32 := 0#32
  let c1_i32_376 : BitVec 32 := 1#32
  let arg25 : BitVec 32 := Scf.iv c0_i32_374 c1_i32_376 k3_t5
  let v519 : Index := Scalar.indexCast arg25
  let c16 : Index := 16#32
  ![3, v519.toNat, 16]
def k3_off31 (k3_t5 : Fin k3_t5_loop.trips) : Fin 3 → Nat :=
  let c3_i32_623 : BitVec 32 := 3#32
  let v522 : Index := Scalar.indexCast c3_i32_623
  let c0_i32_374 : BitVec 32 := 0#32
  let c1_i32_376 : BitVec 32 := 1#32
  let arg25 : BitVec 32 := Scf.iv c0_i32_374 c1_i32_376 k3_t5
  let v523 : Index := Scalar.indexCast arg25
  let c16_624 : Index := 16#32
  ![3, v523.toNat, 16]
def k3_off32 (k3_t5 : Fin k3_t5_loop.trips) : Fin 3 → Nat :=
  let c3_i32_625 : BitVec 32 := 3#32
  let v527 : Index := Scalar.indexCast c3_i32_625
  let c0_i32_374 : BitVec 32 := 0#32
  let c1_i32_376 : BitVec 32 := 1#32
  let arg25 : BitVec 32 := Scf.iv c0_i32_374 c1_i32_376 k3_t5
  let v528 : Index := Scalar.indexCast arg25
  let c32 : Index := 32#32
  ![3, v528.toNat, 32]
def k3_off33 (k3_t5 : Fin k3_t5_loop.trips) : Fin 3 → Nat :=
  let c3_i32_626 : BitVec 32 := 3#32
  let v531 : Index := Scalar.indexCast c3_i32_626
  let c0_i32_374 : BitVec 32 := 0#32
  let c1_i32_376 : BitVec 32 := 1#32
  let arg25 : BitVec 32 := Scf.iv c0_i32_374 c1_i32_376 k3_t5
  let v532 : Index := Scalar.indexCast arg25
  let c32_627 : Index := 32#32
  ![3, v532.toNat, 32]
def k3_off34 (k3_t5 : Fin k3_t5_loop.trips) : Fin 3 → Nat :=
  let c3_i32_628 : BitVec 32 := 3#32
  let v536 : Index := Scalar.indexCast c3_i32_628
  let c0_i32_374 : BitVec 32 := 0#32
  let c1_i32_376 : BitVec 32 := 1#32
  let arg25 : BitVec 32 := Scf.iv c0_i32_374 c1_i32_376 k3_t5
  let v537 : Index := Scalar.indexCast arg25
  let c48 : Index := 48#32
  ![3, v537.toNat, 48]
def k3_off35 (k3_t5 : Fin k3_t5_loop.trips) : Fin 3 → Nat :=
  let c3_i32_629 : BitVec 32 := 3#32
  let v540 : Index := Scalar.indexCast c3_i32_629
  let c0_i32_374 : BitVec 32 := 0#32
  let c1_i32_376 : BitVec 32 := 1#32
  let arg25 : BitVec 32 := Scf.iv c0_i32_374 c1_i32_376 k3_t5
  let v541 : Index := Scalar.indexCast arg25
  let c48_630 : Index := 48#32
  ![3, v541.toNat, 48]
@[reducible] def k3_t6_loop : Scf.Loop 32 :=
  let c0_i32_396 : BitVec 32 := 0#32
  let c50_i32_397 : BitVec 32 := 50#32
  let v312 : BitVec 32 := Scalar.addi c0_i32_396 c50_i32_397
  let c1_i32_398 : BitVec 32 := 1#32
  ⟨c0_i32_396, v312, c1_i32_398⟩
def k3_off36 (k3_t6 : Fin k3_t6_loop.trips) : Fin 3 → Nat :=
  let c4_i32_619 : BitVec 32 := 4#32
  let v509 : Index := Scalar.indexCast c4_i32_619
  let c0_i32_396 : BitVec 32 := 0#32
  let c1_i32_398 : BitVec 32 := 1#32
  let arg25 : BitVec 32 := Scf.iv c0_i32_396 c1_i32_398 k3_t6
  let v510 : Index := Scalar.indexCast arg25
  let c0 : Index := 0#32
  ![4, v510.toNat, 0]
def k3_off37 (k3_t6 : Fin k3_t6_loop.trips) : Fin 3 → Nat :=
  let c4_i32_620 : BitVec 32 := 4#32
  let v513 : Index := Scalar.indexCast c4_i32_620
  let c0_i32_396 : BitVec 32 := 0#32
  let c1_i32_398 : BitVec 32 := 1#32
  let arg25 : BitVec 32 := Scf.iv c0_i32_396 c1_i32_398 k3_t6
  let v514 : Index := Scalar.indexCast arg25
  let c0_621 : Index := 0#32
  ![4, v514.toNat, 0]
def k3_off38 (k3_t6 : Fin k3_t6_loop.trips) : Fin 3 → Nat :=
  let c4_i32_622 : BitVec 32 := 4#32
  let v518 : Index := Scalar.indexCast c4_i32_622
  let c0_i32_396 : BitVec 32 := 0#32
  let c1_i32_398 : BitVec 32 := 1#32
  let arg25 : BitVec 32 := Scf.iv c0_i32_396 c1_i32_398 k3_t6
  let v519 : Index := Scalar.indexCast arg25
  let c16 : Index := 16#32
  ![4, v519.toNat, 16]
def k3_off39 (k3_t6 : Fin k3_t6_loop.trips) : Fin 3 → Nat :=
  let c4_i32_623 : BitVec 32 := 4#32
  let v522 : Index := Scalar.indexCast c4_i32_623
  let c0_i32_396 : BitVec 32 := 0#32
  let c1_i32_398 : BitVec 32 := 1#32
  let arg25 : BitVec 32 := Scf.iv c0_i32_396 c1_i32_398 k3_t6
  let v523 : Index := Scalar.indexCast arg25
  let c16_624 : Index := 16#32
  ![4, v523.toNat, 16]
def k3_off40 (k3_t6 : Fin k3_t6_loop.trips) : Fin 3 → Nat :=
  let c4_i32_625 : BitVec 32 := 4#32
  let v527 : Index := Scalar.indexCast c4_i32_625
  let c0_i32_396 : BitVec 32 := 0#32
  let c1_i32_398 : BitVec 32 := 1#32
  let arg25 : BitVec 32 := Scf.iv c0_i32_396 c1_i32_398 k3_t6
  let v528 : Index := Scalar.indexCast arg25
  let c32 : Index := 32#32
  ![4, v528.toNat, 32]
def k3_off41 (k3_t6 : Fin k3_t6_loop.trips) : Fin 3 → Nat :=
  let c4_i32_626 : BitVec 32 := 4#32
  let v531 : Index := Scalar.indexCast c4_i32_626
  let c0_i32_396 : BitVec 32 := 0#32
  let c1_i32_398 : BitVec 32 := 1#32
  let arg25 : BitVec 32 := Scf.iv c0_i32_396 c1_i32_398 k3_t6
  let v532 : Index := Scalar.indexCast arg25
  let c32_627 : Index := 32#32
  ![4, v532.toNat, 32]
def k3_off42 (k3_t6 : Fin k3_t6_loop.trips) : Fin 3 → Nat :=
  let c4_i32_628 : BitVec 32 := 4#32
  let v536 : Index := Scalar.indexCast c4_i32_628
  let c0_i32_396 : BitVec 32 := 0#32
  let c1_i32_398 : BitVec 32 := 1#32
  let arg25 : BitVec 32 := Scf.iv c0_i32_396 c1_i32_398 k3_t6
  let v537 : Index := Scalar.indexCast arg25
  let c48 : Index := 48#32
  ![4, v537.toNat, 48]
def k3_off43 (k3_t6 : Fin k3_t6_loop.trips) : Fin 3 → Nat :=
  let c4_i32_629 : BitVec 32 := 4#32
  let v540 : Index := Scalar.indexCast c4_i32_629
  let c0_i32_396 : BitVec 32 := 0#32
  let c1_i32_398 : BitVec 32 := 1#32
  let arg25 : BitVec 32 := Scf.iv c0_i32_396 c1_i32_398 k3_t6
  let v541 : Index := Scalar.indexCast arg25
  let c48_630 : Index := 48#32
  ![4, v541.toNat, 48]
@[reducible] def k3_t7_loop : Scf.Loop 32 :=
  let c0_i32_418 : BitVec 32 := 0#32
  let c50_i32_419 : BitVec 32 := 50#32
  let v329 : BitVec 32 := Scalar.addi c0_i32_418 c50_i32_419
  let c1_i32_420 : BitVec 32 := 1#32
  ⟨c0_i32_418, v329, c1_i32_420⟩
def k3_off44 (k3_t7 : Fin k3_t7_loop.trips) : Fin 3 → Nat :=
  let c5_i32_619 : BitVec 32 := 5#32
  let v509 : Index := Scalar.indexCast c5_i32_619
  let c0_i32_418 : BitVec 32 := 0#32
  let c1_i32_420 : BitVec 32 := 1#32
  let arg25 : BitVec 32 := Scf.iv c0_i32_418 c1_i32_420 k3_t7
  let v510 : Index := Scalar.indexCast arg25
  let c0 : Index := 0#32
  ![5, v510.toNat, 0]
def k3_off45 (k3_t7 : Fin k3_t7_loop.trips) : Fin 3 → Nat :=
  let c5_i32_620 : BitVec 32 := 5#32
  let v513 : Index := Scalar.indexCast c5_i32_620
  let c0_i32_418 : BitVec 32 := 0#32
  let c1_i32_420 : BitVec 32 := 1#32
  let arg25 : BitVec 32 := Scf.iv c0_i32_418 c1_i32_420 k3_t7
  let v514 : Index := Scalar.indexCast arg25
  let c0_621 : Index := 0#32
  ![5, v514.toNat, 0]
def k3_off46 (k3_t7 : Fin k3_t7_loop.trips) : Fin 3 → Nat :=
  let c5_i32_622 : BitVec 32 := 5#32
  let v518 : Index := Scalar.indexCast c5_i32_622
  let c0_i32_418 : BitVec 32 := 0#32
  let c1_i32_420 : BitVec 32 := 1#32
  let arg25 : BitVec 32 := Scf.iv c0_i32_418 c1_i32_420 k3_t7
  let v519 : Index := Scalar.indexCast arg25
  let c16 : Index := 16#32
  ![5, v519.toNat, 16]
def k3_off47 (k3_t7 : Fin k3_t7_loop.trips) : Fin 3 → Nat :=
  let c5_i32_623 : BitVec 32 := 5#32
  let v522 : Index := Scalar.indexCast c5_i32_623
  let c0_i32_418 : BitVec 32 := 0#32
  let c1_i32_420 : BitVec 32 := 1#32
  let arg25 : BitVec 32 := Scf.iv c0_i32_418 c1_i32_420 k3_t7
  let v523 : Index := Scalar.indexCast arg25
  let c16_624 : Index := 16#32
  ![5, v523.toNat, 16]
def k3_off48 (k3_t7 : Fin k3_t7_loop.trips) : Fin 3 → Nat :=
  let c5_i32_625 : BitVec 32 := 5#32
  let v527 : Index := Scalar.indexCast c5_i32_625
  let c0_i32_418 : BitVec 32 := 0#32
  let c1_i32_420 : BitVec 32 := 1#32
  let arg25 : BitVec 32 := Scf.iv c0_i32_418 c1_i32_420 k3_t7
  let v528 : Index := Scalar.indexCast arg25
  let c32 : Index := 32#32
  ![5, v528.toNat, 32]
def k3_off49 (k3_t7 : Fin k3_t7_loop.trips) : Fin 3 → Nat :=
  let c5_i32_626 : BitVec 32 := 5#32
  let v531 : Index := Scalar.indexCast c5_i32_626
  let c0_i32_418 : BitVec 32 := 0#32
  let c1_i32_420 : BitVec 32 := 1#32
  let arg25 : BitVec 32 := Scf.iv c0_i32_418 c1_i32_420 k3_t7
  let v532 : Index := Scalar.indexCast arg25
  let c32_627 : Index := 32#32
  ![5, v532.toNat, 32]
def k3_off50 (k3_t7 : Fin k3_t7_loop.trips) : Fin 3 → Nat :=
  let c5_i32_628 : BitVec 32 := 5#32
  let v536 : Index := Scalar.indexCast c5_i32_628
  let c0_i32_418 : BitVec 32 := 0#32
  let c1_i32_420 : BitVec 32 := 1#32
  let arg25 : BitVec 32 := Scf.iv c0_i32_418 c1_i32_420 k3_t7
  let v537 : Index := Scalar.indexCast arg25
  let c48 : Index := 48#32
  ![5, v537.toNat, 48]
def k3_off51 (k3_t7 : Fin k3_t7_loop.trips) : Fin 3 → Nat :=
  let c5_i32_629 : BitVec 32 := 5#32
  let v540 : Index := Scalar.indexCast c5_i32_629
  let c0_i32_418 : BitVec 32 := 0#32
  let c1_i32_420 : BitVec 32 := 1#32
  let arg25 : BitVec 32 := Scf.iv c0_i32_418 c1_i32_420 k3_t7
  let v541 : Index := Scalar.indexCast arg25
  let c48_630 : Index := 48#32
  ![5, v541.toNat, 48]
@[reducible] def k3_t8_loop : Scf.Loop 32 :=
  let c0_i32_440 : BitVec 32 := 0#32
  let c50_i32_441 : BitVec 32 := 50#32
  let v346 : BitVec 32 := Scalar.addi c0_i32_440 c50_i32_441
  let c1_i32_442 : BitVec 32 := 1#32
  ⟨c0_i32_440, v346, c1_i32_442⟩
def k3_off52 (k3_t8 : Fin k3_t8_loop.trips) : Fin 3 → Nat :=
  let c6_i32_619 : BitVec 32 := 6#32
  let v509 : Index := Scalar.indexCast c6_i32_619
  let c0_i32_440 : BitVec 32 := 0#32
  let c1_i32_442 : BitVec 32 := 1#32
  let arg25 : BitVec 32 := Scf.iv c0_i32_440 c1_i32_442 k3_t8
  let v510 : Index := Scalar.indexCast arg25
  let c0 : Index := 0#32
  ![6, v510.toNat, 0]
def k3_off53 (k3_t8 : Fin k3_t8_loop.trips) : Fin 3 → Nat :=
  let c6_i32_620 : BitVec 32 := 6#32
  let v513 : Index := Scalar.indexCast c6_i32_620
  let c0_i32_440 : BitVec 32 := 0#32
  let c1_i32_442 : BitVec 32 := 1#32
  let arg25 : BitVec 32 := Scf.iv c0_i32_440 c1_i32_442 k3_t8
  let v514 : Index := Scalar.indexCast arg25
  let c0_621 : Index := 0#32
  ![6, v514.toNat, 0]
def k3_off54 (k3_t8 : Fin k3_t8_loop.trips) : Fin 3 → Nat :=
  let c6_i32_622 : BitVec 32 := 6#32
  let v518 : Index := Scalar.indexCast c6_i32_622
  let c0_i32_440 : BitVec 32 := 0#32
  let c1_i32_442 : BitVec 32 := 1#32
  let arg25 : BitVec 32 := Scf.iv c0_i32_440 c1_i32_442 k3_t8
  let v519 : Index := Scalar.indexCast arg25
  let c16 : Index := 16#32
  ![6, v519.toNat, 16]
def k3_off55 (k3_t8 : Fin k3_t8_loop.trips) : Fin 3 → Nat :=
  let c6_i32_623 : BitVec 32 := 6#32
  let v522 : Index := Scalar.indexCast c6_i32_623
  let c0_i32_440 : BitVec 32 := 0#32
  let c1_i32_442 : BitVec 32 := 1#32
  let arg25 : BitVec 32 := Scf.iv c0_i32_440 c1_i32_442 k3_t8
  let v523 : Index := Scalar.indexCast arg25
  let c16_624 : Index := 16#32
  ![6, v523.toNat, 16]
def k3_off56 (k3_t8 : Fin k3_t8_loop.trips) : Fin 3 → Nat :=
  let c6_i32_625 : BitVec 32 := 6#32
  let v527 : Index := Scalar.indexCast c6_i32_625
  let c0_i32_440 : BitVec 32 := 0#32
  let c1_i32_442 : BitVec 32 := 1#32
  let arg25 : BitVec 32 := Scf.iv c0_i32_440 c1_i32_442 k3_t8
  let v528 : Index := Scalar.indexCast arg25
  let c32 : Index := 32#32
  ![6, v528.toNat, 32]
def k3_off57 (k3_t8 : Fin k3_t8_loop.trips) : Fin 3 → Nat :=
  let c6_i32_626 : BitVec 32 := 6#32
  let v531 : Index := Scalar.indexCast c6_i32_626
  let c0_i32_440 : BitVec 32 := 0#32
  let c1_i32_442 : BitVec 32 := 1#32
  let arg25 : BitVec 32 := Scf.iv c0_i32_440 c1_i32_442 k3_t8
  let v532 : Index := Scalar.indexCast arg25
  let c32_627 : Index := 32#32
  ![6, v532.toNat, 32]
def k3_off58 (k3_t8 : Fin k3_t8_loop.trips) : Fin 3 → Nat :=
  let c6_i32_628 : BitVec 32 := 6#32
  let v536 : Index := Scalar.indexCast c6_i32_628
  let c0_i32_440 : BitVec 32 := 0#32
  let c1_i32_442 : BitVec 32 := 1#32
  let arg25 : BitVec 32 := Scf.iv c0_i32_440 c1_i32_442 k3_t8
  let v537 : Index := Scalar.indexCast arg25
  let c48 : Index := 48#32
  ![6, v537.toNat, 48]
def k3_off59 (k3_t8 : Fin k3_t8_loop.trips) : Fin 3 → Nat :=
  let c6_i32_629 : BitVec 32 := 6#32
  let v540 : Index := Scalar.indexCast c6_i32_629
  let c0_i32_440 : BitVec 32 := 0#32
  let c1_i32_442 : BitVec 32 := 1#32
  let arg25 : BitVec 32 := Scf.iv c0_i32_440 c1_i32_442 k3_t8
  let v541 : Index := Scalar.indexCast arg25
  let c48_630 : Index := 48#32
  ![6, v541.toNat, 48]
@[reducible] def k3_t9_loop : Scf.Loop 32 :=
  let c0_i32_462 : BitVec 32 := 0#32
  let c50_i32_463 : BitVec 32 := 50#32
  let v363 : BitVec 32 := Scalar.addi c0_i32_462 c50_i32_463
  let c1_i32_464 : BitVec 32 := 1#32
  ⟨c0_i32_462, v363, c1_i32_464⟩
def k3_off60 (k3_t9 : Fin k3_t9_loop.trips) : Fin 3 → Nat :=
  let c7_i32_619 : BitVec 32 := 7#32
  let v509 : Index := Scalar.indexCast c7_i32_619
  let c0_i32_462 : BitVec 32 := 0#32
  let c1_i32_464 : BitVec 32 := 1#32
  let arg25 : BitVec 32 := Scf.iv c0_i32_462 c1_i32_464 k3_t9
  let v510 : Index := Scalar.indexCast arg25
  let c0 : Index := 0#32
  ![7, v510.toNat, 0]
def k3_off61 (k3_t9 : Fin k3_t9_loop.trips) : Fin 3 → Nat :=
  let c7_i32_620 : BitVec 32 := 7#32
  let v513 : Index := Scalar.indexCast c7_i32_620
  let c0_i32_462 : BitVec 32 := 0#32
  let c1_i32_464 : BitVec 32 := 1#32
  let arg25 : BitVec 32 := Scf.iv c0_i32_462 c1_i32_464 k3_t9
  let v514 : Index := Scalar.indexCast arg25
  let c0_621 : Index := 0#32
  ![7, v514.toNat, 0]
def k3_off62 (k3_t9 : Fin k3_t9_loop.trips) : Fin 3 → Nat :=
  let c7_i32_622 : BitVec 32 := 7#32
  let v518 : Index := Scalar.indexCast c7_i32_622
  let c0_i32_462 : BitVec 32 := 0#32
  let c1_i32_464 : BitVec 32 := 1#32
  let arg25 : BitVec 32 := Scf.iv c0_i32_462 c1_i32_464 k3_t9
  let v519 : Index := Scalar.indexCast arg25
  let c16 : Index := 16#32
  ![7, v519.toNat, 16]
def k3_off63 (k3_t9 : Fin k3_t9_loop.trips) : Fin 3 → Nat :=
  let c7_i32_623 : BitVec 32 := 7#32
  let v522 : Index := Scalar.indexCast c7_i32_623
  let c0_i32_462 : BitVec 32 := 0#32
  let c1_i32_464 : BitVec 32 := 1#32
  let arg25 : BitVec 32 := Scf.iv c0_i32_462 c1_i32_464 k3_t9
  let v523 : Index := Scalar.indexCast arg25
  let c16_624 : Index := 16#32
  ![7, v523.toNat, 16]
def k3_off64 (k3_t9 : Fin k3_t9_loop.trips) : Fin 3 → Nat :=
  let c7_i32_625 : BitVec 32 := 7#32
  let v527 : Index := Scalar.indexCast c7_i32_625
  let c0_i32_462 : BitVec 32 := 0#32
  let c1_i32_464 : BitVec 32 := 1#32
  let arg25 : BitVec 32 := Scf.iv c0_i32_462 c1_i32_464 k3_t9
  let v528 : Index := Scalar.indexCast arg25
  let c32 : Index := 32#32
  ![7, v528.toNat, 32]
def k3_off65 (k3_t9 : Fin k3_t9_loop.trips) : Fin 3 → Nat :=
  let c7_i32_626 : BitVec 32 := 7#32
  let v531 : Index := Scalar.indexCast c7_i32_626
  let c0_i32_462 : BitVec 32 := 0#32
  let c1_i32_464 : BitVec 32 := 1#32
  let arg25 : BitVec 32 := Scf.iv c0_i32_462 c1_i32_464 k3_t9
  let v532 : Index := Scalar.indexCast arg25
  let c32_627 : Index := 32#32
  ![7, v532.toNat, 32]
def k3_off66 (k3_t9 : Fin k3_t9_loop.trips) : Fin 3 → Nat :=
  let c7_i32_628 : BitVec 32 := 7#32
  let v536 : Index := Scalar.indexCast c7_i32_628
  let c0_i32_462 : BitVec 32 := 0#32
  let c1_i32_464 : BitVec 32 := 1#32
  let arg25 : BitVec 32 := Scf.iv c0_i32_462 c1_i32_464 k3_t9
  let v537 : Index := Scalar.indexCast arg25
  let c48 : Index := 48#32
  ![7, v537.toNat, 48]
def k3_off67 (k3_t9 : Fin k3_t9_loop.trips) : Fin 3 → Nat :=
  let c7_i32_629 : BitVec 32 := 7#32
  let v540 : Index := Scalar.indexCast c7_i32_629
  let c0_i32_462 : BitVec 32 := 0#32
  let c1_i32_464 : BitVec 32 := 1#32
  let arg25 : BitVec 32 := Scf.iv c0_i32_462 c1_i32_464 k3_t9
  let v541 : Index := Scalar.indexCast arg25
  let c48_630 : Index := 48#32
  ![7, v541.toNat, 48]
def k3_off68 (k3_t1 : Fin k3_t1_loop.trips) (c0_i32_476 : BitVec 32) : Fin 2 → Nat :=
  let c0_i32_50 : BitVec 32 := 0#32
  let c1_i32_51 : BitVec 32 := 1#32
  let arg24 : BitVec 32 := Scf.iv c0_i32_50 c1_i32_51 k3_t1
  let c8_i32_475 : BitVec 32 := 8#32
  let v373 : BitVec 32 := Scalar.muli arg24 c8_i32_475
  let v374 : BitVec 32 := Scalar.addi v373 c0_i32_476
  let c8_i32_486 : BitVec 32 := 8#32
  let v384 : BitVec 32 := Scalar.addi v374 c8_i32_486
  let c0_i32_490 : BitVec 32 := 0#32
  ![v384.toNat, 0]
@[reducible] def k3_t10_loop : Scf.Loop 32 :=
  let c0_i32_60 : BitVec 32 := 0#32
  let c50_i32 : BitVec 32 := 50#32
  let v50 : BitVec 32 := Scalar.addi c0_i32_60 c50_i32
  let c1_i32_61 : BitVec 32 := 1#32
  ⟨c0_i32_60, v50, c1_i32_61⟩
def k3_off69 (k3_t10 : Fin k3_t10_loop.trips) : Fin 3 → Nat :=
  let c0_i32_300 : BitVec 32 := 0#32
  let v237 : Index := Scalar.indexCast c0_i32_300
  let c0_i32_60 : BitVec 32 := 0#32
  let c1_i32_61 : BitVec 32 := 1#32
  let arg24 : BitVec 32 := Scf.iv c0_i32_60 c1_i32_61 k3_t10
  let v238 : Index := Scalar.indexCast arg24
  let c0 : Index := 0#32
  ![0, v238.toNat, 0]
def k3_off70 (k3_t10 : Fin k3_t10_loop.trips) : Fin 3 → Nat :=
  let c0_i32_301 : BitVec 32 := 0#32
  let v241 : Index := Scalar.indexCast c0_i32_301
  let c0_i32_60 : BitVec 32 := 0#32
  let c1_i32_61 : BitVec 32 := 1#32
  let arg24 : BitVec 32 := Scf.iv c0_i32_60 c1_i32_61 k3_t10
  let v242 : Index := Scalar.indexCast arg24
  let c0_302 : Index := 0#32
  ![0, v242.toNat, 0]
def k3_off71 (k3_t10 : Fin k3_t10_loop.trips) : Fin 3 → Nat :=
  let c0_i32_303 : BitVec 32 := 0#32
  let v246 : Index := Scalar.indexCast c0_i32_303
  let c0_i32_60 : BitVec 32 := 0#32
  let c1_i32_61 : BitVec 32 := 1#32
  let arg24 : BitVec 32 := Scf.iv c0_i32_60 c1_i32_61 k3_t10
  let v247 : Index := Scalar.indexCast arg24
  let c16 : Index := 16#32
  ![0, v247.toNat, 16]
def k3_off72 (k3_t10 : Fin k3_t10_loop.trips) : Fin 3 → Nat :=
  let c0_i32_304 : BitVec 32 := 0#32
  let v250 : Index := Scalar.indexCast c0_i32_304
  let c0_i32_60 : BitVec 32 := 0#32
  let c1_i32_61 : BitVec 32 := 1#32
  let arg24 : BitVec 32 := Scf.iv c0_i32_60 c1_i32_61 k3_t10
  let v251 : Index := Scalar.indexCast arg24
  let c16_305 : Index := 16#32
  ![0, v251.toNat, 16]
def k3_off73 (k3_t10 : Fin k3_t10_loop.trips) : Fin 3 → Nat :=
  let c0_i32_306 : BitVec 32 := 0#32
  let v255 : Index := Scalar.indexCast c0_i32_306
  let c0_i32_60 : BitVec 32 := 0#32
  let c1_i32_61 : BitVec 32 := 1#32
  let arg24 : BitVec 32 := Scf.iv c0_i32_60 c1_i32_61 k3_t10
  let v256 : Index := Scalar.indexCast arg24
  let c32 : Index := 32#32
  ![0, v256.toNat, 32]
def k3_off74 (k3_t10 : Fin k3_t10_loop.trips) : Fin 3 → Nat :=
  let c0_i32_307 : BitVec 32 := 0#32
  let v259 : Index := Scalar.indexCast c0_i32_307
  let c0_i32_60 : BitVec 32 := 0#32
  let c1_i32_61 : BitVec 32 := 1#32
  let arg24 : BitVec 32 := Scf.iv c0_i32_60 c1_i32_61 k3_t10
  let v260 : Index := Scalar.indexCast arg24
  let c32_308 : Index := 32#32
  ![0, v260.toNat, 32]
def k3_off75 (k3_t10 : Fin k3_t10_loop.trips) : Fin 3 → Nat :=
  let c0_i32_309 : BitVec 32 := 0#32
  let v264 : Index := Scalar.indexCast c0_i32_309
  let c0_i32_60 : BitVec 32 := 0#32
  let c1_i32_61 : BitVec 32 := 1#32
  let arg24 : BitVec 32 := Scf.iv c0_i32_60 c1_i32_61 k3_t10
  let v265 : Index := Scalar.indexCast arg24
  let c48 : Index := 48#32
  ![0, v265.toNat, 48]
def k3_off76 (k3_t10 : Fin k3_t10_loop.trips) : Fin 3 → Nat :=
  let c0_i32_310 : BitVec 32 := 0#32
  let v268 : Index := Scalar.indexCast c0_i32_310
  let c0_i32_60 : BitVec 32 := 0#32
  let c1_i32_61 : BitVec 32 := 1#32
  let arg24 : BitVec 32 := Scf.iv c0_i32_60 c1_i32_61 k3_t10
  let v269 : Index := Scalar.indexCast arg24
  let c48_311 : Index := 48#32
  ![0, v269.toNat, 48]
def k3_off77 (i : grid3.Coords) (c120_i32_63 : BitVec 32) : Fin 3 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let v51 : BitVec 32 := Scalar.addi v2 c120_i32_63
  let c0_i32_67 : BitVec 32 := 0#32
  let c0_i32_68 : BitVec 32 := 0#32
  ![v51.toNat, 0, 0]
@[reducible] def k3_t11_loop : Scf.Loop 32 :=
  let c0_i32_80 : BitVec 32 := 0#32
  let c50_i32_81 : BitVec 32 := 50#32
  let v65 : BitVec 32 := Scalar.addi c0_i32_80 c50_i32_81
  let c1_i32_82 : BitVec 32 := 1#32
  ⟨c0_i32_80, v65, c1_i32_82⟩
def k3_off78 (k3_t11 : Fin k3_t11_loop.trips) : Fin 3 → Nat :=
  let c1_i32_300 : BitVec 32 := 1#32
  let v237 : Index := Scalar.indexCast c1_i32_300
  let c0_i32_80 : BitVec 32 := 0#32
  let c1_i32_82 : BitVec 32 := 1#32
  let arg24 : BitVec 32 := Scf.iv c0_i32_80 c1_i32_82 k3_t11
  let v238 : Index := Scalar.indexCast arg24
  let c0 : Index := 0#32
  ![1, v238.toNat, 0]
def k3_off79 (k3_t11 : Fin k3_t11_loop.trips) : Fin 3 → Nat :=
  let c1_i32_301 : BitVec 32 := 1#32
  let v241 : Index := Scalar.indexCast c1_i32_301
  let c0_i32_80 : BitVec 32 := 0#32
  let c1_i32_82 : BitVec 32 := 1#32
  let arg24 : BitVec 32 := Scf.iv c0_i32_80 c1_i32_82 k3_t11
  let v242 : Index := Scalar.indexCast arg24
  let c0_302 : Index := 0#32
  ![1, v242.toNat, 0]
def k3_off80 (k3_t11 : Fin k3_t11_loop.trips) : Fin 3 → Nat :=
  let c1_i32_303 : BitVec 32 := 1#32
  let v246 : Index := Scalar.indexCast c1_i32_303
  let c0_i32_80 : BitVec 32 := 0#32
  let c1_i32_82 : BitVec 32 := 1#32
  let arg24 : BitVec 32 := Scf.iv c0_i32_80 c1_i32_82 k3_t11
  let v247 : Index := Scalar.indexCast arg24
  let c16 : Index := 16#32
  ![1, v247.toNat, 16]
def k3_off81 (k3_t11 : Fin k3_t11_loop.trips) : Fin 3 → Nat :=
  let c1_i32_304 : BitVec 32 := 1#32
  let v250 : Index := Scalar.indexCast c1_i32_304
  let c0_i32_80 : BitVec 32 := 0#32
  let c1_i32_82 : BitVec 32 := 1#32
  let arg24 : BitVec 32 := Scf.iv c0_i32_80 c1_i32_82 k3_t11
  let v251 : Index := Scalar.indexCast arg24
  let c16_305 : Index := 16#32
  ![1, v251.toNat, 16]
def k3_off82 (k3_t11 : Fin k3_t11_loop.trips) : Fin 3 → Nat :=
  let c1_i32_306 : BitVec 32 := 1#32
  let v255 : Index := Scalar.indexCast c1_i32_306
  let c0_i32_80 : BitVec 32 := 0#32
  let c1_i32_82 : BitVec 32 := 1#32
  let arg24 : BitVec 32 := Scf.iv c0_i32_80 c1_i32_82 k3_t11
  let v256 : Index := Scalar.indexCast arg24
  let c32 : Index := 32#32
  ![1, v256.toNat, 32]
def k3_off83 (k3_t11 : Fin k3_t11_loop.trips) : Fin 3 → Nat :=
  let c1_i32_307 : BitVec 32 := 1#32
  let v259 : Index := Scalar.indexCast c1_i32_307
  let c0_i32_80 : BitVec 32 := 0#32
  let c1_i32_82 : BitVec 32 := 1#32
  let arg24 : BitVec 32 := Scf.iv c0_i32_80 c1_i32_82 k3_t11
  let v260 : Index := Scalar.indexCast arg24
  let c32_308 : Index := 32#32
  ![1, v260.toNat, 32]
def k3_off84 (k3_t11 : Fin k3_t11_loop.trips) : Fin 3 → Nat :=
  let c1_i32_309 : BitVec 32 := 1#32
  let v264 : Index := Scalar.indexCast c1_i32_309
  let c0_i32_80 : BitVec 32 := 0#32
  let c1_i32_82 : BitVec 32 := 1#32
  let arg24 : BitVec 32 := Scf.iv c0_i32_80 c1_i32_82 k3_t11
  let v265 : Index := Scalar.indexCast arg24
  let c48 : Index := 48#32
  ![1, v265.toNat, 48]
def k3_off85 (k3_t11 : Fin k3_t11_loop.trips) : Fin 3 → Nat :=
  let c1_i32_310 : BitVec 32 := 1#32
  let v268 : Index := Scalar.indexCast c1_i32_310
  let c0_i32_80 : BitVec 32 := 0#32
  let c1_i32_82 : BitVec 32 := 1#32
  let arg24 : BitVec 32 := Scf.iv c0_i32_80 c1_i32_82 k3_t11
  let v269 : Index := Scalar.indexCast arg24
  let c48_311 : Index := 48#32
  ![1, v269.toNat, 48]
@[reducible] def k3_t12_loop : Scf.Loop 32 :=
  let c0_i32_101 : BitVec 32 := 0#32
  let c50_i32_102 : BitVec 32 := 50#32
  let v80 : BitVec 32 := Scalar.addi c0_i32_101 c50_i32_102
  let c1_i32_103 : BitVec 32 := 1#32
  ⟨c0_i32_101, v80, c1_i32_103⟩
def k3_off86 (k3_t12 : Fin k3_t12_loop.trips) : Fin 3 → Nat :=
  let c2_i32_300 : BitVec 32 := 2#32
  let v237 : Index := Scalar.indexCast c2_i32_300
  let c0_i32_101 : BitVec 32 := 0#32
  let c1_i32_103 : BitVec 32 := 1#32
  let arg24 : BitVec 32 := Scf.iv c0_i32_101 c1_i32_103 k3_t12
  let v238 : Index := Scalar.indexCast arg24
  let c0 : Index := 0#32
  ![2, v238.toNat, 0]
def k3_off87 (k3_t12 : Fin k3_t12_loop.trips) : Fin 3 → Nat :=
  let c2_i32_301 : BitVec 32 := 2#32
  let v241 : Index := Scalar.indexCast c2_i32_301
  let c0_i32_101 : BitVec 32 := 0#32
  let c1_i32_103 : BitVec 32 := 1#32
  let arg24 : BitVec 32 := Scf.iv c0_i32_101 c1_i32_103 k3_t12
  let v242 : Index := Scalar.indexCast arg24
  let c0_302 : Index := 0#32
  ![2, v242.toNat, 0]
def k3_off88 (k3_t12 : Fin k3_t12_loop.trips) : Fin 3 → Nat :=
  let c2_i32_303 : BitVec 32 := 2#32
  let v246 : Index := Scalar.indexCast c2_i32_303
  let c0_i32_101 : BitVec 32 := 0#32
  let c1_i32_103 : BitVec 32 := 1#32
  let arg24 : BitVec 32 := Scf.iv c0_i32_101 c1_i32_103 k3_t12
  let v247 : Index := Scalar.indexCast arg24
  let c16 : Index := 16#32
  ![2, v247.toNat, 16]
def k3_off89 (k3_t12 : Fin k3_t12_loop.trips) : Fin 3 → Nat :=
  let c2_i32_304 : BitVec 32 := 2#32
  let v250 : Index := Scalar.indexCast c2_i32_304
  let c0_i32_101 : BitVec 32 := 0#32
  let c1_i32_103 : BitVec 32 := 1#32
  let arg24 : BitVec 32 := Scf.iv c0_i32_101 c1_i32_103 k3_t12
  let v251 : Index := Scalar.indexCast arg24
  let c16_305 : Index := 16#32
  ![2, v251.toNat, 16]
def k3_off90 (k3_t12 : Fin k3_t12_loop.trips) : Fin 3 → Nat :=
  let c2_i32_306 : BitVec 32 := 2#32
  let v255 : Index := Scalar.indexCast c2_i32_306
  let c0_i32_101 : BitVec 32 := 0#32
  let c1_i32_103 : BitVec 32 := 1#32
  let arg24 : BitVec 32 := Scf.iv c0_i32_101 c1_i32_103 k3_t12
  let v256 : Index := Scalar.indexCast arg24
  let c32 : Index := 32#32
  ![2, v256.toNat, 32]
def k3_off91 (k3_t12 : Fin k3_t12_loop.trips) : Fin 3 → Nat :=
  let c2_i32_307 : BitVec 32 := 2#32
  let v259 : Index := Scalar.indexCast c2_i32_307
  let c0_i32_101 : BitVec 32 := 0#32
  let c1_i32_103 : BitVec 32 := 1#32
  let arg24 : BitVec 32 := Scf.iv c0_i32_101 c1_i32_103 k3_t12
  let v260 : Index := Scalar.indexCast arg24
  let c32_308 : Index := 32#32
  ![2, v260.toNat, 32]
def k3_off92 (k3_t12 : Fin k3_t12_loop.trips) : Fin 3 → Nat :=
  let c2_i32_309 : BitVec 32 := 2#32
  let v264 : Index := Scalar.indexCast c2_i32_309
  let c0_i32_101 : BitVec 32 := 0#32
  let c1_i32_103 : BitVec 32 := 1#32
  let arg24 : BitVec 32 := Scf.iv c0_i32_101 c1_i32_103 k3_t12
  let v265 : Index := Scalar.indexCast arg24
  let c48 : Index := 48#32
  ![2, v265.toNat, 48]
def k3_off93 (k3_t12 : Fin k3_t12_loop.trips) : Fin 3 → Nat :=
  let c2_i32_310 : BitVec 32 := 2#32
  let v268 : Index := Scalar.indexCast c2_i32_310
  let c0_i32_101 : BitVec 32 := 0#32
  let c1_i32_103 : BitVec 32 := 1#32
  let arg24 : BitVec 32 := Scf.iv c0_i32_101 c1_i32_103 k3_t12
  let v269 : Index := Scalar.indexCast arg24
  let c48_311 : Index := 48#32
  ![2, v269.toNat, 48]
@[reducible] def k3_t13_loop : Scf.Loop 32 :=
  let c0_i32_122 : BitVec 32 := 0#32
  let c50_i32_123 : BitVec 32 := 50#32
  let v95 : BitVec 32 := Scalar.addi c0_i32_122 c50_i32_123
  let c1_i32_124 : BitVec 32 := 1#32
  ⟨c0_i32_122, v95, c1_i32_124⟩
def k3_off94 (k3_t13 : Fin k3_t13_loop.trips) : Fin 3 → Nat :=
  let c3_i32_300 : BitVec 32 := 3#32
  let v237 : Index := Scalar.indexCast c3_i32_300
  let c0_i32_122 : BitVec 32 := 0#32
  let c1_i32_124 : BitVec 32 := 1#32
  let arg24 : BitVec 32 := Scf.iv c0_i32_122 c1_i32_124 k3_t13
  let v238 : Index := Scalar.indexCast arg24
  let c0 : Index := 0#32
  ![3, v238.toNat, 0]
def k3_off95 (k3_t13 : Fin k3_t13_loop.trips) : Fin 3 → Nat :=
  let c3_i32_301 : BitVec 32 := 3#32
  let v241 : Index := Scalar.indexCast c3_i32_301
  let c0_i32_122 : BitVec 32 := 0#32
  let c1_i32_124 : BitVec 32 := 1#32
  let arg24 : BitVec 32 := Scf.iv c0_i32_122 c1_i32_124 k3_t13
  let v242 : Index := Scalar.indexCast arg24
  let c0_302 : Index := 0#32
  ![3, v242.toNat, 0]
def k3_off96 (k3_t13 : Fin k3_t13_loop.trips) : Fin 3 → Nat :=
  let c3_i32_303 : BitVec 32 := 3#32
  let v246 : Index := Scalar.indexCast c3_i32_303
  let c0_i32_122 : BitVec 32 := 0#32
  let c1_i32_124 : BitVec 32 := 1#32
  let arg24 : BitVec 32 := Scf.iv c0_i32_122 c1_i32_124 k3_t13
  let v247 : Index := Scalar.indexCast arg24
  let c16 : Index := 16#32
  ![3, v247.toNat, 16]
def k3_off97 (k3_t13 : Fin k3_t13_loop.trips) : Fin 3 → Nat :=
  let c3_i32_304 : BitVec 32 := 3#32
  let v250 : Index := Scalar.indexCast c3_i32_304
  let c0_i32_122 : BitVec 32 := 0#32
  let c1_i32_124 : BitVec 32 := 1#32
  let arg24 : BitVec 32 := Scf.iv c0_i32_122 c1_i32_124 k3_t13
  let v251 : Index := Scalar.indexCast arg24
  let c16_305 : Index := 16#32
  ![3, v251.toNat, 16]
def k3_off98 (k3_t13 : Fin k3_t13_loop.trips) : Fin 3 → Nat :=
  let c3_i32_306 : BitVec 32 := 3#32
  let v255 : Index := Scalar.indexCast c3_i32_306
  let c0_i32_122 : BitVec 32 := 0#32
  let c1_i32_124 : BitVec 32 := 1#32
  let arg24 : BitVec 32 := Scf.iv c0_i32_122 c1_i32_124 k3_t13
  let v256 : Index := Scalar.indexCast arg24
  let c32 : Index := 32#32
  ![3, v256.toNat, 32]
def k3_off99 (k3_t13 : Fin k3_t13_loop.trips) : Fin 3 → Nat :=
  let c3_i32_307 : BitVec 32 := 3#32
  let v259 : Index := Scalar.indexCast c3_i32_307
  let c0_i32_122 : BitVec 32 := 0#32
  let c1_i32_124 : BitVec 32 := 1#32
  let arg24 : BitVec 32 := Scf.iv c0_i32_122 c1_i32_124 k3_t13
  let v260 : Index := Scalar.indexCast arg24
  let c32_308 : Index := 32#32
  ![3, v260.toNat, 32]
def k3_off100 (k3_t13 : Fin k3_t13_loop.trips) : Fin 3 → Nat :=
  let c3_i32_309 : BitVec 32 := 3#32
  let v264 : Index := Scalar.indexCast c3_i32_309
  let c0_i32_122 : BitVec 32 := 0#32
  let c1_i32_124 : BitVec 32 := 1#32
  let arg24 : BitVec 32 := Scf.iv c0_i32_122 c1_i32_124 k3_t13
  let v265 : Index := Scalar.indexCast arg24
  let c48 : Index := 48#32
  ![3, v265.toNat, 48]
def k3_off101 (k3_t13 : Fin k3_t13_loop.trips) : Fin 3 → Nat :=
  let c3_i32_310 : BitVec 32 := 3#32
  let v268 : Index := Scalar.indexCast c3_i32_310
  let c0_i32_122 : BitVec 32 := 0#32
  let c1_i32_124 : BitVec 32 := 1#32
  let arg24 : BitVec 32 := Scf.iv c0_i32_122 c1_i32_124 k3_t13
  let v269 : Index := Scalar.indexCast arg24
  let c48_311 : Index := 48#32
  ![3, v269.toNat, 48]
@[reducible] def k3_t14_loop : Scf.Loop 32 :=
  let c0_i32_143 : BitVec 32 := 0#32
  let c50_i32_144 : BitVec 32 := 50#32
  let v110 : BitVec 32 := Scalar.addi c0_i32_143 c50_i32_144
  let c1_i32_145 : BitVec 32 := 1#32
  ⟨c0_i32_143, v110, c1_i32_145⟩
def k3_off102 (k3_t14 : Fin k3_t14_loop.trips) : Fin 3 → Nat :=
  let c4_i32_300 : BitVec 32 := 4#32
  let v237 : Index := Scalar.indexCast c4_i32_300
  let c0_i32_143 : BitVec 32 := 0#32
  let c1_i32_145 : BitVec 32 := 1#32
  let arg24 : BitVec 32 := Scf.iv c0_i32_143 c1_i32_145 k3_t14
  let v238 : Index := Scalar.indexCast arg24
  let c0 : Index := 0#32
  ![4, v238.toNat, 0]
def k3_off103 (k3_t14 : Fin k3_t14_loop.trips) : Fin 3 → Nat :=
  let c4_i32_301 : BitVec 32 := 4#32
  let v241 : Index := Scalar.indexCast c4_i32_301
  let c0_i32_143 : BitVec 32 := 0#32
  let c1_i32_145 : BitVec 32 := 1#32
  let arg24 : BitVec 32 := Scf.iv c0_i32_143 c1_i32_145 k3_t14
  let v242 : Index := Scalar.indexCast arg24
  let c0_302 : Index := 0#32
  ![4, v242.toNat, 0]
def k3_off104 (k3_t14 : Fin k3_t14_loop.trips) : Fin 3 → Nat :=
  let c4_i32_303 : BitVec 32 := 4#32
  let v246 : Index := Scalar.indexCast c4_i32_303
  let c0_i32_143 : BitVec 32 := 0#32
  let c1_i32_145 : BitVec 32 := 1#32
  let arg24 : BitVec 32 := Scf.iv c0_i32_143 c1_i32_145 k3_t14
  let v247 : Index := Scalar.indexCast arg24
  let c16 : Index := 16#32
  ![4, v247.toNat, 16]
def k3_off105 (k3_t14 : Fin k3_t14_loop.trips) : Fin 3 → Nat :=
  let c4_i32_304 : BitVec 32 := 4#32
  let v250 : Index := Scalar.indexCast c4_i32_304
  let c0_i32_143 : BitVec 32 := 0#32
  let c1_i32_145 : BitVec 32 := 1#32
  let arg24 : BitVec 32 := Scf.iv c0_i32_143 c1_i32_145 k3_t14
  let v251 : Index := Scalar.indexCast arg24
  let c16_305 : Index := 16#32
  ![4, v251.toNat, 16]
def k3_off106 (k3_t14 : Fin k3_t14_loop.trips) : Fin 3 → Nat :=
  let c4_i32_306 : BitVec 32 := 4#32
  let v255 : Index := Scalar.indexCast c4_i32_306
  let c0_i32_143 : BitVec 32 := 0#32
  let c1_i32_145 : BitVec 32 := 1#32
  let arg24 : BitVec 32 := Scf.iv c0_i32_143 c1_i32_145 k3_t14
  let v256 : Index := Scalar.indexCast arg24
  let c32 : Index := 32#32
  ![4, v256.toNat, 32]
def k3_off107 (k3_t14 : Fin k3_t14_loop.trips) : Fin 3 → Nat :=
  let c4_i32_307 : BitVec 32 := 4#32
  let v259 : Index := Scalar.indexCast c4_i32_307
  let c0_i32_143 : BitVec 32 := 0#32
  let c1_i32_145 : BitVec 32 := 1#32
  let arg24 : BitVec 32 := Scf.iv c0_i32_143 c1_i32_145 k3_t14
  let v260 : Index := Scalar.indexCast arg24
  let c32_308 : Index := 32#32
  ![4, v260.toNat, 32]
def k3_off108 (k3_t14 : Fin k3_t14_loop.trips) : Fin 3 → Nat :=
  let c4_i32_309 : BitVec 32 := 4#32
  let v264 : Index := Scalar.indexCast c4_i32_309
  let c0_i32_143 : BitVec 32 := 0#32
  let c1_i32_145 : BitVec 32 := 1#32
  let arg24 : BitVec 32 := Scf.iv c0_i32_143 c1_i32_145 k3_t14
  let v265 : Index := Scalar.indexCast arg24
  let c48 : Index := 48#32
  ![4, v265.toNat, 48]
def k3_off109 (k3_t14 : Fin k3_t14_loop.trips) : Fin 3 → Nat :=
  let c4_i32_310 : BitVec 32 := 4#32
  let v268 : Index := Scalar.indexCast c4_i32_310
  let c0_i32_143 : BitVec 32 := 0#32
  let c1_i32_145 : BitVec 32 := 1#32
  let arg24 : BitVec 32 := Scf.iv c0_i32_143 c1_i32_145 k3_t14
  let v269 : Index := Scalar.indexCast arg24
  let c48_311 : Index := 48#32
  ![4, v269.toNat, 48]
@[reducible] def k3_t15_loop : Scf.Loop 32 :=
  let c0_i32_164 : BitVec 32 := 0#32
  let c50_i32_165 : BitVec 32 := 50#32
  let v125 : BitVec 32 := Scalar.addi c0_i32_164 c50_i32_165
  let c1_i32_166 : BitVec 32 := 1#32
  ⟨c0_i32_164, v125, c1_i32_166⟩
def k3_off110 (k3_t15 : Fin k3_t15_loop.trips) : Fin 3 → Nat :=
  let c5_i32_300 : BitVec 32 := 5#32
  let v237 : Index := Scalar.indexCast c5_i32_300
  let c0_i32_164 : BitVec 32 := 0#32
  let c1_i32_166 : BitVec 32 := 1#32
  let arg24 : BitVec 32 := Scf.iv c0_i32_164 c1_i32_166 k3_t15
  let v238 : Index := Scalar.indexCast arg24
  let c0 : Index := 0#32
  ![5, v238.toNat, 0]
def k3_off111 (k3_t15 : Fin k3_t15_loop.trips) : Fin 3 → Nat :=
  let c5_i32_301 : BitVec 32 := 5#32
  let v241 : Index := Scalar.indexCast c5_i32_301
  let c0_i32_164 : BitVec 32 := 0#32
  let c1_i32_166 : BitVec 32 := 1#32
  let arg24 : BitVec 32 := Scf.iv c0_i32_164 c1_i32_166 k3_t15
  let v242 : Index := Scalar.indexCast arg24
  let c0_302 : Index := 0#32
  ![5, v242.toNat, 0]
def k3_off112 (k3_t15 : Fin k3_t15_loop.trips) : Fin 3 → Nat :=
  let c5_i32_303 : BitVec 32 := 5#32
  let v246 : Index := Scalar.indexCast c5_i32_303
  let c0_i32_164 : BitVec 32 := 0#32
  let c1_i32_166 : BitVec 32 := 1#32
  let arg24 : BitVec 32 := Scf.iv c0_i32_164 c1_i32_166 k3_t15
  let v247 : Index := Scalar.indexCast arg24
  let c16 : Index := 16#32
  ![5, v247.toNat, 16]
def k3_off113 (k3_t15 : Fin k3_t15_loop.trips) : Fin 3 → Nat :=
  let c5_i32_304 : BitVec 32 := 5#32
  let v250 : Index := Scalar.indexCast c5_i32_304
  let c0_i32_164 : BitVec 32 := 0#32
  let c1_i32_166 : BitVec 32 := 1#32
  let arg24 : BitVec 32 := Scf.iv c0_i32_164 c1_i32_166 k3_t15
  let v251 : Index := Scalar.indexCast arg24
  let c16_305 : Index := 16#32
  ![5, v251.toNat, 16]
def k3_off114 (k3_t15 : Fin k3_t15_loop.trips) : Fin 3 → Nat :=
  let c5_i32_306 : BitVec 32 := 5#32
  let v255 : Index := Scalar.indexCast c5_i32_306
  let c0_i32_164 : BitVec 32 := 0#32
  let c1_i32_166 : BitVec 32 := 1#32
  let arg24 : BitVec 32 := Scf.iv c0_i32_164 c1_i32_166 k3_t15
  let v256 : Index := Scalar.indexCast arg24
  let c32 : Index := 32#32
  ![5, v256.toNat, 32]
def k3_off115 (k3_t15 : Fin k3_t15_loop.trips) : Fin 3 → Nat :=
  let c5_i32_307 : BitVec 32 := 5#32
  let v259 : Index := Scalar.indexCast c5_i32_307
  let c0_i32_164 : BitVec 32 := 0#32
  let c1_i32_166 : BitVec 32 := 1#32
  let arg24 : BitVec 32 := Scf.iv c0_i32_164 c1_i32_166 k3_t15
  let v260 : Index := Scalar.indexCast arg24
  let c32_308 : Index := 32#32
  ![5, v260.toNat, 32]
def k3_off116 (k3_t15 : Fin k3_t15_loop.trips) : Fin 3 → Nat :=
  let c5_i32_309 : BitVec 32 := 5#32
  let v264 : Index := Scalar.indexCast c5_i32_309
  let c0_i32_164 : BitVec 32 := 0#32
  let c1_i32_166 : BitVec 32 := 1#32
  let arg24 : BitVec 32 := Scf.iv c0_i32_164 c1_i32_166 k3_t15
  let v265 : Index := Scalar.indexCast arg24
  let c48 : Index := 48#32
  ![5, v265.toNat, 48]
def k3_off117 (k3_t15 : Fin k3_t15_loop.trips) : Fin 3 → Nat :=
  let c5_i32_310 : BitVec 32 := 5#32
  let v268 : Index := Scalar.indexCast c5_i32_310
  let c0_i32_164 : BitVec 32 := 0#32
  let c1_i32_166 : BitVec 32 := 1#32
  let arg24 : BitVec 32 := Scf.iv c0_i32_164 c1_i32_166 k3_t15
  let v269 : Index := Scalar.indexCast arg24
  let c48_311 : Index := 48#32
  ![5, v269.toNat, 48]
@[reducible] def k3_t16_loop : Scf.Loop 32 :=
  let c0_i32_185 : BitVec 32 := 0#32
  let c50_i32_186 : BitVec 32 := 50#32
  let v140 : BitVec 32 := Scalar.addi c0_i32_185 c50_i32_186
  let c1_i32_187 : BitVec 32 := 1#32
  ⟨c0_i32_185, v140, c1_i32_187⟩
def k3_off118 (k3_t16 : Fin k3_t16_loop.trips) : Fin 3 → Nat :=
  let c6_i32_300 : BitVec 32 := 6#32
  let v237 : Index := Scalar.indexCast c6_i32_300
  let c0_i32_185 : BitVec 32 := 0#32
  let c1_i32_187 : BitVec 32 := 1#32
  let arg24 : BitVec 32 := Scf.iv c0_i32_185 c1_i32_187 k3_t16
  let v238 : Index := Scalar.indexCast arg24
  let c0 : Index := 0#32
  ![6, v238.toNat, 0]
def k3_off119 (k3_t16 : Fin k3_t16_loop.trips) : Fin 3 → Nat :=
  let c6_i32_301 : BitVec 32 := 6#32
  let v241 : Index := Scalar.indexCast c6_i32_301
  let c0_i32_185 : BitVec 32 := 0#32
  let c1_i32_187 : BitVec 32 := 1#32
  let arg24 : BitVec 32 := Scf.iv c0_i32_185 c1_i32_187 k3_t16
  let v242 : Index := Scalar.indexCast arg24
  let c0_302 : Index := 0#32
  ![6, v242.toNat, 0]
def k3_off120 (k3_t16 : Fin k3_t16_loop.trips) : Fin 3 → Nat :=
  let c6_i32_303 : BitVec 32 := 6#32
  let v246 : Index := Scalar.indexCast c6_i32_303
  let c0_i32_185 : BitVec 32 := 0#32
  let c1_i32_187 : BitVec 32 := 1#32
  let arg24 : BitVec 32 := Scf.iv c0_i32_185 c1_i32_187 k3_t16
  let v247 : Index := Scalar.indexCast arg24
  let c16 : Index := 16#32
  ![6, v247.toNat, 16]
def k3_off121 (k3_t16 : Fin k3_t16_loop.trips) : Fin 3 → Nat :=
  let c6_i32_304 : BitVec 32 := 6#32
  let v250 : Index := Scalar.indexCast c6_i32_304
  let c0_i32_185 : BitVec 32 := 0#32
  let c1_i32_187 : BitVec 32 := 1#32
  let arg24 : BitVec 32 := Scf.iv c0_i32_185 c1_i32_187 k3_t16
  let v251 : Index := Scalar.indexCast arg24
  let c16_305 : Index := 16#32
  ![6, v251.toNat, 16]
def k3_off122 (k3_t16 : Fin k3_t16_loop.trips) : Fin 3 → Nat :=
  let c6_i32_306 : BitVec 32 := 6#32
  let v255 : Index := Scalar.indexCast c6_i32_306
  let c0_i32_185 : BitVec 32 := 0#32
  let c1_i32_187 : BitVec 32 := 1#32
  let arg24 : BitVec 32 := Scf.iv c0_i32_185 c1_i32_187 k3_t16
  let v256 : Index := Scalar.indexCast arg24
  let c32 : Index := 32#32
  ![6, v256.toNat, 32]
def k3_off123 (k3_t16 : Fin k3_t16_loop.trips) : Fin 3 → Nat :=
  let c6_i32_307 : BitVec 32 := 6#32
  let v259 : Index := Scalar.indexCast c6_i32_307
  let c0_i32_185 : BitVec 32 := 0#32
  let c1_i32_187 : BitVec 32 := 1#32
  let arg24 : BitVec 32 := Scf.iv c0_i32_185 c1_i32_187 k3_t16
  let v260 : Index := Scalar.indexCast arg24
  let c32_308 : Index := 32#32
  ![6, v260.toNat, 32]
def k3_off124 (k3_t16 : Fin k3_t16_loop.trips) : Fin 3 → Nat :=
  let c6_i32_309 : BitVec 32 := 6#32
  let v264 : Index := Scalar.indexCast c6_i32_309
  let c0_i32_185 : BitVec 32 := 0#32
  let c1_i32_187 : BitVec 32 := 1#32
  let arg24 : BitVec 32 := Scf.iv c0_i32_185 c1_i32_187 k3_t16
  let v265 : Index := Scalar.indexCast arg24
  let c48 : Index := 48#32
  ![6, v265.toNat, 48]
def k3_off125 (k3_t16 : Fin k3_t16_loop.trips) : Fin 3 → Nat :=
  let c6_i32_310 : BitVec 32 := 6#32
  let v268 : Index := Scalar.indexCast c6_i32_310
  let c0_i32_185 : BitVec 32 := 0#32
  let c1_i32_187 : BitVec 32 := 1#32
  let arg24 : BitVec 32 := Scf.iv c0_i32_185 c1_i32_187 k3_t16
  let v269 : Index := Scalar.indexCast arg24
  let c48_311 : Index := 48#32
  ![6, v269.toNat, 48]
@[reducible] def k3_t17_loop : Scf.Loop 32 :=
  let c0_i32_206 : BitVec 32 := 0#32
  let c50_i32_207 : BitVec 32 := 50#32
  let v155 : BitVec 32 := Scalar.addi c0_i32_206 c50_i32_207
  let c1_i32_208 : BitVec 32 := 1#32
  ⟨c0_i32_206, v155, c1_i32_208⟩
def k3_off126 (k3_t17 : Fin k3_t17_loop.trips) : Fin 3 → Nat :=
  let c7_i32_300 : BitVec 32 := 7#32
  let v237 : Index := Scalar.indexCast c7_i32_300
  let c0_i32_206 : BitVec 32 := 0#32
  let c1_i32_208 : BitVec 32 := 1#32
  let arg24 : BitVec 32 := Scf.iv c0_i32_206 c1_i32_208 k3_t17
  let v238 : Index := Scalar.indexCast arg24
  let c0 : Index := 0#32
  ![7, v238.toNat, 0]
def k3_off127 (k3_t17 : Fin k3_t17_loop.trips) : Fin 3 → Nat :=
  let c7_i32_301 : BitVec 32 := 7#32
  let v241 : Index := Scalar.indexCast c7_i32_301
  let c0_i32_206 : BitVec 32 := 0#32
  let c1_i32_208 : BitVec 32 := 1#32
  let arg24 : BitVec 32 := Scf.iv c0_i32_206 c1_i32_208 k3_t17
  let v242 : Index := Scalar.indexCast arg24
  let c0_302 : Index := 0#32
  ![7, v242.toNat, 0]
def k3_off128 (k3_t17 : Fin k3_t17_loop.trips) : Fin 3 → Nat :=
  let c7_i32_303 : BitVec 32 := 7#32
  let v246 : Index := Scalar.indexCast c7_i32_303
  let c0_i32_206 : BitVec 32 := 0#32
  let c1_i32_208 : BitVec 32 := 1#32
  let arg24 : BitVec 32 := Scf.iv c0_i32_206 c1_i32_208 k3_t17
  let v247 : Index := Scalar.indexCast arg24
  let c16 : Index := 16#32
  ![7, v247.toNat, 16]
def k3_off129 (k3_t17 : Fin k3_t17_loop.trips) : Fin 3 → Nat :=
  let c7_i32_304 : BitVec 32 := 7#32
  let v250 : Index := Scalar.indexCast c7_i32_304
  let c0_i32_206 : BitVec 32 := 0#32
  let c1_i32_208 : BitVec 32 := 1#32
  let arg24 : BitVec 32 := Scf.iv c0_i32_206 c1_i32_208 k3_t17
  let v251 : Index := Scalar.indexCast arg24
  let c16_305 : Index := 16#32
  ![7, v251.toNat, 16]
def k3_off130 (k3_t17 : Fin k3_t17_loop.trips) : Fin 3 → Nat :=
  let c7_i32_306 : BitVec 32 := 7#32
  let v255 : Index := Scalar.indexCast c7_i32_306
  let c0_i32_206 : BitVec 32 := 0#32
  let c1_i32_208 : BitVec 32 := 1#32
  let arg24 : BitVec 32 := Scf.iv c0_i32_206 c1_i32_208 k3_t17
  let v256 : Index := Scalar.indexCast arg24
  let c32 : Index := 32#32
  ![7, v256.toNat, 32]
def k3_off131 (k3_t17 : Fin k3_t17_loop.trips) : Fin 3 → Nat :=
  let c7_i32_307 : BitVec 32 := 7#32
  let v259 : Index := Scalar.indexCast c7_i32_307
  let c0_i32_206 : BitVec 32 := 0#32
  let c1_i32_208 : BitVec 32 := 1#32
  let arg24 : BitVec 32 := Scf.iv c0_i32_206 c1_i32_208 k3_t17
  let v260 : Index := Scalar.indexCast arg24
  let c32_308 : Index := 32#32
  ![7, v260.toNat, 32]
def k3_off132 (k3_t17 : Fin k3_t17_loop.trips) : Fin 3 → Nat :=
  let c7_i32_309 : BitVec 32 := 7#32
  let v264 : Index := Scalar.indexCast c7_i32_309
  let c0_i32_206 : BitVec 32 := 0#32
  let c1_i32_208 : BitVec 32 := 1#32
  let arg24 : BitVec 32 := Scf.iv c0_i32_206 c1_i32_208 k3_t17
  let v265 : Index := Scalar.indexCast arg24
  let c48 : Index := 48#32
  ![7, v265.toNat, 48]
def k3_off133 (k3_t17 : Fin k3_t17_loop.trips) : Fin 3 → Nat :=
  let c7_i32_310 : BitVec 32 := 7#32
  let v268 : Index := Scalar.indexCast c7_i32_310
  let c0_i32_206 : BitVec 32 := 0#32
  let c1_i32_208 : BitVec 32 := 1#32
  let arg24 : BitVec 32 := Scf.iv c0_i32_206 c1_i32_208 k3_t17
  let v269 : Index := Scalar.indexCast arg24
  let c48_311 : Index := 48#32
  ![7, v269.toNat, 48]
abbrev grid4 : Pipeline.Grid := ⟨1, ![8], ![false]⟩

def cc4_transform_0 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

abbrev stage4_0 : Fin 2 → Memref sig .tc .vmem S512x50x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S64x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S50x64x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![8], ![false]⟩

def cc5_transform_0 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

abbrev stage5_0 : Fin 2 → Memref sig .tc .vmem S512x50x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S64x1 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S50x64x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![8], ![false]⟩

def cc6_transform_0 (i : grid6.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

abbrev stage6_0 : Fin 2 → Memref sig .tc .vmem S512x50x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S64x1 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S50x64x512 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![8], ![false]⟩

def cc7_transform_0 (i : grid7.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![c0_i32.toNat, c0_i32_0.toNat, v0.toNat]

abbrev stage7_0 : Fin 2 → Memref sig .tc .vmem S512x50x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S64x64 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S64x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S50x64x512 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev scKind : Fin 4 → Kind := fun | 0 => .scVector | 1 => .scVector | 2 => .scVector | 3 => .scVector | ⟨_ + 4, h⟩ => absurd h (Nat.not_lt.2 (Nat.le_add_left _ _))
abbrev scNCore : Fin 4 → Nat := fun | 0 => 2 | 1 => 2 | 2 => 2 | 3 => 2 | ⟨_ + 4, h⟩ => absurd h (Nat.not_lt.2 (Nat.le_add_left _ _))
abbrev scNSub : Fin 4 → Nat := fun | 0 => 16 | 1 => 16 | 2 => 16 | 3 => 16 | ⟨_ + 4, h⟩ => absurd h (Nat.not_lt.2 (Nat.le_add_left _ _))

class Facts₀ : Prop where
  pads_S100000x64_S100000x128_000_0640 : S100000x64.Pads (![0, 0] : Fin 2 → Nat) ![0, 64] ![0, 0] S100000x128
  h_S_ : 0 < S_.numel
  transposes_S64x64_S64x64_1_0 : S64x64.Transposes [1, 0] S64x64
  shapeCasts_S64_S64x1 : S64.ShapeCasts S64x1
  inb_S8x56x128_S1x50x128_0_0_0 : ∀ a, (![0, 0, 0] : Fin 3 → Nat) a + S1x50x128.size a ≤ S8x56x128.size a
  squeezes_S1x50x128_S50x128 : S1x50x128.Squeezes S50x128
  inb_S128x50_S1x50_0_0 : ∀ a, (![0, 0] : Fin 2 → Nat) a + S1x50.size a ≤ S128x50.size a
  squeezes_S1x50_S50 : S1x50.Squeezes S50
  inb_S100000x128_S100000x128_0_0 : ∀ a, (![0, 0] : Fin 2 → Nat) a + S100000x128.size a ≤ S100000x128.size a
  gathers_S100000x128_S50x128 : S100000x128.Gathers 0 S50x128
  inb_S8x56x128_S1x50x128_1_0_0 : ∀ a, (![1, 0, 0] : Fin 3 → Nat) a + S1x50x128.size a ≤ S8x56x128.size a
  inb_S128x50_S1x50_1_0 : ∀ a, (![1, 0] : Fin 2 → Nat) a + S1x50.size a ≤ S128x50.size a
  inb_S8x56x128_S1x50x128_2_0_0 : ∀ a, (![2, 0, 0] : Fin 3 → Nat) a + S1x50x128.size a ≤ S8x56x128.size a
  inb_S128x50_S1x50_2_0 : ∀ a, (![2, 0] : Fin 2 → Nat) a + S1x50.size a ≤ S128x50.size a
  inb_S8x56x128_S1x50x128_3_0_0 : ∀ a, (![3, 0, 0] : Fin 3 → Nat) a + S1x50x128.size a ≤ S8x56x128.size a
  inb_S128x50_S1x50_3_0 : ∀ a, (![3, 0] : Fin 2 → Nat) a + S1x50.size a ≤ S128x50.size a
  inb_S8x56x128_S1x50x128_4_0_0 : ∀ a, (![4, 0, 0] : Fin 3 → Nat) a + S1x50x128.size a ≤ S8x56x128.size a
  inb_S128x50_S1x50_4_0 : ∀ a, (![4, 0] : Fin 2 → Nat) a + S1x50.size a ≤ S128x50.size a
  inb_S8x56x128_S1x50x128_5_0_0 : ∀ a, (![5, 0, 0] : Fin 3 → Nat) a + S1x50x128.size a ≤ S8x56x128.size a
  inb_S128x50_S1x50_5_0 : ∀ a, (![5, 0] : Fin 2 → Nat) a + S1x50.size a ≤ S128x50.size a
  inb_S8x56x128_S1x50x128_6_0_0 : ∀ a, (![6, 0, 0] : Fin 3 → Nat) a + S1x50x128.size a ≤ S8x56x128.size a
  inb_S128x50_S1x50_6_0 : ∀ a, (![6, 0] : Fin 2 → Nat) a + S1x50.size a ≤ S128x50.size a
  inb_S8x56x128_S1x50x128_7_0_0 : ∀ a, (![7, 0, 0] : Fin 3 → Nat) a + S1x50x128.size a ≤ S8x56x128.size a
  inb_S128x50_S1x50_7_0 : ∀ a, (![7, 0] : Fin 2 → Nat) a + S1x50.size a ≤ S128x50.size a
  h_S1x1x16 : 0 < S1x1x16.numel
  shapeCasts_S1x1x16_S16 : S1x1x16.ShapeCasts S16
  shapeCasts_S16_S1x1x16 : S16.ShapeCasts S1x1x16
  inb_S8x50x64_S1x50x64_0_0_0 : ∀ a, (![0, 0, 0] : Fin 3 → Nat) a + S1x50x64.size a ≤ S8x50x64.size a
  squeezes_S1x50x64_S50x64 : S1x50x64.Squeezes S50x64
  inb_S8x50x64_S1x50x64_1_0_0 : ∀ a, (![1, 0, 0] : Fin 3 → Nat) a + S1x50x64.size a ≤ S8x50x64.size a
  inb_S8x50x64_S1x50x64_2_0_0 : ∀ a, (![2, 0, 0] : Fin 3 → Nat) a + S1x50x64.size a ≤ S8x50x64.size a
  inb_S8x50x64_S1x50x64_3_0_0 : ∀ a, (![3, 0, 0] : Fin 3 → Nat) a + S1x50x64.size a ≤ S8x50x64.size a
  inb_S8x50x64_S1x50x64_4_0_0 : ∀ a, (![4, 0, 0] : Fin 3 → Nat) a + S1x50x64.size a ≤ S8x50x64.size a
  inb_S8x50x64_S1x50x64_5_0_0 : ∀ a, (![5, 0, 0] : Fin 3 → Nat) a + S1x50x64.size a ≤ S8x50x64.size a
  inb_S8x50x64_S1x50x64_6_0_0 : ∀ a, (![6, 0, 0] : Fin 3 → Nat) a + S1x50x64.size a ≤ S8x50x64.size a
  inb_S8x50x64_S1x50x64_7_0_0 : ∀ a, (![7, 0, 0] : Fin 3 → Nat) a + S1x50x64.size a ≤ S8x50x64.size a
  inb_S128x50_S1x50_120_0 : ∀ a, (![120, 0] : Fin 2 → Nat) a + S1x50.size a ≤ S128x50.size a
  inb_S128x50_S1x50_121_0 : ∀ a, (![121, 0] : Fin 2 → Nat) a + S1x50.size a ≤ S128x50.size a
  inb_S128x50_S1x50_122_0 : ∀ a, (![122, 0] : Fin 2 → Nat) a + S1x50.size a ≤ S128x50.size a
  inb_S128x50_S1x50_123_0 : ∀ a, (![123, 0] : Fin 2 → Nat) a + S1x50.size a ≤ S128x50.size a
  inb_S128x50_S1x50_124_0 : ∀ a, (![124, 0] : Fin 2 → Nat) a + S1x50.size a ≤ S128x50.size a
  inb_S128x50_S1x50_125_0 : ∀ a, (![125, 0] : Fin 2 → Nat) a + S1x50.size a ≤ S128x50.size a
  inb_S128x50_S1x50_126_0 : ∀ a, (![126, 0] : Fin 2 → Nat) a + S1x50.size a ≤ S128x50.size a
  inb_S128x50_S1x50_127_0 : ∀ a, (![127, 0] : Fin 2 → Nat) a + S1x50.size a ≤ S128x50.size a
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64x1_S64x1_0_0 : ∀ a, (![0, 0] : Fin 2 → Nat) a + S64x1.size a ≤ S64x1.size a
  h_S64x1 : 0 < S64x1.numel
  shapeCasts_S64x1_S64x1 : S64x1.ShapeCasts S64x1
  inb_S512x50x64_S512x1x64_0_0_0 : ∀ a, (![0, 0, 0] : Fin 3 → Nat) a + S512x1x64.size a ≤ S512x50x64.size a
  h_S512x1x64 : 0 < S512x1x64.numel
  shapeCasts_S512x1x64_S512x64 : S512x1x64.ShapeCasts S512x64
  broadcasts_S64x1_S64x512 : S64x1.Broadcasts S64x512
  inb_S50x64x512_S1x64x512_0_0_0 : ∀ a, (![0, 0, 0] : Fin 3 → Nat) a + S1x64x512.size a ≤ S50x64x512.size a
  h_S1x64x512 : 0 < S1x64x512.numel
  shapeCasts_S1x64x512_S64x512 : S1x64x512.ShapeCasts S64x512
  shapeCasts_S64x512_S1x64x512 : S64x512.ShapeCasts S1x64x512
  inb_S512x50x64_S512x1x64_0_1_0 : ∀ a, (![0, 1, 0] : Fin 3 → Nat) a + S512x1x64.size a ≤ S512x50x64.size a
  inb_S50x64x512_S1x64x512_1_0_0 : ∀ a, (![1, 0, 0] : Fin 3 → Nat) a + S1x64x512.size a ≤ S50x64x512.size a
  inb_S512x50x64_S512x1x64_0_2_0 : ∀ a, (![0, 2, 0] : Fin 3 → Nat) a + S512x1x64.size a ≤ S512x50x64.size a
  inb_S50x64x512_S1x64x512_2_0_0 : ∀ a, (![2, 0, 0] : Fin 3 → Nat) a + S1x64x512.size a ≤ S50x64x512.size a
  inb_S512x50x64_S512x1x64_0_3_0 : ∀ a, (![0, 3, 0] : Fin 3 → Nat) a + S512x1x64.size a ≤ S512x50x64.size a
  inb_S50x64x512_S1x64x512_3_0_0 : ∀ a, (![3, 0, 0] : Fin 3 → Nat) a + S1x64x512.size a ≤ S50x64x512.size a
  inb_S512x50x64_S512x1x64_0_4_0 : ∀ a, (![0, 4, 0] : Fin 3 → Nat) a + S512x1x64.size a ≤ S512x50x64.size a
  inb_S50x64x512_S1x64x512_4_0_0 : ∀ a, (![4, 0, 0] : Fin 3 → Nat) a + S1x64x512.size a ≤ S50x64x512.size a
  inb_S512x50x64_S512x1x64_0_5_0 : ∀ a, (![0, 5, 0] : Fin 3 → Nat) a + S512x1x64.size a ≤ S512x50x64.size a
  inb_S50x64x512_S1x64x512_5_0_0 : ∀ a, (![5, 0, 0] : Fin 3 → Nat) a + S1x64x512.size a ≤ S50x64x512.size a
  inb_S512x50x64_S512x1x64_0_6_0 : ∀ a, (![0, 6, 0] : Fin 3 → Nat) a + S512x1x64.size a ≤ S512x50x64.size a
  inb_S50x64x512_S1x64x512_6_0_0 : ∀ a, (![6, 0, 0] : Fin 3 → Nat) a + S1x64x512.size a ≤ S50x64x512.size a
  inb_S512x50x64_S512x1x64_0_7_0 : ∀ a, (![0, 7, 0] : Fin 3 → Nat) a + S512x1x64.size a ≤ S512x50x64.size a
  inb_S50x64x512_S1x64x512_7_0_0 : ∀ a, (![7, 0, 0] : Fin 3 → Nat) a + S1x64x512.size a ≤ S50x64x512.size a
  inb_S512x50x64_S512x1x64_0_8_0 : ∀ a, (![0, 8, 0] : Fin 3 → Nat) a + S512x1x64.size a ≤ S512x50x64.size a
  inb_S50x64x512_S1x64x512_8_0_0 : ∀ a, (![8, 0, 0] : Fin 3 → Nat) a + S1x64x512.size a ≤ S50x64x512.size a
  inb_S512x50x64_S512x1x64_0_9_0 : ∀ a, (![0, 9, 0] : Fin 3 → Nat) a + S512x1x64.size a ≤ S512x50x64.size a
  inb_S50x64x512_S1x64x512_9_0_0 : ∀ a, (![9, 0, 0] : Fin 3 → Nat) a + S1x64x512.size a ≤ S50x64x512.size a
  inb_S512x50x64_S512x1x64_0_10_0 : ∀ a, (![0, 10, 0] : Fin 3 → Nat) a + S512x1x64.size a ≤ S512x50x64.size a
  inb_S50x64x512_S1x64x512_10_0_0 : ∀ a, (![10, 0, 0] : Fin 3 → Nat) a + S1x64x512.size a ≤ S50x64x512.size a
  inb_S512x50x64_S512x1x64_0_11_0 : ∀ a, (![0, 11, 0] : Fin 3 → Nat) a + S512x1x64.size a ≤ S512x50x64.size a
  inb_S50x64x512_S1x64x512_11_0_0 : ∀ a, (![11, 0, 0] : Fin 3 → Nat) a + S1x64x512.size a ≤ S50x64x512.size a
  inb_S512x50x64_S512x1x64_0_12_0 : ∀ a, (![0, 12, 0] : Fin 3 → Nat) a + S512x1x64.size a ≤ S512x50x64.size a
  inb_S50x64x512_S1x64x512_12_0_0 : ∀ a, (![12, 0, 0] : Fin 3 → Nat) a + S1x64x512.size a ≤ S50x64x512.size a
  inb_S512x50x64_S512x1x64_0_13_0 : ∀ a, (![0, 13, 0] : Fin 3 → Nat) a + S512x1x64.size a ≤ S512x50x64.size a
  inb_S50x64x512_S1x64x512_13_0_0 : ∀ a, (![13, 0, 0] : Fin 3 → Nat) a + S1x64x512.size a ≤ S50x64x512.size a
  inb_S512x50x64_S512x1x64_0_14_0 : ∀ a, (![0, 14, 0] : Fin 3 → Nat) a + S512x1x64.size a ≤ S512x50x64.size a
  inb_S50x64x512_S1x64x512_14_0_0 : ∀ a, (![14, 0, 0] : Fin 3 → Nat) a + S1x64x512.size a ≤ S50x64x512.size a
  inb_S512x50x64_S512x1x64_0_15_0 : ∀ a, (![0, 15, 0] : Fin 3 → Nat) a + S512x1x64.size a ≤ S512x50x64.size a
  inb_S50x64x512_S1x64x512_15_0_0 : ∀ a, (![15, 0, 0] : Fin 3 → Nat) a + S1x64x512.size a ≤ S50x64x512.size a
  inb_S512x50x64_S512x1x64_0_16_0 : ∀ a, (![0, 16, 0] : Fin 3 → Nat) a + S512x1x64.size a ≤ S512x50x64.size a
  inb_S50x64x512_S1x64x512_16_0_0 : ∀ a, (![16, 0, 0] : Fin 3 → Nat) a + S1x64x512.size a ≤ S50x64x512.size a
  inb_S512x50x64_S512x1x64_0_17_0 : ∀ a, (![0, 17, 0] : Fin 3 → Nat) a + S512x1x64.size a ≤ S512x50x64.size a
  inb_S50x64x512_S1x64x512_17_0_0 : ∀ a, (![17, 0, 0] : Fin 3 → Nat) a + S1x64x512.size a ≤ S50x64x512.size a
  inb_S512x50x64_S512x1x64_0_18_0 : ∀ a, (![0, 18, 0] : Fin 3 → Nat) a + S512x1x64.size a ≤ S512x50x64.size a
  inb_S50x64x512_S1x64x512_18_0_0 : ∀ a, (![18, 0, 0] : Fin 3 → Nat) a + S1x64x512.size a ≤ S50x64x512.size a
  inb_S512x50x64_S512x1x64_0_19_0 : ∀ a, (![0, 19, 0] : Fin 3 → Nat) a + S512x1x64.size a ≤ S512x50x64.size a
  inb_S50x64x512_S1x64x512_19_0_0 : ∀ a, (![19, 0, 0] : Fin 3 → Nat) a + S1x64x512.size a ≤ S50x64x512.size a
  inb_S512x50x64_S512x1x64_0_20_0 : ∀ a, (![0, 20, 0] : Fin 3 → Nat) a + S512x1x64.size a ≤ S512x50x64.size a
  inb_S50x64x512_S1x64x512_20_0_0 : ∀ a, (![20, 0, 0] : Fin 3 → Nat) a + S1x64x512.size a ≤ S50x64x512.size a
  inb_S512x50x64_S512x1x64_0_21_0 : ∀ a, (![0, 21, 0] : Fin 3 → Nat) a + S512x1x64.size a ≤ S512x50x64.size a
  inb_S50x64x512_S1x64x512_21_0_0 : ∀ a, (![21, 0, 0] : Fin 3 → Nat) a + S1x64x512.size a ≤ S50x64x512.size a
  inb_S512x50x64_S512x1x64_0_22_0 : ∀ a, (![0, 22, 0] : Fin 3 → Nat) a + S512x1x64.size a ≤ S512x50x64.size a
  inb_S50x64x512_S1x64x512_22_0_0 : ∀ a, (![22, 0, 0] : Fin 3 → Nat) a + S1x64x512.size a ≤ S50x64x512.size a
  inb_S512x50x64_S512x1x64_0_23_0 : ∀ a, (![0, 23, 0] : Fin 3 → Nat) a + S512x1x64.size a ≤ S512x50x64.size a
  inb_S50x64x512_S1x64x512_23_0_0 : ∀ a, (![23, 0, 0] : Fin 3 → Nat) a + S1x64x512.size a ≤ S50x64x512.size a
  inb_S512x50x64_S512x1x64_0_24_0 : ∀ a, (![0, 24, 0] : Fin 3 → Nat) a + S512x1x64.size a ≤ S512x50x64.size a
  inb_S50x64x512_S1x64x512_24_0_0 : ∀ a, (![24, 0, 0] : Fin 3 → Nat) a + S1x64x512.size a ≤ S50x64x512.size a
  inb_S512x50x64_S512x1x64_0_25_0 : ∀ a, (![0, 25, 0] : Fin 3 → Nat) a + S512x1x64.size a ≤ S512x50x64.size a
  inb_S50x64x512_S1x64x512_25_0_0 : ∀ a, (![25, 0, 0] : Fin 3 → Nat) a + S1x64x512.size a ≤ S50x64x512.size a
  inb_S512x50x64_S512x1x64_0_26_0 : ∀ a, (![0, 26, 0] : Fin 3 → Nat) a + S512x1x64.size a ≤ S512x50x64.size a
  inb_S50x64x512_S1x64x512_26_0_0 : ∀ a, (![26, 0, 0] : Fin 3 → Nat) a + S1x64x512.size a ≤ S50x64x512.size a
  inb_S512x50x64_S512x1x64_0_27_0 : ∀ a, (![0, 27, 0] : Fin 3 → Nat) a + S512x1x64.size a ≤ S512x50x64.size a
  inb_S50x64x512_S1x64x512_27_0_0 : ∀ a, (![27, 0, 0] : Fin 3 → Nat) a + S1x64x512.size a ≤ S50x64x512.size a
  inb_S512x50x64_S512x1x64_0_28_0 : ∀ a, (![0, 28, 0] : Fin 3 → Nat) a + S512x1x64.size a ≤ S512x50x64.size a
  inb_S50x64x512_S1x64x512_28_0_0 : ∀ a, (![28, 0, 0] : Fin 3 → Nat) a + S1x64x512.size a ≤ S50x64x512.size a
  inb_S512x50x64_S512x1x64_0_29_0 : ∀ a, (![0, 29, 0] : Fin 3 → Nat) a + S512x1x64.size a ≤ S512x50x64.size a
  inb_S50x64x512_S1x64x512_29_0_0 : ∀ a, (![29, 0, 0] : Fin 3 → Nat) a + S1x64x512.size a ≤ S50x64x512.size a
  inb_S512x50x64_S512x1x64_0_30_0 : ∀ a, (![0, 30, 0] : Fin 3 → Nat) a + S512x1x64.size a ≤ S512x50x64.size a
  inb_S50x64x512_S1x64x512_30_0_0 : ∀ a, (![30, 0, 0] : Fin 3 → Nat) a + S1x64x512.size a ≤ S50x64x512.size a
  inb_S512x50x64_S512x1x64_0_31_0 : ∀ a, (![0, 31, 0] : Fin 3 → Nat) a + S512x1x64.size a ≤ S512x50x64.size a
  inb_S50x64x512_S1x64x512_31_0_0 : ∀ a, (![31, 0, 0] : Fin 3 → Nat) a + S1x64x512.size a ≤ S50x64x512.size a
  inb_S512x50x64_S512x1x64_0_32_0 : ∀ a, (![0, 32, 0] : Fin 3 → Nat) a + S512x1x64.size a ≤ S512x50x64.size a
  inb_S50x64x512_S1x64x512_32_0_0 : ∀ a, (![32, 0, 0] : Fin 3 → Nat) a + S1x64x512.size a ≤ S50x64x512.size a
  inb_S512x50x64_S512x1x64_0_33_0 : ∀ a, (![0, 33, 0] : Fin 3 → Nat) a + S512x1x64.size a ≤ S512x50x64.size a
  inb_S50x64x512_S1x64x512_33_0_0 : ∀ a, (![33, 0, 0] : Fin 3 → Nat) a + S1x64x512.size a ≤ S50x64x512.size a
  inb_S512x50x64_S512x1x64_0_34_0 : ∀ a, (![0, 34, 0] : Fin 3 → Nat) a + S512x1x64.size a ≤ S512x50x64.size a
  inb_S50x64x512_S1x64x512_34_0_0 : ∀ a, (![34, 0, 0] : Fin 3 → Nat) a + S1x64x512.size a ≤ S50x64x512.size a
  inb_S512x50x64_S512x1x64_0_35_0 : ∀ a, (![0, 35, 0] : Fin 3 → Nat) a + S512x1x64.size a ≤ S512x50x64.size a
  inb_S50x64x512_S1x64x512_35_0_0 : ∀ a, (![35, 0, 0] : Fin 3 → Nat) a + S1x64x512.size a ≤ S50x64x512.size a
  inb_S512x50x64_S512x1x64_0_36_0 : ∀ a, (![0, 36, 0] : Fin 3 → Nat) a + S512x1x64.size a ≤ S512x50x64.size a
  inb_S50x64x512_S1x64x512_36_0_0 : ∀ a, (![36, 0, 0] : Fin 3 → Nat) a + S1x64x512.size a ≤ S50x64x512.size a
  inb_S512x50x64_S512x1x64_0_37_0 : ∀ a, (![0, 37, 0] : Fin 3 → Nat) a + S512x1x64.size a ≤ S512x50x64.size a
  inb_S50x64x512_S1x64x512_37_0_0 : ∀ a, (![37, 0, 0] : Fin 3 → Nat) a + S1x64x512.size a ≤ S50x64x512.size a
  inb_S512x50x64_S512x1x64_0_38_0 : ∀ a, (![0, 38, 0] : Fin 3 → Nat) a + S512x1x64.size a ≤ S512x50x64.size a
  inb_S50x64x512_S1x64x512_38_0_0 : ∀ a, (![38, 0, 0] : Fin 3 → Nat) a + S1x64x512.size a ≤ S50x64x512.size a
  inb_S512x50x64_S512x1x64_0_39_0 : ∀ a, (![0, 39, 0] : Fin 3 → Nat) a + S512x1x64.size a ≤ S512x50x64.size a
  inb_S50x64x512_S1x64x512_39_0_0 : ∀ a, (![39, 0, 0] : Fin 3 → Nat) a + S1x64x512.size a ≤ S50x64x512.size a
  inb_S512x50x64_S512x1x64_0_40_0 : ∀ a, (![0, 40, 0] : Fin 3 → Nat) a + S512x1x64.size a ≤ S512x50x64.size a
  inb_S50x64x512_S1x64x512_40_0_0 : ∀ a, (![40, 0, 0] : Fin 3 → Nat) a + S1x64x512.size a ≤ S50x64x512.size a
  inb_S512x50x64_S512x1x64_0_41_0 : ∀ a, (![0, 41, 0] : Fin 3 → Nat) a + S512x1x64.size a ≤ S512x50x64.size a
  inb_S50x64x512_S1x64x512_41_0_0 : ∀ a, (![41, 0, 0] : Fin 3 → Nat) a + S1x64x512.size a ≤ S50x64x512.size a
  inb_S512x50x64_S512x1x64_0_42_0 : ∀ a, (![0, 42, 0] : Fin 3 → Nat) a + S512x1x64.size a ≤ S512x50x64.size a
  inb_S50x64x512_S1x64x512_42_0_0 : ∀ a, (![42, 0, 0] : Fin 3 → Nat) a + S1x64x512.size a ≤ S50x64x512.size a
  inb_S512x50x64_S512x1x64_0_43_0 : ∀ a, (![0, 43, 0] : Fin 3 → Nat) a + S512x1x64.size a ≤ S512x50x64.size a
  inb_S50x64x512_S1x64x512_43_0_0 : ∀ a, (![43, 0, 0] : Fin 3 → Nat) a + S1x64x512.size a ≤ S50x64x512.size a
  inb_S512x50x64_S512x1x64_0_44_0 : ∀ a, (![0, 44, 0] : Fin 3 → Nat) a + S512x1x64.size a ≤ S512x50x64.size a
  inb_S50x64x512_S1x64x512_44_0_0 : ∀ a, (![44, 0, 0] : Fin 3 → Nat) a + S1x64x512.size a ≤ S50x64x512.size a
  inb_S512x50x64_S512x1x64_0_45_0 : ∀ a, (![0, 45, 0] : Fin 3 → Nat) a + S512x1x64.size a ≤ S512x50x64.size a
  inb_S50x64x512_S1x64x512_45_0_0 : ∀ a, (![45, 0, 0] : Fin 3 → Nat) a + S1x64x512.size a ≤ S50x64x512.size a
  inb_S512x50x64_S512x1x64_0_46_0 : ∀ a, (![0, 46, 0] : Fin 3 → Nat) a + S512x1x64.size a ≤ S512x50x64.size a
  inb_S50x64x512_S1x64x512_46_0_0 : ∀ a, (![46, 0, 0] : Fin 3 → Nat) a + S1x64x512.size a ≤ S50x64x512.size a
  inb_S512x50x64_S512x1x64_0_47_0 : ∀ a, (![0, 47, 0] : Fin 3 → Nat) a + S512x1x64.size a ≤ S512x50x64.size a
  inb_S50x64x512_S1x64x512_47_0_0 : ∀ a, (![47, 0, 0] : Fin 3 → Nat) a + S1x64x512.size a ≤ S50x64x512.size a
  inb_S512x50x64_S512x1x64_0_48_0 : ∀ a, (![0, 48, 0] : Fin 3 → Nat) a + S512x1x64.size a ≤ S512x50x64.size a
  inb_S50x64x512_S1x64x512_48_0_0 : ∀ a, (![48, 0, 0] : Fin 3 → Nat) a + S1x64x512.size a ≤ S50x64x512.size a
  inb_S512x50x64_S512x1x64_0_49_0 : ∀ a, (![0, 49, 0] : Fin 3 → Nat) a + S512x1x64.size a ≤ S512x50x64.size a
  inb_S50x64x512_S1x64x512_49_0_0 : ∀ a, (![49, 0, 0] : Fin 3 → Nat) a + S1x64x512.size a ≤ S50x64x512.size a
  transposes_S50x64x16384_S16384x50x64_2_0_1 : S50x64x16384.Transposes [2, 0, 1] S16384x50x64
  dot_S64x64_S512x64_S64x512_0_1_1_0_n_n_wf : DotDims.WF S64x64 S512x64 S64x512 [0] [1] [1] [0] [] []
  hcc0_scratch3 : 0 + S_.numel ≤ 92
  hcc0_scratch4 : 1 + S_.numel ≤ 92
  hcc0_scratch5 : 2 + S_.numel ≤ 92
  hcc0_scratch6 : 3 + S_.numel ≤ 92
  hcc0_scratch7 : 4 + S_.numel ≤ 92
  hcc0_scratch8 : 5 + S_.numel ≤ 92
  hcc0_scratch9 : 6 + S_.numel ≤ 92
  hcc0_scratch10 : 7 + S_.numel ≤ 92
  hcc0_scratch11 : 8 + S_.numel ≤ 92
  hcc0_scratch12 : 9 + S_.numel ≤ 92
  hcc0_scratch13 : 10 + S_.numel ≤ 92
  hcc0_scratch14 : 11 + S_.numel ≤ 92
  hcc0_scratch15 : 12 + S_.numel ≤ 92
  hcc0_scratch16 : 13 + S_.numel ≤ 92
  hcc0_scratch17 : 14 + S_.numel ≤ 92
  hcc0_scratch18 : 15 + S_.numel ≤ 92
  hcc0_scoped0 : 16 + S_.numel ≤ 92
  hcc1_scratch3 : 17 + S_.numel ≤ 92
  hcc1_scratch4 : 18 + S_.numel ≤ 92
  hcc1_scratch5 : 19 + S_.numel ≤ 92
  hcc1_scratch6 : 20 + S_.numel ≤ 92
  hcc1_scratch7 : 21 + S_.numel ≤ 92
  hcc1_scratch8 : 22 + S_.numel ≤ 92
  hcc1_scratch9 : 23 + S_.numel ≤ 92
  hcc1_scratch10 : 24 + S_.numel ≤ 92
  hcc1_scratch11 : 25 + S_.numel ≤ 92
  hcc1_scratch12 : 26 + S_.numel ≤ 92
  hcc1_scratch13 : 27 + S_.numel ≤ 92
  hcc1_scratch14 : 28 + S_.numel ≤ 92
  hcc1_scratch15 : 29 + S_.numel ≤ 92
  hcc1_scratch16 : 30 + S_.numel ≤ 92
  hcc1_scratch17 : 31 + S_.numel ≤ 92
  hcc1_scratch18 : 32 + S_.numel ≤ 92
  hcc1_scoped0 : 33 + S_.numel ≤ 92
  hcc2_scratch3 : 34 + S_.numel ≤ 92
  hcc2_scratch4 : 35 + S_.numel ≤ 92
  hcc2_scratch5 : 36 + S_.numel ≤ 92
  hcc2_scratch6 : 37 + S_.numel ≤ 92
  hcc2_scratch7 : 38 + S_.numel ≤ 92
  hcc2_scratch8 : 39 + S_.numel ≤ 92
  hcc2_scratch9 : 40 + S_.numel ≤ 92
  hcc2_scratch10 : 41 + S_.numel ≤ 92
  hcc2_scratch11 : 42 + S_.numel ≤ 92
  hcc2_scratch12 : 43 + S_.numel ≤ 92
  hcc2_scratch13 : 44 + S_.numel ≤ 92
  hcc2_scratch14 : 45 + S_.numel ≤ 92
  hcc2_scratch15 : 46 + S_.numel ≤ 92
  hcc2_scratch16 : 47 + S_.numel ≤ 92
  hcc2_scratch17 : 48 + S_.numel ≤ 92
  hcc2_scratch18 : 49 + S_.numel ≤ 92
  hcc2_scoped0 : 50 + S_.numel ≤ 92
  hcc3_scratch3 : 51 + S_.numel ≤ 92
  hcc3_scratch4 : 52 + S_.numel ≤ 92
  hcc3_scratch5 : 53 + S_.numel ≤ 92
  hcc3_scratch6 : 54 + S_.numel ≤ 92
  hcc3_scratch7 : 55 + S_.numel ≤ 92
  hcc3_scratch8 : 56 + S_.numel ≤ 92
  hcc3_scratch9 : 57 + S_.numel ≤ 92
  hcc3_scratch10 : 58 + S_.numel ≤ 92
  hcc3_scratch11 : 59 + S_.numel ≤ 92
  hcc3_scratch12 : 60 + S_.numel ≤ 92
  hcc3_scratch13 : 61 + S_.numel ≤ 92
  hcc3_scratch14 : 62 + S_.numel ≤ 92
  hcc3_scratch15 : 63 + S_.numel ≤ 92
  hcc3_scratch16 : 64 + S_.numel ≤ 92
  hcc3_scratch17 : 65 + S_.numel ≤ 92
  hcc3_scratch18 : 66 + S_.numel ≤ 92
  hcc3_scoped0 : 67 + S_.numel ≤ 92
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S128x50.size a ≤ S16384x50.size a
  k0_t1_ok : k0_t1_loop.OK
  k0_off2_inb : ∀ k0_t1 : Fin k0_t1_loop.trips, ∀ (r : Fin 8), ∀ a, (k0_off2 k0_t1 (BitVec.ofNat 32 r.val)) a + S1x50.size a ≤ S128x50.size a
  k0_t2_ok : k0_t2_loop.OK
  k0_off3_inb : ∀ k0_t2 : Fin k0_t2_loop.trips, ∀ a, (k0_off3 k0_t2) a + S1x1x16.size a ≤ S8x56x128.size a
  k0_off4_inb : ∀ k0_t2 : Fin k0_t2_loop.trips, ∀ a, (k0_off4 k0_t2) a + S1x1x16.size a ≤ S8x50x64.size a
  k0_off5_inb : ∀ k0_t2 : Fin k0_t2_loop.trips, ∀ a, (k0_off5 k0_t2) a + S1x1x16.size a ≤ S8x56x128.size a
  k0_off6_inb : ∀ k0_t2 : Fin k0_t2_loop.trips, ∀ a, (k0_off6 k0_t2) a + S1x1x16.size a ≤ S8x50x64.size a
  k0_off7_inb : ∀ k0_t2 : Fin k0_t2_loop.trips, ∀ a, (k0_off7 k0_t2) a + S1x1x16.size a ≤ S8x56x128.size a
  k0_off8_inb : ∀ k0_t2 : Fin k0_t2_loop.trips, ∀ a, (k0_off8 k0_t2) a + S1x1x16.size a ≤ S8x50x64.size a
  k0_off9_inb : ∀ k0_t2 : Fin k0_t2_loop.trips, ∀ a, (k0_off9 k0_t2) a + S1x1x16.size a ≤ S8x56x128.size a
  k0_off10_inb : ∀ k0_t2 : Fin k0_t2_loop.trips, ∀ a, (k0_off10 k0_t2) a + S1x1x16.size a ≤ S8x50x64.size a
  k0_off11_inb : ∀ (i : grid0.Coords) (k0_t1 : Fin k0_t1_loop.trips), ∀ (r : Fin 8), ∀ a, (k0_off11 i k0_t1 (BitVec.ofNat 32 r.val)) a + S1x50x64.size a ≤ S4096x50x64.size a
  k0_t3_ok : k0_t3_loop.OK
  k0_off12_inb : ∀ k0_t3 : Fin k0_t3_loop.trips, ∀ a, (k0_off12 k0_t3) a + S1x1x16.size a ≤ S8x56x128.size a
  k0_off13_inb : ∀ k0_t3 : Fin k0_t3_loop.trips, ∀ a, (k0_off13 k0_t3) a + S1x1x16.size a ≤ S8x50x64.size a
  k0_off14_inb : ∀ k0_t3 : Fin k0_t3_loop.trips, ∀ a, (k0_off14 k0_t3) a + S1x1x16.size a ≤ S8x56x128.size a
  k0_off15_inb : ∀ k0_t3 : Fin k0_t3_loop.trips, ∀ a, (k0_off15 k0_t3) a + S1x1x16.size a ≤ S8x50x64.size a
  k0_off16_inb : ∀ k0_t3 : Fin k0_t3_loop.trips, ∀ a, (k0_off16 k0_t3) a + S1x1x16.size a ≤ S8x56x128.size a
  k0_off17_inb : ∀ k0_t3 : Fin k0_t3_loop.trips, ∀ a, (k0_off17 k0_t3) a + S1x1x16.size a ≤ S8x50x64.size a
  k0_off18_inb : ∀ k0_t3 : Fin k0_t3_loop.trips, ∀ a, (k0_off18 k0_t3) a + S1x1x16.size a ≤ S8x56x128.size a
  k0_off19_inb : ∀ k0_t3 : Fin k0_t3_loop.trips, ∀ a, (k0_off19 k0_t3) a + S1x1x16.size a ≤ S8x50x64.size a
  k0_t4_ok : k0_t4_loop.OK
  k0_off20_inb : ∀ k0_t4 : Fin k0_t4_loop.trips, ∀ a, (k0_off20 k0_t4) a + S1x1x16.size a ≤ S8x56x128.size a
  k0_off21_inb : ∀ k0_t4 : Fin k0_t4_loop.trips, ∀ a, (k0_off21 k0_t4) a + S1x1x16.size a ≤ S8x50x64.size a
  k0_off22_inb : ∀ k0_t4 : Fin k0_t4_loop.trips, ∀ a, (k0_off22 k0_t4) a + S1x1x16.size a ≤ S8x56x128.size a
  k0_off23_inb : ∀ k0_t4 : Fin k0_t4_loop.trips, ∀ a, (k0_off23 k0_t4) a + S1x1x16.size a ≤ S8x50x64.size a
  k0_off24_inb : ∀ k0_t4 : Fin k0_t4_loop.trips, ∀ a, (k0_off24 k0_t4) a + S1x1x16.size a ≤ S8x56x128.size a
  k0_off25_inb : ∀ k0_t4 : Fin k0_t4_loop.trips, ∀ a, (k0_off25 k0_t4) a + S1x1x16.size a ≤ S8x50x64.size a
  k0_off26_inb : ∀ k0_t4 : Fin k0_t4_loop.trips, ∀ a, (k0_off26 k0_t4) a + S1x1x16.size a ≤ S8x56x128.size a
  k0_off27_inb : ∀ k0_t4 : Fin k0_t4_loop.trips, ∀ a, (k0_off27 k0_t4) a + S1x1x16.size a ≤ S8x50x64.size a
  k0_t5_ok : k0_t5_loop.OK
  k0_off28_inb : ∀ k0_t5 : Fin k0_t5_loop.trips, ∀ a, (k0_off28 k0_t5) a + S1x1x16.size a ≤ S8x56x128.size a
  k0_off29_inb : ∀ k0_t5 : Fin k0_t5_loop.trips, ∀ a, (k0_off29 k0_t5) a + S1x1x16.size a ≤ S8x50x64.size a
  k0_off30_inb : ∀ k0_t5 : Fin k0_t5_loop.trips, ∀ a, (k0_off30 k0_t5) a + S1x1x16.size a ≤ S8x56x128.size a
  k0_off31_inb : ∀ k0_t5 : Fin k0_t5_loop.trips, ∀ a, (k0_off31 k0_t5) a + S1x1x16.size a ≤ S8x50x64.size a
  k0_off32_inb : ∀ k0_t5 : Fin k0_t5_loop.trips, ∀ a, (k0_off32 k0_t5) a + S1x1x16.size a ≤ S8x56x128.size a
  k0_off33_inb : ∀ k0_t5 : Fin k0_t5_loop.trips, ∀ a, (k0_off33 k0_t5) a + S1x1x16.size a ≤ S8x50x64.size a
  k0_off34_inb : ∀ k0_t5 : Fin k0_t5_loop.trips, ∀ a, (k0_off34 k0_t5) a + S1x1x16.size a ≤ S8x56x128.size a
  k0_off35_inb : ∀ k0_t5 : Fin k0_t5_loop.trips, ∀ a, (k0_off35 k0_t5) a + S1x1x16.size a ≤ S8x50x64.size a
  k0_t6_ok : k0_t6_loop.OK
  k0_off36_inb : ∀ k0_t6 : Fin k0_t6_loop.trips, ∀ a, (k0_off36 k0_t6) a + S1x1x16.size a ≤ S8x56x128.size a
  k0_off37_inb : ∀ k0_t6 : Fin k0_t6_loop.trips, ∀ a, (k0_off37 k0_t6) a + S1x1x16.size a ≤ S8x50x64.size a
  k0_off38_inb : ∀ k0_t6 : Fin k0_t6_loop.trips, ∀ a, (k0_off38 k0_t6) a + S1x1x16.size a ≤ S8x56x128.size a
  k0_off39_inb : ∀ k0_t6 : Fin k0_t6_loop.trips, ∀ a, (k0_off39 k0_t6) a + S1x1x16.size a ≤ S8x50x64.size a
  k0_off40_inb : ∀ k0_t6 : Fin k0_t6_loop.trips, ∀ a, (k0_off40 k0_t6) a + S1x1x16.size a ≤ S8x56x128.size a
  k0_off41_inb : ∀ k0_t6 : Fin k0_t6_loop.trips, ∀ a, (k0_off41 k0_t6) a + S1x1x16.size a ≤ S8x50x64.size a
  k0_off42_inb : ∀ k0_t6 : Fin k0_t6_loop.trips, ∀ a, (k0_off42 k0_t6) a + S1x1x16.size a ≤ S8x56x128.size a
  k0_off43_inb : ∀ k0_t6 : Fin k0_t6_loop.trips, ∀ a, (k0_off43 k0_t6) a + S1x1x16.size a ≤ S8x50x64.size a
  k0_t7_ok : k0_t7_loop.OK
  k0_off44_inb : ∀ k0_t7 : Fin k0_t7_loop.trips, ∀ a, (k0_off44 k0_t7) a + S1x1x16.size a ≤ S8x56x128.size a
  k0_off45_inb : ∀ k0_t7 : Fin k0_t7_loop.trips, ∀ a, (k0_off45 k0_t7) a + S1x1x16.size a ≤ S8x50x64.size a
  k0_off46_inb : ∀ k0_t7 : Fin k0_t7_loop.trips, ∀ a, (k0_off46 k0_t7) a + S1x1x16.size a ≤ S8x56x128.size a
  k0_off47_inb : ∀ k0_t7 : Fin k0_t7_loop.trips, ∀ a, (k0_off47 k0_t7) a + S1x1x16.size a ≤ S8x50x64.size a
  k0_off48_inb : ∀ k0_t7 : Fin k0_t7_loop.trips, ∀ a, (k0_off48 k0_t7) a + S1x1x16.size a ≤ S8x56x128.size a
  k0_off49_inb : ∀ k0_t7 : Fin k0_t7_loop.trips, ∀ a, (k0_off49 k0_t7) a + S1x1x16.size a ≤ S8x50x64.size a
  k0_off50_inb : ∀ k0_t7 : Fin k0_t7_loop.trips, ∀ a, (k0_off50 k0_t7) a + S1x1x16.size a ≤ S8x56x128.size a
  k0_off51_inb : ∀ k0_t7 : Fin k0_t7_loop.trips, ∀ a, (k0_off51 k0_t7) a + S1x1x16.size a ≤ S8x50x64.size a
  k0_t8_ok : k0_t8_loop.OK
  k0_off52_inb : ∀ k0_t8 : Fin k0_t8_loop.trips, ∀ a, (k0_off52 k0_t8) a + S1x1x16.size a ≤ S8x56x128.size a
  k0_off53_inb : ∀ k0_t8 : Fin k0_t8_loop.trips, ∀ a, (k0_off53 k0_t8) a + S1x1x16.size a ≤ S8x50x64.size a
  k0_off54_inb : ∀ k0_t8 : Fin k0_t8_loop.trips, ∀ a, (k0_off54 k0_t8) a + S1x1x16.size a ≤ S8x56x128.size a
  k0_off55_inb : ∀ k0_t8 : Fin k0_t8_loop.trips, ∀ a, (k0_off55 k0_t8) a + S1x1x16.size a ≤ S8x50x64.size a
  k0_off56_inb : ∀ k0_t8 : Fin k0_t8_loop.trips, ∀ a, (k0_off56 k0_t8) a + S1x1x16.size a ≤ S8x56x128.size a
  k0_off57_inb : ∀ k0_t8 : Fin k0_t8_loop.trips, ∀ a, (k0_off57 k0_t8) a + S1x1x16.size a ≤ S8x50x64.size a
  k0_off58_inb : ∀ k0_t8 : Fin k0_t8_loop.trips, ∀ a, (k0_off58 k0_t8) a + S1x1x16.size a ≤ S8x56x128.size a
  k0_off59_inb : ∀ k0_t8 : Fin k0_t8_loop.trips, ∀ a, (k0_off59 k0_t8) a + S1x1x16.size a ≤ S8x50x64.size a
  k0_t9_ok : k0_t9_loop.OK
  k0_off60_inb : ∀ k0_t9 : Fin k0_t9_loop.trips, ∀ a, (k0_off60 k0_t9) a + S1x1x16.size a ≤ S8x56x128.size a
  k0_off61_inb : ∀ k0_t9 : Fin k0_t9_loop.trips, ∀ a, (k0_off61 k0_t9) a + S1x1x16.size a ≤ S8x50x64.size a
  k0_off62_inb : ∀ k0_t9 : Fin k0_t9_loop.trips, ∀ a, (k0_off62 k0_t9) a + S1x1x16.size a ≤ S8x56x128.size a
  k0_off63_inb : ∀ k0_t9 : Fin k0_t9_loop.trips, ∀ a, (k0_off63 k0_t9) a + S1x1x16.size a ≤ S8x50x64.size a
  k0_off64_inb : ∀ k0_t9 : Fin k0_t9_loop.trips, ∀ a, (k0_off64 k0_t9) a + S1x1x16.size a ≤ S8x56x128.size a
  k0_off65_inb : ∀ k0_t9 : Fin k0_t9_loop.trips, ∀ a, (k0_off65 k0_t9) a + S1x1x16.size a ≤ S8x50x64.size a
  k0_off66_inb : ∀ k0_t9 : Fin k0_t9_loop.trips, ∀ a, (k0_off66 k0_t9) a + S1x1x16.size a ≤ S8x56x128.size a
  k0_off67_inb : ∀ k0_t9 : Fin k0_t9_loop.trips, ∀ a, (k0_off67 k0_t9) a + S1x1x16.size a ≤ S8x50x64.size a
  k0_off68_inb : ∀ k0_t1 : Fin k0_t1_loop.trips, ∀ (r : Fin 8), ∀ a, (k0_off68 k0_t1 (BitVec.ofNat 32 r.val)) a + S1x50.size a ≤ S128x50.size a
  k0_t10_ok : k0_t10_loop.OK
  k0_off69_inb : ∀ k0_t10 : Fin k0_t10_loop.trips, ∀ a, (k0_off69 k0_t10) a + S1x1x16.size a ≤ S8x56x128.size a
  k0_off70_inb : ∀ k0_t10 : Fin k0_t10_loop.trips, ∀ a, (k0_off70 k0_t10) a + S1x1x16.size a ≤ S8x50x64.size a
  k0_off71_inb : ∀ k0_t10 : Fin k0_t10_loop.trips, ∀ a, (k0_off71 k0_t10) a + S1x1x16.size a ≤ S8x56x128.size a
  k0_off72_inb : ∀ k0_t10 : Fin k0_t10_loop.trips, ∀ a, (k0_off72 k0_t10) a + S1x1x16.size a ≤ S8x50x64.size a
  k0_off73_inb : ∀ k0_t10 : Fin k0_t10_loop.trips, ∀ a, (k0_off73 k0_t10) a + S1x1x16.size a ≤ S8x56x128.size a
  k0_off74_inb : ∀ k0_t10 : Fin k0_t10_loop.trips, ∀ a, (k0_off74 k0_t10) a + S1x1x16.size a ≤ S8x50x64.size a
  k0_off75_inb : ∀ k0_t10 : Fin k0_t10_loop.trips, ∀ a, (k0_off75 k0_t10) a + S1x1x16.size a ≤ S8x56x128.size a
  k0_off76_inb : ∀ k0_t10 : Fin k0_t10_loop.trips, ∀ a, (k0_off76 k0_t10) a + S1x1x16.size a ≤ S8x50x64.size a
  k0_off77_inb : ∀ i : grid0.Coords, ∀ (r : Fin 8), ∀ a, (k0_off77 i (BitVec.ofNat 32 (120 + r.val))) a + S1x50x64.size a ≤ S4096x50x64.size a
  k0_t11_ok : k0_t11_loop.OK
  k0_off78_inb : ∀ k0_t11 : Fin k0_t11_loop.trips, ∀ a, (k0_off78 k0_t11) a + S1x1x16.size a ≤ S8x56x128.size a
  k0_off79_inb : ∀ k0_t11 : Fin k0_t11_loop.trips, ∀ a, (k0_off79 k0_t11) a + S1x1x16.size a ≤ S8x50x64.size a
  k0_off80_inb : ∀ k0_t11 : Fin k0_t11_loop.trips, ∀ a, (k0_off80 k0_t11) a + S1x1x16.size a ≤ S8x56x128.size a
  k0_off81_inb : ∀ k0_t11 : Fin k0_t11_loop.trips, ∀ a, (k0_off81 k0_t11) a + S1x1x16.size a ≤ S8x50x64.size a
  k0_off82_inb : ∀ k0_t11 : Fin k0_t11_loop.trips, ∀ a, (k0_off82 k0_t11) a + S1x1x16.size a ≤ S8x56x128.size a
  k0_off83_inb : ∀ k0_t11 : Fin k0_t11_loop.trips, ∀ a, (k0_off83 k0_t11) a + S1x1x16.size a ≤ S8x50x64.size a
  k0_off84_inb : ∀ k0_t11 : Fin k0_t11_loop.trips, ∀ a, (k0_off84 k0_t11) a + S1x1x16.size a ≤ S8x56x128.size a
  k0_off85_inb : ∀ k0_t11 : Fin k0_t11_loop.trips, ∀ a, (k0_off85 k0_t11) a + S1x1x16.size a ≤ S8x50x64.size a
  k0_t12_ok : k0_t12_loop.OK
  k0_off86_inb : ∀ k0_t12 : Fin k0_t12_loop.trips, ∀ a, (k0_off86 k0_t12) a + S1x1x16.size a ≤ S8x56x128.size a
  k0_off87_inb : ∀ k0_t12 : Fin k0_t12_loop.trips, ∀ a, (k0_off87 k0_t12) a + S1x1x16.size a ≤ S8x50x64.size a
  k0_off88_inb : ∀ k0_t12 : Fin k0_t12_loop.trips, ∀ a, (k0_off88 k0_t12) a + S1x1x16.size a ≤ S8x56x128.size a
  k0_off89_inb : ∀ k0_t12 : Fin k0_t12_loop.trips, ∀ a, (k0_off89 k0_t12) a + S1x1x16.size a ≤ S8x50x64.size a
  k0_off90_inb : ∀ k0_t12 : Fin k0_t12_loop.trips, ∀ a, (k0_off90 k0_t12) a + S1x1x16.size a ≤ S8x56x128.size a
  k0_off91_inb : ∀ k0_t12 : Fin k0_t12_loop.trips, ∀ a, (k0_off91 k0_t12) a + S1x1x16.size a ≤ S8x50x64.size a
  k0_off92_inb : ∀ k0_t12 : Fin k0_t12_loop.trips, ∀ a, (k0_off92 k0_t12) a + S1x1x16.size a ≤ S8x56x128.size a
  k0_off93_inb : ∀ k0_t12 : Fin k0_t12_loop.trips, ∀ a, (k0_off93 k0_t12) a + S1x1x16.size a ≤ S8x50x64.size a
  k0_t13_ok : k0_t13_loop.OK
  k0_off94_inb : ∀ k0_t13 : Fin k0_t13_loop.trips, ∀ a, (k0_off94 k0_t13) a + S1x1x16.size a ≤ S8x56x128.size a
  k0_off95_inb : ∀ k0_t13 : Fin k0_t13_loop.trips, ∀ a, (k0_off95 k0_t13) a + S1x1x16.size a ≤ S8x50x64.size a
  k0_off96_inb : ∀ k0_t13 : Fin k0_t13_loop.trips, ∀ a, (k0_off96 k0_t13) a + S1x1x16.size a ≤ S8x56x128.size a
  k0_off97_inb : ∀ k0_t13 : Fin k0_t13_loop.trips, ∀ a, (k0_off97 k0_t13) a + S1x1x16.size a ≤ S8x50x64.size a
  k0_off98_inb : ∀ k0_t13 : Fin k0_t13_loop.trips, ∀ a, (k0_off98 k0_t13) a + S1x1x16.size a ≤ S8x56x128.size a
  k0_off99_inb : ∀ k0_t13 : Fin k0_t13_loop.trips, ∀ a, (k0_off99 k0_t13) a + S1x1x16.size a ≤ S8x50x64.size a
  k0_off100_inb : ∀ k0_t13 : Fin k0_t13_loop.trips, ∀ a, (k0_off100 k0_t13) a + S1x1x16.size a ≤ S8x56x128.size a
  k0_off101_inb : ∀ k0_t13 : Fin k0_t13_loop.trips, ∀ a, (k0_off101 k0_t13) a + S1x1x16.size a ≤ S8x50x64.size a
  k0_t14_ok : k0_t14_loop.OK
  k0_off102_inb : ∀ k0_t14 : Fin k0_t14_loop.trips, ∀ a, (k0_off102 k0_t14) a + S1x1x16.size a ≤ S8x56x128.size a
  k0_off103_inb : ∀ k0_t14 : Fin k0_t14_loop.trips, ∀ a, (k0_off103 k0_t14) a + S1x1x16.size a ≤ S8x50x64.size a
  k0_off104_inb : ∀ k0_t14 : Fin k0_t14_loop.trips, ∀ a, (k0_off104 k0_t14) a + S1x1x16.size a ≤ S8x56x128.size a
  k0_off105_inb : ∀ k0_t14 : Fin k0_t14_loop.trips, ∀ a, (k0_off105 k0_t14) a + S1x1x16.size a ≤ S8x50x64.size a
  k0_off106_inb : ∀ k0_t14 : Fin k0_t14_loop.trips, ∀ a, (k0_off106 k0_t14) a + S1x1x16.size a ≤ S8x56x128.size a
  k0_off107_inb : ∀ k0_t14 : Fin k0_t14_loop.trips, ∀ a, (k0_off107 k0_t14) a + S1x1x16.size a ≤ S8x50x64.size a
  k0_off108_inb : ∀ k0_t14 : Fin k0_t14_loop.trips, ∀ a, (k0_off108 k0_t14) a + S1x1x16.size a ≤ S8x56x128.size a
  k0_off109_inb : ∀ k0_t14 : Fin k0_t14_loop.trips, ∀ a, (k0_off109 k0_t14) a + S1x1x16.size a ≤ S8x50x64.size a
  k0_t15_ok : k0_t15_loop.OK
  k0_off110_inb : ∀ k0_t15 : Fin k0_t15_loop.trips, ∀ a, (k0_off110 k0_t15) a + S1x1x16.size a ≤ S8x56x128.size a
  k0_off111_inb : ∀ k0_t15 : Fin k0_t15_loop.trips, ∀ a, (k0_off111 k0_t15) a + S1x1x16.size a ≤ S8x50x64.size a
  k0_off112_inb : ∀ k0_t15 : Fin k0_t15_loop.trips, ∀ a, (k0_off112 k0_t15) a + S1x1x16.size a ≤ S8x56x128.size a
  k0_off113_inb : ∀ k0_t15 : Fin k0_t15_loop.trips, ∀ a, (k0_off113 k0_t15) a + S1x1x16.size a ≤ S8x50x64.size a
  k0_off114_inb : ∀ k0_t15 : Fin k0_t15_loop.trips, ∀ a, (k0_off114 k0_t15) a + S1x1x16.size a ≤ S8x56x128.size a
  k0_off115_inb : ∀ k0_t15 : Fin k0_t15_loop.trips, ∀ a, (k0_off115 k0_t15) a + S1x1x16.size a ≤ S8x50x64.size a
  k0_off116_inb : ∀ k0_t15 : Fin k0_t15_loop.trips, ∀ a, (k0_off116 k0_t15) a + S1x1x16.size a ≤ S8x56x128.size a
  k0_off117_inb : ∀ k0_t15 : Fin k0_t15_loop.trips, ∀ a, (k0_off117 k0_t15) a + S1x1x16.size a ≤ S8x50x64.size a
  k0_t16_ok : k0_t16_loop.OK
  k0_off118_inb : ∀ k0_t16 : Fin k0_t16_loop.trips, ∀ a, (k0_off118 k0_t16) a + S1x1x16.size a ≤ S8x56x128.size a
  k0_off119_inb : ∀ k0_t16 : Fin k0_t16_loop.trips, ∀ a, (k0_off119 k0_t16) a + S1x1x16.size a ≤ S8x50x64.size a
  k0_off120_inb : ∀ k0_t16 : Fin k0_t16_loop.trips, ∀ a, (k0_off120 k0_t16) a + S1x1x16.size a ≤ S8x56x128.size a
  k0_off121_inb : ∀ k0_t16 : Fin k0_t16_loop.trips, ∀ a, (k0_off121 k0_t16) a + S1x1x16.size a ≤ S8x50x64.size a
  k0_off122_inb : ∀ k0_t16 : Fin k0_t16_loop.trips, ∀ a, (k0_off122 k0_t16) a + S1x1x16.size a ≤ S8x56x128.size a
  k0_off123_inb : ∀ k0_t16 : Fin k0_t16_loop.trips, ∀ a, (k0_off123 k0_t16) a + S1x1x16.size a ≤ S8x50x64.size a
  k0_off124_inb : ∀ k0_t16 : Fin k0_t16_loop.trips, ∀ a, (k0_off124 k0_t16) a + S1x1x16.size a ≤ S8x56x128.size a
  k0_off125_inb : ∀ k0_t16 : Fin k0_t16_loop.trips, ∀ a, (k0_off125 k0_t16) a + S1x1x16.size a ≤ S8x50x64.size a
  k0_t17_ok : k0_t17_loop.OK
  k0_off126_inb : ∀ k0_t17 : Fin k0_t17_loop.trips, ∀ a, (k0_off126 k0_t17) a + S1x1x16.size a ≤ S8x56x128.size a
  k0_off127_inb : ∀ k0_t17 : Fin k0_t17_loop.trips, ∀ a, (k0_off127 k0_t17) a + S1x1x16.size a ≤ S8x50x64.size a
  k0_off128_inb : ∀ k0_t17 : Fin k0_t17_loop.trips, ∀ a, (k0_off128 k0_t17) a + S1x1x16.size a ≤ S8x56x128.size a
  k0_off129_inb : ∀ k0_t17 : Fin k0_t17_loop.trips, ∀ a, (k0_off129 k0_t17) a + S1x1x16.size a ≤ S8x50x64.size a
  k0_off130_inb : ∀ k0_t17 : Fin k0_t17_loop.trips, ∀ a, (k0_off130 k0_t17) a + S1x1x16.size a ≤ S8x56x128.size a
  k0_off131_inb : ∀ k0_t17 : Fin k0_t17_loop.trips, ∀ a, (k0_off131 k0_t17) a + S1x1x16.size a ≤ S8x50x64.size a
  k0_off132_inb : ∀ k0_t17 : Fin k0_t17_loop.trips, ∀ a, (k0_off132 k0_t17) a + S1x1x16.size a ≤ S8x56x128.size a
  k0_off133_inb : ∀ k0_t17 : Fin k0_t17_loop.trips, ∀ a, (k0_off133 k0_t17) a + S1x1x16.size a ≤ S8x50x64.size a
  hcore1 : grid1.bound 0 ≤ τ.nSC
  hsub1 : grid1.bound 1 ≤ τ.nSub
  k1_off1_inb : ∀ i : grid1.Coords, ∀ a, (k1_off1 i) a + S128x50.size a ≤ S16384x50.size a
  k1_t1_ok : k1_t1_loop.OK
  k1_off2_inb : ∀ k1_t1 : Fin k1_t1_loop.trips, ∀ (r : Fin 8), ∀ a, (k1_off2 k1_t1 (BitVec.ofNat 32 r.val)) a + S1x50.size a ≤ S128x50.size a
  k1_t2_ok : k1_t2_loop.OK
  k1_off3_inb : ∀ k1_t2 : Fin k1_t2_loop.trips, ∀ a, (k1_off3 k1_t2) a + S1x1x16.size a ≤ S8x56x128.size a
  k1_off4_inb : ∀ k1_t2 : Fin k1_t2_loop.trips, ∀ a, (k1_off4 k1_t2) a + S1x1x16.size a ≤ S8x50x64.size a
  k1_off5_inb : ∀ k1_t2 : Fin k1_t2_loop.trips, ∀ a, (k1_off5 k1_t2) a + S1x1x16.size a ≤ S8x56x128.size a
  k1_off6_inb : ∀ k1_t2 : Fin k1_t2_loop.trips, ∀ a, (k1_off6 k1_t2) a + S1x1x16.size a ≤ S8x50x64.size a
  k1_off7_inb : ∀ k1_t2 : Fin k1_t2_loop.trips, ∀ a, (k1_off7 k1_t2) a + S1x1x16.size a ≤ S8x56x128.size a
  k1_off8_inb : ∀ k1_t2 : Fin k1_t2_loop.trips, ∀ a, (k1_off8 k1_t2) a + S1x1x16.size a ≤ S8x50x64.size a
  k1_off9_inb : ∀ k1_t2 : Fin k1_t2_loop.trips, ∀ a, (k1_off9 k1_t2) a + S1x1x16.size a ≤ S8x56x128.size a
  k1_off10_inb : ∀ k1_t2 : Fin k1_t2_loop.trips, ∀ a, (k1_off10 k1_t2) a + S1x1x16.size a ≤ S8x50x64.size a
  k1_off11_inb : ∀ (i : grid1.Coords) (k1_t1 : Fin k1_t1_loop.trips), ∀ (r : Fin 8), ∀ a, (k1_off11 i k1_t1 (BitVec.ofNat 32 r.val)) a + S1x50x64.size a ≤ S4096x50x64.size a
  k1_t3_ok : k1_t3_loop.OK
  k1_off12_inb : ∀ k1_t3 : Fin k1_t3_loop.trips, ∀ a, (k1_off12 k1_t3) a + S1x1x16.size a ≤ S8x56x128.size a
  k1_off13_inb : ∀ k1_t3 : Fin k1_t3_loop.trips, ∀ a, (k1_off13 k1_t3) a + S1x1x16.size a ≤ S8x50x64.size a
  k1_off14_inb : ∀ k1_t3 : Fin k1_t3_loop.trips, ∀ a, (k1_off14 k1_t3) a + S1x1x16.size a ≤ S8x56x128.size a
  k1_off15_inb : ∀ k1_t3 : Fin k1_t3_loop.trips, ∀ a, (k1_off15 k1_t3) a + S1x1x16.size a ≤ S8x50x64.size a
  k1_off16_inb : ∀ k1_t3 : Fin k1_t3_loop.trips, ∀ a, (k1_off16 k1_t3) a + S1x1x16.size a ≤ S8x56x128.size a
  k1_off17_inb : ∀ k1_t3 : Fin k1_t3_loop.trips, ∀ a, (k1_off17 k1_t3) a + S1x1x16.size a ≤ S8x50x64.size a
  k1_off18_inb : ∀ k1_t3 : Fin k1_t3_loop.trips, ∀ a, (k1_off18 k1_t3) a + S1x1x16.size a ≤ S8x56x128.size a
  k1_off19_inb : ∀ k1_t3 : Fin k1_t3_loop.trips, ∀ a, (k1_off19 k1_t3) a + S1x1x16.size a ≤ S8x50x64.size a
  k1_t4_ok : k1_t4_loop.OK
  k1_off20_inb : ∀ k1_t4 : Fin k1_t4_loop.trips, ∀ a, (k1_off20 k1_t4) a + S1x1x16.size a ≤ S8x56x128.size a
  k1_off21_inb : ∀ k1_t4 : Fin k1_t4_loop.trips, ∀ a, (k1_off21 k1_t4) a + S1x1x16.size a ≤ S8x50x64.size a
  k1_off22_inb : ∀ k1_t4 : Fin k1_t4_loop.trips, ∀ a, (k1_off22 k1_t4) a + S1x1x16.size a ≤ S8x56x128.size a
  k1_off23_inb : ∀ k1_t4 : Fin k1_t4_loop.trips, ∀ a, (k1_off23 k1_t4) a + S1x1x16.size a ≤ S8x50x64.size a
  k1_off24_inb : ∀ k1_t4 : Fin k1_t4_loop.trips, ∀ a, (k1_off24 k1_t4) a + S1x1x16.size a ≤ S8x56x128.size a
  k1_off25_inb : ∀ k1_t4 : Fin k1_t4_loop.trips, ∀ a, (k1_off25 k1_t4) a + S1x1x16.size a ≤ S8x50x64.size a
  k1_off26_inb : ∀ k1_t4 : Fin k1_t4_loop.trips, ∀ a, (k1_off26 k1_t4) a + S1x1x16.size a ≤ S8x56x128.size a
  k1_off27_inb : ∀ k1_t4 : Fin k1_t4_loop.trips, ∀ a, (k1_off27 k1_t4) a + S1x1x16.size a ≤ S8x50x64.size a
  k1_t5_ok : k1_t5_loop.OK
  k1_off28_inb : ∀ k1_t5 : Fin k1_t5_loop.trips, ∀ a, (k1_off28 k1_t5) a + S1x1x16.size a ≤ S8x56x128.size a
  k1_off29_inb : ∀ k1_t5 : Fin k1_t5_loop.trips, ∀ a, (k1_off29 k1_t5) a + S1x1x16.size a ≤ S8x50x64.size a
  k1_off30_inb : ∀ k1_t5 : Fin k1_t5_loop.trips, ∀ a, (k1_off30 k1_t5) a + S1x1x16.size a ≤ S8x56x128.size a
  k1_off31_inb : ∀ k1_t5 : Fin k1_t5_loop.trips, ∀ a, (k1_off31 k1_t5) a + S1x1x16.size a ≤ S8x50x64.size a
  k1_off32_inb : ∀ k1_t5 : Fin k1_t5_loop.trips, ∀ a, (k1_off32 k1_t5) a + S1x1x16.size a ≤ S8x56x128.size a
  k1_off33_inb : ∀ k1_t5 : Fin k1_t5_loop.trips, ∀ a, (k1_off33 k1_t5) a + S1x1x16.size a ≤ S8x50x64.size a
  k1_off34_inb : ∀ k1_t5 : Fin k1_t5_loop.trips, ∀ a, (k1_off34 k1_t5) a + S1x1x16.size a ≤ S8x56x128.size a
  k1_off35_inb : ∀ k1_t5 : Fin k1_t5_loop.trips, ∀ a, (k1_off35 k1_t5) a + S1x1x16.size a ≤ S8x50x64.size a
  k1_t6_ok : k1_t6_loop.OK
  k1_off36_inb : ∀ k1_t6 : Fin k1_t6_loop.trips, ∀ a, (k1_off36 k1_t6) a + S1x1x16.size a ≤ S8x56x128.size a
  k1_off37_inb : ∀ k1_t6 : Fin k1_t6_loop.trips, ∀ a, (k1_off37 k1_t6) a + S1x1x16.size a ≤ S8x50x64.size a
  k1_off38_inb : ∀ k1_t6 : Fin k1_t6_loop.trips, ∀ a, (k1_off38 k1_t6) a + S1x1x16.size a ≤ S8x56x128.size a
  k1_off39_inb : ∀ k1_t6 : Fin k1_t6_loop.trips, ∀ a, (k1_off39 k1_t6) a + S1x1x16.size a ≤ S8x50x64.size a
  k1_off40_inb : ∀ k1_t6 : Fin k1_t6_loop.trips, ∀ a, (k1_off40 k1_t6) a + S1x1x16.size a ≤ S8x56x128.size a
  k1_off41_inb : ∀ k1_t6 : Fin k1_t6_loop.trips, ∀ a, (k1_off41 k1_t6) a + S1x1x16.size a ≤ S8x50x64.size a
  k1_off42_inb : ∀ k1_t6 : Fin k1_t6_loop.trips, ∀ a, (k1_off42 k1_t6) a + S1x1x16.size a ≤ S8x56x128.size a
  k1_off43_inb : ∀ k1_t6 : Fin k1_t6_loop.trips, ∀ a, (k1_off43 k1_t6) a + S1x1x16.size a ≤ S8x50x64.size a
  k1_t7_ok : k1_t7_loop.OK
  k1_off44_inb : ∀ k1_t7 : Fin k1_t7_loop.trips, ∀ a, (k1_off44 k1_t7) a + S1x1x16.size a ≤ S8x56x128.size a
  k1_off45_inb : ∀ k1_t7 : Fin k1_t7_loop.trips, ∀ a, (k1_off45 k1_t7) a + S1x1x16.size a ≤ S8x50x64.size a
  k1_off46_inb : ∀ k1_t7 : Fin k1_t7_loop.trips, ∀ a, (k1_off46 k1_t7) a + S1x1x16.size a ≤ S8x56x128.size a
  k1_off47_inb : ∀ k1_t7 : Fin k1_t7_loop.trips, ∀ a, (k1_off47 k1_t7) a + S1x1x16.size a ≤ S8x50x64.size a
  k1_off48_inb : ∀ k1_t7 : Fin k1_t7_loop.trips, ∀ a, (k1_off48 k1_t7) a + S1x1x16.size a ≤ S8x56x128.size a
  k1_off49_inb : ∀ k1_t7 : Fin k1_t7_loop.trips, ∀ a, (k1_off49 k1_t7) a + S1x1x16.size a ≤ S8x50x64.size a
  k1_off50_inb : ∀ k1_t7 : Fin k1_t7_loop.trips, ∀ a, (k1_off50 k1_t7) a + S1x1x16.size a ≤ S8x56x128.size a
  k1_off51_inb : ∀ k1_t7 : Fin k1_t7_loop.trips, ∀ a, (k1_off51 k1_t7) a + S1x1x16.size a ≤ S8x50x64.size a
  k1_t8_ok : k1_t8_loop.OK
  k1_off52_inb : ∀ k1_t8 : Fin k1_t8_loop.trips, ∀ a, (k1_off52 k1_t8) a + S1x1x16.size a ≤ S8x56x128.size a
  k1_off53_inb : ∀ k1_t8 : Fin k1_t8_loop.trips, ∀ a, (k1_off53 k1_t8) a + S1x1x16.size a ≤ S8x50x64.size a
  k1_off54_inb : ∀ k1_t8 : Fin k1_t8_loop.trips, ∀ a, (k1_off54 k1_t8) a + S1x1x16.size a ≤ S8x56x128.size a
  k1_off55_inb : ∀ k1_t8 : Fin k1_t8_loop.trips, ∀ a, (k1_off55 k1_t8) a + S1x1x16.size a ≤ S8x50x64.size a
  k1_off56_inb : ∀ k1_t8 : Fin k1_t8_loop.trips, ∀ a, (k1_off56 k1_t8) a + S1x1x16.size a ≤ S8x56x128.size a
  k1_off57_inb : ∀ k1_t8 : Fin k1_t8_loop.trips, ∀ a, (k1_off57 k1_t8) a + S1x1x16.size a ≤ S8x50x64.size a
  k1_off58_inb : ∀ k1_t8 : Fin k1_t8_loop.trips, ∀ a, (k1_off58 k1_t8) a + S1x1x16.size a ≤ S8x56x128.size a
  k1_off59_inb : ∀ k1_t8 : Fin k1_t8_loop.trips, ∀ a, (k1_off59 k1_t8) a + S1x1x16.size a ≤ S8x50x64.size a
  k1_t9_ok : k1_t9_loop.OK
  k1_off60_inb : ∀ k1_t9 : Fin k1_t9_loop.trips, ∀ a, (k1_off60 k1_t9) a + S1x1x16.size a ≤ S8x56x128.size a
  k1_off61_inb : ∀ k1_t9 : Fin k1_t9_loop.trips, ∀ a, (k1_off61 k1_t9) a + S1x1x16.size a ≤ S8x50x64.size a
  k1_off62_inb : ∀ k1_t9 : Fin k1_t9_loop.trips, ∀ a, (k1_off62 k1_t9) a + S1x1x16.size a ≤ S8x56x128.size a
  k1_off63_inb : ∀ k1_t9 : Fin k1_t9_loop.trips, ∀ a, (k1_off63 k1_t9) a + S1x1x16.size a ≤ S8x50x64.size a
  k1_off64_inb : ∀ k1_t9 : Fin k1_t9_loop.trips, ∀ a, (k1_off64 k1_t9) a + S1x1x16.size a ≤ S8x56x128.size a
  k1_off65_inb : ∀ k1_t9 : Fin k1_t9_loop.trips, ∀ a, (k1_off65 k1_t9) a + S1x1x16.size a ≤ S8x50x64.size a
  k1_off66_inb : ∀ k1_t9 : Fin k1_t9_loop.trips, ∀ a, (k1_off66 k1_t9) a + S1x1x16.size a ≤ S8x56x128.size a
  k1_off67_inb : ∀ k1_t9 : Fin k1_t9_loop.trips, ∀ a, (k1_off67 k1_t9) a + S1x1x16.size a ≤ S8x50x64.size a
  k1_off68_inb : ∀ k1_t1 : Fin k1_t1_loop.trips, ∀ (r : Fin 8), ∀ a, (k1_off68 k1_t1 (BitVec.ofNat 32 r.val)) a + S1x50.size a ≤ S128x50.size a
  k1_t10_ok : k1_t10_loop.OK
  k1_off69_inb : ∀ k1_t10 : Fin k1_t10_loop.trips, ∀ a, (k1_off69 k1_t10) a + S1x1x16.size a ≤ S8x56x128.size a
  k1_off70_inb : ∀ k1_t10 : Fin k1_t10_loop.trips, ∀ a, (k1_off70 k1_t10) a + S1x1x16.size a ≤ S8x50x64.size a
  k1_off71_inb : ∀ k1_t10 : Fin k1_t10_loop.trips, ∀ a, (k1_off71 k1_t10) a + S1x1x16.size a ≤ S8x56x128.size a
  k1_off72_inb : ∀ k1_t10 : Fin k1_t10_loop.trips, ∀ a, (k1_off72 k1_t10) a + S1x1x16.size a ≤ S8x50x64.size a
  k1_off73_inb : ∀ k1_t10 : Fin k1_t10_loop.trips, ∀ a, (k1_off73 k1_t10) a + S1x1x16.size a ≤ S8x56x128.size a
  k1_off74_inb : ∀ k1_t10 : Fin k1_t10_loop.trips, ∀ a, (k1_off74 k1_t10) a + S1x1x16.size a ≤ S8x50x64.size a
  k1_off75_inb : ∀ k1_t10 : Fin k1_t10_loop.trips, ∀ a, (k1_off75 k1_t10) a + S1x1x16.size a ≤ S8x56x128.size a
  k1_off76_inb : ∀ k1_t10 : Fin k1_t10_loop.trips, ∀ a, (k1_off76 k1_t10) a + S1x1x16.size a ≤ S8x50x64.size a
  k1_off77_inb : ∀ i : grid1.Coords, ∀ (r : Fin 8), ∀ a, (k1_off77 i (BitVec.ofNat 32 (120 + r.val))) a + S1x50x64.size a ≤ S4096x50x64.size a
  k1_t11_ok : k1_t11_loop.OK
  k1_off78_inb : ∀ k1_t11 : Fin k1_t11_loop.trips, ∀ a, (k1_off78 k1_t11) a + S1x1x16.size a ≤ S8x56x128.size a
  k1_off79_inb : ∀ k1_t11 : Fin k1_t11_loop.trips, ∀ a, (k1_off79 k1_t11) a + S1x1x16.size a ≤ S8x50x64.size a
  k1_off80_inb : ∀ k1_t11 : Fin k1_t11_loop.trips, ∀ a, (k1_off80 k1_t11) a + S1x1x16.size a ≤ S8x56x128.size a
  k1_off81_inb : ∀ k1_t11 : Fin k1_t11_loop.trips, ∀ a, (k1_off81 k1_t11) a + S1x1x16.size a ≤ S8x50x64.size a
  k1_off82_inb : ∀ k1_t11 : Fin k1_t11_loop.trips, ∀ a, (k1_off82 k1_t11) a + S1x1x16.size a ≤ S8x56x128.size a
  k1_off83_inb : ∀ k1_t11 : Fin k1_t11_loop.trips, ∀ a, (k1_off83 k1_t11) a + S1x1x16.size a ≤ S8x50x64.size a
  k1_off84_inb : ∀ k1_t11 : Fin k1_t11_loop.trips, ∀ a, (k1_off84 k1_t11) a + S1x1x16.size a ≤ S8x56x128.size a
  k1_off85_inb : ∀ k1_t11 : Fin k1_t11_loop.trips, ∀ a, (k1_off85 k1_t11) a + S1x1x16.size a ≤ S8x50x64.size a
  k1_t12_ok : k1_t12_loop.OK
  k1_off86_inb : ∀ k1_t12 : Fin k1_t12_loop.trips, ∀ a, (k1_off86 k1_t12) a + S1x1x16.size a ≤ S8x56x128.size a
  k1_off87_inb : ∀ k1_t12 : Fin k1_t12_loop.trips, ∀ a, (k1_off87 k1_t12) a + S1x1x16.size a ≤ S8x50x64.size a
  k1_off88_inb : ∀ k1_t12 : Fin k1_t12_loop.trips, ∀ a, (k1_off88 k1_t12) a + S1x1x16.size a ≤ S8x56x128.size a
  k1_off89_inb : ∀ k1_t12 : Fin k1_t12_loop.trips, ∀ a, (k1_off89 k1_t12) a + S1x1x16.size a ≤ S8x50x64.size a
  k1_off90_inb : ∀ k1_t12 : Fin k1_t12_loop.trips, ∀ a, (k1_off90 k1_t12) a + S1x1x16.size a ≤ S8x56x128.size a
  k1_off91_inb : ∀ k1_t12 : Fin k1_t12_loop.trips, ∀ a, (k1_off91 k1_t12) a + S1x1x16.size a ≤ S8x50x64.size a
  k1_off92_inb : ∀ k1_t12 : Fin k1_t12_loop.trips, ∀ a, (k1_off92 k1_t12) a + S1x1x16.size a ≤ S8x56x128.size a
  k1_off93_inb : ∀ k1_t12 : Fin k1_t12_loop.trips, ∀ a, (k1_off93 k1_t12) a + S1x1x16.size a ≤ S8x50x64.size a
  k1_t13_ok : k1_t13_loop.OK
  k1_off94_inb : ∀ k1_t13 : Fin k1_t13_loop.trips, ∀ a, (k1_off94 k1_t13) a + S1x1x16.size a ≤ S8x56x128.size a
  k1_off95_inb : ∀ k1_t13 : Fin k1_t13_loop.trips, ∀ a, (k1_off95 k1_t13) a + S1x1x16.size a ≤ S8x50x64.size a
  k1_off96_inb : ∀ k1_t13 : Fin k1_t13_loop.trips, ∀ a, (k1_off96 k1_t13) a + S1x1x16.size a ≤ S8x56x128.size a
  k1_off97_inb : ∀ k1_t13 : Fin k1_t13_loop.trips, ∀ a, (k1_off97 k1_t13) a + S1x1x16.size a ≤ S8x50x64.size a
  k1_off98_inb : ∀ k1_t13 : Fin k1_t13_loop.trips, ∀ a, (k1_off98 k1_t13) a + S1x1x16.size a ≤ S8x56x128.size a
  k1_off99_inb : ∀ k1_t13 : Fin k1_t13_loop.trips, ∀ a, (k1_off99 k1_t13) a + S1x1x16.size a ≤ S8x50x64.size a
  k1_off100_inb : ∀ k1_t13 : Fin k1_t13_loop.trips, ∀ a, (k1_off100 k1_t13) a + S1x1x16.size a ≤ S8x56x128.size a
  k1_off101_inb : ∀ k1_t13 : Fin k1_t13_loop.trips, ∀ a, (k1_off101 k1_t13) a + S1x1x16.size a ≤ S8x50x64.size a
  k1_t14_ok : k1_t14_loop.OK
  k1_off102_inb : ∀ k1_t14 : Fin k1_t14_loop.trips, ∀ a, (k1_off102 k1_t14) a + S1x1x16.size a ≤ S8x56x128.size a
  k1_off103_inb : ∀ k1_t14 : Fin k1_t14_loop.trips, ∀ a, (k1_off103 k1_t14) a + S1x1x16.size a ≤ S8x50x64.size a
  k1_off104_inb : ∀ k1_t14 : Fin k1_t14_loop.trips, ∀ a, (k1_off104 k1_t14) a + S1x1x16.size a ≤ S8x56x128.size a
  k1_off105_inb : ∀ k1_t14 : Fin k1_t14_loop.trips, ∀ a, (k1_off105 k1_t14) a + S1x1x16.size a ≤ S8x50x64.size a
  k1_off106_inb : ∀ k1_t14 : Fin k1_t14_loop.trips, ∀ a, (k1_off106 k1_t14) a + S1x1x16.size a ≤ S8x56x128.size a
  k1_off107_inb : ∀ k1_t14 : Fin k1_t14_loop.trips, ∀ a, (k1_off107 k1_t14) a + S1x1x16.size a ≤ S8x50x64.size a
  k1_off108_inb : ∀ k1_t14 : Fin k1_t14_loop.trips, ∀ a, (k1_off108 k1_t14) a + S1x1x16.size a ≤ S8x56x128.size a
  k1_off109_inb : ∀ k1_t14 : Fin k1_t14_loop.trips, ∀ a, (k1_off109 k1_t14) a + S1x1x16.size a ≤ S8x50x64.size a
  k1_t15_ok : k1_t15_loop.OK
  k1_off110_inb : ∀ k1_t15 : Fin k1_t15_loop.trips, ∀ a, (k1_off110 k1_t15) a + S1x1x16.size a ≤ S8x56x128.size a
  k1_off111_inb : ∀ k1_t15 : Fin k1_t15_loop.trips, ∀ a, (k1_off111 k1_t15) a + S1x1x16.size a ≤ S8x50x64.size a
  k1_off112_inb : ∀ k1_t15 : Fin k1_t15_loop.trips, ∀ a, (k1_off112 k1_t15) a + S1x1x16.size a ≤ S8x56x128.size a
  k1_off113_inb : ∀ k1_t15 : Fin k1_t15_loop.trips, ∀ a, (k1_off113 k1_t15) a + S1x1x16.size a ≤ S8x50x64.size a
  k1_off114_inb : ∀ k1_t15 : Fin k1_t15_loop.trips, ∀ a, (k1_off114 k1_t15) a + S1x1x16.size a ≤ S8x56x128.size a
  k1_off115_inb : ∀ k1_t15 : Fin k1_t15_loop.trips, ∀ a, (k1_off115 k1_t15) a + S1x1x16.size a ≤ S8x50x64.size a
  k1_off116_inb : ∀ k1_t15 : Fin k1_t15_loop.trips, ∀ a, (k1_off116 k1_t15) a + S1x1x16.size a ≤ S8x56x128.size a
  k1_off117_inb : ∀ k1_t15 : Fin k1_t15_loop.trips, ∀ a, (k1_off117 k1_t15) a + S1x1x16.size a ≤ S8x50x64.size a
  k1_t16_ok : k1_t16_loop.OK
  k1_off118_inb : ∀ k1_t16 : Fin k1_t16_loop.trips, ∀ a, (k1_off118 k1_t16) a + S1x1x16.size a ≤ S8x56x128.size a
  k1_off119_inb : ∀ k1_t16 : Fin k1_t16_loop.trips, ∀ a, (k1_off119 k1_t16) a + S1x1x16.size a ≤ S8x50x64.size a
  k1_off120_inb : ∀ k1_t16 : Fin k1_t16_loop.trips, ∀ a, (k1_off120 k1_t16) a + S1x1x16.size a ≤ S8x56x128.size a
  k1_off121_inb : ∀ k1_t16 : Fin k1_t16_loop.trips, ∀ a, (k1_off121 k1_t16) a + S1x1x16.size a ≤ S8x50x64.size a
  k1_off122_inb : ∀ k1_t16 : Fin k1_t16_loop.trips, ∀ a, (k1_off122 k1_t16) a + S1x1x16.size a ≤ S8x56x128.size a
  k1_off123_inb : ∀ k1_t16 : Fin k1_t16_loop.trips, ∀ a, (k1_off123 k1_t16) a + S1x1x16.size a ≤ S8x50x64.size a
  k1_off124_inb : ∀ k1_t16 : Fin k1_t16_loop.trips, ∀ a, (k1_off124 k1_t16) a + S1x1x16.size a ≤ S8x56x128.size a
  k1_off125_inb : ∀ k1_t16 : Fin k1_t16_loop.trips, ∀ a, (k1_off125 k1_t16) a + S1x1x16.size a ≤ S8x50x64.size a
  k1_t17_ok : k1_t17_loop.OK
  k1_off126_inb : ∀ k1_t17 : Fin k1_t17_loop.trips, ∀ a, (k1_off126 k1_t17) a + S1x1x16.size a ≤ S8x56x128.size a
  k1_off127_inb : ∀ k1_t17 : Fin k1_t17_loop.trips, ∀ a, (k1_off127 k1_t17) a + S1x1x16.size a ≤ S8x50x64.size a
  k1_off128_inb : ∀ k1_t17 : Fin k1_t17_loop.trips, ∀ a, (k1_off128 k1_t17) a + S1x1x16.size a ≤ S8x56x128.size a
  k1_off129_inb : ∀ k1_t17 : Fin k1_t17_loop.trips, ∀ a, (k1_off129 k1_t17) a + S1x1x16.size a ≤ S8x50x64.size a
  k1_off130_inb : ∀ k1_t17 : Fin k1_t17_loop.trips, ∀ a, (k1_off130 k1_t17) a + S1x1x16.size a ≤ S8x56x128.size a
  k1_off131_inb : ∀ k1_t17 : Fin k1_t17_loop.trips, ∀ a, (k1_off131 k1_t17) a + S1x1x16.size a ≤ S8x50x64.size a
  k1_off132_inb : ∀ k1_t17 : Fin k1_t17_loop.trips, ∀ a, (k1_off132 k1_t17) a + S1x1x16.size a ≤ S8x56x128.size a
  k1_off133_inb : ∀ k1_t17 : Fin k1_t17_loop.trips, ∀ a, (k1_off133 k1_t17) a + S1x1x16.size a ≤ S8x50x64.size a
  hcore2 : grid2.bound 0 ≤ τ.nSC
  hsub2 : grid2.bound 1 ≤ τ.nSub
  k2_off1_inb : ∀ i : grid2.Coords, ∀ a, (k2_off1 i) a + S128x50.size a ≤ S16384x50.size a
  k2_t1_ok : k2_t1_loop.OK
  k2_off2_inb : ∀ k2_t1 : Fin k2_t1_loop.trips, ∀ (r : Fin 8), ∀ a, (k2_off2 k2_t1 (BitVec.ofNat 32 r.val)) a + S1x50.size a ≤ S128x50.size a
  k2_t2_ok : k2_t2_loop.OK
  k2_off3_inb : ∀ k2_t2 : Fin k2_t2_loop.trips, ∀ a, (k2_off3 k2_t2) a + S1x1x16.size a ≤ S8x56x128.size a
  k2_off4_inb : ∀ k2_t2 : Fin k2_t2_loop.trips, ∀ a, (k2_off4 k2_t2) a + S1x1x16.size a ≤ S8x50x64.size a
  k2_off5_inb : ∀ k2_t2 : Fin k2_t2_loop.trips, ∀ a, (k2_off5 k2_t2) a + S1x1x16.size a ≤ S8x56x128.size a
  k2_off6_inb : ∀ k2_t2 : Fin k2_t2_loop.trips, ∀ a, (k2_off6 k2_t2) a + S1x1x16.size a ≤ S8x50x64.size a
  k2_off7_inb : ∀ k2_t2 : Fin k2_t2_loop.trips, ∀ a, (k2_off7 k2_t2) a + S1x1x16.size a ≤ S8x56x128.size a
  k2_off8_inb : ∀ k2_t2 : Fin k2_t2_loop.trips, ∀ a, (k2_off8 k2_t2) a + S1x1x16.size a ≤ S8x50x64.size a
  k2_off9_inb : ∀ k2_t2 : Fin k2_t2_loop.trips, ∀ a, (k2_off9 k2_t2) a + S1x1x16.size a ≤ S8x56x128.size a
  k2_off10_inb : ∀ k2_t2 : Fin k2_t2_loop.trips, ∀ a, (k2_off10 k2_t2) a + S1x1x16.size a ≤ S8x50x64.size a
  k2_off11_inb : ∀ (i : grid2.Coords) (k2_t1 : Fin k2_t1_loop.trips), ∀ (r : Fin 8), ∀ a, (k2_off11 i k2_t1 (BitVec.ofNat 32 r.val)) a + S1x50x64.size a ≤ S4096x50x64.size a
  k2_t3_ok : k2_t3_loop.OK
  k2_off12_inb : ∀ k2_t3 : Fin k2_t3_loop.trips, ∀ a, (k2_off12 k2_t3) a + S1x1x16.size a ≤ S8x56x128.size a
  k2_off13_inb : ∀ k2_t3 : Fin k2_t3_loop.trips, ∀ a, (k2_off13 k2_t3) a + S1x1x16.size a ≤ S8x50x64.size a
  k2_off14_inb : ∀ k2_t3 : Fin k2_t3_loop.trips, ∀ a, (k2_off14 k2_t3) a + S1x1x16.size a ≤ S8x56x128.size a
  k2_off15_inb : ∀ k2_t3 : Fin k2_t3_loop.trips, ∀ a, (k2_off15 k2_t3) a + S1x1x16.size a ≤ S8x50x64.size a
  k2_off16_inb : ∀ k2_t3 : Fin k2_t3_loop.trips, ∀ a, (k2_off16 k2_t3) a + S1x1x16.size a ≤ S8x56x128.size a
  k2_off17_inb : ∀ k2_t3 : Fin k2_t3_loop.trips, ∀ a, (k2_off17 k2_t3) a + S1x1x16.size a ≤ S8x50x64.size a
  k2_off18_inb : ∀ k2_t3 : Fin k2_t3_loop.trips, ∀ a, (k2_off18 k2_t3) a + S1x1x16.size a ≤ S8x56x128.size a
  k2_off19_inb : ∀ k2_t3 : Fin k2_t3_loop.trips, ∀ a, (k2_off19 k2_t3) a + S1x1x16.size a ≤ S8x50x64.size a
  k2_t4_ok : k2_t4_loop.OK
  k2_off20_inb : ∀ k2_t4 : Fin k2_t4_loop.trips, ∀ a, (k2_off20 k2_t4) a + S1x1x16.size a ≤ S8x56x128.size a
  k2_off21_inb : ∀ k2_t4 : Fin k2_t4_loop.trips, ∀ a, (k2_off21 k2_t4) a + S1x1x16.size a ≤ S8x50x64.size a
  k2_off22_inb : ∀ k2_t4 : Fin k2_t4_loop.trips, ∀ a, (k2_off22 k2_t4) a + S1x1x16.size a ≤ S8x56x128.size a
  k2_off23_inb : ∀ k2_t4 : Fin k2_t4_loop.trips, ∀ a, (k2_off23 k2_t4) a + S1x1x16.size a ≤ S8x50x64.size a
  k2_off24_inb : ∀ k2_t4 : Fin k2_t4_loop.trips, ∀ a, (k2_off24 k2_t4) a + S1x1x16.size a ≤ S8x56x128.size a
  k2_off25_inb : ∀ k2_t4 : Fin k2_t4_loop.trips, ∀ a, (k2_off25 k2_t4) a + S1x1x16.size a ≤ S8x50x64.size a
  k2_off26_inb : ∀ k2_t4 : Fin k2_t4_loop.trips, ∀ a, (k2_off26 k2_t4) a + S1x1x16.size a ≤ S8x56x128.size a
  k2_off27_inb : ∀ k2_t4 : Fin k2_t4_loop.trips, ∀ a, (k2_off27 k2_t4) a + S1x1x16.size a ≤ S8x50x64.size a
  k2_t5_ok : k2_t5_loop.OK
  k2_off28_inb : ∀ k2_t5 : Fin k2_t5_loop.trips, ∀ a, (k2_off28 k2_t5) a + S1x1x16.size a ≤ S8x56x128.size a
  k2_off29_inb : ∀ k2_t5 : Fin k2_t5_loop.trips, ∀ a, (k2_off29 k2_t5) a + S1x1x16.size a ≤ S8x50x64.size a
  k2_off30_inb : ∀ k2_t5 : Fin k2_t5_loop.trips, ∀ a, (k2_off30 k2_t5) a + S1x1x16.size a ≤ S8x56x128.size a
  k2_off31_inb : ∀ k2_t5 : Fin k2_t5_loop.trips, ∀ a, (k2_off31 k2_t5) a + S1x1x16.size a ≤ S8x50x64.size a
  k2_off32_inb : ∀ k2_t5 : Fin k2_t5_loop.trips, ∀ a, (k2_off32 k2_t5) a + S1x1x16.size a ≤ S8x56x128.size a
  k2_off33_inb : ∀ k2_t5 : Fin k2_t5_loop.trips, ∀ a, (k2_off33 k2_t5) a + S1x1x16.size a ≤ S8x50x64.size a
  k2_off34_inb : ∀ k2_t5 : Fin k2_t5_loop.trips, ∀ a, (k2_off34 k2_t5) a + S1x1x16.size a ≤ S8x56x128.size a
  k2_off35_inb : ∀ k2_t5 : Fin k2_t5_loop.trips, ∀ a, (k2_off35 k2_t5) a + S1x1x16.size a ≤ S8x50x64.size a
  k2_t6_ok : k2_t6_loop.OK
  k2_off36_inb : ∀ k2_t6 : Fin k2_t6_loop.trips, ∀ a, (k2_off36 k2_t6) a + S1x1x16.size a ≤ S8x56x128.size a
  k2_off37_inb : ∀ k2_t6 : Fin k2_t6_loop.trips, ∀ a, (k2_off37 k2_t6) a + S1x1x16.size a ≤ S8x50x64.size a
  k2_off38_inb : ∀ k2_t6 : Fin k2_t6_loop.trips, ∀ a, (k2_off38 k2_t6) a + S1x1x16.size a ≤ S8x56x128.size a
  k2_off39_inb : ∀ k2_t6 : Fin k2_t6_loop.trips, ∀ a, (k2_off39 k2_t6) a + S1x1x16.size a ≤ S8x50x64.size a
  k2_off40_inb : ∀ k2_t6 : Fin k2_t6_loop.trips, ∀ a, (k2_off40 k2_t6) a + S1x1x16.size a ≤ S8x56x128.size a
  k2_off41_inb : ∀ k2_t6 : Fin k2_t6_loop.trips, ∀ a, (k2_off41 k2_t6) a + S1x1x16.size a ≤ S8x50x64.size a
  k2_off42_inb : ∀ k2_t6 : Fin k2_t6_loop.trips, ∀ a, (k2_off42 k2_t6) a + S1x1x16.size a ≤ S8x56x128.size a
  k2_off43_inb : ∀ k2_t6 : Fin k2_t6_loop.trips, ∀ a, (k2_off43 k2_t6) a + S1x1x16.size a ≤ S8x50x64.size a
  k2_t7_ok : k2_t7_loop.OK
  k2_off44_inb : ∀ k2_t7 : Fin k2_t7_loop.trips, ∀ a, (k2_off44 k2_t7) a + S1x1x16.size a ≤ S8x56x128.size a
  k2_off45_inb : ∀ k2_t7 : Fin k2_t7_loop.trips, ∀ a, (k2_off45 k2_t7) a + S1x1x16.size a ≤ S8x50x64.size a
  k2_off46_inb : ∀ k2_t7 : Fin k2_t7_loop.trips, ∀ a, (k2_off46 k2_t7) a + S1x1x16.size a ≤ S8x56x128.size a
  k2_off47_inb : ∀ k2_t7 : Fin k2_t7_loop.trips, ∀ a, (k2_off47 k2_t7) a + S1x1x16.size a ≤ S8x50x64.size a
  k2_off48_inb : ∀ k2_t7 : Fin k2_t7_loop.trips, ∀ a, (k2_off48 k2_t7) a + S1x1x16.size a ≤ S8x56x128.size a
  k2_off49_inb : ∀ k2_t7 : Fin k2_t7_loop.trips, ∀ a, (k2_off49 k2_t7) a + S1x1x16.size a ≤ S8x50x64.size a
  k2_off50_inb : ∀ k2_t7 : Fin k2_t7_loop.trips, ∀ a, (k2_off50 k2_t7) a + S1x1x16.size a ≤ S8x56x128.size a
  k2_off51_inb : ∀ k2_t7 : Fin k2_t7_loop.trips, ∀ a, (k2_off51 k2_t7) a + S1x1x16.size a ≤ S8x50x64.size a
  k2_t8_ok : k2_t8_loop.OK
  k2_off52_inb : ∀ k2_t8 : Fin k2_t8_loop.trips, ∀ a, (k2_off52 k2_t8) a + S1x1x16.size a ≤ S8x56x128.size a
  k2_off53_inb : ∀ k2_t8 : Fin k2_t8_loop.trips, ∀ a, (k2_off53 k2_t8) a + S1x1x16.size a ≤ S8x50x64.size a
  k2_off54_inb : ∀ k2_t8 : Fin k2_t8_loop.trips, ∀ a, (k2_off54 k2_t8) a + S1x1x16.size a ≤ S8x56x128.size a
  k2_off55_inb : ∀ k2_t8 : Fin k2_t8_loop.trips, ∀ a, (k2_off55 k2_t8) a + S1x1x16.size a ≤ S8x50x64.size a
  k2_off56_inb : ∀ k2_t8 : Fin k2_t8_loop.trips, ∀ a, (k2_off56 k2_t8) a + S1x1x16.size a ≤ S8x56x128.size a
  k2_off57_inb : ∀ k2_t8 : Fin k2_t8_loop.trips, ∀ a, (k2_off57 k2_t8) a + S1x1x16.size a ≤ S8x50x64.size a
  k2_off58_inb : ∀ k2_t8 : Fin k2_t8_loop.trips, ∀ a, (k2_off58 k2_t8) a + S1x1x16.size a ≤ S8x56x128.size a
  k2_off59_inb : ∀ k2_t8 : Fin k2_t8_loop.trips, ∀ a, (k2_off59 k2_t8) a + S1x1x16.size a ≤ S8x50x64.size a
  k2_t9_ok : k2_t9_loop.OK
  k2_off60_inb : ∀ k2_t9 : Fin k2_t9_loop.trips, ∀ a, (k2_off60 k2_t9) a + S1x1x16.size a ≤ S8x56x128.size a
  k2_off61_inb : ∀ k2_t9 : Fin k2_t9_loop.trips, ∀ a, (k2_off61 k2_t9) a + S1x1x16.size a ≤ S8x50x64.size a
  k2_off62_inb : ∀ k2_t9 : Fin k2_t9_loop.trips, ∀ a, (k2_off62 k2_t9) a + S1x1x16.size a ≤ S8x56x128.size a
  k2_off63_inb : ∀ k2_t9 : Fin k2_t9_loop.trips, ∀ a, (k2_off63 k2_t9) a + S1x1x16.size a ≤ S8x50x64.size a
  k2_off64_inb : ∀ k2_t9 : Fin k2_t9_loop.trips, ∀ a, (k2_off64 k2_t9) a + S1x1x16.size a ≤ S8x56x128.size a
  k2_off65_inb : ∀ k2_t9 : Fin k2_t9_loop.trips, ∀ a, (k2_off65 k2_t9) a + S1x1x16.size a ≤ S8x50x64.size a
  k2_off66_inb : ∀ k2_t9 : Fin k2_t9_loop.trips, ∀ a, (k2_off66 k2_t9) a + S1x1x16.size a ≤ S8x56x128.size a
  k2_off67_inb : ∀ k2_t9 : Fin k2_t9_loop.trips, ∀ a, (k2_off67 k2_t9) a + S1x1x16.size a ≤ S8x50x64.size a
  k2_off68_inb : ∀ k2_t1 : Fin k2_t1_loop.trips, ∀ (r : Fin 8), ∀ a, (k2_off68 k2_t1 (BitVec.ofNat 32 r.val)) a + S1x50.size a ≤ S128x50.size a
  k2_t10_ok : k2_t10_loop.OK
  k2_off69_inb : ∀ k2_t10 : Fin k2_t10_loop.trips, ∀ a, (k2_off69 k2_t10) a + S1x1x16.size a ≤ S8x56x128.size a
  k2_off70_inb : ∀ k2_t10 : Fin k2_t10_loop.trips, ∀ a, (k2_off70 k2_t10) a + S1x1x16.size a ≤ S8x50x64.size a
  k2_off71_inb : ∀ k2_t10 : Fin k2_t10_loop.trips, ∀ a, (k2_off71 k2_t10) a + S1x1x16.size a ≤ S8x56x128.size a
  k2_off72_inb : ∀ k2_t10 : Fin k2_t10_loop.trips, ∀ a, (k2_off72 k2_t10) a + S1x1x16.size a ≤ S8x50x64.size a
  k2_off73_inb : ∀ k2_t10 : Fin k2_t10_loop.trips, ∀ a, (k2_off73 k2_t10) a + S1x1x16.size a ≤ S8x56x128.size a
  k2_off74_inb : ∀ k2_t10 : Fin k2_t10_loop.trips, ∀ a, (k2_off74 k2_t10) a + S1x1x16.size a ≤ S8x50x64.size a
  k2_off75_inb : ∀ k2_t10 : Fin k2_t10_loop.trips, ∀ a, (k2_off75 k2_t10) a + S1x1x16.size a ≤ S8x56x128.size a
  k2_off76_inb : ∀ k2_t10 : Fin k2_t10_loop.trips, ∀ a, (k2_off76 k2_t10) a + S1x1x16.size a ≤ S8x50x64.size a
  k2_off77_inb : ∀ i : grid2.Coords, ∀ (r : Fin 8), ∀ a, (k2_off77 i (BitVec.ofNat 32 (120 + r.val))) a + S1x50x64.size a ≤ S4096x50x64.size a
  k2_t11_ok : k2_t11_loop.OK
  k2_off78_inb : ∀ k2_t11 : Fin k2_t11_loop.trips, ∀ a, (k2_off78 k2_t11) a + S1x1x16.size a ≤ S8x56x128.size a
  k2_off79_inb : ∀ k2_t11 : Fin k2_t11_loop.trips, ∀ a, (k2_off79 k2_t11) a + S1x1x16.size a ≤ S8x50x64.size a
  k2_off80_inb : ∀ k2_t11 : Fin k2_t11_loop.trips, ∀ a, (k2_off80 k2_t11) a + S1x1x16.size a ≤ S8x56x128.size a
  k2_off81_inb : ∀ k2_t11 : Fin k2_t11_loop.trips, ∀ a, (k2_off81 k2_t11) a + S1x1x16.size a ≤ S8x50x64.size a
  k2_off82_inb : ∀ k2_t11 : Fin k2_t11_loop.trips, ∀ a, (k2_off82 k2_t11) a + S1x1x16.size a ≤ S8x56x128.size a
  k2_off83_inb : ∀ k2_t11 : Fin k2_t11_loop.trips, ∀ a, (k2_off83 k2_t11) a + S1x1x16.size a ≤ S8x50x64.size a
  k2_off84_inb : ∀ k2_t11 : Fin k2_t11_loop.trips, ∀ a, (k2_off84 k2_t11) a + S1x1x16.size a ≤ S8x56x128.size a
  k2_off85_inb : ∀ k2_t11 : Fin k2_t11_loop.trips, ∀ a, (k2_off85 k2_t11) a + S1x1x16.size a ≤ S8x50x64.size a
  k2_t12_ok : k2_t12_loop.OK
  k2_off86_inb : ∀ k2_t12 : Fin k2_t12_loop.trips, ∀ a, (k2_off86 k2_t12) a + S1x1x16.size a ≤ S8x56x128.size a
  k2_off87_inb : ∀ k2_t12 : Fin k2_t12_loop.trips, ∀ a, (k2_off87 k2_t12) a + S1x1x16.size a ≤ S8x50x64.size a
  k2_off88_inb : ∀ k2_t12 : Fin k2_t12_loop.trips, ∀ a, (k2_off88 k2_t12) a + S1x1x16.size a ≤ S8x56x128.size a
  k2_off89_inb : ∀ k2_t12 : Fin k2_t12_loop.trips, ∀ a, (k2_off89 k2_t12) a + S1x1x16.size a ≤ S8x50x64.size a
  k2_off90_inb : ∀ k2_t12 : Fin k2_t12_loop.trips, ∀ a, (k2_off90 k2_t12) a + S1x1x16.size a ≤ S8x56x128.size a
  k2_off91_inb : ∀ k2_t12 : Fin k2_t12_loop.trips, ∀ a, (k2_off91 k2_t12) a + S1x1x16.size a ≤ S8x50x64.size a
  k2_off92_inb : ∀ k2_t12 : Fin k2_t12_loop.trips, ∀ a, (k2_off92 k2_t12) a + S1x1x16.size a ≤ S8x56x128.size a
  k2_off93_inb : ∀ k2_t12 : Fin k2_t12_loop.trips, ∀ a, (k2_off93 k2_t12) a + S1x1x16.size a ≤ S8x50x64.size a
  k2_t13_ok : k2_t13_loop.OK
  k2_off94_inb : ∀ k2_t13 : Fin k2_t13_loop.trips, ∀ a, (k2_off94 k2_t13) a + S1x1x16.size a ≤ S8x56x128.size a
  k2_off95_inb : ∀ k2_t13 : Fin k2_t13_loop.trips, ∀ a, (k2_off95 k2_t13) a + S1x1x16.size a ≤ S8x50x64.size a
  k2_off96_inb : ∀ k2_t13 : Fin k2_t13_loop.trips, ∀ a, (k2_off96 k2_t13) a + S1x1x16.size a ≤ S8x56x128.size a
  k2_off97_inb : ∀ k2_t13 : Fin k2_t13_loop.trips, ∀ a, (k2_off97 k2_t13) a + S1x1x16.size a ≤ S8x50x64.size a
  k2_off98_inb : ∀ k2_t13 : Fin k2_t13_loop.trips, ∀ a, (k2_off98 k2_t13) a + S1x1x16.size a ≤ S8x56x128.size a
  k2_off99_inb : ∀ k2_t13 : Fin k2_t13_loop.trips, ∀ a, (k2_off99 k2_t13) a + S1x1x16.size a ≤ S8x50x64.size a
  k2_off100_inb : ∀ k2_t13 : Fin k2_t13_loop.trips, ∀ a, (k2_off100 k2_t13) a + S1x1x16.size a ≤ S8x56x128.size a
  k2_off101_inb : ∀ k2_t13 : Fin k2_t13_loop.trips, ∀ a, (k2_off101 k2_t13) a + S1x1x16.size a ≤ S8x50x64.size a
  k2_t14_ok : k2_t14_loop.OK
  k2_off102_inb : ∀ k2_t14 : Fin k2_t14_loop.trips, ∀ a, (k2_off102 k2_t14) a + S1x1x16.size a ≤ S8x56x128.size a
  k2_off103_inb : ∀ k2_t14 : Fin k2_t14_loop.trips, ∀ a, (k2_off103 k2_t14) a + S1x1x16.size a ≤ S8x50x64.size a
  k2_off104_inb : ∀ k2_t14 : Fin k2_t14_loop.trips, ∀ a, (k2_off104 k2_t14) a + S1x1x16.size a ≤ S8x56x128.size a
  k2_off105_inb : ∀ k2_t14 : Fin k2_t14_loop.trips, ∀ a, (k2_off105 k2_t14) a + S1x1x16.size a ≤ S8x50x64.size a
  k2_off106_inb : ∀ k2_t14 : Fin k2_t14_loop.trips, ∀ a, (k2_off106 k2_t14) a + S1x1x16.size a ≤ S8x56x128.size a
  k2_off107_inb : ∀ k2_t14 : Fin k2_t14_loop.trips, ∀ a, (k2_off107 k2_t14) a + S1x1x16.size a ≤ S8x50x64.size a
  k2_off108_inb : ∀ k2_t14 : Fin k2_t14_loop.trips, ∀ a, (k2_off108 k2_t14) a + S1x1x16.size a ≤ S8x56x128.size a
  k2_off109_inb : ∀ k2_t14 : Fin k2_t14_loop.trips, ∀ a, (k2_off109 k2_t14) a + S1x1x16.size a ≤ S8x50x64.size a
  k2_t15_ok : k2_t15_loop.OK
  k2_off110_inb : ∀ k2_t15 : Fin k2_t15_loop.trips, ∀ a, (k2_off110 k2_t15) a + S1x1x16.size a ≤ S8x56x128.size a
  k2_off111_inb : ∀ k2_t15 : Fin k2_t15_loop.trips, ∀ a, (k2_off111 k2_t15) a + S1x1x16.size a ≤ S8x50x64.size a
  k2_off112_inb : ∀ k2_t15 : Fin k2_t15_loop.trips, ∀ a, (k2_off112 k2_t15) a + S1x1x16.size a ≤ S8x56x128.size a
  k2_off113_inb : ∀ k2_t15 : Fin k2_t15_loop.trips, ∀ a, (k2_off113 k2_t15) a + S1x1x16.size a ≤ S8x50x64.size a
  k2_off114_inb : ∀ k2_t15 : Fin k2_t15_loop.trips, ∀ a, (k2_off114 k2_t15) a + S1x1x16.size a ≤ S8x56x128.size a
  k2_off115_inb : ∀ k2_t15 : Fin k2_t15_loop.trips, ∀ a, (k2_off115 k2_t15) a + S1x1x16.size a ≤ S8x50x64.size a
  k2_off116_inb : ∀ k2_t15 : Fin k2_t15_loop.trips, ∀ a, (k2_off116 k2_t15) a + S1x1x16.size a ≤ S8x56x128.size a
  k2_off117_inb : ∀ k2_t15 : Fin k2_t15_loop.trips, ∀ a, (k2_off117 k2_t15) a + S1x1x16.size a ≤ S8x50x64.size a
  k2_t16_ok : k2_t16_loop.OK
  k2_off118_inb : ∀ k2_t16 : Fin k2_t16_loop.trips, ∀ a, (k2_off118 k2_t16) a + S1x1x16.size a ≤ S8x56x128.size a
  k2_off119_inb : ∀ k2_t16 : Fin k2_t16_loop.trips, ∀ a, (k2_off119 k2_t16) a + S1x1x16.size a ≤ S8x50x64.size a
  k2_off120_inb : ∀ k2_t16 : Fin k2_t16_loop.trips, ∀ a, (k2_off120 k2_t16) a + S1x1x16.size a ≤ S8x56x128.size a
  k2_off121_inb : ∀ k2_t16 : Fin k2_t16_loop.trips, ∀ a, (k2_off121 k2_t16) a + S1x1x16.size a ≤ S8x50x64.size a
  k2_off122_inb : ∀ k2_t16 : Fin k2_t16_loop.trips, ∀ a, (k2_off122 k2_t16) a + S1x1x16.size a ≤ S8x56x128.size a
  k2_off123_inb : ∀ k2_t16 : Fin k2_t16_loop.trips, ∀ a, (k2_off123 k2_t16) a + S1x1x16.size a ≤ S8x50x64.size a
  k2_off124_inb : ∀ k2_t16 : Fin k2_t16_loop.trips, ∀ a, (k2_off124 k2_t16) a + S1x1x16.size a ≤ S8x56x128.size a
  k2_off125_inb : ∀ k2_t16 : Fin k2_t16_loop.trips, ∀ a, (k2_off125 k2_t16) a + S1x1x16.size a ≤ S8x50x64.size a
  k2_t17_ok : k2_t17_loop.OK
  k2_off126_inb : ∀ k2_t17 : Fin k2_t17_loop.trips, ∀ a, (k2_off126 k2_t17) a + S1x1x16.size a ≤ S8x56x128.size a
  k2_off127_inb : ∀ k2_t17 : Fin k2_t17_loop.trips, ∀ a, (k2_off127 k2_t17) a + S1x1x16.size a ≤ S8x50x64.size a
  k2_off128_inb : ∀ k2_t17 : Fin k2_t17_loop.trips, ∀ a, (k2_off128 k2_t17) a + S1x1x16.size a ≤ S8x56x128.size a
  k2_off129_inb : ∀ k2_t17 : Fin k2_t17_loop.trips, ∀ a, (k2_off129 k2_t17) a + S1x1x16.size a ≤ S8x50x64.size a
  k2_off130_inb : ∀ k2_t17 : Fin k2_t17_loop.trips, ∀ a, (k2_off130 k2_t17) a + S1x1x16.size a ≤ S8x56x128.size a
  k2_off131_inb : ∀ k2_t17 : Fin k2_t17_loop.trips, ∀ a, (k2_off131 k2_t17) a + S1x1x16.size a ≤ S8x50x64.size a
  k2_off132_inb : ∀ k2_t17 : Fin k2_t17_loop.trips, ∀ a, (k2_off132 k2_t17) a + S1x1x16.size a ≤ S8x56x128.size a
  k2_off133_inb : ∀ k2_t17 : Fin k2_t17_loop.trips, ∀ a, (k2_off133 k2_t17) a + S1x1x16.size a ≤ S8x50x64.size a
  hcore3 : grid3.bound 0 ≤ τ.nSC
  hsub3 : grid3.bound 1 ≤ τ.nSub
  k3_off1_inb : ∀ i : grid3.Coords, ∀ a, (k3_off1 i) a + S128x50.size a ≤ S16384x50.size a
  k3_t1_ok : k3_t1_loop.OK
  k3_off2_inb : ∀ k3_t1 : Fin k3_t1_loop.trips, ∀ (r : Fin 8), ∀ a, (k3_off2 k3_t1 (BitVec.ofNat 32 r.val)) a + S1x50.size a ≤ S128x50.size a
  k3_t2_ok : k3_t2_loop.OK
  k3_off3_inb : ∀ k3_t2 : Fin k3_t2_loop.trips, ∀ a, (k3_off3 k3_t2) a + S1x1x16.size a ≤ S8x56x128.size a
  k3_off4_inb : ∀ k3_t2 : Fin k3_t2_loop.trips, ∀ a, (k3_off4 k3_t2) a + S1x1x16.size a ≤ S8x50x64.size a
  k3_off5_inb : ∀ k3_t2 : Fin k3_t2_loop.trips, ∀ a, (k3_off5 k3_t2) a + S1x1x16.size a ≤ S8x56x128.size a
  k3_off6_inb : ∀ k3_t2 : Fin k3_t2_loop.trips, ∀ a, (k3_off6 k3_t2) a + S1x1x16.size a ≤ S8x50x64.size a
  k3_off7_inb : ∀ k3_t2 : Fin k3_t2_loop.trips, ∀ a, (k3_off7 k3_t2) a + S1x1x16.size a ≤ S8x56x128.size a
  k3_off8_inb : ∀ k3_t2 : Fin k3_t2_loop.trips, ∀ a, (k3_off8 k3_t2) a + S1x1x16.size a ≤ S8x50x64.size a
  k3_off9_inb : ∀ k3_t2 : Fin k3_t2_loop.trips, ∀ a, (k3_off9 k3_t2) a + S1x1x16.size a ≤ S8x56x128.size a
  k3_off10_inb : ∀ k3_t2 : Fin k3_t2_loop.trips, ∀ a, (k3_off10 k3_t2) a + S1x1x16.size a ≤ S8x50x64.size a
  k3_off11_inb : ∀ (i : grid3.Coords) (k3_t1 : Fin k3_t1_loop.trips), ∀ (r : Fin 8), ∀ a, (k3_off11 i k3_t1 (BitVec.ofNat 32 r.val)) a + S1x50x64.size a ≤ S4096x50x64.size a
  k3_t3_ok : k3_t3_loop.OK
  k3_off12_inb : ∀ k3_t3 : Fin k3_t3_loop.trips, ∀ a, (k3_off12 k3_t3) a + S1x1x16.size a ≤ S8x56x128.size a
  k3_off13_inb : ∀ k3_t3 : Fin k3_t3_loop.trips, ∀ a, (k3_off13 k3_t3) a + S1x1x16.size a ≤ S8x50x64.size a
  k3_off14_inb : ∀ k3_t3 : Fin k3_t3_loop.trips, ∀ a, (k3_off14 k3_t3) a + S1x1x16.size a ≤ S8x56x128.size a
  k3_off15_inb : ∀ k3_t3 : Fin k3_t3_loop.trips, ∀ a, (k3_off15 k3_t3) a + S1x1x16.size a ≤ S8x50x64.size a
  k3_off16_inb : ∀ k3_t3 : Fin k3_t3_loop.trips, ∀ a, (k3_off16 k3_t3) a + S1x1x16.size a ≤ S8x56x128.size a
  k3_off17_inb : ∀ k3_t3 : Fin k3_t3_loop.trips, ∀ a, (k3_off17 k3_t3) a + S1x1x16.size a ≤ S8x50x64.size a
  k3_off18_inb : ∀ k3_t3 : Fin k3_t3_loop.trips, ∀ a, (k3_off18 k3_t3) a + S1x1x16.size a ≤ S8x56x128.size a
  k3_off19_inb : ∀ k3_t3 : Fin k3_t3_loop.trips, ∀ a, (k3_off19 k3_t3) a + S1x1x16.size a ≤ S8x50x64.size a
  k3_t4_ok : k3_t4_loop.OK
  k3_off20_inb : ∀ k3_t4 : Fin k3_t4_loop.trips, ∀ a, (k3_off20 k3_t4) a + S1x1x16.size a ≤ S8x56x128.size a
  k3_off21_inb : ∀ k3_t4 : Fin k3_t4_loop.trips, ∀ a, (k3_off21 k3_t4) a + S1x1x16.size a ≤ S8x50x64.size a
  k3_off22_inb : ∀ k3_t4 : Fin k3_t4_loop.trips, ∀ a, (k3_off22 k3_t4) a + S1x1x16.size a ≤ S8x56x128.size a
  k3_off23_inb : ∀ k3_t4 : Fin k3_t4_loop.trips, ∀ a, (k3_off23 k3_t4) a + S1x1x16.size a ≤ S8x50x64.size a
  k3_off24_inb : ∀ k3_t4 : Fin k3_t4_loop.trips, ∀ a, (k3_off24 k3_t4) a + S1x1x16.size a ≤ S8x56x128.size a
  k3_off25_inb : ∀ k3_t4 : Fin k3_t4_loop.trips, ∀ a, (k3_off25 k3_t4) a + S1x1x16.size a ≤ S8x50x64.size a
  k3_off26_inb : ∀ k3_t4 : Fin k3_t4_loop.trips, ∀ a, (k3_off26 k3_t4) a + S1x1x16.size a ≤ S8x56x128.size a
  k3_off27_inb : ∀ k3_t4 : Fin k3_t4_loop.trips, ∀ a, (k3_off27 k3_t4) a + S1x1x16.size a ≤ S8x50x64.size a
  k3_t5_ok : k3_t5_loop.OK
  k3_off28_inb : ∀ k3_t5 : Fin k3_t5_loop.trips, ∀ a, (k3_off28 k3_t5) a + S1x1x16.size a ≤ S8x56x128.size a
  k3_off29_inb : ∀ k3_t5 : Fin k3_t5_loop.trips, ∀ a, (k3_off29 k3_t5) a + S1x1x16.size a ≤ S8x50x64.size a
  k3_off30_inb : ∀ k3_t5 : Fin k3_t5_loop.trips, ∀ a, (k3_off30 k3_t5) a + S1x1x16.size a ≤ S8x56x128.size a
  k3_off31_inb : ∀ k3_t5 : Fin k3_t5_loop.trips, ∀ a, (k3_off31 k3_t5) a + S1x1x16.size a ≤ S8x50x64.size a
  k3_off32_inb : ∀ k3_t5 : Fin k3_t5_loop.trips, ∀ a, (k3_off32 k3_t5) a + S1x1x16.size a ≤ S8x56x128.size a
  k3_off33_inb : ∀ k3_t5 : Fin k3_t5_loop.trips, ∀ a, (k3_off33 k3_t5) a + S1x1x16.size a ≤ S8x50x64.size a
  k3_off34_inb : ∀ k3_t5 : Fin k3_t5_loop.trips, ∀ a, (k3_off34 k3_t5) a + S1x1x16.size a ≤ S8x56x128.size a
  k3_off35_inb : ∀ k3_t5 : Fin k3_t5_loop.trips, ∀ a, (k3_off35 k3_t5) a + S1x1x16.size a ≤ S8x50x64.size a
  k3_t6_ok : k3_t6_loop.OK
  k3_off36_inb : ∀ k3_t6 : Fin k3_t6_loop.trips, ∀ a, (k3_off36 k3_t6) a + S1x1x16.size a ≤ S8x56x128.size a
  k3_off37_inb : ∀ k3_t6 : Fin k3_t6_loop.trips, ∀ a, (k3_off37 k3_t6) a + S1x1x16.size a ≤ S8x50x64.size a
  k3_off38_inb : ∀ k3_t6 : Fin k3_t6_loop.trips, ∀ a, (k3_off38 k3_t6) a + S1x1x16.size a ≤ S8x56x128.size a
  k3_off39_inb : ∀ k3_t6 : Fin k3_t6_loop.trips, ∀ a, (k3_off39 k3_t6) a + S1x1x16.size a ≤ S8x50x64.size a
  k3_off40_inb : ∀ k3_t6 : Fin k3_t6_loop.trips, ∀ a, (k3_off40 k3_t6) a + S1x1x16.size a ≤ S8x56x128.size a
  k3_off41_inb : ∀ k3_t6 : Fin k3_t6_loop.trips, ∀ a, (k3_off41 k3_t6) a + S1x1x16.size a ≤ S8x50x64.size a
  k3_off42_inb : ∀ k3_t6 : Fin k3_t6_loop.trips, ∀ a, (k3_off42 k3_t6) a + S1x1x16.size a ≤ S8x56x128.size a
  k3_off43_inb : ∀ k3_t6 : Fin k3_t6_loop.trips, ∀ a, (k3_off43 k3_t6) a + S1x1x16.size a ≤ S8x50x64.size a
  k3_t7_ok : k3_t7_loop.OK
  k3_off44_inb : ∀ k3_t7 : Fin k3_t7_loop.trips, ∀ a, (k3_off44 k3_t7) a + S1x1x16.size a ≤ S8x56x128.size a
  k3_off45_inb : ∀ k3_t7 : Fin k3_t7_loop.trips, ∀ a, (k3_off45 k3_t7) a + S1x1x16.size a ≤ S8x50x64.size a
  k3_off46_inb : ∀ k3_t7 : Fin k3_t7_loop.trips, ∀ a, (k3_off46 k3_t7) a + S1x1x16.size a ≤ S8x56x128.size a
  k3_off47_inb : ∀ k3_t7 : Fin k3_t7_loop.trips, ∀ a, (k3_off47 k3_t7) a + S1x1x16.size a ≤ S8x50x64.size a
  k3_off48_inb : ∀ k3_t7 : Fin k3_t7_loop.trips, ∀ a, (k3_off48 k3_t7) a + S1x1x16.size a ≤ S8x56x128.size a
  k3_off49_inb : ∀ k3_t7 : Fin k3_t7_loop.trips, ∀ a, (k3_off49 k3_t7) a + S1x1x16.size a ≤ S8x50x64.size a
  k3_off50_inb : ∀ k3_t7 : Fin k3_t7_loop.trips, ∀ a, (k3_off50 k3_t7) a + S1x1x16.size a ≤ S8x56x128.size a
  k3_off51_inb : ∀ k3_t7 : Fin k3_t7_loop.trips, ∀ a, (k3_off51 k3_t7) a + S1x1x16.size a ≤ S8x50x64.size a
  k3_t8_ok : k3_t8_loop.OK
  k3_off52_inb : ∀ k3_t8 : Fin k3_t8_loop.trips, ∀ a, (k3_off52 k3_t8) a + S1x1x16.size a ≤ S8x56x128.size a
  k3_off53_inb : ∀ k3_t8 : Fin k3_t8_loop.trips, ∀ a, (k3_off53 k3_t8) a + S1x1x16.size a ≤ S8x50x64.size a
  k3_off54_inb : ∀ k3_t8 : Fin k3_t8_loop.trips, ∀ a, (k3_off54 k3_t8) a + S1x1x16.size a ≤ S8x56x128.size a
  k3_off55_inb : ∀ k3_t8 : Fin k3_t8_loop.trips, ∀ a, (k3_off55 k3_t8) a + S1x1x16.size a ≤ S8x50x64.size a
  k3_off56_inb : ∀ k3_t8 : Fin k3_t8_loop.trips, ∀ a, (k3_off56 k3_t8) a + S1x1x16.size a ≤ S8x56x128.size a
  k3_off57_inb : ∀ k3_t8 : Fin k3_t8_loop.trips, ∀ a, (k3_off57 k3_t8) a + S1x1x16.size a ≤ S8x50x64.size a
  k3_off58_inb : ∀ k3_t8 : Fin k3_t8_loop.trips, ∀ a, (k3_off58 k3_t8) a + S1x1x16.size a ≤ S8x56x128.size a
  k3_off59_inb : ∀ k3_t8 : Fin k3_t8_loop.trips, ∀ a, (k3_off59 k3_t8) a + S1x1x16.size a ≤ S8x50x64.size a
  k3_t9_ok : k3_t9_loop.OK
  k3_off60_inb : ∀ k3_t9 : Fin k3_t9_loop.trips, ∀ a, (k3_off60 k3_t9) a + S1x1x16.size a ≤ S8x56x128.size a
  k3_off61_inb : ∀ k3_t9 : Fin k3_t9_loop.trips, ∀ a, (k3_off61 k3_t9) a + S1x1x16.size a ≤ S8x50x64.size a
  k3_off62_inb : ∀ k3_t9 : Fin k3_t9_loop.trips, ∀ a, (k3_off62 k3_t9) a + S1x1x16.size a ≤ S8x56x128.size a
  k3_off63_inb : ∀ k3_t9 : Fin k3_t9_loop.trips, ∀ a, (k3_off63 k3_t9) a + S1x1x16.size a ≤ S8x50x64.size a
  k3_off64_inb : ∀ k3_t9 : Fin k3_t9_loop.trips, ∀ a, (k3_off64 k3_t9) a + S1x1x16.size a ≤ S8x56x128.size a
  k3_off65_inb : ∀ k3_t9 : Fin k3_t9_loop.trips, ∀ a, (k3_off65 k3_t9) a + S1x1x16.size a ≤ S8x50x64.size a
  k3_off66_inb : ∀ k3_t9 : Fin k3_t9_loop.trips, ∀ a, (k3_off66 k3_t9) a + S1x1x16.size a ≤ S8x56x128.size a
  k3_off67_inb : ∀ k3_t9 : Fin k3_t9_loop.trips, ∀ a, (k3_off67 k3_t9) a + S1x1x16.size a ≤ S8x50x64.size a
  k3_off68_inb : ∀ k3_t1 : Fin k3_t1_loop.trips, ∀ (r : Fin 8), ∀ a, (k3_off68 k3_t1 (BitVec.ofNat 32 r.val)) a + S1x50.size a ≤ S128x50.size a
  k3_t10_ok : k3_t10_loop.OK
  k3_off69_inb : ∀ k3_t10 : Fin k3_t10_loop.trips, ∀ a, (k3_off69 k3_t10) a + S1x1x16.size a ≤ S8x56x128.size a
  k3_off70_inb : ∀ k3_t10 : Fin k3_t10_loop.trips, ∀ a, (k3_off70 k3_t10) a + S1x1x16.size a ≤ S8x50x64.size a
  k3_off71_inb : ∀ k3_t10 : Fin k3_t10_loop.trips, ∀ a, (k3_off71 k3_t10) a + S1x1x16.size a ≤ S8x56x128.size a
  k3_off72_inb : ∀ k3_t10 : Fin k3_t10_loop.trips, ∀ a, (k3_off72 k3_t10) a + S1x1x16.size a ≤ S8x50x64.size a
  k3_off73_inb : ∀ k3_t10 : Fin k3_t10_loop.trips, ∀ a, (k3_off73 k3_t10) a + S1x1x16.size a ≤ S8x56x128.size a
  k3_off74_inb : ∀ k3_t10 : Fin k3_t10_loop.trips, ∀ a, (k3_off74 k3_t10) a + S1x1x16.size a ≤ S8x50x64.size a
  k3_off75_inb : ∀ k3_t10 : Fin k3_t10_loop.trips, ∀ a, (k3_off75 k3_t10) a + S1x1x16.size a ≤ S8x56x128.size a
  k3_off76_inb : ∀ k3_t10 : Fin k3_t10_loop.trips, ∀ a, (k3_off76 k3_t10) a + S1x1x16.size a ≤ S8x50x64.size a
  k3_off77_inb : ∀ i : grid3.Coords, ∀ (r : Fin 8), ∀ a, (k3_off77 i (BitVec.ofNat 32 (120 + r.val))) a + S1x50x64.size a ≤ S4096x50x64.size a
  k3_t11_ok : k3_t11_loop.OK
  k3_off78_inb : ∀ k3_t11 : Fin k3_t11_loop.trips, ∀ a, (k3_off78 k3_t11) a + S1x1x16.size a ≤ S8x56x128.size a
  k3_off79_inb : ∀ k3_t11 : Fin k3_t11_loop.trips, ∀ a, (k3_off79 k3_t11) a + S1x1x16.size a ≤ S8x50x64.size a
  k3_off80_inb : ∀ k3_t11 : Fin k3_t11_loop.trips, ∀ a, (k3_off80 k3_t11) a + S1x1x16.size a ≤ S8x56x128.size a
  k3_off81_inb : ∀ k3_t11 : Fin k3_t11_loop.trips, ∀ a, (k3_off81 k3_t11) a + S1x1x16.size a ≤ S8x50x64.size a
  k3_off82_inb : ∀ k3_t11 : Fin k3_t11_loop.trips, ∀ a, (k3_off82 k3_t11) a + S1x1x16.size a ≤ S8x56x128.size a
  k3_off83_inb : ∀ k3_t11 : Fin k3_t11_loop.trips, ∀ a, (k3_off83 k3_t11) a + S1x1x16.size a ≤ S8x50x64.size a
  k3_off84_inb : ∀ k3_t11 : Fin k3_t11_loop.trips, ∀ a, (k3_off84 k3_t11) a + S1x1x16.size a ≤ S8x56x128.size a
  k3_off85_inb : ∀ k3_t11 : Fin k3_t11_loop.trips, ∀ a, (k3_off85 k3_t11) a + S1x1x16.size a ≤ S8x50x64.size a
  k3_t12_ok : k3_t12_loop.OK
  k3_off86_inb : ∀ k3_t12 : Fin k3_t12_loop.trips, ∀ a, (k3_off86 k3_t12) a + S1x1x16.size a ≤ S8x56x128.size a
  k3_off87_inb : ∀ k3_t12 : Fin k3_t12_loop.trips, ∀ a, (k3_off87 k3_t12) a + S1x1x16.size a ≤ S8x50x64.size a
  k3_off88_inb : ∀ k3_t12 : Fin k3_t12_loop.trips, ∀ a, (k3_off88 k3_t12) a + S1x1x16.size a ≤ S8x56x128.size a
  k3_off89_inb : ∀ k3_t12 : Fin k3_t12_loop.trips, ∀ a, (k3_off89 k3_t12) a + S1x1x16.size a ≤ S8x50x64.size a
  k3_off90_inb : ∀ k3_t12 : Fin k3_t12_loop.trips, ∀ a, (k3_off90 k3_t12) a + S1x1x16.size a ≤ S8x56x128.size a
  k3_off91_inb : ∀ k3_t12 : Fin k3_t12_loop.trips, ∀ a, (k3_off91 k3_t12) a + S1x1x16.size a ≤ S8x50x64.size a
  k3_off92_inb : ∀ k3_t12 : Fin k3_t12_loop.trips, ∀ a, (k3_off92 k3_t12) a + S1x1x16.size a ≤ S8x56x128.size a
  k3_off93_inb : ∀ k3_t12 : Fin k3_t12_loop.trips, ∀ a, (k3_off93 k3_t12) a + S1x1x16.size a ≤ S8x50x64.size a
  k3_t13_ok : k3_t13_loop.OK
  k3_off94_inb : ∀ k3_t13 : Fin k3_t13_loop.trips, ∀ a, (k3_off94 k3_t13) a + S1x1x16.size a ≤ S8x56x128.size a
  k3_off95_inb : ∀ k3_t13 : Fin k3_t13_loop.trips, ∀ a, (k3_off95 k3_t13) a + S1x1x16.size a ≤ S8x50x64.size a
  k3_off96_inb : ∀ k3_t13 : Fin k3_t13_loop.trips, ∀ a, (k3_off96 k3_t13) a + S1x1x16.size a ≤ S8x56x128.size a
  k3_off97_inb : ∀ k3_t13 : Fin k3_t13_loop.trips, ∀ a, (k3_off97 k3_t13) a + S1x1x16.size a ≤ S8x50x64.size a
  k3_off98_inb : ∀ k3_t13 : Fin k3_t13_loop.trips, ∀ a, (k3_off98 k3_t13) a + S1x1x16.size a ≤ S8x56x128.size a
  k3_off99_inb : ∀ k3_t13 : Fin k3_t13_loop.trips, ∀ a, (k3_off99 k3_t13) a + S1x1x16.size a ≤ S8x50x64.size a
  k3_off100_inb : ∀ k3_t13 : Fin k3_t13_loop.trips, ∀ a, (k3_off100 k3_t13) a + S1x1x16.size a ≤ S8x56x128.size a
  k3_off101_inb : ∀ k3_t13 : Fin k3_t13_loop.trips, ∀ a, (k3_off101 k3_t13) a + S1x1x16.size a ≤ S8x50x64.size a
  k3_t14_ok : k3_t14_loop.OK
  k3_off102_inb : ∀ k3_t14 : Fin k3_t14_loop.trips, ∀ a, (k3_off102 k3_t14) a + S1x1x16.size a ≤ S8x56x128.size a
  k3_off103_inb : ∀ k3_t14 : Fin k3_t14_loop.trips, ∀ a, (k3_off103 k3_t14) a + S1x1x16.size a ≤ S8x50x64.size a
  k3_off104_inb : ∀ k3_t14 : Fin k3_t14_loop.trips, ∀ a, (k3_off104 k3_t14) a + S1x1x16.size a ≤ S8x56x128.size a
  k3_off105_inb : ∀ k3_t14 : Fin k3_t14_loop.trips, ∀ a, (k3_off105 k3_t14) a + S1x1x16.size a ≤ S8x50x64.size a
  k3_off106_inb : ∀ k3_t14 : Fin k3_t14_loop.trips, ∀ a, (k3_off106 k3_t14) a + S1x1x16.size a ≤ S8x56x128.size a
  k3_off107_inb : ∀ k3_t14 : Fin k3_t14_loop.trips, ∀ a, (k3_off107 k3_t14) a + S1x1x16.size a ≤ S8x50x64.size a
  k3_off108_inb : ∀ k3_t14 : Fin k3_t14_loop.trips, ∀ a, (k3_off108 k3_t14) a + S1x1x16.size a ≤ S8x56x128.size a
  k3_off109_inb : ∀ k3_t14 : Fin k3_t14_loop.trips, ∀ a, (k3_off109 k3_t14) a + S1x1x16.size a ≤ S8x50x64.size a
  k3_t15_ok : k3_t15_loop.OK
  k3_off110_inb : ∀ k3_t15 : Fin k3_t15_loop.trips, ∀ a, (k3_off110 k3_t15) a + S1x1x16.size a ≤ S8x56x128.size a
  k3_off111_inb : ∀ k3_t15 : Fin k3_t15_loop.trips, ∀ a, (k3_off111 k3_t15) a + S1x1x16.size a ≤ S8x50x64.size a
  k3_off112_inb : ∀ k3_t15 : Fin k3_t15_loop.trips, ∀ a, (k3_off112 k3_t15) a + S1x1x16.size a ≤ S8x56x128.size a
  k3_off113_inb : ∀ k3_t15 : Fin k3_t15_loop.trips, ∀ a, (k3_off113 k3_t15) a + S1x1x16.size a ≤ S8x50x64.size a
  k3_off114_inb : ∀ k3_t15 : Fin k3_t15_loop.trips, ∀ a, (k3_off114 k3_t15) a + S1x1x16.size a ≤ S8x56x128.size a
  k3_off115_inb : ∀ k3_t15 : Fin k3_t15_loop.trips, ∀ a, (k3_off115 k3_t15) a + S1x1x16.size a ≤ S8x50x64.size a
  k3_off116_inb : ∀ k3_t15 : Fin k3_t15_loop.trips, ∀ a, (k3_off116 k3_t15) a + S1x1x16.size a ≤ S8x56x128.size a
  k3_off117_inb : ∀ k3_t15 : Fin k3_t15_loop.trips, ∀ a, (k3_off117 k3_t15) a + S1x1x16.size a ≤ S8x50x64.size a
  k3_t16_ok : k3_t16_loop.OK
  k3_off118_inb : ∀ k3_t16 : Fin k3_t16_loop.trips, ∀ a, (k3_off118 k3_t16) a + S1x1x16.size a ≤ S8x56x128.size a
  k3_off119_inb : ∀ k3_t16 : Fin k3_t16_loop.trips, ∀ a, (k3_off119 k3_t16) a + S1x1x16.size a ≤ S8x50x64.size a
  k3_off120_inb : ∀ k3_t16 : Fin k3_t16_loop.trips, ∀ a, (k3_off120 k3_t16) a + S1x1x16.size a ≤ S8x56x128.size a
  k3_off121_inb : ∀ k3_t16 : Fin k3_t16_loop.trips, ∀ a, (k3_off121 k3_t16) a + S1x1x16.size a ≤ S8x50x64.size a
  k3_off122_inb : ∀ k3_t16 : Fin k3_t16_loop.trips, ∀ a, (k3_off122 k3_t16) a + S1x1x16.size a ≤ S8x56x128.size a
  k3_off123_inb : ∀ k3_t16 : Fin k3_t16_loop.trips, ∀ a, (k3_off123 k3_t16) a + S1x1x16.size a ≤ S8x50x64.size a
  k3_off124_inb : ∀ k3_t16 : Fin k3_t16_loop.trips, ∀ a, (k3_off124 k3_t16) a + S1x1x16.size a ≤ S8x56x128.size a
  k3_off125_inb : ∀ k3_t16 : Fin k3_t16_loop.trips, ∀ a, (k3_off125 k3_t16) a + S1x1x16.size a ≤ S8x50x64.size a
  k3_t17_ok : k3_t17_loop.OK
  k3_off126_inb : ∀ k3_t17 : Fin k3_t17_loop.trips, ∀ a, (k3_off126 k3_t17) a + S1x1x16.size a ≤ S8x56x128.size a
  k3_off127_inb : ∀ k3_t17 : Fin k3_t17_loop.trips, ∀ a, (k3_off127 k3_t17) a + S1x1x16.size a ≤ S8x50x64.size a
  k3_off128_inb : ∀ k3_t17 : Fin k3_t17_loop.trips, ∀ a, (k3_off128 k3_t17) a + S1x1x16.size a ≤ S8x56x128.size a
  k3_off129_inb : ∀ k3_t17 : Fin k3_t17_loop.trips, ∀ a, (k3_off129 k3_t17) a + S1x1x16.size a ≤ S8x50x64.size a
  k3_off130_inb : ∀ k3_t17 : Fin k3_t17_loop.trips, ∀ a, (k3_off130 k3_t17) a + S1x1x16.size a ≤ S8x56x128.size a
  k3_off131_inb : ∀ k3_t17 : Fin k3_t17_loop.trips, ∀ a, (k3_off131 k3_t17) a + S1x1x16.size a ≤ S8x50x64.size a
  k3_off132_inb : ∀ k3_t17 : Fin k3_t17_loop.trips, ∀ a, (k3_off132 k3_t17) a + S1x1x16.size a ≤ S8x56x128.size a
  k3_off133_inb : ∀ k3_t17 : Fin k3_t17_loop.trips, ∀ a, (k3_off133 k3_t17) a + S1x1x16.size a ≤ S8x50x64.size a
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S512x50x64.size a ≤ S4096x50x64.size a
  hwx4_0 : ∀ i : grid4.Coords, EltTy.bits .f32 = 32 ∨ (Rect.block (s := S4096x50x64) S512x50x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x1.size a ≤ S64x1.size a
  hwx4_2 : ∀ i : grid4.Coords, EltTy.bits .f32 = 32 ∨ (Rect.block (s := S64x1) S64x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S50x64x512.size a ≤ S50x64x16384.size a
  hwx4_3 : ∀ i : grid4.Coords, EltTy.bits .f32 = 32 ∨ (Rect.block (s := S50x64x16384) S50x64x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x50x64.size a ≤ S4096x50x64.size a
  hwx5_0 : ∀ i : grid5.Coords, EltTy.bits .f32 = 32 ∨ (Rect.block (s := S4096x50x64) S512x50x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64x64.size a ≤ S64x64.size a
  hwx5_1 : ∀ i : grid5.Coords, EltTy.bits .f32 = 32 ∨ (Rect.block (s := S64x64) S64x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S64x1.size a ≤ S64x1.size a
  hwx5_2 : ∀ i : grid5.Coords, EltTy.bits .f32 = 32 ∨ (Rect.block (s := S64x1) S64x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_4 i = cc5_transform_4 i'
  hinb5_3 : ∀ (i : grid5.Coords) a, (cc5_transform_4 i a + 1) * S50x64x512.size a ≤ S50x64x16384.size a
  hwx5_3 : ∀ i : grid5.Coords, EltTy.bits .f32 = 32 ∨ (Rect.block (s := S50x64x16384) S50x64x512.size (cc5_transform_4 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S512x50x64.size a ≤ S4096x50x64.size a
  hwx6_0 : ∀ i : grid6.Coords, EltTy.bits .f32 = 32 ∨ (Rect.block (s := S4096x50x64) S512x50x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x1.size a ≤ S64x1.size a
  hwx6_2 : ∀ i : grid6.Coords, EltTy.bits .f32 = 32 ∨ (Rect.block (s := S64x1) S64x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_4 i = cc6_transform_4 i'
  hinb6_3 : ∀ (i : grid6.Coords) a, (cc6_transform_4 i a + 1) * S50x64x512.size a ≤ S50x64x16384.size a
  hwx6_3 : ∀ i : grid6.Coords, EltTy.bits .f32 = 32 ∨ (Rect.block (s := S50x64x16384) S50x64x512.size (cc6_transform_4 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S512x50x64.size a ≤ S4096x50x64.size a
  hwx7_0 : ∀ i : grid7.Coords, EltTy.bits .f32 = 32 ∨ (Rect.block (s := S4096x50x64) S512x50x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S64x64.size a ≤ S64x64.size a
  hwx7_1 : ∀ i : grid7.Coords, EltTy.bits .f32 = 32 ∨ (Rect.block (s := S64x64) S64x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x1.size a ≤ S64x1.size a
  hwx7_2 : ∀ i : grid7.Coords, EltTy.bits .f32 = 32 ∨ (Rect.block (s := S64x1) S64x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_4 i = cc7_transform_4 i'
  hinb7_3 : ∀ (i : grid7.Coords) a, (cc7_transform_4 i a + 1) * S50x64x512.size a ≤ S50x64x16384.size a
  hwx7_3 : ∀ i : grid7.Coords, EltTy.bits .f32 = 32 ∨ (Rect.block (s := S50x64x16384) S50x64x512.size (cc7_transform_4 i) (hinb7_3 i)).WholeWords (EltTy.packing .f32)

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5
abbrev cc0_scratch6 : DmaSems sig S_ := SemArray.consecutive 3 S_ hcc0_scratch6
abbrev cc0_scratch7 : DmaSems sig S_ := SemArray.consecutive 4 S_ hcc0_scratch7
abbrev cc0_scratch8 : DmaSems sig S_ := SemArray.consecutive 5 S_ hcc0_scratch8
abbrev cc0_scratch9 : DmaSems sig S_ := SemArray.consecutive 6 S_ hcc0_scratch9
abbrev cc0_scratch10 : DmaSems sig S_ := SemArray.consecutive 7 S_ hcc0_scratch10
abbrev cc0_scratch11 : DmaSems sig S_ := SemArray.consecutive 8 S_ hcc0_scratch11
abbrev cc0_scratch12 : DmaSems sig S_ := SemArray.consecutive 9 S_ hcc0_scratch12
abbrev cc0_scratch13 : DmaSems sig S_ := SemArray.consecutive 10 S_ hcc0_scratch13
abbrev cc0_scratch14 : DmaSems sig S_ := SemArray.consecutive 11 S_ hcc0_scratch14
abbrev cc0_scratch15 : DmaSems sig S_ := SemArray.consecutive 12 S_ hcc0_scratch15
abbrev cc0_scratch16 : DmaSems sig S_ := SemArray.consecutive 13 S_ hcc0_scratch16
abbrev cc0_scratch17 : DmaSems sig S_ := SemArray.consecutive 14 S_ hcc0_scratch17
abbrev cc0_scratch18 : DmaSems sig S_ := SemArray.consecutive 15 S_ hcc0_scratch18
abbrev cc0_scoped0 : DmaSems sig S_ := SemArray.consecutive 16 S_ hcc0_scoped0
abbrev cc1_scratch3 : DmaSems sig S_ := SemArray.consecutive 17 S_ hcc1_scratch3
abbrev cc1_scratch4 : DmaSems sig S_ := SemArray.consecutive 18 S_ hcc1_scratch4
abbrev cc1_scratch5 : DmaSems sig S_ := SemArray.consecutive 19 S_ hcc1_scratch5
abbrev cc1_scratch6 : DmaSems sig S_ := SemArray.consecutive 20 S_ hcc1_scratch6
abbrev cc1_scratch7 : DmaSems sig S_ := SemArray.consecutive 21 S_ hcc1_scratch7
abbrev cc1_scratch8 : DmaSems sig S_ := SemArray.consecutive 22 S_ hcc1_scratch8
abbrev cc1_scratch9 : DmaSems sig S_ := SemArray.consecutive 23 S_ hcc1_scratch9
abbrev cc1_scratch10 : DmaSems sig S_ := SemArray.consecutive 24 S_ hcc1_scratch10
abbrev cc1_scratch11 : DmaSems sig S_ := SemArray.consecutive 25 S_ hcc1_scratch11
abbrev cc1_scratch12 : DmaSems sig S_ := SemArray.consecutive 26 S_ hcc1_scratch12
abbrev cc1_scratch13 : DmaSems sig S_ := SemArray.consecutive 27 S_ hcc1_scratch13
abbrev cc1_scratch14 : DmaSems sig S_ := SemArray.consecutive 28 S_ hcc1_scratch14
abbrev cc1_scratch15 : DmaSems sig S_ := SemArray.consecutive 29 S_ hcc1_scratch15
abbrev cc1_scratch16 : DmaSems sig S_ := SemArray.consecutive 30 S_ hcc1_scratch16
abbrev cc1_scratch17 : DmaSems sig S_ := SemArray.consecutive 31 S_ hcc1_scratch17
abbrev cc1_scratch18 : DmaSems sig S_ := SemArray.consecutive 32 S_ hcc1_scratch18
abbrev cc1_scoped0 : DmaSems sig S_ := SemArray.consecutive 33 S_ hcc1_scoped0
abbrev cc2_scratch3 : DmaSems sig S_ := SemArray.consecutive 34 S_ hcc2_scratch3
abbrev cc2_scratch4 : DmaSems sig S_ := SemArray.consecutive 35 S_ hcc2_scratch4
abbrev cc2_scratch5 : DmaSems sig S_ := SemArray.consecutive 36 S_ hcc2_scratch5
abbrev cc2_scratch6 : DmaSems sig S_ := SemArray.consecutive 37 S_ hcc2_scratch6
abbrev cc2_scratch7 : DmaSems sig S_ := SemArray.consecutive 38 S_ hcc2_scratch7
abbrev cc2_scratch8 : DmaSems sig S_ := SemArray.consecutive 39 S_ hcc2_scratch8
abbrev cc2_scratch9 : DmaSems sig S_ := SemArray.consecutive 40 S_ hcc2_scratch9
abbrev cc2_scratch10 : DmaSems sig S_ := SemArray.consecutive 41 S_ hcc2_scratch10
abbrev cc2_scratch11 : DmaSems sig S_ := SemArray.consecutive 42 S_ hcc2_scratch11
abbrev cc2_scratch12 : DmaSems sig S_ := SemArray.consecutive 43 S_ hcc2_scratch12
abbrev cc2_scratch13 : DmaSems sig S_ := SemArray.consecutive 44 S_ hcc2_scratch13
abbrev cc2_scratch14 : DmaSems sig S_ := SemArray.consecutive 45 S_ hcc2_scratch14
abbrev cc2_scratch15 : DmaSems sig S_ := SemArray.consecutive 46 S_ hcc2_scratch15
abbrev cc2_scratch16 : DmaSems sig S_ := SemArray.consecutive 47 S_ hcc2_scratch16
abbrev cc2_scratch17 : DmaSems sig S_ := SemArray.consecutive 48 S_ hcc2_scratch17
abbrev cc2_scratch18 : DmaSems sig S_ := SemArray.consecutive 49 S_ hcc2_scratch18
abbrev cc2_scoped0 : DmaSems sig S_ := SemArray.consecutive 50 S_ hcc2_scoped0
abbrev cc3_scratch3 : DmaSems sig S_ := SemArray.consecutive 51 S_ hcc3_scratch3
abbrev cc3_scratch4 : DmaSems sig S_ := SemArray.consecutive 52 S_ hcc3_scratch4
abbrev cc3_scratch5 : DmaSems sig S_ := SemArray.consecutive 53 S_ hcc3_scratch5
abbrev cc3_scratch6 : DmaSems sig S_ := SemArray.consecutive 54 S_ hcc3_scratch6
abbrev cc3_scratch7 : DmaSems sig S_ := SemArray.consecutive 55 S_ hcc3_scratch7
abbrev cc3_scratch8 : DmaSems sig S_ := SemArray.consecutive 56 S_ hcc3_scratch8
abbrev cc3_scratch9 : DmaSems sig S_ := SemArray.consecutive 57 S_ hcc3_scratch9
abbrev cc3_scratch10 : DmaSems sig S_ := SemArray.consecutive 58 S_ hcc3_scratch10
abbrev cc3_scratch11 : DmaSems sig S_ := SemArray.consecutive 59 S_ hcc3_scratch11
abbrev cc3_scratch12 : DmaSems sig S_ := SemArray.consecutive 60 S_ hcc3_scratch12
abbrev cc3_scratch13 : DmaSems sig S_ := SemArray.consecutive 61 S_ hcc3_scratch13
abbrev cc3_scratch14 : DmaSems sig S_ := SemArray.consecutive 62 S_ hcc3_scratch14
abbrev cc3_scratch15 : DmaSems sig S_ := SemArray.consecutive 63 S_ hcc3_scratch15
abbrev cc3_scratch16 : DmaSems sig S_ := SemArray.consecutive 64 S_ hcc3_scratch16
abbrev cc3_scratch17 : DmaSems sig S_ := SemArray.consecutive 65 S_ hcc3_scratch17
abbrev cc3_scratch18 : DmaSems sig S_ := SemArray.consecutive 66 S_ hcc3_scratch18
abbrev cc3_scoped0 : DmaSems sig S_ := SemArray.consecutive 67 S_ hcc3_scoped0
def dot_S64x64_S512x64_S64x512_0_1_1_0_n_n : DotDims S64x64 S512x64 S64x512 where
  lhsContracting := [0]
  rhsContracting := [1]
  lhsNonContracting := [1]
  rhsNonContracting := [0]
  lhsBatch := []
  rhsBatch := []
  wf := dot_S64x64_S512x64_S64x512_0_1_1_0_n_n_wf

abbrev win4_0 : Pipeline.Window sig grid4 :=
  Pipeline.Window.ofSpec (Memref.whole main_v3) S512x50x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v1) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v2) S64x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v7) S50x64x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v4) S512x50x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S64x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v2) S64x1.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v8) S50x64x512.size cc5_transform_4 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v5) S512x50x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v1) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v2) S64x1.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v9) S50x64x512.size cc6_transform_4 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v6) S512x50x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S64x64.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v2) S64x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v10) S50x64x512.size cc7_transform_4 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S16384x50 : Shape := ⟨2, ![16384, 50]⟩
abbrev S100000x64 : Shape := ⟨2, ![100000, 64]⟩
abbrev S64x64 : Shape := ⟨2, ![64, 64]⟩
abbrev S64 : Shape := ⟨1, ![64]⟩
abbrev S_ : Shape := ⟨0, ![]⟩
abbrev S16384x50x1 : Shape := ⟨3, ![16384, 50, 1]⟩
abbrev S1 : Shape := ⟨1, ![1]⟩
abbrev S1x1x1 : Shape := ⟨3, ![1, 1, 1]⟩
abbrev S16384x50x64 : Shape := ⟨3, ![16384, 50, 64]⟩
abbrev S1x1x64 : Shape := ⟨3, ![1, 1, 64]⟩

abbrev nBuf : Space → Nat
  | .hbm => 31
  | .vmem => 0
  | .smem => 0
  | _ => 0

abbrev bufTy : (tb : Table) → Fin (tcTables nBuf tb) → BufTy
  | .hbm, ⟨0, _⟩ => ⟨S16384x50, .i32⟩
  | .hbm, ⟨1, _⟩ => ⟨S100000x64, .f32⟩
  | .hbm, ⟨2, _⟩ => ⟨S64x64, .f32⟩
  | .hbm, ⟨3, _⟩ => ⟨S64, .f32⟩
  | .hbm, ⟨4, _⟩ => ⟨S_, .i32⟩
  | .hbm, ⟨5, _⟩ => ⟨S16384x50, .i32⟩
  | .hbm, ⟨6, _⟩ => ⟨S16384x50, .i1⟩
  | .hbm, ⟨7, _⟩ => ⟨S_, .i32⟩
  | .hbm, ⟨8, _⟩ => ⟨S16384x50, .i32⟩
  | .hbm, ⟨9, _⟩ => ⟨S16384x50, .i32⟩
  | .hbm, ⟨10, _⟩ => ⟨S16384x50, .i32⟩
  | .hbm, ⟨11, _⟩ => ⟨S16384x50x1, .i32⟩
  | .hbm, ⟨12, _⟩ => ⟨S1, .i32⟩
  | .hbm, ⟨13, _⟩ => ⟨S_, .i32⟩
  | .hbm, ⟨14, _⟩ => ⟨S16384x50x1, .i32⟩
  | .hbm, ⟨15, _⟩ => ⟨S16384x50x1, .i1⟩
  | .hbm, ⟨16, _⟩ => ⟨S1x1x1, .i32⟩
  | .hbm, ⟨17, _⟩ => ⟨S16384x50x1, .i32⟩
  | .hbm, ⟨18, _⟩ => ⟨S16384x50x1, .i1⟩
  | .hbm, ⟨19, _⟩ => ⟨S16384x50x1, .i1⟩
  | .hbm, ⟨20, _⟩ => ⟨S_, .i1⟩
  | .hbm, ⟨21, _⟩ => ⟨S16384x50, .i1⟩
  | .hbm, ⟨22, _⟩ => ⟨S16384x50x64, .f32⟩
  | .hbm, ⟨23, _⟩ => ⟨S16384x50x64, .i1⟩
  | .hbm, ⟨24, _⟩ => ⟨S_, .f32⟩
  | .hbm, ⟨25, _⟩ => ⟨S16384x50x64, .f32⟩
  | .hbm, ⟨26, _⟩ => ⟨S16384x50x64, .f32⟩
  | .hbm, ⟨27, _⟩ => ⟨S16384x50x64, .f32⟩
  | .hbm, ⟨28, _⟩ => ⟨S1x1x64, .f32⟩
  | .hbm, ⟨29, _⟩ => ⟨S16384x50x64, .f32⟩
  | .hbm, ⟨30, _⟩ => ⟨S16384x50x64, .f32⟩
  | _, _ => ⟨S16384x50, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_cst : Ref sig .tc := ⟨.hbm, 24, rfl⟩
abbrev main_call0_v15 : Ref sig .tc := ⟨.hbm, 25, rfl⟩
abbrev main_v0 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩

abbrev nD : Nat := 1
abbrev τ : Topo := Topo.v7x

variable {F : FTy → Type} [FloatOps F]

class Facts₀ : Prop where
  bcast_S_S16384x50 : S_.BroadcastsInDim S16384x50 (![] : Fin 0 → Fin S16384x50.rank)
  bcast_S16384x50_S16384x50x1_0_1 : S16384x50.BroadcastsInDim S16384x50x1 (![0, 1] : Fin 2 → Fin S16384x50x1.rank)
  bcast_S_S16384x50x1 : S_.BroadcastsInDim S16384x50x1 (![] : Fin 0 → Fin S16384x50x1.rank)
  bcast_S1_S1x1x1_2 : S1.BroadcastsInDim S1x1x1 (![2] : Fin 1 → Fin S1x1x1.rank)
  bcast_S1x1x1_S16384x50x1_0_1_2 : S1x1x1.BroadcastsInDim S16384x50x1 (![0, 1, 2] : Fin 3 → Fin S16384x50x1.rank)
  reducesTo_S16384x50x1_S16384x50_d2 : S16384x50x1.ReducesTo [2] S16384x50
  h_S_ : 0 < S_.numel
  bcast_S16384x50_S16384x50x64_0_1 : S16384x50.BroadcastsInDim S16384x50x64 (![0, 1] : Fin 2 → Fin S16384x50x64.rank)
  bcast_S_S16384x50x64 : S_.BroadcastsInDim S16384x50x64 (![] : Fin 0 → Fin S16384x50x64.rank)
  bcast_S64_S1x1x64_2 : S64.BroadcastsInDim S1x1x64 (![2] : Fin 1 → Fin S1x1x64.rank)
  bcast_S1x1x64_S16384x50x64_0_1_2 : S1x1x64.BroadcastsInDim S16384x50x64 (![0, 1, 2] : Fin 3 → Fin S16384x50x64.rank)
  gather_S100000x64_S16384x50x1_S16384x50x64_2_0_n_n_0_2_164_wf : GatherDims.WF S100000x64 S16384x50x1 S16384x50x64 [2] [0] [] [0] [] 2 ![1, 64]
  dot_S16384x50x64_S64x64_S16384x50x64_2_1_01_0_n_n_wf : DotDims.WF S16384x50x64 S64x64 S16384x50x64 [2] [1] [0, 1] [0] [] []

variable [Facts₀]

def gather_S100000x64_S16384x50x1_S16384x50x64_2_0_n_n_0_2_164 : GatherDims S100000x64 S16384x50x1 S16384x50x64 where
  offsetDims := [2]
  collapsedSliceDims := [0]
  operandBatchingDims := []
  startIndicesBatchingDims := []
  startIndexMap := [0]
  indexVectorDim := 2
  sliceSizes := ![1, 64]
  wf := gather_S100000x64_S16384x50x1_S16384x50x64_2_0_n_n_0_2_164_wf
def dot_S16384x50x64_S64x64_S16384x50x64_2_1_01_0_n_n : DotDims S16384x50x64 S64x64 S16384x50x64 where
  lhsContracting := [2]
  rhsContracting := [1]
  lhsNonContracting := [0, 1]
  rhsNonContracting := [0]
  lhsBatch := []
  rhsBatch := []
  wf := dot_S16384x50x64_S64x64_S16384x50x64_2_1_01_0_n_n_wf

class Facts : Prop extends Facts₀ where

variable [Facts]
-- ==== Proof.Shares.lean ====
/-
  Read shares for many readers of one array.

  A share of an array can be halved, and each half halved again: after `n` halvings there are `2 ^ n` leaves, and
  holding the array at the original share is holding it at every leaf at once. The 32 vector subcores of one
  SparseCore call each read the whole index array and the whole padded table, so each is handed one leaf of the
  full share halved five times, and the leaves join again when the call is over.
-/
import Idealize.ShloMosaic.Lib.SparseCore.Launch
import Idealize.ShloMosaic.Lib.Transfers

noncomputable section

namespace Cert.Proof.Shares

open Idealize.ShloMosaic
open Idealize.SL Idealize.SL.RA Idealize.SL.BI
open scoped Idealize.SL.BI
open Idealize.SL.BI.BIBase Idealize.SL.BI.Laws Idealize.SL.ProofMode Idealize.SL.Sem

/-- Leaf `i` of share `q` halved `n` times: the left half holds the first `2 ^ (n - 1)` leaves. -/
def leaf : (n : ℕ) → PosShare TreeShare → Fin (2 ^ n) → PosShare TreeShare
  | 0, q, _ => q
  | n + 1, q, i => if h : i.val < 2 ^ n then leaf n q.left ⟨i.val, h⟩ else leaf n q.right ⟨i.val - 2 ^ n, by omega⟩

/-- The leaves of depth `n + 1` are the left half's followed by the right half's. -/
def halves (n : ℕ) : Fin (2 ^ n) ⊕ Fin (2 ^ n) ≃ Fin (2 ^ (n + 1)) := finSumFinEquiv.trans (finCongr (by omega))

theorem halves_inl (n : ℕ) (i : Fin (2 ^ n)) : (halves n (Sum.inl i)).val = i.val := by simp [halves]
theorem halves_inr (n : ℕ) (i : Fin (2 ^ n)) : (halves n (Sum.inr i)).val = 2 ^ n + i.val := by simp [halves]; omega

theorem leaf_inl (n : ℕ) (q : PosShare TreeShare) (i : Fin (2 ^ n)) : leaf (n + 1) q (halves n (Sum.inl i)) = leaf n q.left i := by
  have h : (halves n (Sum.inl i)).val < 2 ^ n := by rw [halves_inl]; exact i.isLt
  have e : (⟨(halves n (Sum.inl i)).val, h⟩ : Fin (2 ^ n)) = i := Fin.ext (halves_inl n i)
  rw [leaf, dif_pos h, e]

theorem leaf_inr (n : ℕ) (q : PosShare TreeShare) (i : Fin (2 ^ n)) : leaf (n + 1) q (halves n (Sum.inr i)) = leaf n q.right i := by
  have h : ¬(halves n (Sum.inr i)).val < 2 ^ n := by rw [halves_inr]; omega
  have e : (⟨(halves n (Sum.inr i)).val - 2 ^ n, by have := (halves n (Sum.inr i)).isLt; omega⟩ : Fin (2 ^ n)) = i :=
    Fin.ext (by simp only [halves_inr]; omega)
  rw [leaf, dif_neg h, e]

variable {nD : Nat} {τ : Topo} {sig : RefSig} {Ix : Type} [DecidableEq Ix] {Val : EltTy → Type} {Name : Type} [DecidableEq Name]
  {U : Type} [URA U] {Lvl : Type}

local notation "𝕄" => MT nD τ sig Ix Val Name U Lvl

/-- An array held at a share is held at all the share's leaves at once, and conversely. -/
theorem pointsTo_leaves {ℓ : Loc nD τ sig} (I : Finset (Idx ℓ)) (f : Buf Val ℓ) :
    ∀ (n : ℕ) (q : PosShare TreeShare), (ℓ ↦[I]{q} f : sProp 𝕄) = bigSep Finset.univ fun i : Fin (2 ^ n) => ℓ ↦[I]{leaf n q i} f
  | 0, q => (bigSep_univ_of_subsingleton (0 : Fin 1) (Φ := fun i : Fin (2 ^ 0) => (ℓ ↦[I]{leaf 0 q i} f : sProp 𝕄))).symm
  | n + 1, q => by
    rw [BI.Entails.antisymm (pointsTo_share (PosShare.mem_left_op_right q)).1 (pointsTo_share (PosShare.mem_left_op_right q)).2,
      pointsTo_leaves I f n q.left, pointsTo_leaves I f n q.right,
      bigSep_univ_equiv (halves n) (fun i : Fin (2 ^ (n + 1)) => (ℓ ↦[I]{leaf (n + 1) q i} f : sProp 𝕄)), bigSep_univ_sum]
    congr 1 <;> refine bigSep_congr fun i _ => ?_
    · rw [leaf_inl]
    · rw [leaf_inr]

/-- The read share of reader `w` among 32. -/
abbrev sh32 (w : Fin 32) : PosShare TreeShare := leaf 5 fullShare w

end Cert.Proof.Shares

end
-- ==== Proof.LaunchDefs.lean ====
/-
  The program as the SparseCore launch theorem sees it, and what one vector subcore's task is handed.

  The four gather calls run on both SparseCores' sixteen vector subcores. Subcore `s` of core `c` is worker
  `w = 2 s + c` of 32: it reads the whole index array and the whole padded table, and it alone writes rows
  `128 w … 128 w + 127` of the call's result. So a task is handed a 1/32 read share of the index array, a 1/32
  read share of the padded table, and its block of 128 result rows at the full share; it hands the shares back
  unchanged and the block at whatever it wrote.
-/
import proofs.«204056_g19739669692900_cont_8to1_1488_31_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204056_g19739669692900_cont_8to1_1488_31_alg».proof.Proof.Gen.KernelIdeal
import proofs.«204056_g19739669692900_cont_8to1_1488_31_alg».proof.Proof.Shares

noncomputable section

namespace Cert.Proof.LaunchI

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀

theorem nCore_eq (q : Fin 4) : (K (F := F)).nCore q = 2 := by
  match q with
  | 0 => rfl
  | 1 => rfl
  | 2 => rfl
  | 3 => rfl
theorem nSub_eq (q : Fin 4) : (K (F := F)).nSub q = 16 := by
  match q with
  | 0 => rfl
  | 1 => rfl
  | 2 => rfl
  | 3 => rfl
theorem kind_eq (q : Fin 4) : (K (F := F)).kind q = .scVector := by
  match q with
  | 0 => rfl
  | 1 => rfl
  | 2 => rfl
  | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Worker number of subcore `s` of core `c`: `2 s + c`. -/
def wid (c : Fin 2) (s : Fin 16) : Fin 32 := ⟨2 * s.val + c.val, by omega⟩

/-- Every worker number is one subcore's of one core. -/
def widEquiv : Fin 2 × Fin 16 ≃ Fin 32 where
  toFun p := wid p.1 p.2
  invFun w := (⟨w.val % 2, by omega⟩, ⟨w.val / 2, by omega⟩)
  left_inv p := by
    obtain ⟨c, s⟩ := p
    simp only [wid]
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

/-! ## The ghost state is the launch's to choose; a task needs the transfers' counters in it -/

variable {UU : Type} [URA UU] [CountersIn UU]

local notation "𝕄" => MT nD τ sig (HIx 4) (Elt F) ℕ UU ℕ

/-! ## The arrays of the gather calls -/

abbrev catsLoc (d : Dev nD) : Loc nD τ sig := (SparseCore.T d).loc main_arg0
abbrev tpadLoc (d : Dev nD) : Loc nD τ sig := (SparseCore.T d).loc main_v0
abbrev out0Loc (d : Dev nD) : Loc nD τ sig := (SparseCore.T d).loc main_v3
abbrev out1Loc (d : Dev nD) : Loc nD τ sig := (SparseCore.T d).loc main_v4
abbrev out2Loc (d : Dev nD) : Loc nD τ sig := (SparseCore.T d).loc main_v5
abbrev out3Loc (d : Dev nD) : Loc nD τ sig := (SparseCore.T d).loc main_v6

theorem blkDiv : 32 ∣ S4096x50x64.size 0 := ⟨128, rfl⟩
/-- Rows `128 w … 128 w + 127` of a call's result. -/
abbrev blkRect (w : Fin 32) : Rect S4096x50x64 := Rect.part (s := S4096x50x64) (a₀ := 0) blkDiv w
abbrev blkSet0 (w : Fin 32) : Finset S4096x50x64.Idx := ((Memref.whole main_v3_scv : Memref sig .scVector .hbm S4096x50x64 .f32).view.slice (blkRect w)).set
abbrev blkSet1 (w : Fin 32) : Finset S4096x50x64.Idx := ((Memref.whole main_v4_scv : Memref sig .scVector .hbm S4096x50x64 .f32).view.slice (blkRect w)).set
abbrev blkSet2 (w : Fin 32) : Finset S4096x50x64.Idx := ((Memref.whole main_v5_scv : Memref sig .scVector .hbm S4096x50x64 .f32).view.slice (blkRect w)).set
abbrev blkSet3 (w : Fin 32) : Finset S4096x50x64.Idx := ((Memref.whole main_v6_scv : Memref sig .scVector .hbm S4096x50x64 .f32).view.slice (blkRect w)).set

theorem blkSet0_eq (w : Fin 32) : blkSet0 w = (blkRect w).set := by
  show ((View.whole (main_v3_scv : Ref sig .scVector)).slice (blkRect w)).set = _
  rw [View.set_slice]; exact Finset.map_refl
theorem blkSet1_eq (w : Fin 32) : blkSet1 w = (blkRect w).set := by
  show ((View.whole (main_v4_scv : Ref sig .scVector)).slice (blkRect w)).set = _
  rw [View.set_slice]; exact Finset.map_refl
theorem blkSet2_eq (w : Fin 32) : blkSet2 w = (blkRect w).set := by
  show ((View.whole (main_v5_scv : Ref sig .scVector)).slice (blkRect w)).set = _
  rw [View.set_slice]; exact Finset.map_refl
theorem blkSet3_eq (w : Fin 32) : blkSet3 w = (blkRect w).set := by
  show ((View.whole (main_v6_scv : Ref sig .scVector)).slice (blkRect w)).set = _
  rw [View.set_slice]; exact Finset.map_refl

/-! ## What a task is handed -/

variable (m : (ℓ : Loc nD τ sig) → Buf (Elt F) ℓ)

/-- Worker `w`'s read share of the index array, at the launch contents. -/
abbrev catsSh (d : Dev nD) (w : Fin 32) : sProp 𝕄 := catsLoc d ↦{sh32 w} m (catsLoc d)
/-- Worker `w`'s read share of the padded table, at contents `ft`. -/
abbrev tpadSh (d : Dev nD) (w : Fin 32) (ft : Buf (Elt F) (tpadLoc d)) : sProp 𝕄 := tpadLoc d ↦{sh32 w} ft
/-- Worker `w`'s block of each call's result. -/
abbrev outBlk0 (d : Dev nD) (w : Fin 32) (f : Buf (Elt F) (out0Loc d)) : sProp 𝕄 := out0Loc d ↦[blkSet0 w]{fullShare} f
abbrev outBlk1 (d : Dev nD) (w : Fin 32) (f : Buf (Elt F) (out1Loc d)) : sProp 𝕄 := out1Loc d ↦[blkSet1 w]{fullShare} f
abbrev outBlk2 (d : Dev nD) (w : Fin 32) (f : Buf (Elt F) (out2Loc d)) : sProp 𝕄 := out2Loc d ↦[blkSet2 w]{fullShare} f
abbrev outBlk3 (d : Dev nD) (w : Fin 32) (f : Buf (Elt F) (out3Loc d)) : sProp 𝕄 := out3Loc d ↦[blkSet3 w]{fullShare} f

end Cert.Proof.LaunchI

end
-- ==== Proof.LaunchPay.lean ====
/-
  What the launch handshakes carry.

  At gather call `q` the TensorCore hands each SparseCore what its sixteen tasks need and gets the same back, the
  result blocks at what the tasks wrote. A core's share is the product of its tasks' shares, so dealing a core's
  share to its tasks, and collecting theirs into the core's, is the identity.
-/
import proofs.«204056_g19739669692900_cont_8to1_1488_31_alg».proof.Proof.LaunchDefs

noncomputable section

namespace Cert.Proof.LaunchI

open Cert.KernelIdeal Cert.KernelIdeal.Gen
open Cert.Proof.Shares

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

variable (m : (ℓ : Loc nD τ sig) → Buf (Elt F) ℓ)
-- the padded table's contents when the gather calls run (the host pad's result)
variable (ft : (d : Dev nD) → Buf (Elt F) (tpadLoc d))

/-- What task `i` of core `c` is handed at call `q`: its two read shares and its result block at the launch contents. -/
def goRes (q : Fin 4) (d : Dev nD) (c : Fin ((K (F := F)).nCore q)) (i : Fin ((K (F := F)).nSub q)) : sProp 𝕄 :=
  match q, c, i with
  | 0, c, i => iprop(catsSh m d (wid c i) ∗ tpadSh d (wid c i) (ft d) ∗ outBlk0 d (wid c i) (m (out0Loc d)))
  | 1, c, i => iprop(catsSh m d (wid c i) ∗ tpadSh d (wid c i) (ft d) ∗ outBlk1 d (wid c i) (m (out1Loc d)))
  | 2, c, i => iprop(catsSh m d (wid c i) ∗ tpadSh d (wid c i) (ft d) ∗ outBlk2 d (wid c i) (m (out2Loc d)))
  | 3, c, i => iprop(catsSh m d (wid c i) ∗ tpadSh d (wid c i) (ft d) ∗ outBlk3 d (wid c i) (m (out3Loc d)))

/-- What it hands back: the shares unchanged, the block at some contents. -/
def tdRes (q : Fin 4) (d : Dev nD) (c : Fin ((K (F := F)).nCore q)) (i : Fin ((K (F := F)).nSub q)) : sProp 𝕄 :=
  match q, c, i with
  | 0, c, i => iprop(catsSh m d (wid c i) ∗ tpadSh d (wid c i) (ft d) ∗ ∃ f, outBlk0 d (wid c i) f)
  | 1, c, i => iprop(catsSh m d (wid c i) ∗ tpadSh d (wid c i) (ft d) ∗ ∃ f, outBlk1 d (wid c i) f)
  | 2, c, i => iprop(catsSh m d (wid c i) ∗ tpadSh d (wid c i) (ft d) ∗ ∃ f, outBlk2 d (wid c i) f)
  | 3, c, i => iprop(catsSh m d (wid c i) ∗ tpadSh d (wid c i) (ft d) ∗ ∃ f, outBlk3 d (wid c i) f)

/-- The handshakes' payloads: a core's is its tasks' together. -/
def P : (K (F := F)).Pay (nD := nD) (Val := Elt F) (Name := ℕ) (U := UU) where
  st := fun q d c => bigSep Finset.univ fun i : Fin ((K (F := F)).nSub q) => goRes m ft q d c i
  dn := fun q d c => bigSep Finset.univ fun i : Fin ((K (F := F)).nSub q) => tdRes m ft q d c i
  go := fun q d c i => goRes m ft q d c i
  td := fun q d c i => tdRes m ft q d c i
  x := fun _ _ => iprop(emp)

/-- A core's operands are its tasks' operands, and its results their results. -/
theorem vecSplit (q : Fin 4) : (K (F := F)).VecSplit' (P (UU := UU) m ft) q := by
  intro d c
  show (bigSep Finset.univ fun i : Fin ((K (F := F)).nSub q) => goRes m ft q d c i)
    ⊢ |={Set.univ}=> iprop((bigSep Finset.univ fun i : Fin ((K (F := F)).nSub q) => goRes m ft q d c i)
      ∗ ((bigSep Finset.univ fun i : Fin ((K (F := F)).nSub q) => tdRes m ft q d c i)
        -∗ bigSep Finset.univ fun i : Fin ((K (F := F)).nSub q) => tdRes m ft q d c i))
  iintro H; imodintro
  isplitl [H]; · iexact H
  iintro H; iexact H

end Cert.Proof.LaunchI

end
-- ==== Proof.LaunchGhost.lean ====
/-
  The certificate's ghost state and its launch element.

  Three components side by side: the rounds of the four launch handshakes, the rounds of the TensorCore
  pipelines' staging cells, and the counters of the subcores' own transfers. The launch element is the
  handshakes' initial rounds, the staging cells' initial rounds and the unit counters. From it the launch
  funds, per device and per pipeline, the staging cells' ghost state and the duties' tokens, which @main hands
  to each pipeline at its call; the gather kernels' proofs consume nothing of it.
-/
import proofs.«204056_g19739669692900_cont_8to1_1488_31_alg».proof.Proof.LaunchPay
import proofs.«204056_g19739669692900_cont_8to1_1488_31_alg».proof.Proof.Gen.KernelIdeal.Launch

noncomputable section

namespace Cert.Proof.LaunchI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev EH : Emb UH (MT nD τ sig (HIx 4) (Elt F) ℕ UU ℕ) := embL
/-- The staging cells' rounds, inside the second component. -/
abbrev EP : Emb UP (MT nD τ sig (HIx 4) (Elt F) ℕ UU ℕ) := (Emb.inl : Emb UP (UP × Counters)).trans embR

instance EP_landsIn : (EP (F := F)).LandsIn (upEmb : UEmb _ (MT nD τ sig (HIx 4) (Elt F) ℕ UU ℕ)) := by
  unfold EP embR; infer_instance

variable [FloatOps F]
variable (m : (ℓ : Loc nD τ sig) → Buf (Elt F) ℓ)
variable (ft : (d : Dev nD) → Buf (Elt F) (tpadLoc d))

/-- The launch element. -/
def u₀ : UU :=
  (initOf (K (F := F)).hsCells (K (F := F)).hsToks, (initOf (Pipeline.cells cfgs cellOf_inj) (Pipeline.launchToks cfgs cellOf_inj), 1))

/-- What @main starts from besides its arrays: each pipeline's staging cells' ghost state and duties' tokens. -/
abbrev G (d : Dev nD) : sProp 𝕄 :=
  bigSep Finset.univ fun p : Fin 4 => iprop(Pipeline.cellsGhost cfgs (EP (F := F)) p d ∗ Pipeline.toksInit cfgs (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (P m ft).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HPp, -⟩
  imod (Pipeline.fund_ghost cfgs (EP (F := F)) cellOf_inj) $$ HPp with ⟨Hcg, Htk⟩
  imodintro
  isplitl [HH]; · iexact HH
  isplitl [Hcg Htk]
  · unfold G
    rw [show (bigSep Finset.univ fun d : Dev nD => bigSep Finset.univ fun p : Fin 4 =>
          iprop(Pipeline.cellsGhost cfgs (EP (F := F)) p d ∗ Pipeline.toksInit cfgs (EP (F := F)) p d))
        = iprop((bigSep Finset.univ fun d : Dev nD => bigSep Finset.univ fun p : Fin 4 => Pipeline.cellsGhost cfgs (EP (F := F)) p d)
          ∗ bigSep Finset.univ fun d : Dev nD => bigSep Finset.univ fun p : Fin 4 => Pipeline.toksInit cfgs (EP (F := F)) p d) from by
      rw [← bigSep_sep']; exact bigSep_congr fun d _ => bigSep_sep' _ _ _]
    isplitl [Hcg] <;> iassumption
  rw [show (bigSep Finset.univ fun thr : Thread nD τ => bigSep Finset.univ fun q : Fin 4 => (P (F := F) m ft).x q thr) = bigSep Finset.univ fun _ => iprop(emp) from
    bigSep_congr fun _ _ => bigSep_emp' _, bigSep_emp']
  iempintro

end Cert.Proof.LaunchI

end
-- ==== Proof.LaunchSplit.lean ====
/-
  A gather call's operands among its 32 tasks, and back.

  Before a call the TensorCore holds the index array, the padded table and the call's result whole. The index
  array and the table are only read: each is held at the full share, which is the 32 leaves of five halvings at
  once. The result is cut along its first axis into 32 blocks of 128 rows, pairwise disjoint and covering it.
  Worker `2 s + c` is subcore `s` of core `c`, so a product over cores and subcores is a product over workers.
  After the call the shares join to the full share again, and the 32 blocks, each at what its task wrote, are the
  whole result at some contents.
-/
import proofs.«204056_g19739669692900_cont_8to1_1488_31_alg».proof.Proof.LaunchDefs

noncomputable section

namespace Cert.Proof.LaunchI

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

variable [FloatOps F] [∀ e, Nonempty (Elt F e)]

variable (m : (ℓ : Loc nD τ sig) → Buf (Elt F) ℓ)

/-- A product over cores and subcores is the product over worker numbers. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod (fun p : Fin 2 × Fin 16 => Φ (widEquiv p))]
  rfl

theorem cats_shares (d : Dev nD) (f : Buf (Elt F) (catsLoc d)) :
    (catsLoc d ↦{fullShare} f : sProp 𝕄) = bigSep Finset.univ fun w : Fin 32 => catsLoc d ↦{sh32 w} f :=
  pointsTo_leaves Finset.univ f 5 fullShare
theorem tpad_shares (d : Dev nD) (f : Buf (Elt F) (tpadLoc d)) :
    (tpadLoc d ↦{fullShare} f : sProp 𝕄) = bigSep Finset.univ fun w : Fin 32 => tpadLoc d ↦{sh32 w} f :=
  pointsTo_leaves Finset.univ f 5 fullShare

/-! ## Call 0 -/

theorem blks0_disjoint : ∀ i ∈ (Finset.univ : Finset (Fin 32)), ∀ j ∈ (Finset.univ : Finset (Fin 32)), i ≠ j → Disjoint (blkSet0 i) (blkSet0 j) :=
  fun i _ j _ h => by rw [blkSet0_eq, blkSet0_eq]; exact Rect.part_disjoint blkDiv h
theorem blks0_cover : (Finset.univ : Finset (Fin 32)).biUnion blkSet0 = Finset.univ :=
  (Finset.biUnion_congr rfl fun i _ => blkSet0_eq i).trans (Rect.biUnion_part blkDiv)

theorem out0_blocks (d : Dev nD) (f : Buf (Elt F) (out0Loc d)) :
    (out0Loc d ↦{fullShare} f : sProp 𝕄) = bigSep Finset.univ fun w : Fin 32 => out0Loc d ↦[blkSet0 w]{fullShare} f := by
  rw [← pointsTo_biUnion Finset.univ (ℓ := out0Loc d) blkSet0 blks0_disjoint, blks0_cover]; try rfl

set_option maxRecDepth 4096 in
theorem out0_join (d : Dev nD) :
    (bigSep Finset.univ fun w : Fin 32 => iprop(∃ f, outBlk0 d w f)) ⊢ (iprop(∃ f, out0Loc d ↦{fullShare} f) : sProp 𝕄) := by
  refine (bigSep_exists_pi Finset.univ (fun w (f : Buf (Elt F) (out0Loc d)) => outBlk0 d w f)).trans ?_
  iintro ⟨%fs, H⟩
  have : Nonempty (Buf (Elt F) (out0Loc d)) := ⟨fs 0⟩
  ihave H' := (pointsTo_biUnion_join (ℓ := out0Loc d) (q := fullShare) (Val := Elt F) Finset.univ blkSet0 fs (fs 0) blks0_disjoint) $$ H
  icases H' with ⟨%g, -, Hg⟩
  rw [blks0_cover]
  iexists g; iexact Hg

/-- What the tasks of call 0 are handed, all 32 at once, from the three arrays whole. -/
theorem split0 (d : Dev nD) (ft : Buf (Elt F) (tpadLoc d)) (fo : Buf (Elt F) (out0Loc d)) :
    (iprop((catsLoc d ↦{fullShare} m (catsLoc d)) ∗ (tpadLoc d ↦{fullShare} ft) ∗ out0Loc d ↦{fullShare} fo) : sProp 𝕄)
      ⊢ bigSep Finset.univ fun c : Fin 2 => bigSep Finset.univ fun s : Fin 16 =>
          iprop(catsSh m d (wid c s) ∗ tpadSh d (wid c s) ft ∗ outBlk0 d (wid c s) fo) := by
  rw [bigSep_workers (fun w => iprop(catsSh m d w ∗ tpadSh d w ft ∗ outBlk0 d w fo)), bigSep_sep', bigSep_sep',
    cats_shares, tpad_shares, out0_blocks]

/-- What they hand back, joined: the shares whole again, the result at some contents. -/
theorem join0 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk0 d (wid c s) f))
      ⊢ (iprop((catsLoc d ↦{fullShare} m (catsLoc d)) ∗ (tpadLoc d ↦{fullShare} ft) ∗ ∃ f, out0Loc d ↦{fullShare} f) : sProp 𝕄) := by
  rw [bigSep_workers (fun w => iprop(catsSh m d w ∗ tpadSh d w ft ∗ ∃ f, outBlk0 d w f)), bigSep_sep', bigSep_sep',
    cats_shares, tpad_shares]
  iintro ⟨Hc, Ht, Ho⟩
  isplitl [Hc]; · iexact Hc
  isplitl [Ht]; · iexact Ht
  iapply (out0_join d); iexact Ho

/-! ## Call 1 -/

theorem blks1_disjoint : ∀ i ∈ (Finset.univ : Finset (Fin 32)), ∀ j ∈ (Finset.univ : Finset (Fin 32)), i ≠ j → Disjoint (blkSet1 i) (blkSet1 j) :=
  fun i _ j _ h => by rw [blkSet1_eq, blkSet1_eq]; exact Rect.part_disjoint blkDiv h
theorem blks1_cover : (Finset.univ : Finset (Fin 32)).biUnion blkSet1 = Finset.univ :=
  (Finset.biUnion_congr rfl fun i _ => blkSet1_eq i).trans (Rect.biUnion_part blkDiv)

theorem out1_blocks (d : Dev nD) (f : Buf (Elt F) (out1Loc d)) :
    (out1Loc d ↦{fullShare} f : sProp 𝕄) = bigSep Finset.univ fun w : Fin 32 => out1Loc d ↦[blkSet1 w]{fullShare} f := by
  rw [← pointsTo_biUnion Finset.univ (ℓ := out1Loc d) blkSet1 blks1_disjoint, blks1_cover]; try rfl

set_option maxRecDepth 4096 in
theorem out1_join (d : Dev nD) :
    (bigSep Finset.univ fun w : Fin 32 => iprop(∃ f, outBlk1 d w f)) ⊢ (iprop(∃ f, out1Loc d ↦{fullShare} f) : sProp 𝕄) := by
  refine (bigSep_exists_pi Finset.univ (fun w (f : Buf (Elt F) (out1Loc d)) => outBlk1 d w f)).trans ?_
  iintro ⟨%fs, H⟩
  have : Nonempty (Buf (Elt F) (out1Loc d)) := ⟨fs 0⟩
  ihave H' := (pointsTo_biUnion_join (ℓ := out1Loc d) (q := fullShare) (Val := Elt F) Finset.univ blkSet1 fs (fs 0) blks1_disjoint) $$ H
  icases H' with ⟨%g, -, Hg⟩
  rw [blks1_cover]
  iexists g; iexact Hg

/-- What the tasks of call 1 are handed, all 32 at once, from the three arrays whole. -/
theorem split1 (d : Dev nD) (ft : Buf (Elt F) (tpadLoc d)) (fo : Buf (Elt F) (out1Loc d)) :
    (iprop((catsLoc d ↦{fullShare} m (catsLoc d)) ∗ (tpadLoc d ↦{fullShare} ft) ∗ out1Loc d ↦{fullShare} fo) : sProp 𝕄)
      ⊢ bigSep Finset.univ fun c : Fin 2 => bigSep Finset.univ fun s : Fin 16 =>
          iprop(catsSh m d (wid c s) ∗ tpadSh d (wid c s) ft ∗ outBlk1 d (wid c s) fo) := by
  rw [bigSep_workers (fun w => iprop(catsSh m d w ∗ tpadSh d w ft ∗ outBlk1 d w fo)), bigSep_sep', bigSep_sep',
    cats_shares, tpad_shares, out1_blocks]

/-- What they hand back, joined: the shares whole again, the result at some contents. -/
theorem join1 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk1 d (wid c s) f))
      ⊢ (iprop((catsLoc d ↦{fullShare} m (catsLoc d)) ∗ (tpadLoc d ↦{fullShare} ft) ∗ ∃ f, out1Loc d ↦{fullShare} f) : sProp 𝕄) := by
  rw [bigSep_workers (fun w => iprop(catsSh m d w ∗ tpadSh d w ft ∗ ∃ f, outBlk1 d w f)), bigSep_sep', bigSep_sep',
    cats_shares, tpad_shares]
  iintro ⟨Hc, Ht, Ho⟩
  isplitl [Hc]; · iexact Hc
  isplitl [Ht]; · iexact Ht
  iapply (out1_join d); iexact Ho

/-! ## Call 2 -/

theorem blks2_disjoint : ∀ i ∈ (Finset.univ : Finset (Fin 32)), ∀ j ∈ (Finset.univ : Finset (Fin 32)), i ≠ j → Disjoint (blkSet2 i) (blkSet2 j) :=
  fun i _ j _ h => by rw [blkSet2_eq, blkSet2_eq]; exact Rect.part_disjoint blkDiv h
theorem blks2_cover : (Finset.univ : Finset (Fin 32)).biUnion blkSet2 = Finset.univ :=
  (Finset.biUnion_congr rfl fun i _ => blkSet2_eq i).trans (Rect.biUnion_part blkDiv)

theorem out2_blocks (d : Dev nD) (f : Buf (Elt F) (out2Loc d)) :
    (out2Loc d ↦{fullShare} f : sProp 𝕄) = bigSep Finset.univ fun w : Fin 32 => out2Loc d ↦[blkSet2 w]{fullShare} f := by
  rw [← pointsTo_biUnion Finset.univ (ℓ := out2Loc d) blkSet2 blks2_disjoint, blks2_cover]; try rfl

set_option maxRecDepth 4096 in
theorem out2_join (d : Dev nD) :
    (bigSep Finset.univ fun w : Fin 32 => iprop(∃ f, outBlk2 d w f)) ⊢ (iprop(∃ f, out2Loc d ↦{fullShare} f) : sProp 𝕄) := by
  refine (bigSep_exists_pi Finset.univ (fun w (f : Buf (Elt F) (out2Loc d)) => outBlk2 d w f)).trans ?_
  iintro ⟨%fs, H⟩
  have : Nonempty (Buf (Elt F) (out2Loc d)) := ⟨fs 0⟩
  ihave H' := (pointsTo_biUnion_join (ℓ := out2Loc d) (q := fullShare) (Val := Elt F) Finset.univ blkSet2 fs (fs 0) blks2_disjoint) $$ H
  icases H' with ⟨%g, -, Hg⟩
  rw [blks2_cover]
  iexists g; iexact Hg

/-- What the tasks of call 2 are handed, all 32 at once, from the three arrays whole. -/
theorem split2 (d : Dev nD) (ft : Buf (Elt F) (tpadLoc d)) (fo : Buf (Elt F) (out2Loc d)) :
    (iprop((catsLoc d ↦{fullShare} m (catsLoc d)) ∗ (tpadLoc d ↦{fullShare} ft) ∗ out2Loc d ↦{fullShare} fo) : sProp 𝕄)
      ⊢ bigSep Finset.univ fun c : Fin 2 => bigSep Finset.univ fun s : Fin 16 =>
          iprop(catsSh m d (wid c s) ∗ tpadSh d (wid c s) ft ∗ outBlk2 d (wid c s) fo) := by
  rw [bigSep_workers (fun w => iprop(catsSh m d w ∗ tpadSh d w ft ∗ outBlk2 d w fo)), bigSep_sep', bigSep_sep',
    cats_shares, tpad_shares, out2_blocks]

/-- What they hand back, joined: the shares whole again, the result at some contents. -/
theorem join2 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk2 d (wid c s) f))
      ⊢ (iprop((catsLoc d ↦{fullShare} m (catsLoc d)) ∗ (tpadLoc d ↦{fullShare} ft) ∗ ∃ f, out2Loc d ↦{fullShare} f) : sProp 𝕄) := by
  rw [bigSep_workers (fun w => iprop(catsSh m d w ∗ tpadSh d w ft ∗ ∃ f, outBlk2 d w f)), bigSep_sep', bigSep_sep',
    cats_shares, tpad_shares]
  iintro ⟨Hc, Ht, Ho⟩
  isplitl [Hc]; · iexact Hc
  isplitl [Ht]; · iexact Ht
  iapply (out2_join d); iexact Ho

/-! ## Call 3 -/

theorem blks3_disjoint : ∀ i ∈ (Finset.univ : Finset (Fin 32)), ∀ j ∈ (Finset.univ : Finset (Fin 32)), i ≠ j → Disjoint (blkSet3 i) (blkSet3 j) :=
  fun i _ j _ h => by rw [blkSet3_eq, blkSet3_eq]; exact Rect.part_disjoint blkDiv h
theorem blks3_cover : (Finset.univ : Finset (Fin 32)).biUnion blkSet3 = Finset.univ :=
  (Finset.biUnion_congr rfl fun i _ => blkSet3_eq i).trans (Rect.biUnion_part blkDiv)

theorem out3_blocks (d : Dev nD) (f : Buf (Elt F) (out3Loc d)) :
    (out3Loc d ↦{fullShare} f : sProp 𝕄) = bigSep Finset.univ fun w : Fin 32 => out3Loc d ↦[blkSet3 w]{fullShare} f := by
  rw [← pointsTo_biUnion Finset.univ (ℓ := out3Loc d) blkSet3 blks3_disjoint, blks3_cover]; try rfl

set_option maxRecDepth 4096 in
theorem out3_join (d : Dev nD) :
    (bigSep Finset.univ fun w : Fin 32 => iprop(∃ f, outBlk3 d w f)) ⊢ (iprop(∃ f, out3Loc d ↦{fullShare} f) : sProp 𝕄) := by
  refine (bigSep_exists_pi Finset.univ (fun w (f : Buf (Elt F) (out3Loc d)) => outBlk3 d w f)).trans ?_
  iintro ⟨%fs, H⟩
  have : Nonempty (Buf (Elt F) (out3Loc d)) := ⟨fs 0⟩
  ihave H' := (pointsTo_biUnion_join (ℓ := out3Loc d) (q := fullShare) (Val := Elt F) Finset.univ blkSet3 fs (fs 0) blks3_disjoint) $$ H
  icases H' with ⟨%g, -, Hg⟩
  rw [blks3_cover]
  iexists g; iexact Hg

/-- What the tasks of call 3 are handed, all 32 at once, from the three arrays whole. -/
theorem split3 (d : Dev nD) (ft : Buf (Elt F) (tpadLoc d)) (fo : Buf (Elt F) (out3Loc d)) :
    (iprop((catsLoc d ↦{fullShare} m (catsLoc d)) ∗ (tpadLoc d ↦{fullShare} ft) ∗ out3Loc d ↦{fullShare} fo) : sProp 𝕄)
      ⊢ bigSep Finset.univ fun c : Fin 2 => bigSep Finset.univ fun s : Fin 16 =>
          iprop(catsSh m d (wid c s) ∗ tpadSh d (wid c s) ft ∗ outBlk3 d (wid c s) fo) := by
  rw [bigSep_workers (fun w => iprop(catsSh m d w ∗ tpadSh d w ft ∗ outBlk3 d w fo)), bigSep_sep', bigSep_sep',
    cats_shares, tpad_shares, out3_blocks]

/-- What they hand back, joined: the shares whole again, the result at some contents. -/
theorem join3 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk3 d (wid c s) f))
      ⊢ (iprop((catsLoc d ↦{fullShare} m (catsLoc d)) ∗ (tpadLoc d ↦{fullShare} ft) ∗ ∃ f, out3Loc d ↦{fullShare} f) : sProp 𝕄) := by
  rw [bigSep_workers (fun w => iprop(catsSh m d w ∗ tpadSh d w ft ∗ ∃ f, outBlk3 d w f)), bigSep_sep', bigSep_sep',
    cats_shares, tpad_shares]
  iintro ⟨Hc, Ht, Ho⟩
  isplitl [Hc]; · iexact Hc
  isplitl [Ht]; · iexact Ht
  iapply (out3_join d); iexact Ho

end Cert.Proof.LaunchI

end
-- ==== Proof.LaunchHost.lean ====
/-
  The host operations of @main and the TensorCore's arrays.

  @main's eighteen arrays all live in HBM and none is scoped: the four arguments, the zero constant and its float
  conversion, the padded table, the transposed weights, the bias column, the four gather results, the four
  projection results and the final transpose. The host operations are run one at a time over all of them held
  whole; an operation changes only the array it writes.
-/
import proofs.«204056_g19739669692900_cont_8to1_1488_31_alg».proof.Proof.LaunchDefs

noncomputable section

namespace Cert.Proof.LaunchI

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

/-! ## The arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev c' : DevRef τ sig := Proc.devRef .tc (main_c : Ref sig .tc)
abbrev cf' : DevRef τ sig := Proc.devRef .tc (main_call0_v0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)

/-- The TensorCore's arrays, all unscoped. -/
abbrev S18 : Finset (DevRef τ sig) := {a0', a1', a2', a3', c', cf', v0', v1', v2', v3', v4', v5', v6', v7', v8', v9', v10', v11'}

/-! ## The host operations, as @main writes them -/

variable [FloatOps F]

abbrev opC : HloOp τ sig (Elt F) := StableHlo.nullary main_c (constantI S_ 32 0#32)
abbrev opCf : HloOp τ sig (Elt F) :=
  StableHlo.TRef.unary (.of main_c : StableHlo.TRef sig ⟨S_, .i32⟩) main_call0.v0 (sitofp .f32)
abbrev opPad : HloOp τ sig (Elt F) :=
  StableHlo.TRef.binary (.of main_arg1 : StableHlo.TRef sig ⟨S100000x64, .f32⟩) main_call0.v0 main_call0.v1
    (fun x v => pad S100000x128 ![0, 0] ![0, 64] ![0, 0] x v pads_S100000x64_S100000x128_000_0640 h_S_)
abbrev opWt : HloOp τ sig (Elt F) :=
  StableHlo.unary main_arg2 main_v1 ((transpose S64x64 [1, 0] · transposes_S64x64_S64x64_1_0) : (⟨S64x64, .f32⟩ : BufTy).Contents (Elt F) → (⟨S64x64, .f32⟩ : BufTy).Contents (Elt F))
abbrev opBc : HloOp τ sig (Elt F) := StableHlo.reshape main_arg3 main_v2 rfl shapeCasts_S64_S64x1
abbrev opId78 : HloOp τ sig (Elt F) := StableHlo.unary main_v7 main_v8 id
abbrev opId89 : HloOp τ sig (Elt F) := StableHlo.unary main_v8 main_v9 id
abbrev opId910 : HloOp τ sig (Elt F) := StableHlo.unary main_v9 main_v10 id
abbrev opOut : HloOp τ sig (Elt F) :=
  StableHlo.unary main_v10 main_v11 ((transpose S16384x50x64 [2, 0, 1] · transposes_S50x64x16384_S16384x50x64_2_0_1) : (⟨S50x64x16384, .f32⟩ : BufTy).Contents (Elt F) → (⟨S16384x50x64, .f32⟩ : BufTy).Contents (Elt F))

omit [FloatOps F] in
theorem hC : (opC (F := F)).bufs ⊆ S18 := show ({c'} : Finset (DevRef τ sig)) ⊆ S18 by decide
theorem hCf : (opCf (F := F)).bufs ⊆ S18 := show ({c', cf'} : Finset (DevRef τ sig)) ⊆ S18 by decide
theorem hPad : (opPad (F := F)).bufs ⊆ S18 := show ({a1', cf', v0'} : Finset (DevRef τ sig)) ⊆ S18 by decide
theorem hWt : (opWt (F := F)).bufs ⊆ S18 := show ({a2', v1'} : Finset (DevRef τ sig)) ⊆ S18 by decide
theorem hBc : (opBc (F := F)).bufs ⊆ S18 := show ({a3', v2'} : Finset (DevRef τ sig)) ⊆ S18 by decide
omit [FloatOps F] in
theorem hId78 : (opId78 (F := F)).bufs ⊆ S18 := show ({v7', v8'} : Finset (DevRef τ sig)) ⊆ S18 by decide
omit [FloatOps F] in
theorem hId89 : (opId89 (F := F)).bufs ⊆ S18 := show ({v8', v9'} : Finset (DevRef τ sig)) ⊆ S18 by decide
omit [FloatOps F] in
theorem hId910 : (opId910 (F := F)).bufs ⊆ S18 := show ({v9', v10'} : Finset (DevRef τ sig)) ⊆ S18 by decide
theorem hOut : (opOut (F := F)).bufs ⊆ S18 := show ({v10', v11'} : Finset (DevRef τ sig)) ⊆ S18 by decide

omit [FloatOps F] in
theorem unscoped_S18 : (Finset.univ.filter fun b : Ref sig .tc => ¬ b.isScoped)
    = {main_arg0, main_arg1, main_arg2, main_arg3, main_c, main_call0_v0, main_v0, main_v1, main_v2, main_v3, main_v4, main_v5, main_v6,
        main_v7, main_v8, main_v9, main_v10, main_v11} := by decide

end Cert.Proof.LaunchI

end
-- ==== Proof.LaunchMain.lean ====
/-
  @main on the TensorCore.

  The host operations before the gather calls run over the eighteen arrays held whole. At each gather call the
  index array, the padded table and the call's result are cut into the 32 tasks' shares and handed over, and come
  back joined, the result at what the tasks wrote. Each projection call is entered with its gathered block, the
  transposed weights, the bias column and its output array; between them the output is copied into the next
  call's. The arguments are never written: they end at their launch contents.
-/
import proofs.«204056_g19739669692900_cont_8to1_1488_31_alg».proof.Proof.LaunchGhost
import proofs.«204056_g19739669692900_cont_8to1_1488_31_alg».proof.Proof.LaunchSplit
import proofs.«204056_g19739669692900_cont_8to1_1488_31_alg».proof.Proof.LaunchHost

noncomputable section

namespace Cert.Proof.LaunchI

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev 𝒱₀ : Variants := Variants.none
abbrev 𝒱 : Variants := 𝒱₀.lift
abbrev v₀ : 𝒱.V := Sum.inl none

variable [FloatOps F] [∀ e, Nonempty (Elt F e)]
variable (m : (ℓ : Loc nD τ sig) → Buf (Elt F) ℓ) (ρ : Dev nD → PrngReg)

/-! ## The arrays held whole -/

omit [FloatOps F] [∀ e, Nonempty (Elt F e)] in
theorem held_S18 (d : Dev nD) (W : Valuation τ sig (Elt F)) :
    (held (T d) S18 W : sProp 𝕄)
      = iprop(((SparseCore.T d).loc main_arg0 ↦{fullShare} W a0')
          ∗ ((SparseCore.T d).loc main_arg1 ↦{fullShare} W a1')
          ∗ ((SparseCore.T d).loc main_arg2 ↦{fullShare} W a2')
          ∗ ((SparseCore.T d).loc main_arg3 ↦{fullShare} W a3')
          ∗ ((SparseCore.T d).loc main_c ↦{fullShare} W c')
          ∗ ((SparseCore.T d).loc main_call0_v0 ↦{fullShare} W cf')
          ∗ ((SparseCore.T d).loc main_v0 ↦{fullShare} W v0')
          ∗ ((SparseCore.T d).loc main_v1 ↦{fullShare} W v1')
          ∗ ((SparseCore.T d).loc main_v2 ↦{fullShare} W v2')
          ∗ ((SparseCore.T d).loc main_v3 ↦{fullShare} W v3')
          ∗ ((SparseCore.T d).loc main_v4 ↦{fullShare} W v4')
          ∗ ((SparseCore.T d).loc main_v5 ↦{fullShare} W v5')
          ∗ ((SparseCore.T d).loc main_v6 ↦{fullShare} W v6')
          ∗ ((SparseCore.T d).loc main_v7 ↦{fullShare} W v7')
          ∗ ((SparseCore.T d).loc main_v8 ↦{fullShare} W v8')
          ∗ ((SparseCore.T d).loc main_v9 ↦{fullShare} W v9')
          ∗ ((SparseCore.T d).loc main_v10 ↦{fullShare} W v10')
          ∗ ((SparseCore.T d).loc main_v11 ↦{fullShare} W v11')) := by
  unfold held S18
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0)
          ∗ ((SparseCore.T d).loc main_arg1 ↦{fullShare} W main_arg1)
          ∗ ((SparseCore.T d).loc main_arg2 ↦{fullShare} W main_arg2)
          ∗ ((SparseCore.T d).loc main_arg3 ↦{fullShare} W main_arg3)
          ∗ ((SparseCore.T d).loc main_c ↦{fullShare} W main_c)
          ∗ ((SparseCore.T d).loc main_call0_v0 ↦{fullShare} W main_call0_v0)
          ∗ ((SparseCore.T d).loc main_v0 ↦{fullShare} W main_v0)
          ∗ ((SparseCore.T d).loc main_v1 ↦{fullShare} W main_v1)
          ∗ ((SparseCore.T d).loc main_v2 ↦{fullShare} W main_v2)
          ∗ ((SparseCore.T d).loc main_v3 ↦{fullShare} W main_v3)
          ∗ ((SparseCore.T d).loc main_v4 ↦{fullShare} W main_v4)
          ∗ ((SparseCore.T d).loc main_v5 ↦{fullShare} W main_v5)
          ∗ ((SparseCore.T d).loc main_v6 ↦{fullShare} W main_v6)
          ∗ ((SparseCore.T d).loc main_v7 ↦{fullShare} W main_v7)
          ∗ ((SparseCore.T d).loc main_v8 ↦{fullShare} W main_v8)
          ∗ ((SparseCore.T d).loc main_v9 ↦{fullShare} W main_v9)
          ∗ ((SparseCore.T d).loc main_v10 ↦{fullShare} W main_v10)
          ∗ ((SparseCore.T d).loc main_v11 ↦{fullShare} W main_v11)) := by
  unfold unscopedBufs
  rw [unscoped_S18, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation, and the valuation when the gather calls run: the five host operations' results. -/
def V0 (d : Dev nD) : Valuation τ sig (Elt F) := fun b => m (d, b)
def V5 (d : Dev nD) : Valuation τ sig (Elt F) :=
  (opBc (F := F)).result ((opWt (F := F)).result ((opPad (F := F)).result ((opCf (F := F)).result ((opC (F := F)).result (V0 m d)))))
/-- The padded table as the gather calls find it. -/
def ftOf (d : Dev nD) : Buf (Elt F) (tpadLoc d) := V5 m d v0'

theorem unscoped_held (d : Dev nD) : (unscopedBufs d (fun b => m ((SparseCore.T d).loc b)) : sProp 𝕄) = held (T d) S18 (V0 m d) := by
  rw [unscopedBufs_eq, held_S18]; rfl

/-- An array none of the five host operations writes is at its launch contents. -/
theorem V5_keep (d : Dev nD) (b : DevRef τ sig) (h1 : b ∉ ({c'} : Finset (DevRef τ sig))) (h2 : b ∉ ({cf'} : Finset (DevRef τ sig)))
    (h3 : b ∉ ({v0'} : Finset (DevRef τ sig))) (h4 : b ∉ ({v1'} : Finset (DevRef τ sig))) (h5 : b ∉ ({v2'} : Finset (DevRef τ sig))) :
    V5 m d b = m (d, b) := by
  unfold V5
  rw [(opBc (F := F)).result_of_not_mem _ h5, (opWt (F := F)).result_of_not_mem _ h4, (opPad (F := F)).result_of_not_mem _ h3,
    (opCf (F := F)).result_of_not_mem _ h2, (opC (F := F)).result_of_not_mem _ h1]
  rfl

/-- The eighteen arrays when the gather calls run: the arguments and every result still at their launch contents. -/
theorem held_V5 (d : Dev nD) :
    (held (T d) S18 ((opBc (F := F)).result ((opWt (F := F)).result ((opPad (F := F)).result ((opCf (F := F)).result ((opC (F := F)).result (V0 m d)))))) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_c ↦{fullShare} V5 m d c')
          ∗ ((SparseCore.T d).loc main_call0_v0 ↦{fullShare} V5 m d cf')
          ∗ ((SparseCore.T d).loc main_v0 ↦{fullShare} V5 m d v0')
          ∗ ((SparseCore.T d).loc main_v1 ↦{fullShare} V5 m d v1')
          ∗ ((SparseCore.T d).loc main_v2 ↦{fullShare} V5 m d v2')
          ∗ ((SparseCore.T d).loc main_v3 ↦{fullShare} m ((SparseCore.T d).loc main_v3))
          ∗ ((SparseCore.T d).loc main_v4 ↦{fullShare} m ((SparseCore.T d).loc main_v4))
          ∗ ((SparseCore.T d).loc main_v5 ↦{fullShare} m ((SparseCore.T d).loc main_v5))
          ∗ ((SparseCore.T d).loc main_v6 ↦{fullShare} m ((SparseCore.T d).loc main_v6))
          ∗ ((SparseCore.T d).loc main_v7 ↦{fullShare} m ((SparseCore.T d).loc main_v7))
          ∗ ((SparseCore.T d).loc main_v8 ↦{fullShare} m ((SparseCore.T d).loc main_v8))
          ∗ ((SparseCore.T d).loc main_v9 ↦{fullShare} m ((SparseCore.T d).loc main_v9))
          ∗ ((SparseCore.T d).loc main_v10 ↦{fullShare} m ((SparseCore.T d).loc main_v10))
          ∗ ((SparseCore.T d).loc main_v11 ↦{fullShare} m ((SparseCore.T d).loc main_v11))) := by
  show held (SparseCore.T d) S18 (V5 m d) = _
  rw [held_S18, V5_keep m d a0' (by decide) (by decide) (by decide) (by decide) (by decide),
    V5_keep m d a1' (by decide) (by decide) (by decide) (by decide) (by decide),
    V5_keep m d a2' (by decide) (by decide) (by decide) (by decide) (by decide),
    V5_keep m d a3' (by decide) (by decide) (by decide) (by decide) (by decide),
    V5_keep m d v3' (by decide) (by decide) (by decide) (by decide) (by decide),
    V5_keep m d v4' (by decide) (by decide) (by decide) (by decide) (by decide),
    V5_keep m d v5' (by decide) (by decide) (by decide) (by decide) (by decide),
    V5_keep m d v6' (by decide) (by decide) (by decide) (by decide) (by decide),
    V5_keep m d v7' (by decide) (by decide) (by decide) (by decide) (by decide),
    V5_keep m d v8' (by decide) (by decide) (by decide) (by decide) (by decide),
    V5_keep m d v9' (by decide) (by decide) (by decide) (by decide) (by decide),
    V5_keep m d v10' (by decide) (by decide) (by decide) (by decide) (by decide),
    V5_keep m d v11' (by decide) (by decide) (by decide) (by decide) (by decide)]

/-! ## The gather calls' operands, from the arrays whole and back -/

theorem st0_of (d : Dev nD) :
    (iprop((catsLoc d ↦{fullShare} m (catsLoc d)) ∗ (tpadLoc d ↦{fullShare} ftOf m d) ∗ out0Loc d ↦{fullShare} m (out0Loc d)) : sProp 𝕄)
      ⊢ bigSep Finset.univ fun c : Fin ((K (F := F)).nCore 0) => (P (UU := UU) m (ftOf m)).st 0 d c :=
  split0 m d (ftOf m d) (m (out0Loc d))
theorem dn0_to (d : Dev nD) :
    (bigSep Finset.univ fun c : Fin ((K (F := F)).nCore 0) => (P (UU := UU) m (ftOf m)).dn 0 d c)
      ⊢ (iprop((catsLoc d ↦{fullShare} m (catsLoc d)) ∗ (tpadLoc d ↦{fullShare} ftOf m d) ∗ ∃ f, out0Loc d ↦{fullShare} f) : sProp 𝕄) :=
  join0 m d (ftOf m d)

theorem st1_of (d : Dev nD) :
    (iprop((catsLoc d ↦{fullShare} m (catsLoc d)) ∗ (tpadLoc d ↦{fullShare} ftOf m d) ∗ out1Loc d ↦{fullShare} m (out1Loc d)) : sProp 𝕄)
      ⊢ bigSep Finset.univ fun c : Fin ((K (F := F)).nCore 1) => (P (UU := UU) m (ftOf m)).st 1 d c :=
  split1 m d (ftOf m d) (m (out1Loc d))
theorem dn1_to (d : Dev nD) :
    (bigSep Finset.univ fun c : Fin ((K (F := F)).nCore 1) => (P (UU := UU) m (ftOf m)).dn 1 d c)
      ⊢ (iprop((catsLoc d ↦{fullShare} m (catsLoc d)) ∗ (tpadLoc d ↦{fullShare} ftOf m d) ∗ ∃ f, out1Loc d ↦{fullShare} f) : sProp 𝕄) :=
  join1 m d (ftOf m d)

theorem st2_of (d : Dev nD) :
    (iprop((catsLoc d ↦{fullShare} m (catsLoc d)) ∗ (tpadLoc d ↦{fullShare} ftOf m d) ∗ out2Loc d ↦{fullShare} m (out2Loc d)) : sProp 𝕄)
      ⊢ bigSep Finset.univ fun c : Fin ((K (F := F)).nCore 2) => (P (UU := UU) m (ftOf m)).st 2 d c :=
  split2 m d (ftOf m d) (m (out2Loc d))
theorem dn2_to (d : Dev nD) :
    (bigSep Finset.univ fun c : Fin ((K (F := F)).nCore 2) => (P (UU := UU) m (ftOf m)).dn 2 d c)
      ⊢ (iprop((catsLoc d ↦{fullShare} m (catsLoc d)) ∗ (tpadLoc d ↦{fullShare} ftOf m d) ∗ ∃ f, out2Loc d ↦{fullShare} f) : sProp 𝕄) :=
  join2 m d (ftOf m d)

theorem st3_of (d : Dev nD) :
    (iprop((catsLoc d ↦{fullShare} m (catsLoc d)) ∗ (tpadLoc d ↦{fullShare} ftOf m d) ∗ out3Loc d ↦{fullShare} m (out3Loc d)) : sProp 𝕄)
      ⊢ bigSep Finset.univ fun c : Fin ((K (F := F)).nCore 3) => (P (UU := UU) m (ftOf m)).st 3 d c :=
  split3 m d (ftOf m d) (m (out3Loc d))
theorem dn3_to (d : Dev nD) :
    (bigSep Finset.univ fun c : Fin ((K (F := F)).nCore 3) => (P (UU := UU) m (ftOf m)).dn 3 d c)
      ⊢ (iprop((catsLoc d ↦{fullShare} m (catsLoc d)) ∗ (tpadLoc d ↦{fullShare} ftOf m d) ∗ ∃ f, out3Loc d ↦{fullShare} f) : sProp 𝕄) :=
  join3 m d (ftOf m d)

/-! ## What @main needs of each projection call -/

/-- Pipeline `p`, entered at @main's line with its gathered input `iR`, the transposed weights, the bias column
    and its output `oR` held whole, the TensorCore owing nothing: it runs to its end, gives the inputs back
    unchanged and the output at some contents, and has recorded only waits that stay below the bound. -/
def RegionSpec (p : Fin 4) (iR oR : Ref sig .tc) : Prop :=
  ∀ (d : Dev nD) (W : Waits sig (HIx 4)), (K (F := F)).WBelow (T d) W 32 →
    ∀ (fi : Buf (Elt F) ((SparseCore.T d).loc iR)) (fw : Buf (Elt F) ((SparseCore.T d).loc main_v1))
      (fb : Buf (Elt F) ((SparseCore.T d).loc main_v2)) (fo : Buf (Elt F) ((SparseCore.T d).loc oR)) (Ψ : PUnit → sProp 𝕄),
    iprop(((boundary (T d) ∗ ((SparseCore.T d).loc iR ↦{fullShare} fi) ∗ ((SparseCore.T d).loc main_v1 ↦{fullShare} fw)
              ∗ ((SparseCore.T d).loc main_v2 ↦{fullShare} fb) ∗ (∃ g, (SparseCore.T d).loc oR ↦{fullShare} g)
              ∗ ∃ W', ⌜(K (F := F)).WBelow (T d) W' 32⌝ ∗ owes (T d) 0 W') -∗ Ψ ⟨⟩)
        ∗ boundary (T d) ∗ levAts (K (F := F)).L (K (F := F)).lev ∗ owes (T d) 0 W
        ∗ ((SparseCore.T d).loc iR ↦{fullShare} fi) ∗ ((SparseCore.T d).loc main_v1 ↦{fullShare} fw)
        ∗ ((SparseCore.T d).loc main_v2 ↦{fullShare} fb) ∗ ((SparseCore.T d).loc oR ↦{fullShare} fo)
        ∗ Pipeline.cellsGhost cfgs (EP (F := F)) p d ∗ Pipeline.toksInit cfgs (EP (F := F)) p d)
      ⊢ wp frame (wpE ((K (F := F)).defs (D (F := F))) 𝒱 (SparseCore.T d) none) Set.univ
          (Prog.lift (.customCall (SparseCore.inner (Pipeline.entry p)) ())) Ψ

/-- Two arrays held together. -/
theorem held_pair (d : Dev nD) (a b : DevRef τ sig) (hab : a ≠ b) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' (by simpa using hab), bigSep_singleton]

/-- After the last gather call the TensorCore owes nothing: its state opens to that and closes again. -/
theorem tcSt4_open (d : Dev nD) :
    ((K (F := F)).tcSt (EH (F := F)) d 4 : sProp 𝕄)
      ⊢ iprop((∃ W, ⌜(K (F := F)).WBelow (T d) W 32⌝ ∗ owes (T d) 0 W)
          ∗ ((∃ W, ⌜(K (F := F)).WBelow (T d) W 32⌝ ∗ owes (T d) 0 W) -∗ (K (F := F)).tcSt (EH (F := F)) d 4)) := by
  unfold SparseCore.Cfg.tcSt
  rw [(K (F := F)).Otc_end d (le_refl 4)]
  iintro ⟨HO, Hrest⟩
  isplitl [HO]; · iexact HO
  iintro HO
  isplitl [HO]; · iexact HO
  iexact Hrest

theorem G_eq (d : Dev nD) : (G (F := F) d : sProp 𝕄)
    = iprop((Pipeline.cellsGhost cfgs (EP (F := F)) 0 d ∗ Pipeline.toksInit cfgs (EP (F := F)) 0 d)
        ∗ (Pipeline.cellsGhost cfgs (EP (F := F)) 1 d ∗ Pipeline.toksInit cfgs (EP (F := F)) 1 d)
        ∗ (Pipeline.cellsGhost cfgs (EP (F := F)) 2 d ∗ Pipeline.toksInit cfgs (EP (F := F)) 2 d)
        ∗ (Pipeline.cellsGhost cfgs (EP (F := F)) 3 d ∗ Pipeline.toksInit cfgs (EP (F := F)) 3 d)) :=
  bigSep_W4 _

/-- What @main leaves the claim: the four arguments at their launch contents. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3)))

/-! ## @main -/

theorem held_pair_mk (d : Dev nD) (a b : DevRef τ sig) (hab : a ≠ b) (fa : Buf (Elt F) ((d, a) : Loc nD τ sig)) (fb : Buf (Elt F) ((d, b) : Loc nD τ sig)) :
    (iprop((((d, a) : Loc nD τ sig) ↦{fullShare} fa) ∗ (((d, b) : Loc nD τ sig) ↦{fullShare} fb)) : sProp 𝕄)
      ⊢ held (T d) {a, b} (Function.update (Function.update (V0 m d) a fa) b fb) := by
  rw [held_pair d a b hab, Function.update_self, Function.update_of_ne hab, Function.update_self]

theorem held_pair_out (d : Dev nD) (a b : DevRef τ sig) (hab : a ≠ b) (W : Valuation τ sig (Elt F)) :
    (held (T d) {a, b} W : sProp 𝕄) ⊢ iprop((∃ g, ((d, a) : Loc nD τ sig) ↦{fullShare} g) ∗ ∃ g, ((d, b) : Loc nD τ sig) ↦{fullShare} g) := by
  rw [held_pair d a b hab]
  iintro ⟨Ha, Hb⟩
  isplitl [Ha]
  · iexists _; iexact Ha
  · iexists _; iexact Hb

set_option maxHeartbeats 4000000 in
/-- @main on device `d`'s TensorCore, given the four projection calls' regions. -/
theorem hmain (hR0 : RegionSpec (F := F) 0 main_v3 main_v7) (hR1 : RegionSpec (F := F) 1 main_v4 main_v8)
    (hR2 : RegionSpec (F := F) 2 main_v5 main_v9) (hR3 : RegionSpec (F := F) 3 main_v6 main_v10)
    (κ : GSem nD τ sig → ℕ) (d : Dev nD) :
    iprop((K (F := F)).ctx EH (P m (ftOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  unfold SparseCore.Cfg.tcRes
  rw [unscoped_held, G_eq]
  simp only [main, fn_pad.body, wp_bind, wp_pure]
  iintro ⟨#Hctx, Hst, ⟨Hb, Hheld, -, -⟩, ⟨Hcg0, Htk0⟩, ⟨Hcg1, Htk1⟩, ⟨Hcg2, Htk2⟩, ⟨Hcg3, Htk3⟩⟩
  -- the zero, its conversion, the pad, the weights' transpose, the bias column
  iapply (wp_hlo_within 𝒱 (SparseCore.T d) none Set.univ (op := opC) (S := S18) hC (V := V0 m d)) $$ [Hb Hheld]
  · isplitl [Hb] <;> iassumption
  iintro ⟨Hb, Hheld⟩
  rw [wp_ret]; imodintro
  iapply (wp_hlo_within 𝒱 (SparseCore.T d) none Set.univ (op := opCf) (S := S18) hCf (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S18) hPad (V := (opCf (F := F)).result ((opC (F := F)).result (V0 m d)))) $$ [Hb Hheld]
  · isplitl [Hb] <;> iassumption
  iintro ⟨Hb, Hheld⟩
  rw [wp_ret]; imodintro; imodintro
  iapply (wp_hlo_within 𝒱 (SparseCore.T d) none Set.univ (op := opWt) (S := S18) hWt (V := (opPad (F := F)).result ((opCf (F := F)).result ((opC (F := F)).result (V0 m d))))) $$ [Hb Hheld]
  · isplitl [Hb] <;> iassumption
  iintro ⟨Hb, Hheld⟩
  rw [wp_ret]; imodintro
  iapply (wp_hlo_within 𝒱 (SparseCore.T d) none Set.univ (op := opBc) (S := S18) hBc (V := (opWt (F := F)).result ((opPad (F := F)).result ((opCf (F := F)).result ((opC (F := F)).result (V0 m d)))))) $$ [Hb Hheld]
  · isplitl [Hb] <;> iassumption
  iintro ⟨Hb, Hheld⟩
  rw [wp_ret]; imodintro
  ihave Hh := (Entails.of_eq (held_V5 (F := F) m d)) $$ Hheld
  icases Hh with ⟨Ha0, Ha1, Ha2, Ha3, Hc, Hcf, Hv0, Hv1, Hv2, Hv3, Hv4, Hv5, Hv6, Hv7, Hv8, Hv9, Hv10, Hv11⟩
  -- gather call 0: the index array, the padded table and the call's result to the 32 tasks and back
  iapply ((K (F := F)).wp_run (D (F := F)) 𝒱 (EH := EH) (P := P m (ftOf m)) κ d 0) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv3]
  · iapply (st0_of m d)
    isplitl [Ha0]; · iexact Ha0
    isplitl [Hv0]; · iexact Hv0
    iexact Hv3
  iintro ⟨Hst, Hdn⟩
  ihave Hdn' := (dn0_to m d) $$ Hdn
  icases Hdn' with ⟨Ha0, Hv0, ⟨%g3, Hv3⟩⟩
  -- gather call 1: the index array, the padded table and the call's result to the 32 tasks and back
  iapply ((K (F := F)).wp_run (D (F := F)) 𝒱 (EH := EH) (P := P m (ftOf m)) κ d 1) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv4]
  · iapply (st1_of m d)
    isplitl [Ha0]; · iexact Ha0
    isplitl [Hv0]; · iexact Hv0
    iexact Hv4
  iintro ⟨Hst, Hdn⟩
  ihave Hdn' := (dn1_to m d) $$ Hdn
  icases Hdn' with ⟨Ha0, Hv0, ⟨%g4, Hv4⟩⟩
  -- gather call 2: the index array, the padded table and the call's result to the 32 tasks and back
  iapply ((K (F := F)).wp_run (D (F := F)) 𝒱 (EH := EH) (P := P m (ftOf m)) κ d 2) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv5]
  · iapply (st2_of m d)
    isplitl [Ha0]; · iexact Ha0
    isplitl [Hv0]; · iexact Hv0
    iexact Hv5
  iintro ⟨Hst, Hdn⟩
  ihave Hdn' := (dn2_to m d) $$ Hdn
  icases Hdn' with ⟨Ha0, Hv0, ⟨%g5, Hv5⟩⟩
  -- gather call 3: the index array, the padded table and the call's result to the 32 tasks and back
  iapply ((K (F := F)).wp_run (D (F := F)) 𝒱 (EH := EH) (P := P m (ftOf m)) κ d 3) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv6]
  · iapply (st3_of m d)
    isplitl [Ha0]; · iexact Ha0
    isplitl [Hv0]; · iexact Hv0
    iexact Hv6
  iintro ⟨Hst, Hdn⟩
  ihave Hdn' := (dn3_to m d) $$ Hdn
  icases Hdn' with ⟨Ha0, Hv0, ⟨%g6, Hv6⟩⟩
  -- the TensorCore owes nothing from here on
  ihave Hst := (Entails.of_eq (show ((K (F := F)).tcSt (EH (F := F)) d ((3 : Fin 4).val + 1) : sProp 𝕄) = (K (F := F)).tcSt (EH (F := F)) d 4 from rfl)) $$ Hst
  ihave Ho := (tcSt4_open (F := F) d) $$ Hst
  icases Ho with ⟨⟨%W0, %hW0, HO⟩, Hclose⟩
  ihave #Hlev := ((K (F := F)).ctx_levAts (EH := EH) (P := P m (ftOf m)) κ) $$ Hctx
  -- projection call 0
  iapply (hR0 d W0 hW0 _ _ _ _ _) $$ [Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3 HO Hclose]
  isplitr [Hb HO Hv3 Hv1 Hv2 Hv7 Hcg0 Htk0]
  swap
  · isplitl [Hb]; · iexact Hb
    isplitr; · iexact Hlev
    isplitl [HO]; · iexact HO
    isplitl [Hv3]; · iexact Hv3
    isplitl [Hv1]; · iexact Hv1
    isplitl [Hv2]; · iexact Hv2
    isplitl [Hv7]; · iexact Hv7
    isplitl [Hcg0]; · iexact Hcg0
    iexact Htk0
  iintro ⟨Hb, Hv3, Hv1, Hv2, ⟨%h7, Hv7⟩, %W1, %hW1, HO⟩
  -- the output so far, copied into the next call's
  iapply (wp_hlo_within 𝒱 (SparseCore.T d) none Set.univ (op := opId78) (S := {v7', v8'}) (Finset.Subset.refl _)
      (V := Function.update (Function.update (V0 m d) v7' h7) v8' (m ((SparseCore.T d).loc main_v8)))) $$ [Hb Hv7 Hv8]
  · isplitl [Hb]; · iexact Hb
    iapply (held_pair_mk m d v7' v8' (by decide) _ _)
    isplitl [Hv7] <;> iassumption
  iintro ⟨Hb, Hheld⟩
  rw [wp_ret]; imodintro
  ihave Hp := (held_pair_out d v7' v8' (by decide) _) $$ Hheld
  icases Hp with ⟨⟨%k7, Hv7⟩, ⟨%k8, Hv8⟩⟩
  -- projection call 1
  iapply (hR1 d W1 hW1 _ _ _ _ _) $$ [Hb Ha0 Ha1 Ha2 Ha3 Hc Hcf Hv0 Hv1 Hv2 Hv3 Hv4 Hv5 Hv6 Hv7 Hv8 Hv9 Hv10 Hv11 Hcg1 Htk1 Hcg2 Htk2 Hcg3 Htk3 HO Hclose]
  isplitr [Hb HO Hv4 Hv1 Hv2 Hv8 Hcg1 Htk1]
  swap
  · isplitl [Hb]; · iexact Hb
    isplitr; · iexact Hlev
    isplitl [HO]; · iexact HO
    isplitl [Hv4]; · iexact Hv4
    isplitl [Hv1]; · iexact Hv1
    isplitl [Hv2]; · iexact Hv2
    isplitl [Hv8]; · iexact Hv8
    isplitl [Hcg1]; · iexact Hcg1
    iexact Htk1
  iintro ⟨Hb, Hv4, Hv1, Hv2, ⟨%h8, Hv8⟩, %W2, %hW2, HO⟩
  -- the output so far, copied into the next call's
  iapply (wp_hlo_within 𝒱 (SparseCore.T d) none Set.univ (op := opId89) (S := {v8', v9'}) (Finset.Subset.refl _)
      (V := Function.update (Function.update (V0 m d) v8' h8) v9' (m ((SparseCore.T d).loc main_v9)))) $$ [Hb Hv8 Hv9]
  · isplitl [Hb]; · iexact Hb
    iapply (held_pair_mk m d v8' v9' (by decide) _ _)
    isplitl [Hv8] <;> iassumption
  iintro ⟨Hb, Hheld⟩
  rw [wp_ret]; imodintro
  ihave Hp := (held_pair_out d v8' v9' (by decide) _) $$ Hheld
  icases Hp with ⟨⟨%k8, Hv8⟩, ⟨%k9, Hv9⟩⟩
  -- projection call 2
  iapply (hR2 d W2 hW2 _ _ _ _ _) $$ [Hb Ha0 Ha1 Ha2 Ha3 Hc Hcf Hv0 Hv1 Hv2 Hv3 Hv4 Hv5 Hv6 Hv7 Hv8 Hv9 Hv10 Hv11 Hcg2 Htk2 Hcg3 Htk3 HO Hclose]
  isplitr [Hb HO Hv5 Hv1 Hv2 Hv9 Hcg2 Htk2]
  swap
  · isplitl [Hb]; · iexact Hb
    isplitr; · iexact Hlev
    isplitl [HO]; · iexact HO
    isplitl [Hv5]; · iexact Hv5
    isplitl [Hv1]; · iexact Hv1
    isplitl [Hv2]; · iexact Hv2
    isplitl [Hv9]; · iexact Hv9
    isplitl [Hcg2]; · iexact Hcg2
    iexact Htk2
  iintro ⟨Hb, Hv5, Hv1, Hv2, ⟨%h9, Hv9⟩, %W3, %hW3, HO⟩
  -- the output so far, copied into the next call's
  iapply (wp_hlo_within 𝒱 (SparseCore.T d) none Set.univ (op := opId910) (S := {v9', v10'}) (Finset.Subset.refl _)
      (V := Function.update (Function.update (V0 m d) v9' h9) v10' (m ((SparseCore.T d).loc main_v10)))) $$ [Hb Hv9 Hv10]
  · isplitl [Hb]; · iexact Hb
    iapply (held_pair_mk m d v9' v10' (by decide) _ _)
    isplitl [Hv9] <;> iassumption
  iintro ⟨Hb, Hheld⟩
  rw [wp_ret]; imodintro
  ihave Hp := (held_pair_out d v9' v10' (by decide) _) $$ Hheld
  icases Hp with ⟨⟨%k9, Hv9⟩, ⟨%k10, Hv10⟩⟩
  -- projection call 3
  iapply (hR3 d W3 hW3 _ _ _ _ _) $$ [Hb Ha0 Ha1 Ha2 Ha3 Hc Hcf Hv0 Hv1 Hv2 Hv3 Hv4 Hv5 Hv6 Hv7 Hv8 Hv9 Hv10 Hv11 Hcg3 Htk3 HO Hclose]
  isplitr [Hb HO Hv6 Hv1 Hv2 Hv10 Hcg3 Htk3]
  swap
  · isplitl [Hb]; · iexact Hb
    isplitr; · iexact Hlev
    isplitl [HO]; · iexact HO
    isplitl [Hv6]; · iexact Hv6
    isplitl [Hv1]; · iexact Hv1
    isplitl [Hv2]; · iexact Hv2
    isplitl [Hv10]; · iexact Hv10
    isplitl [Hcg3]; · iexact Hcg3
    iexact Htk3
  iintro ⟨Hb, Hv6, Hv1, Hv2, ⟨%h10, Hv10⟩, %W4, %hW4, HO⟩
  -- the final transpose
  iapply (wp_hlo_within 𝒱 (SparseCore.T d) none Set.univ (op := opOut) (S := {v10', v11'}) (Finset.Subset.refl _)
      (V := Function.update (Function.update (V0 m d) v10' h10) v11' (m ((SparseCore.T d).loc main_v11)))) $$ [Hb Hv10 Hv11]
  · isplitl [Hb]; · iexact Hb
    iapply (held_pair_mk m d v10' v11' (by decide) _ _)
    isplitl [Hv10] <;> iassumption
  iintro ⟨Hb, Hheld⟩
  rw [wp_ret]; imodintro; imodintro
  isplitl [Hclose HO]
  · iapply Hclose
    iexists W4; isplitr
    · ipureintro; exact hW4
    · iexact HO
  isplitl [Ha0]; · iexact Ha0
  isplitl [Ha1]; · iexact Ha1
  isplitl [Ha2]; · iexact Ha2
  iexact Ha3

end Cert.Proof.LaunchI

end
-- ==== Proof.LaunchRun.lean ====
/-
  The program's run, from the tasks' obligations and the projection calls' regions.

  The launch theorem puts the pieces together: each gather call's task proved once at a symbolic subcore, a
  core's operands being its tasks' operands, @main on the TensorCore, and the launch element. What it yields is
  that every weakly fair execution of all 35 threads ends without a fault with the four arguments unchanged.
-/
import proofs.«204056_g19739669692900_cont_8to1_1488_31_alg».proof.Proof.LaunchMain

noncomputable section

namespace Cert.Proof.LaunchI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F] [∀ e, Nonempty (Elt F e)]
variable (m : (ℓ : Loc nD τ sig) → Buf (Elt F) ℓ) (ρ : Dev nD → PrngReg)

/-! ## The payloads can be stored in the handshakes' invariants -/

instance goRes_storable (ft : (d : Dev nD) → Buf (Elt F) (tpadLoc d)) (q : Fin 4) (d : Dev nD) (c : Fin ((K (F := F)).nCore q)) (i : Fin ((K (F := F)).nSub q)) :
    BI.Storable (upEmb : UEmb _ 𝕄) (goRes (UU := UU) m ft q d c i) := by
  match q, c, i with
  | 0, c, i => exact (inferInstance : BI.Storable (upEmb : UEmb _ 𝕄) iprop(catsSh m d (wid c i) ∗ tpadSh d (wid c i) (ft d) ∗ outBlk0 d (wid c i) (m (out0Loc d))))
  | 1, c, i => exact (inferInstance : BI.Storable (upEmb : UEmb _ 𝕄) iprop(catsSh m d (wid c i) ∗ tpadSh d (wid c i) (ft d) ∗ outBlk1 d (wid c i) (m (out1Loc d))))
  | 2, c, i => exact (inferInstance : BI.Storable (upEmb : UEmb _ 𝕄) iprop(catsSh m d (wid c i) ∗ tpadSh d (wid c i) (ft d) ∗ outBlk2 d (wid c i) (m (out2Loc d))))
  | 3, c, i => exact (inferInstance : BI.Storable (upEmb : UEmb _ 𝕄) iprop(catsSh m d (wid c i) ∗ tpadSh d (wid c i) (ft d) ∗ outBlk3 d (wid c i) (m (out3Loc d))))

instance tdRes_storable (ft : (d : Dev nD) → Buf (Elt F) (tpadLoc d)) (q : Fin 4) (d : Dev nD) (c : Fin ((K (F := F)).nCore q)) (i : Fin ((K (F := F)).nSub q)) :
    BI.Storable (upEmb : UEmb _ 𝕄) (tdRes (UU := UU) m ft q d c i) := by
  match q, c, i with
  | 0, c, i => exact (inferInstance : BI.Storable (upEmb : UEmb _ 𝕄) iprop(catsSh m d (wid c i) ∗ tpadSh d (wid c i) (ft d) ∗ ∃ f, outBlk0 d (wid c i) f))
  | 1, c, i => exact (inferInstance : BI.Storable (upEmb : UEmb _ 𝕄) iprop(catsSh m d (wid c i) ∗ tpadSh d (wid c i) (ft d) ∗ ∃ f, outBlk1 d (wid c i) f))
  | 2, c, i => exact (inferInstance : BI.Storable (upEmb : UEmb _ 𝕄) iprop(catsSh m d (wid c i) ∗ tpadSh d (wid c i) (ft d) ∗ ∃ f, outBlk2 d (wid c i) f))
  | 3, c, i => exact (inferInstance : BI.Storable (upEmb : UEmb _ 𝕄) iprop(catsSh m d (wid c i) ∗ tpadSh d (wid c i) (ft d) ∗ ∃ f, outBlk3 d (wid c i) f))

instance P_storable (ft : (d : Dev nD) → Buf (Elt F) (tpadLoc d)) : (P (UU := UU) m ft).IsStorable where
  st q d c := (inferInstance : BI.Storable (upEmb : UEmb _ 𝕄) (bigSep Finset.univ fun i : Fin ((K (F := F)).nSub q) => goRes (UU := UU) m ft q d c i))
  dn q d c := (inferInstance : BI.Storable (upEmb : UEmb _ 𝕄) (bigSep Finset.univ fun i : Fin ((K (F := F)).nSub q) => tdRes (UU := UU) m ft q d c i))
  go q d c i := goRes_storable m ft q d c i
  td q d c i := tdRes_storable m ft q d c i

/-! ## What the final memory says -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_arg3) (I := Finset.univ) (q := fullShare) (f := m ((SparseCore.T d).loc main_arg3))) $$ [HSI H3]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## The run -/

def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)

/-- Every weakly fair execution of the program's threads ends, faulting nowhere, with the arguments unchanged —
    given each gather call's task at a symbolic subcore and each projection call's region. -/
theorem run_main (hT : ∀ q : Fin 4, (K (F := F)).TileObl (D (F := F)) 𝒱 (P (UU := UU) m (ftOf m)) v₀ q)
    (hR0 : RegionSpec (F := F) 0 main_v3 main_v7) (hR1 : RegionSpec (F := F) 1 main_v4 main_v8)
    (hR2 : RegionSpec (F := F) 2 main_v5 main_v9) (hR3 : RegionSpec (F := F) 3 main_v6 main_v10) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m (ftOf m)) facts v₀
    (fun q hq => absurd ((kind_eq (F := F) q).symm.trans hq) (by decide))
    (fun q _ => hT q)
    (fun q _ => SparseCore.Cfg.VecSplit.of_plain (vecSplit m (ftOf m) q))
    m ρ main (fun d => G (F := F) d) (FIN m) (u₀ (F := F)) (sep_elim_left.trans (hu₀ m (ftOf m))) (hmain m ρ hR0 hR1 hR2 hR3) (fq m) (hfin m) (QC m) (fun _ h => h)

end Cert.Proof.LaunchI

end
-- ==== Proof.Region4Body.lean ====
/-
  The body of the first projection kernel, run once at a symbolic grid point.

  The kernel is handed four buffers held whole: a block of 512 batch entries of gathered rows
  (512 x 50 x 64), the transposed weights (64 x 64), the bias column (64 x 1) and the output block
  (50 x 64 x 512).  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.KernelIdeal.Skeleton
import Idealize.ShloMosaic.Lib.Tactic

noncomputable section

namespace Cert.Proof.Region4

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run4 (c : Dev nD) (i : grid4.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc4_body i M1 h1 M2 h2 M3 h3 M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.Region4

end
-- ==== Proof.Region4.lean ====
/-
  The first projection kernel as a region of the TensorCore's program, entered after the four gather
  calls.

  The region streams the gathered rows (4096 x 50 x 64, in eight blocks of 512 batch entries) through the
  kernel body, with the transposed weights and the bias column staged once, and writes the eight
  50 x 64 x 512 blocks of its result into columns 0 .. 4095 of the 50 x 64 x 16384 output.  Here only the
  frame is stated: the three arrays the region reads end as they began, the output array ends holding
  something, and the TensorCore, which owes nothing when the region is entered, owes nothing when it is left.
-/
import proofs.«204056_g19739669692900_cont_8to1_1488_31_alg».proof.Proof.Region4Body
import proofs.«204056_g19739669692900_cont_8to1_1488_31_alg».proof.Proof.Gen.KernelIdeal.Launch
import proofs.«204056_g19739669692900_cont_8to1_1488_31_alg».proof.Proof.Gen.KernelIdeal.Points
import Idealize.ShloMosaic.Lib.SparseCore.Threads
import Idealize.ShloMosaic.Lib.Pipeline.Regions

noncomputable section

namespace Cert.Proof.Region4

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd4 (c : Dev nD) (A : (w : Fin cfg4.W) → Buf (Elt F) ((cfg4.win w).arr.view.loc (c.tc : Thread nD τ))) :
    RDat τ (Elt F) (HIx 4) ℕ UU ℕ cfg4 c where
  A := A
  after _ _ _ _ := True
  Φ _ := Pipeline.scopedRest spec4 c
  q _ := fullShare
  owed _ := 0
  recorded _ := Bd (F := F) c

/-- The body at a grid point: from the four current staging buffers, the invariant and what the core owes, to the same
    with every buffer at some contents. -/
theorem sound_body (c : Dev nD) (A : (w : Fin cfg4.W) → Buf (Elt F) ((cfg4.win w).arr.view.loc (c.tc : Thread nD τ)))
    (t : Fin cfg4.N) (Y : (w : Fin cfg4.W) → (cfg4.win w).block.Idx → Elt F (cfg4.win w).elt) :
    iprop((rd4 (UU := UU) c A).Φ t.castSucc ∗ (rd4 (UU := UU) c A).owesAt none t.castSucc
        ∗ owns (c : Thread nD τ) (st4_0 t) fullShare (Y 0) ∗ owns (c : Thread nD τ) (st4_1 t) fullShare (Y 1)
        ∗ owns (c : Thread nD τ) (st4_2 t) fullShare (Y 2) ∗ owns (c : Thread nD τ) (st4_3 t) fullShare (Y 3))
      ⊢ wp frame (wpE (defs₀ (F := F)) 𝒱₀ c none) Set.univ (bodyAt4 t) fun _ =>
          iprop((rd4 (UU := UU) c A).Φ t.succ ∗ (rd4 (UU := UU) c A).owesAt none t.succ
            ∗ (∃ X, ⌜(rd4 (UU := UU) c A).after 0 t (Y 0) X⌝ ∗ owns (c : Thread nD τ) (st4_0 t) fullShare X)
            ∗ (∃ X, ⌜(rd4 (UU := UU) c A).after 1 t (Y 1) X⌝ ∗ owns (c : Thread nD τ) (st4_1 t) fullShare X)
            ∗ (∃ X, ⌜(rd4 (UU := UU) c A).after 2 t (Y 2) X⌝ ∗ owns (c : Thread nD τ) (st4_2 t) fullShare X)
            ∗ (∃ X, ⌜(rd4 (UU := UU) c A).after 3 t (Y 3) X⌝ ∗ owns (c : Thread nD τ) (st4_3 t) fullShare X)) := by
  rw [show (rd4 (UU := UU) c A).Φ t.succ = (rd4 (UU := UU) c A).Φ t.castSucc from rfl,
    show (rd4 (UU := UU) c A).owesAt none t.succ = (rd4 (UU := UU) c A).owesAt none t.castSucc from rfl]
  iintro ⟨HΦ, HO, H0, H1, H2, H3⟩
  ihave H0 := (owns_whole_elim (c : Thread nD τ) (st4_0 t) (hstage4_0 ((cfg4.slots t 0).cast nbuf4_0)) fullShare (Y 0)) $$ H0
  ihave H1 := (owns_whole_elim (c : Thread nD τ) (st4_1 t) (hstage4_1 ((cfg4.slots t 1).cast nbuf4_1)) fullShare (Y 1)) $$ H1
  ihave H2 := (owns_whole_elim (c : Thread nD τ) (st4_2 t) (hstage4_2 ((cfg4.slots t 2).cast nbuf4_2)) fullShare (Y 2)) $$ H2
  ihave H3 := (owns_whole_elim (c : Thread nD τ) (st4_3 t) (hstage4_3 ((cfg4.slots t 3).cast nbuf4_3)) fullShare (Y 3)) $$ H3
  icases H0 with ⟨%f0, H0⟩
  icases H1 with ⟨%f1, H1⟩
  icases H2 with ⟨%f2, H2⟩
  icases H3 with ⟨%f3, H3⟩
  iapply (run4 c (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) (st4_3 t) (hstage4_3 ((cfg4.slots t 3).cast nbuf4_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st4_0 t) (hstage4_0 ((cfg4.slots t 0).cast nbuf4_0)) fullShare f0 _ fun _ => trivial); iexact H0
  isplitl [H1]; · iapply (owns_whole_intro (c : Thread nD τ) (st4_1 t) (hstage4_1 ((cfg4.slots t 1).cast nbuf4_1)) fullShare f1 _ fun _ => trivial); iexact H1
  isplitl [H2]; · iapply (owns_whole_intro (c : Thread nD τ) (st4_2 t) (hstage4_2 ((cfg4.slots t 2).cast nbuf4_2)) fullShare f2 _ fun _ => trivial); iexact H2
  iapply (owns_whole_intro (c : Thread nD τ) (st4_3 t) (hstage4_3 ((cfg4.slots t 3).cast nbuf4_3)) fullShare f3' _ fun _ => trivial); iexact H3

/-- The library's body obligation for the region's proof data, whatever the arrays hold at entry. -/
theorem body4 (c : Dev nD) (A : (w : Fin cfg4.W) → Buf (Elt F) ((cfg4.win w).arr.view.loc (c.tc : Thread nD τ))) :
    (rd4 (UU := UU) c A).BodyObligation (defs₀ (F := F)) 𝒱₀ none Set.univ := fun t Y _ => by
  rw [bigSep_W4, bigSep_W4]
  exact sound_body c A t Y

/-! ## The region's proof data, for every pipeline and core

The library's region rule is stated over a family of proof data, one per pipeline and core, of which it reads only the one
at the pipeline and core entered. The family below is the region's data at pipeline 0 and says nothing elsewhere. -/

section Region

variable (d : Dev nD) (f3 : Buf (Elt F) ((T d : Thread nD τ).loc main_v3)) (fw : Buf (Elt F) ((T d : Thread nD τ).loc main_v1))
  (fb : Buf (Elt F) ((T d : Thread nD τ).loc main_v2)) (f7 : Buf (Elt F) ((T d : Thread nD τ).loc main_v7))

/-- The four arrays' contents when the region is entered on device `d`: the gathered rows, the transposed weights, the
    bias column, the output. -/
def A4 : (w : Fin cfg4.W) → Buf (Elt F) ((cfg4.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A4c (c : Dev nD) : (w : Fin cfg4.W) → Buf (Elt F) ((cfg4.win w).arr.view.loc (c.tc : Thread nD τ)) :=
  if h : c = d then h ▸ A4 d f3 fw fb f7 else fun _ _ => default

theorem A4c_self : A4c (F := F) d f3 fw fb f7 d = A4 d f3 fw fb f7 := by
  unfold A4c; rw [dif_pos rfl]

/-- The family: the region's data at pipeline 0, data that says nothing at the others. -/
def rdats : (p : Fin 4) → (c : Dev nD) → RDat τ (Elt F) (HIx 4) ℕ UU ℕ (Pipeline.pin (pcfgs (F := F)) adm p) c
  | ⟨0, _⟩, c => rd4 c (A4c d f3 fw fb f7 c)
  | ⟨_ + 1, _⟩, _ => { A := fun _ _ => default, after := fun _ _ _ _ => True, Φ := fun _ => iprop(emp), q := fun _ => fullShare, owed := fun _ => 0 }

theorem rdats_zero (c : Dev nD) : rdats (UU := UU) d f3 fw fb f7 0 c = rd4 c (A4c d f3 fw fb f7 c) := rfl

end Region

/-! ## The region as the library's record, and its step at @main's line -/

section Step

variable (d : Dev nD) (f3 : Buf (Elt F) ((T d : Thread nD τ).loc main_v3)) (fw : Buf (Elt F) ((T d : Thread nD τ).loc main_v1))
  (fb : Buf (Elt F) ((T d : Thread nD τ).loc main_v2)) (f7 : Buf (Elt F) ((T d : Thread nD τ).loc main_v7))

theorem share4 (c : Dev nD) (w : Fin cfg4.W) : (rdats (UU := UU) d f3 fw fb f7 0 c).share w = fullShare :=
  (rdats (UU := UU) d f3 fw fb f7 0 c).share_full (fun _ => rfl) w

/-- The region's four arrays, one by one. -/
theorem arrays4 (c : Dev nD) (G : (w : Fin cfg4.W) → Buf (Elt F) ((cfg4.win w).arr.view.loc (c.tc : Thread nD τ))) :
    ((rdats (UU := UU) d f3 fw fb f7 0 c).arrays G : sProp 𝕄)
      = iprop((((c.tc : Thread nD τ).loc main_v3) ↦{fullShare} G 0) ∗ (((c.tc : Thread nD τ).loc main_v1) ↦{fullShare} G 1)
          ∗ (((c.tc : Thread nD τ).loc main_v2) ↦{fullShare} G 2) ∗ (((c.tc : Thread nD τ).loc main_v7) ↦{fullShare} G 3)) := by
  rw [Pipeline.RDat.arrays_eq (pcfgs (F := F)) adm (rdats (UU := UU) d f3 fw fb f7) 0 c launch4.arr_whole (share4 d f3 fw fb f7 c) G, bigSep_W4]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg4 : Pipeline.RDat.RegionSeg (pcfgs (F := F)) adm (rdats (UU := UU) d f3 fw fb f7) none defs₀ 𝒱₀ (K (F := F)).L (K (F := F)).lev 0 where
  win := launch4.win.to₀
  block_pos := launch4.block_pos
  stage_whole := launch4.stage_whole
  K := PEmpty
  osem := fun k => k.elim
  ho := Pipeline.OwnSemFacts.none _
  hbody c := body4 c _
  hwaits := Pipeline.RDat.hwaits_of_owed_zero _ _ _ _ _ _ 0 fun _ _ => rfl
  pre c := iprop((rdats (UU := UU) d f3 fw fb f7 0 c).arrays (rdats (UU := UU) d f3 fw fb f7 0 c).A ∗ (rdats (UU := UU) d f3 fw fb f7 0 c).owesAt none 0)
  post c := iprop((rdats (UU := UU) d f3 fw fb f7 0 c).arraysAt cfg4.N ∗ (rdats (UU := UU) d f3 fw fb f7 0 c).owesAt none (Fin.last cfg4.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec4 c) ⊢ Pipeline.scopedRest spec4 c
    iintro ⟨-, -, Hr⟩; iexact Hr
  hout c := by
    rw [Pipeline.ownSems0_none]
    show Pipeline.scopedRest spec4 c ⊢ iprop(_ ∗ _ ∗ Pipeline.scopedRest spec4 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre4 (W : Waits sig (HIx 4)) (hW : (K (F := F)).WBelow (T d) W 32) :
    iprop(owes (T d : Thread nD τ) (0 : CellTallies nD τ sig (HIx 4)) W
        ∗ (((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7))
      ⊢ ((reg4 (UU := UU) d f3 fw fb f7).pre d : sProp 𝕄) := by
  show _ ⊢ iprop((rdats (UU := UU) d f3 fw fb f7 0 d).arrays (rdats (UU := UU) d f3 fw fb f7 0 d).A ∗ (rdats (UU := UU) d f3 fw fb f7 0 d).owesAt none 0)
  rw [arrays4, show (rdats (UU := UU) d f3 fw fb f7 0 d).A = A4 d f3 fw fb f7 from A4c_self d f3 fw fb f7]
  show _ ⊢ iprop(((((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7))
      ∗ ∃ W' : Waits sig (HIx 4), ⌜(↑W' : Set (SemLoc sig × HIx 4)) ⊆ (rdats (UU := UU) d f3 fw fb f7 0 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg4.N + 1)) (W' : Waits sig (HIx 4))
    (h : (↑W' : Set (SemLoc sig × HIx 4)) ⊆ (rdats (UU := UU) d f3 fw fb f7 0 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post4 :
    ((reg4 (UU := UU) d f3 fw fb f7).post d : sProp 𝕄)
      ⊢ iprop((((T d : Thread nD τ).loc main_v3) ↦{fullShare} f3) ∗ (((T d : Thread nD τ).loc main_v1) ↦{fullShare} fw)
        ∗ (((T d : Thread nD τ).loc main_v2) ↦{fullShare} fb) ∗ (∃ g, ((T d : Thread nD τ).loc main_v7) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 0 d).A = A4 d f3 fw fb f7 := A4c_self d f3 fw fb f7
  have e0 := (rdats (UU := UU) d f3 fw fb f7 0 d).ArrAt_in 0 rfl cfg4.N
  have e1 := (rdats (UU := UU) d f3 fw fb f7 0 d).ArrAt_in 1 rfl cfg4.N
  have e2 := (rdats (UU := UU) d f3 fw fb f7 0 d).ArrAt_in 2 rfl cfg4.N
  show iprop((rdats (UU := UU) d f3 fw fb f7 0 d).arraysAt cfg4.N
      ∗ ∃ W' : Waits sig (HIx 4), ⌜(↑W' : Set (SemLoc sig × HIx 4)) ⊆ (rdats (UU := UU) d f3 fw fb f7 0 d).bound none (Fin.last cfg4.N)⌝ ∗ owes (T d : Thread nD τ) (0 : CellTallies nD τ sig (HIx 4)) W') ⊢ _
  unfold RDat.arraysAt
  rw [bigSep_W4, e0, e1, e2, hA]
  simp only [share4, (launch4.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 0, the region's call runs
    — under any continuation — to the boundary again, the three arrays it reads unchanged, the output at some contents, and
    the TensorCore still owing nothing. -/
theorem region0 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v3) ↦{fullShare} f3) ∗ (((T d : Thread nD τ).loc main_v1) ↦{fullShare} fw)
              ∗ (((T d : Thread nD τ).loc main_v2) ↦{fullShare} fb) ∗ (∃ g, ((T d : Thread nD τ).loc main_v7) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7)
        ∗ Pipeline.cellsGhost cfgs EP 0 d ∗ Pipeline.toksInit cfgs EP 0 d)
      ⊢ wp frame (wpE ((K (F := F)).defs D) 𝒱 (T d) none) Set.univ (.op (.customCall (SparseCore.inner (Pipeline.entry 0)) ()) k) Q := by
  have hop : (Prog.op (.customCall (SparseCore.inner (Pipeline.entry 0)) ()) k : Prog (TpuEff nD τ sig (Elt F) (SparseCore.Sig (ΛP (F := F)) 4) .tc) α)
      = (SparseCore.liftProg (Q := 4) (Prog.op (.customCall (Pipeline.entry (0 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg4 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post4 d f3 fw fb f7); iexact Hpost
  isplitl [Hbd]; · iexact Hbd
  isplitl [HO H3 H1 H2 H7]
  · iapply (pre4 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.Region4

end
-- ==== Proof.Region5Body.lean ====
/-
  The body of projection kernel number 2, run once at a symbolic grid point.

  The kernel is handed four buffers held whole: a block of 512 batch entries of gathered rows
  (512 x 50 x 64), the transposed weights (64 x 64), the bias column (64 x 1) and the output block
  (50 x 64 x 512); it is also passed the previous kernel's whole output array in HBM, which it never reads or writes.  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.KernelIdeal.Skeleton
import Idealize.ShloMosaic.Lib.Tactic

noncomputable section

namespace Cert.Proof.Region5

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run5 (c : Dev nD) (i : grid5.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc5_body i M1 h1 M2 h2 M3 h3 Mp hp M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.Region5

end
-- ==== Proof.Region5.lean ====
/-
  Projection kernel number 2 as a region of the TensorCore's program, entered after the four gather
  calls and the earlier projection kernels.

  The region streams the gathered rows (4096 x 50 x 64, in eight blocks of 512 batch entries) through the
  kernel body, with the transposed weights and the bias column staged once, and writes the eight
  50 x 64 x 512 blocks of its result into columns 4096 .. 8191 of the 50 x 64 x 16384 output (a copy of the previous kernel's output).  Here only the
  frame is stated: the three arrays the region reads end as they began, the output array ends holding
  something, and the TensorCore, which owes nothing when the region is entered, owes nothing when it is left.
-/
import proofs.«204056_g19739669692900_cont_8to1_1488_31_alg».proof.Proof.Region5Body
import proofs.«204056_g19739669692900_cont_8to1_1488_31_alg».proof.Proof.Gen.KernelIdeal.Launch
import proofs.«204056_g19739669692900_cont_8to1_1488_31_alg».proof.Proof.Gen.KernelIdeal.Points
import Idealize.ShloMosaic.Lib.SparseCore.Threads
import Idealize.ShloMosaic.Lib.Pipeline.Regions

noncomputable section

namespace Cert.Proof.Region5

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd5 (c : Dev nD) (A : (w : Fin cfg5.W) → Buf (Elt F) ((cfg5.win w).arr.view.loc (c.tc : Thread nD τ))) :
    RDat τ (Elt F) (HIx 4) ℕ UU ℕ cfg5 c where
  A := A
  after _ _ _ _ := True
  Φ _ := Pipeline.scopedRest spec5 c
  q _ := fullShare
  owed _ := 0
  recorded _ := Bd (F := F) c

/-- The body at a grid point: from the four current staging buffers, the invariant and what the core owes, to the same
    with every buffer at some contents. -/
theorem sound_body (c : Dev nD) (A : (w : Fin cfg5.W) → Buf (Elt F) ((cfg5.win w).arr.view.loc (c.tc : Thread nD τ)))
    (t : Fin cfg5.N) (Y : (w : Fin cfg5.W) → (cfg5.win w).block.Idx → Elt F (cfg5.win w).elt) :
    iprop((rd5 (UU := UU) c A).Φ t.castSucc ∗ (rd5 (UU := UU) c A).owesAt none t.castSucc
        ∗ owns (c : Thread nD τ) (st5_0 t) fullShare (Y 0) ∗ owns (c : Thread nD τ) (st5_1 t) fullShare (Y 1)
        ∗ owns (c : Thread nD τ) (st5_2 t) fullShare (Y 2) ∗ owns (c : Thread nD τ) (st5_3 t) fullShare (Y 3))
      ⊢ wp frame (wpE (defs₀ (F := F)) 𝒱₀ c none) Set.univ (bodyAt5 t) fun _ =>
          iprop((rd5 (UU := UU) c A).Φ t.succ ∗ (rd5 (UU := UU) c A).owesAt none t.succ
            ∗ (∃ X, ⌜(rd5 (UU := UU) c A).after 0 t (Y 0) X⌝ ∗ owns (c : Thread nD τ) (st5_0 t) fullShare X)
            ∗ (∃ X, ⌜(rd5 (UU := UU) c A).after 1 t (Y 1) X⌝ ∗ owns (c : Thread nD τ) (st5_1 t) fullShare X)
            ∗ (∃ X, ⌜(rd5 (UU := UU) c A).after 2 t (Y 2) X⌝ ∗ owns (c : Thread nD τ) (st5_2 t) fullShare X)
            ∗ (∃ X, ⌜(rd5 (UU := UU) c A).after 3 t (Y 3) X⌝ ∗ owns (c : Thread nD τ) (st5_3 t) fullShare X)) := by
  rw [show (rd5 (UU := UU) c A).Φ t.succ = (rd5 (UU := UU) c A).Φ t.castSucc from rfl,
    show (rd5 (UU := UU) c A).owesAt none t.succ = (rd5 (UU := UU) c A).owesAt none t.castSucc from rfl]
  iintro ⟨HΦ, HO, H0, H1, H2, H3⟩
  ihave H0 := (owns_whole_elim (c : Thread nD τ) (st5_0 t) (hstage5_0 ((cfg5.slots t 0).cast nbuf5_0)) fullShare (Y 0)) $$ H0
  ihave H1 := (owns_whole_elim (c : Thread nD τ) (st5_1 t) (hstage5_1 ((cfg5.slots t 1).cast nbuf5_1)) fullShare (Y 1)) $$ H1
  ihave H2 := (owns_whole_elim (c : Thread nD τ) (st5_2 t) (hstage5_2 ((cfg5.slots t 2).cast nbuf5_2)) fullShare (Y 2)) $$ H2
  ihave H3 := (owns_whole_elim (c : Thread nD τ) (st5_3 t) (hstage5_3 ((cfg5.slots t 3).cast nbuf5_3)) fullShare (Y 3)) $$ H3
  icases H0 with ⟨%f0, H0⟩
  icases H1 with ⟨%f1, H1⟩
  icases H2 with ⟨%f2, H2⟩
  icases H3 with ⟨%f3, H3⟩
  iapply (run5 c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) (Memref.whole main_v7) (Memref.isWhole_whole _) (st5_3 t) (hstage5_3 ((cfg5.slots t 3).cast nbuf5_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st5_0 t) (hstage5_0 ((cfg5.slots t 0).cast nbuf5_0)) fullShare f0 _ fun _ => trivial); iexact H0
  isplitl [H1]; · iapply (owns_whole_intro (c : Thread nD τ) (st5_1 t) (hstage5_1 ((cfg5.slots t 1).cast nbuf5_1)) fullShare f1 _ fun _ => trivial); iexact H1
  isplitl [H2]; · iapply (owns_whole_intro (c : Thread nD τ) (st5_2 t) (hstage5_2 ((cfg5.slots t 2).cast nbuf5_2)) fullShare f2 _ fun _ => trivial); iexact H2
  iapply (owns_whole_intro (c : Thread nD τ) (st5_3 t) (hstage5_3 ((cfg5.slots t 3).cast nbuf5_3)) fullShare f3' _ fun _ => trivial); iexact H3

/-- The library's body obligation for the region's proof data, whatever the arrays hold at entry. -/
theorem body5 (c : Dev nD) (A : (w : Fin cfg5.W) → Buf (Elt F) ((cfg5.win w).arr.view.loc (c.tc : Thread nD τ))) :
    (rd5 (UU := UU) c A).BodyObligation (defs₀ (F := F)) 𝒱₀ none Set.univ := fun t Y _ => by
  rw [bigSep_W5, bigSep_W5]
  exact sound_body c A t Y

/-! ## The region's proof data, for every pipeline and core

The library's region rule is stated over a family of proof data, one per pipeline and core, of which it reads only the one
at the pipeline and core entered. The family below is the region's data at pipeline 1 and says nothing elsewhere. -/

section Region

variable (d : Dev nD) (f3 : Buf (Elt F) ((T d : Thread nD τ).loc main_v4)) (fw : Buf (Elt F) ((T d : Thread nD τ).loc main_v1))
  (fb : Buf (Elt F) ((T d : Thread nD τ).loc main_v2)) (f7 : Buf (Elt F) ((T d : Thread nD τ).loc main_v8))

/-- The four arrays' contents when the region is entered on device `d`: the gathered rows, the transposed weights, the
    bias column, the output. -/
def A5 : (w : Fin cfg5.W) → Buf (Elt F) ((cfg5.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A5c (c : Dev nD) : (w : Fin cfg5.W) → Buf (Elt F) ((cfg5.win w).arr.view.loc (c.tc : Thread nD τ)) :=
  if h : c = d then h ▸ A5 d f3 fw fb f7 else fun _ _ => default

theorem A5c_self : A5c (F := F) d f3 fw fb f7 d = A5 d f3 fw fb f7 := by
  unfold A5c; rw [dif_pos rfl]

/-- The family: the region's data at pipeline 1, data that says nothing at the others. -/
def rdats : (p : Fin 4) → (c : Dev nD) → RDat τ (Elt F) (HIx 4) ℕ UU ℕ (Pipeline.pin (pcfgs (F := F)) adm p) c
  | ⟨0, _⟩, _ => { A := fun _ _ => default, after := fun _ _ _ _ => True, Φ := fun _ => iprop(emp), q := fun _ => fullShare, owed := fun _ => 0 }
  | ⟨1, _⟩, c => rd5 c (A5c d f3 fw fb f7 c)
  | ⟨_ + 2, _⟩, _ => { A := fun _ _ => default, after := fun _ _ _ _ => True, Φ := fun _ => iprop(emp), q := fun _ => fullShare, owed := fun _ => 0 }

theorem rdats_at (c : Dev nD) : rdats (UU := UU) d f3 fw fb f7 1 c = rd5 c (A5c d f3 fw fb f7 c) := rfl

end Region

/-! ## The region as the library's record, and its step at @main's line -/

section Step

variable (d : Dev nD) (f3 : Buf (Elt F) ((T d : Thread nD τ).loc main_v4)) (fw : Buf (Elt F) ((T d : Thread nD τ).loc main_v1))
  (fb : Buf (Elt F) ((T d : Thread nD τ).loc main_v2)) (f7 : Buf (Elt F) ((T d : Thread nD τ).loc main_v8))

theorem share5 (c : Dev nD) (w : Fin cfg5.W) : (rdats (UU := UU) d f3 fw fb f7 1 c).share w = fullShare :=
  (rdats (UU := UU) d f3 fw fb f7 1 c).share_full (fun _ => rfl) w

/-- The region's four arrays, one by one. -/
theorem arrays5 (c : Dev nD) (G : (w : Fin cfg5.W) → Buf (Elt F) ((cfg5.win w).arr.view.loc (c.tc : Thread nD τ))) :
    ((rdats (UU := UU) d f3 fw fb f7 1 c).arrays G : sProp 𝕄)
      = iprop((((c.tc : Thread nD τ).loc main_v4) ↦{fullShare} G 0) ∗ (((c.tc : Thread nD τ).loc main_v1) ↦{fullShare} G 1)
          ∗ (((c.tc : Thread nD τ).loc main_v2) ↦{fullShare} G 2) ∗ (((c.tc : Thread nD τ).loc main_v8) ↦{fullShare} G 3)) := by
  rw [Pipeline.RDat.arrays_eq (pcfgs (F := F)) adm (rdats (UU := UU) d f3 fw fb f7) 1 c launch5.arr_whole (share5 d f3 fw fb f7 c) G, bigSep_W5]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg5 : Pipeline.RDat.RegionSeg (pcfgs (F := F)) adm (rdats (UU := UU) d f3 fw fb f7) none defs₀ 𝒱₀ (K (F := F)).L (K (F := F)).lev 1 where
  win := launch5.win.to₀
  block_pos := launch5.block_pos
  stage_whole := launch5.stage_whole
  K := PEmpty
  osem := fun k => k.elim
  ho := Pipeline.OwnSemFacts.none _
  hbody c := body5 c _
  hwaits := Pipeline.RDat.hwaits_of_owed_zero _ _ _ _ _ _ 1 fun _ _ => rfl
  pre c := iprop((rdats (UU := UU) d f3 fw fb f7 1 c).arrays (rdats (UU := UU) d f3 fw fb f7 1 c).A ∗ (rdats (UU := UU) d f3 fw fb f7 1 c).owesAt none 0)
  post c := iprop((rdats (UU := UU) d f3 fw fb f7 1 c).arraysAt cfg5.N ∗ (rdats (UU := UU) d f3 fw fb f7 1 c).owesAt none (Fin.last cfg5.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec5 c) ⊢ Pipeline.scopedRest spec5 c
    iintro ⟨-, -, Hr⟩; iexact Hr
  hout c := by
    rw [Pipeline.ownSems0_none]
    show Pipeline.scopedRest spec5 c ⊢ iprop(_ ∗ _ ∗ Pipeline.scopedRest spec5 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre5 (W : Waits sig (HIx 4)) (hW : (K (F := F)).WBelow (T d) W 32) :
    iprop(owes (T d : Thread nD τ) (0 : CellTallies nD τ sig (HIx 4)) W
        ∗ (((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7))
      ⊢ ((reg5 (UU := UU) d f3 fw fb f7).pre d : sProp 𝕄) := by
  show _ ⊢ iprop((rdats (UU := UU) d f3 fw fb f7 1 d).arrays (rdats (UU := UU) d f3 fw fb f7 1 d).A ∗ (rdats (UU := UU) d f3 fw fb f7 1 d).owesAt none 0)
  rw [arrays5, show (rdats (UU := UU) d f3 fw fb f7 1 d).A = A5 d f3 fw fb f7 from A5c_self d f3 fw fb f7]
  show _ ⊢ iprop(((((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7))
      ∗ ∃ W' : Waits sig (HIx 4), ⌜(↑W' : Set (SemLoc sig × HIx 4)) ⊆ (rdats (UU := UU) d f3 fw fb f7 1 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg5.N + 1)) (W' : Waits sig (HIx 4))
    (h : (↑W' : Set (SemLoc sig × HIx 4)) ⊆ (rdats (UU := UU) d f3 fw fb f7 1 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post5 :
    ((reg5 (UU := UU) d f3 fw fb f7).post d : sProp 𝕄)
      ⊢ iprop((((T d : Thread nD τ).loc main_v4) ↦{fullShare} f3) ∗ (((T d : Thread nD τ).loc main_v1) ↦{fullShare} fw)
        ∗ (((T d : Thread nD τ).loc main_v2) ↦{fullShare} fb) ∗ (∃ g, ((T d : Thread nD τ).loc main_v8) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 1 d).A = A5 d f3 fw fb f7 := A5c_self d f3 fw fb f7
  have e0 := (rdats (UU := UU) d f3 fw fb f7 1 d).ArrAt_in 0 rfl cfg5.N
  have e1 := (rdats (UU := UU) d f3 fw fb f7 1 d).ArrAt_in 1 rfl cfg5.N
  have e2 := (rdats (UU := UU) d f3 fw fb f7 1 d).ArrAt_in 2 rfl cfg5.N
  show iprop((rdats (UU := UU) d f3 fw fb f7 1 d).arraysAt cfg5.N
      ∗ ∃ W' : Waits sig (HIx 4), ⌜(↑W' : Set (SemLoc sig × HIx 4)) ⊆ (rdats (UU := UU) d f3 fw fb f7 1 d).bound none (Fin.last cfg5.N)⌝ ∗ owes (T d : Thread nD τ) (0 : CellTallies nD τ sig (HIx 4)) W') ⊢ _
  unfold RDat.arraysAt
  rw [bigSep_W5, e0, e1, e2, hA]
  simp only [share5, (launch5.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 1, the region's call runs
    — under any continuation — to the boundary again, the three arrays it reads unchanged, the output at some contents, and
    the TensorCore still owing nothing. -/
theorem region1 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v4) ↦{fullShare} f3) ∗ (((T d : Thread nD τ).loc main_v1) ↦{fullShare} fw)
              ∗ (((T d : Thread nD τ).loc main_v2) ↦{fullShare} fb) ∗ (∃ g, ((T d : Thread nD τ).loc main_v8) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7)
        ∗ Pipeline.cellsGhost cfgs EP 1 d ∗ Pipeline.toksInit cfgs EP 1 d)
      ⊢ wp frame (wpE ((K (F := F)).defs D) 𝒱 (T d) none) Set.univ (.op (.customCall (SparseCore.inner (Pipeline.entry 1)) ()) k) Q := by
  have hop : (Prog.op (.customCall (SparseCore.inner (Pipeline.entry 1)) ()) k : Prog (TpuEff nD τ sig (Elt F) (SparseCore.Sig (ΛP (F := F)) 4) .tc) α)
      = (SparseCore.liftProg (Q := 4) (Prog.op (.customCall (Pipeline.entry (1 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg5 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post5 d f3 fw fb f7); iexact Hpost
  isplitl [Hbd]; · iexact Hbd
  isplitl [HO H3 H1 H2 H7]
  · iapply (pre5 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.Region5

end
-- ==== Proof.Region6Body.lean ====
/-
  The body of projection kernel number 3, run once at a symbolic grid point.

  The kernel is handed four buffers held whole: a block of 512 batch entries of gathered rows
  (512 x 50 x 64), the transposed weights (64 x 64), the bias column (64 x 1) and the output block
  (50 x 64 x 512); it is also passed the previous kernel's whole output array in HBM, which it never reads or writes.  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.KernelIdeal.Skeleton
import Idealize.ShloMosaic.Lib.Tactic

noncomputable section

namespace Cert.Proof.Region6

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run6 (c : Dev nD) (i : grid6.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc6_body i M1 h1 M2 h2 M3 h3 Mp hp M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.Region6

end
-- ==== Proof.Region6.lean ====
/-
  Projection kernel number 3 as a region of the TensorCore's program, entered after the four gather
  calls and the earlier projection kernels.

  The region streams the gathered rows (4096 x 50 x 64, in eight blocks of 512 batch entries) through the
  kernel body, with the transposed weights and the bias column staged once, and writes the eight
  50 x 64 x 512 blocks of its result into columns 8192 .. 12287 of the 50 x 64 x 16384 output (a copy of the previous kernel's output).  Here only the
  frame is stated: the three arrays the region reads end as they began, the output array ends holding
  something, and the TensorCore, which owes nothing when the region is entered, owes nothing when it is left.
-/
import proofs.«204056_g19739669692900_cont_8to1_1488_31_alg».proof.Proof.Region6Body
import proofs.«204056_g19739669692900_cont_8to1_1488_31_alg».proof.Proof.Gen.KernelIdeal.Launch
import proofs.«204056_g19739669692900_cont_8to1_1488_31_alg».proof.Proof.Gen.KernelIdeal.Points
import Idealize.ShloMosaic.Lib.SparseCore.Threads
import Idealize.ShloMosaic.Lib.Pipeline.Regions

noncomputable section

namespace Cert.Proof.Region6

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd6 (c : Dev nD) (A : (w : Fin cfg6.W) → Buf (Elt F) ((cfg6.win w).arr.view.loc (c.tc : Thread nD τ))) :
    RDat τ (Elt F) (HIx 4) ℕ UU ℕ cfg6 c where
  A := A
  after _ _ _ _ := True
  Φ _ := Pipeline.scopedRest spec6 c
  q _ := fullShare
  owed _ := 0
  recorded _ := Bd (F := F) c

/-- The body at a grid point: from the four current staging buffers, the invariant and what the core owes, to the same
    with every buffer at some contents. -/
theorem sound_body (c : Dev nD) (A : (w : Fin cfg6.W) → Buf (Elt F) ((cfg6.win w).arr.view.loc (c.tc : Thread nD τ)))
    (t : Fin cfg6.N) (Y : (w : Fin cfg6.W) → (cfg6.win w).block.Idx → Elt F (cfg6.win w).elt) :
    iprop((rd6 (UU := UU) c A).Φ t.castSucc ∗ (rd6 (UU := UU) c A).owesAt none t.castSucc
        ∗ owns (c : Thread nD τ) (st6_0 t) fullShare (Y 0) ∗ owns (c : Thread nD τ) (st6_1 t) fullShare (Y 1)
        ∗ owns (c : Thread nD τ) (st6_2 t) fullShare (Y 2) ∗ owns (c : Thread nD τ) (st6_3 t) fullShare (Y 3))
      ⊢ wp frame (wpE (defs₀ (F := F)) 𝒱₀ c none) Set.univ (bodyAt6 t) fun _ =>
          iprop((rd6 (UU := UU) c A).Φ t.succ ∗ (rd6 (UU := UU) c A).owesAt none t.succ
            ∗ (∃ X, ⌜(rd6 (UU := UU) c A).after 0 t (Y 0) X⌝ ∗ owns (c : Thread nD τ) (st6_0 t) fullShare X)
            ∗ (∃ X, ⌜(rd6 (UU := UU) c A).after 1 t (Y 1) X⌝ ∗ owns (c : Thread nD τ) (st6_1 t) fullShare X)
            ∗ (∃ X, ⌜(rd6 (UU := UU) c A).after 2 t (Y 2) X⌝ ∗ owns (c : Thread nD τ) (st6_2 t) fullShare X)
            ∗ (∃ X, ⌜(rd6 (UU := UU) c A).after 3 t (Y 3) X⌝ ∗ owns (c : Thread nD τ) (st6_3 t) fullShare X)) := by
  rw [show (rd6 (UU := UU) c A).Φ t.succ = (rd6 (UU := UU) c A).Φ t.castSucc from rfl,
    show (rd6 (UU := UU) c A).owesAt none t.succ = (rd6 (UU := UU) c A).owesAt none t.castSucc from rfl]
  iintro ⟨HΦ, HO, H0, H1, H2, H3⟩
  ihave H0 := (owns_whole_elim (c : Thread nD τ) (st6_0 t) (hstage6_0 ((cfg6.slots t 0).cast nbuf6_0)) fullShare (Y 0)) $$ H0
  ihave H1 := (owns_whole_elim (c : Thread nD τ) (st6_1 t) (hstage6_1 ((cfg6.slots t 1).cast nbuf6_1)) fullShare (Y 1)) $$ H1
  ihave H2 := (owns_whole_elim (c : Thread nD τ) (st6_2 t) (hstage6_2 ((cfg6.slots t 2).cast nbuf6_2)) fullShare (Y 2)) $$ H2
  ihave H3 := (owns_whole_elim (c : Thread nD τ) (st6_3 t) (hstage6_3 ((cfg6.slots t 3).cast nbuf6_3)) fullShare (Y 3)) $$ H3
  icases H0 with ⟨%f0, H0⟩
  icases H1 with ⟨%f1, H1⟩
  icases H2 with ⟨%f2, H2⟩
  icases H3 with ⟨%f3, H3⟩
  iapply (run6 c (grid6.coords t) (st6_0 t) (hstage6_0 ((cfg6.slots t 0).cast nbuf6_0)) (st6_1 t) (hstage6_1 ((cfg6.slots t 1).cast nbuf6_1))
    (st6_2 t) (hstage6_2 ((cfg6.slots t 2).cast nbuf6_2)) (Memref.whole main_v8) (Memref.isWhole_whole _) (st6_3 t) (hstage6_3 ((cfg6.slots t 3).cast nbuf6_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st6_0 t) (hstage6_0 ((cfg6.slots t 0).cast nbuf6_0)) fullShare f0 _ fun _ => trivial); iexact H0
  isplitl [H1]; · iapply (owns_whole_intro (c : Thread nD τ) (st6_1 t) (hstage6_1 ((cfg6.slots t 1).cast nbuf6_1)) fullShare f1 _ fun _ => trivial); iexact H1
  isplitl [H2]; · iapply (owns_whole_intro (c : Thread nD τ) (st6_2 t) (hstage6_2 ((cfg6.slots t 2).cast nbuf6_2)) fullShare f2 _ fun _ => trivial); iexact H2
  iapply (owns_whole_intro (c : Thread nD τ) (st6_3 t) (hstage6_3 ((cfg6.slots t 3).cast nbuf6_3)) fullShare f3' _ fun _ => trivial); iexact H3

/-- The library's body obligation for the region's proof data, whatever the arrays hold at entry. -/
theorem body6 (c : Dev nD) (A : (w : Fin cfg6.W) → Buf (Elt F) ((cfg6.win w).arr.view.loc (c.tc : Thread nD τ))) :
    (rd6 (UU := UU) c A).BodyObligation (defs₀ (F := F)) 𝒱₀ none Set.univ := fun t Y _ => by
  rw [bigSep_W6, bigSep_W6]
  exact sound_body c A t Y

/-! ## The region's proof data, for every pipeline and core

The library's region rule is stated over a family of proof data, one per pipeline and core, of which it reads only the one
at the pipeline and core entered. The family below is the region's data at pipeline 2 and says nothing elsewhere. -/

section Region

variable (d : Dev nD) (f3 : Buf (Elt F) ((T d : Thread nD τ).loc main_v5)) (fw : Buf (Elt F) ((T d : Thread nD τ).loc main_v1))
  (fb : Buf (Elt F) ((T d : Thread nD τ).loc main_v2)) (f7 : Buf (Elt F) ((T d : Thread nD τ).loc main_v9))

/-- The four arrays' contents when the region is entered on device `d`: the gathered rows, the transposed weights, the
    bias column, the output. -/
def A6 : (w : Fin cfg6.W) → Buf (Elt F) ((cfg6.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A6c (c : Dev nD) : (w : Fin cfg6.W) → Buf (Elt F) ((cfg6.win w).arr.view.loc (c.tc : Thread nD τ)) :=
  if h : c = d then h ▸ A6 d f3 fw fb f7 else fun _ _ => default

theorem A6c_self : A6c (F := F) d f3 fw fb f7 d = A6 d f3 fw fb f7 := by
  unfold A6c; rw [dif_pos rfl]

/-- The family: the region's data at pipeline 2, data that says nothing at the others. -/
def rdats : (p : Fin 4) → (c : Dev nD) → RDat τ (Elt F) (HIx 4) ℕ UU ℕ (Pipeline.pin (pcfgs (F := F)) adm p) c
  | ⟨0, _⟩, _ => { A := fun _ _ => default, after := fun _ _ _ _ => True, Φ := fun _ => iprop(emp), q := fun _ => fullShare, owed := fun _ => 0 }
  | ⟨1, _⟩, _ => { A := fun _ _ => default, after := fun _ _ _ _ => True, Φ := fun _ => iprop(emp), q := fun _ => fullShare, owed := fun _ => 0 }
  | ⟨2, _⟩, c => rd6 c (A6c d f3 fw fb f7 c)
  | ⟨_ + 3, _⟩, _ => { A := fun _ _ => default, after := fun _ _ _ _ => True, Φ := fun _ => iprop(emp), q := fun _ => fullShare, owed := fun _ => 0 }

theorem rdats_at (c : Dev nD) : rdats (UU := UU) d f3 fw fb f7 2 c = rd6 c (A6c d f3 fw fb f7 c) := rfl

end Region

/-! ## The region as the library's record, and its step at @main's line -/

section Step

variable (d : Dev nD) (f3 : Buf (Elt F) ((T d : Thread nD τ).loc main_v5)) (fw : Buf (Elt F) ((T d : Thread nD τ).loc main_v1))
  (fb : Buf (Elt F) ((T d : Thread nD τ).loc main_v2)) (f7 : Buf (Elt F) ((T d : Thread nD τ).loc main_v9))

theorem share6 (c : Dev nD) (w : Fin cfg6.W) : (rdats (UU := UU) d f3 fw fb f7 2 c).share w = fullShare :=
  (rdats (UU := UU) d f3 fw fb f7 2 c).share_full (fun _ => rfl) w

/-- The region's four arrays, one by one. -/
theorem arrays6 (c : Dev nD) (G : (w : Fin cfg6.W) → Buf (Elt F) ((cfg6.win w).arr.view.loc (c.tc : Thread nD τ))) :
    ((rdats (UU := UU) d f3 fw fb f7 2 c).arrays G : sProp 𝕄)
      = iprop((((c.tc : Thread nD τ).loc main_v5) ↦{fullShare} G 0) ∗ (((c.tc : Thread nD τ).loc main_v1) ↦{fullShare} G 1)
          ∗ (((c.tc : Thread nD τ).loc main_v2) ↦{fullShare} G 2) ∗ (((c.tc : Thread nD τ).loc main_v9) ↦{fullShare} G 3)) := by
  rw [Pipeline.RDat.arrays_eq (pcfgs (F := F)) adm (rdats (UU := UU) d f3 fw fb f7) 2 c launch6.arr_whole (share6 d f3 fw fb f7 c) G, bigSep_W6]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg6 : Pipeline.RDat.RegionSeg (pcfgs (F := F)) adm (rdats (UU := UU) d f3 fw fb f7) none defs₀ 𝒱₀ (K (F := F)).L (K (F := F)).lev 2 where
  win := launch6.win.to₀
  block_pos := launch6.block_pos
  stage_whole := launch6.stage_whole
  K := PEmpty
  osem := fun k => k.elim
  ho := Pipeline.OwnSemFacts.none _
  hbody c := body6 c _
  hwaits := Pipeline.RDat.hwaits_of_owed_zero _ _ _ _ _ _ 2 fun _ _ => rfl
  pre c := iprop((rdats (UU := UU) d f3 fw fb f7 2 c).arrays (rdats (UU := UU) d f3 fw fb f7 2 c).A ∗ (rdats (UU := UU) d f3 fw fb f7 2 c).owesAt none 0)
  post c := iprop((rdats (UU := UU) d f3 fw fb f7 2 c).arraysAt cfg6.N ∗ (rdats (UU := UU) d f3 fw fb f7 2 c).owesAt none (Fin.last cfg6.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec6 c) ⊢ Pipeline.scopedRest spec6 c
    iintro ⟨-, -, Hr⟩; iexact Hr
  hout c := by
    rw [Pipeline.ownSems0_none]
    show Pipeline.scopedRest spec6 c ⊢ iprop(_ ∗ _ ∗ Pipeline.scopedRest spec6 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre6 (W : Waits sig (HIx 4)) (hW : (K (F := F)).WBelow (T d) W 32) :
    iprop(owes (T d : Thread nD τ) (0 : CellTallies nD τ sig (HIx 4)) W
        ∗ (((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7))
      ⊢ ((reg6 (UU := UU) d f3 fw fb f7).pre d : sProp 𝕄) := by
  show _ ⊢ iprop((rdats (UU := UU) d f3 fw fb f7 2 d).arrays (rdats (UU := UU) d f3 fw fb f7 2 d).A ∗ (rdats (UU := UU) d f3 fw fb f7 2 d).owesAt none 0)
  rw [arrays6, show (rdats (UU := UU) d f3 fw fb f7 2 d).A = A6 d f3 fw fb f7 from A6c_self d f3 fw fb f7]
  show _ ⊢ iprop(((((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7))
      ∗ ∃ W' : Waits sig (HIx 4), ⌜(↑W' : Set (SemLoc sig × HIx 4)) ⊆ (rdats (UU := UU) d f3 fw fb f7 2 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg6.N + 1)) (W' : Waits sig (HIx 4))
    (h : (↑W' : Set (SemLoc sig × HIx 4)) ⊆ (rdats (UU := UU) d f3 fw fb f7 2 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post6 :
    ((reg6 (UU := UU) d f3 fw fb f7).post d : sProp 𝕄)
      ⊢ iprop((((T d : Thread nD τ).loc main_v5) ↦{fullShare} f3) ∗ (((T d : Thread nD τ).loc main_v1) ↦{fullShare} fw)
        ∗ (((T d : Thread nD τ).loc main_v2) ↦{fullShare} fb) ∗ (∃ g, ((T d : Thread nD τ).loc main_v9) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 2 d).A = A6 d f3 fw fb f7 := A6c_self d f3 fw fb f7
  have e0 := (rdats (UU := UU) d f3 fw fb f7 2 d).ArrAt_in 0 rfl cfg6.N
  have e1 := (rdats (UU := UU) d f3 fw fb f7 2 d).ArrAt_in 1 rfl cfg6.N
  have e2 := (rdats (UU := UU) d f3 fw fb f7 2 d).ArrAt_in 2 rfl cfg6.N
  show iprop((rdats (UU := UU) d f3 fw fb f7 2 d).arraysAt cfg6.N
      ∗ ∃ W' : Waits sig (HIx 4), ⌜(↑W' : Set (SemLoc sig × HIx 4)) ⊆ (rdats (UU := UU) d f3 fw fb f7 2 d).bound none (Fin.last cfg6.N)⌝ ∗ owes (T d : Thread nD τ) (0 : CellTallies nD τ sig (HIx 4)) W') ⊢ _
  unfold RDat.arraysAt
  rw [bigSep_W6, e0, e1, e2, hA]
  simp only [share6, (launch6.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 2, the region's call runs
    — under any continuation — to the boundary again, the three arrays it reads unchanged, the output at some contents, and
    the TensorCore still owing nothing. -/
theorem region2 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v5) ↦{fullShare} f3) ∗ (((T d : Thread nD τ).loc main_v1) ↦{fullShare} fw)
              ∗ (((T d : Thread nD τ).loc main_v2) ↦{fullShare} fb) ∗ (∃ g, ((T d : Thread nD τ).loc main_v9) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7)
        ∗ Pipeline.cellsGhost cfgs EP 2 d ∗ Pipeline.toksInit cfgs EP 2 d)
      ⊢ wp frame (wpE ((K (F := F)).defs D) 𝒱 (T d) none) Set.univ (.op (.customCall (SparseCore.inner (Pipeline.entry 2)) ()) k) Q := by
  have hop : (Prog.op (.customCall (SparseCore.inner (Pipeline.entry 2)) ()) k : Prog (TpuEff nD τ sig (Elt F) (SparseCore.Sig (ΛP (F := F)) 4) .tc) α)
      = (SparseCore.liftProg (Q := 4) (Prog.op (.customCall (Pipeline.entry (2 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg6 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post6 d f3 fw fb f7); iexact Hpost
  isplitl [Hbd]; · iexact Hbd
  isplitl [HO H3 H1 H2 H7]
  · iapply (pre6 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.Region6

end
-- ==== Proof.Region7Body.lean ====
/-
  The body of projection kernel number 4, run once at a symbolic grid point.

  The kernel is handed four buffers held whole: a block of 512 batch entries of gathered rows
  (512 x 50 x 64), the transposed weights (64 x 64), the bias column (64 x 1) and the output block
  (50 x 64 x 512); it is also passed the previous kernel's whole output array in HBM, which it never reads or writes.  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.KernelIdeal.Skeleton
import Idealize.ShloMosaic.Lib.Tactic

noncomputable section

namespace Cert.Proof.Region7

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run7 (c : Dev nD) (i : grid7.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc7_body i M1 h1 M2 h2 M3 h3 Mp hp M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.Region7

end
-- ==== Proof.Region7.lean ====
/-
  Projection kernel number 4 as a region of the TensorCore's program, entered after the four gather
  calls and the earlier projection kernels.

  The region streams the gathered rows (4096 x 50 x 64, in eight blocks of 512 batch entries) through the
  kernel body, with the transposed weights and the bias column staged once, and writes the eight
  50 x 64 x 512 blocks of its result into columns 12288 .. 16383 of the 50 x 64 x 16384 output (a copy of the previous kernel's output).  Here only the
  frame is stated: the three arrays the region reads end as they began, the output array ends holding
  something, and the TensorCore, which owes nothing when the region is entered, owes nothing when it is left.
-/
import proofs.«204056_g19739669692900_cont_8to1_1488_31_alg».proof.Proof.Region7Body
import proofs.«204056_g19739669692900_cont_8to1_1488_31_alg».proof.Proof.Gen.KernelIdeal.Launch
import proofs.«204056_g19739669692900_cont_8to1_1488_31_alg».proof.Proof.Gen.KernelIdeal.Points
import Idealize.ShloMosaic.Lib.SparseCore.Threads
import Idealize.ShloMosaic.Lib.Pipeline.Regions

noncomputable section

namespace Cert.Proof.Region7

open Cert.KernelIdeal Cert.KernelIdeal.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd7 (c : Dev nD) (A : (w : Fin cfg7.W) → Buf (Elt F) ((cfg7.win w).arr.view.loc (c.tc : Thread nD τ))) :
    RDat τ (Elt F) (HIx 4) ℕ UU ℕ cfg7 c where
  A := A
  after _ _ _ _ := True
  Φ _ := Pipeline.scopedRest spec7 c
  q _ := fullShare
  owed _ := 0
  recorded _ := Bd (F := F) c

/-- The body at a grid point: from the four current staging buffers, the invariant and what the core owes, to the same
    with every buffer at some contents. -/
theorem sound_body (c : Dev nD) (A : (w : Fin cfg7.W) → Buf (Elt F) ((cfg7.win w).arr.view.loc (c.tc : Thread nD τ)))
    (t : Fin cfg7.N) (Y : (w : Fin cfg7.W) → (cfg7.win w).block.Idx → Elt F (cfg7.win w).elt) :
    iprop((rd7 (UU := UU) c A).Φ t.castSucc ∗ (rd7 (UU := UU) c A).owesAt none t.castSucc
        ∗ owns (c : Thread nD τ) (st7_0 t) fullShare (Y 0) ∗ owns (c : Thread nD τ) (st7_1 t) fullShare (Y 1)
        ∗ owns (c : Thread nD τ) (st7_2 t) fullShare (Y 2) ∗ owns (c : Thread nD τ) (st7_3 t) fullShare (Y 3))
      ⊢ wp frame (wpE (defs₀ (F := F)) 𝒱₀ c none) Set.univ (bodyAt7 t) fun _ =>
          iprop((rd7 (UU := UU) c A).Φ t.succ ∗ (rd7 (UU := UU) c A).owesAt none t.succ
            ∗ (∃ X, ⌜(rd7 (UU := UU) c A).after 0 t (Y 0) X⌝ ∗ owns (c : Thread nD τ) (st7_0 t) fullShare X)
            ∗ (∃ X, ⌜(rd7 (UU := UU) c A).after 1 t (Y 1) X⌝ ∗ owns (c : Thread nD τ) (st7_1 t) fullShare X)
            ∗ (∃ X, ⌜(rd7 (UU := UU) c A).after 2 t (Y 2) X⌝ ∗ owns (c : Thread nD τ) (st7_2 t) fullShare X)
            ∗ (∃ X, ⌜(rd7 (UU := UU) c A).after 3 t (Y 3) X⌝ ∗ owns (c : Thread nD τ) (st7_3 t) fullShare X)) := by
  rw [show (rd7 (UU := UU) c A).Φ t.succ = (rd7 (UU := UU) c A).Φ t.castSucc from rfl,
    show (rd7 (UU := UU) c A).owesAt none t.succ = (rd7 (UU := UU) c A).owesAt none t.castSucc from rfl]
  iintro ⟨HΦ, HO, H0, H1, H2, H3⟩
  ihave H0 := (owns_whole_elim (c : Thread nD τ) (st7_0 t) (hstage7_0 ((cfg7.slots t 0).cast nbuf7_0)) fullShare (Y 0)) $$ H0
  ihave H1 := (owns_whole_elim (c : Thread nD τ) (st7_1 t) (hstage7_1 ((cfg7.slots t 1).cast nbuf7_1)) fullShare (Y 1)) $$ H1
  ihave H2 := (owns_whole_elim (c : Thread nD τ) (st7_2 t) (hstage7_2 ((cfg7.slots t 2).cast nbuf7_2)) fullShare (Y 2)) $$ H2
  ihave H3 := (owns_whole_elim (c : Thread nD τ) (st7_3 t) (hstage7_3 ((cfg7.slots t 3).cast nbuf7_3)) fullShare (Y 3)) $$ H3
  icases H0 with ⟨%f0, H0⟩
  icases H1 with ⟨%f1, H1⟩
  icases H2 with ⟨%f2, H2⟩
  icases H3 with ⟨%f3, H3⟩
  iapply (run7 c (grid7.coords t) (st7_0 t) (hstage7_0 ((cfg7.slots t 0).cast nbuf7_0)) (st7_1 t) (hstage7_1 ((cfg7.slots t 1).cast nbuf7_1))
    (st7_2 t) (hstage7_2 ((cfg7.slots t 2).cast nbuf7_2)) (Memref.whole main_v9) (Memref.isWhole_whole _) (st7_3 t) (hstage7_3 ((cfg7.slots t 3).cast nbuf7_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st7_0 t) (hstage7_0 ((cfg7.slots t 0).cast nbuf7_0)) fullShare f0 _ fun _ => trivial); iexact H0
  isplitl [H1]; · iapply (owns_whole_intro (c : Thread nD τ) (st7_1 t) (hstage7_1 ((cfg7.slots t 1).cast nbuf7_1)) fullShare f1 _ fun _ => trivial); iexact H1
  isplitl [H2]; · iapply (owns_whole_intro (c : Thread nD τ) (st7_2 t) (hstage7_2 ((cfg7.slots t 2).cast nbuf7_2)) fullShare f2 _ fun _ => trivial); iexact H2
  iapply (owns_whole_intro (c : Thread nD τ) (st7_3 t) (hstage7_3 ((cfg7.slots t 3).cast nbuf7_3)) fullShare f3' _ fun _ => trivial); iexact H3

/-- The library's body obligation for the region's proof data, whatever the arrays hold at entry. -/
theorem body7 (c : Dev nD) (A : (w : Fin cfg7.W) → Buf (Elt F) ((cfg7.win w).arr.view.loc (c.tc : Thread nD τ))) :
    (rd7 (UU := UU) c A).BodyObligation (defs₀ (F := F)) 𝒱₀ none Set.univ := fun t Y _ => by
  rw [bigSep_W7, bigSep_W7]
  exact sound_body c A t Y

/-! ## The region's proof data, for every pipeline and core

The library's region rule is stated over a family of proof data, one per pipeline and core, of which it reads only the one
at the pipeline and core entered. The family below is the region's data at pipeline 3 and says nothing elsewhere. -/

section Region

variable (d : Dev nD) (f3 : Buf (Elt F) ((T d : Thread nD τ).loc main_v6)) (fw : Buf (Elt F) ((T d : Thread nD τ).loc main_v1))
  (fb : Buf (Elt F) ((T d : Thread nD τ).loc main_v2)) (f7 : Buf (Elt F) ((T d : Thread nD τ).loc main_v10))

/-- The four arrays' contents when the region is entered on device `d`: the gathered rows, the transposed weights, the
    bias column, the output. -/
def A7 : (w : Fin cfg7.W) → Buf (Elt F) ((cfg7.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A7c (c : Dev nD) : (w : Fin cfg7.W) → Buf (Elt F) ((cfg7.win w).arr.view.loc (c.tc : Thread nD τ)) :=
  if h : c = d then h ▸ A7 d f3 fw fb f7 else fun _ _ => default

theorem A7c_self : A7c (F := F) d f3 fw fb f7 d = A7 d f3 fw fb f7 := by
  unfold A7c; rw [dif_pos rfl]

/-- The family: the region's data at pipeline 3, data that says nothing at the others. -/
def rdats : (p : Fin 4) → (c : Dev nD) → RDat τ (Elt F) (HIx 4) ℕ UU ℕ (Pipeline.pin (pcfgs (F := F)) adm p) c
  | ⟨0, _⟩, _ => { A := fun _ _ => default, after := fun _ _ _ _ => True, Φ := fun _ => iprop(emp), q := fun _ => fullShare, owed := fun _ => 0 }
  | ⟨1, _⟩, _ => { A := fun _ _ => default, after := fun _ _ _ _ => True, Φ := fun _ => iprop(emp), q := fun _ => fullShare, owed := fun _ => 0 }
  | ⟨2, _⟩, _ => { A := fun _ _ => default, after := fun _ _ _ _ => True, Φ := fun _ => iprop(emp), q := fun _ => fullShare, owed := fun _ => 0 }
  | ⟨3, _⟩, c => rd7 c (A7c d f3 fw fb f7 c)
  | ⟨_ + 4, _⟩, _ => { A := fun _ _ => default, after := fun _ _ _ _ => True, Φ := fun _ => iprop(emp), q := fun _ => fullShare, owed := fun _ => 0 }

theorem rdats_at (c : Dev nD) : rdats (UU := UU) d f3 fw fb f7 3 c = rd7 c (A7c d f3 fw fb f7 c) := rfl

end Region

/-! ## The region as the library's record, and its step at @main's line -/

section Step

variable (d : Dev nD) (f3 : Buf (Elt F) ((T d : Thread nD τ).loc main_v6)) (fw : Buf (Elt F) ((T d : Thread nD τ).loc main_v1))
  (fb : Buf (Elt F) ((T d : Thread nD τ).loc main_v2)) (f7 : Buf (Elt F) ((T d : Thread nD τ).loc main_v10))

theorem share7 (c : Dev nD) (w : Fin cfg7.W) : (rdats (UU := UU) d f3 fw fb f7 3 c).share w = fullShare :=
  (rdats (UU := UU) d f3 fw fb f7 3 c).share_full (fun _ => rfl) w

/-- The region's four arrays, one by one. -/
theorem arrays7 (c : Dev nD) (G : (w : Fin cfg7.W) → Buf (Elt F) ((cfg7.win w).arr.view.loc (c.tc : Thread nD τ))) :
    ((rdats (UU := UU) d f3 fw fb f7 3 c).arrays G : sProp 𝕄)
      = iprop((((c.tc : Thread nD τ).loc main_v6) ↦{fullShare} G 0) ∗ (((c.tc : Thread nD τ).loc main_v1) ↦{fullShare} G 1)
          ∗ (((c.tc : Thread nD τ).loc main_v2) ↦{fullShare} G 2) ∗ (((c.tc : Thread nD τ).loc main_v10) ↦{fullShare} G 3)) := by
  rw [Pipeline.RDat.arrays_eq (pcfgs (F := F)) adm (rdats (UU := UU) d f3 fw fb f7) 3 c launch7.arr_whole (share7 d f3 fw fb f7 c) G, bigSep_W7]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg7 : Pipeline.RDat.RegionSeg (pcfgs (F := F)) adm (rdats (UU := UU) d f3 fw fb f7) none defs₀ 𝒱₀ (K (F := F)).L (K (F := F)).lev 3 where
  win := launch7.win.to₀
  block_pos := launch7.block_pos
  stage_whole := launch7.stage_whole
  K := PEmpty
  osem := fun k => k.elim
  ho := Pipeline.OwnSemFacts.none _
  hbody c := body7 c _
  hwaits := Pipeline.RDat.hwaits_of_owed_zero _ _ _ _ _ _ 3 fun _ _ => rfl
  pre c := iprop((rdats (UU := UU) d f3 fw fb f7 3 c).arrays (rdats (UU := UU) d f3 fw fb f7 3 c).A ∗ (rdats (UU := UU) d f3 fw fb f7 3 c).owesAt none 0)
  post c := iprop((rdats (UU := UU) d f3 fw fb f7 3 c).arraysAt cfg7.N ∗ (rdats (UU := UU) d f3 fw fb f7 3 c).owesAt none (Fin.last cfg7.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec7 c) ⊢ Pipeline.scopedRest spec7 c
    iintro ⟨-, -, Hr⟩; iexact Hr
  hout c := by
    rw [Pipeline.ownSems0_none]
    show Pipeline.scopedRest spec7 c ⊢ iprop(_ ∗ _ ∗ Pipeline.scopedRest spec7 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre7 (W : Waits sig (HIx 4)) (hW : (K (F := F)).WBelow (T d) W 32) :
    iprop(owes (T d : Thread nD τ) (0 : CellTallies nD τ sig (HIx 4)) W
        ∗ (((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7))
      ⊢ ((reg7 (UU := UU) d f3 fw fb f7).pre d : sProp 𝕄) := by
  show _ ⊢ iprop((rdats (UU := UU) d f3 fw fb f7 3 d).arrays (rdats (UU := UU) d f3 fw fb f7 3 d).A ∗ (rdats (UU := UU) d f3 fw fb f7 3 d).owesAt none 0)
  rw [arrays7, show (rdats (UU := UU) d f3 fw fb f7 3 d).A = A7 d f3 fw fb f7 from A7c_self d f3 fw fb f7]
  show _ ⊢ iprop(((((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7))
      ∗ ∃ W' : Waits sig (HIx 4), ⌜(↑W' : Set (SemLoc sig × HIx 4)) ⊆ (rdats (UU := UU) d f3 fw fb f7 3 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg7.N + 1)) (W' : Waits sig (HIx 4))
    (h : (↑W' : Set (SemLoc sig × HIx 4)) ⊆ (rdats (UU := UU) d f3 fw fb f7 3 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post7 :
    ((reg7 (UU := UU) d f3 fw fb f7).post d : sProp 𝕄)
      ⊢ iprop((((T d : Thread nD τ).loc main_v6) ↦{fullShare} f3) ∗ (((T d : Thread nD τ).loc main_v1) ↦{fullShare} fw)
        ∗ (((T d : Thread nD τ).loc main_v2) ↦{fullShare} fb) ∗ (∃ g, ((T d : Thread nD τ).loc main_v10) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 3 d).A = A7 d f3 fw fb f7 := A7c_self d f3 fw fb f7
  have e0 := (rdats (UU := UU) d f3 fw fb f7 3 d).ArrAt_in 0 rfl cfg7.N
  have e1 := (rdats (UU := UU) d f3 fw fb f7 3 d).ArrAt_in 1 rfl cfg7.N
  have e2 := (rdats (UU := UU) d f3 fw fb f7 3 d).ArrAt_in 2 rfl cfg7.N
  show iprop((rdats (UU := UU) d f3 fw fb f7 3 d).arraysAt cfg7.N
      ∗ ∃ W' : Waits sig (HIx 4), ⌜(↑W' : Set (SemLoc sig × HIx 4)) ⊆ (rdats (UU := UU) d f3 fw fb f7 3 d).bound none (Fin.last cfg7.N)⌝ ∗ owes (T d : Thread nD τ) (0 : CellTallies nD τ sig (HIx 4)) W') ⊢ _
  unfold RDat.arraysAt
  rw [bigSep_W7, e0, e1, e2, hA]
  simp only [share7, (launch7.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 3, the region's call runs
    — under any continuation — to the boundary again, the three arrays it reads unchanged, the output at some contents, and
    the TensorCore still owing nothing. -/
theorem region3 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v6) ↦{fullShare} f3) ∗ (((T d : Thread nD τ).loc main_v1) ↦{fullShare} fw)
              ∗ (((T d : Thread nD τ).loc main_v2) ↦{fullShare} fb) ∗ (∃ g, ((T d : Thread nD τ).loc main_v10) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7)
        ∗ Pipeline.cellsGhost cfgs EP 3 d ∗ Pipeline.toksInit cfgs EP 3 d)
      ⊢ wp frame (wpE ((K (F := F)).defs D) 𝒱 (T d) none) Set.univ (.op (.customCall (SparseCore.inner (Pipeline.entry 3)) ()) k) Q := by
  have hop : (Prog.op (.customCall (SparseCore.inner (Pipeline.entry 3)) ()) k : Prog (TpuEff nD τ sig (Elt F) (SparseCore.Sig (ΛP (F := F)) 4) .tc) α)
      = (SparseCore.liftProg (Q := 4) (Prog.op (.customCall (Pipeline.entry (3 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg7 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post7 d f3 fw fb f7); iexact Hpost
  isplitl [Hbd]; · iexact Hbd
  isplitl [HO H3 H1 H2 H7]
  · iapply (pre7 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.Region7

end
-- ==== Proof.LaunchRegions.lean ====
/-
  The projection calls' regions, in the form @main uses them.

  Each region is proved at the library's own spelling (the custom call followed by a continuation). @main's line
  is the custom call alone, followed by the rest of the program as the postcondition: the continuation is the
  immediate return.
-/
import proofs.«204056_g19739669692900_cont_8to1_1488_31_alg».proof.Proof.LaunchMain
import proofs.«204056_g19739669692900_cont_8to1_1488_31_alg».proof.Proof.Region4
import proofs.«204056_g19739669692900_cont_8to1_1488_31_alg».proof.Proof.Region5
import proofs.«204056_g19739669692900_cont_8to1_1488_31_alg».proof.Proof.Region6
import proofs.«204056_g19739669692900_cont_8to1_1488_31_alg».proof.Proof.Region7

noncomputable section

namespace Cert.Proof.LaunchI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ

variable [FloatOps F] [∀ e, Nonempty (Elt F e)]

theorem regionSpec0 : RegionSpec (F := F) 0 main_v3 main_v7 := by
  intro d W hW fi fw fb fo Ψ
  have h := Cert.Proof.Region4.region0 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpec1 : RegionSpec (F := F) 1 main_v4 main_v8 := by
  intro d W hW fi fw fb fo Ψ
  have h := Cert.Proof.Region5.region1 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpec2 : RegionSpec (F := F) 2 main_v5 main_v9 := by
  intro d W hW fi fw fb fo Ψ
  have h := Cert.Proof.Region6.region2 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpec3 : RegionSpec (F := F) 3 main_v6 main_v10 := by
  intro d W hW fi fw fb fo Ψ
  have h := Cert.Proof.Region7.region3 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

end Cert.Proof.LaunchI

end
-- ==== Proof.TileObl.lean ====
/-
  A task's proof, in the launch theorem's spelling.

  The launch theorem asks for each gather call's task as the body table's row at a vector subcore of the call's
  grid, from what the go signal carries to what the taskDone signal carries. The body table's row at such a
  subcore is the printed kernel at that subcore's grid coordinates, and the signals carry exactly the task's two
  read shares and its result block: the task's proof at symbolic coordinates is the obligation.
-/
import proofs.«204056_g19739669692900_cont_8to1_1488_31_alg».proof.Proof.LaunchMain

noncomputable section

namespace Cert.Proof.LaunchI

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

variable [FloatOps F]
variable (m : (ℓ : Loc nD τ sig) → Buf (Elt F) ℓ)

omit [FloatOps F] [CountersIn UU] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0 -/

abbrev cV0 (L : grid0.Coords) : Fin τ.nSC := (L 0).castLE hcore0
abbrev jV0 (L : grid0.Coords) : Fin τ.nSub := (L 1).castLE hsub0
omit [FloatOps F] [CountersIn UU] in
theorem bound0_zero : grid0.bound 0 = 2 := rfl
omit [FloatOps F] [CountersIn UU] in
theorem bound0_one : grid0.bound 1 = 16 := rfl
/-- The worker number of the subcore at grid coordinates `L`. -/
abbrev widL0 (L : grid0.Coords) : Fin 32 := wid (Fin.cast bound0_zero (L 0)) (Fin.cast bound0_one (L 1))

def coordsV0 (c : Fin (grid0.bound 0)) (s : Fin (grid0.bound 1)) : grid0.Coords :=
  fun | 0 => c | 1 => s | ⟨_ + 2, h⟩ => absurd h (Nat.not_lt.2 (Nat.le_add_left _ _))

/-- One task of call 0 at a symbolic subcore: from its two read shares and its result block to the same, the
    block at some contents, every scoped semaphore back at zero, only waits of its own recorded — given that
    every index word names a table row. -/
def TileBody0 : Prop :=
  ∀ (d : Dev nD), (∀ j, (m (catsLoc d) j).toNat < 100000) → ∀ (L : grid0.Coords) (ft : Buf (Elt F) (tpadLoc d)) (f0 : Buf (Elt F) (out0Loc d))
    (O : CellTallies nD τ sig (HIx 4)) (W : Waits sig (HIx 4)), (∀ g, O g none = 0) →
    iprop(levAts (K (F := F)).L (K (F := F)).lev ∗ emp
        ∗ (catsSh m d (widL0 L) ∗ tpadSh d (widL0 L) ft ∗ outBlk0 d (widL0 L) f0)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0_gk L (Memref.whole main_v0_scv) (Memref.isWhole_whole _) (Memref.whole main_arg0_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0)
          fun _ => (iprop((catsSh m d (widL0 L) ∗ tpadSh d (widL0 L) ft ∗ ∃ f, outBlk0 d (widL0 L) f)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') : sProp 𝕄)

theorem defs₀_vector0 (c : Fin τ.nSC) (s : Fin τ.nSub) :
    defs₀ (F := F) (.scVector c s) 0 ()
      = SparseCore.onTile hcore0 hsub0 (fun c s => cc0_gk (coordsV0 c s) (Memref.whole main_v0_scv) (Memref.isWhole_whole _) (Memref.whole main_arg0_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

set_option maxRecDepth 16384 in
theorem tileObl0 (ft : (d : Dev nD) → Buf (Elt F) (tpadLoc d)) (hcats : ∀ d j, (m (catsLoc d) j).toNat < 100000)
    (hbody : TileBody0 (F := F) (UU := UU) m) :
    (K (F := F)).TileObl (D (F := F)) 𝒱 (P (UU := UU) m ft) v₀ 0 := by
  intro d c i O W hO _ _
  simp only [show (P (UU := UU) m ft).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hbody d (hcats d) (coordsV0 ⟨_, hci.1⟩ ⟨_, hci.2⟩) (ft d) (m (out0Loc d)) O W hO).trans (wp_mono frame _ _ fun _ => obl_post)

/-! ## Call 1 -/

abbrev cV1 (L : grid1.Coords) : Fin τ.nSC := (L 0).castLE hcore1
abbrev jV1 (L : grid1.Coords) : Fin τ.nSub := (L 1).castLE hsub1
omit [FloatOps F] [CountersIn UU] in
theorem bound1_zero : grid1.bound 0 = 2 := rfl
omit [FloatOps F] [CountersIn UU] in
theorem bound1_one : grid1.bound 1 = 16 := rfl
/-- The worker number of the subcore at grid coordinates `L`. -/
abbrev widL1 (L : grid1.Coords) : Fin 32 := wid (Fin.cast bound1_zero (L 0)) (Fin.cast bound1_one (L 1))

def coordsV1 (c : Fin (grid1.bound 0)) (s : Fin (grid1.bound 1)) : grid1.Coords :=
  fun | 0 => c | 1 => s | ⟨_ + 2, h⟩ => absurd h (Nat.not_lt.2 (Nat.le_add_left _ _))

/-- One task of call 1 at a symbolic subcore: from its two read shares and its result block to the same, the
    block at some contents, every scoped semaphore back at zero, only waits of its own recorded — given that
    every index word names a table row. -/
def TileBody1 : Prop :=
  ∀ (d : Dev nD), (∀ j, (m (catsLoc d) j).toNat < 100000) → ∀ (L : grid1.Coords) (ft : Buf (Elt F) (tpadLoc d)) (f0 : Buf (Elt F) (out1Loc d))
    (O : CellTallies nD τ sig (HIx 4)) (W : Waits sig (HIx 4)), (∀ g, O g none = 0) →
    iprop(levAts (K (F := F)).L (K (F := F)).lev ∗ emp
        ∗ (catsSh m d (widL1 L) ∗ tpadSh d (widL1 L) ft ∗ outBlk1 d (widL1 L) f0)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1_gk L (Memref.whole main_v0_scv) (Memref.isWhole_whole _) (Memref.whole main_arg0_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0)
          fun _ => (iprop((catsSh m d (widL1 L) ∗ tpadSh d (widL1 L) ft ∗ ∃ f, outBlk1 d (widL1 L) f)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') : sProp 𝕄)

theorem defs₀_vector1 (c : Fin τ.nSC) (s : Fin τ.nSub) :
    defs₀ (F := F) (.scVector c s) 1 ()
      = SparseCore.onTile hcore1 hsub1 (fun c s => cc1_gk (coordsV1 c s) (Memref.whole main_v0_scv) (Memref.isWhole_whole _) (Memref.whole main_arg0_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0) ⟨⟩ c s := rfl

set_option maxRecDepth 16384 in
theorem tileObl1 (ft : (d : Dev nD) → Buf (Elt F) (tpadLoc d)) (hcats : ∀ d j, (m (catsLoc d) j).toNat < 100000)
    (hbody : TileBody1 (F := F) (UU := UU) m) :
    (K (F := F)).TileObl (D (F := F)) 𝒱 (P (UU := UU) m ft) v₀ 1 := by
  intro d c i O W hO _ _
  simp only [show (P (UU := UU) m ft).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hbody d (hcats d) (coordsV1 ⟨_, hci.1⟩ ⟨_, hci.2⟩) (ft d) (m (out1Loc d)) O W hO).trans (wp_mono frame _ _ fun _ => obl_post)

/-! ## Call 2 -/

abbrev cV2 (L : grid2.Coords) : Fin τ.nSC := (L 0).castLE hcore2
abbrev jV2 (L : grid2.Coords) : Fin τ.nSub := (L 1).castLE hsub2
omit [FloatOps F] [CountersIn UU] in
theorem bound2_zero : grid2.bound 0 = 2 := rfl
omit [FloatOps F] [CountersIn UU] in
theorem bound2_one : grid2.bound 1 = 16 := rfl
/-- The worker number of the subcore at grid coordinates `L`. -/
abbrev widL2 (L : grid2.Coords) : Fin 32 := wid (Fin.cast bound2_zero (L 0)) (Fin.cast bound2_one (L 1))

def coordsV2 (c : Fin (grid2.bound 0)) (s : Fin (grid2.bound 1)) : grid2.Coords :=
  fun | 0 => c | 1 => s | ⟨_ + 2, h⟩ => absurd h (Nat.not_lt.2 (Nat.le_add_left _ _))

/-- One task of call 2 at a symbolic subcore: from its two read shares and its result block to the same, the
    block at some contents, every scoped semaphore back at zero, only waits of its own recorded — given that
    every index word names a table row. -/
def TileBody2 : Prop :=
  ∀ (d : Dev nD), (∀ j, (m (catsLoc d) j).toNat < 100000) → ∀ (L : grid2.Coords) (ft : Buf (Elt F) (tpadLoc d)) (f0 : Buf (Elt F) (out2Loc d))
    (O : CellTallies nD τ sig (HIx 4)) (W : Waits sig (HIx 4)), (∀ g, O g none = 0) →
    iprop(levAts (K (F := F)).L (K (F := F)).lev ∗ emp
        ∗ (catsSh m d (widL2 L) ∗ tpadSh d (widL2 L) ft ∗ outBlk2 d (widL2 L) f0)
        ∗ scopedBufs (V d (cV2 L) (jV2 L)) ∗ scopedSems0 (V d (cV2 L) (jV2 L)) ∗ owes (V d (cV2 L) (jV2 L)) O W)
      ⊢ wp frame (wpE (defs₀ (F := F)) 𝒱₀ (V d (cV2 L) (jV2 L)) none) Set.univ
          (cc2_gk L (Memref.whole main_v0_scv) (Memref.isWhole_whole _) (Memref.whole main_arg0_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0)
          fun _ => (iprop((catsSh m d (widL2 L) ∗ tpadSh d (widL2 L) ft ∗ ∃ f, outBlk2 d (widL2 L) f)
            ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') : sProp 𝕄)

theorem defs₀_vector2 (c : Fin τ.nSC) (s : Fin τ.nSub) :
    defs₀ (F := F) (.scVector c s) 2 ()
      = SparseCore.onTile hcore2 hsub2 (fun c s => cc2_gk (coordsV2 c s) (Memref.whole main_v0_scv) (Memref.isWhole_whole _) (Memref.whole main_arg0_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0) ⟨⟩ c s := rfl

set_option maxRecDepth 16384 in
theorem tileObl2 (ft : (d : Dev nD) → Buf (Elt F) (tpadLoc d)) (hcats : ∀ d j, (m (catsLoc d) j).toNat < 100000)
    (hbody : TileBody2 (F := F) (UU := UU) m) :
    (K (F := F)).TileObl (D (F := F)) 𝒱 (P (UU := UU) m ft) v₀ 2 := by
  intro d c i O W hO _ _
  simp only [show (P (UU := UU) m ft).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (hbody d (hcats d) (coordsV2 ⟨_, hci.1⟩ ⟨_, hci.2⟩) (ft d) (m (out2Loc d)) O W hO).trans (wp_mono frame _ _ fun _ => obl_post)

/-! ## Call 3 -/

abbrev cV3 (L : grid3.Coords) : Fin τ.nSC := (L 0).castLE hcore3
abbrev jV3 (L : grid3.Coords) : Fin τ.nSub := (L 1).castLE hsub3
omit [FloatOps F] [CountersIn UU] in
theorem bound3_zero : grid3.bound 0 = 2 := rfl
omit [FloatOps F] [CountersIn UU] in
theorem bound3_one : grid3.bound 1 = 16 := rfl
/-- The worker number of the subcore at grid coordinates `L`. -/
abbrev widL3 (L : grid3.Coords) : Fin 32 := wid (Fin.cast bound3_zero (L 0)) (Fin.cast bound3_one (L 1))

def coordsV3 (c : Fin (grid3.bound 0)) (s : Fin (grid3.bound 1)) : grid3.Coords :=
  fun | 0 => c | 1 => s | ⟨_ + 2, h⟩ => absurd h (Nat.not_lt.2 (Nat.le_add_left _ _))

/-- One task of call 3 at a symbolic subcore: from its two read shares and its result block to the same, the
    block at some contents, every scoped semaphore back at zero, only waits of its own recorded — given that
    every index word names a table row. -/
def TileBody3 : Prop :=
  ∀ (d : Dev nD), (∀ j, (m (catsLoc d) j).toNat < 100000) → ∀ (L : grid3.Coords) (ft : Buf (Elt F) (tpadLoc d)) (f0 : Buf (Elt F) (out3Loc d))
    (O : CellTallies nD τ sig (HIx 4)) (W : Waits sig (HIx 4)), (∀ g, O g none = 0) →
    iprop(levAts (K (F := F)).L (K (F := F)).lev ∗ emp
        ∗ (catsSh m d (widL3 L) ∗ tpadSh d (widL3 L) ft ∗ outBlk3 d (widL3 L) f0)
        ∗ scopedBufs (V d (cV3 L) (jV3 L)) ∗ scopedSems0 (V d (cV3 L) (jV3 L)) ∗ owes (V d (cV3 L) (jV3 L)) O W)
      ⊢ wp frame (wpE (defs₀ (F := F)) 𝒱₀ (V d (cV3 L) (jV3 L)) none) Set.univ
          (cc3_gk L (Memref.whole main_v0_scv) (Memref.isWhole_whole _) (Memref.whole main_arg0_scv) (Memref.isWhole_whole _) (Memref.whole main_v6_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0)
          fun _ => (iprop((catsSh m d (widL3 L) ∗ tpadSh d (widL3 L) ft ∗ ∃ f, outBlk3 d (widL3 L) f)
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') : sProp 𝕄)

theorem defs₀_vector3 (c : Fin τ.nSC) (s : Fin τ.nSub) :
    defs₀ (F := F) (.scVector c s) 3 ()
      = SparseCore.onTile hcore3 hsub3 (fun c s => cc3_gk (coordsV3 c s) (Memref.whole main_v0_scv) (Memref.isWhole_whole _) (Memref.whole main_arg0_scv) (Memref.isWhole_whole _) (Memref.whole main_v6_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0) ⟨⟩ c s := rfl

set_option maxRecDepth 16384 in
theorem tileObl3 (ft : (d : Dev nD) → Buf (Elt F) (tpadLoc d)) (hcats : ∀ d j, (m (catsLoc d) j).toNat < 100000)
    (hbody : TileBody3 (F := F) (UU := UU) m) :
    (K (F := F)).TileObl (D (F := F)) 𝒱 (P (UU := UU) m ft) v₀ 3 := by
  intro d c i O W hO _ _
  simp only [show (P (UU := UU) m ft).ox = fun _ _ => 0 from rfl, add_zero]
  have hci : ((K (F := F)).core 3 c).val < grid3.bound 0 ∧ ((K (F := F)).sub 3 i).val < grid3.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (hbody d (hcats d) (coordsV3 ⟨_, hci.1⟩ ⟨_, hci.2⟩) (ft d) (m (out3Loc d)) O W hO).trans (wp_mono frame _ _ fun _ => obl_post)

end Cert.Proof.LaunchI

end
-- ==== Proof.Spec.lean ====
/-
  The function both programs compute, stated once over the argument arrays.

  For a batch entry `b`, a history position `l` and an output feature `o`, the result is the inner product of
  row `categories[b, l]` of the embedding table with row `o` of the weight matrix, plus the bias at `o`:
      G[b, l, o] = Σ_e table[categories[b, l], e] · W[o, e] + bias[o].
  The row number is read from the index word as a signed number clamped into `[0, 99999]`; for a word in that
  range (the precondition's range) it is the word's own value.
-/
import Idealize.ShloMosaic.PureOps.Ideal
import Idealize.ShloMosaic.Lib.ValueIdx

noncomputable section

namespace Cert.Spec

open Idealize.ShloMosaic Idealize.ShloMosaic.ValueIdx

/-- The table row an index word names: its signed value clamped into the table. -/
def rowOf (w : BitVec 32) : Fin 100000 := ⟨min w.toInt.toNat 99999, by omega⟩

/-- A word between 0 and 99999, read signed, names the row of its unsigned value. -/
theorem rowOf_val_of_range (w : BitVec 32) (h0 : 0 ≤ w.toInt) (h1 : w.toInt ≤ 99999) : (rowOf w).val = w.toNat := by
  unfold rowOf
  have e : w.toInt = (w.toNat : Int) := by
    rw [BitVec.toInt_eq_toNat_cond] at h0 h1 ⊢
    split <;> rename_i hlt
    · rfl
    · exfalso; rw [if_neg hlt] at h0; have := w.isLt; omega
  show min w.toInt.toNat 99999 = w.toNat
  rw [e] at h1 ⊢
  simp only [Int.toNat_natCast]
  omega

/-- The embedded and projected rows: `Σ_e table[row, e] · W[o, e] + bias[o]` at `[b, l, o]`, `row` the one
    `categories[b, l]` names. -/
def G (cats : IVec ⟨2, ![16384, 50]⟩ 32) (table : FVec Ideal ⟨2, ![100000, 64]⟩ .f32)
    (W : FVec Ideal ⟨2, ![64, 64]⟩ .f32) (bias : FVec Ideal ⟨1, ![64]⟩ .f32) : FVec Ideal ⟨3, ![16384, 50, 64]⟩ .f32 :=
  fun i => (∑ e : Fin 64, table (ix2 (rowOf (cats (ix2 (i 0) (i 1)))) e) * W (ix2 (i 2) e)) + bias (ix1 (i 2))

theorem G_apply (cats : IVec ⟨2, ![16384, 50]⟩ 32) (table : FVec Ideal ⟨2, ![100000, 64]⟩ .f32)
    (W : FVec Ideal ⟨2, ![64, 64]⟩ .f32) (bias : FVec Ideal ⟨1, ![64]⟩ .f32) (b : Fin 16384) (l : Fin 50) (o : Fin 64) :
    G cats table W bias (ix3 b l o) = (∑ e : Fin 64, table (ix2 (rowOf (cats (ix2 b l))) e) * W (ix2 o e)) + bias (ix1 o) := rfl

/-- The same with the factors in the kernel's order (the weight first): multiplication of extended reals commutes. -/
theorem G_apply_comm (cats : IVec ⟨2, ![16384, 50]⟩ 32) (table : FVec Ideal ⟨2, ![100000, 64]⟩ .f32)
    (W : FVec Ideal ⟨2, ![64, 64]⟩ .f32) (bias : FVec Ideal ⟨1, ![64]⟩ .f32) (b : Fin 16384) (l : Fin 50) (o : Fin 64) :
    G cats table W bias (ix3 b l o) = (∑ e : Fin 64, W (ix2 o e) * table (ix2 (rowOf (cats (ix2 b l))) e)) + bias (ix1 o) := by
  rw [G_apply]
  congr 1
  exact Finset.sum_congr rfl fun e _ => mul_comm _ _

end Cert.Spec

end
-- ==== Proof.PreRange.lean ====
/-
  The precondition, decoded once for every float instance: the printed predicate all ones says, of the index
  array, that every word lies between 0 and 99999 read signed. The predicate is a conjunction of four
  `all`s (three finiteness tests of the float arrays, and `0 ≤ i ∧ i ≤ 99999` over the index array); the
  last conjunct is a reduce by `and` over every axis, so it is one only if every element is, and an element
  being one says the two signed comparisons hold of that word.
-/
import proofs.«204056_g19739669692900_cont_8to1_1488_31_alg».proof.Pre_input_domain
import proofs.«204056_g19739669692900_cont_8to1_1488_31_alg».proof.Proof.Gen.Pre_input_domain
import Idealize.ShloMosaic.Lib.ValueIdx
import Idealize.ShloMosaic.Lib.ReduceAll

namespace Cert.Proof.PreRange

open Idealize.ShloMosaic Idealize.ShloMosaic.ValueIdx

/-- The printed precondition all ones says every index word lies between 0 and 99999, read signed. -/
theorem cats_range {F : FTy → Type} [FloatOps F] (a0 : IVec Cert.Pre_input_domain.S16384x50 32)
    (a1 : FVec F Cert.Pre_input_domain.S100000x64 .f32) (a2 : FVec F Cert.Pre_input_domain.S64x64 .f32)
    (a3 : FVec F Cert.Pre_input_domain.S64 .f32)
    (h : Cert.Pre_input_domain.fn (F := F) a0 a1 a2 a3 = fun _ => 1#1) :
    ∀ j, 0 ≤ (a0 j).toInt ∧ (a0 j).toInt ≤ 99999 := by
  intro j
  haveI : Subsingleton Cert.Pre_input_domain.S_.Idx := ⟨fun a b => funext fun d => d.elim0⟩
  have h0 := congrFun h ix0
  dsimp only [Cert.Pre_input_domain.fn, Cert.Pre_input_domain.fn_part1] at h0
  have h1 := (IntOp.andi_eq_one.1 h0).2
  have h2 := Host.reduce_andi_all _ _ _ _ _ h1 j
  have h3 := IntOp.andi_eq_one.1 h2
  have ha := IntOp.cmpi_sge.1 h3.1
  have hb := IntOp.cmpi_sle.1 h3.2
  rw [show (broadcastInDim Cert.Pre_input_domain.S16384x50 ![] Cert.Pre_input_domain.Facts.bcast_S_S16384x50
      (constantI Cert.Pre_input_domain.S_ 32 0#32) j) = 0#32 from rfl, show (0#32 : BitVec 32).toInt = 0 from rfl] at ha
  rw [show (broadcastInDim Cert.Pre_input_domain.S16384x50 ![] Cert.Pre_input_domain.Facts.bcast_S_S16384x50
      (constantI Cert.Pre_input_domain.S_ 32 99999#32) j) = 99999#32 from rfl,
    show (99999#32 : BitVec 32).toInt = 99999 from by decide] at hb
  exact ⟨ha, hb⟩

end Cert.Proof.PreRange
-- ==== Proof.PreNat.lean ====
/-
  From the precondition to the index words' range.

  The precondition says every index word, read signed, lies between 0 and 99999. Such a word's unsigned value is
  its signed value, so it is below 100000: it names a row of the table.
-/
import proofs.«204056_g19739669692900_cont_8to1_1488_31_alg».proof.Proof.Spec
import proofs.«204056_g19739669692900_cont_8to1_1488_31_alg».proof.Proof.PreRange

noncomputable section

namespace Cert.Proof.PreRange

open Idealize.ShloMosaic

/-- A word between 0 and 99999, read signed, is below 100000 read unsigned. -/
theorem toNat_lt_of_range (w : BitVec 32) (h0 : 0 ≤ w.toInt) (h1 : w.toInt ≤ 99999) : w.toNat < 100000 := by
  have e := Cert.Spec.rowOf_val_of_range w h0 h1
  have l := (Cert.Spec.rowOf w).isLt
  omega

/-- Under the precondition every index word is below 100000. -/
theorem cats_toNat_lt {F : FTy → Type} [FloatOps F] (a0 : IVec Cert.Pre_input_domain.S16384x50 32)
    (a1 : FVec F Cert.Pre_input_domain.S100000x64 .f32) (a2 : FVec F Cert.Pre_input_domain.S64x64 .f32)
    (a3 : FVec F Cert.Pre_input_domain.S64 .f32)
    (h : Cert.Pre_input_domain.fn (F := F) a0 a1 a2 a3 = fun _ => 1#1) :
    ∀ j, (a0 j).toNat < 100000 :=
  fun j => toNat_lt_of_range _ (cats_range a0 a1 a2 a3 h j).1 (cats_range a0 a1 a2 a3 h j).2

end Cert.Proof.PreRange

end
-- ==== Proof.FrameI.lean ====
/-
  The kernel program's frame, from the four tasks' bodies.

  Under the precondition every index word names a table row, so each task's proof applies; the tasks'
  obligations, the projection calls' regions and @main give the run of all the threads, the arguments unchanged.
-/
import proofs.«204056_g19739669692900_cont_8to1_1488_31_alg».proof.Proof.LaunchRun
import proofs.«204056_g19739669692900_cont_8to1_1488_31_alg».proof.Proof.LaunchRegions
import proofs.«204056_g19739669692900_cont_8to1_1488_31_alg».proof.Proof.TileObl
import proofs.«204056_g19739669692900_cont_8to1_1488_31_alg».proof.Proof.PreNat
import proofs.«204056_g19739669692900_cont_8to1_1488_31_alg».proof.Proof.Gen.Pre_input_domain

noncomputable section

namespace Cert.Proof.LaunchI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type}
variable [FloatOps F] [∀ e, Nonempty (Elt F e)]
variable (m : (ℓ : Loc nD τ sig) → Buf (Elt F) ℓ) (ρ : Dev nD → PrngReg)

/-- The precondition, as the claims state it of the launch memory. -/
def PreM : Prop :=
  ∀ c : Dev nD, Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) = fun _ => 1#1

theorem hcats_of_pre (hpre : PreM m) : ∀ d j, (m (catsLoc d) j).toNat < 100000 :=
  fun d => Cert.Proof.PreRange.cats_toNat_lt _ _ _ _ (hpre d)

/-- Every weakly fair execution of the program's threads ends, faulting nowhere, with the four arguments
    unchanged — from the precondition and the four tasks' bodies. -/
theorem frame_of_bodies (hpre : PreM m)
    (hb0 : TileBody0 (F := F) (UU := UU) m) (hb1 : TileBody1 (F := F) (UU := UU) m)
    (hb2 : TileBody2 (F := F) (UU := UU) m) (hb3 : TileBody3 (F := F) (UU := UU) m) :
    θ_run (Cert.KernelIdeal.defs (F := F)) (Cert.KernelIdeal.threads (F := F)) ⟨m, fun _ => 0, ρ⟩ (QC m) :=
  run_main m ρ
    (fun q => match q with
      | 0 => tileObl0 m (ftOf m) (hcats_of_pre m hpre) hb0
      | 1 => tileObl1 m (ftOf m) (hcats_of_pre m hpre) hb1
      | 2 => tileObl2 m (ftOf m) (hcats_of_pre m hpre) hb2
      | 3 => tileObl3 m (ftOf m) (hcats_of_pre m hpre) hb3)
    regionSpec0 regionSpec1 regionSpec2 regionSpec3

end Cert.Proof.LaunchI

end
-- ==== Proof.LaunchDefsB.lean ====
/-
  The program as the SparseCore launch theorem sees it, and what one vector subcore's task is handed.

  The four gather calls run on both SparseCores' sixteen vector subcores. Subcore `s` of core `c` is worker
  `w = 2 s + c` of 32: it reads the whole index array and the whole padded table, and it alone writes rows
  `128 w … 128 w + 127` of the call's result. So a task is handed a 1/32 read share of the index array, a 1/32
  read share of the padded table, and its block of 128 result rows at the full share; it hands the shares back
  unchanged and the block at whatever it wrote.
-/
import proofs.«204056_g19739669692900_cont_8to1_1488_31_alg».proof.Defs
import Idealize.ShloMosaic.Lib.SparseCore.Launch
import Idealize.ShloMosaic.Lib.SparseCore.Ops
import Idealize.ShloMosaic.Lib.SparseCore.Stream
import Idealize.ShloMosaic.Lib.StableHlo.Run
import Idealize.ShloMosaic.Lib.Pipeline.Kit
import Idealize.ShloMosaic.Lib.Tactic
import proofs.«204056_g19739669692900_cont_8to1_1488_31_alg».proof.Proof.Gen.Kernel
import proofs.«204056_g19739669692900_cont_8to1_1488_31_alg».proof.Proof.Shares

noncomputable section

namespace Cert.Proof.LaunchB

open Cert.Kernel Cert.Kernel.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D [FloatOps F] : Defs nD τ sig (Elt F) (ΛP (F := F)) := Pipeline.defs pcfgs defs₀

theorem nCore_eq (q : Fin 4) : (K (F := F)).nCore q = 2 := by
  match q with
  | 0 => rfl
  | 1 => rfl
  | 2 => rfl
  | 3 => rfl
theorem nSub_eq (q : Fin 4) : (K (F := F)).nSub q = 16 := by
  match q with
  | 0 => rfl
  | 1 => rfl
  | 2 => rfl
  | 3 => rfl
theorem kind_eq (q : Fin 4) : (K (F := F)).kind q = .scVector := by
  match q with
  | 0 => rfl
  | 1 => rfl
  | 2 => rfl
  | 3 => rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- Worker number of subcore `s` of core `c`: `2 s + c`. -/
def wid (c : Fin 2) (s : Fin 16) : Fin 32 := ⟨2 * s.val + c.val, by omega⟩

/-- Every worker number is one subcore's of one core. -/
def widEquiv : Fin 2 × Fin 16 ≃ Fin 32 where
  toFun p := wid p.1 p.2
  invFun w := (⟨w.val % 2, by omega⟩, ⟨w.val / 2, by omega⟩)
  left_inv p := by
    obtain ⟨c, s⟩ := p
    simp only [wid]
    refine Prod.ext (Fin.ext ?_) (Fin.ext ?_)
    · show (2 * s.val + c.val) % 2 = c.val
      omega
    · show (2 * s.val + c.val) / 2 = s.val
      omega
  right_inv w := by
    refine Fin.ext ?_
    show 2 * (w.val / 2) + w.val % 2 = w.val
    omega

/-! ## The ghost state is the launch's to choose; a task needs the transfers' counters in it -/

variable {UU : Type} [URA UU] [CountersIn UU]

local notation "𝕄" => MT nD τ sig (HIx 4) (Elt F) ℕ UU ℕ

/-! ## The arrays of the gather calls -/

abbrev catsLoc (d : Dev nD) : Loc nD τ sig := (SparseCore.T d).loc main_arg0
abbrev tpadLoc (d : Dev nD) : Loc nD τ sig := (SparseCore.T d).loc main_v0
abbrev out0Loc (d : Dev nD) : Loc nD τ sig := (SparseCore.T d).loc main_v3
abbrev out1Loc (d : Dev nD) : Loc nD τ sig := (SparseCore.T d).loc main_v4
abbrev out2Loc (d : Dev nD) : Loc nD τ sig := (SparseCore.T d).loc main_v5
abbrev out3Loc (d : Dev nD) : Loc nD τ sig := (SparseCore.T d).loc main_v6

theorem blkDiv : 32 ∣ S4096x50x64.size 0 := ⟨128, rfl⟩
/-- Rows `128 w … 128 w + 127` of a call's result. -/
abbrev blkRect (w : Fin 32) : Rect S4096x50x64 := Rect.part (s := S4096x50x64) (a₀ := 0) blkDiv w
abbrev blkSet0 (w : Fin 32) : Finset S4096x50x64.Idx := ((Memref.whole main_v3_scv : Memref sig .scVector .hbm S4096x50x64 .f32).view.slice (blkRect w)).set
abbrev blkSet1 (w : Fin 32) : Finset S4096x50x64.Idx := ((Memref.whole main_v4_scv : Memref sig .scVector .hbm S4096x50x64 .f32).view.slice (blkRect w)).set
abbrev blkSet2 (w : Fin 32) : Finset S4096x50x64.Idx := ((Memref.whole main_v5_scv : Memref sig .scVector .hbm S4096x50x64 .f32).view.slice (blkRect w)).set
abbrev blkSet3 (w : Fin 32) : Finset S4096x50x64.Idx := ((Memref.whole main_v6_scv : Memref sig .scVector .hbm S4096x50x64 .f32).view.slice (blkRect w)).set

theorem blkSet0_eq (w : Fin 32) : blkSet0 w = (blkRect w).set := by
  show ((View.whole (main_v3_scv : Ref sig .scVector)).slice (blkRect w)).set = _
  rw [View.set_slice]; exact Finset.map_refl
theorem blkSet1_eq (w : Fin 32) : blkSet1 w = (blkRect w).set := by
  show ((View.whole (main_v4_scv : Ref sig .scVector)).slice (blkRect w)).set = _
  rw [View.set_slice]; exact Finset.map_refl
theorem blkSet2_eq (w : Fin 32) : blkSet2 w = (blkRect w).set := by
  show ((View.whole (main_v5_scv : Ref sig .scVector)).slice (blkRect w)).set = _
  rw [View.set_slice]; exact Finset.map_refl
theorem blkSet3_eq (w : Fin 32) : blkSet3 w = (blkRect w).set := by
  show ((View.whole (main_v6_scv : Ref sig .scVector)).slice (blkRect w)).set = _
  rw [View.set_slice]; exact Finset.map_refl

/-! ## What a task is handed -/

variable (m : (ℓ : Loc nD τ sig) → Buf (Elt F) ℓ)

/-- Worker `w`'s read share of the index array, at the launch contents. -/
abbrev catsSh (d : Dev nD) (w : Fin 32) : sProp 𝕄 := catsLoc d ↦{sh32 w} m (catsLoc d)
/-- Worker `w`'s read share of the padded table, at contents `ft`. -/
abbrev tpadSh (d : Dev nD) (w : Fin 32) (ft : Buf (Elt F) (tpadLoc d)) : sProp 𝕄 := tpadLoc d ↦{sh32 w} ft
/-- Worker `w`'s block of each call's result. -/
abbrev outBlk0 (d : Dev nD) (w : Fin 32) (f : Buf (Elt F) (out0Loc d)) : sProp 𝕄 := out0Loc d ↦[blkSet0 w]{fullShare} f
abbrev outBlk1 (d : Dev nD) (w : Fin 32) (f : Buf (Elt F) (out1Loc d)) : sProp 𝕄 := out1Loc d ↦[blkSet1 w]{fullShare} f
abbrev outBlk2 (d : Dev nD) (w : Fin 32) (f : Buf (Elt F) (out2Loc d)) : sProp 𝕄 := out2Loc d ↦[blkSet2 w]{fullShare} f
abbrev outBlk3 (d : Dev nD) (w : Fin 32) (f : Buf (Elt F) (out3Loc d)) : sProp 𝕄 := out3Loc d ↦[blkSet3 w]{fullShare} f

end Cert.Proof.LaunchB

end
-- ==== Proof.LaunchPayB.lean ====
/-
  What the launch handshakes carry.

  At gather call `q` the TensorCore hands each SparseCore what its sixteen tasks need and gets the same back, the
  result blocks at what the tasks wrote. A core's share is the product of its tasks' shares, so dealing a core's
  share to its tasks, and collecting theirs into the core's, is the identity.
-/
import proofs.«204056_g19739669692900_cont_8to1_1488_31_alg».proof.Proof.LaunchDefsB

noncomputable section

namespace Cert.Proof.LaunchB

open Cert.Kernel Cert.Kernel.Gen
open Cert.Proof.Shares

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

variable (m : (ℓ : Loc nD τ sig) → Buf (Elt F) ℓ)
-- the padded table's contents when the gather calls run (the host pad's result)
variable (ft : (d : Dev nD) → Buf (Elt F) (tpadLoc d))

/-- What task `i` of core `c` is handed at call `q`: its two read shares and its result block at the launch contents. -/
def goRes (q : Fin 4) (d : Dev nD) (c : Fin ((K (F := F)).nCore q)) (i : Fin ((K (F := F)).nSub q)) : sProp 𝕄 :=
  match q, c, i with
  | 0, c, i => iprop(catsSh m d (wid c i) ∗ tpadSh d (wid c i) (ft d) ∗ outBlk0 d (wid c i) (m (out0Loc d)))
  | 1, c, i => iprop(catsSh m d (wid c i) ∗ tpadSh d (wid c i) (ft d) ∗ outBlk1 d (wid c i) (m (out1Loc d)))
  | 2, c, i => iprop(catsSh m d (wid c i) ∗ tpadSh d (wid c i) (ft d) ∗ outBlk2 d (wid c i) (m (out2Loc d)))
  | 3, c, i => iprop(catsSh m d (wid c i) ∗ tpadSh d (wid c i) (ft d) ∗ outBlk3 d (wid c i) (m (out3Loc d)))

/-- What it hands back: the shares unchanged, the block at some contents. -/
def tdRes (q : Fin 4) (d : Dev nD) (c : Fin ((K (F := F)).nCore q)) (i : Fin ((K (F := F)).nSub q)) : sProp 𝕄 :=
  match q, c, i with
  | 0, c, i => iprop(catsSh m d (wid c i) ∗ tpadSh d (wid c i) (ft d) ∗ ∃ f, outBlk0 d (wid c i) f)
  | 1, c, i => iprop(catsSh m d (wid c i) ∗ tpadSh d (wid c i) (ft d) ∗ ∃ f, outBlk1 d (wid c i) f)
  | 2, c, i => iprop(catsSh m d (wid c i) ∗ tpadSh d (wid c i) (ft d) ∗ ∃ f, outBlk2 d (wid c i) f)
  | 3, c, i => iprop(catsSh m d (wid c i) ∗ tpadSh d (wid c i) (ft d) ∗ ∃ f, outBlk3 d (wid c i) f)

/-- The handshakes' payloads: a core's is its tasks' together. -/
def P : (K (F := F)).Pay (nD := nD) (Val := Elt F) (Name := ℕ) (U := UU) where
  st := fun q d c => bigSep Finset.univ fun i : Fin ((K (F := F)).nSub q) => goRes m ft q d c i
  dn := fun q d c => bigSep Finset.univ fun i : Fin ((K (F := F)).nSub q) => tdRes m ft q d c i
  go := fun q d c i => goRes m ft q d c i
  td := fun q d c i => tdRes m ft q d c i
  x := fun _ _ => iprop(emp)

/-- A core's operands are its tasks' operands, and its results their results. -/
theorem vecSplit (q : Fin 4) : (K (F := F)).VecSplit' (P (UU := UU) m ft) q := by
  intro d c
  show (bigSep Finset.univ fun i : Fin ((K (F := F)).nSub q) => goRes m ft q d c i)
    ⊢ |={Set.univ}=> iprop((bigSep Finset.univ fun i : Fin ((K (F := F)).nSub q) => goRes m ft q d c i)
      ∗ ((bigSep Finset.univ fun i : Fin ((K (F := F)).nSub q) => tdRes m ft q d c i)
        -∗ bigSep Finset.univ fun i : Fin ((K (F := F)).nSub q) => tdRes m ft q d c i))
  iintro H; imodintro
  isplitl [H]; · iexact H
  iintro H; iexact H

end Cert.Proof.LaunchB

end
-- ==== Proof.LaunchGhostB.lean ====
/-
  The certificate's ghost state and its launch element.

  Three components side by side: the rounds of the four launch handshakes, the rounds of the TensorCore
  pipelines' staging cells, and the counters of the subcores' own transfers. The launch element is the
  handshakes' initial rounds, the staging cells' initial rounds and the unit counters. From it the launch
  funds, per device and per pipeline, the staging cells' ghost state and the duties' tokens, which @main hands
  to each pipeline at its call; the gather kernels' proofs consume nothing of it.
-/
import proofs.«204056_g19739669692900_cont_8to1_1488_31_alg».proof.Proof.LaunchPayB
import proofs.«204056_g19739669692900_cont_8to1_1488_31_alg».proof.Proof.Gen.Kernel.Launch

noncomputable section

namespace Cert.Proof.LaunchB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev UH : Type := URounds (GSem nD τ sig) ℕ
abbrev UP : Type := URounds (GSem nD τ sig) Unit
abbrev UU : Type := UH × (UP × Counters)

local notation "𝕄" => MT nD τ sig (HIx 4) (Elt F) ℕ UU ℕ

abbrev EH : Emb UH (MT nD τ sig (HIx 4) (Elt F) ℕ UU ℕ) := embL
/-- The staging cells' rounds, inside the second component. -/
abbrev EP : Emb UP (MT nD τ sig (HIx 4) (Elt F) ℕ UU ℕ) := (Emb.inl : Emb UP (UP × Counters)).trans embR

instance EP_landsIn : (EP (F := F)).LandsIn (upEmb : UEmb _ (MT nD τ sig (HIx 4) (Elt F) ℕ UU ℕ)) := by
  unfold EP embR; infer_instance

variable [FloatOps F]
variable (m : (ℓ : Loc nD τ sig) → Buf (Elt F) ℓ)
variable (ft : (d : Dev nD) → Buf (Elt F) (tpadLoc d))

/-- The launch element. -/
def u₀ : UU :=
  (initOf (K (F := F)).hsCells (K (F := F)).hsToks, (initOf (Pipeline.cells cfgs cellOf_inj) (Pipeline.launchToks cfgs cellOf_inj), 1))

/-- What @main starts from besides its arrays: each pipeline's staging cells' ghost state and duties' tokens. -/
abbrev G (d : Dev nD) : sProp 𝕄 :=
  bigSep Finset.univ fun p : Fin 4 => iprop(Pipeline.cellsGhost cfgs (EP (F := F)) p d ∗ Pipeline.toksInit cfgs (EP (F := F)) p d)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (F := F) (initOf (K (F := F)).hsCells (K (F := F)).hsToks)) ∗ (bigSep Finset.univ fun d : Dev nD => G (F := F) d)
        ∗ bigSep Finset.univ fun thr : Thread nD τ => bigSep Finset.univ fun q : Fin 4 => (P m ft).x q thr) := by
  unfold u₀
  iintro Hu
  ihave H := (ownU_pair (initOf (K (F := F)).hsCells (K (F := F)).hsToks)
    ((initOf (Pipeline.cells cfgs cellOf_inj) (Pipeline.launchToks cfgs cellOf_inj), (1 : Counters)) : UP × Counters)) $$ Hu
  icases H with ⟨HH, HR⟩
  ihave H2 := (own_pair_emb (embR : Emb (UP × Counters) 𝕄) (initOf (Pipeline.cells cfgs cellOf_inj) (Pipeline.launchToks cfgs cellOf_inj)) (1 : Counters)) $$ HR
  icases H2 with ⟨HPp, -⟩
  imod (Pipeline.fund_ghost cfgs (EP (F := F)) cellOf_inj) $$ HPp with ⟨Hcg, Htk⟩
  imodintro
  isplitl [HH]; · iexact HH
  isplitl [Hcg Htk]
  · unfold G
    rw [show (bigSep Finset.univ fun d : Dev nD => bigSep Finset.univ fun p : Fin 4 =>
          iprop(Pipeline.cellsGhost cfgs (EP (F := F)) p d ∗ Pipeline.toksInit cfgs (EP (F := F)) p d))
        = iprop((bigSep Finset.univ fun d : Dev nD => bigSep Finset.univ fun p : Fin 4 => Pipeline.cellsGhost cfgs (EP (F := F)) p d)
          ∗ bigSep Finset.univ fun d : Dev nD => bigSep Finset.univ fun p : Fin 4 => Pipeline.toksInit cfgs (EP (F := F)) p d) from by
      rw [← bigSep_sep']; exact bigSep_congr fun d _ => bigSep_sep' _ _ _]
    isplitl [Hcg] <;> iassumption
  rw [show (bigSep Finset.univ fun thr : Thread nD τ => bigSep Finset.univ fun q : Fin 4 => (P (F := F) m ft).x q thr) = bigSep Finset.univ fun _ => iprop(emp) from
    bigSep_congr fun _ _ => bigSep_emp' _, bigSep_emp']
  iempintro

end Cert.Proof.LaunchB

end
-- ==== Proof.LaunchSplitB.lean ====
/-
  A gather call's operands among its 32 tasks, and back.

  Before a call the TensorCore holds the index array, the padded table and the call's result whole. The index
  array and the table are only read: each is held at the full share, which is the 32 leaves of five halvings at
  once. The result is cut along its first axis into 32 blocks of 128 rows, pairwise disjoint and covering it.
  Worker `2 s + c` is subcore `s` of core `c`, so a product over cores and subcores is a product over workers.
  After the call the shares join to the full share again, and the 32 blocks, each at what its task wrote, are the
  whole result at some contents.
-/
import proofs.«204056_g19739669692900_cont_8to1_1488_31_alg».proof.Proof.LaunchDefsB

noncomputable section

namespace Cert.Proof.LaunchB

open Cert.Kernel Cert.Kernel.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

variable [FloatOps F] [∀ e, Nonempty (Elt F e)]

variable (m : (ℓ : Loc nD τ sig) → Buf (Elt F) ℓ)

/-- A product over cores and subcores is the product over worker numbers. -/
theorem bigSep_workers (Φ : Fin 32 → sProp 𝕄) :
    (bigSep Finset.univ fun c : Fin 2 => bigSep Finset.univ fun s : Fin 16 => Φ (wid c s)) = bigSep Finset.univ Φ := by
  rw [bigSep_univ_equiv widEquiv Φ, bigSep_univ_prod (fun p : Fin 2 × Fin 16 => Φ (widEquiv p))]
  rfl

theorem cats_shares (d : Dev nD) (f : Buf (Elt F) (catsLoc d)) :
    (catsLoc d ↦{fullShare} f : sProp 𝕄) = bigSep Finset.univ fun w : Fin 32 => catsLoc d ↦{sh32 w} f :=
  pointsTo_leaves Finset.univ f 5 fullShare
theorem tpad_shares (d : Dev nD) (f : Buf (Elt F) (tpadLoc d)) :
    (tpadLoc d ↦{fullShare} f : sProp 𝕄) = bigSep Finset.univ fun w : Fin 32 => tpadLoc d ↦{sh32 w} f :=
  pointsTo_leaves Finset.univ f 5 fullShare

/-! ## Call 0 -/

theorem blks0_disjoint : ∀ i ∈ (Finset.univ : Finset (Fin 32)), ∀ j ∈ (Finset.univ : Finset (Fin 32)), i ≠ j → Disjoint (blkSet0 i) (blkSet0 j) :=
  fun i _ j _ h => by rw [blkSet0_eq, blkSet0_eq]; exact Rect.part_disjoint blkDiv h
theorem blks0_cover : (Finset.univ : Finset (Fin 32)).biUnion blkSet0 = Finset.univ :=
  (Finset.biUnion_congr rfl fun i _ => blkSet0_eq i).trans (Rect.biUnion_part blkDiv)

theorem out0_blocks (d : Dev nD) (f : Buf (Elt F) (out0Loc d)) :
    (out0Loc d ↦{fullShare} f : sProp 𝕄) = bigSep Finset.univ fun w : Fin 32 => out0Loc d ↦[blkSet0 w]{fullShare} f := by
  rw [← pointsTo_biUnion Finset.univ (ℓ := out0Loc d) blkSet0 blks0_disjoint, blks0_cover]; try rfl

set_option maxRecDepth 4096 in
theorem out0_join (d : Dev nD) :
    (bigSep Finset.univ fun w : Fin 32 => iprop(∃ f, outBlk0 d w f)) ⊢ (iprop(∃ f, out0Loc d ↦{fullShare} f) : sProp 𝕄) := by
  refine (bigSep_exists_pi Finset.univ (fun w (f : Buf (Elt F) (out0Loc d)) => outBlk0 d w f)).trans ?_
  iintro ⟨%fs, H⟩
  have : Nonempty (Buf (Elt F) (out0Loc d)) := ⟨fs 0⟩
  ihave H' := (pointsTo_biUnion_join (ℓ := out0Loc d) (q := fullShare) (Val := Elt F) Finset.univ blkSet0 fs (fs 0) blks0_disjoint) $$ H
  icases H' with ⟨%g, -, Hg⟩
  rw [blks0_cover]
  iexists g; iexact Hg

/-- What the tasks of call 0 are handed, all 32 at once, from the three arrays whole. -/
theorem split0 (d : Dev nD) (ft : Buf (Elt F) (tpadLoc d)) (fo : Buf (Elt F) (out0Loc d)) :
    (iprop((catsLoc d ↦{fullShare} m (catsLoc d)) ∗ (tpadLoc d ↦{fullShare} ft) ∗ out0Loc d ↦{fullShare} fo) : sProp 𝕄)
      ⊢ bigSep Finset.univ fun c : Fin 2 => bigSep Finset.univ fun s : Fin 16 =>
          iprop(catsSh m d (wid c s) ∗ tpadSh d (wid c s) ft ∗ outBlk0 d (wid c s) fo) := by
  rw [bigSep_workers (fun w => iprop(catsSh m d w ∗ tpadSh d w ft ∗ outBlk0 d w fo)), bigSep_sep', bigSep_sep',
    cats_shares, tpad_shares, out0_blocks]

/-- What they hand back, joined: the shares whole again, the result at some contents. -/
theorem join0 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk0 d (wid c s) f))
      ⊢ (iprop((catsLoc d ↦{fullShare} m (catsLoc d)) ∗ (tpadLoc d ↦{fullShare} ft) ∗ ∃ f, out0Loc d ↦{fullShare} f) : sProp 𝕄) := by
  rw [bigSep_workers (fun w => iprop(catsSh m d w ∗ tpadSh d w ft ∗ ∃ f, outBlk0 d w f)), bigSep_sep', bigSep_sep',
    cats_shares, tpad_shares]
  iintro ⟨Hc, Ht, Ho⟩
  isplitl [Hc]; · iexact Hc
  isplitl [Ht]; · iexact Ht
  iapply (out0_join d); iexact Ho

/-! ## Call 1 -/

theorem blks1_disjoint : ∀ i ∈ (Finset.univ : Finset (Fin 32)), ∀ j ∈ (Finset.univ : Finset (Fin 32)), i ≠ j → Disjoint (blkSet1 i) (blkSet1 j) :=
  fun i _ j _ h => by rw [blkSet1_eq, blkSet1_eq]; exact Rect.part_disjoint blkDiv h
theorem blks1_cover : (Finset.univ : Finset (Fin 32)).biUnion blkSet1 = Finset.univ :=
  (Finset.biUnion_congr rfl fun i _ => blkSet1_eq i).trans (Rect.biUnion_part blkDiv)

theorem out1_blocks (d : Dev nD) (f : Buf (Elt F) (out1Loc d)) :
    (out1Loc d ↦{fullShare} f : sProp 𝕄) = bigSep Finset.univ fun w : Fin 32 => out1Loc d ↦[blkSet1 w]{fullShare} f := by
  rw [← pointsTo_biUnion Finset.univ (ℓ := out1Loc d) blkSet1 blks1_disjoint, blks1_cover]; try rfl

set_option maxRecDepth 4096 in
theorem out1_join (d : Dev nD) :
    (bigSep Finset.univ fun w : Fin 32 => iprop(∃ f, outBlk1 d w f)) ⊢ (iprop(∃ f, out1Loc d ↦{fullShare} f) : sProp 𝕄) := by
  refine (bigSep_exists_pi Finset.univ (fun w (f : Buf (Elt F) (out1Loc d)) => outBlk1 d w f)).trans ?_
  iintro ⟨%fs, H⟩
  have : Nonempty (Buf (Elt F) (out1Loc d)) := ⟨fs 0⟩
  ihave H' := (pointsTo_biUnion_join (ℓ := out1Loc d) (q := fullShare) (Val := Elt F) Finset.univ blkSet1 fs (fs 0) blks1_disjoint) $$ H
  icases H' with ⟨%g, -, Hg⟩
  rw [blks1_cover]
  iexists g; iexact Hg

/-- What the tasks of call 1 are handed, all 32 at once, from the three arrays whole. -/
theorem split1 (d : Dev nD) (ft : Buf (Elt F) (tpadLoc d)) (fo : Buf (Elt F) (out1Loc d)) :
    (iprop((catsLoc d ↦{fullShare} m (catsLoc d)) ∗ (tpadLoc d ↦{fullShare} ft) ∗ out1Loc d ↦{fullShare} fo) : sProp 𝕄)
      ⊢ bigSep Finset.univ fun c : Fin 2 => bigSep Finset.univ fun s : Fin 16 =>
          iprop(catsSh m d (wid c s) ∗ tpadSh d (wid c s) ft ∗ outBlk1 d (wid c s) fo) := by
  rw [bigSep_workers (fun w => iprop(catsSh m d w ∗ tpadSh d w ft ∗ outBlk1 d w fo)), bigSep_sep', bigSep_sep',
    cats_shares, tpad_shares, out1_blocks]

/-- What they hand back, joined: the shares whole again, the result at some contents. -/
theorem join1 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk1 d (wid c s) f))
      ⊢ (iprop((catsLoc d ↦{fullShare} m (catsLoc d)) ∗ (tpadLoc d ↦{fullShare} ft) ∗ ∃ f, out1Loc d ↦{fullShare} f) : sProp 𝕄) := by
  rw [bigSep_workers (fun w => iprop(catsSh m d w ∗ tpadSh d w ft ∗ ∃ f, outBlk1 d w f)), bigSep_sep', bigSep_sep',
    cats_shares, tpad_shares]
  iintro ⟨Hc, Ht, Ho⟩
  isplitl [Hc]; · iexact Hc
  isplitl [Ht]; · iexact Ht
  iapply (out1_join d); iexact Ho

/-! ## Call 2 -/

theorem blks2_disjoint : ∀ i ∈ (Finset.univ : Finset (Fin 32)), ∀ j ∈ (Finset.univ : Finset (Fin 32)), i ≠ j → Disjoint (blkSet2 i) (blkSet2 j) :=
  fun i _ j _ h => by rw [blkSet2_eq, blkSet2_eq]; exact Rect.part_disjoint blkDiv h
theorem blks2_cover : (Finset.univ : Finset (Fin 32)).biUnion blkSet2 = Finset.univ :=
  (Finset.biUnion_congr rfl fun i _ => blkSet2_eq i).trans (Rect.biUnion_part blkDiv)

theorem out2_blocks (d : Dev nD) (f : Buf (Elt F) (out2Loc d)) :
    (out2Loc d ↦{fullShare} f : sProp 𝕄) = bigSep Finset.univ fun w : Fin 32 => out2Loc d ↦[blkSet2 w]{fullShare} f := by
  rw [← pointsTo_biUnion Finset.univ (ℓ := out2Loc d) blkSet2 blks2_disjoint, blks2_cover]; try rfl

set_option maxRecDepth 4096 in
theorem out2_join (d : Dev nD) :
    (bigSep Finset.univ fun w : Fin 32 => iprop(∃ f, outBlk2 d w f)) ⊢ (iprop(∃ f, out2Loc d ↦{fullShare} f) : sProp 𝕄) := by
  refine (bigSep_exists_pi Finset.univ (fun w (f : Buf (Elt F) (out2Loc d)) => outBlk2 d w f)).trans ?_
  iintro ⟨%fs, H⟩
  have : Nonempty (Buf (Elt F) (out2Loc d)) := ⟨fs 0⟩
  ihave H' := (pointsTo_biUnion_join (ℓ := out2Loc d) (q := fullShare) (Val := Elt F) Finset.univ blkSet2 fs (fs 0) blks2_disjoint) $$ H
  icases H' with ⟨%g, -, Hg⟩
  rw [blks2_cover]
  iexists g; iexact Hg

/-- What the tasks of call 2 are handed, all 32 at once, from the three arrays whole. -/
theorem split2 (d : Dev nD) (ft : Buf (Elt F) (tpadLoc d)) (fo : Buf (Elt F) (out2Loc d)) :
    (iprop((catsLoc d ↦{fullShare} m (catsLoc d)) ∗ (tpadLoc d ↦{fullShare} ft) ∗ out2Loc d ↦{fullShare} fo) : sProp 𝕄)
      ⊢ bigSep Finset.univ fun c : Fin 2 => bigSep Finset.univ fun s : Fin 16 =>
          iprop(catsSh m d (wid c s) ∗ tpadSh d (wid c s) ft ∗ outBlk2 d (wid c s) fo) := by
  rw [bigSep_workers (fun w => iprop(catsSh m d w ∗ tpadSh d w ft ∗ outBlk2 d w fo)), bigSep_sep', bigSep_sep',
    cats_shares, tpad_shares, out2_blocks]

/-- What they hand back, joined: the shares whole again, the result at some contents. -/
theorem join2 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk2 d (wid c s) f))
      ⊢ (iprop((catsLoc d ↦{fullShare} m (catsLoc d)) ∗ (tpadLoc d ↦{fullShare} ft) ∗ ∃ f, out2Loc d ↦{fullShare} f) : sProp 𝕄) := by
  rw [bigSep_workers (fun w => iprop(catsSh m d w ∗ tpadSh d w ft ∗ ∃ f, outBlk2 d w f)), bigSep_sep', bigSep_sep',
    cats_shares, tpad_shares]
  iintro ⟨Hc, Ht, Ho⟩
  isplitl [Hc]; · iexact Hc
  isplitl [Ht]; · iexact Ht
  iapply (out2_join d); iexact Ho

/-! ## Call 3 -/

theorem blks3_disjoint : ∀ i ∈ (Finset.univ : Finset (Fin 32)), ∀ j ∈ (Finset.univ : Finset (Fin 32)), i ≠ j → Disjoint (blkSet3 i) (blkSet3 j) :=
  fun i _ j _ h => by rw [blkSet3_eq, blkSet3_eq]; exact Rect.part_disjoint blkDiv h
theorem blks3_cover : (Finset.univ : Finset (Fin 32)).biUnion blkSet3 = Finset.univ :=
  (Finset.biUnion_congr rfl fun i _ => blkSet3_eq i).trans (Rect.biUnion_part blkDiv)

theorem out3_blocks (d : Dev nD) (f : Buf (Elt F) (out3Loc d)) :
    (out3Loc d ↦{fullShare} f : sProp 𝕄) = bigSep Finset.univ fun w : Fin 32 => out3Loc d ↦[blkSet3 w]{fullShare} f := by
  rw [← pointsTo_biUnion Finset.univ (ℓ := out3Loc d) blkSet3 blks3_disjoint, blks3_cover]; try rfl

set_option maxRecDepth 4096 in
theorem out3_join (d : Dev nD) :
    (bigSep Finset.univ fun w : Fin 32 => iprop(∃ f, outBlk3 d w f)) ⊢ (iprop(∃ f, out3Loc d ↦{fullShare} f) : sProp 𝕄) := by
  refine (bigSep_exists_pi Finset.univ (fun w (f : Buf (Elt F) (out3Loc d)) => outBlk3 d w f)).trans ?_
  iintro ⟨%fs, H⟩
  have : Nonempty (Buf (Elt F) (out3Loc d)) := ⟨fs 0⟩
  ihave H' := (pointsTo_biUnion_join (ℓ := out3Loc d) (q := fullShare) (Val := Elt F) Finset.univ blkSet3 fs (fs 0) blks3_disjoint) $$ H
  icases H' with ⟨%g, -, Hg⟩
  rw [blks3_cover]
  iexists g; iexact Hg

/-- What the tasks of call 3 are handed, all 32 at once, from the three arrays whole. -/
theorem split3 (d : Dev nD) (ft : Buf (Elt F) (tpadLoc d)) (fo : Buf (Elt F) (out3Loc d)) :
    (iprop((catsLoc d ↦{fullShare} m (catsLoc d)) ∗ (tpadLoc d ↦{fullShare} ft) ∗ out3Loc d ↦{fullShare} fo) : sProp 𝕄)
      ⊢ bigSep Finset.univ fun c : Fin 2 => bigSep Finset.univ fun s : Fin 16 =>
          iprop(catsSh m d (wid c s) ∗ tpadSh d (wid c s) ft ∗ outBlk3 d (wid c s) fo) := by
  rw [bigSep_workers (fun w => iprop(catsSh m d w ∗ tpadSh d w ft ∗ outBlk3 d w fo)), bigSep_sep', bigSep_sep',
    cats_shares, tpad_shares, out3_blocks]

/-- What they hand back, joined: the shares whole again, the result at some contents. -/
theorem join3 (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, outBlk3 d (wid c s) f))
      ⊢ (iprop((catsLoc d ↦{fullShare} m (catsLoc d)) ∗ (tpadLoc d ↦{fullShare} ft) ∗ ∃ f, out3Loc d ↦{fullShare} f) : sProp 𝕄) := by
  rw [bigSep_workers (fun w => iprop(catsSh m d w ∗ tpadSh d w ft ∗ ∃ f, outBlk3 d w f)), bigSep_sep', bigSep_sep',
    cats_shares, tpad_shares]
  iintro ⟨Hc, Ht, Ho⟩
  isplitl [Hc]; · iexact Hc
  isplitl [Ht]; · iexact Ht
  iapply (out3_join d); iexact Ho

end Cert.Proof.LaunchB

end
-- ==== Proof.LaunchHostB.lean ====
/-
  The host operations of @main and the TensorCore's arrays.

  @main's eighteen arrays all live in HBM and none is scoped: the four arguments, the zero constant and its float
  conversion, the padded table, the transposed weights, the bias column, the four gather results, the four
  projection results and the final transpose. The host operations are run one at a time over all of them held
  whole; an operation changes only the array it writes.
-/
import proofs.«204056_g19739669692900_cont_8to1_1488_31_alg».proof.Proof.LaunchDefsB

noncomputable section

namespace Cert.Proof.LaunchB

open Cert.Kernel Cert.Kernel.Gen

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

/-! ## The arrays -/

abbrev a0' : DevRef τ sig := Proc.devRef .tc (main_arg0 : Ref sig .tc)
abbrev a1' : DevRef τ sig := Proc.devRef .tc (main_arg1 : Ref sig .tc)
abbrev a2' : DevRef τ sig := Proc.devRef .tc (main_arg2 : Ref sig .tc)
abbrev a3' : DevRef τ sig := Proc.devRef .tc (main_arg3 : Ref sig .tc)
abbrev c' : DevRef τ sig := Proc.devRef .tc (main_c : Ref sig .tc)
abbrev cf' : DevRef τ sig := Proc.devRef .tc (main_call0_v0 : Ref sig .tc)
abbrev v0' : DevRef τ sig := Proc.devRef .tc (main_v0 : Ref sig .tc)
abbrev v1' : DevRef τ sig := Proc.devRef .tc (main_v1 : Ref sig .tc)
abbrev v2' : DevRef τ sig := Proc.devRef .tc (main_v2 : Ref sig .tc)
abbrev v3' : DevRef τ sig := Proc.devRef .tc (main_v3 : Ref sig .tc)
abbrev v4' : DevRef τ sig := Proc.devRef .tc (main_v4 : Ref sig .tc)
abbrev v5' : DevRef τ sig := Proc.devRef .tc (main_v5 : Ref sig .tc)
abbrev v6' : DevRef τ sig := Proc.devRef .tc (main_v6 : Ref sig .tc)
abbrev v7' : DevRef τ sig := Proc.devRef .tc (main_v7 : Ref sig .tc)
abbrev v8' : DevRef τ sig := Proc.devRef .tc (main_v8 : Ref sig .tc)
abbrev v9' : DevRef τ sig := Proc.devRef .tc (main_v9 : Ref sig .tc)
abbrev v10' : DevRef τ sig := Proc.devRef .tc (main_v10 : Ref sig .tc)
abbrev v11' : DevRef τ sig := Proc.devRef .tc (main_v11 : Ref sig .tc)

/-- The TensorCore's arrays, all unscoped. -/
abbrev S18 : Finset (DevRef τ sig) := {a0', a1', a2', a3', c', cf', v0', v1', v2', v3', v4', v5', v6', v7', v8', v9', v10', v11'}

/-! ## The host operations, as @main writes them -/

variable [FloatOps F]

abbrev opC : HloOp τ sig (Elt F) := StableHlo.nullary main_c (constantI S_ 32 0#32)
abbrev opCf : HloOp τ sig (Elt F) :=
  StableHlo.TRef.unary (.of main_c : StableHlo.TRef sig ⟨S_, .i32⟩) main_call0.v0 (sitofp .f32)
abbrev opPad : HloOp τ sig (Elt F) :=
  StableHlo.TRef.binary (.of main_arg1 : StableHlo.TRef sig ⟨S100000x64, .f32⟩) main_call0.v0 main_call0.v1
    (fun x v => pad S100000x128 ![0, 0] ![0, 64] ![0, 0] x v pads_S100000x64_S100000x128_000_0640 h_S_)
abbrev opWt : HloOp τ sig (Elt F) :=
  StableHlo.unary main_arg2 main_v1 ((transpose S64x64 [1, 0] · transposes_S64x64_S64x64_1_0) : (⟨S64x64, .f32⟩ : BufTy).Contents (Elt F) → (⟨S64x64, .f32⟩ : BufTy).Contents (Elt F))
abbrev opBc : HloOp τ sig (Elt F) := StableHlo.reshape main_arg3 main_v2 rfl shapeCasts_S64_S64x1
abbrev opId78 : HloOp τ sig (Elt F) := StableHlo.unary main_v7 main_v8 id
abbrev opId89 : HloOp τ sig (Elt F) := StableHlo.unary main_v8 main_v9 id
abbrev opId910 : HloOp τ sig (Elt F) := StableHlo.unary main_v9 main_v10 id
abbrev opOut : HloOp τ sig (Elt F) :=
  StableHlo.unary main_v10 main_v11 ((transpose S16384x50x64 [2, 0, 1] · transposes_S50x64x16384_S16384x50x64_2_0_1) : (⟨S50x64x16384, .f32⟩ : BufTy).Contents (Elt F) → (⟨S16384x50x64, .f32⟩ : BufTy).Contents (Elt F))

omit [FloatOps F] in
theorem hC : (opC (F := F)).bufs ⊆ S18 := show ({c'} : Finset (DevRef τ sig)) ⊆ S18 by decide
theorem hCf : (opCf (F := F)).bufs ⊆ S18 := show ({c', cf'} : Finset (DevRef τ sig)) ⊆ S18 by decide
theorem hPad : (opPad (F := F)).bufs ⊆ S18 := show ({a1', cf', v0'} : Finset (DevRef τ sig)) ⊆ S18 by decide
theorem hWt : (opWt (F := F)).bufs ⊆ S18 := show ({a2', v1'} : Finset (DevRef τ sig)) ⊆ S18 by decide
theorem hBc : (opBc (F := F)).bufs ⊆ S18 := show ({a3', v2'} : Finset (DevRef τ sig)) ⊆ S18 by decide
omit [FloatOps F] in
theorem hId78 : (opId78 (F := F)).bufs ⊆ S18 := show ({v7', v8'} : Finset (DevRef τ sig)) ⊆ S18 by decide
omit [FloatOps F] in
theorem hId89 : (opId89 (F := F)).bufs ⊆ S18 := show ({v8', v9'} : Finset (DevRef τ sig)) ⊆ S18 by decide
omit [FloatOps F] in
theorem hId910 : (opId910 (F := F)).bufs ⊆ S18 := show ({v9', v10'} : Finset (DevRef τ sig)) ⊆ S18 by decide
theorem hOut : (opOut (F := F)).bufs ⊆ S18 := show ({v10', v11'} : Finset (DevRef τ sig)) ⊆ S18 by decide

omit [FloatOps F] in
theorem unscoped_S18 : (Finset.univ.filter fun b : Ref sig .tc => ¬ b.isScoped)
    = {main_arg0, main_arg1, main_arg2, main_arg3, main_c, main_call0_v0, main_v0, main_v1, main_v2, main_v3, main_v4, main_v5, main_v6,
        main_v7, main_v8, main_v9, main_v10, main_v11} := by decide

end Cert.Proof.LaunchB

end
-- ==== Proof.LaunchMainB.lean ====
/-
  @main on the TensorCore.

  The host operations before the gather calls run over the eighteen arrays held whole. At each gather call the
  index array, the padded table and the call's result are cut into the 32 tasks' shares and handed over, and come
  back joined, the result at what the tasks wrote. Each projection call is entered with its gathered block, the
  transposed weights, the bias column and its output array; between them the output is copied into the next
  call's. The arguments are never written: they end at their launch contents.
-/
import proofs.«204056_g19739669692900_cont_8to1_1488_31_alg».proof.Proof.LaunchGhostB
import proofs.«204056_g19739669692900_cont_8to1_1488_31_alg».proof.Proof.LaunchSplitB
import proofs.«204056_g19739669692900_cont_8to1_1488_31_alg».proof.Proof.LaunchHostB

noncomputable section

namespace Cert.Proof.LaunchB

open Cert.Kernel Cert.Kernel.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 4) (Elt F) ℕ UU ℕ

abbrev 𝒱₀ : Variants := Variants.none
abbrev 𝒱 : Variants := 𝒱₀.lift
abbrev v₀ : 𝒱.V := Sum.inl none

variable [FloatOps F] [∀ e, Nonempty (Elt F e)]
variable (m : (ℓ : Loc nD τ sig) → Buf (Elt F) ℓ) (ρ : Dev nD → PrngReg)

/-! ## The arrays held whole -/

omit [FloatOps F] [∀ e, Nonempty (Elt F e)] in
theorem held_S18 (d : Dev nD) (W : Valuation τ sig (Elt F)) :
    (held (T d) S18 W : sProp 𝕄)
      = iprop(((SparseCore.T d).loc main_arg0 ↦{fullShare} W a0')
          ∗ ((SparseCore.T d).loc main_arg1 ↦{fullShare} W a1')
          ∗ ((SparseCore.T d).loc main_arg2 ↦{fullShare} W a2')
          ∗ ((SparseCore.T d).loc main_arg3 ↦{fullShare} W a3')
          ∗ ((SparseCore.T d).loc main_c ↦{fullShare} W c')
          ∗ ((SparseCore.T d).loc main_call0_v0 ↦{fullShare} W cf')
          ∗ ((SparseCore.T d).loc main_v0 ↦{fullShare} W v0')
          ∗ ((SparseCore.T d).loc main_v1 ↦{fullShare} W v1')
          ∗ ((SparseCore.T d).loc main_v2 ↦{fullShare} W v2')
          ∗ ((SparseCore.T d).loc main_v3 ↦{fullShare} W v3')
          ∗ ((SparseCore.T d).loc main_v4 ↦{fullShare} W v4')
          ∗ ((SparseCore.T d).loc main_v5 ↦{fullShare} W v5')
          ∗ ((SparseCore.T d).loc main_v6 ↦{fullShare} W v6')
          ∗ ((SparseCore.T d).loc main_v7 ↦{fullShare} W v7')
          ∗ ((SparseCore.T d).loc main_v8 ↦{fullShare} W v8')
          ∗ ((SparseCore.T d).loc main_v9 ↦{fullShare} W v9')
          ∗ ((SparseCore.T d).loc main_v10 ↦{fullShare} W v10')
          ∗ ((SparseCore.T d).loc main_v11 ↦{fullShare} W v11')) := by
  unfold held S18
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

omit [FloatOps F] [∀ e, Nonempty (Elt F e)] in
theorem unscopedBufs_eq (d : Dev nD) (W : (b : Ref sig .tc) → Buf (Elt F) ((d.tc : Thread nD τ).loc b)) :
    (unscopedBufs d W : sProp 𝕄)
      = iprop(((SparseCore.T d).loc main_arg0 ↦{fullShare} W main_arg0)
          ∗ ((SparseCore.T d).loc main_arg1 ↦{fullShare} W main_arg1)
          ∗ ((SparseCore.T d).loc main_arg2 ↦{fullShare} W main_arg2)
          ∗ ((SparseCore.T d).loc main_arg3 ↦{fullShare} W main_arg3)
          ∗ ((SparseCore.T d).loc main_c ↦{fullShare} W main_c)
          ∗ ((SparseCore.T d).loc main_call0_v0 ↦{fullShare} W main_call0_v0)
          ∗ ((SparseCore.T d).loc main_v0 ↦{fullShare} W main_v0)
          ∗ ((SparseCore.T d).loc main_v1 ↦{fullShare} W main_v1)
          ∗ ((SparseCore.T d).loc main_v2 ↦{fullShare} W main_v2)
          ∗ ((SparseCore.T d).loc main_v3 ↦{fullShare} W main_v3)
          ∗ ((SparseCore.T d).loc main_v4 ↦{fullShare} W main_v4)
          ∗ ((SparseCore.T d).loc main_v5 ↦{fullShare} W main_v5)
          ∗ ((SparseCore.T d).loc main_v6 ↦{fullShare} W main_v6)
          ∗ ((SparseCore.T d).loc main_v7 ↦{fullShare} W main_v7)
          ∗ ((SparseCore.T d).loc main_v8 ↦{fullShare} W main_v8)
          ∗ ((SparseCore.T d).loc main_v9 ↦{fullShare} W main_v9)
          ∗ ((SparseCore.T d).loc main_v10 ↦{fullShare} W main_v10)
          ∗ ((SparseCore.T d).loc main_v11 ↦{fullShare} W main_v11)) := by
  unfold unscopedBufs
  rw [unscoped_S18, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-- The launch valuation, and the valuation when the gather calls run: the five host operations' results. -/
def V0 (d : Dev nD) : Valuation τ sig (Elt F) := fun b => m (d, b)
def V5 (d : Dev nD) : Valuation τ sig (Elt F) :=
  (opBc (F := F)).result ((opWt (F := F)).result ((opPad (F := F)).result ((opCf (F := F)).result ((opC (F := F)).result (V0 m d)))))
/-- The padded table as the gather calls find it. -/
def ftOf (d : Dev nD) : Buf (Elt F) (tpadLoc d) := V5 m d v0'

theorem unscoped_held (d : Dev nD) : (unscopedBufs d (fun b => m ((SparseCore.T d).loc b)) : sProp 𝕄) = held (T d) S18 (V0 m d) := by
  rw [unscopedBufs_eq, held_S18]; rfl

/-- An array none of the five host operations writes is at its launch contents. -/
theorem V5_keep (d : Dev nD) (b : DevRef τ sig) (h1 : b ∉ ({c'} : Finset (DevRef τ sig))) (h2 : b ∉ ({cf'} : Finset (DevRef τ sig)))
    (h3 : b ∉ ({v0'} : Finset (DevRef τ sig))) (h4 : b ∉ ({v1'} : Finset (DevRef τ sig))) (h5 : b ∉ ({v2'} : Finset (DevRef τ sig))) :
    V5 m d b = m (d, b) := by
  unfold V5
  rw [(opBc (F := F)).result_of_not_mem _ h5, (opWt (F := F)).result_of_not_mem _ h4, (opPad (F := F)).result_of_not_mem _ h3,
    (opCf (F := F)).result_of_not_mem _ h2, (opC (F := F)).result_of_not_mem _ h1]
  rfl

/-- The eighteen arrays when the gather calls run: the arguments and every result still at their launch contents. -/
theorem held_V5 (d : Dev nD) :
    (held (T d) S18 ((opBc (F := F)).result ((opWt (F := F)).result ((opPad (F := F)).result ((opCf (F := F)).result ((opC (F := F)).result (V0 m d)))))) : sProp 𝕄)
      = iprop(((SparseCore.T d).loc main_arg0 ↦{fullShare} m ((SparseCore.T d).loc main_arg0))
          ∗ ((SparseCore.T d).loc main_arg1 ↦{fullShare} m ((SparseCore.T d).loc main_arg1))
          ∗ ((SparseCore.T d).loc main_arg2 ↦{fullShare} m ((SparseCore.T d).loc main_arg2))
          ∗ ((SparseCore.T d).loc main_arg3 ↦{fullShare} m ((SparseCore.T d).loc main_arg3))
          ∗ ((SparseCore.T d).loc main_c ↦{fullShare} V5 m d c')
          ∗ ((SparseCore.T d).loc main_call0_v0 ↦{fullShare} V5 m d cf')
          ∗ ((SparseCore.T d).loc main_v0 ↦{fullShare} V5 m d v0')
          ∗ ((SparseCore.T d).loc main_v1 ↦{fullShare} V5 m d v1')
          ∗ ((SparseCore.T d).loc main_v2 ↦{fullShare} V5 m d v2')
          ∗ ((SparseCore.T d).loc main_v3 ↦{fullShare} m ((SparseCore.T d).loc main_v3))
          ∗ ((SparseCore.T d).loc main_v4 ↦{fullShare} m ((SparseCore.T d).loc main_v4))
          ∗ ((SparseCore.T d).loc main_v5 ↦{fullShare} m ((SparseCore.T d).loc main_v5))
          ∗ ((SparseCore.T d).loc main_v6 ↦{fullShare} m ((SparseCore.T d).loc main_v6))
          ∗ ((SparseCore.T d).loc main_v7 ↦{fullShare} m ((SparseCore.T d).loc main_v7))
          ∗ ((SparseCore.T d).loc main_v8 ↦{fullShare} m ((SparseCore.T d).loc main_v8))
          ∗ ((SparseCore.T d).loc main_v9 ↦{fullShare} m ((SparseCore.T d).loc main_v9))
          ∗ ((SparseCore.T d).loc main_v10 ↦{fullShare} m ((SparseCore.T d).loc main_v10))
          ∗ ((SparseCore.T d).loc main_v11 ↦{fullShare} m ((SparseCore.T d).loc main_v11))) := by
  show held (SparseCore.T d) S18 (V5 m d) = _
  rw [held_S18, V5_keep m d a0' (by decide) (by decide) (by decide) (by decide) (by decide),
    V5_keep m d a1' (by decide) (by decide) (by decide) (by decide) (by decide),
    V5_keep m d a2' (by decide) (by decide) (by decide) (by decide) (by decide),
    V5_keep m d a3' (by decide) (by decide) (by decide) (by decide) (by decide),
    V5_keep m d v3' (by decide) (by decide) (by decide) (by decide) (by decide),
    V5_keep m d v4' (by decide) (by decide) (by decide) (by decide) (by decide),
    V5_keep m d v5' (by decide) (by decide) (by decide) (by decide) (by decide),
    V5_keep m d v6' (by decide) (by decide) (by decide) (by decide) (by decide),
    V5_keep m d v7' (by decide) (by decide) (by decide) (by decide) (by decide),
    V5_keep m d v8' (by decide) (by decide) (by decide) (by decide) (by decide),
    V5_keep m d v9' (by decide) (by decide) (by decide) (by decide) (by decide),
    V5_keep m d v10' (by decide) (by decide) (by decide) (by decide) (by decide),
    V5_keep m d v11' (by decide) (by decide) (by decide) (by decide) (by decide)]

/-! ## The gather calls' operands, from the arrays whole and back -/

theorem st0_of (d : Dev nD) :
    (iprop((catsLoc d ↦{fullShare} m (catsLoc d)) ∗ (tpadLoc d ↦{fullShare} ftOf m d) ∗ out0Loc d ↦{fullShare} m (out0Loc d)) : sProp 𝕄)
      ⊢ bigSep Finset.univ fun c : Fin ((K (F := F)).nCore 0) => (P (UU := UU) m (ftOf m)).st 0 d c :=
  split0 m d (ftOf m d) (m (out0Loc d))
theorem dn0_to (d : Dev nD) :
    (bigSep Finset.univ fun c : Fin ((K (F := F)).nCore 0) => (P (UU := UU) m (ftOf m)).dn 0 d c)
      ⊢ (iprop((catsLoc d ↦{fullShare} m (catsLoc d)) ∗ (tpadLoc d ↦{fullShare} ftOf m d) ∗ ∃ f, out0Loc d ↦{fullShare} f) : sProp 𝕄) :=
  join0 m d (ftOf m d)

theorem st1_of (d : Dev nD) :
    (iprop((catsLoc d ↦{fullShare} m (catsLoc d)) ∗ (tpadLoc d ↦{fullShare} ftOf m d) ∗ out1Loc d ↦{fullShare} m (out1Loc d)) : sProp 𝕄)
      ⊢ bigSep Finset.univ fun c : Fin ((K (F := F)).nCore 1) => (P (UU := UU) m (ftOf m)).st 1 d c :=
  split1 m d (ftOf m d) (m (out1Loc d))
theorem dn1_to (d : Dev nD) :
    (bigSep Finset.univ fun c : Fin ((K (F := F)).nCore 1) => (P (UU := UU) m (ftOf m)).dn 1 d c)
      ⊢ (iprop((catsLoc d ↦{fullShare} m (catsLoc d)) ∗ (tpadLoc d ↦{fullShare} ftOf m d) ∗ ∃ f, out1Loc d ↦{fullShare} f) : sProp 𝕄) :=
  join1 m d (ftOf m d)

theorem st2_of (d : Dev nD) :
    (iprop((catsLoc d ↦{fullShare} m (catsLoc d)) ∗ (tpadLoc d ↦{fullShare} ftOf m d) ∗ out2Loc d ↦{fullShare} m (out2Loc d)) : sProp 𝕄)
      ⊢ bigSep Finset.univ fun c : Fin ((K (F := F)).nCore 2) => (P (UU := UU) m (ftOf m)).st 2 d c :=
  split2 m d (ftOf m d) (m (out2Loc d))
theorem dn2_to (d : Dev nD) :
    (bigSep Finset.univ fun c : Fin ((K (F := F)).nCore 2) => (P (UU := UU) m (ftOf m)).dn 2 d c)
      ⊢ (iprop((catsLoc d ↦{fullShare} m (catsLoc d)) ∗ (tpadLoc d ↦{fullShare} ftOf m d) ∗ ∃ f, out2Loc d ↦{fullShare} f) : sProp 𝕄) :=
  join2 m d (ftOf m d)

theorem st3_of (d : Dev nD) :
    (iprop((catsLoc d ↦{fullShare} m (catsLoc d)) ∗ (tpadLoc d ↦{fullShare} ftOf m d) ∗ out3Loc d ↦{fullShare} m (out3Loc d)) : sProp 𝕄)
      ⊢ bigSep Finset.univ fun c : Fin ((K (F := F)).nCore 3) => (P (UU := UU) m (ftOf m)).st 3 d c :=
  split3 m d (ftOf m d) (m (out3Loc d))
theorem dn3_to (d : Dev nD) :
    (bigSep Finset.univ fun c : Fin ((K (F := F)).nCore 3) => (P (UU := UU) m (ftOf m)).dn 3 d c)
      ⊢ (iprop((catsLoc d ↦{fullShare} m (catsLoc d)) ∗ (tpadLoc d ↦{fullShare} ftOf m d) ∗ ∃ f, out3Loc d ↦{fullShare} f) : sProp 𝕄) :=
  join3 m d (ftOf m d)

/-! ## What @main needs of each projection call -/

/-- Pipeline `p`, entered at @main's line with its gathered input `iR`, the transposed weights, the bias column
    and its output `oR` held whole, the TensorCore owing nothing: it runs to its end, gives the inputs back
    unchanged and the output at some contents, and has recorded only waits that stay below the bound. -/
def RegionSpec (p : Fin 4) (iR oR : Ref sig .tc) : Prop :=
  ∀ (d : Dev nD) (W : Waits sig (HIx 4)), (K (F := F)).WBelow (T d) W 32 →
    ∀ (fi : Buf (Elt F) ((SparseCore.T d).loc iR)) (fw : Buf (Elt F) ((SparseCore.T d).loc main_v1))
      (fb : Buf (Elt F) ((SparseCore.T d).loc main_v2)) (fo : Buf (Elt F) ((SparseCore.T d).loc oR)) (Ψ : PUnit → sProp 𝕄),
    iprop(((boundary (T d) ∗ ((SparseCore.T d).loc iR ↦{fullShare} fi) ∗ ((SparseCore.T d).loc main_v1 ↦{fullShare} fw)
              ∗ ((SparseCore.T d).loc main_v2 ↦{fullShare} fb) ∗ (∃ g, (SparseCore.T d).loc oR ↦{fullShare} g)
              ∗ ∃ W', ⌜(K (F := F)).WBelow (T d) W' 32⌝ ∗ owes (T d) 0 W') -∗ Ψ ⟨⟩)
        ∗ boundary (T d) ∗ levAts (K (F := F)).L (K (F := F)).lev ∗ owes (T d) 0 W
        ∗ ((SparseCore.T d).loc iR ↦{fullShare} fi) ∗ ((SparseCore.T d).loc main_v1 ↦{fullShare} fw)
        ∗ ((SparseCore.T d).loc main_v2 ↦{fullShare} fb) ∗ ((SparseCore.T d).loc oR ↦{fullShare} fo)
        ∗ Pipeline.cellsGhost cfgs (EP (F := F)) p d ∗ Pipeline.toksInit cfgs (EP (F := F)) p d)
      ⊢ wp frame (wpE ((K (F := F)).defs (D (F := F))) 𝒱 (SparseCore.T d) none) Set.univ
          (Prog.lift (.customCall (SparseCore.inner (Pipeline.entry p)) ())) Ψ

/-- Two arrays held together. -/
theorem held_pair (d : Dev nD) (a b : DevRef τ sig) (hab : a ≠ b) (W : Valuation τ sig (Elt F)) :
    (held (T d) {a, b} W : sProp 𝕄) = iprop((((d, a) : Loc nD τ sig) ↦{fullShare} W a) ∗ (((d, b) : Loc nD τ sig) ↦{fullShare} W b)) := by
  unfold held
  rw [SparseCore.bigSep_insert' (by simpa using hab), bigSep_singleton]

/-- After the last gather call the TensorCore owes nothing: its state opens to that and closes again. -/
theorem tcSt4_open (d : Dev nD) :
    ((K (F := F)).tcSt (EH (F := F)) d 4 : sProp 𝕄)
      ⊢ iprop((∃ W, ⌜(K (F := F)).WBelow (T d) W 32⌝ ∗ owes (T d) 0 W)
          ∗ ((∃ W, ⌜(K (F := F)).WBelow (T d) W 32⌝ ∗ owes (T d) 0 W) -∗ (K (F := F)).tcSt (EH (F := F)) d 4)) := by
  unfold SparseCore.Cfg.tcSt
  rw [(K (F := F)).Otc_end d (le_refl 4)]
  iintro ⟨HO, Hrest⟩
  isplitl [HO]; · iexact HO
  iintro HO
  isplitl [HO]; · iexact HO
  iexact Hrest

theorem G_eq (d : Dev nD) : (G (F := F) d : sProp 𝕄)
    = iprop((Pipeline.cellsGhost cfgs (EP (F := F)) 0 d ∗ Pipeline.toksInit cfgs (EP (F := F)) 0 d)
        ∗ (Pipeline.cellsGhost cfgs (EP (F := F)) 1 d ∗ Pipeline.toksInit cfgs (EP (F := F)) 1 d)
        ∗ (Pipeline.cellsGhost cfgs (EP (F := F)) 2 d ∗ Pipeline.toksInit cfgs (EP (F := F)) 2 d)
        ∗ (Pipeline.cellsGhost cfgs (EP (F := F)) 3 d ∗ Pipeline.toksInit cfgs (EP (F := F)) 3 d)) :=
  bigSep_W4 _

/-- What @main leaves the claim: the four arguments at their launch contents. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ ((SparseCore.T d).loc main_arg3 ↦{fullShare} m ((SparseCore.T d).loc main_arg3)))

/-! ## @main -/

theorem held_pair_mk (d : Dev nD) (a b : DevRef τ sig) (hab : a ≠ b) (fa : Buf (Elt F) ((d, a) : Loc nD τ sig)) (fb : Buf (Elt F) ((d, b) : Loc nD τ sig)) :
    (iprop((((d, a) : Loc nD τ sig) ↦{fullShare} fa) ∗ (((d, b) : Loc nD τ sig) ↦{fullShare} fb)) : sProp 𝕄)
      ⊢ held (T d) {a, b} (Function.update (Function.update (V0 m d) a fa) b fb) := by
  rw [held_pair d a b hab, Function.update_self, Function.update_of_ne hab, Function.update_self]

theorem held_pair_out (d : Dev nD) (a b : DevRef τ sig) (hab : a ≠ b) (W : Valuation τ sig (Elt F)) :
    (held (T d) {a, b} W : sProp 𝕄) ⊢ iprop((∃ g, ((d, a) : Loc nD τ sig) ↦{fullShare} g) ∗ ∃ g, ((d, b) : Loc nD τ sig) ↦{fullShare} g) := by
  rw [held_pair d a b hab]
  iintro ⟨Ha, Hb⟩
  isplitl [Ha]
  · iexists _; iexact Ha
  · iexists _; iexact Hb

set_option maxHeartbeats 4000000 in
/-- @main on device `d`'s TensorCore, given the four projection calls' regions. -/
theorem hmain (hR0 : RegionSpec (F := F) 0 main_v3 main_v7) (hR1 : RegionSpec (F := F) 1 main_v4 main_v8)
    (hR2 : RegionSpec (F := F) 2 main_v5 main_v9) (hR3 : RegionSpec (F := F) 3 main_v6 main_v10)
    (κ : GSem nD τ sig → ℕ) (d : Dev nD) :
    iprop((K (F := F)).ctx EH (P m (ftOf m)) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 4 ∗ FIN m d) := by
  unfold SparseCore.Cfg.tcRes
  rw [unscoped_held, G_eq]
  simp only [main, fn_pad.body, wp_bind, wp_pure]
  iintro ⟨#Hctx, Hst, ⟨Hb, Hheld, -, -⟩, ⟨Hcg0, Htk0⟩, ⟨Hcg1, Htk1⟩, ⟨Hcg2, Htk2⟩, ⟨Hcg3, Htk3⟩⟩
  -- the zero, its conversion, the pad, the weights' transpose, the bias column
  iapply (wp_hlo_within 𝒱 (SparseCore.T d) none Set.univ (op := opC) (S := S18) hC (V := V0 m d)) $$ [Hb Hheld]
  · isplitl [Hb] <;> iassumption
  iintro ⟨Hb, Hheld⟩
  rw [wp_ret]; imodintro
  iapply (wp_hlo_within 𝒱 (SparseCore.T d) none Set.univ (op := opCf) (S := S18) hCf (V := (opC (F := F)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S18) hPad (V := (opCf (F := F)).result ((opC (F := F)).result (V0 m d)))) $$ [Hb Hheld]
  · isplitl [Hb] <;> iassumption
  iintro ⟨Hb, Hheld⟩
  rw [wp_ret]; imodintro; imodintro
  iapply (wp_hlo_within 𝒱 (SparseCore.T d) none Set.univ (op := opWt) (S := S18) hWt (V := (opPad (F := F)).result ((opCf (F := F)).result ((opC (F := F)).result (V0 m d))))) $$ [Hb Hheld]
  · isplitl [Hb] <;> iassumption
  iintro ⟨Hb, Hheld⟩
  rw [wp_ret]; imodintro
  iapply (wp_hlo_within 𝒱 (SparseCore.T d) none Set.univ (op := opBc) (S := S18) hBc (V := (opWt (F := F)).result ((opPad (F := F)).result ((opCf (F := F)).result ((opC (F := F)).result (V0 m d)))))) $$ [Hb Hheld]
  · isplitl [Hb] <;> iassumption
  iintro ⟨Hb, Hheld⟩
  rw [wp_ret]; imodintro
  ihave Hh := (Entails.of_eq (held_V5 (F := F) m d)) $$ Hheld
  icases Hh with ⟨Ha0, Ha1, Ha2, Ha3, Hc, Hcf, Hv0, Hv1, Hv2, Hv3, Hv4, Hv5, Hv6, Hv7, Hv8, Hv9, Hv10, Hv11⟩
  -- gather call 0: the index array, the padded table and the call's result to the 32 tasks and back
  iapply ((K (F := F)).wp_run (D (F := F)) 𝒱 (EH := EH) (P := P m (ftOf m)) κ d 0) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv3]
  · iapply (st0_of m d)
    isplitl [Ha0]; · iexact Ha0
    isplitl [Hv0]; · iexact Hv0
    iexact Hv3
  iintro ⟨Hst, Hdn⟩
  ihave Hdn' := (dn0_to m d) $$ Hdn
  icases Hdn' with ⟨Ha0, Hv0, ⟨%g3, Hv3⟩⟩
  -- gather call 1: the index array, the padded table and the call's result to the 32 tasks and back
  iapply ((K (F := F)).wp_run (D (F := F)) 𝒱 (EH := EH) (P := P m (ftOf m)) κ d 1) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv4]
  · iapply (st1_of m d)
    isplitl [Ha0]; · iexact Ha0
    isplitl [Hv0]; · iexact Hv0
    iexact Hv4
  iintro ⟨Hst, Hdn⟩
  ihave Hdn' := (dn1_to m d) $$ Hdn
  icases Hdn' with ⟨Ha0, Hv0, ⟨%g4, Hv4⟩⟩
  -- gather call 2: the index array, the padded table and the call's result to the 32 tasks and back
  iapply ((K (F := F)).wp_run (D (F := F)) 𝒱 (EH := EH) (P := P m (ftOf m)) κ d 2) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv5]
  · iapply (st2_of m d)
    isplitl [Ha0]; · iexact Ha0
    isplitl [Hv0]; · iexact Hv0
    iexact Hv5
  iintro ⟨Hst, Hdn⟩
  ihave Hdn' := (dn2_to m d) $$ Hdn
  icases Hdn' with ⟨Ha0, Hv0, ⟨%g5, Hv5⟩⟩
  -- gather call 3: the index array, the padded table and the call's result to the 32 tasks and back
  iapply ((K (F := F)).wp_run (D (F := F)) 𝒱 (EH := EH) (P := P m (ftOf m)) κ d 3) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv6]
  · iapply (st3_of m d)
    isplitl [Ha0]; · iexact Ha0
    isplitl [Hv0]; · iexact Hv0
    iexact Hv6
  iintro ⟨Hst, Hdn⟩
  ihave Hdn' := (dn3_to m d) $$ Hdn
  icases Hdn' with ⟨Ha0, Hv0, ⟨%g6, Hv6⟩⟩
  -- the TensorCore owes nothing from here on
  ihave Hst := (Entails.of_eq (show ((K (F := F)).tcSt (EH (F := F)) d ((3 : Fin 4).val + 1) : sProp 𝕄) = (K (F := F)).tcSt (EH (F := F)) d 4 from rfl)) $$ Hst
  ihave Ho := (tcSt4_open (F := F) d) $$ Hst
  icases Ho with ⟨⟨%W0, %hW0, HO⟩, Hclose⟩
  ihave #Hlev := ((K (F := F)).ctx_levAts (EH := EH) (P := P m (ftOf m)) κ) $$ Hctx
  -- projection call 0
  iapply (hR0 d W0 hW0 _ _ _ _ _) $$ [Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3 HO Hclose]
  isplitr [Hb HO Hv3 Hv1 Hv2 Hv7 Hcg0 Htk0]
  swap
  · isplitl [Hb]; · iexact Hb
    isplitr; · iexact Hlev
    isplitl [HO]; · iexact HO
    isplitl [Hv3]; · iexact Hv3
    isplitl [Hv1]; · iexact Hv1
    isplitl [Hv2]; · iexact Hv2
    isplitl [Hv7]; · iexact Hv7
    isplitl [Hcg0]; · iexact Hcg0
    iexact Htk0
  iintro ⟨Hb, Hv3, Hv1, Hv2, ⟨%h7, Hv7⟩, %W1, %hW1, HO⟩
  -- the output so far, copied into the next call's
  iapply (wp_hlo_within 𝒱 (SparseCore.T d) none Set.univ (op := opId78) (S := {v7', v8'}) (Finset.Subset.refl _)
      (V := Function.update (Function.update (V0 m d) v7' h7) v8' (m ((SparseCore.T d).loc main_v8)))) $$ [Hb Hv7 Hv8]
  · isplitl [Hb]; · iexact Hb
    iapply (held_pair_mk m d v7' v8' (by decide) _ _)
    isplitl [Hv7] <;> iassumption
  iintro ⟨Hb, Hheld⟩
  rw [wp_ret]; imodintro
  ihave Hp := (held_pair_out d v7' v8' (by decide) _) $$ Hheld
  icases Hp with ⟨⟨%k7, Hv7⟩, ⟨%k8, Hv8⟩⟩
  -- projection call 1
  iapply (hR1 d W1 hW1 _ _ _ _ _) $$ [Hb Ha0 Ha1 Ha2 Ha3 Hc Hcf Hv0 Hv1 Hv2 Hv3 Hv4 Hv5 Hv6 Hv7 Hv8 Hv9 Hv10 Hv11 Hcg1 Htk1 Hcg2 Htk2 Hcg3 Htk3 HO Hclose]
  isplitr [Hb HO Hv4 Hv1 Hv2 Hv8 Hcg1 Htk1]
  swap
  · isplitl [Hb]; · iexact Hb
    isplitr; · iexact Hlev
    isplitl [HO]; · iexact HO
    isplitl [Hv4]; · iexact Hv4
    isplitl [Hv1]; · iexact Hv1
    isplitl [Hv2]; · iexact Hv2
    isplitl [Hv8]; · iexact Hv8
    isplitl [Hcg1]; · iexact Hcg1
    iexact Htk1
  iintro ⟨Hb, Hv4, Hv1, Hv2, ⟨%h8, Hv8⟩, %W2, %hW2, HO⟩
  -- the output so far, copied into the next call's
  iapply (wp_hlo_within 𝒱 (SparseCore.T d) none Set.univ (op := opId89) (S := {v8', v9'}) (Finset.Subset.refl _)
      (V := Function.update (Function.update (V0 m d) v8' h8) v9' (m ((SparseCore.T d).loc main_v9)))) $$ [Hb Hv8 Hv9]
  · isplitl [Hb]; · iexact Hb
    iapply (held_pair_mk m d v8' v9' (by decide) _ _)
    isplitl [Hv8] <;> iassumption
  iintro ⟨Hb, Hheld⟩
  rw [wp_ret]; imodintro
  ihave Hp := (held_pair_out d v8' v9' (by decide) _) $$ Hheld
  icases Hp with ⟨⟨%k8, Hv8⟩, ⟨%k9, Hv9⟩⟩
  -- projection call 2
  iapply (hR2 d W2 hW2 _ _ _ _ _) $$ [Hb Ha0 Ha1 Ha2 Ha3 Hc Hcf Hv0 Hv1 Hv2 Hv3 Hv4 Hv5 Hv6 Hv7 Hv8 Hv9 Hv10 Hv11 Hcg2 Htk2 Hcg3 Htk3 HO Hclose]
  isplitr [Hb HO Hv5 Hv1 Hv2 Hv9 Hcg2 Htk2]
  swap
  · isplitl [Hb]; · iexact Hb
    isplitr; · iexact Hlev
    isplitl [HO]; · iexact HO
    isplitl [Hv5]; · iexact Hv5
    isplitl [Hv1]; · iexact Hv1
    isplitl [Hv2]; · iexact Hv2
    isplitl [Hv9]; · iexact Hv9
    isplitl [Hcg2]; · iexact Hcg2
    iexact Htk2
  iintro ⟨Hb, Hv5, Hv1, Hv2, ⟨%h9, Hv9⟩, %W3, %hW3, HO⟩
  -- the output so far, copied into the next call's
  iapply (wp_hlo_within 𝒱 (SparseCore.T d) none Set.univ (op := opId910) (S := {v9', v10'}) (Finset.Subset.refl _)
      (V := Function.update (Function.update (V0 m d) v9' h9) v10' (m ((SparseCore.T d).loc main_v10)))) $$ [Hb Hv9 Hv10]
  · isplitl [Hb]; · iexact Hb
    iapply (held_pair_mk m d v9' v10' (by decide) _ _)
    isplitl [Hv9] <;> iassumption
  iintro ⟨Hb, Hheld⟩
  rw [wp_ret]; imodintro
  ihave Hp := (held_pair_out d v9' v10' (by decide) _) $$ Hheld
  icases Hp with ⟨⟨%k9, Hv9⟩, ⟨%k10, Hv10⟩⟩
  -- projection call 3
  iapply (hR3 d W3 hW3 _ _ _ _ _) $$ [Hb Ha0 Ha1 Ha2 Ha3 Hc Hcf Hv0 Hv1 Hv2 Hv3 Hv4 Hv5 Hv6 Hv7 Hv8 Hv9 Hv10 Hv11 Hcg3 Htk3 HO Hclose]
  isplitr [Hb HO Hv6 Hv1 Hv2 Hv10 Hcg3 Htk3]
  swap
  · isplitl [Hb]; · iexact Hb
    isplitr; · iexact Hlev
    isplitl [HO]; · iexact HO
    isplitl [Hv6]; · iexact Hv6
    isplitl [Hv1]; · iexact Hv1
    isplitl [Hv2]; · iexact Hv2
    isplitl [Hv10]; · iexact Hv10
    isplitl [Hcg3]; · iexact Hcg3
    iexact Htk3
  iintro ⟨Hb, Hv6, Hv1, Hv2, ⟨%h10, Hv10⟩, %W4, %hW4, HO⟩
  -- the final transpose
  iapply (wp_hlo_within 𝒱 (SparseCore.T d) none Set.univ (op := opOut) (S := {v10', v11'}) (Finset.Subset.refl _)
      (V := Function.update (Function.update (V0 m d) v10' h10) v11' (m ((SparseCore.T d).loc main_v11)))) $$ [Hb Hv10 Hv11]
  · isplitl [Hb]; · iexact Hb
    iapply (held_pair_mk m d v10' v11' (by decide) _ _)
    isplitl [Hv10] <;> iassumption
  iintro ⟨Hb, Hheld⟩
  rw [wp_ret]; imodintro; imodintro
  isplitl [Hclose HO]
  · iapply Hclose
    iexists W4; isplitr
    · ipureintro; exact hW4
    · iexact HO
  isplitl [Ha0]; · iexact Ha0
  isplitl [Ha1]; · iexact Ha1
  isplitl [Ha2]; · iexact Ha2
  iexact Ha3

end Cert.Proof.LaunchB

end
-- ==== Proof.LaunchRunB.lean ====
/-
  The program's run, from the tasks' obligations and the projection calls' regions.

  The launch theorem puts the pieces together: each gather call's task proved once at a symbolic subcore, a
  core's operands being its tasks' operands, @main on the TensorCore, and the launch element. What it yields is
  that every weakly fair execution of all 35 threads ends without a fault with the four arguments unchanged.
-/
import proofs.«204056_g19739669692900_cont_8to1_1488_31_alg».proof.Proof.LaunchMainB

noncomputable section

namespace Cert.Proof.LaunchB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 4) (Elt F) ℕ UU ℕ

variable [FloatOps F] [∀ e, Nonempty (Elt F e)]
variable (m : (ℓ : Loc nD τ sig) → Buf (Elt F) ℓ) (ρ : Dev nD → PrngReg)

/-! ## The payloads can be stored in the handshakes' invariants -/

instance goRes_storable (ft : (d : Dev nD) → Buf (Elt F) (tpadLoc d)) (q : Fin 4) (d : Dev nD) (c : Fin ((K (F := F)).nCore q)) (i : Fin ((K (F := F)).nSub q)) :
    BI.Storable (upEmb : UEmb _ 𝕄) (goRes (UU := UU) m ft q d c i) := by
  match q, c, i with
  | 0, c, i => exact (inferInstance : BI.Storable (upEmb : UEmb _ 𝕄) iprop(catsSh m d (wid c i) ∗ tpadSh d (wid c i) (ft d) ∗ outBlk0 d (wid c i) (m (out0Loc d))))
  | 1, c, i => exact (inferInstance : BI.Storable (upEmb : UEmb _ 𝕄) iprop(catsSh m d (wid c i) ∗ tpadSh d (wid c i) (ft d) ∗ outBlk1 d (wid c i) (m (out1Loc d))))
  | 2, c, i => exact (inferInstance : BI.Storable (upEmb : UEmb _ 𝕄) iprop(catsSh m d (wid c i) ∗ tpadSh d (wid c i) (ft d) ∗ outBlk2 d (wid c i) (m (out2Loc d))))
  | 3, c, i => exact (inferInstance : BI.Storable (upEmb : UEmb _ 𝕄) iprop(catsSh m d (wid c i) ∗ tpadSh d (wid c i) (ft d) ∗ outBlk3 d (wid c i) (m (out3Loc d))))

instance tdRes_storable (ft : (d : Dev nD) → Buf (Elt F) (tpadLoc d)) (q : Fin 4) (d : Dev nD) (c : Fin ((K (F := F)).nCore q)) (i : Fin ((K (F := F)).nSub q)) :
    BI.Storable (upEmb : UEmb _ 𝕄) (tdRes (UU := UU) m ft q d c i) := by
  match q, c, i with
  | 0, c, i => exact (inferInstance : BI.Storable (upEmb : UEmb _ 𝕄) iprop(catsSh m d (wid c i) ∗ tpadSh d (wid c i) (ft d) ∗ ∃ f, outBlk0 d (wid c i) f))
  | 1, c, i => exact (inferInstance : BI.Storable (upEmb : UEmb _ 𝕄) iprop(catsSh m d (wid c i) ∗ tpadSh d (wid c i) (ft d) ∗ ∃ f, outBlk1 d (wid c i) f))
  | 2, c, i => exact (inferInstance : BI.Storable (upEmb : UEmb _ 𝕄) iprop(catsSh m d (wid c i) ∗ tpadSh d (wid c i) (ft d) ∗ ∃ f, outBlk2 d (wid c i) f))
  | 3, c, i => exact (inferInstance : BI.Storable (upEmb : UEmb _ 𝕄) iprop(catsSh m d (wid c i) ∗ tpadSh d (wid c i) (ft d) ∗ ∃ f, outBlk3 d (wid c i) f))

instance P_storable (ft : (d : Dev nD) → Buf (Elt F) (tpadLoc d)) : (P (UU := UU) m ft).IsStorable where
  st q d c := (inferInstance : BI.Storable (upEmb : UEmb _ 𝕄) (bigSep Finset.univ fun i : Fin ((K (F := F)).nSub q) => goRes (UU := UU) m ft q d c i))
  dn q d c := (inferInstance : BI.Storable (upEmb : UEmb _ 𝕄) (bigSep Finset.univ fun i : Fin ((K (F := F)).nSub q) => tdRes (UU := UU) m ft q d c i))
  go q d c i := goRes_storable m ft q d c i
  td q d c i := tdRes_storable m ft q d c i

/-! ## What the final memory says -/

def fq (d : Dev nD) (s' : Phys nD τ sig (Elt F)) : Prop :=
  s'.mem.mem ((SparseCore.T d).loc main_arg0) = m ((SparseCore.T d).loc main_arg0) ∧ s'.mem.mem ((SparseCore.T d).loc main_arg1) = m ((SparseCore.T d).loc main_arg1)
    ∧ s'.mem.mem ((SparseCore.T d).loc main_arg2) = m ((SparseCore.T d).loc main_arg2) ∧ s'.mem.mem ((SparseCore.T d).loc main_arg3) = m ((SparseCore.T d).loc main_arg3)

set_option maxRecDepth 16384 in
theorem hfin (d : Dev nD) (s' : Phys nD τ sig (Elt F)) : iprop(FIN m d ∗ SI s') ⊢ (⌜fq m d s'⌝ : sProp 𝕄) := by
  iintro ⟨⟨H0, H1, H2, H3⟩, HSI⟩
  ihave H := (persistent_entails_right (SI_pointsTo_agree (st := s') (ℓ := (SparseCore.T d).loc main_arg0) (I := Finset.univ) (q := fullShare) (f := m ((SparseCore.T d).loc main_arg0)))) $$ [HSI H0]
  · isplitl [HSI] <;> iassumption
  icases H with ⟨%h0, HSI, -⟩
  ihave H := (persistent_entails_right (SI_pointsTo_agree (st := s') (ℓ := (SparseCore.T d).loc main_arg1) (I := Finset.univ) (q := fullShare) (f := m ((SparseCore.T d).loc main_arg1)))) $$ [HSI H1]
  · isplitl [HSI] <;> iassumption
  icases H with ⟨%h1, HSI, -⟩
  ihave H := (persistent_entails_right (SI_pointsTo_agree (st := s') (ℓ := (SparseCore.T d).loc main_arg2) (I := Finset.univ) (q := fullShare) (f := m ((SparseCore.T d).loc main_arg2)))) $$ [HSI H2]
  · isplitl [HSI] <;> iassumption
  icases H with ⟨%h2, HSI, -⟩
  ihave H := (SI_pointsTo_agree (st := s') (ℓ := (SparseCore.T d).loc main_arg3) (I := Finset.univ) (q := fullShare) (f := m ((SparseCore.T d).loc main_arg3))) $$ [HSI H3]
  · isplitl [HSI] <;> iassumption
  icases H with %h3
  ipureintro
  exact ⟨funext fun i => h0 i (Finset.mem_univ i), funext fun i => h1 i (Finset.mem_univ i), funext fun i => h2 i (Finset.mem_univ i), funext fun i => h3 i (Finset.mem_univ i)⟩

/-! ## The run -/

def QC : PUnit × MemSt nD τ sig (Elt F) → Prop := fun r => ∀ c : Dev nD,
  r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)

/-- Every weakly fair execution of the program's threads ends, faulting nowhere, with the arguments unchanged —
    given each gather call's task at a symbolic subcore and each projection call's region. -/
theorem run_main (hT : ∀ q : Fin 4, (K (F := F)).TileObl (D (F := F)) 𝒱 (P (UU := UU) m (ftOf m)) v₀ q)
    (hR0 : RegionSpec (F := F) 0 main_v3 main_v7) (hR1 : RegionSpec (F := F) 1 main_v4 main_v8)
    (hR2 : RegionSpec (F := F) 2 main_v5 main_v9) (hR3 : RegionSpec (F := F) 3 main_v6 main_v10) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m (ftOf m)) facts v₀
    (fun q hq => absurd ((kind_eq (F := F) q).symm.trans hq) (by decide))
    (fun q _ => hT q)
    (fun q _ => SparseCore.Cfg.VecSplit.of_plain (vecSplit m (ftOf m) q))
    m ρ main (fun d => G (F := F) d) (FIN m) (u₀ (F := F)) (sep_elim_left.trans (hu₀ m (ftOf m))) (hmain m ρ hR0 hR1 hR2 hR3) (fq m) (hfin m) (QC m) (fun _ h => h)

end Cert.Proof.LaunchB

end
-- ==== Proof.Region4BodyB.lean ====
/-
  The body of the first projection kernel, run once at a symbolic grid point.

  The kernel is handed four buffers held whole: a block of 512 batch entries of gathered rows
  (512 x 50 x 64), the transposed weights (64 x 64), the bias column (64 x 1) and the output block
  (50 x 64 x 512).  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.Kernel.Skeleton
import Idealize.ShloMosaic.Lib.Tactic

noncomputable section

namespace Cert.Proof.BRegion4

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run4 (c : Dev nD) (i : grid4.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc4_body i M1 h1 M2 h2 M3 h3 M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.BRegion4

end
-- ==== Proof.Region4B.lean ====
/-
  The first projection kernel as a region of the TensorCore's program, entered after the four gather
  calls.

  The region streams the gathered rows (4096 x 50 x 64, in eight blocks of 512 batch entries) through the
  kernel body, with the transposed weights and the bias column staged once, and writes the eight
  50 x 64 x 512 blocks of its result into columns 0 .. 4095 of the 50 x 64 x 16384 output.  Here only the
  frame is stated: the three arrays the region reads end as they began, the output array ends holding
  something, and the TensorCore, which owes nothing when the region is entered, owes nothing when it is left.
-/
import proofs.«204056_g19739669692900_cont_8to1_1488_31_alg».proof.Proof.Region4BodyB
import proofs.«204056_g19739669692900_cont_8to1_1488_31_alg».proof.Proof.Gen.Kernel.Launch
import proofs.«204056_g19739669692900_cont_8to1_1488_31_alg».proof.Proof.Gen.Kernel.Points
import Idealize.ShloMosaic.Lib.SparseCore.Threads
import Idealize.ShloMosaic.Lib.Pipeline.Regions

noncomputable section

namespace Cert.Proof.BRegion4

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd4 (c : Dev nD) (A : (w : Fin cfg4.W) → Buf (Elt F) ((cfg4.win w).arr.view.loc (c.tc : Thread nD τ))) :
    RDat τ (Elt F) (HIx 4) ℕ UU ℕ cfg4 c where
  A := A
  after _ _ _ _ := True
  Φ _ := Pipeline.scopedRest spec4 c
  q _ := fullShare
  owed _ := 0
  recorded _ := Bd (F := F) c

/-- The body at a grid point: from the four current staging buffers, the invariant and what the core owes, to the same
    with every buffer at some contents. -/
theorem sound_body (c : Dev nD) (A : (w : Fin cfg4.W) → Buf (Elt F) ((cfg4.win w).arr.view.loc (c.tc : Thread nD τ)))
    (t : Fin cfg4.N) (Y : (w : Fin cfg4.W) → (cfg4.win w).block.Idx → Elt F (cfg4.win w).elt) :
    iprop((rd4 (UU := UU) c A).Φ t.castSucc ∗ (rd4 (UU := UU) c A).owesAt none t.castSucc
        ∗ owns (c : Thread nD τ) (st4_0 t) fullShare (Y 0) ∗ owns (c : Thread nD τ) (st4_1 t) fullShare (Y 1)
        ∗ owns (c : Thread nD τ) (st4_2 t) fullShare (Y 2) ∗ owns (c : Thread nD τ) (st4_3 t) fullShare (Y 3))
      ⊢ wp frame (wpE (defs₀ (F := F)) 𝒱₀ c none) Set.univ (bodyAt4 t) fun _ =>
          iprop((rd4 (UU := UU) c A).Φ t.succ ∗ (rd4 (UU := UU) c A).owesAt none t.succ
            ∗ (∃ X, ⌜(rd4 (UU := UU) c A).after 0 t (Y 0) X⌝ ∗ owns (c : Thread nD τ) (st4_0 t) fullShare X)
            ∗ (∃ X, ⌜(rd4 (UU := UU) c A).after 1 t (Y 1) X⌝ ∗ owns (c : Thread nD τ) (st4_1 t) fullShare X)
            ∗ (∃ X, ⌜(rd4 (UU := UU) c A).after 2 t (Y 2) X⌝ ∗ owns (c : Thread nD τ) (st4_2 t) fullShare X)
            ∗ (∃ X, ⌜(rd4 (UU := UU) c A).after 3 t (Y 3) X⌝ ∗ owns (c : Thread nD τ) (st4_3 t) fullShare X)) := by
  rw [show (rd4 (UU := UU) c A).Φ t.succ = (rd4 (UU := UU) c A).Φ t.castSucc from rfl,
    show (rd4 (UU := UU) c A).owesAt none t.succ = (rd4 (UU := UU) c A).owesAt none t.castSucc from rfl]
  iintro ⟨HΦ, HO, H0, H1, H2, H3⟩
  ihave H0 := (owns_whole_elim (c : Thread nD τ) (st4_0 t) (hstage4_0 ((cfg4.slots t 0).cast nbuf4_0)) fullShare (Y 0)) $$ H0
  ihave H1 := (owns_whole_elim (c : Thread nD τ) (st4_1 t) (hstage4_1 ((cfg4.slots t 1).cast nbuf4_1)) fullShare (Y 1)) $$ H1
  ihave H2 := (owns_whole_elim (c : Thread nD τ) (st4_2 t) (hstage4_2 ((cfg4.slots t 2).cast nbuf4_2)) fullShare (Y 2)) $$ H2
  ihave H3 := (owns_whole_elim (c : Thread nD τ) (st4_3 t) (hstage4_3 ((cfg4.slots t 3).cast nbuf4_3)) fullShare (Y 3)) $$ H3
  icases H0 with ⟨%f0, H0⟩
  icases H1 with ⟨%f1, H1⟩
  icases H2 with ⟨%f2, H2⟩
  icases H3 with ⟨%f3, H3⟩
  iapply (run4 c (grid4.coords t) (st4_0 t) (hstage4_0 ((cfg4.slots t 0).cast nbuf4_0)) (st4_1 t) (hstage4_1 ((cfg4.slots t 1).cast nbuf4_1))
    (st4_2 t) (hstage4_2 ((cfg4.slots t 2).cast nbuf4_2)) (st4_3 t) (hstage4_3 ((cfg4.slots t 3).cast nbuf4_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st4_0 t) (hstage4_0 ((cfg4.slots t 0).cast nbuf4_0)) fullShare f0 _ fun _ => trivial); iexact H0
  isplitl [H1]; · iapply (owns_whole_intro (c : Thread nD τ) (st4_1 t) (hstage4_1 ((cfg4.slots t 1).cast nbuf4_1)) fullShare f1 _ fun _ => trivial); iexact H1
  isplitl [H2]; · iapply (owns_whole_intro (c : Thread nD τ) (st4_2 t) (hstage4_2 ((cfg4.slots t 2).cast nbuf4_2)) fullShare f2 _ fun _ => trivial); iexact H2
  iapply (owns_whole_intro (c : Thread nD τ) (st4_3 t) (hstage4_3 ((cfg4.slots t 3).cast nbuf4_3)) fullShare f3' _ fun _ => trivial); iexact H3

/-- The library's body obligation for the region's proof data, whatever the arrays hold at entry. -/
theorem body4 (c : Dev nD) (A : (w : Fin cfg4.W) → Buf (Elt F) ((cfg4.win w).arr.view.loc (c.tc : Thread nD τ))) :
    (rd4 (UU := UU) c A).BodyObligation (defs₀ (F := F)) 𝒱₀ none Set.univ := fun t Y _ => by
  rw [bigSep_W4, bigSep_W4]
  exact sound_body c A t Y

/-! ## The region's proof data, for every pipeline and core

The library's region rule is stated over a family of proof data, one per pipeline and core, of which it reads only the one
at the pipeline and core entered. The family below is the region's data at pipeline 0 and says nothing elsewhere. -/

section Region

variable (d : Dev nD) (f3 : Buf (Elt F) ((T d : Thread nD τ).loc main_v3)) (fw : Buf (Elt F) ((T d : Thread nD τ).loc main_v1))
  (fb : Buf (Elt F) ((T d : Thread nD τ).loc main_v2)) (f7 : Buf (Elt F) ((T d : Thread nD τ).loc main_v7))

/-- The four arrays' contents when the region is entered on device `d`: the gathered rows, the transposed weights, the
    bias column, the output. -/
def A4 : (w : Fin cfg4.W) → Buf (Elt F) ((cfg4.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A4c (c : Dev nD) : (w : Fin cfg4.W) → Buf (Elt F) ((cfg4.win w).arr.view.loc (c.tc : Thread nD τ)) :=
  if h : c = d then h ▸ A4 d f3 fw fb f7 else fun _ _ => default

theorem A4c_self : A4c (F := F) d f3 fw fb f7 d = A4 d f3 fw fb f7 := by
  unfold A4c; rw [dif_pos rfl]

/-- The family: the region's data at pipeline 0, data that says nothing at the others. -/
def rdats : (p : Fin 4) → (c : Dev nD) → RDat τ (Elt F) (HIx 4) ℕ UU ℕ (Pipeline.pin (pcfgs (F := F)) adm p) c
  | ⟨0, _⟩, c => rd4 c (A4c d f3 fw fb f7 c)
  | ⟨_ + 1, _⟩, _ => { A := fun _ _ => default, after := fun _ _ _ _ => True, Φ := fun _ => iprop(emp), q := fun _ => fullShare, owed := fun _ => 0 }

theorem rdats_zero (c : Dev nD) : rdats (UU := UU) d f3 fw fb f7 0 c = rd4 c (A4c d f3 fw fb f7 c) := rfl

end Region

/-! ## The region as the library's record, and its step at @main's line -/

section Step

variable (d : Dev nD) (f3 : Buf (Elt F) ((T d : Thread nD τ).loc main_v3)) (fw : Buf (Elt F) ((T d : Thread nD τ).loc main_v1))
  (fb : Buf (Elt F) ((T d : Thread nD τ).loc main_v2)) (f7 : Buf (Elt F) ((T d : Thread nD τ).loc main_v7))

theorem share4 (c : Dev nD) (w : Fin cfg4.W) : (rdats (UU := UU) d f3 fw fb f7 0 c).share w = fullShare :=
  (rdats (UU := UU) d f3 fw fb f7 0 c).share_full (fun _ => rfl) w

/-- The region's four arrays, one by one. -/
theorem arrays4 (c : Dev nD) (G : (w : Fin cfg4.W) → Buf (Elt F) ((cfg4.win w).arr.view.loc (c.tc : Thread nD τ))) :
    ((rdats (UU := UU) d f3 fw fb f7 0 c).arrays G : sProp 𝕄)
      = iprop((((c.tc : Thread nD τ).loc main_v3) ↦{fullShare} G 0) ∗ (((c.tc : Thread nD τ).loc main_v1) ↦{fullShare} G 1)
          ∗ (((c.tc : Thread nD τ).loc main_v2) ↦{fullShare} G 2) ∗ (((c.tc : Thread nD τ).loc main_v7) ↦{fullShare} G 3)) := by
  rw [Pipeline.RDat.arrays_eq (pcfgs (F := F)) adm (rdats (UU := UU) d f3 fw fb f7) 0 c launch4.arr_whole (share4 d f3 fw fb f7 c) G, bigSep_W4]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg4 : Pipeline.RDat.RegionSeg (pcfgs (F := F)) adm (rdats (UU := UU) d f3 fw fb f7) none defs₀ 𝒱₀ (K (F := F)).L (K (F := F)).lev 0 where
  win := launch4.win.to₀
  block_pos := launch4.block_pos
  stage_whole := launch4.stage_whole
  K := PEmpty
  osem := fun k => k.elim
  ho := Pipeline.OwnSemFacts.none _
  hbody c := body4 c _
  hwaits := Pipeline.RDat.hwaits_of_owed_zero _ _ _ _ _ _ 0 fun _ _ => rfl
  pre c := iprop((rdats (UU := UU) d f3 fw fb f7 0 c).arrays (rdats (UU := UU) d f3 fw fb f7 0 c).A ∗ (rdats (UU := UU) d f3 fw fb f7 0 c).owesAt none 0)
  post c := iprop((rdats (UU := UU) d f3 fw fb f7 0 c).arraysAt cfg4.N ∗ (rdats (UU := UU) d f3 fw fb f7 0 c).owesAt none (Fin.last cfg4.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec4 c) ⊢ Pipeline.scopedRest spec4 c
    iintro ⟨-, -, Hr⟩; iexact Hr
  hout c := by
    rw [Pipeline.ownSems0_none]
    show Pipeline.scopedRest spec4 c ⊢ iprop(_ ∗ _ ∗ Pipeline.scopedRest spec4 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre4 (W : Waits sig (HIx 4)) (hW : (K (F := F)).WBelow (T d) W 32) :
    iprop(owes (T d : Thread nD τ) (0 : CellTallies nD τ sig (HIx 4)) W
        ∗ (((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7))
      ⊢ ((reg4 (UU := UU) d f3 fw fb f7).pre d : sProp 𝕄) := by
  show _ ⊢ iprop((rdats (UU := UU) d f3 fw fb f7 0 d).arrays (rdats (UU := UU) d f3 fw fb f7 0 d).A ∗ (rdats (UU := UU) d f3 fw fb f7 0 d).owesAt none 0)
  rw [arrays4, show (rdats (UU := UU) d f3 fw fb f7 0 d).A = A4 d f3 fw fb f7 from A4c_self d f3 fw fb f7]
  show _ ⊢ iprop(((((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7))
      ∗ ∃ W' : Waits sig (HIx 4), ⌜(↑W' : Set (SemLoc sig × HIx 4)) ⊆ (rdats (UU := UU) d f3 fw fb f7 0 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg4.N + 1)) (W' : Waits sig (HIx 4))
    (h : (↑W' : Set (SemLoc sig × HIx 4)) ⊆ (rdats (UU := UU) d f3 fw fb f7 0 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post4 :
    ((reg4 (UU := UU) d f3 fw fb f7).post d : sProp 𝕄)
      ⊢ iprop((((T d : Thread nD τ).loc main_v3) ↦{fullShare} f3) ∗ (((T d : Thread nD τ).loc main_v1) ↦{fullShare} fw)
        ∗ (((T d : Thread nD τ).loc main_v2) ↦{fullShare} fb) ∗ (∃ g, ((T d : Thread nD τ).loc main_v7) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 0 d).A = A4 d f3 fw fb f7 := A4c_self d f3 fw fb f7
  have e0 := (rdats (UU := UU) d f3 fw fb f7 0 d).ArrAt_in 0 rfl cfg4.N
  have e1 := (rdats (UU := UU) d f3 fw fb f7 0 d).ArrAt_in 1 rfl cfg4.N
  have e2 := (rdats (UU := UU) d f3 fw fb f7 0 d).ArrAt_in 2 rfl cfg4.N
  show iprop((rdats (UU := UU) d f3 fw fb f7 0 d).arraysAt cfg4.N
      ∗ ∃ W' : Waits sig (HIx 4), ⌜(↑W' : Set (SemLoc sig × HIx 4)) ⊆ (rdats (UU := UU) d f3 fw fb f7 0 d).bound none (Fin.last cfg4.N)⌝ ∗ owes (T d : Thread nD τ) (0 : CellTallies nD τ sig (HIx 4)) W') ⊢ _
  unfold RDat.arraysAt
  rw [bigSep_W4, e0, e1, e2, hA]
  simp only [share4, (launch4.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 0, the region's call runs
    — under any continuation — to the boundary again, the three arrays it reads unchanged, the output at some contents, and
    the TensorCore still owing nothing. -/
theorem region0 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v3) ↦{fullShare} f3) ∗ (((T d : Thread nD τ).loc main_v1) ↦{fullShare} fw)
              ∗ (((T d : Thread nD τ).loc main_v2) ↦{fullShare} fb) ∗ (∃ g, ((T d : Thread nD τ).loc main_v7) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7)
        ∗ Pipeline.cellsGhost cfgs EP 0 d ∗ Pipeline.toksInit cfgs EP 0 d)
      ⊢ wp frame (wpE ((K (F := F)).defs D) 𝒱 (T d) none) Set.univ (.op (.customCall (SparseCore.inner (Pipeline.entry 0)) ()) k) Q := by
  have hop : (Prog.op (.customCall (SparseCore.inner (Pipeline.entry 0)) ()) k : Prog (TpuEff nD τ sig (Elt F) (SparseCore.Sig (ΛP (F := F)) 4) .tc) α)
      = (SparseCore.liftProg (Q := 4) (Prog.op (.customCall (Pipeline.entry (0 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg4 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post4 d f3 fw fb f7); iexact Hpost
  isplitl [Hbd]; · iexact Hbd
  isplitl [HO H3 H1 H2 H7]
  · iapply (pre4 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.BRegion4

end
-- ==== Proof.Region5BodyB.lean ====
/-
  The body of projection kernel number 2, run once at a symbolic grid point.

  The kernel is handed four buffers held whole: a block of 512 batch entries of gathered rows
  (512 x 50 x 64), the transposed weights (64 x 64), the bias column (64 x 1) and the output block
  (50 x 64 x 512); it is also passed the previous kernel's whole output array in HBM, which it never reads or writes.  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.Kernel.Skeleton
import Idealize.ShloMosaic.Lib.Tactic

noncomputable section

namespace Cert.Proof.BRegion5

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run5 (c : Dev nD) (i : grid5.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc5_body i M1 h1 M2 h2 M3 h3 Mp hp M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.BRegion5

end
-- ==== Proof.Region5B.lean ====
/-
  Projection kernel number 2 as a region of the TensorCore's program, entered after the four gather
  calls and the earlier projection kernels.

  The region streams the gathered rows (4096 x 50 x 64, in eight blocks of 512 batch entries) through the
  kernel body, with the transposed weights and the bias column staged once, and writes the eight
  50 x 64 x 512 blocks of its result into columns 4096 .. 8191 of the 50 x 64 x 16384 output (a copy of the previous kernel's output).  Here only the
  frame is stated: the three arrays the region reads end as they began, the output array ends holding
  something, and the TensorCore, which owes nothing when the region is entered, owes nothing when it is left.
-/
import proofs.«204056_g19739669692900_cont_8to1_1488_31_alg».proof.Proof.Region5BodyB
import proofs.«204056_g19739669692900_cont_8to1_1488_31_alg».proof.Proof.Gen.Kernel.Launch
import proofs.«204056_g19739669692900_cont_8to1_1488_31_alg».proof.Proof.Gen.Kernel.Points
import Idealize.ShloMosaic.Lib.SparseCore.Threads
import Idealize.ShloMosaic.Lib.Pipeline.Regions

noncomputable section

namespace Cert.Proof.BRegion5

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd5 (c : Dev nD) (A : (w : Fin cfg5.W) → Buf (Elt F) ((cfg5.win w).arr.view.loc (c.tc : Thread nD τ))) :
    RDat τ (Elt F) (HIx 4) ℕ UU ℕ cfg5 c where
  A := A
  after _ _ _ _ := True
  Φ _ := Pipeline.scopedRest spec5 c
  q _ := fullShare
  owed _ := 0
  recorded _ := Bd (F := F) c

/-- The body at a grid point: from the four current staging buffers, the invariant and what the core owes, to the same
    with every buffer at some contents. -/
theorem sound_body (c : Dev nD) (A : (w : Fin cfg5.W) → Buf (Elt F) ((cfg5.win w).arr.view.loc (c.tc : Thread nD τ)))
    (t : Fin cfg5.N) (Y : (w : Fin cfg5.W) → (cfg5.win w).block.Idx → Elt F (cfg5.win w).elt) :
    iprop((rd5 (UU := UU) c A).Φ t.castSucc ∗ (rd5 (UU := UU) c A).owesAt none t.castSucc
        ∗ owns (c : Thread nD τ) (st5_0 t) fullShare (Y 0) ∗ owns (c : Thread nD τ) (st5_1 t) fullShare (Y 1)
        ∗ owns (c : Thread nD τ) (st5_2 t) fullShare (Y 2) ∗ owns (c : Thread nD τ) (st5_3 t) fullShare (Y 3))
      ⊢ wp frame (wpE (defs₀ (F := F)) 𝒱₀ c none) Set.univ (bodyAt5 t) fun _ =>
          iprop((rd5 (UU := UU) c A).Φ t.succ ∗ (rd5 (UU := UU) c A).owesAt none t.succ
            ∗ (∃ X, ⌜(rd5 (UU := UU) c A).after 0 t (Y 0) X⌝ ∗ owns (c : Thread nD τ) (st5_0 t) fullShare X)
            ∗ (∃ X, ⌜(rd5 (UU := UU) c A).after 1 t (Y 1) X⌝ ∗ owns (c : Thread nD τ) (st5_1 t) fullShare X)
            ∗ (∃ X, ⌜(rd5 (UU := UU) c A).after 2 t (Y 2) X⌝ ∗ owns (c : Thread nD τ) (st5_2 t) fullShare X)
            ∗ (∃ X, ⌜(rd5 (UU := UU) c A).after 3 t (Y 3) X⌝ ∗ owns (c : Thread nD τ) (st5_3 t) fullShare X)) := by
  rw [show (rd5 (UU := UU) c A).Φ t.succ = (rd5 (UU := UU) c A).Φ t.castSucc from rfl,
    show (rd5 (UU := UU) c A).owesAt none t.succ = (rd5 (UU := UU) c A).owesAt none t.castSucc from rfl]
  iintro ⟨HΦ, HO, H0, H1, H2, H3⟩
  ihave H0 := (owns_whole_elim (c : Thread nD τ) (st5_0 t) (hstage5_0 ((cfg5.slots t 0).cast nbuf5_0)) fullShare (Y 0)) $$ H0
  ihave H1 := (owns_whole_elim (c : Thread nD τ) (st5_1 t) (hstage5_1 ((cfg5.slots t 1).cast nbuf5_1)) fullShare (Y 1)) $$ H1
  ihave H2 := (owns_whole_elim (c : Thread nD τ) (st5_2 t) (hstage5_2 ((cfg5.slots t 2).cast nbuf5_2)) fullShare (Y 2)) $$ H2
  ihave H3 := (owns_whole_elim (c : Thread nD τ) (st5_3 t) (hstage5_3 ((cfg5.slots t 3).cast nbuf5_3)) fullShare (Y 3)) $$ H3
  icases H0 with ⟨%f0, H0⟩
  icases H1 with ⟨%f1, H1⟩
  icases H2 with ⟨%f2, H2⟩
  icases H3 with ⟨%f3, H3⟩
  iapply (run5 c (grid5.coords t) (st5_0 t) (hstage5_0 ((cfg5.slots t 0).cast nbuf5_0)) (st5_1 t) (hstage5_1 ((cfg5.slots t 1).cast nbuf5_1))
    (st5_2 t) (hstage5_2 ((cfg5.slots t 2).cast nbuf5_2)) (Memref.whole main_v7) (Memref.isWhole_whole _) (st5_3 t) (hstage5_3 ((cfg5.slots t 3).cast nbuf5_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st5_0 t) (hstage5_0 ((cfg5.slots t 0).cast nbuf5_0)) fullShare f0 _ fun _ => trivial); iexact H0
  isplitl [H1]; · iapply (owns_whole_intro (c : Thread nD τ) (st5_1 t) (hstage5_1 ((cfg5.slots t 1).cast nbuf5_1)) fullShare f1 _ fun _ => trivial); iexact H1
  isplitl [H2]; · iapply (owns_whole_intro (c : Thread nD τ) (st5_2 t) (hstage5_2 ((cfg5.slots t 2).cast nbuf5_2)) fullShare f2 _ fun _ => trivial); iexact H2
  iapply (owns_whole_intro (c : Thread nD τ) (st5_3 t) (hstage5_3 ((cfg5.slots t 3).cast nbuf5_3)) fullShare f3' _ fun _ => trivial); iexact H3

/-- The library's body obligation for the region's proof data, whatever the arrays hold at entry. -/
theorem body5 (c : Dev nD) (A : (w : Fin cfg5.W) → Buf (Elt F) ((cfg5.win w).arr.view.loc (c.tc : Thread nD τ))) :
    (rd5 (UU := UU) c A).BodyObligation (defs₀ (F := F)) 𝒱₀ none Set.univ := fun t Y _ => by
  rw [bigSep_W5, bigSep_W5]
  exact sound_body c A t Y

/-! ## The region's proof data, for every pipeline and core

The library's region rule is stated over a family of proof data, one per pipeline and core, of which it reads only the one
at the pipeline and core entered. The family below is the region's data at pipeline 1 and says nothing elsewhere. -/

section Region

variable (d : Dev nD) (f3 : Buf (Elt F) ((T d : Thread nD τ).loc main_v4)) (fw : Buf (Elt F) ((T d : Thread nD τ).loc main_v1))
  (fb : Buf (Elt F) ((T d : Thread nD τ).loc main_v2)) (f7 : Buf (Elt F) ((T d : Thread nD τ).loc main_v8))

/-- The four arrays' contents when the region is entered on device `d`: the gathered rows, the transposed weights, the
    bias column, the output. -/
def A5 : (w : Fin cfg5.W) → Buf (Elt F) ((cfg5.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A5c (c : Dev nD) : (w : Fin cfg5.W) → Buf (Elt F) ((cfg5.win w).arr.view.loc (c.tc : Thread nD τ)) :=
  if h : c = d then h ▸ A5 d f3 fw fb f7 else fun _ _ => default

theorem A5c_self : A5c (F := F) d f3 fw fb f7 d = A5 d f3 fw fb f7 := by
  unfold A5c; rw [dif_pos rfl]

/-- The family: the region's data at pipeline 1, data that says nothing at the others. -/
def rdats : (p : Fin 4) → (c : Dev nD) → RDat τ (Elt F) (HIx 4) ℕ UU ℕ (Pipeline.pin (pcfgs (F := F)) adm p) c
  | ⟨0, _⟩, _ => { A := fun _ _ => default, after := fun _ _ _ _ => True, Φ := fun _ => iprop(emp), q := fun _ => fullShare, owed := fun _ => 0 }
  | ⟨1, _⟩, c => rd5 c (A5c d f3 fw fb f7 c)
  | ⟨_ + 2, _⟩, _ => { A := fun _ _ => default, after := fun _ _ _ _ => True, Φ := fun _ => iprop(emp), q := fun _ => fullShare, owed := fun _ => 0 }

theorem rdats_at (c : Dev nD) : rdats (UU := UU) d f3 fw fb f7 1 c = rd5 c (A5c d f3 fw fb f7 c) := rfl

end Region

/-! ## The region as the library's record, and its step at @main's line -/

section Step

variable (d : Dev nD) (f3 : Buf (Elt F) ((T d : Thread nD τ).loc main_v4)) (fw : Buf (Elt F) ((T d : Thread nD τ).loc main_v1))
  (fb : Buf (Elt F) ((T d : Thread nD τ).loc main_v2)) (f7 : Buf (Elt F) ((T d : Thread nD τ).loc main_v8))

theorem share5 (c : Dev nD) (w : Fin cfg5.W) : (rdats (UU := UU) d f3 fw fb f7 1 c).share w = fullShare :=
  (rdats (UU := UU) d f3 fw fb f7 1 c).share_full (fun _ => rfl) w

/-- The region's four arrays, one by one. -/
theorem arrays5 (c : Dev nD) (G : (w : Fin cfg5.W) → Buf (Elt F) ((cfg5.win w).arr.view.loc (c.tc : Thread nD τ))) :
    ((rdats (UU := UU) d f3 fw fb f7 1 c).arrays G : sProp 𝕄)
      = iprop((((c.tc : Thread nD τ).loc main_v4) ↦{fullShare} G 0) ∗ (((c.tc : Thread nD τ).loc main_v1) ↦{fullShare} G 1)
          ∗ (((c.tc : Thread nD τ).loc main_v2) ↦{fullShare} G 2) ∗ (((c.tc : Thread nD τ).loc main_v8) ↦{fullShare} G 3)) := by
  rw [Pipeline.RDat.arrays_eq (pcfgs (F := F)) adm (rdats (UU := UU) d f3 fw fb f7) 1 c launch5.arr_whole (share5 d f3 fw fb f7 c) G, bigSep_W5]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg5 : Pipeline.RDat.RegionSeg (pcfgs (F := F)) adm (rdats (UU := UU) d f3 fw fb f7) none defs₀ 𝒱₀ (K (F := F)).L (K (F := F)).lev 1 where
  win := launch5.win.to₀
  block_pos := launch5.block_pos
  stage_whole := launch5.stage_whole
  K := PEmpty
  osem := fun k => k.elim
  ho := Pipeline.OwnSemFacts.none _
  hbody c := body5 c _
  hwaits := Pipeline.RDat.hwaits_of_owed_zero _ _ _ _ _ _ 1 fun _ _ => rfl
  pre c := iprop((rdats (UU := UU) d f3 fw fb f7 1 c).arrays (rdats (UU := UU) d f3 fw fb f7 1 c).A ∗ (rdats (UU := UU) d f3 fw fb f7 1 c).owesAt none 0)
  post c := iprop((rdats (UU := UU) d f3 fw fb f7 1 c).arraysAt cfg5.N ∗ (rdats (UU := UU) d f3 fw fb f7 1 c).owesAt none (Fin.last cfg5.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec5 c) ⊢ Pipeline.scopedRest spec5 c
    iintro ⟨-, -, Hr⟩; iexact Hr
  hout c := by
    rw [Pipeline.ownSems0_none]
    show Pipeline.scopedRest spec5 c ⊢ iprop(_ ∗ _ ∗ Pipeline.scopedRest spec5 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre5 (W : Waits sig (HIx 4)) (hW : (K (F := F)).WBelow (T d) W 32) :
    iprop(owes (T d : Thread nD τ) (0 : CellTallies nD τ sig (HIx 4)) W
        ∗ (((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7))
      ⊢ ((reg5 (UU := UU) d f3 fw fb f7).pre d : sProp 𝕄) := by
  show _ ⊢ iprop((rdats (UU := UU) d f3 fw fb f7 1 d).arrays (rdats (UU := UU) d f3 fw fb f7 1 d).A ∗ (rdats (UU := UU) d f3 fw fb f7 1 d).owesAt none 0)
  rw [arrays5, show (rdats (UU := UU) d f3 fw fb f7 1 d).A = A5 d f3 fw fb f7 from A5c_self d f3 fw fb f7]
  show _ ⊢ iprop(((((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7))
      ∗ ∃ W' : Waits sig (HIx 4), ⌜(↑W' : Set (SemLoc sig × HIx 4)) ⊆ (rdats (UU := UU) d f3 fw fb f7 1 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg5.N + 1)) (W' : Waits sig (HIx 4))
    (h : (↑W' : Set (SemLoc sig × HIx 4)) ⊆ (rdats (UU := UU) d f3 fw fb f7 1 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post5 :
    ((reg5 (UU := UU) d f3 fw fb f7).post d : sProp 𝕄)
      ⊢ iprop((((T d : Thread nD τ).loc main_v4) ↦{fullShare} f3) ∗ (((T d : Thread nD τ).loc main_v1) ↦{fullShare} fw)
        ∗ (((T d : Thread nD τ).loc main_v2) ↦{fullShare} fb) ∗ (∃ g, ((T d : Thread nD τ).loc main_v8) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 1 d).A = A5 d f3 fw fb f7 := A5c_self d f3 fw fb f7
  have e0 := (rdats (UU := UU) d f3 fw fb f7 1 d).ArrAt_in 0 rfl cfg5.N
  have e1 := (rdats (UU := UU) d f3 fw fb f7 1 d).ArrAt_in 1 rfl cfg5.N
  have e2 := (rdats (UU := UU) d f3 fw fb f7 1 d).ArrAt_in 2 rfl cfg5.N
  show iprop((rdats (UU := UU) d f3 fw fb f7 1 d).arraysAt cfg5.N
      ∗ ∃ W' : Waits sig (HIx 4), ⌜(↑W' : Set (SemLoc sig × HIx 4)) ⊆ (rdats (UU := UU) d f3 fw fb f7 1 d).bound none (Fin.last cfg5.N)⌝ ∗ owes (T d : Thread nD τ) (0 : CellTallies nD τ sig (HIx 4)) W') ⊢ _
  unfold RDat.arraysAt
  rw [bigSep_W5, e0, e1, e2, hA]
  simp only [share5, (launch5.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 1, the region's call runs
    — under any continuation — to the boundary again, the three arrays it reads unchanged, the output at some contents, and
    the TensorCore still owing nothing. -/
theorem region1 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v4) ↦{fullShare} f3) ∗ (((T d : Thread nD τ).loc main_v1) ↦{fullShare} fw)
              ∗ (((T d : Thread nD τ).loc main_v2) ↦{fullShare} fb) ∗ (∃ g, ((T d : Thread nD τ).loc main_v8) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7)
        ∗ Pipeline.cellsGhost cfgs EP 1 d ∗ Pipeline.toksInit cfgs EP 1 d)
      ⊢ wp frame (wpE ((K (F := F)).defs D) 𝒱 (T d) none) Set.univ (.op (.customCall (SparseCore.inner (Pipeline.entry 1)) ()) k) Q := by
  have hop : (Prog.op (.customCall (SparseCore.inner (Pipeline.entry 1)) ()) k : Prog (TpuEff nD τ sig (Elt F) (SparseCore.Sig (ΛP (F := F)) 4) .tc) α)
      = (SparseCore.liftProg (Q := 4) (Prog.op (.customCall (Pipeline.entry (1 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg5 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post5 d f3 fw fb f7); iexact Hpost
  isplitl [Hbd]; · iexact Hbd
  isplitl [HO H3 H1 H2 H7]
  · iapply (pre5 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.BRegion5

end
-- ==== Proof.Region6BodyB.lean ====
/-
  The body of projection kernel number 3, run once at a symbolic grid point.

  The kernel is handed four buffers held whole: a block of 512 batch entries of gathered rows
  (512 x 50 x 64), the transposed weights (64 x 64), the bias column (64 x 1) and the output block
  (50 x 64 x 512); it is also passed the previous kernel's whole output array in HBM, which it never reads or writes.  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.Kernel.Skeleton
import Idealize.ShloMosaic.Lib.Tactic

noncomputable section

namespace Cert.Proof.BRegion6

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run6 (c : Dev nD) (i : grid6.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc6_body i M1 h1 M2 h2 M3 h3 Mp hp M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.BRegion6

end
-- ==== Proof.Region6B.lean ====
/-
  Projection kernel number 3 as a region of the TensorCore's program, entered after the four gather
  calls and the earlier projection kernels.

  The region streams the gathered rows (4096 x 50 x 64, in eight blocks of 512 batch entries) through the
  kernel body, with the transposed weights and the bias column staged once, and writes the eight
  50 x 64 x 512 blocks of its result into columns 8192 .. 12287 of the 50 x 64 x 16384 output (a copy of the previous kernel's output).  Here only the
  frame is stated: the three arrays the region reads end as they began, the output array ends holding
  something, and the TensorCore, which owes nothing when the region is entered, owes nothing when it is left.
-/
import proofs.«204056_g19739669692900_cont_8to1_1488_31_alg».proof.Proof.Region6BodyB
import proofs.«204056_g19739669692900_cont_8to1_1488_31_alg».proof.Proof.Gen.Kernel.Launch
import proofs.«204056_g19739669692900_cont_8to1_1488_31_alg».proof.Proof.Gen.Kernel.Points
import Idealize.ShloMosaic.Lib.SparseCore.Threads
import Idealize.ShloMosaic.Lib.Pipeline.Regions

noncomputable section

namespace Cert.Proof.BRegion6

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd6 (c : Dev nD) (A : (w : Fin cfg6.W) → Buf (Elt F) ((cfg6.win w).arr.view.loc (c.tc : Thread nD τ))) :
    RDat τ (Elt F) (HIx 4) ℕ UU ℕ cfg6 c where
  A := A
  after _ _ _ _ := True
  Φ _ := Pipeline.scopedRest spec6 c
  q _ := fullShare
  owed _ := 0
  recorded _ := Bd (F := F) c

/-- The body at a grid point: from the four current staging buffers, the invariant and what the core owes, to the same
    with every buffer at some contents. -/
theorem sound_body (c : Dev nD) (A : (w : Fin cfg6.W) → Buf (Elt F) ((cfg6.win w).arr.view.loc (c.tc : Thread nD τ)))
    (t : Fin cfg6.N) (Y : (w : Fin cfg6.W) → (cfg6.win w).block.Idx → Elt F (cfg6.win w).elt) :
    iprop((rd6 (UU := UU) c A).Φ t.castSucc ∗ (rd6 (UU := UU) c A).owesAt none t.castSucc
        ∗ owns (c : Thread nD τ) (st6_0 t) fullShare (Y 0) ∗ owns (c : Thread nD τ) (st6_1 t) fullShare (Y 1)
        ∗ owns (c : Thread nD τ) (st6_2 t) fullShare (Y 2) ∗ owns (c : Thread nD τ) (st6_3 t) fullShare (Y 3))
      ⊢ wp frame (wpE (defs₀ (F := F)) 𝒱₀ c none) Set.univ (bodyAt6 t) fun _ =>
          iprop((rd6 (UU := UU) c A).Φ t.succ ∗ (rd6 (UU := UU) c A).owesAt none t.succ
            ∗ (∃ X, ⌜(rd6 (UU := UU) c A).after 0 t (Y 0) X⌝ ∗ owns (c : Thread nD τ) (st6_0 t) fullShare X)
            ∗ (∃ X, ⌜(rd6 (UU := UU) c A).after 1 t (Y 1) X⌝ ∗ owns (c : Thread nD τ) (st6_1 t) fullShare X)
            ∗ (∃ X, ⌜(rd6 (UU := UU) c A).after 2 t (Y 2) X⌝ ∗ owns (c : Thread nD τ) (st6_2 t) fullShare X)
            ∗ (∃ X, ⌜(rd6 (UU := UU) c A).after 3 t (Y 3) X⌝ ∗ owns (c : Thread nD τ) (st6_3 t) fullShare X)) := by
  rw [show (rd6 (UU := UU) c A).Φ t.succ = (rd6 (UU := UU) c A).Φ t.castSucc from rfl,
    show (rd6 (UU := UU) c A).owesAt none t.succ = (rd6 (UU := UU) c A).owesAt none t.castSucc from rfl]
  iintro ⟨HΦ, HO, H0, H1, H2, H3⟩
  ihave H0 := (owns_whole_elim (c : Thread nD τ) (st6_0 t) (hstage6_0 ((cfg6.slots t 0).cast nbuf6_0)) fullShare (Y 0)) $$ H0
  ihave H1 := (owns_whole_elim (c : Thread nD τ) (st6_1 t) (hstage6_1 ((cfg6.slots t 1).cast nbuf6_1)) fullShare (Y 1)) $$ H1
  ihave H2 := (owns_whole_elim (c : Thread nD τ) (st6_2 t) (hstage6_2 ((cfg6.slots t 2).cast nbuf6_2)) fullShare (Y 2)) $$ H2
  ihave H3 := (owns_whole_elim (c : Thread nD τ) (st6_3 t) (hstage6_3 ((cfg6.slots t 3).cast nbuf6_3)) fullShare (Y 3)) $$ H3
  icases H0 with ⟨%f0, H0⟩
  icases H1 with ⟨%f1, H1⟩
  icases H2 with ⟨%f2, H2⟩
  icases H3 with ⟨%f3, H3⟩
  iapply (run6 c (grid6.coords t) (st6_0 t) (hstage6_0 ((cfg6.slots t 0).cast nbuf6_0)) (st6_1 t) (hstage6_1 ((cfg6.slots t 1).cast nbuf6_1))
    (st6_2 t) (hstage6_2 ((cfg6.slots t 2).cast nbuf6_2)) (Memref.whole main_v8) (Memref.isWhole_whole _) (st6_3 t) (hstage6_3 ((cfg6.slots t 3).cast nbuf6_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st6_0 t) (hstage6_0 ((cfg6.slots t 0).cast nbuf6_0)) fullShare f0 _ fun _ => trivial); iexact H0
  isplitl [H1]; · iapply (owns_whole_intro (c : Thread nD τ) (st6_1 t) (hstage6_1 ((cfg6.slots t 1).cast nbuf6_1)) fullShare f1 _ fun _ => trivial); iexact H1
  isplitl [H2]; · iapply (owns_whole_intro (c : Thread nD τ) (st6_2 t) (hstage6_2 ((cfg6.slots t 2).cast nbuf6_2)) fullShare f2 _ fun _ => trivial); iexact H2
  iapply (owns_whole_intro (c : Thread nD τ) (st6_3 t) (hstage6_3 ((cfg6.slots t 3).cast nbuf6_3)) fullShare f3' _ fun _ => trivial); iexact H3

/-- The library's body obligation for the region's proof data, whatever the arrays hold at entry. -/
theorem body6 (c : Dev nD) (A : (w : Fin cfg6.W) → Buf (Elt F) ((cfg6.win w).arr.view.loc (c.tc : Thread nD τ))) :
    (rd6 (UU := UU) c A).BodyObligation (defs₀ (F := F)) 𝒱₀ none Set.univ := fun t Y _ => by
  rw [bigSep_W6, bigSep_W6]
  exact sound_body c A t Y

/-! ## The region's proof data, for every pipeline and core

The library's region rule is stated over a family of proof data, one per pipeline and core, of which it reads only the one
at the pipeline and core entered. The family below is the region's data at pipeline 2 and says nothing elsewhere. -/

section Region

variable (d : Dev nD) (f3 : Buf (Elt F) ((T d : Thread nD τ).loc main_v5)) (fw : Buf (Elt F) ((T d : Thread nD τ).loc main_v1))
  (fb : Buf (Elt F) ((T d : Thread nD τ).loc main_v2)) (f7 : Buf (Elt F) ((T d : Thread nD τ).loc main_v9))

/-- The four arrays' contents when the region is entered on device `d`: the gathered rows, the transposed weights, the
    bias column, the output. -/
def A6 : (w : Fin cfg6.W) → Buf (Elt F) ((cfg6.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A6c (c : Dev nD) : (w : Fin cfg6.W) → Buf (Elt F) ((cfg6.win w).arr.view.loc (c.tc : Thread nD τ)) :=
  if h : c = d then h ▸ A6 d f3 fw fb f7 else fun _ _ => default

theorem A6c_self : A6c (F := F) d f3 fw fb f7 d = A6 d f3 fw fb f7 := by
  unfold A6c; rw [dif_pos rfl]

/-- The family: the region's data at pipeline 2, data that says nothing at the others. -/
def rdats : (p : Fin 4) → (c : Dev nD) → RDat τ (Elt F) (HIx 4) ℕ UU ℕ (Pipeline.pin (pcfgs (F := F)) adm p) c
  | ⟨0, _⟩, _ => { A := fun _ _ => default, after := fun _ _ _ _ => True, Φ := fun _ => iprop(emp), q := fun _ => fullShare, owed := fun _ => 0 }
  | ⟨1, _⟩, _ => { A := fun _ _ => default, after := fun _ _ _ _ => True, Φ := fun _ => iprop(emp), q := fun _ => fullShare, owed := fun _ => 0 }
  | ⟨2, _⟩, c => rd6 c (A6c d f3 fw fb f7 c)
  | ⟨_ + 3, _⟩, _ => { A := fun _ _ => default, after := fun _ _ _ _ => True, Φ := fun _ => iprop(emp), q := fun _ => fullShare, owed := fun _ => 0 }

theorem rdats_at (c : Dev nD) : rdats (UU := UU) d f3 fw fb f7 2 c = rd6 c (A6c d f3 fw fb f7 c) := rfl

end Region

/-! ## The region as the library's record, and its step at @main's line -/

section Step

variable (d : Dev nD) (f3 : Buf (Elt F) ((T d : Thread nD τ).loc main_v5)) (fw : Buf (Elt F) ((T d : Thread nD τ).loc main_v1))
  (fb : Buf (Elt F) ((T d : Thread nD τ).loc main_v2)) (f7 : Buf (Elt F) ((T d : Thread nD τ).loc main_v9))

theorem share6 (c : Dev nD) (w : Fin cfg6.W) : (rdats (UU := UU) d f3 fw fb f7 2 c).share w = fullShare :=
  (rdats (UU := UU) d f3 fw fb f7 2 c).share_full (fun _ => rfl) w

/-- The region's four arrays, one by one. -/
theorem arrays6 (c : Dev nD) (G : (w : Fin cfg6.W) → Buf (Elt F) ((cfg6.win w).arr.view.loc (c.tc : Thread nD τ))) :
    ((rdats (UU := UU) d f3 fw fb f7 2 c).arrays G : sProp 𝕄)
      = iprop((((c.tc : Thread nD τ).loc main_v5) ↦{fullShare} G 0) ∗ (((c.tc : Thread nD τ).loc main_v1) ↦{fullShare} G 1)
          ∗ (((c.tc : Thread nD τ).loc main_v2) ↦{fullShare} G 2) ∗ (((c.tc : Thread nD τ).loc main_v9) ↦{fullShare} G 3)) := by
  rw [Pipeline.RDat.arrays_eq (pcfgs (F := F)) adm (rdats (UU := UU) d f3 fw fb f7) 2 c launch6.arr_whole (share6 d f3 fw fb f7 c) G, bigSep_W6]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg6 : Pipeline.RDat.RegionSeg (pcfgs (F := F)) adm (rdats (UU := UU) d f3 fw fb f7) none defs₀ 𝒱₀ (K (F := F)).L (K (F := F)).lev 2 where
  win := launch6.win.to₀
  block_pos := launch6.block_pos
  stage_whole := launch6.stage_whole
  K := PEmpty
  osem := fun k => k.elim
  ho := Pipeline.OwnSemFacts.none _
  hbody c := body6 c _
  hwaits := Pipeline.RDat.hwaits_of_owed_zero _ _ _ _ _ _ 2 fun _ _ => rfl
  pre c := iprop((rdats (UU := UU) d f3 fw fb f7 2 c).arrays (rdats (UU := UU) d f3 fw fb f7 2 c).A ∗ (rdats (UU := UU) d f3 fw fb f7 2 c).owesAt none 0)
  post c := iprop((rdats (UU := UU) d f3 fw fb f7 2 c).arraysAt cfg6.N ∗ (rdats (UU := UU) d f3 fw fb f7 2 c).owesAt none (Fin.last cfg6.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec6 c) ⊢ Pipeline.scopedRest spec6 c
    iintro ⟨-, -, Hr⟩; iexact Hr
  hout c := by
    rw [Pipeline.ownSems0_none]
    show Pipeline.scopedRest spec6 c ⊢ iprop(_ ∗ _ ∗ Pipeline.scopedRest spec6 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre6 (W : Waits sig (HIx 4)) (hW : (K (F := F)).WBelow (T d) W 32) :
    iprop(owes (T d : Thread nD τ) (0 : CellTallies nD τ sig (HIx 4)) W
        ∗ (((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7))
      ⊢ ((reg6 (UU := UU) d f3 fw fb f7).pre d : sProp 𝕄) := by
  show _ ⊢ iprop((rdats (UU := UU) d f3 fw fb f7 2 d).arrays (rdats (UU := UU) d f3 fw fb f7 2 d).A ∗ (rdats (UU := UU) d f3 fw fb f7 2 d).owesAt none 0)
  rw [arrays6, show (rdats (UU := UU) d f3 fw fb f7 2 d).A = A6 d f3 fw fb f7 from A6c_self d f3 fw fb f7]
  show _ ⊢ iprop(((((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7))
      ∗ ∃ W' : Waits sig (HIx 4), ⌜(↑W' : Set (SemLoc sig × HIx 4)) ⊆ (rdats (UU := UU) d f3 fw fb f7 2 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg6.N + 1)) (W' : Waits sig (HIx 4))
    (h : (↑W' : Set (SemLoc sig × HIx 4)) ⊆ (rdats (UU := UU) d f3 fw fb f7 2 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post6 :
    ((reg6 (UU := UU) d f3 fw fb f7).post d : sProp 𝕄)
      ⊢ iprop((((T d : Thread nD τ).loc main_v5) ↦{fullShare} f3) ∗ (((T d : Thread nD τ).loc main_v1) ↦{fullShare} fw)
        ∗ (((T d : Thread nD τ).loc main_v2) ↦{fullShare} fb) ∗ (∃ g, ((T d : Thread nD τ).loc main_v9) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 2 d).A = A6 d f3 fw fb f7 := A6c_self d f3 fw fb f7
  have e0 := (rdats (UU := UU) d f3 fw fb f7 2 d).ArrAt_in 0 rfl cfg6.N
  have e1 := (rdats (UU := UU) d f3 fw fb f7 2 d).ArrAt_in 1 rfl cfg6.N
  have e2 := (rdats (UU := UU) d f3 fw fb f7 2 d).ArrAt_in 2 rfl cfg6.N
  show iprop((rdats (UU := UU) d f3 fw fb f7 2 d).arraysAt cfg6.N
      ∗ ∃ W' : Waits sig (HIx 4), ⌜(↑W' : Set (SemLoc sig × HIx 4)) ⊆ (rdats (UU := UU) d f3 fw fb f7 2 d).bound none (Fin.last cfg6.N)⌝ ∗ owes (T d : Thread nD τ) (0 : CellTallies nD τ sig (HIx 4)) W') ⊢ _
  unfold RDat.arraysAt
  rw [bigSep_W6, e0, e1, e2, hA]
  simp only [share6, (launch6.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 2, the region's call runs
    — under any continuation — to the boundary again, the three arrays it reads unchanged, the output at some contents, and
    the TensorCore still owing nothing. -/
theorem region2 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v5) ↦{fullShare} f3) ∗ (((T d : Thread nD τ).loc main_v1) ↦{fullShare} fw)
              ∗ (((T d : Thread nD τ).loc main_v2) ↦{fullShare} fb) ∗ (∃ g, ((T d : Thread nD τ).loc main_v9) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7)
        ∗ Pipeline.cellsGhost cfgs EP 2 d ∗ Pipeline.toksInit cfgs EP 2 d)
      ⊢ wp frame (wpE ((K (F := F)).defs D) 𝒱 (T d) none) Set.univ (.op (.customCall (SparseCore.inner (Pipeline.entry 2)) ()) k) Q := by
  have hop : (Prog.op (.customCall (SparseCore.inner (Pipeline.entry 2)) ()) k : Prog (TpuEff nD τ sig (Elt F) (SparseCore.Sig (ΛP (F := F)) 4) .tc) α)
      = (SparseCore.liftProg (Q := 4) (Prog.op (.customCall (Pipeline.entry (2 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg6 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post6 d f3 fw fb f7); iexact Hpost
  isplitl [Hbd]; · iexact Hbd
  isplitl [HO H3 H1 H2 H7]
  · iapply (pre6 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.BRegion6

end
-- ==== Proof.Region7BodyB.lean ====
/-
  The body of projection kernel number 4, run once at a symbolic grid point.

  The kernel is handed four buffers held whole: a block of 512 batch entries of gathered rows
  (512 x 50 x 64), the transposed weights (64 x 64), the bias column (64 x 1) and the output block
  (50 x 64 x 512); it is also passed the previous kernel's whole output array in HBM, which it never reads or writes.  It loads the weights and the bias once and then, for each of the 50 history
  positions, loads that position's 512 x 64 slice of the gathered block, contracts it with the
  weights, adds the broadcast bias and stores the 64 x 512 result as slice number l of the output
  block.  Nothing it does depends on the contents: the three inputs come back as they were and the
  output block comes back holding something.
-/
import proofs.«204056_g19739669692900_cont_8to1_1488_31_alg».proof.Proof.Gen.Kernel.Skeleton
import Idealize.ShloMosaic.Lib.Tactic

noncomputable section

namespace Cert.Proof.BRegion7

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {Ix : Type} [DecidableEq Ix] {UU : Type} [URA UU]

local notation "𝕄" => MT nD τ sig Ix (Elt F) ℕ UU ℕ

/-- The contents type of memref `M`'s buffer on core `c`, and the buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

set_option maxHeartbeats 4000000 in
/-- From the four buffers held whole the body runs to its return; the gathered block, the weights and
    the bias are handed back unchanged, the output block at some contents. -/
theorem run7 (c : Dev nD) (i : grid7.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) (f4 : Bf (F := F) c M4)
    (E : Set ℕ) (Q : PUnit → sProp 𝕄) :
    iprop(pt c M1 f1 ∗ pt c M2 f2 ∗ pt c M3 f3 ∗ pt c M4 f4
        ∗ (iprop(pt c M1 f1 ∗ pt c M2 f2 ∗ pt c M3 f3 ∗ (∃ f, pt c M4 f)) -∗ Q ⟨⟩))
      ⊢ wp frame (wpE (defs₀ (F := F)) Variants.none c none) E (cc7_body i M1 h1 M2 h2 M3 h3 Mp hp M4 h4) Q := by
  iintro ⟨H1, H2, H3, H4, Hk⟩
  sl_exec_parts
  sl_step
  iapply Hk
  isplitl [H1]; · iexact H1
  isplitl [H2]; · iexact H2
  isplitl [H3]; · iexact H3
  iexists _; iexact H4

end Cert.Proof.BRegion7

end
-- ==== Proof.Region7B.lean ====
/-
  Projection kernel number 4 as a region of the TensorCore's program, entered after the four gather
  calls and the earlier projection kernels.

  The region streams the gathered rows (4096 x 50 x 64, in eight blocks of 512 batch entries) through the
  kernel body, with the transposed weights and the bias column staged once, and writes the eight
  50 x 64 x 512 blocks of its result into columns 12288 .. 16383 of the 50 x 64 x 16384 output (a copy of the previous kernel's output).  Here only the
  frame is stated: the three arrays the region reads end as they began, the output array ends holding
  something, and the TensorCore, which owes nothing when the region is entered, owes nothing when it is left.
-/
import proofs.«204056_g19739669692900_cont_8to1_1488_31_alg».proof.Proof.Region7BodyB
import proofs.«204056_g19739669692900_cont_8to1_1488_31_alg».proof.Proof.Gen.Kernel.Launch
import proofs.«204056_g19739669692900_cont_8to1_1488_31_alg».proof.Proof.Gen.Kernel.Points
import Idealize.ShloMosaic.Lib.SparseCore.Threads
import Idealize.ShloMosaic.Lib.Pipeline.Regions

noncomputable section

namespace Cert.Proof.BRegion7

open Cert.Kernel Cert.Kernel.Gen

open Idealize.ShloMosaic
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] {UU : Type} [URA UU]

local notation "𝕄" => MT nD τ sig (HIx 4) (Elt F) ℕ UU ℕ

/-! ## The program as the launch theorem sees it -/

abbrev ΛP : Labels := Pipeline.Sig Λ₀ (Fin 4) fun p => (pcfgs (F := F) p).Adm
abbrev K : SparseCore.Cfg τ sig (ΛP (F := F)) 4 := sc (F := F)
abbrev D : Defs nD τ sig (Elt F) (ΛP (F := F)) := Pipeline.defs pcfgs defs₀
abbrev 𝒱₀ : Variants := Variants.none
abbrev 𝒱 : Variants := 𝒱₀.lift
/-- No pipeline has a prefetched table. -/
abbrev adm : (p : Fin 4) → (pcfgs (F := F) p).Adm := fun p => (cfgs p).toPCfg_adm

/-! ## A staging buffer held whole -/

omit [FloatOps F] in
theorem owns_whole_elim (c : Thread nD τ) {sp : Space} {sh : Shape} {e : EltTy} (m : Memref sig c.2.kind sp sh e) (h : m.IsWhole)
    (q : PosShare TreeShare) (X : sh.Idx → Elt F e) :
    (owns c m q X : sProp 𝕄) ⊢ iprop(∃ f, m.view.loc c ↦{q} f) := by
  unfold owns; rw [h.set_eq_univ]
  iintro ⟨%f, -, H⟩; iexists f; iexact H

omit [FloatOps F] in
theorem owns_whole_intro (c : Thread nD τ) {sp : Space} {sh : Shape} {e : EltTy} (m : Memref sig c.2.kind sp sh e) (h : m.IsWhole)
    (q : PosShare TreeShare) (f : Buf (Elt F) (m.view.loc c)) (R : (sh.Idx → Elt F e) → Prop) (hR : ∀ X, R X) :
    (m.view.loc c ↦{q} f : sProp 𝕄) ⊢ iprop(∃ X, ⌜R X⌝ ∗ owns c m q X) := by
  unfold owns; rw [h.set_eq_univ]
  iintro H; iexists (m.view.read (Elt F) f); isplitr; · ipureintro; exact hR _
  iexists f; isplitr; · ipureintro; rfl
  iexact H

/-! ## The proof data -/

/-- The pairs the TensorCore's waits may have recorded: those at level 32 or below (after the fourth gather call). -/
def Bd (c : Dev nD) : Set (SemLoc sig × HIx 4) := {p | (K (F := F)).lev ((T c : Thread nD τ), p.1) p.2 ≤ 32}

/-- The region's proof data on core `c`, from the contents `A` of its four arrays at entry: nothing is said of what
    the body leaves in a staging buffer; the invariant is the core's other scoped buffers; nothing is owed. -/
def rd7 (c : Dev nD) (A : (w : Fin cfg7.W) → Buf (Elt F) ((cfg7.win w).arr.view.loc (c.tc : Thread nD τ))) :
    RDat τ (Elt F) (HIx 4) ℕ UU ℕ cfg7 c where
  A := A
  after _ _ _ _ := True
  Φ _ := Pipeline.scopedRest spec7 c
  q _ := fullShare
  owed _ := 0
  recorded _ := Bd (F := F) c

/-- The body at a grid point: from the four current staging buffers, the invariant and what the core owes, to the same
    with every buffer at some contents. -/
theorem sound_body (c : Dev nD) (A : (w : Fin cfg7.W) → Buf (Elt F) ((cfg7.win w).arr.view.loc (c.tc : Thread nD τ)))
    (t : Fin cfg7.N) (Y : (w : Fin cfg7.W) → (cfg7.win w).block.Idx → Elt F (cfg7.win w).elt) :
    iprop((rd7 (UU := UU) c A).Φ t.castSucc ∗ (rd7 (UU := UU) c A).owesAt none t.castSucc
        ∗ owns (c : Thread nD τ) (st7_0 t) fullShare (Y 0) ∗ owns (c : Thread nD τ) (st7_1 t) fullShare (Y 1)
        ∗ owns (c : Thread nD τ) (st7_2 t) fullShare (Y 2) ∗ owns (c : Thread nD τ) (st7_3 t) fullShare (Y 3))
      ⊢ wp frame (wpE (defs₀ (F := F)) 𝒱₀ c none) Set.univ (bodyAt7 t) fun _ =>
          iprop((rd7 (UU := UU) c A).Φ t.succ ∗ (rd7 (UU := UU) c A).owesAt none t.succ
            ∗ (∃ X, ⌜(rd7 (UU := UU) c A).after 0 t (Y 0) X⌝ ∗ owns (c : Thread nD τ) (st7_0 t) fullShare X)
            ∗ (∃ X, ⌜(rd7 (UU := UU) c A).after 1 t (Y 1) X⌝ ∗ owns (c : Thread nD τ) (st7_1 t) fullShare X)
            ∗ (∃ X, ⌜(rd7 (UU := UU) c A).after 2 t (Y 2) X⌝ ∗ owns (c : Thread nD τ) (st7_2 t) fullShare X)
            ∗ (∃ X, ⌜(rd7 (UU := UU) c A).after 3 t (Y 3) X⌝ ∗ owns (c : Thread nD τ) (st7_3 t) fullShare X)) := by
  rw [show (rd7 (UU := UU) c A).Φ t.succ = (rd7 (UU := UU) c A).Φ t.castSucc from rfl,
    show (rd7 (UU := UU) c A).owesAt none t.succ = (rd7 (UU := UU) c A).owesAt none t.castSucc from rfl]
  iintro ⟨HΦ, HO, H0, H1, H2, H3⟩
  ihave H0 := (owns_whole_elim (c : Thread nD τ) (st7_0 t) (hstage7_0 ((cfg7.slots t 0).cast nbuf7_0)) fullShare (Y 0)) $$ H0
  ihave H1 := (owns_whole_elim (c : Thread nD τ) (st7_1 t) (hstage7_1 ((cfg7.slots t 1).cast nbuf7_1)) fullShare (Y 1)) $$ H1
  ihave H2 := (owns_whole_elim (c : Thread nD τ) (st7_2 t) (hstage7_2 ((cfg7.slots t 2).cast nbuf7_2)) fullShare (Y 2)) $$ H2
  ihave H3 := (owns_whole_elim (c : Thread nD τ) (st7_3 t) (hstage7_3 ((cfg7.slots t 3).cast nbuf7_3)) fullShare (Y 3)) $$ H3
  icases H0 with ⟨%f0, H0⟩
  icases H1 with ⟨%f1, H1⟩
  icases H2 with ⟨%f2, H2⟩
  icases H3 with ⟨%f3, H3⟩
  iapply (run7 c (grid7.coords t) (st7_0 t) (hstage7_0 ((cfg7.slots t 0).cast nbuf7_0)) (st7_1 t) (hstage7_1 ((cfg7.slots t 1).cast nbuf7_1))
    (st7_2 t) (hstage7_2 ((cfg7.slots t 2).cast nbuf7_2)) (Memref.whole main_v9) (Memref.isWhole_whole _) (st7_3 t) (hstage7_3 ((cfg7.slots t 3).cast nbuf7_3)) f0 f1 f2 f3 Set.univ)
  isplitl [H0]; · iexact H0
  isplitl [H1]; · iexact H1
  isplitl [H2]; · iexact H2
  isplitl [H3]; · iexact H3
  iintro ⟨H0, H1, H2, ⟨%f3', H3⟩⟩
  isplitl [HΦ]; · iexact HΦ
  isplitl [HO]; · iexact HO
  isplitl [H0]; · iapply (owns_whole_intro (c : Thread nD τ) (st7_0 t) (hstage7_0 ((cfg7.slots t 0).cast nbuf7_0)) fullShare f0 _ fun _ => trivial); iexact H0
  isplitl [H1]; · iapply (owns_whole_intro (c : Thread nD τ) (st7_1 t) (hstage7_1 ((cfg7.slots t 1).cast nbuf7_1)) fullShare f1 _ fun _ => trivial); iexact H1
  isplitl [H2]; · iapply (owns_whole_intro (c : Thread nD τ) (st7_2 t) (hstage7_2 ((cfg7.slots t 2).cast nbuf7_2)) fullShare f2 _ fun _ => trivial); iexact H2
  iapply (owns_whole_intro (c : Thread nD τ) (st7_3 t) (hstage7_3 ((cfg7.slots t 3).cast nbuf7_3)) fullShare f3' _ fun _ => trivial); iexact H3

/-- The library's body obligation for the region's proof data, whatever the arrays hold at entry. -/
theorem body7 (c : Dev nD) (A : (w : Fin cfg7.W) → Buf (Elt F) ((cfg7.win w).arr.view.loc (c.tc : Thread nD τ))) :
    (rd7 (UU := UU) c A).BodyObligation (defs₀ (F := F)) 𝒱₀ none Set.univ := fun t Y _ => by
  rw [bigSep_W7, bigSep_W7]
  exact sound_body c A t Y

/-! ## The region's proof data, for every pipeline and core

The library's region rule is stated over a family of proof data, one per pipeline and core, of which it reads only the one
at the pipeline and core entered. The family below is the region's data at pipeline 3 and says nothing elsewhere. -/

section Region

variable (d : Dev nD) (f3 : Buf (Elt F) ((T d : Thread nD τ).loc main_v6)) (fw : Buf (Elt F) ((T d : Thread nD τ).loc main_v1))
  (fb : Buf (Elt F) ((T d : Thread nD τ).loc main_v2)) (f7 : Buf (Elt F) ((T d : Thread nD τ).loc main_v10))

/-- The four arrays' contents when the region is entered on device `d`: the gathered rows, the transposed weights, the
    bias column, the output. -/
def A7 : (w : Fin cfg7.W) → Buf (Elt F) ((cfg7.win w).arr.view.loc (d.tc : Thread nD τ))
  | ⟨0, _⟩ => f3
  | ⟨1, _⟩ => fw
  | ⟨2, _⟩ => fb
  | ⟨3, _⟩ => f7
  | ⟨_ + 4, h⟩ => absurd h (Nat.not_lt.2 (Nat.le_add_left _ _))

/-- The same on any core (the mesh has one device). -/
def A7c (c : Dev nD) : (w : Fin cfg7.W) → Buf (Elt F) ((cfg7.win w).arr.view.loc (c.tc : Thread nD τ)) :=
  if h : c = d then h ▸ A7 d f3 fw fb f7 else fun _ _ => default

theorem A7c_self : A7c (F := F) d f3 fw fb f7 d = A7 d f3 fw fb f7 := by
  unfold A7c; rw [dif_pos rfl]

/-- The family: the region's data at pipeline 3, data that says nothing at the others. -/
def rdats : (p : Fin 4) → (c : Dev nD) → RDat τ (Elt F) (HIx 4) ℕ UU ℕ (Pipeline.pin (pcfgs (F := F)) adm p) c
  | ⟨0, _⟩, _ => { A := fun _ _ => default, after := fun _ _ _ _ => True, Φ := fun _ => iprop(emp), q := fun _ => fullShare, owed := fun _ => 0 }
  | ⟨1, _⟩, _ => { A := fun _ _ => default, after := fun _ _ _ _ => True, Φ := fun _ => iprop(emp), q := fun _ => fullShare, owed := fun _ => 0 }
  | ⟨2, _⟩, _ => { A := fun _ _ => default, after := fun _ _ _ _ => True, Φ := fun _ => iprop(emp), q := fun _ => fullShare, owed := fun _ => 0 }
  | ⟨3, _⟩, c => rd7 c (A7c d f3 fw fb f7 c)
  | ⟨_ + 4, _⟩, _ => { A := fun _ _ => default, after := fun _ _ _ _ => True, Φ := fun _ => iprop(emp), q := fun _ => fullShare, owed := fun _ => 0 }

theorem rdats_at (c : Dev nD) : rdats (UU := UU) d f3 fw fb f7 3 c = rd7 c (A7c d f3 fw fb f7 c) := rfl

end Region

/-! ## The region as the library's record, and its step at @main's line -/

section Step

variable (d : Dev nD) (f3 : Buf (Elt F) ((T d : Thread nD τ).loc main_v6)) (fw : Buf (Elt F) ((T d : Thread nD τ).loc main_v1))
  (fb : Buf (Elt F) ((T d : Thread nD τ).loc main_v2)) (f7 : Buf (Elt F) ((T d : Thread nD τ).loc main_v10))

theorem share7 (c : Dev nD) (w : Fin cfg7.W) : (rdats (UU := UU) d f3 fw fb f7 3 c).share w = fullShare :=
  (rdats (UU := UU) d f3 fw fb f7 3 c).share_full (fun _ => rfl) w

/-- The region's four arrays, one by one. -/
theorem arrays7 (c : Dev nD) (G : (w : Fin cfg7.W) → Buf (Elt F) ((cfg7.win w).arr.view.loc (c.tc : Thread nD τ))) :
    ((rdats (UU := UU) d f3 fw fb f7 3 c).arrays G : sProp 𝕄)
      = iprop((((c.tc : Thread nD τ).loc main_v6) ↦{fullShare} G 0) ∗ (((c.tc : Thread nD τ).loc main_v1) ↦{fullShare} G 1)
          ∗ (((c.tc : Thread nD τ).loc main_v2) ↦{fullShare} G 2) ∗ (((c.tc : Thread nD τ).loc main_v10) ↦{fullShare} G 3)) := by
  rw [Pipeline.RDat.arrays_eq (pcfgs (F := F)) adm (rdats (UU := UU) d f3 fw fb f7) 3 c launch7.arr_whole (share7 d f3 fw fb f7 c) G, bigSep_W7]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg7 : Pipeline.RDat.RegionSeg (pcfgs (F := F)) adm (rdats (UU := UU) d f3 fw fb f7) none defs₀ 𝒱₀ (K (F := F)).L (K (F := F)).lev 3 where
  win := launch7.win.to₀
  block_pos := launch7.block_pos
  stage_whole := launch7.stage_whole
  K := PEmpty
  osem := fun k => k.elim
  ho := Pipeline.OwnSemFacts.none _
  hbody c := body7 c _
  hwaits := Pipeline.RDat.hwaits_of_owed_zero _ _ _ _ _ _ 3 fun _ _ => rfl
  pre c := iprop((rdats (UU := UU) d f3 fw fb f7 3 c).arrays (rdats (UU := UU) d f3 fw fb f7 3 c).A ∗ (rdats (UU := UU) d f3 fw fb f7 3 c).owesAt none 0)
  post c := iprop((rdats (UU := UU) d f3 fw fb f7 3 c).arraysAt cfg7.N ∗ (rdats (UU := UU) d f3 fw fb f7 3 c).owesAt none (Fin.last cfg7.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec7 c) ⊢ Pipeline.scopedRest spec7 c
    iintro ⟨-, -, Hr⟩; iexact Hr
  hout c := by
    rw [Pipeline.ownSems0_none]
    show Pipeline.scopedRest spec7 c ⊢ iprop(_ ∗ _ ∗ Pipeline.scopedRest spec7 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre7 (W : Waits sig (HIx 4)) (hW : (K (F := F)).WBelow (T d) W 32) :
    iprop(owes (T d : Thread nD τ) (0 : CellTallies nD τ sig (HIx 4)) W
        ∗ (((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7))
      ⊢ ((reg7 (UU := UU) d f3 fw fb f7).pre d : sProp 𝕄) := by
  show _ ⊢ iprop((rdats (UU := UU) d f3 fw fb f7 3 d).arrays (rdats (UU := UU) d f3 fw fb f7 3 d).A ∗ (rdats (UU := UU) d f3 fw fb f7 3 d).owesAt none 0)
  rw [arrays7, show (rdats (UU := UU) d f3 fw fb f7 3 d).A = A7 d f3 fw fb f7 from A7c_self d f3 fw fb f7]
  show _ ⊢ iprop(((((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7))
      ∗ ∃ W' : Waits sig (HIx 4), ⌜(↑W' : Set (SemLoc sig × HIx 4)) ⊆ (rdats (UU := UU) d f3 fw fb f7 3 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_below (t : Fin (cfg7.N + 1)) (W' : Waits sig (HIx 4))
    (h : (↑W' : Set (SemLoc sig × HIx 4)) ⊆ (rdats (UU := UU) d f3 fw fb f7 3 d).bound none t) : (K (F := F)).WBelow (T d) W' 32 := by
  intro p hp
  rcases h (Finset.mem_coe.mpr hp) with h | ⟨w, s, rfl⟩
  · exact h
  · exact Nat.zero_le _

/-- EXIT at device `d`: the arrays the region reads are as they were, its output holds something, the core owes nothing. -/
theorem post7 :
    ((reg7 (UU := UU) d f3 fw fb f7).post d : sProp 𝕄)
      ⊢ iprop((((T d : Thread nD τ).loc main_v6) ↦{fullShare} f3) ∗ (((T d : Thread nD τ).loc main_v1) ↦{fullShare} fw)
        ∗ (((T d : Thread nD τ).loc main_v2) ↦{fullShare} fb) ∗ (∃ g, ((T d : Thread nD τ).loc main_v10) ↦{fullShare} g)
        ∗ ∃ W', ⌜(K (F := F)).WBelow (T d) W' 32⌝ ∗ owes (T d : Thread nD τ) (0 : CellTallies nD τ sig (HIx 4)) W') := by
  have hA : (rdats (UU := UU) d f3 fw fb f7 3 d).A = A7 d f3 fw fb f7 := A7c_self d f3 fw fb f7
  have e0 := (rdats (UU := UU) d f3 fw fb f7 3 d).ArrAt_in 0 rfl cfg7.N
  have e1 := (rdats (UU := UU) d f3 fw fb f7 3 d).ArrAt_in 1 rfl cfg7.N
  have e2 := (rdats (UU := UU) d f3 fw fb f7 3 d).ArrAt_in 2 rfl cfg7.N
  show iprop((rdats (UU := UU) d f3 fw fb f7 3 d).arraysAt cfg7.N
      ∗ ∃ W' : Waits sig (HIx 4), ⌜(↑W' : Set (SemLoc sig × HIx 4)) ⊆ (rdats (UU := UU) d f3 fw fb f7 3 d).bound none (Fin.last cfg7.N)⌝ ∗ owes (T d : Thread nD τ) (0 : CellTallies nD τ sig (HIx 4)) W') ⊢ _
  unfold RDat.arraysAt
  rw [bigSep_W7, e0, e1, e2, hA]
  simp only [share7, (launch7.arr_whole _).set_eq_univ]
  iintro ⟨⟨⟨%F0, %h0, H0⟩, ⟨%F1, %h1, H1⟩, ⟨%F2, %h2, H2⟩, ⟨%F3, -, H3⟩⟩, ⟨%W', %hW', HO⟩⟩
  subst h0; subst h1; subst h2
  isplitl [H0]; · iexact H0
  isplitl [H1]; · iexact H1
  isplitl [H2]; · iexact H2
  isplitl [H3]; · iexists F3; iexact H3
  iexists W'; isplitr
  · ipureintro; exact bound_below _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 3, the region's call runs
    — under any continuation — to the boundary again, the three arrays it reads unchanged, the output at some contents, and
    the TensorCore still owing nothing. -/
theorem region3 (EP : Emb (URounds (GSem nD τ sig) Unit) 𝕄) [EP.LandsIn (upEmb : UEmb _ 𝕄)]
    (W : Waits sig (HIx 4)) (hW : (K (F := F)).WBelow (T d) W 32)
    {α : Type} (k : PUnit → Prog (TpuEff nD τ sig (Elt F) (SparseCore.Sig (ΛP (F := F)) 4) .tc) α) (Q : α → sProp 𝕄) :
    iprop((iprop(boundary (T d : Thread nD τ) ∗ (((T d : Thread nD τ).loc main_v6) ↦{fullShare} f3) ∗ (((T d : Thread nD τ).loc main_v1) ↦{fullShare} fw)
              ∗ (((T d : Thread nD τ).loc main_v2) ↦{fullShare} fb) ∗ (∃ g, ((T d : Thread nD τ).loc main_v10) ↦{fullShare} g)
              ∗ ∃ W', ⌜(K (F := F)).WBelow (T d) W' 32⌝ ∗ owes (T d : Thread nD τ) (0 : CellTallies nD τ sig (HIx 4)) W')
            -∗ wp frame (wpE ((K (F := F)).defs D) 𝒱 (T d) none) Set.univ (k ⟨⟩) Q)
        ∗ boundary (T d : Thread nD τ) ∗ levAts (K (F := F)).L (K (F := F)).lev ∗ owes (T d : Thread nD τ) (0 : CellTallies nD τ sig (HIx 4)) W
        ∗ (((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7)
        ∗ Pipeline.cellsGhost cfgs EP 3 d ∗ Pipeline.toksInit cfgs EP 3 d)
      ⊢ wp frame (wpE ((K (F := F)).defs D) 𝒱 (T d) none) Set.univ (.op (.customCall (SparseCore.inner (Pipeline.entry 3)) ()) k) Q := by
  have hop : (Prog.op (.customCall (SparseCore.inner (Pipeline.entry 3)) ()) k : Prog (TpuEff nD τ sig (Elt F) (SparseCore.Sig (ΛP (F := F)) 4) .tc) α)
      = (SparseCore.liftProg (Q := 4) (Prog.op (.customCall (Pipeline.entry (3 : Fin 4)) ()) fun x => .ret x : Prog (TpuEff nD τ sig (Elt F) (ΛP (F := F)) .tc) PUnit) >>= k) := rfl
  rw [hop, wp_bind]
  refine BIBase.Entails.trans ?_ ((K (F := F)).wp_liftProg D 𝒱 (T d) Set.univ none _ _)
  refine BIBase.Entails.trans ?_ (Pipeline.RDat.RegionSeg.wp (pcfgs (F := F)) adm (rdats (UU := UU) d f3 fw fb f7) none cellOf_inj EP defs₀ 𝒱₀
    (K (F := F)).L (K (F := F)).lev (reg7 d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post7 d f3 fw fb f7); iexact Hpost
  isplitl [Hbd]; · iexact Hbd
  isplitl [HO H3 H1 H2 H7]
  · iapply (pre7 d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end Step

end Cert.Proof.BRegion7

end
-- ==== Proof.LaunchRegionsB.lean ====
/-
  The projection calls' regions, in the form @main uses them.

  Each region is proved at the library's own spelling (the custom call followed by a continuation). @main's line
  is the custom call alone, followed by the rest of the program as the postcondition: the continuation is the
  immediate return.
-/
import proofs.«204056_g19739669692900_cont_8to1_1488_31_alg».proof.Proof.LaunchMainB
import proofs.«204056_g19739669692900_cont_8to1_1488_31_alg».proof.Proof.Region4B
import proofs.«204056_g19739669692900_cont_8to1_1488_31_alg».proof.Proof.Region5B
import proofs.«204056_g19739669692900_cont_8to1_1488_31_alg».proof.Proof.Region6B
import proofs.«204056_g19739669692900_cont_8to1_1488_31_alg».proof.Proof.Region7B

noncomputable section

namespace Cert.Proof.LaunchB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 4) (Elt F) ℕ UU ℕ

variable [FloatOps F] [∀ e, Nonempty (Elt F e)]

theorem regionSpec0 : RegionSpec (F := F) 0 main_v3 main_v7 := by
  intro d W hW fi fw fb fo Ψ
  have h := Cert.Proof.BRegion4.region0 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpec1 : RegionSpec (F := F) 1 main_v4 main_v8 := by
  intro d W hW fi fw fb fo Ψ
  have h := Cert.Proof.BRegion5.region1 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpec2 : RegionSpec (F := F) 2 main_v5 main_v9 := by
  intro d W hW fi fw fb fo Ψ
  have h := Cert.Proof.BRegion6.region2 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpec3 : RegionSpec (F := F) 3 main_v6 main_v10 := by
  intro d W hW fi fw fb fo Ψ
  have h := Cert.Proof.BRegion7.region3 (F := F) d fi fw fb fo (EP (F := F)) W hW (fun _ => Prog.ret PUnit.unit) Ψ
  iintro ⟨Hk, Hrest⟩
  iapply h
  isplitl [Hk]
  · iintro Hpost
    rw [wp_ret]; imodintro
    iapply Hk; iexact Hpost
  · iexact Hrest

end Cert.Proof.LaunchB

end
-- ==== Proof.TileOblB.lean ====
/-
  A task's proof, in the launch theorem's spelling.

  The launch theorem asks for each gather call's task as the body table's row at a vector subcore of the call's
  grid, from what the go signal carries to what the taskDone signal carries. The body table's row at such a
  subcore is the printed kernel at that subcore's grid coordinates, and the signals carry exactly the task's two
  read shares and its result block: the task's proof at symbolic coordinates is the obligation.
-/
import proofs.«204056_g19739669692900_cont_8to1_1488_31_alg».proof.Proof.LaunchMainB

noncomputable section

namespace Cert.Proof.LaunchB

open Cert.Kernel Cert.Kernel.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

variable [FloatOps F]
variable (m : (ℓ : Loc nD τ sig) → Buf (Elt F) ℓ)

omit [FloatOps F] [CountersIn UU] in
theorem obl_post {thr : Thread nD τ} {A B C : sProp 𝕄} {O : CellTallies nD τ sig (HIx 4)} {W : Waits sig (HIx 4)} {q : Fin 4} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-! ## Call 0 -/

abbrev cV0 (L : grid0.Coords) : Fin τ.nSC := (L 0).castLE hcore0
abbrev jV0 (L : grid0.Coords) : Fin τ.nSub := (L 1).castLE hsub0
omit [FloatOps F] [CountersIn UU] in
theorem bound0_zero : grid0.bound 0 = 2 := rfl
omit [FloatOps F] [CountersIn UU] in
theorem bound0_one : grid0.bound 1 = 16 := rfl
/-- The worker number of the subcore at grid coordinates `L`. -/
abbrev widL0 (L : grid0.Coords) : Fin 32 := wid (Fin.cast bound0_zero (L 0)) (Fin.cast bound0_one (L 1))

def coordsV0 (c : Fin (grid0.bound 0)) (s : Fin (grid0.bound 1)) : grid0.Coords :=
  fun | 0 => c | 1 => s | ⟨_ + 2, h⟩ => absurd h (Nat.not_lt.2 (Nat.le_add_left _ _))

/-- One task of call 0 at a symbolic subcore: from its two read shares and its result block to the same, the
    block at some contents, every scoped semaphore back at zero, only waits of its own recorded — given that
    every index word names a table row. -/
def TileBody0 : Prop :=
  ∀ (d : Dev nD), (∀ j, (m (catsLoc d) j).toNat < 100000) → ∀ (L : grid0.Coords) (ft : Buf (Elt F) (tpadLoc d)) (f0 : Buf (Elt F) (out0Loc d))
    (O : CellTallies nD τ sig (HIx 4)) (W : Waits sig (HIx 4)), (∀ g, O g none = 0) →
    iprop(levAts (K (F := F)).L (K (F := F)).lev ∗ emp
        ∗ (catsSh m d (widL0 L) ∗ tpadSh d (widL0 L) ft ∗ outBlk0 d (widL0 L) f0)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0_gk L (Memref.whole main_v0_scv) (Memref.isWhole_whole _) (Memref.whole main_arg0_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0)
          fun _ => (iprop((catsSh m d (widL0 L) ∗ tpadSh d (widL0 L) ft ∗ ∃ f, outBlk0 d (widL0 L) f)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') : sProp 𝕄)

theorem defs₀_vector0 (c : Fin τ.nSC) (s : Fin τ.nSub) :
    defs₀ (F := F) (.scVector c s) 0 ()
      = SparseCore.onTile hcore0 hsub0 (fun c s => cc0_gk (coordsV0 c s) (Memref.whole main_v0_scv) (Memref.isWhole_whole _) (Memref.whole main_arg0_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0) ⟨⟩ c s := rfl

set_option maxRecDepth 16384 in
theorem tileObl0 (ft : (d : Dev nD) → Buf (Elt F) (tpadLoc d)) (hcats : ∀ d j, (m (catsLoc d) j).toNat < 100000)
    (hbody : TileBody0 (F := F) (UU := UU) m) :
    (K (F := F)).TileObl (D (F := F)) 𝒱 (P (UU := UU) m ft) v₀ 0 := by
  intro d c i O W hO _ _
  simp only [show (P (UU := UU) m ft).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hbody d (hcats d) (coordsV0 ⟨_, hci.1⟩ ⟨_, hci.2⟩) (ft d) (m (out0Loc d)) O W hO).trans (wp_mono frame _ _ fun _ => obl_post)

/-! ## Call 1 -/

abbrev cV1 (L : grid1.Coords) : Fin τ.nSC := (L 0).castLE hcore1
abbrev jV1 (L : grid1.Coords) : Fin τ.nSub := (L 1).castLE hsub1
omit [FloatOps F] [CountersIn UU] in
theorem bound1_zero : grid1.bound 0 = 2 := rfl
omit [FloatOps F] [CountersIn UU] in
theorem bound1_one : grid1.bound 1 = 16 := rfl
/-- The worker number of the subcore at grid coordinates `L`. -/
abbrev widL1 (L : grid1.Coords) : Fin 32 := wid (Fin.cast bound1_zero (L 0)) (Fin.cast bound1_one (L 1))

def coordsV1 (c : Fin (grid1.bound 0)) (s : Fin (grid1.bound 1)) : grid1.Coords :=
  fun | 0 => c | 1 => s | ⟨_ + 2, h⟩ => absurd h (Nat.not_lt.2 (Nat.le_add_left _ _))

/-- One task of call 1 at a symbolic subcore: from its two read shares and its result block to the same, the
    block at some contents, every scoped semaphore back at zero, only waits of its own recorded — given that
    every index word names a table row. -/
def TileBody1 : Prop :=
  ∀ (d : Dev nD), (∀ j, (m (catsLoc d) j).toNat < 100000) → ∀ (L : grid1.Coords) (ft : Buf (Elt F) (tpadLoc d)) (f0 : Buf (Elt F) (out1Loc d))
    (O : CellTallies nD τ sig (HIx 4)) (W : Waits sig (HIx 4)), (∀ g, O g none = 0) →
    iprop(levAts (K (F := F)).L (K (F := F)).lev ∗ emp
        ∗ (catsSh m d (widL1 L) ∗ tpadSh d (widL1 L) ft ∗ outBlk1 d (widL1 L) f0)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1_gk L (Memref.whole main_v0_scv) (Memref.isWhole_whole _) (Memref.whole main_arg0_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0)
          fun _ => (iprop((catsSh m d (widL1 L) ∗ tpadSh d (widL1 L) ft ∗ ∃ f, outBlk1 d (widL1 L) f)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') : sProp 𝕄)

theorem defs₀_vector1 (c : Fin τ.nSC) (s : Fin τ.nSub) :
    defs₀ (F := F) (.scVector c s) 1 ()
      = SparseCore.onTile hcore1 hsub1 (fun c s => cc1_gk (coordsV1 c s) (Memref.whole main_v0_scv) (Memref.isWhole_whole _) (Memref.whole main_arg0_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0) ⟨⟩ c s := rfl

set_option maxRecDepth 16384 in
theorem tileObl1 (ft : (d : Dev nD) → Buf (Elt F) (tpadLoc d)) (hcats : ∀ d j, (m (catsLoc d) j).toNat < 100000)
    (hbody : TileBody1 (F := F) (UU := UU) m) :
    (K (F := F)).TileObl (D (F := F)) 𝒱 (P (UU := UU) m ft) v₀ 1 := by
  intro d c i O W hO _ _
  simp only [show (P (UU := UU) m ft).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hbody d (hcats d) (coordsV1 ⟨_, hci.1⟩ ⟨_, hci.2⟩) (ft d) (m (out1Loc d)) O W hO).trans (wp_mono frame _ _ fun _ => obl_post)

/-! ## Call 2 -/

abbrev cV2 (L : grid2.Coords) : Fin τ.nSC := (L 0).castLE hcore2
abbrev jV2 (L : grid2.Coords) : Fin τ.nSub := (L 1).castLE hsub2
omit [FloatOps F] [CountersIn UU] in
theorem bound2_zero : grid2.bound 0 = 2 := rfl
omit [FloatOps F] [CountersIn UU] in
theorem bound2_one : grid2.bound 1 = 16 := rfl
/-- The worker number of the subcore at grid coordinates `L`. -/
abbrev widL2 (L : grid2.Coords) : Fin 32 := wid (Fin.cast bound2_zero (L 0)) (Fin.cast bound2_one (L 1))

def coordsV2 (c : Fin (grid2.bound 0)) (s : Fin (grid2.bound 1)) : grid2.Coords :=
  fun | 0 => c | 1 => s | ⟨_ + 2, h⟩ => absurd h (Nat.not_lt.2 (Nat.le_add_left _ _))

/-- One task of call 2 at a symbolic subcore: from its two read shares and its result block to the same, the
    block at some contents, every scoped semaphore back at zero, only waits of its own recorded — given that
    every index word names a table row. -/
def TileBody2 : Prop :=
  ∀ (d : Dev nD), (∀ j, (m (catsLoc d) j).toNat < 100000) → ∀ (L : grid2.Coords) (ft : Buf (Elt F) (tpadLoc d)) (f0 : Buf (Elt F) (out2Loc d))
    (O : CellTallies nD τ sig (HIx 4)) (W : Waits sig (HIx 4)), (∀ g, O g none = 0) →
    iprop(levAts (K (F := F)).L (K (F := F)).lev ∗ emp
        ∗ (catsSh m d (widL2 L) ∗ tpadSh d (widL2 L) ft ∗ outBlk2 d (widL2 L) f0)
        ∗ scopedBufs (V d (cV2 L) (jV2 L)) ∗ scopedSems0 (V d (cV2 L) (jV2 L)) ∗ owes (V d (cV2 L) (jV2 L)) O W)
      ⊢ wp frame (wpE (defs₀ (F := F)) 𝒱₀ (V d (cV2 L) (jV2 L)) none) Set.univ
          (cc2_gk L (Memref.whole main_v0_scv) (Memref.isWhole_whole _) (Memref.whole main_arg0_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0)
          fun _ => (iprop((catsSh m d (widL2 L) ∗ tpadSh d (widL2 L) ft ∗ ∃ f, outBlk2 d (widL2 L) f)
            ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') : sProp 𝕄)

theorem defs₀_vector2 (c : Fin τ.nSC) (s : Fin τ.nSub) :
    defs₀ (F := F) (.scVector c s) 2 ()
      = SparseCore.onTile hcore2 hsub2 (fun c s => cc2_gk (coordsV2 c s) (Memref.whole main_v0_scv) (Memref.isWhole_whole _) (Memref.whole main_arg0_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0) ⟨⟩ c s := rfl

set_option maxRecDepth 16384 in
theorem tileObl2 (ft : (d : Dev nD) → Buf (Elt F) (tpadLoc d)) (hcats : ∀ d j, (m (catsLoc d) j).toNat < 100000)
    (hbody : TileBody2 (F := F) (UU := UU) m) :
    (K (F := F)).TileObl (D (F := F)) 𝒱 (P (UU := UU) m ft) v₀ 2 := by
  intro d c i O W hO _ _
  simp only [show (P (UU := UU) m ft).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (hbody d (hcats d) (coordsV2 ⟨_, hci.1⟩ ⟨_, hci.2⟩) (ft d) (m (out2Loc d)) O W hO).trans (wp_mono frame _ _ fun _ => obl_post)

/-! ## Call 3 -/

abbrev cV3 (L : grid3.Coords) : Fin τ.nSC := (L 0).castLE hcore3
abbrev jV3 (L : grid3.Coords) : Fin τ.nSub := (L 1).castLE hsub3
omit [FloatOps F] [CountersIn UU] in
theorem bound3_zero : grid3.bound 0 = 2 := rfl
omit [FloatOps F] [CountersIn UU] in
theorem bound3_one : grid3.bound 1 = 16 := rfl
/-- The worker number of the subcore at grid coordinates `L`. -/
abbrev widL3 (L : grid3.Coords) : Fin 32 := wid (Fin.cast bound3_zero (L 0)) (Fin.cast bound3_one (L 1))

def coordsV3 (c : Fin (grid3.bound 0)) (s : Fin (grid3.bound 1)) : grid3.Coords :=
  fun | 0 => c | 1 => s | ⟨_ + 2, h⟩ => absurd h (Nat.not_lt.2 (Nat.le_add_left _ _))

/-- One task of call 3 at a symbolic subcore: from its two read shares and its result block to the same, the
    block at some contents, every scoped semaphore back at zero, only waits of its own recorded — given that
    every index word names a table row. -/
def TileBody3 : Prop :=
  ∀ (d : Dev nD), (∀ j, (m (catsLoc d) j).toNat < 100000) → ∀ (L : grid3.Coords) (ft : Buf (Elt F) (tpadLoc d)) (f0 : Buf (Elt F) (out3Loc d))
    (O : CellTallies nD τ sig (HIx 4)) (W : Waits sig (HIx 4)), (∀ g, O g none = 0) →
    iprop(levAts (K (F := F)).L (K (F := F)).lev ∗ emp
        ∗ (catsSh m d (widL3 L) ∗ tpadSh d (widL3 L) ft ∗ outBlk3 d (widL3 L) f0)
        ∗ scopedBufs (V d (cV3 L) (jV3 L)) ∗ scopedSems0 (V d (cV3 L) (jV3 L)) ∗ owes (V d (cV3 L) (jV3 L)) O W)
      ⊢ wp frame (wpE (defs₀ (F := F)) 𝒱₀ (V d (cV3 L) (jV3 L)) none) Set.univ
          (cc3_gk L (Memref.whole main_v0_scv) (Memref.isWhole_whole _) (Memref.whole main_arg0_scv) (Memref.isWhole_whole _) (Memref.whole main_v6_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0)
          fun _ => (iprop((catsSh m d (widL3 L) ∗ tpadSh d (widL3 L) ft ∗ ∃ f, outBlk3 d (widL3 L) f)
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') : sProp 𝕄)

theorem defs₀_vector3 (c : Fin τ.nSC) (s : Fin τ.nSub) :
    defs₀ (F := F) (.scVector c s) 3 ()
      = SparseCore.onTile hcore3 hsub3 (fun c s => cc3_gk (coordsV3 c s) (Memref.whole main_v0_scv) (Memref.isWhole_whole _) (Memref.whole main_arg0_scv) (Memref.isWhole_whole _) (Memref.whole main_v6_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0) ⟨⟩ c s := rfl

set_option maxRecDepth 16384 in
theorem tileObl3 (ft : (d : Dev nD) → Buf (Elt F) (tpadLoc d)) (hcats : ∀ d j, (m (catsLoc d) j).toNat < 100000)
    (hbody : TileBody3 (F := F) (UU := UU) m) :
    (K (F := F)).TileObl (D (F := F)) 𝒱 (P (UU := UU) m ft) v₀ 3 := by
  intro d c i O W hO _ _
  simp only [show (P (UU := UU) m ft).ox = fun _ _ => 0 from rfl, add_zero]
  have hci : ((K (F := F)).core 3 c).val < grid3.bound 0 ∧ ((K (F := F)).sub 3 i).val < grid3.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (hbody d (hcats d) (coordsV3 ⟨_, hci.1⟩ ⟨_, hci.2⟩) (ft d) (m (out3Loc d)) O W hO).trans (wp_mono frame _ _ fun _ => obl_post)

end Cert.Proof.LaunchB

end
-- ==== Proof.FrameIB.lean ====
/-
  The kernel program's frame, from the four tasks' bodies.

  Under the precondition every index word names a table row, so each task's proof applies; the tasks'
  obligations, the projection calls' regions and @main give the run of all the threads, the arguments unchanged.
-/
import proofs.«204056_g19739669692900_cont_8to1_1488_31_alg».proof.Proof.LaunchRunB
import proofs.«204056_g19739669692900_cont_8to1_1488_31_alg».proof.Proof.LaunchRegionsB
import proofs.«204056_g19739669692900_cont_8to1_1488_31_alg».proof.Proof.TileOblB
import proofs.«204056_g19739669692900_cont_8to1_1488_31_alg».proof.Proof.PreNat
import proofs.«204056_g19739669692900_cont_8to1_1488_31_alg».proof.Proof.Gen.Pre_input_domain

noncomputable section

namespace Cert.Proof.LaunchB

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open Idealize.SL.Sem

variable {F : FTy → Type}
variable [FloatOps F] [∀ e, Nonempty (Elt F e)]
variable (m : (ℓ : Loc nD τ sig) → Buf (Elt F) ℓ) (ρ : Dev nD → PrngReg)

/-- The precondition, as the claims state it of the launch memory. -/
def PreM : Prop :=
  ∀ c : Dev nD, Cert.Pre_input_domain.fn (F := F) (m ((c.tc : Thread nD τ).loc main_arg0)) (m ((c.tc : Thread nD τ).loc main_arg1))
    (m ((c.tc : Thread nD τ).loc main_arg2)) (m ((c.tc : Thread nD τ).loc main_arg3)) = fun _ => 1#1

theorem hcats_of_pre (hpre : PreM m) : ∀ d j, (m (catsLoc d) j).toNat < 100000 :=
  fun d => Cert.Proof.PreRange.cats_toNat_lt _ _ _ _ (hpre d)

/-- Every weakly fair execution of the program's threads ends, faulting nowhere, with the four arguments
    unchanged — from the precondition and the four tasks' bodies. -/
theorem frame_of_bodies (hpre : PreM m)
    (hb0 : TileBody0 (F := F) (UU := UU) m) (hb1 : TileBody1 (F := F) (UU := UU) m)
    (hb2 : TileBody2 (F := F) (UU := UU) m) (hb3 : TileBody3 (F := F) (UU := UU) m) :
    θ_run (Cert.Kernel.defs (F := F)) (Cert.Kernel.threads (F := F)) ⟨m, fun _ => 0, ρ⟩ (QC m) :=
  run_main m ρ
    (fun q => match q with
      | 0 => tileObl0 m (ftOf m) (hcats_of_pre m hpre) hb0
      | 1 => tileObl1 m (ftOf m) (hcats_of_pre m hpre) hb1
      | 2 => tileObl2 m (ftOf m) (hcats_of_pre m hpre) hb2
      | 3 => tileObl3 m (ftOf m) (hcats_of_pre m hpre) hb3)
    regionSpec0 regionSpec1 regionSpec2 regionSpec3

end Cert.Proof.LaunchB

end
-- ==== Proof.TileCommonB.lean ====
/-
  One vector subcore's task of the first gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefsB

noncomputable section

namespace Cert.Proof.BTile0

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v3_scv : Memref Cert.Kernel.sig Kind.scVector Space.hbm Cert.Kernel.S4096x50x64 EltTy.f32)
local notation "iW" => (Memref.whole Cert.Kernel.cc0_scratch0 : Memref Cert.Kernel.sig Kind.scVector Space.vmem Cert.Kernel.S128x50 EltTy.i32)
local notation "bW" => (Memref.whole Cert.Kernel.cc0_scratch1 : Memref Cert.Kernel.sig Kind.scVector Space.vmem Cert.Kernel.S8x56x128 EltTy.f32)
local notation "pW" => (Memref.whole Cert.Kernel.cc0_scratch2 : Memref Cert.Kernel.sig Kind.scVector Space.vmem Cert.Kernel.S8x50x64 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The task's thread, its scratch buffers and its semaphores -/

section Common

variable (d : Dev nD) (L : grid0.Coords)

omit [URA UU] [CountersIn UU] in
theorem bound_zero : grid0.bound 0 = 2 := rfl
omit [URA UU] [CountersIn UU] in
theorem bound_one : grid0.bound 1 = 16 := rfl

/-- The worker number of the subcore at grid coordinates `L`: `2 s + c`. -/
abbrev widL (L : grid0.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc0_scoped0.sem, SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc0_scoped0.sem) 0 ∗ semVal (thr d L, SemLoc.dma cc0_scratch3.sem) 0 ∗ semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scratch17.sem) 0 ∗ semVal (thr d L, SemLoc.dma cc0_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

end Common

section Pts

variable (m : (ℓ : Loc nD τ sig) → Buf (Elt F) ℓ) (d : Dev nD) (L : grid0.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out0Loc d)) :
    ((oW).view.loc (thr d L) ↦[I]{fullShare} f : sProp 𝕄) = out0Loc d ↦[I]{fullShare} f := rfl
theorem pts_iW (f : Buf (Elt F) ((thr d L).loc cc0_scratch0)) :
    ((iW).view.loc (thr d L) ↦{fullShare} f : sProp 𝕄) = (thr d L).loc cc0_scratch0 ↦{fullShare} f := rfl
theorem pts_bW (f : Buf (Elt F) ((thr d L).loc cc0_scratch1)) :
    ((bW).view.loc (thr d L) ↦{fullShare} f : sProp 𝕄) = (thr d L).loc cc0_scratch1 ↦{fullShare} f := rfl
theorem pts_pW (f : Buf (Elt F) ((thr d L).loc cc0_scratch2)) :
    ((pW).view.loc (thr d L) ↦{fullShare} f : sProp 𝕄) = (thr d L).loc cc0_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v3_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet0 w := by
  rw [blkSet0_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out0Loc d)) :
    (out0Loc d ↦[blkSet0 w]{fullShare} f : sProp 𝕄) = bigSep Finset.univ fun j : Fin 128 => out0Loc d ↦[rowSet w j]{fullShare} f := by
  rw [← pointsTo_biUnion Finset.univ (ℓ := out0Loc d) (rowSet w) (rows_disjoint w), rows_cover]

/-- The rows, each at some contents. -/
abbrev outRows (w : Fin 32) : sProp 𝕄 := bigSep Finset.univ fun j : Fin 128 => iprop(∃ f, out0Loc d ↦[rowSet w j]{fullShare} f)

theorem outRows_intro (w : Fin 32) (f : Buf (Elt F) (out0Loc d)) : (out0Loc d ↦[blkSet0 w]{fullShare} f : sProp 𝕄) ⊢ outRows d w := by
  rw [outBlk_rows]
  refine bigSep_mono fun j _ => (show (out0Loc d ↦[rowSet w j]{fullShare} f : sProp 𝕄) ⊢ iprop(∃ f, out0Loc d ↦[rowSet w j]{fullShare} f) from ?_)
  iintro H; iexists f; iexact H

set_option maxRecDepth 4096 in
theorem outRows_join (w : Fin 32) (f0 : Buf (Elt F) (out0Loc d)) : (outRows d w : sProp 𝕄) ⊢ iprop(∃ f, out0Loc d ↦[blkSet0 w]{fullShare} f) := by
  haveI : Nonempty (Buf (Elt F) (out0Loc d)) := ⟨f0⟩
  refine (bigSep_exists_pi Finset.univ (fun j (f : Buf (Elt F) (out0Loc d)) => (out0Loc d ↦[rowSet w j]{fullShare} f : sProp 𝕄))).trans ?_
  iintro ⟨%fs, H⟩
  ihave H' := (pointsTo_biUnion_join (ℓ := out0Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out0Loc d ↦[rowSet w ⟨b + 0, by omega⟩]{fullShare} f) ∗ (∃ f, out0Loc d ↦[rowSet w ⟨b + 1, by omega⟩]{fullShare} f) ∗ (∃ f, out0Loc d ↦[rowSet w ⟨b + 2, by omega⟩]{fullShare} f) ∗ (∃ f, out0Loc d ↦[rowSet w ⟨b + 3, by omega⟩]{fullShare} f) ∗ (∃ f, out0Loc d ↦[rowSet w ⟨b + 4, by omega⟩]{fullShare} f) ∗ (∃ f, out0Loc d ↦[rowSet w ⟨b + 5, by omega⟩]{fullShare} f) ∗ (∃ f, out0Loc d ↦[rowSet w ⟨b + 6, by omega⟩]{fullShare} f) ∗ (∃ f, out0Loc d ↦[rowSet w ⟨b + 7, by omega⟩]{fullShare} f))
          ∗ bigSep (Finset.univ \ Finset.univ.map (grpEmb b hb)) fun j : Fin 128 => iprop(∃ f, out0Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid0.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc0_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc0_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.BTile0

end
-- ==== Proof.TileRepackB.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommonB
import proofs.«204056_g19739669692900_cont_8to1_1488_31_alg».proof.Proof.Gen.Kernel.Skeleton

noncomputable section

namespace Cert.Proof.BTile0

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v3_scv : Memref Cert.Kernel.sig Kind.scVector Space.hbm Cert.Kernel.S4096x50x64 EltTy.f32)
local notation "iW" => (Memref.whole Cert.Kernel.cc0_scratch0 : Memref Cert.Kernel.sig Kind.scVector Space.vmem Cert.Kernel.S128x50 EltTy.i32)
local notation "bW" => (Memref.whole Cert.Kernel.cc0_scratch1 : Memref Cert.Kernel.sig Kind.scVector Space.vmem Cert.Kernel.S8x56x128 EltTy.f32)
local notation "pW" => (Memref.whole Cert.Kernel.cc0_scratch2 : Memref Cert.Kernel.sig Kind.scVector Space.vmem Cert.Kernel.S8x50x64 EltTy.f32)

section Repack

variable (d : Dev nD) (L : grid0.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k0_t1 : Fin k0_t1_loop.trips) (k : Fin k0_t2_loop.trips) (u : Unit) :
    (RInv0 d L : sProp 𝕄) ⊢ wp frame (wpE (defs₀ (F := F)) 𝒱₀ (thr d L) none) Set.univ
        (k0_t2_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 c0_i32_51 c1_i32_52 k0_t1 k u) (fun _ => RInv0 d L) := by
  unfold k0_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k0_t1 : Fin k0_t1_loop.trips) (arg24 : BitVec 32) (v255 : BitVec 32) (k : Fin k0_t3_loop.trips) (u : Unit) :
    (RInv1 d L : sProp 𝕄) ⊢ wp frame (wpE (defs₀ (F := F)) 𝒱₀ (thr d L) none) Set.univ
        (k0_t3_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v255 k u) (fun _ => RInv1 d L) := by
  unfold k0_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k0_t1 : Fin k0_t1_loop.trips) (arg24 : BitVec 32) (v255 : BitVec 32) (k : Fin k0_t4_loop.trips) (u : Unit) :
    (RInv2 d L : sProp 𝕄) ⊢ wp frame (wpE (defs₀ (F := F)) 𝒱₀ (thr d L) none) Set.univ
        (k0_t4_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v255 k u) (fun _ => RInv2 d L) := by
  unfold k0_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k0_t1 : Fin k0_t1_loop.trips) (arg24 : BitVec 32) (k : Fin k0_t5_loop.trips) (u : Unit) :
    (RInv3 d L : sProp 𝕄) ⊢ wp frame (wpE (defs₀ (F := F)) 𝒱₀ (thr d L) none) Set.univ
        (k0_t5_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 k u) (fun _ => RInv3 d L) := by
  unfold k0_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k0_t1 : Fin k0_t1_loop.trips) (arg24 : BitVec 32) (v306 : BitVec 32) (k : Fin k0_t6_loop.trips) (u : Unit) :
    (RInv4 d L : sProp 𝕄) ⊢ wp frame (wpE (defs₀ (F := F)) 𝒱₀ (thr d L) none) Set.univ
        (k0_t6_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v306 k u) (fun _ => RInv4 d L) := by
  unfold k0_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k0_t1 : Fin k0_t1_loop.trips) (arg24 : BitVec 32) (v306 : BitVec 32) (k : Fin k0_t7_loop.trips) (u : Unit) :
    (RInv5 d L : sProp 𝕄) ⊢ wp frame (wpE (defs₀ (F := F)) 𝒱₀ (thr d L) none) Set.univ
        (k0_t7_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v306 k u) (fun _ => RInv5 d L) := by
  unfold k0_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k0_t1 : Fin k0_t1_loop.trips) (arg24 : BitVec 32) (k : Fin k0_t8_loop.trips) (u : Unit) :
    (RInv6 d L : sProp 𝕄) ⊢ wp frame (wpE (defs₀ (F := F)) 𝒱₀ (thr d L) none) Set.univ
        (k0_t8_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 k u) (fun _ => RInv6 d L) := by
  unfold k0_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k0_t1 : Fin k0_t1_loop.trips) (arg24 : BitVec 32) (v357 : BitVec 32) (k : Fin k0_t9_loop.trips) (u : Unit) :
    (RInv7 d L : sProp 𝕄) ⊢ wp frame (wpE (defs₀ (F := F)) 𝒱₀ (thr d L) none) Set.univ
        (k0_t9_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v357 k u) (fun _ => RInv7 d L) := by
  unfold k0_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k0_t10_loop.trips) (u : Unit) :
    (RInv0 d L : sProp 𝕄) ⊢ wp frame (wpE (defs₀ (F := F)) 𝒱₀ (thr d L) none) Set.univ
        (k0_t10_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv0 d L) := by
  unfold k0_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k0_t11_loop.trips) (u : Unit) :
    (RInv1 d L : sProp 𝕄) ⊢ wp frame (wpE (defs₀ (F := F)) 𝒱₀ (thr d L) none) Set.univ
        (k0_t11_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv1 d L) := by
  unfold k0_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k0_t12_loop.trips) (u : Unit) :
    (RInv2 d L : sProp 𝕄) ⊢ wp frame (wpE (defs₀ (F := F)) 𝒱₀ (thr d L) none) Set.univ
        (k0_t12_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv2 d L) := by
  unfold k0_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k0_t13_loop.trips) (u : Unit) :
    (RInv3 d L : sProp 𝕄) ⊢ wp frame (wpE (defs₀ (F := F)) 𝒱₀ (thr d L) none) Set.univ
        (k0_t13_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv3 d L) := by
  unfold k0_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k0_t14_loop.trips) (u : Unit) :
    (RInv4 d L : sProp 𝕄) ⊢ wp frame (wpE (defs₀ (F := F)) 𝒱₀ (thr d L) none) Set.univ
        (k0_t14_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv4 d L) := by
  unfold k0_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k0_t15_loop.trips) (u : Unit) :
    (RInv5 d L : sProp 𝕄) ⊢ wp frame (wpE (defs₀ (F := F)) 𝒱₀ (thr d L) none) Set.univ
        (k0_t15_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv5 d L) := by
  unfold k0_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k0_t16_loop.trips) (u : Unit) :
    (RInv6 d L : sProp 𝕄) ⊢ wp frame (wpE (defs₀ (F := F)) 𝒱₀ (thr d L) none) Set.univ
        (k0_t16_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv6 d L) := by
  unfold k0_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k0_t17_loop.trips) (u : Unit) :
    (RInv7 d L : sProp 𝕄) ⊢ wp frame (wpE (defs₀ (F := F)) 𝒱₀ (thr d L) none) Set.univ
        (k0_t17_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv7 d L) := by
  unfold k0_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.BTile0

end
-- ==== Proof.TileBody0B.lean ====
/-
  One vector subcore's task of the first gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommonB
import proofs.«204056_g19739669692900_cont_8to1_1488_31_alg».proof.Proof.Gen.Kernel.Skeleton
import proofs.«204056_g19739669692900_cont_8to1_1488_31_alg».proof.Proof.TileRepackB

noncomputable section

namespace Cert.Proof.BTile0

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v3_scv : Memref Cert.Kernel.sig Kind.scVector Space.hbm Cert.Kernel.S4096x50x64 EltTy.f32)
local notation "iW" => (Memref.whole Cert.Kernel.cc0_scratch0 : Memref Cert.Kernel.sig Kind.scVector Space.vmem Cert.Kernel.S128x50 EltTy.i32)
local notation "bW" => (Memref.whole Cert.Kernel.cc0_scratch1 : Memref Cert.Kernel.sig Kind.scVector Space.vmem Cert.Kernel.S8x56x128 EltTy.f32)
local notation "pW" => (Memref.whole Cert.Kernel.cc0_scratch2 : Memref Cert.Kernel.sig Kind.scVector Space.vmem Cert.Kernel.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid0.Coords)

/-- The task's 128 rows of the index array, as the program slices them. -/
abbrev catsRowsK : Memref sig .scVector .hbm S128x50 .i32 :=
  (cW).slice (Rect.unit (s := S16384x50) (k0_off1 L) S128x50.size (k0_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid0.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k0_t1_loop.trips) : Memref sig .scVector .hbm S50x64 .f32 :=
  ((oW).slice (Rect.unit (s := S4096x50x64) (k0_off11 L k 0#32) S1x50x64.size (k0_off11_inb L k 0)) (fun _ => rfl)).squeeze S50x64 squeezes_S1x50x64_S50x64
abbrev oRowE0 : Memref sig .scVector .hbm S50x64 .f32 :=
  ((oW).slice (Rect.unit (s := S4096x50x64) (k0_off77 L 120#32) S1x50x64.size (k0_off77_inb L 0)) (fun _ => rfl)).squeeze S50x64 squeezes_S1x50x64_S50x64
theorem off11_eq0 (k : Fin k0_t1_loop.trips) : k0_off11 L k 0#32 = ![128 * (widL L).val + (8 * k.val + 0), 0, 0] :=
  (k0_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k0_off77 L 120#32 = ![128 * (widL L).val + (120 + 0), 0, 0] :=
  (k0_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k0_t1_loop.trips) (h : 8 * k.val + 0 < 128) :
    Rect.unit (s := S4096x50x64) (k0_off11 L k 0#32) S1x50x64.size (k0_off11_inb L k 0) = rowRect (widL L) ⟨8 * k.val + 0, h⟩ :=
  rect_unit_congr (off11_eq0 L k)
theorem set_oRowK0 (k : Fin k0_t1_loop.trips) (h : 8 * k.val + 0 < 128) : (oRowK0 L k).view.set = rowSet (widL L) ⟨8 * k.val + 0, h⟩ := by
  show (((oW).view.slice (Rect.unit (s := S4096x50x64) (k0_off11 L k 0#32) S1x50x64.size (k0_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k0_off77 L 120#32) S1x50x64.size (k0_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k0_off77 L 120#32) S1x50x64.size (k0_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k0_t1_loop.trips) (h : 8 * k.val + 0 < 128) (f : Buf (Elt F) (out0Loc d)) :
    ((oRowK0 L k).view.loc (thr d L) ↦[(oRowK0 L k).view.set]{fullShare} f : sProp 𝕄) = out0Loc d ↦[rowSet (widL L) ⟨8 * k.val + 0, h⟩]{fullShare} f := by
  rw [set_oRowK0 L k h]
theorem pts_oRowE0 (h : 120 + 0 < 128) (f : Buf (Elt F) (out0Loc d)) :
    ((oRowE0 L).view.loc (thr d L) ↦[(oRowE0 L).view.set]{fullShare} f : sProp 𝕄) = out0Loc d ↦[rowSet (widL L) ⟨120 + 0, h⟩]{fullShare} f := by
  rw [set_oRowE0 L h]

/-- Row `8 k + 1` of the task's block, as trip `k` addresses it; row `121`, as the last group does. -/
abbrev oRowK1 (k : Fin k0_t1_loop.trips) : Memref sig .scVector .hbm S50x64 .f32 :=
  ((oW).slice (Rect.unit (s := S4096x50x64) (k0_off11 L k 1#32) S1x50x64.size (k0_off11_inb L k 1)) (fun _ => rfl)).squeeze S50x64 squeezes_S1x50x64_S50x64
abbrev oRowE1 : Memref sig .scVector .hbm S50x64 .f32 :=
  ((oW).slice (Rect.unit (s := S4096x50x64) (k0_off77 L 121#32) S1x50x64.size (k0_off77_inb L 1)) (fun _ => rfl)).squeeze S50x64 squeezes_S1x50x64_S50x64
theorem off11_eq1 (k : Fin k0_t1_loop.trips) : k0_off11 L k 1#32 = ![128 * (widL L).val + (8 * k.val + 1), 0, 0] :=
  (k0_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k0_off77 L 121#32 = ![128 * (widL L).val + (120 + 1), 0, 0] :=
  (k0_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k0_t1_loop.trips) (h : 8 * k.val + 1 < 128) :
    Rect.unit (s := S4096x50x64) (k0_off11 L k 1#32) S1x50x64.size (k0_off11_inb L k 1) = rowRect (widL L) ⟨8 * k.val + 1, h⟩ :=
  rect_unit_congr (off11_eq1 L k)
theorem set_oRowK1 (k : Fin k0_t1_loop.trips) (h : 8 * k.val + 1 < 128) : (oRowK1 L k).view.set = rowSet (widL L) ⟨8 * k.val + 1, h⟩ := by
  show (((oW).view.slice (Rect.unit (s := S4096x50x64) (k0_off11 L k 1#32) S1x50x64.size (k0_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k0_off77 L 121#32) S1x50x64.size (k0_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k0_off77 L 121#32) S1x50x64.size (k0_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k0_t1_loop.trips) (h : 8 * k.val + 1 < 128) (f : Buf (Elt F) (out0Loc d)) :
    ((oRowK1 L k).view.loc (thr d L) ↦[(oRowK1 L k).view.set]{fullShare} f : sProp 𝕄) = out0Loc d ↦[rowSet (widL L) ⟨8 * k.val + 1, h⟩]{fullShare} f := by
  rw [set_oRowK1 L k h]
theorem pts_oRowE1 (h : 120 + 1 < 128) (f : Buf (Elt F) (out0Loc d)) :
    ((oRowE1 L).view.loc (thr d L) ↦[(oRowE1 L).view.set]{fullShare} f : sProp 𝕄) = out0Loc d ↦[rowSet (widL L) ⟨120 + 1, h⟩]{fullShare} f := by
  rw [set_oRowE1 L h]

/-- Row `8 k + 2` of the task's block, as trip `k` addresses it; row `122`, as the last group does. -/
abbrev oRowK2 (k : Fin k0_t1_loop.trips) : Memref sig .scVector .hbm S50x64 .f32 :=
  ((oW).slice (Rect.unit (s := S4096x50x64) (k0_off11 L k 2#32) S1x50x64.size (k0_off11_inb L k 2)) (fun _ => rfl)).squeeze S50x64 squeezes_S1x50x64_S50x64
abbrev oRowE2 : Memref sig .scVector .hbm S50x64 .f32 :=
  ((oW).slice (Rect.unit (s := S4096x50x64) (k0_off77 L 122#32) S1x50x64.size (k0_off77_inb L 2)) (fun _ => rfl)).squeeze S50x64 squeezes_S1x50x64_S50x64
theorem off11_eq2 (k : Fin k0_t1_loop.trips) : k0_off11 L k 2#32 = ![128 * (widL L).val + (8 * k.val + 2), 0, 0] :=
  (k0_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k0_off77 L 122#32 = ![128 * (widL L).val + (120 + 2), 0, 0] :=
  (k0_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k0_t1_loop.trips) (h : 8 * k.val + 2 < 128) :
    Rect.unit (s := S4096x50x64) (k0_off11 L k 2#32) S1x50x64.size (k0_off11_inb L k 2) = rowRect (widL L) ⟨8 * k.val + 2, h⟩ :=
  rect_unit_congr (off11_eq2 L k)
theorem set_oRowK2 (k : Fin k0_t1_loop.trips) (h : 8 * k.val + 2 < 128) : (oRowK2 L k).view.set = rowSet (widL L) ⟨8 * k.val + 2, h⟩ := by
  show (((oW).view.slice (Rect.unit (s := S4096x50x64) (k0_off11 L k 2#32) S1x50x64.size (k0_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k0_off77 L 122#32) S1x50x64.size (k0_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k0_off77 L 122#32) S1x50x64.size (k0_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k0_t1_loop.trips) (h : 8 * k.val + 2 < 128) (f : Buf (Elt F) (out0Loc d)) :
    ((oRowK2 L k).view.loc (thr d L) ↦[(oRowK2 L k).view.set]{fullShare} f : sProp 𝕄) = out0Loc d ↦[rowSet (widL L) ⟨8 * k.val + 2, h⟩]{fullShare} f := by
  rw [set_oRowK2 L k h]
theorem pts_oRowE2 (h : 120 + 2 < 128) (f : Buf (Elt F) (out0Loc d)) :
    ((oRowE2 L).view.loc (thr d L) ↦[(oRowE2 L).view.set]{fullShare} f : sProp 𝕄) = out0Loc d ↦[rowSet (widL L) ⟨120 + 2, h⟩]{fullShare} f := by
  rw [set_oRowE2 L h]

/-- Row `8 k + 3` of the task's block, as trip `k` addresses it; row `123`, as the last group does. -/
abbrev oRowK3 (k : Fin k0_t1_loop.trips) : Memref sig .scVector .hbm S50x64 .f32 :=
  ((oW).slice (Rect.unit (s := S4096x50x64) (k0_off11 L k 3#32) S1x50x64.size (k0_off11_inb L k 3)) (fun _ => rfl)).squeeze S50x64 squeezes_S1x50x64_S50x64
abbrev oRowE3 : Memref sig .scVector .hbm S50x64 .f32 :=
  ((oW).slice (Rect.unit (s := S4096x50x64) (k0_off77 L 123#32) S1x50x64.size (k0_off77_inb L 3)) (fun _ => rfl)).squeeze S50x64 squeezes_S1x50x64_S50x64
theorem off11_eq3 (k : Fin k0_t1_loop.trips) : k0_off11 L k 3#32 = ![128 * (widL L).val + (8 * k.val + 3), 0, 0] :=
  (k0_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k0_off77 L 123#32 = ![128 * (widL L).val + (120 + 3), 0, 0] :=
  (k0_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k0_t1_loop.trips) (h : 8 * k.val + 3 < 128) :
    Rect.unit (s := S4096x50x64) (k0_off11 L k 3#32) S1x50x64.size (k0_off11_inb L k 3) = rowRect (widL L) ⟨8 * k.val + 3, h⟩ :=
  rect_unit_congr (off11_eq3 L k)
theorem set_oRowK3 (k : Fin k0_t1_loop.trips) (h : 8 * k.val + 3 < 128) : (oRowK3 L k).view.set = rowSet (widL L) ⟨8 * k.val + 3, h⟩ := by
  show (((oW).view.slice (Rect.unit (s := S4096x50x64) (k0_off11 L k 3#32) S1x50x64.size (k0_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k0_off77 L 123#32) S1x50x64.size (k0_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k0_off77 L 123#32) S1x50x64.size (k0_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k0_t1_loop.trips) (h : 8 * k.val + 3 < 128) (f : Buf (Elt F) (out0Loc d)) :
    ((oRowK3 L k).view.loc (thr d L) ↦[(oRowK3 L k).view.set]{fullShare} f : sProp 𝕄) = out0Loc d ↦[rowSet (widL L) ⟨8 * k.val + 3, h⟩]{fullShare} f := by
  rw [set_oRowK3 L k h]
theorem pts_oRowE3 (h : 120 + 3 < 128) (f : Buf (Elt F) (out0Loc d)) :
    ((oRowE3 L).view.loc (thr d L) ↦[(oRowE3 L).view.set]{fullShare} f : sProp 𝕄) = out0Loc d ↦[rowSet (widL L) ⟨120 + 3, h⟩]{fullShare} f := by
  rw [set_oRowE3 L h]

/-- Row `8 k + 4` of the task's block, as trip `k` addresses it; row `124`, as the last group does. -/
abbrev oRowK4 (k : Fin k0_t1_loop.trips) : Memref sig .scVector .hbm S50x64 .f32 :=
  ((oW).slice (Rect.unit (s := S4096x50x64) (k0_off11 L k 4#32) S1x50x64.size (k0_off11_inb L k 4)) (fun _ => rfl)).squeeze S50x64 squeezes_S1x50x64_S50x64
abbrev oRowE4 : Memref sig .scVector .hbm S50x64 .f32 :=
  ((oW).slice (Rect.unit (s := S4096x50x64) (k0_off77 L 124#32) S1x50x64.size (k0_off77_inb L 4)) (fun _ => rfl)).squeeze S50x64 squeezes_S1x50x64_S50x64
theorem off11_eq4 (k : Fin k0_t1_loop.trips) : k0_off11 L k 4#32 = ![128 * (widL L).val + (8 * k.val + 4), 0, 0] :=
  (k0_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k0_off77 L 124#32 = ![128 * (widL L).val + (120 + 4), 0, 0] :=
  (k0_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k0_t1_loop.trips) (h : 8 * k.val + 4 < 128) :
    Rect.unit (s := S4096x50x64) (k0_off11 L k 4#32) S1x50x64.size (k0_off11_inb L k 4) = rowRect (widL L) ⟨8 * k.val + 4, h⟩ :=
  rect_unit_congr (off11_eq4 L k)
theorem set_oRowK4 (k : Fin k0_t1_loop.trips) (h : 8 * k.val + 4 < 128) : (oRowK4 L k).view.set = rowSet (widL L) ⟨8 * k.val + 4, h⟩ := by
  show (((oW).view.slice (Rect.unit (s := S4096x50x64) (k0_off11 L k 4#32) S1x50x64.size (k0_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k0_off77 L 124#32) S1x50x64.size (k0_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k0_off77 L 124#32) S1x50x64.size (k0_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k0_t1_loop.trips) (h : 8 * k.val + 4 < 128) (f : Buf (Elt F) (out0Loc d)) :
    ((oRowK4 L k).view.loc (thr d L) ↦[(oRowK4 L k).view.set]{fullShare} f : sProp 𝕄) = out0Loc d ↦[rowSet (widL L) ⟨8 * k.val + 4, h⟩]{fullShare} f := by
  rw [set_oRowK4 L k h]
theorem pts_oRowE4 (h : 120 + 4 < 128) (f : Buf (Elt F) (out0Loc d)) :
    ((oRowE4 L).view.loc (thr d L) ↦[(oRowE4 L).view.set]{fullShare} f : sProp 𝕄) = out0Loc d ↦[rowSet (widL L) ⟨120 + 4, h⟩]{fullShare} f := by
  rw [set_oRowE4 L h]

/-- Row `8 k + 5` of the task's block, as trip `k` addresses it; row `125`, as the last group does. -/
abbrev oRowK5 (k : Fin k0_t1_loop.trips) : Memref sig .scVector .hbm S50x64 .f32 :=
  ((oW).slice (Rect.unit (s := S4096x50x64) (k0_off11 L k 5#32) S1x50x64.size (k0_off11_inb L k 5)) (fun _ => rfl)).squeeze S50x64 squeezes_S1x50x64_S50x64
abbrev oRowE5 : Memref sig .scVector .hbm S50x64 .f32 :=
  ((oW).slice (Rect.unit (s := S4096x50x64) (k0_off77 L 125#32) S1x50x64.size (k0_off77_inb L 5)) (fun _ => rfl)).squeeze S50x64 squeezes_S1x50x64_S50x64
theorem off11_eq5 (k : Fin k0_t1_loop.trips) : k0_off11 L k 5#32 = ![128 * (widL L).val + (8 * k.val + 5), 0, 0] :=
  (k0_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k0_off77 L 125#32 = ![128 * (widL L).val + (120 + 5), 0, 0] :=
  (k0_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k0_t1_loop.trips) (h : 8 * k.val + 5 < 128) :
    Rect.unit (s := S4096x50x64) (k0_off11 L k 5#32) S1x50x64.size (k0_off11_inb L k 5) = rowRect (widL L) ⟨8 * k.val + 5, h⟩ :=
  rect_unit_congr (off11_eq5 L k)
theorem set_oRowK5 (k : Fin k0_t1_loop.trips) (h : 8 * k.val + 5 < 128) : (oRowK5 L k).view.set = rowSet (widL L) ⟨8 * k.val + 5, h⟩ := by
  show (((oW).view.slice (Rect.unit (s := S4096x50x64) (k0_off11 L k 5#32) S1x50x64.size (k0_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k0_off77 L 125#32) S1x50x64.size (k0_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k0_off77 L 125#32) S1x50x64.size (k0_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k0_t1_loop.trips) (h : 8 * k.val + 5 < 128) (f : Buf (Elt F) (out0Loc d)) :
    ((oRowK5 L k).view.loc (thr d L) ↦[(oRowK5 L k).view.set]{fullShare} f : sProp 𝕄) = out0Loc d ↦[rowSet (widL L) ⟨8 * k.val + 5, h⟩]{fullShare} f := by
  rw [set_oRowK5 L k h]
theorem pts_oRowE5 (h : 120 + 5 < 128) (f : Buf (Elt F) (out0Loc d)) :
    ((oRowE5 L).view.loc (thr d L) ↦[(oRowE5 L).view.set]{fullShare} f : sProp 𝕄) = out0Loc d ↦[rowSet (widL L) ⟨120 + 5, h⟩]{fullShare} f := by
  rw [set_oRowE5 L h]

/-- Row `8 k + 6` of the task's block, as trip `k` addresses it; row `126`, as the last group does. -/
abbrev oRowK6 (k : Fin k0_t1_loop.trips) : Memref sig .scVector .hbm S50x64 .f32 :=
  ((oW).slice (Rect.unit (s := S4096x50x64) (k0_off11 L k 6#32) S1x50x64.size (k0_off11_inb L k 6)) (fun _ => rfl)).squeeze S50x64 squeezes_S1x50x64_S50x64
abbrev oRowE6 : Memref sig .scVector .hbm S50x64 .f32 :=
  ((oW).slice (Rect.unit (s := S4096x50x64) (k0_off77 L 126#32) S1x50x64.size (k0_off77_inb L 6)) (fun _ => rfl)).squeeze S50x64 squeezes_S1x50x64_S50x64
theorem off11_eq6 (k : Fin k0_t1_loop.trips) : k0_off11 L k 6#32 = ![128 * (widL L).val + (8 * k.val + 6), 0, 0] :=
  (k0_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k0_off77 L 126#32 = ![128 * (widL L).val + (120 + 6), 0, 0] :=
  (k0_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k0_t1_loop.trips) (h : 8 * k.val + 6 < 128) :
    Rect.unit (s := S4096x50x64) (k0_off11 L k 6#32) S1x50x64.size (k0_off11_inb L k 6) = rowRect (widL L) ⟨8 * k.val + 6, h⟩ :=
  rect_unit_congr (off11_eq6 L k)
theorem set_oRowK6 (k : Fin k0_t1_loop.trips) (h : 8 * k.val + 6 < 128) : (oRowK6 L k).view.set = rowSet (widL L) ⟨8 * k.val + 6, h⟩ := by
  show (((oW).view.slice (Rect.unit (s := S4096x50x64) (k0_off11 L k 6#32) S1x50x64.size (k0_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k0_off77 L 126#32) S1x50x64.size (k0_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k0_off77 L 126#32) S1x50x64.size (k0_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k0_t1_loop.trips) (h : 8 * k.val + 6 < 128) (f : Buf (Elt F) (out0Loc d)) :
    ((oRowK6 L k).view.loc (thr d L) ↦[(oRowK6 L k).view.set]{fullShare} f : sProp 𝕄) = out0Loc d ↦[rowSet (widL L) ⟨8 * k.val + 6, h⟩]{fullShare} f := by
  rw [set_oRowK6 L k h]
theorem pts_oRowE6 (h : 120 + 6 < 128) (f : Buf (Elt F) (out0Loc d)) :
    ((oRowE6 L).view.loc (thr d L) ↦[(oRowE6 L).view.set]{fullShare} f : sProp 𝕄) = out0Loc d ↦[rowSet (widL L) ⟨120 + 6, h⟩]{fullShare} f := by
  rw [set_oRowE6 L h]

/-- Row `8 k + 7` of the task's block, as trip `k` addresses it; row `127`, as the last group does. -/
abbrev oRowK7 (k : Fin k0_t1_loop.trips) : Memref sig .scVector .hbm S50x64 .f32 :=
  ((oW).slice (Rect.unit (s := S4096x50x64) (k0_off11 L k 7#32) S1x50x64.size (k0_off11_inb L k 7)) (fun _ => rfl)).squeeze S50x64 squeezes_S1x50x64_S50x64
abbrev oRowE7 : Memref sig .scVector .hbm S50x64 .f32 :=
  ((oW).slice (Rect.unit (s := S4096x50x64) (k0_off77 L 127#32) S1x50x64.size (k0_off77_inb L 7)) (fun _ => rfl)).squeeze S50x64 squeezes_S1x50x64_S50x64
theorem off11_eq7 (k : Fin k0_t1_loop.trips) : k0_off11 L k 7#32 = ![128 * (widL L).val + (8 * k.val + 7), 0, 0] :=
  (k0_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k0_off77 L 127#32 = ![128 * (widL L).val + (120 + 7), 0, 0] :=
  (k0_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k0_t1_loop.trips) (h : 8 * k.val + 7 < 128) :
    Rect.unit (s := S4096x50x64) (k0_off11 L k 7#32) S1x50x64.size (k0_off11_inb L k 7) = rowRect (widL L) ⟨8 * k.val + 7, h⟩ :=
  rect_unit_congr (off11_eq7 L k)
theorem set_oRowK7 (k : Fin k0_t1_loop.trips) (h : 8 * k.val + 7 < 128) : (oRowK7 L k).view.set = rowSet (widL L) ⟨8 * k.val + 7, h⟩ := by
  show (((oW).view.slice (Rect.unit (s := S4096x50x64) (k0_off11 L k 7#32) S1x50x64.size (k0_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k0_off77 L 127#32) S1x50x64.size (k0_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k0_off77 L 127#32) S1x50x64.size (k0_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k0_t1_loop.trips) (h : 8 * k.val + 7 < 128) (f : Buf (Elt F) (out0Loc d)) :
    ((oRowK7 L k).view.loc (thr d L) ↦[(oRowK7 L k).view.set]{fullShare} f : sProp 𝕄) = out0Loc d ↦[rowSet (widL L) ⟨8 * k.val + 7, h⟩]{fullShare} f := by
  rw [set_oRowK7 L k h]
theorem pts_oRowE7 (h : 120 + 7 < 128) (f : Buf (Elt F) (out0Loc d)) :
    ((oRowE7 L).view.loc (thr d L) ↦[(oRowE7 L).view.set]{fullShare} f : sProp 𝕄) = out0Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc0_scratch3.sem (sh32 (widL L)).left.left.left fullShare.left.left.left ft fi
      ∗ GFl d L ![1, 0, 0] inb_S8x56x128_S1x50x128_1_0_0 cc0_scratch4.sem (sh32 (widL L)).left.left.right fullShare.left.left.right ft fi
      ∗ GFl d L ![2, 0, 0] inb_S8x56x128_S1x50x128_2_0_0 cc0_scratch5.sem (sh32 (widL L)).left.right.left fullShare.left.right.left ft fi
      ∗ GFl d L ![3, 0, 0] inb_S8x56x128_S1x50x128_3_0_0 cc0_scratch6.sem (sh32 (widL L)).left.right.right fullShare.left.right.right ft fi
      ∗ GFl d L ![4, 0, 0] inb_S8x56x128_S1x50x128_4_0_0 cc0_scratch7.sem (sh32 (widL L)).right.left.left fullShare.right.left.left ft fi
      ∗ GFl d L ![5, 0, 0] inb_S8x56x128_S1x50x128_5_0_0 cc0_scratch8.sem (sh32 (widL L)).right.left.right fullShare.right.left.right ft fi
      ∗ GFl d L ![6, 0, 0] inb_S8x56x128_S1x50x128_6_0_0 cc0_scratch9.sem (sh32 (widL L)).right.right.left fullShare.right.right.left ft fi
      ∗ GFl d L ![7, 0, 0] inb_S8x56x128_S1x50x128_7_0_0 cc0_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scratch17.sem) 0 ∗ semVal (thr d L, SemLoc.dma cc0_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k0_t1_loop.trips) (u : Unit) :
    (INV d L ft fi O W kt.val u : sProp 𝕄) ⊢ wp frame (wpE (defs₀ (F := F)) 𝒱₀ (thr d L) none) Set.univ
        (k0_t1_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 kt u) (INV d L ft fi O W (kt.val + 1)) := by
  unfold INV k0_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc0_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc0_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc0_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc0_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc0_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc0_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc0_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc0_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k0_off68 kt 0#32) (inb := k0_off68_inb kt 0) (sem := cc0_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k0_off68 kt 1#32) (inb := k0_off68_inb kt 1) (sem := cc0_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k0_off68 kt 2#32) (inb := k0_off68_inb kt 2) (sem := cc0_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k0_off68 kt 3#32) (inb := k0_off68_inb kt 3) (sem := cc0_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k0_off68 kt 4#32) (inb := k0_off68_inb kt 4) (sem := cc0_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k0_off68 kt 5#32) (inb := k0_off68_inb kt 5) (sem := cc0_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k0_off68 kt 6#32) (inb := k0_off68_inb kt 6) (sem := cc0_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k0_off68 kt 7#32) (inb := k0_off68_inb kt 7) (sem := cc0_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the first gather call: it ends, faults nowhere, leaves every one of its semaphores at zero
    and hands back the two read shares unchanged and its 128 result rows at some contents. -/
theorem tile_body0 (hF : (K (F := F)).Facts) (hcats : ∀ j, (m (catsLoc d) j).toNat < 100000)
    (ft : Buf (Elt F) (tpadLoc d)) (f0 : Buf (Elt F) (out0Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk0 d (widL L) f0)
        ∗ scopedBufs (thr d L) ∗ scopedSems0 (thr d L) ∗ owes (thr d L) O W)
      ⊢ (wp frame (wpE (defs₀ (F := F)) 𝒱₀ (thr d L) none) Set.univ
          (cc0_gk L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop((catsSh m d (widL L) ∗ tpadSh d (widL L) ft ∗ ∃ f, outBlk0 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc0_gk_eq_skeleton]; unfold cc0_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body0.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body0.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc0_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc0_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc0_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc0_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc0_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc0_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc0_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc0_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body0.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc0_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc0_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc0_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc0_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc0_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc0_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc0_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc0_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body0.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.BTile0

end
-- ==== Proof.TileCommon1B.lean ====
/-
  One vector subcore's task of the second gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefsB

noncomputable section

namespace Cert.Proof.BTile1

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v4_scv : Memref Cert.Kernel.sig Kind.scVector Space.hbm Cert.Kernel.S4096x50x64 EltTy.f32)
local notation "iW" => (Memref.whole Cert.Kernel.cc1_scratch0 : Memref Cert.Kernel.sig Kind.scVector Space.vmem Cert.Kernel.S128x50 EltTy.i32)
local notation "bW" => (Memref.whole Cert.Kernel.cc1_scratch1 : Memref Cert.Kernel.sig Kind.scVector Space.vmem Cert.Kernel.S8x56x128 EltTy.f32)
local notation "pW" => (Memref.whole Cert.Kernel.cc1_scratch2 : Memref Cert.Kernel.sig Kind.scVector Space.vmem Cert.Kernel.S8x50x64 EltTy.f32)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-! ## The task's thread, its scratch buffers and its semaphores -/

section Common

variable (d : Dev nD) (L : grid1.Coords)

omit [URA UU] [CountersIn UU] in
theorem bound_zero : grid1.bound 0 = 2 := rfl
omit [URA UU] [CountersIn UU] in
theorem bound_one : grid1.bound 1 = 16 := rfl

/-- The worker number of the subcore at grid coordinates `L`: `2 s + c`. -/
abbrev widL (L : grid1.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc1_scoped0.sem, SemLoc.dma cc1_scratch3.sem, SemLoc.dma cc1_scratch4.sem, SemLoc.dma cc1_scratch5.sem, SemLoc.dma cc1_scratch6.sem, SemLoc.dma cc1_scratch7.sem, SemLoc.dma cc1_scratch8.sem, SemLoc.dma cc1_scratch9.sem, SemLoc.dma cc1_scratch10.sem, SemLoc.dma cc1_scratch11.sem, SemLoc.dma cc1_scratch12.sem, SemLoc.dma cc1_scratch13.sem, SemLoc.dma cc1_scratch14.sem, SemLoc.dma cc1_scratch15.sem, SemLoc.dma cc1_scratch16.sem, SemLoc.dma cc1_scratch17.sem, SemLoc.dma cc1_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc1_scoped0.sem) 0 ∗ semVal (thr d L, SemLoc.dma cc1_scratch3.sem) 0 ∗ semVal (thr d L, SemLoc.dma cc1_scratch4.sem) 0 ∗ semVal (thr d L, SemLoc.dma cc1_scratch5.sem) 0 ∗ semVal (thr d L, SemLoc.dma cc1_scratch6.sem) 0 ∗ semVal (thr d L, SemLoc.dma cc1_scratch7.sem) 0 ∗ semVal (thr d L, SemLoc.dma cc1_scratch8.sem) 0 ∗ semVal (thr d L, SemLoc.dma cc1_scratch9.sem) 0 ∗ semVal (thr d L, SemLoc.dma cc1_scratch10.sem) 0 ∗ semVal (thr d L, SemLoc.dma cc1_scratch11.sem) 0 ∗ semVal (thr d L, SemLoc.dma cc1_scratch12.sem) 0 ∗ semVal (thr d L, SemLoc.dma cc1_scratch13.sem) 0 ∗ semVal (thr d L, SemLoc.dma cc1_scratch14.sem) 0 ∗ semVal (thr d L, SemLoc.dma cc1_scratch15.sem) 0 ∗ semVal (thr d L, SemLoc.dma cc1_scratch16.sem) 0 ∗ semVal (thr d L, SemLoc.dma cc1_scratch17.sem) 0 ∗ semVal (thr d L, SemLoc.dma cc1_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector (cV L) (jV L)) (b := (Proc.scVector (cV L) (jV L)).devRef cc1_scratch2) rfl⟩⟩)]

end Common

section Pts

variable (m : (ℓ : Loc nD τ sig) → Buf (Elt F) ℓ) (d : Dev nD) (L : grid1.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out1Loc d)) :
    ((oW).view.loc (thr d L) ↦[I]{fullShare} f : sProp 𝕄) = out1Loc d ↦[I]{fullShare} f := rfl
theorem pts_iW (f : Buf (Elt F) ((thr d L).loc cc1_scratch0)) :
    ((iW).view.loc (thr d L) ↦{fullShare} f : sProp 𝕄) = (thr d L).loc cc1_scratch0 ↦{fullShare} f := rfl
theorem pts_bW (f : Buf (Elt F) ((thr d L).loc cc1_scratch1)) :
    ((bW).view.loc (thr d L) ↦{fullShare} f : sProp 𝕄) = (thr d L).loc cc1_scratch1 ↦{fullShare} f := rfl
theorem pts_pW (f : Buf (Elt F) ((thr d L).loc cc1_scratch2)) :
    ((pW).view.loc (thr d L) ↦{fullShare} f : sProp 𝕄) = (thr d L).loc cc1_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v4_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet1 w := by
  rw [blkSet1_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out1Loc d)) :
    (out1Loc d ↦[blkSet1 w]{fullShare} f : sProp 𝕄) = bigSep Finset.univ fun j : Fin 128 => out1Loc d ↦[rowSet w j]{fullShare} f := by
  rw [← pointsTo_biUnion Finset.univ (ℓ := out1Loc d) (rowSet w) (rows_disjoint w), rows_cover]

/-- The rows, each at some contents. -/
abbrev outRows (w : Fin 32) : sProp 𝕄 := bigSep Finset.univ fun j : Fin 128 => iprop(∃ f, out1Loc d ↦[rowSet w j]{fullShare} f)

theorem outRows_intro (w : Fin 32) (f : Buf (Elt F) (out1Loc d)) : (out1Loc d ↦[blkSet1 w]{fullShare} f : sProp 𝕄) ⊢ outRows d w := by
  rw [outBlk_rows]
  refine bigSep_mono fun j _ => (show (out1Loc d ↦[rowSet w j]{fullShare} f : sProp 𝕄) ⊢ iprop(∃ f, out1Loc d ↦[rowSet w j]{fullShare} f) from ?_)
  iintro H; iexists f; iexact H

set_option maxRecDepth 4096 in
theorem outRows_join (w : Fin 32) (f0 : Buf (Elt F) (out1Loc d)) : (outRows d w : sProp 𝕄) ⊢ iprop(∃ f, out1Loc d ↦[blkSet1 w]{fullShare} f) := by
  haveI : Nonempty (Buf (Elt F) (out1Loc d)) := ⟨f0⟩
  refine (bigSep_exists_pi Finset.univ (fun j (f : Buf (Elt F) (out1Loc d)) => (out1Loc d ↦[rowSet w j]{fullShare} f : sProp 𝕄))).trans ?_
  iintro ⟨%fs, H⟩
  ihave H' := (pointsTo_biUnion_join (ℓ := out1Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out1Loc d ↦[rowSet w ⟨b + 0, by omega⟩]{fullShare} f) ∗ (∃ f, out1Loc d ↦[rowSet w ⟨b + 1, by omega⟩]{fullShare} f) ∗ (∃ f, out1Loc d ↦[rowSet w ⟨b + 2, by omega⟩]{fullShare} f) ∗ (∃ f, out1Loc d ↦[rowSet w ⟨b + 3, by omega⟩]{fullShare} f) ∗ (∃ f, out1Loc d ↦[rowSet w ⟨b + 4, by omega⟩]{fullShare} f) ∗ (∃ f, out1Loc d ↦[rowSet w ⟨b + 5, by omega⟩]{fullShare} f) ∗ (∃ f, out1Loc d ↦[rowSet w ⟨b + 6, by omega⟩]{fullShare} f) ∗ (∃ f, out1Loc d ↦[rowSet w ⟨b + 7, by omega⟩]{fullShare} f))
          ∗ bigSep (Finset.univ \ Finset.univ.map (grpEmb b hb)) fun j : Fin 128 => iprop(∃ f, out1Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid1.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc1_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc1_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.BTile1

end
-- ==== Proof.TileRepack1B.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon1B
import proofs.«204056_g19739669692900_cont_8to1_1488_31_alg».proof.Proof.Gen.Kernel.Skeleton

noncomputable section

namespace Cert.Proof.BTile1

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v4_scv : Memref Cert.Kernel.sig Kind.scVector Space.hbm Cert.Kernel.S4096x50x64 EltTy.f32)
local notation "iW" => (Memref.whole Cert.Kernel.cc1_scratch0 : Memref Cert.Kernel.sig Kind.scVector Space.vmem Cert.Kernel.S128x50 EltTy.i32)
local notation "bW" => (Memref.whole Cert.Kernel.cc1_scratch1 : Memref Cert.Kernel.sig Kind.scVector Space.vmem Cert.Kernel.S8x56x128 EltTy.f32)
local notation "pW" => (Memref.whole Cert.Kernel.cc1_scratch2 : Memref Cert.Kernel.sig Kind.scVector Space.vmem Cert.Kernel.S8x50x64 EltTy.f32)

section Repack

variable (d : Dev nD) (L : grid1.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k1_t1 : Fin k1_t1_loop.trips) (k : Fin k1_t2_loop.trips) (u : Unit) :
    (RInv0 d L : sProp 𝕄) ⊢ wp frame (wpE (defs₀ (F := F)) 𝒱₀ (thr d L) none) Set.univ
        (k1_t2_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 c0_i32_51 c1_i32_52 k1_t1 k u) (fun _ => RInv0 d L) := by
  unfold k1_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k1_t1 : Fin k1_t1_loop.trips) (arg24 : BitVec 32) (v255 : BitVec 32) (k : Fin k1_t3_loop.trips) (u : Unit) :
    (RInv1 d L : sProp 𝕄) ⊢ wp frame (wpE (defs₀ (F := F)) 𝒱₀ (thr d L) none) Set.univ
        (k1_t3_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v255 k u) (fun _ => RInv1 d L) := by
  unfold k1_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k1_t1 : Fin k1_t1_loop.trips) (arg24 : BitVec 32) (v255 : BitVec 32) (k : Fin k1_t4_loop.trips) (u : Unit) :
    (RInv2 d L : sProp 𝕄) ⊢ wp frame (wpE (defs₀ (F := F)) 𝒱₀ (thr d L) none) Set.univ
        (k1_t4_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v255 k u) (fun _ => RInv2 d L) := by
  unfold k1_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k1_t1 : Fin k1_t1_loop.trips) (arg24 : BitVec 32) (k : Fin k1_t5_loop.trips) (u : Unit) :
    (RInv3 d L : sProp 𝕄) ⊢ wp frame (wpE (defs₀ (F := F)) 𝒱₀ (thr d L) none) Set.univ
        (k1_t5_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 k u) (fun _ => RInv3 d L) := by
  unfold k1_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k1_t1 : Fin k1_t1_loop.trips) (arg24 : BitVec 32) (v306 : BitVec 32) (k : Fin k1_t6_loop.trips) (u : Unit) :
    (RInv4 d L : sProp 𝕄) ⊢ wp frame (wpE (defs₀ (F := F)) 𝒱₀ (thr d L) none) Set.univ
        (k1_t6_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v306 k u) (fun _ => RInv4 d L) := by
  unfold k1_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k1_t1 : Fin k1_t1_loop.trips) (arg24 : BitVec 32) (v306 : BitVec 32) (k : Fin k1_t7_loop.trips) (u : Unit) :
    (RInv5 d L : sProp 𝕄) ⊢ wp frame (wpE (defs₀ (F := F)) 𝒱₀ (thr d L) none) Set.univ
        (k1_t7_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v306 k u) (fun _ => RInv5 d L) := by
  unfold k1_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k1_t1 : Fin k1_t1_loop.trips) (arg24 : BitVec 32) (k : Fin k1_t8_loop.trips) (u : Unit) :
    (RInv6 d L : sProp 𝕄) ⊢ wp frame (wpE (defs₀ (F := F)) 𝒱₀ (thr d L) none) Set.univ
        (k1_t8_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 k u) (fun _ => RInv6 d L) := by
  unfold k1_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k1_t1 : Fin k1_t1_loop.trips) (arg24 : BitVec 32) (v357 : BitVec 32) (k : Fin k1_t9_loop.trips) (u : Unit) :
    (RInv7 d L : sProp 𝕄) ⊢ wp frame (wpE (defs₀ (F := F)) 𝒱₀ (thr d L) none) Set.univ
        (k1_t9_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v357 k u) (fun _ => RInv7 d L) := by
  unfold k1_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k1_t10_loop.trips) (u : Unit) :
    (RInv0 d L : sProp 𝕄) ⊢ wp frame (wpE (defs₀ (F := F)) 𝒱₀ (thr d L) none) Set.univ
        (k1_t10_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv0 d L) := by
  unfold k1_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k1_t11_loop.trips) (u : Unit) :
    (RInv1 d L : sProp 𝕄) ⊢ wp frame (wpE (defs₀ (F := F)) 𝒱₀ (thr d L) none) Set.univ
        (k1_t11_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv1 d L) := by
  unfold k1_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k1_t12_loop.trips) (u : Unit) :
    (RInv2 d L : sProp 𝕄) ⊢ wp frame (wpE (defs₀ (F := F)) 𝒱₀ (thr d L) none) Set.univ
        (k1_t12_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv2 d L) := by
  unfold k1_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k1_t13_loop.trips) (u : Unit) :
    (RInv3 d L : sProp 𝕄) ⊢ wp frame (wpE (defs₀ (F := F)) 𝒱₀ (thr d L) none) Set.univ
        (k1_t13_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv3 d L) := by
  unfold k1_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k1_t14_loop.trips) (u : Unit) :
    (RInv4 d L : sProp 𝕄) ⊢ wp frame (wpE (defs₀ (F := F)) 𝒱₀ (thr d L) none) Set.univ
        (k1_t14_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv4 d L) := by
  unfold k1_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k1_t15_loop.trips) (u : Unit) :
    (RInv5 d L : sProp 𝕄) ⊢ wp frame (wpE (defs₀ (F := F)) 𝒱₀ (thr d L) none) Set.univ
        (k1_t15_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv5 d L) := by
  unfold k1_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k1_t16_loop.trips) (u : Unit) :
    (RInv6 d L : sProp 𝕄) ⊢ wp frame (wpE (defs₀ (F := F)) 𝒱₀ (thr d L) none) Set.univ
        (k1_t16_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv6 d L) := by
  unfold k1_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k1_t17_loop.trips) (u : Unit) :
    (RInv7 d L : sProp 𝕄) ⊢ wp frame (wpE (defs₀ (F := F)) 𝒱₀ (thr d L) none) Set.univ
        (k1_t17_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv7 d L) := by
  unfold k1_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.BTile1

end
-- ==== Proof.TileBody1B.lean ====
/-
  One vector subcore's task of the second gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon1B
import proofs.«204056_g19739669692900_cont_8to1_1488_31_alg».proof.Proof.Gen.Kernel.Skeleton
import proofs.«204056_g19739669692900_cont_8to1_1488_31_alg».proof.Proof.TileRepack1B

noncomputable section

namespace Cert.Proof.BTile1

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v4_scv : Memref Cert.Kernel.sig Kind.scVector Space.hbm Cert.Kernel.S4096x50x64 EltTy.f32)
local notation "iW" => (Memref.whole Cert.Kernel.cc1_scratch0 : Memref Cert.Kernel.sig Kind.scVector Space.vmem Cert.Kernel.S128x50 EltTy.i32)
local notation "bW" => (Memref.whole Cert.Kernel.cc1_scratch1 : Memref Cert.Kernel.sig Kind.scVector Space.vmem Cert.Kernel.S8x56x128 EltTy.f32)
local notation "pW" => (Memref.whole Cert.Kernel.cc1_scratch2 : Memref Cert.Kernel.sig Kind.scVector Space.vmem Cert.Kernel.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid1.Coords)

/-- The task's 128 rows of the index array, as the program slices them. -/
abbrev catsRowsK : Memref sig .scVector .hbm S128x50 .i32 :=
  (cW).slice (Rect.unit (s := S16384x50) (k1_off1 L) S128x50.size (k1_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid1.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k1_t1_loop.trips) : Memref sig .scVector .hbm S50x64 .f32 :=
  ((oW).slice (Rect.unit (s := S4096x50x64) (k1_off11 L k 0#32) S1x50x64.size (k1_off11_inb L k 0)) (fun _ => rfl)).squeeze S50x64 squeezes_S1x50x64_S50x64
abbrev oRowE0 : Memref sig .scVector .hbm S50x64 .f32 :=
  ((oW).slice (Rect.unit (s := S4096x50x64) (k1_off77 L 120#32) S1x50x64.size (k1_off77_inb L 0)) (fun _ => rfl)).squeeze S50x64 squeezes_S1x50x64_S50x64
theorem off11_eq0 (k : Fin k1_t1_loop.trips) : k1_off11 L k 0#32 = ![128 * (widL L).val + (8 * k.val + 0), 0, 0] :=
  (k1_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k1_off77 L 120#32 = ![128 * (widL L).val + (120 + 0), 0, 0] :=
  (k1_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k1_t1_loop.trips) (h : 8 * k.val + 0 < 128) :
    Rect.unit (s := S4096x50x64) (k1_off11 L k 0#32) S1x50x64.size (k1_off11_inb L k 0) = rowRect (widL L) ⟨8 * k.val + 0, h⟩ :=
  rect_unit_congr (off11_eq0 L k)
theorem set_oRowK0 (k : Fin k1_t1_loop.trips) (h : 8 * k.val + 0 < 128) : (oRowK0 L k).view.set = rowSet (widL L) ⟨8 * k.val + 0, h⟩ := by
  show (((oW).view.slice (Rect.unit (s := S4096x50x64) (k1_off11 L k 0#32) S1x50x64.size (k1_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k1_off77 L 120#32) S1x50x64.size (k1_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k1_off77 L 120#32) S1x50x64.size (k1_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k1_t1_loop.trips) (h : 8 * k.val + 0 < 128) (f : Buf (Elt F) (out1Loc d)) :
    ((oRowK0 L k).view.loc (thr d L) ↦[(oRowK0 L k).view.set]{fullShare} f : sProp 𝕄) = out1Loc d ↦[rowSet (widL L) ⟨8 * k.val + 0, h⟩]{fullShare} f := by
  rw [set_oRowK0 L k h]
theorem pts_oRowE0 (h : 120 + 0 < 128) (f : Buf (Elt F) (out1Loc d)) :
    ((oRowE0 L).view.loc (thr d L) ↦[(oRowE0 L).view.set]{fullShare} f : sProp 𝕄) = out1Loc d ↦[rowSet (widL L) ⟨120 + 0, h⟩]{fullShare} f := by
  rw [set_oRowE0 L h]

/-- Row `8 k + 1` of the task's block, as trip `k` addresses it; row `121`, as the last group does. -/
abbrev oRowK1 (k : Fin k1_t1_loop.trips) : Memref sig .scVector .hbm S50x64 .f32 :=
  ((oW).slice (Rect.unit (s := S4096x50x64) (k1_off11 L k 1#32) S1x50x64.size (k1_off11_inb L k 1)) (fun _ => rfl)).squeeze S50x64 squeezes_S1x50x64_S50x64
abbrev oRowE1 : Memref sig .scVector .hbm S50x64 .f32 :=
  ((oW).slice (Rect.unit (s := S4096x50x64) (k1_off77 L 121#32) S1x50x64.size (k1_off77_inb L 1)) (fun _ => rfl)).squeeze S50x64 squeezes_S1x50x64_S50x64
theorem off11_eq1 (k : Fin k1_t1_loop.trips) : k1_off11 L k 1#32 = ![128 * (widL L).val + (8 * k.val + 1), 0, 0] :=
  (k1_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k1_off77 L 121#32 = ![128 * (widL L).val + (120 + 1), 0, 0] :=
  (k1_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k1_t1_loop.trips) (h : 8 * k.val + 1 < 128) :
    Rect.unit (s := S4096x50x64) (k1_off11 L k 1#32) S1x50x64.size (k1_off11_inb L k 1) = rowRect (widL L) ⟨8 * k.val + 1, h⟩ :=
  rect_unit_congr (off11_eq1 L k)
theorem set_oRowK1 (k : Fin k1_t1_loop.trips) (h : 8 * k.val + 1 < 128) : (oRowK1 L k).view.set = rowSet (widL L) ⟨8 * k.val + 1, h⟩ := by
  show (((oW).view.slice (Rect.unit (s := S4096x50x64) (k1_off11 L k 1#32) S1x50x64.size (k1_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k1_off77 L 121#32) S1x50x64.size (k1_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k1_off77 L 121#32) S1x50x64.size (k1_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k1_t1_loop.trips) (h : 8 * k.val + 1 < 128) (f : Buf (Elt F) (out1Loc d)) :
    ((oRowK1 L k).view.loc (thr d L) ↦[(oRowK1 L k).view.set]{fullShare} f : sProp 𝕄) = out1Loc d ↦[rowSet (widL L) ⟨8 * k.val + 1, h⟩]{fullShare} f := by
  rw [set_oRowK1 L k h]
theorem pts_oRowE1 (h : 120 + 1 < 128) (f : Buf (Elt F) (out1Loc d)) :
    ((oRowE1 L).view.loc (thr d L) ↦[(oRowE1 L).view.set]{fullShare} f : sProp 𝕄) = out1Loc d ↦[rowSet (widL L) ⟨120 + 1, h⟩]{fullShare} f := by
  rw [set_oRowE1 L h]

/-- Row `8 k + 2` of the task's block, as trip `k` addresses it; row `122`, as the last group does. -/
abbrev oRowK2 (k : Fin k1_t1_loop.trips) : Memref sig .scVector .hbm S50x64 .f32 :=
  ((oW).slice (Rect.unit (s := S4096x50x64) (k1_off11 L k 2#32) S1x50x64.size (k1_off11_inb L k 2)) (fun _ => rfl)).squeeze S50x64 squeezes_S1x50x64_S50x64
abbrev oRowE2 : Memref sig .scVector .hbm S50x64 .f32 :=
  ((oW).slice (Rect.unit (s := S4096x50x64) (k1_off77 L 122#32) S1x50x64.size (k1_off77_inb L 2)) (fun _ => rfl)).squeeze S50x64 squeezes_S1x50x64_S50x64
theorem off11_eq2 (k : Fin k1_t1_loop.trips) : k1_off11 L k 2#32 = ![128 * (widL L).val + (8 * k.val + 2), 0, 0] :=
  (k1_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k1_off77 L 122#32 = ![128 * (widL L).val + (120 + 2), 0, 0] :=
  (k1_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k1_t1_loop.trips) (h : 8 * k.val + 2 < 128) :
    Rect.unit (s := S4096x50x64) (k1_off11 L k 2#32) S1x50x64.size (k1_off11_inb L k 2) = rowRect (widL L) ⟨8 * k.val + 2, h⟩ :=
  rect_unit_congr (off11_eq2 L k)
theorem set_oRowK2 (k : Fin k1_t1_loop.trips) (h : 8 * k.val + 2 < 128) : (oRowK2 L k).view.set = rowSet (widL L) ⟨8 * k.val + 2, h⟩ := by
  show (((oW).view.slice (Rect.unit (s := S4096x50x64) (k1_off11 L k 2#32) S1x50x64.size (k1_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k1_off77 L 122#32) S1x50x64.size (k1_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k1_off77 L 122#32) S1x50x64.size (k1_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k1_t1_loop.trips) (h : 8 * k.val + 2 < 128) (f : Buf (Elt F) (out1Loc d)) :
    ((oRowK2 L k).view.loc (thr d L) ↦[(oRowK2 L k).view.set]{fullShare} f : sProp 𝕄) = out1Loc d ↦[rowSet (widL L) ⟨8 * k.val + 2, h⟩]{fullShare} f := by
  rw [set_oRowK2 L k h]
theorem pts_oRowE2 (h : 120 + 2 < 128) (f : Buf (Elt F) (out1Loc d)) :
    ((oRowE2 L).view.loc (thr d L) ↦[(oRowE2 L).view.set]{fullShare} f : sProp 𝕄) = out1Loc d ↦[rowSet (widL L) ⟨120 + 2, h⟩]{fullShare} f := by
  rw [set_oRowE2 L h]

/-- Row `8 k + 3` of the task's block, as trip `k` addresses it; row `123`, as the last group does. -/
abbrev oRowK3 (k : Fin k1_t1_loop.trips) : Memref sig .scVector .hbm S50x64 .f32 :=
  ((oW).slice (Rect.unit (s := S4096x50x64) (k1_off11 L k 3#32) S1x50x64.size (k1_off11_inb L k 3)) (fun _ => rfl)).squeeze S50x64 squeezes_S1x50x64_S50x64
abbrev oRowE3 : Memref sig .scVector .hbm S50x64 .f32 :=
  ((oW).slice (Rect.unit (s := S4096x50x64) (k1_off77 L 123#32) S1x50x64.size (k1_off77_inb L 3)) (fun _ => rfl)).squeeze S50x64 squeezes_S1x50x64_S50x64
theorem off11_eq3 (k : Fin k1_t1_loop.trips) : k1_off11 L k 3#32 = ![128 * (widL L).val + (8 * k.val + 3), 0, 0] :=
  (k1_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k1_off77 L 123#32 = ![128 * (widL L).val + (120 + 3), 0, 0] :=
  (k1_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k1_t1_loop.trips) (h : 8 * k.val + 3 < 128) :
    Rect.unit (s := S4096x50x64) (k1_off11 L k 3#32) S1x50x64.size (k1_off11_inb L k 3) = rowRect (widL L) ⟨8 * k.val + 3, h⟩ :=
  rect_unit_congr (off11_eq3 L k)
theorem set_oRowK3 (k : Fin k1_t1_loop.trips) (h : 8 * k.val + 3 < 128) : (oRowK3 L k).view.set = rowSet (widL L) ⟨8 * k.val + 3, h⟩ := by
  show (((oW).view.slice (Rect.unit (s := S4096x50x64) (k1_off11 L k 3#32) S1x50x64.size (k1_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k1_off77 L 123#32) S1x50x64.size (k1_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k1_off77 L 123#32) S1x50x64.size (k1_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k1_t1_loop.trips) (h : 8 * k.val + 3 < 128) (f : Buf (Elt F) (out1Loc d)) :
    ((oRowK3 L k).view.loc (thr d L) ↦[(oRowK3 L k).view.set]{fullShare} f : sProp 𝕄) = out1Loc d ↦[rowSet (widL L) ⟨8 * k.val + 3, h⟩]{fullShare} f := by
  rw [set_oRowK3 L k h]
theorem pts_oRowE3 (h : 120 + 3 < 128) (f : Buf (Elt F) (out1Loc d)) :
    ((oRowE3 L).view.loc (thr d L) ↦[(oRowE3 L).view.set]{fullShare} f : sProp 𝕄) = out1Loc d ↦[rowSet (widL L) ⟨120 + 3, h⟩]{fullShare} f := by
  rw [set_oRowE3 L h]

/-- Row `8 k + 4` of the task's block, as trip `k` addresses it; row `124`, as the last group does. -/
abbrev oRowK4 (k : Fin k1_t1_loop.trips) : Memref sig .scVector .hbm S50x64 .f32 :=
  ((oW).slice (Rect.unit (s := S4096x50x64) (k1_off11 L k 4#32) S1x50x64.size (k1_off11_inb L k 4)) (fun _ => rfl)).squeeze S50x64 squeezes_S1x50x64_S50x64
abbrev oRowE4 : Memref sig .scVector .hbm S50x64 .f32 :=
  ((oW).slice (Rect.unit (s := S4096x50x64) (k1_off77 L 124#32) S1x50x64.size (k1_off77_inb L 4)) (fun _ => rfl)).squeeze S50x64 squeezes_S1x50x64_S50x64
theorem off11_eq4 (k : Fin k1_t1_loop.trips) : k1_off11 L k 4#32 = ![128 * (widL L).val + (8 * k.val + 4), 0, 0] :=
  (k1_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k1_off77 L 124#32 = ![128 * (widL L).val + (120 + 4), 0, 0] :=
  (k1_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k1_t1_loop.trips) (h : 8 * k.val + 4 < 128) :
    Rect.unit (s := S4096x50x64) (k1_off11 L k 4#32) S1x50x64.size (k1_off11_inb L k 4) = rowRect (widL L) ⟨8 * k.val + 4, h⟩ :=
  rect_unit_congr (off11_eq4 L k)
theorem set_oRowK4 (k : Fin k1_t1_loop.trips) (h : 8 * k.val + 4 < 128) : (oRowK4 L k).view.set = rowSet (widL L) ⟨8 * k.val + 4, h⟩ := by
  show (((oW).view.slice (Rect.unit (s := S4096x50x64) (k1_off11 L k 4#32) S1x50x64.size (k1_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k1_off77 L 124#32) S1x50x64.size (k1_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k1_off77 L 124#32) S1x50x64.size (k1_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k1_t1_loop.trips) (h : 8 * k.val + 4 < 128) (f : Buf (Elt F) (out1Loc d)) :
    ((oRowK4 L k).view.loc (thr d L) ↦[(oRowK4 L k).view.set]{fullShare} f : sProp 𝕄) = out1Loc d ↦[rowSet (widL L) ⟨8 * k.val + 4, h⟩]{fullShare} f := by
  rw [set_oRowK4 L k h]
theorem pts_oRowE4 (h : 120 + 4 < 128) (f : Buf (Elt F) (out1Loc d)) :
    ((oRowE4 L).view.loc (thr d L) ↦[(oRowE4 L).view.set]{fullShare} f : sProp 𝕄) = out1Loc d ↦[rowSet (widL L) ⟨120 + 4, h⟩]{fullShare} f := by
  rw [set_oRowE4 L h]

/-- Row `8 k + 5` of the task's block, as trip `k` addresses it; row `125`, as the last group does. -/
abbrev oRowK5 (k : Fin k1_t1_loop.trips) : Memref sig .scVector .hbm S50x64 .f32 :=
  ((oW).slice (Rect.unit (s := S4096x50x64) (k1_off11 L k 5#32) S1x50x64.size (k1_off11_inb L k 5)) (fun _ => rfl)).squeeze S50x64 squeezes_S1x50x64_S50x64
abbrev oRowE5 : Memref sig .scVector .hbm S50x64 .f32 :=
  ((oW).slice (Rect.unit (s := S4096x50x64) (k1_off77 L 125#32) S1x50x64.size (k1_off77_inb L 5)) (fun _ => rfl)).squeeze S50x64 squeezes_S1x50x64_S50x64
theorem off11_eq5 (k : Fin k1_t1_loop.trips) : k1_off11 L k 5#32 = ![128 * (widL L).val + (8 * k.val + 5), 0, 0] :=
  (k1_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k1_off77 L 125#32 = ![128 * (widL L).val + (120 + 5), 0, 0] :=
  (k1_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k1_t1_loop.trips) (h : 8 * k.val + 5 < 128) :
    Rect.unit (s := S4096x50x64) (k1_off11 L k 5#32) S1x50x64.size (k1_off11_inb L k 5) = rowRect (widL L) ⟨8 * k.val + 5, h⟩ :=
  rect_unit_congr (off11_eq5 L k)
theorem set_oRowK5 (k : Fin k1_t1_loop.trips) (h : 8 * k.val + 5 < 128) : (oRowK5 L k).view.set = rowSet (widL L) ⟨8 * k.val + 5, h⟩ := by
  show (((oW).view.slice (Rect.unit (s := S4096x50x64) (k1_off11 L k 5#32) S1x50x64.size (k1_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k1_off77 L 125#32) S1x50x64.size (k1_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k1_off77 L 125#32) S1x50x64.size (k1_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k1_t1_loop.trips) (h : 8 * k.val + 5 < 128) (f : Buf (Elt F) (out1Loc d)) :
    ((oRowK5 L k).view.loc (thr d L) ↦[(oRowK5 L k).view.set]{fullShare} f : sProp 𝕄) = out1Loc d ↦[rowSet (widL L) ⟨8 * k.val + 5, h⟩]{fullShare} f := by
  rw [set_oRowK5 L k h]
theorem pts_oRowE5 (h : 120 + 5 < 128) (f : Buf (Elt F) (out1Loc d)) :
    ((oRowE5 L).view.loc (thr d L) ↦[(oRowE5 L).view.set]{fullShare} f : sProp 𝕄) = out1Loc d ↦[rowSet (widL L) ⟨120 + 5, h⟩]{fullShare} f := by
  rw [set_oRowE5 L h]

/-- Row `8 k + 6` of the task's block, as trip `k` addresses it; row `126`, as the last group does. -/
abbrev oRowK6 (k : Fin k1_t1_loop.trips) : Memref sig .scVector .hbm S50x64 .f32 :=
  ((oW).slice (Rect.unit (s := S4096x50x64) (k1_off11 L k 6#32) S1x50x64.size (k1_off11_inb L k 6)) (fun _ => rfl)).squeeze S50x64 squeezes_S1x50x64_S50x64
abbrev oRowE6 : Memref sig .scVector .hbm S50x64 .f32 :=
  ((oW).slice (Rect.unit (s := S4096x50x64) (k1_off77 L 126#32) S1x50x64.size (k1_off77_inb L 6)) (fun _ => rfl)).squeeze S50x64 squeezes_S1x50x64_S50x64
theorem off11_eq6 (k : Fin k1_t1_loop.trips) : k1_off11 L k 6#32 = ![128 * (widL L).val + (8 * k.val + 6), 0, 0] :=
  (k1_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k1_off77 L 126#32 = ![128 * (widL L).val + (120 + 6), 0, 0] :=
  (k1_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k1_t1_loop.trips) (h : 8 * k.val + 6 < 128) :
    Rect.unit (s := S4096x50x64) (k1_off11 L k 6#32) S1x50x64.size (k1_off11_inb L k 6) = rowRect (widL L) ⟨8 * k.val + 6, h⟩ :=
  rect_unit_congr (off11_eq6 L k)
theorem set_oRowK6 (k : Fin k1_t1_loop.trips) (h : 8 * k.val + 6 < 128) : (oRowK6 L k).view.set = rowSet (widL L) ⟨8 * k.val + 6, h⟩ := by
  show (((oW).view.slice (Rect.unit (s := S4096x50x64) (k1_off11 L k 6#32) S1x50x64.size (k1_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k1_off77 L 126#32) S1x50x64.size (k1_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k1_off77 L 126#32) S1x50x64.size (k1_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k1_t1_loop.trips) (h : 8 * k.val + 6 < 128) (f : Buf (Elt F) (out1Loc d)) :
    ((oRowK6 L k).view.loc (thr d L) ↦[(oRowK6 L k).view.set]{fullShare} f : sProp 𝕄) = out1Loc d ↦[rowSet (widL L) ⟨8 * k.val + 6, h⟩]{fullShare} f := by
  rw [set_oRowK6 L k h]
theorem pts_oRowE6 (h : 120 + 6 < 128) (f : Buf (Elt F) (out1Loc d)) :
    ((oRowE6 L).view.loc (thr d L) ↦[(oRowE6 L).view.set]{fullShare} f : sProp 𝕄) = out1Loc d ↦[rowSet (widL L) ⟨120 + 6, h⟩]{fullShare} f := by
  rw [set_oRowE6 L h]

/-- Row `8 k + 7` of the task's block, as trip `k` addresses it; row `127`, as the last group does. -/
abbrev oRowK7 (k : Fin k1_t1_loop.trips) : Memref sig .scVector .hbm S50x64 .f32 :=
  ((oW).slice (Rect.unit (s := S4096x50x64) (k1_off11 L k 7#32) S1x50x64.size (k1_off11_inb L k 7)) (fun _ => rfl)).squeeze S50x64 squeezes_S1x50x64_S50x64
abbrev oRowE7 : Memref sig .scVector .hbm S50x64 .f32 :=
  ((oW).slice (Rect.unit (s := S4096x50x64) (k1_off77 L 127#32) S1x50x64.size (k1_off77_inb L 7)) (fun _ => rfl)).squeeze S50x64 squeezes_S1x50x64_S50x64
theorem off11_eq7 (k : Fin k1_t1_loop.trips) : k1_off11 L k 7#32 = ![128 * (widL L).val + (8 * k.val + 7), 0, 0] :=
  (k1_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k1_off77 L 127#32 = ![128 * (widL L).val + (120 + 7), 0, 0] :=
  (k1_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k1_t1_loop.trips) (h : 8 * k.val + 7 < 128) :
    Rect.unit (s := S4096x50x64) (k1_off11 L k 7#32) S1x50x64.size (k1_off11_inb L k 7) = rowRect (widL L) ⟨8 * k.val + 7, h⟩ :=
  rect_unit_congr (off11_eq7 L k)
theorem set_oRowK7 (k : Fin k1_t1_loop.trips) (h : 8 * k.val + 7 < 128) : (oRowK7 L k).view.set = rowSet (widL L) ⟨8 * k.val + 7, h⟩ := by
  show (((oW).view.slice (Rect.unit (s := S4096x50x64) (k1_off11 L k 7#32) S1x50x64.size (k1_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k1_off77 L 127#32) S1x50x64.size (k1_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k1_off77 L 127#32) S1x50x64.size (k1_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k1_t1_loop.trips) (h : 8 * k.val + 7 < 128) (f : Buf (Elt F) (out1Loc d)) :
    ((oRowK7 L k).view.loc (thr d L) ↦[(oRowK7 L k).view.set]{fullShare} f : sProp 𝕄) = out1Loc d ↦[rowSet (widL L) ⟨8 * k.val + 7, h⟩]{fullShare} f := by
  rw [set_oRowK7 L k h]
theorem pts_oRowE7 (h : 120 + 7 < 128) (f : Buf (Elt F) (out1Loc d)) :
    ((oRowE7 L).view.loc (thr d L) ↦[(oRowE7 L).view.set]{fullShare} f : sProp 𝕄) = out1Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc1_scratch3.sem (sh32 (widL L)).left.left.left fullShare.left.left.left ft fi
      ∗ GFl d L ![1, 0, 0] inb_S8x56x128_S1x50x128_1_0_0 cc1_scratch4.sem (sh32 (widL L)).left.left.right fullShare.left.left.right ft fi
      ∗ GFl d L ![2, 0, 0] inb_S8x56x128_S1x50x128_2_0_0 cc1_scratch5.sem (sh32 (widL L)).left.right.left fullShare.left.right.left ft fi
      ∗ GFl d L ![3, 0, 0] inb_S8x56x128_S1x50x128_3_0_0 cc1_scratch6.sem (sh32 (widL L)).left.right.right fullShare.left.right.right ft fi
      ∗ GFl d L ![4, 0, 0] inb_S8x56x128_S1x50x128_4_0_0 cc1_scratch7.sem (sh32 (widL L)).right.left.left fullShare.right.left.left ft fi
      ∗ GFl d L ![5, 0, 0] inb_S8x56x128_S1x50x128_5_0_0 cc1_scratch8.sem (sh32 (widL L)).right.left.right fullShare.right.left.right ft fi
      ∗ GFl d L ![6, 0, 0] inb_S8x56x128_S1x50x128_6_0_0 cc1_scratch9.sem (sh32 (widL L)).right.right.left fullShare.right.right.left ft fi
      ∗ GFl d L ![7, 0, 0] inb_S8x56x128_S1x50x128_7_0_0 cc1_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc1_scratch11.sem) 0 ∗ semVal (thr d L, SemLoc.dma cc1_scratch12.sem) 0 ∗ semVal (thr d L, SemLoc.dma cc1_scratch13.sem) 0 ∗ semVal (thr d L, SemLoc.dma cc1_scratch14.sem) 0 ∗ semVal (thr d L, SemLoc.dma cc1_scratch15.sem) 0 ∗ semVal (thr d L, SemLoc.dma cc1_scratch16.sem) 0 ∗ semVal (thr d L, SemLoc.dma cc1_scratch17.sem) 0 ∗ semVal (thr d L, SemLoc.dma cc1_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k1_t1_loop.trips) (u : Unit) :
    (INV d L ft fi O W kt.val u : sProp 𝕄) ⊢ wp frame (wpE (defs₀ (F := F)) 𝒱₀ (thr d L) none) Set.univ
        (k1_t1_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 kt u) (INV d L ft fi O W (kt.val + 1)) := by
  unfold INV k1_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc1_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc1_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc1_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc1_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc1_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc1_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc1_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc1_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k1_off68 kt 0#32) (inb := k1_off68_inb kt 0) (sem := cc1_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k1_off68 kt 1#32) (inb := k1_off68_inb kt 1) (sem := cc1_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k1_off68 kt 2#32) (inb := k1_off68_inb kt 2) (sem := cc1_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k1_off68 kt 3#32) (inb := k1_off68_inb kt 3) (sem := cc1_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k1_off68 kt 4#32) (inb := k1_off68_inb kt 4) (sem := cc1_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k1_off68 kt 5#32) (inb := k1_off68_inb kt 5) (sem := cc1_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k1_off68 kt 6#32) (inb := k1_off68_inb kt 6) (sem := cc1_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k1_off68 kt 7#32) (inb := k1_off68_inb kt 7) (sem := cc1_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the second gather call: it ends, faults nowhere, leaves every one of its semaphores at zero
    and hands back the two read shares unchanged and its 128 result rows at some contents. -/
theorem tile_body1 (hF : (K (F := F)).Facts) (hcats : ∀ j, (m (catsLoc d) j).toNat < 100000)
    (ft : Buf (Elt F) (tpadLoc d)) (f0 : Buf (Elt F) (out1Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk1 d (widL L) f0)
        ∗ scopedBufs (thr d L) ∗ scopedSems0 (thr d L) ∗ owes (thr d L) O W)
      ⊢ (wp frame (wpE (defs₀ (F := F)) 𝒱₀ (thr d L) none) Set.univ
          (cc1_gk L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0)
          fun _ => iprop((catsSh m d (widL L) ∗ tpadSh d (widL L) ft ∗ ∃ f, outBlk1 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc1_gk_eq_skeleton]; unfold cc1_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body1.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body1.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc1_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc1_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc1_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc1_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc1_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc1_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc1_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc1_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body1.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc1_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc1_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc1_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc1_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc1_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc1_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc1_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc1_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body1.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.BTile1

end
-- ==== Proof.TileCommon2B.lean ====
/-
  One vector subcore's task of the third gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefsB

noncomputable section

namespace Cert.Proof.BTile2

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v5_scv : Memref Cert.Kernel.sig Kind.scVector Space.hbm Cert.Kernel.S4096x50x64 EltTy.f32)
local notation "iW" => (Memref.whole Cert.Kernel.cc2_scratch0 : Memref Cert.Kernel.sig Kind.scVector Space.vmem Cert.Kernel.S128x50 EltTy.i32)
local notation "bW" => (Memref.whole Cert.Kernel.cc2_scratch1 : Memref Cert.Kernel.sig Kind.scVector Space.vmem Cert.Kernel.S8x56x128 EltTy.f32)
local notation "pW" => (Memref.whole Cert.Kernel.cc2_scratch2 : Memref Cert.Kernel.sig Kind.scVector Space.vmem Cert.Kernel.S8x50x64 EltTy.f32)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-! ## The task's thread, its scratch buffers and its semaphores -/

section Common

variable (d : Dev nD) (L : grid2.Coords)

omit [URA UU] [CountersIn UU] in
theorem bound_zero : grid2.bound 0 = 2 := rfl
omit [URA UU] [CountersIn UU] in
theorem bound_one : grid2.bound 1 = 16 := rfl

/-- The worker number of the subcore at grid coordinates `L`: `2 s + c`. -/
abbrev widL (L : grid2.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc2_scoped0.sem, SemLoc.dma cc2_scratch3.sem, SemLoc.dma cc2_scratch4.sem, SemLoc.dma cc2_scratch5.sem, SemLoc.dma cc2_scratch6.sem, SemLoc.dma cc2_scratch7.sem, SemLoc.dma cc2_scratch8.sem, SemLoc.dma cc2_scratch9.sem, SemLoc.dma cc2_scratch10.sem, SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc2_scoped0.sem) 0 ∗ semVal (thr d L, SemLoc.dma cc2_scratch3.sem) 0 ∗ semVal (thr d L, SemLoc.dma cc2_scratch4.sem) 0 ∗ semVal (thr d L, SemLoc.dma cc2_scratch5.sem) 0 ∗ semVal (thr d L, SemLoc.dma cc2_scratch6.sem) 0 ∗ semVal (thr d L, SemLoc.dma cc2_scratch7.sem) 0 ∗ semVal (thr d L, SemLoc.dma cc2_scratch8.sem) 0 ∗ semVal (thr d L, SemLoc.dma cc2_scratch9.sem) 0 ∗ semVal (thr d L, SemLoc.dma cc2_scratch10.sem) 0 ∗ semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scratch16.sem) 0 ∗ semVal (thr d L, SemLoc.dma cc2_scratch17.sem) 0 ∗ semVal (thr d L, SemLoc.dma cc2_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
        SparseCore.Cfg.mem_ownRefs_of_owner (p := Proc.scVector (cV L) (jV L)) (b := (Proc.scVector (cV L) (jV L)).devRef cc2_scratch2) rfl⟩⟩)]

end Common

section Pts

variable (m : (ℓ : Loc nD τ sig) → Buf (Elt F) ℓ) (d : Dev nD) (L : grid2.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out2Loc d)) :
    ((oW).view.loc (thr d L) ↦[I]{fullShare} f : sProp 𝕄) = out2Loc d ↦[I]{fullShare} f := rfl
theorem pts_iW (f : Buf (Elt F) ((thr d L).loc cc2_scratch0)) :
    ((iW).view.loc (thr d L) ↦{fullShare} f : sProp 𝕄) = (thr d L).loc cc2_scratch0 ↦{fullShare} f := rfl
theorem pts_bW (f : Buf (Elt F) ((thr d L).loc cc2_scratch1)) :
    ((bW).view.loc (thr d L) ↦{fullShare} f : sProp 𝕄) = (thr d L).loc cc2_scratch1 ↦{fullShare} f := rfl
theorem pts_pW (f : Buf (Elt F) ((thr d L).loc cc2_scratch2)) :
    ((pW).view.loc (thr d L) ↦{fullShare} f : sProp 𝕄) = (thr d L).loc cc2_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v5_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet2 w := by
  rw [blkSet2_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out2Loc d)) :
    (out2Loc d ↦[blkSet2 w]{fullShare} f : sProp 𝕄) = bigSep Finset.univ fun j : Fin 128 => out2Loc d ↦[rowSet w j]{fullShare} f := by
  rw [← pointsTo_biUnion Finset.univ (ℓ := out2Loc d) (rowSet w) (rows_disjoint w), rows_cover]

/-- The rows, each at some contents. -/
abbrev outRows (w : Fin 32) : sProp 𝕄 := bigSep Finset.univ fun j : Fin 128 => iprop(∃ f, out2Loc d ↦[rowSet w j]{fullShare} f)

theorem outRows_intro (w : Fin 32) (f : Buf (Elt F) (out2Loc d)) : (out2Loc d ↦[blkSet2 w]{fullShare} f : sProp 𝕄) ⊢ outRows d w := by
  rw [outBlk_rows]
  refine bigSep_mono fun j _ => (show (out2Loc d ↦[rowSet w j]{fullShare} f : sProp 𝕄) ⊢ iprop(∃ f, out2Loc d ↦[rowSet w j]{fullShare} f) from ?_)
  iintro H; iexists f; iexact H

set_option maxRecDepth 4096 in
theorem outRows_join (w : Fin 32) (f0 : Buf (Elt F) (out2Loc d)) : (outRows d w : sProp 𝕄) ⊢ iprop(∃ f, out2Loc d ↦[blkSet2 w]{fullShare} f) := by
  haveI : Nonempty (Buf (Elt F) (out2Loc d)) := ⟨f0⟩
  refine (bigSep_exists_pi Finset.univ (fun j (f : Buf (Elt F) (out2Loc d)) => (out2Loc d ↦[rowSet w j]{fullShare} f : sProp 𝕄))).trans ?_
  iintro ⟨%fs, H⟩
  ihave H' := (pointsTo_biUnion_join (ℓ := out2Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out2Loc d ↦[rowSet w ⟨b + 0, by omega⟩]{fullShare} f) ∗ (∃ f, out2Loc d ↦[rowSet w ⟨b + 1, by omega⟩]{fullShare} f) ∗ (∃ f, out2Loc d ↦[rowSet w ⟨b + 2, by omega⟩]{fullShare} f) ∗ (∃ f, out2Loc d ↦[rowSet w ⟨b + 3, by omega⟩]{fullShare} f) ∗ (∃ f, out2Loc d ↦[rowSet w ⟨b + 4, by omega⟩]{fullShare} f) ∗ (∃ f, out2Loc d ↦[rowSet w ⟨b + 5, by omega⟩]{fullShare} f) ∗ (∃ f, out2Loc d ↦[rowSet w ⟨b + 6, by omega⟩]{fullShare} f) ∗ (∃ f, out2Loc d ↦[rowSet w ⟨b + 7, by omega⟩]{fullShare} f))
          ∗ bigSep (Finset.univ \ Finset.univ.map (grpEmb b hb)) fun j : Fin 128 => iprop(∃ f, out2Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid2.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc2_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc2_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.BTile2

end
-- ==== Proof.TileRepack2B.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon2B
import proofs.«204056_g19739669692900_cont_8to1_1488_31_alg».proof.Proof.Gen.Kernel.Skeleton

noncomputable section

namespace Cert.Proof.BTile2

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v5_scv : Memref Cert.Kernel.sig Kind.scVector Space.hbm Cert.Kernel.S4096x50x64 EltTy.f32)
local notation "iW" => (Memref.whole Cert.Kernel.cc2_scratch0 : Memref Cert.Kernel.sig Kind.scVector Space.vmem Cert.Kernel.S128x50 EltTy.i32)
local notation "bW" => (Memref.whole Cert.Kernel.cc2_scratch1 : Memref Cert.Kernel.sig Kind.scVector Space.vmem Cert.Kernel.S8x56x128 EltTy.f32)
local notation "pW" => (Memref.whole Cert.Kernel.cc2_scratch2 : Memref Cert.Kernel.sig Kind.scVector Space.vmem Cert.Kernel.S8x50x64 EltTy.f32)

section Repack

variable (d : Dev nD) (L : grid2.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k2_t1 : Fin k2_t1_loop.trips) (k : Fin k2_t2_loop.trips) (u : Unit) :
    (RInv0 d L : sProp 𝕄) ⊢ wp frame (wpE (defs₀ (F := F)) 𝒱₀ (thr d L) none) Set.univ
        (k2_t2_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 c0_i32_51 c1_i32_52 k2_t1 k u) (fun _ => RInv0 d L) := by
  unfold k2_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k2_t1 : Fin k2_t1_loop.trips) (arg24 : BitVec 32) (v255 : BitVec 32) (k : Fin k2_t3_loop.trips) (u : Unit) :
    (RInv1 d L : sProp 𝕄) ⊢ wp frame (wpE (defs₀ (F := F)) 𝒱₀ (thr d L) none) Set.univ
        (k2_t3_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v255 k u) (fun _ => RInv1 d L) := by
  unfold k2_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k2_t1 : Fin k2_t1_loop.trips) (arg24 : BitVec 32) (v255 : BitVec 32) (k : Fin k2_t4_loop.trips) (u : Unit) :
    (RInv2 d L : sProp 𝕄) ⊢ wp frame (wpE (defs₀ (F := F)) 𝒱₀ (thr d L) none) Set.univ
        (k2_t4_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v255 k u) (fun _ => RInv2 d L) := by
  unfold k2_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k2_t1 : Fin k2_t1_loop.trips) (arg24 : BitVec 32) (k : Fin k2_t5_loop.trips) (u : Unit) :
    (RInv3 d L : sProp 𝕄) ⊢ wp frame (wpE (defs₀ (F := F)) 𝒱₀ (thr d L) none) Set.univ
        (k2_t5_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 k u) (fun _ => RInv3 d L) := by
  unfold k2_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k2_t1 : Fin k2_t1_loop.trips) (arg24 : BitVec 32) (v306 : BitVec 32) (k : Fin k2_t6_loop.trips) (u : Unit) :
    (RInv4 d L : sProp 𝕄) ⊢ wp frame (wpE (defs₀ (F := F)) 𝒱₀ (thr d L) none) Set.univ
        (k2_t6_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v306 k u) (fun _ => RInv4 d L) := by
  unfold k2_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k2_t1 : Fin k2_t1_loop.trips) (arg24 : BitVec 32) (v306 : BitVec 32) (k : Fin k2_t7_loop.trips) (u : Unit) :
    (RInv5 d L : sProp 𝕄) ⊢ wp frame (wpE (defs₀ (F := F)) 𝒱₀ (thr d L) none) Set.univ
        (k2_t7_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v306 k u) (fun _ => RInv5 d L) := by
  unfold k2_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k2_t1 : Fin k2_t1_loop.trips) (arg24 : BitVec 32) (k : Fin k2_t8_loop.trips) (u : Unit) :
    (RInv6 d L : sProp 𝕄) ⊢ wp frame (wpE (defs₀ (F := F)) 𝒱₀ (thr d L) none) Set.univ
        (k2_t8_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 k u) (fun _ => RInv6 d L) := by
  unfold k2_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k2_t1 : Fin k2_t1_loop.trips) (arg24 : BitVec 32) (v357 : BitVec 32) (k : Fin k2_t9_loop.trips) (u : Unit) :
    (RInv7 d L : sProp 𝕄) ⊢ wp frame (wpE (defs₀ (F := F)) 𝒱₀ (thr d L) none) Set.univ
        (k2_t9_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v357 k u) (fun _ => RInv7 d L) := by
  unfold k2_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k2_t10_loop.trips) (u : Unit) :
    (RInv0 d L : sProp 𝕄) ⊢ wp frame (wpE (defs₀ (F := F)) 𝒱₀ (thr d L) none) Set.univ
        (k2_t10_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv0 d L) := by
  unfold k2_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k2_t11_loop.trips) (u : Unit) :
    (RInv1 d L : sProp 𝕄) ⊢ wp frame (wpE (defs₀ (F := F)) 𝒱₀ (thr d L) none) Set.univ
        (k2_t11_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv1 d L) := by
  unfold k2_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k2_t12_loop.trips) (u : Unit) :
    (RInv2 d L : sProp 𝕄) ⊢ wp frame (wpE (defs₀ (F := F)) 𝒱₀ (thr d L) none) Set.univ
        (k2_t12_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv2 d L) := by
  unfold k2_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k2_t13_loop.trips) (u : Unit) :
    (RInv3 d L : sProp 𝕄) ⊢ wp frame (wpE (defs₀ (F := F)) 𝒱₀ (thr d L) none) Set.univ
        (k2_t13_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv3 d L) := by
  unfold k2_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k2_t14_loop.trips) (u : Unit) :
    (RInv4 d L : sProp 𝕄) ⊢ wp frame (wpE (defs₀ (F := F)) 𝒱₀ (thr d L) none) Set.univ
        (k2_t14_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv4 d L) := by
  unfold k2_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k2_t15_loop.trips) (u : Unit) :
    (RInv5 d L : sProp 𝕄) ⊢ wp frame (wpE (defs₀ (F := F)) 𝒱₀ (thr d L) none) Set.univ
        (k2_t15_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv5 d L) := by
  unfold k2_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k2_t16_loop.trips) (u : Unit) :
    (RInv6 d L : sProp 𝕄) ⊢ wp frame (wpE (defs₀ (F := F)) 𝒱₀ (thr d L) none) Set.univ
        (k2_t16_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv6 d L) := by
  unfold k2_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k2_t17_loop.trips) (u : Unit) :
    (RInv7 d L : sProp 𝕄) ⊢ wp frame (wpE (defs₀ (F := F)) 𝒱₀ (thr d L) none) Set.univ
        (k2_t17_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv7 d L) := by
  unfold k2_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.BTile2

end
-- ==== Proof.TileBody2B.lean ====
/-
  One vector subcore's task of the third gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon2B
import proofs.«204056_g19739669692900_cont_8to1_1488_31_alg».proof.Proof.Gen.Kernel.Skeleton
import proofs.«204056_g19739669692900_cont_8to1_1488_31_alg».proof.Proof.TileRepack2B

noncomputable section

namespace Cert.Proof.BTile2

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v5_scv : Memref Cert.Kernel.sig Kind.scVector Space.hbm Cert.Kernel.S4096x50x64 EltTy.f32)
local notation "iW" => (Memref.whole Cert.Kernel.cc2_scratch0 : Memref Cert.Kernel.sig Kind.scVector Space.vmem Cert.Kernel.S128x50 EltTy.i32)
local notation "bW" => (Memref.whole Cert.Kernel.cc2_scratch1 : Memref Cert.Kernel.sig Kind.scVector Space.vmem Cert.Kernel.S8x56x128 EltTy.f32)
local notation "pW" => (Memref.whole Cert.Kernel.cc2_scratch2 : Memref Cert.Kernel.sig Kind.scVector Space.vmem Cert.Kernel.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid2.Coords)

/-- The task's 128 rows of the index array, as the program slices them. -/
abbrev catsRowsK : Memref sig .scVector .hbm S128x50 .i32 :=
  (cW).slice (Rect.unit (s := S16384x50) (k2_off1 L) S128x50.size (k2_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid2.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k2_t1_loop.trips) : Memref sig .scVector .hbm S50x64 .f32 :=
  ((oW).slice (Rect.unit (s := S4096x50x64) (k2_off11 L k 0#32) S1x50x64.size (k2_off11_inb L k 0)) (fun _ => rfl)).squeeze S50x64 squeezes_S1x50x64_S50x64
abbrev oRowE0 : Memref sig .scVector .hbm S50x64 .f32 :=
  ((oW).slice (Rect.unit (s := S4096x50x64) (k2_off77 L 120#32) S1x50x64.size (k2_off77_inb L 0)) (fun _ => rfl)).squeeze S50x64 squeezes_S1x50x64_S50x64
theorem off11_eq0 (k : Fin k2_t1_loop.trips) : k2_off11 L k 0#32 = ![128 * (widL L).val + (8 * k.val + 0), 0, 0] :=
  (k2_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k2_off77 L 120#32 = ![128 * (widL L).val + (120 + 0), 0, 0] :=
  (k2_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k2_t1_loop.trips) (h : 8 * k.val + 0 < 128) :
    Rect.unit (s := S4096x50x64) (k2_off11 L k 0#32) S1x50x64.size (k2_off11_inb L k 0) = rowRect (widL L) ⟨8 * k.val + 0, h⟩ :=
  rect_unit_congr (off11_eq0 L k)
theorem set_oRowK0 (k : Fin k2_t1_loop.trips) (h : 8 * k.val + 0 < 128) : (oRowK0 L k).view.set = rowSet (widL L) ⟨8 * k.val + 0, h⟩ := by
  show (((oW).view.slice (Rect.unit (s := S4096x50x64) (k2_off11 L k 0#32) S1x50x64.size (k2_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k2_off77 L 120#32) S1x50x64.size (k2_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k2_off77 L 120#32) S1x50x64.size (k2_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k2_t1_loop.trips) (h : 8 * k.val + 0 < 128) (f : Buf (Elt F) (out2Loc d)) :
    ((oRowK0 L k).view.loc (thr d L) ↦[(oRowK0 L k).view.set]{fullShare} f : sProp 𝕄) = out2Loc d ↦[rowSet (widL L) ⟨8 * k.val + 0, h⟩]{fullShare} f := by
  rw [set_oRowK0 L k h]
theorem pts_oRowE0 (h : 120 + 0 < 128) (f : Buf (Elt F) (out2Loc d)) :
    ((oRowE0 L).view.loc (thr d L) ↦[(oRowE0 L).view.set]{fullShare} f : sProp 𝕄) = out2Loc d ↦[rowSet (widL L) ⟨120 + 0, h⟩]{fullShare} f := by
  rw [set_oRowE0 L h]

/-- Row `8 k + 1` of the task's block, as trip `k` addresses it; row `121`, as the last group does. -/
abbrev oRowK1 (k : Fin k2_t1_loop.trips) : Memref sig .scVector .hbm S50x64 .f32 :=
  ((oW).slice (Rect.unit (s := S4096x50x64) (k2_off11 L k 1#32) S1x50x64.size (k2_off11_inb L k 1)) (fun _ => rfl)).squeeze S50x64 squeezes_S1x50x64_S50x64
abbrev oRowE1 : Memref sig .scVector .hbm S50x64 .f32 :=
  ((oW).slice (Rect.unit (s := S4096x50x64) (k2_off77 L 121#32) S1x50x64.size (k2_off77_inb L 1)) (fun _ => rfl)).squeeze S50x64 squeezes_S1x50x64_S50x64
theorem off11_eq1 (k : Fin k2_t1_loop.trips) : k2_off11 L k 1#32 = ![128 * (widL L).val + (8 * k.val + 1), 0, 0] :=
  (k2_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k2_off77 L 121#32 = ![128 * (widL L).val + (120 + 1), 0, 0] :=
  (k2_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k2_t1_loop.trips) (h : 8 * k.val + 1 < 128) :
    Rect.unit (s := S4096x50x64) (k2_off11 L k 1#32) S1x50x64.size (k2_off11_inb L k 1) = rowRect (widL L) ⟨8 * k.val + 1, h⟩ :=
  rect_unit_congr (off11_eq1 L k)
theorem set_oRowK1 (k : Fin k2_t1_loop.trips) (h : 8 * k.val + 1 < 128) : (oRowK1 L k).view.set = rowSet (widL L) ⟨8 * k.val + 1, h⟩ := by
  show (((oW).view.slice (Rect.unit (s := S4096x50x64) (k2_off11 L k 1#32) S1x50x64.size (k2_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k2_off77 L 121#32) S1x50x64.size (k2_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k2_off77 L 121#32) S1x50x64.size (k2_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k2_t1_loop.trips) (h : 8 * k.val + 1 < 128) (f : Buf (Elt F) (out2Loc d)) :
    ((oRowK1 L k).view.loc (thr d L) ↦[(oRowK1 L k).view.set]{fullShare} f : sProp 𝕄) = out2Loc d ↦[rowSet (widL L) ⟨8 * k.val + 1, h⟩]{fullShare} f := by
  rw [set_oRowK1 L k h]
theorem pts_oRowE1 (h : 120 + 1 < 128) (f : Buf (Elt F) (out2Loc d)) :
    ((oRowE1 L).view.loc (thr d L) ↦[(oRowE1 L).view.set]{fullShare} f : sProp 𝕄) = out2Loc d ↦[rowSet (widL L) ⟨120 + 1, h⟩]{fullShare} f := by
  rw [set_oRowE1 L h]

/-- Row `8 k + 2` of the task's block, as trip `k` addresses it; row `122`, as the last group does. -/
abbrev oRowK2 (k : Fin k2_t1_loop.trips) : Memref sig .scVector .hbm S50x64 .f32 :=
  ((oW).slice (Rect.unit (s := S4096x50x64) (k2_off11 L k 2#32) S1x50x64.size (k2_off11_inb L k 2)) (fun _ => rfl)).squeeze S50x64 squeezes_S1x50x64_S50x64
abbrev oRowE2 : Memref sig .scVector .hbm S50x64 .f32 :=
  ((oW).slice (Rect.unit (s := S4096x50x64) (k2_off77 L 122#32) S1x50x64.size (k2_off77_inb L 2)) (fun _ => rfl)).squeeze S50x64 squeezes_S1x50x64_S50x64
theorem off11_eq2 (k : Fin k2_t1_loop.trips) : k2_off11 L k 2#32 = ![128 * (widL L).val + (8 * k.val + 2), 0, 0] :=
  (k2_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k2_off77 L 122#32 = ![128 * (widL L).val + (120 + 2), 0, 0] :=
  (k2_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k2_t1_loop.trips) (h : 8 * k.val + 2 < 128) :
    Rect.unit (s := S4096x50x64) (k2_off11 L k 2#32) S1x50x64.size (k2_off11_inb L k 2) = rowRect (widL L) ⟨8 * k.val + 2, h⟩ :=
  rect_unit_congr (off11_eq2 L k)
theorem set_oRowK2 (k : Fin k2_t1_loop.trips) (h : 8 * k.val + 2 < 128) : (oRowK2 L k).view.set = rowSet (widL L) ⟨8 * k.val + 2, h⟩ := by
  show (((oW).view.slice (Rect.unit (s := S4096x50x64) (k2_off11 L k 2#32) S1x50x64.size (k2_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k2_off77 L 122#32) S1x50x64.size (k2_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k2_off77 L 122#32) S1x50x64.size (k2_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k2_t1_loop.trips) (h : 8 * k.val + 2 < 128) (f : Buf (Elt F) (out2Loc d)) :
    ((oRowK2 L k).view.loc (thr d L) ↦[(oRowK2 L k).view.set]{fullShare} f : sProp 𝕄) = out2Loc d ↦[rowSet (widL L) ⟨8 * k.val + 2, h⟩]{fullShare} f := by
  rw [set_oRowK2 L k h]
theorem pts_oRowE2 (h : 120 + 2 < 128) (f : Buf (Elt F) (out2Loc d)) :
    ((oRowE2 L).view.loc (thr d L) ↦[(oRowE2 L).view.set]{fullShare} f : sProp 𝕄) = out2Loc d ↦[rowSet (widL L) ⟨120 + 2, h⟩]{fullShare} f := by
  rw [set_oRowE2 L h]

/-- Row `8 k + 3` of the task's block, as trip `k` addresses it; row `123`, as the last group does. -/
abbrev oRowK3 (k : Fin k2_t1_loop.trips) : Memref sig .scVector .hbm S50x64 .f32 :=
  ((oW).slice (Rect.unit (s := S4096x50x64) (k2_off11 L k 3#32) S1x50x64.size (k2_off11_inb L k 3)) (fun _ => rfl)).squeeze S50x64 squeezes_S1x50x64_S50x64
abbrev oRowE3 : Memref sig .scVector .hbm S50x64 .f32 :=
  ((oW).slice (Rect.unit (s := S4096x50x64) (k2_off77 L 123#32) S1x50x64.size (k2_off77_inb L 3)) (fun _ => rfl)).squeeze S50x64 squeezes_S1x50x64_S50x64
theorem off11_eq3 (k : Fin k2_t1_loop.trips) : k2_off11 L k 3#32 = ![128 * (widL L).val + (8 * k.val + 3), 0, 0] :=
  (k2_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k2_off77 L 123#32 = ![128 * (widL L).val + (120 + 3), 0, 0] :=
  (k2_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k2_t1_loop.trips) (h : 8 * k.val + 3 < 128) :
    Rect.unit (s := S4096x50x64) (k2_off11 L k 3#32) S1x50x64.size (k2_off11_inb L k 3) = rowRect (widL L) ⟨8 * k.val + 3, h⟩ :=
  rect_unit_congr (off11_eq3 L k)
theorem set_oRowK3 (k : Fin k2_t1_loop.trips) (h : 8 * k.val + 3 < 128) : (oRowK3 L k).view.set = rowSet (widL L) ⟨8 * k.val + 3, h⟩ := by
  show (((oW).view.slice (Rect.unit (s := S4096x50x64) (k2_off11 L k 3#32) S1x50x64.size (k2_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k2_off77 L 123#32) S1x50x64.size (k2_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k2_off77 L 123#32) S1x50x64.size (k2_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k2_t1_loop.trips) (h : 8 * k.val + 3 < 128) (f : Buf (Elt F) (out2Loc d)) :
    ((oRowK3 L k).view.loc (thr d L) ↦[(oRowK3 L k).view.set]{fullShare} f : sProp 𝕄) = out2Loc d ↦[rowSet (widL L) ⟨8 * k.val + 3, h⟩]{fullShare} f := by
  rw [set_oRowK3 L k h]
theorem pts_oRowE3 (h : 120 + 3 < 128) (f : Buf (Elt F) (out2Loc d)) :
    ((oRowE3 L).view.loc (thr d L) ↦[(oRowE3 L).view.set]{fullShare} f : sProp 𝕄) = out2Loc d ↦[rowSet (widL L) ⟨120 + 3, h⟩]{fullShare} f := by
  rw [set_oRowE3 L h]

/-- Row `8 k + 4` of the task's block, as trip `k` addresses it; row `124`, as the last group does. -/
abbrev oRowK4 (k : Fin k2_t1_loop.trips) : Memref sig .scVector .hbm S50x64 .f32 :=
  ((oW).slice (Rect.unit (s := S4096x50x64) (k2_off11 L k 4#32) S1x50x64.size (k2_off11_inb L k 4)) (fun _ => rfl)).squeeze S50x64 squeezes_S1x50x64_S50x64
abbrev oRowE4 : Memref sig .scVector .hbm S50x64 .f32 :=
  ((oW).slice (Rect.unit (s := S4096x50x64) (k2_off77 L 124#32) S1x50x64.size (k2_off77_inb L 4)) (fun _ => rfl)).squeeze S50x64 squeezes_S1x50x64_S50x64
theorem off11_eq4 (k : Fin k2_t1_loop.trips) : k2_off11 L k 4#32 = ![128 * (widL L).val + (8 * k.val + 4), 0, 0] :=
  (k2_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k2_off77 L 124#32 = ![128 * (widL L).val + (120 + 4), 0, 0] :=
  (k2_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k2_t1_loop.trips) (h : 8 * k.val + 4 < 128) :
    Rect.unit (s := S4096x50x64) (k2_off11 L k 4#32) S1x50x64.size (k2_off11_inb L k 4) = rowRect (widL L) ⟨8 * k.val + 4, h⟩ :=
  rect_unit_congr (off11_eq4 L k)
theorem set_oRowK4 (k : Fin k2_t1_loop.trips) (h : 8 * k.val + 4 < 128) : (oRowK4 L k).view.set = rowSet (widL L) ⟨8 * k.val + 4, h⟩ := by
  show (((oW).view.slice (Rect.unit (s := S4096x50x64) (k2_off11 L k 4#32) S1x50x64.size (k2_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k2_off77 L 124#32) S1x50x64.size (k2_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k2_off77 L 124#32) S1x50x64.size (k2_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k2_t1_loop.trips) (h : 8 * k.val + 4 < 128) (f : Buf (Elt F) (out2Loc d)) :
    ((oRowK4 L k).view.loc (thr d L) ↦[(oRowK4 L k).view.set]{fullShare} f : sProp 𝕄) = out2Loc d ↦[rowSet (widL L) ⟨8 * k.val + 4, h⟩]{fullShare} f := by
  rw [set_oRowK4 L k h]
theorem pts_oRowE4 (h : 120 + 4 < 128) (f : Buf (Elt F) (out2Loc d)) :
    ((oRowE4 L).view.loc (thr d L) ↦[(oRowE4 L).view.set]{fullShare} f : sProp 𝕄) = out2Loc d ↦[rowSet (widL L) ⟨120 + 4, h⟩]{fullShare} f := by
  rw [set_oRowE4 L h]

/-- Row `8 k + 5` of the task's block, as trip `k` addresses it; row `125`, as the last group does. -/
abbrev oRowK5 (k : Fin k2_t1_loop.trips) : Memref sig .scVector .hbm S50x64 .f32 :=
  ((oW).slice (Rect.unit (s := S4096x50x64) (k2_off11 L k 5#32) S1x50x64.size (k2_off11_inb L k 5)) (fun _ => rfl)).squeeze S50x64 squeezes_S1x50x64_S50x64
abbrev oRowE5 : Memref sig .scVector .hbm S50x64 .f32 :=
  ((oW).slice (Rect.unit (s := S4096x50x64) (k2_off77 L 125#32) S1x50x64.size (k2_off77_inb L 5)) (fun _ => rfl)).squeeze S50x64 squeezes_S1x50x64_S50x64
theorem off11_eq5 (k : Fin k2_t1_loop.trips) : k2_off11 L k 5#32 = ![128 * (widL L).val + (8 * k.val + 5), 0, 0] :=
  (k2_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k2_off77 L 125#32 = ![128 * (widL L).val + (120 + 5), 0, 0] :=
  (k2_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k2_t1_loop.trips) (h : 8 * k.val + 5 < 128) :
    Rect.unit (s := S4096x50x64) (k2_off11 L k 5#32) S1x50x64.size (k2_off11_inb L k 5) = rowRect (widL L) ⟨8 * k.val + 5, h⟩ :=
  rect_unit_congr (off11_eq5 L k)
theorem set_oRowK5 (k : Fin k2_t1_loop.trips) (h : 8 * k.val + 5 < 128) : (oRowK5 L k).view.set = rowSet (widL L) ⟨8 * k.val + 5, h⟩ := by
  show (((oW).view.slice (Rect.unit (s := S4096x50x64) (k2_off11 L k 5#32) S1x50x64.size (k2_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k2_off77 L 125#32) S1x50x64.size (k2_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k2_off77 L 125#32) S1x50x64.size (k2_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k2_t1_loop.trips) (h : 8 * k.val + 5 < 128) (f : Buf (Elt F) (out2Loc d)) :
    ((oRowK5 L k).view.loc (thr d L) ↦[(oRowK5 L k).view.set]{fullShare} f : sProp 𝕄) = out2Loc d ↦[rowSet (widL L) ⟨8 * k.val + 5, h⟩]{fullShare} f := by
  rw [set_oRowK5 L k h]
theorem pts_oRowE5 (h : 120 + 5 < 128) (f : Buf (Elt F) (out2Loc d)) :
    ((oRowE5 L).view.loc (thr d L) ↦[(oRowE5 L).view.set]{fullShare} f : sProp 𝕄) = out2Loc d ↦[rowSet (widL L) ⟨120 + 5, h⟩]{fullShare} f := by
  rw [set_oRowE5 L h]

/-- Row `8 k + 6` of the task's block, as trip `k` addresses it; row `126`, as the last group does. -/
abbrev oRowK6 (k : Fin k2_t1_loop.trips) : Memref sig .scVector .hbm S50x64 .f32 :=
  ((oW).slice (Rect.unit (s := S4096x50x64) (k2_off11 L k 6#32) S1x50x64.size (k2_off11_inb L k 6)) (fun _ => rfl)).squeeze S50x64 squeezes_S1x50x64_S50x64
abbrev oRowE6 : Memref sig .scVector .hbm S50x64 .f32 :=
  ((oW).slice (Rect.unit (s := S4096x50x64) (k2_off77 L 126#32) S1x50x64.size (k2_off77_inb L 6)) (fun _ => rfl)).squeeze S50x64 squeezes_S1x50x64_S50x64
theorem off11_eq6 (k : Fin k2_t1_loop.trips) : k2_off11 L k 6#32 = ![128 * (widL L).val + (8 * k.val + 6), 0, 0] :=
  (k2_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k2_off77 L 126#32 = ![128 * (widL L).val + (120 + 6), 0, 0] :=
  (k2_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k2_t1_loop.trips) (h : 8 * k.val + 6 < 128) :
    Rect.unit (s := S4096x50x64) (k2_off11 L k 6#32) S1x50x64.size (k2_off11_inb L k 6) = rowRect (widL L) ⟨8 * k.val + 6, h⟩ :=
  rect_unit_congr (off11_eq6 L k)
theorem set_oRowK6 (k : Fin k2_t1_loop.trips) (h : 8 * k.val + 6 < 128) : (oRowK6 L k).view.set = rowSet (widL L) ⟨8 * k.val + 6, h⟩ := by
  show (((oW).view.slice (Rect.unit (s := S4096x50x64) (k2_off11 L k 6#32) S1x50x64.size (k2_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k2_off77 L 126#32) S1x50x64.size (k2_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k2_off77 L 126#32) S1x50x64.size (k2_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k2_t1_loop.trips) (h : 8 * k.val + 6 < 128) (f : Buf (Elt F) (out2Loc d)) :
    ((oRowK6 L k).view.loc (thr d L) ↦[(oRowK6 L k).view.set]{fullShare} f : sProp 𝕄) = out2Loc d ↦[rowSet (widL L) ⟨8 * k.val + 6, h⟩]{fullShare} f := by
  rw [set_oRowK6 L k h]
theorem pts_oRowE6 (h : 120 + 6 < 128) (f : Buf (Elt F) (out2Loc d)) :
    ((oRowE6 L).view.loc (thr d L) ↦[(oRowE6 L).view.set]{fullShare} f : sProp 𝕄) = out2Loc d ↦[rowSet (widL L) ⟨120 + 6, h⟩]{fullShare} f := by
  rw [set_oRowE6 L h]

/-- Row `8 k + 7` of the task's block, as trip `k` addresses it; row `127`, as the last group does. -/
abbrev oRowK7 (k : Fin k2_t1_loop.trips) : Memref sig .scVector .hbm S50x64 .f32 :=
  ((oW).slice (Rect.unit (s := S4096x50x64) (k2_off11 L k 7#32) S1x50x64.size (k2_off11_inb L k 7)) (fun _ => rfl)).squeeze S50x64 squeezes_S1x50x64_S50x64
abbrev oRowE7 : Memref sig .scVector .hbm S50x64 .f32 :=
  ((oW).slice (Rect.unit (s := S4096x50x64) (k2_off77 L 127#32) S1x50x64.size (k2_off77_inb L 7)) (fun _ => rfl)).squeeze S50x64 squeezes_S1x50x64_S50x64
theorem off11_eq7 (k : Fin k2_t1_loop.trips) : k2_off11 L k 7#32 = ![128 * (widL L).val + (8 * k.val + 7), 0, 0] :=
  (k2_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k2_off77 L 127#32 = ![128 * (widL L).val + (120 + 7), 0, 0] :=
  (k2_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k2_t1_loop.trips) (h : 8 * k.val + 7 < 128) :
    Rect.unit (s := S4096x50x64) (k2_off11 L k 7#32) S1x50x64.size (k2_off11_inb L k 7) = rowRect (widL L) ⟨8 * k.val + 7, h⟩ :=
  rect_unit_congr (off11_eq7 L k)
theorem set_oRowK7 (k : Fin k2_t1_loop.trips) (h : 8 * k.val + 7 < 128) : (oRowK7 L k).view.set = rowSet (widL L) ⟨8 * k.val + 7, h⟩ := by
  show (((oW).view.slice (Rect.unit (s := S4096x50x64) (k2_off11 L k 7#32) S1x50x64.size (k2_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k2_off77 L 127#32) S1x50x64.size (k2_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k2_off77 L 127#32) S1x50x64.size (k2_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k2_t1_loop.trips) (h : 8 * k.val + 7 < 128) (f : Buf (Elt F) (out2Loc d)) :
    ((oRowK7 L k).view.loc (thr d L) ↦[(oRowK7 L k).view.set]{fullShare} f : sProp 𝕄) = out2Loc d ↦[rowSet (widL L) ⟨8 * k.val + 7, h⟩]{fullShare} f := by
  rw [set_oRowK7 L k h]
theorem pts_oRowE7 (h : 120 + 7 < 128) (f : Buf (Elt F) (out2Loc d)) :
    ((oRowE7 L).view.loc (thr d L) ↦[(oRowE7 L).view.set]{fullShare} f : sProp 𝕄) = out2Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc2_scratch3.sem (sh32 (widL L)).left.left.left fullShare.left.left.left ft fi
      ∗ GFl d L ![1, 0, 0] inb_S8x56x128_S1x50x128_1_0_0 cc2_scratch4.sem (sh32 (widL L)).left.left.right fullShare.left.left.right ft fi
      ∗ GFl d L ![2, 0, 0] inb_S8x56x128_S1x50x128_2_0_0 cc2_scratch5.sem (sh32 (widL L)).left.right.left fullShare.left.right.left ft fi
      ∗ GFl d L ![3, 0, 0] inb_S8x56x128_S1x50x128_3_0_0 cc2_scratch6.sem (sh32 (widL L)).left.right.right fullShare.left.right.right ft fi
      ∗ GFl d L ![4, 0, 0] inb_S8x56x128_S1x50x128_4_0_0 cc2_scratch7.sem (sh32 (widL L)).right.left.left fullShare.right.left.left ft fi
      ∗ GFl d L ![5, 0, 0] inb_S8x56x128_S1x50x128_5_0_0 cc2_scratch8.sem (sh32 (widL L)).right.left.right fullShare.right.left.right ft fi
      ∗ GFl d L ![6, 0, 0] inb_S8x56x128_S1x50x128_6_0_0 cc2_scratch9.sem (sh32 (widL L)).right.right.left fullShare.right.right.left ft fi
      ∗ GFl d L ![7, 0, 0] inb_S8x56x128_S1x50x128_7_0_0 cc2_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scratch16.sem) 0 ∗ semVal (thr d L, SemLoc.dma cc2_scratch17.sem) 0 ∗ semVal (thr d L, SemLoc.dma cc2_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k2_t1_loop.trips) (u : Unit) :
    (INV d L ft fi O W kt.val u : sProp 𝕄) ⊢ wp frame (wpE (defs₀ (F := F)) 𝒱₀ (thr d L) none) Set.univ
        (k2_t1_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 kt u) (INV d L ft fi O W (kt.val + 1)) := by
  unfold INV k2_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc2_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc2_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc2_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc2_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc2_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc2_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc2_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc2_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k2_off68 kt 0#32) (inb := k2_off68_inb kt 0) (sem := cc2_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k2_off68 kt 1#32) (inb := k2_off68_inb kt 1) (sem := cc2_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k2_off68 kt 2#32) (inb := k2_off68_inb kt 2) (sem := cc2_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k2_off68 kt 3#32) (inb := k2_off68_inb kt 3) (sem := cc2_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k2_off68 kt 4#32) (inb := k2_off68_inb kt 4) (sem := cc2_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k2_off68 kt 5#32) (inb := k2_off68_inb kt 5) (sem := cc2_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k2_off68 kt 6#32) (inb := k2_off68_inb kt 6) (sem := cc2_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k2_off68 kt 7#32) (inb := k2_off68_inb kt 7) (sem := cc2_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the third gather call: it ends, faults nowhere, leaves every one of its semaphores at zero
    and hands back the two read shares unchanged and its 128 result rows at some contents. -/
theorem tile_body2 (hF : (K (F := F)).Facts) (hcats : ∀ j, (m (catsLoc d) j).toNat < 100000)
    (ft : Buf (Elt F) (tpadLoc d)) (f0 : Buf (Elt F) (out2Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk2 d (widL L) f0)
        ∗ scopedBufs (thr d L) ∗ scopedSems0 (thr d L) ∗ owes (thr d L) O W)
      ⊢ (wp frame (wpE (defs₀ (F := F)) 𝒱₀ (thr d L) none) Set.univ
          (cc2_gk L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0)
          fun _ => iprop((catsSh m d (widL L) ∗ tpadSh d (widL L) ft ∗ ∃ f, outBlk2 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc2_gk_eq_skeleton]; unfold cc2_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body2.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body2.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc2_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc2_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc2_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc2_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc2_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc2_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc2_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc2_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body2.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc2_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc2_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc2_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc2_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc2_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc2_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc2_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc2_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body2.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.BTile2

end
-- ==== Proof.TileCommon3B.lean ====
/-
  One vector subcore's task of the fourth gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefsB

noncomputable section

namespace Cert.Proof.BTile3

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v6_scv : Memref Cert.Kernel.sig Kind.scVector Space.hbm Cert.Kernel.S4096x50x64 EltTy.f32)
local notation "iW" => (Memref.whole Cert.Kernel.cc3_scratch0 : Memref Cert.Kernel.sig Kind.scVector Space.vmem Cert.Kernel.S128x50 EltTy.i32)
local notation "bW" => (Memref.whole Cert.Kernel.cc3_scratch1 : Memref Cert.Kernel.sig Kind.scVector Space.vmem Cert.Kernel.S8x56x128 EltTy.f32)
local notation "pW" => (Memref.whole Cert.Kernel.cc3_scratch2 : Memref Cert.Kernel.sig Kind.scVector Space.vmem Cert.Kernel.S8x50x64 EltTy.f32)

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-! ## The task's thread, its scratch buffers and its semaphores -/

section Common

variable (d : Dev nD) (L : grid3.Coords)

omit [URA UU] [CountersIn UU] in
theorem bound_zero : grid3.bound 0 = 2 := rfl
omit [URA UU] [CountersIn UU] in
theorem bound_one : grid3.bound 1 = 16 := rfl

/-- The worker number of the subcore at grid coordinates `L`: `2 s + c`. -/
abbrev widL (L : grid3.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc3_scoped0.sem, SemLoc.dma cc3_scratch3.sem, SemLoc.dma cc3_scratch4.sem, SemLoc.dma cc3_scratch5.sem, SemLoc.dma cc3_scratch6.sem, SemLoc.dma cc3_scratch7.sem, SemLoc.dma cc3_scratch8.sem, SemLoc.dma cc3_scratch9.sem, SemLoc.dma cc3_scratch10.sem, SemLoc.dma cc3_scratch11.sem, SemLoc.dma cc3_scratch12.sem, SemLoc.dma cc3_scratch13.sem, SemLoc.dma cc3_scratch14.sem, SemLoc.dma cc3_scratch15.sem, SemLoc.dma cc3_scratch16.sem, SemLoc.dma cc3_scratch17.sem, SemLoc.dma cc3_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc3_scoped0.sem) 0 ∗ semVal (thr d L, SemLoc.dma cc3_scratch3.sem) 0 ∗ semVal (thr d L, SemLoc.dma cc3_scratch4.sem) 0 ∗ semVal (thr d L, SemLoc.dma cc3_scratch5.sem) 0 ∗ semVal (thr d L, SemLoc.dma cc3_scratch6.sem) 0 ∗ semVal (thr d L, SemLoc.dma cc3_scratch7.sem) 0 ∗ semVal (thr d L, SemLoc.dma cc3_scratch8.sem) 0 ∗ semVal (thr d L, SemLoc.dma cc3_scratch9.sem) 0 ∗ semVal (thr d L, SemLoc.dma cc3_scratch10.sem) 0 ∗ semVal (thr d L, SemLoc.dma cc3_scratch11.sem) 0 ∗ semVal (thr d L, SemLoc.dma cc3_scratch12.sem) 0 ∗ semVal (thr d L, SemLoc.dma cc3_scratch13.sem) 0 ∗ semVal (thr d L, SemLoc.dma cc3_scratch14.sem) 0 ∗ semVal (thr d L, SemLoc.dma cc3_scratch15.sem) 0 ∗ semVal (thr d L, SemLoc.dma cc3_scratch16.sem) 0 ∗ semVal (thr d L, SemLoc.dma cc3_scratch17.sem) 0 ∗ semVal (thr d L, SemLoc.dma cc3_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
        SparseCore.Cfg.mem_ownRefs_of_owner (p := Proc.scVector (cV L) (jV L)) (b := (Proc.scVector (cV L) (jV L)).devRef cc3_scratch2) rfl⟩⟩)]

end Common

section Pts

variable (m : (ℓ : Loc nD τ sig) → Buf (Elt F) ℓ) (d : Dev nD) (L : grid3.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out3Loc d)) :
    ((oW).view.loc (thr d L) ↦[I]{fullShare} f : sProp 𝕄) = out3Loc d ↦[I]{fullShare} f := rfl
theorem pts_iW (f : Buf (Elt F) ((thr d L).loc cc3_scratch0)) :
    ((iW).view.loc (thr d L) ↦{fullShare} f : sProp 𝕄) = (thr d L).loc cc3_scratch0 ↦{fullShare} f := rfl
theorem pts_bW (f : Buf (Elt F) ((thr d L).loc cc3_scratch1)) :
    ((bW).view.loc (thr d L) ↦{fullShare} f : sProp 𝕄) = (thr d L).loc cc3_scratch1 ↦{fullShare} f := rfl
theorem pts_pW (f : Buf (Elt F) ((thr d L).loc cc3_scratch2)) :
    ((pW).view.loc (thr d L) ↦{fullShare} f : sProp 𝕄) = (thr d L).loc cc3_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v6_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet3 w := by
  rw [blkSet3_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out3Loc d)) :
    (out3Loc d ↦[blkSet3 w]{fullShare} f : sProp 𝕄) = bigSep Finset.univ fun j : Fin 128 => out3Loc d ↦[rowSet w j]{fullShare} f := by
  rw [← pointsTo_biUnion Finset.univ (ℓ := out3Loc d) (rowSet w) (rows_disjoint w), rows_cover]

/-- The rows, each at some contents. -/
abbrev outRows (w : Fin 32) : sProp 𝕄 := bigSep Finset.univ fun j : Fin 128 => iprop(∃ f, out3Loc d ↦[rowSet w j]{fullShare} f)

theorem outRows_intro (w : Fin 32) (f : Buf (Elt F) (out3Loc d)) : (out3Loc d ↦[blkSet3 w]{fullShare} f : sProp 𝕄) ⊢ outRows d w := by
  rw [outBlk_rows]
  refine bigSep_mono fun j _ => (show (out3Loc d ↦[rowSet w j]{fullShare} f : sProp 𝕄) ⊢ iprop(∃ f, out3Loc d ↦[rowSet w j]{fullShare} f) from ?_)
  iintro H; iexists f; iexact H

set_option maxRecDepth 4096 in
theorem outRows_join (w : Fin 32) (f0 : Buf (Elt F) (out3Loc d)) : (outRows d w : sProp 𝕄) ⊢ iprop(∃ f, out3Loc d ↦[blkSet3 w]{fullShare} f) := by
  haveI : Nonempty (Buf (Elt F) (out3Loc d)) := ⟨f0⟩
  refine (bigSep_exists_pi Finset.univ (fun j (f : Buf (Elt F) (out3Loc d)) => (out3Loc d ↦[rowSet w j]{fullShare} f : sProp 𝕄))).trans ?_
  iintro ⟨%fs, H⟩
  ihave H' := (pointsTo_biUnion_join (ℓ := out3Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out3Loc d ↦[rowSet w ⟨b + 0, by omega⟩]{fullShare} f) ∗ (∃ f, out3Loc d ↦[rowSet w ⟨b + 1, by omega⟩]{fullShare} f) ∗ (∃ f, out3Loc d ↦[rowSet w ⟨b + 2, by omega⟩]{fullShare} f) ∗ (∃ f, out3Loc d ↦[rowSet w ⟨b + 3, by omega⟩]{fullShare} f) ∗ (∃ f, out3Loc d ↦[rowSet w ⟨b + 4, by omega⟩]{fullShare} f) ∗ (∃ f, out3Loc d ↦[rowSet w ⟨b + 5, by omega⟩]{fullShare} f) ∗ (∃ f, out3Loc d ↦[rowSet w ⟨b + 6, by omega⟩]{fullShare} f) ∗ (∃ f, out3Loc d ↦[rowSet w ⟨b + 7, by omega⟩]{fullShare} f))
          ∗ bigSep (Finset.univ \ Finset.univ.map (grpEmb b hb)) fun j : Fin 128 => iprop(∃ f, out3Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid3.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc3_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc3_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.BTile3

end
-- ==== Proof.TileRepack3B.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon3B
import proofs.«204056_g19739669692900_cont_8to1_1488_31_alg».proof.Proof.Gen.Kernel.Skeleton

noncomputable section

namespace Cert.Proof.BTile3

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v6_scv : Memref Cert.Kernel.sig Kind.scVector Space.hbm Cert.Kernel.S4096x50x64 EltTy.f32)
local notation "iW" => (Memref.whole Cert.Kernel.cc3_scratch0 : Memref Cert.Kernel.sig Kind.scVector Space.vmem Cert.Kernel.S128x50 EltTy.i32)
local notation "bW" => (Memref.whole Cert.Kernel.cc3_scratch1 : Memref Cert.Kernel.sig Kind.scVector Space.vmem Cert.Kernel.S8x56x128 EltTy.f32)
local notation "pW" => (Memref.whole Cert.Kernel.cc3_scratch2 : Memref Cert.Kernel.sig Kind.scVector Space.vmem Cert.Kernel.S8x50x64 EltTy.f32)

section Repack

variable (d : Dev nD) (L : grid3.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k3_t1 : Fin k3_t1_loop.trips) (k : Fin k3_t2_loop.trips) (u : Unit) :
    (RInv0 d L : sProp 𝕄) ⊢ wp frame (wpE (defs₀ (F := F)) 𝒱₀ (thr d L) none) Set.univ
        (k3_t2_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 c0_i32_51 c1_i32_52 k3_t1 k u) (fun _ => RInv0 d L) := by
  unfold k3_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k3_t1 : Fin k3_t1_loop.trips) (arg24 : BitVec 32) (v255 : BitVec 32) (k : Fin k3_t3_loop.trips) (u : Unit) :
    (RInv1 d L : sProp 𝕄) ⊢ wp frame (wpE (defs₀ (F := F)) 𝒱₀ (thr d L) none) Set.univ
        (k3_t3_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v255 k u) (fun _ => RInv1 d L) := by
  unfold k3_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k3_t1 : Fin k3_t1_loop.trips) (arg24 : BitVec 32) (v255 : BitVec 32) (k : Fin k3_t4_loop.trips) (u : Unit) :
    (RInv2 d L : sProp 𝕄) ⊢ wp frame (wpE (defs₀ (F := F)) 𝒱₀ (thr d L) none) Set.univ
        (k3_t4_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v255 k u) (fun _ => RInv2 d L) := by
  unfold k3_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k3_t1 : Fin k3_t1_loop.trips) (arg24 : BitVec 32) (k : Fin k3_t5_loop.trips) (u : Unit) :
    (RInv3 d L : sProp 𝕄) ⊢ wp frame (wpE (defs₀ (F := F)) 𝒱₀ (thr d L) none) Set.univ
        (k3_t5_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 k u) (fun _ => RInv3 d L) := by
  unfold k3_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k3_t1 : Fin k3_t1_loop.trips) (arg24 : BitVec 32) (v306 : BitVec 32) (k : Fin k3_t6_loop.trips) (u : Unit) :
    (RInv4 d L : sProp 𝕄) ⊢ wp frame (wpE (defs₀ (F := F)) 𝒱₀ (thr d L) none) Set.univ
        (k3_t6_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v306 k u) (fun _ => RInv4 d L) := by
  unfold k3_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k3_t1 : Fin k3_t1_loop.trips) (arg24 : BitVec 32) (v306 : BitVec 32) (k : Fin k3_t7_loop.trips) (u : Unit) :
    (RInv5 d L : sProp 𝕄) ⊢ wp frame (wpE (defs₀ (F := F)) 𝒱₀ (thr d L) none) Set.univ
        (k3_t7_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v306 k u) (fun _ => RInv5 d L) := by
  unfold k3_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k3_t1 : Fin k3_t1_loop.trips) (arg24 : BitVec 32) (k : Fin k3_t8_loop.trips) (u : Unit) :
    (RInv6 d L : sProp 𝕄) ⊢ wp frame (wpE (defs₀ (F := F)) 𝒱₀ (thr d L) none) Set.univ
        (k3_t8_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 k u) (fun _ => RInv6 d L) := by
  unfold k3_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k3_t1 : Fin k3_t1_loop.trips) (arg24 : BitVec 32) (v357 : BitVec 32) (k : Fin k3_t9_loop.trips) (u : Unit) :
    (RInv7 d L : sProp 𝕄) ⊢ wp frame (wpE (defs₀ (F := F)) 𝒱₀ (thr d L) none) Set.univ
        (k3_t9_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v357 k u) (fun _ => RInv7 d L) := by
  unfold k3_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k3_t10_loop.trips) (u : Unit) :
    (RInv0 d L : sProp 𝕄) ⊢ wp frame (wpE (defs₀ (F := F)) 𝒱₀ (thr d L) none) Set.univ
        (k3_t10_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv0 d L) := by
  unfold k3_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k3_t11_loop.trips) (u : Unit) :
    (RInv1 d L : sProp 𝕄) ⊢ wp frame (wpE (defs₀ (F := F)) 𝒱₀ (thr d L) none) Set.univ
        (k3_t11_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv1 d L) := by
  unfold k3_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k3_t12_loop.trips) (u : Unit) :
    (RInv2 d L : sProp 𝕄) ⊢ wp frame (wpE (defs₀ (F := F)) 𝒱₀ (thr d L) none) Set.univ
        (k3_t12_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv2 d L) := by
  unfold k3_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k3_t13_loop.trips) (u : Unit) :
    (RInv3 d L : sProp 𝕄) ⊢ wp frame (wpE (defs₀ (F := F)) 𝒱₀ (thr d L) none) Set.univ
        (k3_t13_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv3 d L) := by
  unfold k3_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k3_t14_loop.trips) (u : Unit) :
    (RInv4 d L : sProp 𝕄) ⊢ wp frame (wpE (defs₀ (F := F)) 𝒱₀ (thr d L) none) Set.univ
        (k3_t14_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv4 d L) := by
  unfold k3_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k3_t15_loop.trips) (u : Unit) :
    (RInv5 d L : sProp 𝕄) ⊢ wp frame (wpE (defs₀ (F := F)) 𝒱₀ (thr d L) none) Set.univ
        (k3_t15_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv5 d L) := by
  unfold k3_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k3_t16_loop.trips) (u : Unit) :
    (RInv6 d L : sProp 𝕄) ⊢ wp frame (wpE (defs₀ (F := F)) 𝒱₀ (thr d L) none) Set.univ
        (k3_t16_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv6 d L) := by
  unfold k3_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k3_t17_loop.trips) (u : Unit) :
    (RInv7 d L : sProp 𝕄) ⊢ wp frame (wpE (defs₀ (F := F)) 𝒱₀ (thr d L) none) Set.univ
        (k3_t17_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv7 d L) := by
  unfold k3_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.BTile3

end
-- ==== Proof.TileBody3B.lean ====
/-
  One vector subcore's task of the fourth gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon3B
import proofs.«204056_g19739669692900_cont_8to1_1488_31_alg».proof.Proof.Gen.Kernel.Skeleton
import proofs.«204056_g19739669692900_cont_8to1_1488_31_alg».proof.Proof.TileRepack3B

noncomputable section

namespace Cert.Proof.BTile3

open Cert.Kernel Cert.Kernel.Gen
open Cert.Proof.Shares Cert.Proof.LaunchB

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.Kernel.main_v0_scv : Memref Cert.Kernel.sig Kind.scVector Space.hbm Cert.Kernel.S100000x128 EltTy.f32)
local notation "cW" => (Memref.whole Cert.Kernel.main_arg0_scv : Memref Cert.Kernel.sig Kind.scVector Space.hbm Cert.Kernel.S16384x50 EltTy.i32)
local notation "oW" => (Memref.whole Cert.Kernel.main_v6_scv : Memref Cert.Kernel.sig Kind.scVector Space.hbm Cert.Kernel.S4096x50x64 EltTy.f32)
local notation "iW" => (Memref.whole Cert.Kernel.cc3_scratch0 : Memref Cert.Kernel.sig Kind.scVector Space.vmem Cert.Kernel.S128x50 EltTy.i32)
local notation "bW" => (Memref.whole Cert.Kernel.cc3_scratch1 : Memref Cert.Kernel.sig Kind.scVector Space.vmem Cert.Kernel.S8x56x128 EltTy.f32)
local notation "pW" => (Memref.whole Cert.Kernel.cc3_scratch2 : Memref Cert.Kernel.sig Kind.scVector Space.vmem Cert.Kernel.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid3.Coords)

/-- The task's 128 rows of the index array, as the program slices them. -/
abbrev catsRowsK : Memref sig .scVector .hbm S128x50 .i32 :=
  (cW).slice (Rect.unit (s := S16384x50) (k3_off1 L) S128x50.size (k3_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid3.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k3_t1_loop.trips) : Memref sig .scVector .hbm S50x64 .f32 :=
  ((oW).slice (Rect.unit (s := S4096x50x64) (k3_off11 L k 0#32) S1x50x64.size (k3_off11_inb L k 0)) (fun _ => rfl)).squeeze S50x64 squeezes_S1x50x64_S50x64
abbrev oRowE0 : Memref sig .scVector .hbm S50x64 .f32 :=
  ((oW).slice (Rect.unit (s := S4096x50x64) (k3_off77 L 120#32) S1x50x64.size (k3_off77_inb L 0)) (fun _ => rfl)).squeeze S50x64 squeezes_S1x50x64_S50x64
theorem off11_eq0 (k : Fin k3_t1_loop.trips) : k3_off11 L k 0#32 = ![128 * (widL L).val + (8 * k.val + 0), 0, 0] :=
  (k3_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k3_off77 L 120#32 = ![128 * (widL L).val + (120 + 0), 0, 0] :=
  (k3_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k3_t1_loop.trips) (h : 8 * k.val + 0 < 128) :
    Rect.unit (s := S4096x50x64) (k3_off11 L k 0#32) S1x50x64.size (k3_off11_inb L k 0) = rowRect (widL L) ⟨8 * k.val + 0, h⟩ :=
  rect_unit_congr (off11_eq0 L k)
theorem set_oRowK0 (k : Fin k3_t1_loop.trips) (h : 8 * k.val + 0 < 128) : (oRowK0 L k).view.set = rowSet (widL L) ⟨8 * k.val + 0, h⟩ := by
  show (((oW).view.slice (Rect.unit (s := S4096x50x64) (k3_off11 L k 0#32) S1x50x64.size (k3_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k3_off77 L 120#32) S1x50x64.size (k3_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k3_off77 L 120#32) S1x50x64.size (k3_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k3_t1_loop.trips) (h : 8 * k.val + 0 < 128) (f : Buf (Elt F) (out3Loc d)) :
    ((oRowK0 L k).view.loc (thr d L) ↦[(oRowK0 L k).view.set]{fullShare} f : sProp 𝕄) = out3Loc d ↦[rowSet (widL L) ⟨8 * k.val + 0, h⟩]{fullShare} f := by
  rw [set_oRowK0 L k h]
theorem pts_oRowE0 (h : 120 + 0 < 128) (f : Buf (Elt F) (out3Loc d)) :
    ((oRowE0 L).view.loc (thr d L) ↦[(oRowE0 L).view.set]{fullShare} f : sProp 𝕄) = out3Loc d ↦[rowSet (widL L) ⟨120 + 0, h⟩]{fullShare} f := by
  rw [set_oRowE0 L h]

/-- Row `8 k + 1` of the task's block, as trip `k` addresses it; row `121`, as the last group does. -/
abbrev oRowK1 (k : Fin k3_t1_loop.trips) : Memref sig .scVector .hbm S50x64 .f32 :=
  ((oW).slice (Rect.unit (s := S4096x50x64) (k3_off11 L k 1#32) S1x50x64.size (k3_off11_inb L k 1)) (fun _ => rfl)).squeeze S50x64 squeezes_S1x50x64_S50x64
abbrev oRowE1 : Memref sig .scVector .hbm S50x64 .f32 :=
  ((oW).slice (Rect.unit (s := S4096x50x64) (k3_off77 L 121#32) S1x50x64.size (k3_off77_inb L 1)) (fun _ => rfl)).squeeze S50x64 squeezes_S1x50x64_S50x64
theorem off11_eq1 (k : Fin k3_t1_loop.trips) : k3_off11 L k 1#32 = ![128 * (widL L).val + (8 * k.val + 1), 0, 0] :=
  (k3_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k3_off77 L 121#32 = ![128 * (widL L).val + (120 + 1), 0, 0] :=
  (k3_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k3_t1_loop.trips) (h : 8 * k.val + 1 < 128) :
    Rect.unit (s := S4096x50x64) (k3_off11 L k 1#32) S1x50x64.size (k3_off11_inb L k 1) = rowRect (widL L) ⟨8 * k.val + 1, h⟩ :=
  rect_unit_congr (off11_eq1 L k)
theorem set_oRowK1 (k : Fin k3_t1_loop.trips) (h : 8 * k.val + 1 < 128) : (oRowK1 L k).view.set = rowSet (widL L) ⟨8 * k.val + 1, h⟩ := by
  show (((oW).view.slice (Rect.unit (s := S4096x50x64) (k3_off11 L k 1#32) S1x50x64.size (k3_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k3_off77 L 121#32) S1x50x64.size (k3_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k3_off77 L 121#32) S1x50x64.size (k3_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k3_t1_loop.trips) (h : 8 * k.val + 1 < 128) (f : Buf (Elt F) (out3Loc d)) :
    ((oRowK1 L k).view.loc (thr d L) ↦[(oRowK1 L k).view.set]{fullShare} f : sProp 𝕄) = out3Loc d ↦[rowSet (widL L) ⟨8 * k.val + 1, h⟩]{fullShare} f := by
  rw [set_oRowK1 L k h]
theorem pts_oRowE1 (h : 120 + 1 < 128) (f : Buf (Elt F) (out3Loc d)) :
    ((oRowE1 L).view.loc (thr d L) ↦[(oRowE1 L).view.set]{fullShare} f : sProp 𝕄) = out3Loc d ↦[rowSet (widL L) ⟨120 + 1, h⟩]{fullShare} f := by
  rw [set_oRowE1 L h]

/-- Row `8 k + 2` of the task's block, as trip `k` addresses it; row `122`, as the last group does. -/
abbrev oRowK2 (k : Fin k3_t1_loop.trips) : Memref sig .scVector .hbm S50x64 .f32 :=
  ((oW).slice (Rect.unit (s := S4096x50x64) (k3_off11 L k 2#32) S1x50x64.size (k3_off11_inb L k 2)) (fun _ => rfl)).squeeze S50x64 squeezes_S1x50x64_S50x64
abbrev oRowE2 : Memref sig .scVector .hbm S50x64 .f32 :=
  ((oW).slice (Rect.unit (s := S4096x50x64) (k3_off77 L 122#32) S1x50x64.size (k3_off77_inb L 2)) (fun _ => rfl)).squeeze S50x64 squeezes_S1x50x64_S50x64
theorem off11_eq2 (k : Fin k3_t1_loop.trips) : k3_off11 L k 2#32 = ![128 * (widL L).val + (8 * k.val + 2), 0, 0] :=
  (k3_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k3_off77 L 122#32 = ![128 * (widL L).val + (120 + 2), 0, 0] :=
  (k3_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k3_t1_loop.trips) (h : 8 * k.val + 2 < 128) :
    Rect.unit (s := S4096x50x64) (k3_off11 L k 2#32) S1x50x64.size (k3_off11_inb L k 2) = rowRect (widL L) ⟨8 * k.val + 2, h⟩ :=
  rect_unit_congr (off11_eq2 L k)
theorem set_oRowK2 (k : Fin k3_t1_loop.trips) (h : 8 * k.val + 2 < 128) : (oRowK2 L k).view.set = rowSet (widL L) ⟨8 * k.val + 2, h⟩ := by
  show (((oW).view.slice (Rect.unit (s := S4096x50x64) (k3_off11 L k 2#32) S1x50x64.size (k3_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k3_off77 L 122#32) S1x50x64.size (k3_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k3_off77 L 122#32) S1x50x64.size (k3_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k3_t1_loop.trips) (h : 8 * k.val + 2 < 128) (f : Buf (Elt F) (out3Loc d)) :
    ((oRowK2 L k).view.loc (thr d L) ↦[(oRowK2 L k).view.set]{fullShare} f : sProp 𝕄) = out3Loc d ↦[rowSet (widL L) ⟨8 * k.val + 2, h⟩]{fullShare} f := by
  rw [set_oRowK2 L k h]
theorem pts_oRowE2 (h : 120 + 2 < 128) (f : Buf (Elt F) (out3Loc d)) :
    ((oRowE2 L).view.loc (thr d L) ↦[(oRowE2 L).view.set]{fullShare} f : sProp 𝕄) = out3Loc d ↦[rowSet (widL L) ⟨120 + 2, h⟩]{fullShare} f := by
  rw [set_oRowE2 L h]

/-- Row `8 k + 3` of the task's block, as trip `k` addresses it; row `123`, as the last group does. -/
abbrev oRowK3 (k : Fin k3_t1_loop.trips) : Memref sig .scVector .hbm S50x64 .f32 :=
  ((oW).slice (Rect.unit (s := S4096x50x64) (k3_off11 L k 3#32) S1x50x64.size (k3_off11_inb L k 3)) (fun _ => rfl)).squeeze S50x64 squeezes_S1x50x64_S50x64
abbrev oRowE3 : Memref sig .scVector .hbm S50x64 .f32 :=
  ((oW).slice (Rect.unit (s := S4096x50x64) (k3_off77 L 123#32) S1x50x64.size (k3_off77_inb L 3)) (fun _ => rfl)).squeeze S50x64 squeezes_S1x50x64_S50x64
theorem off11_eq3 (k : Fin k3_t1_loop.trips) : k3_off11 L k 3#32 = ![128 * (widL L).val + (8 * k.val + 3), 0, 0] :=
  (k3_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k3_off77 L 123#32 = ![128 * (widL L).val + (120 + 3), 0, 0] :=
  (k3_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k3_t1_loop.trips) (h : 8 * k.val + 3 < 128) :
    Rect.unit (s := S4096x50x64) (k3_off11 L k 3#32) S1x50x64.size (k3_off11_inb L k 3) = rowRect (widL L) ⟨8 * k.val + 3, h⟩ :=
  rect_unit_congr (off11_eq3 L k)
theorem set_oRowK3 (k : Fin k3_t1_loop.trips) (h : 8 * k.val + 3 < 128) : (oRowK3 L k).view.set = rowSet (widL L) ⟨8 * k.val + 3, h⟩ := by
  show (((oW).view.slice (Rect.unit (s := S4096x50x64) (k3_off11 L k 3#32) S1x50x64.size (k3_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k3_off77 L 123#32) S1x50x64.size (k3_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k3_off77 L 123#32) S1x50x64.size (k3_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k3_t1_loop.trips) (h : 8 * k.val + 3 < 128) (f : Buf (Elt F) (out3Loc d)) :
    ((oRowK3 L k).view.loc (thr d L) ↦[(oRowK3 L k).view.set]{fullShare} f : sProp 𝕄) = out3Loc d ↦[rowSet (widL L) ⟨8 * k.val + 3, h⟩]{fullShare} f := by
  rw [set_oRowK3 L k h]
theorem pts_oRowE3 (h : 120 + 3 < 128) (f : Buf (Elt F) (out3Loc d)) :
    ((oRowE3 L).view.loc (thr d L) ↦[(oRowE3 L).view.set]{fullShare} f : sProp 𝕄) = out3Loc d ↦[rowSet (widL L) ⟨120 + 3, h⟩]{fullShare} f := by
  rw [set_oRowE3 L h]

/-- Row `8 k + 4` of the task's block, as trip `k` addresses it; row `124`, as the last group does. -/
abbrev oRowK4 (k : Fin k3_t1_loop.trips) : Memref sig .scVector .hbm S50x64 .f32 :=
  ((oW).slice (Rect.unit (s := S4096x50x64) (k3_off11 L k 4#32) S1x50x64.size (k3_off11_inb L k 4)) (fun _ => rfl)).squeeze S50x64 squeezes_S1x50x64_S50x64
abbrev oRowE4 : Memref sig .scVector .hbm S50x64 .f32 :=
  ((oW).slice (Rect.unit (s := S4096x50x64) (k3_off77 L 124#32) S1x50x64.size (k3_off77_inb L 4)) (fun _ => rfl)).squeeze S50x64 squeezes_S1x50x64_S50x64
theorem off11_eq4 (k : Fin k3_t1_loop.trips) : k3_off11 L k 4#32 = ![128 * (widL L).val + (8 * k.val + 4), 0, 0] :=
  (k3_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k3_off77 L 124#32 = ![128 * (widL L).val + (120 + 4), 0, 0] :=
  (k3_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k3_t1_loop.trips) (h : 8 * k.val + 4 < 128) :
    Rect.unit (s := S4096x50x64) (k3_off11 L k 4#32) S1x50x64.size (k3_off11_inb L k 4) = rowRect (widL L) ⟨8 * k.val + 4, h⟩ :=
  rect_unit_congr (off11_eq4 L k)
theorem set_oRowK4 (k : Fin k3_t1_loop.trips) (h : 8 * k.val + 4 < 128) : (oRowK4 L k).view.set = rowSet (widL L) ⟨8 * k.val + 4, h⟩ := by
  show (((oW).view.slice (Rect.unit (s := S4096x50x64) (k3_off11 L k 4#32) S1x50x64.size (k3_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k3_off77 L 124#32) S1x50x64.size (k3_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k3_off77 L 124#32) S1x50x64.size (k3_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k3_t1_loop.trips) (h : 8 * k.val + 4 < 128) (f : Buf (Elt F) (out3Loc d)) :
    ((oRowK4 L k).view.loc (thr d L) ↦[(oRowK4 L k).view.set]{fullShare} f : sProp 𝕄) = out3Loc d ↦[rowSet (widL L) ⟨8 * k.val + 4, h⟩]{fullShare} f := by
  rw [set_oRowK4 L k h]
theorem pts_oRowE4 (h : 120 + 4 < 128) (f : Buf (Elt F) (out3Loc d)) :
    ((oRowE4 L).view.loc (thr d L) ↦[(oRowE4 L).view.set]{fullShare} f : sProp 𝕄) = out3Loc d ↦[rowSet (widL L) ⟨120 + 4, h⟩]{fullShare} f := by
  rw [set_oRowE4 L h]

/-- Row `8 k + 5` of the task's block, as trip `k` addresses it; row `125`, as the last group does. -/
abbrev oRowK5 (k : Fin k3_t1_loop.trips) : Memref sig .scVector .hbm S50x64 .f32 :=
  ((oW).slice (Rect.unit (s := S4096x50x64) (k3_off11 L k 5#32) S1x50x64.size (k3_off11_inb L k 5)) (fun _ => rfl)).squeeze S50x64 squeezes_S1x50x64_S50x64
abbrev oRowE5 : Memref sig .scVector .hbm S50x64 .f32 :=
  ((oW).slice (Rect.unit (s := S4096x50x64) (k3_off77 L 125#32) S1x50x64.size (k3_off77_inb L 5)) (fun _ => rfl)).squeeze S50x64 squeezes_S1x50x64_S50x64
theorem off11_eq5 (k : Fin k3_t1_loop.trips) : k3_off11 L k 5#32 = ![128 * (widL L).val + (8 * k.val + 5), 0, 0] :=
  (k3_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k3_off77 L 125#32 = ![128 * (widL L).val + (120 + 5), 0, 0] :=
  (k3_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k3_t1_loop.trips) (h : 8 * k.val + 5 < 128) :
    Rect.unit (s := S4096x50x64) (k3_off11 L k 5#32) S1x50x64.size (k3_off11_inb L k 5) = rowRect (widL L) ⟨8 * k.val + 5, h⟩ :=
  rect_unit_congr (off11_eq5 L k)
theorem set_oRowK5 (k : Fin k3_t1_loop.trips) (h : 8 * k.val + 5 < 128) : (oRowK5 L k).view.set = rowSet (widL L) ⟨8 * k.val + 5, h⟩ := by
  show (((oW).view.slice (Rect.unit (s := S4096x50x64) (k3_off11 L k 5#32) S1x50x64.size (k3_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k3_off77 L 125#32) S1x50x64.size (k3_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k3_off77 L 125#32) S1x50x64.size (k3_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k3_t1_loop.trips) (h : 8 * k.val + 5 < 128) (f : Buf (Elt F) (out3Loc d)) :
    ((oRowK5 L k).view.loc (thr d L) ↦[(oRowK5 L k).view.set]{fullShare} f : sProp 𝕄) = out3Loc d ↦[rowSet (widL L) ⟨8 * k.val + 5, h⟩]{fullShare} f := by
  rw [set_oRowK5 L k h]
theorem pts_oRowE5 (h : 120 + 5 < 128) (f : Buf (Elt F) (out3Loc d)) :
    ((oRowE5 L).view.loc (thr d L) ↦[(oRowE5 L).view.set]{fullShare} f : sProp 𝕄) = out3Loc d ↦[rowSet (widL L) ⟨120 + 5, h⟩]{fullShare} f := by
  rw [set_oRowE5 L h]

/-- Row `8 k + 6` of the task's block, as trip `k` addresses it; row `126`, as the last group does. -/
abbrev oRowK6 (k : Fin k3_t1_loop.trips) : Memref sig .scVector .hbm S50x64 .f32 :=
  ((oW).slice (Rect.unit (s := S4096x50x64) (k3_off11 L k 6#32) S1x50x64.size (k3_off11_inb L k 6)) (fun _ => rfl)).squeeze S50x64 squeezes_S1x50x64_S50x64
abbrev oRowE6 : Memref sig .scVector .hbm S50x64 .f32 :=
  ((oW).slice (Rect.unit (s := S4096x50x64) (k3_off77 L 126#32) S1x50x64.size (k3_off77_inb L 6)) (fun _ => rfl)).squeeze S50x64 squeezes_S1x50x64_S50x64
theorem off11_eq6 (k : Fin k3_t1_loop.trips) : k3_off11 L k 6#32 = ![128 * (widL L).val + (8 * k.val + 6), 0, 0] :=
  (k3_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k3_off77 L 126#32 = ![128 * (widL L).val + (120 + 6), 0, 0] :=
  (k3_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k3_t1_loop.trips) (h : 8 * k.val + 6 < 128) :
    Rect.unit (s := S4096x50x64) (k3_off11 L k 6#32) S1x50x64.size (k3_off11_inb L k 6) = rowRect (widL L) ⟨8 * k.val + 6, h⟩ :=
  rect_unit_congr (off11_eq6 L k)
theorem set_oRowK6 (k : Fin k3_t1_loop.trips) (h : 8 * k.val + 6 < 128) : (oRowK6 L k).view.set = rowSet (widL L) ⟨8 * k.val + 6, h⟩ := by
  show (((oW).view.slice (Rect.unit (s := S4096x50x64) (k3_off11 L k 6#32) S1x50x64.size (k3_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k3_off77 L 126#32) S1x50x64.size (k3_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k3_off77 L 126#32) S1x50x64.size (k3_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k3_t1_loop.trips) (h : 8 * k.val + 6 < 128) (f : Buf (Elt F) (out3Loc d)) :
    ((oRowK6 L k).view.loc (thr d L) ↦[(oRowK6 L k).view.set]{fullShare} f : sProp 𝕄) = out3Loc d ↦[rowSet (widL L) ⟨8 * k.val + 6, h⟩]{fullShare} f := by
  rw [set_oRowK6 L k h]
theorem pts_oRowE6 (h : 120 + 6 < 128) (f : Buf (Elt F) (out3Loc d)) :
    ((oRowE6 L).view.loc (thr d L) ↦[(oRowE6 L).view.set]{fullShare} f : sProp 𝕄) = out3Loc d ↦[rowSet (widL L) ⟨120 + 6, h⟩]{fullShare} f := by
  rw [set_oRowE6 L h]

/-- Row `8 k + 7` of the task's block, as trip `k` addresses it; row `127`, as the last group does. -/
abbrev oRowK7 (k : Fin k3_t1_loop.trips) : Memref sig .scVector .hbm S50x64 .f32 :=
  ((oW).slice (Rect.unit (s := S4096x50x64) (k3_off11 L k 7#32) S1x50x64.size (k3_off11_inb L k 7)) (fun _ => rfl)).squeeze S50x64 squeezes_S1x50x64_S50x64
abbrev oRowE7 : Memref sig .scVector .hbm S50x64 .f32 :=
  ((oW).slice (Rect.unit (s := S4096x50x64) (k3_off77 L 127#32) S1x50x64.size (k3_off77_inb L 7)) (fun _ => rfl)).squeeze S50x64 squeezes_S1x50x64_S50x64
theorem off11_eq7 (k : Fin k3_t1_loop.trips) : k3_off11 L k 7#32 = ![128 * (widL L).val + (8 * k.val + 7), 0, 0] :=
  (k3_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k3_off77 L 127#32 = ![128 * (widL L).val + (120 + 7), 0, 0] :=
  (k3_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k3_t1_loop.trips) (h : 8 * k.val + 7 < 128) :
    Rect.unit (s := S4096x50x64) (k3_off11 L k 7#32) S1x50x64.size (k3_off11_inb L k 7) = rowRect (widL L) ⟨8 * k.val + 7, h⟩ :=
  rect_unit_congr (off11_eq7 L k)
theorem set_oRowK7 (k : Fin k3_t1_loop.trips) (h : 8 * k.val + 7 < 128) : (oRowK7 L k).view.set = rowSet (widL L) ⟨8 * k.val + 7, h⟩ := by
  show (((oW).view.slice (Rect.unit (s := S4096x50x64) (k3_off11 L k 7#32) S1x50x64.size (k3_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k3_off77 L 127#32) S1x50x64.size (k3_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k3_off77 L 127#32) S1x50x64.size (k3_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k3_t1_loop.trips) (h : 8 * k.val + 7 < 128) (f : Buf (Elt F) (out3Loc d)) :
    ((oRowK7 L k).view.loc (thr d L) ↦[(oRowK7 L k).view.set]{fullShare} f : sProp 𝕄) = out3Loc d ↦[rowSet (widL L) ⟨8 * k.val + 7, h⟩]{fullShare} f := by
  rw [set_oRowK7 L k h]
theorem pts_oRowE7 (h : 120 + 7 < 128) (f : Buf (Elt F) (out3Loc d)) :
    ((oRowE7 L).view.loc (thr d L) ↦[(oRowE7 L).view.set]{fullShare} f : sProp 𝕄) = out3Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc3_scratch3.sem (sh32 (widL L)).left.left.left fullShare.left.left.left ft fi
      ∗ GFl d L ![1, 0, 0] inb_S8x56x128_S1x50x128_1_0_0 cc3_scratch4.sem (sh32 (widL L)).left.left.right fullShare.left.left.right ft fi
      ∗ GFl d L ![2, 0, 0] inb_S8x56x128_S1x50x128_2_0_0 cc3_scratch5.sem (sh32 (widL L)).left.right.left fullShare.left.right.left ft fi
      ∗ GFl d L ![3, 0, 0] inb_S8x56x128_S1x50x128_3_0_0 cc3_scratch6.sem (sh32 (widL L)).left.right.right fullShare.left.right.right ft fi
      ∗ GFl d L ![4, 0, 0] inb_S8x56x128_S1x50x128_4_0_0 cc3_scratch7.sem (sh32 (widL L)).right.left.left fullShare.right.left.left ft fi
      ∗ GFl d L ![5, 0, 0] inb_S8x56x128_S1x50x128_5_0_0 cc3_scratch8.sem (sh32 (widL L)).right.left.right fullShare.right.left.right ft fi
      ∗ GFl d L ![6, 0, 0] inb_S8x56x128_S1x50x128_6_0_0 cc3_scratch9.sem (sh32 (widL L)).right.right.left fullShare.right.right.left ft fi
      ∗ GFl d L ![7, 0, 0] inb_S8x56x128_S1x50x128_7_0_0 cc3_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc3_scratch11.sem) 0 ∗ semVal (thr d L, SemLoc.dma cc3_scratch12.sem) 0 ∗ semVal (thr d L, SemLoc.dma cc3_scratch13.sem) 0 ∗ semVal (thr d L, SemLoc.dma cc3_scratch14.sem) 0 ∗ semVal (thr d L, SemLoc.dma cc3_scratch15.sem) 0 ∗ semVal (thr d L, SemLoc.dma cc3_scratch16.sem) 0 ∗ semVal (thr d L, SemLoc.dma cc3_scratch17.sem) 0 ∗ semVal (thr d L, SemLoc.dma cc3_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k3_t1_loop.trips) (u : Unit) :
    (INV d L ft fi O W kt.val u : sProp 𝕄) ⊢ wp frame (wpE (defs₀ (F := F)) 𝒱₀ (thr d L) none) Set.univ
        (k3_t1_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 kt u) (INV d L ft fi O W (kt.val + 1)) := by
  unfold INV k3_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc3_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc3_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc3_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc3_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc3_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc3_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc3_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc3_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k3_off68 kt 0#32) (inb := k3_off68_inb kt 0) (sem := cc3_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k3_off68 kt 1#32) (inb := k3_off68_inb kt 1) (sem := cc3_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k3_off68 kt 2#32) (inb := k3_off68_inb kt 2) (sem := cc3_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k3_off68 kt 3#32) (inb := k3_off68_inb kt 3) (sem := cc3_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k3_off68 kt 4#32) (inb := k3_off68_inb kt 4) (sem := cc3_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k3_off68 kt 5#32) (inb := k3_off68_inb kt 5) (sem := cc3_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k3_off68 kt 6#32) (inb := k3_off68_inb kt 6) (sem := cc3_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k3_off68 kt 7#32) (inb := k3_off68_inb kt 7) (sem := cc3_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the fourth gather call: it ends, faults nowhere, leaves every one of its semaphores at zero
    and hands back the two read shares unchanged and its 128 result rows at some contents. -/
theorem tile_body3 (hF : (K (F := F)).Facts) (hcats : ∀ j, (m (catsLoc d) j).toNat < 100000)
    (ft : Buf (Elt F) (tpadLoc d)) (f0 : Buf (Elt F) (out3Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk3 d (widL L) f0)
        ∗ scopedBufs (thr d L) ∗ scopedSems0 (thr d L) ∗ owes (thr d L) O W)
      ⊢ (wp frame (wpE (defs₀ (F := F)) 𝒱₀ (thr d L) none) Set.univ
          (cc3_gk L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0)
          fun _ => iprop((catsSh m d (widL L) ∗ tpadSh d (widL L) ft ∗ ∃ f, outBlk3 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc3_gk_eq_skeleton]; unfold cc3_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body3.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body3.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc3_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc3_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc3_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc3_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc3_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc3_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc3_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc3_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body3.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc3_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc3_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc3_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc3_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc3_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc3_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc3_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc3_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body3.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.BTile3

end
-- ==== Proof.TileBodiesB.lean ====
/-
  The four gather tasks' bodies, in the form the launch uses them.
-/
import proofs.«204056_g19739669692900_cont_8to1_1488_31_alg».proof.Proof.TileOblB
import proofs.«204056_g19739669692900_cont_8to1_1488_31_alg».proof.Proof.TileBody0B
import proofs.«204056_g19739669692900_cont_8to1_1488_31_alg».proof.Proof.TileBody1B
import proofs.«204056_g19739669692900_cont_8to1_1488_31_alg».proof.Proof.TileBody2B
import proofs.«204056_g19739669692900_cont_8to1_1488_31_alg».proof.Proof.TileBody3B

noncomputable section

namespace Cert.Proof.LaunchB

open Cert.Kernel Cert.Kernel.Gen
open Idealize.ShloMosaic
open Idealize.ShloMosaic.SparseCore.Cfg (HIx)
open Idealize.SL Idealize.SL.RA

variable {F : FTy → Type} [FloatOps F]
variable {UU : Type} [URA UU] [CountersIn UU]
variable (m : (ℓ : Loc nD τ sig) → Buf (Elt F) ℓ)

theorem tileBody0 : TileBody0 (F := F) (UU := UU) m :=
  fun d hc L ft f0 O W hO => Cert.Proof.BTile0.tile_body0 m d L facts hc ft f0 O W hO

theorem tileBody1 : TileBody1 (F := F) (UU := UU) m :=
  fun d hc L ft f0 O W hO => Cert.Proof.BTile1.tile_body1 m d L facts hc ft f0 O W hO

theorem tileBody2 : TileBody2 (F := F) (UU := UU) m :=
  fun d hc L ft f0 O W hO => Cert.Proof.BTile2.tile_body2 m d L facts hc ft f0 O W hO

theorem tileBody3 : TileBody3 (F := F) (UU := UU) m :=
  fun d hc L ft f0 O W hO => Cert.Proof.BTile3.tile_body3 m d L facts hc ft f0 O W hO

end Cert.Proof.LaunchB

end
-- ==== Proof.LaunchPayV.lean ====
/-
  What the handshakes carry, with the gathered values.

  As in the frame's record, but what a task hands back says what it wrote: row `128 w + r` of gather call `q`'s
  result holds, in its 64 lanes, the first 64 lanes of the padded table's row named by index word
  `categories[4096 q + 128 w + r, l]`. The table row is named through the signed, clamped reading of the word;
  under the precondition that is the word's own value.
-/
import proofs.«204056_g19739669692900_cont_8to1_1488_31_alg».proof.Proof.LaunchPay
import proofs.«204056_g19739669692900_cont_8to1_1488_31_alg».proof.Proof.Spec

noncomputable section

namespace Cert.Proof.LaunchI

open Cert.KernelIdeal Cert.KernelIdeal.Gen
open Cert.Proof.Shares

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

/-- Rows `128 w … 128 w + 127` of gather call `q`'s result `f` are the table rows the call's index rows name. -/
def GatherBlk (q : Fin 4) (w : Fin 32) (cats : IVec S16384x50 32) (ft : FVec F S100000x128 .f32) (f : FVec F S4096x50x64 .f32) : Prop :=
  ∀ (r : Fin 128) (l : Fin 50) (e : Fin 64),
    f (ix3 (⟨128 * w.val + r.val, by omega⟩ : Fin 4096) l e)
      = ft (ix2 (Cert.Spec.rowOf (cats (ix2 (⟨4096 * q.val + (128 * w.val + r.val), by omega⟩ : Fin 16384) l))) (Fin.castLE (by decide) e))

/-- The whole result `f` of gather call `q` is the table rows its 4096 index rows name. -/
def GatherAll (q : Fin 4) (cats : IVec S16384x50 32) (ft : FVec F S100000x128 .f32) (f : FVec F S4096x50x64 .f32) : Prop :=
  ∀ (b' : Fin 4096) (l : Fin 50) (e : Fin 64),
    f (ix3 b' l e) = ft (ix2 (Cert.Spec.rowOf (cats (ix2 (⟨4096 * q.val + b'.val, by omega⟩ : Fin 16384) l))) (Fin.castLE (by decide) e))

/-- The 32 blocks' statements are the whole result's. -/
theorem gatherAll_of_blks (q : Fin 4) (cats : IVec S16384x50 32) (ft : FVec F S100000x128 .f32) (f : FVec F S4096x50x64 .f32)
    (h : ∀ w : Fin 32, GatherBlk q w cats ft f) : GatherAll q cats ft f := by
  intro b' l e
  have hb := b'.isLt
  have h1 := h ⟨b'.val / 128, by omega⟩ ⟨b'.val % 128, by omega⟩ l e
  have key : ∀ (a : Fin 4096) (c : Fin 16384), a.val = b'.val → c.val = 4096 * q.val + b'.val →
      f (ix3 a l e) = ft (ix2 (Cert.Spec.rowOf (cats (ix2 c l))) (Fin.castLE (by decide) e)) →
      f (ix3 b' l e) = ft (ix2 (Cert.Spec.rowOf (cats (ix2 (⟨4096 * q.val + b'.val, by omega⟩ : Fin 16384) l))) (Fin.castLE (by decide) e)) := by
    intro a c ha hc hh
    have ea : a = b' := Fin.ext ha
    have ec : c = (⟨4096 * q.val + b'.val, by omega⟩ : Fin 16384) := Fin.ext hc
    rw [ea, ec] at hh
    exact hh
  exact key _ _ (by show 128 * (b'.val / 128) + b'.val % 128 = b'.val; omega)
    (by show 4096 * q.val + (128 * (b'.val / 128) + b'.val % 128) = 4096 * q.val + b'.val; omega) h1

variable (m : (ℓ : Loc nD τ sig) → Buf (Elt F) ℓ)
-- the padded table's contents when the gather calls run
variable (ft : (d : Dev nD) → Buf (Elt F) (tpadLoc d))

/-- What a task hands back, with what it wrote. -/
def tdResV (q : Fin 4) (d : Dev nD) (c : Fin ((K (F := F)).nCore q)) (i : Fin ((K (F := F)).nSub q)) : sProp 𝕄 :=
  match q, c, i with
  | 0, c, i => iprop(catsSh m d (wid c i) ∗ tpadSh d (wid c i) (ft d) ∗ ∃ f, ⌜GatherBlk 0 (wid c i) (m (catsLoc d)) (ft d) f⌝ ∗ outBlk0 d (wid c i) f)
  | 1, c, i => iprop(catsSh m d (wid c i) ∗ tpadSh d (wid c i) (ft d) ∗ ∃ f, ⌜GatherBlk 1 (wid c i) (m (catsLoc d)) (ft d) f⌝ ∗ outBlk1 d (wid c i) f)
  | 2, c, i => iprop(catsSh m d (wid c i) ∗ tpadSh d (wid c i) (ft d) ∗ ∃ f, ⌜GatherBlk 2 (wid c i) (m (catsLoc d)) (ft d) f⌝ ∗ outBlk2 d (wid c i) f)
  | 3, c, i => iprop(catsSh m d (wid c i) ∗ tpadSh d (wid c i) (ft d) ∗ ∃ f, ⌜GatherBlk 3 (wid c i) (m (catsLoc d)) (ft d) f⌝ ∗ outBlk3 d (wid c i) f)

/-- The handshakes' payloads, the tasks' results with what they hold. -/
def PV : (K (F := F)).Pay (nD := nD) (Val := Elt F) (Name := ℕ) (U := UU) where
  st := fun q d c => bigSep Finset.univ fun i : Fin ((K (F := F)).nSub q) => goRes m ft q d c i
  dn := fun q d c => bigSep Finset.univ fun i : Fin ((K (F := F)).nSub q) => tdResV m ft q d c i
  go := fun q d c i => goRes m ft q d c i
  td := fun q d c i => tdResV m ft q d c i
  x := fun _ _ => iprop(emp)

theorem vecSplitV (q : Fin 4) : (K (F := F)).VecSplit' (PV (UU := UU) m ft) q := by
  intro d c
  show (bigSep Finset.univ fun i : Fin ((K (F := F)).nSub q) => goRes m ft q d c i)
    ⊢ |={Set.univ}=> iprop((bigSep Finset.univ fun i : Fin ((K (F := F)).nSub q) => goRes m ft q d c i)
      ∗ ((bigSep Finset.univ fun i : Fin ((K (F := F)).nSub q) => tdResV m ft q d c i)
        -∗ bigSep Finset.univ fun i : Fin ((K (F := F)).nSub q) => tdResV m ft q d c i))
  iintro H; imodintro
  isplitl [H]; · iexact H
  iintro H; iexact H

end Cert.Proof.LaunchI

end
-- ==== Proof.TileOblV.lean ====
/-
  A task's proof with what it writes, in the launch theorem's spelling.

  The same wrapping as for the frame, for the record whose taskDone payload says what the task's block holds.
  A task proved with that statement is in particular a task proved without it.
-/
import proofs.«204056_g19739669692900_cont_8to1_1488_31_alg».proof.Proof.TileObl
import proofs.«204056_g19739669692900_cont_8to1_1488_31_alg».proof.Proof.LaunchPayV

noncomputable section

namespace Cert.Proof.LaunchI

open Cert.KernelIdeal Cert.KernelIdeal.Gen
open Cert.Proof.Shares

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

variable [FloatOps F]
variable (m : (ℓ : Loc nD τ sig) → Buf (Elt F) ℓ)

/-! ## Call 0 -/

/-- One task of call 0 at a symbolic subcore, with what it writes: its block ends holding the padded table's
    rows that its 128 index rows name. -/
def TileBodyV0 : Prop :=
  ∀ (d : Dev nD), (∀ j, (m (catsLoc d) j).toNat < 100000) → ∀ (L : grid0.Coords) (ft : Buf (Elt F) (tpadLoc d)) (f0 : Buf (Elt F) (out0Loc d))
    (O : CellTallies nD τ sig (HIx 4)) (W : Waits sig (HIx 4)), (∀ g, O g none = 0) →
    iprop(levAts (K (F := F)).L (K (F := F)).lev ∗ emp
        ∗ (catsSh m d (widL0 L) ∗ tpadSh d (widL0 L) ft ∗ outBlk0 d (widL0 L) f0)
        ∗ scopedBufs (V d (cV0 L) (jV0 L)) ∗ scopedSems0 (V d (cV0 L) (jV0 L)) ∗ owes (V d (cV0 L) (jV0 L)) O W)
      ⊢ wp frame (wpE (defs₀ (F := F)) 𝒱₀ (V d (cV0 L) (jV0 L)) none) Set.univ
          (cc0_gk L (Memref.whole main_v0_scv) (Memref.isWhole_whole _) (Memref.whole main_arg0_scv) (Memref.isWhole_whole _) (Memref.whole main_v3_scv) (Memref.isWhole_whole _) (Memref.whole cc0_scratch0) (Memref.isWhole_whole _) (Memref.whole cc0_scratch1) (Memref.isWhole_whole _) (Memref.whole cc0_scratch2) (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0)
          fun _ => (iprop((catsSh m d (widL0 L) ∗ tpadSh d (widL0 L) ft
              ∗ ∃ f, ⌜GatherBlk (F := F) 0 (widL0 L) (m (catsLoc d)) ft f⌝ ∗ outBlk0 d (widL0 L) f)
            ∗ scopedBufs (V d (cV0 L) (jV0 L)) ∗ scopedSems0 (V d (cV0 L) (jV0 L))
            ∗ ∃ W', ⌜∀ p ∈ W', p ∈ W ∨ p.2 = none⌝ ∗ owes (V d (cV0 L) (jV0 L)) O W') : sProp 𝕄)

set_option maxRecDepth 16384 in
theorem tileOblV0 (ft : (d : Dev nD) → Buf (Elt F) (tpadLoc d)) (hcats : ∀ d j, (m (catsLoc d) j).toNat < 100000)
    (hbody : TileBodyV0 (F := F) (UU := UU) m) :
    (K (F := F)).TileObl (D (F := F)) 𝒱 (PV (UU := UU) m ft) v₀ 0 := by
  intro d c i O W hO _ _
  simp only [show (PV (UU := UU) m ft).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (hbody d (hcats d) (coordsV0 ⟨_, hci.1⟩ ⟨_, hci.2⟩) (ft d) (m (out0Loc d)) O W hO).trans (wp_mono frame _ _ fun _ => obl_post)

/-- A task that says what it wrote is a task. -/
theorem tileBody0_of_V (h : TileBodyV0 (F := F) (UU := UU) m) : TileBody0 (F := F) (UU := UU) m := by
  intro d hc L ft f0 O W hO
  refine (h d hc L ft f0 O W hO).trans (wp_mono frame _ _ fun _ => ?_)
  iintro ⟨⟨Hc, Ht, %f, -, Ho⟩, Hrest⟩
  isplitl [Hc Ht Ho]
  · isplitl [Hc]; · iexact Hc
    isplitl [Ht]; · iexact Ht
    iexists f; iexact Ho
  · iexact Hrest

/-! ## Call 1 -/

/-- One task of call 1 at a symbolic subcore, with what it writes: its block ends holding the padded table's
    rows that its 128 index rows name. -/
def TileBodyV1 : Prop :=
  ∀ (d : Dev nD), (∀ j, (m (catsLoc d) j).toNat < 100000) → ∀ (L : grid1.Coords) (ft : Buf (Elt F) (tpadLoc d)) (f0 : Buf (Elt F) (out1Loc d))
    (O : CellTallies nD τ sig (HIx 4)) (W : Waits sig (HIx 4)), (∀ g, O g none = 0) →
    iprop(levAts (K (F := F)).L (K (F := F)).lev ∗ emp
        ∗ (catsSh m d (widL1 L) ∗ tpadSh d (widL1 L) ft ∗ outBlk1 d (widL1 L) f0)
        ∗ scopedBufs (V d (cV1 L) (jV1 L)) ∗ scopedSems0 (V d (cV1 L) (jV1 L)) ∗ owes (V d (cV1 L) (jV1 L)) O W)
      ⊢ wp frame (wpE (defs₀ (F := F)) 𝒱₀ (V d (cV1 L) (jV1 L)) none) Set.univ
          (cc1_gk L (Memref.whole main_v0_scv) (Memref.isWhole_whole _) (Memref.whole main_arg0_scv) (Memref.isWhole_whole _) (Memref.whole main_v4_scv) (Memref.isWhole_whole _) (Memref.whole cc1_scratch0) (Memref.isWhole_whole _) (Memref.whole cc1_scratch1) (Memref.isWhole_whole _) (Memref.whole cc1_scratch2) (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0)
          fun _ => (iprop((catsSh m d (widL1 L) ∗ tpadSh d (widL1 L) ft
              ∗ ∃ f, ⌜GatherBlk (F := F) 1 (widL1 L) (m (catsLoc d)) ft f⌝ ∗ outBlk1 d (widL1 L) f)
            ∗ scopedBufs (V d (cV1 L) (jV1 L)) ∗ scopedSems0 (V d (cV1 L) (jV1 L))
            ∗ ∃ W', ⌜∀ p ∈ W', p ∈ W ∨ p.2 = none⌝ ∗ owes (V d (cV1 L) (jV1 L)) O W') : sProp 𝕄)

set_option maxRecDepth 16384 in
theorem tileOblV1 (ft : (d : Dev nD) → Buf (Elt F) (tpadLoc d)) (hcats : ∀ d j, (m (catsLoc d) j).toNat < 100000)
    (hbody : TileBodyV1 (F := F) (UU := UU) m) :
    (K (F := F)).TileObl (D (F := F)) 𝒱 (PV (UU := UU) m ft) v₀ 1 := by
  intro d c i O W hO _ _
  simp only [show (PV (UU := UU) m ft).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (hbody d (hcats d) (coordsV1 ⟨_, hci.1⟩ ⟨_, hci.2⟩) (ft d) (m (out1Loc d)) O W hO).trans (wp_mono frame _ _ fun _ => obl_post)

/-- A task that says what it wrote is a task. -/
theorem tileBody1_of_V (h : TileBodyV1 (F := F) (UU := UU) m) : TileBody1 (F := F) (UU := UU) m := by
  intro d hc L ft f0 O W hO
  refine (h d hc L ft f0 O W hO).trans (wp_mono frame _ _ fun _ => ?_)
  iintro ⟨⟨Hc, Ht, %f, -, Ho⟩, Hrest⟩
  isplitl [Hc Ht Ho]
  · isplitl [Hc]; · iexact Hc
    isplitl [Ht]; · iexact Ht
    iexists f; iexact Ho
  · iexact Hrest

/-! ## Call 2 -/

/-- One task of call 2 at a symbolic subcore, with what it writes: its block ends holding the padded table's
    rows that its 128 index rows name. -/
def TileBodyV2 : Prop :=
  ∀ (d : Dev nD), (∀ j, (m (catsLoc d) j).toNat < 100000) → ∀ (L : grid2.Coords) (ft : Buf (Elt F) (tpadLoc d)) (f0 : Buf (Elt F) (out2Loc d))
    (O : CellTallies nD τ sig (HIx 4)) (W : Waits sig (HIx 4)), (∀ g, O g none = 0) →
    iprop(levAts (K (F := F)).L (K (F := F)).lev ∗ emp
        ∗ (catsSh m d (widL2 L) ∗ tpadSh d (widL2 L) ft ∗ outBlk2 d (widL2 L) f0)
        ∗ scopedBufs (V d (cV2 L) (jV2 L)) ∗ scopedSems0 (V d (cV2 L) (jV2 L)) ∗ owes (V d (cV2 L) (jV2 L)) O W)
      ⊢ wp frame (wpE (defs₀ (F := F)) 𝒱₀ (V d (cV2 L) (jV2 L)) none) Set.univ
          (cc2_gk L (Memref.whole main_v0_scv) (Memref.isWhole_whole _) (Memref.whole main_arg0_scv) (Memref.isWhole_whole _) (Memref.whole main_v5_scv) (Memref.isWhole_whole _) (Memref.whole cc2_scratch0) (Memref.isWhole_whole _) (Memref.whole cc2_scratch1) (Memref.isWhole_whole _) (Memref.whole cc2_scratch2) (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0)
          fun _ => (iprop((catsSh m d (widL2 L) ∗ tpadSh d (widL2 L) ft
              ∗ ∃ f, ⌜GatherBlk (F := F) 2 (widL2 L) (m (catsLoc d)) ft f⌝ ∗ outBlk2 d (widL2 L) f)
            ∗ scopedBufs (V d (cV2 L) (jV2 L)) ∗ scopedSems0 (V d (cV2 L) (jV2 L))
            ∗ ∃ W', ⌜∀ p ∈ W', p ∈ W ∨ p.2 = none⌝ ∗ owes (V d (cV2 L) (jV2 L)) O W') : sProp 𝕄)

set_option maxRecDepth 16384 in
theorem tileOblV2 (ft : (d : Dev nD) → Buf (Elt F) (tpadLoc d)) (hcats : ∀ d j, (m (catsLoc d) j).toNat < 100000)
    (hbody : TileBodyV2 (F := F) (UU := UU) m) :
    (K (F := F)).TileObl (D (F := F)) 𝒱 (PV (UU := UU) m ft) v₀ 2 := by
  intro d c i O W hO _ _
  simp only [show (PV (UU := UU) m ft).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (hbody d (hcats d) (coordsV2 ⟨_, hci.1⟩ ⟨_, hci.2⟩) (ft d) (m (out2Loc d)) O W hO).trans (wp_mono frame _ _ fun _ => obl_post)

/-- A task that says what it wrote is a task. -/
theorem tileBody2_of_V (h : TileBodyV2 (F := F) (UU := UU) m) : TileBody2 (F := F) (UU := UU) m := by
  intro d hc L ft f0 O W hO
  refine (h d hc L ft f0 O W hO).trans (wp_mono frame _ _ fun _ => ?_)
  iintro ⟨⟨Hc, Ht, %f, -, Ho⟩, Hrest⟩
  isplitl [Hc Ht Ho]
  · isplitl [Hc]; · iexact Hc
    isplitl [Ht]; · iexact Ht
    iexists f; iexact Ho
  · iexact Hrest

/-! ## Call 3 -/

/-- One task of call 3 at a symbolic subcore, with what it writes: its block ends holding the padded table's
    rows that its 128 index rows name. -/
def TileBodyV3 : Prop :=
  ∀ (d : Dev nD), (∀ j, (m (catsLoc d) j).toNat < 100000) → ∀ (L : grid3.Coords) (ft : Buf (Elt F) (tpadLoc d)) (f0 : Buf (Elt F) (out3Loc d))
    (O : CellTallies nD τ sig (HIx 4)) (W : Waits sig (HIx 4)), (∀ g, O g none = 0) →
    iprop(levAts (K (F := F)).L (K (F := F)).lev ∗ emp
        ∗ (catsSh m d (widL3 L) ∗ tpadSh d (widL3 L) ft ∗ outBlk3 d (widL3 L) f0)
        ∗ scopedBufs (V d (cV3 L) (jV3 L)) ∗ scopedSems0 (V d (cV3 L) (jV3 L)) ∗ owes (V d (cV3 L) (jV3 L)) O W)
      ⊢ wp frame (wpE (defs₀ (F := F)) 𝒱₀ (V d (cV3 L) (jV3 L)) none) Set.univ
          (cc3_gk L (Memref.whole main_v0_scv) (Memref.isWhole_whole _) (Memref.whole main_arg0_scv) (Memref.isWhole_whole _) (Memref.whole main_v6_scv) (Memref.isWhole_whole _) (Memref.whole cc3_scratch0) (Memref.isWhole_whole _) (Memref.whole cc3_scratch1) (Memref.isWhole_whole _) (Memref.whole cc3_scratch2) (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0)
          fun _ => (iprop((catsSh m d (widL3 L) ∗ tpadSh d (widL3 L) ft
              ∗ ∃ f, ⌜GatherBlk (F := F) 3 (widL3 L) (m (catsLoc d)) ft f⌝ ∗ outBlk3 d (widL3 L) f)
            ∗ scopedBufs (V d (cV3 L) (jV3 L)) ∗ scopedSems0 (V d (cV3 L) (jV3 L))
            ∗ ∃ W', ⌜∀ p ∈ W', p ∈ W ∨ p.2 = none⌝ ∗ owes (V d (cV3 L) (jV3 L)) O W') : sProp 𝕄)

set_option maxRecDepth 16384 in
theorem tileOblV3 (ft : (d : Dev nD) → Buf (Elt F) (tpadLoc d)) (hcats : ∀ d j, (m (catsLoc d) j).toNat < 100000)
    (hbody : TileBodyV3 (F := F) (UU := UU) m) :
    (K (F := F)).TileObl (D (F := F)) 𝒱 (PV (UU := UU) m ft) v₀ 3 := by
  intro d c i O W hO _ _
  simp only [show (PV (UU := UU) m ft).ox = fun _ _ => 0 from rfl, add_zero]
  have hci : ((K (F := F)).core 3 c).val < grid3.bound 0 ∧ ((K (F := F)).sub 3 i).val < grid3.bound 1 := ⟨c.isLt, i.isLt⟩
  change _ ⊢ wp _ _ _ (Pipeline.liftProg (defs₀ (F := F) (.scVector ((K (F := F)).core 3 c) ((K (F := F)).sub 3 i)) 3 ())) _
  refine BI.Entails.trans ?_ (Pipeline.wp_liftProg (D (F := F)) (Pipeline.defs_kernel pcfgs defs₀) 𝒱₀ _ Set.univ none _ _)
  rw [defs₀_vector3]; simp only [SparseCore.onTile, hci, and_self, ↓reduceDIte]
  exact (hbody d (hcats d) (coordsV3 ⟨_, hci.1⟩ ⟨_, hci.2⟩) (ft d) (m (out3Loc d)) O W hO).trans (wp_mono frame _ _ fun _ => obl_post)

/-- A task that says what it wrote is a task. -/
theorem tileBody3_of_V (h : TileBodyV3 (F := F) (UU := UU) m) : TileBody3 (F := F) (UU := UU) m := by
  intro d hc L ft f0 O W hO
  refine (h d hc L ft f0 O W hO).trans (wp_mono frame _ _ fun _ => ?_)
  iintro ⟨⟨Hc, Ht, %f, -, Ho⟩, Hrest⟩
  isplitl [Hc Ht Ho]
  · isplitl [Hc]; · iexact Hc
    isplitl [Ht]; · iexact Ht
    iexists f; iexact Ho
  · iexact Hrest

end Cert.Proof.LaunchI

end
-- ==== Proof.TileCommon.lean ====
/-
  One vector subcore's task of the first gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefs

noncomputable section

namespace Cert.Proof.Tile0

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-! ## The task's thread, its scratch buffers and its semaphores -/

section Common

variable (d : Dev nD) (L : grid0.Coords)

omit [URA UU] [CountersIn UU] in
theorem bound_zero : grid0.bound 0 = 2 := rfl
omit [URA UU] [CountersIn UU] in
theorem bound_one : grid0.bound 1 = 16 := rfl

/-- The worker number of the subcore at grid coordinates `L`: `2 s + c`. -/
abbrev widL (L : grid0.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc0_scoped0.sem, SemLoc.dma cc0_scratch3.sem, SemLoc.dma cc0_scratch4.sem, SemLoc.dma cc0_scratch5.sem, SemLoc.dma cc0_scratch6.sem, SemLoc.dma cc0_scratch7.sem, SemLoc.dma cc0_scratch8.sem, SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scratch15.sem, SemLoc.dma cc0_scratch16.sem, SemLoc.dma cc0_scratch17.sem, SemLoc.dma cc0_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc0_scoped0.sem) 0 ∗ semVal (thr d L, SemLoc.dma cc0_scratch3.sem) 0 ∗ semVal (thr d L, SemLoc.dma cc0_scratch4.sem) 0 ∗ semVal (thr d L, SemLoc.dma cc0_scratch5.sem) 0 ∗ semVal (thr d L, SemLoc.dma cc0_scratch6.sem) 0 ∗ semVal (thr d L, SemLoc.dma cc0_scratch7.sem) 0 ∗ semVal (thr d L, SemLoc.dma cc0_scratch8.sem) 0 ∗ semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scratch17.sem) 0 ∗ semVal (thr d L, SemLoc.dma cc0_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc0_scratch0 ↦{fullShare} f) ∗ (∃ f, (thr d L).loc cc0_scratch1 ↦{fullShare} f) ∗ (∃ f, (thr d L).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
        SparseCore.Cfg.mem_ownRefs_of_owner (p := Proc.scVector (cV L) (jV L)) (b := (Proc.scVector (cV L) (jV L)).devRef cc0_scratch2) rfl⟩⟩)]

end Common

section Pts

variable (m : (ℓ : Loc nD τ sig) → Buf (Elt F) ℓ) (d : Dev nD) (L : grid0.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out0Loc d)) :
    ((oW).view.loc (thr d L) ↦[I]{fullShare} f : sProp 𝕄) = out0Loc d ↦[I]{fullShare} f := rfl
theorem pts_iW (f : Buf (Elt F) ((thr d L).loc cc0_scratch0)) :
    ((iW).view.loc (thr d L) ↦{fullShare} f : sProp 𝕄) = (thr d L).loc cc0_scratch0 ↦{fullShare} f := rfl
theorem pts_bW (f : Buf (Elt F) ((thr d L).loc cc0_scratch1)) :
    ((bW).view.loc (thr d L) ↦{fullShare} f : sProp 𝕄) = (thr d L).loc cc0_scratch1 ↦{fullShare} f := rfl
theorem pts_pW (f : Buf (Elt F) ((thr d L).loc cc0_scratch2)) :
    ((pW).view.loc (thr d L) ↦{fullShare} f : sProp 𝕄) = (thr d L).loc cc0_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v3_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet0 w := by
  rw [blkSet0_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out0Loc d)) :
    (out0Loc d ↦[blkSet0 w]{fullShare} f : sProp 𝕄) = bigSep Finset.univ fun j : Fin 128 => out0Loc d ↦[rowSet w j]{fullShare} f := by
  rw [← pointsTo_biUnion Finset.univ (ℓ := out0Loc d) (rowSet w) (rows_disjoint w), rows_cover]

/-- The rows, each at some contents. -/
abbrev outRows (w : Fin 32) : sProp 𝕄 := bigSep Finset.univ fun j : Fin 128 => iprop(∃ f, out0Loc d ↦[rowSet w j]{fullShare} f)

theorem outRows_intro (w : Fin 32) (f : Buf (Elt F) (out0Loc d)) : (out0Loc d ↦[blkSet0 w]{fullShare} f : sProp 𝕄) ⊢ outRows d w := by
  rw [outBlk_rows]
  refine bigSep_mono fun j _ => (show (out0Loc d ↦[rowSet w j]{fullShare} f : sProp 𝕄) ⊢ iprop(∃ f, out0Loc d ↦[rowSet w j]{fullShare} f) from ?_)
  iintro H; iexists f; iexact H

set_option maxRecDepth 4096 in
theorem outRows_join (w : Fin 32) (f0 : Buf (Elt F) (out0Loc d)) : (outRows d w : sProp 𝕄) ⊢ iprop(∃ f, out0Loc d ↦[blkSet0 w]{fullShare} f) := by
  haveI : Nonempty (Buf (Elt F) (out0Loc d)) := ⟨f0⟩
  refine (bigSep_exists_pi Finset.univ (fun j (f : Buf (Elt F) (out0Loc d)) => (out0Loc d ↦[rowSet w j]{fullShare} f : sProp 𝕄))).trans ?_
  iintro ⟨%fs, H⟩
  ihave H' := (pointsTo_biUnion_join (ℓ := out0Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out0Loc d ↦[rowSet w ⟨b + 0, by omega⟩]{fullShare} f) ∗ (∃ f, out0Loc d ↦[rowSet w ⟨b + 1, by omega⟩]{fullShare} f) ∗ (∃ f, out0Loc d ↦[rowSet w ⟨b + 2, by omega⟩]{fullShare} f) ∗ (∃ f, out0Loc d ↦[rowSet w ⟨b + 3, by omega⟩]{fullShare} f) ∗ (∃ f, out0Loc d ↦[rowSet w ⟨b + 4, by omega⟩]{fullShare} f) ∗ (∃ f, out0Loc d ↦[rowSet w ⟨b + 5, by omega⟩]{fullShare} f) ∗ (∃ f, out0Loc d ↦[rowSet w ⟨b + 6, by omega⟩]{fullShare} f) ∗ (∃ f, out0Loc d ↦[rowSet w ⟨b + 7, by omega⟩]{fullShare} f))
          ∗ bigSep (Finset.univ \ Finset.univ.map (grpEmb b hb)) fun j : Fin 128 => iprop(∃ f, out0Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid0.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc0_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc0_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.Tile0

end
-- ==== Proof.TileRepack.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon
import proofs.«204056_g19739669692900_cont_8to1_1488_31_alg».proof.Proof.Gen.KernelIdeal.Skeleton

noncomputable section

namespace Cert.Proof.Tile0

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

section Repack

variable (d : Dev nD) (L : grid0.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k0_t1 : Fin k0_t1_loop.trips) (k : Fin k0_t2_loop.trips) (u : Unit) :
    (RInv0 d L : sProp 𝕄) ⊢ wp frame (wpE (defs₀ (F := F)) 𝒱₀ (thr d L) none) Set.univ
        (k0_t2_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 c0_i32_51 c1_i32_52 k0_t1 k u) (fun _ => RInv0 d L) := by
  unfold k0_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k0_t1 : Fin k0_t1_loop.trips) (arg24 : BitVec 32) (v255 : BitVec 32) (k : Fin k0_t3_loop.trips) (u : Unit) :
    (RInv1 d L : sProp 𝕄) ⊢ wp frame (wpE (defs₀ (F := F)) 𝒱₀ (thr d L) none) Set.univ
        (k0_t3_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v255 k u) (fun _ => RInv1 d L) := by
  unfold k0_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k0_t1 : Fin k0_t1_loop.trips) (arg24 : BitVec 32) (v255 : BitVec 32) (k : Fin k0_t4_loop.trips) (u : Unit) :
    (RInv2 d L : sProp 𝕄) ⊢ wp frame (wpE (defs₀ (F := F)) 𝒱₀ (thr d L) none) Set.univ
        (k0_t4_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v255 k u) (fun _ => RInv2 d L) := by
  unfold k0_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k0_t1 : Fin k0_t1_loop.trips) (arg24 : BitVec 32) (k : Fin k0_t5_loop.trips) (u : Unit) :
    (RInv3 d L : sProp 𝕄) ⊢ wp frame (wpE (defs₀ (F := F)) 𝒱₀ (thr d L) none) Set.univ
        (k0_t5_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 k u) (fun _ => RInv3 d L) := by
  unfold k0_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k0_t1 : Fin k0_t1_loop.trips) (arg24 : BitVec 32) (v306 : BitVec 32) (k : Fin k0_t6_loop.trips) (u : Unit) :
    (RInv4 d L : sProp 𝕄) ⊢ wp frame (wpE (defs₀ (F := F)) 𝒱₀ (thr d L) none) Set.univ
        (k0_t6_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v306 k u) (fun _ => RInv4 d L) := by
  unfold k0_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k0_t1 : Fin k0_t1_loop.trips) (arg24 : BitVec 32) (v306 : BitVec 32) (k : Fin k0_t7_loop.trips) (u : Unit) :
    (RInv5 d L : sProp 𝕄) ⊢ wp frame (wpE (defs₀ (F := F)) 𝒱₀ (thr d L) none) Set.univ
        (k0_t7_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v306 k u) (fun _ => RInv5 d L) := by
  unfold k0_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k0_t1 : Fin k0_t1_loop.trips) (arg24 : BitVec 32) (k : Fin k0_t8_loop.trips) (u : Unit) :
    (RInv6 d L : sProp 𝕄) ⊢ wp frame (wpE (defs₀ (F := F)) 𝒱₀ (thr d L) none) Set.univ
        (k0_t8_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 k u) (fun _ => RInv6 d L) := by
  unfold k0_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k0_t1 : Fin k0_t1_loop.trips) (arg24 : BitVec 32) (v357 : BitVec 32) (k : Fin k0_t9_loop.trips) (u : Unit) :
    (RInv7 d L : sProp 𝕄) ⊢ wp frame (wpE (defs₀ (F := F)) 𝒱₀ (thr d L) none) Set.univ
        (k0_t9_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v357 k u) (fun _ => RInv7 d L) := by
  unfold k0_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k0_t10_loop.trips) (u : Unit) :
    (RInv0 d L : sProp 𝕄) ⊢ wp frame (wpE (defs₀ (F := F)) 𝒱₀ (thr d L) none) Set.univ
        (k0_t10_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv0 d L) := by
  unfold k0_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k0_t11_loop.trips) (u : Unit) :
    (RInv1 d L : sProp 𝕄) ⊢ wp frame (wpE (defs₀ (F := F)) 𝒱₀ (thr d L) none) Set.univ
        (k0_t11_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv1 d L) := by
  unfold k0_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k0_t12_loop.trips) (u : Unit) :
    (RInv2 d L : sProp 𝕄) ⊢ wp frame (wpE (defs₀ (F := F)) 𝒱₀ (thr d L) none) Set.univ
        (k0_t12_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv2 d L) := by
  unfold k0_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k0_t13_loop.trips) (u : Unit) :
    (RInv3 d L : sProp 𝕄) ⊢ wp frame (wpE (defs₀ (F := F)) 𝒱₀ (thr d L) none) Set.univ
        (k0_t13_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv3 d L) := by
  unfold k0_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k0_t14_loop.trips) (u : Unit) :
    (RInv4 d L : sProp 𝕄) ⊢ wp frame (wpE (defs₀ (F := F)) 𝒱₀ (thr d L) none) Set.univ
        (k0_t14_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv4 d L) := by
  unfold k0_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k0_t15_loop.trips) (u : Unit) :
    (RInv5 d L : sProp 𝕄) ⊢ wp frame (wpE (defs₀ (F := F)) 𝒱₀ (thr d L) none) Set.univ
        (k0_t15_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv5 d L) := by
  unfold k0_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k0_t16_loop.trips) (u : Unit) :
    (RInv6 d L : sProp 𝕄) ⊢ wp frame (wpE (defs₀ (F := F)) 𝒱₀ (thr d L) none) Set.univ
        (k0_t16_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv6 d L) := by
  unfold k0_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k0_t17_loop.trips) (u : Unit) :
    (RInv7 d L : sProp 𝕄) ⊢ wp frame (wpE (defs₀ (F := F)) 𝒱₀ (thr d L) none) Set.univ
        (k0_t17_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (fun _ => RInv7 d L) := by
  unfold k0_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.Tile0

end
-- ==== Proof.TileBody0.lean ====
/-
  One vector subcore's task of the first gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon
import proofs.«204056_g19739669692900_cont_8to1_1488_31_alg».proof.Proof.Gen.KernelIdeal.Skeleton
import proofs.«204056_g19739669692900_cont_8to1_1488_31_alg».proof.Proof.TileRepack

noncomputable section

namespace Cert.Proof.Tile0

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid0.Coords)

/-- The task's 128 rows of the index array, as the program slices them. -/
abbrev catsRowsK : Memref sig .scVector .hbm S128x50 .i32 :=
  (cW).slice (Rect.unit (s := S16384x50) (k0_off1 L) S128x50.size (k0_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid0.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k0_t1_loop.trips) : Memref sig .scVector .hbm S50x64 .f32 :=
  ((oW).slice (Rect.unit (s := S4096x50x64) (k0_off11 L k 0#32) S1x50x64.size (k0_off11_inb L k 0)) (fun _ => rfl)).squeeze S50x64 squeezes_S1x50x64_S50x64
abbrev oRowE0 : Memref sig .scVector .hbm S50x64 .f32 :=
  ((oW).slice (Rect.unit (s := S4096x50x64) (k0_off77 L 120#32) S1x50x64.size (k0_off77_inb L 0)) (fun _ => rfl)).squeeze S50x64 squeezes_S1x50x64_S50x64
theorem off11_eq0 (k : Fin k0_t1_loop.trips) : k0_off11 L k 0#32 = ![128 * (widL L).val + (8 * k.val + 0), 0, 0] :=
  (k0_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k0_off77 L 120#32 = ![128 * (widL L).val + (120 + 0), 0, 0] :=
  (k0_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k0_t1_loop.trips) (h : 8 * k.val + 0 < 128) :
    Rect.unit (s := S4096x50x64) (k0_off11 L k 0#32) S1x50x64.size (k0_off11_inb L k 0) = rowRect (widL L) ⟨8 * k.val + 0, h⟩ :=
  rect_unit_congr (off11_eq0 L k)
theorem set_oRowK0 (k : Fin k0_t1_loop.trips) (h : 8 * k.val + 0 < 128) : (oRowK0 L k).view.set = rowSet (widL L) ⟨8 * k.val + 0, h⟩ := by
  show (((oW).view.slice (Rect.unit (s := S4096x50x64) (k0_off11 L k 0#32) S1x50x64.size (k0_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k0_off77 L 120#32) S1x50x64.size (k0_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k0_off77 L 120#32) S1x50x64.size (k0_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k0_t1_loop.trips) (h : 8 * k.val + 0 < 128) (f : Buf (Elt F) (out0Loc d)) :
    ((oRowK0 L k).view.loc (thr d L) ↦[(oRowK0 L k).view.set]{fullShare} f : sProp 𝕄) = out0Loc d ↦[rowSet (widL L) ⟨8 * k.val + 0, h⟩]{fullShare} f := by
  rw [set_oRowK0 L k h]
theorem pts_oRowE0 (h : 120 + 0 < 128) (f : Buf (Elt F) (out0Loc d)) :
    ((oRowE0 L).view.loc (thr d L) ↦[(oRowE0 L).view.set]{fullShare} f : sProp 𝕄) = out0Loc d ↦[rowSet (widL L) ⟨120 + 0, h⟩]{fullShare} f := by
  rw [set_oRowE0 L h]

/-- Row `8 k + 1` of the task's block, as trip `k` addresses it; row `121`, as the last group does. -/
abbrev oRowK1 (k : Fin k0_t1_loop.trips) : Memref sig .scVector .hbm S50x64 .f32 :=
  ((oW).slice (Rect.unit (s := S4096x50x64) (k0_off11 L k 1#32) S1x50x64.size (k0_off11_inb L k 1)) (fun _ => rfl)).squeeze S50x64 squeezes_S1x50x64_S50x64
abbrev oRowE1 : Memref sig .scVector .hbm S50x64 .f32 :=
  ((oW).slice (Rect.unit (s := S4096x50x64) (k0_off77 L 121#32) S1x50x64.size (k0_off77_inb L 1)) (fun _ => rfl)).squeeze S50x64 squeezes_S1x50x64_S50x64
theorem off11_eq1 (k : Fin k0_t1_loop.trips) : k0_off11 L k 1#32 = ![128 * (widL L).val + (8 * k.val + 1), 0, 0] :=
  (k0_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k0_off77 L 121#32 = ![128 * (widL L).val + (120 + 1), 0, 0] :=
  (k0_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k0_t1_loop.trips) (h : 8 * k.val + 1 < 128) :
    Rect.unit (s := S4096x50x64) (k0_off11 L k 1#32) S1x50x64.size (k0_off11_inb L k 1) = rowRect (widL L) ⟨8 * k.val + 1, h⟩ :=
  rect_unit_congr (off11_eq1 L k)
theorem set_oRowK1 (k : Fin k0_t1_loop.trips) (h : 8 * k.val + 1 < 128) : (oRowK1 L k).view.set = rowSet (widL L) ⟨8 * k.val + 1, h⟩ := by
  show (((oW).view.slice (Rect.unit (s := S4096x50x64) (k0_off11 L k 1#32) S1x50x64.size (k0_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k0_off77 L 121#32) S1x50x64.size (k0_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k0_off77 L 121#32) S1x50x64.size (k0_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k0_t1_loop.trips) (h : 8 * k.val + 1 < 128) (f : Buf (Elt F) (out0Loc d)) :
    ((oRowK1 L k).view.loc (thr d L) ↦[(oRowK1 L k).view.set]{fullShare} f : sProp 𝕄) = out0Loc d ↦[rowSet (widL L) ⟨8 * k.val + 1, h⟩]{fullShare} f := by
  rw [set_oRowK1 L k h]
theorem pts_oRowE1 (h : 120 + 1 < 128) (f : Buf (Elt F) (out0Loc d)) :
    ((oRowE1 L).view.loc (thr d L) ↦[(oRowE1 L).view.set]{fullShare} f : sProp 𝕄) = out0Loc d ↦[rowSet (widL L) ⟨120 + 1, h⟩]{fullShare} f := by
  rw [set_oRowE1 L h]

/-- Row `8 k + 2` of the task's block, as trip `k` addresses it; row `122`, as the last group does. -/
abbrev oRowK2 (k : Fin k0_t1_loop.trips) : Memref sig .scVector .hbm S50x64 .f32 :=
  ((oW).slice (Rect.unit (s := S4096x50x64) (k0_off11 L k 2#32) S1x50x64.size (k0_off11_inb L k 2)) (fun _ => rfl)).squeeze S50x64 squeezes_S1x50x64_S50x64
abbrev oRowE2 : Memref sig .scVector .hbm S50x64 .f32 :=
  ((oW).slice (Rect.unit (s := S4096x50x64) (k0_off77 L 122#32) S1x50x64.size (k0_off77_inb L 2)) (fun _ => rfl)).squeeze S50x64 squeezes_S1x50x64_S50x64
theorem off11_eq2 (k : Fin k0_t1_loop.trips) : k0_off11 L k 2#32 = ![128 * (widL L).val + (8 * k.val + 2), 0, 0] :=
  (k0_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k0_off77 L 122#32 = ![128 * (widL L).val + (120 + 2), 0, 0] :=
  (k0_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k0_t1_loop.trips) (h : 8 * k.val + 2 < 128) :
    Rect.unit (s := S4096x50x64) (k0_off11 L k 2#32) S1x50x64.size (k0_off11_inb L k 2) = rowRect (widL L) ⟨8 * k.val + 2, h⟩ :=
  rect_unit_congr (off11_eq2 L k)
theorem set_oRowK2 (k : Fin k0_t1_loop.trips) (h : 8 * k.val + 2 < 128) : (oRowK2 L k).view.set = rowSet (widL L) ⟨8 * k.val + 2, h⟩ := by
  show (((oW).view.slice (Rect.unit (s := S4096x50x64) (k0_off11 L k 2#32) S1x50x64.size (k0_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k0_off77 L 122#32) S1x50x64.size (k0_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k0_off77 L 122#32) S1x50x64.size (k0_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k0_t1_loop.trips) (h : 8 * k.val + 2 < 128) (f : Buf (Elt F) (out0Loc d)) :
    ((oRowK2 L k).view.loc (thr d L) ↦[(oRowK2 L k).view.set]{fullShare} f : sProp 𝕄) = out0Loc d ↦[rowSet (widL L) ⟨8 * k.val + 2, h⟩]{fullShare} f := by
  rw [set_oRowK2 L k h]
theorem pts_oRowE2 (h : 120 + 2 < 128) (f : Buf (Elt F) (out0Loc d)) :
    ((oRowE2 L).view.loc (thr d L) ↦[(oRowE2 L).view.set]{fullShare} f : sProp 𝕄) = out0Loc d ↦[rowSet (widL L) ⟨120 + 2, h⟩]{fullShare} f := by
  rw [set_oRowE2 L h]

/-- Row `8 k + 3` of the task's block, as trip `k` addresses it; row `123`, as the last group does. -/
abbrev oRowK3 (k : Fin k0_t1_loop.trips) : Memref sig .scVector .hbm S50x64 .f32 :=
  ((oW).slice (Rect.unit (s := S4096x50x64) (k0_off11 L k 3#32) S1x50x64.size (k0_off11_inb L k 3)) (fun _ => rfl)).squeeze S50x64 squeezes_S1x50x64_S50x64
abbrev oRowE3 : Memref sig .scVector .hbm S50x64 .f32 :=
  ((oW).slice (Rect.unit (s := S4096x50x64) (k0_off77 L 123#32) S1x50x64.size (k0_off77_inb L 3)) (fun _ => rfl)).squeeze S50x64 squeezes_S1x50x64_S50x64
theorem off11_eq3 (k : Fin k0_t1_loop.trips) : k0_off11 L k 3#32 = ![128 * (widL L).val + (8 * k.val + 3), 0, 0] :=
  (k0_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k0_off77 L 123#32 = ![128 * (widL L).val + (120 + 3), 0, 0] :=
  (k0_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k0_t1_loop.trips) (h : 8 * k.val + 3 < 128) :
    Rect.unit (s := S4096x50x64) (k0_off11 L k 3#32) S1x50x64.size (k0_off11_inb L k 3) = rowRect (widL L) ⟨8 * k.val + 3, h⟩ :=
  rect_unit_congr (off11_eq3 L k)
theorem set_oRowK3 (k : Fin k0_t1_loop.trips) (h : 8 * k.val + 3 < 128) : (oRowK3 L k).view.set = rowSet (widL L) ⟨8 * k.val + 3, h⟩ := by
  show (((oW).view.slice (Rect.unit (s := S4096x50x64) (k0_off11 L k 3#32) S1x50x64.size (k0_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k0_off77 L 123#32) S1x50x64.size (k0_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k0_off77 L 123#32) S1x50x64.size (k0_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k0_t1_loop.trips) (h : 8 * k.val + 3 < 128) (f : Buf (Elt F) (out0Loc d)) :
    ((oRowK3 L k).view.loc (thr d L) ↦[(oRowK3 L k).view.set]{fullShare} f : sProp 𝕄) = out0Loc d ↦[rowSet (widL L) ⟨8 * k.val + 3, h⟩]{fullShare} f := by
  rw [set_oRowK3 L k h]
theorem pts_oRowE3 (h : 120 + 3 < 128) (f : Buf (Elt F) (out0Loc d)) :
    ((oRowE3 L).view.loc (thr d L) ↦[(oRowE3 L).view.set]{fullShare} f : sProp 𝕄) = out0Loc d ↦[rowSet (widL L) ⟨120 + 3, h⟩]{fullShare} f := by
  rw [set_oRowE3 L h]

/-- Row `8 k + 4` of the task's block, as trip `k` addresses it; row `124`, as the last group does. -/
abbrev oRowK4 (k : Fin k0_t1_loop.trips) : Memref sig .scVector .hbm S50x64 .f32 :=
  ((oW).slice (Rect.unit (s := S4096x50x64) (k0_off11 L k 4#32) S1x50x64.size (k0_off11_inb L k 4)) (fun _ => rfl)).squeeze S50x64 squeezes_S1x50x64_S50x64
abbrev oRowE4 : Memref sig .scVector .hbm S50x64 .f32 :=
  ((oW).slice (Rect.unit (s := S4096x50x64) (k0_off77 L 124#32) S1x50x64.size (k0_off77_inb L 4)) (fun _ => rfl)).squeeze S50x64 squeezes_S1x50x64_S50x64
theorem off11_eq4 (k : Fin k0_t1_loop.trips) : k0_off11 L k 4#32 = ![128 * (widL L).val + (8 * k.val + 4), 0, 0] :=
  (k0_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k0_off77 L 124#32 = ![128 * (widL L).val + (120 + 4), 0, 0] :=
  (k0_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k0_t1_loop.trips) (h : 8 * k.val + 4 < 128) :
    Rect.unit (s := S4096x50x64) (k0_off11 L k 4#32) S1x50x64.size (k0_off11_inb L k 4) = rowRect (widL L) ⟨8 * k.val + 4, h⟩ :=
  rect_unit_congr (off11_eq4 L k)
theorem set_oRowK4 (k : Fin k0_t1_loop.trips) (h : 8 * k.val + 4 < 128) : (oRowK4 L k).view.set = rowSet (widL L) ⟨8 * k.val + 4, h⟩ := by
  show (((oW).view.slice (Rect.unit (s := S4096x50x64) (k0_off11 L k 4#32) S1x50x64.size (k0_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k0_off77 L 124#32) S1x50x64.size (k0_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k0_off77 L 124#32) S1x50x64.size (k0_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k0_t1_loop.trips) (h : 8 * k.val + 4 < 128) (f : Buf (Elt F) (out0Loc d)) :
    ((oRowK4 L k).view.loc (thr d L) ↦[(oRowK4 L k).view.set]{fullShare} f : sProp 𝕄) = out0Loc d ↦[rowSet (widL L) ⟨8 * k.val + 4, h⟩]{fullShare} f := by
  rw [set_oRowK4 L k h]
theorem pts_oRowE4 (h : 120 + 4 < 128) (f : Buf (Elt F) (out0Loc d)) :
    ((oRowE4 L).view.loc (thr d L) ↦[(oRowE4 L).view.set]{fullShare} f : sProp 𝕄) = out0Loc d ↦[rowSet (widL L) ⟨120 + 4, h⟩]{fullShare} f := by
  rw [set_oRowE4 L h]

/-- Row `8 k + 5` of the task's block, as trip `k` addresses it; row `125`, as the last group does. -/
abbrev oRowK5 (k : Fin k0_t1_loop.trips) : Memref sig .scVector .hbm S50x64 .f32 :=
  ((oW).slice (Rect.unit (s := S4096x50x64) (k0_off11 L k 5#32) S1x50x64.size (k0_off11_inb L k 5)) (fun _ => rfl)).squeeze S50x64 squeezes_S1x50x64_S50x64
abbrev oRowE5 : Memref sig .scVector .hbm S50x64 .f32 :=
  ((oW).slice (Rect.unit (s := S4096x50x64) (k0_off77 L 125#32) S1x50x64.size (k0_off77_inb L 5)) (fun _ => rfl)).squeeze S50x64 squeezes_S1x50x64_S50x64
theorem off11_eq5 (k : Fin k0_t1_loop.trips) : k0_off11 L k 5#32 = ![128 * (widL L).val + (8 * k.val + 5), 0, 0] :=
  (k0_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k0_off77 L 125#32 = ![128 * (widL L).val + (120 + 5), 0, 0] :=
  (k0_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k0_t1_loop.trips) (h : 8 * k.val + 5 < 128) :
    Rect.unit (s := S4096x50x64) (k0_off11 L k 5#32) S1x50x64.size (k0_off11_inb L k 5) = rowRect (widL L) ⟨8 * k.val + 5, h⟩ :=
  rect_unit_congr (off11_eq5 L k)
theorem set_oRowK5 (k : Fin k0_t1_loop.trips) (h : 8 * k.val + 5 < 128) : (oRowK5 L k).view.set = rowSet (widL L) ⟨8 * k.val + 5, h⟩ := by
  show (((oW).view.slice (Rect.unit (s := S4096x50x64) (k0_off11 L k 5#32) S1x50x64.size (k0_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k0_off77 L 125#32) S1x50x64.size (k0_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k0_off77 L 125#32) S1x50x64.size (k0_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k0_t1_loop.trips) (h : 8 * k.val + 5 < 128) (f : Buf (Elt F) (out0Loc d)) :
    ((oRowK5 L k).view.loc (thr d L) ↦[(oRowK5 L k).view.set]{fullShare} f : sProp 𝕄) = out0Loc d ↦[rowSet (widL L) ⟨8 * k.val + 5, h⟩]{fullShare} f := by
  rw [set_oRowK5 L k h]
theorem pts_oRowE5 (h : 120 + 5 < 128) (f : Buf (Elt F) (out0Loc d)) :
    ((oRowE5 L).view.loc (thr d L) ↦[(oRowE5 L).view.set]{fullShare} f : sProp 𝕄) = out0Loc d ↦[rowSet (widL L) ⟨120 + 5, h⟩]{fullShare} f := by
  rw [set_oRowE5 L h]

/-- Row `8 k + 6` of the task's block, as trip `k` addresses it; row `126`, as the last group does. -/
abbrev oRowK6 (k : Fin k0_t1_loop.trips) : Memref sig .scVector .hbm S50x64 .f32 :=
  ((oW).slice (Rect.unit (s := S4096x50x64) (k0_off11 L k 6#32) S1x50x64.size (k0_off11_inb L k 6)) (fun _ => rfl)).squeeze S50x64 squeezes_S1x50x64_S50x64
abbrev oRowE6 : Memref sig .scVector .hbm S50x64 .f32 :=
  ((oW).slice (Rect.unit (s := S4096x50x64) (k0_off77 L 126#32) S1x50x64.size (k0_off77_inb L 6)) (fun _ => rfl)).squeeze S50x64 squeezes_S1x50x64_S50x64
theorem off11_eq6 (k : Fin k0_t1_loop.trips) : k0_off11 L k 6#32 = ![128 * (widL L).val + (8 * k.val + 6), 0, 0] :=
  (k0_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k0_off77 L 126#32 = ![128 * (widL L).val + (120 + 6), 0, 0] :=
  (k0_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k0_t1_loop.trips) (h : 8 * k.val + 6 < 128) :
    Rect.unit (s := S4096x50x64) (k0_off11 L k 6#32) S1x50x64.size (k0_off11_inb L k 6) = rowRect (widL L) ⟨8 * k.val + 6, h⟩ :=
  rect_unit_congr (off11_eq6 L k)
theorem set_oRowK6 (k : Fin k0_t1_loop.trips) (h : 8 * k.val + 6 < 128) : (oRowK6 L k).view.set = rowSet (widL L) ⟨8 * k.val + 6, h⟩ := by
  show (((oW).view.slice (Rect.unit (s := S4096x50x64) (k0_off11 L k 6#32) S1x50x64.size (k0_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k0_off77 L 126#32) S1x50x64.size (k0_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k0_off77 L 126#32) S1x50x64.size (k0_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k0_t1_loop.trips) (h : 8 * k.val + 6 < 128) (f : Buf (Elt F) (out0Loc d)) :
    ((oRowK6 L k).view.loc (thr d L) ↦[(oRowK6 L k).view.set]{fullShare} f : sProp 𝕄) = out0Loc d ↦[rowSet (widL L) ⟨8 * k.val + 6, h⟩]{fullShare} f := by
  rw [set_oRowK6 L k h]
theorem pts_oRowE6 (h : 120 + 6 < 128) (f : Buf (Elt F) (out0Loc d)) :
    ((oRowE6 L).view.loc (thr d L) ↦[(oRowE6 L).view.set]{fullShare} f : sProp 𝕄) = out0Loc d ↦[rowSet (widL L) ⟨120 + 6, h⟩]{fullShare} f := by
  rw [set_oRowE6 L h]

/-- Row `8 k + 7` of the task's block, as trip `k` addresses it; row `127`, as the last group does. -/
abbrev oRowK7 (k : Fin k0_t1_loop.trips) : Memref sig .scVector .hbm S50x64 .f32 :=
  ((oW).slice (Rect.unit (s := S4096x50x64) (k0_off11 L k 7#32) S1x50x64.size (k0_off11_inb L k 7)) (fun _ => rfl)).squeeze S50x64 squeezes_S1x50x64_S50x64
abbrev oRowE7 : Memref sig .scVector .hbm S50x64 .f32 :=
  ((oW).slice (Rect.unit (s := S4096x50x64) (k0_off77 L 127#32) S1x50x64.size (k0_off77_inb L 7)) (fun _ => rfl)).squeeze S50x64 squeezes_S1x50x64_S50x64
theorem off11_eq7 (k : Fin k0_t1_loop.trips) : k0_off11 L k 7#32 = ![128 * (widL L).val + (8 * k.val + 7), 0, 0] :=
  (k0_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k0_off77 L 127#32 = ![128 * (widL L).val + (120 + 7), 0, 0] :=
  (k0_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k0_t1_loop.trips) (h : 8 * k.val + 7 < 128) :
    Rect.unit (s := S4096x50x64) (k0_off11 L k 7#32) S1x50x64.size (k0_off11_inb L k 7) = rowRect (widL L) ⟨8 * k.val + 7, h⟩ :=
  rect_unit_congr (off11_eq7 L k)
theorem set_oRowK7 (k : Fin k0_t1_loop.trips) (h : 8 * k.val + 7 < 128) : (oRowK7 L k).view.set = rowSet (widL L) ⟨8 * k.val + 7, h⟩ := by
  show (((oW).view.slice (Rect.unit (s := S4096x50x64) (k0_off11 L k 7#32) S1x50x64.size (k0_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k0_off77 L 127#32) S1x50x64.size (k0_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k0_off77 L 127#32) S1x50x64.size (k0_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k0_t1_loop.trips) (h : 8 * k.val + 7 < 128) (f : Buf (Elt F) (out0Loc d)) :
    ((oRowK7 L k).view.loc (thr d L) ↦[(oRowK7 L k).view.set]{fullShare} f : sProp 𝕄) = out0Loc d ↦[rowSet (widL L) ⟨8 * k.val + 7, h⟩]{fullShare} f := by
  rw [set_oRowK7 L k h]
theorem pts_oRowE7 (h : 120 + 7 < 128) (f : Buf (Elt F) (out0Loc d)) :
    ((oRowE7 L).view.loc (thr d L) ↦[(oRowE7 L).view.set]{fullShare} f : sProp 𝕄) = out0Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc0_scratch3.sem (sh32 (widL L)).left.left.left fullShare.left.left.left ft fi
      ∗ GFl d L ![1, 0, 0] inb_S8x56x128_S1x50x128_1_0_0 cc0_scratch4.sem (sh32 (widL L)).left.left.right fullShare.left.left.right ft fi
      ∗ GFl d L ![2, 0, 0] inb_S8x56x128_S1x50x128_2_0_0 cc0_scratch5.sem (sh32 (widL L)).left.right.left fullShare.left.right.left ft fi
      ∗ GFl d L ![3, 0, 0] inb_S8x56x128_S1x50x128_3_0_0 cc0_scratch6.sem (sh32 (widL L)).left.right.right fullShare.left.right.right ft fi
      ∗ GFl d L ![4, 0, 0] inb_S8x56x128_S1x50x128_4_0_0 cc0_scratch7.sem (sh32 (widL L)).right.left.left fullShare.right.left.left ft fi
      ∗ GFl d L ![5, 0, 0] inb_S8x56x128_S1x50x128_5_0_0 cc0_scratch8.sem (sh32 (widL L)).right.left.right fullShare.right.left.right ft fi
      ∗ GFl d L ![6, 0, 0] inb_S8x56x128_S1x50x128_6_0_0 cc0_scratch9.sem (sh32 (widL L)).right.right.left fullShare.right.right.left ft fi
      ∗ GFl d L ![7, 0, 0] inb_S8x56x128_S1x50x128_7_0_0 cc0_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scratch17.sem) 0 ∗ semVal (thr d L, SemLoc.dma cc0_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k0_t1_loop.trips) (u : Unit) :
    (INV d L ft fi O W kt.val u : sProp 𝕄) ⊢ wp frame (wpE (defs₀ (F := F)) 𝒱₀ (thr d L) none) Set.univ
        (k0_t1_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 kt u) (INV d L ft fi O W (kt.val + 1)) := by
  unfold INV k0_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc0_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc0_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc0_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc0_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc0_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc0_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc0_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc0_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k0_off68 kt 0#32) (inb := k0_off68_inb kt 0) (sem := cc0_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k0_off68 kt 1#32) (inb := k0_off68_inb kt 1) (sem := cc0_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k0_off68 kt 2#32) (inb := k0_off68_inb kt 2) (sem := cc0_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k0_off68 kt 3#32) (inb := k0_off68_inb kt 3) (sem := cc0_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k0_off68 kt 4#32) (inb := k0_off68_inb kt 4) (sem := cc0_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k0_off68 kt 5#32) (inb := k0_off68_inb kt 5) (sem := cc0_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k0_off68 kt 6#32) (inb := k0_off68_inb kt 6) (sem := cc0_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k0_off68 kt 7#32) (inb := k0_off68_inb kt 7) (sem := cc0_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the first gather call: it ends, faults nowhere, leaves every one of its semaphores at zero
    and hands back the two read shares unchanged and its 128 result rows at some contents. -/
theorem tile_body0 (hF : (K (F := F)).Facts) (hcats : ∀ j, (m (catsLoc d) j).toNat < 100000)
    (ft : Buf (Elt F) (tpadLoc d)) (f0 : Buf (Elt F) (out0Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk0 d (widL L) f0)
        ∗ scopedBufs (thr d L) ∗ scopedSems0 (thr d L) ∗ owes (thr d L) O W)
      ⊢ (wp frame (wpE (defs₀ (F := F)) 𝒱₀ (thr d L) none) Set.univ
          (cc0_gk L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop((catsSh m d (widL L) ∗ tpadSh d (widL L) ft ∗ ∃ f, outBlk0 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc0_gk_eq_skeleton]; unfold cc0_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body0.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body0.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc0_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc0_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc0_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc0_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc0_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc0_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc0_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc0_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body0.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc0_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc0_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc0_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc0_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc0_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc0_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc0_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc0_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body0.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.Tile0

end
-- ==== Proof.TileValues.lean ====
/-
  One vector subcore's task of the first gather call: what its buffers hold.

  The index scratch holds the task's 128 rows of the index array. A gather into slot `s` over list row `j` lands, in
  row `l` of the slot's window, the padded table's row named by word `[j, l]` of the index scratch; the repack keeps the
  first 64 lanes; the copy out puts them in row `128 w + j` of the call's result.
-/
import proofs.«204056_g19739669692900_cont_8to1_1488_31_alg».proof.Proof.TileBody0
import proofs.«204056_g19739669692900_cont_8to1_1488_31_alg».proof.Proof.LaunchPayV
import Idealize.ShloMosaic.Lib.ValueIdx
import Idealize.ShloMosaic.Lib.ValueLayout
import Idealize.ShloMosaic.Lib.Writes

noncomputable section

namespace Cert.Proof.Tile0

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

/-- A slot of the repacked buffer, from offsets `o`; a row of the result, from offsets `off`. -/
abbrev pWinAt (o : Fin 3 → ℕ) (inbo : ∀ a, o a + S1x50x64.size a ≤ S8x50x64.size a) : Memref sig .scVector .vmem S50x64 .f32 :=
  ((pW).slice (Rect.unit (s := S8x50x64) o S1x50x64.size inbo) (fun _ => rfl)).squeeze S50x64 squeezes_S1x50x64_S50x64
abbrev oRowAt (off : Fin 3 → ℕ) (inb : ∀ a, off a + S1x50x64.size a ≤ S4096x50x64.size a) : Memref sig .scVector .hbm S50x64 .f32 :=
  ((oW).slice (Rect.unit (s := S4096x50x64) off S1x50x64.size inb) (fun _ => rfl)).squeeze S50x64 squeezes_S1x50x64_S50x64

/-- An index word below 100000 names the row of its own value. -/
theorem rowOf_val_of_lt (w : BitVec 32) (h : w.toNat < 100000) : (Cert.Spec.rowOf w).val = w.toNat := by
  have e : w.toInt = (w.toNat : Int) := by
    rw [BitVec.toInt_eq_toNat_cond]
    split
    · rfl
    · rename_i hlt; exfalso; omega
  show min w.toInt.toNat 99999 = w.toNat
  rw [e]
  simp only [Int.toNat_natCast]
  omega

section Values

variable (ft : FVec F S100000x128 .f32) (fi : IVec S128x50 32) (hfi : ∀ y, (fi y).toNat < 100000)

/-- The table row the index scratch names at `[j, l]`. -/
def rowIx (j : Fin 128) (l : Fin 50) : Fin 100000 := ⟨(fi (ix2 j l)).toNat, hfi _⟩

/-- Slot `s`'s window of the row buffer holds the table rows list row `j` names. -/
def WinOK (s : Fin 8) (j : Fin 128) (fb : FVec F S8x56x128 .f32) : Prop :=
  ∀ (l : Fin 50) (e : Fin 128), fb (ix3 s (Fin.castLE (by decide) l : Fin 56) e) = ft (ix2 (rowIx fi hfi j l) e)

/-- Slot `s` of the repacked buffer holds their first 64 lanes. -/
def SlotOK (s : Fin 8) (j : Fin 128) (g : FVec F S8x50x64 .f32) : Prop :=
  ∀ (l : Fin 50) (e : Fin 64), g (ix3 s l e) = ft (ix2 (rowIx fi hfi j l) (Fin.castLE (by decide) e : Fin 128))

/-- Row `128 w + j` of the result holds them. -/
def RowOK (w : Fin 32) (j : Fin 128) (f : FVec F S4096x50x64 .f32) : Prop :=
  ∀ (l : Fin 50) (e : Fin 64), f (ix3 (⟨128 * w.val + j.val, by omega⟩ : Fin 4096) l e) = ft (ix2 (rowIx fi hfi j l) (Fin.castLE (by decide) e : Fin 128))

variable (d : Dev nD) (L : grid0.Coords)

/-- L2. What a gather into slot `s` over list row `j` delivers. -/
theorem win_ok (s : Fin 8) (j : Fin 128) (o : Fin 3 → ℕ) (inbo : ∀ a, o a + S1x50x128.size a ≤ S8x56x128.size a) (ho : o = ![s.val, 0, 0])
    (off : Fin 2 → ℕ) (inb : ∀ a, off a + S1x50.size a ≤ S128x50.size a) (hoff : off = ![j.val, 0])
    (fd : Buf (Elt F) ((bWinAt o inbo).view.loc (thr d L))) (hn) (hin) :
    WinOK ft fi hfi s j ((bWinAt o inbo).view.write (Elt F) fd
      (SparseCore.gatherPayload gathers_S100000x128_S50x128 ((tAll).view.read (Elt F) ft) (SparseCore.rows ((iRowAt off inb).view.read (Elt F) fi) hn hin)) Finset.univ) := by
  subst ho; subst hoff
  intro l e
  have hemb : (bWinAt ![s.val, 0, 0] inbo).view.emb (ix2 l e) = ix3 s (Fin.castLE (by decide) l : Fin 56) e := by
    show (Rect.unit (s := S8x56x128) ![s.val, 0, 0] S1x50x128.size inbo).emb
      (Shape.reshapeEquiv squeezes_S1x50x128_S50x128.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have hlist : (iRowAt ![j.val, 0] inb).view.emb (ix1 l) = ix2 j l := by
    show (Rect.unit (s := S128x50) ![j.val, 0] S1x50.size inb).emb
      (Shape.reshapeEquiv squeezes_S1x50_S50.numel_eq (ix1 l)) = _
    rw [show Shape.reshapeEquiv squeezes_S1x50_S50.numel_eq (ix1 l) = ix2 (⟨0, Nat.one_pos⟩ : Fin 1) l from
      Shape.reshapeEquiv_eq_of_rowMajor _ (by rw [Shape.rowMajor_val_two, Shape.rowMajor_val_one]; show 0 * 50 + l.val = l.val; omega)]
    funext a
    refine Fin.ext ?_
    match a with
    | 0 => show j.val + 1 * 0 = j.val; omega
    | 1 => show 0 + 1 * l.val = l.val; omega
  rw [← hemb, View.write_emb, if_pos (Finset.mem_univ _), cast_eq]
  unfold SparseCore.gatherPayload
  rw [View.read_apply, cast_eq]
  congr 1
  have hrm : S50.rowMajor.symm (l.cast hn.symm) = ix1 l :=
    (Equiv.symm_apply_eq _).mpr (Fin.ext (by rw [Shape.rowMajor_val_one]; rfl))
  funext a
  refine Fin.ext ?_
  match a with
  | 0 =>
    show 0 + 1 * ((gathers_S100000x128_S50x128).idx (SparseCore.rows ((iRowAt ![j.val, 0] inb).view.read (Elt F) fi) hn hin) (ix2 l e) (0 : Fin 2)).val
      = (fi (ix2 j l)).toNat
    rw [show (gathers_S100000x128_S50x128).idx (SparseCore.rows ((iRowAt ![j.val, 0] inb).view.read (Elt F) fi) hn hin) (ix2 l e) (0 : Fin 2)
        = SparseCore.rows ((iRowAt ![j.val, 0] inb).view.read (Elt F) fi) hn hin l from Shape.Gathers.idx_axis _ _ _]
    show 0 + 1 * ((iRowAt ![j.val, 0] inb).view.read (Elt F) fi (S50.rowMajor.symm (l.cast hn.symm))).toNat = (fi (ix2 j l)).toNat
    rw [hrm, View.read_apply, cast_eq, hlist]
    omega
  | 1 =>
    show 0 + 1 * ((gathers_S100000x128_S50x128).idx (SparseCore.rows ((iRowAt ![j.val, 0] inb).view.read (Elt F) fi) hn hin) (ix2 l e) (1 : Fin 2)).val = e.val
    have h1 := Shape.Gathers.idx_of_ne gathers_S100000x128_S50x128
      (SparseCore.rows ((iRowAt ![j.val, 0] inb).view.read (Elt F) fi) hn hin) (ix2 l e) (1 : Fin 2) (by decide)
    rw [h1]
    show 0 + 1 * e.val = e.val
    omega

/-- L3. What the copy of slot `s` out to row `128 w + j` leaves there. -/
theorem row_ok (w : Fin 32) (s : Fin 8) (j : Fin 128) (o : Fin 3 → ℕ) (inbo : ∀ a, o a + S1x50x64.size a ≤ S8x50x64.size a) (ho : o = ![s.val, 0, 0])
    (off : Fin 3 → ℕ) (inb : ∀ a, off a + S1x50x64.size a ≤ S4096x50x64.size a) (hoff : off = ![128 * w.val + j.val, 0, 0])
    (fo : Buf (Elt F) ((oRowAt off inb).view.loc (thr d L))) (gp : Buf (Elt F) ((pWinAt o inbo).view.loc (thr d L)))
    (pay : S50x64.Idx → Elt F .f32) (hpay : pay = ReadAs.same.apply ((pWinAt o inbo).view.read (Elt F) gp))
    (hs : SlotOK ft fi hfi s j gp) :
    RowOK ft fi hfi w j ((oRowAt off inb).view.writes (Elt F) fo [⟨Rect.whole S50x64, pay⟩]) := by
  subst ho; subst hoff; subst hpay
  intro l e
  have hemb : (oRowAt ![128 * w.val + j.val, 0, 0] inb).view.emb (ix2 l e) = ix3 (⟨128 * w.val + j.val, by omega⟩ : Fin 4096) l e := by
    show (Rect.unit (s := S4096x50x64) ![128 * w.val + j.val, 0, 0] S1x50x64.size inb).emb
      (Shape.reshapeEquiv squeezes_S1x50x64_S50x64.numel_eq (ix2 l e)) = _
    rw [reshapeEquiv_ix2_1ab]
    funext a
    refine Fin.ext ?_
    match a with
    | 0 => show 128 * w.val + j.val + 1 * 0 = 128 * w.val + j.val; omega
    | 1 => show 0 + 1 * l.val = l.val; omega
    | 2 => show 0 + 1 * e.val = e.val; omega
  have hembp : (pWinAt ![s.val, 0, 0] inbo).view.emb (ix2 l e) = ix3 s l e := by
    show (Rect.unit (s := S8x50x64) ![s.val, 0, 0] S1x50x64.size inbo).emb
      (Shape.reshapeEquiv squeezes_S1x50x64_S50x64.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have h1 := View.read_writes_cons_emb (v := (oRowAt ![128 * w.val + j.val, 0, 0] inb).view) (f := fo) (Rect.whole S50x64)
    (ReadAs.same.apply ((pWinAt ![s.val, 0, 0] inbo).view.read (Elt F) gp)) [] (ix2 l e)
  rw [Rect.emb_whole_apply, View.read_apply, cast_eq, hemb, ReadAs.apply_same, View.read_apply, cast_eq, hembp] at h1
  rw [h1]
  exact hs l e

end Values

section Idx

variable (m : (ℓ : Loc nD τ sig) → Buf (Elt F) ℓ) (d : Dev nD) (L : grid0.Coords)

/-- L1. The index scratch after the copy holds the task's rows of the index array. -/
theorem fi_eq (fs : Buf (Elt F) ((iW).view.loc (thr d L))) (pay : S128x50.Idx → Elt F .i32)
    (hpay : pay = (catsRowsK L).view.read (Elt F) (m (catsLoc d))) (j : Fin 128) (l : Fin 50) :
    (View.write (Elt F) (iW).view fs pay Finset.univ) (ix2 j l)
      = m (catsLoc d) (ix2 (⟨128 * (widL L).val + j.val, by omega⟩ : Fin 16384) l) := by
  subst hpay
  rw [View.write_whole_univ]
  rw [show ∀ y, (catsRowsK L).view.read (Elt F) (m (catsLoc d)) y = m (catsLoc d) ((catsRowsK L).view.emb y) from fun y => (View.read_apply _ _).trans (cast_eq _ _)]
  congr 1
  funext a
  refine Fin.ext ?_
  have hw : (widL L).val = 2 * (L 1).val + (L 0).val := rfl
  match a with
  | 0 =>
    show k0_off1 L 0 + 1 * j.val = 128 * (widL L).val + j.val
    rw [k0_off1_eq, hw]
    show 256 * (L 1).val + 128 * (L 0).val + 1 * j.val = 128 * (2 * (L 1).val + (L 0).val) + j.val
    omega
  | 1 =>
    show k0_off1 L 1 + 1 * l.val = l.val
    rw [k0_off1_eq]
    show 0 + 1 * l.val = l.val
    omega

variable (ft : FVec F S100000x128 .f32) (fi : IVec S128x50 32) (hfi : ∀ y, (fi y).toNat < 100000)

/-- The result rows, each at some contents; the first `n` hold the table rows the index scratch names. -/
def outRowsV (w : Fin 32) (n : ℕ) : sProp 𝕄 :=
  bigSep Finset.univ fun j : Fin 128 => iprop(∃ f, ⌜j.val < n → RowOK ft fi hfi w j f⌝ ∗ out0Loc d ↦[rowSet w j]{fullShare} f)

set_option maxHeartbeats 2000000 in
set_option maxRecDepth 8192 in
/-- L4. All 128 rows in: the task's block holds what the claim says. -/
theorem outRowsV_join (hfi_eq : ∀ (j : Fin 128) (l : Fin 50), fi (ix2 j l) = m (catsLoc d) (ix2 (⟨128 * (widL L).val + j.val, by omega⟩ : Fin 16384) l))
    (f0 : Buf (Elt F) (out0Loc d)) :
    (outRowsV (F := F) (UU := UU) d ft fi hfi (widL L) 128 : sProp 𝕄)
      ⊢ iprop(∃ f, ⌜GatherBlk (F := F) 0 (widL L) (m (catsLoc d)) ft f⌝ ∗ out0Loc d ↦[blkSet0 (widL L)]{fullShare} f) := by
  haveI : Nonempty (Buf (Elt F) (out0Loc d)) := ⟨f0⟩
  unfold outRowsV
  refine (bigSep_exists_pi Finset.univ (fun j (f : Buf (Elt F) (out0Loc d)) =>
    (iprop(⌜j.val < 128 → RowOK ft fi hfi (widL L) j f⌝ ∗ out0Loc d ↦[rowSet (widL L) j]{fullShare} f) : sProp 𝕄))).trans ?_
  iintro ⟨%fs, H⟩
  ihave H2 := (bigSep_pure_sep Finset.univ (fun j : Fin 128 => j.val < 128 → RowOK ft fi hfi (widL L) j (fs j))
    (fun j : Fin 128 => (out0Loc d ↦[rowSet (widL L) j]{fullShare} fs j : sProp 𝕄))) $$ H
  icases H2 with ⟨%hp, H⟩
  ihave H' := (pointsTo_biUnion_join (ℓ := out0Loc d) (q := fullShare) (Val := Elt F) Finset.univ (rowSet (widL L)) fs f0 (rows_disjoint (widL L))) $$ H
  icases H' with ⟨%g, %hg, Hg⟩
  rw [rows_cover]
  iexists g
  isplitr
  · ipureintro
    intro r l e
    have hm : ix3 (⟨128 * (widL L).val + r.val, by omega⟩ : Fin 4096) l e ∈ rowSet (widL L) r := by
      rw [rowSet_eq, mem_row]
    rw [hg r (Finset.mem_univ r) _ hm, hp r (Finset.mem_univ r) r.isLt l e]
    have hrow : rowIx fi hfi r l
        = Cert.Spec.rowOf (m (catsLoc d) (ix2 (⟨4096 * (0 : Fin 4).val + (128 * (widL L).val + r.val), by omega⟩ : Fin 16384) l)) := by
      refine Fin.ext ?_
      have e0 : (⟨4096 * (0 : Fin 4).val + (128 * (widL L).val + r.val), by omega⟩ : Fin 16384)
          = (⟨128 * (widL L).val + r.val, by omega⟩ : Fin 16384) := Fin.ext (by show 4096 * 0 + (128 * (widL L).val + r.val) = 128 * (widL L).val + r.val; omega)
      rw [e0, ← hfi_eq r l]
      exact (rowOf_val_of_lt _ (hfi _)).symm
    rw [hrow]
  · iexact Hg

end Idx

end Cert.Proof.Tile0

end
-- ==== Proof.TileRepackV.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value

noncomputable section

namespace Cert.Proof.Tile0

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

/-! ## One repack trip, as a statement about functions

A trip writes row `k` of slot `s` of the repacked buffer in four stores of sixteen lanes, newest last. If each
store's payload is the target function `G` at the lanes it covers and the rows below `k` held `G` before, the
rows below `k + 1` hold `G` after: a row below `k` is missed by all four stores, and an element of row `k` is
under exactly one of them, at its lane minus the store's lane offset. -/

section PureRepack

variable {sig : RefSig} {κ : Kind} {sp : Space} {e : EltTy} {Val : EltTy → Type}

/-- The sixteen-lane vector's shape. -/
abbrev SChunk : Shape := ⟨3, ![1, 1, 16]⟩

theorem repack_step (vp : View sig κ sp ⟨3, ![8, 50, 64]⟩ e) (gp : vp.ty.Contents Val)
    (G : (⟨3, ![8, 50, 64]⟩ : Shape).Idx → Val e) (s : Fin 8) (k : ℕ) (hk : k < 50)
    {o1 o2 o3 o4 : Fin 3 → ℕ} (h1 : o1 = ![s.val, k, 0]) (h2 : o2 = ![s.val, k, 16]) (h3 : o3 = ![s.val, k, 32])
    (h4 : o4 = ![s.val, k, 48])
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : ∀ x : Fin 16, w1 (ix3 (0 : Fin 1) (0 : Fin 1) x) = G (ix3 s ⟨k, hk⟩ ⟨0 + x.val, by omega⟩))
    (hw2 : ∀ x : Fin 16, w2 (ix3 (0 : Fin 1) (0 : Fin 1) x) = G (ix3 s ⟨k, hk⟩ ⟨16 + x.val, by omega⟩))
    (hw3 : ∀ x : Fin 16, w3 (ix3 (0 : Fin 1) (0 : Fin 1) x) = G (ix3 s ⟨k, hk⟩ ⟨32 + x.val, by omega⟩))
    (hw4 : ∀ x : Fin 16, w4 (ix3 (0 : Fin 1) (0 : Fin 1) x) = G (ix3 s ⟨k, hk⟩ ⟨48 + x.val, by omega⟩))
    (hprev : ∀ (r : Fin 50) (x : Fin 64), r.val < k → vp.read Val gp (ix3 s r x) = G (ix3 s r x)) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x) = G (ix3 s r x) := by
  intro r x hr
  by_cases hlt : r.val < k
  · rw [View.read_writes_cons_unit_of_not_mem vp gp i4 w4 _ (ix3 s r x) h4 (1 : Fin 3) (Or.inl hlt),
      View.read_writes_cons_unit_of_not_mem vp gp i3 w3 _ (ix3 s r x) h3 (1 : Fin 3) (Or.inl hlt),
      View.read_writes_cons_unit_of_not_mem vp gp i2 w2 _ (ix3 s r x) h2 (1 : Fin 3) (Or.inl hlt),
      View.read_writes_cons_unit_of_not_mem vp gp i1 w1 _ (ix3 s r x) h1 (1 : Fin 3) (Or.inl hlt), View.writes_nil]
    exact hprev r x hlt
  · have hrk : r.val = k := by omega
    have hx := x.isLt
    have tgt : ∀ (c : ℕ) (hc : c + 16 ≤ 64) (hcx : c ≤ x.val) (hxc : x.val < c + 16),
        G (ix3 s ⟨k, hk⟩ (⟨c + (x.val - c), by omega⟩ : Fin 64)) = G (ix3 s r x) := fun c hc hcx hxc =>
      congrArg G (by
        have e1 : (⟨k, hk⟩ : Fin 50) = r := Fin.ext hrk.symm
        have e2 : (⟨c + (x.val - c), by omega⟩ : Fin 64) = x := Fin.ext (by show c + (x.val - c) = x.val; omega)
        rw [e1, e2])
    by_cases c4 : 48 ≤ x.val
    · rw [View.read_writes_cons_unit_of_mem vp gp i4 w4 _ (ix3 s r x) (ix3 (0 : Fin 1) (0 : Fin 1) (⟨x.val - 48, by omega⟩ : Fin 16)) h4
        (fun a => by
          match a with
          | ⟨0, _⟩ => show s.val = s.val + 0; omega
          | ⟨1, _⟩ => show r.val = k + 0; omega
          | ⟨2, _⟩ => show x.val = 48 + (x.val - 48); omega)]
      exact (hw4 _).trans (tgt 48 (by omega) c4 (by omega))
    · rw [View.read_writes_cons_unit_of_not_mem vp gp i4 w4 _ (ix3 s r x) h4 (2 : Fin 3) (Or.inl (by show x.val < 48; omega))]
      by_cases c3 : 32 ≤ x.val
      · rw [View.read_writes_cons_unit_of_mem vp gp i3 w3 _ (ix3 s r x) (ix3 (0 : Fin 1) (0 : Fin 1) (⟨x.val - 32, by omega⟩ : Fin 16)) h3
          (fun a => by
            match a with
            | ⟨0, _⟩ => show s.val = s.val + 0; omega
            | ⟨1, _⟩ => show r.val = k + 0; omega
            | ⟨2, _⟩ => show x.val = 32 + (x.val - 32); omega)]
        exact (hw3 _).trans (tgt 32 (by omega) c3 (by omega))
      · rw [View.read_writes_cons_unit_of_not_mem vp gp i3 w3 _ (ix3 s r x) h3 (2 : Fin 3) (Or.inl (by show x.val < 32; omega))]
        by_cases c2 : 16 ≤ x.val
        · rw [View.read_writes_cons_unit_of_mem vp gp i2 w2 _ (ix3 s r x) (ix3 (0 : Fin 1) (0 : Fin 1) (⟨x.val - 16, by omega⟩ : Fin 16)) h2
            (fun a => by
              match a with
              | ⟨0, _⟩ => show s.val = s.val + 0; omega
              | ⟨1, _⟩ => show r.val = k + 0; omega
              | ⟨2, _⟩ => show x.val = 16 + (x.val - 16); omega)]
          exact (hw2 _).trans (tgt 16 (by omega) c2 (by omega))
        · rw [View.read_writes_cons_unit_of_not_mem vp gp i2 w2 _ (ix3 s r x) h2 (2 : Fin 3) (Or.inl (by show x.val < 16; omega))]
          rw [View.read_writes_cons_unit_of_mem vp gp i1 w1 _ (ix3 s r x) (ix3 (0 : Fin 1) (0 : Fin 1) (⟨x.val - 0, by omega⟩ : Fin 16)) h1
            (fun a => by
              match a with
              | ⟨0, _⟩ => show s.val = s.val + 0; omega
              | ⟨1, _⟩ => show r.val = k + 0; omega
              | ⟨2, _⟩ => show x.val = 0 + (x.val - 0); omega)]
          exact (hw1 _).trans (tgt 0 (by omega) (by omega) (by omega))

/-- A sixteen-lane load of row `k` of slot `s` of the row buffer at lane offset `c`, read at lane `x`. -/
theorem read_chunk (vb : View sig κ sp ⟨3, ![8, 56, 128]⟩ e) (fb : vb.ty.Contents Val) {o : Fin 3 → ℕ} (s : Fin 8) (k c : ℕ)
    (hk : k < 56) (hc : c + 16 ≤ 128) (ho : o = ![s.val, k, c])
    (i : ∀ a, o a + SChunk.size a ≤ (⟨3, ![8, 56, 128]⟩ : Shape).size a) (x : Fin 16) :
    vb.readAt Val (Rect.unit (s := ⟨3, ![8, 56, 128]⟩) o SChunk.size i).toLoadRect fb (ix3 (0 : Fin 1) (0 : Fin 1) x)
      = vb.read Val fb (ix3 s (⟨k, hk⟩ : Fin 56) (⟨c + x.val, by omega⟩ : Fin 128)) := by
  subst ho
  rw [View.readAt_apply]
  refine congrArg (vb.read Val fb) (funext fun a => Fin.ext ?_)
  match a with
  | ⟨0, _⟩ => show s.val + 1 * 0 = s.val; omega
  | ⟨1, _⟩ => show k + 1 * 0 = k; omega
  | ⟨2, _⟩ => show c + 1 * x.val = c + x.val; omega

/-- One repack trip: the four stores' payloads are the four sixteen-lane loads of row `k` of slot `s` of the row
    buffer, so the rows below `k + 1` of slot `s` of the repacked buffer hold the row buffer's first 64 lanes. -/
theorem repack_trip {κ' : Kind} {sp' : Space} (vp : View sig κ sp ⟨3, ![8, 50, 64]⟩ e) (vb : View sig κ' sp' ⟨3, ![8, 56, 128]⟩ e)
    (gp : vp.ty.Contents Val) (fb : vb.ty.Contents Val) (s : Fin 8) (k : ℕ) (hk : k < 50)
    {ob1 ob2 ob3 ob4 o1 o2 o3 o4 : Fin 3 → ℕ}
    (hb1 : ob1 = ![s.val, k, 0]) (hb2 : ob2 = ![s.val, k, 16]) (hb3 : ob3 = ![s.val, k, 32]) (hb4 : ob4 = ![s.val, k, 48])
    (h1 : o1 = ![s.val, k, 0]) (h2 : o2 = ![s.val, k, 16]) (h3 : o3 = ![s.val, k, 32]) (h4 : o4 = ![s.val, k, 48])
    (ib1 : ∀ a, ob1 a + SChunk.size a ≤ (⟨3, ![8, 56, 128]⟩ : Shape).size a)
    (ib2 : ∀ a, ob2 a + SChunk.size a ≤ (⟨3, ![8, 56, 128]⟩ : Shape).size a)
    (ib3 : ∀ a, ob3 a + SChunk.size a ≤ (⟨3, ![8, 56, 128]⟩ : Shape).size a)
    (ib4 : ∀ a, ob4 a + SChunk.size a ≤ (⟨3, ![8, 56, 128]⟩ : Shape).size a)
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : w1 = vb.readAt Val (Rect.unit (s := ⟨3, ![8, 56, 128]⟩) ob1 SChunk.size ib1).toLoadRect fb)
    (hw2 : w2 = vb.readAt Val (Rect.unit (s := ⟨3, ![8, 56, 128]⟩) ob2 SChunk.size ib2).toLoadRect fb)
    (hw3 : w3 = vb.readAt Val (Rect.unit (s := ⟨3, ![8, 56, 128]⟩) ob3 SChunk.size ib3).toLoadRect fb)
    (hw4 : w4 = vb.readAt Val (Rect.unit (s := ⟨3, ![8, 56, 128]⟩) ob4 SChunk.size ib4).toLoadRect fb)
    (hprev : ∀ (r : Fin 50) (x : Fin 64), r.val < k →
      vp.read Val gp (ix3 s r x) = vb.read Val fb (ix3 s (Fin.castLE (by decide) r : Fin 56) (Fin.castLE (by decide) x : Fin 128))) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x)
        = vb.read Val fb (ix3 s (Fin.castLE (by decide) r : Fin 56) (Fin.castLE (by decide) x : Fin 128)) := by
  subst hw1 hw2 hw3 hw4
  exact repack_step vp gp
    (fun y => vb.read Val fb (ix3 (y 0 : Fin 8) (Fin.castLE (by decide) (y 1 : Fin 50) : Fin 56) (Fin.castLE (by decide) (y 2 : Fin 64) : Fin 128)))
    s k hk h1 h2 h3 h4 i1 i2 i3 i4 _ _ _ _
    (fun x => read_chunk vb fb s k 0 (by omega) (by omega) hb1 ib1 x)
    (fun x => read_chunk vb fb s k 16 (by omega) (by omega) hb2 ib2 x)
    (fun x => read_chunk vb fb s k 32 (by omega) (by omega) hb3 ib3 x)
    (fun x => read_chunk vb fb s k 48 (by omega) (by omega) hb4 ib4 x)
    hprev

end PureRepack

section RepackV

variable (d : Dev nD) (L : grid0.Coords)

/-- Slot 0 between two repack trips: the row window at the fixed contents `fb`, slot 0 of the repacked buffer at some
    contents whose rows below `k` are `fb`'s first 64 lanes. -/
def RInvV0 (fb : Buf (Elt F) ((bWin0).view.loc (thr d L))) (k : ℕ) (_ : Unit) : sProp 𝕄 :=
  iprop(((bWin0).view.loc (thr d L) ↦[(bWin0).view.set]{fullShare} fb)
    ∗ ∃ g, ((pWin0).view.loc (thr d L) ↦[(pWin0).view.set]{fullShare} g)
        ∗ ⌜∀ (r : Fin 50) (e : Fin 64), r.val < k → g (ix3 (0 : Fin 8) r e) = fb (ix3 (0 : Fin 8) (Fin.castLE (by decide) r : Fin 56) (Fin.castLE (by decide) e : Fin 128))⌝)

/-- Slot 1 between two repack trips: the row window at the fixed contents `fb`, slot 1 of the repacked buffer at some
    contents whose rows below `k` are `fb`'s first 64 lanes. -/
def RInvV1 (fb : Buf (Elt F) ((bWin1).view.loc (thr d L))) (k : ℕ) (_ : Unit) : sProp 𝕄 :=
  iprop(((bWin1).view.loc (thr d L) ↦[(bWin1).view.set]{fullShare} fb)
    ∗ ∃ g, ((pWin1).view.loc (thr d L) ↦[(pWin1).view.set]{fullShare} g)
        ∗ ⌜∀ (r : Fin 50) (e : Fin 64), r.val < k → g (ix3 (1 : Fin 8) r e) = fb (ix3 (1 : Fin 8) (Fin.castLE (by decide) r : Fin 56) (Fin.castLE (by decide) e : Fin 128))⌝)

/-- Slot 2 between two repack trips: the row window at the fixed contents `fb`, slot 2 of the repacked buffer at some
    contents whose rows below `k` are `fb`'s first 64 lanes. -/
def RInvV2 (fb : Buf (Elt F) ((bWin2).view.loc (thr d L))) (k : ℕ) (_ : Unit) : sProp 𝕄 :=
  iprop(((bWin2).view.loc (thr d L) ↦[(bWin2).view.set]{fullShare} fb)
    ∗ ∃ g, ((pWin2).view.loc (thr d L) ↦[(pWin2).view.set]{fullShare} g)
        ∗ ⌜∀ (r : Fin 50) (e : Fin 64), r.val < k → g (ix3 (2 : Fin 8) r e) = fb (ix3 (2 : Fin 8) (Fin.castLE (by decide) r : Fin 56) (Fin.castLE (by decide) e : Fin 128))⌝)

/-- Slot 3 between two repack trips: the row window at the fixed contents `fb`, slot 3 of the repacked buffer at some
    contents whose rows below `k` are `fb`'s first 64 lanes. -/
def RInvV3 (fb : Buf (Elt F) ((bWin3).view.loc (thr d L))) (k : ℕ) (_ : Unit) : sProp 𝕄 :=
  iprop(((bWin3).view.loc (thr d L) ↦[(bWin3).view.set]{fullShare} fb)
    ∗ ∃ g, ((pWin3).view.loc (thr d L) ↦[(pWin3).view.set]{fullShare} g)
        ∗ ⌜∀ (r : Fin 50) (e : Fin 64), r.val < k → g (ix3 (3 : Fin 8) r e) = fb (ix3 (3 : Fin 8) (Fin.castLE (by decide) r : Fin 56) (Fin.castLE (by decide) e : Fin 128))⌝)

/-- Slot 4 between two repack trips: the row window at the fixed contents `fb`, slot 4 of the repacked buffer at some
    contents whose rows below `k` are `fb`'s first 64 lanes. -/
def RInvV4 (fb : Buf (Elt F) ((bWin4).view.loc (thr d L))) (k : ℕ) (_ : Unit) : sProp 𝕄 :=
  iprop(((bWin4).view.loc (thr d L) ↦[(bWin4).view.set]{fullShare} fb)
    ∗ ∃ g, ((pWin4).view.loc (thr d L) ↦[(pWin4).view.set]{fullShare} g)
        ∗ ⌜∀ (r : Fin 50) (e : Fin 64), r.val < k → g (ix3 (4 : Fin 8) r e) = fb (ix3 (4 : Fin 8) (Fin.castLE (by decide) r : Fin 56) (Fin.castLE (by decide) e : Fin 128))⌝)

/-- Slot 5 between two repack trips: the row window at the fixed contents `fb`, slot 5 of the repacked buffer at some
    contents whose rows below `k` are `fb`'s first 64 lanes. -/
def RInvV5 (fb : Buf (Elt F) ((bWin5).view.loc (thr d L))) (k : ℕ) (_ : Unit) : sProp 𝕄 :=
  iprop(((bWin5).view.loc (thr d L) ↦[(bWin5).view.set]{fullShare} fb)
    ∗ ∃ g, ((pWin5).view.loc (thr d L) ↦[(pWin5).view.set]{fullShare} g)
        ∗ ⌜∀ (r : Fin 50) (e : Fin 64), r.val < k → g (ix3 (5 : Fin 8) r e) = fb (ix3 (5 : Fin 8) (Fin.castLE (by decide) r : Fin 56) (Fin.castLE (by decide) e : Fin 128))⌝)

/-- Slot 6 between two repack trips: the row window at the fixed contents `fb`, slot 6 of the repacked buffer at some
    contents whose rows below `k` are `fb`'s first 64 lanes. -/
def RInvV6 (fb : Buf (Elt F) ((bWin6).view.loc (thr d L))) (k : ℕ) (_ : Unit) : sProp 𝕄 :=
  iprop(((bWin6).view.loc (thr d L) ↦[(bWin6).view.set]{fullShare} fb)
    ∗ ∃ g, ((pWin6).view.loc (thr d L) ↦[(pWin6).view.set]{fullShare} g)
        ∗ ⌜∀ (r : Fin 50) (e : Fin 64), r.val < k → g (ix3 (6 : Fin 8) r e) = fb (ix3 (6 : Fin 8) (Fin.castLE (by decide) r : Fin 56) (Fin.castLE (by decide) e : Fin 128))⌝)

/-- Slot 7 between two repack trips: the row window at the fixed contents `fb`, slot 7 of the repacked buffer at some
    contents whose rows below `k` are `fb`'s first 64 lanes. -/
def RInvV7 (fb : Buf (Elt F) ((bWin7).view.loc (thr d L))) (k : ℕ) (_ : Unit) : sProp 𝕄 :=
  iprop(((bWin7).view.loc (thr d L) ↦[(bWin7).view.set]{fullShare} fb)
    ∗ ∃ g, ((pWin7).view.loc (thr d L) ↦[(pWin7).view.set]{fullShare} g)
        ∗ ⌜∀ (r : Fin 50) (e : Fin 64), r.val < k → g (ix3 (7 : Fin 8) r e) = fb (ix3 (7 : Fin 8) (Fin.castLE (by decide) r : Fin 56) (Fin.castLE (by decide) e : Fin 128))⌝)

variable [FloatOps F]

theorem k0_pay1_eq (v : Vec F S1x1x16 .f32) : k0_pay1 v = v := by unfold k0_pay1; dsimp only; rw [shapeCast_shapeCast]
theorem k0_pay2_eq (v : Vec F S1x1x16 .f32) : k0_pay2 v = v := by unfold k0_pay2; dsimp only; rw [shapeCast_shapeCast]
theorem k0_pay3_eq (v : Vec F S1x1x16 .f32) : k0_pay3 v = v := by unfold k0_pay3; dsimp only; rw [shapeCast_shapeCast]
theorem k0_pay4_eq (v : Vec F S1x1x16 .f32) : k0_pay4 v = v := by unfold k0_pay4; dsimp only; rw [shapeCast_shapeCast]
theorem k0_pay5_eq (v : Vec F S1x1x16 .f32) : k0_pay5 v = v := by unfold k0_pay5; dsimp only; rw [shapeCast_shapeCast]
theorem k0_pay6_eq (v : Vec F S1x1x16 .f32) : k0_pay6 v = v := by unfold k0_pay6; dsimp only; rw [shapeCast_shapeCast]
theorem k0_pay7_eq (v : Vec F S1x1x16 .f32) : k0_pay7 v = v := by unfold k0_pay7; dsimp only; rw [shapeCast_shapeCast]
theorem k0_pay8_eq (v : Vec F S1x1x16 .f32) : k0_pay8 v = v := by unfold k0_pay8; dsimp only; rw [shapeCast_shapeCast]
theorem k0_pay9_eq (v : Vec F S1x1x16 .f32) : k0_pay9 v = v := by unfold k0_pay9; dsimp only; rw [shapeCast_shapeCast]
theorem k0_pay10_eq (v : Vec F S1x1x16 .f32) : k0_pay10 v = v := by unfold k0_pay10; dsimp only; rw [shapeCast_shapeCast]
theorem k0_pay11_eq (v : Vec F S1x1x16 .f32) : k0_pay11 v = v := by unfold k0_pay11; dsimp only; rw [shapeCast_shapeCast]
theorem k0_pay12_eq (v : Vec F S1x1x16 .f32) : k0_pay12 v = v := by unfold k0_pay12; dsimp only; rw [shapeCast_shapeCast]
theorem k0_pay13_eq (v : Vec F S1x1x16 .f32) : k0_pay13 v = v := by unfold k0_pay13; dsimp only; rw [shapeCast_shapeCast]
theorem k0_pay14_eq (v : Vec F S1x1x16 .f32) : k0_pay14 v = v := by unfold k0_pay14; dsimp only; rw [shapeCast_shapeCast]
theorem k0_pay15_eq (v : Vec F S1x1x16 .f32) : k0_pay15 v = v := by unfold k0_pay15; dsimp only; rw [shapeCast_shapeCast]
theorem k0_pay16_eq (v : Vec F S1x1x16 .f32) : k0_pay16 v = v := by unfold k0_pay16; dsimp only; rw [shapeCast_shapeCast]
theorem k0_pay17_eq (v : Vec F S1x1x16 .f32) : k0_pay17 v = v := by unfold k0_pay17; dsimp only; rw [shapeCast_shapeCast]
theorem k0_pay18_eq (v : Vec F S1x1x16 .f32) : k0_pay18 v = v := by unfold k0_pay18; dsimp only; rw [shapeCast_shapeCast]
theorem k0_pay19_eq (v : Vec F S1x1x16 .f32) : k0_pay19 v = v := by unfold k0_pay19; dsimp only; rw [shapeCast_shapeCast]
theorem k0_pay20_eq (v : Vec F S1x1x16 .f32) : k0_pay20 v = v := by unfold k0_pay20; dsimp only; rw [shapeCast_shapeCast]
theorem k0_pay21_eq (v : Vec F S1x1x16 .f32) : k0_pay21 v = v := by unfold k0_pay21; dsimp only; rw [shapeCast_shapeCast]
theorem k0_pay22_eq (v : Vec F S1x1x16 .f32) : k0_pay22 v = v := by unfold k0_pay22; dsimp only; rw [shapeCast_shapeCast]
theorem k0_pay23_eq (v : Vec F S1x1x16 .f32) : k0_pay23 v = v := by unfold k0_pay23; dsimp only; rw [shapeCast_shapeCast]
theorem k0_pay24_eq (v : Vec F S1x1x16 .f32) : k0_pay24 v = v := by unfold k0_pay24; dsimp only; rw [shapeCast_shapeCast]
theorem k0_pay25_eq (v : Vec F S1x1x16 .f32) : k0_pay25 v = v := by unfold k0_pay25; dsimp only; rw [shapeCast_shapeCast]
theorem k0_pay26_eq (v : Vec F S1x1x16 .f32) : k0_pay26 v = v := by unfold k0_pay26; dsimp only; rw [shapeCast_shapeCast]
theorem k0_pay27_eq (v : Vec F S1x1x16 .f32) : k0_pay27 v = v := by unfold k0_pay27; dsimp only; rw [shapeCast_shapeCast]
theorem k0_pay28_eq (v : Vec F S1x1x16 .f32) : k0_pay28 v = v := by unfold k0_pay28; dsimp only; rw [shapeCast_shapeCast]
theorem k0_pay29_eq (v : Vec F S1x1x16 .f32) : k0_pay29 v = v := by unfold k0_pay29; dsimp only; rw [shapeCast_shapeCast]
theorem k0_pay30_eq (v : Vec F S1x1x16 .f32) : k0_pay30 v = v := by unfold k0_pay30; dsimp only; rw [shapeCast_shapeCast]
theorem k0_pay31_eq (v : Vec F S1x1x16 .f32) : k0_pay31 v = v := by unfold k0_pay31; dsimp only; rw [shapeCast_shapeCast]
theorem k0_pay32_eq (v : Vec F S1x1x16 .f32) : k0_pay32 v = v := by unfold k0_pay32; dsimp only; rw [shapeCast_shapeCast]

set_option maxHeartbeats 1000000 in
theorem repackV2 (v2 : BitVec 32) (c0_i32_51 : BitVec 32) (c1_i32_52 : BitVec 32) (k0_t1 : Fin k0_t1_loop.trips)
    (fb : Buf (Elt F) ((bWin0).view.loc (thr d L))) (k : Fin k0_t2_loop.trips) (u : Unit) :
    (RInvV0 d L fb k.val u : sProp 𝕄) ⊢ wp frame (wpE (defs₀ (F := F)) 𝒱₀ (thr d L) none) Set.univ
        (k0_t2_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 c0_i32_51 c1_i32_52 k0_t1 k u) (RInvV0 d L fb (k.val + 1)) := by
  unfold k0_t2_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (0 : Fin 8) k.val hk
    (k0_off3_eq k) (k0_off5_eq k) (k0_off7_eq k) (k0_off9_eq k)
    (k0_off4_eq k) (k0_off6_eq k) (k0_off8_eq k) (k0_off10_eq k)
    (k0_off3_inb k) (k0_off5_inb k) (k0_off7_inb k) (k0_off9_inb k)
    (k0_off4_inb k) (k0_off6_inb k) (k0_off8_inb k) (k0_off10_inb k)
    (k0_pay1 (View.readAt (Elt F) (View.whole (cc0_scratch1 : Ref sig .scVector)) (Rect.unit (s := S8x56x128) (k0_off3 k) S1x1x16.size (k0_off3_inb k)).toLoadRect fb))
    (k0_pay2 (View.readAt (Elt F) (View.whole (cc0_scratch1 : Ref sig .scVector)) (Rect.unit (s := S8x56x128) (k0_off5 k) S1x1x16.size (k0_off5_inb k)).toLoadRect fb))
    (k0_pay3 (View.readAt (Elt F) (View.whole (cc0_scratch1 : Ref sig .scVector)) (Rect.unit (s := S8x56x128) (k0_off7 k) S1x1x16.size (k0_off7_inb k)).toLoadRect fb))
    (k0_pay4 (View.readAt (Elt F) (View.whole (cc0_scratch1 : Ref sig .scVector)) (Rect.unit (s := S8x56x128) (k0_off9 k) S1x1x16.size (k0_off9_inb k)).toLoadRect fb))
    (k0_pay1_eq _) (k0_pay2_eq _) (k0_pay3_eq _) (k0_pay4_eq _) hrep

theorem trips2 : k0_t2_loop.trips = 50 := rfl

/-- After loop `k0_t2` every row of slot 0 is repacked. -/
theorem repackV2_done (fb : Buf (Elt F) ((bWin0).view.loc (thr d L))) (g : Buf (Elt F) ((pWin0).view.loc (thr d L)))
    (h : ∀ (r : Fin 50) (e : Fin 64), r.val < k0_t2_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips2]; exact r.isLt)

set_option maxHeartbeats 1000000 in
theorem repackV3 (v2 : BitVec 32) (k0_t1 : Fin k0_t1_loop.trips) (arg24 : BitVec 32) (v255 : BitVec 32)
    (fb : Buf (Elt F) ((bWin1).view.loc (thr d L))) (k : Fin k0_t3_loop.trips) (u : Unit) :
    (RInvV1 d L fb k.val u : sProp 𝕄) ⊢ wp frame (wpE (defs₀ (F := F)) 𝒱₀ (thr d L) none) Set.univ
        (k0_t3_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v255 k u) (RInvV1 d L fb (k.val + 1)) := by
  unfold k0_t3_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (1 : Fin 8) k.val hk
    (k0_off12_eq k) (k0_off14_eq k) (k0_off16_eq k) (k0_off18_eq k)
    (k0_off13_eq k) (k0_off15_eq k) (k0_off17_eq k) (k0_off19_eq k)
    (k0_off12_inb k) (k0_off14_inb k) (k0_off16_inb k) (k0_off18_inb k)
    (k0_off13_inb k) (k0_off15_inb k) (k0_off17_inb k) (k0_off19_inb k)
    (k0_pay5 (View.readAt (Elt F) (View.whole (cc0_scratch1 : Ref sig .scVector)) (Rect.unit (s := S8x56x128) (k0_off12 k) S1x1x16.size (k0_off12_inb k)).toLoadRect fb))
    (k0_pay6 (View.readAt (Elt F) (View.whole (cc0_scratch1 : Ref sig .scVector)) (Rect.unit (s := S8x56x128) (k0_off14 k) S1x1x16.size (k0_off14_inb k)).toLoadRect fb))
    (k0_pay7 (View.readAt (Elt F) (View.whole (cc0_scratch1 : Ref sig .scVector)) (Rect.unit (s := S8x56x128) (k0_off16 k) S1x1x16.size (k0_off16_inb k)).toLoadRect fb))
    (k0_pay8 (View.readAt (Elt F) (View.whole (cc0_scratch1 : Ref sig .scVector)) (Rect.unit (s := S8x56x128) (k0_off18 k) S1x1x16.size (k0_off18_inb k)).toLoadRect fb))
    (k0_pay5_eq _) (k0_pay6_eq _) (k0_pay7_eq _) (k0_pay8_eq _) hrep

theorem trips3 : k0_t3_loop.trips = 50 := rfl

/-- After loop `k0_t3` every row of slot 1 is repacked. -/
theorem repackV3_done (fb : Buf (Elt F) ((bWin1).view.loc (thr d L))) (g : Buf (Elt F) ((pWin1).view.loc (thr d L)))
    (h : ∀ (r : Fin 50) (e : Fin 64), r.val < k0_t3_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips3]; exact r.isLt)

set_option maxHeartbeats 1000000 in
theorem repackV4 (v2 : BitVec 32) (k0_t1 : Fin k0_t1_loop.trips) (arg24 : BitVec 32) (v255 : BitVec 32)
    (fb : Buf (Elt F) ((bWin2).view.loc (thr d L))) (k : Fin k0_t4_loop.trips) (u : Unit) :
    (RInvV2 d L fb k.val u : sProp 𝕄) ⊢ wp frame (wpE (defs₀ (F := F)) 𝒱₀ (thr d L) none) Set.univ
        (k0_t4_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v255 k u) (RInvV2 d L fb (k.val + 1)) := by
  unfold k0_t4_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (2 : Fin 8) k.val hk
    (k0_off20_eq k) (k0_off22_eq k) (k0_off24_eq k) (k0_off26_eq k)
    (k0_off21_eq k) (k0_off23_eq k) (k0_off25_eq k) (k0_off27_eq k)
    (k0_off20_inb k) (k0_off22_inb k) (k0_off24_inb k) (k0_off26_inb k)
    (k0_off21_inb k) (k0_off23_inb k) (k0_off25_inb k) (k0_off27_inb k)
    (k0_pay9 (View.readAt (Elt F) (View.whole (cc0_scratch1 : Ref sig .scVector)) (Rect.unit (s := S8x56x128) (k0_off20 k) S1x1x16.size (k0_off20_inb k)).toLoadRect fb))
    (k0_pay10 (View.readAt (Elt F) (View.whole (cc0_scratch1 : Ref sig .scVector)) (Rect.unit (s := S8x56x128) (k0_off22 k) S1x1x16.size (k0_off22_inb k)).toLoadRect fb))
    (k0_pay11 (View.readAt (Elt F) (View.whole (cc0_scratch1 : Ref sig .scVector)) (Rect.unit (s := S8x56x128) (k0_off24 k) S1x1x16.size (k0_off24_inb k)).toLoadRect fb))
    (k0_pay12 (View.readAt (Elt F) (View.whole (cc0_scratch1 : Ref sig .scVector)) (Rect.unit (s := S8x56x128) (k0_off26 k) S1x1x16.size (k0_off26_inb k)).toLoadRect fb))
    (k0_pay9_eq _) (k0_pay10_eq _) (k0_pay11_eq _) (k0_pay12_eq _) hrep

theorem trips4 : k0_t4_loop.trips = 50 := rfl

/-- After loop `k0_t4` every row of slot 2 is repacked. -/
theorem repackV4_done (fb : Buf (Elt F) ((bWin2).view.loc (thr d L))) (g : Buf (Elt F) ((pWin2).view.loc (thr d L)))
    (h : ∀ (r : Fin 50) (e : Fin 64), r.val < k0_t4_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips4]; exact r.isLt)

set_option maxHeartbeats 1000000 in
theorem repackV5 (v2 : BitVec 32) (k0_t1 : Fin k0_t1_loop.trips) (arg24 : BitVec 32)
    (fb : Buf (Elt F) ((bWin3).view.loc (thr d L))) (k : Fin k0_t5_loop.trips) (u : Unit) :
    (RInvV3 d L fb k.val u : sProp 𝕄) ⊢ wp frame (wpE (defs₀ (F := F)) 𝒱₀ (thr d L) none) Set.univ
        (k0_t5_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 k u) (RInvV3 d L fb (k.val + 1)) := by
  unfold k0_t5_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (3 : Fin 8) k.val hk
    (k0_off28_eq k) (k0_off30_eq k) (k0_off32_eq k) (k0_off34_eq k)
    (k0_off29_eq k) (k0_off31_eq k) (k0_off33_eq k) (k0_off35_eq k)
    (k0_off28_inb k) (k0_off30_inb k) (k0_off32_inb k) (k0_off34_inb k)
    (k0_off29_inb k) (k0_off31_inb k) (k0_off33_inb k) (k0_off35_inb k)
    (k0_pay13 (View.readAt (Elt F) (View.whole (cc0_scratch1 : Ref sig .scVector)) (Rect.unit (s := S8x56x128) (k0_off28 k) S1x1x16.size (k0_off28_inb k)).toLoadRect fb))
    (k0_pay14 (View.readAt (Elt F) (View.whole (cc0_scratch1 : Ref sig .scVector)) (Rect.unit (s := S8x56x128) (k0_off30 k) S1x1x16.size (k0_off30_inb k)).toLoadRect fb))
    (k0_pay15 (View.readAt (Elt F) (View.whole (cc0_scratch1 : Ref sig .scVector)) (Rect.unit (s := S8x56x128) (k0_off32 k) S1x1x16.size (k0_off32_inb k)).toLoadRect fb))
    (k0_pay16 (View.readAt (Elt F) (View.whole (cc0_scratch1 : Ref sig .scVector)) (Rect.unit (s := S8x56x128) (k0_off34 k) S1x1x16.size (k0_off34_inb k)).toLoadRect fb))
    (k0_pay13_eq _) (k0_pay14_eq _) (k0_pay15_eq _) (k0_pay16_eq _) hrep

theorem trips5 : k0_t5_loop.trips = 50 := rfl

/-- After loop `k0_t5` every row of slot 3 is repacked. -/
theorem repackV5_done (fb : Buf (Elt F) ((bWin3).view.loc (thr d L))) (g : Buf (Elt F) ((pWin3).view.loc (thr d L)))
    (h : ∀ (r : Fin 50) (e : Fin 64), r.val < k0_t5_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips5]; exact r.isLt)

set_option maxHeartbeats 1000000 in
theorem repackV6 (v2 : BitVec 32) (k0_t1 : Fin k0_t1_loop.trips) (arg24 : BitVec 32) (v306 : BitVec 32)
    (fb : Buf (Elt F) ((bWin4).view.loc (thr d L))) (k : Fin k0_t6_loop.trips) (u : Unit) :
    (RInvV4 d L fb k.val u : sProp 𝕄) ⊢ wp frame (wpE (defs₀ (F := F)) 𝒱₀ (thr d L) none) Set.univ
        (k0_t6_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v306 k u) (RInvV4 d L fb (k.val + 1)) := by
  unfold k0_t6_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (4 : Fin 8) k.val hk
    (k0_off36_eq k) (k0_off38_eq k) (k0_off40_eq k) (k0_off42_eq k)
    (k0_off37_eq k) (k0_off39_eq k) (k0_off41_eq k) (k0_off43_eq k)
    (k0_off36_inb k) (k0_off38_inb k) (k0_off40_inb k) (k0_off42_inb k)
    (k0_off37_inb k) (k0_off39_inb k) (k0_off41_inb k) (k0_off43_inb k)
    (k0_pay17 (View.readAt (Elt F) (View.whole (cc0_scratch1 : Ref sig .scVector)) (Rect.unit (s := S8x56x128) (k0_off36 k) S1x1x16.size (k0_off36_inb k)).toLoadRect fb))
    (k0_pay18 (View.readAt (Elt F) (View.whole (cc0_scratch1 : Ref sig .scVector)) (Rect.unit (s := S8x56x128) (k0_off38 k) S1x1x16.size (k0_off38_inb k)).toLoadRect fb))
    (k0_pay19 (View.readAt (Elt F) (View.whole (cc0_scratch1 : Ref sig .scVector)) (Rect.unit (s := S8x56x128) (k0_off40 k) S1x1x16.size (k0_off40_inb k)).toLoadRect fb))
    (k0_pay20 (View.readAt (Elt F) (View.whole (cc0_scratch1 : Ref sig .scVector)) (Rect.unit (s := S8x56x128) (k0_off42 k) S1x1x16.size (k0_off42_inb k)).toLoadRect fb))
    (k0_pay17_eq _) (k0_pay18_eq _) (k0_pay19_eq _) (k0_pay20_eq _) hrep

theorem trips6 : k0_t6_loop.trips = 50 := rfl

/-- After loop `k0_t6` every row of slot 4 is repacked. -/
theorem repackV6_done (fb : Buf (Elt F) ((bWin4).view.loc (thr d L))) (g : Buf (Elt F) ((pWin4).view.loc (thr d L)))
    (h : ∀ (r : Fin 50) (e : Fin 64), r.val < k0_t6_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips6]; exact r.isLt)

set_option maxHeartbeats 1000000 in
theorem repackV7 (v2 : BitVec 32) (k0_t1 : Fin k0_t1_loop.trips) (arg24 : BitVec 32) (v306 : BitVec 32)
    (fb : Buf (Elt F) ((bWin5).view.loc (thr d L))) (k : Fin k0_t7_loop.trips) (u : Unit) :
    (RInvV5 d L fb k.val u : sProp 𝕄) ⊢ wp frame (wpE (defs₀ (F := F)) 𝒱₀ (thr d L) none) Set.univ
        (k0_t7_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v306 k u) (RInvV5 d L fb (k.val + 1)) := by
  unfold k0_t7_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (5 : Fin 8) k.val hk
    (k0_off44_eq k) (k0_off46_eq k) (k0_off48_eq k) (k0_off50_eq k)
    (k0_off45_eq k) (k0_off47_eq k) (k0_off49_eq k) (k0_off51_eq k)
    (k0_off44_inb k) (k0_off46_inb k) (k0_off48_inb k) (k0_off50_inb k)
    (k0_off45_inb k) (k0_off47_inb k) (k0_off49_inb k) (k0_off51_inb k)
    (k0_pay21 (View.readAt (Elt F) (View.whole (cc0_scratch1 : Ref sig .scVector)) (Rect.unit (s := S8x56x128) (k0_off44 k) S1x1x16.size (k0_off44_inb k)).toLoadRect fb))
    (k0_pay22 (View.readAt (Elt F) (View.whole (cc0_scratch1 : Ref sig .scVector)) (Rect.unit (s := S8x56x128) (k0_off46 k) S1x1x16.size (k0_off46_inb k)).toLoadRect fb))
    (k0_pay23 (View.readAt (Elt F) (View.whole (cc0_scratch1 : Ref sig .scVector)) (Rect.unit (s := S8x56x128) (k0_off48 k) S1x1x16.size (k0_off48_inb k)).toLoadRect fb))
    (k0_pay24 (View.readAt (Elt F) (View.whole (cc0_scratch1 : Ref sig .scVector)) (Rect.unit (s := S8x56x128) (k0_off50 k) S1x1x16.size (k0_off50_inb k)).toLoadRect fb))
    (k0_pay21_eq _) (k0_pay22_eq _) (k0_pay23_eq _) (k0_pay24_eq _) hrep

theorem trips7 : k0_t7_loop.trips = 50 := rfl

/-- After loop `k0_t7` every row of slot 5 is repacked. -/
theorem repackV7_done (fb : Buf (Elt F) ((bWin5).view.loc (thr d L))) (g : Buf (Elt F) ((pWin5).view.loc (thr d L)))
    (h : ∀ (r : Fin 50) (e : Fin 64), r.val < k0_t7_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips7]; exact r.isLt)

set_option maxHeartbeats 1000000 in
theorem repackV8 (v2 : BitVec 32) (k0_t1 : Fin k0_t1_loop.trips) (arg24 : BitVec 32)
    (fb : Buf (Elt F) ((bWin6).view.loc (thr d L))) (k : Fin k0_t8_loop.trips) (u : Unit) :
    (RInvV6 d L fb k.val u : sProp 𝕄) ⊢ wp frame (wpE (defs₀ (F := F)) 𝒱₀ (thr d L) none) Set.univ
        (k0_t8_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 k u) (RInvV6 d L fb (k.val + 1)) := by
  unfold k0_t8_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (6 : Fin 8) k.val hk
    (k0_off52_eq k) (k0_off54_eq k) (k0_off56_eq k) (k0_off58_eq k)
    (k0_off53_eq k) (k0_off55_eq k) (k0_off57_eq k) (k0_off59_eq k)
    (k0_off52_inb k) (k0_off54_inb k) (k0_off56_inb k) (k0_off58_inb k)
    (k0_off53_inb k) (k0_off55_inb k) (k0_off57_inb k) (k0_off59_inb k)
    (k0_pay25 (View.readAt (Elt F) (View.whole (cc0_scratch1 : Ref sig .scVector)) (Rect.unit (s := S8x56x128) (k0_off52 k) S1x1x16.size (k0_off52_inb k)).toLoadRect fb))
    (k0_pay26 (View.readAt (Elt F) (View.whole (cc0_scratch1 : Ref sig .scVector)) (Rect.unit (s := S8x56x128) (k0_off54 k) S1x1x16.size (k0_off54_inb k)).toLoadRect fb))
    (k0_pay27 (View.readAt (Elt F) (View.whole (cc0_scratch1 : Ref sig .scVector)) (Rect.unit (s := S8x56x128) (k0_off56 k) S1x1x16.size (k0_off56_inb k)).toLoadRect fb))
    (k0_pay28 (View.readAt (Elt F) (View.whole (cc0_scratch1 : Ref sig .scVector)) (Rect.unit (s := S8x56x128) (k0_off58 k) S1x1x16.size (k0_off58_inb k)).toLoadRect fb))
    (k0_pay25_eq _) (k0_pay26_eq _) (k0_pay27_eq _) (k0_pay28_eq _) hrep

theorem trips8 : k0_t8_loop.trips = 50 := rfl

/-- After loop `k0_t8` every row of slot 6 is repacked. -/
theorem repackV8_done (fb : Buf (Elt F) ((bWin6).view.loc (thr d L))) (g : Buf (Elt F) ((pWin6).view.loc (thr d L)))
    (h : ∀ (r : Fin 50) (e : Fin 64), r.val < k0_t8_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips8]; exact r.isLt)

set_option maxHeartbeats 1000000 in
theorem repackV9 (v2 : BitVec 32) (k0_t1 : Fin k0_t1_loop.trips) (arg24 : BitVec 32) (v357 : BitVec 32)
    (fb : Buf (Elt F) ((bWin7).view.loc (thr d L))) (k : Fin k0_t9_loop.trips) (u : Unit) :
    (RInvV7 d L fb k.val u : sProp 𝕄) ⊢ wp frame (wpE (defs₀ (F := F)) 𝒱₀ (thr d L) none) Set.univ
        (k0_t9_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k0_t1 arg24 v357 k u) (RInvV7 d L fb (k.val + 1)) := by
  unfold k0_t9_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (7 : Fin 8) k.val hk
    (k0_off60_eq k) (k0_off62_eq k) (k0_off64_eq k) (k0_off66_eq k)
    (k0_off61_eq k) (k0_off63_eq k) (k0_off65_eq k) (k0_off67_eq k)
    (k0_off60_inb k) (k0_off62_inb k) (k0_off64_inb k) (k0_off66_inb k)
    (k0_off61_inb k) (k0_off63_inb k) (k0_off65_inb k) (k0_off67_inb k)
    (k0_pay29 (View.readAt (Elt F) (View.whole (cc0_scratch1 : Ref sig .scVector)) (Rect.unit (s := S8x56x128) (k0_off60 k) S1x1x16.size (k0_off60_inb k)).toLoadRect fb))
    (k0_pay30 (View.readAt (Elt F) (View.whole (cc0_scratch1 : Ref sig .scVector)) (Rect.unit (s := S8x56x128) (k0_off62 k) S1x1x16.size (k0_off62_inb k)).toLoadRect fb))
    (k0_pay31 (View.readAt (Elt F) (View.whole (cc0_scratch1 : Ref sig .scVector)) (Rect.unit (s := S8x56x128) (k0_off64 k) S1x1x16.size (k0_off64_inb k)).toLoadRect fb))
    (k0_pay32 (View.readAt (Elt F) (View.whole (cc0_scratch1 : Ref sig .scVector)) (Rect.unit (s := S8x56x128) (k0_off66 k) S1x1x16.size (k0_off66_inb k)).toLoadRect fb))
    (k0_pay29_eq _) (k0_pay30_eq _) (k0_pay31_eq _) (k0_pay32_eq _) hrep

theorem trips9 : k0_t9_loop.trips = 50 := rfl

/-- After loop `k0_t9` every row of slot 7 is repacked. -/
theorem repackV9_done (fb : Buf (Elt F) ((bWin7).view.loc (thr d L))) (g : Buf (Elt F) ((pWin7).view.loc (thr d L)))
    (h : ∀ (r : Fin 50) (e : Fin 64), r.val < k0_t9_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips9]; exact r.isLt)

end RepackV

end Cert.Proof.Tile0

end
-- ==== Proof.TileRepackV2.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value
import proofs.«204056_g19739669692900_cont_8to1_1488_31_alg».proof.Proof.TileRepackV

noncomputable section

namespace Cert.Proof.Tile0

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

section RepackV

variable (d : Dev nD) (L : grid0.Coords)

variable [FloatOps F]

theorem k0_pay33_eq (v : Vec F S1x1x16 .f32) : k0_pay33 v = v := by unfold k0_pay33; dsimp only; rw [shapeCast_shapeCast]
theorem k0_pay34_eq (v : Vec F S1x1x16 .f32) : k0_pay34 v = v := by unfold k0_pay34; dsimp only; rw [shapeCast_shapeCast]
theorem k0_pay35_eq (v : Vec F S1x1x16 .f32) : k0_pay35 v = v := by unfold k0_pay35; dsimp only; rw [shapeCast_shapeCast]
theorem k0_pay36_eq (v : Vec F S1x1x16 .f32) : k0_pay36 v = v := by unfold k0_pay36; dsimp only; rw [shapeCast_shapeCast]
theorem k0_pay37_eq (v : Vec F S1x1x16 .f32) : k0_pay37 v = v := by unfold k0_pay37; dsimp only; rw [shapeCast_shapeCast]
theorem k0_pay38_eq (v : Vec F S1x1x16 .f32) : k0_pay38 v = v := by unfold k0_pay38; dsimp only; rw [shapeCast_shapeCast]
theorem k0_pay39_eq (v : Vec F S1x1x16 .f32) : k0_pay39 v = v := by unfold k0_pay39; dsimp only; rw [shapeCast_shapeCast]
theorem k0_pay40_eq (v : Vec F S1x1x16 .f32) : k0_pay40 v = v := by unfold k0_pay40; dsimp only; rw [shapeCast_shapeCast]
theorem k0_pay41_eq (v : Vec F S1x1x16 .f32) : k0_pay41 v = v := by unfold k0_pay41; dsimp only; rw [shapeCast_shapeCast]
theorem k0_pay42_eq (v : Vec F S1x1x16 .f32) : k0_pay42 v = v := by unfold k0_pay42; dsimp only; rw [shapeCast_shapeCast]
theorem k0_pay43_eq (v : Vec F S1x1x16 .f32) : k0_pay43 v = v := by unfold k0_pay43; dsimp only; rw [shapeCast_shapeCast]
theorem k0_pay44_eq (v : Vec F S1x1x16 .f32) : k0_pay44 v = v := by unfold k0_pay44; dsimp only; rw [shapeCast_shapeCast]
theorem k0_pay45_eq (v : Vec F S1x1x16 .f32) : k0_pay45 v = v := by unfold k0_pay45; dsimp only; rw [shapeCast_shapeCast]
theorem k0_pay46_eq (v : Vec F S1x1x16 .f32) : k0_pay46 v = v := by unfold k0_pay46; dsimp only; rw [shapeCast_shapeCast]
theorem k0_pay47_eq (v : Vec F S1x1x16 .f32) : k0_pay47 v = v := by unfold k0_pay47; dsimp only; rw [shapeCast_shapeCast]
theorem k0_pay48_eq (v : Vec F S1x1x16 .f32) : k0_pay48 v = v := by unfold k0_pay48; dsimp only; rw [shapeCast_shapeCast]
theorem k0_pay49_eq (v : Vec F S1x1x16 .f32) : k0_pay49 v = v := by unfold k0_pay49; dsimp only; rw [shapeCast_shapeCast]
theorem k0_pay50_eq (v : Vec F S1x1x16 .f32) : k0_pay50 v = v := by unfold k0_pay50; dsimp only; rw [shapeCast_shapeCast]
theorem k0_pay51_eq (v : Vec F S1x1x16 .f32) : k0_pay51 v = v := by unfold k0_pay51; dsimp only; rw [shapeCast_shapeCast]
theorem k0_pay52_eq (v : Vec F S1x1x16 .f32) : k0_pay52 v = v := by unfold k0_pay52; dsimp only; rw [shapeCast_shapeCast]
theorem k0_pay53_eq (v : Vec F S1x1x16 .f32) : k0_pay53 v = v := by unfold k0_pay53; dsimp only; rw [shapeCast_shapeCast]
theorem k0_pay54_eq (v : Vec F S1x1x16 .f32) : k0_pay54 v = v := by unfold k0_pay54; dsimp only; rw [shapeCast_shapeCast]
theorem k0_pay55_eq (v : Vec F S1x1x16 .f32) : k0_pay55 v = v := by unfold k0_pay55; dsimp only; rw [shapeCast_shapeCast]
theorem k0_pay56_eq (v : Vec F S1x1x16 .f32) : k0_pay56 v = v := by unfold k0_pay56; dsimp only; rw [shapeCast_shapeCast]
theorem k0_pay57_eq (v : Vec F S1x1x16 .f32) : k0_pay57 v = v := by unfold k0_pay57; dsimp only; rw [shapeCast_shapeCast]
theorem k0_pay58_eq (v : Vec F S1x1x16 .f32) : k0_pay58 v = v := by unfold k0_pay58; dsimp only; rw [shapeCast_shapeCast]
theorem k0_pay59_eq (v : Vec F S1x1x16 .f32) : k0_pay59 v = v := by unfold k0_pay59; dsimp only; rw [shapeCast_shapeCast]
theorem k0_pay60_eq (v : Vec F S1x1x16 .f32) : k0_pay60 v = v := by unfold k0_pay60; dsimp only; rw [shapeCast_shapeCast]
theorem k0_pay61_eq (v : Vec F S1x1x16 .f32) : k0_pay61 v = v := by unfold k0_pay61; dsimp only; rw [shapeCast_shapeCast]
theorem k0_pay62_eq (v : Vec F S1x1x16 .f32) : k0_pay62 v = v := by unfold k0_pay62; dsimp only; rw [shapeCast_shapeCast]
theorem k0_pay63_eq (v : Vec F S1x1x16 .f32) : k0_pay63 v = v := by unfold k0_pay63; dsimp only; rw [shapeCast_shapeCast]
theorem k0_pay64_eq (v : Vec F S1x1x16 .f32) : k0_pay64 v = v := by unfold k0_pay64; dsimp only; rw [shapeCast_shapeCast]

set_option maxHeartbeats 1000000 in
theorem repackV10 (v2 : BitVec 32)
    (fb : Buf (Elt F) ((bWin0).view.loc (thr d L))) (k : Fin k0_t10_loop.trips) (u : Unit) :
    (RInvV0 d L fb k.val u : sProp 𝕄) ⊢ wp frame (wpE (defs₀ (F := F)) 𝒱₀ (thr d L) none) Set.univ
        (k0_t10_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV0 d L fb (k.val + 1)) := by
  unfold k0_t10_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (0 : Fin 8) k.val hk
    (k0_off69_eq k) (k0_off71_eq k) (k0_off73_eq k) (k0_off75_eq k)
    (k0_off70_eq k) (k0_off72_eq k) (k0_off74_eq k) (k0_off76_eq k)
    (k0_off69_inb k) (k0_off71_inb k) (k0_off73_inb k) (k0_off75_inb k)
    (k0_off70_inb k) (k0_off72_inb k) (k0_off74_inb k) (k0_off76_inb k)
    (k0_pay33 (View.readAt (Elt F) (View.whole (cc0_scratch1 : Ref sig .scVector)) (Rect.unit (s := S8x56x128) (k0_off69 k) S1x1x16.size (k0_off69_inb k)).toLoadRect fb))
    (k0_pay34 (View.readAt (Elt F) (View.whole (cc0_scratch1 : Ref sig .scVector)) (Rect.unit (s := S8x56x128) (k0_off71 k) S1x1x16.size (k0_off71_inb k)).toLoadRect fb))
    (k0_pay35 (View.readAt (Elt F) (View.whole (cc0_scratch1 : Ref sig .scVector)) (Rect.unit (s := S8x56x128) (k0_off73 k) S1x1x16.size (k0_off73_inb k)).toLoadRect fb))
    (k0_pay36 (View.readAt (Elt F) (View.whole (cc0_scratch1 : Ref sig .scVector)) (Rect.unit (s := S8x56x128) (k0_off75 k) S1x1x16.size (k0_off75_inb k)).toLoadRect fb))
    (k0_pay33_eq _) (k0_pay34_eq _) (k0_pay35_eq _) (k0_pay36_eq _) hrep

theorem trips10 : k0_t10_loop.trips = 50 := rfl

/-- After loop `k0_t10` every row of slot 0 is repacked. -/
theorem repackV10_done (fb : Buf (Elt F) ((bWin0).view.loc (thr d L))) (g : Buf (Elt F) ((pWin0).view.loc (thr d L)))
    (h : ∀ (r : Fin 50) (e : Fin 64), r.val < k0_t10_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips10]; exact r.isLt)

set_option maxHeartbeats 1000000 in
theorem repackV11 (v2 : BitVec 32)
    (fb : Buf (Elt F) ((bWin1).view.loc (thr d L))) (k : Fin k0_t11_loop.trips) (u : Unit) :
    (RInvV1 d L fb k.val u : sProp 𝕄) ⊢ wp frame (wpE (defs₀ (F := F)) 𝒱₀ (thr d L) none) Set.univ
        (k0_t11_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV1 d L fb (k.val + 1)) := by
  unfold k0_t11_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (1 : Fin 8) k.val hk
    (k0_off78_eq k) (k0_off80_eq k) (k0_off82_eq k) (k0_off84_eq k)
    (k0_off79_eq k) (k0_off81_eq k) (k0_off83_eq k) (k0_off85_eq k)
    (k0_off78_inb k) (k0_off80_inb k) (k0_off82_inb k) (k0_off84_inb k)
    (k0_off79_inb k) (k0_off81_inb k) (k0_off83_inb k) (k0_off85_inb k)
    (k0_pay37 (View.readAt (Elt F) (View.whole (cc0_scratch1 : Ref sig .scVector)) (Rect.unit (s := S8x56x128) (k0_off78 k) S1x1x16.size (k0_off78_inb k)).toLoadRect fb))
    (k0_pay38 (View.readAt (Elt F) (View.whole (cc0_scratch1 : Ref sig .scVector)) (Rect.unit (s := S8x56x128) (k0_off80 k) S1x1x16.size (k0_off80_inb k)).toLoadRect fb))
    (k0_pay39 (View.readAt (Elt F) (View.whole (cc0_scratch1 : Ref sig .scVector)) (Rect.unit (s := S8x56x128) (k0_off82 k) S1x1x16.size (k0_off82_inb k)).toLoadRect fb))
    (k0_pay40 (View.readAt (Elt F) (View.whole (cc0_scratch1 : Ref sig .scVector)) (Rect.unit (s := S8x56x128) (k0_off84 k) S1x1x16.size (k0_off84_inb k)).toLoadRect fb))
    (k0_pay37_eq _) (k0_pay38_eq _) (k0_pay39_eq _) (k0_pay40_eq _) hrep

theorem trips11 : k0_t11_loop.trips = 50 := rfl

/-- After loop `k0_t11` every row of slot 1 is repacked. -/
theorem repackV11_done (fb : Buf (Elt F) ((bWin1).view.loc (thr d L))) (g : Buf (Elt F) ((pWin1).view.loc (thr d L)))
    (h : ∀ (r : Fin 50) (e : Fin 64), r.val < k0_t11_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips11]; exact r.isLt)

set_option maxHeartbeats 1000000 in
theorem repackV12 (v2 : BitVec 32)
    (fb : Buf (Elt F) ((bWin2).view.loc (thr d L))) (k : Fin k0_t12_loop.trips) (u : Unit) :
    (RInvV2 d L fb k.val u : sProp 𝕄) ⊢ wp frame (wpE (defs₀ (F := F)) 𝒱₀ (thr d L) none) Set.univ
        (k0_t12_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV2 d L fb (k.val + 1)) := by
  unfold k0_t12_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (2 : Fin 8) k.val hk
    (k0_off86_eq k) (k0_off88_eq k) (k0_off90_eq k) (k0_off92_eq k)
    (k0_off87_eq k) (k0_off89_eq k) (k0_off91_eq k) (k0_off93_eq k)
    (k0_off86_inb k) (k0_off88_inb k) (k0_off90_inb k) (k0_off92_inb k)
    (k0_off87_inb k) (k0_off89_inb k) (k0_off91_inb k) (k0_off93_inb k)
    (k0_pay41 (View.readAt (Elt F) (View.whole (cc0_scratch1 : Ref sig .scVector)) (Rect.unit (s := S8x56x128) (k0_off86 k) S1x1x16.size (k0_off86_inb k)).toLoadRect fb))
    (k0_pay42 (View.readAt (Elt F) (View.whole (cc0_scratch1 : Ref sig .scVector)) (Rect.unit (s := S8x56x128) (k0_off88 k) S1x1x16.size (k0_off88_inb k)).toLoadRect fb))
    (k0_pay43 (View.readAt (Elt F) (View.whole (cc0_scratch1 : Ref sig .scVector)) (Rect.unit (s := S8x56x128) (k0_off90 k) S1x1x16.size (k0_off90_inb k)).toLoadRect fb))
    (k0_pay44 (View.readAt (Elt F) (View.whole (cc0_scratch1 : Ref sig .scVector)) (Rect.unit (s := S8x56x128) (k0_off92 k) S1x1x16.size (k0_off92_inb k)).toLoadRect fb))
    (k0_pay41_eq _) (k0_pay42_eq _) (k0_pay43_eq _) (k0_pay44_eq _) hrep

theorem trips12 : k0_t12_loop.trips = 50 := rfl

/-- After loop `k0_t12` every row of slot 2 is repacked. -/
theorem repackV12_done (fb : Buf (Elt F) ((bWin2).view.loc (thr d L))) (g : Buf (Elt F) ((pWin2).view.loc (thr d L)))
    (h : ∀ (r : Fin 50) (e : Fin 64), r.val < k0_t12_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips12]; exact r.isLt)

set_option maxHeartbeats 1000000 in
theorem repackV13 (v2 : BitVec 32)
    (fb : Buf (Elt F) ((bWin3).view.loc (thr d L))) (k : Fin k0_t13_loop.trips) (u : Unit) :
    (RInvV3 d L fb k.val u : sProp 𝕄) ⊢ wp frame (wpE (defs₀ (F := F)) 𝒱₀ (thr d L) none) Set.univ
        (k0_t13_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV3 d L fb (k.val + 1)) := by
  unfold k0_t13_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (3 : Fin 8) k.val hk
    (k0_off94_eq k) (k0_off96_eq k) (k0_off98_eq k) (k0_off100_eq k)
    (k0_off95_eq k) (k0_off97_eq k) (k0_off99_eq k) (k0_off101_eq k)
    (k0_off94_inb k) (k0_off96_inb k) (k0_off98_inb k) (k0_off100_inb k)
    (k0_off95_inb k) (k0_off97_inb k) (k0_off99_inb k) (k0_off101_inb k)
    (k0_pay45 (View.readAt (Elt F) (View.whole (cc0_scratch1 : Ref sig .scVector)) (Rect.unit (s := S8x56x128) (k0_off94 k) S1x1x16.size (k0_off94_inb k)).toLoadRect fb))
    (k0_pay46 (View.readAt (Elt F) (View.whole (cc0_scratch1 : Ref sig .scVector)) (Rect.unit (s := S8x56x128) (k0_off96 k) S1x1x16.size (k0_off96_inb k)).toLoadRect fb))
    (k0_pay47 (View.readAt (Elt F) (View.whole (cc0_scratch1 : Ref sig .scVector)) (Rect.unit (s := S8x56x128) (k0_off98 k) S1x1x16.size (k0_off98_inb k)).toLoadRect fb))
    (k0_pay48 (View.readAt (Elt F) (View.whole (cc0_scratch1 : Ref sig .scVector)) (Rect.unit (s := S8x56x128) (k0_off100 k) S1x1x16.size (k0_off100_inb k)).toLoadRect fb))
    (k0_pay45_eq _) (k0_pay46_eq _) (k0_pay47_eq _) (k0_pay48_eq _) hrep

theorem trips13 : k0_t13_loop.trips = 50 := rfl

/-- After loop `k0_t13` every row of slot 3 is repacked. -/
theorem repackV13_done (fb : Buf (Elt F) ((bWin3).view.loc (thr d L))) (g : Buf (Elt F) ((pWin3).view.loc (thr d L)))
    (h : ∀ (r : Fin 50) (e : Fin 64), r.val < k0_t13_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips13]; exact r.isLt)

set_option maxHeartbeats 1000000 in
theorem repackV14 (v2 : BitVec 32)
    (fb : Buf (Elt F) ((bWin4).view.loc (thr d L))) (k : Fin k0_t14_loop.trips) (u : Unit) :
    (RInvV4 d L fb k.val u : sProp 𝕄) ⊢ wp frame (wpE (defs₀ (F := F)) 𝒱₀ (thr d L) none) Set.univ
        (k0_t14_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV4 d L fb (k.val + 1)) := by
  unfold k0_t14_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (4 : Fin 8) k.val hk
    (k0_off102_eq k) (k0_off104_eq k) (k0_off106_eq k) (k0_off108_eq k)
    (k0_off103_eq k) (k0_off105_eq k) (k0_off107_eq k) (k0_off109_eq k)
    (k0_off102_inb k) (k0_off104_inb k) (k0_off106_inb k) (k0_off108_inb k)
    (k0_off103_inb k) (k0_off105_inb k) (k0_off107_inb k) (k0_off109_inb k)
    (k0_pay49 (View.readAt (Elt F) (View.whole (cc0_scratch1 : Ref sig .scVector)) (Rect.unit (s := S8x56x128) (k0_off102 k) S1x1x16.size (k0_off102_inb k)).toLoadRect fb))
    (k0_pay50 (View.readAt (Elt F) (View.whole (cc0_scratch1 : Ref sig .scVector)) (Rect.unit (s := S8x56x128) (k0_off104 k) S1x1x16.size (k0_off104_inb k)).toLoadRect fb))
    (k0_pay51 (View.readAt (Elt F) (View.whole (cc0_scratch1 : Ref sig .scVector)) (Rect.unit (s := S8x56x128) (k0_off106 k) S1x1x16.size (k0_off106_inb k)).toLoadRect fb))
    (k0_pay52 (View.readAt (Elt F) (View.whole (cc0_scratch1 : Ref sig .scVector)) (Rect.unit (s := S8x56x128) (k0_off108 k) S1x1x16.size (k0_off108_inb k)).toLoadRect fb))
    (k0_pay49_eq _) (k0_pay50_eq _) (k0_pay51_eq _) (k0_pay52_eq _) hrep

theorem trips14 : k0_t14_loop.trips = 50 := rfl

/-- After loop `k0_t14` every row of slot 4 is repacked. -/
theorem repackV14_done (fb : Buf (Elt F) ((bWin4).view.loc (thr d L))) (g : Buf (Elt F) ((pWin4).view.loc (thr d L)))
    (h : ∀ (r : Fin 50) (e : Fin 64), r.val < k0_t14_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips14]; exact r.isLt)

set_option maxHeartbeats 1000000 in
theorem repackV15 (v2 : BitVec 32)
    (fb : Buf (Elt F) ((bWin5).view.loc (thr d L))) (k : Fin k0_t15_loop.trips) (u : Unit) :
    (RInvV5 d L fb k.val u : sProp 𝕄) ⊢ wp frame (wpE (defs₀ (F := F)) 𝒱₀ (thr d L) none) Set.univ
        (k0_t15_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV5 d L fb (k.val + 1)) := by
  unfold k0_t15_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (5 : Fin 8) k.val hk
    (k0_off110_eq k) (k0_off112_eq k) (k0_off114_eq k) (k0_off116_eq k)
    (k0_off111_eq k) (k0_off113_eq k) (k0_off115_eq k) (k0_off117_eq k)
    (k0_off110_inb k) (k0_off112_inb k) (k0_off114_inb k) (k0_off116_inb k)
    (k0_off111_inb k) (k0_off113_inb k) (k0_off115_inb k) (k0_off117_inb k)
    (k0_pay53 (View.readAt (Elt F) (View.whole (cc0_scratch1 : Ref sig .scVector)) (Rect.unit (s := S8x56x128) (k0_off110 k) S1x1x16.size (k0_off110_inb k)).toLoadRect fb))
    (k0_pay54 (View.readAt (Elt F) (View.whole (cc0_scratch1 : Ref sig .scVector)) (Rect.unit (s := S8x56x128) (k0_off112 k) S1x1x16.size (k0_off112_inb k)).toLoadRect fb))
    (k0_pay55 (View.readAt (Elt F) (View.whole (cc0_scratch1 : Ref sig .scVector)) (Rect.unit (s := S8x56x128) (k0_off114 k) S1x1x16.size (k0_off114_inb k)).toLoadRect fb))
    (k0_pay56 (View.readAt (Elt F) (View.whole (cc0_scratch1 : Ref sig .scVector)) (Rect.unit (s := S8x56x128) (k0_off116 k) S1x1x16.size (k0_off116_inb k)).toLoadRect fb))
    (k0_pay53_eq _) (k0_pay54_eq _) (k0_pay55_eq _) (k0_pay56_eq _) hrep

theorem trips15 : k0_t15_loop.trips = 50 := rfl

/-- After loop `k0_t15` every row of slot 5 is repacked. -/
theorem repackV15_done (fb : Buf (Elt F) ((bWin5).view.loc (thr d L))) (g : Buf (Elt F) ((pWin5).view.loc (thr d L)))
    (h : ∀ (r : Fin 50) (e : Fin 64), r.val < k0_t15_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips15]; exact r.isLt)

set_option maxHeartbeats 1000000 in
theorem repackV16 (v2 : BitVec 32)
    (fb : Buf (Elt F) ((bWin6).view.loc (thr d L))) (k : Fin k0_t16_loop.trips) (u : Unit) :
    (RInvV6 d L fb k.val u : sProp 𝕄) ⊢ wp frame (wpE (defs₀ (F := F)) 𝒱₀ (thr d L) none) Set.univ
        (k0_t16_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV6 d L fb (k.val + 1)) := by
  unfold k0_t16_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (6 : Fin 8) k.val hk
    (k0_off118_eq k) (k0_off120_eq k) (k0_off122_eq k) (k0_off124_eq k)
    (k0_off119_eq k) (k0_off121_eq k) (k0_off123_eq k) (k0_off125_eq k)
    (k0_off118_inb k) (k0_off120_inb k) (k0_off122_inb k) (k0_off124_inb k)
    (k0_off119_inb k) (k0_off121_inb k) (k0_off123_inb k) (k0_off125_inb k)
    (k0_pay57 (View.readAt (Elt F) (View.whole (cc0_scratch1 : Ref sig .scVector)) (Rect.unit (s := S8x56x128) (k0_off118 k) S1x1x16.size (k0_off118_inb k)).toLoadRect fb))
    (k0_pay58 (View.readAt (Elt F) (View.whole (cc0_scratch1 : Ref sig .scVector)) (Rect.unit (s := S8x56x128) (k0_off120 k) S1x1x16.size (k0_off120_inb k)).toLoadRect fb))
    (k0_pay59 (View.readAt (Elt F) (View.whole (cc0_scratch1 : Ref sig .scVector)) (Rect.unit (s := S8x56x128) (k0_off122 k) S1x1x16.size (k0_off122_inb k)).toLoadRect fb))
    (k0_pay60 (View.readAt (Elt F) (View.whole (cc0_scratch1 : Ref sig .scVector)) (Rect.unit (s := S8x56x128) (k0_off124 k) S1x1x16.size (k0_off124_inb k)).toLoadRect fb))
    (k0_pay57_eq _) (k0_pay58_eq _) (k0_pay59_eq _) (k0_pay60_eq _) hrep

theorem trips16 : k0_t16_loop.trips = 50 := rfl

/-- After loop `k0_t16` every row of slot 6 is repacked. -/
theorem repackV16_done (fb : Buf (Elt F) ((bWin6).view.loc (thr d L))) (g : Buf (Elt F) ((pWin6).view.loc (thr d L)))
    (h : ∀ (r : Fin 50) (e : Fin 64), r.val < k0_t16_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips16]; exact r.isLt)

set_option maxHeartbeats 1000000 in
theorem repackV17 (v2 : BitVec 32)
    (fb : Buf (Elt F) ((bWin7).view.loc (thr d L))) (k : Fin k0_t17_loop.trips) (u : Unit) :
    (RInvV7 d L fb k.val u : sProp 𝕄) ⊢ wp frame (wpE (defs₀ (F := F)) 𝒱₀ (thr d L) none) Set.univ
        (k0_t17_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 k u) (RInvV7 d L fb (k.val + 1)) := by
  unfold k0_t17_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc0_scratch2 : Ref sig .scVector)) (View.whole (cc0_scratch1 : Ref sig .scVector)) gp fb (7 : Fin 8) k.val hk
    (k0_off126_eq k) (k0_off128_eq k) (k0_off130_eq k) (k0_off132_eq k)
    (k0_off127_eq k) (k0_off129_eq k) (k0_off131_eq k) (k0_off133_eq k)
    (k0_off126_inb k) (k0_off128_inb k) (k0_off130_inb k) (k0_off132_inb k)
    (k0_off127_inb k) (k0_off129_inb k) (k0_off131_inb k) (k0_off133_inb k)
    (k0_pay61 (View.readAt (Elt F) (View.whole (cc0_scratch1 : Ref sig .scVector)) (Rect.unit (s := S8x56x128) (k0_off126 k) S1x1x16.size (k0_off126_inb k)).toLoadRect fb))
    (k0_pay62 (View.readAt (Elt F) (View.whole (cc0_scratch1 : Ref sig .scVector)) (Rect.unit (s := S8x56x128) (k0_off128 k) S1x1x16.size (k0_off128_inb k)).toLoadRect fb))
    (k0_pay63 (View.readAt (Elt F) (View.whole (cc0_scratch1 : Ref sig .scVector)) (Rect.unit (s := S8x56x128) (k0_off130 k) S1x1x16.size (k0_off130_inb k)).toLoadRect fb))
    (k0_pay64 (View.readAt (Elt F) (View.whole (cc0_scratch1 : Ref sig .scVector)) (Rect.unit (s := S8x56x128) (k0_off132 k) S1x1x16.size (k0_off132_inb k)).toLoadRect fb))
    (k0_pay61_eq _) (k0_pay62_eq _) (k0_pay63_eq _) (k0_pay64_eq _) hrep

theorem trips17 : k0_t17_loop.trips = 50 := rfl

/-- After loop `k0_t17` every row of slot 7 is repacked. -/
theorem repackV17_done (fb : Buf (Elt F) ((bWin7).view.loc (thr d L))) (g : Buf (Elt F) ((pWin7).view.loc (thr d L)))
    (h : ∀ (r : Fin 50) (e : Fin 64), r.val < k0_t17_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips17]; exact r.isLt)

end RepackV

end Cert.Proof.Tile0

end
-- ==== Proof.TileBodyV0.lean ====
/-
  One vector subcore's task of the first gather call, with what it writes.

  The frame's proof, carrying values: a gather in flight into slot `s` over list row `8 i + s` delivers the table rows
  that list row names; the repack keeps their first 64 lanes; the copy out puts them in result row `8 i + s`; so before
  trip `i` the result rows below `8 i` hold what the claim says, and after the last group all 128 do.
-/
import proofs.«204056_g19739669692900_cont_8to1_1488_31_alg».proof.Proof.Gen.KernelIdeal.Skeleton
import proofs.«204056_g19739669692900_cont_8to1_1488_31_alg».proof.Proof.TileValues
import proofs.«204056_g19739669692900_cont_8to1_1488_31_alg».proof.Proof.TileRepackV
import proofs.«204056_g19739669692900_cont_8to1_1488_31_alg».proof.Proof.TileRepackV2

noncomputable section

namespace Cert.Proof.Tile0

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v3_scv : Memref Cert.KernelIdeal.sig Kind.scVector Space.hbm Cert.KernelIdeal.S4096x50x64 EltTy.f32)
local notation "iW" => (Memref.whole Cert.KernelIdeal.cc0_scratch0 : Memref Cert.KernelIdeal.sig Kind.scVector Space.vmem Cert.KernelIdeal.S128x50 EltTy.i32)
local notation "bW" => (Memref.whole Cert.KernelIdeal.cc0_scratch1 : Memref Cert.KernelIdeal.sig Kind.scVector Space.vmem Cert.KernelIdeal.S8x56x128 EltTy.f32)
local notation "pW" => (Memref.whole Cert.KernelIdeal.cc0_scratch2 : Memref Cert.KernelIdeal.sig Kind.scVector Space.vmem Cert.KernelIdeal.S8x50x64 EltTy.f32)

section ValueRules

variable (d : Dev nD) (L : grid0.Coords)
variable (ft : FVec F S100000x128 .f32) (fi : IVec S128x50 32) (hfi : ∀ y, (fi y).toNat < 100000)
variable [FloatOps F]

/-- List row `8 i + s`, as a row of the index scratch. -/
def jOf (i s : ℕ) : Fin 128 := ⟨(8 * i + s) % 128, Nat.mod_lt _ (by decide)⟩

theorem jOf_val {i s : ℕ} (hi : i ≤ 15) (hs : s < 8) : (jOf i s).val = 8 * i + s := by
  show (8 * i + s) % 128 = 8 * i + s
  omega

/-- A gather in flight on `sem` into slot `s` over list row `j`: as `GFl`, and what it delivers holds the table rows
    that list row names. -/
def GFlV (s : Fin 8) (j : Fin 128) (o : Fin 3 → ℕ) (inbo : ∀ a, o a + S1x50x128.size a ≤ S8x56x128.size a) (sem : DmaSem sig) (qt qi : PosShare TreeShare) : sProp 𝕄 :=
  iprop(∃ (Sw : Finset (Idx ((iW).view.loc (thr d L)))) (fd : Buf (Elt F) ((bWinAt o inbo).view.loc (thr d L))), ⌜WinOK ft fi hfi s j fd⌝ ∗
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
theorem gissueV (s : Fin 8) (j : Fin 128) {o : Fin 3 → ℕ} {inbo : ∀ a, o a + S1x50x128.size a ≤ S8x56x128.size a} (ho : o = ![s.val, 0, 0])
    {off : Fin 2 → ℕ} {inb : ∀ a, off a + S1x50.size a ≤ S128x50.size a} (hoff : off = ![j.val, 0])
    {sem : DmaSem sig} {qt qi : PosShare TreeShare} {fd : Buf (Elt F) ((bWinAt o inbo).view.loc (thr d L))}
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFlV d L ft fi hfi s j o inbo sem qt qi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (ℓ := (tW).view.loc (thr d L)) (q := qt) (f := ft) (S := Finset.univ) (Finset.subset_univ (tAll).view.set)).1 $$ HT
  icases HTs with ⟨HTw, HTr⟩
  ihave HIs := (pointsTo_split_subset (ℓ := (iW).view.loc (thr d L)) (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFlV
  iexists (iRowAt off inb).view.set, _
  isplitr; swap
  · isplitl [Hfl]; · iexact Hfl
    isplitl [HTr]; · iexact HTr
    iexact HIr
  ipureintro; exact win_ok ft fi hfi d L s j o inbo ho off inb hoff fd _ _

set_option maxHeartbeats 1000000 in
theorem gwaitV (s : Fin 8) (j : Fin 128) {o : Fin 3 → ℕ} {inbo : ∀ a, o a + S1x50x128.size a ≤ S8x56x128.size a} {sem : DmaSem sig} {qt qi : PosShare TreeShare}
    {sp sp' : Space} {s₁ s' : Shape} {e e' : EltTy} {κ' : Kind}
    {srcw : Memref sig (thr d L).2.kind sp' s' e'} {dstw : Memref sig κ' sp s₁ e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFlV d L ft fi hfi s j o inbo sem qt qi ∗ owes (thr d L) O W ∗ Transfers.MayWaits (thr d L) (default : HIx 4) O
        ∗ (iprop((∃ fd, ⌜WinOK ft fi hfi s j fd⌝ ∗ (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFlV
  iintro ⟨⟨%Sw, %fd, %hwin, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (ℓ := (tW).view.loc (thr d L)) (q := qt) (f := ft) (S := Finset.univ) (Finset.subset_univ (tAll).view.set)).2 $$ [HTw HTr]; · isplitl [HTw] <;> iassumption
  ihave HI := (pointsTo_split_subset (ℓ := (iW).view.loc (thr d L)) (q := qi) (f := fi) (S := Finset.univ) (Finset.subset_univ Sw)).2 $$ [HIw HIr]; · isplitl [HIw] <;> iassumption
  iapply Hk
  isplitl [HB]
  · iexists fd; isplitr
    · ipureintro; exact hwin
    · iexact HB
  isplitl [HT]; · iexact HT
  isplitl [HI]; · iexact HI
  isplitl [Hsem]; · iexact Hsem
  iexact HO

/-! ## The result rows with what they hold -/

theorem outRowsV_intro (w : Fin 32) (f : Buf (Elt F) (out0Loc d)) :
    (out0Loc d ↦[blkSet0 w]{fullShare} f : sProp 𝕄) ⊢ outRowsV (F := F) (UU := UU) d ft fi hfi w 0 := by
  rw [outBlk_rows]
  unfold outRowsV
  refine bigSep_mono fun j _ => (show (out0Loc d ↦[rowSet w j]{fullShare} f : sProp 𝕄) ⊢ iprop(∃ f, ⌜j.val < 0 → RowOK ft fi hfi w j f⌝ ∗ out0Loc d ↦[rowSet w j]{fullShare} f) from ?_)
  iintro H; iexists f; isplitr
  · ipureintro; intro h; exact absurd h (Nat.not_lt_zero _)
  · iexact H

/-- The rows are the eight from `b` and the others. -/
theorem outRowsV_group (w : Fin 32) (n b : ℕ) (hb : b + 8 ≤ 128) :
    (outRowsV (F := F) (UU := UU) d ft fi hfi w n : sProp 𝕄)
      = iprop(((∃ f, ⌜b + 0 < n → RowOK ft fi hfi w ⟨b + 0, by omega⟩ f⌝ ∗ out0Loc d ↦[rowSet w ⟨b + 0, by omega⟩]{fullShare} f) ∗ (∃ f, ⌜b + 1 < n → RowOK ft fi hfi w ⟨b + 1, by omega⟩ f⌝ ∗ out0Loc d ↦[rowSet w ⟨b + 1, by omega⟩]{fullShare} f) ∗ (∃ f, ⌜b + 2 < n → RowOK ft fi hfi w ⟨b + 2, by omega⟩ f⌝ ∗ out0Loc d ↦[rowSet w ⟨b + 2, by omega⟩]{fullShare} f) ∗ (∃ f, ⌜b + 3 < n → RowOK ft fi hfi w ⟨b + 3, by omega⟩ f⌝ ∗ out0Loc d ↦[rowSet w ⟨b + 3, by omega⟩]{fullShare} f) ∗ (∃ f, ⌜b + 4 < n → RowOK ft fi hfi w ⟨b + 4, by omega⟩ f⌝ ∗ out0Loc d ↦[rowSet w ⟨b + 4, by omega⟩]{fullShare} f) ∗ (∃ f, ⌜b + 5 < n → RowOK ft fi hfi w ⟨b + 5, by omega⟩ f⌝ ∗ out0Loc d ↦[rowSet w ⟨b + 5, by omega⟩]{fullShare} f) ∗ (∃ f, ⌜b + 6 < n → RowOK ft fi hfi w ⟨b + 6, by omega⟩ f⌝ ∗ out0Loc d ↦[rowSet w ⟨b + 6, by omega⟩]{fullShare} f) ∗ (∃ f, ⌜b + 7 < n → RowOK ft fi hfi w ⟨b + 7, by omega⟩ f⌝ ∗ out0Loc d ↦[rowSet w ⟨b + 7, by omega⟩]{fullShare} f))
          ∗ bigSep (Finset.univ \ Finset.univ.map (grpEmb b hb)) fun j : Fin 128 => iprop(∃ f, ⌜j.val < n → RowOK ft fi hfi w j f⌝ ∗ out0Loc d ↦[rowSet w j]{fullShare} f)) := by
  unfold outRowsV
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- Outside the group from `n`, a row below `n + 8` is below `n`. -/
theorem outRowsV_rest (w : Fin 32) (n : ℕ) (hb : n + 8 ≤ 128) :
    (bigSep (Finset.univ \ Finset.univ.map (grpEmb n hb)) fun j : Fin 128 => (iprop(∃ f, ⌜j.val < n → RowOK ft fi hfi w j f⌝ ∗ out0Loc d ↦[rowSet w j]{fullShare} f) : sProp 𝕄))
      ⊢ bigSep (Finset.univ \ Finset.univ.map (grpEmb n hb)) fun j : Fin 128 => iprop(∃ f, ⌜j.val < n + 8 → RowOK ft fi hfi w j f⌝ ∗ out0Loc d ↦[rowSet w j]{fullShare} f) := by
  refine bigSep_mono fun j hj => (show (iprop(∃ f, ⌜j.val < n → RowOK ft fi hfi w j f⌝ ∗ out0Loc d ↦[rowSet w j]{fullShare} f) : sProp 𝕄)
      ⊢ iprop(∃ f, ⌜j.val < n + 8 → RowOK ft fi hfi w j f⌝ ∗ out0Loc d ↦[rowSet w j]{fullShare} f) from ?_)
  have hnot : j ∉ Finset.univ.map (grpEmb n hb) := (Finset.mem_sdiff.mp hj).2
  have hlt : j.val < n + 8 → j.val < n := by
    intro h
    by_contra hge
    exact hnot (Finset.mem_map.mpr ⟨⟨j.val - n, by omega⟩, Finset.mem_univ _, Fin.ext (by show n + (j.val - n) = j.val; omega)⟩)
  iintro ⟨%f, %hf, H⟩
  iexists f; isplitr
  · ipureintro; exact fun h => hf (hlt h)
  · iexact H

end ValueRules

section BodyV

variable (m : (ℓ : Loc nD τ sig) → Buf (Elt F) ℓ) (d : Dev nD) (L : grid0.Coords)
variable (ft : FVec F S100000x128 .f32) (fi : IVec S128x50 32) (hfi : ∀ y, (fi y).toNat < 100000)

theorem hoff68_0 (kt : Fin k0_t1_loop.trips) (hk : kt.val < 15) : k0_off68 kt 0#32 = ![(jOf (kt.val + 1) 0).val, 0] :=
  (k0_off68_eq kt (0 : Fin 8)).trans (congrArg (fun x : ℕ => (![x, 0] : Fin 2 → ℕ))
    (by show 8 * kt.val + 0 + 8 = (8 * (kt.val + 1) + 0) % 128; omega))
theorem hoff68_1 (kt : Fin k0_t1_loop.trips) (hk : kt.val < 15) : k0_off68 kt 1#32 = ![(jOf (kt.val + 1) 1).val, 0] :=
  (k0_off68_eq kt (1 : Fin 8)).trans (congrArg (fun x : ℕ => (![x, 0] : Fin 2 → ℕ))
    (by show 8 * kt.val + 1 + 8 = (8 * (kt.val + 1) + 1) % 128; omega))
theorem hoff68_2 (kt : Fin k0_t1_loop.trips) (hk : kt.val < 15) : k0_off68 kt 2#32 = ![(jOf (kt.val + 1) 2).val, 0] :=
  (k0_off68_eq kt (2 : Fin 8)).trans (congrArg (fun x : ℕ => (![x, 0] : Fin 2 → ℕ))
    (by show 8 * kt.val + 2 + 8 = (8 * (kt.val + 1) + 2) % 128; omega))
theorem hoff68_3 (kt : Fin k0_t1_loop.trips) (hk : kt.val < 15) : k0_off68 kt 3#32 = ![(jOf (kt.val + 1) 3).val, 0] :=
  (k0_off68_eq kt (3 : Fin 8)).trans (congrArg (fun x : ℕ => (![x, 0] : Fin 2 → ℕ))
    (by show 8 * kt.val + 3 + 8 = (8 * (kt.val + 1) + 3) % 128; omega))
theorem hoff68_4 (kt : Fin k0_t1_loop.trips) (hk : kt.val < 15) : k0_off68 kt 4#32 = ![(jOf (kt.val + 1) 4).val, 0] :=
  (k0_off68_eq kt (4 : Fin 8)).trans (congrArg (fun x : ℕ => (![x, 0] : Fin 2 → ℕ))
    (by show 8 * kt.val + 4 + 8 = (8 * (kt.val + 1) + 4) % 128; omega))
theorem hoff68_5 (kt : Fin k0_t1_loop.trips) (hk : kt.val < 15) : k0_off68 kt 5#32 = ![(jOf (kt.val + 1) 5).val, 0] :=
  (k0_off68_eq kt (5 : Fin 8)).trans (congrArg (fun x : ℕ => (![x, 0] : Fin 2 → ℕ))
    (by show 8 * kt.val + 5 + 8 = (8 * (kt.val + 1) + 5) % 128; omega))
theorem hoff68_6 (kt : Fin k0_t1_loop.trips) (hk : kt.val < 15) : k0_off68 kt 6#32 = ![(jOf (kt.val + 1) 6).val, 0] :=
  (k0_off68_eq kt (6 : Fin 8)).trans (congrArg (fun x : ℕ => (![x, 0] : Fin 2 → ℕ))
    (by show 8 * kt.val + 6 + 8 = (8 * (kt.val + 1) + 6) % 128; omega))
theorem hoff68_7 (kt : Fin k0_t1_loop.trips) (hk : kt.val < 15) : k0_off68 kt 7#32 = ![(jOf (kt.val + 1) 7).val, 0] :=
  (k0_off68_eq kt (7 : Fin 8)).trans (congrArg (fun x : ℕ => (![x, 0] : Fin 2 → ℕ))
    (by show 8 * kt.val + 7 + 8 = (8 * (kt.val + 1) + 7) % 128; omega))

theorem jOf15_0 : jOf k0_t1_loop.trips 0 = (⟨120 + 0, by omega⟩ : Fin 128) := Fin.ext (by decide)
theorem jOf15_1 : jOf k0_t1_loop.trips 1 = (⟨120 + 1, by omega⟩ : Fin 128) := Fin.ext (by decide)
theorem jOf15_2 : jOf k0_t1_loop.trips 2 = (⟨120 + 2, by omega⟩ : Fin 128) := Fin.ext (by decide)
theorem jOf15_3 : jOf k0_t1_loop.trips 3 = (⟨120 + 3, by omega⟩ : Fin 128) := Fin.ext (by decide)
theorem jOf15_4 : jOf k0_t1_loop.trips 4 = (⟨120 + 4, by omega⟩ : Fin 128) := Fin.ext (by decide)
theorem jOf15_5 : jOf k0_t1_loop.trips 5 = (⟨120 + 5, by omega⟩ : Fin 128) := Fin.ext (by decide)
theorem jOf15_6 : jOf k0_t1_loop.trips 6 = (⟨120 + 6, by omega⟩ : Fin 128) := Fin.ext (by decide)
theorem jOf15_7 : jOf k0_t1_loop.trips 7 = (⟨120 + 7, by omega⟩ : Fin 128) := Fin.ext (by decide)

variable [FloatOps F]

/-- Before each trip `i`, and after the last: as in the frame's invariant, and each slot's gather in flight is the one over
    list row `8 i + s`, and the result rows below `8 i` hold what they should. -/
def INVV (O : CellTallies nD τ sig (HIx 4)) (W : Waits sig (HIx 4)) (i : ℕ) (_ : Unit) : sProp 𝕄 :=
  iprop(Transfers.MayWaits (thr d L) (default : HIx 4) O
    ∗ (GFlV d L ft fi hfi (0 : Fin 8) (jOf i 0) ![0, 0, 0] inb_S8x56x128_S1x50x128_0_0_0 cc0_scratch3.sem (sh32 (widL L)).left.left.left fullShare.left.left.left
      ∗ GFlV d L ft fi hfi (1 : Fin 8) (jOf i 1) ![1, 0, 0] inb_S8x56x128_S1x50x128_1_0_0 cc0_scratch4.sem (sh32 (widL L)).left.left.right fullShare.left.left.right
      ∗ GFlV d L ft fi hfi (2 : Fin 8) (jOf i 2) ![2, 0, 0] inb_S8x56x128_S1x50x128_2_0_0 cc0_scratch5.sem (sh32 (widL L)).left.right.left fullShare.left.right.left
      ∗ GFlV d L ft fi hfi (3 : Fin 8) (jOf i 3) ![3, 0, 0] inb_S8x56x128_S1x50x128_3_0_0 cc0_scratch6.sem (sh32 (widL L)).left.right.right fullShare.left.right.right
      ∗ GFlV d L ft fi hfi (4 : Fin 8) (jOf i 4) ![4, 0, 0] inb_S8x56x128_S1x50x128_4_0_0 cc0_scratch7.sem (sh32 (widL L)).right.left.left fullShare.right.left.left
      ∗ GFlV d L ft fi hfi (5 : Fin 8) (jOf i 5) ![5, 0, 0] inb_S8x56x128_S1x50x128_5_0_0 cc0_scratch8.sem (sh32 (widL L)).right.left.right fullShare.right.left.right
      ∗ GFlV d L ft fi hfi (6 : Fin 8) (jOf i 6) ![6, 0, 0] inb_S8x56x128_S1x50x128_6_0_0 cc0_scratch9.sem (sh32 (widL L)).right.right.left fullShare.right.right.left
      ∗ GFlV d L ft fi hfi (7 : Fin 8) (jOf i 7) ![7, 0, 0] inb_S8x56x128_S1x50x128_7_0_0 cc0_scratch10.sem (sh32 (widL L)).right.right.right fullShare.right.right.right)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scratch15.sem) 0 ∗ semVal (thr d L, SemLoc.dma cc0_scratch16.sem) 0 ∗ semVal (thr d L, SemLoc.dma cc0_scratch17.sem) 0 ∗ semVal (thr d L, SemLoc.dma cc0_scratch18.sem) 0)
    ∗ outRowsV (F := F) (UU := UU) d ft fi hfi (widL L) (8 * i)
    ∗ ∃ W', ⌜∀ p ∈ W', p ∈ W ∨ p.2 = none⌝ ∗ owes (thr d L) O W')

set_option maxHeartbeats 8000000 in
theorem tripV (O : CellTallies nD τ sig (HIx 4)) (W : Waits sig (HIx 4)) (v2 : BitVec 32) (kt : Fin k0_t1_loop.trips) (u : Unit) :
    (INVV d L ft fi hfi O W kt.val u : sProp 𝕄) ⊢ wp frame (wpE (defs₀ (F := F)) 𝒱₀ (thr d L) none) Set.univ
        (k0_t1_body L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0 v2 kt u) (INVV d L ft fi hfi O W (kt.val + 1)) := by
  unfold INVV k0_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  have ej0 : jOf kt.val 0 = (⟨8 * kt.val + 0, by omega⟩ : Fin 128) := Fin.ext (jOf_val (by omega) (by decide))
  have ej1 : jOf kt.val 1 = (⟨8 * kt.val + 1, by omega⟩ : Fin 128) := Fin.ext (jOf_val (by omega) (by decide))
  have ej2 : jOf kt.val 2 = (⟨8 * kt.val + 2, by omega⟩ : Fin 128) := Fin.ext (jOf_val (by omega) (by decide))
  have ej3 : jOf kt.val 3 = (⟨8 * kt.val + 3, by omega⟩ : Fin 128) := Fin.ext (jOf_val (by omega) (by decide))
  have ej4 : jOf kt.val 4 = (⟨8 * kt.val + 4, by omega⟩ : Fin 128) := Fin.ext (jOf_val (by omega) (by decide))
  have ej5 : jOf kt.val 5 = (⟨8 * kt.val + 5, by omega⟩ : Fin 128) := Fin.ext (jOf_val (by omega) (by decide))
  have ej6 : jOf kt.val 6 = (⟨8 * kt.val + 6, by omega⟩ : Fin 128) := Fin.ext (jOf_val (by omega) (by decide))
  have ej7 : jOf kt.val 7 = (⟨8 * kt.val + 7, by omega⟩ : Fin 128) := Fin.ext (jOf_val (by omega) (by decide))
  ihave HR' := (Entails.of_eq (outRowsV_group (F := F) (UU := UU) d ft fi hfi (widL L) (8 * kt.val) (8 * kt.val) (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwaitV d L ft fi hfi (0 : Fin 8) (jOf kt.val 0) (o := ![0, 0, 0]) (inbo := inb_S8x56x128_S1x50x128_0_0_0) (sem := cc0_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV2; all_goals first | exact kt | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft fi hfi (0 : Fin 8) (jOf kt.val 0) gp0' := fun l e => (hrep0 l e l.isLt).trans (hwin0 l (Fin.castLE (by decide) e))
  sl_exec
  iapply (gwaitV d L ft fi hfi (1 : Fin 8) (jOf kt.val 1) (o := ![1, 0, 0]) (inbo := inb_S8x56x128_S1x50x128_1_0_0) (sem := cc0_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV3; all_goals first | exact kt | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft fi hfi (1 : Fin 8) (jOf kt.val 1) gp1' := fun l e => (hrep1 l e l.isLt).trans (hwin1 l (Fin.castLE (by decide) e))
  sl_exec
  iapply (gwaitV d L ft fi hfi (2 : Fin 8) (jOf kt.val 2) (o := ![2, 0, 0]) (inbo := inb_S8x56x128_S1x50x128_2_0_0) (sem := cc0_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV4; all_goals first | exact kt | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft fi hfi (2 : Fin 8) (jOf kt.val 2) gp2' := fun l e => (hrep2 l e l.isLt).trans (hwin2 l (Fin.castLE (by decide) e))
  sl_exec
  iapply (gwaitV d L ft fi hfi (3 : Fin 8) (jOf kt.val 3) (o := ![3, 0, 0]) (inbo := inb_S8x56x128_S1x50x128_3_0_0) (sem := cc0_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV5; all_goals first | exact kt | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft fi hfi (3 : Fin 8) (jOf kt.val 3) gp3' := fun l e => (hrep3 l e l.isLt).trans (hwin3 l (Fin.castLE (by decide) e))
  sl_exec
  iapply (gwaitV d L ft fi hfi (4 : Fin 8) (jOf kt.val 4) (o := ![4, 0, 0]) (inbo := inb_S8x56x128_S1x50x128_4_0_0) (sem := cc0_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV6; all_goals first | exact kt | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft fi hfi (4 : Fin 8) (jOf kt.val 4) gp4' := fun l e => (hrep4 l e l.isLt).trans (hwin4 l (Fin.castLE (by decide) e))
  sl_exec
  iapply (gwaitV d L ft fi hfi (5 : Fin 8) (jOf kt.val 5) (o := ![5, 0, 0]) (inbo := inb_S8x56x128_S1x50x128_5_0_0) (sem := cc0_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV7; all_goals first | exact kt | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft fi hfi (5 : Fin 8) (jOf kt.val 5) gp5' := fun l e => (hrep5 l e l.isLt).trans (hwin5 l (Fin.castLE (by decide) e))
  sl_exec
  iapply (gwaitV d L ft fi hfi (6 : Fin 8) (jOf kt.val 6) (o := ![6, 0, 0]) (inbo := inb_S8x56x128_S1x50x128_6_0_0) (sem := cc0_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV8; all_goals first | exact kt | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft fi hfi (6 : Fin 8) (jOf kt.val 6) gp6' := fun l e => (hrep6 l e l.isLt).trans (hwin6 l (Fin.castLE (by decide) e))
  sl_exec
  iapply (gwaitV d L ft fi hfi (7 : Fin 8) (jOf kt.val 7) (o := ![7, 0, 0]) (inbo := inb_S8x56x128_S1x50x128_7_0_0) (sem := cc0_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV9; all_goals first | exact kt | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft fi hfi (7 : Fin 8) (jOf kt.val 7) gp7' := fun l e => (hrep7 l e l.isLt).trans (hwin7 l (Fin.castLE (by decide) e))
  sl_exec
  iapply (gissueV d L ft fi hfi (0 : Fin 8) (jOf (kt.val + 1) 0) (o := ![0, 0, 0]) (inbo := inb_S8x56x128_S1x50x128_0_0_0) rfl (off := k0_off68 kt 0#32) (inb := k0_off68_inb kt 0) (hoff68_0 kt hk) (sem := cc0_scratch3.sem))
  isplitl [HT0]; · iexact HT0
  isplitl [HB0]; · iexact HB0
  isplitl [HI0]; · iexact HI0
  isplitl [HsG0]; · iexact HsG0
  iintro HG0
  sl_exec
  iapply (gissueV d L ft fi hfi (1 : Fin 8) (jOf (kt.val + 1) 1) (o := ![1, 0, 0]) (inbo := inb_S8x56x128_S1x50x128_1_0_0) rfl (off := k0_off68 kt 1#32) (inb := k0_off68_inb kt 1) (hoff68_1 kt hk) (sem := cc0_scratch4.sem))
  isplitl [HT1]; · iexact HT1
  isplitl [HB1]; · iexact HB1
  isplitl [HI1]; · iexact HI1
  isplitl [HsG1]; · iexact HsG1
  iintro HG1
  sl_exec
  iapply (gissueV d L ft fi hfi (2 : Fin 8) (jOf (kt.val + 1) 2) (o := ![2, 0, 0]) (inbo := inb_S8x56x128_S1x50x128_2_0_0) rfl (off := k0_off68 kt 2#32) (inb := k0_off68_inb kt 2) (hoff68_2 kt hk) (sem := cc0_scratch5.sem))
  isplitl [HT2]; · iexact HT2
  isplitl [HB2]; · iexact HB2
  isplitl [HI2]; · iexact HI2
  isplitl [HsG2]; · iexact HsG2
  iintro HG2
  sl_exec
  iapply (gissueV d L ft fi hfi (3 : Fin 8) (jOf (kt.val + 1) 3) (o := ![3, 0, 0]) (inbo := inb_S8x56x128_S1x50x128_3_0_0) rfl (off := k0_off68 kt 3#32) (inb := k0_off68_inb kt 3) (hoff68_3 kt hk) (sem := cc0_scratch6.sem))
  isplitl [HT3]; · iexact HT3
  isplitl [HB3]; · iexact HB3
  isplitl [HI3]; · iexact HI3
  isplitl [HsG3]; · iexact HsG3
  iintro HG3
  sl_exec
  iapply (gissueV d L ft fi hfi (4 : Fin 8) (jOf (kt.val + 1) 4) (o := ![4, 0, 0]) (inbo := inb_S8x56x128_S1x50x128_4_0_0) rfl (off := k0_off68 kt 4#32) (inb := k0_off68_inb kt 4) (hoff68_4 kt hk) (sem := cc0_scratch7.sem))
  isplitl [HT4]; · iexact HT4
  isplitl [HB4]; · iexact HB4
  isplitl [HI4]; · iexact HI4
  isplitl [HsG4]; · iexact HsG4
  iintro HG4
  sl_exec
  iapply (gissueV d L ft fi hfi (5 : Fin 8) (jOf (kt.val + 1) 5) (o := ![5, 0, 0]) (inbo := inb_S8x56x128_S1x50x128_5_0_0) rfl (off := k0_off68 kt 5#32) (inb := k0_off68_inb kt 5) (hoff68_5 kt hk) (sem := cc0_scratch8.sem))
  isplitl [HT5]; · iexact HT5
  isplitl [HB5]; · iexact HB5
  isplitl [HI5]; · iexact HI5
  isplitl [HsG5]; · iexact HsG5
  iintro HG5
  sl_exec
  iapply (gissueV d L ft fi hfi (6 : Fin 8) (jOf (kt.val + 1) 6) (o := ![6, 0, 0]) (inbo := inb_S8x56x128_S1x50x128_6_0_0) rfl (off := k0_off68 kt 6#32) (inb := k0_off68_inb kt 6) (hoff68_6 kt hk) (sem := cc0_scratch9.sem))
  isplitl [HT6]; · iexact HT6
  isplitl [HB6]; · iexact HB6
  isplitl [HI6]; · iexact HI6
  isplitl [HsG6]; · iexact HsG6
  iintro HG6
  sl_exec
  iapply (gissueV d L ft fi hfi (7 : Fin 8) (jOf (kt.val + 1) 7) (o := ![7, 0, 0]) (inbo := inb_S8x56x128_S1x50x128_7_0_0) rfl (off := k0_off68 kt 7#32) (inb := k0_off68_inb kt 7) (hoff68_7 kt hk) (sem := cc0_scratch10.sem))
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HRr' := (outRowsV_rest (F := F) (UU := UU) d ft fi hfi (widL L) (8 * kt.val) _) $$ HRr
  ihave HR := (Entails.of_eq (outRowsV_group (F := F) (UU := UU) d ft fi hfi (widL L) (8 * kt.val + 8) (8 * kt.val) (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft fi hfi d L (widL L) (0 : Fin 8) ⟨8 * kt.val + 0, by omega⟩ ![0, 0, 0] inb_S8x50x64_S1x50x64_0_0_0 rfl _ (k0_off11_inb L kt 0) (off11_eq0 L kt) _ _ _ rfl (ej0 ▸ hslot0)
      isplitl [Ho1]
      · iexists _; isplitr; swap; · iexact Ho1
        ipureintro; intro _; exact row_ok ft fi hfi d L (widL L) (1 : Fin 8) ⟨8 * kt.val + 1, by omega⟩ ![1, 0, 0] inb_S8x50x64_S1x50x64_1_0_0 rfl _ (k0_off11_inb L kt 1) (off11_eq1 L kt) _ _ _ rfl (ej1 ▸ hslot1)
      isplitl [Ho2]
      · iexists _; isplitr; swap; · iexact Ho2
        ipureintro; intro _; exact row_ok ft fi hfi d L (widL L) (2 : Fin 8) ⟨8 * kt.val + 2, by omega⟩ ![2, 0, 0] inb_S8x50x64_S1x50x64_2_0_0 rfl _ (k0_off11_inb L kt 2) (off11_eq2 L kt) _ _ _ rfl (ej2 ▸ hslot2)
      isplitl [Ho3]
      · iexists _; isplitr; swap; · iexact Ho3
        ipureintro; intro _; exact row_ok ft fi hfi d L (widL L) (3 : Fin 8) ⟨8 * kt.val + 3, by omega⟩ ![3, 0, 0] inb_S8x50x64_S1x50x64_3_0_0 rfl _ (k0_off11_inb L kt 3) (off11_eq3 L kt) _ _ _ rfl (ej3 ▸ hslot3)
      isplitl [Ho4]
      · iexists _; isplitr; swap; · iexact Ho4
        ipureintro; intro _; exact row_ok ft fi hfi d L (widL L) (4 : Fin 8) ⟨8 * kt.val + 4, by omega⟩ ![4, 0, 0] inb_S8x50x64_S1x50x64_4_0_0 rfl _ (k0_off11_inb L kt 4) (off11_eq4 L kt) _ _ _ rfl (ej4 ▸ hslot4)
      isplitl [Ho5]
      · iexists _; isplitr; swap; · iexact Ho5
        ipureintro; intro _; exact row_ok ft fi hfi d L (widL L) (5 : Fin 8) ⟨8 * kt.val + 5, by omega⟩ ![5, 0, 0] inb_S8x50x64_S1x50x64_5_0_0 rfl _ (k0_off11_inb L kt 5) (off11_eq5 L kt) _ _ _ rfl (ej5 ▸ hslot5)
      isplitl [Ho6]
      · iexists _; isplitr; swap; · iexact Ho6
        ipureintro; intro _; exact row_ok ft fi hfi d L (widL L) (6 : Fin 8) ⟨8 * kt.val + 6, by omega⟩ ![6, 0, 0] inb_S8x50x64_S1x50x64_6_0_0 rfl _ (k0_off11_inb L kt 6) (off11_eq6 L kt) _ _ _ rfl (ej6 ▸ hslot6)
      iexists _; isplitr; swap; · iexact Ho7
      ipureintro; intro _; exact row_ok ft fi hfi d L (widL L) (7 : Fin 8) ⟨8 * kt.val + 7, by omega⟩ ![7, 0, 0] inb_S8x50x64_S1x50x64_7_0_0 rfl _ (k0_off11_inb L kt 7) (off11_eq7 L kt) _ _ _ rfl (ej7 ▸ hslot7)
    · iexact HRr'
  rw [show 8 * (kt.val + 1) = 8 * kt.val + 8 by omega]
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the first gather call, with what it writes: its block of the result ends holding the padded
    table's rows that its 128 index rows name. -/
theorem tile_body0V (hF : (K (F := F)).Facts) (hcats : ∀ j, (m (catsLoc d) j).toNat < 100000)
    (ft : Buf (Elt F) (tpadLoc d)) (f0 : Buf (Elt F) (out0Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk0 d (widL L) f0)
        ∗ scopedBufs (thr d L) ∗ scopedSems0 (thr d L) ∗ owes (thr d L) O W)
      ⊢ (wp frame (wpE (defs₀ (F := F)) 𝒱₀ (thr d L) none) Set.univ
          (cc0_gk L tW (Memref.isWhole_whole _) cW (Memref.isWhole_whole _) oW (Memref.isWhole_whole _) iW (Memref.isWhole_whole _) bW (Memref.isWhole_whole _) pW (Memref.isWhole_whole _) cc0_scratch3 cc0_scratch4 cc0_scratch5 cc0_scratch6 cc0_scratch7 cc0_scratch8 cc0_scratch9 cc0_scratch10 cc0_scratch11 cc0_scratch12 cc0_scratch13 cc0_scratch14 cc0_scratch15 cc0_scratch16 cc0_scratch17 cc0_scratch18 cc0_scoped0)
          fun _ => iprop((catsSh m d (widL L) ∗ tpadSh d (widL L) ft
              ∗ ∃ f, ⌜GatherBlk (F := F) 0 (widL L) (m (catsLoc d)) ft f⌝ ∗ outBlk0 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc0_gk_eq_skeleton]; unfold cc0_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  sl_exec
  have hfi := idx_range m d L hcats fi0 (tile_body0V.sl.dma0 m d L) rfl
  have hfie := fun (j : Fin 128) (l : Fin 50) => fi_eq m d L fi0 (tile_body0V.sl.dma0 m d L) rfl j l
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body0V.sl.dma0 m d L) Finset.univ) fullShare)) $$ Hi'
  icases Hi8 with ⟨⟨⟨HI0, HI1⟩, ⟨HI2, HI3⟩⟩, ⟨⟨HI4, HI5⟩, ⟨HI6, HI7⟩⟩⟩
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  ihave HR := (outRowsV_intro (F := F) (UU := UU) d ft (View.write (Elt F) (iW).view fi0 (tile_body0V.sl.dma0 m d L) Finset.univ) hfi (widL L) f0) $$ Ho
  iapply (gissueV d L ft (View.write (Elt F) (iW).view fi0 (tile_body0V.sl.dma0 m d L) Finset.univ) hfi (0 : Fin 8) (jOf 0 0) (o := ![0, 0, 0]) (inbo := inb_S8x56x128_S1x50x128_0_0_0) rfl (off := ![0, 0]) (inb := inb_S128x50_S1x50_0_0) rfl (sem := cc0_scratch3.sem))
  isplitl [HT0]; · iexact HT0
  isplitl [HB0]; · iexact HB0
  isplitl [HI0]; · iexact HI0
  isplitl [HsG0]; · iexact HsG0
  iintro HG0
  sl_exec
  iapply (gissueV d L ft (View.write (Elt F) (iW).view fi0 (tile_body0V.sl.dma0 m d L) Finset.univ) hfi (1 : Fin 8) (jOf 0 1) (o := ![1, 0, 0]) (inbo := inb_S8x56x128_S1x50x128_1_0_0) rfl (off := ![1, 0]) (inb := inb_S128x50_S1x50_1_0) rfl (sem := cc0_scratch4.sem))
  isplitl [HT1]; · iexact HT1
  isplitl [HB1]; · iexact HB1
  isplitl [HI1]; · iexact HI1
  isplitl [HsG1]; · iexact HsG1
  iintro HG1
  sl_exec
  iapply (gissueV d L ft (View.write (Elt F) (iW).view fi0 (tile_body0V.sl.dma0 m d L) Finset.univ) hfi (2 : Fin 8) (jOf 0 2) (o := ![2, 0, 0]) (inbo := inb_S8x56x128_S1x50x128_2_0_0) rfl (off := ![2, 0]) (inb := inb_S128x50_S1x50_2_0) rfl (sem := cc0_scratch5.sem))
  isplitl [HT2]; · iexact HT2
  isplitl [HB2]; · iexact HB2
  isplitl [HI2]; · iexact HI2
  isplitl [HsG2]; · iexact HsG2
  iintro HG2
  sl_exec
  iapply (gissueV d L ft (View.write (Elt F) (iW).view fi0 (tile_body0V.sl.dma0 m d L) Finset.univ) hfi (3 : Fin 8) (jOf 0 3) (o := ![3, 0, 0]) (inbo := inb_S8x56x128_S1x50x128_3_0_0) rfl (off := ![3, 0]) (inb := inb_S128x50_S1x50_3_0) rfl (sem := cc0_scratch6.sem))
  isplitl [HT3]; · iexact HT3
  isplitl [HB3]; · iexact HB3
  isplitl [HI3]; · iexact HI3
  isplitl [HsG3]; · iexact HsG3
  iintro HG3
  sl_exec
  iapply (gissueV d L ft (View.write (Elt F) (iW).view fi0 (tile_body0V.sl.dma0 m d L) Finset.univ) hfi (4 : Fin 8) (jOf 0 4) (o := ![4, 0, 0]) (inbo := inb_S8x56x128_S1x50x128_4_0_0) rfl (off := ![4, 0]) (inb := inb_S128x50_S1x50_4_0) rfl (sem := cc0_scratch7.sem))
  isplitl [HT4]; · iexact HT4
  isplitl [HB4]; · iexact HB4
  isplitl [HI4]; · iexact HI4
  isplitl [HsG4]; · iexact HsG4
  iintro HG4
  sl_exec
  iapply (gissueV d L ft (View.write (Elt F) (iW).view fi0 (tile_body0V.sl.dma0 m d L) Finset.univ) hfi (5 : Fin 8) (jOf 0 5) (o := ![5, 0, 0]) (inbo := inb_S8x56x128_S1x50x128_5_0_0) rfl (off := ![5, 0]) (inb := inb_S128x50_S1x50_5_0) rfl (sem := cc0_scratch8.sem))
  isplitl [HT5]; · iexact HT5
  isplitl [HB5]; · iexact HB5
  isplitl [HI5]; · iexact HI5
  isplitl [HsG5]; · iexact HsG5
  iintro HG5
  sl_exec
  iapply (gissueV d L ft (View.write (Elt F) (iW).view fi0 (tile_body0V.sl.dma0 m d L) Finset.univ) hfi (6 : Fin 8) (jOf 0 6) (o := ![6, 0, 0]) (inbo := inb_S8x56x128_S1x50x128_6_0_0) rfl (off := ![6, 0]) (inb := inb_S128x50_S1x50_6_0) rfl (sem := cc0_scratch9.sem))
  isplitl [HT6]; · iexact HT6
  isplitl [HB6]; · iexact HB6
  isplitl [HI6]; · iexact HI6
  isplitl [HsG6]; · iexact HsG6
  iintro HG6
  sl_exec
  iapply (gissueV d L ft (View.write (Elt F) (iW).view fi0 (tile_body0V.sl.dma0 m d L) Finset.univ) hfi (7 : Fin 8) (jOf 0 7) (o := ![7, 0, 0]) (inbo := inb_S8x56x128_S1x50x128_7_0_0) rfl (off := ![7, 0]) (inb := inb_S128x50_S1x50_7_0) rfl (sem := cc0_scratch10.sem))
  isplitl [HT7]; · iexact HT7
  isplitl [HB7]; · iexact HB7
  isplitl [HI7]; · iexact HI7
  isplitl [HsG7]; · iexact HsG7
  iintro HG7
  sl_exec
  sl_for (INVV (F := F) (UU := UU) d L ft (View.write (Elt F) (iW).view fi0 (tile_body0V.sl.dma0 m d L) Finset.univ) hfi O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact tripV d L ft _ hfi O W _ k u
  · unfold INVV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INVV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  ihave HR := (Entails.of_eq (congrArg (fun n => (outRowsV (F := F) (UU := UU) d ft (View.write (Elt F) (iW).view fi0 (tile_body0V.sl.dma0 m d L) Finset.univ) hfi (widL L) n : sProp 𝕄)) (show 8 * k0_t1_loop.trips = 120 from rfl))) $$ HR
  ihave HR' := (Entails.of_eq (outRowsV_group (F := F) (UU := UU) d ft (View.write (Elt F) (iW).view fi0 (tile_body0V.sl.dma0 m d L) Finset.univ) hfi (widL L) 120 120 (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwaitV d L ft (View.write (Elt F) (iW).view fi0 (tile_body0V.sl.dma0 m d L) Finset.univ) hfi (0 : Fin 8) (jOf k0_t1_loop.trips 0) (o := ![0, 0, 0]) (inbo := inb_S8x56x128_S1x50x128_0_0_0) (sem := cc0_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV10; all_goals first | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft (View.write (Elt F) (iW).view fi0 (tile_body0V.sl.dma0 m d L) Finset.univ) hfi (0 : Fin 8) (jOf k0_t1_loop.trips 0) gp0' := fun l e => (hrep0 l e l.isLt).trans (hwin0 l (Fin.castLE (by decide) e))
  sl_exec
  iapply (gwaitV d L ft (View.write (Elt F) (iW).view fi0 (tile_body0V.sl.dma0 m d L) Finset.univ) hfi (1 : Fin 8) (jOf k0_t1_loop.trips 1) (o := ![1, 0, 0]) (inbo := inb_S8x56x128_S1x50x128_1_0_0) (sem := cc0_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV11; all_goals first | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft (View.write (Elt F) (iW).view fi0 (tile_body0V.sl.dma0 m d L) Finset.univ) hfi (1 : Fin 8) (jOf k0_t1_loop.trips 1) gp1' := fun l e => (hrep1 l e l.isLt).trans (hwin1 l (Fin.castLE (by decide) e))
  sl_exec
  iapply (gwaitV d L ft (View.write (Elt F) (iW).view fi0 (tile_body0V.sl.dma0 m d L) Finset.univ) hfi (2 : Fin 8) (jOf k0_t1_loop.trips 2) (o := ![2, 0, 0]) (inbo := inb_S8x56x128_S1x50x128_2_0_0) (sem := cc0_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV12; all_goals first | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft (View.write (Elt F) (iW).view fi0 (tile_body0V.sl.dma0 m d L) Finset.univ) hfi (2 : Fin 8) (jOf k0_t1_loop.trips 2) gp2' := fun l e => (hrep2 l e l.isLt).trans (hwin2 l (Fin.castLE (by decide) e))
  sl_exec
  iapply (gwaitV d L ft (View.write (Elt F) (iW).view fi0 (tile_body0V.sl.dma0 m d L) Finset.univ) hfi (3 : Fin 8) (jOf k0_t1_loop.trips 3) (o := ![3, 0, 0]) (inbo := inb_S8x56x128_S1x50x128_3_0_0) (sem := cc0_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV13; all_goals first | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft (View.write (Elt F) (iW).view fi0 (tile_body0V.sl.dma0 m d L) Finset.univ) hfi (3 : Fin 8) (jOf k0_t1_loop.trips 3) gp3' := fun l e => (hrep3 l e l.isLt).trans (hwin3 l (Fin.castLE (by decide) e))
  sl_exec
  iapply (gwaitV d L ft (View.write (Elt F) (iW).view fi0 (tile_body0V.sl.dma0 m d L) Finset.univ) hfi (4 : Fin 8) (jOf k0_t1_loop.trips 4) (o := ![4, 0, 0]) (inbo := inb_S8x56x128_S1x50x128_4_0_0) (sem := cc0_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV14; all_goals first | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft (View.write (Elt F) (iW).view fi0 (tile_body0V.sl.dma0 m d L) Finset.univ) hfi (4 : Fin 8) (jOf k0_t1_loop.trips 4) gp4' := fun l e => (hrep4 l e l.isLt).trans (hwin4 l (Fin.castLE (by decide) e))
  sl_exec
  iapply (gwaitV d L ft (View.write (Elt F) (iW).view fi0 (tile_body0V.sl.dma0 m d L) Finset.univ) hfi (5 : Fin 8) (jOf k0_t1_loop.trips 5) (o := ![5, 0, 0]) (inbo := inb_S8x56x128_S1x50x128_5_0_0) (sem := cc0_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV15; all_goals first | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft (View.write (Elt F) (iW).view fi0 (tile_body0V.sl.dma0 m d L) Finset.univ) hfi (5 : Fin 8) (jOf k0_t1_loop.trips 5) gp5' := fun l e => (hrep5 l e l.isLt).trans (hwin5 l (Fin.castLE (by decide) e))
  sl_exec
  iapply (gwaitV d L ft (View.write (Elt F) (iW).view fi0 (tile_body0V.sl.dma0 m d L) Finset.univ) hfi (6 : Fin 8) (jOf k0_t1_loop.trips 6) (o := ![6, 0, 0]) (inbo := inb_S8x56x128_S1x50x128_6_0_0) (sem := cc0_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV16; all_goals first | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft (View.write (Elt F) (iW).view fi0 (tile_body0V.sl.dma0 m d L) Finset.univ) hfi (6 : Fin 8) (jOf k0_t1_loop.trips 6) gp6' := fun l e => (hrep6 l e l.isLt).trans (hwin6 l (Fin.castLE (by decide) e))
  sl_exec
  iapply (gwaitV d L ft (View.write (Elt F) (iW).view fi0 (tile_body0V.sl.dma0 m d L) Finset.univ) hfi (7 : Fin 8) (jOf k0_t1_loop.trips 7) (o := ![7, 0, 0]) (inbo := inb_S8x56x128_S1x50x128_7_0_0) (sem := cc0_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV17; all_goals first | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft (View.write (Elt F) (iW).view fi0 (tile_body0V.sl.dma0 m d L) Finset.univ) hfi (7 : Fin 8) (jOf k0_t1_loop.trips 7) gp7' := fun l e => (hrep7 l e l.isLt).trans (hwin7 l (Fin.castLE (by decide) e))
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HRr' := (outRowsV_rest (F := F) (UU := UU) d ft (View.write (Elt F) (iW).view fi0 (tile_body0V.sl.dma0 m d L) Finset.univ) hfi (widL L) 120 _) $$ HRr
  ihave HR := (Entails.of_eq (outRowsV_group (F := F) (UU := UU) d ft (View.write (Elt F) (iW).view fi0 (tile_body0V.sl.dma0 m d L) Finset.univ) hfi (widL L) (120 + 8) 120 (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft (View.write (Elt F) (iW).view fi0 (tile_body0V.sl.dma0 m d L) Finset.univ) hfi d L (widL L) (0 : Fin 8) ⟨120 + 0, by omega⟩ ![0, 0, 0] inb_S8x50x64_S1x50x64_0_0_0 rfl _ (k0_off77_inb L 0) (off77_eq0 L) _ _ _ rfl (jOf15_0 ▸ hslot0)
      isplitl [Ho1]
      · iexists _; isplitr; swap; · iexact Ho1
        ipureintro; intro _; exact row_ok ft (View.write (Elt F) (iW).view fi0 (tile_body0V.sl.dma0 m d L) Finset.univ) hfi d L (widL L) (1 : Fin 8) ⟨120 + 1, by omega⟩ ![1, 0, 0] inb_S8x50x64_S1x50x64_1_0_0 rfl _ (k0_off77_inb L 1) (off77_eq1 L) _ _ _ rfl (jOf15_1 ▸ hslot1)
      isplitl [Ho2]
      · iexists _; isplitr; swap; · iexact Ho2
        ipureintro; intro _; exact row_ok ft (View.write (Elt F) (iW).view fi0 (tile_body0V.sl.dma0 m d L) Finset.univ) hfi d L (widL L) (2 : Fin 8) ⟨120 + 2, by omega⟩ ![2, 0, 0] inb_S8x50x64_S1x50x64_2_0_0 rfl _ (k0_off77_inb L 2) (off77_eq2 L) _ _ _ rfl (jOf15_2 ▸ hslot2)
      isplitl [Ho3]
      · iexists _; isplitr; swap; · iexact Ho3
        ipureintro; intro _; exact row_ok ft (View.write (Elt F) (iW).view fi0 (tile_body0V.sl.dma0 m d L) Finset.univ) hfi d L (widL L) (3 : Fin 8) ⟨120 + 3, by omega⟩ ![3, 0, 0] inb_S8x50x64_S1x50x64_3_0_0 rfl _ (k0_off77_inb L 3) (off77_eq3 L) _ _ _ rfl (jOf15_3 ▸ hslot3)
      isplitl [Ho4]
      · iexists _; isplitr; swap; · iexact Ho4
        ipureintro; intro _; exact row_ok ft (View.write (Elt F) (iW).view fi0 (tile_body0V.sl.dma0 m d L) Finset.univ) hfi d L (widL L) (4 : Fin 8) ⟨120 + 4, by omega⟩ ![4, 0, 0] inb_S8x50x64_S1x50x64_4_0_0 rfl _ (k0_off77_inb L 4) (off77_eq4 L) _ _ _ rfl (jOf15_4 ▸ hslot4)
      isplitl [Ho5]
      · iexists _; isplitr; swap; · iexact Ho5
        ipureintro; intro _; exact row_ok ft (View.write (Elt F) (iW).view fi0 (tile_body0V.sl.dma0 m d L) Finset.univ) hfi d L (widL L) (5 : Fin 8) ⟨120 + 5, by omega⟩ ![5, 0, 0] inb_S8x50x64_S1x50x64_5_0_0 rfl _ (k0_off77_inb L 5) (off77_eq5 L) _ _ _ rfl (jOf15_5 ▸ hslot5)
      isplitl [Ho6]
      · iexists _; isplitr; swap; · iexact Ho6
        ipureintro; intro _; exact row_ok ft (View.write (Elt F) (iW).view fi0 (tile_body0V.sl.dma0 m d L) Finset.univ) hfi d L (widL L) (6 : Fin 8) ⟨120 + 6, by omega⟩ ![6, 0, 0] inb_S8x50x64_S1x50x64_6_0_0 rfl _ (k0_off77_inb L 6) (off77_eq6 L) _ _ _ rfl (jOf15_6 ▸ hslot6)
      iexists _; isplitr; swap; · iexact Ho7
      ipureintro; intro _; exact row_ok ft (View.write (Elt F) (iW).view fi0 (tile_body0V.sl.dma0 m d L) Finset.univ) hfi d L (widL L) (7 : Fin 8) ⟨120 + 7, by omega⟩ ![7, 0, 0] inb_S8x50x64_S1x50x64_7_0_0 rfl _ (k0_off77_inb L 7) (off77_eq7 L) _ _ _ rfl (jOf15_7 ▸ hslot7)
    · iexact HRr'
  ihave Hout := (outRowsV_join (F := F) (UU := UU) m d L ft (View.write (Elt F) (iW).view fi0 (tile_body0V.sl.dma0 m d L) Finset.univ) hfi hfie f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body0V.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end BodyV

end Cert.Proof.Tile0

end
-- ==== Proof.TileCommon1.lean ====
/-
  One vector subcore's task of the second gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefs

noncomputable section

namespace Cert.Proof.Tile1

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

abbrev cV (L : grid1.Coords) : Fin τ.nSC := (L 0).castLE hcore1
abbrev jV (L : grid1.Coords) : Fin τ.nSub := (L 1).castLE hsub1
abbrev thr (d : Dev nD) (L : grid1.Coords) : Thread nD τ := V d (cV L) (jV L)

/-! ## The task's thread, its scratch buffers and its semaphores -/

section Common

variable (d : Dev nD) (L : grid1.Coords)

omit [URA UU] [CountersIn UU] in
theorem bound_zero : grid1.bound 0 = 2 := rfl
omit [URA UU] [CountersIn UU] in
theorem bound_one : grid1.bound 1 = 16 := rfl

/-- The worker number of the subcore at grid coordinates `L`: `2 s + c`. -/
abbrev widL (L : grid1.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc1_scoped0.sem, SemLoc.dma cc1_scratch3.sem, SemLoc.dma cc1_scratch4.sem, SemLoc.dma cc1_scratch5.sem, SemLoc.dma cc1_scratch6.sem, SemLoc.dma cc1_scratch7.sem, SemLoc.dma cc1_scratch8.sem, SemLoc.dma cc1_scratch9.sem, SemLoc.dma cc1_scratch10.sem, SemLoc.dma cc1_scratch11.sem, SemLoc.dma cc1_scratch12.sem, SemLoc.dma cc1_scratch13.sem, SemLoc.dma cc1_scratch14.sem, SemLoc.dma cc1_scratch15.sem, SemLoc.dma cc1_scratch16.sem, SemLoc.dma cc1_scratch17.sem, SemLoc.dma cc1_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc1_scoped0.sem) 0 ∗ semVal (thr d L, SemLoc.dma cc1_scratch3.sem) 0 ∗ semVal (thr d L, SemLoc.dma cc1_scratch4.sem) 0 ∗ semVal (thr d L, SemLoc.dma cc1_scratch5.sem) 0 ∗ semVal (thr d L, SemLoc.dma cc1_scratch6.sem) 0 ∗ semVal (thr d L, SemLoc.dma cc1_scratch7.sem) 0 ∗ semVal (thr d L, SemLoc.dma cc1_scratch8.sem) 0 ∗ semVal (thr d L, SemLoc.dma cc1_scratch9.sem) 0 ∗ semVal (thr d L, SemLoc.dma cc1_scratch10.sem) 0 ∗ semVal (thr d L, SemLoc.dma cc1_scratch11.sem) 0 ∗ semVal (thr d L, SemLoc.dma cc1_scratch12.sem) 0 ∗ semVal (thr d L, SemLoc.dma cc1_scratch13.sem) 0 ∗ semVal (thr d L, SemLoc.dma cc1_scratch14.sem) 0 ∗ semVal (thr d L, SemLoc.dma cc1_scratch15.sem) 0 ∗ semVal (thr d L, SemLoc.dma cc1_scratch16.sem) 0 ∗ semVal (thr d L, SemLoc.dma cc1_scratch17.sem) 0 ∗ semVal (thr d L, SemLoc.dma cc1_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc1_scratch0 ↦{fullShare} f) ∗ (∃ f, (thr d L).loc cc1_scratch1 ↦{fullShare} f) ∗ (∃ f, (thr d L).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
        SparseCore.Cfg.mem_ownRefs_of_owner (p := Proc.scVector (cV L) (jV L)) (b := (Proc.scVector (cV L) (jV L)).devRef cc1_scratch2) rfl⟩⟩)]

end Common

section Pts

variable (m : (ℓ : Loc nD τ sig) → Buf (Elt F) ℓ) (d : Dev nD) (L : grid1.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out1Loc d)) :
    ((oW).view.loc (thr d L) ↦[I]{fullShare} f : sProp 𝕄) = out1Loc d ↦[I]{fullShare} f := rfl
theorem pts_iW (f : Buf (Elt F) ((thr d L).loc cc1_scratch0)) :
    ((iW).view.loc (thr d L) ↦{fullShare} f : sProp 𝕄) = (thr d L).loc cc1_scratch0 ↦{fullShare} f := rfl
theorem pts_bW (f : Buf (Elt F) ((thr d L).loc cc1_scratch1)) :
    ((bW).view.loc (thr d L) ↦{fullShare} f : sProp 𝕄) = (thr d L).loc cc1_scratch1 ↦{fullShare} f := rfl
theorem pts_pW (f : Buf (Elt F) ((thr d L).loc cc1_scratch2)) :
    ((pW).view.loc (thr d L) ↦{fullShare} f : sProp 𝕄) = (thr d L).loc cc1_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v4_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet1 w := by
  rw [blkSet1_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out1Loc d)) :
    (out1Loc d ↦[blkSet1 w]{fullShare} f : sProp 𝕄) = bigSep Finset.univ fun j : Fin 128 => out1Loc d ↦[rowSet w j]{fullShare} f := by
  rw [← pointsTo_biUnion Finset.univ (ℓ := out1Loc d) (rowSet w) (rows_disjoint w), rows_cover]

/-- The rows, each at some contents. -/
abbrev outRows (w : Fin 32) : sProp 𝕄 := bigSep Finset.univ fun j : Fin 128 => iprop(∃ f, out1Loc d ↦[rowSet w j]{fullShare} f)

theorem outRows_intro (w : Fin 32) (f : Buf (Elt F) (out1Loc d)) : (out1Loc d ↦[blkSet1 w]{fullShare} f : sProp 𝕄) ⊢ outRows d w := by
  rw [outBlk_rows]
  refine bigSep_mono fun j _ => (show (out1Loc d ↦[rowSet w j]{fullShare} f : sProp 𝕄) ⊢ iprop(∃ f, out1Loc d ↦[rowSet w j]{fullShare} f) from ?_)
  iintro H; iexists f; iexact H

set_option maxRecDepth 4096 in
theorem outRows_join (w : Fin 32) (f0 : Buf (Elt F) (out1Loc d)) : (outRows d w : sProp 𝕄) ⊢ iprop(∃ f, out1Loc d ↦[blkSet1 w]{fullShare} f) := by
  haveI : Nonempty (Buf (Elt F) (out1Loc d)) := ⟨f0⟩
  refine (bigSep_exists_pi Finset.univ (fun j (f : Buf (Elt F) (out1Loc d)) => (out1Loc d ↦[rowSet w j]{fullShare} f : sProp 𝕄))).trans ?_
  iintro ⟨%fs, H⟩
  ihave H' := (pointsTo_biUnion_join (ℓ := out1Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out1Loc d ↦[rowSet w ⟨b + 0, by omega⟩]{fullShare} f) ∗ (∃ f, out1Loc d ↦[rowSet w ⟨b + 1, by omega⟩]{fullShare} f) ∗ (∃ f, out1Loc d ↦[rowSet w ⟨b + 2, by omega⟩]{fullShare} f) ∗ (∃ f, out1Loc d ↦[rowSet w ⟨b + 3, by omega⟩]{fullShare} f) ∗ (∃ f, out1Loc d ↦[rowSet w ⟨b + 4, by omega⟩]{fullShare} f) ∗ (∃ f, out1Loc d ↦[rowSet w ⟨b + 5, by omega⟩]{fullShare} f) ∗ (∃ f, out1Loc d ↦[rowSet w ⟨b + 6, by omega⟩]{fullShare} f) ∗ (∃ f, out1Loc d ↦[rowSet w ⟨b + 7, by omega⟩]{fullShare} f))
          ∗ bigSep (Finset.univ \ Finset.univ.map (grpEmb b hb)) fun j : Fin 128 => iprop(∃ f, out1Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid1.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc1_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc1_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.Tile1

end
-- ==== Proof.TileRepack1.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon1
import proofs.«204056_g19739669692900_cont_8to1_1488_31_alg».proof.Proof.Gen.KernelIdeal.Skeleton

noncomputable section

namespace Cert.Proof.Tile1

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

section Repack

variable (d : Dev nD) (L : grid1.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k1_t1 : Fin k1_t1_loop.trips) (k : Fin k1_t2_loop.trips) (u : Unit) :
    (RInv0 d L : sProp 𝕄) ⊢ wp frame (wpE (defs₀ (F := F)) 𝒱₀ (thr d L) none) Set.univ
        (k1_t2_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 c0_i32_51 c1_i32_52 k1_t1 k u) (fun _ => RInv0 d L) := by
  unfold k1_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k1_t1 : Fin k1_t1_loop.trips) (arg24 : BitVec 32) (v255 : BitVec 32) (k : Fin k1_t3_loop.trips) (u : Unit) :
    (RInv1 d L : sProp 𝕄) ⊢ wp frame (wpE (defs₀ (F := F)) 𝒱₀ (thr d L) none) Set.univ
        (k1_t3_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v255 k u) (fun _ => RInv1 d L) := by
  unfold k1_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k1_t1 : Fin k1_t1_loop.trips) (arg24 : BitVec 32) (v255 : BitVec 32) (k : Fin k1_t4_loop.trips) (u : Unit) :
    (RInv2 d L : sProp 𝕄) ⊢ wp frame (wpE (defs₀ (F := F)) 𝒱₀ (thr d L) none) Set.univ
        (k1_t4_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v255 k u) (fun _ => RInv2 d L) := by
  unfold k1_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k1_t1 : Fin k1_t1_loop.trips) (arg24 : BitVec 32) (k : Fin k1_t5_loop.trips) (u : Unit) :
    (RInv3 d L : sProp 𝕄) ⊢ wp frame (wpE (defs₀ (F := F)) 𝒱₀ (thr d L) none) Set.univ
        (k1_t5_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 k u) (fun _ => RInv3 d L) := by
  unfold k1_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k1_t1 : Fin k1_t1_loop.trips) (arg24 : BitVec 32) (v306 : BitVec 32) (k : Fin k1_t6_loop.trips) (u : Unit) :
    (RInv4 d L : sProp 𝕄) ⊢ wp frame (wpE (defs₀ (F := F)) 𝒱₀ (thr d L) none) Set.univ
        (k1_t6_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v306 k u) (fun _ => RInv4 d L) := by
  unfold k1_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k1_t1 : Fin k1_t1_loop.trips) (arg24 : BitVec 32) (v306 : BitVec 32) (k : Fin k1_t7_loop.trips) (u : Unit) :
    (RInv5 d L : sProp 𝕄) ⊢ wp frame (wpE (defs₀ (F := F)) 𝒱₀ (thr d L) none) Set.univ
        (k1_t7_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v306 k u) (fun _ => RInv5 d L) := by
  unfold k1_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k1_t1 : Fin k1_t1_loop.trips) (arg24 : BitVec 32) (k : Fin k1_t8_loop.trips) (u : Unit) :
    (RInv6 d L : sProp 𝕄) ⊢ wp frame (wpE (defs₀ (F := F)) 𝒱₀ (thr d L) none) Set.univ
        (k1_t8_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 k u) (fun _ => RInv6 d L) := by
  unfold k1_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k1_t1 : Fin k1_t1_loop.trips) (arg24 : BitVec 32) (v357 : BitVec 32) (k : Fin k1_t9_loop.trips) (u : Unit) :
    (RInv7 d L : sProp 𝕄) ⊢ wp frame (wpE (defs₀ (F := F)) 𝒱₀ (thr d L) none) Set.univ
        (k1_t9_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v357 k u) (fun _ => RInv7 d L) := by
  unfold k1_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k1_t10_loop.trips) (u : Unit) :
    (RInv0 d L : sProp 𝕄) ⊢ wp frame (wpE (defs₀ (F := F)) 𝒱₀ (thr d L) none) Set.univ
        (k1_t10_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv0 d L) := by
  unfold k1_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k1_t11_loop.trips) (u : Unit) :
    (RInv1 d L : sProp 𝕄) ⊢ wp frame (wpE (defs₀ (F := F)) 𝒱₀ (thr d L) none) Set.univ
        (k1_t11_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv1 d L) := by
  unfold k1_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k1_t12_loop.trips) (u : Unit) :
    (RInv2 d L : sProp 𝕄) ⊢ wp frame (wpE (defs₀ (F := F)) 𝒱₀ (thr d L) none) Set.univ
        (k1_t12_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv2 d L) := by
  unfold k1_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k1_t13_loop.trips) (u : Unit) :
    (RInv3 d L : sProp 𝕄) ⊢ wp frame (wpE (defs₀ (F := F)) 𝒱₀ (thr d L) none) Set.univ
        (k1_t13_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv3 d L) := by
  unfold k1_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k1_t14_loop.trips) (u : Unit) :
    (RInv4 d L : sProp 𝕄) ⊢ wp frame (wpE (defs₀ (F := F)) 𝒱₀ (thr d L) none) Set.univ
        (k1_t14_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv4 d L) := by
  unfold k1_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k1_t15_loop.trips) (u : Unit) :
    (RInv5 d L : sProp 𝕄) ⊢ wp frame (wpE (defs₀ (F := F)) 𝒱₀ (thr d L) none) Set.univ
        (k1_t15_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv5 d L) := by
  unfold k1_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k1_t16_loop.trips) (u : Unit) :
    (RInv6 d L : sProp 𝕄) ⊢ wp frame (wpE (defs₀ (F := F)) 𝒱₀ (thr d L) none) Set.univ
        (k1_t16_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv6 d L) := by
  unfold k1_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k1_t17_loop.trips) (u : Unit) :
    (RInv7 d L : sProp 𝕄) ⊢ wp frame (wpE (defs₀ (F := F)) 𝒱₀ (thr d L) none) Set.univ
        (k1_t17_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (fun _ => RInv7 d L) := by
  unfold k1_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.Tile1

end
-- ==== Proof.TileBody1.lean ====
/-
  One vector subcore's task of the second gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon1
import proofs.«204056_g19739669692900_cont_8to1_1488_31_alg».proof.Proof.Gen.KernelIdeal.Skeleton
import proofs.«204056_g19739669692900_cont_8to1_1488_31_alg».proof.Proof.TileRepack1

noncomputable section

namespace Cert.Proof.Tile1

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid1.Coords)

/-- The task's 128 rows of the index array, as the program slices them. -/
abbrev catsRowsK : Memref sig .scVector .hbm S128x50 .i32 :=
  (cW).slice (Rect.unit (s := S16384x50) (k1_off1 L) S128x50.size (k1_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid1.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k1_t1_loop.trips) : Memref sig .scVector .hbm S50x64 .f32 :=
  ((oW).slice (Rect.unit (s := S4096x50x64) (k1_off11 L k 0#32) S1x50x64.size (k1_off11_inb L k 0)) (fun _ => rfl)).squeeze S50x64 squeezes_S1x50x64_S50x64
abbrev oRowE0 : Memref sig .scVector .hbm S50x64 .f32 :=
  ((oW).slice (Rect.unit (s := S4096x50x64) (k1_off77 L 120#32) S1x50x64.size (k1_off77_inb L 0)) (fun _ => rfl)).squeeze S50x64 squeezes_S1x50x64_S50x64
theorem off11_eq0 (k : Fin k1_t1_loop.trips) : k1_off11 L k 0#32 = ![128 * (widL L).val + (8 * k.val + 0), 0, 0] :=
  (k1_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k1_off77 L 120#32 = ![128 * (widL L).val + (120 + 0), 0, 0] :=
  (k1_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k1_t1_loop.trips) (h : 8 * k.val + 0 < 128) :
    Rect.unit (s := S4096x50x64) (k1_off11 L k 0#32) S1x50x64.size (k1_off11_inb L k 0) = rowRect (widL L) ⟨8 * k.val + 0, h⟩ :=
  rect_unit_congr (off11_eq0 L k)
theorem set_oRowK0 (k : Fin k1_t1_loop.trips) (h : 8 * k.val + 0 < 128) : (oRowK0 L k).view.set = rowSet (widL L) ⟨8 * k.val + 0, h⟩ := by
  show (((oW).view.slice (Rect.unit (s := S4096x50x64) (k1_off11 L k 0#32) S1x50x64.size (k1_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k1_off77 L 120#32) S1x50x64.size (k1_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k1_off77 L 120#32) S1x50x64.size (k1_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k1_t1_loop.trips) (h : 8 * k.val + 0 < 128) (f : Buf (Elt F) (out1Loc d)) :
    ((oRowK0 L k).view.loc (thr d L) ↦[(oRowK0 L k).view.set]{fullShare} f : sProp 𝕄) = out1Loc d ↦[rowSet (widL L) ⟨8 * k.val + 0, h⟩]{fullShare} f := by
  rw [set_oRowK0 L k h]
theorem pts_oRowE0 (h : 120 + 0 < 128) (f : Buf (Elt F) (out1Loc d)) :
    ((oRowE0 L).view.loc (thr d L) ↦[(oRowE0 L).view.set]{fullShare} f : sProp 𝕄) = out1Loc d ↦[rowSet (widL L) ⟨120 + 0, h⟩]{fullShare} f := by
  rw [set_oRowE0 L h]

/-- Row `8 k + 1` of the task's block, as trip `k` addresses it; row `121`, as the last group does. -/
abbrev oRowK1 (k : Fin k1_t1_loop.trips) : Memref sig .scVector .hbm S50x64 .f32 :=
  ((oW).slice (Rect.unit (s := S4096x50x64) (k1_off11 L k 1#32) S1x50x64.size (k1_off11_inb L k 1)) (fun _ => rfl)).squeeze S50x64 squeezes_S1x50x64_S50x64
abbrev oRowE1 : Memref sig .scVector .hbm S50x64 .f32 :=
  ((oW).slice (Rect.unit (s := S4096x50x64) (k1_off77 L 121#32) S1x50x64.size (k1_off77_inb L 1)) (fun _ => rfl)).squeeze S50x64 squeezes_S1x50x64_S50x64
theorem off11_eq1 (k : Fin k1_t1_loop.trips) : k1_off11 L k 1#32 = ![128 * (widL L).val + (8 * k.val + 1), 0, 0] :=
  (k1_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k1_off77 L 121#32 = ![128 * (widL L).val + (120 + 1), 0, 0] :=
  (k1_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k1_t1_loop.trips) (h : 8 * k.val + 1 < 128) :
    Rect.unit (s := S4096x50x64) (k1_off11 L k 1#32) S1x50x64.size (k1_off11_inb L k 1) = rowRect (widL L) ⟨8 * k.val + 1, h⟩ :=
  rect_unit_congr (off11_eq1 L k)
theorem set_oRowK1 (k : Fin k1_t1_loop.trips) (h : 8 * k.val + 1 < 128) : (oRowK1 L k).view.set = rowSet (widL L) ⟨8 * k.val + 1, h⟩ := by
  show (((oW).view.slice (Rect.unit (s := S4096x50x64) (k1_off11 L k 1#32) S1x50x64.size (k1_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k1_off77 L 121#32) S1x50x64.size (k1_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k1_off77 L 121#32) S1x50x64.size (k1_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k1_t1_loop.trips) (h : 8 * k.val + 1 < 128) (f : Buf (Elt F) (out1Loc d)) :
    ((oRowK1 L k).view.loc (thr d L) ↦[(oRowK1 L k).view.set]{fullShare} f : sProp 𝕄) = out1Loc d ↦[rowSet (widL L) ⟨8 * k.val + 1, h⟩]{fullShare} f := by
  rw [set_oRowK1 L k h]
theorem pts_oRowE1 (h : 120 + 1 < 128) (f : Buf (Elt F) (out1Loc d)) :
    ((oRowE1 L).view.loc (thr d L) ↦[(oRowE1 L).view.set]{fullShare} f : sProp 𝕄) = out1Loc d ↦[rowSet (widL L) ⟨120 + 1, h⟩]{fullShare} f := by
  rw [set_oRowE1 L h]

/-- Row `8 k + 2` of the task's block, as trip `k` addresses it; row `122`, as the last group does. -/
abbrev oRowK2 (k : Fin k1_t1_loop.trips) : Memref sig .scVector .hbm S50x64 .f32 :=
  ((oW).slice (Rect.unit (s := S4096x50x64) (k1_off11 L k 2#32) S1x50x64.size (k1_off11_inb L k 2)) (fun _ => rfl)).squeeze S50x64 squeezes_S1x50x64_S50x64
abbrev oRowE2 : Memref sig .scVector .hbm S50x64 .f32 :=
  ((oW).slice (Rect.unit (s := S4096x50x64) (k1_off77 L 122#32) S1x50x64.size (k1_off77_inb L 2)) (fun _ => rfl)).squeeze S50x64 squeezes_S1x50x64_S50x64
theorem off11_eq2 (k : Fin k1_t1_loop.trips) : k1_off11 L k 2#32 = ![128 * (widL L).val + (8 * k.val + 2), 0, 0] :=
  (k1_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k1_off77 L 122#32 = ![128 * (widL L).val + (120 + 2), 0, 0] :=
  (k1_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k1_t1_loop.trips) (h : 8 * k.val + 2 < 128) :
    Rect.unit (s := S4096x50x64) (k1_off11 L k 2#32) S1x50x64.size (k1_off11_inb L k 2) = rowRect (widL L) ⟨8 * k.val + 2, h⟩ :=
  rect_unit_congr (off11_eq2 L k)
theorem set_oRowK2 (k : Fin k1_t1_loop.trips) (h : 8 * k.val + 2 < 128) : (oRowK2 L k).view.set = rowSet (widL L) ⟨8 * k.val + 2, h⟩ := by
  show (((oW).view.slice (Rect.unit (s := S4096x50x64) (k1_off11 L k 2#32) S1x50x64.size (k1_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k1_off77 L 122#32) S1x50x64.size (k1_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k1_off77 L 122#32) S1x50x64.size (k1_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k1_t1_loop.trips) (h : 8 * k.val + 2 < 128) (f : Buf (Elt F) (out1Loc d)) :
    ((oRowK2 L k).view.loc (thr d L) ↦[(oRowK2 L k).view.set]{fullShare} f : sProp 𝕄) = out1Loc d ↦[rowSet (widL L) ⟨8 * k.val + 2, h⟩]{fullShare} f := by
  rw [set_oRowK2 L k h]
theorem pts_oRowE2 (h : 120 + 2 < 128) (f : Buf (Elt F) (out1Loc d)) :
    ((oRowE2 L).view.loc (thr d L) ↦[(oRowE2 L).view.set]{fullShare} f : sProp 𝕄) = out1Loc d ↦[rowSet (widL L) ⟨120 + 2, h⟩]{fullShare} f := by
  rw [set_oRowE2 L h]

/-- Row `8 k + 3` of the task's block, as trip `k` addresses it; row `123`, as the last group does. -/
abbrev oRowK3 (k : Fin k1_t1_loop.trips) : Memref sig .scVector .hbm S50x64 .f32 :=
  ((oW).slice (Rect.unit (s := S4096x50x64) (k1_off11 L k 3#32) S1x50x64.size (k1_off11_inb L k 3)) (fun _ => rfl)).squeeze S50x64 squeezes_S1x50x64_S50x64
abbrev oRowE3 : Memref sig .scVector .hbm S50x64 .f32 :=
  ((oW).slice (Rect.unit (s := S4096x50x64) (k1_off77 L 123#32) S1x50x64.size (k1_off77_inb L 3)) (fun _ => rfl)).squeeze S50x64 squeezes_S1x50x64_S50x64
theorem off11_eq3 (k : Fin k1_t1_loop.trips) : k1_off11 L k 3#32 = ![128 * (widL L).val + (8 * k.val + 3), 0, 0] :=
  (k1_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k1_off77 L 123#32 = ![128 * (widL L).val + (120 + 3), 0, 0] :=
  (k1_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k1_t1_loop.trips) (h : 8 * k.val + 3 < 128) :
    Rect.unit (s := S4096x50x64) (k1_off11 L k 3#32) S1x50x64.size (k1_off11_inb L k 3) = rowRect (widL L) ⟨8 * k.val + 3, h⟩ :=
  rect_unit_congr (off11_eq3 L k)
theorem set_oRowK3 (k : Fin k1_t1_loop.trips) (h : 8 * k.val + 3 < 128) : (oRowK3 L k).view.set = rowSet (widL L) ⟨8 * k.val + 3, h⟩ := by
  show (((oW).view.slice (Rect.unit (s := S4096x50x64) (k1_off11 L k 3#32) S1x50x64.size (k1_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k1_off77 L 123#32) S1x50x64.size (k1_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k1_off77 L 123#32) S1x50x64.size (k1_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k1_t1_loop.trips) (h : 8 * k.val + 3 < 128) (f : Buf (Elt F) (out1Loc d)) :
    ((oRowK3 L k).view.loc (thr d L) ↦[(oRowK3 L k).view.set]{fullShare} f : sProp 𝕄) = out1Loc d ↦[rowSet (widL L) ⟨8 * k.val + 3, h⟩]{fullShare} f := by
  rw [set_oRowK3 L k h]
theorem pts_oRowE3 (h : 120 + 3 < 128) (f : Buf (Elt F) (out1Loc d)) :
    ((oRowE3 L).view.loc (thr d L) ↦[(oRowE3 L).view.set]{fullShare} f : sProp 𝕄) = out1Loc d ↦[rowSet (widL L) ⟨120 + 3, h⟩]{fullShare} f := by
  rw [set_oRowE3 L h]

/-- Row `8 k + 4` of the task's block, as trip `k` addresses it; row `124`, as the last group does. -/
abbrev oRowK4 (k : Fin k1_t1_loop.trips) : Memref sig .scVector .hbm S50x64 .f32 :=
  ((oW).slice (Rect.unit (s := S4096x50x64) (k1_off11 L k 4#32) S1x50x64.size (k1_off11_inb L k 4)) (fun _ => rfl)).squeeze S50x64 squeezes_S1x50x64_S50x64
abbrev oRowE4 : Memref sig .scVector .hbm S50x64 .f32 :=
  ((oW).slice (Rect.unit (s := S4096x50x64) (k1_off77 L 124#32) S1x50x64.size (k1_off77_inb L 4)) (fun _ => rfl)).squeeze S50x64 squeezes_S1x50x64_S50x64
theorem off11_eq4 (k : Fin k1_t1_loop.trips) : k1_off11 L k 4#32 = ![128 * (widL L).val + (8 * k.val + 4), 0, 0] :=
  (k1_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k1_off77 L 124#32 = ![128 * (widL L).val + (120 + 4), 0, 0] :=
  (k1_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k1_t1_loop.trips) (h : 8 * k.val + 4 < 128) :
    Rect.unit (s := S4096x50x64) (k1_off11 L k 4#32) S1x50x64.size (k1_off11_inb L k 4) = rowRect (widL L) ⟨8 * k.val + 4, h⟩ :=
  rect_unit_congr (off11_eq4 L k)
theorem set_oRowK4 (k : Fin k1_t1_loop.trips) (h : 8 * k.val + 4 < 128) : (oRowK4 L k).view.set = rowSet (widL L) ⟨8 * k.val + 4, h⟩ := by
  show (((oW).view.slice (Rect.unit (s := S4096x50x64) (k1_off11 L k 4#32) S1x50x64.size (k1_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k1_off77 L 124#32) S1x50x64.size (k1_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k1_off77 L 124#32) S1x50x64.size (k1_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k1_t1_loop.trips) (h : 8 * k.val + 4 < 128) (f : Buf (Elt F) (out1Loc d)) :
    ((oRowK4 L k).view.loc (thr d L) ↦[(oRowK4 L k).view.set]{fullShare} f : sProp 𝕄) = out1Loc d ↦[rowSet (widL L) ⟨8 * k.val + 4, h⟩]{fullShare} f := by
  rw [set_oRowK4 L k h]
theorem pts_oRowE4 (h : 120 + 4 < 128) (f : Buf (Elt F) (out1Loc d)) :
    ((oRowE4 L).view.loc (thr d L) ↦[(oRowE4 L).view.set]{fullShare} f : sProp 𝕄) = out1Loc d ↦[rowSet (widL L) ⟨120 + 4, h⟩]{fullShare} f := by
  rw [set_oRowE4 L h]

/-- Row `8 k + 5` of the task's block, as trip `k` addresses it; row `125`, as the last group does. -/
abbrev oRowK5 (k : Fin k1_t1_loop.trips) : Memref sig .scVector .hbm S50x64 .f32 :=
  ((oW).slice (Rect.unit (s := S4096x50x64) (k1_off11 L k 5#32) S1x50x64.size (k1_off11_inb L k 5)) (fun _ => rfl)).squeeze S50x64 squeezes_S1x50x64_S50x64
abbrev oRowE5 : Memref sig .scVector .hbm S50x64 .f32 :=
  ((oW).slice (Rect.unit (s := S4096x50x64) (k1_off77 L 125#32) S1x50x64.size (k1_off77_inb L 5)) (fun _ => rfl)).squeeze S50x64 squeezes_S1x50x64_S50x64
theorem off11_eq5 (k : Fin k1_t1_loop.trips) : k1_off11 L k 5#32 = ![128 * (widL L).val + (8 * k.val + 5), 0, 0] :=
  (k1_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k1_off77 L 125#32 = ![128 * (widL L).val + (120 + 5), 0, 0] :=
  (k1_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k1_t1_loop.trips) (h : 8 * k.val + 5 < 128) :
    Rect.unit (s := S4096x50x64) (k1_off11 L k 5#32) S1x50x64.size (k1_off11_inb L k 5) = rowRect (widL L) ⟨8 * k.val + 5, h⟩ :=
  rect_unit_congr (off11_eq5 L k)
theorem set_oRowK5 (k : Fin k1_t1_loop.trips) (h : 8 * k.val + 5 < 128) : (oRowK5 L k).view.set = rowSet (widL L) ⟨8 * k.val + 5, h⟩ := by
  show (((oW).view.slice (Rect.unit (s := S4096x50x64) (k1_off11 L k 5#32) S1x50x64.size (k1_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k1_off77 L 125#32) S1x50x64.size (k1_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k1_off77 L 125#32) S1x50x64.size (k1_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k1_t1_loop.trips) (h : 8 * k.val + 5 < 128) (f : Buf (Elt F) (out1Loc d)) :
    ((oRowK5 L k).view.loc (thr d L) ↦[(oRowK5 L k).view.set]{fullShare} f : sProp 𝕄) = out1Loc d ↦[rowSet (widL L) ⟨8 * k.val + 5, h⟩]{fullShare} f := by
  rw [set_oRowK5 L k h]
theorem pts_oRowE5 (h : 120 + 5 < 128) (f : Buf (Elt F) (out1Loc d)) :
    ((oRowE5 L).view.loc (thr d L) ↦[(oRowE5 L).view.set]{fullShare} f : sProp 𝕄) = out1Loc d ↦[rowSet (widL L) ⟨120 + 5, h⟩]{fullShare} f := by
  rw [set_oRowE5 L h]

/-- Row `8 k + 6` of the task's block, as trip `k` addresses it; row `126`, as the last group does. -/
abbrev oRowK6 (k : Fin k1_t1_loop.trips) : Memref sig .scVector .hbm S50x64 .f32 :=
  ((oW).slice (Rect.unit (s := S4096x50x64) (k1_off11 L k 6#32) S1x50x64.size (k1_off11_inb L k 6)) (fun _ => rfl)).squeeze S50x64 squeezes_S1x50x64_S50x64
abbrev oRowE6 : Memref sig .scVector .hbm S50x64 .f32 :=
  ((oW).slice (Rect.unit (s := S4096x50x64) (k1_off77 L 126#32) S1x50x64.size (k1_off77_inb L 6)) (fun _ => rfl)).squeeze S50x64 squeezes_S1x50x64_S50x64
theorem off11_eq6 (k : Fin k1_t1_loop.trips) : k1_off11 L k 6#32 = ![128 * (widL L).val + (8 * k.val + 6), 0, 0] :=
  (k1_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k1_off77 L 126#32 = ![128 * (widL L).val + (120 + 6), 0, 0] :=
  (k1_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k1_t1_loop.trips) (h : 8 * k.val + 6 < 128) :
    Rect.unit (s := S4096x50x64) (k1_off11 L k 6#32) S1x50x64.size (k1_off11_inb L k 6) = rowRect (widL L) ⟨8 * k.val + 6, h⟩ :=
  rect_unit_congr (off11_eq6 L k)
theorem set_oRowK6 (k : Fin k1_t1_loop.trips) (h : 8 * k.val + 6 < 128) : (oRowK6 L k).view.set = rowSet (widL L) ⟨8 * k.val + 6, h⟩ := by
  show (((oW).view.slice (Rect.unit (s := S4096x50x64) (k1_off11 L k 6#32) S1x50x64.size (k1_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k1_off77 L 126#32) S1x50x64.size (k1_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k1_off77 L 126#32) S1x50x64.size (k1_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k1_t1_loop.trips) (h : 8 * k.val + 6 < 128) (f : Buf (Elt F) (out1Loc d)) :
    ((oRowK6 L k).view.loc (thr d L) ↦[(oRowK6 L k).view.set]{fullShare} f : sProp 𝕄) = out1Loc d ↦[rowSet (widL L) ⟨8 * k.val + 6, h⟩]{fullShare} f := by
  rw [set_oRowK6 L k h]
theorem pts_oRowE6 (h : 120 + 6 < 128) (f : Buf (Elt F) (out1Loc d)) :
    ((oRowE6 L).view.loc (thr d L) ↦[(oRowE6 L).view.set]{fullShare} f : sProp 𝕄) = out1Loc d ↦[rowSet (widL L) ⟨120 + 6, h⟩]{fullShare} f := by
  rw [set_oRowE6 L h]

/-- Row `8 k + 7` of the task's block, as trip `k` addresses it; row `127`, as the last group does. -/
abbrev oRowK7 (k : Fin k1_t1_loop.trips) : Memref sig .scVector .hbm S50x64 .f32 :=
  ((oW).slice (Rect.unit (s := S4096x50x64) (k1_off11 L k 7#32) S1x50x64.size (k1_off11_inb L k 7)) (fun _ => rfl)).squeeze S50x64 squeezes_S1x50x64_S50x64
abbrev oRowE7 : Memref sig .scVector .hbm S50x64 .f32 :=
  ((oW).slice (Rect.unit (s := S4096x50x64) (k1_off77 L 127#32) S1x50x64.size (k1_off77_inb L 7)) (fun _ => rfl)).squeeze S50x64 squeezes_S1x50x64_S50x64
theorem off11_eq7 (k : Fin k1_t1_loop.trips) : k1_off11 L k 7#32 = ![128 * (widL L).val + (8 * k.val + 7), 0, 0] :=
  (k1_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k1_off77 L 127#32 = ![128 * (widL L).val + (120 + 7), 0, 0] :=
  (k1_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k1_t1_loop.trips) (h : 8 * k.val + 7 < 128) :
    Rect.unit (s := S4096x50x64) (k1_off11 L k 7#32) S1x50x64.size (k1_off11_inb L k 7) = rowRect (widL L) ⟨8 * k.val + 7, h⟩ :=
  rect_unit_congr (off11_eq7 L k)
theorem set_oRowK7 (k : Fin k1_t1_loop.trips) (h : 8 * k.val + 7 < 128) : (oRowK7 L k).view.set = rowSet (widL L) ⟨8 * k.val + 7, h⟩ := by
  show (((oW).view.slice (Rect.unit (s := S4096x50x64) (k1_off11 L k 7#32) S1x50x64.size (k1_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k1_off77 L 127#32) S1x50x64.size (k1_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k1_off77 L 127#32) S1x50x64.size (k1_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k1_t1_loop.trips) (h : 8 * k.val + 7 < 128) (f : Buf (Elt F) (out1Loc d)) :
    ((oRowK7 L k).view.loc (thr d L) ↦[(oRowK7 L k).view.set]{fullShare} f : sProp 𝕄) = out1Loc d ↦[rowSet (widL L) ⟨8 * k.val + 7, h⟩]{fullShare} f := by
  rw [set_oRowK7 L k h]
theorem pts_oRowE7 (h : 120 + 7 < 128) (f : Buf (Elt F) (out1Loc d)) :
    ((oRowE7 L).view.loc (thr d L) ↦[(oRowE7 L).view.set]{fullShare} f : sProp 𝕄) = out1Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc1_scratch3.sem (sh32 (widL L)).left.left.left fullShare.left.left.left ft fi
      ∗ GFl d L ![1, 0, 0] inb_S8x56x128_S1x50x128_1_0_0 cc1_scratch4.sem (sh32 (widL L)).left.left.right fullShare.left.left.right ft fi
      ∗ GFl d L ![2, 0, 0] inb_S8x56x128_S1x50x128_2_0_0 cc1_scratch5.sem (sh32 (widL L)).left.right.left fullShare.left.right.left ft fi
      ∗ GFl d L ![3, 0, 0] inb_S8x56x128_S1x50x128_3_0_0 cc1_scratch6.sem (sh32 (widL L)).left.right.right fullShare.left.right.right ft fi
      ∗ GFl d L ![4, 0, 0] inb_S8x56x128_S1x50x128_4_0_0 cc1_scratch7.sem (sh32 (widL L)).right.left.left fullShare.right.left.left ft fi
      ∗ GFl d L ![5, 0, 0] inb_S8x56x128_S1x50x128_5_0_0 cc1_scratch8.sem (sh32 (widL L)).right.left.right fullShare.right.left.right ft fi
      ∗ GFl d L ![6, 0, 0] inb_S8x56x128_S1x50x128_6_0_0 cc1_scratch9.sem (sh32 (widL L)).right.right.left fullShare.right.right.left ft fi
      ∗ GFl d L ![7, 0, 0] inb_S8x56x128_S1x50x128_7_0_0 cc1_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc1_scratch11.sem) 0 ∗ semVal (thr d L, SemLoc.dma cc1_scratch12.sem) 0 ∗ semVal (thr d L, SemLoc.dma cc1_scratch13.sem) 0 ∗ semVal (thr d L, SemLoc.dma cc1_scratch14.sem) 0 ∗ semVal (thr d L, SemLoc.dma cc1_scratch15.sem) 0 ∗ semVal (thr d L, SemLoc.dma cc1_scratch16.sem) 0 ∗ semVal (thr d L, SemLoc.dma cc1_scratch17.sem) 0 ∗ semVal (thr d L, SemLoc.dma cc1_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k1_t1_loop.trips) (u : Unit) :
    (INV d L ft fi O W kt.val u : sProp 𝕄) ⊢ wp frame (wpE (defs₀ (F := F)) 𝒱₀ (thr d L) none) Set.univ
        (k1_t1_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 kt u) (INV d L ft fi O W (kt.val + 1)) := by
  unfold INV k1_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc1_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc1_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc1_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc1_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc1_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc1_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc1_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc1_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k1_off68 kt 0#32) (inb := k1_off68_inb kt 0) (sem := cc1_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k1_off68 kt 1#32) (inb := k1_off68_inb kt 1) (sem := cc1_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k1_off68 kt 2#32) (inb := k1_off68_inb kt 2) (sem := cc1_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k1_off68 kt 3#32) (inb := k1_off68_inb kt 3) (sem := cc1_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k1_off68 kt 4#32) (inb := k1_off68_inb kt 4) (sem := cc1_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k1_off68 kt 5#32) (inb := k1_off68_inb kt 5) (sem := cc1_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k1_off68 kt 6#32) (inb := k1_off68_inb kt 6) (sem := cc1_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k1_off68 kt 7#32) (inb := k1_off68_inb kt 7) (sem := cc1_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the second gather call: it ends, faults nowhere, leaves every one of its semaphores at zero
    and hands back the two read shares unchanged and its 128 result rows at some contents. -/
theorem tile_body1 (hF : (K (F := F)).Facts) (hcats : ∀ j, (m (catsLoc d) j).toNat < 100000)
    (ft : Buf (Elt F) (tpadLoc d)) (f0 : Buf (Elt F) (out1Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk1 d (widL L) f0)
        ∗ scopedBufs (thr d L) ∗ scopedSems0 (thr d L) ∗ owes (thr d L) O W)
      ⊢ (wp frame (wpE (defs₀ (F := F)) 𝒱₀ (thr d L) none) Set.univ
          (cc1_gk L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0)
          fun _ => iprop((catsSh m d (widL L) ∗ tpadSh d (widL L) ft ∗ ∃ f, outBlk1 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc1_gk_eq_skeleton]; unfold cc1_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body1.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body1.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc1_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc1_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc1_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc1_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc1_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc1_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc1_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc1_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body1.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc1_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc1_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc1_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc1_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc1_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc1_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc1_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc1_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body1.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.Tile1

end
-- ==== Proof.TileValuesQ1.lean ====
/-
  One vector subcore's task of gather call 1: what its buffers hold.

  The index scratch holds the task's 128 rows of the index array. A gather into slot `s` over list row `j` lands, in
  row `l` of the slot's window, the padded table's row named by word `[j, l]` of the index scratch; the repack keeps the
  first 64 lanes; the copy out puts them in row `128 w + j` of the call's result.
-/
import proofs.«204056_g19739669692900_cont_8to1_1488_31_alg».proof.Proof.TileBody1
import proofs.«204056_g19739669692900_cont_8to1_1488_31_alg».proof.Proof.LaunchPayV
import Idealize.ShloMosaic.Lib.ValueIdx
import Idealize.ShloMosaic.Lib.ValueLayout
import Idealize.ShloMosaic.Lib.Writes

noncomputable section

namespace Cert.Proof.Tile1

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

/-- A slot of the repacked buffer, from offsets `o`; a row of the result, from offsets `off`. -/
abbrev pWinAt (o : Fin 3 → ℕ) (inbo : ∀ a, o a + S1x50x64.size a ≤ S8x50x64.size a) : Memref sig .scVector .vmem S50x64 .f32 :=
  ((pW).slice (Rect.unit (s := S8x50x64) o S1x50x64.size inbo) (fun _ => rfl)).squeeze S50x64 squeezes_S1x50x64_S50x64
abbrev oRowAt (off : Fin 3 → ℕ) (inb : ∀ a, off a + S1x50x64.size a ≤ S4096x50x64.size a) : Memref sig .scVector .hbm S50x64 .f32 :=
  ((oW).slice (Rect.unit (s := S4096x50x64) off S1x50x64.size inb) (fun _ => rfl)).squeeze S50x64 squeezes_S1x50x64_S50x64

/-- An index word below 100000 names the row of its own value. -/
theorem rowOf_val_of_lt (w : BitVec 32) (h : w.toNat < 100000) : (Cert.Spec.rowOf w).val = w.toNat := by
  have e : w.toInt = (w.toNat : Int) := by
    rw [BitVec.toInt_eq_toNat_cond]
    split
    · rfl
    · rename_i hlt; exfalso; omega
  show min w.toInt.toNat 99999 = w.toNat
  rw [e]
  simp only [Int.toNat_natCast]
  omega

section Values

variable (ft : FVec F S100000x128 .f32) (fi : IVec S128x50 32) (hfi : ∀ y, (fi y).toNat < 100000)

/-- The table row the index scratch names at `[j, l]`. -/
def rowIx (j : Fin 128) (l : Fin 50) : Fin 100000 := ⟨(fi (ix2 j l)).toNat, hfi _⟩

/-- Slot `s`'s window of the row buffer holds the table rows list row `j` names. -/
def WinOK (s : Fin 8) (j : Fin 128) (fb : FVec F S8x56x128 .f32) : Prop :=
  ∀ (l : Fin 50) (e : Fin 128), fb (ix3 s (Fin.castLE (by decide) l : Fin 56) e) = ft (ix2 (rowIx fi hfi j l) e)

/-- Slot `s` of the repacked buffer holds their first 64 lanes. -/
def SlotOK (s : Fin 8) (j : Fin 128) (g : FVec F S8x50x64 .f32) : Prop :=
  ∀ (l : Fin 50) (e : Fin 64), g (ix3 s l e) = ft (ix2 (rowIx fi hfi j l) (Fin.castLE (by decide) e : Fin 128))

/-- Row `128 w + j` of the result holds them. -/
def RowOK (w : Fin 32) (j : Fin 128) (f : FVec F S4096x50x64 .f32) : Prop :=
  ∀ (l : Fin 50) (e : Fin 64), f (ix3 (⟨128 * w.val + j.val, by omega⟩ : Fin 4096) l e) = ft (ix2 (rowIx fi hfi j l) (Fin.castLE (by decide) e : Fin 128))

variable (d : Dev nD) (L : grid1.Coords)

/-- L2. What a gather into slot `s` over list row `j` delivers. -/
theorem win_ok (s : Fin 8) (j : Fin 128) (o : Fin 3 → ℕ) (inbo : ∀ a, o a + S1x50x128.size a ≤ S8x56x128.size a) (ho : o = ![s.val, 0, 0])
    (off : Fin 2 → ℕ) (inb : ∀ a, off a + S1x50.size a ≤ S128x50.size a) (hoff : off = ![j.val, 0])
    (fd : Buf (Elt F) ((bWinAt o inbo).view.loc (thr d L))) (hn) (hin) :
    WinOK ft fi hfi s j ((bWinAt o inbo).view.write (Elt F) fd
      (SparseCore.gatherPayload gathers_S100000x128_S50x128 ((tAll).view.read (Elt F) ft) (SparseCore.rows ((iRowAt off inb).view.read (Elt F) fi) hn hin)) Finset.univ) := by
  subst ho; subst hoff
  intro l e
  have hemb : (bWinAt ![s.val, 0, 0] inbo).view.emb (ix2 l e) = ix3 s (Fin.castLE (by decide) l : Fin 56) e := by
    show (Rect.unit (s := S8x56x128) ![s.val, 0, 0] S1x50x128.size inbo).emb
      (Shape.reshapeEquiv squeezes_S1x50x128_S50x128.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have hlist : (iRowAt ![j.val, 0] inb).view.emb (ix1 l) = ix2 j l := by
    show (Rect.unit (s := S128x50) ![j.val, 0] S1x50.size inb).emb
      (Shape.reshapeEquiv squeezes_S1x50_S50.numel_eq (ix1 l)) = _
    rw [show Shape.reshapeEquiv squeezes_S1x50_S50.numel_eq (ix1 l) = ix2 (⟨0, Nat.one_pos⟩ : Fin 1) l from
      Shape.reshapeEquiv_eq_of_rowMajor _ (by rw [Shape.rowMajor_val_two, Shape.rowMajor_val_one]; show 0 * 50 + l.val = l.val; omega)]
    funext a
    refine Fin.ext ?_
    match a with
    | 0 => show j.val + 1 * 0 = j.val; omega
    | 1 => show 0 + 1 * l.val = l.val; omega
  rw [← hemb, View.write_emb, if_pos (Finset.mem_univ _), cast_eq]
  unfold SparseCore.gatherPayload
  rw [View.read_apply, cast_eq]
  congr 1
  have hrm : S50.rowMajor.symm (l.cast hn.symm) = ix1 l :=
    (Equiv.symm_apply_eq _).mpr (Fin.ext (by rw [Shape.rowMajor_val_one]; rfl))
  funext a
  refine Fin.ext ?_
  match a with
  | 0 =>
    show 0 + 1 * ((gathers_S100000x128_S50x128).idx (SparseCore.rows ((iRowAt ![j.val, 0] inb).view.read (Elt F) fi) hn hin) (ix2 l e) (0 : Fin 2)).val
      = (fi (ix2 j l)).toNat
    rw [show (gathers_S100000x128_S50x128).idx (SparseCore.rows ((iRowAt ![j.val, 0] inb).view.read (Elt F) fi) hn hin) (ix2 l e) (0 : Fin 2)
        = SparseCore.rows ((iRowAt ![j.val, 0] inb).view.read (Elt F) fi) hn hin l from Shape.Gathers.idx_axis _ _ _]
    show 0 + 1 * ((iRowAt ![j.val, 0] inb).view.read (Elt F) fi (S50.rowMajor.symm (l.cast hn.symm))).toNat = (fi (ix2 j l)).toNat
    rw [hrm, View.read_apply, cast_eq, hlist]
    omega
  | 1 =>
    show 0 + 1 * ((gathers_S100000x128_S50x128).idx (SparseCore.rows ((iRowAt ![j.val, 0] inb).view.read (Elt F) fi) hn hin) (ix2 l e) (1 : Fin 2)).val = e.val
    have h1 := Shape.Gathers.idx_of_ne gathers_S100000x128_S50x128
      (SparseCore.rows ((iRowAt ![j.val, 0] inb).view.read (Elt F) fi) hn hin) (ix2 l e) (1 : Fin 2) (by decide)
    rw [h1]
    show 0 + 1 * e.val = e.val
    omega

/-- L3. What the copy of slot `s` out to row `128 w + j` leaves there. -/
theorem row_ok (w : Fin 32) (s : Fin 8) (j : Fin 128) (o : Fin 3 → ℕ) (inbo : ∀ a, o a + S1x50x64.size a ≤ S8x50x64.size a) (ho : o = ![s.val, 0, 0])
    (off : Fin 3 → ℕ) (inb : ∀ a, off a + S1x50x64.size a ≤ S4096x50x64.size a) (hoff : off = ![128 * w.val + j.val, 0, 0])
    (fo : Buf (Elt F) ((oRowAt off inb).view.loc (thr d L))) (gp : Buf (Elt F) ((pWinAt o inbo).view.loc (thr d L)))
    (pay : S50x64.Idx → Elt F .f32) (hpay : pay = ReadAs.same.apply ((pWinAt o inbo).view.read (Elt F) gp))
    (hs : SlotOK ft fi hfi s j gp) :
    RowOK ft fi hfi w j ((oRowAt off inb).view.writes (Elt F) fo [⟨Rect.whole S50x64, pay⟩]) := by
  subst ho; subst hoff; subst hpay
  intro l e
  have hemb : (oRowAt ![128 * w.val + j.val, 0, 0] inb).view.emb (ix2 l e) = ix3 (⟨128 * w.val + j.val, by omega⟩ : Fin 4096) l e := by
    show (Rect.unit (s := S4096x50x64) ![128 * w.val + j.val, 0, 0] S1x50x64.size inb).emb
      (Shape.reshapeEquiv squeezes_S1x50x64_S50x64.numel_eq (ix2 l e)) = _
    rw [reshapeEquiv_ix2_1ab]
    funext a
    refine Fin.ext ?_
    match a with
    | 0 => show 128 * w.val + j.val + 1 * 0 = 128 * w.val + j.val; omega
    | 1 => show 0 + 1 * l.val = l.val; omega
    | 2 => show 0 + 1 * e.val = e.val; omega
  have hembp : (pWinAt ![s.val, 0, 0] inbo).view.emb (ix2 l e) = ix3 s l e := by
    show (Rect.unit (s := S8x50x64) ![s.val, 0, 0] S1x50x64.size inbo).emb
      (Shape.reshapeEquiv squeezes_S1x50x64_S50x64.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have h1 := View.read_writes_cons_emb (v := (oRowAt ![128 * w.val + j.val, 0, 0] inb).view) (f := fo) (Rect.whole S50x64)
    (ReadAs.same.apply ((pWinAt ![s.val, 0, 0] inbo).view.read (Elt F) gp)) [] (ix2 l e)
  rw [Rect.emb_whole_apply, View.read_apply, cast_eq, hemb, ReadAs.apply_same, View.read_apply, cast_eq, hembp] at h1
  rw [h1]
  exact hs l e

end Values

section Idx

variable (m : (ℓ : Loc nD τ sig) → Buf (Elt F) ℓ) (d : Dev nD) (L : grid1.Coords)

/-- L1. The index scratch after the copy holds the task's rows of the index array. -/
theorem fi_eq (fs : Buf (Elt F) ((iW).view.loc (thr d L))) (pay : S128x50.Idx → Elt F .i32)
    (hpay : pay = (catsRowsK L).view.read (Elt F) (m (catsLoc d))) (j : Fin 128) (l : Fin 50) :
    (View.write (Elt F) (iW).view fs pay Finset.univ) (ix2 j l)
      = m (catsLoc d) (ix2 (⟨4096 + (128 * (widL L).val + j.val), by omega⟩ : Fin 16384) l) := by
  subst hpay
  rw [View.write_whole_univ]
  rw [show ∀ y, (catsRowsK L).view.read (Elt F) (m (catsLoc d)) y = m (catsLoc d) ((catsRowsK L).view.emb y) from fun y => (View.read_apply _ _).trans (cast_eq _ _)]
  congr 1
  funext a
  refine Fin.ext ?_
  have hw : (widL L).val = 2 * (L 1).val + (L 0).val := rfl
  match a with
  | 0 =>
    show k1_off1 L 0 + 1 * j.val = 4096 + (128 * (widL L).val + j.val)
    rw [k1_off1_eq, hw]
    show 256 * (L 1).val + 128 * (L 0).val + 4096 + 1 * j.val = 4096 + (128 * (2 * (L 1).val + (L 0).val) + j.val)
    omega
  | 1 =>
    show k1_off1 L 1 + 1 * l.val = l.val
    rw [k1_off1_eq]
    show 0 + 1 * l.val = l.val
    omega

variable (ft : FVec F S100000x128 .f32) (fi : IVec S128x50 32) (hfi : ∀ y, (fi y).toNat < 100000)

/-- The result rows, each at some contents; the first `n` hold the table rows the index scratch names. -/
def outRowsV (w : Fin 32) (n : ℕ) : sProp 𝕄 :=
  bigSep Finset.univ fun j : Fin 128 => iprop(∃ f, ⌜j.val < n → RowOK ft fi hfi w j f⌝ ∗ out1Loc d ↦[rowSet w j]{fullShare} f)

set_option maxHeartbeats 2000000 in
set_option maxRecDepth 8192 in
/-- L4. All 128 rows in: the task's block holds what the claim says. -/
theorem outRowsV_join (hfi_eq : ∀ (j : Fin 128) (l : Fin 50), fi (ix2 j l) = m (catsLoc d) (ix2 (⟨4096 + (128 * (widL L).val + j.val), by omega⟩ : Fin 16384) l))
    (f0 : Buf (Elt F) (out1Loc d)) :
    (outRowsV (F := F) (UU := UU) d ft fi hfi (widL L) 128 : sProp 𝕄)
      ⊢ iprop(∃ f, ⌜GatherBlk (F := F) 1 (widL L) (m (catsLoc d)) ft f⌝ ∗ out1Loc d ↦[blkSet1 (widL L)]{fullShare} f) := by
  haveI : Nonempty (Buf (Elt F) (out1Loc d)) := ⟨f0⟩
  unfold outRowsV
  refine (bigSep_exists_pi Finset.univ (fun j (f : Buf (Elt F) (out1Loc d)) =>
    (iprop(⌜j.val < 128 → RowOK ft fi hfi (widL L) j f⌝ ∗ out1Loc d ↦[rowSet (widL L) j]{fullShare} f) : sProp 𝕄))).trans ?_
  iintro ⟨%fs, H⟩
  ihave H2 := (bigSep_pure_sep Finset.univ (fun j : Fin 128 => j.val < 128 → RowOK ft fi hfi (widL L) j (fs j))
    (fun j : Fin 128 => (out1Loc d ↦[rowSet (widL L) j]{fullShare} fs j : sProp 𝕄))) $$ H
  icases H2 with ⟨%hp, H⟩
  ihave H' := (pointsTo_biUnion_join (ℓ := out1Loc d) (q := fullShare) (Val := Elt F) Finset.univ (rowSet (widL L)) fs f0 (rows_disjoint (widL L))) $$ H
  icases H' with ⟨%g, %hg, Hg⟩
  rw [rows_cover]
  iexists g
  isplitr
  · ipureintro
    intro r l e
    have hm : ix3 (⟨128 * (widL L).val + r.val, by omega⟩ : Fin 4096) l e ∈ rowSet (widL L) r := by
      rw [rowSet_eq, mem_row]
    rw [hg r (Finset.mem_univ r) _ hm, hp r (Finset.mem_univ r) r.isLt l e]
    have hrow : rowIx fi hfi r l
        = Cert.Spec.rowOf (m (catsLoc d) (ix2 (⟨4096 * (1 : Fin 4).val + (128 * (widL L).val + r.val), by omega⟩ : Fin 16384) l)) := by
      refine Fin.ext ?_
      have e0 : (⟨4096 * (1 : Fin 4).val + (128 * (widL L).val + r.val), by omega⟩ : Fin 16384)
          = (⟨4096 + (128 * (widL L).val + r.val), by omega⟩ : Fin 16384) := Fin.ext (by show 4096 * 1 + (128 * (widL L).val + r.val) = 4096 + (128 * (widL L).val + r.val); omega)
      rw [e0, ← hfi_eq r l]
      exact (rowOf_val_of_lt _ (hfi _)).symm
    rw [hrow]
  · iexact Hg

end Idx

end Cert.Proof.Tile1

end
-- ==== Proof.TileRepackVQ1.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon1
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value

noncomputable section

namespace Cert.Proof.Tile1

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

/-! ## One repack trip, as a statement about functions

A trip writes row `k` of slot `s` of the repacked buffer in four stores of sixteen lanes, newest last. If each
store's payload is the target function `G` at the lanes it covers and the rows below `k` held `G` before, the
rows below `k + 1` hold `G` after: a row below `k` is missed by all four stores, and an element of row `k` is
under exactly one of them, at its lane minus the store's lane offset. -/

section PureRepack

variable {sig : RefSig} {κ : Kind} {sp : Space} {e : EltTy} {Val : EltTy → Type}

/-- The sixteen-lane vector's shape. -/
abbrev SChunk : Shape := ⟨3, ![1, 1, 16]⟩

theorem repack_step (vp : View sig κ sp ⟨3, ![8, 50, 64]⟩ e) (gp : vp.ty.Contents Val)
    (G : (⟨3, ![8, 50, 64]⟩ : Shape).Idx → Val e) (s : Fin 8) (k : ℕ) (hk : k < 50)
    {o1 o2 o3 o4 : Fin 3 → ℕ} (h1 : o1 = ![s.val, k, 0]) (h2 : o2 = ![s.val, k, 16]) (h3 : o3 = ![s.val, k, 32])
    (h4 : o4 = ![s.val, k, 48])
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : ∀ x : Fin 16, w1 (ix3 (0 : Fin 1) (0 : Fin 1) x) = G (ix3 s ⟨k, hk⟩ ⟨0 + x.val, by omega⟩))
    (hw2 : ∀ x : Fin 16, w2 (ix3 (0 : Fin 1) (0 : Fin 1) x) = G (ix3 s ⟨k, hk⟩ ⟨16 + x.val, by omega⟩))
    (hw3 : ∀ x : Fin 16, w3 (ix3 (0 : Fin 1) (0 : Fin 1) x) = G (ix3 s ⟨k, hk⟩ ⟨32 + x.val, by omega⟩))
    (hw4 : ∀ x : Fin 16, w4 (ix3 (0 : Fin 1) (0 : Fin 1) x) = G (ix3 s ⟨k, hk⟩ ⟨48 + x.val, by omega⟩))
    (hprev : ∀ (r : Fin 50) (x : Fin 64), r.val < k → vp.read Val gp (ix3 s r x) = G (ix3 s r x)) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x) = G (ix3 s r x) := by
  intro r x hr
  by_cases hlt : r.val < k
  · rw [View.read_writes_cons_unit_of_not_mem vp gp i4 w4 _ (ix3 s r x) h4 (1 : Fin 3) (Or.inl hlt),
      View.read_writes_cons_unit_of_not_mem vp gp i3 w3 _ (ix3 s r x) h3 (1 : Fin 3) (Or.inl hlt),
      View.read_writes_cons_unit_of_not_mem vp gp i2 w2 _ (ix3 s r x) h2 (1 : Fin 3) (Or.inl hlt),
      View.read_writes_cons_unit_of_not_mem vp gp i1 w1 _ (ix3 s r x) h1 (1 : Fin 3) (Or.inl hlt), View.writes_nil]
    exact hprev r x hlt
  · have hrk : r.val = k := by omega
    have hx := x.isLt
    have tgt : ∀ (c : ℕ) (hc : c + 16 ≤ 64) (hcx : c ≤ x.val) (hxc : x.val < c + 16),
        G (ix3 s ⟨k, hk⟩ (⟨c + (x.val - c), by omega⟩ : Fin 64)) = G (ix3 s r x) := fun c hc hcx hxc =>
      congrArg G (by
        have e1 : (⟨k, hk⟩ : Fin 50) = r := Fin.ext hrk.symm
        have e2 : (⟨c + (x.val - c), by omega⟩ : Fin 64) = x := Fin.ext (by show c + (x.val - c) = x.val; omega)
        rw [e1, e2])
    by_cases c4 : 48 ≤ x.val
    · rw [View.read_writes_cons_unit_of_mem vp gp i4 w4 _ (ix3 s r x) (ix3 (0 : Fin 1) (0 : Fin 1) (⟨x.val - 48, by omega⟩ : Fin 16)) h4
        (fun a => by
          match a with
          | ⟨0, _⟩ => show s.val = s.val + 0; omega
          | ⟨1, _⟩ => show r.val = k + 0; omega
          | ⟨2, _⟩ => show x.val = 48 + (x.val - 48); omega)]
      exact (hw4 _).trans (tgt 48 (by omega) c4 (by omega))
    · rw [View.read_writes_cons_unit_of_not_mem vp gp i4 w4 _ (ix3 s r x) h4 (2 : Fin 3) (Or.inl (by show x.val < 48; omega))]
      by_cases c3 : 32 ≤ x.val
      · rw [View.read_writes_cons_unit_of_mem vp gp i3 w3 _ (ix3 s r x) (ix3 (0 : Fin 1) (0 : Fin 1) (⟨x.val - 32, by omega⟩ : Fin 16)) h3
          (fun a => by
            match a with
            | ⟨0, _⟩ => show s.val = s.val + 0; omega
            | ⟨1, _⟩ => show r.val = k + 0; omega
            | ⟨2, _⟩ => show x.val = 32 + (x.val - 32); omega)]
        exact (hw3 _).trans (tgt 32 (by omega) c3 (by omega))
      · rw [View.read_writes_cons_unit_of_not_mem vp gp i3 w3 _ (ix3 s r x) h3 (2 : Fin 3) (Or.inl (by show x.val < 32; omega))]
        by_cases c2 : 16 ≤ x.val
        · rw [View.read_writes_cons_unit_of_mem vp gp i2 w2 _ (ix3 s r x) (ix3 (0 : Fin 1) (0 : Fin 1) (⟨x.val - 16, by omega⟩ : Fin 16)) h2
            (fun a => by
              match a with
              | ⟨0, _⟩ => show s.val = s.val + 0; omega
              | ⟨1, _⟩ => show r.val = k + 0; omega
              | ⟨2, _⟩ => show x.val = 16 + (x.val - 16); omega)]
          exact (hw2 _).trans (tgt 16 (by omega) c2 (by omega))
        · rw [View.read_writes_cons_unit_of_not_mem vp gp i2 w2 _ (ix3 s r x) h2 (2 : Fin 3) (Or.inl (by show x.val < 16; omega))]
          rw [View.read_writes_cons_unit_of_mem vp gp i1 w1 _ (ix3 s r x) (ix3 (0 : Fin 1) (0 : Fin 1) (⟨x.val - 0, by omega⟩ : Fin 16)) h1
            (fun a => by
              match a with
              | ⟨0, _⟩ => show s.val = s.val + 0; omega
              | ⟨1, _⟩ => show r.val = k + 0; omega
              | ⟨2, _⟩ => show x.val = 0 + (x.val - 0); omega)]
          exact (hw1 _).trans (tgt 0 (by omega) (by omega) (by omega))

/-- A sixteen-lane load of row `k` of slot `s` of the row buffer at lane offset `c`, read at lane `x`. -/
theorem read_chunk (vb : View sig κ sp ⟨3, ![8, 56, 128]⟩ e) (fb : vb.ty.Contents Val) {o : Fin 3 → ℕ} (s : Fin 8) (k c : ℕ)
    (hk : k < 56) (hc : c + 16 ≤ 128) (ho : o = ![s.val, k, c])
    (i : ∀ a, o a + SChunk.size a ≤ (⟨3, ![8, 56, 128]⟩ : Shape).size a) (x : Fin 16) :
    vb.readAt Val (Rect.unit (s := ⟨3, ![8, 56, 128]⟩) o SChunk.size i).toLoadRect fb (ix3 (0 : Fin 1) (0 : Fin 1) x)
      = vb.read Val fb (ix3 s (⟨k, hk⟩ : Fin 56) (⟨c + x.val, by omega⟩ : Fin 128)) := by
  subst ho
  rw [View.readAt_apply]
  refine congrArg (vb.read Val fb) (funext fun a => Fin.ext ?_)
  match a with
  | ⟨0, _⟩ => show s.val + 1 * 0 = s.val; omega
  | ⟨1, _⟩ => show k + 1 * 0 = k; omega
  | ⟨2, _⟩ => show c + 1 * x.val = c + x.val; omega

/-- One repack trip: the four stores' payloads are the four sixteen-lane loads of row `k` of slot `s` of the row
    buffer, so the rows below `k + 1` of slot `s` of the repacked buffer hold the row buffer's first 64 lanes. -/
theorem repack_trip {κ' : Kind} {sp' : Space} (vp : View sig κ sp ⟨3, ![8, 50, 64]⟩ e) (vb : View sig κ' sp' ⟨3, ![8, 56, 128]⟩ e)
    (gp : vp.ty.Contents Val) (fb : vb.ty.Contents Val) (s : Fin 8) (k : ℕ) (hk : k < 50)
    {ob1 ob2 ob3 ob4 o1 o2 o3 o4 : Fin 3 → ℕ}
    (hb1 : ob1 = ![s.val, k, 0]) (hb2 : ob2 = ![s.val, k, 16]) (hb3 : ob3 = ![s.val, k, 32]) (hb4 : ob4 = ![s.val, k, 48])
    (h1 : o1 = ![s.val, k, 0]) (h2 : o2 = ![s.val, k, 16]) (h3 : o3 = ![s.val, k, 32]) (h4 : o4 = ![s.val, k, 48])
    (ib1 : ∀ a, ob1 a + SChunk.size a ≤ (⟨3, ![8, 56, 128]⟩ : Shape).size a)
    (ib2 : ∀ a, ob2 a + SChunk.size a ≤ (⟨3, ![8, 56, 128]⟩ : Shape).size a)
    (ib3 : ∀ a, ob3 a + SChunk.size a ≤ (⟨3, ![8, 56, 128]⟩ : Shape).size a)
    (ib4 : ∀ a, ob4 a + SChunk.size a ≤ (⟨3, ![8, 56, 128]⟩ : Shape).size a)
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : w1 = vb.readAt Val (Rect.unit (s := ⟨3, ![8, 56, 128]⟩) ob1 SChunk.size ib1).toLoadRect fb)
    (hw2 : w2 = vb.readAt Val (Rect.unit (s := ⟨3, ![8, 56, 128]⟩) ob2 SChunk.size ib2).toLoadRect fb)
    (hw3 : w3 = vb.readAt Val (Rect.unit (s := ⟨3, ![8, 56, 128]⟩) ob3 SChunk.size ib3).toLoadRect fb)
    (hw4 : w4 = vb.readAt Val (Rect.unit (s := ⟨3, ![8, 56, 128]⟩) ob4 SChunk.size ib4).toLoadRect fb)
    (hprev : ∀ (r : Fin 50) (x : Fin 64), r.val < k →
      vp.read Val gp (ix3 s r x) = vb.read Val fb (ix3 s (Fin.castLE (by decide) r : Fin 56) (Fin.castLE (by decide) x : Fin 128))) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x)
        = vb.read Val fb (ix3 s (Fin.castLE (by decide) r : Fin 56) (Fin.castLE (by decide) x : Fin 128)) := by
  subst hw1 hw2 hw3 hw4
  exact repack_step vp gp
    (fun y => vb.read Val fb (ix3 (y 0 : Fin 8) (Fin.castLE (by decide) (y 1 : Fin 50) : Fin 56) (Fin.castLE (by decide) (y 2 : Fin 64) : Fin 128)))
    s k hk h1 h2 h3 h4 i1 i2 i3 i4 _ _ _ _
    (fun x => read_chunk vb fb s k 0 (by omega) (by omega) hb1 ib1 x)
    (fun x => read_chunk vb fb s k 16 (by omega) (by omega) hb2 ib2 x)
    (fun x => read_chunk vb fb s k 32 (by omega) (by omega) hb3 ib3 x)
    (fun x => read_chunk vb fb s k 48 (by omega) (by omega) hb4 ib4 x)
    hprev

end PureRepack

section RepackV

variable (d : Dev nD) (L : grid1.Coords)

/-- Slot 0 between two repack trips: the row window at the fixed contents `fb`, slot 0 of the repacked buffer at some
    contents whose rows below `k` are `fb`'s first 64 lanes. -/
def RInvV0 (fb : Buf (Elt F) ((bWin0).view.loc (thr d L))) (k : ℕ) (_ : Unit) : sProp 𝕄 :=
  iprop(((bWin0).view.loc (thr d L) ↦[(bWin0).view.set]{fullShare} fb)
    ∗ ∃ g, ((pWin0).view.loc (thr d L) ↦[(pWin0).view.set]{fullShare} g)
        ∗ ⌜∀ (r : Fin 50) (e : Fin 64), r.val < k → g (ix3 (0 : Fin 8) r e) = fb (ix3 (0 : Fin 8) (Fin.castLE (by decide) r : Fin 56) (Fin.castLE (by decide) e : Fin 128))⌝)

/-- Slot 1 between two repack trips: the row window at the fixed contents `fb`, slot 1 of the repacked buffer at some
    contents whose rows below `k` are `fb`'s first 64 lanes. -/
def RInvV1 (fb : Buf (Elt F) ((bWin1).view.loc (thr d L))) (k : ℕ) (_ : Unit) : sProp 𝕄 :=
  iprop(((bWin1).view.loc (thr d L) ↦[(bWin1).view.set]{fullShare} fb)
    ∗ ∃ g, ((pWin1).view.loc (thr d L) ↦[(pWin1).view.set]{fullShare} g)
        ∗ ⌜∀ (r : Fin 50) (e : Fin 64), r.val < k → g (ix3 (1 : Fin 8) r e) = fb (ix3 (1 : Fin 8) (Fin.castLE (by decide) r : Fin 56) (Fin.castLE (by decide) e : Fin 128))⌝)

/-- Slot 2 between two repack trips: the row window at the fixed contents `fb`, slot 2 of the repacked buffer at some
    contents whose rows below `k` are `fb`'s first 64 lanes. -/
def RInvV2 (fb : Buf (Elt F) ((bWin2).view.loc (thr d L))) (k : ℕ) (_ : Unit) : sProp 𝕄 :=
  iprop(((bWin2).view.loc (thr d L) ↦[(bWin2).view.set]{fullShare} fb)
    ∗ ∃ g, ((pWin2).view.loc (thr d L) ↦[(pWin2).view.set]{fullShare} g)
        ∗ ⌜∀ (r : Fin 50) (e : Fin 64), r.val < k → g (ix3 (2 : Fin 8) r e) = fb (ix3 (2 : Fin 8) (Fin.castLE (by decide) r : Fin 56) (Fin.castLE (by decide) e : Fin 128))⌝)

/-- Slot 3 between two repack trips: the row window at the fixed contents `fb`, slot 3 of the repacked buffer at some
    contents whose rows below `k` are `fb`'s first 64 lanes. -/
def RInvV3 (fb : Buf (Elt F) ((bWin3).view.loc (thr d L))) (k : ℕ) (_ : Unit) : sProp 𝕄 :=
  iprop(((bWin3).view.loc (thr d L) ↦[(bWin3).view.set]{fullShare} fb)
    ∗ ∃ g, ((pWin3).view.loc (thr d L) ↦[(pWin3).view.set]{fullShare} g)
        ∗ ⌜∀ (r : Fin 50) (e : Fin 64), r.val < k → g (ix3 (3 : Fin 8) r e) = fb (ix3 (3 : Fin 8) (Fin.castLE (by decide) r : Fin 56) (Fin.castLE (by decide) e : Fin 128))⌝)

/-- Slot 4 between two repack trips: the row window at the fixed contents `fb`, slot 4 of the repacked buffer at some
    contents whose rows below `k` are `fb`'s first 64 lanes. -/
def RInvV4 (fb : Buf (Elt F) ((bWin4).view.loc (thr d L))) (k : ℕ) (_ : Unit) : sProp 𝕄 :=
  iprop(((bWin4).view.loc (thr d L) ↦[(bWin4).view.set]{fullShare} fb)
    ∗ ∃ g, ((pWin4).view.loc (thr d L) ↦[(pWin4).view.set]{fullShare} g)
        ∗ ⌜∀ (r : Fin 50) (e : Fin 64), r.val < k → g (ix3 (4 : Fin 8) r e) = fb (ix3 (4 : Fin 8) (Fin.castLE (by decide) r : Fin 56) (Fin.castLE (by decide) e : Fin 128))⌝)

/-- Slot 5 between two repack trips: the row window at the fixed contents `fb`, slot 5 of the repacked buffer at some
    contents whose rows below `k` are `fb`'s first 64 lanes. -/
def RInvV5 (fb : Buf (Elt F) ((bWin5).view.loc (thr d L))) (k : ℕ) (_ : Unit) : sProp 𝕄 :=
  iprop(((bWin5).view.loc (thr d L) ↦[(bWin5).view.set]{fullShare} fb)
    ∗ ∃ g, ((pWin5).view.loc (thr d L) ↦[(pWin5).view.set]{fullShare} g)
        ∗ ⌜∀ (r : Fin 50) (e : Fin 64), r.val < k → g (ix3 (5 : Fin 8) r e) = fb (ix3 (5 : Fin 8) (Fin.castLE (by decide) r : Fin 56) (Fin.castLE (by decide) e : Fin 128))⌝)

/-- Slot 6 between two repack trips: the row window at the fixed contents `fb`, slot 6 of the repacked buffer at some
    contents whose rows below `k` are `fb`'s first 64 lanes. -/
def RInvV6 (fb : Buf (Elt F) ((bWin6).view.loc (thr d L))) (k : ℕ) (_ : Unit) : sProp 𝕄 :=
  iprop(((bWin6).view.loc (thr d L) ↦[(bWin6).view.set]{fullShare} fb)
    ∗ ∃ g, ((pWin6).view.loc (thr d L) ↦[(pWin6).view.set]{fullShare} g)
        ∗ ⌜∀ (r : Fin 50) (e : Fin 64), r.val < k → g (ix3 (6 : Fin 8) r e) = fb (ix3 (6 : Fin 8) (Fin.castLE (by decide) r : Fin 56) (Fin.castLE (by decide) e : Fin 128))⌝)

/-- Slot 7 between two repack trips: the row window at the fixed contents `fb`, slot 7 of the repacked buffer at some
    contents whose rows below `k` are `fb`'s first 64 lanes. -/
def RInvV7 (fb : Buf (Elt F) ((bWin7).view.loc (thr d L))) (k : ℕ) (_ : Unit) : sProp 𝕄 :=
  iprop(((bWin7).view.loc (thr d L) ↦[(bWin7).view.set]{fullShare} fb)
    ∗ ∃ g, ((pWin7).view.loc (thr d L) ↦[(pWin7).view.set]{fullShare} g)
        ∗ ⌜∀ (r : Fin 50) (e : Fin 64), r.val < k → g (ix3 (7 : Fin 8) r e) = fb (ix3 (7 : Fin 8) (Fin.castLE (by decide) r : Fin 56) (Fin.castLE (by decide) e : Fin 128))⌝)

variable [FloatOps F]

theorem k1_pay1_eq (v : Vec F S1x1x16 .f32) : k1_pay1 v = v := by unfold k1_pay1; dsimp only; rw [shapeCast_shapeCast]
theorem k1_pay2_eq (v : Vec F S1x1x16 .f32) : k1_pay2 v = v := by unfold k1_pay2; dsimp only; rw [shapeCast_shapeCast]
theorem k1_pay3_eq (v : Vec F S1x1x16 .f32) : k1_pay3 v = v := by unfold k1_pay3; dsimp only; rw [shapeCast_shapeCast]
theorem k1_pay4_eq (v : Vec F S1x1x16 .f32) : k1_pay4 v = v := by unfold k1_pay4; dsimp only; rw [shapeCast_shapeCast]
theorem k1_pay5_eq (v : Vec F S1x1x16 .f32) : k1_pay5 v = v := by unfold k1_pay5; dsimp only; rw [shapeCast_shapeCast]
theorem k1_pay6_eq (v : Vec F S1x1x16 .f32) : k1_pay6 v = v := by unfold k1_pay6; dsimp only; rw [shapeCast_shapeCast]
theorem k1_pay7_eq (v : Vec F S1x1x16 .f32) : k1_pay7 v = v := by unfold k1_pay7; dsimp only; rw [shapeCast_shapeCast]
theorem k1_pay8_eq (v : Vec F S1x1x16 .f32) : k1_pay8 v = v := by unfold k1_pay8; dsimp only; rw [shapeCast_shapeCast]
theorem k1_pay9_eq (v : Vec F S1x1x16 .f32) : k1_pay9 v = v := by unfold k1_pay9; dsimp only; rw [shapeCast_shapeCast]
theorem k1_pay10_eq (v : Vec F S1x1x16 .f32) : k1_pay10 v = v := by unfold k1_pay10; dsimp only; rw [shapeCast_shapeCast]
theorem k1_pay11_eq (v : Vec F S1x1x16 .f32) : k1_pay11 v = v := by unfold k1_pay11; dsimp only; rw [shapeCast_shapeCast]
theorem k1_pay12_eq (v : Vec F S1x1x16 .f32) : k1_pay12 v = v := by unfold k1_pay12; dsimp only; rw [shapeCast_shapeCast]
theorem k1_pay13_eq (v : Vec F S1x1x16 .f32) : k1_pay13 v = v := by unfold k1_pay13; dsimp only; rw [shapeCast_shapeCast]
theorem k1_pay14_eq (v : Vec F S1x1x16 .f32) : k1_pay14 v = v := by unfold k1_pay14; dsimp only; rw [shapeCast_shapeCast]
theorem k1_pay15_eq (v : Vec F S1x1x16 .f32) : k1_pay15 v = v := by unfold k1_pay15; dsimp only; rw [shapeCast_shapeCast]
theorem k1_pay16_eq (v : Vec F S1x1x16 .f32) : k1_pay16 v = v := by unfold k1_pay16; dsimp only; rw [shapeCast_shapeCast]
theorem k1_pay17_eq (v : Vec F S1x1x16 .f32) : k1_pay17 v = v := by unfold k1_pay17; dsimp only; rw [shapeCast_shapeCast]
theorem k1_pay18_eq (v : Vec F S1x1x16 .f32) : k1_pay18 v = v := by unfold k1_pay18; dsimp only; rw [shapeCast_shapeCast]
theorem k1_pay19_eq (v : Vec F S1x1x16 .f32) : k1_pay19 v = v := by unfold k1_pay19; dsimp only; rw [shapeCast_shapeCast]
theorem k1_pay20_eq (v : Vec F S1x1x16 .f32) : k1_pay20 v = v := by unfold k1_pay20; dsimp only; rw [shapeCast_shapeCast]
theorem k1_pay21_eq (v : Vec F S1x1x16 .f32) : k1_pay21 v = v := by unfold k1_pay21; dsimp only; rw [shapeCast_shapeCast]
theorem k1_pay22_eq (v : Vec F S1x1x16 .f32) : k1_pay22 v = v := by unfold k1_pay22; dsimp only; rw [shapeCast_shapeCast]
theorem k1_pay23_eq (v : Vec F S1x1x16 .f32) : k1_pay23 v = v := by unfold k1_pay23; dsimp only; rw [shapeCast_shapeCast]
theorem k1_pay24_eq (v : Vec F S1x1x16 .f32) : k1_pay24 v = v := by unfold k1_pay24; dsimp only; rw [shapeCast_shapeCast]
theorem k1_pay25_eq (v : Vec F S1x1x16 .f32) : k1_pay25 v = v := by unfold k1_pay25; dsimp only; rw [shapeCast_shapeCast]
theorem k1_pay26_eq (v : Vec F S1x1x16 .f32) : k1_pay26 v = v := by unfold k1_pay26; dsimp only; rw [shapeCast_shapeCast]
theorem k1_pay27_eq (v : Vec F S1x1x16 .f32) : k1_pay27 v = v := by unfold k1_pay27; dsimp only; rw [shapeCast_shapeCast]
theorem k1_pay28_eq (v : Vec F S1x1x16 .f32) : k1_pay28 v = v := by unfold k1_pay28; dsimp only; rw [shapeCast_shapeCast]
theorem k1_pay29_eq (v : Vec F S1x1x16 .f32) : k1_pay29 v = v := by unfold k1_pay29; dsimp only; rw [shapeCast_shapeCast]
theorem k1_pay30_eq (v : Vec F S1x1x16 .f32) : k1_pay30 v = v := by unfold k1_pay30; dsimp only; rw [shapeCast_shapeCast]
theorem k1_pay31_eq (v : Vec F S1x1x16 .f32) : k1_pay31 v = v := by unfold k1_pay31; dsimp only; rw [shapeCast_shapeCast]
theorem k1_pay32_eq (v : Vec F S1x1x16 .f32) : k1_pay32 v = v := by unfold k1_pay32; dsimp only; rw [shapeCast_shapeCast]

set_option maxHeartbeats 1000000 in
theorem repackV2 (v2 : BitVec 32) (c0_i32_51 : BitVec 32) (c1_i32_52 : BitVec 32) (k1_t1 : Fin k1_t1_loop.trips)
    (fb : Buf (Elt F) ((bWin0).view.loc (thr d L))) (k : Fin k1_t2_loop.trips) (u : Unit) :
    (RInvV0 d L fb k.val u : sProp 𝕄) ⊢ wp frame (wpE (defs₀ (F := F)) 𝒱₀ (thr d L) none) Set.univ
        (k1_t2_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 c0_i32_51 c1_i32_52 k1_t1 k u) (RInvV0 d L fb (k.val + 1)) := by
  unfold k1_t2_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (0 : Fin 8) k.val hk
    (k1_off3_eq k) (k1_off5_eq k) (k1_off7_eq k) (k1_off9_eq k)
    (k1_off4_eq k) (k1_off6_eq k) (k1_off8_eq k) (k1_off10_eq k)
    (k1_off3_inb k) (k1_off5_inb k) (k1_off7_inb k) (k1_off9_inb k)
    (k1_off4_inb k) (k1_off6_inb k) (k1_off8_inb k) (k1_off10_inb k)
    (k1_pay1 (View.readAt (Elt F) (View.whole (cc1_scratch1 : Ref sig .scVector)) (Rect.unit (s := S8x56x128) (k1_off3 k) S1x1x16.size (k1_off3_inb k)).toLoadRect fb))
    (k1_pay2 (View.readAt (Elt F) (View.whole (cc1_scratch1 : Ref sig .scVector)) (Rect.unit (s := S8x56x128) (k1_off5 k) S1x1x16.size (k1_off5_inb k)).toLoadRect fb))
    (k1_pay3 (View.readAt (Elt F) (View.whole (cc1_scratch1 : Ref sig .scVector)) (Rect.unit (s := S8x56x128) (k1_off7 k) S1x1x16.size (k1_off7_inb k)).toLoadRect fb))
    (k1_pay4 (View.readAt (Elt F) (View.whole (cc1_scratch1 : Ref sig .scVector)) (Rect.unit (s := S8x56x128) (k1_off9 k) S1x1x16.size (k1_off9_inb k)).toLoadRect fb))
    (k1_pay1_eq _) (k1_pay2_eq _) (k1_pay3_eq _) (k1_pay4_eq _) hrep

theorem trips2 : k1_t2_loop.trips = 50 := rfl

/-- After loop `k1_t2` every row of slot 0 is repacked. -/
theorem repackV2_done (fb : Buf (Elt F) ((bWin0).view.loc (thr d L))) (g : Buf (Elt F) ((pWin0).view.loc (thr d L)))
    (h : ∀ (r : Fin 50) (e : Fin 64), r.val < k1_t2_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips2]; exact r.isLt)

set_option maxHeartbeats 1000000 in
theorem repackV3 (v2 : BitVec 32) (k1_t1 : Fin k1_t1_loop.trips) (arg24 : BitVec 32) (v255 : BitVec 32)
    (fb : Buf (Elt F) ((bWin1).view.loc (thr d L))) (k : Fin k1_t3_loop.trips) (u : Unit) :
    (RInvV1 d L fb k.val u : sProp 𝕄) ⊢ wp frame (wpE (defs₀ (F := F)) 𝒱₀ (thr d L) none) Set.univ
        (k1_t3_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v255 k u) (RInvV1 d L fb (k.val + 1)) := by
  unfold k1_t3_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (1 : Fin 8) k.val hk
    (k1_off12_eq k) (k1_off14_eq k) (k1_off16_eq k) (k1_off18_eq k)
    (k1_off13_eq k) (k1_off15_eq k) (k1_off17_eq k) (k1_off19_eq k)
    (k1_off12_inb k) (k1_off14_inb k) (k1_off16_inb k) (k1_off18_inb k)
    (k1_off13_inb k) (k1_off15_inb k) (k1_off17_inb k) (k1_off19_inb k)
    (k1_pay5 (View.readAt (Elt F) (View.whole (cc1_scratch1 : Ref sig .scVector)) (Rect.unit (s := S8x56x128) (k1_off12 k) S1x1x16.size (k1_off12_inb k)).toLoadRect fb))
    (k1_pay6 (View.readAt (Elt F) (View.whole (cc1_scratch1 : Ref sig .scVector)) (Rect.unit (s := S8x56x128) (k1_off14 k) S1x1x16.size (k1_off14_inb k)).toLoadRect fb))
    (k1_pay7 (View.readAt (Elt F) (View.whole (cc1_scratch1 : Ref sig .scVector)) (Rect.unit (s := S8x56x128) (k1_off16 k) S1x1x16.size (k1_off16_inb k)).toLoadRect fb))
    (k1_pay8 (View.readAt (Elt F) (View.whole (cc1_scratch1 : Ref sig .scVector)) (Rect.unit (s := S8x56x128) (k1_off18 k) S1x1x16.size (k1_off18_inb k)).toLoadRect fb))
    (k1_pay5_eq _) (k1_pay6_eq _) (k1_pay7_eq _) (k1_pay8_eq _) hrep

theorem trips3 : k1_t3_loop.trips = 50 := rfl

/-- After loop `k1_t3` every row of slot 1 is repacked. -/
theorem repackV3_done (fb : Buf (Elt F) ((bWin1).view.loc (thr d L))) (g : Buf (Elt F) ((pWin1).view.loc (thr d L)))
    (h : ∀ (r : Fin 50) (e : Fin 64), r.val < k1_t3_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips3]; exact r.isLt)

set_option maxHeartbeats 1000000 in
theorem repackV4 (v2 : BitVec 32) (k1_t1 : Fin k1_t1_loop.trips) (arg24 : BitVec 32) (v255 : BitVec 32)
    (fb : Buf (Elt F) ((bWin2).view.loc (thr d L))) (k : Fin k1_t4_loop.trips) (u : Unit) :
    (RInvV2 d L fb k.val u : sProp 𝕄) ⊢ wp frame (wpE (defs₀ (F := F)) 𝒱₀ (thr d L) none) Set.univ
        (k1_t4_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v255 k u) (RInvV2 d L fb (k.val + 1)) := by
  unfold k1_t4_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (2 : Fin 8) k.val hk
    (k1_off20_eq k) (k1_off22_eq k) (k1_off24_eq k) (k1_off26_eq k)
    (k1_off21_eq k) (k1_off23_eq k) (k1_off25_eq k) (k1_off27_eq k)
    (k1_off20_inb k) (k1_off22_inb k) (k1_off24_inb k) (k1_off26_inb k)
    (k1_off21_inb k) (k1_off23_inb k) (k1_off25_inb k) (k1_off27_inb k)
    (k1_pay9 (View.readAt (Elt F) (View.whole (cc1_scratch1 : Ref sig .scVector)) (Rect.unit (s := S8x56x128) (k1_off20 k) S1x1x16.size (k1_off20_inb k)).toLoadRect fb))
    (k1_pay10 (View.readAt (Elt F) (View.whole (cc1_scratch1 : Ref sig .scVector)) (Rect.unit (s := S8x56x128) (k1_off22 k) S1x1x16.size (k1_off22_inb k)).toLoadRect fb))
    (k1_pay11 (View.readAt (Elt F) (View.whole (cc1_scratch1 : Ref sig .scVector)) (Rect.unit (s := S8x56x128) (k1_off24 k) S1x1x16.size (k1_off24_inb k)).toLoadRect fb))
    (k1_pay12 (View.readAt (Elt F) (View.whole (cc1_scratch1 : Ref sig .scVector)) (Rect.unit (s := S8x56x128) (k1_off26 k) S1x1x16.size (k1_off26_inb k)).toLoadRect fb))
    (k1_pay9_eq _) (k1_pay10_eq _) (k1_pay11_eq _) (k1_pay12_eq _) hrep

theorem trips4 : k1_t4_loop.trips = 50 := rfl

/-- After loop `k1_t4` every row of slot 2 is repacked. -/
theorem repackV4_done (fb : Buf (Elt F) ((bWin2).view.loc (thr d L))) (g : Buf (Elt F) ((pWin2).view.loc (thr d L)))
    (h : ∀ (r : Fin 50) (e : Fin 64), r.val < k1_t4_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips4]; exact r.isLt)

set_option maxHeartbeats 1000000 in
theorem repackV5 (v2 : BitVec 32) (k1_t1 : Fin k1_t1_loop.trips) (arg24 : BitVec 32)
    (fb : Buf (Elt F) ((bWin3).view.loc (thr d L))) (k : Fin k1_t5_loop.trips) (u : Unit) :
    (RInvV3 d L fb k.val u : sProp 𝕄) ⊢ wp frame (wpE (defs₀ (F := F)) 𝒱₀ (thr d L) none) Set.univ
        (k1_t5_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 k u) (RInvV3 d L fb (k.val + 1)) := by
  unfold k1_t5_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (3 : Fin 8) k.val hk
    (k1_off28_eq k) (k1_off30_eq k) (k1_off32_eq k) (k1_off34_eq k)
    (k1_off29_eq k) (k1_off31_eq k) (k1_off33_eq k) (k1_off35_eq k)
    (k1_off28_inb k) (k1_off30_inb k) (k1_off32_inb k) (k1_off34_inb k)
    (k1_off29_inb k) (k1_off31_inb k) (k1_off33_inb k) (k1_off35_inb k)
    (k1_pay13 (View.readAt (Elt F) (View.whole (cc1_scratch1 : Ref sig .scVector)) (Rect.unit (s := S8x56x128) (k1_off28 k) S1x1x16.size (k1_off28_inb k)).toLoadRect fb))
    (k1_pay14 (View.readAt (Elt F) (View.whole (cc1_scratch1 : Ref sig .scVector)) (Rect.unit (s := S8x56x128) (k1_off30 k) S1x1x16.size (k1_off30_inb k)).toLoadRect fb))
    (k1_pay15 (View.readAt (Elt F) (View.whole (cc1_scratch1 : Ref sig .scVector)) (Rect.unit (s := S8x56x128) (k1_off32 k) S1x1x16.size (k1_off32_inb k)).toLoadRect fb))
    (k1_pay16 (View.readAt (Elt F) (View.whole (cc1_scratch1 : Ref sig .scVector)) (Rect.unit (s := S8x56x128) (k1_off34 k) S1x1x16.size (k1_off34_inb k)).toLoadRect fb))
    (k1_pay13_eq _) (k1_pay14_eq _) (k1_pay15_eq _) (k1_pay16_eq _) hrep

theorem trips5 : k1_t5_loop.trips = 50 := rfl

/-- After loop `k1_t5` every row of slot 3 is repacked. -/
theorem repackV5_done (fb : Buf (Elt F) ((bWin3).view.loc (thr d L))) (g : Buf (Elt F) ((pWin3).view.loc (thr d L)))
    (h : ∀ (r : Fin 50) (e : Fin 64), r.val < k1_t5_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips5]; exact r.isLt)

set_option maxHeartbeats 1000000 in
theorem repackV6 (v2 : BitVec 32) (k1_t1 : Fin k1_t1_loop.trips) (arg24 : BitVec 32) (v306 : BitVec 32)
    (fb : Buf (Elt F) ((bWin4).view.loc (thr d L))) (k : Fin k1_t6_loop.trips) (u : Unit) :
    (RInvV4 d L fb k.val u : sProp 𝕄) ⊢ wp frame (wpE (defs₀ (F := F)) 𝒱₀ (thr d L) none) Set.univ
        (k1_t6_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v306 k u) (RInvV4 d L fb (k.val + 1)) := by
  unfold k1_t6_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (4 : Fin 8) k.val hk
    (k1_off36_eq k) (k1_off38_eq k) (k1_off40_eq k) (k1_off42_eq k)
    (k1_off37_eq k) (k1_off39_eq k) (k1_off41_eq k) (k1_off43_eq k)
    (k1_off36_inb k) (k1_off38_inb k) (k1_off40_inb k) (k1_off42_inb k)
    (k1_off37_inb k) (k1_off39_inb k) (k1_off41_inb k) (k1_off43_inb k)
    (k1_pay17 (View.readAt (Elt F) (View.whole (cc1_scratch1 : Ref sig .scVector)) (Rect.unit (s := S8x56x128) (k1_off36 k) S1x1x16.size (k1_off36_inb k)).toLoadRect fb))
    (k1_pay18 (View.readAt (Elt F) (View.whole (cc1_scratch1 : Ref sig .scVector)) (Rect.unit (s := S8x56x128) (k1_off38 k) S1x1x16.size (k1_off38_inb k)).toLoadRect fb))
    (k1_pay19 (View.readAt (Elt F) (View.whole (cc1_scratch1 : Ref sig .scVector)) (Rect.unit (s := S8x56x128) (k1_off40 k) S1x1x16.size (k1_off40_inb k)).toLoadRect fb))
    (k1_pay20 (View.readAt (Elt F) (View.whole (cc1_scratch1 : Ref sig .scVector)) (Rect.unit (s := S8x56x128) (k1_off42 k) S1x1x16.size (k1_off42_inb k)).toLoadRect fb))
    (k1_pay17_eq _) (k1_pay18_eq _) (k1_pay19_eq _) (k1_pay20_eq _) hrep

theorem trips6 : k1_t6_loop.trips = 50 := rfl

/-- After loop `k1_t6` every row of slot 4 is repacked. -/
theorem repackV6_done (fb : Buf (Elt F) ((bWin4).view.loc (thr d L))) (g : Buf (Elt F) ((pWin4).view.loc (thr d L)))
    (h : ∀ (r : Fin 50) (e : Fin 64), r.val < k1_t6_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips6]; exact r.isLt)

set_option maxHeartbeats 1000000 in
theorem repackV7 (v2 : BitVec 32) (k1_t1 : Fin k1_t1_loop.trips) (arg24 : BitVec 32) (v306 : BitVec 32)
    (fb : Buf (Elt F) ((bWin5).view.loc (thr d L))) (k : Fin k1_t7_loop.trips) (u : Unit) :
    (RInvV5 d L fb k.val u : sProp 𝕄) ⊢ wp frame (wpE (defs₀ (F := F)) 𝒱₀ (thr d L) none) Set.univ
        (k1_t7_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v306 k u) (RInvV5 d L fb (k.val + 1)) := by
  unfold k1_t7_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (5 : Fin 8) k.val hk
    (k1_off44_eq k) (k1_off46_eq k) (k1_off48_eq k) (k1_off50_eq k)
    (k1_off45_eq k) (k1_off47_eq k) (k1_off49_eq k) (k1_off51_eq k)
    (k1_off44_inb k) (k1_off46_inb k) (k1_off48_inb k) (k1_off50_inb k)
    (k1_off45_inb k) (k1_off47_inb k) (k1_off49_inb k) (k1_off51_inb k)
    (k1_pay21 (View.readAt (Elt F) (View.whole (cc1_scratch1 : Ref sig .scVector)) (Rect.unit (s := S8x56x128) (k1_off44 k) S1x1x16.size (k1_off44_inb k)).toLoadRect fb))
    (k1_pay22 (View.readAt (Elt F) (View.whole (cc1_scratch1 : Ref sig .scVector)) (Rect.unit (s := S8x56x128) (k1_off46 k) S1x1x16.size (k1_off46_inb k)).toLoadRect fb))
    (k1_pay23 (View.readAt (Elt F) (View.whole (cc1_scratch1 : Ref sig .scVector)) (Rect.unit (s := S8x56x128) (k1_off48 k) S1x1x16.size (k1_off48_inb k)).toLoadRect fb))
    (k1_pay24 (View.readAt (Elt F) (View.whole (cc1_scratch1 : Ref sig .scVector)) (Rect.unit (s := S8x56x128) (k1_off50 k) S1x1x16.size (k1_off50_inb k)).toLoadRect fb))
    (k1_pay21_eq _) (k1_pay22_eq _) (k1_pay23_eq _) (k1_pay24_eq _) hrep

theorem trips7 : k1_t7_loop.trips = 50 := rfl

/-- After loop `k1_t7` every row of slot 5 is repacked. -/
theorem repackV7_done (fb : Buf (Elt F) ((bWin5).view.loc (thr d L))) (g : Buf (Elt F) ((pWin5).view.loc (thr d L)))
    (h : ∀ (r : Fin 50) (e : Fin 64), r.val < k1_t7_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips7]; exact r.isLt)

set_option maxHeartbeats 1000000 in
theorem repackV8 (v2 : BitVec 32) (k1_t1 : Fin k1_t1_loop.trips) (arg24 : BitVec 32)
    (fb : Buf (Elt F) ((bWin6).view.loc (thr d L))) (k : Fin k1_t8_loop.trips) (u : Unit) :
    (RInvV6 d L fb k.val u : sProp 𝕄) ⊢ wp frame (wpE (defs₀ (F := F)) 𝒱₀ (thr d L) none) Set.univ
        (k1_t8_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 k u) (RInvV6 d L fb (k.val + 1)) := by
  unfold k1_t8_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (6 : Fin 8) k.val hk
    (k1_off52_eq k) (k1_off54_eq k) (k1_off56_eq k) (k1_off58_eq k)
    (k1_off53_eq k) (k1_off55_eq k) (k1_off57_eq k) (k1_off59_eq k)
    (k1_off52_inb k) (k1_off54_inb k) (k1_off56_inb k) (k1_off58_inb k)
    (k1_off53_inb k) (k1_off55_inb k) (k1_off57_inb k) (k1_off59_inb k)
    (k1_pay25 (View.readAt (Elt F) (View.whole (cc1_scratch1 : Ref sig .scVector)) (Rect.unit (s := S8x56x128) (k1_off52 k) S1x1x16.size (k1_off52_inb k)).toLoadRect fb))
    (k1_pay26 (View.readAt (Elt F) (View.whole (cc1_scratch1 : Ref sig .scVector)) (Rect.unit (s := S8x56x128) (k1_off54 k) S1x1x16.size (k1_off54_inb k)).toLoadRect fb))
    (k1_pay27 (View.readAt (Elt F) (View.whole (cc1_scratch1 : Ref sig .scVector)) (Rect.unit (s := S8x56x128) (k1_off56 k) S1x1x16.size (k1_off56_inb k)).toLoadRect fb))
    (k1_pay28 (View.readAt (Elt F) (View.whole (cc1_scratch1 : Ref sig .scVector)) (Rect.unit (s := S8x56x128) (k1_off58 k) S1x1x16.size (k1_off58_inb k)).toLoadRect fb))
    (k1_pay25_eq _) (k1_pay26_eq _) (k1_pay27_eq _) (k1_pay28_eq _) hrep

theorem trips8 : k1_t8_loop.trips = 50 := rfl

/-- After loop `k1_t8` every row of slot 6 is repacked. -/
theorem repackV8_done (fb : Buf (Elt F) ((bWin6).view.loc (thr d L))) (g : Buf (Elt F) ((pWin6).view.loc (thr d L)))
    (h : ∀ (r : Fin 50) (e : Fin 64), r.val < k1_t8_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips8]; exact r.isLt)

set_option maxHeartbeats 1000000 in
theorem repackV9 (v2 : BitVec 32) (k1_t1 : Fin k1_t1_loop.trips) (arg24 : BitVec 32) (v357 : BitVec 32)
    (fb : Buf (Elt F) ((bWin7).view.loc (thr d L))) (k : Fin k1_t9_loop.trips) (u : Unit) :
    (RInvV7 d L fb k.val u : sProp 𝕄) ⊢ wp frame (wpE (defs₀ (F := F)) 𝒱₀ (thr d L) none) Set.univ
        (k1_t9_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k1_t1 arg24 v357 k u) (RInvV7 d L fb (k.val + 1)) := by
  unfold k1_t9_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (7 : Fin 8) k.val hk
    (k1_off60_eq k) (k1_off62_eq k) (k1_off64_eq k) (k1_off66_eq k)
    (k1_off61_eq k) (k1_off63_eq k) (k1_off65_eq k) (k1_off67_eq k)
    (k1_off60_inb k) (k1_off62_inb k) (k1_off64_inb k) (k1_off66_inb k)
    (k1_off61_inb k) (k1_off63_inb k) (k1_off65_inb k) (k1_off67_inb k)
    (k1_pay29 (View.readAt (Elt F) (View.whole (cc1_scratch1 : Ref sig .scVector)) (Rect.unit (s := S8x56x128) (k1_off60 k) S1x1x16.size (k1_off60_inb k)).toLoadRect fb))
    (k1_pay30 (View.readAt (Elt F) (View.whole (cc1_scratch1 : Ref sig .scVector)) (Rect.unit (s := S8x56x128) (k1_off62 k) S1x1x16.size (k1_off62_inb k)).toLoadRect fb))
    (k1_pay31 (View.readAt (Elt F) (View.whole (cc1_scratch1 : Ref sig .scVector)) (Rect.unit (s := S8x56x128) (k1_off64 k) S1x1x16.size (k1_off64_inb k)).toLoadRect fb))
    (k1_pay32 (View.readAt (Elt F) (View.whole (cc1_scratch1 : Ref sig .scVector)) (Rect.unit (s := S8x56x128) (k1_off66 k) S1x1x16.size (k1_off66_inb k)).toLoadRect fb))
    (k1_pay29_eq _) (k1_pay30_eq _) (k1_pay31_eq _) (k1_pay32_eq _) hrep

theorem trips9 : k1_t9_loop.trips = 50 := rfl

/-- After loop `k1_t9` every row of slot 7 is repacked. -/
theorem repackV9_done (fb : Buf (Elt F) ((bWin7).view.loc (thr d L))) (g : Buf (Elt F) ((pWin7).view.loc (thr d L)))
    (h : ∀ (r : Fin 50) (e : Fin 64), r.val < k1_t9_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips9]; exact r.isLt)

end RepackV

end Cert.Proof.Tile1

end
-- ==== Proof.TileRepackV2Q1.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon1
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value
import proofs.«204056_g19739669692900_cont_8to1_1488_31_alg».proof.Proof.TileRepackVQ1

noncomputable section

namespace Cert.Proof.Tile1

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

section RepackV

variable (d : Dev nD) (L : grid1.Coords)

variable [FloatOps F]

theorem k1_pay33_eq (v : Vec F S1x1x16 .f32) : k1_pay33 v = v := by unfold k1_pay33; dsimp only; rw [shapeCast_shapeCast]
theorem k1_pay34_eq (v : Vec F S1x1x16 .f32) : k1_pay34 v = v := by unfold k1_pay34; dsimp only; rw [shapeCast_shapeCast]
theorem k1_pay35_eq (v : Vec F S1x1x16 .f32) : k1_pay35 v = v := by unfold k1_pay35; dsimp only; rw [shapeCast_shapeCast]
theorem k1_pay36_eq (v : Vec F S1x1x16 .f32) : k1_pay36 v = v := by unfold k1_pay36; dsimp only; rw [shapeCast_shapeCast]
theorem k1_pay37_eq (v : Vec F S1x1x16 .f32) : k1_pay37 v = v := by unfold k1_pay37; dsimp only; rw [shapeCast_shapeCast]
theorem k1_pay38_eq (v : Vec F S1x1x16 .f32) : k1_pay38 v = v := by unfold k1_pay38; dsimp only; rw [shapeCast_shapeCast]
theorem k1_pay39_eq (v : Vec F S1x1x16 .f32) : k1_pay39 v = v := by unfold k1_pay39; dsimp only; rw [shapeCast_shapeCast]
theorem k1_pay40_eq (v : Vec F S1x1x16 .f32) : k1_pay40 v = v := by unfold k1_pay40; dsimp only; rw [shapeCast_shapeCast]
theorem k1_pay41_eq (v : Vec F S1x1x16 .f32) : k1_pay41 v = v := by unfold k1_pay41; dsimp only; rw [shapeCast_shapeCast]
theorem k1_pay42_eq (v : Vec F S1x1x16 .f32) : k1_pay42 v = v := by unfold k1_pay42; dsimp only; rw [shapeCast_shapeCast]
theorem k1_pay43_eq (v : Vec F S1x1x16 .f32) : k1_pay43 v = v := by unfold k1_pay43; dsimp only; rw [shapeCast_shapeCast]
theorem k1_pay44_eq (v : Vec F S1x1x16 .f32) : k1_pay44 v = v := by unfold k1_pay44; dsimp only; rw [shapeCast_shapeCast]
theorem k1_pay45_eq (v : Vec F S1x1x16 .f32) : k1_pay45 v = v := by unfold k1_pay45; dsimp only; rw [shapeCast_shapeCast]
theorem k1_pay46_eq (v : Vec F S1x1x16 .f32) : k1_pay46 v = v := by unfold k1_pay46; dsimp only; rw [shapeCast_shapeCast]
theorem k1_pay47_eq (v : Vec F S1x1x16 .f32) : k1_pay47 v = v := by unfold k1_pay47; dsimp only; rw [shapeCast_shapeCast]
theorem k1_pay48_eq (v : Vec F S1x1x16 .f32) : k1_pay48 v = v := by unfold k1_pay48; dsimp only; rw [shapeCast_shapeCast]
theorem k1_pay49_eq (v : Vec F S1x1x16 .f32) : k1_pay49 v = v := by unfold k1_pay49; dsimp only; rw [shapeCast_shapeCast]
theorem k1_pay50_eq (v : Vec F S1x1x16 .f32) : k1_pay50 v = v := by unfold k1_pay50; dsimp only; rw [shapeCast_shapeCast]
theorem k1_pay51_eq (v : Vec F S1x1x16 .f32) : k1_pay51 v = v := by unfold k1_pay51; dsimp only; rw [shapeCast_shapeCast]
theorem k1_pay52_eq (v : Vec F S1x1x16 .f32) : k1_pay52 v = v := by unfold k1_pay52; dsimp only; rw [shapeCast_shapeCast]
theorem k1_pay53_eq (v : Vec F S1x1x16 .f32) : k1_pay53 v = v := by unfold k1_pay53; dsimp only; rw [shapeCast_shapeCast]
theorem k1_pay54_eq (v : Vec F S1x1x16 .f32) : k1_pay54 v = v := by unfold k1_pay54; dsimp only; rw [shapeCast_shapeCast]
theorem k1_pay55_eq (v : Vec F S1x1x16 .f32) : k1_pay55 v = v := by unfold k1_pay55; dsimp only; rw [shapeCast_shapeCast]
theorem k1_pay56_eq (v : Vec F S1x1x16 .f32) : k1_pay56 v = v := by unfold k1_pay56; dsimp only; rw [shapeCast_shapeCast]
theorem k1_pay57_eq (v : Vec F S1x1x16 .f32) : k1_pay57 v = v := by unfold k1_pay57; dsimp only; rw [shapeCast_shapeCast]
theorem k1_pay58_eq (v : Vec F S1x1x16 .f32) : k1_pay58 v = v := by unfold k1_pay58; dsimp only; rw [shapeCast_shapeCast]
theorem k1_pay59_eq (v : Vec F S1x1x16 .f32) : k1_pay59 v = v := by unfold k1_pay59; dsimp only; rw [shapeCast_shapeCast]
theorem k1_pay60_eq (v : Vec F S1x1x16 .f32) : k1_pay60 v = v := by unfold k1_pay60; dsimp only; rw [shapeCast_shapeCast]
theorem k1_pay61_eq (v : Vec F S1x1x16 .f32) : k1_pay61 v = v := by unfold k1_pay61; dsimp only; rw [shapeCast_shapeCast]
theorem k1_pay62_eq (v : Vec F S1x1x16 .f32) : k1_pay62 v = v := by unfold k1_pay62; dsimp only; rw [shapeCast_shapeCast]
theorem k1_pay63_eq (v : Vec F S1x1x16 .f32) : k1_pay63 v = v := by unfold k1_pay63; dsimp only; rw [shapeCast_shapeCast]
theorem k1_pay64_eq (v : Vec F S1x1x16 .f32) : k1_pay64 v = v := by unfold k1_pay64; dsimp only; rw [shapeCast_shapeCast]

set_option maxHeartbeats 1000000 in
theorem repackV10 (v2 : BitVec 32)
    (fb : Buf (Elt F) ((bWin0).view.loc (thr d L))) (k : Fin k1_t10_loop.trips) (u : Unit) :
    (RInvV0 d L fb k.val u : sProp 𝕄) ⊢ wp frame (wpE (defs₀ (F := F)) 𝒱₀ (thr d L) none) Set.univ
        (k1_t10_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV0 d L fb (k.val + 1)) := by
  unfold k1_t10_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (0 : Fin 8) k.val hk
    (k1_off69_eq k) (k1_off71_eq k) (k1_off73_eq k) (k1_off75_eq k)
    (k1_off70_eq k) (k1_off72_eq k) (k1_off74_eq k) (k1_off76_eq k)
    (k1_off69_inb k) (k1_off71_inb k) (k1_off73_inb k) (k1_off75_inb k)
    (k1_off70_inb k) (k1_off72_inb k) (k1_off74_inb k) (k1_off76_inb k)
    (k1_pay33 (View.readAt (Elt F) (View.whole (cc1_scratch1 : Ref sig .scVector)) (Rect.unit (s := S8x56x128) (k1_off69 k) S1x1x16.size (k1_off69_inb k)).toLoadRect fb))
    (k1_pay34 (View.readAt (Elt F) (View.whole (cc1_scratch1 : Ref sig .scVector)) (Rect.unit (s := S8x56x128) (k1_off71 k) S1x1x16.size (k1_off71_inb k)).toLoadRect fb))
    (k1_pay35 (View.readAt (Elt F) (View.whole (cc1_scratch1 : Ref sig .scVector)) (Rect.unit (s := S8x56x128) (k1_off73 k) S1x1x16.size (k1_off73_inb k)).toLoadRect fb))
    (k1_pay36 (View.readAt (Elt F) (View.whole (cc1_scratch1 : Ref sig .scVector)) (Rect.unit (s := S8x56x128) (k1_off75 k) S1x1x16.size (k1_off75_inb k)).toLoadRect fb))
    (k1_pay33_eq _) (k1_pay34_eq _) (k1_pay35_eq _) (k1_pay36_eq _) hrep

theorem trips10 : k1_t10_loop.trips = 50 := rfl

/-- After loop `k1_t10` every row of slot 0 is repacked. -/
theorem repackV10_done (fb : Buf (Elt F) ((bWin0).view.loc (thr d L))) (g : Buf (Elt F) ((pWin0).view.loc (thr d L)))
    (h : ∀ (r : Fin 50) (e : Fin 64), r.val < k1_t10_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips10]; exact r.isLt)

set_option maxHeartbeats 1000000 in
theorem repackV11 (v2 : BitVec 32)
    (fb : Buf (Elt F) ((bWin1).view.loc (thr d L))) (k : Fin k1_t11_loop.trips) (u : Unit) :
    (RInvV1 d L fb k.val u : sProp 𝕄) ⊢ wp frame (wpE (defs₀ (F := F)) 𝒱₀ (thr d L) none) Set.univ
        (k1_t11_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV1 d L fb (k.val + 1)) := by
  unfold k1_t11_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (1 : Fin 8) k.val hk
    (k1_off78_eq k) (k1_off80_eq k) (k1_off82_eq k) (k1_off84_eq k)
    (k1_off79_eq k) (k1_off81_eq k) (k1_off83_eq k) (k1_off85_eq k)
    (k1_off78_inb k) (k1_off80_inb k) (k1_off82_inb k) (k1_off84_inb k)
    (k1_off79_inb k) (k1_off81_inb k) (k1_off83_inb k) (k1_off85_inb k)
    (k1_pay37 (View.readAt (Elt F) (View.whole (cc1_scratch1 : Ref sig .scVector)) (Rect.unit (s := S8x56x128) (k1_off78 k) S1x1x16.size (k1_off78_inb k)).toLoadRect fb))
    (k1_pay38 (View.readAt (Elt F) (View.whole (cc1_scratch1 : Ref sig .scVector)) (Rect.unit (s := S8x56x128) (k1_off80 k) S1x1x16.size (k1_off80_inb k)).toLoadRect fb))
    (k1_pay39 (View.readAt (Elt F) (View.whole (cc1_scratch1 : Ref sig .scVector)) (Rect.unit (s := S8x56x128) (k1_off82 k) S1x1x16.size (k1_off82_inb k)).toLoadRect fb))
    (k1_pay40 (View.readAt (Elt F) (View.whole (cc1_scratch1 : Ref sig .scVector)) (Rect.unit (s := S8x56x128) (k1_off84 k) S1x1x16.size (k1_off84_inb k)).toLoadRect fb))
    (k1_pay37_eq _) (k1_pay38_eq _) (k1_pay39_eq _) (k1_pay40_eq _) hrep

theorem trips11 : k1_t11_loop.trips = 50 := rfl

/-- After loop `k1_t11` every row of slot 1 is repacked. -/
theorem repackV11_done (fb : Buf (Elt F) ((bWin1).view.loc (thr d L))) (g : Buf (Elt F) ((pWin1).view.loc (thr d L)))
    (h : ∀ (r : Fin 50) (e : Fin 64), r.val < k1_t11_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips11]; exact r.isLt)

set_option maxHeartbeats 1000000 in
theorem repackV12 (v2 : BitVec 32)
    (fb : Buf (Elt F) ((bWin2).view.loc (thr d L))) (k : Fin k1_t12_loop.trips) (u : Unit) :
    (RInvV2 d L fb k.val u : sProp 𝕄) ⊢ wp frame (wpE (defs₀ (F := F)) 𝒱₀ (thr d L) none) Set.univ
        (k1_t12_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV2 d L fb (k.val + 1)) := by
  unfold k1_t12_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (2 : Fin 8) k.val hk
    (k1_off86_eq k) (k1_off88_eq k) (k1_off90_eq k) (k1_off92_eq k)
    (k1_off87_eq k) (k1_off89_eq k) (k1_off91_eq k) (k1_off93_eq k)
    (k1_off86_inb k) (k1_off88_inb k) (k1_off90_inb k) (k1_off92_inb k)
    (k1_off87_inb k) (k1_off89_inb k) (k1_off91_inb k) (k1_off93_inb k)
    (k1_pay41 (View.readAt (Elt F) (View.whole (cc1_scratch1 : Ref sig .scVector)) (Rect.unit (s := S8x56x128) (k1_off86 k) S1x1x16.size (k1_off86_inb k)).toLoadRect fb))
    (k1_pay42 (View.readAt (Elt F) (View.whole (cc1_scratch1 : Ref sig .scVector)) (Rect.unit (s := S8x56x128) (k1_off88 k) S1x1x16.size (k1_off88_inb k)).toLoadRect fb))
    (k1_pay43 (View.readAt (Elt F) (View.whole (cc1_scratch1 : Ref sig .scVector)) (Rect.unit (s := S8x56x128) (k1_off90 k) S1x1x16.size (k1_off90_inb k)).toLoadRect fb))
    (k1_pay44 (View.readAt (Elt F) (View.whole (cc1_scratch1 : Ref sig .scVector)) (Rect.unit (s := S8x56x128) (k1_off92 k) S1x1x16.size (k1_off92_inb k)).toLoadRect fb))
    (k1_pay41_eq _) (k1_pay42_eq _) (k1_pay43_eq _) (k1_pay44_eq _) hrep

theorem trips12 : k1_t12_loop.trips = 50 := rfl

/-- After loop `k1_t12` every row of slot 2 is repacked. -/
theorem repackV12_done (fb : Buf (Elt F) ((bWin2).view.loc (thr d L))) (g : Buf (Elt F) ((pWin2).view.loc (thr d L)))
    (h : ∀ (r : Fin 50) (e : Fin 64), r.val < k1_t12_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips12]; exact r.isLt)

set_option maxHeartbeats 1000000 in
theorem repackV13 (v2 : BitVec 32)
    (fb : Buf (Elt F) ((bWin3).view.loc (thr d L))) (k : Fin k1_t13_loop.trips) (u : Unit) :
    (RInvV3 d L fb k.val u : sProp 𝕄) ⊢ wp frame (wpE (defs₀ (F := F)) 𝒱₀ (thr d L) none) Set.univ
        (k1_t13_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV3 d L fb (k.val + 1)) := by
  unfold k1_t13_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (3 : Fin 8) k.val hk
    (k1_off94_eq k) (k1_off96_eq k) (k1_off98_eq k) (k1_off100_eq k)
    (k1_off95_eq k) (k1_off97_eq k) (k1_off99_eq k) (k1_off101_eq k)
    (k1_off94_inb k) (k1_off96_inb k) (k1_off98_inb k) (k1_off100_inb k)
    (k1_off95_inb k) (k1_off97_inb k) (k1_off99_inb k) (k1_off101_inb k)
    (k1_pay45 (View.readAt (Elt F) (View.whole (cc1_scratch1 : Ref sig .scVector)) (Rect.unit (s := S8x56x128) (k1_off94 k) S1x1x16.size (k1_off94_inb k)).toLoadRect fb))
    (k1_pay46 (View.readAt (Elt F) (View.whole (cc1_scratch1 : Ref sig .scVector)) (Rect.unit (s := S8x56x128) (k1_off96 k) S1x1x16.size (k1_off96_inb k)).toLoadRect fb))
    (k1_pay47 (View.readAt (Elt F) (View.whole (cc1_scratch1 : Ref sig .scVector)) (Rect.unit (s := S8x56x128) (k1_off98 k) S1x1x16.size (k1_off98_inb k)).toLoadRect fb))
    (k1_pay48 (View.readAt (Elt F) (View.whole (cc1_scratch1 : Ref sig .scVector)) (Rect.unit (s := S8x56x128) (k1_off100 k) S1x1x16.size (k1_off100_inb k)).toLoadRect fb))
    (k1_pay45_eq _) (k1_pay46_eq _) (k1_pay47_eq _) (k1_pay48_eq _) hrep

theorem trips13 : k1_t13_loop.trips = 50 := rfl

/-- After loop `k1_t13` every row of slot 3 is repacked. -/
theorem repackV13_done (fb : Buf (Elt F) ((bWin3).view.loc (thr d L))) (g : Buf (Elt F) ((pWin3).view.loc (thr d L)))
    (h : ∀ (r : Fin 50) (e : Fin 64), r.val < k1_t13_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips13]; exact r.isLt)

set_option maxHeartbeats 1000000 in
theorem repackV14 (v2 : BitVec 32)
    (fb : Buf (Elt F) ((bWin4).view.loc (thr d L))) (k : Fin k1_t14_loop.trips) (u : Unit) :
    (RInvV4 d L fb k.val u : sProp 𝕄) ⊢ wp frame (wpE (defs₀ (F := F)) 𝒱₀ (thr d L) none) Set.univ
        (k1_t14_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV4 d L fb (k.val + 1)) := by
  unfold k1_t14_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (4 : Fin 8) k.val hk
    (k1_off102_eq k) (k1_off104_eq k) (k1_off106_eq k) (k1_off108_eq k)
    (k1_off103_eq k) (k1_off105_eq k) (k1_off107_eq k) (k1_off109_eq k)
    (k1_off102_inb k) (k1_off104_inb k) (k1_off106_inb k) (k1_off108_inb k)
    (k1_off103_inb k) (k1_off105_inb k) (k1_off107_inb k) (k1_off109_inb k)
    (k1_pay49 (View.readAt (Elt F) (View.whole (cc1_scratch1 : Ref sig .scVector)) (Rect.unit (s := S8x56x128) (k1_off102 k) S1x1x16.size (k1_off102_inb k)).toLoadRect fb))
    (k1_pay50 (View.readAt (Elt F) (View.whole (cc1_scratch1 : Ref sig .scVector)) (Rect.unit (s := S8x56x128) (k1_off104 k) S1x1x16.size (k1_off104_inb k)).toLoadRect fb))
    (k1_pay51 (View.readAt (Elt F) (View.whole (cc1_scratch1 : Ref sig .scVector)) (Rect.unit (s := S8x56x128) (k1_off106 k) S1x1x16.size (k1_off106_inb k)).toLoadRect fb))
    (k1_pay52 (View.readAt (Elt F) (View.whole (cc1_scratch1 : Ref sig .scVector)) (Rect.unit (s := S8x56x128) (k1_off108 k) S1x1x16.size (k1_off108_inb k)).toLoadRect fb))
    (k1_pay49_eq _) (k1_pay50_eq _) (k1_pay51_eq _) (k1_pay52_eq _) hrep

theorem trips14 : k1_t14_loop.trips = 50 := rfl

/-- After loop `k1_t14` every row of slot 4 is repacked. -/
theorem repackV14_done (fb : Buf (Elt F) ((bWin4).view.loc (thr d L))) (g : Buf (Elt F) ((pWin4).view.loc (thr d L)))
    (h : ∀ (r : Fin 50) (e : Fin 64), r.val < k1_t14_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips14]; exact r.isLt)

set_option maxHeartbeats 1000000 in
theorem repackV15 (v2 : BitVec 32)
    (fb : Buf (Elt F) ((bWin5).view.loc (thr d L))) (k : Fin k1_t15_loop.trips) (u : Unit) :
    (RInvV5 d L fb k.val u : sProp 𝕄) ⊢ wp frame (wpE (defs₀ (F := F)) 𝒱₀ (thr d L) none) Set.univ
        (k1_t15_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV5 d L fb (k.val + 1)) := by
  unfold k1_t15_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (5 : Fin 8) k.val hk
    (k1_off110_eq k) (k1_off112_eq k) (k1_off114_eq k) (k1_off116_eq k)
    (k1_off111_eq k) (k1_off113_eq k) (k1_off115_eq k) (k1_off117_eq k)
    (k1_off110_inb k) (k1_off112_inb k) (k1_off114_inb k) (k1_off116_inb k)
    (k1_off111_inb k) (k1_off113_inb k) (k1_off115_inb k) (k1_off117_inb k)
    (k1_pay53 (View.readAt (Elt F) (View.whole (cc1_scratch1 : Ref sig .scVector)) (Rect.unit (s := S8x56x128) (k1_off110 k) S1x1x16.size (k1_off110_inb k)).toLoadRect fb))
    (k1_pay54 (View.readAt (Elt F) (View.whole (cc1_scratch1 : Ref sig .scVector)) (Rect.unit (s := S8x56x128) (k1_off112 k) S1x1x16.size (k1_off112_inb k)).toLoadRect fb))
    (k1_pay55 (View.readAt (Elt F) (View.whole (cc1_scratch1 : Ref sig .scVector)) (Rect.unit (s := S8x56x128) (k1_off114 k) S1x1x16.size (k1_off114_inb k)).toLoadRect fb))
    (k1_pay56 (View.readAt (Elt F) (View.whole (cc1_scratch1 : Ref sig .scVector)) (Rect.unit (s := S8x56x128) (k1_off116 k) S1x1x16.size (k1_off116_inb k)).toLoadRect fb))
    (k1_pay53_eq _) (k1_pay54_eq _) (k1_pay55_eq _) (k1_pay56_eq _) hrep

theorem trips15 : k1_t15_loop.trips = 50 := rfl

/-- After loop `k1_t15` every row of slot 5 is repacked. -/
theorem repackV15_done (fb : Buf (Elt F) ((bWin5).view.loc (thr d L))) (g : Buf (Elt F) ((pWin5).view.loc (thr d L)))
    (h : ∀ (r : Fin 50) (e : Fin 64), r.val < k1_t15_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips15]; exact r.isLt)

set_option maxHeartbeats 1000000 in
theorem repackV16 (v2 : BitVec 32)
    (fb : Buf (Elt F) ((bWin6).view.loc (thr d L))) (k : Fin k1_t16_loop.trips) (u : Unit) :
    (RInvV6 d L fb k.val u : sProp 𝕄) ⊢ wp frame (wpE (defs₀ (F := F)) 𝒱₀ (thr d L) none) Set.univ
        (k1_t16_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV6 d L fb (k.val + 1)) := by
  unfold k1_t16_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (6 : Fin 8) k.val hk
    (k1_off118_eq k) (k1_off120_eq k) (k1_off122_eq k) (k1_off124_eq k)
    (k1_off119_eq k) (k1_off121_eq k) (k1_off123_eq k) (k1_off125_eq k)
    (k1_off118_inb k) (k1_off120_inb k) (k1_off122_inb k) (k1_off124_inb k)
    (k1_off119_inb k) (k1_off121_inb k) (k1_off123_inb k) (k1_off125_inb k)
    (k1_pay57 (View.readAt (Elt F) (View.whole (cc1_scratch1 : Ref sig .scVector)) (Rect.unit (s := S8x56x128) (k1_off118 k) S1x1x16.size (k1_off118_inb k)).toLoadRect fb))
    (k1_pay58 (View.readAt (Elt F) (View.whole (cc1_scratch1 : Ref sig .scVector)) (Rect.unit (s := S8x56x128) (k1_off120 k) S1x1x16.size (k1_off120_inb k)).toLoadRect fb))
    (k1_pay59 (View.readAt (Elt F) (View.whole (cc1_scratch1 : Ref sig .scVector)) (Rect.unit (s := S8x56x128) (k1_off122 k) S1x1x16.size (k1_off122_inb k)).toLoadRect fb))
    (k1_pay60 (View.readAt (Elt F) (View.whole (cc1_scratch1 : Ref sig .scVector)) (Rect.unit (s := S8x56x128) (k1_off124 k) S1x1x16.size (k1_off124_inb k)).toLoadRect fb))
    (k1_pay57_eq _) (k1_pay58_eq _) (k1_pay59_eq _) (k1_pay60_eq _) hrep

theorem trips16 : k1_t16_loop.trips = 50 := rfl

/-- After loop `k1_t16` every row of slot 6 is repacked. -/
theorem repackV16_done (fb : Buf (Elt F) ((bWin6).view.loc (thr d L))) (g : Buf (Elt F) ((pWin6).view.loc (thr d L)))
    (h : ∀ (r : Fin 50) (e : Fin 64), r.val < k1_t16_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips16]; exact r.isLt)

set_option maxHeartbeats 1000000 in
theorem repackV17 (v2 : BitVec 32)
    (fb : Buf (Elt F) ((bWin7).view.loc (thr d L))) (k : Fin k1_t17_loop.trips) (u : Unit) :
    (RInvV7 d L fb k.val u : sProp 𝕄) ⊢ wp frame (wpE (defs₀ (F := F)) 𝒱₀ (thr d L) none) Set.univ
        (k1_t17_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 k u) (RInvV7 d L fb (k.val + 1)) := by
  unfold k1_t17_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc1_scratch2 : Ref sig .scVector)) (View.whole (cc1_scratch1 : Ref sig .scVector)) gp fb (7 : Fin 8) k.val hk
    (k1_off126_eq k) (k1_off128_eq k) (k1_off130_eq k) (k1_off132_eq k)
    (k1_off127_eq k) (k1_off129_eq k) (k1_off131_eq k) (k1_off133_eq k)
    (k1_off126_inb k) (k1_off128_inb k) (k1_off130_inb k) (k1_off132_inb k)
    (k1_off127_inb k) (k1_off129_inb k) (k1_off131_inb k) (k1_off133_inb k)
    (k1_pay61 (View.readAt (Elt F) (View.whole (cc1_scratch1 : Ref sig .scVector)) (Rect.unit (s := S8x56x128) (k1_off126 k) S1x1x16.size (k1_off126_inb k)).toLoadRect fb))
    (k1_pay62 (View.readAt (Elt F) (View.whole (cc1_scratch1 : Ref sig .scVector)) (Rect.unit (s := S8x56x128) (k1_off128 k) S1x1x16.size (k1_off128_inb k)).toLoadRect fb))
    (k1_pay63 (View.readAt (Elt F) (View.whole (cc1_scratch1 : Ref sig .scVector)) (Rect.unit (s := S8x56x128) (k1_off130 k) S1x1x16.size (k1_off130_inb k)).toLoadRect fb))
    (k1_pay64 (View.readAt (Elt F) (View.whole (cc1_scratch1 : Ref sig .scVector)) (Rect.unit (s := S8x56x128) (k1_off132 k) S1x1x16.size (k1_off132_inb k)).toLoadRect fb))
    (k1_pay61_eq _) (k1_pay62_eq _) (k1_pay63_eq _) (k1_pay64_eq _) hrep

theorem trips17 : k1_t17_loop.trips = 50 := rfl

/-- After loop `k1_t17` every row of slot 7 is repacked. -/
theorem repackV17_done (fb : Buf (Elt F) ((bWin7).view.loc (thr d L))) (g : Buf (Elt F) ((pWin7).view.loc (thr d L)))
    (h : ∀ (r : Fin 50) (e : Fin 64), r.val < k1_t17_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips17]; exact r.isLt)

end RepackV

end Cert.Proof.Tile1

end
-- ==== Proof.TileBodyVQ1.lean ====
/-
  One vector subcore's task of the second gather call, with what it writes.

  The frame's proof, carrying values: a gather in flight into slot `s` over list row `8 i + s` delivers the table rows
  that list row names; the repack keeps their first 64 lanes; the copy out puts them in result row `8 i + s`; so before
  trip `i` the result rows below `8 i` hold what the claim says, and after the last group all 128 do.
-/
import proofs.«204056_g19739669692900_cont_8to1_1488_31_alg».proof.Proof.Gen.KernelIdeal.Skeleton
import proofs.«204056_g19739669692900_cont_8to1_1488_31_alg».proof.Proof.TileValuesQ1
import proofs.«204056_g19739669692900_cont_8to1_1488_31_alg».proof.Proof.TileRepackVQ1
import proofs.«204056_g19739669692900_cont_8to1_1488_31_alg».proof.Proof.TileRepackV2Q1

noncomputable section

namespace Cert.Proof.Tile1

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v4_scv : Memref Cert.KernelIdeal.sig Kind.scVector Space.hbm Cert.KernelIdeal.S4096x50x64 EltTy.f32)
local notation "iW" => (Memref.whole Cert.KernelIdeal.cc1_scratch0 : Memref Cert.KernelIdeal.sig Kind.scVector Space.vmem Cert.KernelIdeal.S128x50 EltTy.i32)
local notation "bW" => (Memref.whole Cert.KernelIdeal.cc1_scratch1 : Memref Cert.KernelIdeal.sig Kind.scVector Space.vmem Cert.KernelIdeal.S8x56x128 EltTy.f32)
local notation "pW" => (Memref.whole Cert.KernelIdeal.cc1_scratch2 : Memref Cert.KernelIdeal.sig Kind.scVector Space.vmem Cert.KernelIdeal.S8x50x64 EltTy.f32)

section ValueRules

variable (d : Dev nD) (L : grid1.Coords)
variable (ft : FVec F S100000x128 .f32) (fi : IVec S128x50 32) (hfi : ∀ y, (fi y).toNat < 100000)
variable [FloatOps F]

/-- List row `8 i + s`, as a row of the index scratch. -/
def jOf (i s : ℕ) : Fin 128 := ⟨(8 * i + s) % 128, Nat.mod_lt _ (by decide)⟩

theorem jOf_val {i s : ℕ} (hi : i ≤ 15) (hs : s < 8) : (jOf i s).val = 8 * i + s := by
  show (8 * i + s) % 128 = 8 * i + s
  omega

/-- A gather in flight on `sem` into slot `s` over list row `j`: as `GFl`, and what it delivers holds the table rows
    that list row names. -/
def GFlV (s : Fin 8) (j : Fin 128) (o : Fin 3 → ℕ) (inbo : ∀ a, o a + S1x50x128.size a ≤ S8x56x128.size a) (sem : DmaSem sig) (qt qi : PosShare TreeShare) : sProp 𝕄 :=
  iprop(∃ (Sw : Finset (Idx ((iW).view.loc (thr d L)))) (fd : Buf (Elt F) ((bWinAt o inbo).view.loc (thr d L))), ⌜WinOK ft fi hfi s j fd⌝ ∗
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
theorem gissueV (s : Fin 8) (j : Fin 128) {o : Fin 3 → ℕ} {inbo : ∀ a, o a + S1x50x128.size a ≤ S8x56x128.size a} (ho : o = ![s.val, 0, 0])
    {off : Fin 2 → ℕ} {inb : ∀ a, off a + S1x50.size a ≤ S128x50.size a} (hoff : off = ![j.val, 0])
    {sem : DmaSem sig} {qt qi : PosShare TreeShare} {fd : Buf (Elt F) ((bWinAt o inbo).view.loc (thr d L))}
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFlV d L ft fi hfi s j o inbo sem qt qi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (ℓ := (tW).view.loc (thr d L)) (q := qt) (f := ft) (S := Finset.univ) (Finset.subset_univ (tAll).view.set)).1 $$ HT
  icases HTs with ⟨HTw, HTr⟩
  ihave HIs := (pointsTo_split_subset (ℓ := (iW).view.loc (thr d L)) (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFlV
  iexists (iRowAt off inb).view.set, _
  isplitr; swap
  · isplitl [Hfl]; · iexact Hfl
    isplitl [HTr]; · iexact HTr
    iexact HIr
  ipureintro; exact win_ok ft fi hfi d L s j o inbo ho off inb hoff fd _ _

set_option maxHeartbeats 1000000 in
theorem gwaitV (s : Fin 8) (j : Fin 128) {o : Fin 3 → ℕ} {inbo : ∀ a, o a + S1x50x128.size a ≤ S8x56x128.size a} {sem : DmaSem sig} {qt qi : PosShare TreeShare}
    {sp sp' : Space} {s₁ s' : Shape} {e e' : EltTy} {κ' : Kind}
    {srcw : Memref sig (thr d L).2.kind sp' s' e'} {dstw : Memref sig κ' sp s₁ e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFlV d L ft fi hfi s j o inbo sem qt qi ∗ owes (thr d L) O W ∗ Transfers.MayWaits (thr d L) (default : HIx 4) O
        ∗ (iprop((∃ fd, ⌜WinOK ft fi hfi s j fd⌝ ∗ (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFlV
  iintro ⟨⟨%Sw, %fd, %hwin, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (ℓ := (tW).view.loc (thr d L)) (q := qt) (f := ft) (S := Finset.univ) (Finset.subset_univ (tAll).view.set)).2 $$ [HTw HTr]; · isplitl [HTw] <;> iassumption
  ihave HI := (pointsTo_split_subset (ℓ := (iW).view.loc (thr d L)) (q := qi) (f := fi) (S := Finset.univ) (Finset.subset_univ Sw)).2 $$ [HIw HIr]; · isplitl [HIw] <;> iassumption
  iapply Hk
  isplitl [HB]
  · iexists fd; isplitr
    · ipureintro; exact hwin
    · iexact HB
  isplitl [HT]; · iexact HT
  isplitl [HI]; · iexact HI
  isplitl [Hsem]; · iexact Hsem
  iexact HO

/-! ## The result rows with what they hold -/

theorem outRowsV_intro (w : Fin 32) (f : Buf (Elt F) (out1Loc d)) :
    (out1Loc d ↦[blkSet1 w]{fullShare} f : sProp 𝕄) ⊢ outRowsV (F := F) (UU := UU) d ft fi hfi w 0 := by
  rw [outBlk_rows]
  unfold outRowsV
  refine bigSep_mono fun j _ => (show (out1Loc d ↦[rowSet w j]{fullShare} f : sProp 𝕄) ⊢ iprop(∃ f, ⌜j.val < 0 → RowOK ft fi hfi w j f⌝ ∗ out1Loc d ↦[rowSet w j]{fullShare} f) from ?_)
  iintro H; iexists f; isplitr
  · ipureintro; intro h; exact absurd h (Nat.not_lt_zero _)
  · iexact H

/-- The rows are the eight from `b` and the others. -/
theorem outRowsV_group (w : Fin 32) (n b : ℕ) (hb : b + 8 ≤ 128) :
    (outRowsV (F := F) (UU := UU) d ft fi hfi w n : sProp 𝕄)
      = iprop(((∃ f, ⌜b + 0 < n → RowOK ft fi hfi w ⟨b + 0, by omega⟩ f⌝ ∗ out1Loc d ↦[rowSet w ⟨b + 0, by omega⟩]{fullShare} f) ∗ (∃ f, ⌜b + 1 < n → RowOK ft fi hfi w ⟨b + 1, by omega⟩ f⌝ ∗ out1Loc d ↦[rowSet w ⟨b + 1, by omega⟩]{fullShare} f) ∗ (∃ f, ⌜b + 2 < n → RowOK ft fi hfi w ⟨b + 2, by omega⟩ f⌝ ∗ out1Loc d ↦[rowSet w ⟨b + 2, by omega⟩]{fullShare} f) ∗ (∃ f, ⌜b + 3 < n → RowOK ft fi hfi w ⟨b + 3, by omega⟩ f⌝ ∗ out1Loc d ↦[rowSet w ⟨b + 3, by omega⟩]{fullShare} f) ∗ (∃ f, ⌜b + 4 < n → RowOK ft fi hfi w ⟨b + 4, by omega⟩ f⌝ ∗ out1Loc d ↦[rowSet w ⟨b + 4, by omega⟩]{fullShare} f) ∗ (∃ f, ⌜b + 5 < n → RowOK ft fi hfi w ⟨b + 5, by omega⟩ f⌝ ∗ out1Loc d ↦[rowSet w ⟨b + 5, by omega⟩]{fullShare} f) ∗ (∃ f, ⌜b + 6 < n → RowOK ft fi hfi w ⟨b + 6, by omega⟩ f⌝ ∗ out1Loc d ↦[rowSet w ⟨b + 6, by omega⟩]{fullShare} f) ∗ (∃ f, ⌜b + 7 < n → RowOK ft fi hfi w ⟨b + 7, by omega⟩ f⌝ ∗ out1Loc d ↦[rowSet w ⟨b + 7, by omega⟩]{fullShare} f))
          ∗ bigSep (Finset.univ \ Finset.univ.map (grpEmb b hb)) fun j : Fin 128 => iprop(∃ f, ⌜j.val < n → RowOK ft fi hfi w j f⌝ ∗ out1Loc d ↦[rowSet w j]{fullShare} f)) := by
  unfold outRowsV
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- Outside the group from `n`, a row below `n + 8` is below `n`. -/
theorem outRowsV_rest (w : Fin 32) (n : ℕ) (hb : n + 8 ≤ 128) :
    (bigSep (Finset.univ \ Finset.univ.map (grpEmb n hb)) fun j : Fin 128 => (iprop(∃ f, ⌜j.val < n → RowOK ft fi hfi w j f⌝ ∗ out1Loc d ↦[rowSet w j]{fullShare} f) : sProp 𝕄))
      ⊢ bigSep (Finset.univ \ Finset.univ.map (grpEmb n hb)) fun j : Fin 128 => iprop(∃ f, ⌜j.val < n + 8 → RowOK ft fi hfi w j f⌝ ∗ out1Loc d ↦[rowSet w j]{fullShare} f) := by
  refine bigSep_mono fun j hj => (show (iprop(∃ f, ⌜j.val < n → RowOK ft fi hfi w j f⌝ ∗ out1Loc d ↦[rowSet w j]{fullShare} f) : sProp 𝕄)
      ⊢ iprop(∃ f, ⌜j.val < n + 8 → RowOK ft fi hfi w j f⌝ ∗ out1Loc d ↦[rowSet w j]{fullShare} f) from ?_)
  have hnot : j ∉ Finset.univ.map (grpEmb n hb) := (Finset.mem_sdiff.mp hj).2
  have hlt : j.val < n + 8 → j.val < n := by
    intro h
    by_contra hge
    exact hnot (Finset.mem_map.mpr ⟨⟨j.val - n, by omega⟩, Finset.mem_univ _, Fin.ext (by show n + (j.val - n) = j.val; omega)⟩)
  iintro ⟨%f, %hf, H⟩
  iexists f; isplitr
  · ipureintro; exact fun h => hf (hlt h)
  · iexact H

end ValueRules

section BodyV

variable (m : (ℓ : Loc nD τ sig) → Buf (Elt F) ℓ) (d : Dev nD) (L : grid1.Coords)
variable (ft : FVec F S100000x128 .f32) (fi : IVec S128x50 32) (hfi : ∀ y, (fi y).toNat < 100000)

theorem hoff68_0 (kt : Fin k1_t1_loop.trips) (hk : kt.val < 15) : k1_off68 kt 0#32 = ![(jOf (kt.val + 1) 0).val, 0] :=
  (k1_off68_eq kt (0 : Fin 8)).trans (congrArg (fun x : ℕ => (![x, 0] : Fin 2 → ℕ))
    (by show 8 * kt.val + 0 + 8 = (8 * (kt.val + 1) + 0) % 128; omega))
theorem hoff68_1 (kt : Fin k1_t1_loop.trips) (hk : kt.val < 15) : k1_off68 kt 1#32 = ![(jOf (kt.val + 1) 1).val, 0] :=
  (k1_off68_eq kt (1 : Fin 8)).trans (congrArg (fun x : ℕ => (![x, 0] : Fin 2 → ℕ))
    (by show 8 * kt.val + 1 + 8 = (8 * (kt.val + 1) + 1) % 128; omega))
theorem hoff68_2 (kt : Fin k1_t1_loop.trips) (hk : kt.val < 15) : k1_off68 kt 2#32 = ![(jOf (kt.val + 1) 2).val, 0] :=
  (k1_off68_eq kt (2 : Fin 8)).trans (congrArg (fun x : ℕ => (![x, 0] : Fin 2 → ℕ))
    (by show 8 * kt.val + 2 + 8 = (8 * (kt.val + 1) + 2) % 128; omega))
theorem hoff68_3 (kt : Fin k1_t1_loop.trips) (hk : kt.val < 15) : k1_off68 kt 3#32 = ![(jOf (kt.val + 1) 3).val, 0] :=
  (k1_off68_eq kt (3 : Fin 8)).trans (congrArg (fun x : ℕ => (![x, 0] : Fin 2 → ℕ))
    (by show 8 * kt.val + 3 + 8 = (8 * (kt.val + 1) + 3) % 128; omega))
theorem hoff68_4 (kt : Fin k1_t1_loop.trips) (hk : kt.val < 15) : k1_off68 kt 4#32 = ![(jOf (kt.val + 1) 4).val, 0] :=
  (k1_off68_eq kt (4 : Fin 8)).trans (congrArg (fun x : ℕ => (![x, 0] : Fin 2 → ℕ))
    (by show 8 * kt.val + 4 + 8 = (8 * (kt.val + 1) + 4) % 128; omega))
theorem hoff68_5 (kt : Fin k1_t1_loop.trips) (hk : kt.val < 15) : k1_off68 kt 5#32 = ![(jOf (kt.val + 1) 5).val, 0] :=
  (k1_off68_eq kt (5 : Fin 8)).trans (congrArg (fun x : ℕ => (![x, 0] : Fin 2 → ℕ))
    (by show 8 * kt.val + 5 + 8 = (8 * (kt.val + 1) + 5) % 128; omega))
theorem hoff68_6 (kt : Fin k1_t1_loop.trips) (hk : kt.val < 15) : k1_off68 kt 6#32 = ![(jOf (kt.val + 1) 6).val, 0] :=
  (k1_off68_eq kt (6 : Fin 8)).trans (congrArg (fun x : ℕ => (![x, 0] : Fin 2 → ℕ))
    (by show 8 * kt.val + 6 + 8 = (8 * (kt.val + 1) + 6) % 128; omega))
theorem hoff68_7 (kt : Fin k1_t1_loop.trips) (hk : kt.val < 15) : k1_off68 kt 7#32 = ![(jOf (kt.val + 1) 7).val, 0] :=
  (k1_off68_eq kt (7 : Fin 8)).trans (congrArg (fun x : ℕ => (![x, 0] : Fin 2 → ℕ))
    (by show 8 * kt.val + 7 + 8 = (8 * (kt.val + 1) + 7) % 128; omega))

theorem jOf15_0 : jOf k1_t1_loop.trips 0 = (⟨120 + 0, by omega⟩ : Fin 128) := Fin.ext (by decide)
theorem jOf15_1 : jOf k1_t1_loop.trips 1 = (⟨120 + 1, by omega⟩ : Fin 128) := Fin.ext (by decide)
theorem jOf15_2 : jOf k1_t1_loop.trips 2 = (⟨120 + 2, by omega⟩ : Fin 128) := Fin.ext (by decide)
theorem jOf15_3 : jOf k1_t1_loop.trips 3 = (⟨120 + 3, by omega⟩ : Fin 128) := Fin.ext (by decide)
theorem jOf15_4 : jOf k1_t1_loop.trips 4 = (⟨120 + 4, by omega⟩ : Fin 128) := Fin.ext (by decide)
theorem jOf15_5 : jOf k1_t1_loop.trips 5 = (⟨120 + 5, by omega⟩ : Fin 128) := Fin.ext (by decide)
theorem jOf15_6 : jOf k1_t1_loop.trips 6 = (⟨120 + 6, by omega⟩ : Fin 128) := Fin.ext (by decide)
theorem jOf15_7 : jOf k1_t1_loop.trips 7 = (⟨120 + 7, by omega⟩ : Fin 128) := Fin.ext (by decide)

variable [FloatOps F]

/-- Before each trip `i`, and after the last: as in the frame's invariant, and each slot's gather in flight is the one over
    list row `8 i + s`, and the result rows below `8 i` hold what they should. -/
def INVV (O : CellTallies nD τ sig (HIx 4)) (W : Waits sig (HIx 4)) (i : ℕ) (_ : Unit) : sProp 𝕄 :=
  iprop(Transfers.MayWaits (thr d L) (default : HIx 4) O
    ∗ (GFlV d L ft fi hfi (0 : Fin 8) (jOf i 0) ![0, 0, 0] inb_S8x56x128_S1x50x128_0_0_0 cc1_scratch3.sem (sh32 (widL L)).left.left.left fullShare.left.left.left
      ∗ GFlV d L ft fi hfi (1 : Fin 8) (jOf i 1) ![1, 0, 0] inb_S8x56x128_S1x50x128_1_0_0 cc1_scratch4.sem (sh32 (widL L)).left.left.right fullShare.left.left.right
      ∗ GFlV d L ft fi hfi (2 : Fin 8) (jOf i 2) ![2, 0, 0] inb_S8x56x128_S1x50x128_2_0_0 cc1_scratch5.sem (sh32 (widL L)).left.right.left fullShare.left.right.left
      ∗ GFlV d L ft fi hfi (3 : Fin 8) (jOf i 3) ![3, 0, 0] inb_S8x56x128_S1x50x128_3_0_0 cc1_scratch6.sem (sh32 (widL L)).left.right.right fullShare.left.right.right
      ∗ GFlV d L ft fi hfi (4 : Fin 8) (jOf i 4) ![4, 0, 0] inb_S8x56x128_S1x50x128_4_0_0 cc1_scratch7.sem (sh32 (widL L)).right.left.left fullShare.right.left.left
      ∗ GFlV d L ft fi hfi (5 : Fin 8) (jOf i 5) ![5, 0, 0] inb_S8x56x128_S1x50x128_5_0_0 cc1_scratch8.sem (sh32 (widL L)).right.left.right fullShare.right.left.right
      ∗ GFlV d L ft fi hfi (6 : Fin 8) (jOf i 6) ![6, 0, 0] inb_S8x56x128_S1x50x128_6_0_0 cc1_scratch9.sem (sh32 (widL L)).right.right.left fullShare.right.right.left
      ∗ GFlV d L ft fi hfi (7 : Fin 8) (jOf i 7) ![7, 0, 0] inb_S8x56x128_S1x50x128_7_0_0 cc1_scratch10.sem (sh32 (widL L)).right.right.right fullShare.right.right.right)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc1_scratch11.sem) 0 ∗ semVal (thr d L, SemLoc.dma cc1_scratch12.sem) 0 ∗ semVal (thr d L, SemLoc.dma cc1_scratch13.sem) 0 ∗ semVal (thr d L, SemLoc.dma cc1_scratch14.sem) 0 ∗ semVal (thr d L, SemLoc.dma cc1_scratch15.sem) 0 ∗ semVal (thr d L, SemLoc.dma cc1_scratch16.sem) 0 ∗ semVal (thr d L, SemLoc.dma cc1_scratch17.sem) 0 ∗ semVal (thr d L, SemLoc.dma cc1_scratch18.sem) 0)
    ∗ outRowsV (F := F) (UU := UU) d ft fi hfi (widL L) (8 * i)
    ∗ ∃ W', ⌜∀ p ∈ W', p ∈ W ∨ p.2 = none⌝ ∗ owes (thr d L) O W')

set_option maxHeartbeats 8000000 in
theorem tripV (O : CellTallies nD τ sig (HIx 4)) (W : Waits sig (HIx 4)) (v2 : BitVec 32) (kt : Fin k1_t1_loop.trips) (u : Unit) :
    (INVV d L ft fi hfi O W kt.val u : sProp 𝕄) ⊢ wp frame (wpE (defs₀ (F := F)) 𝒱₀ (thr d L) none) Set.univ
        (k1_t1_body L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0 v2 kt u) (INVV d L ft fi hfi O W (kt.val + 1)) := by
  unfold INVV k1_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  have ej0 : jOf kt.val 0 = (⟨8 * kt.val + 0, by omega⟩ : Fin 128) := Fin.ext (jOf_val (by omega) (by decide))
  have ej1 : jOf kt.val 1 = (⟨8 * kt.val + 1, by omega⟩ : Fin 128) := Fin.ext (jOf_val (by omega) (by decide))
  have ej2 : jOf kt.val 2 = (⟨8 * kt.val + 2, by omega⟩ : Fin 128) := Fin.ext (jOf_val (by omega) (by decide))
  have ej3 : jOf kt.val 3 = (⟨8 * kt.val + 3, by omega⟩ : Fin 128) := Fin.ext (jOf_val (by omega) (by decide))
  have ej4 : jOf kt.val 4 = (⟨8 * kt.val + 4, by omega⟩ : Fin 128) := Fin.ext (jOf_val (by omega) (by decide))
  have ej5 : jOf kt.val 5 = (⟨8 * kt.val + 5, by omega⟩ : Fin 128) := Fin.ext (jOf_val (by omega) (by decide))
  have ej6 : jOf kt.val 6 = (⟨8 * kt.val + 6, by omega⟩ : Fin 128) := Fin.ext (jOf_val (by omega) (by decide))
  have ej7 : jOf kt.val 7 = (⟨8 * kt.val + 7, by omega⟩ : Fin 128) := Fin.ext (jOf_val (by omega) (by decide))
  ihave HR' := (Entails.of_eq (outRowsV_group (F := F) (UU := UU) d ft fi hfi (widL L) (8 * kt.val) (8 * kt.val) (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwaitV d L ft fi hfi (0 : Fin 8) (jOf kt.val 0) (o := ![0, 0, 0]) (inbo := inb_S8x56x128_S1x50x128_0_0_0) (sem := cc1_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV2; all_goals first | exact kt | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft fi hfi (0 : Fin 8) (jOf kt.val 0) gp0' := fun l e => (hrep0 l e l.isLt).trans (hwin0 l (Fin.castLE (by decide) e))
  sl_exec
  iapply (gwaitV d L ft fi hfi (1 : Fin 8) (jOf kt.val 1) (o := ![1, 0, 0]) (inbo := inb_S8x56x128_S1x50x128_1_0_0) (sem := cc1_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV3; all_goals first | exact kt | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft fi hfi (1 : Fin 8) (jOf kt.val 1) gp1' := fun l e => (hrep1 l e l.isLt).trans (hwin1 l (Fin.castLE (by decide) e))
  sl_exec
  iapply (gwaitV d L ft fi hfi (2 : Fin 8) (jOf kt.val 2) (o := ![2, 0, 0]) (inbo := inb_S8x56x128_S1x50x128_2_0_0) (sem := cc1_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV4; all_goals first | exact kt | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft fi hfi (2 : Fin 8) (jOf kt.val 2) gp2' := fun l e => (hrep2 l e l.isLt).trans (hwin2 l (Fin.castLE (by decide) e))
  sl_exec
  iapply (gwaitV d L ft fi hfi (3 : Fin 8) (jOf kt.val 3) (o := ![3, 0, 0]) (inbo := inb_S8x56x128_S1x50x128_3_0_0) (sem := cc1_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV5; all_goals first | exact kt | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft fi hfi (3 : Fin 8) (jOf kt.val 3) gp3' := fun l e => (hrep3 l e l.isLt).trans (hwin3 l (Fin.castLE (by decide) e))
  sl_exec
  iapply (gwaitV d L ft fi hfi (4 : Fin 8) (jOf kt.val 4) (o := ![4, 0, 0]) (inbo := inb_S8x56x128_S1x50x128_4_0_0) (sem := cc1_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV6; all_goals first | exact kt | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft fi hfi (4 : Fin 8) (jOf kt.val 4) gp4' := fun l e => (hrep4 l e l.isLt).trans (hwin4 l (Fin.castLE (by decide) e))
  sl_exec
  iapply (gwaitV d L ft fi hfi (5 : Fin 8) (jOf kt.val 5) (o := ![5, 0, 0]) (inbo := inb_S8x56x128_S1x50x128_5_0_0) (sem := cc1_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV7; all_goals first | exact kt | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft fi hfi (5 : Fin 8) (jOf kt.val 5) gp5' := fun l e => (hrep5 l e l.isLt).trans (hwin5 l (Fin.castLE (by decide) e))
  sl_exec
  iapply (gwaitV d L ft fi hfi (6 : Fin 8) (jOf kt.val 6) (o := ![6, 0, 0]) (inbo := inb_S8x56x128_S1x50x128_6_0_0) (sem := cc1_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV8; all_goals first | exact kt | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft fi hfi (6 : Fin 8) (jOf kt.val 6) gp6' := fun l e => (hrep6 l e l.isLt).trans (hwin6 l (Fin.castLE (by decide) e))
  sl_exec
  iapply (gwaitV d L ft fi hfi (7 : Fin 8) (jOf kt.val 7) (o := ![7, 0, 0]) (inbo := inb_S8x56x128_S1x50x128_7_0_0) (sem := cc1_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV9; all_goals first | exact kt | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft fi hfi (7 : Fin 8) (jOf kt.val 7) gp7' := fun l e => (hrep7 l e l.isLt).trans (hwin7 l (Fin.castLE (by decide) e))
  sl_exec
  iapply (gissueV d L ft fi hfi (0 : Fin 8) (jOf (kt.val + 1) 0) (o := ![0, 0, 0]) (inbo := inb_S8x56x128_S1x50x128_0_0_0) rfl (off := k1_off68 kt 0#32) (inb := k1_off68_inb kt 0) (hoff68_0 kt hk) (sem := cc1_scratch3.sem))
  isplitl [HT0]; · iexact HT0
  isplitl [HB0]; · iexact HB0
  isplitl [HI0]; · iexact HI0
  isplitl [HsG0]; · iexact HsG0
  iintro HG0
  sl_exec
  iapply (gissueV d L ft fi hfi (1 : Fin 8) (jOf (kt.val + 1) 1) (o := ![1, 0, 0]) (inbo := inb_S8x56x128_S1x50x128_1_0_0) rfl (off := k1_off68 kt 1#32) (inb := k1_off68_inb kt 1) (hoff68_1 kt hk) (sem := cc1_scratch4.sem))
  isplitl [HT1]; · iexact HT1
  isplitl [HB1]; · iexact HB1
  isplitl [HI1]; · iexact HI1
  isplitl [HsG1]; · iexact HsG1
  iintro HG1
  sl_exec
  iapply (gissueV d L ft fi hfi (2 : Fin 8) (jOf (kt.val + 1) 2) (o := ![2, 0, 0]) (inbo := inb_S8x56x128_S1x50x128_2_0_0) rfl (off := k1_off68 kt 2#32) (inb := k1_off68_inb kt 2) (hoff68_2 kt hk) (sem := cc1_scratch5.sem))
  isplitl [HT2]; · iexact HT2
  isplitl [HB2]; · iexact HB2
  isplitl [HI2]; · iexact HI2
  isplitl [HsG2]; · iexact HsG2
  iintro HG2
  sl_exec
  iapply (gissueV d L ft fi hfi (3 : Fin 8) (jOf (kt.val + 1) 3) (o := ![3, 0, 0]) (inbo := inb_S8x56x128_S1x50x128_3_0_0) rfl (off := k1_off68 kt 3#32) (inb := k1_off68_inb kt 3) (hoff68_3 kt hk) (sem := cc1_scratch6.sem))
  isplitl [HT3]; · iexact HT3
  isplitl [HB3]; · iexact HB3
  isplitl [HI3]; · iexact HI3
  isplitl [HsG3]; · iexact HsG3
  iintro HG3
  sl_exec
  iapply (gissueV d L ft fi hfi (4 : Fin 8) (jOf (kt.val + 1) 4) (o := ![4, 0, 0]) (inbo := inb_S8x56x128_S1x50x128_4_0_0) rfl (off := k1_off68 kt 4#32) (inb := k1_off68_inb kt 4) (hoff68_4 kt hk) (sem := cc1_scratch7.sem))
  isplitl [HT4]; · iexact HT4
  isplitl [HB4]; · iexact HB4
  isplitl [HI4]; · iexact HI4
  isplitl [HsG4]; · iexact HsG4
  iintro HG4
  sl_exec
  iapply (gissueV d L ft fi hfi (5 : Fin 8) (jOf (kt.val + 1) 5) (o := ![5, 0, 0]) (inbo := inb_S8x56x128_S1x50x128_5_0_0) rfl (off := k1_off68 kt 5#32) (inb := k1_off68_inb kt 5) (hoff68_5 kt hk) (sem := cc1_scratch8.sem))
  isplitl [HT5]; · iexact HT5
  isplitl [HB5]; · iexact HB5
  isplitl [HI5]; · iexact HI5
  isplitl [HsG5]; · iexact HsG5
  iintro HG5
  sl_exec
  iapply (gissueV d L ft fi hfi (6 : Fin 8) (jOf (kt.val + 1) 6) (o := ![6, 0, 0]) (inbo := inb_S8x56x128_S1x50x128_6_0_0) rfl (off := k1_off68 kt 6#32) (inb := k1_off68_inb kt 6) (hoff68_6 kt hk) (sem := cc1_scratch9.sem))
  isplitl [HT6]; · iexact HT6
  isplitl [HB6]; · iexact HB6
  isplitl [HI6]; · iexact HI6
  isplitl [HsG6]; · iexact HsG6
  iintro HG6
  sl_exec
  iapply (gissueV d L ft fi hfi (7 : Fin 8) (jOf (kt.val + 1) 7) (o := ![7, 0, 0]) (inbo := inb_S8x56x128_S1x50x128_7_0_0) rfl (off := k1_off68 kt 7#32) (inb := k1_off68_inb kt 7) (hoff68_7 kt hk) (sem := cc1_scratch10.sem))
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HRr' := (outRowsV_rest (F := F) (UU := UU) d ft fi hfi (widL L) (8 * kt.val) _) $$ HRr
  ihave HR := (Entails.of_eq (outRowsV_group (F := F) (UU := UU) d ft fi hfi (widL L) (8 * kt.val + 8) (8 * kt.val) (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft fi hfi d L (widL L) (0 : Fin 8) ⟨8 * kt.val + 0, by omega⟩ ![0, 0, 0] inb_S8x50x64_S1x50x64_0_0_0 rfl _ (k1_off11_inb L kt 0) (off11_eq0 L kt) _ _ _ rfl (ej0 ▸ hslot0)
      isplitl [Ho1]
      · iexists _; isplitr; swap; · iexact Ho1
        ipureintro; intro _; exact row_ok ft fi hfi d L (widL L) (1 : Fin 8) ⟨8 * kt.val + 1, by omega⟩ ![1, 0, 0] inb_S8x50x64_S1x50x64_1_0_0 rfl _ (k1_off11_inb L kt 1) (off11_eq1 L kt) _ _ _ rfl (ej1 ▸ hslot1)
      isplitl [Ho2]
      · iexists _; isplitr; swap; · iexact Ho2
        ipureintro; intro _; exact row_ok ft fi hfi d L (widL L) (2 : Fin 8) ⟨8 * kt.val + 2, by omega⟩ ![2, 0, 0] inb_S8x50x64_S1x50x64_2_0_0 rfl _ (k1_off11_inb L kt 2) (off11_eq2 L kt) _ _ _ rfl (ej2 ▸ hslot2)
      isplitl [Ho3]
      · iexists _; isplitr; swap; · iexact Ho3
        ipureintro; intro _; exact row_ok ft fi hfi d L (widL L) (3 : Fin 8) ⟨8 * kt.val + 3, by omega⟩ ![3, 0, 0] inb_S8x50x64_S1x50x64_3_0_0 rfl _ (k1_off11_inb L kt 3) (off11_eq3 L kt) _ _ _ rfl (ej3 ▸ hslot3)
      isplitl [Ho4]
      · iexists _; isplitr; swap; · iexact Ho4
        ipureintro; intro _; exact row_ok ft fi hfi d L (widL L) (4 : Fin 8) ⟨8 * kt.val + 4, by omega⟩ ![4, 0, 0] inb_S8x50x64_S1x50x64_4_0_0 rfl _ (k1_off11_inb L kt 4) (off11_eq4 L kt) _ _ _ rfl (ej4 ▸ hslot4)
      isplitl [Ho5]
      · iexists _; isplitr; swap; · iexact Ho5
        ipureintro; intro _; exact row_ok ft fi hfi d L (widL L) (5 : Fin 8) ⟨8 * kt.val + 5, by omega⟩ ![5, 0, 0] inb_S8x50x64_S1x50x64_5_0_0 rfl _ (k1_off11_inb L kt 5) (off11_eq5 L kt) _ _ _ rfl (ej5 ▸ hslot5)
      isplitl [Ho6]
      · iexists _; isplitr; swap; · iexact Ho6
        ipureintro; intro _; exact row_ok ft fi hfi d L (widL L) (6 : Fin 8) ⟨8 * kt.val + 6, by omega⟩ ![6, 0, 0] inb_S8x50x64_S1x50x64_6_0_0 rfl _ (k1_off11_inb L kt 6) (off11_eq6 L kt) _ _ _ rfl (ej6 ▸ hslot6)
      iexists _; isplitr; swap; · iexact Ho7
      ipureintro; intro _; exact row_ok ft fi hfi d L (widL L) (7 : Fin 8) ⟨8 * kt.val + 7, by omega⟩ ![7, 0, 0] inb_S8x50x64_S1x50x64_7_0_0 rfl _ (k1_off11_inb L kt 7) (off11_eq7 L kt) _ _ _ rfl (ej7 ▸ hslot7)
    · iexact HRr'
  rw [show 8 * (kt.val + 1) = 8 * kt.val + 8 by omega]
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the second gather call, with what it writes: its block of the result ends holding the padded
    table's rows that its 128 index rows name. -/
theorem tile_body1V (hF : (K (F := F)).Facts) (hcats : ∀ j, (m (catsLoc d) j).toNat < 100000)
    (ft : Buf (Elt F) (tpadLoc d)) (f0 : Buf (Elt F) (out1Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk1 d (widL L) f0)
        ∗ scopedBufs (thr d L) ∗ scopedSems0 (thr d L) ∗ owes (thr d L) O W)
      ⊢ (wp frame (wpE (defs₀ (F := F)) 𝒱₀ (thr d L) none) Set.univ
          (cc1_gk L tW (Memref.isWhole_whole _) cW (Memref.isWhole_whole _) oW (Memref.isWhole_whole _) iW (Memref.isWhole_whole _) bW (Memref.isWhole_whole _) pW (Memref.isWhole_whole _) cc1_scratch3 cc1_scratch4 cc1_scratch5 cc1_scratch6 cc1_scratch7 cc1_scratch8 cc1_scratch9 cc1_scratch10 cc1_scratch11 cc1_scratch12 cc1_scratch13 cc1_scratch14 cc1_scratch15 cc1_scratch16 cc1_scratch17 cc1_scratch18 cc1_scoped0)
          fun _ => iprop((catsSh m d (widL L) ∗ tpadSh d (widL L) ft
              ∗ ∃ f, ⌜GatherBlk (F := F) 1 (widL L) (m (catsLoc d)) ft f⌝ ∗ outBlk1 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc1_gk_eq_skeleton]; unfold cc1_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  sl_exec
  have hfi := idx_range m d L hcats fi0 (tile_body1V.sl.dma0 m d L) rfl
  have hfie := fun (j : Fin 128) (l : Fin 50) => fi_eq m d L fi0 (tile_body1V.sl.dma0 m d L) rfl j l
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body1V.sl.dma0 m d L) Finset.univ) fullShare)) $$ Hi'
  icases Hi8 with ⟨⟨⟨HI0, HI1⟩, ⟨HI2, HI3⟩⟩, ⟨⟨HI4, HI5⟩, ⟨HI6, HI7⟩⟩⟩
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  ihave HR := (outRowsV_intro (F := F) (UU := UU) d ft (View.write (Elt F) (iW).view fi0 (tile_body1V.sl.dma0 m d L) Finset.univ) hfi (widL L) f0) $$ Ho
  iapply (gissueV d L ft (View.write (Elt F) (iW).view fi0 (tile_body1V.sl.dma0 m d L) Finset.univ) hfi (0 : Fin 8) (jOf 0 0) (o := ![0, 0, 0]) (inbo := inb_S8x56x128_S1x50x128_0_0_0) rfl (off := ![0, 0]) (inb := inb_S128x50_S1x50_0_0) rfl (sem := cc1_scratch3.sem))
  isplitl [HT0]; · iexact HT0
  isplitl [HB0]; · iexact HB0
  isplitl [HI0]; · iexact HI0
  isplitl [HsG0]; · iexact HsG0
  iintro HG0
  sl_exec
  iapply (gissueV d L ft (View.write (Elt F) (iW).view fi0 (tile_body1V.sl.dma0 m d L) Finset.univ) hfi (1 : Fin 8) (jOf 0 1) (o := ![1, 0, 0]) (inbo := inb_S8x56x128_S1x50x128_1_0_0) rfl (off := ![1, 0]) (inb := inb_S128x50_S1x50_1_0) rfl (sem := cc1_scratch4.sem))
  isplitl [HT1]; · iexact HT1
  isplitl [HB1]; · iexact HB1
  isplitl [HI1]; · iexact HI1
  isplitl [HsG1]; · iexact HsG1
  iintro HG1
  sl_exec
  iapply (gissueV d L ft (View.write (Elt F) (iW).view fi0 (tile_body1V.sl.dma0 m d L) Finset.univ) hfi (2 : Fin 8) (jOf 0 2) (o := ![2, 0, 0]) (inbo := inb_S8x56x128_S1x50x128_2_0_0) rfl (off := ![2, 0]) (inb := inb_S128x50_S1x50_2_0) rfl (sem := cc1_scratch5.sem))
  isplitl [HT2]; · iexact HT2
  isplitl [HB2]; · iexact HB2
  isplitl [HI2]; · iexact HI2
  isplitl [HsG2]; · iexact HsG2
  iintro HG2
  sl_exec
  iapply (gissueV d L ft (View.write (Elt F) (iW).view fi0 (tile_body1V.sl.dma0 m d L) Finset.univ) hfi (3 : Fin 8) (jOf 0 3) (o := ![3, 0, 0]) (inbo := inb_S8x56x128_S1x50x128_3_0_0) rfl (off := ![3, 0]) (inb := inb_S128x50_S1x50_3_0) rfl (sem := cc1_scratch6.sem))
  isplitl [HT3]; · iexact HT3
  isplitl [HB3]; · iexact HB3
  isplitl [HI3]; · iexact HI3
  isplitl [HsG3]; · iexact HsG3
  iintro HG3
  sl_exec
  iapply (gissueV d L ft (View.write (Elt F) (iW).view fi0 (tile_body1V.sl.dma0 m d L) Finset.univ) hfi (4 : Fin 8) (jOf 0 4) (o := ![4, 0, 0]) (inbo := inb_S8x56x128_S1x50x128_4_0_0) rfl (off := ![4, 0]) (inb := inb_S128x50_S1x50_4_0) rfl (sem := cc1_scratch7.sem))
  isplitl [HT4]; · iexact HT4
  isplitl [HB4]; · iexact HB4
  isplitl [HI4]; · iexact HI4
  isplitl [HsG4]; · iexact HsG4
  iintro HG4
  sl_exec
  iapply (gissueV d L ft (View.write (Elt F) (iW).view fi0 (tile_body1V.sl.dma0 m d L) Finset.univ) hfi (5 : Fin 8) (jOf 0 5) (o := ![5, 0, 0]) (inbo := inb_S8x56x128_S1x50x128_5_0_0) rfl (off := ![5, 0]) (inb := inb_S128x50_S1x50_5_0) rfl (sem := cc1_scratch8.sem))
  isplitl [HT5]; · iexact HT5
  isplitl [HB5]; · iexact HB5
  isplitl [HI5]; · iexact HI5
  isplitl [HsG5]; · iexact HsG5
  iintro HG5
  sl_exec
  iapply (gissueV d L ft (View.write (Elt F) (iW).view fi0 (tile_body1V.sl.dma0 m d L) Finset.univ) hfi (6 : Fin 8) (jOf 0 6) (o := ![6, 0, 0]) (inbo := inb_S8x56x128_S1x50x128_6_0_0) rfl (off := ![6, 0]) (inb := inb_S128x50_S1x50_6_0) rfl (sem := cc1_scratch9.sem))
  isplitl [HT6]; · iexact HT6
  isplitl [HB6]; · iexact HB6
  isplitl [HI6]; · iexact HI6
  isplitl [HsG6]; · iexact HsG6
  iintro HG6
  sl_exec
  iapply (gissueV d L ft (View.write (Elt F) (iW).view fi0 (tile_body1V.sl.dma0 m d L) Finset.univ) hfi (7 : Fin 8) (jOf 0 7) (o := ![7, 0, 0]) (inbo := inb_S8x56x128_S1x50x128_7_0_0) rfl (off := ![7, 0]) (inb := inb_S128x50_S1x50_7_0) rfl (sem := cc1_scratch10.sem))
  isplitl [HT7]; · iexact HT7
  isplitl [HB7]; · iexact HB7
  isplitl [HI7]; · iexact HI7
  isplitl [HsG7]; · iexact HsG7
  iintro HG7
  sl_exec
  sl_for (INVV (F := F) (UU := UU) d L ft (View.write (Elt F) (iW).view fi0 (tile_body1V.sl.dma0 m d L) Finset.univ) hfi O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact tripV d L ft _ hfi O W _ k u
  · unfold INVV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INVV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  ihave HR := (Entails.of_eq (congrArg (fun n => (outRowsV (F := F) (UU := UU) d ft (View.write (Elt F) (iW).view fi0 (tile_body1V.sl.dma0 m d L) Finset.univ) hfi (widL L) n : sProp 𝕄)) (show 8 * k1_t1_loop.trips = 120 from rfl))) $$ HR
  ihave HR' := (Entails.of_eq (outRowsV_group (F := F) (UU := UU) d ft (View.write (Elt F) (iW).view fi0 (tile_body1V.sl.dma0 m d L) Finset.univ) hfi (widL L) 120 120 (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwaitV d L ft (View.write (Elt F) (iW).view fi0 (tile_body1V.sl.dma0 m d L) Finset.univ) hfi (0 : Fin 8) (jOf k1_t1_loop.trips 0) (o := ![0, 0, 0]) (inbo := inb_S8x56x128_S1x50x128_0_0_0) (sem := cc1_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV10; all_goals first | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft (View.write (Elt F) (iW).view fi0 (tile_body1V.sl.dma0 m d L) Finset.univ) hfi (0 : Fin 8) (jOf k1_t1_loop.trips 0) gp0' := fun l e => (hrep0 l e l.isLt).trans (hwin0 l (Fin.castLE (by decide) e))
  sl_exec
  iapply (gwaitV d L ft (View.write (Elt F) (iW).view fi0 (tile_body1V.sl.dma0 m d L) Finset.univ) hfi (1 : Fin 8) (jOf k1_t1_loop.trips 1) (o := ![1, 0, 0]) (inbo := inb_S8x56x128_S1x50x128_1_0_0) (sem := cc1_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV11; all_goals first | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft (View.write (Elt F) (iW).view fi0 (tile_body1V.sl.dma0 m d L) Finset.univ) hfi (1 : Fin 8) (jOf k1_t1_loop.trips 1) gp1' := fun l e => (hrep1 l e l.isLt).trans (hwin1 l (Fin.castLE (by decide) e))
  sl_exec
  iapply (gwaitV d L ft (View.write (Elt F) (iW).view fi0 (tile_body1V.sl.dma0 m d L) Finset.univ) hfi (2 : Fin 8) (jOf k1_t1_loop.trips 2) (o := ![2, 0, 0]) (inbo := inb_S8x56x128_S1x50x128_2_0_0) (sem := cc1_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV12; all_goals first | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft (View.write (Elt F) (iW).view fi0 (tile_body1V.sl.dma0 m d L) Finset.univ) hfi (2 : Fin 8) (jOf k1_t1_loop.trips 2) gp2' := fun l e => (hrep2 l e l.isLt).trans (hwin2 l (Fin.castLE (by decide) e))
  sl_exec
  iapply (gwaitV d L ft (View.write (Elt F) (iW).view fi0 (tile_body1V.sl.dma0 m d L) Finset.univ) hfi (3 : Fin 8) (jOf k1_t1_loop.trips 3) (o := ![3, 0, 0]) (inbo := inb_S8x56x128_S1x50x128_3_0_0) (sem := cc1_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV13; all_goals first | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft (View.write (Elt F) (iW).view fi0 (tile_body1V.sl.dma0 m d L) Finset.univ) hfi (3 : Fin 8) (jOf k1_t1_loop.trips 3) gp3' := fun l e => (hrep3 l e l.isLt).trans (hwin3 l (Fin.castLE (by decide) e))
  sl_exec
  iapply (gwaitV d L ft (View.write (Elt F) (iW).view fi0 (tile_body1V.sl.dma0 m d L) Finset.univ) hfi (4 : Fin 8) (jOf k1_t1_loop.trips 4) (o := ![4, 0, 0]) (inbo := inb_S8x56x128_S1x50x128_4_0_0) (sem := cc1_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV14; all_goals first | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft (View.write (Elt F) (iW).view fi0 (tile_body1V.sl.dma0 m d L) Finset.univ) hfi (4 : Fin 8) (jOf k1_t1_loop.trips 4) gp4' := fun l e => (hrep4 l e l.isLt).trans (hwin4 l (Fin.castLE (by decide) e))
  sl_exec
  iapply (gwaitV d L ft (View.write (Elt F) (iW).view fi0 (tile_body1V.sl.dma0 m d L) Finset.univ) hfi (5 : Fin 8) (jOf k1_t1_loop.trips 5) (o := ![5, 0, 0]) (inbo := inb_S8x56x128_S1x50x128_5_0_0) (sem := cc1_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV15; all_goals first | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft (View.write (Elt F) (iW).view fi0 (tile_body1V.sl.dma0 m d L) Finset.univ) hfi (5 : Fin 8) (jOf k1_t1_loop.trips 5) gp5' := fun l e => (hrep5 l e l.isLt).trans (hwin5 l (Fin.castLE (by decide) e))
  sl_exec
  iapply (gwaitV d L ft (View.write (Elt F) (iW).view fi0 (tile_body1V.sl.dma0 m d L) Finset.univ) hfi (6 : Fin 8) (jOf k1_t1_loop.trips 6) (o := ![6, 0, 0]) (inbo := inb_S8x56x128_S1x50x128_6_0_0) (sem := cc1_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV16; all_goals first | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft (View.write (Elt F) (iW).view fi0 (tile_body1V.sl.dma0 m d L) Finset.univ) hfi (6 : Fin 8) (jOf k1_t1_loop.trips 6) gp6' := fun l e => (hrep6 l e l.isLt).trans (hwin6 l (Fin.castLE (by decide) e))
  sl_exec
  iapply (gwaitV d L ft (View.write (Elt F) (iW).view fi0 (tile_body1V.sl.dma0 m d L) Finset.univ) hfi (7 : Fin 8) (jOf k1_t1_loop.trips 7) (o := ![7, 0, 0]) (inbo := inb_S8x56x128_S1x50x128_7_0_0) (sem := cc1_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV17; all_goals first | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft (View.write (Elt F) (iW).view fi0 (tile_body1V.sl.dma0 m d L) Finset.univ) hfi (7 : Fin 8) (jOf k1_t1_loop.trips 7) gp7' := fun l e => (hrep7 l e l.isLt).trans (hwin7 l (Fin.castLE (by decide) e))
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HRr' := (outRowsV_rest (F := F) (UU := UU) d ft (View.write (Elt F) (iW).view fi0 (tile_body1V.sl.dma0 m d L) Finset.univ) hfi (widL L) 120 _) $$ HRr
  ihave HR := (Entails.of_eq (outRowsV_group (F := F) (UU := UU) d ft (View.write (Elt F) (iW).view fi0 (tile_body1V.sl.dma0 m d L) Finset.univ) hfi (widL L) (120 + 8) 120 (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft (View.write (Elt F) (iW).view fi0 (tile_body1V.sl.dma0 m d L) Finset.univ) hfi d L (widL L) (0 : Fin 8) ⟨120 + 0, by omega⟩ ![0, 0, 0] inb_S8x50x64_S1x50x64_0_0_0 rfl _ (k1_off77_inb L 0) (off77_eq0 L) _ _ _ rfl (jOf15_0 ▸ hslot0)
      isplitl [Ho1]
      · iexists _; isplitr; swap; · iexact Ho1
        ipureintro; intro _; exact row_ok ft (View.write (Elt F) (iW).view fi0 (tile_body1V.sl.dma0 m d L) Finset.univ) hfi d L (widL L) (1 : Fin 8) ⟨120 + 1, by omega⟩ ![1, 0, 0] inb_S8x50x64_S1x50x64_1_0_0 rfl _ (k1_off77_inb L 1) (off77_eq1 L) _ _ _ rfl (jOf15_1 ▸ hslot1)
      isplitl [Ho2]
      · iexists _; isplitr; swap; · iexact Ho2
        ipureintro; intro _; exact row_ok ft (View.write (Elt F) (iW).view fi0 (tile_body1V.sl.dma0 m d L) Finset.univ) hfi d L (widL L) (2 : Fin 8) ⟨120 + 2, by omega⟩ ![2, 0, 0] inb_S8x50x64_S1x50x64_2_0_0 rfl _ (k1_off77_inb L 2) (off77_eq2 L) _ _ _ rfl (jOf15_2 ▸ hslot2)
      isplitl [Ho3]
      · iexists _; isplitr; swap; · iexact Ho3
        ipureintro; intro _; exact row_ok ft (View.write (Elt F) (iW).view fi0 (tile_body1V.sl.dma0 m d L) Finset.univ) hfi d L (widL L) (3 : Fin 8) ⟨120 + 3, by omega⟩ ![3, 0, 0] inb_S8x50x64_S1x50x64_3_0_0 rfl _ (k1_off77_inb L 3) (off77_eq3 L) _ _ _ rfl (jOf15_3 ▸ hslot3)
      isplitl [Ho4]
      · iexists _; isplitr; swap; · iexact Ho4
        ipureintro; intro _; exact row_ok ft (View.write (Elt F) (iW).view fi0 (tile_body1V.sl.dma0 m d L) Finset.univ) hfi d L (widL L) (4 : Fin 8) ⟨120 + 4, by omega⟩ ![4, 0, 0] inb_S8x50x64_S1x50x64_4_0_0 rfl _ (k1_off77_inb L 4) (off77_eq4 L) _ _ _ rfl (jOf15_4 ▸ hslot4)
      isplitl [Ho5]
      · iexists _; isplitr; swap; · iexact Ho5
        ipureintro; intro _; exact row_ok ft (View.write (Elt F) (iW).view fi0 (tile_body1V.sl.dma0 m d L) Finset.univ) hfi d L (widL L) (5 : Fin 8) ⟨120 + 5, by omega⟩ ![5, 0, 0] inb_S8x50x64_S1x50x64_5_0_0 rfl _ (k1_off77_inb L 5) (off77_eq5 L) _ _ _ rfl (jOf15_5 ▸ hslot5)
      isplitl [Ho6]
      · iexists _; isplitr; swap; · iexact Ho6
        ipureintro; intro _; exact row_ok ft (View.write (Elt F) (iW).view fi0 (tile_body1V.sl.dma0 m d L) Finset.univ) hfi d L (widL L) (6 : Fin 8) ⟨120 + 6, by omega⟩ ![6, 0, 0] inb_S8x50x64_S1x50x64_6_0_0 rfl _ (k1_off77_inb L 6) (off77_eq6 L) _ _ _ rfl (jOf15_6 ▸ hslot6)
      iexists _; isplitr; swap; · iexact Ho7
      ipureintro; intro _; exact row_ok ft (View.write (Elt F) (iW).view fi0 (tile_body1V.sl.dma0 m d L) Finset.univ) hfi d L (widL L) (7 : Fin 8) ⟨120 + 7, by omega⟩ ![7, 0, 0] inb_S8x50x64_S1x50x64_7_0_0 rfl _ (k1_off77_inb L 7) (off77_eq7 L) _ _ _ rfl (jOf15_7 ▸ hslot7)
    · iexact HRr'
  ihave Hout := (outRowsV_join (F := F) (UU := UU) m d L ft (View.write (Elt F) (iW).view fi0 (tile_body1V.sl.dma0 m d L) Finset.univ) hfi hfie f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body1V.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end BodyV

end Cert.Proof.Tile1

end
-- ==== Proof.TileCommon2.lean ====
/-
  One vector subcore's task of the third gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefs

noncomputable section

namespace Cert.Proof.Tile2

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

abbrev cV (L : grid2.Coords) : Fin τ.nSC := (L 0).castLE hcore2
abbrev jV (L : grid2.Coords) : Fin τ.nSub := (L 1).castLE hsub2
abbrev thr (d : Dev nD) (L : grid2.Coords) : Thread nD τ := V d (cV L) (jV L)

/-! ## The task's thread, its scratch buffers and its semaphores -/

section Common

variable (d : Dev nD) (L : grid2.Coords)

omit [URA UU] [CountersIn UU] in
theorem bound_zero : grid2.bound 0 = 2 := rfl
omit [URA UU] [CountersIn UU] in
theorem bound_one : grid2.bound 1 = 16 := rfl

/-- The worker number of the subcore at grid coordinates `L`: `2 s + c`. -/
abbrev widL (L : grid2.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc2_scoped0.sem, SemLoc.dma cc2_scratch3.sem, SemLoc.dma cc2_scratch4.sem, SemLoc.dma cc2_scratch5.sem, SemLoc.dma cc2_scratch6.sem, SemLoc.dma cc2_scratch7.sem, SemLoc.dma cc2_scratch8.sem, SemLoc.dma cc2_scratch9.sem, SemLoc.dma cc2_scratch10.sem, SemLoc.dma cc2_scratch11.sem, SemLoc.dma cc2_scratch12.sem, SemLoc.dma cc2_scratch13.sem, SemLoc.dma cc2_scratch14.sem, SemLoc.dma cc2_scratch15.sem, SemLoc.dma cc2_scratch16.sem, SemLoc.dma cc2_scratch17.sem, SemLoc.dma cc2_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc2_scoped0.sem) 0 ∗ semVal (thr d L, SemLoc.dma cc2_scratch3.sem) 0 ∗ semVal (thr d L, SemLoc.dma cc2_scratch4.sem) 0 ∗ semVal (thr d L, SemLoc.dma cc2_scratch5.sem) 0 ∗ semVal (thr d L, SemLoc.dma cc2_scratch6.sem) 0 ∗ semVal (thr d L, SemLoc.dma cc2_scratch7.sem) 0 ∗ semVal (thr d L, SemLoc.dma cc2_scratch8.sem) 0 ∗ semVal (thr d L, SemLoc.dma cc2_scratch9.sem) 0 ∗ semVal (thr d L, SemLoc.dma cc2_scratch10.sem) 0 ∗ semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scratch16.sem) 0 ∗ semVal (thr d L, SemLoc.dma cc2_scratch17.sem) 0 ∗ semVal (thr d L, SemLoc.dma cc2_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc2_scratch0 ↦{fullShare} f) ∗ (∃ f, (thr d L).loc cc2_scratch1 ↦{fullShare} f) ∗ (∃ f, (thr d L).loc cc2_scratch2 ↦{fullShare} f)
          ∗ bigSep ((((ownRefs (τ := τ) (.scVector (cV L) (jV L))).erase ((Proc.scVector (cV L) (jV L)).devRef cc2_scratch0)).erase
              ((Proc.scVector (cV L) (jV L)).devRef cc2_scratch1)).erase ((Proc.scVector (cV L) (jV L)).devRef cc2_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc2_scratch0) rfl)).trans ?_
  rw [SparseCore.bigSep_erase' (Finset.mem_erase.mpr ⟨fun e => absurd (Proc.devRef_injective _ e) (show (cc2_scratch1 : Ref sig .scVector) ≠ cc2_scratch0 by decide),
    SparseCore.Cfg.mem_ownRefs_of_owner (p := Proc.scVector (cV L) (jV L)) (b := (Proc.scVector (cV L) (jV L)).devRef cc2_scratch1) rfl⟩),
    SparseCore.bigSep_erase' (Finset.mem_erase.mpr ⟨fun e => absurd (Proc.devRef_injective _ e) (show (cc2_scratch2 : Ref sig .scVector) ≠ cc2_scratch1 by decide),
      Finset.mem_erase.mpr ⟨fun e => absurd (Proc.devRef_injective _ e) (show (cc2_scratch2 : Ref sig .scVector) ≠ cc2_scratch0 by decide),
        SparseCore.Cfg.mem_ownRefs_of_owner (p := Proc.scVector (cV L) (jV L)) (b := (Proc.scVector (cV L) (jV L)).devRef cc2_scratch2) rfl⟩⟩)]

end Common

section Pts

variable (m : (ℓ : Loc nD τ sig) → Buf (Elt F) ℓ) (d : Dev nD) (L : grid2.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out2Loc d)) :
    ((oW).view.loc (thr d L) ↦[I]{fullShare} f : sProp 𝕄) = out2Loc d ↦[I]{fullShare} f := rfl
theorem pts_iW (f : Buf (Elt F) ((thr d L).loc cc2_scratch0)) :
    ((iW).view.loc (thr d L) ↦{fullShare} f : sProp 𝕄) = (thr d L).loc cc2_scratch0 ↦{fullShare} f := rfl
theorem pts_bW (f : Buf (Elt F) ((thr d L).loc cc2_scratch1)) :
    ((bW).view.loc (thr d L) ↦{fullShare} f : sProp 𝕄) = (thr d L).loc cc2_scratch1 ↦{fullShare} f := rfl
theorem pts_pW (f : Buf (Elt F) ((thr d L).loc cc2_scratch2)) :
    ((pW).view.loc (thr d L) ↦{fullShare} f : sProp 𝕄) = (thr d L).loc cc2_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v5_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet2 w := by
  rw [blkSet2_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out2Loc d)) :
    (out2Loc d ↦[blkSet2 w]{fullShare} f : sProp 𝕄) = bigSep Finset.univ fun j : Fin 128 => out2Loc d ↦[rowSet w j]{fullShare} f := by
  rw [← pointsTo_biUnion Finset.univ (ℓ := out2Loc d) (rowSet w) (rows_disjoint w), rows_cover]

/-- The rows, each at some contents. -/
abbrev outRows (w : Fin 32) : sProp 𝕄 := bigSep Finset.univ fun j : Fin 128 => iprop(∃ f, out2Loc d ↦[rowSet w j]{fullShare} f)

theorem outRows_intro (w : Fin 32) (f : Buf (Elt F) (out2Loc d)) : (out2Loc d ↦[blkSet2 w]{fullShare} f : sProp 𝕄) ⊢ outRows d w := by
  rw [outBlk_rows]
  refine bigSep_mono fun j _ => (show (out2Loc d ↦[rowSet w j]{fullShare} f : sProp 𝕄) ⊢ iprop(∃ f, out2Loc d ↦[rowSet w j]{fullShare} f) from ?_)
  iintro H; iexists f; iexact H

set_option maxRecDepth 4096 in
theorem outRows_join (w : Fin 32) (f0 : Buf (Elt F) (out2Loc d)) : (outRows d w : sProp 𝕄) ⊢ iprop(∃ f, out2Loc d ↦[blkSet2 w]{fullShare} f) := by
  haveI : Nonempty (Buf (Elt F) (out2Loc d)) := ⟨f0⟩
  refine (bigSep_exists_pi Finset.univ (fun j (f : Buf (Elt F) (out2Loc d)) => (out2Loc d ↦[rowSet w j]{fullShare} f : sProp 𝕄))).trans ?_
  iintro ⟨%fs, H⟩
  ihave H' := (pointsTo_biUnion_join (ℓ := out2Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out2Loc d ↦[rowSet w ⟨b + 0, by omega⟩]{fullShare} f) ∗ (∃ f, out2Loc d ↦[rowSet w ⟨b + 1, by omega⟩]{fullShare} f) ∗ (∃ f, out2Loc d ↦[rowSet w ⟨b + 2, by omega⟩]{fullShare} f) ∗ (∃ f, out2Loc d ↦[rowSet w ⟨b + 3, by omega⟩]{fullShare} f) ∗ (∃ f, out2Loc d ↦[rowSet w ⟨b + 4, by omega⟩]{fullShare} f) ∗ (∃ f, out2Loc d ↦[rowSet w ⟨b + 5, by omega⟩]{fullShare} f) ∗ (∃ f, out2Loc d ↦[rowSet w ⟨b + 6, by omega⟩]{fullShare} f) ∗ (∃ f, out2Loc d ↦[rowSet w ⟨b + 7, by omega⟩]{fullShare} f))
          ∗ bigSep (Finset.univ \ Finset.univ.map (grpEmb b hb)) fun j : Fin 128 => iprop(∃ f, out2Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid2.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc2_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc2_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.Tile2

end
-- ==== Proof.TileRepack2.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon2
import proofs.«204056_g19739669692900_cont_8to1_1488_31_alg».proof.Proof.Gen.KernelIdeal.Skeleton

noncomputable section

namespace Cert.Proof.Tile2

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

section Repack

variable (d : Dev nD) (L : grid2.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k2_t1 : Fin k2_t1_loop.trips) (k : Fin k2_t2_loop.trips) (u : Unit) :
    (RInv0 d L : sProp 𝕄) ⊢ wp frame (wpE (defs₀ (F := F)) 𝒱₀ (thr d L) none) Set.univ
        (k2_t2_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 c0_i32_51 c1_i32_52 k2_t1 k u) (fun _ => RInv0 d L) := by
  unfold k2_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k2_t1 : Fin k2_t1_loop.trips) (arg24 : BitVec 32) (v255 : BitVec 32) (k : Fin k2_t3_loop.trips) (u : Unit) :
    (RInv1 d L : sProp 𝕄) ⊢ wp frame (wpE (defs₀ (F := F)) 𝒱₀ (thr d L) none) Set.univ
        (k2_t3_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v255 k u) (fun _ => RInv1 d L) := by
  unfold k2_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k2_t1 : Fin k2_t1_loop.trips) (arg24 : BitVec 32) (v255 : BitVec 32) (k : Fin k2_t4_loop.trips) (u : Unit) :
    (RInv2 d L : sProp 𝕄) ⊢ wp frame (wpE (defs₀ (F := F)) 𝒱₀ (thr d L) none) Set.univ
        (k2_t4_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v255 k u) (fun _ => RInv2 d L) := by
  unfold k2_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k2_t1 : Fin k2_t1_loop.trips) (arg24 : BitVec 32) (k : Fin k2_t5_loop.trips) (u : Unit) :
    (RInv3 d L : sProp 𝕄) ⊢ wp frame (wpE (defs₀ (F := F)) 𝒱₀ (thr d L) none) Set.univ
        (k2_t5_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 k u) (fun _ => RInv3 d L) := by
  unfold k2_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k2_t1 : Fin k2_t1_loop.trips) (arg24 : BitVec 32) (v306 : BitVec 32) (k : Fin k2_t6_loop.trips) (u : Unit) :
    (RInv4 d L : sProp 𝕄) ⊢ wp frame (wpE (defs₀ (F := F)) 𝒱₀ (thr d L) none) Set.univ
        (k2_t6_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v306 k u) (fun _ => RInv4 d L) := by
  unfold k2_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k2_t1 : Fin k2_t1_loop.trips) (arg24 : BitVec 32) (v306 : BitVec 32) (k : Fin k2_t7_loop.trips) (u : Unit) :
    (RInv5 d L : sProp 𝕄) ⊢ wp frame (wpE (defs₀ (F := F)) 𝒱₀ (thr d L) none) Set.univ
        (k2_t7_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v306 k u) (fun _ => RInv5 d L) := by
  unfold k2_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k2_t1 : Fin k2_t1_loop.trips) (arg24 : BitVec 32) (k : Fin k2_t8_loop.trips) (u : Unit) :
    (RInv6 d L : sProp 𝕄) ⊢ wp frame (wpE (defs₀ (F := F)) 𝒱₀ (thr d L) none) Set.univ
        (k2_t8_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 k u) (fun _ => RInv6 d L) := by
  unfold k2_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k2_t1 : Fin k2_t1_loop.trips) (arg24 : BitVec 32) (v357 : BitVec 32) (k : Fin k2_t9_loop.trips) (u : Unit) :
    (RInv7 d L : sProp 𝕄) ⊢ wp frame (wpE (defs₀ (F := F)) 𝒱₀ (thr d L) none) Set.univ
        (k2_t9_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v357 k u) (fun _ => RInv7 d L) := by
  unfold k2_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k2_t10_loop.trips) (u : Unit) :
    (RInv0 d L : sProp 𝕄) ⊢ wp frame (wpE (defs₀ (F := F)) 𝒱₀ (thr d L) none) Set.univ
        (k2_t10_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv0 d L) := by
  unfold k2_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k2_t11_loop.trips) (u : Unit) :
    (RInv1 d L : sProp 𝕄) ⊢ wp frame (wpE (defs₀ (F := F)) 𝒱₀ (thr d L) none) Set.univ
        (k2_t11_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv1 d L) := by
  unfold k2_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k2_t12_loop.trips) (u : Unit) :
    (RInv2 d L : sProp 𝕄) ⊢ wp frame (wpE (defs₀ (F := F)) 𝒱₀ (thr d L) none) Set.univ
        (k2_t12_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv2 d L) := by
  unfold k2_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k2_t13_loop.trips) (u : Unit) :
    (RInv3 d L : sProp 𝕄) ⊢ wp frame (wpE (defs₀ (F := F)) 𝒱₀ (thr d L) none) Set.univ
        (k2_t13_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv3 d L) := by
  unfold k2_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k2_t14_loop.trips) (u : Unit) :
    (RInv4 d L : sProp 𝕄) ⊢ wp frame (wpE (defs₀ (F := F)) 𝒱₀ (thr d L) none) Set.univ
        (k2_t14_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv4 d L) := by
  unfold k2_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k2_t15_loop.trips) (u : Unit) :
    (RInv5 d L : sProp 𝕄) ⊢ wp frame (wpE (defs₀ (F := F)) 𝒱₀ (thr d L) none) Set.univ
        (k2_t15_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv5 d L) := by
  unfold k2_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k2_t16_loop.trips) (u : Unit) :
    (RInv6 d L : sProp 𝕄) ⊢ wp frame (wpE (defs₀ (F := F)) 𝒱₀ (thr d L) none) Set.univ
        (k2_t16_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv6 d L) := by
  unfold k2_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k2_t17_loop.trips) (u : Unit) :
    (RInv7 d L : sProp 𝕄) ⊢ wp frame (wpE (defs₀ (F := F)) 𝒱₀ (thr d L) none) Set.univ
        (k2_t17_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (fun _ => RInv7 d L) := by
  unfold k2_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.Tile2

end
-- ==== Proof.TileBody2.lean ====
/-
  One vector subcore's task of the third gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon2
import proofs.«204056_g19739669692900_cont_8to1_1488_31_alg».proof.Proof.Gen.KernelIdeal.Skeleton
import proofs.«204056_g19739669692900_cont_8to1_1488_31_alg».proof.Proof.TileRepack2

noncomputable section

namespace Cert.Proof.Tile2

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid2.Coords)

/-- The task's 128 rows of the index array, as the program slices them. -/
abbrev catsRowsK : Memref sig .scVector .hbm S128x50 .i32 :=
  (cW).slice (Rect.unit (s := S16384x50) (k2_off1 L) S128x50.size (k2_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid2.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k2_t1_loop.trips) : Memref sig .scVector .hbm S50x64 .f32 :=
  ((oW).slice (Rect.unit (s := S4096x50x64) (k2_off11 L k 0#32) S1x50x64.size (k2_off11_inb L k 0)) (fun _ => rfl)).squeeze S50x64 squeezes_S1x50x64_S50x64
abbrev oRowE0 : Memref sig .scVector .hbm S50x64 .f32 :=
  ((oW).slice (Rect.unit (s := S4096x50x64) (k2_off77 L 120#32) S1x50x64.size (k2_off77_inb L 0)) (fun _ => rfl)).squeeze S50x64 squeezes_S1x50x64_S50x64
theorem off11_eq0 (k : Fin k2_t1_loop.trips) : k2_off11 L k 0#32 = ![128 * (widL L).val + (8 * k.val + 0), 0, 0] :=
  (k2_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k2_off77 L 120#32 = ![128 * (widL L).val + (120 + 0), 0, 0] :=
  (k2_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k2_t1_loop.trips) (h : 8 * k.val + 0 < 128) :
    Rect.unit (s := S4096x50x64) (k2_off11 L k 0#32) S1x50x64.size (k2_off11_inb L k 0) = rowRect (widL L) ⟨8 * k.val + 0, h⟩ :=
  rect_unit_congr (off11_eq0 L k)
theorem set_oRowK0 (k : Fin k2_t1_loop.trips) (h : 8 * k.val + 0 < 128) : (oRowK0 L k).view.set = rowSet (widL L) ⟨8 * k.val + 0, h⟩ := by
  show (((oW).view.slice (Rect.unit (s := S4096x50x64) (k2_off11 L k 0#32) S1x50x64.size (k2_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k2_off77 L 120#32) S1x50x64.size (k2_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k2_off77 L 120#32) S1x50x64.size (k2_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k2_t1_loop.trips) (h : 8 * k.val + 0 < 128) (f : Buf (Elt F) (out2Loc d)) :
    ((oRowK0 L k).view.loc (thr d L) ↦[(oRowK0 L k).view.set]{fullShare} f : sProp 𝕄) = out2Loc d ↦[rowSet (widL L) ⟨8 * k.val + 0, h⟩]{fullShare} f := by
  rw [set_oRowK0 L k h]
theorem pts_oRowE0 (h : 120 + 0 < 128) (f : Buf (Elt F) (out2Loc d)) :
    ((oRowE0 L).view.loc (thr d L) ↦[(oRowE0 L).view.set]{fullShare} f : sProp 𝕄) = out2Loc d ↦[rowSet (widL L) ⟨120 + 0, h⟩]{fullShare} f := by
  rw [set_oRowE0 L h]

/-- Row `8 k + 1` of the task's block, as trip `k` addresses it; row `121`, as the last group does. -/
abbrev oRowK1 (k : Fin k2_t1_loop.trips) : Memref sig .scVector .hbm S50x64 .f32 :=
  ((oW).slice (Rect.unit (s := S4096x50x64) (k2_off11 L k 1#32) S1x50x64.size (k2_off11_inb L k 1)) (fun _ => rfl)).squeeze S50x64 squeezes_S1x50x64_S50x64
abbrev oRowE1 : Memref sig .scVector .hbm S50x64 .f32 :=
  ((oW).slice (Rect.unit (s := S4096x50x64) (k2_off77 L 121#32) S1x50x64.size (k2_off77_inb L 1)) (fun _ => rfl)).squeeze S50x64 squeezes_S1x50x64_S50x64
theorem off11_eq1 (k : Fin k2_t1_loop.trips) : k2_off11 L k 1#32 = ![128 * (widL L).val + (8 * k.val + 1), 0, 0] :=
  (k2_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k2_off77 L 121#32 = ![128 * (widL L).val + (120 + 1), 0, 0] :=
  (k2_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k2_t1_loop.trips) (h : 8 * k.val + 1 < 128) :
    Rect.unit (s := S4096x50x64) (k2_off11 L k 1#32) S1x50x64.size (k2_off11_inb L k 1) = rowRect (widL L) ⟨8 * k.val + 1, h⟩ :=
  rect_unit_congr (off11_eq1 L k)
theorem set_oRowK1 (k : Fin k2_t1_loop.trips) (h : 8 * k.val + 1 < 128) : (oRowK1 L k).view.set = rowSet (widL L) ⟨8 * k.val + 1, h⟩ := by
  show (((oW).view.slice (Rect.unit (s := S4096x50x64) (k2_off11 L k 1#32) S1x50x64.size (k2_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k2_off77 L 121#32) S1x50x64.size (k2_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k2_off77 L 121#32) S1x50x64.size (k2_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k2_t1_loop.trips) (h : 8 * k.val + 1 < 128) (f : Buf (Elt F) (out2Loc d)) :
    ((oRowK1 L k).view.loc (thr d L) ↦[(oRowK1 L k).view.set]{fullShare} f : sProp 𝕄) = out2Loc d ↦[rowSet (widL L) ⟨8 * k.val + 1, h⟩]{fullShare} f := by
  rw [set_oRowK1 L k h]
theorem pts_oRowE1 (h : 120 + 1 < 128) (f : Buf (Elt F) (out2Loc d)) :
    ((oRowE1 L).view.loc (thr d L) ↦[(oRowE1 L).view.set]{fullShare} f : sProp 𝕄) = out2Loc d ↦[rowSet (widL L) ⟨120 + 1, h⟩]{fullShare} f := by
  rw [set_oRowE1 L h]

/-- Row `8 k + 2` of the task's block, as trip `k` addresses it; row `122`, as the last group does. -/
abbrev oRowK2 (k : Fin k2_t1_loop.trips) : Memref sig .scVector .hbm S50x64 .f32 :=
  ((oW).slice (Rect.unit (s := S4096x50x64) (k2_off11 L k 2#32) S1x50x64.size (k2_off11_inb L k 2)) (fun _ => rfl)).squeeze S50x64 squeezes_S1x50x64_S50x64
abbrev oRowE2 : Memref sig .scVector .hbm S50x64 .f32 :=
  ((oW).slice (Rect.unit (s := S4096x50x64) (k2_off77 L 122#32) S1x50x64.size (k2_off77_inb L 2)) (fun _ => rfl)).squeeze S50x64 squeezes_S1x50x64_S50x64
theorem off11_eq2 (k : Fin k2_t1_loop.trips) : k2_off11 L k 2#32 = ![128 * (widL L).val + (8 * k.val + 2), 0, 0] :=
  (k2_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k2_off77 L 122#32 = ![128 * (widL L).val + (120 + 2), 0, 0] :=
  (k2_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k2_t1_loop.trips) (h : 8 * k.val + 2 < 128) :
    Rect.unit (s := S4096x50x64) (k2_off11 L k 2#32) S1x50x64.size (k2_off11_inb L k 2) = rowRect (widL L) ⟨8 * k.val + 2, h⟩ :=
  rect_unit_congr (off11_eq2 L k)
theorem set_oRowK2 (k : Fin k2_t1_loop.trips) (h : 8 * k.val + 2 < 128) : (oRowK2 L k).view.set = rowSet (widL L) ⟨8 * k.val + 2, h⟩ := by
  show (((oW).view.slice (Rect.unit (s := S4096x50x64) (k2_off11 L k 2#32) S1x50x64.size (k2_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k2_off77 L 122#32) S1x50x64.size (k2_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k2_off77 L 122#32) S1x50x64.size (k2_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k2_t1_loop.trips) (h : 8 * k.val + 2 < 128) (f : Buf (Elt F) (out2Loc d)) :
    ((oRowK2 L k).view.loc (thr d L) ↦[(oRowK2 L k).view.set]{fullShare} f : sProp 𝕄) = out2Loc d ↦[rowSet (widL L) ⟨8 * k.val + 2, h⟩]{fullShare} f := by
  rw [set_oRowK2 L k h]
theorem pts_oRowE2 (h : 120 + 2 < 128) (f : Buf (Elt F) (out2Loc d)) :
    ((oRowE2 L).view.loc (thr d L) ↦[(oRowE2 L).view.set]{fullShare} f : sProp 𝕄) = out2Loc d ↦[rowSet (widL L) ⟨120 + 2, h⟩]{fullShare} f := by
  rw [set_oRowE2 L h]

/-- Row `8 k + 3` of the task's block, as trip `k` addresses it; row `123`, as the last group does. -/
abbrev oRowK3 (k : Fin k2_t1_loop.trips) : Memref sig .scVector .hbm S50x64 .f32 :=
  ((oW).slice (Rect.unit (s := S4096x50x64) (k2_off11 L k 3#32) S1x50x64.size (k2_off11_inb L k 3)) (fun _ => rfl)).squeeze S50x64 squeezes_S1x50x64_S50x64
abbrev oRowE3 : Memref sig .scVector .hbm S50x64 .f32 :=
  ((oW).slice (Rect.unit (s := S4096x50x64) (k2_off77 L 123#32) S1x50x64.size (k2_off77_inb L 3)) (fun _ => rfl)).squeeze S50x64 squeezes_S1x50x64_S50x64
theorem off11_eq3 (k : Fin k2_t1_loop.trips) : k2_off11 L k 3#32 = ![128 * (widL L).val + (8 * k.val + 3), 0, 0] :=
  (k2_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k2_off77 L 123#32 = ![128 * (widL L).val + (120 + 3), 0, 0] :=
  (k2_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k2_t1_loop.trips) (h : 8 * k.val + 3 < 128) :
    Rect.unit (s := S4096x50x64) (k2_off11 L k 3#32) S1x50x64.size (k2_off11_inb L k 3) = rowRect (widL L) ⟨8 * k.val + 3, h⟩ :=
  rect_unit_congr (off11_eq3 L k)
theorem set_oRowK3 (k : Fin k2_t1_loop.trips) (h : 8 * k.val + 3 < 128) : (oRowK3 L k).view.set = rowSet (widL L) ⟨8 * k.val + 3, h⟩ := by
  show (((oW).view.slice (Rect.unit (s := S4096x50x64) (k2_off11 L k 3#32) S1x50x64.size (k2_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k2_off77 L 123#32) S1x50x64.size (k2_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k2_off77 L 123#32) S1x50x64.size (k2_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k2_t1_loop.trips) (h : 8 * k.val + 3 < 128) (f : Buf (Elt F) (out2Loc d)) :
    ((oRowK3 L k).view.loc (thr d L) ↦[(oRowK3 L k).view.set]{fullShare} f : sProp 𝕄) = out2Loc d ↦[rowSet (widL L) ⟨8 * k.val + 3, h⟩]{fullShare} f := by
  rw [set_oRowK3 L k h]
theorem pts_oRowE3 (h : 120 + 3 < 128) (f : Buf (Elt F) (out2Loc d)) :
    ((oRowE3 L).view.loc (thr d L) ↦[(oRowE3 L).view.set]{fullShare} f : sProp 𝕄) = out2Loc d ↦[rowSet (widL L) ⟨120 + 3, h⟩]{fullShare} f := by
  rw [set_oRowE3 L h]

/-- Row `8 k + 4` of the task's block, as trip `k` addresses it; row `124`, as the last group does. -/
abbrev oRowK4 (k : Fin k2_t1_loop.trips) : Memref sig .scVector .hbm S50x64 .f32 :=
  ((oW).slice (Rect.unit (s := S4096x50x64) (k2_off11 L k 4#32) S1x50x64.size (k2_off11_inb L k 4)) (fun _ => rfl)).squeeze S50x64 squeezes_S1x50x64_S50x64
abbrev oRowE4 : Memref sig .scVector .hbm S50x64 .f32 :=
  ((oW).slice (Rect.unit (s := S4096x50x64) (k2_off77 L 124#32) S1x50x64.size (k2_off77_inb L 4)) (fun _ => rfl)).squeeze S50x64 squeezes_S1x50x64_S50x64
theorem off11_eq4 (k : Fin k2_t1_loop.trips) : k2_off11 L k 4#32 = ![128 * (widL L).val + (8 * k.val + 4), 0, 0] :=
  (k2_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k2_off77 L 124#32 = ![128 * (widL L).val + (120 + 4), 0, 0] :=
  (k2_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k2_t1_loop.trips) (h : 8 * k.val + 4 < 128) :
    Rect.unit (s := S4096x50x64) (k2_off11 L k 4#32) S1x50x64.size (k2_off11_inb L k 4) = rowRect (widL L) ⟨8 * k.val + 4, h⟩ :=
  rect_unit_congr (off11_eq4 L k)
theorem set_oRowK4 (k : Fin k2_t1_loop.trips) (h : 8 * k.val + 4 < 128) : (oRowK4 L k).view.set = rowSet (widL L) ⟨8 * k.val + 4, h⟩ := by
  show (((oW).view.slice (Rect.unit (s := S4096x50x64) (k2_off11 L k 4#32) S1x50x64.size (k2_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k2_off77 L 124#32) S1x50x64.size (k2_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k2_off77 L 124#32) S1x50x64.size (k2_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k2_t1_loop.trips) (h : 8 * k.val + 4 < 128) (f : Buf (Elt F) (out2Loc d)) :
    ((oRowK4 L k).view.loc (thr d L) ↦[(oRowK4 L k).view.set]{fullShare} f : sProp 𝕄) = out2Loc d ↦[rowSet (widL L) ⟨8 * k.val + 4, h⟩]{fullShare} f := by
  rw [set_oRowK4 L k h]
theorem pts_oRowE4 (h : 120 + 4 < 128) (f : Buf (Elt F) (out2Loc d)) :
    ((oRowE4 L).view.loc (thr d L) ↦[(oRowE4 L).view.set]{fullShare} f : sProp 𝕄) = out2Loc d ↦[rowSet (widL L) ⟨120 + 4, h⟩]{fullShare} f := by
  rw [set_oRowE4 L h]

/-- Row `8 k + 5` of the task's block, as trip `k` addresses it; row `125`, as the last group does. -/
abbrev oRowK5 (k : Fin k2_t1_loop.trips) : Memref sig .scVector .hbm S50x64 .f32 :=
  ((oW).slice (Rect.unit (s := S4096x50x64) (k2_off11 L k 5#32) S1x50x64.size (k2_off11_inb L k 5)) (fun _ => rfl)).squeeze S50x64 squeezes_S1x50x64_S50x64
abbrev oRowE5 : Memref sig .scVector .hbm S50x64 .f32 :=
  ((oW).slice (Rect.unit (s := S4096x50x64) (k2_off77 L 125#32) S1x50x64.size (k2_off77_inb L 5)) (fun _ => rfl)).squeeze S50x64 squeezes_S1x50x64_S50x64
theorem off11_eq5 (k : Fin k2_t1_loop.trips) : k2_off11 L k 5#32 = ![128 * (widL L).val + (8 * k.val + 5), 0, 0] :=
  (k2_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k2_off77 L 125#32 = ![128 * (widL L).val + (120 + 5), 0, 0] :=
  (k2_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k2_t1_loop.trips) (h : 8 * k.val + 5 < 128) :
    Rect.unit (s := S4096x50x64) (k2_off11 L k 5#32) S1x50x64.size (k2_off11_inb L k 5) = rowRect (widL L) ⟨8 * k.val + 5, h⟩ :=
  rect_unit_congr (off11_eq5 L k)
theorem set_oRowK5 (k : Fin k2_t1_loop.trips) (h : 8 * k.val + 5 < 128) : (oRowK5 L k).view.set = rowSet (widL L) ⟨8 * k.val + 5, h⟩ := by
  show (((oW).view.slice (Rect.unit (s := S4096x50x64) (k2_off11 L k 5#32) S1x50x64.size (k2_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k2_off77 L 125#32) S1x50x64.size (k2_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k2_off77 L 125#32) S1x50x64.size (k2_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k2_t1_loop.trips) (h : 8 * k.val + 5 < 128) (f : Buf (Elt F) (out2Loc d)) :
    ((oRowK5 L k).view.loc (thr d L) ↦[(oRowK5 L k).view.set]{fullShare} f : sProp 𝕄) = out2Loc d ↦[rowSet (widL L) ⟨8 * k.val + 5, h⟩]{fullShare} f := by
  rw [set_oRowK5 L k h]
theorem pts_oRowE5 (h : 120 + 5 < 128) (f : Buf (Elt F) (out2Loc d)) :
    ((oRowE5 L).view.loc (thr d L) ↦[(oRowE5 L).view.set]{fullShare} f : sProp 𝕄) = out2Loc d ↦[rowSet (widL L) ⟨120 + 5, h⟩]{fullShare} f := by
  rw [set_oRowE5 L h]

/-- Row `8 k + 6` of the task's block, as trip `k` addresses it; row `126`, as the last group does. -/
abbrev oRowK6 (k : Fin k2_t1_loop.trips) : Memref sig .scVector .hbm S50x64 .f32 :=
  ((oW).slice (Rect.unit (s := S4096x50x64) (k2_off11 L k 6#32) S1x50x64.size (k2_off11_inb L k 6)) (fun _ => rfl)).squeeze S50x64 squeezes_S1x50x64_S50x64
abbrev oRowE6 : Memref sig .scVector .hbm S50x64 .f32 :=
  ((oW).slice (Rect.unit (s := S4096x50x64) (k2_off77 L 126#32) S1x50x64.size (k2_off77_inb L 6)) (fun _ => rfl)).squeeze S50x64 squeezes_S1x50x64_S50x64
theorem off11_eq6 (k : Fin k2_t1_loop.trips) : k2_off11 L k 6#32 = ![128 * (widL L).val + (8 * k.val + 6), 0, 0] :=
  (k2_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k2_off77 L 126#32 = ![128 * (widL L).val + (120 + 6), 0, 0] :=
  (k2_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k2_t1_loop.trips) (h : 8 * k.val + 6 < 128) :
    Rect.unit (s := S4096x50x64) (k2_off11 L k 6#32) S1x50x64.size (k2_off11_inb L k 6) = rowRect (widL L) ⟨8 * k.val + 6, h⟩ :=
  rect_unit_congr (off11_eq6 L k)
theorem set_oRowK6 (k : Fin k2_t1_loop.trips) (h : 8 * k.val + 6 < 128) : (oRowK6 L k).view.set = rowSet (widL L) ⟨8 * k.val + 6, h⟩ := by
  show (((oW).view.slice (Rect.unit (s := S4096x50x64) (k2_off11 L k 6#32) S1x50x64.size (k2_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k2_off77 L 126#32) S1x50x64.size (k2_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k2_off77 L 126#32) S1x50x64.size (k2_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k2_t1_loop.trips) (h : 8 * k.val + 6 < 128) (f : Buf (Elt F) (out2Loc d)) :
    ((oRowK6 L k).view.loc (thr d L) ↦[(oRowK6 L k).view.set]{fullShare} f : sProp 𝕄) = out2Loc d ↦[rowSet (widL L) ⟨8 * k.val + 6, h⟩]{fullShare} f := by
  rw [set_oRowK6 L k h]
theorem pts_oRowE6 (h : 120 + 6 < 128) (f : Buf (Elt F) (out2Loc d)) :
    ((oRowE6 L).view.loc (thr d L) ↦[(oRowE6 L).view.set]{fullShare} f : sProp 𝕄) = out2Loc d ↦[rowSet (widL L) ⟨120 + 6, h⟩]{fullShare} f := by
  rw [set_oRowE6 L h]

/-- Row `8 k + 7` of the task's block, as trip `k` addresses it; row `127`, as the last group does. -/
abbrev oRowK7 (k : Fin k2_t1_loop.trips) : Memref sig .scVector .hbm S50x64 .f32 :=
  ((oW).slice (Rect.unit (s := S4096x50x64) (k2_off11 L k 7#32) S1x50x64.size (k2_off11_inb L k 7)) (fun _ => rfl)).squeeze S50x64 squeezes_S1x50x64_S50x64
abbrev oRowE7 : Memref sig .scVector .hbm S50x64 .f32 :=
  ((oW).slice (Rect.unit (s := S4096x50x64) (k2_off77 L 127#32) S1x50x64.size (k2_off77_inb L 7)) (fun _ => rfl)).squeeze S50x64 squeezes_S1x50x64_S50x64
theorem off11_eq7 (k : Fin k2_t1_loop.trips) : k2_off11 L k 7#32 = ![128 * (widL L).val + (8 * k.val + 7), 0, 0] :=
  (k2_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k2_off77 L 127#32 = ![128 * (widL L).val + (120 + 7), 0, 0] :=
  (k2_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k2_t1_loop.trips) (h : 8 * k.val + 7 < 128) :
    Rect.unit (s := S4096x50x64) (k2_off11 L k 7#32) S1x50x64.size (k2_off11_inb L k 7) = rowRect (widL L) ⟨8 * k.val + 7, h⟩ :=
  rect_unit_congr (off11_eq7 L k)
theorem set_oRowK7 (k : Fin k2_t1_loop.trips) (h : 8 * k.val + 7 < 128) : (oRowK7 L k).view.set = rowSet (widL L) ⟨8 * k.val + 7, h⟩ := by
  show (((oW).view.slice (Rect.unit (s := S4096x50x64) (k2_off11 L k 7#32) S1x50x64.size (k2_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k2_off77 L 127#32) S1x50x64.size (k2_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k2_off77 L 127#32) S1x50x64.size (k2_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k2_t1_loop.trips) (h : 8 * k.val + 7 < 128) (f : Buf (Elt F) (out2Loc d)) :
    ((oRowK7 L k).view.loc (thr d L) ↦[(oRowK7 L k).view.set]{fullShare} f : sProp 𝕄) = out2Loc d ↦[rowSet (widL L) ⟨8 * k.val + 7, h⟩]{fullShare} f := by
  rw [set_oRowK7 L k h]
theorem pts_oRowE7 (h : 120 + 7 < 128) (f : Buf (Elt F) (out2Loc d)) :
    ((oRowE7 L).view.loc (thr d L) ↦[(oRowE7 L).view.set]{fullShare} f : sProp 𝕄) = out2Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc2_scratch3.sem (sh32 (widL L)).left.left.left fullShare.left.left.left ft fi
      ∗ GFl d L ![1, 0, 0] inb_S8x56x128_S1x50x128_1_0_0 cc2_scratch4.sem (sh32 (widL L)).left.left.right fullShare.left.left.right ft fi
      ∗ GFl d L ![2, 0, 0] inb_S8x56x128_S1x50x128_2_0_0 cc2_scratch5.sem (sh32 (widL L)).left.right.left fullShare.left.right.left ft fi
      ∗ GFl d L ![3, 0, 0] inb_S8x56x128_S1x50x128_3_0_0 cc2_scratch6.sem (sh32 (widL L)).left.right.right fullShare.left.right.right ft fi
      ∗ GFl d L ![4, 0, 0] inb_S8x56x128_S1x50x128_4_0_0 cc2_scratch7.sem (sh32 (widL L)).right.left.left fullShare.right.left.left ft fi
      ∗ GFl d L ![5, 0, 0] inb_S8x56x128_S1x50x128_5_0_0 cc2_scratch8.sem (sh32 (widL L)).right.left.right fullShare.right.left.right ft fi
      ∗ GFl d L ![6, 0, 0] inb_S8x56x128_S1x50x128_6_0_0 cc2_scratch9.sem (sh32 (widL L)).right.right.left fullShare.right.right.left ft fi
      ∗ GFl d L ![7, 0, 0] inb_S8x56x128_S1x50x128_7_0_0 cc2_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scratch16.sem) 0 ∗ semVal (thr d L, SemLoc.dma cc2_scratch17.sem) 0 ∗ semVal (thr d L, SemLoc.dma cc2_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k2_t1_loop.trips) (u : Unit) :
    (INV d L ft fi O W kt.val u : sProp 𝕄) ⊢ wp frame (wpE (defs₀ (F := F)) 𝒱₀ (thr d L) none) Set.univ
        (k2_t1_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 kt u) (INV d L ft fi O W (kt.val + 1)) := by
  unfold INV k2_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc2_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc2_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc2_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc2_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc2_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc2_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc2_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc2_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k2_off68 kt 0#32) (inb := k2_off68_inb kt 0) (sem := cc2_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k2_off68 kt 1#32) (inb := k2_off68_inb kt 1) (sem := cc2_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k2_off68 kt 2#32) (inb := k2_off68_inb kt 2) (sem := cc2_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k2_off68 kt 3#32) (inb := k2_off68_inb kt 3) (sem := cc2_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k2_off68 kt 4#32) (inb := k2_off68_inb kt 4) (sem := cc2_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k2_off68 kt 5#32) (inb := k2_off68_inb kt 5) (sem := cc2_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k2_off68 kt 6#32) (inb := k2_off68_inb kt 6) (sem := cc2_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k2_off68 kt 7#32) (inb := k2_off68_inb kt 7) (sem := cc2_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the third gather call: it ends, faults nowhere, leaves every one of its semaphores at zero
    and hands back the two read shares unchanged and its 128 result rows at some contents. -/
theorem tile_body2 (hF : (K (F := F)).Facts) (hcats : ∀ j, (m (catsLoc d) j).toNat < 100000)
    (ft : Buf (Elt F) (tpadLoc d)) (f0 : Buf (Elt F) (out2Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk2 d (widL L) f0)
        ∗ scopedBufs (thr d L) ∗ scopedSems0 (thr d L) ∗ owes (thr d L) O W)
      ⊢ (wp frame (wpE (defs₀ (F := F)) 𝒱₀ (thr d L) none) Set.univ
          (cc2_gk L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0)
          fun _ => iprop((catsSh m d (widL L) ∗ tpadSh d (widL L) ft ∗ ∃ f, outBlk2 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc2_gk_eq_skeleton]; unfold cc2_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body2.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body2.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc2_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc2_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc2_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc2_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc2_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc2_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc2_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc2_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body2.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc2_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc2_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc2_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc2_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc2_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc2_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc2_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc2_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body2.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.Tile2

end
-- ==== Proof.TileValuesQ2.lean ====
/-
  One vector subcore's task of gather call 2: what its buffers hold.

  The index scratch holds the task's 128 rows of the index array. A gather into slot `s` over list row `j` lands, in
  row `l` of the slot's window, the padded table's row named by word `[j, l]` of the index scratch; the repack keeps the
  first 64 lanes; the copy out puts them in row `128 w + j` of the call's result.
-/
import proofs.«204056_g19739669692900_cont_8to1_1488_31_alg».proof.Proof.TileBody2
import proofs.«204056_g19739669692900_cont_8to1_1488_31_alg».proof.Proof.LaunchPayV
import Idealize.ShloMosaic.Lib.ValueIdx
import Idealize.ShloMosaic.Lib.ValueLayout
import Idealize.ShloMosaic.Lib.Writes

noncomputable section

namespace Cert.Proof.Tile2

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

/-- A slot of the repacked buffer, from offsets `o`; a row of the result, from offsets `off`. -/
abbrev pWinAt (o : Fin 3 → ℕ) (inbo : ∀ a, o a + S1x50x64.size a ≤ S8x50x64.size a) : Memref sig .scVector .vmem S50x64 .f32 :=
  ((pW).slice (Rect.unit (s := S8x50x64) o S1x50x64.size inbo) (fun _ => rfl)).squeeze S50x64 squeezes_S1x50x64_S50x64
abbrev oRowAt (off : Fin 3 → ℕ) (inb : ∀ a, off a + S1x50x64.size a ≤ S4096x50x64.size a) : Memref sig .scVector .hbm S50x64 .f32 :=
  ((oW).slice (Rect.unit (s := S4096x50x64) off S1x50x64.size inb) (fun _ => rfl)).squeeze S50x64 squeezes_S1x50x64_S50x64

/-- An index word below 100000 names the row of its own value. -/
theorem rowOf_val_of_lt (w : BitVec 32) (h : w.toNat < 100000) : (Cert.Spec.rowOf w).val = w.toNat := by
  have e : w.toInt = (w.toNat : Int) := by
    rw [BitVec.toInt_eq_toNat_cond]
    split
    · rfl
    · rename_i hlt; exfalso; omega
  show min w.toInt.toNat 99999 = w.toNat
  rw [e]
  simp only [Int.toNat_natCast]
  omega

section Values

variable (ft : FVec F S100000x128 .f32) (fi : IVec S128x50 32) (hfi : ∀ y, (fi y).toNat < 100000)

/-- The table row the index scratch names at `[j, l]`. -/
def rowIx (j : Fin 128) (l : Fin 50) : Fin 100000 := ⟨(fi (ix2 j l)).toNat, hfi _⟩

/-- Slot `s`'s window of the row buffer holds the table rows list row `j` names. -/
def WinOK (s : Fin 8) (j : Fin 128) (fb : FVec F S8x56x128 .f32) : Prop :=
  ∀ (l : Fin 50) (e : Fin 128), fb (ix3 s (Fin.castLE (by decide) l : Fin 56) e) = ft (ix2 (rowIx fi hfi j l) e)

/-- Slot `s` of the repacked buffer holds their first 64 lanes. -/
def SlotOK (s : Fin 8) (j : Fin 128) (g : FVec F S8x50x64 .f32) : Prop :=
  ∀ (l : Fin 50) (e : Fin 64), g (ix3 s l e) = ft (ix2 (rowIx fi hfi j l) (Fin.castLE (by decide) e : Fin 128))

/-- Row `128 w + j` of the result holds them. -/
def RowOK (w : Fin 32) (j : Fin 128) (f : FVec F S4096x50x64 .f32) : Prop :=
  ∀ (l : Fin 50) (e : Fin 64), f (ix3 (⟨128 * w.val + j.val, by omega⟩ : Fin 4096) l e) = ft (ix2 (rowIx fi hfi j l) (Fin.castLE (by decide) e : Fin 128))

variable (d : Dev nD) (L : grid2.Coords)

/-- L2. What a gather into slot `s` over list row `j` delivers. -/
theorem win_ok (s : Fin 8) (j : Fin 128) (o : Fin 3 → ℕ) (inbo : ∀ a, o a + S1x50x128.size a ≤ S8x56x128.size a) (ho : o = ![s.val, 0, 0])
    (off : Fin 2 → ℕ) (inb : ∀ a, off a + S1x50.size a ≤ S128x50.size a) (hoff : off = ![j.val, 0])
    (fd : Buf (Elt F) ((bWinAt o inbo).view.loc (thr d L))) (hn) (hin) :
    WinOK ft fi hfi s j ((bWinAt o inbo).view.write (Elt F) fd
      (SparseCore.gatherPayload gathers_S100000x128_S50x128 ((tAll).view.read (Elt F) ft) (SparseCore.rows ((iRowAt off inb).view.read (Elt F) fi) hn hin)) Finset.univ) := by
  subst ho; subst hoff
  intro l e
  have hemb : (bWinAt ![s.val, 0, 0] inbo).view.emb (ix2 l e) = ix3 s (Fin.castLE (by decide) l : Fin 56) e := by
    show (Rect.unit (s := S8x56x128) ![s.val, 0, 0] S1x50x128.size inbo).emb
      (Shape.reshapeEquiv squeezes_S1x50x128_S50x128.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have hlist : (iRowAt ![j.val, 0] inb).view.emb (ix1 l) = ix2 j l := by
    show (Rect.unit (s := S128x50) ![j.val, 0] S1x50.size inb).emb
      (Shape.reshapeEquiv squeezes_S1x50_S50.numel_eq (ix1 l)) = _
    rw [show Shape.reshapeEquiv squeezes_S1x50_S50.numel_eq (ix1 l) = ix2 (⟨0, Nat.one_pos⟩ : Fin 1) l from
      Shape.reshapeEquiv_eq_of_rowMajor _ (by rw [Shape.rowMajor_val_two, Shape.rowMajor_val_one]; show 0 * 50 + l.val = l.val; omega)]
    funext a
    refine Fin.ext ?_
    match a with
    | 0 => show j.val + 1 * 0 = j.val; omega
    | 1 => show 0 + 1 * l.val = l.val; omega
  rw [← hemb, View.write_emb, if_pos (Finset.mem_univ _), cast_eq]
  unfold SparseCore.gatherPayload
  rw [View.read_apply, cast_eq]
  congr 1
  have hrm : S50.rowMajor.symm (l.cast hn.symm) = ix1 l :=
    (Equiv.symm_apply_eq _).mpr (Fin.ext (by rw [Shape.rowMajor_val_one]; rfl))
  funext a
  refine Fin.ext ?_
  match a with
  | 0 =>
    show 0 + 1 * ((gathers_S100000x128_S50x128).idx (SparseCore.rows ((iRowAt ![j.val, 0] inb).view.read (Elt F) fi) hn hin) (ix2 l e) (0 : Fin 2)).val
      = (fi (ix2 j l)).toNat
    rw [show (gathers_S100000x128_S50x128).idx (SparseCore.rows ((iRowAt ![j.val, 0] inb).view.read (Elt F) fi) hn hin) (ix2 l e) (0 : Fin 2)
        = SparseCore.rows ((iRowAt ![j.val, 0] inb).view.read (Elt F) fi) hn hin l from Shape.Gathers.idx_axis _ _ _]
    show 0 + 1 * ((iRowAt ![j.val, 0] inb).view.read (Elt F) fi (S50.rowMajor.symm (l.cast hn.symm))).toNat = (fi (ix2 j l)).toNat
    rw [hrm, View.read_apply, cast_eq, hlist]
    omega
  | 1 =>
    show 0 + 1 * ((gathers_S100000x128_S50x128).idx (SparseCore.rows ((iRowAt ![j.val, 0] inb).view.read (Elt F) fi) hn hin) (ix2 l e) (1 : Fin 2)).val = e.val
    have h1 := Shape.Gathers.idx_of_ne gathers_S100000x128_S50x128
      (SparseCore.rows ((iRowAt ![j.val, 0] inb).view.read (Elt F) fi) hn hin) (ix2 l e) (1 : Fin 2) (by decide)
    rw [h1]
    show 0 + 1 * e.val = e.val
    omega

/-- L3. What the copy of slot `s` out to row `128 w + j` leaves there. -/
theorem row_ok (w : Fin 32) (s : Fin 8) (j : Fin 128) (o : Fin 3 → ℕ) (inbo : ∀ a, o a + S1x50x64.size a ≤ S8x50x64.size a) (ho : o = ![s.val, 0, 0])
    (off : Fin 3 → ℕ) (inb : ∀ a, off a + S1x50x64.size a ≤ S4096x50x64.size a) (hoff : off = ![128 * w.val + j.val, 0, 0])
    (fo : Buf (Elt F) ((oRowAt off inb).view.loc (thr d L))) (gp : Buf (Elt F) ((pWinAt o inbo).view.loc (thr d L)))
    (pay : S50x64.Idx → Elt F .f32) (hpay : pay = ReadAs.same.apply ((pWinAt o inbo).view.read (Elt F) gp))
    (hs : SlotOK ft fi hfi s j gp) :
    RowOK ft fi hfi w j ((oRowAt off inb).view.writes (Elt F) fo [⟨Rect.whole S50x64, pay⟩]) := by
  subst ho; subst hoff; subst hpay
  intro l e
  have hemb : (oRowAt ![128 * w.val + j.val, 0, 0] inb).view.emb (ix2 l e) = ix3 (⟨128 * w.val + j.val, by omega⟩ : Fin 4096) l e := by
    show (Rect.unit (s := S4096x50x64) ![128 * w.val + j.val, 0, 0] S1x50x64.size inb).emb
      (Shape.reshapeEquiv squeezes_S1x50x64_S50x64.numel_eq (ix2 l e)) = _
    rw [reshapeEquiv_ix2_1ab]
    funext a
    refine Fin.ext ?_
    match a with
    | 0 => show 128 * w.val + j.val + 1 * 0 = 128 * w.val + j.val; omega
    | 1 => show 0 + 1 * l.val = l.val; omega
    | 2 => show 0 + 1 * e.val = e.val; omega
  have hembp : (pWinAt ![s.val, 0, 0] inbo).view.emb (ix2 l e) = ix3 s l e := by
    show (Rect.unit (s := S8x50x64) ![s.val, 0, 0] S1x50x64.size inbo).emb
      (Shape.reshapeEquiv squeezes_S1x50x64_S50x64.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have h1 := View.read_writes_cons_emb (v := (oRowAt ![128 * w.val + j.val, 0, 0] inb).view) (f := fo) (Rect.whole S50x64)
    (ReadAs.same.apply ((pWinAt ![s.val, 0, 0] inbo).view.read (Elt F) gp)) [] (ix2 l e)
  rw [Rect.emb_whole_apply, View.read_apply, cast_eq, hemb, ReadAs.apply_same, View.read_apply, cast_eq, hembp] at h1
  rw [h1]
  exact hs l e

end Values

section Idx

variable (m : (ℓ : Loc nD τ sig) → Buf (Elt F) ℓ) (d : Dev nD) (L : grid2.Coords)

/-- L1. The index scratch after the copy holds the task's rows of the index array. -/
theorem fi_eq (fs : Buf (Elt F) ((iW).view.loc (thr d L))) (pay : S128x50.Idx → Elt F .i32)
    (hpay : pay = (catsRowsK L).view.read (Elt F) (m (catsLoc d))) (j : Fin 128) (l : Fin 50) :
    (View.write (Elt F) (iW).view fs pay Finset.univ) (ix2 j l)
      = m (catsLoc d) (ix2 (⟨8192 + (128 * (widL L).val + j.val), by omega⟩ : Fin 16384) l) := by
  subst hpay
  rw [View.write_whole_univ]
  rw [show ∀ y, (catsRowsK L).view.read (Elt F) (m (catsLoc d)) y = m (catsLoc d) ((catsRowsK L).view.emb y) from fun y => (View.read_apply _ _).trans (cast_eq _ _)]
  congr 1
  funext a
  refine Fin.ext ?_
  have hw : (widL L).val = 2 * (L 1).val + (L 0).val := rfl
  match a with
  | 0 =>
    show k2_off1 L 0 + 1 * j.val = 8192 + (128 * (widL L).val + j.val)
    rw [k2_off1_eq, hw]
    show 256 * (L 1).val + 128 * (L 0).val + 8192 + 1 * j.val = 8192 + (128 * (2 * (L 1).val + (L 0).val) + j.val)
    omega
  | 1 =>
    show k2_off1 L 1 + 1 * l.val = l.val
    rw [k2_off1_eq]
    show 0 + 1 * l.val = l.val
    omega

variable (ft : FVec F S100000x128 .f32) (fi : IVec S128x50 32) (hfi : ∀ y, (fi y).toNat < 100000)

/-- The result rows, each at some contents; the first `n` hold the table rows the index scratch names. -/
def outRowsV (w : Fin 32) (n : ℕ) : sProp 𝕄 :=
  bigSep Finset.univ fun j : Fin 128 => iprop(∃ f, ⌜j.val < n → RowOK ft fi hfi w j f⌝ ∗ out2Loc d ↦[rowSet w j]{fullShare} f)

set_option maxHeartbeats 2000000 in
set_option maxRecDepth 8192 in
/-- L4. All 128 rows in: the task's block holds what the claim says. -/
theorem outRowsV_join (hfi_eq : ∀ (j : Fin 128) (l : Fin 50), fi (ix2 j l) = m (catsLoc d) (ix2 (⟨8192 + (128 * (widL L).val + j.val), by omega⟩ : Fin 16384) l))
    (f0 : Buf (Elt F) (out2Loc d)) :
    (outRowsV (F := F) (UU := UU) d ft fi hfi (widL L) 128 : sProp 𝕄)
      ⊢ iprop(∃ f, ⌜GatherBlk (F := F) 2 (widL L) (m (catsLoc d)) ft f⌝ ∗ out2Loc d ↦[blkSet2 (widL L)]{fullShare} f) := by
  haveI : Nonempty (Buf (Elt F) (out2Loc d)) := ⟨f0⟩
  unfold outRowsV
  refine (bigSep_exists_pi Finset.univ (fun j (f : Buf (Elt F) (out2Loc d)) =>
    (iprop(⌜j.val < 128 → RowOK ft fi hfi (widL L) j f⌝ ∗ out2Loc d ↦[rowSet (widL L) j]{fullShare} f) : sProp 𝕄))).trans ?_
  iintro ⟨%fs, H⟩
  ihave H2 := (bigSep_pure_sep Finset.univ (fun j : Fin 128 => j.val < 128 → RowOK ft fi hfi (widL L) j (fs j))
    (fun j : Fin 128 => (out2Loc d ↦[rowSet (widL L) j]{fullShare} fs j : sProp 𝕄))) $$ H
  icases H2 with ⟨%hp, H⟩
  ihave H' := (pointsTo_biUnion_join (ℓ := out2Loc d) (q := fullShare) (Val := Elt F) Finset.univ (rowSet (widL L)) fs f0 (rows_disjoint (widL L))) $$ H
  icases H' with ⟨%g, %hg, Hg⟩
  rw [rows_cover]
  iexists g
  isplitr
  · ipureintro
    intro r l e
    have hm : ix3 (⟨128 * (widL L).val + r.val, by omega⟩ : Fin 4096) l e ∈ rowSet (widL L) r := by
      rw [rowSet_eq, mem_row]
    rw [hg r (Finset.mem_univ r) _ hm, hp r (Finset.mem_univ r) r.isLt l e]
    have hrow : rowIx fi hfi r l
        = Cert.Spec.rowOf (m (catsLoc d) (ix2 (⟨4096 * (2 : Fin 4).val + (128 * (widL L).val + r.val), by omega⟩ : Fin 16384) l)) := by
      refine Fin.ext ?_
      have e0 : (⟨4096 * (2 : Fin 4).val + (128 * (widL L).val + r.val), by omega⟩ : Fin 16384)
          = (⟨8192 + (128 * (widL L).val + r.val), by omega⟩ : Fin 16384) := Fin.ext (by show 4096 * 2 + (128 * (widL L).val + r.val) = 8192 + (128 * (widL L).val + r.val); omega)
      rw [e0, ← hfi_eq r l]
      exact (rowOf_val_of_lt _ (hfi _)).symm
    rw [hrow]
  · iexact Hg

end Idx

end Cert.Proof.Tile2

end
-- ==== Proof.TileRepackVQ2.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon2
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value

noncomputable section

namespace Cert.Proof.Tile2

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

/-! ## One repack trip, as a statement about functions

A trip writes row `k` of slot `s` of the repacked buffer in four stores of sixteen lanes, newest last. If each
store's payload is the target function `G` at the lanes it covers and the rows below `k` held `G` before, the
rows below `k + 1` hold `G` after: a row below `k` is missed by all four stores, and an element of row `k` is
under exactly one of them, at its lane minus the store's lane offset. -/

section PureRepack

variable {sig : RefSig} {κ : Kind} {sp : Space} {e : EltTy} {Val : EltTy → Type}

/-- The sixteen-lane vector's shape. -/
abbrev SChunk : Shape := ⟨3, ![1, 1, 16]⟩

theorem repack_step (vp : View sig κ sp ⟨3, ![8, 50, 64]⟩ e) (gp : vp.ty.Contents Val)
    (G : (⟨3, ![8, 50, 64]⟩ : Shape).Idx → Val e) (s : Fin 8) (k : ℕ) (hk : k < 50)
    {o1 o2 o3 o4 : Fin 3 → ℕ} (h1 : o1 = ![s.val, k, 0]) (h2 : o2 = ![s.val, k, 16]) (h3 : o3 = ![s.val, k, 32])
    (h4 : o4 = ![s.val, k, 48])
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : ∀ x : Fin 16, w1 (ix3 (0 : Fin 1) (0 : Fin 1) x) = G (ix3 s ⟨k, hk⟩ ⟨0 + x.val, by omega⟩))
    (hw2 : ∀ x : Fin 16, w2 (ix3 (0 : Fin 1) (0 : Fin 1) x) = G (ix3 s ⟨k, hk⟩ ⟨16 + x.val, by omega⟩))
    (hw3 : ∀ x : Fin 16, w3 (ix3 (0 : Fin 1) (0 : Fin 1) x) = G (ix3 s ⟨k, hk⟩ ⟨32 + x.val, by omega⟩))
    (hw4 : ∀ x : Fin 16, w4 (ix3 (0 : Fin 1) (0 : Fin 1) x) = G (ix3 s ⟨k, hk⟩ ⟨48 + x.val, by omega⟩))
    (hprev : ∀ (r : Fin 50) (x : Fin 64), r.val < k → vp.read Val gp (ix3 s r x) = G (ix3 s r x)) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x) = G (ix3 s r x) := by
  intro r x hr
  by_cases hlt : r.val < k
  · rw [View.read_writes_cons_unit_of_not_mem vp gp i4 w4 _ (ix3 s r x) h4 (1 : Fin 3) (Or.inl hlt),
      View.read_writes_cons_unit_of_not_mem vp gp i3 w3 _ (ix3 s r x) h3 (1 : Fin 3) (Or.inl hlt),
      View.read_writes_cons_unit_of_not_mem vp gp i2 w2 _ (ix3 s r x) h2 (1 : Fin 3) (Or.inl hlt),
      View.read_writes_cons_unit_of_not_mem vp gp i1 w1 _ (ix3 s r x) h1 (1 : Fin 3) (Or.inl hlt), View.writes_nil]
    exact hprev r x hlt
  · have hrk : r.val = k := by omega
    have hx := x.isLt
    have tgt : ∀ (c : ℕ) (hc : c + 16 ≤ 64) (hcx : c ≤ x.val) (hxc : x.val < c + 16),
        G (ix3 s ⟨k, hk⟩ (⟨c + (x.val - c), by omega⟩ : Fin 64)) = G (ix3 s r x) := fun c hc hcx hxc =>
      congrArg G (by
        have e1 : (⟨k, hk⟩ : Fin 50) = r := Fin.ext hrk.symm
        have e2 : (⟨c + (x.val - c), by omega⟩ : Fin 64) = x := Fin.ext (by show c + (x.val - c) = x.val; omega)
        rw [e1, e2])
    by_cases c4 : 48 ≤ x.val
    · rw [View.read_writes_cons_unit_of_mem vp gp i4 w4 _ (ix3 s r x) (ix3 (0 : Fin 1) (0 : Fin 1) (⟨x.val - 48, by omega⟩ : Fin 16)) h4
        (fun a => by
          match a with
          | ⟨0, _⟩ => show s.val = s.val + 0; omega
          | ⟨1, _⟩ => show r.val = k + 0; omega
          | ⟨2, _⟩ => show x.val = 48 + (x.val - 48); omega)]
      exact (hw4 _).trans (tgt 48 (by omega) c4 (by omega))
    · rw [View.read_writes_cons_unit_of_not_mem vp gp i4 w4 _ (ix3 s r x) h4 (2 : Fin 3) (Or.inl (by show x.val < 48; omega))]
      by_cases c3 : 32 ≤ x.val
      · rw [View.read_writes_cons_unit_of_mem vp gp i3 w3 _ (ix3 s r x) (ix3 (0 : Fin 1) (0 : Fin 1) (⟨x.val - 32, by omega⟩ : Fin 16)) h3
          (fun a => by
            match a with
            | ⟨0, _⟩ => show s.val = s.val + 0; omega
            | ⟨1, _⟩ => show r.val = k + 0; omega
            | ⟨2, _⟩ => show x.val = 32 + (x.val - 32); omega)]
        exact (hw3 _).trans (tgt 32 (by omega) c3 (by omega))
      · rw [View.read_writes_cons_unit_of_not_mem vp gp i3 w3 _ (ix3 s r x) h3 (2 : Fin 3) (Or.inl (by show x.val < 32; omega))]
        by_cases c2 : 16 ≤ x.val
        · rw [View.read_writes_cons_unit_of_mem vp gp i2 w2 _ (ix3 s r x) (ix3 (0 : Fin 1) (0 : Fin 1) (⟨x.val - 16, by omega⟩ : Fin 16)) h2
            (fun a => by
              match a with
              | ⟨0, _⟩ => show s.val = s.val + 0; omega
              | ⟨1, _⟩ => show r.val = k + 0; omega
              | ⟨2, _⟩ => show x.val = 16 + (x.val - 16); omega)]
          exact (hw2 _).trans (tgt 16 (by omega) c2 (by omega))
        · rw [View.read_writes_cons_unit_of_not_mem vp gp i2 w2 _ (ix3 s r x) h2 (2 : Fin 3) (Or.inl (by show x.val < 16; omega))]
          rw [View.read_writes_cons_unit_of_mem vp gp i1 w1 _ (ix3 s r x) (ix3 (0 : Fin 1) (0 : Fin 1) (⟨x.val - 0, by omega⟩ : Fin 16)) h1
            (fun a => by
              match a with
              | ⟨0, _⟩ => show s.val = s.val + 0; omega
              | ⟨1, _⟩ => show r.val = k + 0; omega
              | ⟨2, _⟩ => show x.val = 0 + (x.val - 0); omega)]
          exact (hw1 _).trans (tgt 0 (by omega) (by omega) (by omega))

/-- A sixteen-lane load of row `k` of slot `s` of the row buffer at lane offset `c`, read at lane `x`. -/
theorem read_chunk (vb : View sig κ sp ⟨3, ![8, 56, 128]⟩ e) (fb : vb.ty.Contents Val) {o : Fin 3 → ℕ} (s : Fin 8) (k c : ℕ)
    (hk : k < 56) (hc : c + 16 ≤ 128) (ho : o = ![s.val, k, c])
    (i : ∀ a, o a + SChunk.size a ≤ (⟨3, ![8, 56, 128]⟩ : Shape).size a) (x : Fin 16) :
    vb.readAt Val (Rect.unit (s := ⟨3, ![8, 56, 128]⟩) o SChunk.size i).toLoadRect fb (ix3 (0 : Fin 1) (0 : Fin 1) x)
      = vb.read Val fb (ix3 s (⟨k, hk⟩ : Fin 56) (⟨c + x.val, by omega⟩ : Fin 128)) := by
  subst ho
  rw [View.readAt_apply]
  refine congrArg (vb.read Val fb) (funext fun a => Fin.ext ?_)
  match a with
  | ⟨0, _⟩ => show s.val + 1 * 0 = s.val; omega
  | ⟨1, _⟩ => show k + 1 * 0 = k; omega
  | ⟨2, _⟩ => show c + 1 * x.val = c + x.val; omega

/-- One repack trip: the four stores' payloads are the four sixteen-lane loads of row `k` of slot `s` of the row
    buffer, so the rows below `k + 1` of slot `s` of the repacked buffer hold the row buffer's first 64 lanes. -/
theorem repack_trip {κ' : Kind} {sp' : Space} (vp : View sig κ sp ⟨3, ![8, 50, 64]⟩ e) (vb : View sig κ' sp' ⟨3, ![8, 56, 128]⟩ e)
    (gp : vp.ty.Contents Val) (fb : vb.ty.Contents Val) (s : Fin 8) (k : ℕ) (hk : k < 50)
    {ob1 ob2 ob3 ob4 o1 o2 o3 o4 : Fin 3 → ℕ}
    (hb1 : ob1 = ![s.val, k, 0]) (hb2 : ob2 = ![s.val, k, 16]) (hb3 : ob3 = ![s.val, k, 32]) (hb4 : ob4 = ![s.val, k, 48])
    (h1 : o1 = ![s.val, k, 0]) (h2 : o2 = ![s.val, k, 16]) (h3 : o3 = ![s.val, k, 32]) (h4 : o4 = ![s.val, k, 48])
    (ib1 : ∀ a, ob1 a + SChunk.size a ≤ (⟨3, ![8, 56, 128]⟩ : Shape).size a)
    (ib2 : ∀ a, ob2 a + SChunk.size a ≤ (⟨3, ![8, 56, 128]⟩ : Shape).size a)
    (ib3 : ∀ a, ob3 a + SChunk.size a ≤ (⟨3, ![8, 56, 128]⟩ : Shape).size a)
    (ib4 : ∀ a, ob4 a + SChunk.size a ≤ (⟨3, ![8, 56, 128]⟩ : Shape).size a)
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : w1 = vb.readAt Val (Rect.unit (s := ⟨3, ![8, 56, 128]⟩) ob1 SChunk.size ib1).toLoadRect fb)
    (hw2 : w2 = vb.readAt Val (Rect.unit (s := ⟨3, ![8, 56, 128]⟩) ob2 SChunk.size ib2).toLoadRect fb)
    (hw3 : w3 = vb.readAt Val (Rect.unit (s := ⟨3, ![8, 56, 128]⟩) ob3 SChunk.size ib3).toLoadRect fb)
    (hw4 : w4 = vb.readAt Val (Rect.unit (s := ⟨3, ![8, 56, 128]⟩) ob4 SChunk.size ib4).toLoadRect fb)
    (hprev : ∀ (r : Fin 50) (x : Fin 64), r.val < k →
      vp.read Val gp (ix3 s r x) = vb.read Val fb (ix3 s (Fin.castLE (by decide) r : Fin 56) (Fin.castLE (by decide) x : Fin 128))) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x)
        = vb.read Val fb (ix3 s (Fin.castLE (by decide) r : Fin 56) (Fin.castLE (by decide) x : Fin 128)) := by
  subst hw1 hw2 hw3 hw4
  exact repack_step vp gp
    (fun y => vb.read Val fb (ix3 (y 0 : Fin 8) (Fin.castLE (by decide) (y 1 : Fin 50) : Fin 56) (Fin.castLE (by decide) (y 2 : Fin 64) : Fin 128)))
    s k hk h1 h2 h3 h4 i1 i2 i3 i4 _ _ _ _
    (fun x => read_chunk vb fb s k 0 (by omega) (by omega) hb1 ib1 x)
    (fun x => read_chunk vb fb s k 16 (by omega) (by omega) hb2 ib2 x)
    (fun x => read_chunk vb fb s k 32 (by omega) (by omega) hb3 ib3 x)
    (fun x => read_chunk vb fb s k 48 (by omega) (by omega) hb4 ib4 x)
    hprev

end PureRepack

section RepackV

variable (d : Dev nD) (L : grid2.Coords)

/-- Slot 0 between two repack trips: the row window at the fixed contents `fb`, slot 0 of the repacked buffer at some
    contents whose rows below `k` are `fb`'s first 64 lanes. -/
def RInvV0 (fb : Buf (Elt F) ((bWin0).view.loc (thr d L))) (k : ℕ) (_ : Unit) : sProp 𝕄 :=
  iprop(((bWin0).view.loc (thr d L) ↦[(bWin0).view.set]{fullShare} fb)
    ∗ ∃ g, ((pWin0).view.loc (thr d L) ↦[(pWin0).view.set]{fullShare} g)
        ∗ ⌜∀ (r : Fin 50) (e : Fin 64), r.val < k → g (ix3 (0 : Fin 8) r e) = fb (ix3 (0 : Fin 8) (Fin.castLE (by decide) r : Fin 56) (Fin.castLE (by decide) e : Fin 128))⌝)

/-- Slot 1 between two repack trips: the row window at the fixed contents `fb`, slot 1 of the repacked buffer at some
    contents whose rows below `k` are `fb`'s first 64 lanes. -/
def RInvV1 (fb : Buf (Elt F) ((bWin1).view.loc (thr d L))) (k : ℕ) (_ : Unit) : sProp 𝕄 :=
  iprop(((bWin1).view.loc (thr d L) ↦[(bWin1).view.set]{fullShare} fb)
    ∗ ∃ g, ((pWin1).view.loc (thr d L) ↦[(pWin1).view.set]{fullShare} g)
        ∗ ⌜∀ (r : Fin 50) (e : Fin 64), r.val < k → g (ix3 (1 : Fin 8) r e) = fb (ix3 (1 : Fin 8) (Fin.castLE (by decide) r : Fin 56) (Fin.castLE (by decide) e : Fin 128))⌝)

/-- Slot 2 between two repack trips: the row window at the fixed contents `fb`, slot 2 of the repacked buffer at some
    contents whose rows below `k` are `fb`'s first 64 lanes. -/
def RInvV2 (fb : Buf (Elt F) ((bWin2).view.loc (thr d L))) (k : ℕ) (_ : Unit) : sProp 𝕄 :=
  iprop(((bWin2).view.loc (thr d L) ↦[(bWin2).view.set]{fullShare} fb)
    ∗ ∃ g, ((pWin2).view.loc (thr d L) ↦[(pWin2).view.set]{fullShare} g)
        ∗ ⌜∀ (r : Fin 50) (e : Fin 64), r.val < k → g (ix3 (2 : Fin 8) r e) = fb (ix3 (2 : Fin 8) (Fin.castLE (by decide) r : Fin 56) (Fin.castLE (by decide) e : Fin 128))⌝)

/-- Slot 3 between two repack trips: the row window at the fixed contents `fb`, slot 3 of the repacked buffer at some
    contents whose rows below `k` are `fb`'s first 64 lanes. -/
def RInvV3 (fb : Buf (Elt F) ((bWin3).view.loc (thr d L))) (k : ℕ) (_ : Unit) : sProp 𝕄 :=
  iprop(((bWin3).view.loc (thr d L) ↦[(bWin3).view.set]{fullShare} fb)
    ∗ ∃ g, ((pWin3).view.loc (thr d L) ↦[(pWin3).view.set]{fullShare} g)
        ∗ ⌜∀ (r : Fin 50) (e : Fin 64), r.val < k → g (ix3 (3 : Fin 8) r e) = fb (ix3 (3 : Fin 8) (Fin.castLE (by decide) r : Fin 56) (Fin.castLE (by decide) e : Fin 128))⌝)

/-- Slot 4 between two repack trips: the row window at the fixed contents `fb`, slot 4 of the repacked buffer at some
    contents whose rows below `k` are `fb`'s first 64 lanes. -/
def RInvV4 (fb : Buf (Elt F) ((bWin4).view.loc (thr d L))) (k : ℕ) (_ : Unit) : sProp 𝕄 :=
  iprop(((bWin4).view.loc (thr d L) ↦[(bWin4).view.set]{fullShare} fb)
    ∗ ∃ g, ((pWin4).view.loc (thr d L) ↦[(pWin4).view.set]{fullShare} g)
        ∗ ⌜∀ (r : Fin 50) (e : Fin 64), r.val < k → g (ix3 (4 : Fin 8) r e) = fb (ix3 (4 : Fin 8) (Fin.castLE (by decide) r : Fin 56) (Fin.castLE (by decide) e : Fin 128))⌝)

/-- Slot 5 between two repack trips: the row window at the fixed contents `fb`, slot 5 of the repacked buffer at some
    contents whose rows below `k` are `fb`'s first 64 lanes. -/
def RInvV5 (fb : Buf (Elt F) ((bWin5).view.loc (thr d L))) (k : ℕ) (_ : Unit) : sProp 𝕄 :=
  iprop(((bWin5).view.loc (thr d L) ↦[(bWin5).view.set]{fullShare} fb)
    ∗ ∃ g, ((pWin5).view.loc (thr d L) ↦[(pWin5).view.set]{fullShare} g)
        ∗ ⌜∀ (r : Fin 50) (e : Fin 64), r.val < k → g (ix3 (5 : Fin 8) r e) = fb (ix3 (5 : Fin 8) (Fin.castLE (by decide) r : Fin 56) (Fin.castLE (by decide) e : Fin 128))⌝)

/-- Slot 6 between two repack trips: the row window at the fixed contents `fb`, slot 6 of the repacked buffer at some
    contents whose rows below `k` are `fb`'s first 64 lanes. -/
def RInvV6 (fb : Buf (Elt F) ((bWin6).view.loc (thr d L))) (k : ℕ) (_ : Unit) : sProp 𝕄 :=
  iprop(((bWin6).view.loc (thr d L) ↦[(bWin6).view.set]{fullShare} fb)
    ∗ ∃ g, ((pWin6).view.loc (thr d L) ↦[(pWin6).view.set]{fullShare} g)
        ∗ ⌜∀ (r : Fin 50) (e : Fin 64), r.val < k → g (ix3 (6 : Fin 8) r e) = fb (ix3 (6 : Fin 8) (Fin.castLE (by decide) r : Fin 56) (Fin.castLE (by decide) e : Fin 128))⌝)

/-- Slot 7 between two repack trips: the row window at the fixed contents `fb`, slot 7 of the repacked buffer at some
    contents whose rows below `k` are `fb`'s first 64 lanes. -/
def RInvV7 (fb : Buf (Elt F) ((bWin7).view.loc (thr d L))) (k : ℕ) (_ : Unit) : sProp 𝕄 :=
  iprop(((bWin7).view.loc (thr d L) ↦[(bWin7).view.set]{fullShare} fb)
    ∗ ∃ g, ((pWin7).view.loc (thr d L) ↦[(pWin7).view.set]{fullShare} g)
        ∗ ⌜∀ (r : Fin 50) (e : Fin 64), r.val < k → g (ix3 (7 : Fin 8) r e) = fb (ix3 (7 : Fin 8) (Fin.castLE (by decide) r : Fin 56) (Fin.castLE (by decide) e : Fin 128))⌝)

variable [FloatOps F]

theorem k2_pay1_eq (v : Vec F S1x1x16 .f32) : k2_pay1 v = v := by unfold k2_pay1; dsimp only; rw [shapeCast_shapeCast]
theorem k2_pay2_eq (v : Vec F S1x1x16 .f32) : k2_pay2 v = v := by unfold k2_pay2; dsimp only; rw [shapeCast_shapeCast]
theorem k2_pay3_eq (v : Vec F S1x1x16 .f32) : k2_pay3 v = v := by unfold k2_pay3; dsimp only; rw [shapeCast_shapeCast]
theorem k2_pay4_eq (v : Vec F S1x1x16 .f32) : k2_pay4 v = v := by unfold k2_pay4; dsimp only; rw [shapeCast_shapeCast]
theorem k2_pay5_eq (v : Vec F S1x1x16 .f32) : k2_pay5 v = v := by unfold k2_pay5; dsimp only; rw [shapeCast_shapeCast]
theorem k2_pay6_eq (v : Vec F S1x1x16 .f32) : k2_pay6 v = v := by unfold k2_pay6; dsimp only; rw [shapeCast_shapeCast]
theorem k2_pay7_eq (v : Vec F S1x1x16 .f32) : k2_pay7 v = v := by unfold k2_pay7; dsimp only; rw [shapeCast_shapeCast]
theorem k2_pay8_eq (v : Vec F S1x1x16 .f32) : k2_pay8 v = v := by unfold k2_pay8; dsimp only; rw [shapeCast_shapeCast]
theorem k2_pay9_eq (v : Vec F S1x1x16 .f32) : k2_pay9 v = v := by unfold k2_pay9; dsimp only; rw [shapeCast_shapeCast]
theorem k2_pay10_eq (v : Vec F S1x1x16 .f32) : k2_pay10 v = v := by unfold k2_pay10; dsimp only; rw [shapeCast_shapeCast]
theorem k2_pay11_eq (v : Vec F S1x1x16 .f32) : k2_pay11 v = v := by unfold k2_pay11; dsimp only; rw [shapeCast_shapeCast]
theorem k2_pay12_eq (v : Vec F S1x1x16 .f32) : k2_pay12 v = v := by unfold k2_pay12; dsimp only; rw [shapeCast_shapeCast]
theorem k2_pay13_eq (v : Vec F S1x1x16 .f32) : k2_pay13 v = v := by unfold k2_pay13; dsimp only; rw [shapeCast_shapeCast]
theorem k2_pay14_eq (v : Vec F S1x1x16 .f32) : k2_pay14 v = v := by unfold k2_pay14; dsimp only; rw [shapeCast_shapeCast]
theorem k2_pay15_eq (v : Vec F S1x1x16 .f32) : k2_pay15 v = v := by unfold k2_pay15; dsimp only; rw [shapeCast_shapeCast]
theorem k2_pay16_eq (v : Vec F S1x1x16 .f32) : k2_pay16 v = v := by unfold k2_pay16; dsimp only; rw [shapeCast_shapeCast]
theorem k2_pay17_eq (v : Vec F S1x1x16 .f32) : k2_pay17 v = v := by unfold k2_pay17; dsimp only; rw [shapeCast_shapeCast]
theorem k2_pay18_eq (v : Vec F S1x1x16 .f32) : k2_pay18 v = v := by unfold k2_pay18; dsimp only; rw [shapeCast_shapeCast]
theorem k2_pay19_eq (v : Vec F S1x1x16 .f32) : k2_pay19 v = v := by unfold k2_pay19; dsimp only; rw [shapeCast_shapeCast]
theorem k2_pay20_eq (v : Vec F S1x1x16 .f32) : k2_pay20 v = v := by unfold k2_pay20; dsimp only; rw [shapeCast_shapeCast]
theorem k2_pay21_eq (v : Vec F S1x1x16 .f32) : k2_pay21 v = v := by unfold k2_pay21; dsimp only; rw [shapeCast_shapeCast]
theorem k2_pay22_eq (v : Vec F S1x1x16 .f32) : k2_pay22 v = v := by unfold k2_pay22; dsimp only; rw [shapeCast_shapeCast]
theorem k2_pay23_eq (v : Vec F S1x1x16 .f32) : k2_pay23 v = v := by unfold k2_pay23; dsimp only; rw [shapeCast_shapeCast]
theorem k2_pay24_eq (v : Vec F S1x1x16 .f32) : k2_pay24 v = v := by unfold k2_pay24; dsimp only; rw [shapeCast_shapeCast]
theorem k2_pay25_eq (v : Vec F S1x1x16 .f32) : k2_pay25 v = v := by unfold k2_pay25; dsimp only; rw [shapeCast_shapeCast]
theorem k2_pay26_eq (v : Vec F S1x1x16 .f32) : k2_pay26 v = v := by unfold k2_pay26; dsimp only; rw [shapeCast_shapeCast]
theorem k2_pay27_eq (v : Vec F S1x1x16 .f32) : k2_pay27 v = v := by unfold k2_pay27; dsimp only; rw [shapeCast_shapeCast]
theorem k2_pay28_eq (v : Vec F S1x1x16 .f32) : k2_pay28 v = v := by unfold k2_pay28; dsimp only; rw [shapeCast_shapeCast]
theorem k2_pay29_eq (v : Vec F S1x1x16 .f32) : k2_pay29 v = v := by unfold k2_pay29; dsimp only; rw [shapeCast_shapeCast]
theorem k2_pay30_eq (v : Vec F S1x1x16 .f32) : k2_pay30 v = v := by unfold k2_pay30; dsimp only; rw [shapeCast_shapeCast]
theorem k2_pay31_eq (v : Vec F S1x1x16 .f32) : k2_pay31 v = v := by unfold k2_pay31; dsimp only; rw [shapeCast_shapeCast]
theorem k2_pay32_eq (v : Vec F S1x1x16 .f32) : k2_pay32 v = v := by unfold k2_pay32; dsimp only; rw [shapeCast_shapeCast]

set_option maxHeartbeats 1000000 in
theorem repackV2 (v2 : BitVec 32) (c0_i32_51 : BitVec 32) (c1_i32_52 : BitVec 32) (k2_t1 : Fin k2_t1_loop.trips)
    (fb : Buf (Elt F) ((bWin0).view.loc (thr d L))) (k : Fin k2_t2_loop.trips) (u : Unit) :
    (RInvV0 d L fb k.val u : sProp 𝕄) ⊢ wp frame (wpE (defs₀ (F := F)) 𝒱₀ (thr d L) none) Set.univ
        (k2_t2_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 c0_i32_51 c1_i32_52 k2_t1 k u) (RInvV0 d L fb (k.val + 1)) := by
  unfold k2_t2_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (0 : Fin 8) k.val hk
    (k2_off3_eq k) (k2_off5_eq k) (k2_off7_eq k) (k2_off9_eq k)
    (k2_off4_eq k) (k2_off6_eq k) (k2_off8_eq k) (k2_off10_eq k)
    (k2_off3_inb k) (k2_off5_inb k) (k2_off7_inb k) (k2_off9_inb k)
    (k2_off4_inb k) (k2_off6_inb k) (k2_off8_inb k) (k2_off10_inb k)
    (k2_pay1 (View.readAt (Elt F) (View.whole (cc2_scratch1 : Ref sig .scVector)) (Rect.unit (s := S8x56x128) (k2_off3 k) S1x1x16.size (k2_off3_inb k)).toLoadRect fb))
    (k2_pay2 (View.readAt (Elt F) (View.whole (cc2_scratch1 : Ref sig .scVector)) (Rect.unit (s := S8x56x128) (k2_off5 k) S1x1x16.size (k2_off5_inb k)).toLoadRect fb))
    (k2_pay3 (View.readAt (Elt F) (View.whole (cc2_scratch1 : Ref sig .scVector)) (Rect.unit (s := S8x56x128) (k2_off7 k) S1x1x16.size (k2_off7_inb k)).toLoadRect fb))
    (k2_pay4 (View.readAt (Elt F) (View.whole (cc2_scratch1 : Ref sig .scVector)) (Rect.unit (s := S8x56x128) (k2_off9 k) S1x1x16.size (k2_off9_inb k)).toLoadRect fb))
    (k2_pay1_eq _) (k2_pay2_eq _) (k2_pay3_eq _) (k2_pay4_eq _) hrep

theorem trips2 : k2_t2_loop.trips = 50 := rfl

/-- After loop `k2_t2` every row of slot 0 is repacked. -/
theorem repackV2_done (fb : Buf (Elt F) ((bWin0).view.loc (thr d L))) (g : Buf (Elt F) ((pWin0).view.loc (thr d L)))
    (h : ∀ (r : Fin 50) (e : Fin 64), r.val < k2_t2_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips2]; exact r.isLt)

set_option maxHeartbeats 1000000 in
theorem repackV3 (v2 : BitVec 32) (k2_t1 : Fin k2_t1_loop.trips) (arg24 : BitVec 32) (v255 : BitVec 32)
    (fb : Buf (Elt F) ((bWin1).view.loc (thr d L))) (k : Fin k2_t3_loop.trips) (u : Unit) :
    (RInvV1 d L fb k.val u : sProp 𝕄) ⊢ wp frame (wpE (defs₀ (F := F)) 𝒱₀ (thr d L) none) Set.univ
        (k2_t3_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v255 k u) (RInvV1 d L fb (k.val + 1)) := by
  unfold k2_t3_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (1 : Fin 8) k.val hk
    (k2_off12_eq k) (k2_off14_eq k) (k2_off16_eq k) (k2_off18_eq k)
    (k2_off13_eq k) (k2_off15_eq k) (k2_off17_eq k) (k2_off19_eq k)
    (k2_off12_inb k) (k2_off14_inb k) (k2_off16_inb k) (k2_off18_inb k)
    (k2_off13_inb k) (k2_off15_inb k) (k2_off17_inb k) (k2_off19_inb k)
    (k2_pay5 (View.readAt (Elt F) (View.whole (cc2_scratch1 : Ref sig .scVector)) (Rect.unit (s := S8x56x128) (k2_off12 k) S1x1x16.size (k2_off12_inb k)).toLoadRect fb))
    (k2_pay6 (View.readAt (Elt F) (View.whole (cc2_scratch1 : Ref sig .scVector)) (Rect.unit (s := S8x56x128) (k2_off14 k) S1x1x16.size (k2_off14_inb k)).toLoadRect fb))
    (k2_pay7 (View.readAt (Elt F) (View.whole (cc2_scratch1 : Ref sig .scVector)) (Rect.unit (s := S8x56x128) (k2_off16 k) S1x1x16.size (k2_off16_inb k)).toLoadRect fb))
    (k2_pay8 (View.readAt (Elt F) (View.whole (cc2_scratch1 : Ref sig .scVector)) (Rect.unit (s := S8x56x128) (k2_off18 k) S1x1x16.size (k2_off18_inb k)).toLoadRect fb))
    (k2_pay5_eq _) (k2_pay6_eq _) (k2_pay7_eq _) (k2_pay8_eq _) hrep

theorem trips3 : k2_t3_loop.trips = 50 := rfl

/-- After loop `k2_t3` every row of slot 1 is repacked. -/
theorem repackV3_done (fb : Buf (Elt F) ((bWin1).view.loc (thr d L))) (g : Buf (Elt F) ((pWin1).view.loc (thr d L)))
    (h : ∀ (r : Fin 50) (e : Fin 64), r.val < k2_t3_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips3]; exact r.isLt)

set_option maxHeartbeats 1000000 in
theorem repackV4 (v2 : BitVec 32) (k2_t1 : Fin k2_t1_loop.trips) (arg24 : BitVec 32) (v255 : BitVec 32)
    (fb : Buf (Elt F) ((bWin2).view.loc (thr d L))) (k : Fin k2_t4_loop.trips) (u : Unit) :
    (RInvV2 d L fb k.val u : sProp 𝕄) ⊢ wp frame (wpE (defs₀ (F := F)) 𝒱₀ (thr d L) none) Set.univ
        (k2_t4_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v255 k u) (RInvV2 d L fb (k.val + 1)) := by
  unfold k2_t4_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (2 : Fin 8) k.val hk
    (k2_off20_eq k) (k2_off22_eq k) (k2_off24_eq k) (k2_off26_eq k)
    (k2_off21_eq k) (k2_off23_eq k) (k2_off25_eq k) (k2_off27_eq k)
    (k2_off20_inb k) (k2_off22_inb k) (k2_off24_inb k) (k2_off26_inb k)
    (k2_off21_inb k) (k2_off23_inb k) (k2_off25_inb k) (k2_off27_inb k)
    (k2_pay9 (View.readAt (Elt F) (View.whole (cc2_scratch1 : Ref sig .scVector)) (Rect.unit (s := S8x56x128) (k2_off20 k) S1x1x16.size (k2_off20_inb k)).toLoadRect fb))
    (k2_pay10 (View.readAt (Elt F) (View.whole (cc2_scratch1 : Ref sig .scVector)) (Rect.unit (s := S8x56x128) (k2_off22 k) S1x1x16.size (k2_off22_inb k)).toLoadRect fb))
    (k2_pay11 (View.readAt (Elt F) (View.whole (cc2_scratch1 : Ref sig .scVector)) (Rect.unit (s := S8x56x128) (k2_off24 k) S1x1x16.size (k2_off24_inb k)).toLoadRect fb))
    (k2_pay12 (View.readAt (Elt F) (View.whole (cc2_scratch1 : Ref sig .scVector)) (Rect.unit (s := S8x56x128) (k2_off26 k) S1x1x16.size (k2_off26_inb k)).toLoadRect fb))
    (k2_pay9_eq _) (k2_pay10_eq _) (k2_pay11_eq _) (k2_pay12_eq _) hrep

theorem trips4 : k2_t4_loop.trips = 50 := rfl

/-- After loop `k2_t4` every row of slot 2 is repacked. -/
theorem repackV4_done (fb : Buf (Elt F) ((bWin2).view.loc (thr d L))) (g : Buf (Elt F) ((pWin2).view.loc (thr d L)))
    (h : ∀ (r : Fin 50) (e : Fin 64), r.val < k2_t4_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips4]; exact r.isLt)

set_option maxHeartbeats 1000000 in
theorem repackV5 (v2 : BitVec 32) (k2_t1 : Fin k2_t1_loop.trips) (arg24 : BitVec 32)
    (fb : Buf (Elt F) ((bWin3).view.loc (thr d L))) (k : Fin k2_t5_loop.trips) (u : Unit) :
    (RInvV3 d L fb k.val u : sProp 𝕄) ⊢ wp frame (wpE (defs₀ (F := F)) 𝒱₀ (thr d L) none) Set.univ
        (k2_t5_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 k u) (RInvV3 d L fb (k.val + 1)) := by
  unfold k2_t5_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (3 : Fin 8) k.val hk
    (k2_off28_eq k) (k2_off30_eq k) (k2_off32_eq k) (k2_off34_eq k)
    (k2_off29_eq k) (k2_off31_eq k) (k2_off33_eq k) (k2_off35_eq k)
    (k2_off28_inb k) (k2_off30_inb k) (k2_off32_inb k) (k2_off34_inb k)
    (k2_off29_inb k) (k2_off31_inb k) (k2_off33_inb k) (k2_off35_inb k)
    (k2_pay13 (View.readAt (Elt F) (View.whole (cc2_scratch1 : Ref sig .scVector)) (Rect.unit (s := S8x56x128) (k2_off28 k) S1x1x16.size (k2_off28_inb k)).toLoadRect fb))
    (k2_pay14 (View.readAt (Elt F) (View.whole (cc2_scratch1 : Ref sig .scVector)) (Rect.unit (s := S8x56x128) (k2_off30 k) S1x1x16.size (k2_off30_inb k)).toLoadRect fb))
    (k2_pay15 (View.readAt (Elt F) (View.whole (cc2_scratch1 : Ref sig .scVector)) (Rect.unit (s := S8x56x128) (k2_off32 k) S1x1x16.size (k2_off32_inb k)).toLoadRect fb))
    (k2_pay16 (View.readAt (Elt F) (View.whole (cc2_scratch1 : Ref sig .scVector)) (Rect.unit (s := S8x56x128) (k2_off34 k) S1x1x16.size (k2_off34_inb k)).toLoadRect fb))
    (k2_pay13_eq _) (k2_pay14_eq _) (k2_pay15_eq _) (k2_pay16_eq _) hrep

theorem trips5 : k2_t5_loop.trips = 50 := rfl

/-- After loop `k2_t5` every row of slot 3 is repacked. -/
theorem repackV5_done (fb : Buf (Elt F) ((bWin3).view.loc (thr d L))) (g : Buf (Elt F) ((pWin3).view.loc (thr d L)))
    (h : ∀ (r : Fin 50) (e : Fin 64), r.val < k2_t5_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips5]; exact r.isLt)

set_option maxHeartbeats 1000000 in
theorem repackV6 (v2 : BitVec 32) (k2_t1 : Fin k2_t1_loop.trips) (arg24 : BitVec 32) (v306 : BitVec 32)
    (fb : Buf (Elt F) ((bWin4).view.loc (thr d L))) (k : Fin k2_t6_loop.trips) (u : Unit) :
    (RInvV4 d L fb k.val u : sProp 𝕄) ⊢ wp frame (wpE (defs₀ (F := F)) 𝒱₀ (thr d L) none) Set.univ
        (k2_t6_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v306 k u) (RInvV4 d L fb (k.val + 1)) := by
  unfold k2_t6_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (4 : Fin 8) k.val hk
    (k2_off36_eq k) (k2_off38_eq k) (k2_off40_eq k) (k2_off42_eq k)
    (k2_off37_eq k) (k2_off39_eq k) (k2_off41_eq k) (k2_off43_eq k)
    (k2_off36_inb k) (k2_off38_inb k) (k2_off40_inb k) (k2_off42_inb k)
    (k2_off37_inb k) (k2_off39_inb k) (k2_off41_inb k) (k2_off43_inb k)
    (k2_pay17 (View.readAt (Elt F) (View.whole (cc2_scratch1 : Ref sig .scVector)) (Rect.unit (s := S8x56x128) (k2_off36 k) S1x1x16.size (k2_off36_inb k)).toLoadRect fb))
    (k2_pay18 (View.readAt (Elt F) (View.whole (cc2_scratch1 : Ref sig .scVector)) (Rect.unit (s := S8x56x128) (k2_off38 k) S1x1x16.size (k2_off38_inb k)).toLoadRect fb))
    (k2_pay19 (View.readAt (Elt F) (View.whole (cc2_scratch1 : Ref sig .scVector)) (Rect.unit (s := S8x56x128) (k2_off40 k) S1x1x16.size (k2_off40_inb k)).toLoadRect fb))
    (k2_pay20 (View.readAt (Elt F) (View.whole (cc2_scratch1 : Ref sig .scVector)) (Rect.unit (s := S8x56x128) (k2_off42 k) S1x1x16.size (k2_off42_inb k)).toLoadRect fb))
    (k2_pay17_eq _) (k2_pay18_eq _) (k2_pay19_eq _) (k2_pay20_eq _) hrep

theorem trips6 : k2_t6_loop.trips = 50 := rfl

/-- After loop `k2_t6` every row of slot 4 is repacked. -/
theorem repackV6_done (fb : Buf (Elt F) ((bWin4).view.loc (thr d L))) (g : Buf (Elt F) ((pWin4).view.loc (thr d L)))
    (h : ∀ (r : Fin 50) (e : Fin 64), r.val < k2_t6_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips6]; exact r.isLt)

set_option maxHeartbeats 1000000 in
theorem repackV7 (v2 : BitVec 32) (k2_t1 : Fin k2_t1_loop.trips) (arg24 : BitVec 32) (v306 : BitVec 32)
    (fb : Buf (Elt F) ((bWin5).view.loc (thr d L))) (k : Fin k2_t7_loop.trips) (u : Unit) :
    (RInvV5 d L fb k.val u : sProp 𝕄) ⊢ wp frame (wpE (defs₀ (F := F)) 𝒱₀ (thr d L) none) Set.univ
        (k2_t7_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v306 k u) (RInvV5 d L fb (k.val + 1)) := by
  unfold k2_t7_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (5 : Fin 8) k.val hk
    (k2_off44_eq k) (k2_off46_eq k) (k2_off48_eq k) (k2_off50_eq k)
    (k2_off45_eq k) (k2_off47_eq k) (k2_off49_eq k) (k2_off51_eq k)
    (k2_off44_inb k) (k2_off46_inb k) (k2_off48_inb k) (k2_off50_inb k)
    (k2_off45_inb k) (k2_off47_inb k) (k2_off49_inb k) (k2_off51_inb k)
    (k2_pay21 (View.readAt (Elt F) (View.whole (cc2_scratch1 : Ref sig .scVector)) (Rect.unit (s := S8x56x128) (k2_off44 k) S1x1x16.size (k2_off44_inb k)).toLoadRect fb))
    (k2_pay22 (View.readAt (Elt F) (View.whole (cc2_scratch1 : Ref sig .scVector)) (Rect.unit (s := S8x56x128) (k2_off46 k) S1x1x16.size (k2_off46_inb k)).toLoadRect fb))
    (k2_pay23 (View.readAt (Elt F) (View.whole (cc2_scratch1 : Ref sig .scVector)) (Rect.unit (s := S8x56x128) (k2_off48 k) S1x1x16.size (k2_off48_inb k)).toLoadRect fb))
    (k2_pay24 (View.readAt (Elt F) (View.whole (cc2_scratch1 : Ref sig .scVector)) (Rect.unit (s := S8x56x128) (k2_off50 k) S1x1x16.size (k2_off50_inb k)).toLoadRect fb))
    (k2_pay21_eq _) (k2_pay22_eq _) (k2_pay23_eq _) (k2_pay24_eq _) hrep

theorem trips7 : k2_t7_loop.trips = 50 := rfl

/-- After loop `k2_t7` every row of slot 5 is repacked. -/
theorem repackV7_done (fb : Buf (Elt F) ((bWin5).view.loc (thr d L))) (g : Buf (Elt F) ((pWin5).view.loc (thr d L)))
    (h : ∀ (r : Fin 50) (e : Fin 64), r.val < k2_t7_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips7]; exact r.isLt)

set_option maxHeartbeats 1000000 in
theorem repackV8 (v2 : BitVec 32) (k2_t1 : Fin k2_t1_loop.trips) (arg24 : BitVec 32)
    (fb : Buf (Elt F) ((bWin6).view.loc (thr d L))) (k : Fin k2_t8_loop.trips) (u : Unit) :
    (RInvV6 d L fb k.val u : sProp 𝕄) ⊢ wp frame (wpE (defs₀ (F := F)) 𝒱₀ (thr d L) none) Set.univ
        (k2_t8_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 k u) (RInvV6 d L fb (k.val + 1)) := by
  unfold k2_t8_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (6 : Fin 8) k.val hk
    (k2_off52_eq k) (k2_off54_eq k) (k2_off56_eq k) (k2_off58_eq k)
    (k2_off53_eq k) (k2_off55_eq k) (k2_off57_eq k) (k2_off59_eq k)
    (k2_off52_inb k) (k2_off54_inb k) (k2_off56_inb k) (k2_off58_inb k)
    (k2_off53_inb k) (k2_off55_inb k) (k2_off57_inb k) (k2_off59_inb k)
    (k2_pay25 (View.readAt (Elt F) (View.whole (cc2_scratch1 : Ref sig .scVector)) (Rect.unit (s := S8x56x128) (k2_off52 k) S1x1x16.size (k2_off52_inb k)).toLoadRect fb))
    (k2_pay26 (View.readAt (Elt F) (View.whole (cc2_scratch1 : Ref sig .scVector)) (Rect.unit (s := S8x56x128) (k2_off54 k) S1x1x16.size (k2_off54_inb k)).toLoadRect fb))
    (k2_pay27 (View.readAt (Elt F) (View.whole (cc2_scratch1 : Ref sig .scVector)) (Rect.unit (s := S8x56x128) (k2_off56 k) S1x1x16.size (k2_off56_inb k)).toLoadRect fb))
    (k2_pay28 (View.readAt (Elt F) (View.whole (cc2_scratch1 : Ref sig .scVector)) (Rect.unit (s := S8x56x128) (k2_off58 k) S1x1x16.size (k2_off58_inb k)).toLoadRect fb))
    (k2_pay25_eq _) (k2_pay26_eq _) (k2_pay27_eq _) (k2_pay28_eq _) hrep

theorem trips8 : k2_t8_loop.trips = 50 := rfl

/-- After loop `k2_t8` every row of slot 6 is repacked. -/
theorem repackV8_done (fb : Buf (Elt F) ((bWin6).view.loc (thr d L))) (g : Buf (Elt F) ((pWin6).view.loc (thr d L)))
    (h : ∀ (r : Fin 50) (e : Fin 64), r.val < k2_t8_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips8]; exact r.isLt)

set_option maxHeartbeats 1000000 in
theorem repackV9 (v2 : BitVec 32) (k2_t1 : Fin k2_t1_loop.trips) (arg24 : BitVec 32) (v357 : BitVec 32)
    (fb : Buf (Elt F) ((bWin7).view.loc (thr d L))) (k : Fin k2_t9_loop.trips) (u : Unit) :
    (RInvV7 d L fb k.val u : sProp 𝕄) ⊢ wp frame (wpE (defs₀ (F := F)) 𝒱₀ (thr d L) none) Set.univ
        (k2_t9_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k2_t1 arg24 v357 k u) (RInvV7 d L fb (k.val + 1)) := by
  unfold k2_t9_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (7 : Fin 8) k.val hk
    (k2_off60_eq k) (k2_off62_eq k) (k2_off64_eq k) (k2_off66_eq k)
    (k2_off61_eq k) (k2_off63_eq k) (k2_off65_eq k) (k2_off67_eq k)
    (k2_off60_inb k) (k2_off62_inb k) (k2_off64_inb k) (k2_off66_inb k)
    (k2_off61_inb k) (k2_off63_inb k) (k2_off65_inb k) (k2_off67_inb k)
    (k2_pay29 (View.readAt (Elt F) (View.whole (cc2_scratch1 : Ref sig .scVector)) (Rect.unit (s := S8x56x128) (k2_off60 k) S1x1x16.size (k2_off60_inb k)).toLoadRect fb))
    (k2_pay30 (View.readAt (Elt F) (View.whole (cc2_scratch1 : Ref sig .scVector)) (Rect.unit (s := S8x56x128) (k2_off62 k) S1x1x16.size (k2_off62_inb k)).toLoadRect fb))
    (k2_pay31 (View.readAt (Elt F) (View.whole (cc2_scratch1 : Ref sig .scVector)) (Rect.unit (s := S8x56x128) (k2_off64 k) S1x1x16.size (k2_off64_inb k)).toLoadRect fb))
    (k2_pay32 (View.readAt (Elt F) (View.whole (cc2_scratch1 : Ref sig .scVector)) (Rect.unit (s := S8x56x128) (k2_off66 k) S1x1x16.size (k2_off66_inb k)).toLoadRect fb))
    (k2_pay29_eq _) (k2_pay30_eq _) (k2_pay31_eq _) (k2_pay32_eq _) hrep

theorem trips9 : k2_t9_loop.trips = 50 := rfl

/-- After loop `k2_t9` every row of slot 7 is repacked. -/
theorem repackV9_done (fb : Buf (Elt F) ((bWin7).view.loc (thr d L))) (g : Buf (Elt F) ((pWin7).view.loc (thr d L)))
    (h : ∀ (r : Fin 50) (e : Fin 64), r.val < k2_t9_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips9]; exact r.isLt)

end RepackV

end Cert.Proof.Tile2

end
-- ==== Proof.TileRepackV2Q2.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon2
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value
import proofs.«204056_g19739669692900_cont_8to1_1488_31_alg».proof.Proof.TileRepackVQ2

noncomputable section

namespace Cert.Proof.Tile2

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

section RepackV

variable (d : Dev nD) (L : grid2.Coords)

variable [FloatOps F]

theorem k2_pay33_eq (v : Vec F S1x1x16 .f32) : k2_pay33 v = v := by unfold k2_pay33; dsimp only; rw [shapeCast_shapeCast]
theorem k2_pay34_eq (v : Vec F S1x1x16 .f32) : k2_pay34 v = v := by unfold k2_pay34; dsimp only; rw [shapeCast_shapeCast]
theorem k2_pay35_eq (v : Vec F S1x1x16 .f32) : k2_pay35 v = v := by unfold k2_pay35; dsimp only; rw [shapeCast_shapeCast]
theorem k2_pay36_eq (v : Vec F S1x1x16 .f32) : k2_pay36 v = v := by unfold k2_pay36; dsimp only; rw [shapeCast_shapeCast]
theorem k2_pay37_eq (v : Vec F S1x1x16 .f32) : k2_pay37 v = v := by unfold k2_pay37; dsimp only; rw [shapeCast_shapeCast]
theorem k2_pay38_eq (v : Vec F S1x1x16 .f32) : k2_pay38 v = v := by unfold k2_pay38; dsimp only; rw [shapeCast_shapeCast]
theorem k2_pay39_eq (v : Vec F S1x1x16 .f32) : k2_pay39 v = v := by unfold k2_pay39; dsimp only; rw [shapeCast_shapeCast]
theorem k2_pay40_eq (v : Vec F S1x1x16 .f32) : k2_pay40 v = v := by unfold k2_pay40; dsimp only; rw [shapeCast_shapeCast]
theorem k2_pay41_eq (v : Vec F S1x1x16 .f32) : k2_pay41 v = v := by unfold k2_pay41; dsimp only; rw [shapeCast_shapeCast]
theorem k2_pay42_eq (v : Vec F S1x1x16 .f32) : k2_pay42 v = v := by unfold k2_pay42; dsimp only; rw [shapeCast_shapeCast]
theorem k2_pay43_eq (v : Vec F S1x1x16 .f32) : k2_pay43 v = v := by unfold k2_pay43; dsimp only; rw [shapeCast_shapeCast]
theorem k2_pay44_eq (v : Vec F S1x1x16 .f32) : k2_pay44 v = v := by unfold k2_pay44; dsimp only; rw [shapeCast_shapeCast]
theorem k2_pay45_eq (v : Vec F S1x1x16 .f32) : k2_pay45 v = v := by unfold k2_pay45; dsimp only; rw [shapeCast_shapeCast]
theorem k2_pay46_eq (v : Vec F S1x1x16 .f32) : k2_pay46 v = v := by unfold k2_pay46; dsimp only; rw [shapeCast_shapeCast]
theorem k2_pay47_eq (v : Vec F S1x1x16 .f32) : k2_pay47 v = v := by unfold k2_pay47; dsimp only; rw [shapeCast_shapeCast]
theorem k2_pay48_eq (v : Vec F S1x1x16 .f32) : k2_pay48 v = v := by unfold k2_pay48; dsimp only; rw [shapeCast_shapeCast]
theorem k2_pay49_eq (v : Vec F S1x1x16 .f32) : k2_pay49 v = v := by unfold k2_pay49; dsimp only; rw [shapeCast_shapeCast]
theorem k2_pay50_eq (v : Vec F S1x1x16 .f32) : k2_pay50 v = v := by unfold k2_pay50; dsimp only; rw [shapeCast_shapeCast]
theorem k2_pay51_eq (v : Vec F S1x1x16 .f32) : k2_pay51 v = v := by unfold k2_pay51; dsimp only; rw [shapeCast_shapeCast]
theorem k2_pay52_eq (v : Vec F S1x1x16 .f32) : k2_pay52 v = v := by unfold k2_pay52; dsimp only; rw [shapeCast_shapeCast]
theorem k2_pay53_eq (v : Vec F S1x1x16 .f32) : k2_pay53 v = v := by unfold k2_pay53; dsimp only; rw [shapeCast_shapeCast]
theorem k2_pay54_eq (v : Vec F S1x1x16 .f32) : k2_pay54 v = v := by unfold k2_pay54; dsimp only; rw [shapeCast_shapeCast]
theorem k2_pay55_eq (v : Vec F S1x1x16 .f32) : k2_pay55 v = v := by unfold k2_pay55; dsimp only; rw [shapeCast_shapeCast]
theorem k2_pay56_eq (v : Vec F S1x1x16 .f32) : k2_pay56 v = v := by unfold k2_pay56; dsimp only; rw [shapeCast_shapeCast]
theorem k2_pay57_eq (v : Vec F S1x1x16 .f32) : k2_pay57 v = v := by unfold k2_pay57; dsimp only; rw [shapeCast_shapeCast]
theorem k2_pay58_eq (v : Vec F S1x1x16 .f32) : k2_pay58 v = v := by unfold k2_pay58; dsimp only; rw [shapeCast_shapeCast]
theorem k2_pay59_eq (v : Vec F S1x1x16 .f32) : k2_pay59 v = v := by unfold k2_pay59; dsimp only; rw [shapeCast_shapeCast]
theorem k2_pay60_eq (v : Vec F S1x1x16 .f32) : k2_pay60 v = v := by unfold k2_pay60; dsimp only; rw [shapeCast_shapeCast]
theorem k2_pay61_eq (v : Vec F S1x1x16 .f32) : k2_pay61 v = v := by unfold k2_pay61; dsimp only; rw [shapeCast_shapeCast]
theorem k2_pay62_eq (v : Vec F S1x1x16 .f32) : k2_pay62 v = v := by unfold k2_pay62; dsimp only; rw [shapeCast_shapeCast]
theorem k2_pay63_eq (v : Vec F S1x1x16 .f32) : k2_pay63 v = v := by unfold k2_pay63; dsimp only; rw [shapeCast_shapeCast]
theorem k2_pay64_eq (v : Vec F S1x1x16 .f32) : k2_pay64 v = v := by unfold k2_pay64; dsimp only; rw [shapeCast_shapeCast]

set_option maxHeartbeats 1000000 in
theorem repackV10 (v2 : BitVec 32)
    (fb : Buf (Elt F) ((bWin0).view.loc (thr d L))) (k : Fin k2_t10_loop.trips) (u : Unit) :
    (RInvV0 d L fb k.val u : sProp 𝕄) ⊢ wp frame (wpE (defs₀ (F := F)) 𝒱₀ (thr d L) none) Set.univ
        (k2_t10_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV0 d L fb (k.val + 1)) := by
  unfold k2_t10_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (0 : Fin 8) k.val hk
    (k2_off69_eq k) (k2_off71_eq k) (k2_off73_eq k) (k2_off75_eq k)
    (k2_off70_eq k) (k2_off72_eq k) (k2_off74_eq k) (k2_off76_eq k)
    (k2_off69_inb k) (k2_off71_inb k) (k2_off73_inb k) (k2_off75_inb k)
    (k2_off70_inb k) (k2_off72_inb k) (k2_off74_inb k) (k2_off76_inb k)
    (k2_pay33 (View.readAt (Elt F) (View.whole (cc2_scratch1 : Ref sig .scVector)) (Rect.unit (s := S8x56x128) (k2_off69 k) S1x1x16.size (k2_off69_inb k)).toLoadRect fb))
    (k2_pay34 (View.readAt (Elt F) (View.whole (cc2_scratch1 : Ref sig .scVector)) (Rect.unit (s := S8x56x128) (k2_off71 k) S1x1x16.size (k2_off71_inb k)).toLoadRect fb))
    (k2_pay35 (View.readAt (Elt F) (View.whole (cc2_scratch1 : Ref sig .scVector)) (Rect.unit (s := S8x56x128) (k2_off73 k) S1x1x16.size (k2_off73_inb k)).toLoadRect fb))
    (k2_pay36 (View.readAt (Elt F) (View.whole (cc2_scratch1 : Ref sig .scVector)) (Rect.unit (s := S8x56x128) (k2_off75 k) S1x1x16.size (k2_off75_inb k)).toLoadRect fb))
    (k2_pay33_eq _) (k2_pay34_eq _) (k2_pay35_eq _) (k2_pay36_eq _) hrep

theorem trips10 : k2_t10_loop.trips = 50 := rfl

/-- After loop `k2_t10` every row of slot 0 is repacked. -/
theorem repackV10_done (fb : Buf (Elt F) ((bWin0).view.loc (thr d L))) (g : Buf (Elt F) ((pWin0).view.loc (thr d L)))
    (h : ∀ (r : Fin 50) (e : Fin 64), r.val < k2_t10_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips10]; exact r.isLt)

set_option maxHeartbeats 1000000 in
theorem repackV11 (v2 : BitVec 32)
    (fb : Buf (Elt F) ((bWin1).view.loc (thr d L))) (k : Fin k2_t11_loop.trips) (u : Unit) :
    (RInvV1 d L fb k.val u : sProp 𝕄) ⊢ wp frame (wpE (defs₀ (F := F)) 𝒱₀ (thr d L) none) Set.univ
        (k2_t11_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV1 d L fb (k.val + 1)) := by
  unfold k2_t11_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (1 : Fin 8) k.val hk
    (k2_off78_eq k) (k2_off80_eq k) (k2_off82_eq k) (k2_off84_eq k)
    (k2_off79_eq k) (k2_off81_eq k) (k2_off83_eq k) (k2_off85_eq k)
    (k2_off78_inb k) (k2_off80_inb k) (k2_off82_inb k) (k2_off84_inb k)
    (k2_off79_inb k) (k2_off81_inb k) (k2_off83_inb k) (k2_off85_inb k)
    (k2_pay37 (View.readAt (Elt F) (View.whole (cc2_scratch1 : Ref sig .scVector)) (Rect.unit (s := S8x56x128) (k2_off78 k) S1x1x16.size (k2_off78_inb k)).toLoadRect fb))
    (k2_pay38 (View.readAt (Elt F) (View.whole (cc2_scratch1 : Ref sig .scVector)) (Rect.unit (s := S8x56x128) (k2_off80 k) S1x1x16.size (k2_off80_inb k)).toLoadRect fb))
    (k2_pay39 (View.readAt (Elt F) (View.whole (cc2_scratch1 : Ref sig .scVector)) (Rect.unit (s := S8x56x128) (k2_off82 k) S1x1x16.size (k2_off82_inb k)).toLoadRect fb))
    (k2_pay40 (View.readAt (Elt F) (View.whole (cc2_scratch1 : Ref sig .scVector)) (Rect.unit (s := S8x56x128) (k2_off84 k) S1x1x16.size (k2_off84_inb k)).toLoadRect fb))
    (k2_pay37_eq _) (k2_pay38_eq _) (k2_pay39_eq _) (k2_pay40_eq _) hrep

theorem trips11 : k2_t11_loop.trips = 50 := rfl

/-- After loop `k2_t11` every row of slot 1 is repacked. -/
theorem repackV11_done (fb : Buf (Elt F) ((bWin1).view.loc (thr d L))) (g : Buf (Elt F) ((pWin1).view.loc (thr d L)))
    (h : ∀ (r : Fin 50) (e : Fin 64), r.val < k2_t11_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips11]; exact r.isLt)

set_option maxHeartbeats 1000000 in
theorem repackV12 (v2 : BitVec 32)
    (fb : Buf (Elt F) ((bWin2).view.loc (thr d L))) (k : Fin k2_t12_loop.trips) (u : Unit) :
    (RInvV2 d L fb k.val u : sProp 𝕄) ⊢ wp frame (wpE (defs₀ (F := F)) 𝒱₀ (thr d L) none) Set.univ
        (k2_t12_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV2 d L fb (k.val + 1)) := by
  unfold k2_t12_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (2 : Fin 8) k.val hk
    (k2_off86_eq k) (k2_off88_eq k) (k2_off90_eq k) (k2_off92_eq k)
    (k2_off87_eq k) (k2_off89_eq k) (k2_off91_eq k) (k2_off93_eq k)
    (k2_off86_inb k) (k2_off88_inb k) (k2_off90_inb k) (k2_off92_inb k)
    (k2_off87_inb k) (k2_off89_inb k) (k2_off91_inb k) (k2_off93_inb k)
    (k2_pay41 (View.readAt (Elt F) (View.whole (cc2_scratch1 : Ref sig .scVector)) (Rect.unit (s := S8x56x128) (k2_off86 k) S1x1x16.size (k2_off86_inb k)).toLoadRect fb))
    (k2_pay42 (View.readAt (Elt F) (View.whole (cc2_scratch1 : Ref sig .scVector)) (Rect.unit (s := S8x56x128) (k2_off88 k) S1x1x16.size (k2_off88_inb k)).toLoadRect fb))
    (k2_pay43 (View.readAt (Elt F) (View.whole (cc2_scratch1 : Ref sig .scVector)) (Rect.unit (s := S8x56x128) (k2_off90 k) S1x1x16.size (k2_off90_inb k)).toLoadRect fb))
    (k2_pay44 (View.readAt (Elt F) (View.whole (cc2_scratch1 : Ref sig .scVector)) (Rect.unit (s := S8x56x128) (k2_off92 k) S1x1x16.size (k2_off92_inb k)).toLoadRect fb))
    (k2_pay41_eq _) (k2_pay42_eq _) (k2_pay43_eq _) (k2_pay44_eq _) hrep

theorem trips12 : k2_t12_loop.trips = 50 := rfl

/-- After loop `k2_t12` every row of slot 2 is repacked. -/
theorem repackV12_done (fb : Buf (Elt F) ((bWin2).view.loc (thr d L))) (g : Buf (Elt F) ((pWin2).view.loc (thr d L)))
    (h : ∀ (r : Fin 50) (e : Fin 64), r.val < k2_t12_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips12]; exact r.isLt)

set_option maxHeartbeats 1000000 in
theorem repackV13 (v2 : BitVec 32)
    (fb : Buf (Elt F) ((bWin3).view.loc (thr d L))) (k : Fin k2_t13_loop.trips) (u : Unit) :
    (RInvV3 d L fb k.val u : sProp 𝕄) ⊢ wp frame (wpE (defs₀ (F := F)) 𝒱₀ (thr d L) none) Set.univ
        (k2_t13_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV3 d L fb (k.val + 1)) := by
  unfold k2_t13_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (3 : Fin 8) k.val hk
    (k2_off94_eq k) (k2_off96_eq k) (k2_off98_eq k) (k2_off100_eq k)
    (k2_off95_eq k) (k2_off97_eq k) (k2_off99_eq k) (k2_off101_eq k)
    (k2_off94_inb k) (k2_off96_inb k) (k2_off98_inb k) (k2_off100_inb k)
    (k2_off95_inb k) (k2_off97_inb k) (k2_off99_inb k) (k2_off101_inb k)
    (k2_pay45 (View.readAt (Elt F) (View.whole (cc2_scratch1 : Ref sig .scVector)) (Rect.unit (s := S8x56x128) (k2_off94 k) S1x1x16.size (k2_off94_inb k)).toLoadRect fb))
    (k2_pay46 (View.readAt (Elt F) (View.whole (cc2_scratch1 : Ref sig .scVector)) (Rect.unit (s := S8x56x128) (k2_off96 k) S1x1x16.size (k2_off96_inb k)).toLoadRect fb))
    (k2_pay47 (View.readAt (Elt F) (View.whole (cc2_scratch1 : Ref sig .scVector)) (Rect.unit (s := S8x56x128) (k2_off98 k) S1x1x16.size (k2_off98_inb k)).toLoadRect fb))
    (k2_pay48 (View.readAt (Elt F) (View.whole (cc2_scratch1 : Ref sig .scVector)) (Rect.unit (s := S8x56x128) (k2_off100 k) S1x1x16.size (k2_off100_inb k)).toLoadRect fb))
    (k2_pay45_eq _) (k2_pay46_eq _) (k2_pay47_eq _) (k2_pay48_eq _) hrep

theorem trips13 : k2_t13_loop.trips = 50 := rfl

/-- After loop `k2_t13` every row of slot 3 is repacked. -/
theorem repackV13_done (fb : Buf (Elt F) ((bWin3).view.loc (thr d L))) (g : Buf (Elt F) ((pWin3).view.loc (thr d L)))
    (h : ∀ (r : Fin 50) (e : Fin 64), r.val < k2_t13_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips13]; exact r.isLt)

set_option maxHeartbeats 1000000 in
theorem repackV14 (v2 : BitVec 32)
    (fb : Buf (Elt F) ((bWin4).view.loc (thr d L))) (k : Fin k2_t14_loop.trips) (u : Unit) :
    (RInvV4 d L fb k.val u : sProp 𝕄) ⊢ wp frame (wpE (defs₀ (F := F)) 𝒱₀ (thr d L) none) Set.univ
        (k2_t14_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV4 d L fb (k.val + 1)) := by
  unfold k2_t14_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (4 : Fin 8) k.val hk
    (k2_off102_eq k) (k2_off104_eq k) (k2_off106_eq k) (k2_off108_eq k)
    (k2_off103_eq k) (k2_off105_eq k) (k2_off107_eq k) (k2_off109_eq k)
    (k2_off102_inb k) (k2_off104_inb k) (k2_off106_inb k) (k2_off108_inb k)
    (k2_off103_inb k) (k2_off105_inb k) (k2_off107_inb k) (k2_off109_inb k)
    (k2_pay49 (View.readAt (Elt F) (View.whole (cc2_scratch1 : Ref sig .scVector)) (Rect.unit (s := S8x56x128) (k2_off102 k) S1x1x16.size (k2_off102_inb k)).toLoadRect fb))
    (k2_pay50 (View.readAt (Elt F) (View.whole (cc2_scratch1 : Ref sig .scVector)) (Rect.unit (s := S8x56x128) (k2_off104 k) S1x1x16.size (k2_off104_inb k)).toLoadRect fb))
    (k2_pay51 (View.readAt (Elt F) (View.whole (cc2_scratch1 : Ref sig .scVector)) (Rect.unit (s := S8x56x128) (k2_off106 k) S1x1x16.size (k2_off106_inb k)).toLoadRect fb))
    (k2_pay52 (View.readAt (Elt F) (View.whole (cc2_scratch1 : Ref sig .scVector)) (Rect.unit (s := S8x56x128) (k2_off108 k) S1x1x16.size (k2_off108_inb k)).toLoadRect fb))
    (k2_pay49_eq _) (k2_pay50_eq _) (k2_pay51_eq _) (k2_pay52_eq _) hrep

theorem trips14 : k2_t14_loop.trips = 50 := rfl

/-- After loop `k2_t14` every row of slot 4 is repacked. -/
theorem repackV14_done (fb : Buf (Elt F) ((bWin4).view.loc (thr d L))) (g : Buf (Elt F) ((pWin4).view.loc (thr d L)))
    (h : ∀ (r : Fin 50) (e : Fin 64), r.val < k2_t14_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips14]; exact r.isLt)

set_option maxHeartbeats 1000000 in
theorem repackV15 (v2 : BitVec 32)
    (fb : Buf (Elt F) ((bWin5).view.loc (thr d L))) (k : Fin k2_t15_loop.trips) (u : Unit) :
    (RInvV5 d L fb k.val u : sProp 𝕄) ⊢ wp frame (wpE (defs₀ (F := F)) 𝒱₀ (thr d L) none) Set.univ
        (k2_t15_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV5 d L fb (k.val + 1)) := by
  unfold k2_t15_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (5 : Fin 8) k.val hk
    (k2_off110_eq k) (k2_off112_eq k) (k2_off114_eq k) (k2_off116_eq k)
    (k2_off111_eq k) (k2_off113_eq k) (k2_off115_eq k) (k2_off117_eq k)
    (k2_off110_inb k) (k2_off112_inb k) (k2_off114_inb k) (k2_off116_inb k)
    (k2_off111_inb k) (k2_off113_inb k) (k2_off115_inb k) (k2_off117_inb k)
    (k2_pay53 (View.readAt (Elt F) (View.whole (cc2_scratch1 : Ref sig .scVector)) (Rect.unit (s := S8x56x128) (k2_off110 k) S1x1x16.size (k2_off110_inb k)).toLoadRect fb))
    (k2_pay54 (View.readAt (Elt F) (View.whole (cc2_scratch1 : Ref sig .scVector)) (Rect.unit (s := S8x56x128) (k2_off112 k) S1x1x16.size (k2_off112_inb k)).toLoadRect fb))
    (k2_pay55 (View.readAt (Elt F) (View.whole (cc2_scratch1 : Ref sig .scVector)) (Rect.unit (s := S8x56x128) (k2_off114 k) S1x1x16.size (k2_off114_inb k)).toLoadRect fb))
    (k2_pay56 (View.readAt (Elt F) (View.whole (cc2_scratch1 : Ref sig .scVector)) (Rect.unit (s := S8x56x128) (k2_off116 k) S1x1x16.size (k2_off116_inb k)).toLoadRect fb))
    (k2_pay53_eq _) (k2_pay54_eq _) (k2_pay55_eq _) (k2_pay56_eq _) hrep

theorem trips15 : k2_t15_loop.trips = 50 := rfl

/-- After loop `k2_t15` every row of slot 5 is repacked. -/
theorem repackV15_done (fb : Buf (Elt F) ((bWin5).view.loc (thr d L))) (g : Buf (Elt F) ((pWin5).view.loc (thr d L)))
    (h : ∀ (r : Fin 50) (e : Fin 64), r.val < k2_t15_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips15]; exact r.isLt)

set_option maxHeartbeats 1000000 in
theorem repackV16 (v2 : BitVec 32)
    (fb : Buf (Elt F) ((bWin6).view.loc (thr d L))) (k : Fin k2_t16_loop.trips) (u : Unit) :
    (RInvV6 d L fb k.val u : sProp 𝕄) ⊢ wp frame (wpE (defs₀ (F := F)) 𝒱₀ (thr d L) none) Set.univ
        (k2_t16_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV6 d L fb (k.val + 1)) := by
  unfold k2_t16_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (6 : Fin 8) k.val hk
    (k2_off118_eq k) (k2_off120_eq k) (k2_off122_eq k) (k2_off124_eq k)
    (k2_off119_eq k) (k2_off121_eq k) (k2_off123_eq k) (k2_off125_eq k)
    (k2_off118_inb k) (k2_off120_inb k) (k2_off122_inb k) (k2_off124_inb k)
    (k2_off119_inb k) (k2_off121_inb k) (k2_off123_inb k) (k2_off125_inb k)
    (k2_pay57 (View.readAt (Elt F) (View.whole (cc2_scratch1 : Ref sig .scVector)) (Rect.unit (s := S8x56x128) (k2_off118 k) S1x1x16.size (k2_off118_inb k)).toLoadRect fb))
    (k2_pay58 (View.readAt (Elt F) (View.whole (cc2_scratch1 : Ref sig .scVector)) (Rect.unit (s := S8x56x128) (k2_off120 k) S1x1x16.size (k2_off120_inb k)).toLoadRect fb))
    (k2_pay59 (View.readAt (Elt F) (View.whole (cc2_scratch1 : Ref sig .scVector)) (Rect.unit (s := S8x56x128) (k2_off122 k) S1x1x16.size (k2_off122_inb k)).toLoadRect fb))
    (k2_pay60 (View.readAt (Elt F) (View.whole (cc2_scratch1 : Ref sig .scVector)) (Rect.unit (s := S8x56x128) (k2_off124 k) S1x1x16.size (k2_off124_inb k)).toLoadRect fb))
    (k2_pay57_eq _) (k2_pay58_eq _) (k2_pay59_eq _) (k2_pay60_eq _) hrep

theorem trips16 : k2_t16_loop.trips = 50 := rfl

/-- After loop `k2_t16` every row of slot 6 is repacked. -/
theorem repackV16_done (fb : Buf (Elt F) ((bWin6).view.loc (thr d L))) (g : Buf (Elt F) ((pWin6).view.loc (thr d L)))
    (h : ∀ (r : Fin 50) (e : Fin 64), r.val < k2_t16_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips16]; exact r.isLt)

set_option maxHeartbeats 1000000 in
theorem repackV17 (v2 : BitVec 32)
    (fb : Buf (Elt F) ((bWin7).view.loc (thr d L))) (k : Fin k2_t17_loop.trips) (u : Unit) :
    (RInvV7 d L fb k.val u : sProp 𝕄) ⊢ wp frame (wpE (defs₀ (F := F)) 𝒱₀ (thr d L) none) Set.univ
        (k2_t17_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 k u) (RInvV7 d L fb (k.val + 1)) := by
  unfold k2_t17_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc2_scratch2 : Ref sig .scVector)) (View.whole (cc2_scratch1 : Ref sig .scVector)) gp fb (7 : Fin 8) k.val hk
    (k2_off126_eq k) (k2_off128_eq k) (k2_off130_eq k) (k2_off132_eq k)
    (k2_off127_eq k) (k2_off129_eq k) (k2_off131_eq k) (k2_off133_eq k)
    (k2_off126_inb k) (k2_off128_inb k) (k2_off130_inb k) (k2_off132_inb k)
    (k2_off127_inb k) (k2_off129_inb k) (k2_off131_inb k) (k2_off133_inb k)
    (k2_pay61 (View.readAt (Elt F) (View.whole (cc2_scratch1 : Ref sig .scVector)) (Rect.unit (s := S8x56x128) (k2_off126 k) S1x1x16.size (k2_off126_inb k)).toLoadRect fb))
    (k2_pay62 (View.readAt (Elt F) (View.whole (cc2_scratch1 : Ref sig .scVector)) (Rect.unit (s := S8x56x128) (k2_off128 k) S1x1x16.size (k2_off128_inb k)).toLoadRect fb))
    (k2_pay63 (View.readAt (Elt F) (View.whole (cc2_scratch1 : Ref sig .scVector)) (Rect.unit (s := S8x56x128) (k2_off130 k) S1x1x16.size (k2_off130_inb k)).toLoadRect fb))
    (k2_pay64 (View.readAt (Elt F) (View.whole (cc2_scratch1 : Ref sig .scVector)) (Rect.unit (s := S8x56x128) (k2_off132 k) S1x1x16.size (k2_off132_inb k)).toLoadRect fb))
    (k2_pay61_eq _) (k2_pay62_eq _) (k2_pay63_eq _) (k2_pay64_eq _) hrep

theorem trips17 : k2_t17_loop.trips = 50 := rfl

/-- After loop `k2_t17` every row of slot 7 is repacked. -/
theorem repackV17_done (fb : Buf (Elt F) ((bWin7).view.loc (thr d L))) (g : Buf (Elt F) ((pWin7).view.loc (thr d L)))
    (h : ∀ (r : Fin 50) (e : Fin 64), r.val < k2_t17_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips17]; exact r.isLt)

end RepackV

end Cert.Proof.Tile2

end
-- ==== Proof.TileBodyVQ2.lean ====
/-
  One vector subcore's task of the third gather call, with what it writes.

  The frame's proof, carrying values: a gather in flight into slot `s` over list row `8 i + s` delivers the table rows
  that list row names; the repack keeps their first 64 lanes; the copy out puts them in result row `8 i + s`; so before
  trip `i` the result rows below `8 i` hold what the claim says, and after the last group all 128 do.
-/
import proofs.«204056_g19739669692900_cont_8to1_1488_31_alg».proof.Proof.Gen.KernelIdeal.Skeleton
import proofs.«204056_g19739669692900_cont_8to1_1488_31_alg».proof.Proof.TileValuesQ2
import proofs.«204056_g19739669692900_cont_8to1_1488_31_alg».proof.Proof.TileRepackVQ2
import proofs.«204056_g19739669692900_cont_8to1_1488_31_alg».proof.Proof.TileRepackV2Q2

noncomputable section

namespace Cert.Proof.Tile2

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v5_scv : Memref Cert.KernelIdeal.sig Kind.scVector Space.hbm Cert.KernelIdeal.S4096x50x64 EltTy.f32)
local notation "iW" => (Memref.whole Cert.KernelIdeal.cc2_scratch0 : Memref Cert.KernelIdeal.sig Kind.scVector Space.vmem Cert.KernelIdeal.S128x50 EltTy.i32)
local notation "bW" => (Memref.whole Cert.KernelIdeal.cc2_scratch1 : Memref Cert.KernelIdeal.sig Kind.scVector Space.vmem Cert.KernelIdeal.S8x56x128 EltTy.f32)
local notation "pW" => (Memref.whole Cert.KernelIdeal.cc2_scratch2 : Memref Cert.KernelIdeal.sig Kind.scVector Space.vmem Cert.KernelIdeal.S8x50x64 EltTy.f32)

section ValueRules

variable (d : Dev nD) (L : grid2.Coords)
variable (ft : FVec F S100000x128 .f32) (fi : IVec S128x50 32) (hfi : ∀ y, (fi y).toNat < 100000)
variable [FloatOps F]

/-- List row `8 i + s`, as a row of the index scratch. -/
def jOf (i s : ℕ) : Fin 128 := ⟨(8 * i + s) % 128, Nat.mod_lt _ (by decide)⟩

theorem jOf_val {i s : ℕ} (hi : i ≤ 15) (hs : s < 8) : (jOf i s).val = 8 * i + s := by
  show (8 * i + s) % 128 = 8 * i + s
  omega

/-- A gather in flight on `sem` into slot `s` over list row `j`: as `GFl`, and what it delivers holds the table rows
    that list row names. -/
def GFlV (s : Fin 8) (j : Fin 128) (o : Fin 3 → ℕ) (inbo : ∀ a, o a + S1x50x128.size a ≤ S8x56x128.size a) (sem : DmaSem sig) (qt qi : PosShare TreeShare) : sProp 𝕄 :=
  iprop(∃ (Sw : Finset (Idx ((iW).view.loc (thr d L)))) (fd : Buf (Elt F) ((bWinAt o inbo).view.loc (thr d L))), ⌜WinOK ft fi hfi s j fd⌝ ∗
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
theorem gissueV (s : Fin 8) (j : Fin 128) {o : Fin 3 → ℕ} {inbo : ∀ a, o a + S1x50x128.size a ≤ S8x56x128.size a} (ho : o = ![s.val, 0, 0])
    {off : Fin 2 → ℕ} {inb : ∀ a, off a + S1x50.size a ≤ S128x50.size a} (hoff : off = ![j.val, 0])
    {sem : DmaSem sig} {qt qi : PosShare TreeShare} {fd : Buf (Elt F) ((bWinAt o inbo).view.loc (thr d L))}
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFlV d L ft fi hfi s j o inbo sem qt qi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (ℓ := (tW).view.loc (thr d L)) (q := qt) (f := ft) (S := Finset.univ) (Finset.subset_univ (tAll).view.set)).1 $$ HT
  icases HTs with ⟨HTw, HTr⟩
  ihave HIs := (pointsTo_split_subset (ℓ := (iW).view.loc (thr d L)) (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFlV
  iexists (iRowAt off inb).view.set, _
  isplitr; swap
  · isplitl [Hfl]; · iexact Hfl
    isplitl [HTr]; · iexact HTr
    iexact HIr
  ipureintro; exact win_ok ft fi hfi d L s j o inbo ho off inb hoff fd _ _

set_option maxHeartbeats 1000000 in
theorem gwaitV (s : Fin 8) (j : Fin 128) {o : Fin 3 → ℕ} {inbo : ∀ a, o a + S1x50x128.size a ≤ S8x56x128.size a} {sem : DmaSem sig} {qt qi : PosShare TreeShare}
    {sp sp' : Space} {s₁ s' : Shape} {e e' : EltTy} {κ' : Kind}
    {srcw : Memref sig (thr d L).2.kind sp' s' e'} {dstw : Memref sig κ' sp s₁ e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFlV d L ft fi hfi s j o inbo sem qt qi ∗ owes (thr d L) O W ∗ Transfers.MayWaits (thr d L) (default : HIx 4) O
        ∗ (iprop((∃ fd, ⌜WinOK ft fi hfi s j fd⌝ ∗ (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFlV
  iintro ⟨⟨%Sw, %fd, %hwin, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (ℓ := (tW).view.loc (thr d L)) (q := qt) (f := ft) (S := Finset.univ) (Finset.subset_univ (tAll).view.set)).2 $$ [HTw HTr]; · isplitl [HTw] <;> iassumption
  ihave HI := (pointsTo_split_subset (ℓ := (iW).view.loc (thr d L)) (q := qi) (f := fi) (S := Finset.univ) (Finset.subset_univ Sw)).2 $$ [HIw HIr]; · isplitl [HIw] <;> iassumption
  iapply Hk
  isplitl [HB]
  · iexists fd; isplitr
    · ipureintro; exact hwin
    · iexact HB
  isplitl [HT]; · iexact HT
  isplitl [HI]; · iexact HI
  isplitl [Hsem]; · iexact Hsem
  iexact HO

/-! ## The result rows with what they hold -/

theorem outRowsV_intro (w : Fin 32) (f : Buf (Elt F) (out2Loc d)) :
    (out2Loc d ↦[blkSet2 w]{fullShare} f : sProp 𝕄) ⊢ outRowsV (F := F) (UU := UU) d ft fi hfi w 0 := by
  rw [outBlk_rows]
  unfold outRowsV
  refine bigSep_mono fun j _ => (show (out2Loc d ↦[rowSet w j]{fullShare} f : sProp 𝕄) ⊢ iprop(∃ f, ⌜j.val < 0 → RowOK ft fi hfi w j f⌝ ∗ out2Loc d ↦[rowSet w j]{fullShare} f) from ?_)
  iintro H; iexists f; isplitr
  · ipureintro; intro h; exact absurd h (Nat.not_lt_zero _)
  · iexact H

/-- The rows are the eight from `b` and the others. -/
theorem outRowsV_group (w : Fin 32) (n b : ℕ) (hb : b + 8 ≤ 128) :
    (outRowsV (F := F) (UU := UU) d ft fi hfi w n : sProp 𝕄)
      = iprop(((∃ f, ⌜b + 0 < n → RowOK ft fi hfi w ⟨b + 0, by omega⟩ f⌝ ∗ out2Loc d ↦[rowSet w ⟨b + 0, by omega⟩]{fullShare} f) ∗ (∃ f, ⌜b + 1 < n → RowOK ft fi hfi w ⟨b + 1, by omega⟩ f⌝ ∗ out2Loc d ↦[rowSet w ⟨b + 1, by omega⟩]{fullShare} f) ∗ (∃ f, ⌜b + 2 < n → RowOK ft fi hfi w ⟨b + 2, by omega⟩ f⌝ ∗ out2Loc d ↦[rowSet w ⟨b + 2, by omega⟩]{fullShare} f) ∗ (∃ f, ⌜b + 3 < n → RowOK ft fi hfi w ⟨b + 3, by omega⟩ f⌝ ∗ out2Loc d ↦[rowSet w ⟨b + 3, by omega⟩]{fullShare} f) ∗ (∃ f, ⌜b + 4 < n → RowOK ft fi hfi w ⟨b + 4, by omega⟩ f⌝ ∗ out2Loc d ↦[rowSet w ⟨b + 4, by omega⟩]{fullShare} f) ∗ (∃ f, ⌜b + 5 < n → RowOK ft fi hfi w ⟨b + 5, by omega⟩ f⌝ ∗ out2Loc d ↦[rowSet w ⟨b + 5, by omega⟩]{fullShare} f) ∗ (∃ f, ⌜b + 6 < n → RowOK ft fi hfi w ⟨b + 6, by omega⟩ f⌝ ∗ out2Loc d ↦[rowSet w ⟨b + 6, by omega⟩]{fullShare} f) ∗ (∃ f, ⌜b + 7 < n → RowOK ft fi hfi w ⟨b + 7, by omega⟩ f⌝ ∗ out2Loc d ↦[rowSet w ⟨b + 7, by omega⟩]{fullShare} f))
          ∗ bigSep (Finset.univ \ Finset.univ.map (grpEmb b hb)) fun j : Fin 128 => iprop(∃ f, ⌜j.val < n → RowOK ft fi hfi w j f⌝ ∗ out2Loc d ↦[rowSet w j]{fullShare} f)) := by
  unfold outRowsV
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- Outside the group from `n`, a row below `n + 8` is below `n`. -/
theorem outRowsV_rest (w : Fin 32) (n : ℕ) (hb : n + 8 ≤ 128) :
    (bigSep (Finset.univ \ Finset.univ.map (grpEmb n hb)) fun j : Fin 128 => (iprop(∃ f, ⌜j.val < n → RowOK ft fi hfi w j f⌝ ∗ out2Loc d ↦[rowSet w j]{fullShare} f) : sProp 𝕄))
      ⊢ bigSep (Finset.univ \ Finset.univ.map (grpEmb n hb)) fun j : Fin 128 => iprop(∃ f, ⌜j.val < n + 8 → RowOK ft fi hfi w j f⌝ ∗ out2Loc d ↦[rowSet w j]{fullShare} f) := by
  refine bigSep_mono fun j hj => (show (iprop(∃ f, ⌜j.val < n → RowOK ft fi hfi w j f⌝ ∗ out2Loc d ↦[rowSet w j]{fullShare} f) : sProp 𝕄)
      ⊢ iprop(∃ f, ⌜j.val < n + 8 → RowOK ft fi hfi w j f⌝ ∗ out2Loc d ↦[rowSet w j]{fullShare} f) from ?_)
  have hnot : j ∉ Finset.univ.map (grpEmb n hb) := (Finset.mem_sdiff.mp hj).2
  have hlt : j.val < n + 8 → j.val < n := by
    intro h
    by_contra hge
    exact hnot (Finset.mem_map.mpr ⟨⟨j.val - n, by omega⟩, Finset.mem_univ _, Fin.ext (by show n + (j.val - n) = j.val; omega)⟩)
  iintro ⟨%f, %hf, H⟩
  iexists f; isplitr
  · ipureintro; exact fun h => hf (hlt h)
  · iexact H

end ValueRules

section BodyV

variable (m : (ℓ : Loc nD τ sig) → Buf (Elt F) ℓ) (d : Dev nD) (L : grid2.Coords)
variable (ft : FVec F S100000x128 .f32) (fi : IVec S128x50 32) (hfi : ∀ y, (fi y).toNat < 100000)

theorem hoff68_0 (kt : Fin k2_t1_loop.trips) (hk : kt.val < 15) : k2_off68 kt 0#32 = ![(jOf (kt.val + 1) 0).val, 0] :=
  (k2_off68_eq kt (0 : Fin 8)).trans (congrArg (fun x : ℕ => (![x, 0] : Fin 2 → ℕ))
    (by show 8 * kt.val + 0 + 8 = (8 * (kt.val + 1) + 0) % 128; omega))
theorem hoff68_1 (kt : Fin k2_t1_loop.trips) (hk : kt.val < 15) : k2_off68 kt 1#32 = ![(jOf (kt.val + 1) 1).val, 0] :=
  (k2_off68_eq kt (1 : Fin 8)).trans (congrArg (fun x : ℕ => (![x, 0] : Fin 2 → ℕ))
    (by show 8 * kt.val + 1 + 8 = (8 * (kt.val + 1) + 1) % 128; omega))
theorem hoff68_2 (kt : Fin k2_t1_loop.trips) (hk : kt.val < 15) : k2_off68 kt 2#32 = ![(jOf (kt.val + 1) 2).val, 0] :=
  (k2_off68_eq kt (2 : Fin 8)).trans (congrArg (fun x : ℕ => (![x, 0] : Fin 2 → ℕ))
    (by show 8 * kt.val + 2 + 8 = (8 * (kt.val + 1) + 2) % 128; omega))
theorem hoff68_3 (kt : Fin k2_t1_loop.trips) (hk : kt.val < 15) : k2_off68 kt 3#32 = ![(jOf (kt.val + 1) 3).val, 0] :=
  (k2_off68_eq kt (3 : Fin 8)).trans (congrArg (fun x : ℕ => (![x, 0] : Fin 2 → ℕ))
    (by show 8 * kt.val + 3 + 8 = (8 * (kt.val + 1) + 3) % 128; omega))
theorem hoff68_4 (kt : Fin k2_t1_loop.trips) (hk : kt.val < 15) : k2_off68 kt 4#32 = ![(jOf (kt.val + 1) 4).val, 0] :=
  (k2_off68_eq kt (4 : Fin 8)).trans (congrArg (fun x : ℕ => (![x, 0] : Fin 2 → ℕ))
    (by show 8 * kt.val + 4 + 8 = (8 * (kt.val + 1) + 4) % 128; omega))
theorem hoff68_5 (kt : Fin k2_t1_loop.trips) (hk : kt.val < 15) : k2_off68 kt 5#32 = ![(jOf (kt.val + 1) 5).val, 0] :=
  (k2_off68_eq kt (5 : Fin 8)).trans (congrArg (fun x : ℕ => (![x, 0] : Fin 2 → ℕ))
    (by show 8 * kt.val + 5 + 8 = (8 * (kt.val + 1) + 5) % 128; omega))
theorem hoff68_6 (kt : Fin k2_t1_loop.trips) (hk : kt.val < 15) : k2_off68 kt 6#32 = ![(jOf (kt.val + 1) 6).val, 0] :=
  (k2_off68_eq kt (6 : Fin 8)).trans (congrArg (fun x : ℕ => (![x, 0] : Fin 2 → ℕ))
    (by show 8 * kt.val + 6 + 8 = (8 * (kt.val + 1) + 6) % 128; omega))
theorem hoff68_7 (kt : Fin k2_t1_loop.trips) (hk : kt.val < 15) : k2_off68 kt 7#32 = ![(jOf (kt.val + 1) 7).val, 0] :=
  (k2_off68_eq kt (7 : Fin 8)).trans (congrArg (fun x : ℕ => (![x, 0] : Fin 2 → ℕ))
    (by show 8 * kt.val + 7 + 8 = (8 * (kt.val + 1) + 7) % 128; omega))

theorem jOf15_0 : jOf k2_t1_loop.trips 0 = (⟨120 + 0, by omega⟩ : Fin 128) := Fin.ext (by decide)
theorem jOf15_1 : jOf k2_t1_loop.trips 1 = (⟨120 + 1, by omega⟩ : Fin 128) := Fin.ext (by decide)
theorem jOf15_2 : jOf k2_t1_loop.trips 2 = (⟨120 + 2, by omega⟩ : Fin 128) := Fin.ext (by decide)
theorem jOf15_3 : jOf k2_t1_loop.trips 3 = (⟨120 + 3, by omega⟩ : Fin 128) := Fin.ext (by decide)
theorem jOf15_4 : jOf k2_t1_loop.trips 4 = (⟨120 + 4, by omega⟩ : Fin 128) := Fin.ext (by decide)
theorem jOf15_5 : jOf k2_t1_loop.trips 5 = (⟨120 + 5, by omega⟩ : Fin 128) := Fin.ext (by decide)
theorem jOf15_6 : jOf k2_t1_loop.trips 6 = (⟨120 + 6, by omega⟩ : Fin 128) := Fin.ext (by decide)
theorem jOf15_7 : jOf k2_t1_loop.trips 7 = (⟨120 + 7, by omega⟩ : Fin 128) := Fin.ext (by decide)

variable [FloatOps F]

/-- Before each trip `i`, and after the last: as in the frame's invariant, and each slot's gather in flight is the one over
    list row `8 i + s`, and the result rows below `8 i` hold what they should. -/
def INVV (O : CellTallies nD τ sig (HIx 4)) (W : Waits sig (HIx 4)) (i : ℕ) (_ : Unit) : sProp 𝕄 :=
  iprop(Transfers.MayWaits (thr d L) (default : HIx 4) O
    ∗ (GFlV d L ft fi hfi (0 : Fin 8) (jOf i 0) ![0, 0, 0] inb_S8x56x128_S1x50x128_0_0_0 cc2_scratch3.sem (sh32 (widL L)).left.left.left fullShare.left.left.left
      ∗ GFlV d L ft fi hfi (1 : Fin 8) (jOf i 1) ![1, 0, 0] inb_S8x56x128_S1x50x128_1_0_0 cc2_scratch4.sem (sh32 (widL L)).left.left.right fullShare.left.left.right
      ∗ GFlV d L ft fi hfi (2 : Fin 8) (jOf i 2) ![2, 0, 0] inb_S8x56x128_S1x50x128_2_0_0 cc2_scratch5.sem (sh32 (widL L)).left.right.left fullShare.left.right.left
      ∗ GFlV d L ft fi hfi (3 : Fin 8) (jOf i 3) ![3, 0, 0] inb_S8x56x128_S1x50x128_3_0_0 cc2_scratch6.sem (sh32 (widL L)).left.right.right fullShare.left.right.right
      ∗ GFlV d L ft fi hfi (4 : Fin 8) (jOf i 4) ![4, 0, 0] inb_S8x56x128_S1x50x128_4_0_0 cc2_scratch7.sem (sh32 (widL L)).right.left.left fullShare.right.left.left
      ∗ GFlV d L ft fi hfi (5 : Fin 8) (jOf i 5) ![5, 0, 0] inb_S8x56x128_S1x50x128_5_0_0 cc2_scratch8.sem (sh32 (widL L)).right.left.right fullShare.right.left.right
      ∗ GFlV d L ft fi hfi (6 : Fin 8) (jOf i 6) ![6, 0, 0] inb_S8x56x128_S1x50x128_6_0_0 cc2_scratch9.sem (sh32 (widL L)).right.right.left fullShare.right.right.left
      ∗ GFlV d L ft fi hfi (7 : Fin 8) (jOf i 7) ![7, 0, 0] inb_S8x56x128_S1x50x128_7_0_0 cc2_scratch10.sem (sh32 (widL L)).right.right.right fullShare.right.right.right)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc2_scratch11.sem) 0 ∗ semVal (thr d L, SemLoc.dma cc2_scratch12.sem) 0 ∗ semVal (thr d L, SemLoc.dma cc2_scratch13.sem) 0 ∗ semVal (thr d L, SemLoc.dma cc2_scratch14.sem) 0 ∗ semVal (thr d L, SemLoc.dma cc2_scratch15.sem) 0 ∗ semVal (thr d L, SemLoc.dma cc2_scratch16.sem) 0 ∗ semVal (thr d L, SemLoc.dma cc2_scratch17.sem) 0 ∗ semVal (thr d L, SemLoc.dma cc2_scratch18.sem) 0)
    ∗ outRowsV (F := F) (UU := UU) d ft fi hfi (widL L) (8 * i)
    ∗ ∃ W', ⌜∀ p ∈ W', p ∈ W ∨ p.2 = none⌝ ∗ owes (thr d L) O W')

set_option maxHeartbeats 8000000 in
theorem tripV (O : CellTallies nD τ sig (HIx 4)) (W : Waits sig (HIx 4)) (v2 : BitVec 32) (kt : Fin k2_t1_loop.trips) (u : Unit) :
    (INVV d L ft fi hfi O W kt.val u : sProp 𝕄) ⊢ wp frame (wpE (defs₀ (F := F)) 𝒱₀ (thr d L) none) Set.univ
        (k2_t1_body L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0 v2 kt u) (INVV d L ft fi hfi O W (kt.val + 1)) := by
  unfold INVV k2_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  have ej0 : jOf kt.val 0 = (⟨8 * kt.val + 0, by omega⟩ : Fin 128) := Fin.ext (jOf_val (by omega) (by decide))
  have ej1 : jOf kt.val 1 = (⟨8 * kt.val + 1, by omega⟩ : Fin 128) := Fin.ext (jOf_val (by omega) (by decide))
  have ej2 : jOf kt.val 2 = (⟨8 * kt.val + 2, by omega⟩ : Fin 128) := Fin.ext (jOf_val (by omega) (by decide))
  have ej3 : jOf kt.val 3 = (⟨8 * kt.val + 3, by omega⟩ : Fin 128) := Fin.ext (jOf_val (by omega) (by decide))
  have ej4 : jOf kt.val 4 = (⟨8 * kt.val + 4, by omega⟩ : Fin 128) := Fin.ext (jOf_val (by omega) (by decide))
  have ej5 : jOf kt.val 5 = (⟨8 * kt.val + 5, by omega⟩ : Fin 128) := Fin.ext (jOf_val (by omega) (by decide))
  have ej6 : jOf kt.val 6 = (⟨8 * kt.val + 6, by omega⟩ : Fin 128) := Fin.ext (jOf_val (by omega) (by decide))
  have ej7 : jOf kt.val 7 = (⟨8 * kt.val + 7, by omega⟩ : Fin 128) := Fin.ext (jOf_val (by omega) (by decide))
  ihave HR' := (Entails.of_eq (outRowsV_group (F := F) (UU := UU) d ft fi hfi (widL L) (8 * kt.val) (8 * kt.val) (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwaitV d L ft fi hfi (0 : Fin 8) (jOf kt.val 0) (o := ![0, 0, 0]) (inbo := inb_S8x56x128_S1x50x128_0_0_0) (sem := cc2_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV2; all_goals first | exact kt | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft fi hfi (0 : Fin 8) (jOf kt.val 0) gp0' := fun l e => (hrep0 l e l.isLt).trans (hwin0 l (Fin.castLE (by decide) e))
  sl_exec
  iapply (gwaitV d L ft fi hfi (1 : Fin 8) (jOf kt.val 1) (o := ![1, 0, 0]) (inbo := inb_S8x56x128_S1x50x128_1_0_0) (sem := cc2_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV3; all_goals first | exact kt | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft fi hfi (1 : Fin 8) (jOf kt.val 1) gp1' := fun l e => (hrep1 l e l.isLt).trans (hwin1 l (Fin.castLE (by decide) e))
  sl_exec
  iapply (gwaitV d L ft fi hfi (2 : Fin 8) (jOf kt.val 2) (o := ![2, 0, 0]) (inbo := inb_S8x56x128_S1x50x128_2_0_0) (sem := cc2_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV4; all_goals first | exact kt | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft fi hfi (2 : Fin 8) (jOf kt.val 2) gp2' := fun l e => (hrep2 l e l.isLt).trans (hwin2 l (Fin.castLE (by decide) e))
  sl_exec
  iapply (gwaitV d L ft fi hfi (3 : Fin 8) (jOf kt.val 3) (o := ![3, 0, 0]) (inbo := inb_S8x56x128_S1x50x128_3_0_0) (sem := cc2_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV5; all_goals first | exact kt | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft fi hfi (3 : Fin 8) (jOf kt.val 3) gp3' := fun l e => (hrep3 l e l.isLt).trans (hwin3 l (Fin.castLE (by decide) e))
  sl_exec
  iapply (gwaitV d L ft fi hfi (4 : Fin 8) (jOf kt.val 4) (o := ![4, 0, 0]) (inbo := inb_S8x56x128_S1x50x128_4_0_0) (sem := cc2_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV6; all_goals first | exact kt | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft fi hfi (4 : Fin 8) (jOf kt.val 4) gp4' := fun l e => (hrep4 l e l.isLt).trans (hwin4 l (Fin.castLE (by decide) e))
  sl_exec
  iapply (gwaitV d L ft fi hfi (5 : Fin 8) (jOf kt.val 5) (o := ![5, 0, 0]) (inbo := inb_S8x56x128_S1x50x128_5_0_0) (sem := cc2_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV7; all_goals first | exact kt | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft fi hfi (5 : Fin 8) (jOf kt.val 5) gp5' := fun l e => (hrep5 l e l.isLt).trans (hwin5 l (Fin.castLE (by decide) e))
  sl_exec
  iapply (gwaitV d L ft fi hfi (6 : Fin 8) (jOf kt.val 6) (o := ![6, 0, 0]) (inbo := inb_S8x56x128_S1x50x128_6_0_0) (sem := cc2_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV8; all_goals first | exact kt | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft fi hfi (6 : Fin 8) (jOf kt.val 6) gp6' := fun l e => (hrep6 l e l.isLt).trans (hwin6 l (Fin.castLE (by decide) e))
  sl_exec
  iapply (gwaitV d L ft fi hfi (7 : Fin 8) (jOf kt.val 7) (o := ![7, 0, 0]) (inbo := inb_S8x56x128_S1x50x128_7_0_0) (sem := cc2_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV9; all_goals first | exact kt | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft fi hfi (7 : Fin 8) (jOf kt.val 7) gp7' := fun l e => (hrep7 l e l.isLt).trans (hwin7 l (Fin.castLE (by decide) e))
  sl_exec
  iapply (gissueV d L ft fi hfi (0 : Fin 8) (jOf (kt.val + 1) 0) (o := ![0, 0, 0]) (inbo := inb_S8x56x128_S1x50x128_0_0_0) rfl (off := k2_off68 kt 0#32) (inb := k2_off68_inb kt 0) (hoff68_0 kt hk) (sem := cc2_scratch3.sem))
  isplitl [HT0]; · iexact HT0
  isplitl [HB0]; · iexact HB0
  isplitl [HI0]; · iexact HI0
  isplitl [HsG0]; · iexact HsG0
  iintro HG0
  sl_exec
  iapply (gissueV d L ft fi hfi (1 : Fin 8) (jOf (kt.val + 1) 1) (o := ![1, 0, 0]) (inbo := inb_S8x56x128_S1x50x128_1_0_0) rfl (off := k2_off68 kt 1#32) (inb := k2_off68_inb kt 1) (hoff68_1 kt hk) (sem := cc2_scratch4.sem))
  isplitl [HT1]; · iexact HT1
  isplitl [HB1]; · iexact HB1
  isplitl [HI1]; · iexact HI1
  isplitl [HsG1]; · iexact HsG1
  iintro HG1
  sl_exec
  iapply (gissueV d L ft fi hfi (2 : Fin 8) (jOf (kt.val + 1) 2) (o := ![2, 0, 0]) (inbo := inb_S8x56x128_S1x50x128_2_0_0) rfl (off := k2_off68 kt 2#32) (inb := k2_off68_inb kt 2) (hoff68_2 kt hk) (sem := cc2_scratch5.sem))
  isplitl [HT2]; · iexact HT2
  isplitl [HB2]; · iexact HB2
  isplitl [HI2]; · iexact HI2
  isplitl [HsG2]; · iexact HsG2
  iintro HG2
  sl_exec
  iapply (gissueV d L ft fi hfi (3 : Fin 8) (jOf (kt.val + 1) 3) (o := ![3, 0, 0]) (inbo := inb_S8x56x128_S1x50x128_3_0_0) rfl (off := k2_off68 kt 3#32) (inb := k2_off68_inb kt 3) (hoff68_3 kt hk) (sem := cc2_scratch6.sem))
  isplitl [HT3]; · iexact HT3
  isplitl [HB3]; · iexact HB3
  isplitl [HI3]; · iexact HI3
  isplitl [HsG3]; · iexact HsG3
  iintro HG3
  sl_exec
  iapply (gissueV d L ft fi hfi (4 : Fin 8) (jOf (kt.val + 1) 4) (o := ![4, 0, 0]) (inbo := inb_S8x56x128_S1x50x128_4_0_0) rfl (off := k2_off68 kt 4#32) (inb := k2_off68_inb kt 4) (hoff68_4 kt hk) (sem := cc2_scratch7.sem))
  isplitl [HT4]; · iexact HT4
  isplitl [HB4]; · iexact HB4
  isplitl [HI4]; · iexact HI4
  isplitl [HsG4]; · iexact HsG4
  iintro HG4
  sl_exec
  iapply (gissueV d L ft fi hfi (5 : Fin 8) (jOf (kt.val + 1) 5) (o := ![5, 0, 0]) (inbo := inb_S8x56x128_S1x50x128_5_0_0) rfl (off := k2_off68 kt 5#32) (inb := k2_off68_inb kt 5) (hoff68_5 kt hk) (sem := cc2_scratch8.sem))
  isplitl [HT5]; · iexact HT5
  isplitl [HB5]; · iexact HB5
  isplitl [HI5]; · iexact HI5
  isplitl [HsG5]; · iexact HsG5
  iintro HG5
  sl_exec
  iapply (gissueV d L ft fi hfi (6 : Fin 8) (jOf (kt.val + 1) 6) (o := ![6, 0, 0]) (inbo := inb_S8x56x128_S1x50x128_6_0_0) rfl (off := k2_off68 kt 6#32) (inb := k2_off68_inb kt 6) (hoff68_6 kt hk) (sem := cc2_scratch9.sem))
  isplitl [HT6]; · iexact HT6
  isplitl [HB6]; · iexact HB6
  isplitl [HI6]; · iexact HI6
  isplitl [HsG6]; · iexact HsG6
  iintro HG6
  sl_exec
  iapply (gissueV d L ft fi hfi (7 : Fin 8) (jOf (kt.val + 1) 7) (o := ![7, 0, 0]) (inbo := inb_S8x56x128_S1x50x128_7_0_0) rfl (off := k2_off68 kt 7#32) (inb := k2_off68_inb kt 7) (hoff68_7 kt hk) (sem := cc2_scratch10.sem))
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HRr' := (outRowsV_rest (F := F) (UU := UU) d ft fi hfi (widL L) (8 * kt.val) _) $$ HRr
  ihave HR := (Entails.of_eq (outRowsV_group (F := F) (UU := UU) d ft fi hfi (widL L) (8 * kt.val + 8) (8 * kt.val) (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft fi hfi d L (widL L) (0 : Fin 8) ⟨8 * kt.val + 0, by omega⟩ ![0, 0, 0] inb_S8x50x64_S1x50x64_0_0_0 rfl _ (k2_off11_inb L kt 0) (off11_eq0 L kt) _ _ _ rfl (ej0 ▸ hslot0)
      isplitl [Ho1]
      · iexists _; isplitr; swap; · iexact Ho1
        ipureintro; intro _; exact row_ok ft fi hfi d L (widL L) (1 : Fin 8) ⟨8 * kt.val + 1, by omega⟩ ![1, 0, 0] inb_S8x50x64_S1x50x64_1_0_0 rfl _ (k2_off11_inb L kt 1) (off11_eq1 L kt) _ _ _ rfl (ej1 ▸ hslot1)
      isplitl [Ho2]
      · iexists _; isplitr; swap; · iexact Ho2
        ipureintro; intro _; exact row_ok ft fi hfi d L (widL L) (2 : Fin 8) ⟨8 * kt.val + 2, by omega⟩ ![2, 0, 0] inb_S8x50x64_S1x50x64_2_0_0 rfl _ (k2_off11_inb L kt 2) (off11_eq2 L kt) _ _ _ rfl (ej2 ▸ hslot2)
      isplitl [Ho3]
      · iexists _; isplitr; swap; · iexact Ho3
        ipureintro; intro _; exact row_ok ft fi hfi d L (widL L) (3 : Fin 8) ⟨8 * kt.val + 3, by omega⟩ ![3, 0, 0] inb_S8x50x64_S1x50x64_3_0_0 rfl _ (k2_off11_inb L kt 3) (off11_eq3 L kt) _ _ _ rfl (ej3 ▸ hslot3)
      isplitl [Ho4]
      · iexists _; isplitr; swap; · iexact Ho4
        ipureintro; intro _; exact row_ok ft fi hfi d L (widL L) (4 : Fin 8) ⟨8 * kt.val + 4, by omega⟩ ![4, 0, 0] inb_S8x50x64_S1x50x64_4_0_0 rfl _ (k2_off11_inb L kt 4) (off11_eq4 L kt) _ _ _ rfl (ej4 ▸ hslot4)
      isplitl [Ho5]
      · iexists _; isplitr; swap; · iexact Ho5
        ipureintro; intro _; exact row_ok ft fi hfi d L (widL L) (5 : Fin 8) ⟨8 * kt.val + 5, by omega⟩ ![5, 0, 0] inb_S8x50x64_S1x50x64_5_0_0 rfl _ (k2_off11_inb L kt 5) (off11_eq5 L kt) _ _ _ rfl (ej5 ▸ hslot5)
      isplitl [Ho6]
      · iexists _; isplitr; swap; · iexact Ho6
        ipureintro; intro _; exact row_ok ft fi hfi d L (widL L) (6 : Fin 8) ⟨8 * kt.val + 6, by omega⟩ ![6, 0, 0] inb_S8x50x64_S1x50x64_6_0_0 rfl _ (k2_off11_inb L kt 6) (off11_eq6 L kt) _ _ _ rfl (ej6 ▸ hslot6)
      iexists _; isplitr; swap; · iexact Ho7
      ipureintro; intro _; exact row_ok ft fi hfi d L (widL L) (7 : Fin 8) ⟨8 * kt.val + 7, by omega⟩ ![7, 0, 0] inb_S8x50x64_S1x50x64_7_0_0 rfl _ (k2_off11_inb L kt 7) (off11_eq7 L kt) _ _ _ rfl (ej7 ▸ hslot7)
    · iexact HRr'
  rw [show 8 * (kt.val + 1) = 8 * kt.val + 8 by omega]
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the third gather call, with what it writes: its block of the result ends holding the padded
    table's rows that its 128 index rows name. -/
theorem tile_body2V (hF : (K (F := F)).Facts) (hcats : ∀ j, (m (catsLoc d) j).toNat < 100000)
    (ft : Buf (Elt F) (tpadLoc d)) (f0 : Buf (Elt F) (out2Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk2 d (widL L) f0)
        ∗ scopedBufs (thr d L) ∗ scopedSems0 (thr d L) ∗ owes (thr d L) O W)
      ⊢ (wp frame (wpE (defs₀ (F := F)) 𝒱₀ (thr d L) none) Set.univ
          (cc2_gk L tW (Memref.isWhole_whole _) cW (Memref.isWhole_whole _) oW (Memref.isWhole_whole _) iW (Memref.isWhole_whole _) bW (Memref.isWhole_whole _) pW (Memref.isWhole_whole _) cc2_scratch3 cc2_scratch4 cc2_scratch5 cc2_scratch6 cc2_scratch7 cc2_scratch8 cc2_scratch9 cc2_scratch10 cc2_scratch11 cc2_scratch12 cc2_scratch13 cc2_scratch14 cc2_scratch15 cc2_scratch16 cc2_scratch17 cc2_scratch18 cc2_scoped0)
          fun _ => iprop((catsSh m d (widL L) ∗ tpadSh d (widL L) ft
              ∗ ∃ f, ⌜GatherBlk (F := F) 2 (widL L) (m (catsLoc d)) ft f⌝ ∗ outBlk2 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc2_gk_eq_skeleton]; unfold cc2_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  sl_exec
  have hfi := idx_range m d L hcats fi0 (tile_body2V.sl.dma0 m d L) rfl
  have hfie := fun (j : Fin 128) (l : Fin 50) => fi_eq m d L fi0 (tile_body2V.sl.dma0 m d L) rfl j l
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body2V.sl.dma0 m d L) Finset.univ) fullShare)) $$ Hi'
  icases Hi8 with ⟨⟨⟨HI0, HI1⟩, ⟨HI2, HI3⟩⟩, ⟨⟨HI4, HI5⟩, ⟨HI6, HI7⟩⟩⟩
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  ihave HR := (outRowsV_intro (F := F) (UU := UU) d ft (View.write (Elt F) (iW).view fi0 (tile_body2V.sl.dma0 m d L) Finset.univ) hfi (widL L) f0) $$ Ho
  iapply (gissueV d L ft (View.write (Elt F) (iW).view fi0 (tile_body2V.sl.dma0 m d L) Finset.univ) hfi (0 : Fin 8) (jOf 0 0) (o := ![0, 0, 0]) (inbo := inb_S8x56x128_S1x50x128_0_0_0) rfl (off := ![0, 0]) (inb := inb_S128x50_S1x50_0_0) rfl (sem := cc2_scratch3.sem))
  isplitl [HT0]; · iexact HT0
  isplitl [HB0]; · iexact HB0
  isplitl [HI0]; · iexact HI0
  isplitl [HsG0]; · iexact HsG0
  iintro HG0
  sl_exec
  iapply (gissueV d L ft (View.write (Elt F) (iW).view fi0 (tile_body2V.sl.dma0 m d L) Finset.univ) hfi (1 : Fin 8) (jOf 0 1) (o := ![1, 0, 0]) (inbo := inb_S8x56x128_S1x50x128_1_0_0) rfl (off := ![1, 0]) (inb := inb_S128x50_S1x50_1_0) rfl (sem := cc2_scratch4.sem))
  isplitl [HT1]; · iexact HT1
  isplitl [HB1]; · iexact HB1
  isplitl [HI1]; · iexact HI1
  isplitl [HsG1]; · iexact HsG1
  iintro HG1
  sl_exec
  iapply (gissueV d L ft (View.write (Elt F) (iW).view fi0 (tile_body2V.sl.dma0 m d L) Finset.univ) hfi (2 : Fin 8) (jOf 0 2) (o := ![2, 0, 0]) (inbo := inb_S8x56x128_S1x50x128_2_0_0) rfl (off := ![2, 0]) (inb := inb_S128x50_S1x50_2_0) rfl (sem := cc2_scratch5.sem))
  isplitl [HT2]; · iexact HT2
  isplitl [HB2]; · iexact HB2
  isplitl [HI2]; · iexact HI2
  isplitl [HsG2]; · iexact HsG2
  iintro HG2
  sl_exec
  iapply (gissueV d L ft (View.write (Elt F) (iW).view fi0 (tile_body2V.sl.dma0 m d L) Finset.univ) hfi (3 : Fin 8) (jOf 0 3) (o := ![3, 0, 0]) (inbo := inb_S8x56x128_S1x50x128_3_0_0) rfl (off := ![3, 0]) (inb := inb_S128x50_S1x50_3_0) rfl (sem := cc2_scratch6.sem))
  isplitl [HT3]; · iexact HT3
  isplitl [HB3]; · iexact HB3
  isplitl [HI3]; · iexact HI3
  isplitl [HsG3]; · iexact HsG3
  iintro HG3
  sl_exec
  iapply (gissueV d L ft (View.write (Elt F) (iW).view fi0 (tile_body2V.sl.dma0 m d L) Finset.univ) hfi (4 : Fin 8) (jOf 0 4) (o := ![4, 0, 0]) (inbo := inb_S8x56x128_S1x50x128_4_0_0) rfl (off := ![4, 0]) (inb := inb_S128x50_S1x50_4_0) rfl (sem := cc2_scratch7.sem))
  isplitl [HT4]; · iexact HT4
  isplitl [HB4]; · iexact HB4
  isplitl [HI4]; · iexact HI4
  isplitl [HsG4]; · iexact HsG4
  iintro HG4
  sl_exec
  iapply (gissueV d L ft (View.write (Elt F) (iW).view fi0 (tile_body2V.sl.dma0 m d L) Finset.univ) hfi (5 : Fin 8) (jOf 0 5) (o := ![5, 0, 0]) (inbo := inb_S8x56x128_S1x50x128_5_0_0) rfl (off := ![5, 0]) (inb := inb_S128x50_S1x50_5_0) rfl (sem := cc2_scratch8.sem))
  isplitl [HT5]; · iexact HT5
  isplitl [HB5]; · iexact HB5
  isplitl [HI5]; · iexact HI5
  isplitl [HsG5]; · iexact HsG5
  iintro HG5
  sl_exec
  iapply (gissueV d L ft (View.write (Elt F) (iW).view fi0 (tile_body2V.sl.dma0 m d L) Finset.univ) hfi (6 : Fin 8) (jOf 0 6) (o := ![6, 0, 0]) (inbo := inb_S8x56x128_S1x50x128_6_0_0) rfl (off := ![6, 0]) (inb := inb_S128x50_S1x50_6_0) rfl (sem := cc2_scratch9.sem))
  isplitl [HT6]; · iexact HT6
  isplitl [HB6]; · iexact HB6
  isplitl [HI6]; · iexact HI6
  isplitl [HsG6]; · iexact HsG6
  iintro HG6
  sl_exec
  iapply (gissueV d L ft (View.write (Elt F) (iW).view fi0 (tile_body2V.sl.dma0 m d L) Finset.univ) hfi (7 : Fin 8) (jOf 0 7) (o := ![7, 0, 0]) (inbo := inb_S8x56x128_S1x50x128_7_0_0) rfl (off := ![7, 0]) (inb := inb_S128x50_S1x50_7_0) rfl (sem := cc2_scratch10.sem))
  isplitl [HT7]; · iexact HT7
  isplitl [HB7]; · iexact HB7
  isplitl [HI7]; · iexact HI7
  isplitl [HsG7]; · iexact HsG7
  iintro HG7
  sl_exec
  sl_for (INVV (F := F) (UU := UU) d L ft (View.write (Elt F) (iW).view fi0 (tile_body2V.sl.dma0 m d L) Finset.univ) hfi O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact tripV d L ft _ hfi O W _ k u
  · unfold INVV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INVV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  ihave HR := (Entails.of_eq (congrArg (fun n => (outRowsV (F := F) (UU := UU) d ft (View.write (Elt F) (iW).view fi0 (tile_body2V.sl.dma0 m d L) Finset.univ) hfi (widL L) n : sProp 𝕄)) (show 8 * k2_t1_loop.trips = 120 from rfl))) $$ HR
  ihave HR' := (Entails.of_eq (outRowsV_group (F := F) (UU := UU) d ft (View.write (Elt F) (iW).view fi0 (tile_body2V.sl.dma0 m d L) Finset.univ) hfi (widL L) 120 120 (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwaitV d L ft (View.write (Elt F) (iW).view fi0 (tile_body2V.sl.dma0 m d L) Finset.univ) hfi (0 : Fin 8) (jOf k2_t1_loop.trips 0) (o := ![0, 0, 0]) (inbo := inb_S8x56x128_S1x50x128_0_0_0) (sem := cc2_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV10; all_goals first | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft (View.write (Elt F) (iW).view fi0 (tile_body2V.sl.dma0 m d L) Finset.univ) hfi (0 : Fin 8) (jOf k2_t1_loop.trips 0) gp0' := fun l e => (hrep0 l e l.isLt).trans (hwin0 l (Fin.castLE (by decide) e))
  sl_exec
  iapply (gwaitV d L ft (View.write (Elt F) (iW).view fi0 (tile_body2V.sl.dma0 m d L) Finset.univ) hfi (1 : Fin 8) (jOf k2_t1_loop.trips 1) (o := ![1, 0, 0]) (inbo := inb_S8x56x128_S1x50x128_1_0_0) (sem := cc2_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV11; all_goals first | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft (View.write (Elt F) (iW).view fi0 (tile_body2V.sl.dma0 m d L) Finset.univ) hfi (1 : Fin 8) (jOf k2_t1_loop.trips 1) gp1' := fun l e => (hrep1 l e l.isLt).trans (hwin1 l (Fin.castLE (by decide) e))
  sl_exec
  iapply (gwaitV d L ft (View.write (Elt F) (iW).view fi0 (tile_body2V.sl.dma0 m d L) Finset.univ) hfi (2 : Fin 8) (jOf k2_t1_loop.trips 2) (o := ![2, 0, 0]) (inbo := inb_S8x56x128_S1x50x128_2_0_0) (sem := cc2_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV12; all_goals first | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft (View.write (Elt F) (iW).view fi0 (tile_body2V.sl.dma0 m d L) Finset.univ) hfi (2 : Fin 8) (jOf k2_t1_loop.trips 2) gp2' := fun l e => (hrep2 l e l.isLt).trans (hwin2 l (Fin.castLE (by decide) e))
  sl_exec
  iapply (gwaitV d L ft (View.write (Elt F) (iW).view fi0 (tile_body2V.sl.dma0 m d L) Finset.univ) hfi (3 : Fin 8) (jOf k2_t1_loop.trips 3) (o := ![3, 0, 0]) (inbo := inb_S8x56x128_S1x50x128_3_0_0) (sem := cc2_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV13; all_goals first | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft (View.write (Elt F) (iW).view fi0 (tile_body2V.sl.dma0 m d L) Finset.univ) hfi (3 : Fin 8) (jOf k2_t1_loop.trips 3) gp3' := fun l e => (hrep3 l e l.isLt).trans (hwin3 l (Fin.castLE (by decide) e))
  sl_exec
  iapply (gwaitV d L ft (View.write (Elt F) (iW).view fi0 (tile_body2V.sl.dma0 m d L) Finset.univ) hfi (4 : Fin 8) (jOf k2_t1_loop.trips 4) (o := ![4, 0, 0]) (inbo := inb_S8x56x128_S1x50x128_4_0_0) (sem := cc2_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV14; all_goals first | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft (View.write (Elt F) (iW).view fi0 (tile_body2V.sl.dma0 m d L) Finset.univ) hfi (4 : Fin 8) (jOf k2_t1_loop.trips 4) gp4' := fun l e => (hrep4 l e l.isLt).trans (hwin4 l (Fin.castLE (by decide) e))
  sl_exec
  iapply (gwaitV d L ft (View.write (Elt F) (iW).view fi0 (tile_body2V.sl.dma0 m d L) Finset.univ) hfi (5 : Fin 8) (jOf k2_t1_loop.trips 5) (o := ![5, 0, 0]) (inbo := inb_S8x56x128_S1x50x128_5_0_0) (sem := cc2_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV15; all_goals first | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft (View.write (Elt F) (iW).view fi0 (tile_body2V.sl.dma0 m d L) Finset.univ) hfi (5 : Fin 8) (jOf k2_t1_loop.trips 5) gp5' := fun l e => (hrep5 l e l.isLt).trans (hwin5 l (Fin.castLE (by decide) e))
  sl_exec
  iapply (gwaitV d L ft (View.write (Elt F) (iW).view fi0 (tile_body2V.sl.dma0 m d L) Finset.univ) hfi (6 : Fin 8) (jOf k2_t1_loop.trips 6) (o := ![6, 0, 0]) (inbo := inb_S8x56x128_S1x50x128_6_0_0) (sem := cc2_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV16; all_goals first | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft (View.write (Elt F) (iW).view fi0 (tile_body2V.sl.dma0 m d L) Finset.univ) hfi (6 : Fin 8) (jOf k2_t1_loop.trips 6) gp6' := fun l e => (hrep6 l e l.isLt).trans (hwin6 l (Fin.castLE (by decide) e))
  sl_exec
  iapply (gwaitV d L ft (View.write (Elt F) (iW).view fi0 (tile_body2V.sl.dma0 m d L) Finset.univ) hfi (7 : Fin 8) (jOf k2_t1_loop.trips 7) (o := ![7, 0, 0]) (inbo := inb_S8x56x128_S1x50x128_7_0_0) (sem := cc2_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV17; all_goals first | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft (View.write (Elt F) (iW).view fi0 (tile_body2V.sl.dma0 m d L) Finset.univ) hfi (7 : Fin 8) (jOf k2_t1_loop.trips 7) gp7' := fun l e => (hrep7 l e l.isLt).trans (hwin7 l (Fin.castLE (by decide) e))
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HRr' := (outRowsV_rest (F := F) (UU := UU) d ft (View.write (Elt F) (iW).view fi0 (tile_body2V.sl.dma0 m d L) Finset.univ) hfi (widL L) 120 _) $$ HRr
  ihave HR := (Entails.of_eq (outRowsV_group (F := F) (UU := UU) d ft (View.write (Elt F) (iW).view fi0 (tile_body2V.sl.dma0 m d L) Finset.univ) hfi (widL L) (120 + 8) 120 (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft (View.write (Elt F) (iW).view fi0 (tile_body2V.sl.dma0 m d L) Finset.univ) hfi d L (widL L) (0 : Fin 8) ⟨120 + 0, by omega⟩ ![0, 0, 0] inb_S8x50x64_S1x50x64_0_0_0 rfl _ (k2_off77_inb L 0) (off77_eq0 L) _ _ _ rfl (jOf15_0 ▸ hslot0)
      isplitl [Ho1]
      · iexists _; isplitr; swap; · iexact Ho1
        ipureintro; intro _; exact row_ok ft (View.write (Elt F) (iW).view fi0 (tile_body2V.sl.dma0 m d L) Finset.univ) hfi d L (widL L) (1 : Fin 8) ⟨120 + 1, by omega⟩ ![1, 0, 0] inb_S8x50x64_S1x50x64_1_0_0 rfl _ (k2_off77_inb L 1) (off77_eq1 L) _ _ _ rfl (jOf15_1 ▸ hslot1)
      isplitl [Ho2]
      · iexists _; isplitr; swap; · iexact Ho2
        ipureintro; intro _; exact row_ok ft (View.write (Elt F) (iW).view fi0 (tile_body2V.sl.dma0 m d L) Finset.univ) hfi d L (widL L) (2 : Fin 8) ⟨120 + 2, by omega⟩ ![2, 0, 0] inb_S8x50x64_S1x50x64_2_0_0 rfl _ (k2_off77_inb L 2) (off77_eq2 L) _ _ _ rfl (jOf15_2 ▸ hslot2)
      isplitl [Ho3]
      · iexists _; isplitr; swap; · iexact Ho3
        ipureintro; intro _; exact row_ok ft (View.write (Elt F) (iW).view fi0 (tile_body2V.sl.dma0 m d L) Finset.univ) hfi d L (widL L) (3 : Fin 8) ⟨120 + 3, by omega⟩ ![3, 0, 0] inb_S8x50x64_S1x50x64_3_0_0 rfl _ (k2_off77_inb L 3) (off77_eq3 L) _ _ _ rfl (jOf15_3 ▸ hslot3)
      isplitl [Ho4]
      · iexists _; isplitr; swap; · iexact Ho4
        ipureintro; intro _; exact row_ok ft (View.write (Elt F) (iW).view fi0 (tile_body2V.sl.dma0 m d L) Finset.univ) hfi d L (widL L) (4 : Fin 8) ⟨120 + 4, by omega⟩ ![4, 0, 0] inb_S8x50x64_S1x50x64_4_0_0 rfl _ (k2_off77_inb L 4) (off77_eq4 L) _ _ _ rfl (jOf15_4 ▸ hslot4)
      isplitl [Ho5]
      · iexists _; isplitr; swap; · iexact Ho5
        ipureintro; intro _; exact row_ok ft (View.write (Elt F) (iW).view fi0 (tile_body2V.sl.dma0 m d L) Finset.univ) hfi d L (widL L) (5 : Fin 8) ⟨120 + 5, by omega⟩ ![5, 0, 0] inb_S8x50x64_S1x50x64_5_0_0 rfl _ (k2_off77_inb L 5) (off77_eq5 L) _ _ _ rfl (jOf15_5 ▸ hslot5)
      isplitl [Ho6]
      · iexists _; isplitr; swap; · iexact Ho6
        ipureintro; intro _; exact row_ok ft (View.write (Elt F) (iW).view fi0 (tile_body2V.sl.dma0 m d L) Finset.univ) hfi d L (widL L) (6 : Fin 8) ⟨120 + 6, by omega⟩ ![6, 0, 0] inb_S8x50x64_S1x50x64_6_0_0 rfl _ (k2_off77_inb L 6) (off77_eq6 L) _ _ _ rfl (jOf15_6 ▸ hslot6)
      iexists _; isplitr; swap; · iexact Ho7
      ipureintro; intro _; exact row_ok ft (View.write (Elt F) (iW).view fi0 (tile_body2V.sl.dma0 m d L) Finset.univ) hfi d L (widL L) (7 : Fin 8) ⟨120 + 7, by omega⟩ ![7, 0, 0] inb_S8x50x64_S1x50x64_7_0_0 rfl _ (k2_off77_inb L 7) (off77_eq7 L) _ _ _ rfl (jOf15_7 ▸ hslot7)
    · iexact HRr'
  ihave Hout := (outRowsV_join (F := F) (UU := UU) m d L ft (View.write (Elt F) (iW).view fi0 (tile_body2V.sl.dma0 m d L) Finset.univ) hfi hfie f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body2V.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end BodyV

end Cert.Proof.Tile2

end
-- ==== Proof.TileCommon3.lean ====
/-
  One vector subcore's task of the fourth gather call: the vocabulary of its proof.

  The task copies its 128 rows of the index array into its index scratch, then for each of them gathers the 50 table
  rows the indices name into one of eight slots of a row buffer, repacks the first 64 lanes of each row into the same
  slot of a second buffer, and copies that slot out to one row of the call's result. This module states what the task
  holds in the shapes the transfers address: the seventeen semaphores and three scratch buffers among the subcore's own,
  the eight slots of each buffer, the 128 result rows (split out of the task's block and joined again), the read shares
  of the table and of the index scratch cut in eight, and the issue and the wait of one gather.
-/
import proofs.«204056_g19739669692900_cont_8to1_1488_31_alg».proof.Proof.LaunchDefs

noncomputable section

namespace Cert.Proof.Tile3

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

abbrev 𝒱₀ : Variants := Variants.none

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

abbrev cV (L : grid3.Coords) : Fin τ.nSC := (L 0).castLE hcore3
abbrev jV (L : grid3.Coords) : Fin τ.nSub := (L 1).castLE hsub3
abbrev thr (d : Dev nD) (L : grid3.Coords) : Thread nD τ := V d (cV L) (jV L)

/-! ## The task's thread, its scratch buffers and its semaphores -/

section Common

variable (d : Dev nD) (L : grid3.Coords)

omit [URA UU] [CountersIn UU] in
theorem bound_zero : grid3.bound 0 = 2 := rfl
omit [URA UU] [CountersIn UU] in
theorem bound_one : grid3.bound 1 = 16 := rfl

/-- The worker number of the subcore at grid coordinates `L`: `2 s + c`. -/
abbrev widL (L : grid3.Coords) : Fin 32 := wid (Fin.cast bound_zero (L 0)) (Fin.cast bound_one (L 1))

/-- The seventeen semaphores of the task's protocol: the index copy's, one per slot for the gathers, one per slot for
    the copies out. -/
def semSet : Finset (SemLoc sig) :=
  {SemLoc.dma cc3_scoped0.sem, SemLoc.dma cc3_scratch3.sem, SemLoc.dma cc3_scratch4.sem, SemLoc.dma cc3_scratch5.sem, SemLoc.dma cc3_scratch6.sem, SemLoc.dma cc3_scratch7.sem, SemLoc.dma cc3_scratch8.sem, SemLoc.dma cc3_scratch9.sem, SemLoc.dma cc3_scratch10.sem, SemLoc.dma cc3_scratch11.sem, SemLoc.dma cc3_scratch12.sem, SemLoc.dma cc3_scratch13.sem, SemLoc.dma cc3_scratch14.sem, SemLoc.dma cc3_scratch15.sem, SemLoc.dma cc3_scratch16.sem, SemLoc.dma cc3_scratch17.sem, SemLoc.dma cc3_scratch18.sem}

theorem semSet_scoped : ∀ sm ∈ semSet, sm.isScoped .scVector = true := by decide

def cellEmb (t : Thread nD τ) : SemLoc sig ↪ GSem nD τ sig := ⟨fun sm => (t, sm), fun _ _ e => (Prod.mk.inj e).2⟩

theorem semCells_subset : semSet.map (cellEmb (thr d L)) ⊆ ownCells (thr d L) := by
  intro g hg
  obtain ⟨sm, hsm, rfl⟩ := Finset.mem_map.mp hg
  exact mem_ownCells.mpr ⟨rfl, semSet_scoped sm hsm⟩

omit [CountersIn UU] in
/-- The subcore's own semaphores at zero: the seventeen of the protocol, and the rest. -/
theorem ownSems0_split :
    (ownSems0 (thr d L) : sProp 𝕄)
      = iprop((semVal (thr d L, SemLoc.dma cc3_scoped0.sem) 0 ∗ semVal (thr d L, SemLoc.dma cc3_scratch3.sem) 0 ∗ semVal (thr d L, SemLoc.dma cc3_scratch4.sem) 0 ∗ semVal (thr d L, SemLoc.dma cc3_scratch5.sem) 0 ∗ semVal (thr d L, SemLoc.dma cc3_scratch6.sem) 0 ∗ semVal (thr d L, SemLoc.dma cc3_scratch7.sem) 0 ∗ semVal (thr d L, SemLoc.dma cc3_scratch8.sem) 0 ∗ semVal (thr d L, SemLoc.dma cc3_scratch9.sem) 0 ∗ semVal (thr d L, SemLoc.dma cc3_scratch10.sem) 0 ∗ semVal (thr d L, SemLoc.dma cc3_scratch11.sem) 0 ∗ semVal (thr d L, SemLoc.dma cc3_scratch12.sem) 0 ∗ semVal (thr d L, SemLoc.dma cc3_scratch13.sem) 0 ∗ semVal (thr d L, SemLoc.dma cc3_scratch14.sem) 0 ∗ semVal (thr d L, SemLoc.dma cc3_scratch15.sem) 0 ∗ semVal (thr d L, SemLoc.dma cc3_scratch16.sem) 0 ∗ semVal (thr d L, SemLoc.dma cc3_scratch17.sem) 0 ∗ semVal (thr d L, SemLoc.dma cc3_scratch18.sem) 0)
          ∗ bigSep (ownCells (thr d L) \ semSet.map (cellEmb (thr d L))) fun g => semVal g 0) := by
  unfold SparseCore.Cfg.ownSems0
  rw [SparseCore.bigSep_sdiff_split' (semCells_subset d L), bigSep_map]
  unfold semSet
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

omit [CountersIn UU] in
/-- The three scratch buffers are among the subcore's own: they are them, at some contents, and the rest. -/
theorem ownBufs_split :
    (ownBufs (thr d L) : sProp 𝕄)
      = iprop((∃ f, (thr d L).loc cc3_scratch0 ↦{fullShare} f) ∗ (∃ f, (thr d L).loc cc3_scratch1 ↦{fullShare} f) ∗ (∃ f, (thr d L).loc cc3_scratch2 ↦{fullShare} f)
          ∗ bigSep ((((ownRefs (τ := τ) (.scVector (cV L) (jV L))).erase ((Proc.scVector (cV L) (jV L)).devRef cc3_scratch0)).erase
              ((Proc.scVector (cV L) (jV L)).devRef cc3_scratch1)).erase ((Proc.scVector (cV L) (jV L)).devRef cc3_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc3_scratch0) rfl)).trans ?_
  rw [SparseCore.bigSep_erase' (Finset.mem_erase.mpr ⟨fun e => absurd (Proc.devRef_injective _ e) (show (cc3_scratch1 : Ref sig .scVector) ≠ cc3_scratch0 by decide),
    SparseCore.Cfg.mem_ownRefs_of_owner (p := Proc.scVector (cV L) (jV L)) (b := (Proc.scVector (cV L) (jV L)).devRef cc3_scratch1) rfl⟩),
    SparseCore.bigSep_erase' (Finset.mem_erase.mpr ⟨fun e => absurd (Proc.devRef_injective _ e) (show (cc3_scratch2 : Ref sig .scVector) ≠ cc3_scratch1 by decide),
      Finset.mem_erase.mpr ⟨fun e => absurd (Proc.devRef_injective _ e) (show (cc3_scratch2 : Ref sig .scVector) ≠ cc3_scratch0 by decide),
        SparseCore.Cfg.mem_ownRefs_of_owner (p := Proc.scVector (cV L) (jV L)) (b := (Proc.scVector (cV L) (jV L)).devRef cc3_scratch2) rfl⟩⟩)]

end Common

section Pts

variable (m : (ℓ : Loc nD τ sig) → Buf (Elt F) ℓ) (d : Dev nD) (L : grid3.Coords)

theorem pts_cW (q : PosShare TreeShare) (f : Buf (Elt F) (catsLoc d)) :
    ((cW).view.loc (thr d L) ↦{q} f : sProp 𝕄) = catsLoc d ↦{q} f := rfl
theorem pts_tW (q : PosShare TreeShare) (f : Buf (Elt F) (tpadLoc d)) :
    ((tW).view.loc (thr d L) ↦{q} f : sProp 𝕄) = tpadLoc d ↦{q} f := rfl
theorem pts_oW (I : Finset S4096x50x64.Idx) (f : Buf (Elt F) (out3Loc d)) :
    ((oW).view.loc (thr d L) ↦[I]{fullShare} f : sProp 𝕄) = out3Loc d ↦[I]{fullShare} f := rfl
theorem pts_iW (f : Buf (Elt F) ((thr d L).loc cc3_scratch0)) :
    ((iW).view.loc (thr d L) ↦{fullShare} f : sProp 𝕄) = (thr d L).loc cc3_scratch0 ↦{fullShare} f := rfl
theorem pts_bW (f : Buf (Elt F) ((thr d L).loc cc3_scratch1)) :
    ((bW).view.loc (thr d L) ↦{fullShare} f : sProp 𝕄) = (thr d L).loc cc3_scratch1 ↦{fullShare} f := rfl
theorem pts_pW (f : Buf (Elt F) ((thr d L).loc cc3_scratch2)) :
    ((pW).view.loc (thr d L) ↦{fullShare} f : sProp 𝕄) = (thr d L).loc cc3_scratch2 ↦{fullShare} f := rfl

end Pts

/-! ## The task's 128 result rows -/

section Rows

theorem rowInb (w : Fin 32) (j : Fin 128) : ∀ a, (![128 * w.val + j.val, 0, 0] : Fin 3 → ℕ) a + S1x50x64.size a ≤ S4096x50x64.size a := by
  intro a; fin_cases a
  · show 128 * w.val + j.val + 1 ≤ 4096
    omega
  · show 0 + 50 ≤ 50
    omega
  · show 0 + 64 ≤ 64
    omega

/-- Row `128 w + j` of the call's result. -/
abbrev rowRect (w : Fin 32) (j : Fin 128) : Rect S4096x50x64 := Rect.unit (s := S4096x50x64) ![128 * w.val + j.val, 0, 0] S1x50x64.size (rowInb w j)
abbrev rowSet (w : Fin 32) (j : Fin 128) : Finset S4096x50x64.Idx := ((oW).view.slice (rowRect w j)).set

theorem rowSet_eq (w : Fin 32) (j : Fin 128) : rowSet w j = (rowRect w j).set := by
  show ((View.whole (main_v6_scv : Ref sig .scVector)).slice (rowRect w j)).set = _
  rw [View.set_slice]; exact Finset.map_refl

theorem mem_blk (w : Fin 32) (i : S4096x50x64.Idx) : i ∈ (blkRect w).set ↔ 128 * w.val ≤ (i 0).val ∧ (i 0).val < 128 * w.val + 128 := by
  unfold blkRect Rect.part Rect.block
  rw [Rect.mem_set_unit]
  constructor
  · intro h
    have h0 : w.val * 128 ≤ (i 0).val ∧ (i 0).val < w.val * 128 + 128 := h 0
    omega
  · intro h a
    fin_cases a
    · show w.val * 128 ≤ (i 0).val ∧ (i 0).val < w.val * 128 + 128
      omega
    · have h1 : (i 1).val < 50 := (i 1).isLt
      show 0 * 50 ≤ (i 1).val ∧ (i 1).val < 0 * 50 + 50
      omega
    · have h2 : (i 2).val < 64 := (i 2).isLt
      show 0 * 64 ≤ (i 2).val ∧ (i 2).val < 0 * 64 + 64
      omega

theorem mem_row (w : Fin 32) (j : Fin 128) (i : S4096x50x64.Idx) : i ∈ (rowRect w j).set ↔ (i 0).val = 128 * w.val + j.val := by
  unfold rowRect
  rw [Rect.mem_set_unit]
  constructor
  · intro h
    have h0 : 128 * w.val + j.val ≤ (i 0).val ∧ (i 0).val < 128 * w.val + j.val + 1 := h 0
    omega
  · intro h a
    fin_cases a
    · show 128 * w.val + j.val ≤ (i 0).val ∧ (i 0).val < 128 * w.val + j.val + 1
      omega
    · have h1 : (i 1).val < 50 := (i 1).isLt
      show 0 ≤ (i 1).val ∧ (i 1).val < 0 + 50
      omega
    · have h2 : (i 2).val < 64 := (i 2).isLt
      show 0 ≤ (i 2).val ∧ (i 2).val < 0 + 64
      omega

theorem rows_disjoint (w : Fin 32) : ∀ j ∈ (Finset.univ : Finset (Fin 128)), ∀ j' ∈ (Finset.univ : Finset (Fin 128)), j ≠ j' → Disjoint (rowSet w j) (rowSet w j') := by
  intro j _ j' _ h
  rw [rowSet_eq, rowSet_eq, Finset.disjoint_left]
  intro i hi hi'
  rw [mem_row] at hi hi'
  exact h (Fin.ext (by omega))

theorem rows_cover (w : Fin 32) : (Finset.univ : Finset (Fin 128)).biUnion (rowSet w) = blkSet3 w := by
  rw [blkSet3_eq]
  ext i
  rw [Finset.mem_biUnion, mem_blk]
  constructor
  · rintro ⟨j, -, hj⟩
    rw [rowSet_eq, mem_row] at hj
    have := j.isLt
    omega
  · intro h
    refine ⟨⟨(i 0).val - 128 * w.val, by omega⟩, Finset.mem_univ _, ?_⟩
    rw [rowSet_eq, mem_row]
    show (i 0).val = 128 * w.val + ((i 0).val - 128 * w.val)
    omega

variable (d : Dev nD)

/-- The task's block of the result is its 128 rows. -/
theorem outBlk_rows (w : Fin 32) (f : Buf (Elt F) (out3Loc d)) :
    (out3Loc d ↦[blkSet3 w]{fullShare} f : sProp 𝕄) = bigSep Finset.univ fun j : Fin 128 => out3Loc d ↦[rowSet w j]{fullShare} f := by
  rw [← pointsTo_biUnion Finset.univ (ℓ := out3Loc d) (rowSet w) (rows_disjoint w), rows_cover]

/-- The rows, each at some contents. -/
abbrev outRows (w : Fin 32) : sProp 𝕄 := bigSep Finset.univ fun j : Fin 128 => iprop(∃ f, out3Loc d ↦[rowSet w j]{fullShare} f)

theorem outRows_intro (w : Fin 32) (f : Buf (Elt F) (out3Loc d)) : (out3Loc d ↦[blkSet3 w]{fullShare} f : sProp 𝕄) ⊢ outRows d w := by
  rw [outBlk_rows]
  refine bigSep_mono fun j _ => (show (out3Loc d ↦[rowSet w j]{fullShare} f : sProp 𝕄) ⊢ iprop(∃ f, out3Loc d ↦[rowSet w j]{fullShare} f) from ?_)
  iintro H; iexists f; iexact H

set_option maxRecDepth 4096 in
theorem outRows_join (w : Fin 32) (f0 : Buf (Elt F) (out3Loc d)) : (outRows d w : sProp 𝕄) ⊢ iprop(∃ f, out3Loc d ↦[blkSet3 w]{fullShare} f) := by
  haveI : Nonempty (Buf (Elt F) (out3Loc d)) := ⟨f0⟩
  refine (bigSep_exists_pi Finset.univ (fun j (f : Buf (Elt F) (out3Loc d)) => (out3Loc d ↦[rowSet w j]{fullShare} f : sProp 𝕄))).trans ?_
  iintro ⟨%fs, H⟩
  ihave H' := (pointsTo_biUnion_join (ℓ := out3Loc d) (q := fullShare) (Val := Elt F) Finset.univ (rowSet w) fs f0 (rows_disjoint w)) $$ H
  icases H' with ⟨%g, -, Hg⟩
  rw [rows_cover]
  iexists g; iexact Hg

/-- Eight consecutive rows, from row `b`. -/
def grpEmb (b : ℕ) (hb : b + 8 ≤ 128) : Fin 8 ↪ Fin 128 := ⟨fun r => ⟨b + r.val, by omega⟩, fun r r' e => Fin.ext (by have := congrArg Fin.val e; simp only at this; omega)⟩

theorem univ8 : (Finset.univ : Finset (Fin 8)) = {0, 1, 2, 3, 4, 5, 6, 7} := by decide

/-- The rows are the eight from `b` and the others. -/
theorem outRows_group (w : Fin 32) (b : ℕ) (hb : b + 8 ≤ 128) :
    (outRows d w : sProp 𝕄)
      = iprop(((∃ f, out3Loc d ↦[rowSet w ⟨b + 0, by omega⟩]{fullShare} f) ∗ (∃ f, out3Loc d ↦[rowSet w ⟨b + 1, by omega⟩]{fullShare} f) ∗ (∃ f, out3Loc d ↦[rowSet w ⟨b + 2, by omega⟩]{fullShare} f) ∗ (∃ f, out3Loc d ↦[rowSet w ⟨b + 3, by omega⟩]{fullShare} f) ∗ (∃ f, out3Loc d ↦[rowSet w ⟨b + 4, by omega⟩]{fullShare} f) ∗ (∃ f, out3Loc d ↦[rowSet w ⟨b + 5, by omega⟩]{fullShare} f) ∗ (∃ f, out3Loc d ↦[rowSet w ⟨b + 6, by omega⟩]{fullShare} f) ∗ (∃ f, out3Loc d ↦[rowSet w ⟨b + 7, by omega⟩]{fullShare} f))
          ∗ bigSep (Finset.univ \ Finset.univ.map (grpEmb b hb)) fun j : Fin 128 => iprop(∃ f, out3Loc d ↦[rowSet w j]{fullShare} f)) := by
  unfold outRows
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

end Rows

/-! ## Read shares for the eight slots -/

section Oct

variable {ℓ : Loc nD τ sig} (I : Finset (Idx ℓ)) (f : Buf (Elt F) ℓ)

theorem pts_halve (q : PosShare TreeShare) : (ℓ ↦[I]{q} f : sProp 𝕄) = iprop((ℓ ↦[I]{q.left} f) ∗ (ℓ ↦[I]{q.right} f)) :=
  BI.Entails.antisymm (pointsTo_share (PosShare.mem_left_op_right q)).1 (pointsTo_share (PosShare.mem_left_op_right q)).2

/-- A share halved three times: one eighth per slot. -/
theorem pts_oct (q : PosShare TreeShare) :
    (ℓ ↦[I]{q} f : sProp 𝕄)
      = iprop((((ℓ ↦[I]{q.left.left.left} f) ∗ (ℓ ↦[I]{q.left.left.right} f)) ∗ ((ℓ ↦[I]{q.left.right.left} f) ∗ (ℓ ↦[I]{q.left.right.right} f)))
          ∗ (((ℓ ↦[I]{q.right.left.left} f) ∗ (ℓ ↦[I]{q.right.left.right} f)) ∗ ((ℓ ↦[I]{q.right.right.left} f) ∗ (ℓ ↦[I]{q.right.right.right} f)))) := by
  rw [pts_halve I f q, pts_halve I f q.left, pts_halve I f q.right, pts_halve I f q.left.left, pts_halve I f q.left.right,
    pts_halve I f q.right.left, pts_halve I f q.right.right]

end Oct

/-! ## The gathers: issue and wait -/

section Gather

variable (d : Dev nD) (L : grid3.Coords)

theorem bdiv : 8 ∣ S8x56x128.size 0 := ⟨1, rfl⟩
abbrev bPart (i : Fin 8) : Rect S8x56x128 := Rect.part (s := S8x56x128) (a₀ := 0) bdiv i
abbrev bSlab (i : Fin 8) : Finset S8x56x128.Idx := ((bW).view.slice (bPart i)).set

theorem bSlab_eq (i : Fin 8) : bSlab i = (bPart i).set := by
  show ((View.whole (cc3_scratch1 : Ref sig .scVector)).slice (bPart i)).set = _
  rw [View.set_slice]; exact Finset.map_refl
theorem bSlabs_disjoint : ∀ i ∈ (Finset.univ : Finset (Fin 8)), ∀ j ∈ (Finset.univ : Finset (Fin 8)), i ≠ j → Disjoint (bSlab i) (bSlab j) :=
  fun i _ j _ h => by rw [bSlab_eq, bSlab_eq]; exact Rect.part_disjoint bdiv h
theorem bSlabs_cover : (Finset.univ : Finset (Fin 8)).biUnion bSlab = Finset.univ :=
  (Finset.biUnion_congr rfl fun i _ => bSlab_eq i).trans (Rect.biUnion_part bdiv)

/-- The buffer is its eight slots. -/
theorem bW_slabs (f : Buf (Elt F) ((bW).view.loc (thr d L))) :
    ((bW).view.loc (thr d L) ↦{fullShare} f : sProp 𝕄)
      = iprop(((bW).view.loc (thr d L) ↦[bSlab 0]{fullShare} f) ∗ ((bW).view.loc (thr d L) ↦[bSlab 1]{fullShare} f) ∗ ((bW).view.loc (thr d L) ↦[bSlab 2]{fullShare} f) ∗ ((bW).view.loc (thr d L) ↦[bSlab 3]{fullShare} f) ∗ ((bW).view.loc (thr d L) ↦[bSlab 4]{fullShare} f) ∗ ((bW).view.loc (thr d L) ↦[bSlab 5]{fullShare} f) ∗ ((bW).view.loc (thr d L) ↦[bSlab 6]{fullShare} f) ∗ ((bW).view.loc (thr d L) ↦[bSlab 7]{fullShare} f)) := by
  rw [show ((bW).view.loc (thr d L) ↦{fullShare} f : sProp 𝕄) = bigSep Finset.univ fun i : Fin 8 => (bW).view.loc (thr d L) ↦[bSlab i]{fullShare} f from by
    rw [← pointsTo_biUnion Finset.univ (ℓ := (bW).view.loc (thr d L)) bSlab bSlabs_disjoint, bSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem bWin0_sub : (((bW).slice (Rect.unit (s := S8x56x128) ![0, 0, 0] S1x50x128.size inb_S8x56x128_S1x50x128_0_0_0) (fun _ => rfl)).squeeze S50x128 squeezes_S1x50x128_S50x128).view.set ⊆ bSlab 0 := by
  refine Memref.subset_of_eq_set (Memref.set_view_squeeze _ _) ?_
  show ((bW).view.slice (Rect.unit (s := S8x56x128) ![0, 0, 0] S1x50x128.size inb_S8x56x128_S1x50x128_0_0_0)).set ⊆ ((bW).view.slice (bPart 0)).set
  rw [View.set_slice, View.set_slice]; exact Finset.map_subset_map.mpr (LoadRect.set_subset_of_within (by decide))

theorem bWin1_sub : (((bW).slice (Rect.unit (s := S8x56x128) ![1, 0, 0] S1x50x128.size inb_S8x56x128_S1x50x128_1_0_0) (fun _ => rfl)).squeeze S50x128 squeezes_S1x50x128_S50x128).view.set ⊆ bSlab 1 := by
  refine Memref.subset_of_eq_set (Memref.set_view_squeeze _ _) ?_
  show ((bW).view.slice (Rect.unit (s := S8x56x128) ![1, 0, 0] S1x50x128.size inb_S8x56x128_S1x50x128_1_0_0)).set ⊆ ((bW).view.slice (bPart 1)).set
  rw [View.set_slice, View.set_slice]; exact Finset.map_subset_map.mpr (LoadRect.set_subset_of_within (by decide))

theorem bWin2_sub : (((bW).slice (Rect.unit (s := S8x56x128) ![2, 0, 0] S1x50x128.size inb_S8x56x128_S1x50x128_2_0_0) (fun _ => rfl)).squeeze S50x128 squeezes_S1x50x128_S50x128).view.set ⊆ bSlab 2 := by
  refine Memref.subset_of_eq_set (Memref.set_view_squeeze _ _) ?_
  show ((bW).view.slice (Rect.unit (s := S8x56x128) ![2, 0, 0] S1x50x128.size inb_S8x56x128_S1x50x128_2_0_0)).set ⊆ ((bW).view.slice (bPart 2)).set
  rw [View.set_slice, View.set_slice]; exact Finset.map_subset_map.mpr (LoadRect.set_subset_of_within (by decide))

theorem bWin3_sub : (((bW).slice (Rect.unit (s := S8x56x128) ![3, 0, 0] S1x50x128.size inb_S8x56x128_S1x50x128_3_0_0) (fun _ => rfl)).squeeze S50x128 squeezes_S1x50x128_S50x128).view.set ⊆ bSlab 3 := by
  refine Memref.subset_of_eq_set (Memref.set_view_squeeze _ _) ?_
  show ((bW).view.slice (Rect.unit (s := S8x56x128) ![3, 0, 0] S1x50x128.size inb_S8x56x128_S1x50x128_3_0_0)).set ⊆ ((bW).view.slice (bPart 3)).set
  rw [View.set_slice, View.set_slice]; exact Finset.map_subset_map.mpr (LoadRect.set_subset_of_within (by decide))

theorem bWin4_sub : (((bW).slice (Rect.unit (s := S8x56x128) ![4, 0, 0] S1x50x128.size inb_S8x56x128_S1x50x128_4_0_0) (fun _ => rfl)).squeeze S50x128 squeezes_S1x50x128_S50x128).view.set ⊆ bSlab 4 := by
  refine Memref.subset_of_eq_set (Memref.set_view_squeeze _ _) ?_
  show ((bW).view.slice (Rect.unit (s := S8x56x128) ![4, 0, 0] S1x50x128.size inb_S8x56x128_S1x50x128_4_0_0)).set ⊆ ((bW).view.slice (bPart 4)).set
  rw [View.set_slice, View.set_slice]; exact Finset.map_subset_map.mpr (LoadRect.set_subset_of_within (by decide))

theorem bWin5_sub : (((bW).slice (Rect.unit (s := S8x56x128) ![5, 0, 0] S1x50x128.size inb_S8x56x128_S1x50x128_5_0_0) (fun _ => rfl)).squeeze S50x128 squeezes_S1x50x128_S50x128).view.set ⊆ bSlab 5 := by
  refine Memref.subset_of_eq_set (Memref.set_view_squeeze _ _) ?_
  show ((bW).view.slice (Rect.unit (s := S8x56x128) ![5, 0, 0] S1x50x128.size inb_S8x56x128_S1x50x128_5_0_0)).set ⊆ ((bW).view.slice (bPart 5)).set
  rw [View.set_slice, View.set_slice]; exact Finset.map_subset_map.mpr (LoadRect.set_subset_of_within (by decide))

theorem bWin6_sub : (((bW).slice (Rect.unit (s := S8x56x128) ![6, 0, 0] S1x50x128.size inb_S8x56x128_S1x50x128_6_0_0) (fun _ => rfl)).squeeze S50x128 squeezes_S1x50x128_S50x128).view.set ⊆ bSlab 6 := by
  refine Memref.subset_of_eq_set (Memref.set_view_squeeze _ _) ?_
  show ((bW).view.slice (Rect.unit (s := S8x56x128) ![6, 0, 0] S1x50x128.size inb_S8x56x128_S1x50x128_6_0_0)).set ⊆ ((bW).view.slice (bPart 6)).set
  rw [View.set_slice, View.set_slice]; exact Finset.map_subset_map.mpr (LoadRect.set_subset_of_within (by decide))

theorem bWin7_sub : (((bW).slice (Rect.unit (s := S8x56x128) ![7, 0, 0] S1x50x128.size inb_S8x56x128_S1x50x128_7_0_0) (fun _ => rfl)).squeeze S50x128 squeezes_S1x50x128_S50x128).view.set ⊆ bSlab 7 := by
  refine Memref.subset_of_eq_set (Memref.set_view_squeeze _ _) ?_
  show ((bW).view.slice (Rect.unit (s := S8x56x128) ![7, 0, 0] S1x50x128.size inb_S8x56x128_S1x50x128_7_0_0)).set ⊆ ((bW).view.slice (bPart 7)).set
  rw [View.set_slice, View.set_slice]; exact Finset.map_subset_map.mpr (LoadRect.set_subset_of_within (by decide))

theorem pdiv : 8 ∣ S8x50x64.size 0 := ⟨1, rfl⟩
abbrev pPart (i : Fin 8) : Rect S8x50x64 := Rect.part (s := S8x50x64) (a₀ := 0) pdiv i
abbrev pSlab (i : Fin 8) : Finset S8x50x64.Idx := ((pW).view.slice (pPart i)).set

theorem pSlab_eq (i : Fin 8) : pSlab i = (pPart i).set := by
  show ((View.whole (cc3_scratch2 : Ref sig .scVector)).slice (pPart i)).set = _
  rw [View.set_slice]; exact Finset.map_refl
theorem pSlabs_disjoint : ∀ i ∈ (Finset.univ : Finset (Fin 8)), ∀ j ∈ (Finset.univ : Finset (Fin 8)), i ≠ j → Disjoint (pSlab i) (pSlab j) :=
  fun i _ j _ h => by rw [pSlab_eq, pSlab_eq]; exact Rect.part_disjoint pdiv h
theorem pSlabs_cover : (Finset.univ : Finset (Fin 8)).biUnion pSlab = Finset.univ :=
  (Finset.biUnion_congr rfl fun i _ => pSlab_eq i).trans (Rect.biUnion_part pdiv)

/-- The buffer is its eight slots. -/
theorem pW_slabs (f : Buf (Elt F) ((pW).view.loc (thr d L))) :
    ((pW).view.loc (thr d L) ↦{fullShare} f : sProp 𝕄)
      = iprop(((pW).view.loc (thr d L) ↦[pSlab 0]{fullShare} f) ∗ ((pW).view.loc (thr d L) ↦[pSlab 1]{fullShare} f) ∗ ((pW).view.loc (thr d L) ↦[pSlab 2]{fullShare} f) ∗ ((pW).view.loc (thr d L) ↦[pSlab 3]{fullShare} f) ∗ ((pW).view.loc (thr d L) ↦[pSlab 4]{fullShare} f) ∗ ((pW).view.loc (thr d L) ↦[pSlab 5]{fullShare} f) ∗ ((pW).view.loc (thr d L) ↦[pSlab 6]{fullShare} f) ∗ ((pW).view.loc (thr d L) ↦[pSlab 7]{fullShare} f)) := by
  rw [show ((pW).view.loc (thr d L) ↦{fullShare} f : sProp 𝕄) = bigSep Finset.univ fun i : Fin 8 => (pW).view.loc (thr d L) ↦[pSlab i]{fullShare} f from by
    rw [← pointsTo_biUnion Finset.univ (ℓ := (pW).view.loc (thr d L)) pSlab pSlabs_disjoint, pSlabs_cover]]
  rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

theorem pWin0_sub : (((pW).slice (Rect.unit (s := S8x50x64) ![0, 0, 0] S1x50x64.size inb_S8x50x64_S1x50x64_0_0_0) (fun _ => rfl)).squeeze S50x64 squeezes_S1x50x64_S50x64).view.set ⊆ pSlab 0 := by
  refine Memref.subset_of_eq_set (Memref.set_view_squeeze _ _) ?_
  show ((pW).view.slice (Rect.unit (s := S8x50x64) ![0, 0, 0] S1x50x64.size inb_S8x50x64_S1x50x64_0_0_0)).set ⊆ ((pW).view.slice (pPart 0)).set
  rw [View.set_slice, View.set_slice]; exact Finset.map_subset_map.mpr (LoadRect.set_subset_of_within (by decide))

theorem pWin1_sub : (((pW).slice (Rect.unit (s := S8x50x64) ![1, 0, 0] S1x50x64.size inb_S8x50x64_S1x50x64_1_0_0) (fun _ => rfl)).squeeze S50x64 squeezes_S1x50x64_S50x64).view.set ⊆ pSlab 1 := by
  refine Memref.subset_of_eq_set (Memref.set_view_squeeze _ _) ?_
  show ((pW).view.slice (Rect.unit (s := S8x50x64) ![1, 0, 0] S1x50x64.size inb_S8x50x64_S1x50x64_1_0_0)).set ⊆ ((pW).view.slice (pPart 1)).set
  rw [View.set_slice, View.set_slice]; exact Finset.map_subset_map.mpr (LoadRect.set_subset_of_within (by decide))

theorem pWin2_sub : (((pW).slice (Rect.unit (s := S8x50x64) ![2, 0, 0] S1x50x64.size inb_S8x50x64_S1x50x64_2_0_0) (fun _ => rfl)).squeeze S50x64 squeezes_S1x50x64_S50x64).view.set ⊆ pSlab 2 := by
  refine Memref.subset_of_eq_set (Memref.set_view_squeeze _ _) ?_
  show ((pW).view.slice (Rect.unit (s := S8x50x64) ![2, 0, 0] S1x50x64.size inb_S8x50x64_S1x50x64_2_0_0)).set ⊆ ((pW).view.slice (pPart 2)).set
  rw [View.set_slice, View.set_slice]; exact Finset.map_subset_map.mpr (LoadRect.set_subset_of_within (by decide))

theorem pWin3_sub : (((pW).slice (Rect.unit (s := S8x50x64) ![3, 0, 0] S1x50x64.size inb_S8x50x64_S1x50x64_3_0_0) (fun _ => rfl)).squeeze S50x64 squeezes_S1x50x64_S50x64).view.set ⊆ pSlab 3 := by
  refine Memref.subset_of_eq_set (Memref.set_view_squeeze _ _) ?_
  show ((pW).view.slice (Rect.unit (s := S8x50x64) ![3, 0, 0] S1x50x64.size inb_S8x50x64_S1x50x64_3_0_0)).set ⊆ ((pW).view.slice (pPart 3)).set
  rw [View.set_slice, View.set_slice]; exact Finset.map_subset_map.mpr (LoadRect.set_subset_of_within (by decide))

theorem pWin4_sub : (((pW).slice (Rect.unit (s := S8x50x64) ![4, 0, 0] S1x50x64.size inb_S8x50x64_S1x50x64_4_0_0) (fun _ => rfl)).squeeze S50x64 squeezes_S1x50x64_S50x64).view.set ⊆ pSlab 4 := by
  refine Memref.subset_of_eq_set (Memref.set_view_squeeze _ _) ?_
  show ((pW).view.slice (Rect.unit (s := S8x50x64) ![4, 0, 0] S1x50x64.size inb_S8x50x64_S1x50x64_4_0_0)).set ⊆ ((pW).view.slice (pPart 4)).set
  rw [View.set_slice, View.set_slice]; exact Finset.map_subset_map.mpr (LoadRect.set_subset_of_within (by decide))

theorem pWin5_sub : (((pW).slice (Rect.unit (s := S8x50x64) ![5, 0, 0] S1x50x64.size inb_S8x50x64_S1x50x64_5_0_0) (fun _ => rfl)).squeeze S50x64 squeezes_S1x50x64_S50x64).view.set ⊆ pSlab 5 := by
  refine Memref.subset_of_eq_set (Memref.set_view_squeeze _ _) ?_
  show ((pW).view.slice (Rect.unit (s := S8x50x64) ![5, 0, 0] S1x50x64.size inb_S8x50x64_S1x50x64_5_0_0)).set ⊆ ((pW).view.slice (pPart 5)).set
  rw [View.set_slice, View.set_slice]; exact Finset.map_subset_map.mpr (LoadRect.set_subset_of_within (by decide))

theorem pWin6_sub : (((pW).slice (Rect.unit (s := S8x50x64) ![6, 0, 0] S1x50x64.size inb_S8x50x64_S1x50x64_6_0_0) (fun _ => rfl)).squeeze S50x64 squeezes_S1x50x64_S50x64).view.set ⊆ pSlab 6 := by
  refine Memref.subset_of_eq_set (Memref.set_view_squeeze _ _) ?_
  show ((pW).view.slice (Rect.unit (s := S8x50x64) ![6, 0, 0] S1x50x64.size inb_S8x50x64_S1x50x64_6_0_0)).set ⊆ ((pW).view.slice (pPart 6)).set
  rw [View.set_slice, View.set_slice]; exact Finset.map_subset_map.mpr (LoadRect.set_subset_of_within (by decide))

theorem pWin7_sub : (((pW).slice (Rect.unit (s := S8x50x64) ![7, 0, 0] S1x50x64.size inb_S8x50x64_S1x50x64_7_0_0) (fun _ => rfl)).squeeze S50x64 squeezes_S1x50x64_S50x64).view.set ⊆ pSlab 7 := by
  refine Memref.subset_of_eq_set (Memref.set_view_squeeze _ _) ?_
  show ((pW).view.slice (Rect.unit (s := S8x50x64) ![7, 0, 0] S1x50x64.size inb_S8x50x64_S1x50x64_7_0_0)).set ⊆ ((pW).view.slice (pPart 7)).set
  rw [View.set_slice, View.set_slice]; exact Finset.map_subset_map.mpr (LoadRect.set_subset_of_within (by decide))

/-- The gathers' source: the whole padded table, as the program slices it. -/
abbrev tAll : Memref sig .scVector .hbm S100000x128 .f32 :=
  (tW).slice (Rect.unit (s := S100000x128) ![0, 0] S100000x128.size inb_S100000x128_S100000x128_0_0) (fun _ => rfl)
/-- Fifty rows of a slot of the row buffer, from offsets `o`. -/
abbrev bWinAt (o : Fin 3 → ℕ) (inbo : ∀ a, o a + S1x50x128.size a ≤ S8x56x128.size a) : Memref sig .scVector .vmem S50x128 .f32 :=
  ((bW).slice (Rect.unit (s := S8x56x128) o S1x50x128.size inbo) (fun _ => rfl)).squeeze S50x128 squeezes_S1x50x128_S50x128
/-- One row of the index scratch: a gather's offset list. -/
abbrev iRowAt (off : Fin 2 → ℕ) (inb : ∀ a, off a + S1x50.size a ≤ S128x50.size a) : Memref sig .scVector .vmem S50 .i32 :=
  ((iW).slice (Rect.unit (s := S128x50) off S1x50.size inb) (fun _ => rfl)).squeeze S50 squeezes_S1x50_S50

/-- A list's words are words of the index scratch: in range when all of those are. -/
theorem hin_of (off : Fin 2 → ℕ) (inb : ∀ a, off a + S1x50.size a ≤ S128x50.size a) (fi : Buf (Elt F) ((iW).view.loc (thr d L)))
    (hfi : ∀ y, (fi y).toNat < 100000) :
    ∀ x, ((iRowAt off inb).view.read (Elt F) fi x).toNat < S100000x128.size gathers_S100000x128_S50x128.axis := by
  intro x
  rw [show (iRowAt off inb).view.read (Elt F) fi x = fi ((iRowAt off inb).view.emb x) from (View.read_apply _ _).trans (cast_eq _ _)]
  exact hfi _

variable [FloatOps F]

/-- A gather in flight on `sem` into the slot window at `o`: its flight, which delivers the window at some contents
    and the lent pieces of the table's and the index scratch's read shares, and the rests of those two shares. -/
def GFl (o : Fin 3 → ℕ) (inbo : ∀ a, o a + S1x50x128.size a ≤ S8x56x128.size a) (sem : DmaSem sig) (qt qi : PosShare TreeShare)
    (ft : Buf (Elt F) ((tW).view.loc (thr d L))) (fi : Buf (Elt F) ((iW).view.loc (thr d L))) : sProp 𝕄 :=
  iprop(∃ (Sw : Finset (Idx ((iW).view.loc (thr d L)))) (fd : Buf (Elt F) ((bWinAt o inbo).view.loc (thr d L))),
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
/-- The issue: the table's and the index scratch's read shares, the slot window and the semaphore at zero in, the
    gather in flight out. -/
theorem gissue {o : Fin 3 → ℕ} {inbo : ∀ a, o a + S1x50x128.size a ≤ S8x56x128.size a} {off : Fin 2 → ℕ} {inb : ∀ a, off a + S1x50.size a ≤ S128x50.size a}
    {sem : DmaSem sig} {qt qi : PosShare TreeShare}
    {ft : Buf (Elt F) ((tW).view.loc (thr d L))} {fi : Buf (Elt F) ((iW).view.loc (thr d L))} {fd : Buf (Elt F) ((bWinAt o inbo).view.loc (thr d L))}
    (hfi : ∀ y, (fi y).toNat < 100000)
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFl d L o inbo sem qt qi ft fi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (q := qt) (f := ft) (S := Finset.univ) (Finset.subset_univ (tAll).view.set)).1 $$ HT
  icases HTs with ⟨HTw, HTr⟩
  ihave HIs := (pointsTo_split_subset (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFl
  iexists (iRowAt off inb).view.set, _
  isplitl [Hfl]; · iexact Hfl
  isplitl [HTr]; · iexact HTr
  iexact HIr

set_option maxHeartbeats 1000000 in
/-- The wait: the gather in flight, the thread's `owes` and its evidence in; the slot window at some contents, the two
    read shares whole again, the semaphore at zero and the wait recorded out. -/
theorem gwait {o : Fin 3 → ℕ} {inbo : ∀ a, o a + S1x50x128.size a ≤ S8x56x128.size a} {sem : DmaSem sig} {qt qi : PosShare TreeShare}
    {ft : Buf (Elt F) ((tW).view.loc (thr d L))} {fi : Buf (Elt F) ((iW).view.loc (thr d L))}
    {sp sp' : Space} {s s' : Shape} {e e' : EltTy} {κ' : Kind}
    {srcw : Memref sig (thr d L).2.kind sp' s' e'} {dstw : Memref sig κ' sp s e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFl d L o inbo sem qt qi ft fi ∗ owes (thr d L) O W ∗ Transfers.MayWaits (thr d L) (default : HIx 4) O
        ∗ (iprop((∃ fd, (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFl
  iintro ⟨⟨%Sw, %fd, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (q := qt) (f := ft) (S := Finset.univ) (Finset.subset_univ (tAll).view.set)).2 $$ [HTw HTr]; · isplitl [HTw] <;> iassumption
  ihave HI := (pointsTo_split_subset (q := qi) (f := fi) (S := Finset.univ) (Finset.subset_univ Sw)).2 $$ [HIw HIr]; · isplitl [HIw] <;> iassumption
  iapply Hk
  isplitl [HB]; · iexists fd; iexact HB
  isplitl [HT]; · iexact HT
  isplitl [HI]; · iexact HI
  isplitl [Hsem]; · iexact Hsem
  iexact HO

end Gather

/-! ## The slots' windows, as the program slices them -/

abbrev bWin0 : Memref sig .scVector .vmem S50x128 .f32 := ((bW).slice (Rect.unit (s := S8x56x128) ![0, 0, 0] S1x50x128.size inb_S8x56x128_S1x50x128_0_0_0) (fun _ => rfl)).squeeze S50x128 squeezes_S1x50x128_S50x128
abbrev pWin0 : Memref sig .scVector .vmem S50x64 .f32 := ((pW).slice (Rect.unit (s := S8x50x64) ![0, 0, 0] S1x50x64.size inb_S8x50x64_S1x50x64_0_0_0) (fun _ => rfl)).squeeze S50x64 squeezes_S1x50x64_S50x64
abbrev bWin1 : Memref sig .scVector .vmem S50x128 .f32 := ((bW).slice (Rect.unit (s := S8x56x128) ![1, 0, 0] S1x50x128.size inb_S8x56x128_S1x50x128_1_0_0) (fun _ => rfl)).squeeze S50x128 squeezes_S1x50x128_S50x128
abbrev pWin1 : Memref sig .scVector .vmem S50x64 .f32 := ((pW).slice (Rect.unit (s := S8x50x64) ![1, 0, 0] S1x50x64.size inb_S8x50x64_S1x50x64_1_0_0) (fun _ => rfl)).squeeze S50x64 squeezes_S1x50x64_S50x64
abbrev bWin2 : Memref sig .scVector .vmem S50x128 .f32 := ((bW).slice (Rect.unit (s := S8x56x128) ![2, 0, 0] S1x50x128.size inb_S8x56x128_S1x50x128_2_0_0) (fun _ => rfl)).squeeze S50x128 squeezes_S1x50x128_S50x128
abbrev pWin2 : Memref sig .scVector .vmem S50x64 .f32 := ((pW).slice (Rect.unit (s := S8x50x64) ![2, 0, 0] S1x50x64.size inb_S8x50x64_S1x50x64_2_0_0) (fun _ => rfl)).squeeze S50x64 squeezes_S1x50x64_S50x64
abbrev bWin3 : Memref sig .scVector .vmem S50x128 .f32 := ((bW).slice (Rect.unit (s := S8x56x128) ![3, 0, 0] S1x50x128.size inb_S8x56x128_S1x50x128_3_0_0) (fun _ => rfl)).squeeze S50x128 squeezes_S1x50x128_S50x128
abbrev pWin3 : Memref sig .scVector .vmem S50x64 .f32 := ((pW).slice (Rect.unit (s := S8x50x64) ![3, 0, 0] S1x50x64.size inb_S8x50x64_S1x50x64_3_0_0) (fun _ => rfl)).squeeze S50x64 squeezes_S1x50x64_S50x64
abbrev bWin4 : Memref sig .scVector .vmem S50x128 .f32 := ((bW).slice (Rect.unit (s := S8x56x128) ![4, 0, 0] S1x50x128.size inb_S8x56x128_S1x50x128_4_0_0) (fun _ => rfl)).squeeze S50x128 squeezes_S1x50x128_S50x128
abbrev pWin4 : Memref sig .scVector .vmem S50x64 .f32 := ((pW).slice (Rect.unit (s := S8x50x64) ![4, 0, 0] S1x50x64.size inb_S8x50x64_S1x50x64_4_0_0) (fun _ => rfl)).squeeze S50x64 squeezes_S1x50x64_S50x64
abbrev bWin5 : Memref sig .scVector .vmem S50x128 .f32 := ((bW).slice (Rect.unit (s := S8x56x128) ![5, 0, 0] S1x50x128.size inb_S8x56x128_S1x50x128_5_0_0) (fun _ => rfl)).squeeze S50x128 squeezes_S1x50x128_S50x128
abbrev pWin5 : Memref sig .scVector .vmem S50x64 .f32 := ((pW).slice (Rect.unit (s := S8x50x64) ![5, 0, 0] S1x50x64.size inb_S8x50x64_S1x50x64_5_0_0) (fun _ => rfl)).squeeze S50x64 squeezes_S1x50x64_S50x64
abbrev bWin6 : Memref sig .scVector .vmem S50x128 .f32 := ((bW).slice (Rect.unit (s := S8x56x128) ![6, 0, 0] S1x50x128.size inb_S8x56x128_S1x50x128_6_0_0) (fun _ => rfl)).squeeze S50x128 squeezes_S1x50x128_S50x128
abbrev pWin6 : Memref sig .scVector .vmem S50x64 .f32 := ((pW).slice (Rect.unit (s := S8x50x64) ![6, 0, 0] S1x50x64.size inb_S8x50x64_S1x50x64_6_0_0) (fun _ => rfl)).squeeze S50x64 squeezes_S1x50x64_S50x64
abbrev bWin7 : Memref sig .scVector .vmem S50x128 .f32 := ((bW).slice (Rect.unit (s := S8x56x128) ![7, 0, 0] S1x50x128.size inb_S8x56x128_S1x50x128_7_0_0) (fun _ => rfl)).squeeze S50x128 squeezes_S1x50x128_S50x128
abbrev pWin7 : Memref sig .scVector .vmem S50x64 .f32 := ((pW).slice (Rect.unit (s := S8x50x64) ![7, 0, 0] S1x50x64.size inb_S8x50x64_S1x50x64_7_0_0) (fun _ => rfl)).squeeze S50x64 squeezes_S1x50x64_S50x64

end Cert.Proof.Tile3

end
-- ==== Proof.TileRepack3.lean ====
/-
  The repack loops of one subcore's task: a trip copies the first 64 lanes of one row of a slot of the row buffer into
  the same row of the same slot of the repacked buffer, sixteen lanes at a time. Each trip touches only the slot's own
  window of each buffer, so the loop keeps them, at whatever contents, and needs nothing else.
-/
import proofs.«204056_g19739669692900_cont_8to1_1488_31_alg».proof.Proof.TileCommon3
import proofs.«204056_g19739669692900_cont_8to1_1488_31_alg».proof.Proof.Gen.KernelIdeal.Skeleton

noncomputable section

namespace Cert.Proof.Tile3

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

section Repack

variable (d : Dev nD) (L : grid3.Coords)

/-- Slot 0's window of the row buffer and slot 0 of the repacked buffer, each at some contents. -/
abbrev RInv0 : sProp 𝕄 := iprop((∃ f, ((bWin0).view.loc (thr d L) ↦[(bWin0).view.set]{fullShare} f)) ∗ ∃ g, ((pWin0).view.loc (thr d L) ↦[(pWin0).view.set]{fullShare} g))
/-- Slot 1's window of the row buffer and slot 1 of the repacked buffer, each at some contents. -/
abbrev RInv1 : sProp 𝕄 := iprop((∃ f, ((bWin1).view.loc (thr d L) ↦[(bWin1).view.set]{fullShare} f)) ∗ ∃ g, ((pWin1).view.loc (thr d L) ↦[(pWin1).view.set]{fullShare} g))
/-- Slot 2's window of the row buffer and slot 2 of the repacked buffer, each at some contents. -/
abbrev RInv2 : sProp 𝕄 := iprop((∃ f, ((bWin2).view.loc (thr d L) ↦[(bWin2).view.set]{fullShare} f)) ∗ ∃ g, ((pWin2).view.loc (thr d L) ↦[(pWin2).view.set]{fullShare} g))
/-- Slot 3's window of the row buffer and slot 3 of the repacked buffer, each at some contents. -/
abbrev RInv3 : sProp 𝕄 := iprop((∃ f, ((bWin3).view.loc (thr d L) ↦[(bWin3).view.set]{fullShare} f)) ∗ ∃ g, ((pWin3).view.loc (thr d L) ↦[(pWin3).view.set]{fullShare} g))
/-- Slot 4's window of the row buffer and slot 4 of the repacked buffer, each at some contents. -/
abbrev RInv4 : sProp 𝕄 := iprop((∃ f, ((bWin4).view.loc (thr d L) ↦[(bWin4).view.set]{fullShare} f)) ∗ ∃ g, ((pWin4).view.loc (thr d L) ↦[(pWin4).view.set]{fullShare} g))
/-- Slot 5's window of the row buffer and slot 5 of the repacked buffer, each at some contents. -/
abbrev RInv5 : sProp 𝕄 := iprop((∃ f, ((bWin5).view.loc (thr d L) ↦[(bWin5).view.set]{fullShare} f)) ∗ ∃ g, ((pWin5).view.loc (thr d L) ↦[(pWin5).view.set]{fullShare} g))
/-- Slot 6's window of the row buffer and slot 6 of the repacked buffer, each at some contents. -/
abbrev RInv6 : sProp 𝕄 := iprop((∃ f, ((bWin6).view.loc (thr d L) ↦[(bWin6).view.set]{fullShare} f)) ∗ ∃ g, ((pWin6).view.loc (thr d L) ↦[(pWin6).view.set]{fullShare} g))
/-- Slot 7's window of the row buffer and slot 7 of the repacked buffer, each at some contents. -/
abbrev RInv7 : sProp 𝕄 := iprop((∃ f, ((bWin7).view.loc (thr d L) ↦[(bWin7).view.set]{fullShare} f)) ∗ ∃ g, ((pWin7).view.loc (thr d L) ↦[(pWin7).view.set]{fullShare} g))

variable [FloatOps F]

set_option maxHeartbeats 1000000 in
theorem repack2 (v2 : BitVec 32) (c0_i32_51 : BitVec 32) (c1_i32_52 : BitVec 32) (k3_t1 : Fin k3_t1_loop.trips) (k : Fin k3_t2_loop.trips) (u : Unit) :
    (RInv0 d L : sProp 𝕄) ⊢ wp frame (wpE (defs₀ (F := F)) 𝒱₀ (thr d L) none) Set.univ
        (k3_t2_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 c0_i32_51 c1_i32_52 k3_t1 k u) (fun _ => RInv0 d L) := by
  unfold k3_t2_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack3 (v2 : BitVec 32) (k3_t1 : Fin k3_t1_loop.trips) (arg24 : BitVec 32) (v255 : BitVec 32) (k : Fin k3_t3_loop.trips) (u : Unit) :
    (RInv1 d L : sProp 𝕄) ⊢ wp frame (wpE (defs₀ (F := F)) 𝒱₀ (thr d L) none) Set.univ
        (k3_t3_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v255 k u) (fun _ => RInv1 d L) := by
  unfold k3_t3_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack4 (v2 : BitVec 32) (k3_t1 : Fin k3_t1_loop.trips) (arg24 : BitVec 32) (v255 : BitVec 32) (k : Fin k3_t4_loop.trips) (u : Unit) :
    (RInv2 d L : sProp 𝕄) ⊢ wp frame (wpE (defs₀ (F := F)) 𝒱₀ (thr d L) none) Set.univ
        (k3_t4_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v255 k u) (fun _ => RInv2 d L) := by
  unfold k3_t4_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack5 (v2 : BitVec 32) (k3_t1 : Fin k3_t1_loop.trips) (arg24 : BitVec 32) (k : Fin k3_t5_loop.trips) (u : Unit) :
    (RInv3 d L : sProp 𝕄) ⊢ wp frame (wpE (defs₀ (F := F)) 𝒱₀ (thr d L) none) Set.univ
        (k3_t5_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 k u) (fun _ => RInv3 d L) := by
  unfold k3_t5_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack6 (v2 : BitVec 32) (k3_t1 : Fin k3_t1_loop.trips) (arg24 : BitVec 32) (v306 : BitVec 32) (k : Fin k3_t6_loop.trips) (u : Unit) :
    (RInv4 d L : sProp 𝕄) ⊢ wp frame (wpE (defs₀ (F := F)) 𝒱₀ (thr d L) none) Set.univ
        (k3_t6_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v306 k u) (fun _ => RInv4 d L) := by
  unfold k3_t6_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack7 (v2 : BitVec 32) (k3_t1 : Fin k3_t1_loop.trips) (arg24 : BitVec 32) (v306 : BitVec 32) (k : Fin k3_t7_loop.trips) (u : Unit) :
    (RInv5 d L : sProp 𝕄) ⊢ wp frame (wpE (defs₀ (F := F)) 𝒱₀ (thr d L) none) Set.univ
        (k3_t7_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v306 k u) (fun _ => RInv5 d L) := by
  unfold k3_t7_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack8 (v2 : BitVec 32) (k3_t1 : Fin k3_t1_loop.trips) (arg24 : BitVec 32) (k : Fin k3_t8_loop.trips) (u : Unit) :
    (RInv6 d L : sProp 𝕄) ⊢ wp frame (wpE (defs₀ (F := F)) 𝒱₀ (thr d L) none) Set.univ
        (k3_t8_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 k u) (fun _ => RInv6 d L) := by
  unfold k3_t8_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack9 (v2 : BitVec 32) (k3_t1 : Fin k3_t1_loop.trips) (arg24 : BitVec 32) (v357 : BitVec 32) (k : Fin k3_t9_loop.trips) (u : Unit) :
    (RInv7 d L : sProp 𝕄) ⊢ wp frame (wpE (defs₀ (F := F)) 𝒱₀ (thr d L) none) Set.univ
        (k3_t9_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v357 k u) (fun _ => RInv7 d L) := by
  unfold k3_t9_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack10 (v2 : BitVec 32) (k : Fin k3_t10_loop.trips) (u : Unit) :
    (RInv0 d L : sProp 𝕄) ⊢ wp frame (wpE (defs₀ (F := F)) 𝒱₀ (thr d L) none) Set.univ
        (k3_t10_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv0 d L) := by
  unfold k3_t10_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack11 (v2 : BitVec 32) (k : Fin k3_t11_loop.trips) (u : Unit) :
    (RInv1 d L : sProp 𝕄) ⊢ wp frame (wpE (defs₀ (F := F)) 𝒱₀ (thr d L) none) Set.univ
        (k3_t11_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv1 d L) := by
  unfold k3_t11_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack12 (v2 : BitVec 32) (k : Fin k3_t12_loop.trips) (u : Unit) :
    (RInv2 d L : sProp 𝕄) ⊢ wp frame (wpE (defs₀ (F := F)) 𝒱₀ (thr d L) none) Set.univ
        (k3_t12_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv2 d L) := by
  unfold k3_t12_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack13 (v2 : BitVec 32) (k : Fin k3_t13_loop.trips) (u : Unit) :
    (RInv3 d L : sProp 𝕄) ⊢ wp frame (wpE (defs₀ (F := F)) 𝒱₀ (thr d L) none) Set.univ
        (k3_t13_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv3 d L) := by
  unfold k3_t13_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack14 (v2 : BitVec 32) (k : Fin k3_t14_loop.trips) (u : Unit) :
    (RInv4 d L : sProp 𝕄) ⊢ wp frame (wpE (defs₀ (F := F)) 𝒱₀ (thr d L) none) Set.univ
        (k3_t14_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv4 d L) := by
  unfold k3_t14_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack15 (v2 : BitVec 32) (k : Fin k3_t15_loop.trips) (u : Unit) :
    (RInv5 d L : sProp 𝕄) ⊢ wp frame (wpE (defs₀ (F := F)) 𝒱₀ (thr d L) none) Set.univ
        (k3_t15_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv5 d L) := by
  unfold k3_t15_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack16 (v2 : BitVec 32) (k : Fin k3_t16_loop.trips) (u : Unit) :
    (RInv6 d L : sProp 𝕄) ⊢ wp frame (wpE (defs₀ (F := F)) 𝒱₀ (thr d L) none) Set.univ
        (k3_t16_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv6 d L) := by
  unfold k3_t16_body
  iintro ⟨⟨%fb, Hb⟩, ⟨%gp, Hp⟩⟩
  have hk : k.val < 50 := k.isLt
  sl_exec
  sl_step
  isplitl [Hb]; · iexists _; iexact Hb
  iexists _; iexact Hp

set_option maxHeartbeats 1000000 in
theorem repack17 (v2 : BitVec 32) (k : Fin k3_t17_loop.trips) (u : Unit) :
    (RInv7 d L : sProp 𝕄) ⊢ wp frame (wpE (defs₀ (F := F)) 𝒱₀ (thr d L) none) Set.univ
        (k3_t17_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (fun _ => RInv7 d L) := by
  unfold k3_t17_body
  iintro ⟨⟨%fb, Hb⟩, ⟨%gp, Hp⟩⟩
  have hk : k.val < 50 := k.isLt
  sl_exec
  sl_step
  isplitl [Hb]; · iexists _; iexact Hb
  iexists _; iexact Hp

end Repack

end Cert.Proof.Tile3

end
-- ==== Proof.TileBody3.lean ====
/-
  One vector subcore's task of the fourth gather call, run to its end.

  Between two trips of the main loop every slot's gather is in flight, every slot of the repacked buffer and every
  result row is home at some contents and every copy-out semaphore is at zero; a trip waits for each slot's gather,
  repacks the slot, starts its copy out, then waits for each copy out and starts the slot's next gather. The prologue
  reaches that state from what the launch hands the task, and the last group of rows leaves it with nothing in flight.
-/
import proofs.«204056_g19739669692900_cont_8to1_1488_31_alg».proof.Proof.TileCommon3
import proofs.«204056_g19739669692900_cont_8to1_1488_31_alg».proof.Proof.Gen.KernelIdeal.Skeleton
import proofs.«204056_g19739669692900_cont_8to1_1488_31_alg».proof.Proof.TileRepack3

noncomputable section

namespace Cert.Proof.Tile3

open Cert.KernelIdeal Cert.KernelIdeal.Gen
open Cert.Proof.Shares Cert.Proof.LaunchI

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

/-! ## Joining eight pieces held at different contents; the waits a task records -/

section Join

variable {ℓ : Loc nD τ sig}

set_option maxRecDepth 4096 in
/-- Eight pairwise disjoint pieces covering a buffer, each at its own contents, are the buffer at some contents. -/
theorem join8 (K : Fin 8 → Finset (Idx ℓ))
    (hd : ∀ i ∈ (Finset.univ : Finset (Fin 8)), ∀ j ∈ (Finset.univ : Finset (Fin 8)), i ≠ j → Disjoint (K i) (K j))
    (hc : (Finset.univ : Finset (Fin 8)).biUnion K = Finset.univ)
    (f0 f1 f2 f3 f4 f5 f6 f7 : Buf (Elt F) ℓ) :
    iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7))
      ⊢ (iprop(∃ g, ℓ ↦{fullShare} g) : sProp 𝕄) := by
  have e : (bigSep Finset.univ fun i : Fin 8 => (ℓ ↦[K i]{fullShare} (![f0, f1, f2, f3, f4, f5, f6, f7] : Fin 8 → Buf (Elt F) ℓ) i : sProp 𝕄))
      = iprop((ℓ ↦[K 0]{fullShare} f0) ∗ (ℓ ↦[K 1]{fullShare} f1) ∗ (ℓ ↦[K 2]{fullShare} f2) ∗ (ℓ ↦[K 3]{fullShare} f3)
        ∗ (ℓ ↦[K 4]{fullShare} f4) ∗ (ℓ ↦[K 5]{fullShare} f5) ∗ (ℓ ↦[K 6]{fullShare} f6) ∗ (ℓ ↦[K 7]{fullShare} f7)) := by
    rw [univ8, SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
    rfl
  rw [← e]
  iintro H
  ihave H' := (pointsTo_biUnion_join (ℓ := ℓ) (q := fullShare) (Val := Elt F) Finset.univ K (![f0, f1, f2, f3, f4, f5, f6, f7] : Fin 8 → Buf (Elt F) ℓ) f0 hd) $$ H
  icases H' with ⟨%g, -, Hg⟩
  rw [hc]
  iexists g; iexact Hg

end Join

/-- A wait at the kernels' index recorded beside waits that are the caller's or at that index. -/
theorem waits_ok {W W' : Waits sig (HIx 4)} (sm : SemLoc sig) (h : ∀ p ∈ W', p ∈ W ∨ p.2 = none) :
    ∀ p ∈ insert (sm, (default : HIx 4)) W', p ∈ W ∨ p.2 = none := by
  intro p hp
  rcases Finset.mem_insert.mp hp with hp | hp
  · exact .inr (hp ▸ rfl)
  · exact h p hp

section Idx

variable (m : (ℓ : Loc nD τ sig) → Buf (Elt F) ℓ) (d : Dev nD) (L : grid3.Coords)

/-- The task's 128 rows of the index array, as the program slices them. -/
abbrev catsRowsK : Memref sig .scVector .hbm S128x50 .i32 :=
  (cW).slice (Rect.unit (s := S16384x50) (k3_off1 L) S128x50.size (k3_off1_inb L)) (fun _ => rfl)

/-- The index scratch after the copy holds words of the index array: all in range when those are. -/
theorem idx_range (hcats : ∀ j, (m (catsLoc d) j).toNat < 100000) (fs : Buf (Elt F) ((iW).view.loc (thr d L))) (pay : S128x50.Idx → Elt F .i32)
    (hpay : pay = (catsRowsK L).view.read (Elt F) (m (catsLoc d))) :
    ∀ y, ((View.write (Elt F) (iW).view fs pay Finset.univ) y).toNat < 100000 := by
  subst hpay
  intro y
  rw [View.write_whole_univ]
  rw [show ∀ j, (catsRowsK L).view.read (Elt F) (m (catsLoc d)) j = m (catsLoc d) ((catsRowsK L).view.emb j) from fun j => (View.read_apply _ _).trans (cast_eq _ _)]
  exact hcats _

end Idx

section Body

variable (m : (ℓ : Loc nD τ sig) → Buf (Elt F) ℓ) (d : Dev nD) (L : grid3.Coords)

/-! ## The result rows as the program slices them -/

theorem rect_unit_congr {s : Shape} {off off' size : Fin s.rank → ℕ} {inb : ∀ a, off a + size a ≤ s.size a} {inb' : ∀ a, off' a + size a ≤ s.size a}
    (h : off = off') : Rect.unit off size inb = Rect.unit off' size inb' := by subst h; rfl

/-- Row `8 k + 0` of the task's block, as trip `k` addresses it; row `120`, as the last group does. -/
abbrev oRowK0 (k : Fin k3_t1_loop.trips) : Memref sig .scVector .hbm S50x64 .f32 :=
  ((oW).slice (Rect.unit (s := S4096x50x64) (k3_off11 L k 0#32) S1x50x64.size (k3_off11_inb L k 0)) (fun _ => rfl)).squeeze S50x64 squeezes_S1x50x64_S50x64
abbrev oRowE0 : Memref sig .scVector .hbm S50x64 .f32 :=
  ((oW).slice (Rect.unit (s := S4096x50x64) (k3_off77 L 120#32) S1x50x64.size (k3_off77_inb L 0)) (fun _ => rfl)).squeeze S50x64 squeezes_S1x50x64_S50x64
theorem off11_eq0 (k : Fin k3_t1_loop.trips) : k3_off11 L k 0#32 = ![128 * (widL L).val + (8 * k.val + 0), 0, 0] :=
  (k3_off11_eq L k (0 : Fin 8)).trans (congrArg (fun x : ℕ => (![x, 0, 0] : Fin 3 → ℕ))
    (by show 256 * (L 1).val + 128 * (L 0).val + 8 * k.val + 0 = 128 * (2 * (L 1).val + (L 0).val) + (8 * k.val + 0); omega))
theorem off77_eq0 : k3_off77 L 120#32 = ![128 * (widL L).val + (120 + 0), 0, 0] :=
  (k3_off77_eq L (0 : Fin 8)).trans (congrArg (fun x : ℕ => (![x, 0, 0] : Fin 3 → ℕ))
    (by show 256 * (L 1).val + 128 * (L 0).val + 0 + 120 = 128 * (2 * (L 1).val + (L 0).val) + (120 + 0); omega))
theorem rowK_eq0 (k : Fin k3_t1_loop.trips) (h : 8 * k.val + 0 < 128) :
    Rect.unit (s := S4096x50x64) (k3_off11 L k 0#32) S1x50x64.size (k3_off11_inb L k 0) = rowRect (widL L) ⟨8 * k.val + 0, h⟩ :=
  rect_unit_congr (off11_eq0 L k)
theorem set_oRowK0 (k : Fin k3_t1_loop.trips) (h : 8 * k.val + 0 < 128) : (oRowK0 L k).view.set = rowSet (widL L) ⟨8 * k.val + 0, h⟩ := by
  show (((oW).view.slice (Rect.unit (s := S4096x50x64) (k3_off11 L k 0#32) S1x50x64.size (k3_off11_inb L k 0))).reshape S50x64 squeezes_S1x50x64_S50x64.numel_eq).set = ((oW).view.slice (rowRect (widL L) ⟨8 * k.val + 0, h⟩)).set
  rw [View.set_reshape]
  exact rowK_eq0 L k h ▸ rfl
theorem rowE_eq0 (h : 120 + 0 < 128) :
    Rect.unit (s := S4096x50x64) (k3_off77 L 120#32) S1x50x64.size (k3_off77_inb L 0) = rowRect (widL L) ⟨120 + 0, h⟩ :=
  rect_unit_congr (off77_eq0 L)
theorem set_oRowE0 (h : 120 + 0 < 128) : (oRowE0 L).view.set = rowSet (widL L) ⟨120 + 0, h⟩ := by
  show (((oW).view.slice (Rect.unit (s := S4096x50x64) (k3_off77 L 120#32) S1x50x64.size (k3_off77_inb L 0))).reshape S50x64 squeezes_S1x50x64_S50x64.numel_eq).set = ((oW).view.slice (rowRect (widL L) ⟨120 + 0, h⟩)).set
  rw [View.set_reshape]
  exact rowE_eq0 L h ▸ rfl
theorem pts_oRowK0 (k : Fin k3_t1_loop.trips) (h : 8 * k.val + 0 < 128) (f : Buf (Elt F) (out3Loc d)) :
    ((oRowK0 L k).view.loc (thr d L) ↦[(oRowK0 L k).view.set]{fullShare} f : sProp 𝕄) = out3Loc d ↦[rowSet (widL L) ⟨8 * k.val + 0, h⟩]{fullShare} f := by
  rw [set_oRowK0 L k h]
theorem pts_oRowE0 (h : 120 + 0 < 128) (f : Buf (Elt F) (out3Loc d)) :
    ((oRowE0 L).view.loc (thr d L) ↦[(oRowE0 L).view.set]{fullShare} f : sProp 𝕄) = out3Loc d ↦[rowSet (widL L) ⟨120 + 0, h⟩]{fullShare} f := by
  rw [set_oRowE0 L h]

/-- Row `8 k + 1` of the task's block, as trip `k` addresses it; row `121`, as the last group does. -/
abbrev oRowK1 (k : Fin k3_t1_loop.trips) : Memref sig .scVector .hbm S50x64 .f32 :=
  ((oW).slice (Rect.unit (s := S4096x50x64) (k3_off11 L k 1#32) S1x50x64.size (k3_off11_inb L k 1)) (fun _ => rfl)).squeeze S50x64 squeezes_S1x50x64_S50x64
abbrev oRowE1 : Memref sig .scVector .hbm S50x64 .f32 :=
  ((oW).slice (Rect.unit (s := S4096x50x64) (k3_off77 L 121#32) S1x50x64.size (k3_off77_inb L 1)) (fun _ => rfl)).squeeze S50x64 squeezes_S1x50x64_S50x64
theorem off11_eq1 (k : Fin k3_t1_loop.trips) : k3_off11 L k 1#32 = ![128 * (widL L).val + (8 * k.val + 1), 0, 0] :=
  (k3_off11_eq L k (1 : Fin 8)).trans (congrArg (fun x : ℕ => (![x, 0, 0] : Fin 3 → ℕ))
    (by show 256 * (L 1).val + 128 * (L 0).val + 8 * k.val + 1 = 128 * (2 * (L 1).val + (L 0).val) + (8 * k.val + 1); omega))
theorem off77_eq1 : k3_off77 L 121#32 = ![128 * (widL L).val + (120 + 1), 0, 0] :=
  (k3_off77_eq L (1 : Fin 8)).trans (congrArg (fun x : ℕ => (![x, 0, 0] : Fin 3 → ℕ))
    (by show 256 * (L 1).val + 128 * (L 0).val + 1 + 120 = 128 * (2 * (L 1).val + (L 0).val) + (120 + 1); omega))
theorem rowK_eq1 (k : Fin k3_t1_loop.trips) (h : 8 * k.val + 1 < 128) :
    Rect.unit (s := S4096x50x64) (k3_off11 L k 1#32) S1x50x64.size (k3_off11_inb L k 1) = rowRect (widL L) ⟨8 * k.val + 1, h⟩ :=
  rect_unit_congr (off11_eq1 L k)
theorem set_oRowK1 (k : Fin k3_t1_loop.trips) (h : 8 * k.val + 1 < 128) : (oRowK1 L k).view.set = rowSet (widL L) ⟨8 * k.val + 1, h⟩ := by
  show (((oW).view.slice (Rect.unit (s := S4096x50x64) (k3_off11 L k 1#32) S1x50x64.size (k3_off11_inb L k 1))).reshape S50x64 squeezes_S1x50x64_S50x64.numel_eq).set = ((oW).view.slice (rowRect (widL L) ⟨8 * k.val + 1, h⟩)).set
  rw [View.set_reshape]
  exact rowK_eq1 L k h ▸ rfl
theorem rowE_eq1 (h : 120 + 1 < 128) :
    Rect.unit (s := S4096x50x64) (k3_off77 L 121#32) S1x50x64.size (k3_off77_inb L 1) = rowRect (widL L) ⟨120 + 1, h⟩ :=
  rect_unit_congr (off77_eq1 L)
theorem set_oRowE1 (h : 120 + 1 < 128) : (oRowE1 L).view.set = rowSet (widL L) ⟨120 + 1, h⟩ := by
  show (((oW).view.slice (Rect.unit (s := S4096x50x64) (k3_off77 L 121#32) S1x50x64.size (k3_off77_inb L 1))).reshape S50x64 squeezes_S1x50x64_S50x64.numel_eq).set = ((oW).view.slice (rowRect (widL L) ⟨120 + 1, h⟩)).set
  rw [View.set_reshape]
  exact rowE_eq1 L h ▸ rfl
theorem pts_oRowK1 (k : Fin k3_t1_loop.trips) (h : 8 * k.val + 1 < 128) (f : Buf (Elt F) (out3Loc d)) :
    ((oRowK1 L k).view.loc (thr d L) ↦[(oRowK1 L k).view.set]{fullShare} f : sProp 𝕄) = out3Loc d ↦[rowSet (widL L) ⟨8 * k.val + 1, h⟩]{fullShare} f := by
  rw [set_oRowK1 L k h]
theorem pts_oRowE1 (h : 120 + 1 < 128) (f : Buf (Elt F) (out3Loc d)) :
    ((oRowE1 L).view.loc (thr d L) ↦[(oRowE1 L).view.set]{fullShare} f : sProp 𝕄) = out3Loc d ↦[rowSet (widL L) ⟨120 + 1, h⟩]{fullShare} f := by
  rw [set_oRowE1 L h]

/-- Row `8 k + 2` of the task's block, as trip `k` addresses it; row `122`, as the last group does. -/
abbrev oRowK2 (k : Fin k3_t1_loop.trips) : Memref sig .scVector .hbm S50x64 .f32 :=
  ((oW).slice (Rect.unit (s := S4096x50x64) (k3_off11 L k 2#32) S1x50x64.size (k3_off11_inb L k 2)) (fun _ => rfl)).squeeze S50x64 squeezes_S1x50x64_S50x64
abbrev oRowE2 : Memref sig .scVector .hbm S50x64 .f32 :=
  ((oW).slice (Rect.unit (s := S4096x50x64) (k3_off77 L 122#32) S1x50x64.size (k3_off77_inb L 2)) (fun _ => rfl)).squeeze S50x64 squeezes_S1x50x64_S50x64
theorem off11_eq2 (k : Fin k3_t1_loop.trips) : k3_off11 L k 2#32 = ![128 * (widL L).val + (8 * k.val + 2), 0, 0] :=
  (k3_off11_eq L k (2 : Fin 8)).trans (congrArg (fun x : ℕ => (![x, 0, 0] : Fin 3 → ℕ))
    (by show 256 * (L 1).val + 128 * (L 0).val + 8 * k.val + 2 = 128 * (2 * (L 1).val + (L 0).val) + (8 * k.val + 2); omega))
theorem off77_eq2 : k3_off77 L 122#32 = ![128 * (widL L).val + (120 + 2), 0, 0] :=
  (k3_off77_eq L (2 : Fin 8)).trans (congrArg (fun x : ℕ => (![x, 0, 0] : Fin 3 → ℕ))
    (by show 256 * (L 1).val + 128 * (L 0).val + 2 + 120 = 128 * (2 * (L 1).val + (L 0).val) + (120 + 2); omega))
theorem rowK_eq2 (k : Fin k3_t1_loop.trips) (h : 8 * k.val + 2 < 128) :
    Rect.unit (s := S4096x50x64) (k3_off11 L k 2#32) S1x50x64.size (k3_off11_inb L k 2) = rowRect (widL L) ⟨8 * k.val + 2, h⟩ :=
  rect_unit_congr (off11_eq2 L k)
theorem set_oRowK2 (k : Fin k3_t1_loop.trips) (h : 8 * k.val + 2 < 128) : (oRowK2 L k).view.set = rowSet (widL L) ⟨8 * k.val + 2, h⟩ := by
  show (((oW).view.slice (Rect.unit (s := S4096x50x64) (k3_off11 L k 2#32) S1x50x64.size (k3_off11_inb L k 2))).reshape S50x64 squeezes_S1x50x64_S50x64.numel_eq).set = ((oW).view.slice (rowRect (widL L) ⟨8 * k.val + 2, h⟩)).set
  rw [View.set_reshape]
  exact rowK_eq2 L k h ▸ rfl
theorem rowE_eq2 (h : 120 + 2 < 128) :
    Rect.unit (s := S4096x50x64) (k3_off77 L 122#32) S1x50x64.size (k3_off77_inb L 2) = rowRect (widL L) ⟨120 + 2, h⟩ :=
  rect_unit_congr (off77_eq2 L)
theorem set_oRowE2 (h : 120 + 2 < 128) : (oRowE2 L).view.set = rowSet (widL L) ⟨120 + 2, h⟩ := by
  show (((oW).view.slice (Rect.unit (s := S4096x50x64) (k3_off77 L 122#32) S1x50x64.size (k3_off77_inb L 2))).reshape S50x64 squeezes_S1x50x64_S50x64.numel_eq).set = ((oW).view.slice (rowRect (widL L) ⟨120 + 2, h⟩)).set
  rw [View.set_reshape]
  exact rowE_eq2 L h ▸ rfl
theorem pts_oRowK2 (k : Fin k3_t1_loop.trips) (h : 8 * k.val + 2 < 128) (f : Buf (Elt F) (out3Loc d)) :
    ((oRowK2 L k).view.loc (thr d L) ↦[(oRowK2 L k).view.set]{fullShare} f : sProp 𝕄) = out3Loc d ↦[rowSet (widL L) ⟨8 * k.val + 2, h⟩]{fullShare} f := by
  rw [set_oRowK2 L k h]
theorem pts_oRowE2 (h : 120 + 2 < 128) (f : Buf (Elt F) (out3Loc d)) :
    ((oRowE2 L).view.loc (thr d L) ↦[(oRowE2 L).view.set]{fullShare} f : sProp 𝕄) = out3Loc d ↦[rowSet (widL L) ⟨120 + 2, h⟩]{fullShare} f := by
  rw [set_oRowE2 L h]

/-- Row `8 k + 3` of the task's block, as trip `k` addresses it; row `123`, as the last group does. -/
abbrev oRowK3 (k : Fin k3_t1_loop.trips) : Memref sig .scVector .hbm S50x64 .f32 :=
  ((oW).slice (Rect.unit (s := S4096x50x64) (k3_off11 L k 3#32) S1x50x64.size (k3_off11_inb L k 3)) (fun _ => rfl)).squeeze S50x64 squeezes_S1x50x64_S50x64
abbrev oRowE3 : Memref sig .scVector .hbm S50x64 .f32 :=
  ((oW).slice (Rect.unit (s := S4096x50x64) (k3_off77 L 123#32) S1x50x64.size (k3_off77_inb L 3)) (fun _ => rfl)).squeeze S50x64 squeezes_S1x50x64_S50x64
theorem off11_eq3 (k : Fin k3_t1_loop.trips) : k3_off11 L k 3#32 = ![128 * (widL L).val + (8 * k.val + 3), 0, 0] :=
  (k3_off11_eq L k (3 : Fin 8)).trans (congrArg (fun x : ℕ => (![x, 0, 0] : Fin 3 → ℕ))
    (by show 256 * (L 1).val + 128 * (L 0).val + 8 * k.val + 3 = 128 * (2 * (L 1).val + (L 0).val) + (8 * k.val + 3); omega))
theorem off77_eq3 : k3_off77 L 123#32 = ![128 * (widL L).val + (120 + 3), 0, 0] :=
  (k3_off77_eq L (3 : Fin 8)).trans (congrArg (fun x : ℕ => (![x, 0, 0] : Fin 3 → ℕ))
    (by show 256 * (L 1).val + 128 * (L 0).val + 3 + 120 = 128 * (2 * (L 1).val + (L 0).val) + (120 + 3); omega))
theorem rowK_eq3 (k : Fin k3_t1_loop.trips) (h : 8 * k.val + 3 < 128) :
    Rect.unit (s := S4096x50x64) (k3_off11 L k 3#32) S1x50x64.size (k3_off11_inb L k 3) = rowRect (widL L) ⟨8 * k.val + 3, h⟩ :=
  rect_unit_congr (off11_eq3 L k)
theorem set_oRowK3 (k : Fin k3_t1_loop.trips) (h : 8 * k.val + 3 < 128) : (oRowK3 L k).view.set = rowSet (widL L) ⟨8 * k.val + 3, h⟩ := by
  show (((oW).view.slice (Rect.unit (s := S4096x50x64) (k3_off11 L k 3#32) S1x50x64.size (k3_off11_inb L k 3))).reshape S50x64 squeezes_S1x50x64_S50x64.numel_eq).set = ((oW).view.slice (rowRect (widL L) ⟨8 * k.val + 3, h⟩)).set
  rw [View.set_reshape]
  exact rowK_eq3 L k h ▸ rfl
theorem rowE_eq3 (h : 120 + 3 < 128) :
    Rect.unit (s := S4096x50x64) (k3_off77 L 123#32) S1x50x64.size (k3_off77_inb L 3) = rowRect (widL L) ⟨120 + 3, h⟩ :=
  rect_unit_congr (off77_eq3 L)
theorem set_oRowE3 (h : 120 + 3 < 128) : (oRowE3 L).view.set = rowSet (widL L) ⟨120 + 3, h⟩ := by
  show (((oW).view.slice (Rect.unit (s := S4096x50x64) (k3_off77 L 123#32) S1x50x64.size (k3_off77_inb L 3))).reshape S50x64 squeezes_S1x50x64_S50x64.numel_eq).set = ((oW).view.slice (rowRect (widL L) ⟨120 + 3, h⟩)).set
  rw [View.set_reshape]
  exact rowE_eq3 L h ▸ rfl
theorem pts_oRowK3 (k : Fin k3_t1_loop.trips) (h : 8 * k.val + 3 < 128) (f : Buf (Elt F) (out3Loc d)) :
    ((oRowK3 L k).view.loc (thr d L) ↦[(oRowK3 L k).view.set]{fullShare} f : sProp 𝕄) = out3Loc d ↦[rowSet (widL L) ⟨8 * k.val + 3, h⟩]{fullShare} f := by
  rw [set_oRowK3 L k h]
theorem pts_oRowE3 (h : 120 + 3 < 128) (f : Buf (Elt F) (out3Loc d)) :
    ((oRowE3 L).view.loc (thr d L) ↦[(oRowE3 L).view.set]{fullShare} f : sProp 𝕄) = out3Loc d ↦[rowSet (widL L) ⟨120 + 3, h⟩]{fullShare} f := by
  rw [set_oRowE3 L h]

/-- Row `8 k + 4` of the task's block, as trip `k` addresses it; row `124`, as the last group does. -/
abbrev oRowK4 (k : Fin k3_t1_loop.trips) : Memref sig .scVector .hbm S50x64 .f32 :=
  ((oW).slice (Rect.unit (s := S4096x50x64) (k3_off11 L k 4#32) S1x50x64.size (k3_off11_inb L k 4)) (fun _ => rfl)).squeeze S50x64 squeezes_S1x50x64_S50x64
abbrev oRowE4 : Memref sig .scVector .hbm S50x64 .f32 :=
  ((oW).slice (Rect.unit (s := S4096x50x64) (k3_off77 L 124#32) S1x50x64.size (k3_off77_inb L 4)) (fun _ => rfl)).squeeze S50x64 squeezes_S1x50x64_S50x64
theorem off11_eq4 (k : Fin k3_t1_loop.trips) : k3_off11 L k 4#32 = ![128 * (widL L).val + (8 * k.val + 4), 0, 0] :=
  (k3_off11_eq L k (4 : Fin 8)).trans (congrArg (fun x : ℕ => (![x, 0, 0] : Fin 3 → ℕ))
    (by show 256 * (L 1).val + 128 * (L 0).val + 8 * k.val + 4 = 128 * (2 * (L 1).val + (L 0).val) + (8 * k.val + 4); omega))
theorem off77_eq4 : k3_off77 L 124#32 = ![128 * (widL L).val + (120 + 4), 0, 0] :=
  (k3_off77_eq L (4 : Fin 8)).trans (congrArg (fun x : ℕ => (![x, 0, 0] : Fin 3 → ℕ))
    (by show 256 * (L 1).val + 128 * (L 0).val + 4 + 120 = 128 * (2 * (L 1).val + (L 0).val) + (120 + 4); omega))
theorem rowK_eq4 (k : Fin k3_t1_loop.trips) (h : 8 * k.val + 4 < 128) :
    Rect.unit (s := S4096x50x64) (k3_off11 L k 4#32) S1x50x64.size (k3_off11_inb L k 4) = rowRect (widL L) ⟨8 * k.val + 4, h⟩ :=
  rect_unit_congr (off11_eq4 L k)
theorem set_oRowK4 (k : Fin k3_t1_loop.trips) (h : 8 * k.val + 4 < 128) : (oRowK4 L k).view.set = rowSet (widL L) ⟨8 * k.val + 4, h⟩ := by
  show (((oW).view.slice (Rect.unit (s := S4096x50x64) (k3_off11 L k 4#32) S1x50x64.size (k3_off11_inb L k 4))).reshape S50x64 squeezes_S1x50x64_S50x64.numel_eq).set = ((oW).view.slice (rowRect (widL L) ⟨8 * k.val + 4, h⟩)).set
  rw [View.set_reshape]
  exact rowK_eq4 L k h ▸ rfl
theorem rowE_eq4 (h : 120 + 4 < 128) :
    Rect.unit (s := S4096x50x64) (k3_off77 L 124#32) S1x50x64.size (k3_off77_inb L 4) = rowRect (widL L) ⟨120 + 4, h⟩ :=
  rect_unit_congr (off77_eq4 L)
theorem set_oRowE4 (h : 120 + 4 < 128) : (oRowE4 L).view.set = rowSet (widL L) ⟨120 + 4, h⟩ := by
  show (((oW).view.slice (Rect.unit (s := S4096x50x64) (k3_off77 L 124#32) S1x50x64.size (k3_off77_inb L 4))).reshape S50x64 squeezes_S1x50x64_S50x64.numel_eq).set = ((oW).view.slice (rowRect (widL L) ⟨120 + 4, h⟩)).set
  rw [View.set_reshape]
  exact rowE_eq4 L h ▸ rfl
theorem pts_oRowK4 (k : Fin k3_t1_loop.trips) (h : 8 * k.val + 4 < 128) (f : Buf (Elt F) (out3Loc d)) :
    ((oRowK4 L k).view.loc (thr d L) ↦[(oRowK4 L k).view.set]{fullShare} f : sProp 𝕄) = out3Loc d ↦[rowSet (widL L) ⟨8 * k.val + 4, h⟩]{fullShare} f := by
  rw [set_oRowK4 L k h]
theorem pts_oRowE4 (h : 120 + 4 < 128) (f : Buf (Elt F) (out3Loc d)) :
    ((oRowE4 L).view.loc (thr d L) ↦[(oRowE4 L).view.set]{fullShare} f : sProp 𝕄) = out3Loc d ↦[rowSet (widL L) ⟨120 + 4, h⟩]{fullShare} f := by
  rw [set_oRowE4 L h]

/-- Row `8 k + 5` of the task's block, as trip `k` addresses it; row `125`, as the last group does. -/
abbrev oRowK5 (k : Fin k3_t1_loop.trips) : Memref sig .scVector .hbm S50x64 .f32 :=
  ((oW).slice (Rect.unit (s := S4096x50x64) (k3_off11 L k 5#32) S1x50x64.size (k3_off11_inb L k 5)) (fun _ => rfl)).squeeze S50x64 squeezes_S1x50x64_S50x64
abbrev oRowE5 : Memref sig .scVector .hbm S50x64 .f32 :=
  ((oW).slice (Rect.unit (s := S4096x50x64) (k3_off77 L 125#32) S1x50x64.size (k3_off77_inb L 5)) (fun _ => rfl)).squeeze S50x64 squeezes_S1x50x64_S50x64
theorem off11_eq5 (k : Fin k3_t1_loop.trips) : k3_off11 L k 5#32 = ![128 * (widL L).val + (8 * k.val + 5), 0, 0] :=
  (k3_off11_eq L k (5 : Fin 8)).trans (congrArg (fun x : ℕ => (![x, 0, 0] : Fin 3 → ℕ))
    (by show 256 * (L 1).val + 128 * (L 0).val + 8 * k.val + 5 = 128 * (2 * (L 1).val + (L 0).val) + (8 * k.val + 5); omega))
theorem off77_eq5 : k3_off77 L 125#32 = ![128 * (widL L).val + (120 + 5), 0, 0] :=
  (k3_off77_eq L (5 : Fin 8)).trans (congrArg (fun x : ℕ => (![x, 0, 0] : Fin 3 → ℕ))
    (by show 256 * (L 1).val + 128 * (L 0).val + 5 + 120 = 128 * (2 * (L 1).val + (L 0).val) + (120 + 5); omega))
theorem rowK_eq5 (k : Fin k3_t1_loop.trips) (h : 8 * k.val + 5 < 128) :
    Rect.unit (s := S4096x50x64) (k3_off11 L k 5#32) S1x50x64.size (k3_off11_inb L k 5) = rowRect (widL L) ⟨8 * k.val + 5, h⟩ :=
  rect_unit_congr (off11_eq5 L k)
theorem set_oRowK5 (k : Fin k3_t1_loop.trips) (h : 8 * k.val + 5 < 128) : (oRowK5 L k).view.set = rowSet (widL L) ⟨8 * k.val + 5, h⟩ := by
  show (((oW).view.slice (Rect.unit (s := S4096x50x64) (k3_off11 L k 5#32) S1x50x64.size (k3_off11_inb L k 5))).reshape S50x64 squeezes_S1x50x64_S50x64.numel_eq).set = ((oW).view.slice (rowRect (widL L) ⟨8 * k.val + 5, h⟩)).set
  rw [View.set_reshape]
  exact rowK_eq5 L k h ▸ rfl
theorem rowE_eq5 (h : 120 + 5 < 128) :
    Rect.unit (s := S4096x50x64) (k3_off77 L 125#32) S1x50x64.size (k3_off77_inb L 5) = rowRect (widL L) ⟨120 + 5, h⟩ :=
  rect_unit_congr (off77_eq5 L)
theorem set_oRowE5 (h : 120 + 5 < 128) : (oRowE5 L).view.set = rowSet (widL L) ⟨120 + 5, h⟩ := by
  show (((oW).view.slice (Rect.unit (s := S4096x50x64) (k3_off77 L 125#32) S1x50x64.size (k3_off77_inb L 5))).reshape S50x64 squeezes_S1x50x64_S50x64.numel_eq).set = ((oW).view.slice (rowRect (widL L) ⟨120 + 5, h⟩)).set
  rw [View.set_reshape]
  exact rowE_eq5 L h ▸ rfl
theorem pts_oRowK5 (k : Fin k3_t1_loop.trips) (h : 8 * k.val + 5 < 128) (f : Buf (Elt F) (out3Loc d)) :
    ((oRowK5 L k).view.loc (thr d L) ↦[(oRowK5 L k).view.set]{fullShare} f : sProp 𝕄) = out3Loc d ↦[rowSet (widL L) ⟨8 * k.val + 5, h⟩]{fullShare} f := by
  rw [set_oRowK5 L k h]
theorem pts_oRowE5 (h : 120 + 5 < 128) (f : Buf (Elt F) (out3Loc d)) :
    ((oRowE5 L).view.loc (thr d L) ↦[(oRowE5 L).view.set]{fullShare} f : sProp 𝕄) = out3Loc d ↦[rowSet (widL L) ⟨120 + 5, h⟩]{fullShare} f := by
  rw [set_oRowE5 L h]

/-- Row `8 k + 6` of the task's block, as trip `k` addresses it; row `126`, as the last group does. -/
abbrev oRowK6 (k : Fin k3_t1_loop.trips) : Memref sig .scVector .hbm S50x64 .f32 :=
  ((oW).slice (Rect.unit (s := S4096x50x64) (k3_off11 L k 6#32) S1x50x64.size (k3_off11_inb L k 6)) (fun _ => rfl)).squeeze S50x64 squeezes_S1x50x64_S50x64
abbrev oRowE6 : Memref sig .scVector .hbm S50x64 .f32 :=
  ((oW).slice (Rect.unit (s := S4096x50x64) (k3_off77 L 126#32) S1x50x64.size (k3_off77_inb L 6)) (fun _ => rfl)).squeeze S50x64 squeezes_S1x50x64_S50x64
theorem off11_eq6 (k : Fin k3_t1_loop.trips) : k3_off11 L k 6#32 = ![128 * (widL L).val + (8 * k.val + 6), 0, 0] :=
  (k3_off11_eq L k (6 : Fin 8)).trans (congrArg (fun x : ℕ => (![x, 0, 0] : Fin 3 → ℕ))
    (by show 256 * (L 1).val + 128 * (L 0).val + 8 * k.val + 6 = 128 * (2 * (L 1).val + (L 0).val) + (8 * k.val + 6); omega))
theorem off77_eq6 : k3_off77 L 126#32 = ![128 * (widL L).val + (120 + 6), 0, 0] :=
  (k3_off77_eq L (6 : Fin 8)).trans (congrArg (fun x : ℕ => (![x, 0, 0] : Fin 3 → ℕ))
    (by show 256 * (L 1).val + 128 * (L 0).val + 6 + 120 = 128 * (2 * (L 1).val + (L 0).val) + (120 + 6); omega))
theorem rowK_eq6 (k : Fin k3_t1_loop.trips) (h : 8 * k.val + 6 < 128) :
    Rect.unit (s := S4096x50x64) (k3_off11 L k 6#32) S1x50x64.size (k3_off11_inb L k 6) = rowRect (widL L) ⟨8 * k.val + 6, h⟩ :=
  rect_unit_congr (off11_eq6 L k)
theorem set_oRowK6 (k : Fin k3_t1_loop.trips) (h : 8 * k.val + 6 < 128) : (oRowK6 L k).view.set = rowSet (widL L) ⟨8 * k.val + 6, h⟩ := by
  show (((oW).view.slice (Rect.unit (s := S4096x50x64) (k3_off11 L k 6#32) S1x50x64.size (k3_off11_inb L k 6))).reshape S50x64 squeezes_S1x50x64_S50x64.numel_eq).set = ((oW).view.slice (rowRect (widL L) ⟨8 * k.val + 6, h⟩)).set
  rw [View.set_reshape]
  exact rowK_eq6 L k h ▸ rfl
theorem rowE_eq6 (h : 120 + 6 < 128) :
    Rect.unit (s := S4096x50x64) (k3_off77 L 126#32) S1x50x64.size (k3_off77_inb L 6) = rowRect (widL L) ⟨120 + 6, h⟩ :=
  rect_unit_congr (off77_eq6 L)
theorem set_oRowE6 (h : 120 + 6 < 128) : (oRowE6 L).view.set = rowSet (widL L) ⟨120 + 6, h⟩ := by
  show (((oW).view.slice (Rect.unit (s := S4096x50x64) (k3_off77 L 126#32) S1x50x64.size (k3_off77_inb L 6))).reshape S50x64 squeezes_S1x50x64_S50x64.numel_eq).set = ((oW).view.slice (rowRect (widL L) ⟨120 + 6, h⟩)).set
  rw [View.set_reshape]
  exact rowE_eq6 L h ▸ rfl
theorem pts_oRowK6 (k : Fin k3_t1_loop.trips) (h : 8 * k.val + 6 < 128) (f : Buf (Elt F) (out3Loc d)) :
    ((oRowK6 L k).view.loc (thr d L) ↦[(oRowK6 L k).view.set]{fullShare} f : sProp 𝕄) = out3Loc d ↦[rowSet (widL L) ⟨8 * k.val + 6, h⟩]{fullShare} f := by
  rw [set_oRowK6 L k h]
theorem pts_oRowE6 (h : 120 + 6 < 128) (f : Buf (Elt F) (out3Loc d)) :
    ((oRowE6 L).view.loc (thr d L) ↦[(oRowE6 L).view.set]{fullShare} f : sProp 𝕄) = out3Loc d ↦[rowSet (widL L) ⟨120 + 6, h⟩]{fullShare} f := by
  rw [set_oRowE6 L h]

/-- Row `8 k + 7` of the task's block, as trip `k` addresses it; row `127`, as the last group does. -/
abbrev oRowK7 (k : Fin k3_t1_loop.trips) : Memref sig .scVector .hbm S50x64 .f32 :=
  ((oW).slice (Rect.unit (s := S4096x50x64) (k3_off11 L k 7#32) S1x50x64.size (k3_off11_inb L k 7)) (fun _ => rfl)).squeeze S50x64 squeezes_S1x50x64_S50x64
abbrev oRowE7 : Memref sig .scVector .hbm S50x64 .f32 :=
  ((oW).slice (Rect.unit (s := S4096x50x64) (k3_off77 L 127#32) S1x50x64.size (k3_off77_inb L 7)) (fun _ => rfl)).squeeze S50x64 squeezes_S1x50x64_S50x64
theorem off11_eq7 (k : Fin k3_t1_loop.trips) : k3_off11 L k 7#32 = ![128 * (widL L).val + (8 * k.val + 7), 0, 0] :=
  (k3_off11_eq L k (7 : Fin 8)).trans (congrArg (fun x : ℕ => (![x, 0, 0] : Fin 3 → ℕ))
    (by show 256 * (L 1).val + 128 * (L 0).val + 8 * k.val + 7 = 128 * (2 * (L 1).val + (L 0).val) + (8 * k.val + 7); omega))
theorem off77_eq7 : k3_off77 L 127#32 = ![128 * (widL L).val + (120 + 7), 0, 0] :=
  (k3_off77_eq L (7 : Fin 8)).trans (congrArg (fun x : ℕ => (![x, 0, 0] : Fin 3 → ℕ))
    (by show 256 * (L 1).val + 128 * (L 0).val + 7 + 120 = 128 * (2 * (L 1).val + (L 0).val) + (120 + 7); omega))
theorem rowK_eq7 (k : Fin k3_t1_loop.trips) (h : 8 * k.val + 7 < 128) :
    Rect.unit (s := S4096x50x64) (k3_off11 L k 7#32) S1x50x64.size (k3_off11_inb L k 7) = rowRect (widL L) ⟨8 * k.val + 7, h⟩ :=
  rect_unit_congr (off11_eq7 L k)
theorem set_oRowK7 (k : Fin k3_t1_loop.trips) (h : 8 * k.val + 7 < 128) : (oRowK7 L k).view.set = rowSet (widL L) ⟨8 * k.val + 7, h⟩ := by
  show (((oW).view.slice (Rect.unit (s := S4096x50x64) (k3_off11 L k 7#32) S1x50x64.size (k3_off11_inb L k 7))).reshape S50x64 squeezes_S1x50x64_S50x64.numel_eq).set = ((oW).view.slice (rowRect (widL L) ⟨8 * k.val + 7, h⟩)).set
  rw [View.set_reshape]
  exact rowK_eq7 L k h ▸ rfl
theorem rowE_eq7 (h : 120 + 7 < 128) :
    Rect.unit (s := S4096x50x64) (k3_off77 L 127#32) S1x50x64.size (k3_off77_inb L 7) = rowRect (widL L) ⟨120 + 7, h⟩ :=
  rect_unit_congr (off77_eq7 L)
theorem set_oRowE7 (h : 120 + 7 < 128) : (oRowE7 L).view.set = rowSet (widL L) ⟨120 + 7, h⟩ := by
  show (((oW).view.slice (Rect.unit (s := S4096x50x64) (k3_off77 L 127#32) S1x50x64.size (k3_off77_inb L 7))).reshape S50x64 squeezes_S1x50x64_S50x64.numel_eq).set = ((oW).view.slice (rowRect (widL L) ⟨120 + 7, h⟩)).set
  rw [View.set_reshape]
  exact rowE_eq7 L h ▸ rfl
theorem pts_oRowK7 (k : Fin k3_t1_loop.trips) (h : 8 * k.val + 7 < 128) (f : Buf (Elt F) (out3Loc d)) :
    ((oRowK7 L k).view.loc (thr d L) ↦[(oRowK7 L k).view.set]{fullShare} f : sProp 𝕄) = out3Loc d ↦[rowSet (widL L) ⟨8 * k.val + 7, h⟩]{fullShare} f := by
  rw [set_oRowK7 L k h]
theorem pts_oRowE7 (h : 120 + 7 < 128) (f : Buf (Elt F) (out3Loc d)) :
    ((oRowE7 L).view.loc (thr d L) ↦[(oRowE7 L).view.set]{fullShare} f : sProp 𝕄) = out3Loc d ↦[rowSet (widL L) ⟨120 + 7, h⟩]{fullShare} f := by
  rw [set_oRowE7 L h]

variable [FloatOps F]

/-! ## The state between two trips of the main loop -/

/-- Before each trip, and after the last: every slot's gather in flight, every slot of the repacked buffer at some
    contents, every copy-out semaphore at zero, all 128 result rows home at some contents, and what the thread owes
    with its waits recorded. -/
def INV (ft : Buf (Elt F) ((tW).view.loc (thr d L))) (fi : Buf (Elt F) ((iW).view.loc (thr d L)))
    (O : CellTallies nD τ sig (HIx 4)) (W : Waits sig (HIx 4)) (_ : ℕ) (_ : Unit) : sProp 𝕄 :=
  iprop(Transfers.MayWaits (thr d L) (default : HIx 4) O
    ∗ (GFl d L ![0, 0, 0] inb_S8x56x128_S1x50x128_0_0_0 cc3_scratch3.sem (sh32 (widL L)).left.left.left fullShare.left.left.left ft fi
      ∗ GFl d L ![1, 0, 0] inb_S8x56x128_S1x50x128_1_0_0 cc3_scratch4.sem (sh32 (widL L)).left.left.right fullShare.left.left.right ft fi
      ∗ GFl d L ![2, 0, 0] inb_S8x56x128_S1x50x128_2_0_0 cc3_scratch5.sem (sh32 (widL L)).left.right.left fullShare.left.right.left ft fi
      ∗ GFl d L ![3, 0, 0] inb_S8x56x128_S1x50x128_3_0_0 cc3_scratch6.sem (sh32 (widL L)).left.right.right fullShare.left.right.right ft fi
      ∗ GFl d L ![4, 0, 0] inb_S8x56x128_S1x50x128_4_0_0 cc3_scratch7.sem (sh32 (widL L)).right.left.left fullShare.right.left.left ft fi
      ∗ GFl d L ![5, 0, 0] inb_S8x56x128_S1x50x128_5_0_0 cc3_scratch8.sem (sh32 (widL L)).right.left.right fullShare.right.left.right ft fi
      ∗ GFl d L ![6, 0, 0] inb_S8x56x128_S1x50x128_6_0_0 cc3_scratch9.sem (sh32 (widL L)).right.right.left fullShare.right.right.left ft fi
      ∗ GFl d L ![7, 0, 0] inb_S8x56x128_S1x50x128_7_0_0 cc3_scratch10.sem (sh32 (widL L)).right.right.right fullShare.right.right.right ft fi)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc3_scratch11.sem) 0 ∗ semVal (thr d L, SemLoc.dma cc3_scratch12.sem) 0 ∗ semVal (thr d L, SemLoc.dma cc3_scratch13.sem) 0 ∗ semVal (thr d L, SemLoc.dma cc3_scratch14.sem) 0 ∗ semVal (thr d L, SemLoc.dma cc3_scratch15.sem) 0 ∗ semVal (thr d L, SemLoc.dma cc3_scratch16.sem) 0 ∗ semVal (thr d L, SemLoc.dma cc3_scratch17.sem) 0 ∗ semVal (thr d L, SemLoc.dma cc3_scratch18.sem) 0)
    ∗ outRows d (widL L)
    ∗ ∃ W', ⌜∀ p ∈ W', p ∈ W ∨ p.2 = none⌝ ∗ owes (thr d L) O W')

set_option maxHeartbeats 8000000 in
theorem trip (ft : Buf (Elt F) ((tW).view.loc (thr d L))) (fi : Buf (Elt F) ((iW).view.loc (thr d L))) (hfi : ∀ y, (fi y).toNat < 100000)
    (O : CellTallies nD τ sig (HIx 4)) (W : Waits sig (HIx 4)) (v2 : BitVec 32) (kt : Fin k3_t1_loop.trips) (u : Unit) :
    (INV d L ft fi O W kt.val u : sProp 𝕄) ⊢ wp frame (wpE (defs₀ (F := F)) 𝒱₀ (thr d L) none) Set.univ
        (k3_t1_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 kt u) (INV d L ft fi O W (kt.val + 1)) := by
  unfold INV k3_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  ihave HR' := (Entails.of_eq (outRows_group d (widL L) (8 * kt.val) (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwait d L (o := ![0, 0, 0]) (inbo := inb_S8x56x128_S1x50x128_0_0_0) (sem := cc3_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack2; all_goals first | exact kt | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc3_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack3; all_goals first | exact kt | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc3_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack4; all_goals first | exact kt | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc3_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack5; all_goals first | exact kt | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc3_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack6; all_goals first | exact kt | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc3_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack7; all_goals first | exact kt | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc3_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack8; all_goals first | exact kt | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc3_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack9; all_goals first | exact kt | exact 0#32 | exact ()
  · isplitl [HB7]; · iexists _; iexact HB7
    iexists _; iexact HP7
  iintro %_ HI
  icases HI with ⟨⟨%fb7', HB7⟩, ⟨%gp7', HP7⟩⟩
  sl_exec
  iapply (gissue d L (o := ![0, 0, 0]) (inbo := inb_S8x56x128_S1x50x128_0_0_0) (off := k3_off68 kt 0#32) (inb := k3_off68_inb kt 0) (sem := cc3_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := k3_off68 kt 1#32) (inb := k3_off68_inb kt 1) (sem := cc3_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := k3_off68 kt 2#32) (inb := k3_off68_inb kt 2) (sem := cc3_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := k3_off68 kt 3#32) (inb := k3_off68_inb kt 3) (sem := cc3_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := k3_off68 kt 4#32) (inb := k3_off68_inb kt 4) (sem := cc3_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := k3_off68 kt 5#32) (inb := k3_off68_inb kt 5) (sem := cc3_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := k3_off68 kt 6#32) (inb := k3_off68_inb kt 6) (sem := cc3_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := k3_off68 kt 7#32) (inb := k3_off68_inb kt 7) (sem := cc3_scratch10.sem) hfi)
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HR := (Entails.of_eq (outRows_group (F := F) (UU := UU) d (widL L) (8 * kt.val) (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the fourth gather call: it ends, faults nowhere, leaves every one of its semaphores at zero
    and hands back the two read shares unchanged and its 128 result rows at some contents. -/
theorem tile_body3 (hF : (K (F := F)).Facts) (hcats : ∀ j, (m (catsLoc d) j).toNat < 100000)
    (ft : Buf (Elt F) (tpadLoc d)) (f0 : Buf (Elt F) (out3Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk3 d (widL L) f0)
        ∗ scopedBufs (thr d L) ∗ scopedSems0 (thr d L) ∗ owes (thr d L) O W)
      ⊢ (wp frame (wpE (defs₀ (F := F)) 𝒱₀ (thr d L) none) Set.univ
          (cc3_gk L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0)
          fun _ => iprop((catsSh m d (widL L) ∗ tpadSh d (widL L) ft ∗ ∃ f, outBlk3 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc3_gk_eq_skeleton]; unfold cc3_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  -- the index rows in
  sl_exec
  have hfi := idx_range m d L hcats fi0 (tile_body3.sl.dma0 m d L) rfl
  -- a read share of the table and of the index scratch per slot
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body3.sl.dma0 m d L) Finset.univ) fullShare)) $$ Hi'
  icases Hi8 with ⟨⟨⟨HI0, HI1⟩, ⟨HI2, HI3⟩⟩, ⟨⟨HI4, HI5⟩, ⟨HI6, HI7⟩⟩⟩
  -- the slots of the two buffers
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  -- the result rows
  ihave HR := (outRows_intro (F := F) (UU := UU) d (widL L) f0) $$ Ho
  -- the first eight gathers
  iapply (gissue d L (o := ![0, 0, 0]) (inbo := inb_S8x56x128_S1x50x128_0_0_0) (off := ![0, 0]) (inb := inb_S128x50_S1x50_0_0) (sem := cc3_scratch3.sem) hfi)
  isplitl [HT0]; · iexact HT0
  isplitl [HB0]; · iexact HB0
  isplitl [HI0]; · iexact HI0
  isplitl [HsG0]; · iexact HsG0
  iintro HG0
  sl_exec
  iapply (gissue d L (o := ![1, 0, 0]) (inbo := inb_S8x56x128_S1x50x128_1_0_0) (off := ![1, 0]) (inb := inb_S128x50_S1x50_1_0) (sem := cc3_scratch4.sem) hfi)
  isplitl [HT1]; · iexact HT1
  isplitl [HB1]; · iexact HB1
  isplitl [HI1]; · iexact HI1
  isplitl [HsG1]; · iexact HsG1
  iintro HG1
  sl_exec
  iapply (gissue d L (o := ![2, 0, 0]) (inbo := inb_S8x56x128_S1x50x128_2_0_0) (off := ![2, 0]) (inb := inb_S128x50_S1x50_2_0) (sem := cc3_scratch5.sem) hfi)
  isplitl [HT2]; · iexact HT2
  isplitl [HB2]; · iexact HB2
  isplitl [HI2]; · iexact HI2
  isplitl [HsG2]; · iexact HsG2
  iintro HG2
  sl_exec
  iapply (gissue d L (o := ![3, 0, 0]) (inbo := inb_S8x56x128_S1x50x128_3_0_0) (off := ![3, 0]) (inb := inb_S128x50_S1x50_3_0) (sem := cc3_scratch6.sem) hfi)
  isplitl [HT3]; · iexact HT3
  isplitl [HB3]; · iexact HB3
  isplitl [HI3]; · iexact HI3
  isplitl [HsG3]; · iexact HsG3
  iintro HG3
  sl_exec
  iapply (gissue d L (o := ![4, 0, 0]) (inbo := inb_S8x56x128_S1x50x128_4_0_0) (off := ![4, 0]) (inb := inb_S128x50_S1x50_4_0) (sem := cc3_scratch7.sem) hfi)
  isplitl [HT4]; · iexact HT4
  isplitl [HB4]; · iexact HB4
  isplitl [HI4]; · iexact HI4
  isplitl [HsG4]; · iexact HsG4
  iintro HG4
  sl_exec
  iapply (gissue d L (o := ![5, 0, 0]) (inbo := inb_S8x56x128_S1x50x128_5_0_0) (off := ![5, 0]) (inb := inb_S128x50_S1x50_5_0) (sem := cc3_scratch8.sem) hfi)
  isplitl [HT5]; · iexact HT5
  isplitl [HB5]; · iexact HB5
  isplitl [HI5]; · iexact HI5
  isplitl [HsG5]; · iexact HsG5
  iintro HG5
  sl_exec
  iapply (gissue d L (o := ![6, 0, 0]) (inbo := inb_S8x56x128_S1x50x128_6_0_0) (off := ![6, 0]) (inb := inb_S128x50_S1x50_6_0) (sem := cc3_scratch9.sem) hfi)
  isplitl [HT6]; · iexact HT6
  isplitl [HB6]; · iexact HB6
  isplitl [HI6]; · iexact HI6
  isplitl [HsG6]; · iexact HsG6
  iintro HG6
  sl_exec
  iapply (gissue d L (o := ![7, 0, 0]) (inbo := inb_S8x56x128_S1x50x128_7_0_0) (off := ![7, 0]) (inb := inb_S128x50_S1x50_7_0) (sem := cc3_scratch10.sem) hfi)
  isplitl [HT7]; · iexact HT7
  isplitl [HB7]; · iexact HB7
  isplitl [HI7]; · iexact HI7
  isplitl [HsG7]; · iexact HsG7
  iintro HG7
  sl_exec
  -- the fifteen trips
  sl_for (INV (F := F) (UU := UU) d L ft (View.write (Elt F) (iW).view fi0 (tile_body3.sl.dma0 m d L) Finset.univ) O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact trip d L ft _ hfi O W _ k u
  · unfold INV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  -- the last group: rows 120 … 127
  ihave HR' := (Entails.of_eq (outRows_group (F := F) (UU := UU) d (widL L) 120 (by omega))) $$ HR
  icases HR' with ⟨⟨⟨%fo0, Ho0⟩, ⟨%fo1, Ho1⟩, ⟨%fo2, Ho2⟩, ⟨%fo3, Ho3⟩, ⟨%fo4, Ho4⟩, ⟨%fo5, Ho5⟩, ⟨%fo6, Ho6⟩, ⟨%fo7, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwait d L (o := ![0, 0, 0]) (inbo := inb_S8x56x128_S1x50x128_0_0_0) (sem := cc3_scratch3.sem) rfl)
  isplitl [HG0]; · iexact HG0
  isplitl [HO]; · iexact HO
  isplitr; · iexact Hmw
  iintro ⟨⟨%fb0, HB0⟩, HT0, HI0, HsG0, HO⟩
  sl_exec
  sl_for (fun (_ : ℕ) (_ : Unit) => RInv0 (F := F) (UU := UU) d L) $$ [HB0 HP0]
  case region => intro k u; apply repack10; all_goals first | exact 0#32 | exact ()
  · isplitl [HB0]; · iexists _; iexact HB0
    iexists _; iexact HP0
  iintro %_ HI
  icases HI with ⟨⟨%fb0', HB0⟩, ⟨%gp0', HP0⟩⟩
  sl_exec
  iapply (gwait d L (o := ![1, 0, 0]) (inbo := inb_S8x56x128_S1x50x128_1_0_0) (sem := cc3_scratch4.sem) rfl)
  isplitl [HG1]; · iexact HG1
  isplitl [HO]; · iexact HO
  isplitr; · iexact Hmw
  iintro ⟨⟨%fb1, HB1⟩, HT1, HI1, HsG1, HO⟩
  sl_exec
  sl_for (fun (_ : ℕ) (_ : Unit) => RInv1 (F := F) (UU := UU) d L) $$ [HB1 HP1]
  case region => intro k u; apply repack11; all_goals first | exact 0#32 | exact ()
  · isplitl [HB1]; · iexists _; iexact HB1
    iexists _; iexact HP1
  iintro %_ HI
  icases HI with ⟨⟨%fb1', HB1⟩, ⟨%gp1', HP1⟩⟩
  sl_exec
  iapply (gwait d L (o := ![2, 0, 0]) (inbo := inb_S8x56x128_S1x50x128_2_0_0) (sem := cc3_scratch5.sem) rfl)
  isplitl [HG2]; · iexact HG2
  isplitl [HO]; · iexact HO
  isplitr; · iexact Hmw
  iintro ⟨⟨%fb2, HB2⟩, HT2, HI2, HsG2, HO⟩
  sl_exec
  sl_for (fun (_ : ℕ) (_ : Unit) => RInv2 (F := F) (UU := UU) d L) $$ [HB2 HP2]
  case region => intro k u; apply repack12; all_goals first | exact 0#32 | exact ()
  · isplitl [HB2]; · iexists _; iexact HB2
    iexists _; iexact HP2
  iintro %_ HI
  icases HI with ⟨⟨%fb2', HB2⟩, ⟨%gp2', HP2⟩⟩
  sl_exec
  iapply (gwait d L (o := ![3, 0, 0]) (inbo := inb_S8x56x128_S1x50x128_3_0_0) (sem := cc3_scratch6.sem) rfl)
  isplitl [HG3]; · iexact HG3
  isplitl [HO]; · iexact HO
  isplitr; · iexact Hmw
  iintro ⟨⟨%fb3, HB3⟩, HT3, HI3, HsG3, HO⟩
  sl_exec
  sl_for (fun (_ : ℕ) (_ : Unit) => RInv3 (F := F) (UU := UU) d L) $$ [HB3 HP3]
  case region => intro k u; apply repack13; all_goals first | exact 0#32 | exact ()
  · isplitl [HB3]; · iexists _; iexact HB3
    iexists _; iexact HP3
  iintro %_ HI
  icases HI with ⟨⟨%fb3', HB3⟩, ⟨%gp3', HP3⟩⟩
  sl_exec
  iapply (gwait d L (o := ![4, 0, 0]) (inbo := inb_S8x56x128_S1x50x128_4_0_0) (sem := cc3_scratch7.sem) rfl)
  isplitl [HG4]; · iexact HG4
  isplitl [HO]; · iexact HO
  isplitr; · iexact Hmw
  iintro ⟨⟨%fb4, HB4⟩, HT4, HI4, HsG4, HO⟩
  sl_exec
  sl_for (fun (_ : ℕ) (_ : Unit) => RInv4 (F := F) (UU := UU) d L) $$ [HB4 HP4]
  case region => intro k u; apply repack14; all_goals first | exact 0#32 | exact ()
  · isplitl [HB4]; · iexists _; iexact HB4
    iexists _; iexact HP4
  iintro %_ HI
  icases HI with ⟨⟨%fb4', HB4⟩, ⟨%gp4', HP4⟩⟩
  sl_exec
  iapply (gwait d L (o := ![5, 0, 0]) (inbo := inb_S8x56x128_S1x50x128_5_0_0) (sem := cc3_scratch8.sem) rfl)
  isplitl [HG5]; · iexact HG5
  isplitl [HO]; · iexact HO
  isplitr; · iexact Hmw
  iintro ⟨⟨%fb5, HB5⟩, HT5, HI5, HsG5, HO⟩
  sl_exec
  sl_for (fun (_ : ℕ) (_ : Unit) => RInv5 (F := F) (UU := UU) d L) $$ [HB5 HP5]
  case region => intro k u; apply repack15; all_goals first | exact 0#32 | exact ()
  · isplitl [HB5]; · iexists _; iexact HB5
    iexists _; iexact HP5
  iintro %_ HI
  icases HI with ⟨⟨%fb5', HB5⟩, ⟨%gp5', HP5⟩⟩
  sl_exec
  iapply (gwait d L (o := ![6, 0, 0]) (inbo := inb_S8x56x128_S1x50x128_6_0_0) (sem := cc3_scratch9.sem) rfl)
  isplitl [HG6]; · iexact HG6
  isplitl [HO]; · iexact HO
  isplitr; · iexact Hmw
  iintro ⟨⟨%fb6, HB6⟩, HT6, HI6, HsG6, HO⟩
  sl_exec
  sl_for (fun (_ : ℕ) (_ : Unit) => RInv6 (F := F) (UU := UU) d L) $$ [HB6 HP6]
  case region => intro k u; apply repack16; all_goals first | exact 0#32 | exact ()
  · isplitl [HB6]; · iexists _; iexact HB6
    iexists _; iexact HP6
  iintro %_ HI
  icases HI with ⟨⟨%fb6', HB6⟩, ⟨%gp6', HP6⟩⟩
  sl_exec
  iapply (gwait d L (o := ![7, 0, 0]) (inbo := inb_S8x56x128_S1x50x128_7_0_0) (sem := cc3_scratch10.sem) rfl)
  isplitl [HG7]; · iexact HG7
  isplitl [HO]; · iexact HO
  isplitr; · iexact Hmw
  iintro ⟨⟨%fb7, HB7⟩, HT7, HI7, HsG7, HO⟩
  sl_exec
  sl_for (fun (_ : ℕ) (_ : Unit) => RInv7 (F := F) (UU := UU) d L) $$ [HB7 HP7]
  case region => intro k u; apply repack17; all_goals first | exact 0#32 | exact ()
  · isplitl [HB7]; · iexists _; iexact HB7
    iexists _; iexact HP7
  iintro %_ HI
  icases HI with ⟨⟨%fb7', HB7⟩, ⟨%gp7', HP7⟩⟩
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HR := (Entails.of_eq (outRows_group (F := F) (UU := UU) d (widL L) 120 (by omega)).symm) $$ [Ho0 Ho1 Ho2 Ho3 Ho4 Ho5 Ho6 Ho7 HRr]
  · isplitl [Ho0 Ho1 Ho2 Ho3 Ho4 Ho5 Ho6 Ho7]
    · isplitl [Ho0]; · iexists _; iexact Ho0
      isplitl [Ho1]; · iexists _; iexact Ho1
      isplitl [Ho2]; · iexists _; iexact Ho2
      isplitl [Ho3]; · iexists _; iexact Ho3
      isplitl [Ho4]; · iexists _; iexact Ho4
      isplitl [Ho5]; · iexists _; iexact Ho5
      isplitl [Ho6]; · iexists _; iexact Ho6
      iexists _; iexact Ho7
    · iexact HRr
  ihave Hout := (outRows_join (F := F) (UU := UU) d (widL L) f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body3.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end Body

end Cert.Proof.Tile3

end
-- ==== Proof.TileValuesQ3.lean ====
/-
  One vector subcore's task of gather call 3: what its buffers hold.

  The index scratch holds the task's 128 rows of the index array. A gather into slot `s` over list row `j` lands, in
  row `l` of the slot's window, the padded table's row named by word `[j, l]` of the index scratch; the repack keeps the
  first 64 lanes; the copy out puts them in row `128 w + j` of the call's result.
-/
import proofs.«204056_g19739669692900_cont_8to1_1488_31_alg».proof.Proof.TileBody3
import proofs.«204056_g19739669692900_cont_8to1_1488_31_alg».proof.Proof.LaunchPayV
import Idealize.ShloMosaic.Lib.ValueIdx
import Idealize.ShloMosaic.Lib.ValueLayout
import Idealize.ShloMosaic.Lib.Writes

noncomputable section

namespace Cert.Proof.Tile3

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

/-- A slot of the repacked buffer, from offsets `o`; a row of the result, from offsets `off`. -/
abbrev pWinAt (o : Fin 3 → ℕ) (inbo : ∀ a, o a + S1x50x64.size a ≤ S8x50x64.size a) : Memref sig .scVector .vmem S50x64 .f32 :=
  ((pW).slice (Rect.unit (s := S8x50x64) o S1x50x64.size inbo) (fun _ => rfl)).squeeze S50x64 squeezes_S1x50x64_S50x64
abbrev oRowAt (off : Fin 3 → ℕ) (inb : ∀ a, off a + S1x50x64.size a ≤ S4096x50x64.size a) : Memref sig .scVector .hbm S50x64 .f32 :=
  ((oW).slice (Rect.unit (s := S4096x50x64) off S1x50x64.size inb) (fun _ => rfl)).squeeze S50x64 squeezes_S1x50x64_S50x64

/-- An index word below 100000 names the row of its own value. -/
theorem rowOf_val_of_lt (w : BitVec 32) (h : w.toNat < 100000) : (Cert.Spec.rowOf w).val = w.toNat := by
  have e : w.toInt = (w.toNat : Int) := by
    rw [BitVec.toInt_eq_toNat_cond]
    split
    · rfl
    · rename_i hlt; exfalso; omega
  show min w.toInt.toNat 99999 = w.toNat
  rw [e]
  simp only [Int.toNat_natCast]
  omega

section Values

variable (ft : FVec F S100000x128 .f32) (fi : IVec S128x50 32) (hfi : ∀ y, (fi y).toNat < 100000)

/-- The table row the index scratch names at `[j, l]`. -/
def rowIx (j : Fin 128) (l : Fin 50) : Fin 100000 := ⟨(fi (ix2 j l)).toNat, hfi _⟩

/-- Slot `s`'s window of the row buffer holds the table rows list row `j` names. -/
def WinOK (s : Fin 8) (j : Fin 128) (fb : FVec F S8x56x128 .f32) : Prop :=
  ∀ (l : Fin 50) (e : Fin 128), fb (ix3 s (Fin.castLE (by decide) l : Fin 56) e) = ft (ix2 (rowIx fi hfi j l) e)

/-- Slot `s` of the repacked buffer holds their first 64 lanes. -/
def SlotOK (s : Fin 8) (j : Fin 128) (g : FVec F S8x50x64 .f32) : Prop :=
  ∀ (l : Fin 50) (e : Fin 64), g (ix3 s l e) = ft (ix2 (rowIx fi hfi j l) (Fin.castLE (by decide) e : Fin 128))

/-- Row `128 w + j` of the result holds them. -/
def RowOK (w : Fin 32) (j : Fin 128) (f : FVec F S4096x50x64 .f32) : Prop :=
  ∀ (l : Fin 50) (e : Fin 64), f (ix3 (⟨128 * w.val + j.val, by omega⟩ : Fin 4096) l e) = ft (ix2 (rowIx fi hfi j l) (Fin.castLE (by decide) e : Fin 128))

variable (d : Dev nD) (L : grid3.Coords)

/-- L2. What a gather into slot `s` over list row `j` delivers. -/
theorem win_ok (s : Fin 8) (j : Fin 128) (o : Fin 3 → ℕ) (inbo : ∀ a, o a + S1x50x128.size a ≤ S8x56x128.size a) (ho : o = ![s.val, 0, 0])
    (off : Fin 2 → ℕ) (inb : ∀ a, off a + S1x50.size a ≤ S128x50.size a) (hoff : off = ![j.val, 0])
    (fd : Buf (Elt F) ((bWinAt o inbo).view.loc (thr d L))) (hn) (hin) :
    WinOK ft fi hfi s j ((bWinAt o inbo).view.write (Elt F) fd
      (SparseCore.gatherPayload gathers_S100000x128_S50x128 ((tAll).view.read (Elt F) ft) (SparseCore.rows ((iRowAt off inb).view.read (Elt F) fi) hn hin)) Finset.univ) := by
  subst ho; subst hoff
  intro l e
  have hemb : (bWinAt ![s.val, 0, 0] inbo).view.emb (ix2 l e) = ix3 s (Fin.castLE (by decide) l : Fin 56) e := by
    show (Rect.unit (s := S8x56x128) ![s.val, 0, 0] S1x50x128.size inbo).emb
      (Shape.reshapeEquiv squeezes_S1x50x128_S50x128.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have hlist : (iRowAt ![j.val, 0] inb).view.emb (ix1 l) = ix2 j l := by
    show (Rect.unit (s := S128x50) ![j.val, 0] S1x50.size inb).emb
      (Shape.reshapeEquiv squeezes_S1x50_S50.numel_eq (ix1 l)) = _
    rw [show Shape.reshapeEquiv squeezes_S1x50_S50.numel_eq (ix1 l) = ix2 (⟨0, Nat.one_pos⟩ : Fin 1) l from
      Shape.reshapeEquiv_eq_of_rowMajor _ (by rw [Shape.rowMajor_val_two, Shape.rowMajor_val_one]; show 0 * 50 + l.val = l.val; omega)]
    funext a
    refine Fin.ext ?_
    match a with
    | 0 => show j.val + 1 * 0 = j.val; omega
    | 1 => show 0 + 1 * l.val = l.val; omega
  rw [← hemb, View.write_emb, if_pos (Finset.mem_univ _), cast_eq]
  unfold SparseCore.gatherPayload
  rw [View.read_apply, cast_eq]
  congr 1
  have hrm : S50.rowMajor.symm (l.cast hn.symm) = ix1 l :=
    (Equiv.symm_apply_eq _).mpr (Fin.ext (by rw [Shape.rowMajor_val_one]; rfl))
  funext a
  refine Fin.ext ?_
  match a with
  | 0 =>
    show 0 + 1 * ((gathers_S100000x128_S50x128).idx (SparseCore.rows ((iRowAt ![j.val, 0] inb).view.read (Elt F) fi) hn hin) (ix2 l e) (0 : Fin 2)).val
      = (fi (ix2 j l)).toNat
    rw [show (gathers_S100000x128_S50x128).idx (SparseCore.rows ((iRowAt ![j.val, 0] inb).view.read (Elt F) fi) hn hin) (ix2 l e) (0 : Fin 2)
        = SparseCore.rows ((iRowAt ![j.val, 0] inb).view.read (Elt F) fi) hn hin l from Shape.Gathers.idx_axis _ _ _]
    show 0 + 1 * ((iRowAt ![j.val, 0] inb).view.read (Elt F) fi (S50.rowMajor.symm (l.cast hn.symm))).toNat = (fi (ix2 j l)).toNat
    rw [hrm, View.read_apply, cast_eq, hlist]
    omega
  | 1 =>
    show 0 + 1 * ((gathers_S100000x128_S50x128).idx (SparseCore.rows ((iRowAt ![j.val, 0] inb).view.read (Elt F) fi) hn hin) (ix2 l e) (1 : Fin 2)).val = e.val
    have h1 := Shape.Gathers.idx_of_ne gathers_S100000x128_S50x128
      (SparseCore.rows ((iRowAt ![j.val, 0] inb).view.read (Elt F) fi) hn hin) (ix2 l e) (1 : Fin 2) (by decide)
    rw [h1]
    show 0 + 1 * e.val = e.val
    omega

/-- L3. What the copy of slot `s` out to row `128 w + j` leaves there. -/
theorem row_ok (w : Fin 32) (s : Fin 8) (j : Fin 128) (o : Fin 3 → ℕ) (inbo : ∀ a, o a + S1x50x64.size a ≤ S8x50x64.size a) (ho : o = ![s.val, 0, 0])
    (off : Fin 3 → ℕ) (inb : ∀ a, off a + S1x50x64.size a ≤ S4096x50x64.size a) (hoff : off = ![128 * w.val + j.val, 0, 0])
    (fo : Buf (Elt F) ((oRowAt off inb).view.loc (thr d L))) (gp : Buf (Elt F) ((pWinAt o inbo).view.loc (thr d L)))
    (pay : S50x64.Idx → Elt F .f32) (hpay : pay = ReadAs.same.apply ((pWinAt o inbo).view.read (Elt F) gp))
    (hs : SlotOK ft fi hfi s j gp) :
    RowOK ft fi hfi w j ((oRowAt off inb).view.writes (Elt F) fo [⟨Rect.whole S50x64, pay⟩]) := by
  subst ho; subst hoff; subst hpay
  intro l e
  have hemb : (oRowAt ![128 * w.val + j.val, 0, 0] inb).view.emb (ix2 l e) = ix3 (⟨128 * w.val + j.val, by omega⟩ : Fin 4096) l e := by
    show (Rect.unit (s := S4096x50x64) ![128 * w.val + j.val, 0, 0] S1x50x64.size inb).emb
      (Shape.reshapeEquiv squeezes_S1x50x64_S50x64.numel_eq (ix2 l e)) = _
    rw [reshapeEquiv_ix2_1ab]
    funext a
    refine Fin.ext ?_
    match a with
    | 0 => show 128 * w.val + j.val + 1 * 0 = 128 * w.val + j.val; omega
    | 1 => show 0 + 1 * l.val = l.val; omega
    | 2 => show 0 + 1 * e.val = e.val; omega
  have hembp : (pWinAt ![s.val, 0, 0] inbo).view.emb (ix2 l e) = ix3 s l e := by
    show (Rect.unit (s := S8x50x64) ![s.val, 0, 0] S1x50x64.size inbo).emb
      (Shape.reshapeEquiv squeezes_S1x50x64_S50x64.numel_eq (ix2 l e)) = _
    rw [reshapeEquiv_ix2_1ab]
    funext a
    refine Fin.ext ?_
    match a with
    | 0 => show s.val + 1 * 0 = s.val; omega
    | 1 => show 0 + 1 * l.val = l.val; omega
    | 2 => show 0 + 1 * e.val = e.val; omega
  have h1 := View.read_writes_cons_emb (v := (oRowAt ![128 * w.val + j.val, 0, 0] inb).view) (f := fo) (Rect.whole S50x64)
    (ReadAs.same.apply ((pWinAt ![s.val, 0, 0] inbo).view.read (Elt F) gp)) [] (ix2 l e)
  rw [Rect.emb_whole_apply, View.read_apply, cast_eq, hemb, ReadAs.apply_same, View.read_apply, cast_eq, hembp] at h1
  rw [h1]
  exact hs l e

end Values

section Idx

variable (m : (ℓ : Loc nD τ sig) → Buf (Elt F) ℓ) (d : Dev nD) (L : grid3.Coords)

/-- L1. The index scratch after the copy holds the task's rows of the index array. -/
theorem fi_eq (fs : Buf (Elt F) ((iW).view.loc (thr d L))) (pay : S128x50.Idx → Elt F .i32)
    (hpay : pay = (catsRowsK L).view.read (Elt F) (m (catsLoc d))) (j : Fin 128) (l : Fin 50) :
    (View.write (Elt F) (iW).view fs pay Finset.univ) (ix2 j l)
      = m (catsLoc d) (ix2 (⟨12288 + (128 * (widL L).val + j.val), by omega⟩ : Fin 16384) l) := by
  subst hpay
  rw [View.write_whole_univ]
  rw [show ∀ y, (catsRowsK L).view.read (Elt F) (m (catsLoc d)) y = m (catsLoc d) ((catsRowsK L).view.emb y) from fun y => (View.read_apply _ _).trans (cast_eq _ _)]
  congr 1
  funext a
  refine Fin.ext ?_
  have hw : (widL L).val = 2 * (L 1).val + (L 0).val := rfl
  match a with
  | 0 =>
    show k3_off1 L 0 + 1 * j.val = 12288 + (128 * (widL L).val + j.val)
    rw [k3_off1_eq, hw]
    show 256 * (L 1).val + 128 * (L 0).val + 12288 + 1 * j.val = 12288 + (128 * (2 * (L 1).val + (L 0).val) + j.val)
    omega
  | 1 =>
    show k3_off1 L 1 + 1 * l.val = l.val
    rw [k3_off1_eq]
    show 0 + 1 * l.val = l.val
    omega

variable (ft : FVec F S100000x128 .f32) (fi : IVec S128x50 32) (hfi : ∀ y, (fi y).toNat < 100000)

/-- The result rows, each at some contents; the first `n` hold the table rows the index scratch names. -/
def outRowsV (w : Fin 32) (n : ℕ) : sProp 𝕄 :=
  bigSep Finset.univ fun j : Fin 128 => iprop(∃ f, ⌜j.val < n → RowOK ft fi hfi w j f⌝ ∗ out3Loc d ↦[rowSet w j]{fullShare} f)

set_option maxHeartbeats 2000000 in
set_option maxRecDepth 8192 in
/-- L4. All 128 rows in: the task's block holds what the claim says. -/
theorem outRowsV_join (hfi_eq : ∀ (j : Fin 128) (l : Fin 50), fi (ix2 j l) = m (catsLoc d) (ix2 (⟨12288 + (128 * (widL L).val + j.val), by omega⟩ : Fin 16384) l))
    (f0 : Buf (Elt F) (out3Loc d)) :
    (outRowsV (F := F) (UU := UU) d ft fi hfi (widL L) 128 : sProp 𝕄)
      ⊢ iprop(∃ f, ⌜GatherBlk (F := F) 3 (widL L) (m (catsLoc d)) ft f⌝ ∗ out3Loc d ↦[blkSet3 (widL L)]{fullShare} f) := by
  haveI : Nonempty (Buf (Elt F) (out3Loc d)) := ⟨f0⟩
  unfold outRowsV
  refine (bigSep_exists_pi Finset.univ (fun j (f : Buf (Elt F) (out3Loc d)) =>
    (iprop(⌜j.val < 128 → RowOK ft fi hfi (widL L) j f⌝ ∗ out3Loc d ↦[rowSet (widL L) j]{fullShare} f) : sProp 𝕄))).trans ?_
  iintro ⟨%fs, H⟩
  ihave H2 := (bigSep_pure_sep Finset.univ (fun j : Fin 128 => j.val < 128 → RowOK ft fi hfi (widL L) j (fs j))
    (fun j : Fin 128 => (out3Loc d ↦[rowSet (widL L) j]{fullShare} fs j : sProp 𝕄))) $$ H
  icases H2 with ⟨%hp, H⟩
  ihave H' := (pointsTo_biUnion_join (ℓ := out3Loc d) (q := fullShare) (Val := Elt F) Finset.univ (rowSet (widL L)) fs f0 (rows_disjoint (widL L))) $$ H
  icases H' with ⟨%g, %hg, Hg⟩
  rw [rows_cover]
  iexists g
  isplitr
  · ipureintro
    intro r l e
    have hm : ix3 (⟨128 * (widL L).val + r.val, by omega⟩ : Fin 4096) l e ∈ rowSet (widL L) r := by
      rw [rowSet_eq, mem_row]
    rw [hg r (Finset.mem_univ r) _ hm, hp r (Finset.mem_univ r) r.isLt l e]
    have hrow : rowIx fi hfi r l
        = Cert.Spec.rowOf (m (catsLoc d) (ix2 (⟨4096 * (3 : Fin 4).val + (128 * (widL L).val + r.val), by omega⟩ : Fin 16384) l)) := by
      refine Fin.ext ?_
      have e0 : (⟨4096 * (3 : Fin 4).val + (128 * (widL L).val + r.val), by omega⟩ : Fin 16384)
          = (⟨12288 + (128 * (widL L).val + r.val), by omega⟩ : Fin 16384) := Fin.ext (by show 4096 * 3 + (128 * (widL L).val + r.val) = 12288 + (128 * (widL L).val + r.val); omega)
      rw [e0, ← hfi_eq r l]
      exact (rowOf_val_of_lt _ (hfi _)).symm
    rw [hrow]
  · iexact Hg

end Idx

end Cert.Proof.Tile3

end
-- ==== Proof.TileRepackVQ3.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon3
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value

noncomputable section

namespace Cert.Proof.Tile3

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

/-! ## One repack trip, as a statement about functions

A trip writes row `k` of slot `s` of the repacked buffer in four stores of sixteen lanes, newest last. If each
store's payload is the target function `G` at the lanes it covers and the rows below `k` held `G` before, the
rows below `k + 1` hold `G` after: a row below `k` is missed by all four stores, and an element of row `k` is
under exactly one of them, at its lane minus the store's lane offset. -/

section PureRepack

variable {sig : RefSig} {κ : Kind} {sp : Space} {e : EltTy} {Val : EltTy → Type}

/-- The sixteen-lane vector's shape. -/
abbrev SChunk : Shape := ⟨3, ![1, 1, 16]⟩

theorem repack_step (vp : View sig κ sp ⟨3, ![8, 50, 64]⟩ e) (gp : vp.ty.Contents Val)
    (G : (⟨3, ![8, 50, 64]⟩ : Shape).Idx → Val e) (s : Fin 8) (k : ℕ) (hk : k < 50)
    {o1 o2 o3 o4 : Fin 3 → ℕ} (h1 : o1 = ![s.val, k, 0]) (h2 : o2 = ![s.val, k, 16]) (h3 : o3 = ![s.val, k, 32])
    (h4 : o4 = ![s.val, k, 48])
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : ∀ x : Fin 16, w1 (ix3 (0 : Fin 1) (0 : Fin 1) x) = G (ix3 s ⟨k, hk⟩ ⟨0 + x.val, by omega⟩))
    (hw2 : ∀ x : Fin 16, w2 (ix3 (0 : Fin 1) (0 : Fin 1) x) = G (ix3 s ⟨k, hk⟩ ⟨16 + x.val, by omega⟩))
    (hw3 : ∀ x : Fin 16, w3 (ix3 (0 : Fin 1) (0 : Fin 1) x) = G (ix3 s ⟨k, hk⟩ ⟨32 + x.val, by omega⟩))
    (hw4 : ∀ x : Fin 16, w4 (ix3 (0 : Fin 1) (0 : Fin 1) x) = G (ix3 s ⟨k, hk⟩ ⟨48 + x.val, by omega⟩))
    (hprev : ∀ (r : Fin 50) (x : Fin 64), r.val < k → vp.read Val gp (ix3 s r x) = G (ix3 s r x)) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x) = G (ix3 s r x) := by
  intro r x hr
  by_cases hlt : r.val < k
  · rw [View.read_writes_cons_unit_of_not_mem vp gp i4 w4 _ (ix3 s r x) h4 (1 : Fin 3) (Or.inl hlt),
      View.read_writes_cons_unit_of_not_mem vp gp i3 w3 _ (ix3 s r x) h3 (1 : Fin 3) (Or.inl hlt),
      View.read_writes_cons_unit_of_not_mem vp gp i2 w2 _ (ix3 s r x) h2 (1 : Fin 3) (Or.inl hlt),
      View.read_writes_cons_unit_of_not_mem vp gp i1 w1 _ (ix3 s r x) h1 (1 : Fin 3) (Or.inl hlt), View.writes_nil]
    exact hprev r x hlt
  · have hrk : r.val = k := by omega
    have hx := x.isLt
    have tgt : ∀ (c : ℕ) (hc : c + 16 ≤ 64) (hcx : c ≤ x.val) (hxc : x.val < c + 16),
        G (ix3 s ⟨k, hk⟩ (⟨c + (x.val - c), by omega⟩ : Fin 64)) = G (ix3 s r x) := fun c hc hcx hxc =>
      congrArg G (by
        have e1 : (⟨k, hk⟩ : Fin 50) = r := Fin.ext hrk.symm
        have e2 : (⟨c + (x.val - c), by omega⟩ : Fin 64) = x := Fin.ext (by show c + (x.val - c) = x.val; omega)
        rw [e1, e2])
    by_cases c4 : 48 ≤ x.val
    · rw [View.read_writes_cons_unit_of_mem vp gp i4 w4 _ (ix3 s r x) (ix3 (0 : Fin 1) (0 : Fin 1) (⟨x.val - 48, by omega⟩ : Fin 16)) h4
        (fun a => by
          match a with
          | ⟨0, _⟩ => show s.val = s.val + 0; omega
          | ⟨1, _⟩ => show r.val = k + 0; omega
          | ⟨2, _⟩ => show x.val = 48 + (x.val - 48); omega)]
      exact (hw4 _).trans (tgt 48 (by omega) c4 (by omega))
    · rw [View.read_writes_cons_unit_of_not_mem vp gp i4 w4 _ (ix3 s r x) h4 (2 : Fin 3) (Or.inl (by show x.val < 48; omega))]
      by_cases c3 : 32 ≤ x.val
      · rw [View.read_writes_cons_unit_of_mem vp gp i3 w3 _ (ix3 s r x) (ix3 (0 : Fin 1) (0 : Fin 1) (⟨x.val - 32, by omega⟩ : Fin 16)) h3
          (fun a => by
            match a with
            | ⟨0, _⟩ => show s.val = s.val + 0; omega
            | ⟨1, _⟩ => show r.val = k + 0; omega
            | ⟨2, _⟩ => show x.val = 32 + (x.val - 32); omega)]
        exact (hw3 _).trans (tgt 32 (by omega) c3 (by omega))
      · rw [View.read_writes_cons_unit_of_not_mem vp gp i3 w3 _ (ix3 s r x) h3 (2 : Fin 3) (Or.inl (by show x.val < 32; omega))]
        by_cases c2 : 16 ≤ x.val
        · rw [View.read_writes_cons_unit_of_mem vp gp i2 w2 _ (ix3 s r x) (ix3 (0 : Fin 1) (0 : Fin 1) (⟨x.val - 16, by omega⟩ : Fin 16)) h2
            (fun a => by
              match a with
              | ⟨0, _⟩ => show s.val = s.val + 0; omega
              | ⟨1, _⟩ => show r.val = k + 0; omega
              | ⟨2, _⟩ => show x.val = 16 + (x.val - 16); omega)]
          exact (hw2 _).trans (tgt 16 (by omega) c2 (by omega))
        · rw [View.read_writes_cons_unit_of_not_mem vp gp i2 w2 _ (ix3 s r x) h2 (2 : Fin 3) (Or.inl (by show x.val < 16; omega))]
          rw [View.read_writes_cons_unit_of_mem vp gp i1 w1 _ (ix3 s r x) (ix3 (0 : Fin 1) (0 : Fin 1) (⟨x.val - 0, by omega⟩ : Fin 16)) h1
            (fun a => by
              match a with
              | ⟨0, _⟩ => show s.val = s.val + 0; omega
              | ⟨1, _⟩ => show r.val = k + 0; omega
              | ⟨2, _⟩ => show x.val = 0 + (x.val - 0); omega)]
          exact (hw1 _).trans (tgt 0 (by omega) (by omega) (by omega))

/-- A sixteen-lane load of row `k` of slot `s` of the row buffer at lane offset `c`, read at lane `x`. -/
theorem read_chunk (vb : View sig κ sp ⟨3, ![8, 56, 128]⟩ e) (fb : vb.ty.Contents Val) {o : Fin 3 → ℕ} (s : Fin 8) (k c : ℕ)
    (hk : k < 56) (hc : c + 16 ≤ 128) (ho : o = ![s.val, k, c])
    (i : ∀ a, o a + SChunk.size a ≤ (⟨3, ![8, 56, 128]⟩ : Shape).size a) (x : Fin 16) :
    vb.readAt Val (Rect.unit (s := ⟨3, ![8, 56, 128]⟩) o SChunk.size i).toLoadRect fb (ix3 (0 : Fin 1) (0 : Fin 1) x)
      = vb.read Val fb (ix3 s (⟨k, hk⟩ : Fin 56) (⟨c + x.val, by omega⟩ : Fin 128)) := by
  subst ho
  rw [View.readAt_apply]
  refine congrArg (vb.read Val fb) (funext fun a => Fin.ext ?_)
  match a with
  | ⟨0, _⟩ => show s.val + 1 * 0 = s.val; omega
  | ⟨1, _⟩ => show k + 1 * 0 = k; omega
  | ⟨2, _⟩ => show c + 1 * x.val = c + x.val; omega

/-- One repack trip: the four stores' payloads are the four sixteen-lane loads of row `k` of slot `s` of the row
    buffer, so the rows below `k + 1` of slot `s` of the repacked buffer hold the row buffer's first 64 lanes. -/
theorem repack_trip {κ' : Kind} {sp' : Space} (vp : View sig κ sp ⟨3, ![8, 50, 64]⟩ e) (vb : View sig κ' sp' ⟨3, ![8, 56, 128]⟩ e)
    (gp : vp.ty.Contents Val) (fb : vb.ty.Contents Val) (s : Fin 8) (k : ℕ) (hk : k < 50)
    {ob1 ob2 ob3 ob4 o1 o2 o3 o4 : Fin 3 → ℕ}
    (hb1 : ob1 = ![s.val, k, 0]) (hb2 : ob2 = ![s.val, k, 16]) (hb3 : ob3 = ![s.val, k, 32]) (hb4 : ob4 = ![s.val, k, 48])
    (h1 : o1 = ![s.val, k, 0]) (h2 : o2 = ![s.val, k, 16]) (h3 : o3 = ![s.val, k, 32]) (h4 : o4 = ![s.val, k, 48])
    (ib1 : ∀ a, ob1 a + SChunk.size a ≤ (⟨3, ![8, 56, 128]⟩ : Shape).size a)
    (ib2 : ∀ a, ob2 a + SChunk.size a ≤ (⟨3, ![8, 56, 128]⟩ : Shape).size a)
    (ib3 : ∀ a, ob3 a + SChunk.size a ≤ (⟨3, ![8, 56, 128]⟩ : Shape).size a)
    (ib4 : ∀ a, ob4 a + SChunk.size a ≤ (⟨3, ![8, 56, 128]⟩ : Shape).size a)
    (i1 : ∀ a, o1 a + SChunk.size a ≤ (⟨3, ![8, 50, 64]⟩ : Shape).size a)
    (i2 : ∀ a, o2 a + SChunk.size a ≤ (⟨3, ![8, 50, 64]⟩ : Shape).size a)
    (i3 : ∀ a, o3 a + SChunk.size a ≤ (⟨3, ![8, 50, 64]⟩ : Shape).size a)
    (i4 : ∀ a, o4 a + SChunk.size a ≤ (⟨3, ![8, 50, 64]⟩ : Shape).size a)
    (w1 : (Rect.unit (s := ⟨3, ![8, 50, 64]⟩) o1 SChunk.size i1).shape.Idx → Val e)
    (w2 : (Rect.unit (s := ⟨3, ![8, 50, 64]⟩) o2 SChunk.size i2).shape.Idx → Val e)
    (w3 : (Rect.unit (s := ⟨3, ![8, 50, 64]⟩) o3 SChunk.size i3).shape.Idx → Val e)
    (w4 : (Rect.unit (s := ⟨3, ![8, 50, 64]⟩) o4 SChunk.size i4).shape.Idx → Val e)
    (hw1 : w1 = vb.readAt Val (Rect.unit (s := ⟨3, ![8, 56, 128]⟩) ob1 SChunk.size ib1).toLoadRect fb)
    (hw2 : w2 = vb.readAt Val (Rect.unit (s := ⟨3, ![8, 56, 128]⟩) ob2 SChunk.size ib2).toLoadRect fb)
    (hw3 : w3 = vb.readAt Val (Rect.unit (s := ⟨3, ![8, 56, 128]⟩) ob3 SChunk.size ib3).toLoadRect fb)
    (hw4 : w4 = vb.readAt Val (Rect.unit (s := ⟨3, ![8, 56, 128]⟩) ob4 SChunk.size ib4).toLoadRect fb)
    (hprev : ∀ (r : Fin 50) (x : Fin 64), r.val < k →
      vp.read Val gp (ix3 s r x) = vb.read Val fb (ix3 s (Fin.castLE (by decide) r : Fin 56) (Fin.castLE (by decide) x : Fin 128))) :
    ∀ (r : Fin 50) (x : Fin 64), r.val < k + 1 →
      vp.read Val (vp.writes Val gp [⟨Rect.unit o4 SChunk.size i4, w4⟩, ⟨Rect.unit o3 SChunk.size i3, w3⟩,
        ⟨Rect.unit o2 SChunk.size i2, w2⟩, ⟨Rect.unit o1 SChunk.size i1, w1⟩]) (ix3 s r x)
        = vb.read Val fb (ix3 s (Fin.castLE (by decide) r : Fin 56) (Fin.castLE (by decide) x : Fin 128)) := by
  subst hw1 hw2 hw3 hw4
  exact repack_step vp gp
    (fun y => vb.read Val fb (ix3 (y 0 : Fin 8) (Fin.castLE (by decide) (y 1 : Fin 50) : Fin 56) (Fin.castLE (by decide) (y 2 : Fin 64) : Fin 128)))
    s k hk h1 h2 h3 h4 i1 i2 i3 i4 _ _ _ _
    (fun x => read_chunk vb fb s k 0 (by omega) (by omega) hb1 ib1 x)
    (fun x => read_chunk vb fb s k 16 (by omega) (by omega) hb2 ib2 x)
    (fun x => read_chunk vb fb s k 32 (by omega) (by omega) hb3 ib3 x)
    (fun x => read_chunk vb fb s k 48 (by omega) (by omega) hb4 ib4 x)
    hprev

end PureRepack

section RepackV

variable (d : Dev nD) (L : grid3.Coords)

/-- Slot 0 between two repack trips: the row window at the fixed contents `fb`, slot 0 of the repacked buffer at some
    contents whose rows below `k` are `fb`'s first 64 lanes. -/
def RInvV0 (fb : Buf (Elt F) ((bWin0).view.loc (thr d L))) (k : ℕ) (_ : Unit) : sProp 𝕄 :=
  iprop(((bWin0).view.loc (thr d L) ↦[(bWin0).view.set]{fullShare} fb)
    ∗ ∃ g, ((pWin0).view.loc (thr d L) ↦[(pWin0).view.set]{fullShare} g)
        ∗ ⌜∀ (r : Fin 50) (e : Fin 64), r.val < k → g (ix3 (0 : Fin 8) r e) = fb (ix3 (0 : Fin 8) (Fin.castLE (by decide) r : Fin 56) (Fin.castLE (by decide) e : Fin 128))⌝)

/-- Slot 1 between two repack trips: the row window at the fixed contents `fb`, slot 1 of the repacked buffer at some
    contents whose rows below `k` are `fb`'s first 64 lanes. -/
def RInvV1 (fb : Buf (Elt F) ((bWin1).view.loc (thr d L))) (k : ℕ) (_ : Unit) : sProp 𝕄 :=
  iprop(((bWin1).view.loc (thr d L) ↦[(bWin1).view.set]{fullShare} fb)
    ∗ ∃ g, ((pWin1).view.loc (thr d L) ↦[(pWin1).view.set]{fullShare} g)
        ∗ ⌜∀ (r : Fin 50) (e : Fin 64), r.val < k → g (ix3 (1 : Fin 8) r e) = fb (ix3 (1 : Fin 8) (Fin.castLE (by decide) r : Fin 56) (Fin.castLE (by decide) e : Fin 128))⌝)

/-- Slot 2 between two repack trips: the row window at the fixed contents `fb`, slot 2 of the repacked buffer at some
    contents whose rows below `k` are `fb`'s first 64 lanes. -/
def RInvV2 (fb : Buf (Elt F) ((bWin2).view.loc (thr d L))) (k : ℕ) (_ : Unit) : sProp 𝕄 :=
  iprop(((bWin2).view.loc (thr d L) ↦[(bWin2).view.set]{fullShare} fb)
    ∗ ∃ g, ((pWin2).view.loc (thr d L) ↦[(pWin2).view.set]{fullShare} g)
        ∗ ⌜∀ (r : Fin 50) (e : Fin 64), r.val < k → g (ix3 (2 : Fin 8) r e) = fb (ix3 (2 : Fin 8) (Fin.castLE (by decide) r : Fin 56) (Fin.castLE (by decide) e : Fin 128))⌝)

/-- Slot 3 between two repack trips: the row window at the fixed contents `fb`, slot 3 of the repacked buffer at some
    contents whose rows below `k` are `fb`'s first 64 lanes. -/
def RInvV3 (fb : Buf (Elt F) ((bWin3).view.loc (thr d L))) (k : ℕ) (_ : Unit) : sProp 𝕄 :=
  iprop(((bWin3).view.loc (thr d L) ↦[(bWin3).view.set]{fullShare} fb)
    ∗ ∃ g, ((pWin3).view.loc (thr d L) ↦[(pWin3).view.set]{fullShare} g)
        ∗ ⌜∀ (r : Fin 50) (e : Fin 64), r.val < k → g (ix3 (3 : Fin 8) r e) = fb (ix3 (3 : Fin 8) (Fin.castLE (by decide) r : Fin 56) (Fin.castLE (by decide) e : Fin 128))⌝)

/-- Slot 4 between two repack trips: the row window at the fixed contents `fb`, slot 4 of the repacked buffer at some
    contents whose rows below `k` are `fb`'s first 64 lanes. -/
def RInvV4 (fb : Buf (Elt F) ((bWin4).view.loc (thr d L))) (k : ℕ) (_ : Unit) : sProp 𝕄 :=
  iprop(((bWin4).view.loc (thr d L) ↦[(bWin4).view.set]{fullShare} fb)
    ∗ ∃ g, ((pWin4).view.loc (thr d L) ↦[(pWin4).view.set]{fullShare} g)
        ∗ ⌜∀ (r : Fin 50) (e : Fin 64), r.val < k → g (ix3 (4 : Fin 8) r e) = fb (ix3 (4 : Fin 8) (Fin.castLE (by decide) r : Fin 56) (Fin.castLE (by decide) e : Fin 128))⌝)

/-- Slot 5 between two repack trips: the row window at the fixed contents `fb`, slot 5 of the repacked buffer at some
    contents whose rows below `k` are `fb`'s first 64 lanes. -/
def RInvV5 (fb : Buf (Elt F) ((bWin5).view.loc (thr d L))) (k : ℕ) (_ : Unit) : sProp 𝕄 :=
  iprop(((bWin5).view.loc (thr d L) ↦[(bWin5).view.set]{fullShare} fb)
    ∗ ∃ g, ((pWin5).view.loc (thr d L) ↦[(pWin5).view.set]{fullShare} g)
        ∗ ⌜∀ (r : Fin 50) (e : Fin 64), r.val < k → g (ix3 (5 : Fin 8) r e) = fb (ix3 (5 : Fin 8) (Fin.castLE (by decide) r : Fin 56) (Fin.castLE (by decide) e : Fin 128))⌝)

/-- Slot 6 between two repack trips: the row window at the fixed contents `fb`, slot 6 of the repacked buffer at some
    contents whose rows below `k` are `fb`'s first 64 lanes. -/
def RInvV6 (fb : Buf (Elt F) ((bWin6).view.loc (thr d L))) (k : ℕ) (_ : Unit) : sProp 𝕄 :=
  iprop(((bWin6).view.loc (thr d L) ↦[(bWin6).view.set]{fullShare} fb)
    ∗ ∃ g, ((pWin6).view.loc (thr d L) ↦[(pWin6).view.set]{fullShare} g)
        ∗ ⌜∀ (r : Fin 50) (e : Fin 64), r.val < k → g (ix3 (6 : Fin 8) r e) = fb (ix3 (6 : Fin 8) (Fin.castLE (by decide) r : Fin 56) (Fin.castLE (by decide) e : Fin 128))⌝)

/-- Slot 7 between two repack trips: the row window at the fixed contents `fb`, slot 7 of the repacked buffer at some
    contents whose rows below `k` are `fb`'s first 64 lanes. -/
def RInvV7 (fb : Buf (Elt F) ((bWin7).view.loc (thr d L))) (k : ℕ) (_ : Unit) : sProp 𝕄 :=
  iprop(((bWin7).view.loc (thr d L) ↦[(bWin7).view.set]{fullShare} fb)
    ∗ ∃ g, ((pWin7).view.loc (thr d L) ↦[(pWin7).view.set]{fullShare} g)
        ∗ ⌜∀ (r : Fin 50) (e : Fin 64), r.val < k → g (ix3 (7 : Fin 8) r e) = fb (ix3 (7 : Fin 8) (Fin.castLE (by decide) r : Fin 56) (Fin.castLE (by decide) e : Fin 128))⌝)

variable [FloatOps F]

theorem k3_pay1_eq (v : Vec F S1x1x16 .f32) : k3_pay1 v = v := by unfold k3_pay1; dsimp only; rw [shapeCast_shapeCast]
theorem k3_pay2_eq (v : Vec F S1x1x16 .f32) : k3_pay2 v = v := by unfold k3_pay2; dsimp only; rw [shapeCast_shapeCast]
theorem k3_pay3_eq (v : Vec F S1x1x16 .f32) : k3_pay3 v = v := by unfold k3_pay3; dsimp only; rw [shapeCast_shapeCast]
theorem k3_pay4_eq (v : Vec F S1x1x16 .f32) : k3_pay4 v = v := by unfold k3_pay4; dsimp only; rw [shapeCast_shapeCast]
theorem k3_pay5_eq (v : Vec F S1x1x16 .f32) : k3_pay5 v = v := by unfold k3_pay5; dsimp only; rw [shapeCast_shapeCast]
theorem k3_pay6_eq (v : Vec F S1x1x16 .f32) : k3_pay6 v = v := by unfold k3_pay6; dsimp only; rw [shapeCast_shapeCast]
theorem k3_pay7_eq (v : Vec F S1x1x16 .f32) : k3_pay7 v = v := by unfold k3_pay7; dsimp only; rw [shapeCast_shapeCast]
theorem k3_pay8_eq (v : Vec F S1x1x16 .f32) : k3_pay8 v = v := by unfold k3_pay8; dsimp only; rw [shapeCast_shapeCast]
theorem k3_pay9_eq (v : Vec F S1x1x16 .f32) : k3_pay9 v = v := by unfold k3_pay9; dsimp only; rw [shapeCast_shapeCast]
theorem k3_pay10_eq (v : Vec F S1x1x16 .f32) : k3_pay10 v = v := by unfold k3_pay10; dsimp only; rw [shapeCast_shapeCast]
theorem k3_pay11_eq (v : Vec F S1x1x16 .f32) : k3_pay11 v = v := by unfold k3_pay11; dsimp only; rw [shapeCast_shapeCast]
theorem k3_pay12_eq (v : Vec F S1x1x16 .f32) : k3_pay12 v = v := by unfold k3_pay12; dsimp only; rw [shapeCast_shapeCast]
theorem k3_pay13_eq (v : Vec F S1x1x16 .f32) : k3_pay13 v = v := by unfold k3_pay13; dsimp only; rw [shapeCast_shapeCast]
theorem k3_pay14_eq (v : Vec F S1x1x16 .f32) : k3_pay14 v = v := by unfold k3_pay14; dsimp only; rw [shapeCast_shapeCast]
theorem k3_pay15_eq (v : Vec F S1x1x16 .f32) : k3_pay15 v = v := by unfold k3_pay15; dsimp only; rw [shapeCast_shapeCast]
theorem k3_pay16_eq (v : Vec F S1x1x16 .f32) : k3_pay16 v = v := by unfold k3_pay16; dsimp only; rw [shapeCast_shapeCast]
theorem k3_pay17_eq (v : Vec F S1x1x16 .f32) : k3_pay17 v = v := by unfold k3_pay17; dsimp only; rw [shapeCast_shapeCast]
theorem k3_pay18_eq (v : Vec F S1x1x16 .f32) : k3_pay18 v = v := by unfold k3_pay18; dsimp only; rw [shapeCast_shapeCast]
theorem k3_pay19_eq (v : Vec F S1x1x16 .f32) : k3_pay19 v = v := by unfold k3_pay19; dsimp only; rw [shapeCast_shapeCast]
theorem k3_pay20_eq (v : Vec F S1x1x16 .f32) : k3_pay20 v = v := by unfold k3_pay20; dsimp only; rw [shapeCast_shapeCast]
theorem k3_pay21_eq (v : Vec F S1x1x16 .f32) : k3_pay21 v = v := by unfold k3_pay21; dsimp only; rw [shapeCast_shapeCast]
theorem k3_pay22_eq (v : Vec F S1x1x16 .f32) : k3_pay22 v = v := by unfold k3_pay22; dsimp only; rw [shapeCast_shapeCast]
theorem k3_pay23_eq (v : Vec F S1x1x16 .f32) : k3_pay23 v = v := by unfold k3_pay23; dsimp only; rw [shapeCast_shapeCast]
theorem k3_pay24_eq (v : Vec F S1x1x16 .f32) : k3_pay24 v = v := by unfold k3_pay24; dsimp only; rw [shapeCast_shapeCast]
theorem k3_pay25_eq (v : Vec F S1x1x16 .f32) : k3_pay25 v = v := by unfold k3_pay25; dsimp only; rw [shapeCast_shapeCast]
theorem k3_pay26_eq (v : Vec F S1x1x16 .f32) : k3_pay26 v = v := by unfold k3_pay26; dsimp only; rw [shapeCast_shapeCast]
theorem k3_pay27_eq (v : Vec F S1x1x16 .f32) : k3_pay27 v = v := by unfold k3_pay27; dsimp only; rw [shapeCast_shapeCast]
theorem k3_pay28_eq (v : Vec F S1x1x16 .f32) : k3_pay28 v = v := by unfold k3_pay28; dsimp only; rw [shapeCast_shapeCast]
theorem k3_pay29_eq (v : Vec F S1x1x16 .f32) : k3_pay29 v = v := by unfold k3_pay29; dsimp only; rw [shapeCast_shapeCast]
theorem k3_pay30_eq (v : Vec F S1x1x16 .f32) : k3_pay30 v = v := by unfold k3_pay30; dsimp only; rw [shapeCast_shapeCast]
theorem k3_pay31_eq (v : Vec F S1x1x16 .f32) : k3_pay31 v = v := by unfold k3_pay31; dsimp only; rw [shapeCast_shapeCast]
theorem k3_pay32_eq (v : Vec F S1x1x16 .f32) : k3_pay32 v = v := by unfold k3_pay32; dsimp only; rw [shapeCast_shapeCast]

set_option maxHeartbeats 1000000 in
theorem repackV2 (v2 : BitVec 32) (c0_i32_51 : BitVec 32) (c1_i32_52 : BitVec 32) (k3_t1 : Fin k3_t1_loop.trips)
    (fb : Buf (Elt F) ((bWin0).view.loc (thr d L))) (k : Fin k3_t2_loop.trips) (u : Unit) :
    (RInvV0 d L fb k.val u : sProp 𝕄) ⊢ wp frame (wpE (defs₀ (F := F)) 𝒱₀ (thr d L) none) Set.univ
        (k3_t2_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 c0_i32_51 c1_i32_52 k3_t1 k u) (RInvV0 d L fb (k.val + 1)) := by
  unfold k3_t2_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (0 : Fin 8) k.val hk
    (k3_off3_eq k) (k3_off5_eq k) (k3_off7_eq k) (k3_off9_eq k)
    (k3_off4_eq k) (k3_off6_eq k) (k3_off8_eq k) (k3_off10_eq k)
    (k3_off3_inb k) (k3_off5_inb k) (k3_off7_inb k) (k3_off9_inb k)
    (k3_off4_inb k) (k3_off6_inb k) (k3_off8_inb k) (k3_off10_inb k)
    (k3_pay1 (View.readAt (Elt F) (View.whole (cc3_scratch1 : Ref sig .scVector)) (Rect.unit (s := S8x56x128) (k3_off3 k) S1x1x16.size (k3_off3_inb k)).toLoadRect fb))
    (k3_pay2 (View.readAt (Elt F) (View.whole (cc3_scratch1 : Ref sig .scVector)) (Rect.unit (s := S8x56x128) (k3_off5 k) S1x1x16.size (k3_off5_inb k)).toLoadRect fb))
    (k3_pay3 (View.readAt (Elt F) (View.whole (cc3_scratch1 : Ref sig .scVector)) (Rect.unit (s := S8x56x128) (k3_off7 k) S1x1x16.size (k3_off7_inb k)).toLoadRect fb))
    (k3_pay4 (View.readAt (Elt F) (View.whole (cc3_scratch1 : Ref sig .scVector)) (Rect.unit (s := S8x56x128) (k3_off9 k) S1x1x16.size (k3_off9_inb k)).toLoadRect fb))
    (k3_pay1_eq _) (k3_pay2_eq _) (k3_pay3_eq _) (k3_pay4_eq _) hrep

theorem trips2 : k3_t2_loop.trips = 50 := rfl

/-- After loop `k3_t2` every row of slot 0 is repacked. -/
theorem repackV2_done (fb : Buf (Elt F) ((bWin0).view.loc (thr d L))) (g : Buf (Elt F) ((pWin0).view.loc (thr d L)))
    (h : ∀ (r : Fin 50) (e : Fin 64), r.val < k3_t2_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips2]; exact r.isLt)

set_option maxHeartbeats 1000000 in
theorem repackV3 (v2 : BitVec 32) (k3_t1 : Fin k3_t1_loop.trips) (arg24 : BitVec 32) (v255 : BitVec 32)
    (fb : Buf (Elt F) ((bWin1).view.loc (thr d L))) (k : Fin k3_t3_loop.trips) (u : Unit) :
    (RInvV1 d L fb k.val u : sProp 𝕄) ⊢ wp frame (wpE (defs₀ (F := F)) 𝒱₀ (thr d L) none) Set.univ
        (k3_t3_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v255 k u) (RInvV1 d L fb (k.val + 1)) := by
  unfold k3_t3_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (1 : Fin 8) k.val hk
    (k3_off12_eq k) (k3_off14_eq k) (k3_off16_eq k) (k3_off18_eq k)
    (k3_off13_eq k) (k3_off15_eq k) (k3_off17_eq k) (k3_off19_eq k)
    (k3_off12_inb k) (k3_off14_inb k) (k3_off16_inb k) (k3_off18_inb k)
    (k3_off13_inb k) (k3_off15_inb k) (k3_off17_inb k) (k3_off19_inb k)
    (k3_pay5 (View.readAt (Elt F) (View.whole (cc3_scratch1 : Ref sig .scVector)) (Rect.unit (s := S8x56x128) (k3_off12 k) S1x1x16.size (k3_off12_inb k)).toLoadRect fb))
    (k3_pay6 (View.readAt (Elt F) (View.whole (cc3_scratch1 : Ref sig .scVector)) (Rect.unit (s := S8x56x128) (k3_off14 k) S1x1x16.size (k3_off14_inb k)).toLoadRect fb))
    (k3_pay7 (View.readAt (Elt F) (View.whole (cc3_scratch1 : Ref sig .scVector)) (Rect.unit (s := S8x56x128) (k3_off16 k) S1x1x16.size (k3_off16_inb k)).toLoadRect fb))
    (k3_pay8 (View.readAt (Elt F) (View.whole (cc3_scratch1 : Ref sig .scVector)) (Rect.unit (s := S8x56x128) (k3_off18 k) S1x1x16.size (k3_off18_inb k)).toLoadRect fb))
    (k3_pay5_eq _) (k3_pay6_eq _) (k3_pay7_eq _) (k3_pay8_eq _) hrep

theorem trips3 : k3_t3_loop.trips = 50 := rfl

/-- After loop `k3_t3` every row of slot 1 is repacked. -/
theorem repackV3_done (fb : Buf (Elt F) ((bWin1).view.loc (thr d L))) (g : Buf (Elt F) ((pWin1).view.loc (thr d L)))
    (h : ∀ (r : Fin 50) (e : Fin 64), r.val < k3_t3_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips3]; exact r.isLt)

set_option maxHeartbeats 1000000 in
theorem repackV4 (v2 : BitVec 32) (k3_t1 : Fin k3_t1_loop.trips) (arg24 : BitVec 32) (v255 : BitVec 32)
    (fb : Buf (Elt F) ((bWin2).view.loc (thr d L))) (k : Fin k3_t4_loop.trips) (u : Unit) :
    (RInvV2 d L fb k.val u : sProp 𝕄) ⊢ wp frame (wpE (defs₀ (F := F)) 𝒱₀ (thr d L) none) Set.univ
        (k3_t4_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v255 k u) (RInvV2 d L fb (k.val + 1)) := by
  unfold k3_t4_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (2 : Fin 8) k.val hk
    (k3_off20_eq k) (k3_off22_eq k) (k3_off24_eq k) (k3_off26_eq k)
    (k3_off21_eq k) (k3_off23_eq k) (k3_off25_eq k) (k3_off27_eq k)
    (k3_off20_inb k) (k3_off22_inb k) (k3_off24_inb k) (k3_off26_inb k)
    (k3_off21_inb k) (k3_off23_inb k) (k3_off25_inb k) (k3_off27_inb k)
    (k3_pay9 (View.readAt (Elt F) (View.whole (cc3_scratch1 : Ref sig .scVector)) (Rect.unit (s := S8x56x128) (k3_off20 k) S1x1x16.size (k3_off20_inb k)).toLoadRect fb))
    (k3_pay10 (View.readAt (Elt F) (View.whole (cc3_scratch1 : Ref sig .scVector)) (Rect.unit (s := S8x56x128) (k3_off22 k) S1x1x16.size (k3_off22_inb k)).toLoadRect fb))
    (k3_pay11 (View.readAt (Elt F) (View.whole (cc3_scratch1 : Ref sig .scVector)) (Rect.unit (s := S8x56x128) (k3_off24 k) S1x1x16.size (k3_off24_inb k)).toLoadRect fb))
    (k3_pay12 (View.readAt (Elt F) (View.whole (cc3_scratch1 : Ref sig .scVector)) (Rect.unit (s := S8x56x128) (k3_off26 k) S1x1x16.size (k3_off26_inb k)).toLoadRect fb))
    (k3_pay9_eq _) (k3_pay10_eq _) (k3_pay11_eq _) (k3_pay12_eq _) hrep

theorem trips4 : k3_t4_loop.trips = 50 := rfl

/-- After loop `k3_t4` every row of slot 2 is repacked. -/
theorem repackV4_done (fb : Buf (Elt F) ((bWin2).view.loc (thr d L))) (g : Buf (Elt F) ((pWin2).view.loc (thr d L)))
    (h : ∀ (r : Fin 50) (e : Fin 64), r.val < k3_t4_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips4]; exact r.isLt)

set_option maxHeartbeats 1000000 in
theorem repackV5 (v2 : BitVec 32) (k3_t1 : Fin k3_t1_loop.trips) (arg24 : BitVec 32)
    (fb : Buf (Elt F) ((bWin3).view.loc (thr d L))) (k : Fin k3_t5_loop.trips) (u : Unit) :
    (RInvV3 d L fb k.val u : sProp 𝕄) ⊢ wp frame (wpE (defs₀ (F := F)) 𝒱₀ (thr d L) none) Set.univ
        (k3_t5_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 k u) (RInvV3 d L fb (k.val + 1)) := by
  unfold k3_t5_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (3 : Fin 8) k.val hk
    (k3_off28_eq k) (k3_off30_eq k) (k3_off32_eq k) (k3_off34_eq k)
    (k3_off29_eq k) (k3_off31_eq k) (k3_off33_eq k) (k3_off35_eq k)
    (k3_off28_inb k) (k3_off30_inb k) (k3_off32_inb k) (k3_off34_inb k)
    (k3_off29_inb k) (k3_off31_inb k) (k3_off33_inb k) (k3_off35_inb k)
    (k3_pay13 (View.readAt (Elt F) (View.whole (cc3_scratch1 : Ref sig .scVector)) (Rect.unit (s := S8x56x128) (k3_off28 k) S1x1x16.size (k3_off28_inb k)).toLoadRect fb))
    (k3_pay14 (View.readAt (Elt F) (View.whole (cc3_scratch1 : Ref sig .scVector)) (Rect.unit (s := S8x56x128) (k3_off30 k) S1x1x16.size (k3_off30_inb k)).toLoadRect fb))
    (k3_pay15 (View.readAt (Elt F) (View.whole (cc3_scratch1 : Ref sig .scVector)) (Rect.unit (s := S8x56x128) (k3_off32 k) S1x1x16.size (k3_off32_inb k)).toLoadRect fb))
    (k3_pay16 (View.readAt (Elt F) (View.whole (cc3_scratch1 : Ref sig .scVector)) (Rect.unit (s := S8x56x128) (k3_off34 k) S1x1x16.size (k3_off34_inb k)).toLoadRect fb))
    (k3_pay13_eq _) (k3_pay14_eq _) (k3_pay15_eq _) (k3_pay16_eq _) hrep

theorem trips5 : k3_t5_loop.trips = 50 := rfl

/-- After loop `k3_t5` every row of slot 3 is repacked. -/
theorem repackV5_done (fb : Buf (Elt F) ((bWin3).view.loc (thr d L))) (g : Buf (Elt F) ((pWin3).view.loc (thr d L)))
    (h : ∀ (r : Fin 50) (e : Fin 64), r.val < k3_t5_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips5]; exact r.isLt)

set_option maxHeartbeats 1000000 in
theorem repackV6 (v2 : BitVec 32) (k3_t1 : Fin k3_t1_loop.trips) (arg24 : BitVec 32) (v306 : BitVec 32)
    (fb : Buf (Elt F) ((bWin4).view.loc (thr d L))) (k : Fin k3_t6_loop.trips) (u : Unit) :
    (RInvV4 d L fb k.val u : sProp 𝕄) ⊢ wp frame (wpE (defs₀ (F := F)) 𝒱₀ (thr d L) none) Set.univ
        (k3_t6_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v306 k u) (RInvV4 d L fb (k.val + 1)) := by
  unfold k3_t6_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (4 : Fin 8) k.val hk
    (k3_off36_eq k) (k3_off38_eq k) (k3_off40_eq k) (k3_off42_eq k)
    (k3_off37_eq k) (k3_off39_eq k) (k3_off41_eq k) (k3_off43_eq k)
    (k3_off36_inb k) (k3_off38_inb k) (k3_off40_inb k) (k3_off42_inb k)
    (k3_off37_inb k) (k3_off39_inb k) (k3_off41_inb k) (k3_off43_inb k)
    (k3_pay17 (View.readAt (Elt F) (View.whole (cc3_scratch1 : Ref sig .scVector)) (Rect.unit (s := S8x56x128) (k3_off36 k) S1x1x16.size (k3_off36_inb k)).toLoadRect fb))
    (k3_pay18 (View.readAt (Elt F) (View.whole (cc3_scratch1 : Ref sig .scVector)) (Rect.unit (s := S8x56x128) (k3_off38 k) S1x1x16.size (k3_off38_inb k)).toLoadRect fb))
    (k3_pay19 (View.readAt (Elt F) (View.whole (cc3_scratch1 : Ref sig .scVector)) (Rect.unit (s := S8x56x128) (k3_off40 k) S1x1x16.size (k3_off40_inb k)).toLoadRect fb))
    (k3_pay20 (View.readAt (Elt F) (View.whole (cc3_scratch1 : Ref sig .scVector)) (Rect.unit (s := S8x56x128) (k3_off42 k) S1x1x16.size (k3_off42_inb k)).toLoadRect fb))
    (k3_pay17_eq _) (k3_pay18_eq _) (k3_pay19_eq _) (k3_pay20_eq _) hrep

theorem trips6 : k3_t6_loop.trips = 50 := rfl

/-- After loop `k3_t6` every row of slot 4 is repacked. -/
theorem repackV6_done (fb : Buf (Elt F) ((bWin4).view.loc (thr d L))) (g : Buf (Elt F) ((pWin4).view.loc (thr d L)))
    (h : ∀ (r : Fin 50) (e : Fin 64), r.val < k3_t6_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips6]; exact r.isLt)

set_option maxHeartbeats 1000000 in
theorem repackV7 (v2 : BitVec 32) (k3_t1 : Fin k3_t1_loop.trips) (arg24 : BitVec 32) (v306 : BitVec 32)
    (fb : Buf (Elt F) ((bWin5).view.loc (thr d L))) (k : Fin k3_t7_loop.trips) (u : Unit) :
    (RInvV5 d L fb k.val u : sProp 𝕄) ⊢ wp frame (wpE (defs₀ (F := F)) 𝒱₀ (thr d L) none) Set.univ
        (k3_t7_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v306 k u) (RInvV5 d L fb (k.val + 1)) := by
  unfold k3_t7_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (5 : Fin 8) k.val hk
    (k3_off44_eq k) (k3_off46_eq k) (k3_off48_eq k) (k3_off50_eq k)
    (k3_off45_eq k) (k3_off47_eq k) (k3_off49_eq k) (k3_off51_eq k)
    (k3_off44_inb k) (k3_off46_inb k) (k3_off48_inb k) (k3_off50_inb k)
    (k3_off45_inb k) (k3_off47_inb k) (k3_off49_inb k) (k3_off51_inb k)
    (k3_pay21 (View.readAt (Elt F) (View.whole (cc3_scratch1 : Ref sig .scVector)) (Rect.unit (s := S8x56x128) (k3_off44 k) S1x1x16.size (k3_off44_inb k)).toLoadRect fb))
    (k3_pay22 (View.readAt (Elt F) (View.whole (cc3_scratch1 : Ref sig .scVector)) (Rect.unit (s := S8x56x128) (k3_off46 k) S1x1x16.size (k3_off46_inb k)).toLoadRect fb))
    (k3_pay23 (View.readAt (Elt F) (View.whole (cc3_scratch1 : Ref sig .scVector)) (Rect.unit (s := S8x56x128) (k3_off48 k) S1x1x16.size (k3_off48_inb k)).toLoadRect fb))
    (k3_pay24 (View.readAt (Elt F) (View.whole (cc3_scratch1 : Ref sig .scVector)) (Rect.unit (s := S8x56x128) (k3_off50 k) S1x1x16.size (k3_off50_inb k)).toLoadRect fb))
    (k3_pay21_eq _) (k3_pay22_eq _) (k3_pay23_eq _) (k3_pay24_eq _) hrep

theorem trips7 : k3_t7_loop.trips = 50 := rfl

/-- After loop `k3_t7` every row of slot 5 is repacked. -/
theorem repackV7_done (fb : Buf (Elt F) ((bWin5).view.loc (thr d L))) (g : Buf (Elt F) ((pWin5).view.loc (thr d L)))
    (h : ∀ (r : Fin 50) (e : Fin 64), r.val < k3_t7_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips7]; exact r.isLt)

set_option maxHeartbeats 1000000 in
theorem repackV8 (v2 : BitVec 32) (k3_t1 : Fin k3_t1_loop.trips) (arg24 : BitVec 32)
    (fb : Buf (Elt F) ((bWin6).view.loc (thr d L))) (k : Fin k3_t8_loop.trips) (u : Unit) :
    (RInvV6 d L fb k.val u : sProp 𝕄) ⊢ wp frame (wpE (defs₀ (F := F)) 𝒱₀ (thr d L) none) Set.univ
        (k3_t8_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 k u) (RInvV6 d L fb (k.val + 1)) := by
  unfold k3_t8_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (6 : Fin 8) k.val hk
    (k3_off52_eq k) (k3_off54_eq k) (k3_off56_eq k) (k3_off58_eq k)
    (k3_off53_eq k) (k3_off55_eq k) (k3_off57_eq k) (k3_off59_eq k)
    (k3_off52_inb k) (k3_off54_inb k) (k3_off56_inb k) (k3_off58_inb k)
    (k3_off53_inb k) (k3_off55_inb k) (k3_off57_inb k) (k3_off59_inb k)
    (k3_pay25 (View.readAt (Elt F) (View.whole (cc3_scratch1 : Ref sig .scVector)) (Rect.unit (s := S8x56x128) (k3_off52 k) S1x1x16.size (k3_off52_inb k)).toLoadRect fb))
    (k3_pay26 (View.readAt (Elt F) (View.whole (cc3_scratch1 : Ref sig .scVector)) (Rect.unit (s := S8x56x128) (k3_off54 k) S1x1x16.size (k3_off54_inb k)).toLoadRect fb))
    (k3_pay27 (View.readAt (Elt F) (View.whole (cc3_scratch1 : Ref sig .scVector)) (Rect.unit (s := S8x56x128) (k3_off56 k) S1x1x16.size (k3_off56_inb k)).toLoadRect fb))
    (k3_pay28 (View.readAt (Elt F) (View.whole (cc3_scratch1 : Ref sig .scVector)) (Rect.unit (s := S8x56x128) (k3_off58 k) S1x1x16.size (k3_off58_inb k)).toLoadRect fb))
    (k3_pay25_eq _) (k3_pay26_eq _) (k3_pay27_eq _) (k3_pay28_eq _) hrep

theorem trips8 : k3_t8_loop.trips = 50 := rfl

/-- After loop `k3_t8` every row of slot 6 is repacked. -/
theorem repackV8_done (fb : Buf (Elt F) ((bWin6).view.loc (thr d L))) (g : Buf (Elt F) ((pWin6).view.loc (thr d L)))
    (h : ∀ (r : Fin 50) (e : Fin 64), r.val < k3_t8_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips8]; exact r.isLt)

set_option maxHeartbeats 1000000 in
theorem repackV9 (v2 : BitVec 32) (k3_t1 : Fin k3_t1_loop.trips) (arg24 : BitVec 32) (v357 : BitVec 32)
    (fb : Buf (Elt F) ((bWin7).view.loc (thr d L))) (k : Fin k3_t9_loop.trips) (u : Unit) :
    (RInvV7 d L fb k.val u : sProp 𝕄) ⊢ wp frame (wpE (defs₀ (F := F)) 𝒱₀ (thr d L) none) Set.univ
        (k3_t9_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k3_t1 arg24 v357 k u) (RInvV7 d L fb (k.val + 1)) := by
  unfold k3_t9_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (7 : Fin 8) k.val hk
    (k3_off60_eq k) (k3_off62_eq k) (k3_off64_eq k) (k3_off66_eq k)
    (k3_off61_eq k) (k3_off63_eq k) (k3_off65_eq k) (k3_off67_eq k)
    (k3_off60_inb k) (k3_off62_inb k) (k3_off64_inb k) (k3_off66_inb k)
    (k3_off61_inb k) (k3_off63_inb k) (k3_off65_inb k) (k3_off67_inb k)
    (k3_pay29 (View.readAt (Elt F) (View.whole (cc3_scratch1 : Ref sig .scVector)) (Rect.unit (s := S8x56x128) (k3_off60 k) S1x1x16.size (k3_off60_inb k)).toLoadRect fb))
    (k3_pay30 (View.readAt (Elt F) (View.whole (cc3_scratch1 : Ref sig .scVector)) (Rect.unit (s := S8x56x128) (k3_off62 k) S1x1x16.size (k3_off62_inb k)).toLoadRect fb))
    (k3_pay31 (View.readAt (Elt F) (View.whole (cc3_scratch1 : Ref sig .scVector)) (Rect.unit (s := S8x56x128) (k3_off64 k) S1x1x16.size (k3_off64_inb k)).toLoadRect fb))
    (k3_pay32 (View.readAt (Elt F) (View.whole (cc3_scratch1 : Ref sig .scVector)) (Rect.unit (s := S8x56x128) (k3_off66 k) S1x1x16.size (k3_off66_inb k)).toLoadRect fb))
    (k3_pay29_eq _) (k3_pay30_eq _) (k3_pay31_eq _) (k3_pay32_eq _) hrep

theorem trips9 : k3_t9_loop.trips = 50 := rfl

/-- After loop `k3_t9` every row of slot 7 is repacked. -/
theorem repackV9_done (fb : Buf (Elt F) ((bWin7).view.loc (thr d L))) (g : Buf (Elt F) ((pWin7).view.loc (thr d L)))
    (h : ∀ (r : Fin 50) (e : Fin 64), r.val < k3_t9_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips9]; exact r.isLt)

end RepackV

end Cert.Proof.Tile3

end
-- ==== Proof.TileRepackV2Q3.lean ====
/-
  The repack loops of one subcore's task, with what they write. A trip copies the first 64 lanes of row `k` of a
  slot of the row buffer into row `k` of the same slot of the repacked buffer, sixteen lanes at a time: four loads
  of the row buffer's window, whose contents `fb` stay fixed through the loop, and four stores. So before trip `k`
  the rows below `k` of the repacked slot hold `fb`'s first 64 lanes, and after the fiftieth trip every row does.
  The trip's effect on the contents is stated once, over functions (`repack_step`, `read_chunk`, `repack_trip`):
  a row below `k` is missed by all four stores; an element of row `k` lies under exactly one of them, whose
  payload there is the load of the same row and lane.
-/
import proofs.«204056_g19739669692900_cont_8to1_1488_31_alg».proof.Proof.TileCommon3
import proofs.«204056_g19739669692900_cont_8to1_1488_31_alg».proof.Proof.Gen.KernelIdeal.Skeleton
import Idealize.ShloMosaic.Lib.ValueIdx
import Idealize.ShloMosaic.Lib.WritesUnit
import Idealize.ShloMosaic.Lib.Pipeline.Value
import proofs.«204056_g19739669692900_cont_8to1_1488_31_alg».proof.Proof.TileRepackVQ3

noncomputable section

namespace Cert.Proof.Tile3

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

section RepackV

variable (d : Dev nD) (L : grid3.Coords)

variable [FloatOps F]

theorem k3_pay33_eq (v : Vec F S1x1x16 .f32) : k3_pay33 v = v := by unfold k3_pay33; dsimp only; rw [shapeCast_shapeCast]
theorem k3_pay34_eq (v : Vec F S1x1x16 .f32) : k3_pay34 v = v := by unfold k3_pay34; dsimp only; rw [shapeCast_shapeCast]
theorem k3_pay35_eq (v : Vec F S1x1x16 .f32) : k3_pay35 v = v := by unfold k3_pay35; dsimp only; rw [shapeCast_shapeCast]
theorem k3_pay36_eq (v : Vec F S1x1x16 .f32) : k3_pay36 v = v := by unfold k3_pay36; dsimp only; rw [shapeCast_shapeCast]
theorem k3_pay37_eq (v : Vec F S1x1x16 .f32) : k3_pay37 v = v := by unfold k3_pay37; dsimp only; rw [shapeCast_shapeCast]
theorem k3_pay38_eq (v : Vec F S1x1x16 .f32) : k3_pay38 v = v := by unfold k3_pay38; dsimp only; rw [shapeCast_shapeCast]
theorem k3_pay39_eq (v : Vec F S1x1x16 .f32) : k3_pay39 v = v := by unfold k3_pay39; dsimp only; rw [shapeCast_shapeCast]
theorem k3_pay40_eq (v : Vec F S1x1x16 .f32) : k3_pay40 v = v := by unfold k3_pay40; dsimp only; rw [shapeCast_shapeCast]
theorem k3_pay41_eq (v : Vec F S1x1x16 .f32) : k3_pay41 v = v := by unfold k3_pay41; dsimp only; rw [shapeCast_shapeCast]
theorem k3_pay42_eq (v : Vec F S1x1x16 .f32) : k3_pay42 v = v := by unfold k3_pay42; dsimp only; rw [shapeCast_shapeCast]
theorem k3_pay43_eq (v : Vec F S1x1x16 .f32) : k3_pay43 v = v := by unfold k3_pay43; dsimp only; rw [shapeCast_shapeCast]
theorem k3_pay44_eq (v : Vec F S1x1x16 .f32) : k3_pay44 v = v := by unfold k3_pay44; dsimp only; rw [shapeCast_shapeCast]
theorem k3_pay45_eq (v : Vec F S1x1x16 .f32) : k3_pay45 v = v := by unfold k3_pay45; dsimp only; rw [shapeCast_shapeCast]
theorem k3_pay46_eq (v : Vec F S1x1x16 .f32) : k3_pay46 v = v := by unfold k3_pay46; dsimp only; rw [shapeCast_shapeCast]
theorem k3_pay47_eq (v : Vec F S1x1x16 .f32) : k3_pay47 v = v := by unfold k3_pay47; dsimp only; rw [shapeCast_shapeCast]
theorem k3_pay48_eq (v : Vec F S1x1x16 .f32) : k3_pay48 v = v := by unfold k3_pay48; dsimp only; rw [shapeCast_shapeCast]
theorem k3_pay49_eq (v : Vec F S1x1x16 .f32) : k3_pay49 v = v := by unfold k3_pay49; dsimp only; rw [shapeCast_shapeCast]
theorem k3_pay50_eq (v : Vec F S1x1x16 .f32) : k3_pay50 v = v := by unfold k3_pay50; dsimp only; rw [shapeCast_shapeCast]
theorem k3_pay51_eq (v : Vec F S1x1x16 .f32) : k3_pay51 v = v := by unfold k3_pay51; dsimp only; rw [shapeCast_shapeCast]
theorem k3_pay52_eq (v : Vec F S1x1x16 .f32) : k3_pay52 v = v := by unfold k3_pay52; dsimp only; rw [shapeCast_shapeCast]
theorem k3_pay53_eq (v : Vec F S1x1x16 .f32) : k3_pay53 v = v := by unfold k3_pay53; dsimp only; rw [shapeCast_shapeCast]
theorem k3_pay54_eq (v : Vec F S1x1x16 .f32) : k3_pay54 v = v := by unfold k3_pay54; dsimp only; rw [shapeCast_shapeCast]
theorem k3_pay55_eq (v : Vec F S1x1x16 .f32) : k3_pay55 v = v := by unfold k3_pay55; dsimp only; rw [shapeCast_shapeCast]
theorem k3_pay56_eq (v : Vec F S1x1x16 .f32) : k3_pay56 v = v := by unfold k3_pay56; dsimp only; rw [shapeCast_shapeCast]
theorem k3_pay57_eq (v : Vec F S1x1x16 .f32) : k3_pay57 v = v := by unfold k3_pay57; dsimp only; rw [shapeCast_shapeCast]
theorem k3_pay58_eq (v : Vec F S1x1x16 .f32) : k3_pay58 v = v := by unfold k3_pay58; dsimp only; rw [shapeCast_shapeCast]
theorem k3_pay59_eq (v : Vec F S1x1x16 .f32) : k3_pay59 v = v := by unfold k3_pay59; dsimp only; rw [shapeCast_shapeCast]
theorem k3_pay60_eq (v : Vec F S1x1x16 .f32) : k3_pay60 v = v := by unfold k3_pay60; dsimp only; rw [shapeCast_shapeCast]
theorem k3_pay61_eq (v : Vec F S1x1x16 .f32) : k3_pay61 v = v := by unfold k3_pay61; dsimp only; rw [shapeCast_shapeCast]
theorem k3_pay62_eq (v : Vec F S1x1x16 .f32) : k3_pay62 v = v := by unfold k3_pay62; dsimp only; rw [shapeCast_shapeCast]
theorem k3_pay63_eq (v : Vec F S1x1x16 .f32) : k3_pay63 v = v := by unfold k3_pay63; dsimp only; rw [shapeCast_shapeCast]
theorem k3_pay64_eq (v : Vec F S1x1x16 .f32) : k3_pay64 v = v := by unfold k3_pay64; dsimp only; rw [shapeCast_shapeCast]

set_option maxHeartbeats 1000000 in
theorem repackV10 (v2 : BitVec 32)
    (fb : Buf (Elt F) ((bWin0).view.loc (thr d L))) (k : Fin k3_t10_loop.trips) (u : Unit) :
    (RInvV0 d L fb k.val u : sProp 𝕄) ⊢ wp frame (wpE (defs₀ (F := F)) 𝒱₀ (thr d L) none) Set.univ
        (k3_t10_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV0 d L fb (k.val + 1)) := by
  unfold k3_t10_body RInvV0
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (0 : Fin 8) k.val hk
    (k3_off69_eq k) (k3_off71_eq k) (k3_off73_eq k) (k3_off75_eq k)
    (k3_off70_eq k) (k3_off72_eq k) (k3_off74_eq k) (k3_off76_eq k)
    (k3_off69_inb k) (k3_off71_inb k) (k3_off73_inb k) (k3_off75_inb k)
    (k3_off70_inb k) (k3_off72_inb k) (k3_off74_inb k) (k3_off76_inb k)
    (k3_pay33 (View.readAt (Elt F) (View.whole (cc3_scratch1 : Ref sig .scVector)) (Rect.unit (s := S8x56x128) (k3_off69 k) S1x1x16.size (k3_off69_inb k)).toLoadRect fb))
    (k3_pay34 (View.readAt (Elt F) (View.whole (cc3_scratch1 : Ref sig .scVector)) (Rect.unit (s := S8x56x128) (k3_off71 k) S1x1x16.size (k3_off71_inb k)).toLoadRect fb))
    (k3_pay35 (View.readAt (Elt F) (View.whole (cc3_scratch1 : Ref sig .scVector)) (Rect.unit (s := S8x56x128) (k3_off73 k) S1x1x16.size (k3_off73_inb k)).toLoadRect fb))
    (k3_pay36 (View.readAt (Elt F) (View.whole (cc3_scratch1 : Ref sig .scVector)) (Rect.unit (s := S8x56x128) (k3_off75 k) S1x1x16.size (k3_off75_inb k)).toLoadRect fb))
    (k3_pay33_eq _) (k3_pay34_eq _) (k3_pay35_eq _) (k3_pay36_eq _) hrep

theorem trips10 : k3_t10_loop.trips = 50 := rfl

/-- After loop `k3_t10` every row of slot 0 is repacked. -/
theorem repackV10_done (fb : Buf (Elt F) ((bWin0).view.loc (thr d L))) (g : Buf (Elt F) ((pWin0).view.loc (thr d L)))
    (h : ∀ (r : Fin 50) (e : Fin 64), r.val < k3_t10_loop.trips → g (ix3 (0 : Fin 8) r e) = fb (ix3 (0 : Fin 8) (Fin.castLE (by decide) r : Fin 56) (Fin.castLE (by decide) e : Fin 128))) :
    ∀ (r : Fin 50) (e : Fin 64), g (ix3 (0 : Fin 8) r e) = fb (ix3 (0 : Fin 8) (Fin.castLE (by decide) r : Fin 56) (Fin.castLE (by decide) e : Fin 128)) :=
  fun r e => h r e (by rw [trips10]; exact r.isLt)

set_option maxHeartbeats 1000000 in
theorem repackV11 (v2 : BitVec 32)
    (fb : Buf (Elt F) ((bWin1).view.loc (thr d L))) (k : Fin k3_t11_loop.trips) (u : Unit) :
    (RInvV1 d L fb k.val u : sProp 𝕄) ⊢ wp frame (wpE (defs₀ (F := F)) 𝒱₀ (thr d L) none) Set.univ
        (k3_t11_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV1 d L fb (k.val + 1)) := by
  unfold k3_t11_body RInvV1
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (1 : Fin 8) k.val hk
    (k3_off78_eq k) (k3_off80_eq k) (k3_off82_eq k) (k3_off84_eq k)
    (k3_off79_eq k) (k3_off81_eq k) (k3_off83_eq k) (k3_off85_eq k)
    (k3_off78_inb k) (k3_off80_inb k) (k3_off82_inb k) (k3_off84_inb k)
    (k3_off79_inb k) (k3_off81_inb k) (k3_off83_inb k) (k3_off85_inb k)
    (k3_pay37 (View.readAt (Elt F) (View.whole (cc3_scratch1 : Ref sig .scVector)) (Rect.unit (s := S8x56x128) (k3_off78 k) S1x1x16.size (k3_off78_inb k)).toLoadRect fb))
    (k3_pay38 (View.readAt (Elt F) (View.whole (cc3_scratch1 : Ref sig .scVector)) (Rect.unit (s := S8x56x128) (k3_off80 k) S1x1x16.size (k3_off80_inb k)).toLoadRect fb))
    (k3_pay39 (View.readAt (Elt F) (View.whole (cc3_scratch1 : Ref sig .scVector)) (Rect.unit (s := S8x56x128) (k3_off82 k) S1x1x16.size (k3_off82_inb k)).toLoadRect fb))
    (k3_pay40 (View.readAt (Elt F) (View.whole (cc3_scratch1 : Ref sig .scVector)) (Rect.unit (s := S8x56x128) (k3_off84 k) S1x1x16.size (k3_off84_inb k)).toLoadRect fb))
    (k3_pay37_eq _) (k3_pay38_eq _) (k3_pay39_eq _) (k3_pay40_eq _) hrep

theorem trips11 : k3_t11_loop.trips = 50 := rfl

/-- After loop `k3_t11` every row of slot 1 is repacked. -/
theorem repackV11_done (fb : Buf (Elt F) ((bWin1).view.loc (thr d L))) (g : Buf (Elt F) ((pWin1).view.loc (thr d L)))
    (h : ∀ (r : Fin 50) (e : Fin 64), r.val < k3_t11_loop.trips → g (ix3 (1 : Fin 8) r e) = fb (ix3 (1 : Fin 8) (Fin.castLE (by decide) r : Fin 56) (Fin.castLE (by decide) e : Fin 128))) :
    ∀ (r : Fin 50) (e : Fin 64), g (ix3 (1 : Fin 8) r e) = fb (ix3 (1 : Fin 8) (Fin.castLE (by decide) r : Fin 56) (Fin.castLE (by decide) e : Fin 128)) :=
  fun r e => h r e (by rw [trips11]; exact r.isLt)

set_option maxHeartbeats 1000000 in
theorem repackV12 (v2 : BitVec 32)
    (fb : Buf (Elt F) ((bWin2).view.loc (thr d L))) (k : Fin k3_t12_loop.trips) (u : Unit) :
    (RInvV2 d L fb k.val u : sProp 𝕄) ⊢ wp frame (wpE (defs₀ (F := F)) 𝒱₀ (thr d L) none) Set.univ
        (k3_t12_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV2 d L fb (k.val + 1)) := by
  unfold k3_t12_body RInvV2
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (2 : Fin 8) k.val hk
    (k3_off86_eq k) (k3_off88_eq k) (k3_off90_eq k) (k3_off92_eq k)
    (k3_off87_eq k) (k3_off89_eq k) (k3_off91_eq k) (k3_off93_eq k)
    (k3_off86_inb k) (k3_off88_inb k) (k3_off90_inb k) (k3_off92_inb k)
    (k3_off87_inb k) (k3_off89_inb k) (k3_off91_inb k) (k3_off93_inb k)
    (k3_pay41 (View.readAt (Elt F) (View.whole (cc3_scratch1 : Ref sig .scVector)) (Rect.unit (s := S8x56x128) (k3_off86 k) S1x1x16.size (k3_off86_inb k)).toLoadRect fb))
    (k3_pay42 (View.readAt (Elt F) (View.whole (cc3_scratch1 : Ref sig .scVector)) (Rect.unit (s := S8x56x128) (k3_off88 k) S1x1x16.size (k3_off88_inb k)).toLoadRect fb))
    (k3_pay43 (View.readAt (Elt F) (View.whole (cc3_scratch1 : Ref sig .scVector)) (Rect.unit (s := S8x56x128) (k3_off90 k) S1x1x16.size (k3_off90_inb k)).toLoadRect fb))
    (k3_pay44 (View.readAt (Elt F) (View.whole (cc3_scratch1 : Ref sig .scVector)) (Rect.unit (s := S8x56x128) (k3_off92 k) S1x1x16.size (k3_off92_inb k)).toLoadRect fb))
    (k3_pay41_eq _) (k3_pay42_eq _) (k3_pay43_eq _) (k3_pay44_eq _) hrep

theorem trips12 : k3_t12_loop.trips = 50 := rfl

/-- After loop `k3_t12` every row of slot 2 is repacked. -/
theorem repackV12_done (fb : Buf (Elt F) ((bWin2).view.loc (thr d L))) (g : Buf (Elt F) ((pWin2).view.loc (thr d L)))
    (h : ∀ (r : Fin 50) (e : Fin 64), r.val < k3_t12_loop.trips → g (ix3 (2 : Fin 8) r e) = fb (ix3 (2 : Fin 8) (Fin.castLE (by decide) r : Fin 56) (Fin.castLE (by decide) e : Fin 128))) :
    ∀ (r : Fin 50) (e : Fin 64), g (ix3 (2 : Fin 8) r e) = fb (ix3 (2 : Fin 8) (Fin.castLE (by decide) r : Fin 56) (Fin.castLE (by decide) e : Fin 128)) :=
  fun r e => h r e (by rw [trips12]; exact r.isLt)

set_option maxHeartbeats 1000000 in
theorem repackV13 (v2 : BitVec 32)
    (fb : Buf (Elt F) ((bWin3).view.loc (thr d L))) (k : Fin k3_t13_loop.trips) (u : Unit) :
    (RInvV3 d L fb k.val u : sProp 𝕄) ⊢ wp frame (wpE (defs₀ (F := F)) 𝒱₀ (thr d L) none) Set.univ
        (k3_t13_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV3 d L fb (k.val + 1)) := by
  unfold k3_t13_body RInvV3
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (3 : Fin 8) k.val hk
    (k3_off94_eq k) (k3_off96_eq k) (k3_off98_eq k) (k3_off100_eq k)
    (k3_off95_eq k) (k3_off97_eq k) (k3_off99_eq k) (k3_off101_eq k)
    (k3_off94_inb k) (k3_off96_inb k) (k3_off98_inb k) (k3_off100_inb k)
    (k3_off95_inb k) (k3_off97_inb k) (k3_off99_inb k) (k3_off101_inb k)
    (k3_pay45 (View.readAt (Elt F) (View.whole (cc3_scratch1 : Ref sig .scVector)) (Rect.unit (s := S8x56x128) (k3_off94 k) S1x1x16.size (k3_off94_inb k)).toLoadRect fb))
    (k3_pay46 (View.readAt (Elt F) (View.whole (cc3_scratch1 : Ref sig .scVector)) (Rect.unit (s := S8x56x128) (k3_off96 k) S1x1x16.size (k3_off96_inb k)).toLoadRect fb))
    (k3_pay47 (View.readAt (Elt F) (View.whole (cc3_scratch1 : Ref sig .scVector)) (Rect.unit (s := S8x56x128) (k3_off98 k) S1x1x16.size (k3_off98_inb k)).toLoadRect fb))
    (k3_pay48 (View.readAt (Elt F) (View.whole (cc3_scratch1 : Ref sig .scVector)) (Rect.unit (s := S8x56x128) (k3_off100 k) S1x1x16.size (k3_off100_inb k)).toLoadRect fb))
    (k3_pay45_eq _) (k3_pay46_eq _) (k3_pay47_eq _) (k3_pay48_eq _) hrep

theorem trips13 : k3_t13_loop.trips = 50 := rfl

/-- After loop `k3_t13` every row of slot 3 is repacked. -/
theorem repackV13_done (fb : Buf (Elt F) ((bWin3).view.loc (thr d L))) (g : Buf (Elt F) ((pWin3).view.loc (thr d L)))
    (h : ∀ (r : Fin 50) (e : Fin 64), r.val < k3_t13_loop.trips → g (ix3 (3 : Fin 8) r e) = fb (ix3 (3 : Fin 8) (Fin.castLE (by decide) r : Fin 56) (Fin.castLE (by decide) e : Fin 128))) :
    ∀ (r : Fin 50) (e : Fin 64), g (ix3 (3 : Fin 8) r e) = fb (ix3 (3 : Fin 8) (Fin.castLE (by decide) r : Fin 56) (Fin.castLE (by decide) e : Fin 128)) :=
  fun r e => h r e (by rw [trips13]; exact r.isLt)

set_option maxHeartbeats 1000000 in
theorem repackV14 (v2 : BitVec 32)
    (fb : Buf (Elt F) ((bWin4).view.loc (thr d L))) (k : Fin k3_t14_loop.trips) (u : Unit) :
    (RInvV4 d L fb k.val u : sProp 𝕄) ⊢ wp frame (wpE (defs₀ (F := F)) 𝒱₀ (thr d L) none) Set.univ
        (k3_t14_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV4 d L fb (k.val + 1)) := by
  unfold k3_t14_body RInvV4
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (4 : Fin 8) k.val hk
    (k3_off102_eq k) (k3_off104_eq k) (k3_off106_eq k) (k3_off108_eq k)
    (k3_off103_eq k) (k3_off105_eq k) (k3_off107_eq k) (k3_off109_eq k)
    (k3_off102_inb k) (k3_off104_inb k) (k3_off106_inb k) (k3_off108_inb k)
    (k3_off103_inb k) (k3_off105_inb k) (k3_off107_inb k) (k3_off109_inb k)
    (k3_pay49 (View.readAt (Elt F) (View.whole (cc3_scratch1 : Ref sig .scVector)) (Rect.unit (s := S8x56x128) (k3_off102 k) S1x1x16.size (k3_off102_inb k)).toLoadRect fb))
    (k3_pay50 (View.readAt (Elt F) (View.whole (cc3_scratch1 : Ref sig .scVector)) (Rect.unit (s := S8x56x128) (k3_off104 k) S1x1x16.size (k3_off104_inb k)).toLoadRect fb))
    (k3_pay51 (View.readAt (Elt F) (View.whole (cc3_scratch1 : Ref sig .scVector)) (Rect.unit (s := S8x56x128) (k3_off106 k) S1x1x16.size (k3_off106_inb k)).toLoadRect fb))
    (k3_pay52 (View.readAt (Elt F) (View.whole (cc3_scratch1 : Ref sig .scVector)) (Rect.unit (s := S8x56x128) (k3_off108 k) S1x1x16.size (k3_off108_inb k)).toLoadRect fb))
    (k3_pay49_eq _) (k3_pay50_eq _) (k3_pay51_eq _) (k3_pay52_eq _) hrep

theorem trips14 : k3_t14_loop.trips = 50 := rfl

/-- After loop `k3_t14` every row of slot 4 is repacked. -/
theorem repackV14_done (fb : Buf (Elt F) ((bWin4).view.loc (thr d L))) (g : Buf (Elt F) ((pWin4).view.loc (thr d L)))
    (h : ∀ (r : Fin 50) (e : Fin 64), r.val < k3_t14_loop.trips → g (ix3 (4 : Fin 8) r e) = fb (ix3 (4 : Fin 8) (Fin.castLE (by decide) r : Fin 56) (Fin.castLE (by decide) e : Fin 128))) :
    ∀ (r : Fin 50) (e : Fin 64), g (ix3 (4 : Fin 8) r e) = fb (ix3 (4 : Fin 8) (Fin.castLE (by decide) r : Fin 56) (Fin.castLE (by decide) e : Fin 128)) :=
  fun r e => h r e (by rw [trips14]; exact r.isLt)

set_option maxHeartbeats 1000000 in
theorem repackV15 (v2 : BitVec 32)
    (fb : Buf (Elt F) ((bWin5).view.loc (thr d L))) (k : Fin k3_t15_loop.trips) (u : Unit) :
    (RInvV5 d L fb k.val u : sProp 𝕄) ⊢ wp frame (wpE (defs₀ (F := F)) 𝒱₀ (thr d L) none) Set.univ
        (k3_t15_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV5 d L fb (k.val + 1)) := by
  unfold k3_t15_body RInvV5
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (5 : Fin 8) k.val hk
    (k3_off110_eq k) (k3_off112_eq k) (k3_off114_eq k) (k3_off116_eq k)
    (k3_off111_eq k) (k3_off113_eq k) (k3_off115_eq k) (k3_off117_eq k)
    (k3_off110_inb k) (k3_off112_inb k) (k3_off114_inb k) (k3_off116_inb k)
    (k3_off111_inb k) (k3_off113_inb k) (k3_off115_inb k) (k3_off117_inb k)
    (k3_pay53 (View.readAt (Elt F) (View.whole (cc3_scratch1 : Ref sig .scVector)) (Rect.unit (s := S8x56x128) (k3_off110 k) S1x1x16.size (k3_off110_inb k)).toLoadRect fb))
    (k3_pay54 (View.readAt (Elt F) (View.whole (cc3_scratch1 : Ref sig .scVector)) (Rect.unit (s := S8x56x128) (k3_off112 k) S1x1x16.size (k3_off112_inb k)).toLoadRect fb))
    (k3_pay55 (View.readAt (Elt F) (View.whole (cc3_scratch1 : Ref sig .scVector)) (Rect.unit (s := S8x56x128) (k3_off114 k) S1x1x16.size (k3_off114_inb k)).toLoadRect fb))
    (k3_pay56 (View.readAt (Elt F) (View.whole (cc3_scratch1 : Ref sig .scVector)) (Rect.unit (s := S8x56x128) (k3_off116 k) S1x1x16.size (k3_off116_inb k)).toLoadRect fb))
    (k3_pay53_eq _) (k3_pay54_eq _) (k3_pay55_eq _) (k3_pay56_eq _) hrep

theorem trips15 : k3_t15_loop.trips = 50 := rfl

/-- After loop `k3_t15` every row of slot 5 is repacked. -/
theorem repackV15_done (fb : Buf (Elt F) ((bWin5).view.loc (thr d L))) (g : Buf (Elt F) ((pWin5).view.loc (thr d L)))
    (h : ∀ (r : Fin 50) (e : Fin 64), r.val < k3_t15_loop.trips → g (ix3 (5 : Fin 8) r e) = fb (ix3 (5 : Fin 8) (Fin.castLE (by decide) r : Fin 56) (Fin.castLE (by decide) e : Fin 128))) :
    ∀ (r : Fin 50) (e : Fin 64), g (ix3 (5 : Fin 8) r e) = fb (ix3 (5 : Fin 8) (Fin.castLE (by decide) r : Fin 56) (Fin.castLE (by decide) e : Fin 128)) :=
  fun r e => h r e (by rw [trips15]; exact r.isLt)

set_option maxHeartbeats 1000000 in
theorem repackV16 (v2 : BitVec 32)
    (fb : Buf (Elt F) ((bWin6).view.loc (thr d L))) (k : Fin k3_t16_loop.trips) (u : Unit) :
    (RInvV6 d L fb k.val u : sProp 𝕄) ⊢ wp frame (wpE (defs₀ (F := F)) 𝒱₀ (thr d L) none) Set.univ
        (k3_t16_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV6 d L fb (k.val + 1)) := by
  unfold k3_t16_body RInvV6
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (6 : Fin 8) k.val hk
    (k3_off118_eq k) (k3_off120_eq k) (k3_off122_eq k) (k3_off124_eq k)
    (k3_off119_eq k) (k3_off121_eq k) (k3_off123_eq k) (k3_off125_eq k)
    (k3_off118_inb k) (k3_off120_inb k) (k3_off122_inb k) (k3_off124_inb k)
    (k3_off119_inb k) (k3_off121_inb k) (k3_off123_inb k) (k3_off125_inb k)
    (k3_pay57 (View.readAt (Elt F) (View.whole (cc3_scratch1 : Ref sig .scVector)) (Rect.unit (s := S8x56x128) (k3_off118 k) S1x1x16.size (k3_off118_inb k)).toLoadRect fb))
    (k3_pay58 (View.readAt (Elt F) (View.whole (cc3_scratch1 : Ref sig .scVector)) (Rect.unit (s := S8x56x128) (k3_off120 k) S1x1x16.size (k3_off120_inb k)).toLoadRect fb))
    (k3_pay59 (View.readAt (Elt F) (View.whole (cc3_scratch1 : Ref sig .scVector)) (Rect.unit (s := S8x56x128) (k3_off122 k) S1x1x16.size (k3_off122_inb k)).toLoadRect fb))
    (k3_pay60 (View.readAt (Elt F) (View.whole (cc3_scratch1 : Ref sig .scVector)) (Rect.unit (s := S8x56x128) (k3_off124 k) S1x1x16.size (k3_off124_inb k)).toLoadRect fb))
    (k3_pay57_eq _) (k3_pay58_eq _) (k3_pay59_eq _) (k3_pay60_eq _) hrep

theorem trips16 : k3_t16_loop.trips = 50 := rfl

/-- After loop `k3_t16` every row of slot 6 is repacked. -/
theorem repackV16_done (fb : Buf (Elt F) ((bWin6).view.loc (thr d L))) (g : Buf (Elt F) ((pWin6).view.loc (thr d L)))
    (h : ∀ (r : Fin 50) (e : Fin 64), r.val < k3_t16_loop.trips → g (ix3 (6 : Fin 8) r e) = fb (ix3 (6 : Fin 8) (Fin.castLE (by decide) r : Fin 56) (Fin.castLE (by decide) e : Fin 128))) :
    ∀ (r : Fin 50) (e : Fin 64), g (ix3 (6 : Fin 8) r e) = fb (ix3 (6 : Fin 8) (Fin.castLE (by decide) r : Fin 56) (Fin.castLE (by decide) e : Fin 128)) :=
  fun r e => h r e (by rw [trips16]; exact r.isLt)

set_option maxHeartbeats 1000000 in
theorem repackV17 (v2 : BitVec 32)
    (fb : Buf (Elt F) ((bWin7).view.loc (thr d L))) (k : Fin k3_t17_loop.trips) (u : Unit) :
    (RInvV7 d L fb k.val u : sProp 𝕄) ⊢ wp frame (wpE (defs₀ (F := F)) 𝒱₀ (thr d L) none) Set.univ
        (k3_t17_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 k u) (RInvV7 d L fb (k.val + 1)) := by
  unfold k3_t17_body RInvV7
  iintro ⟨Hb, ⟨%gp, Hp, %hrep⟩⟩
  have hk : k.val < 50 := k.isLt
  sl_exec
  sl_step
  isplitl [Hb]; · iexact Hb
  iexists _
  isplitl [Hp]; · iexact Hp
  ipureintro
  exact repack_trip (View.whole (cc3_scratch2 : Ref sig .scVector)) (View.whole (cc3_scratch1 : Ref sig .scVector)) gp fb (7 : Fin 8) k.val hk
    (k3_off126_eq k) (k3_off128_eq k) (k3_off130_eq k) (k3_off132_eq k)
    (k3_off127_eq k) (k3_off129_eq k) (k3_off131_eq k) (k3_off133_eq k)
    (k3_off126_inb k) (k3_off128_inb k) (k3_off130_inb k) (k3_off132_inb k)
    (k3_off127_inb k) (k3_off129_inb k) (k3_off131_inb k) (k3_off133_inb k)
    (k3_pay61 (View.readAt (Elt F) (View.whole (cc3_scratch1 : Ref sig .scVector)) (Rect.unit (s := S8x56x128) (k3_off126 k) S1x1x16.size (k3_off126_inb k)).toLoadRect fb))
    (k3_pay62 (View.readAt (Elt F) (View.whole (cc3_scratch1 : Ref sig .scVector)) (Rect.unit (s := S8x56x128) (k3_off128 k) S1x1x16.size (k3_off128_inb k)).toLoadRect fb))
    (k3_pay63 (View.readAt (Elt F) (View.whole (cc3_scratch1 : Ref sig .scVector)) (Rect.unit (s := S8x56x128) (k3_off130 k) S1x1x16.size (k3_off130_inb k)).toLoadRect fb))
    (k3_pay64 (View.readAt (Elt F) (View.whole (cc3_scratch1 : Ref sig .scVector)) (Rect.unit (s := S8x56x128) (k3_off132 k) S1x1x16.size (k3_off132_inb k)).toLoadRect fb))
    (k3_pay61_eq _) (k3_pay62_eq _) (k3_pay63_eq _) (k3_pay64_eq _) hrep

theorem trips17 : k3_t17_loop.trips = 50 := rfl

/-- After loop `k3_t17` every row of slot 7 is repacked. -/
theorem repackV17_done (fb : Buf (Elt F) ((bWin7).view.loc (thr d L))) (g : Buf (Elt F) ((pWin7).view.loc (thr d L)))
    (h : ∀ (r : Fin 50) (e : Fin 64), r.val < k3_t17_loop.trips → g (ix3 (7 : Fin 8) r e) = fb (ix3 (7 : Fin 8) (Fin.castLE (by decide) r : Fin 56) (Fin.castLE (by decide) e : Fin 128))) :
    ∀ (r : Fin 50) (e : Fin 64), g (ix3 (7 : Fin 8) r e) = fb (ix3 (7 : Fin 8) (Fin.castLE (by decide) r : Fin 56) (Fin.castLE (by decide) e : Fin 128)) :=
  fun r e => h r e (by rw [trips17]; exact r.isLt)

end RepackV

end Cert.Proof.Tile3

end
-- ==== Proof.TileBodyVQ3.lean ====
/-
  One vector subcore's task of the fourth gather call, with what it writes.

  The frame's proof, carrying values: a gather in flight into slot `s` over list row `8 i + s` delivers the table rows
  that list row names; the repack keeps their first 64 lanes; the copy out puts them in result row `8 i + s`; so before
  trip `i` the result rows below `8 i` hold what the claim says, and after the last group all 128 do.
-/
import proofs.«204056_g19739669692900_cont_8to1_1488_31_alg».proof.Proof.Gen.KernelIdeal.Skeleton
import proofs.«204056_g19739669692900_cont_8to1_1488_31_alg».proof.Proof.TileValuesQ3
import proofs.«204056_g19739669692900_cont_8to1_1488_31_alg».proof.Proof.TileRepackVQ3
import proofs.«204056_g19739669692900_cont_8to1_1488_31_alg».proof.Proof.TileRepackV2Q3

noncomputable section

namespace Cert.Proof.Tile3

open Cert.KernelIdeal Cert.KernelIdeal.Gen
open Cert.Proof.Shares Cert.Proof.LaunchI

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}
variable {UU : Type} [URA UU] [CountersIn UU]

local notation "𝕄" => MT nD τ sig (HIx 4) (Elt F) ℕ UU ℕ

local notation "tW" => (Memref.whole Cert.KernelIdeal.main_v0_scv : Memref Cert.KernelIdeal.sig Kind.scVector Space.hbm Cert.KernelIdeal.S100000x128 EltTy.f32)
local notation "cW" => (Memref.whole Cert.KernelIdeal.main_arg0_scv : Memref Cert.KernelIdeal.sig Kind.scVector Space.hbm Cert.KernelIdeal.S16384x50 EltTy.i32)
local notation "oW" => (Memref.whole Cert.KernelIdeal.main_v6_scv : Memref Cert.KernelIdeal.sig Kind.scVector Space.hbm Cert.KernelIdeal.S4096x50x64 EltTy.f32)
local notation "iW" => (Memref.whole Cert.KernelIdeal.cc3_scratch0 : Memref Cert.KernelIdeal.sig Kind.scVector Space.vmem Cert.KernelIdeal.S128x50 EltTy.i32)
local notation "bW" => (Memref.whole Cert.KernelIdeal.cc3_scratch1 : Memref Cert.KernelIdeal.sig Kind.scVector Space.vmem Cert.KernelIdeal.S8x56x128 EltTy.f32)
local notation "pW" => (Memref.whole Cert.KernelIdeal.cc3_scratch2 : Memref Cert.KernelIdeal.sig Kind.scVector Space.vmem Cert.KernelIdeal.S8x50x64 EltTy.f32)

section ValueRules

variable (d : Dev nD) (L : grid3.Coords)
variable (ft : FVec F S100000x128 .f32) (fi : IVec S128x50 32) (hfi : ∀ y, (fi y).toNat < 100000)
variable [FloatOps F]

/-- List row `8 i + s`, as a row of the index scratch. -/
def jOf (i s : ℕ) : Fin 128 := ⟨(8 * i + s) % 128, Nat.mod_lt _ (by decide)⟩

theorem jOf_val {i s : ℕ} (hi : i ≤ 15) (hs : s < 8) : (jOf i s).val = 8 * i + s := by
  show (8 * i + s) % 128 = 8 * i + s
  omega

/-- A gather in flight on `sem` into slot `s` over list row `j`: as `GFl`, and what it delivers holds the table rows
    that list row names. -/
def GFlV (s : Fin 8) (j : Fin 128) (o : Fin 3 → ℕ) (inbo : ∀ a, o a + S1x50x128.size a ≤ S8x56x128.size a) (sem : DmaSem sig) (qt qi : PosShare TreeShare) : sProp 𝕄 :=
  iprop(∃ (Sw : Finset (Idx ((iW).view.loc (thr d L)))) (fd : Buf (Elt F) ((bWinAt o inbo).view.loc (thr d L))), ⌜WinOK ft fi hfi s j fd⌝ ∗
    Transfers.Flight countersEmb (thr d L) (SemLoc.dma sem) (default : HIx 4) (bWinAt o inbo).view.dmaCredit
        iprop(((bWinAt o inbo).view.loc (thr d L) ↦[(bWinAt o inbo).view.set]{fullShare} fd)
          ∗ ((tW).view.loc (thr d L) ↦[(tAll).view.set]{qt} ft) ∗ ((iW).view.loc (thr d L) ↦[Sw]{qi} fi))
      ∗ ((tW).view.loc (thr d L) ↦[Finset.univ \ (tAll).view.set]{qt} ft) ∗ ((iW).view.loc (thr d L) ↦[Finset.univ \ Sw]{qi} fi))

set_option maxHeartbeats 1000000 in
theorem gissueV (s : Fin 8) (j : Fin 128) {o : Fin 3 → ℕ} {inbo : ∀ a, o a + S1x50x128.size a ≤ S8x56x128.size a} (ho : o = ![s.val, 0, 0])
    {off : Fin 2 → ℕ} {inb : ∀ a, off a + S1x50.size a ≤ S128x50.size a} (hoff : off = ![j.val, 0])
    {sem : DmaSem sig} {qt qi : PosShare TreeShare} {fd : Buf (Elt F) ((bWinAt o inbo).view.loc (thr d L))}
    {hp hn hsrc he hsp hr} {α : Type} {k : PUnit → Prog (TpuEff nD τ sig (Elt F) Λ₀ (thr d L).2) α} {Q : α → sProp 𝕄} :
    iprop(((tW).view.loc (thr d L) ↦{qt} ft) ∗ ((bWinAt o inbo).view.loc (thr d L) ↦[(bWinAt o inbo).view.set]{fullShare} fd)
        ∗ ((iW).view.loc (thr d L) ↦{qi} fi) ∗ semVal (thr d L, SemLoc.dma sem) 0
        ∗ (GFlV d L ft fi hfi s j o inbo sem qt qi -∗ wp frame (wpE (defs₀ (F := F)) 𝒱₀ (thr d L) none) Set.univ (k ⟨⟩) Q))
      ⊢ wp frame (wpE (defs₀ (F := F)) 𝒱₀ (thr d L) none) Set.univ
          (SparseCore.enqueueIndirectGather hp tAll (bWinAt o inbo) gathers_S100000x128_S50x128 (iRowAt off inb) hn sem hsrc he hsp hr >>= k) Q := by
  iintro ⟨HT, HB, HI, Hsem, Hk⟩
  ihave HTs := (pointsTo_split_subset (ℓ := (tW).view.loc (thr d L)) (q := qt) (f := ft) (S := Finset.univ) (Finset.subset_univ (tAll).view.set)).1 $$ HT
  icases HTs with ⟨HTw, HTr⟩
  ihave HIs := (pointsTo_split_subset (ℓ := (iW).view.loc (thr d L)) (q := qi) (f := fi) (S := Finset.univ) (Finset.subset_univ (iRowAt off inb).view.set)).1 $$ HI
  icases HIs with ⟨HIw, HIr⟩
  iapply (SparseCore.wp_indirectGatherLocal countersEmb 𝒱₀ (thr d L) none (hg := gathers_S100000x128_S50x128) (default : HIx 4)
      (bWinAt o inbo).view.dmaCredit (SparseCore.sum_rowCredit_eq_dmaCredit (bWinAt o inbo) _ (fun _ => rfl)) (by decide) (hin_of d L off inb fi hfi)) $$ [HTw HB HIw Hsem]
  · isplitl [HTw]; · iexact HTw
    isplitl [HB]; · iexact HB
    isplitl [HIw]; · iexact HIw
    iexact Hsem
  iintro Hfl
  iapply Hk
  unfold GFlV
  iexists (iRowAt off inb).view.set, _
  isplitr; swap
  · isplitl [Hfl]; · iexact Hfl
    isplitl [HTr]; · iexact HTr
    iexact HIr
  ipureintro; exact win_ok ft fi hfi d L s j o inbo ho off inb hoff fd _ _

set_option maxHeartbeats 1000000 in
theorem gwaitV (s : Fin 8) (j : Fin 128) {o : Fin 3 → ℕ} {inbo : ∀ a, o a + S1x50x128.size a ≤ S8x56x128.size a} {sem : DmaSem sig} {qt qi : PosShare TreeShare}
    {sp sp' : Space} {s₁ s' : Shape} {e e' : EltTy} {κ' : Kind}
    {srcw : Memref sig (thr d L).2.kind sp' s' e'} {dstw : Memref sig κ' sp s₁ e} {hsrc : srcw.view.WordExact} {hdst : dstw.view.WordExact}
    (hN : dstw.view.dmaCredit = (bWinAt o inbo).view.dmaCredit)
    {O : CellTallies nD τ sig (HIx 4)} {W : Waits sig (HIx 4)}
    {α : Type} {k : PUnit → Prog (TpuEff nD τ sig (Elt F) Λ₀ (thr d L).2) α} {Q : α → sProp 𝕄} :
    iprop(GFlV d L ft fi hfi s j o inbo sem qt qi ∗ owes (thr d L) O W ∗ Transfers.MayWaits (thr d L) (default : HIx 4) O
        ∗ (iprop((∃ fd, ⌜WinOK ft fi hfi s j fd⌝ ∗ (bWinAt o inbo).view.loc (thr d L) ↦[(bWinAt o inbo).view.set]{fullShare} fd) ∗ ((tW).view.loc (thr d L) ↦{qt} ft)
              ∗ ((iW).view.loc (thr d L) ↦{qi} fi) ∗ semVal (thr d L, SemLoc.dma sem) 0 ∗ owes (thr d L) O (insert (SemLoc.dma sem, (default : HIx 4)) W))
            -∗ wp frame (wpE (defs₀ (F := F)) 𝒱₀ (thr d L) none) Set.univ (k ⟨⟩) Q))
      ⊢ wp frame (wpE (defs₀ (F := F)) 𝒱₀ (thr d L) none) Set.univ (.op (.waitDma2 sem srcw dstw hsrc hdst) k) Q := by
  unfold GFlV
  iintro ⟨⟨%Sw, %fd, %hwin, Hfl, HTr, HIr⟩, HO, #Hmw, Hk⟩
  iapply (Transfers.wp_waitLocalO countersEmb 𝒱₀ (thr d L) none (default : HIx 4) hN) $$ [Hfl HO]
  · isplitl [Hfl]; · iexact Hfl
    isplitl [HO]; · iexact HO
    iapply (Transfers.MayWaits.elim (SemLoc.dma sem)) $$ Hmw
  iintro ⟨⟨HB, HTw, HIw⟩, Hsem, HO⟩
  ihave HT := (pointsTo_split_subset (ℓ := (tW).view.loc (thr d L)) (q := qt) (f := ft) (S := Finset.univ) (Finset.subset_univ (tAll).view.set)).2 $$ [HTw HTr]; · isplitl [HTw] <;> iassumption
  ihave HI := (pointsTo_split_subset (ℓ := (iW).view.loc (thr d L)) (q := qi) (f := fi) (S := Finset.univ) (Finset.subset_univ Sw)).2 $$ [HIw HIr]; · isplitl [HIw] <;> iassumption
  iapply Hk
  isplitl [HB]
  · iexists fd; isplitr
    · ipureintro; exact hwin
    · iexact HB
  isplitl [HT]; · iexact HT
  isplitl [HI]; · iexact HI
  isplitl [Hsem]; · iexact Hsem
  iexact HO

/-! ## The result rows with what they hold -/

theorem outRowsV_intro (w : Fin 32) (f : Buf (Elt F) (out3Loc d)) :
    (out3Loc d ↦[blkSet3 w]{fullShare} f : sProp 𝕄) ⊢ outRowsV (F := F) (UU := UU) d ft fi hfi w 0 := by
  rw [outBlk_rows]
  unfold outRowsV
  refine bigSep_mono fun j _ => (show (out3Loc d ↦[rowSet w j]{fullShare} f : sProp 𝕄) ⊢ iprop(∃ f, ⌜j.val < 0 → RowOK ft fi hfi w j f⌝ ∗ out3Loc d ↦[rowSet w j]{fullShare} f) from ?_)
  iintro H; iexists f; isplitr
  · ipureintro; intro h; exact absurd h (Nat.not_lt_zero _)
  · iexact H

/-- The rows are the eight from `b` and the others. -/
theorem outRowsV_group (w : Fin 32) (n b : ℕ) (hb : b + 8 ≤ 128) :
    (outRowsV (F := F) (UU := UU) d ft fi hfi w n : sProp 𝕄)
      = iprop(((∃ f, ⌜b + 0 < n → RowOK ft fi hfi w ⟨b + 0, by omega⟩ f⌝ ∗ out3Loc d ↦[rowSet w ⟨b + 0, by omega⟩]{fullShare} f) ∗ (∃ f, ⌜b + 1 < n → RowOK ft fi hfi w ⟨b + 1, by omega⟩ f⌝ ∗ out3Loc d ↦[rowSet w ⟨b + 1, by omega⟩]{fullShare} f) ∗ (∃ f, ⌜b + 2 < n → RowOK ft fi hfi w ⟨b + 2, by omega⟩ f⌝ ∗ out3Loc d ↦[rowSet w ⟨b + 2, by omega⟩]{fullShare} f) ∗ (∃ f, ⌜b + 3 < n → RowOK ft fi hfi w ⟨b + 3, by omega⟩ f⌝ ∗ out3Loc d ↦[rowSet w ⟨b + 3, by omega⟩]{fullShare} f) ∗ (∃ f, ⌜b + 4 < n → RowOK ft fi hfi w ⟨b + 4, by omega⟩ f⌝ ∗ out3Loc d ↦[rowSet w ⟨b + 4, by omega⟩]{fullShare} f) ∗ (∃ f, ⌜b + 5 < n → RowOK ft fi hfi w ⟨b + 5, by omega⟩ f⌝ ∗ out3Loc d ↦[rowSet w ⟨b + 5, by omega⟩]{fullShare} f) ∗ (∃ f, ⌜b + 6 < n → RowOK ft fi hfi w ⟨b + 6, by omega⟩ f⌝ ∗ out3Loc d ↦[rowSet w ⟨b + 6, by omega⟩]{fullShare} f) ∗ (∃ f, ⌜b + 7 < n → RowOK ft fi hfi w ⟨b + 7, by omega⟩ f⌝ ∗ out3Loc d ↦[rowSet w ⟨b + 7, by omega⟩]{fullShare} f))
          ∗ bigSep (Finset.univ \ Finset.univ.map (grpEmb b hb)) fun j : Fin 128 => iprop(∃ f, ⌜j.val < n → RowOK ft fi hfi w j f⌝ ∗ out3Loc d ↦[rowSet w j]{fullShare} f)) := by
  unfold outRowsV
  rw [SparseCore.bigSep_sdiff_split' (Finset.subset_univ (Finset.univ.map (grpEmb b hb))), bigSep_map, univ8]
  rw [SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]
  rfl

/-- Outside the group from `n`, a row below `n + 8` is below `n`. -/
theorem outRowsV_rest (w : Fin 32) (n : ℕ) (hb : n + 8 ≤ 128) :
    (bigSep (Finset.univ \ Finset.univ.map (grpEmb n hb)) fun j : Fin 128 => (iprop(∃ f, ⌜j.val < n → RowOK ft fi hfi w j f⌝ ∗ out3Loc d ↦[rowSet w j]{fullShare} f) : sProp 𝕄))
      ⊢ bigSep (Finset.univ \ Finset.univ.map (grpEmb n hb)) fun j : Fin 128 => iprop(∃ f, ⌜j.val < n + 8 → RowOK ft fi hfi w j f⌝ ∗ out3Loc d ↦[rowSet w j]{fullShare} f) := by
  refine bigSep_mono fun j hj => (show (iprop(∃ f, ⌜j.val < n → RowOK ft fi hfi w j f⌝ ∗ out3Loc d ↦[rowSet w j]{fullShare} f) : sProp 𝕄)
      ⊢ iprop(∃ f, ⌜j.val < n + 8 → RowOK ft fi hfi w j f⌝ ∗ out3Loc d ↦[rowSet w j]{fullShare} f) from ?_)
  have hnot : j ∉ Finset.univ.map (grpEmb n hb) := (Finset.mem_sdiff.mp hj).2
  have hlt : j.val < n + 8 → j.val < n := by
    intro h
    by_contra hge
    exact hnot (Finset.mem_map.mpr ⟨⟨j.val - n, by omega⟩, Finset.mem_univ _, Fin.ext (by show n + (j.val - n) = j.val; omega)⟩)
  iintro ⟨%f, %hf, H⟩
  iexists f; isplitr
  · ipureintro; exact fun h => hf (hlt h)
  · iexact H

end ValueRules

section BodyV

variable (m : (ℓ : Loc nD τ sig) → Buf (Elt F) ℓ) (d : Dev nD) (L : grid3.Coords)
variable (ft : FVec F S100000x128 .f32) (fi : IVec S128x50 32) (hfi : ∀ y, (fi y).toNat < 100000)

theorem hoff68_0 (kt : Fin k3_t1_loop.trips) (hk : kt.val < 15) : k3_off68 kt 0#32 = ![(jOf (kt.val + 1) 0).val, 0] :=
  (k3_off68_eq kt (0 : Fin 8)).trans (congrArg (fun x : ℕ => (![x, 0] : Fin 2 → ℕ))
    (by show 8 * kt.val + 0 + 8 = (8 * (kt.val + 1) + 0) % 128; omega))
theorem hoff68_1 (kt : Fin k3_t1_loop.trips) (hk : kt.val < 15) : k3_off68 kt 1#32 = ![(jOf (kt.val + 1) 1).val, 0] :=
  (k3_off68_eq kt (1 : Fin 8)).trans (congrArg (fun x : ℕ => (![x, 0] : Fin 2 → ℕ))
    (by show 8 * kt.val + 1 + 8 = (8 * (kt.val + 1) + 1) % 128; omega))
theorem hoff68_2 (kt : Fin k3_t1_loop.trips) (hk : kt.val < 15) : k3_off68 kt 2#32 = ![(jOf (kt.val + 1) 2).val, 0] :=
  (k3_off68_eq kt (2 : Fin 8)).trans (congrArg (fun x : ℕ => (![x, 0] : Fin 2 → ℕ))
    (by show 8 * kt.val + 2 + 8 = (8 * (kt.val + 1) + 2) % 128; omega))
theorem hoff68_3 (kt : Fin k3_t1_loop.trips) (hk : kt.val < 15) : k3_off68 kt 3#32 = ![(jOf (kt.val + 1) 3).val, 0] :=
  (k3_off68_eq kt (3 : Fin 8)).trans (congrArg (fun x : ℕ => (![x, 0] : Fin 2 → ℕ))
    (by show 8 * kt.val + 3 + 8 = (8 * (kt.val + 1) + 3) % 128; omega))
theorem hoff68_4 (kt : Fin k3_t1_loop.trips) (hk : kt.val < 15) : k3_off68 kt 4#32 = ![(jOf (kt.val + 1) 4).val, 0] :=
  (k3_off68_eq kt (4 : Fin 8)).trans (congrArg (fun x : ℕ => (![x, 0] : Fin 2 → ℕ))
    (by show 8 * kt.val + 4 + 8 = (8 * (kt.val + 1) + 4) % 128; omega))
theorem hoff68_5 (kt : Fin k3_t1_loop.trips) (hk : kt.val < 15) : k3_off68 kt 5#32 = ![(jOf (kt.val + 1) 5).val, 0] :=
  (k3_off68_eq kt (5 : Fin 8)).trans (congrArg (fun x : ℕ => (![x, 0] : Fin 2 → ℕ))
    (by show 8 * kt.val + 5 + 8 = (8 * (kt.val + 1) + 5) % 128; omega))
theorem hoff68_6 (kt : Fin k3_t1_loop.trips) (hk : kt.val < 15) : k3_off68 kt 6#32 = ![(jOf (kt.val + 1) 6).val, 0] :=
  (k3_off68_eq kt (6 : Fin 8)).trans (congrArg (fun x : ℕ => (![x, 0] : Fin 2 → ℕ))
    (by show 8 * kt.val + 6 + 8 = (8 * (kt.val + 1) + 6) % 128; omega))
theorem hoff68_7 (kt : Fin k3_t1_loop.trips) (hk : kt.val < 15) : k3_off68 kt 7#32 = ![(jOf (kt.val + 1) 7).val, 0] :=
  (k3_off68_eq kt (7 : Fin 8)).trans (congrArg (fun x : ℕ => (![x, 0] : Fin 2 → ℕ))
    (by show 8 * kt.val + 7 + 8 = (8 * (kt.val + 1) + 7) % 128; omega))

theorem jOf15_0 : jOf k3_t1_loop.trips 0 = (⟨120 + 0, by omega⟩ : Fin 128) := Fin.ext (by decide)
theorem jOf15_1 : jOf k3_t1_loop.trips 1 = (⟨120 + 1, by omega⟩ : Fin 128) := Fin.ext (by decide)
theorem jOf15_2 : jOf k3_t1_loop.trips 2 = (⟨120 + 2, by omega⟩ : Fin 128) := Fin.ext (by decide)
theorem jOf15_3 : jOf k3_t1_loop.trips 3 = (⟨120 + 3, by omega⟩ : Fin 128) := Fin.ext (by decide)
theorem jOf15_4 : jOf k3_t1_loop.trips 4 = (⟨120 + 4, by omega⟩ : Fin 128) := Fin.ext (by decide)
theorem jOf15_5 : jOf k3_t1_loop.trips 5 = (⟨120 + 5, by omega⟩ : Fin 128) := Fin.ext (by decide)
theorem jOf15_6 : jOf k3_t1_loop.trips 6 = (⟨120 + 6, by omega⟩ : Fin 128) := Fin.ext (by decide)
theorem jOf15_7 : jOf k3_t1_loop.trips 7 = (⟨120 + 7, by omega⟩ : Fin 128) := Fin.ext (by decide)

variable [FloatOps F]

/-- Before each trip `i`, and after the last: as in the frame's invariant, and each slot's gather in flight is the one over
    list row `8 i + s`, and the result rows below `8 i` hold what they should. -/
def INVV (O : CellTallies nD τ sig (HIx 4)) (W : Waits sig (HIx 4)) (i : ℕ) (_ : Unit) : sProp 𝕄 :=
  iprop(Transfers.MayWaits (thr d L) (default : HIx 4) O
    ∗ (GFlV d L ft fi hfi (0 : Fin 8) (jOf i 0) ![0, 0, 0] inb_S8x56x128_S1x50x128_0_0_0 cc3_scratch3.sem (sh32 (widL L)).left.left.left fullShare.left.left.left
      ∗ GFlV d L ft fi hfi (1 : Fin 8) (jOf i 1) ![1, 0, 0] inb_S8x56x128_S1x50x128_1_0_0 cc3_scratch4.sem (sh32 (widL L)).left.left.right fullShare.left.left.right
      ∗ GFlV d L ft fi hfi (2 : Fin 8) (jOf i 2) ![2, 0, 0] inb_S8x56x128_S1x50x128_2_0_0 cc3_scratch5.sem (sh32 (widL L)).left.right.left fullShare.left.right.left
      ∗ GFlV d L ft fi hfi (3 : Fin 8) (jOf i 3) ![3, 0, 0] inb_S8x56x128_S1x50x128_3_0_0 cc3_scratch6.sem (sh32 (widL L)).left.right.right fullShare.left.right.right
      ∗ GFlV d L ft fi hfi (4 : Fin 8) (jOf i 4) ![4, 0, 0] inb_S8x56x128_S1x50x128_4_0_0 cc3_scratch7.sem (sh32 (widL L)).right.left.left fullShare.right.left.left
      ∗ GFlV d L ft fi hfi (5 : Fin 8) (jOf i 5) ![5, 0, 0] inb_S8x56x128_S1x50x128_5_0_0 cc3_scratch8.sem (sh32 (widL L)).right.left.right fullShare.right.left.right
      ∗ GFlV d L ft fi hfi (6 : Fin 8) (jOf i 6) ![6, 0, 0] inb_S8x56x128_S1x50x128_6_0_0 cc3_scratch9.sem (sh32 (widL L)).right.right.left fullShare.right.right.left
      ∗ GFlV d L ft fi hfi (7 : Fin 8) (jOf i 7) ![7, 0, 0] inb_S8x56x128_S1x50x128_7_0_0 cc3_scratch10.sem (sh32 (widL L)).right.right.right fullShare.right.right.right)
    ∗ ((∃ g, ((pWin0).view.loc (thr d L) ↦[(pWin0).view.set]{fullShare} g))
      ∗ (∃ g, ((pWin1).view.loc (thr d L) ↦[(pWin1).view.set]{fullShare} g))
      ∗ (∃ g, ((pWin2).view.loc (thr d L) ↦[(pWin2).view.set]{fullShare} g))
      ∗ (∃ g, ((pWin3).view.loc (thr d L) ↦[(pWin3).view.set]{fullShare} g))
      ∗ (∃ g, ((pWin4).view.loc (thr d L) ↦[(pWin4).view.set]{fullShare} g))
      ∗ (∃ g, ((pWin5).view.loc (thr d L) ↦[(pWin5).view.set]{fullShare} g))
      ∗ (∃ g, ((pWin6).view.loc (thr d L) ↦[(pWin6).view.set]{fullShare} g))
      ∗ (∃ g, ((pWin7).view.loc (thr d L) ↦[(pWin7).view.set]{fullShare} g)))
    ∗ (semVal (thr d L, SemLoc.dma cc3_scratch11.sem) 0 ∗ semVal (thr d L, SemLoc.dma cc3_scratch12.sem) 0 ∗ semVal (thr d L, SemLoc.dma cc3_scratch13.sem) 0 ∗ semVal (thr d L, SemLoc.dma cc3_scratch14.sem) 0 ∗ semVal (thr d L, SemLoc.dma cc3_scratch15.sem) 0 ∗ semVal (thr d L, SemLoc.dma cc3_scratch16.sem) 0 ∗ semVal (thr d L, SemLoc.dma cc3_scratch17.sem) 0 ∗ semVal (thr d L, SemLoc.dma cc3_scratch18.sem) 0)
    ∗ outRowsV (F := F) (UU := UU) d ft fi hfi (widL L) (8 * i)
    ∗ ∃ W', ⌜∀ p ∈ W', p ∈ W ∨ p.2 = none⌝ ∗ owes (thr d L) O W')

set_option maxHeartbeats 8000000 in
theorem tripV (O : CellTallies nD τ sig (HIx 4)) (W : Waits sig (HIx 4)) (v2 : BitVec 32) (kt : Fin k3_t1_loop.trips) (u : Unit) :
    (INVV d L ft fi hfi O W kt.val u : sProp 𝕄) ⊢ wp frame (wpE (defs₀ (F := F)) 𝒱₀ (thr d L) none) Set.univ
        (k3_t1_body L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0 v2 kt u) (INVV d L ft fi hfi O W (kt.val + 1)) := by
  unfold INVV k3_t1_body
  iintro ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  have hk : kt.val < 15 := kt.isLt
  have ej0 : jOf kt.val 0 = (⟨8 * kt.val + 0, by omega⟩ : Fin 128) := Fin.ext (jOf_val (by omega) (by decide))
  have ej1 : jOf kt.val 1 = (⟨8 * kt.val + 1, by omega⟩ : Fin 128) := Fin.ext (jOf_val (by omega) (by decide))
  have ej2 : jOf kt.val 2 = (⟨8 * kt.val + 2, by omega⟩ : Fin 128) := Fin.ext (jOf_val (by omega) (by decide))
  have ej3 : jOf kt.val 3 = (⟨8 * kt.val + 3, by omega⟩ : Fin 128) := Fin.ext (jOf_val (by omega) (by decide))
  have ej4 : jOf kt.val 4 = (⟨8 * kt.val + 4, by omega⟩ : Fin 128) := Fin.ext (jOf_val (by omega) (by decide))
  have ej5 : jOf kt.val 5 = (⟨8 * kt.val + 5, by omega⟩ : Fin 128) := Fin.ext (jOf_val (by omega) (by decide))
  have ej6 : jOf kt.val 6 = (⟨8 * kt.val + 6, by omega⟩ : Fin 128) := Fin.ext (jOf_val (by omega) (by decide))
  have ej7 : jOf kt.val 7 = (⟨8 * kt.val + 7, by omega⟩ : Fin 128) := Fin.ext (jOf_val (by omega) (by decide))
  ihave HR' := (Entails.of_eq (outRowsV_group (F := F) (UU := UU) d ft fi hfi (widL L) (8 * kt.val) (8 * kt.val) (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowK0 (F := F) d L kt _ fo0).symm) $$ Ho0
  ihave Ho1' := (Entails.of_eq (pts_oRowK1 (F := F) d L kt _ fo1).symm) $$ Ho1
  ihave Ho2' := (Entails.of_eq (pts_oRowK2 (F := F) d L kt _ fo2).symm) $$ Ho2
  ihave Ho3' := (Entails.of_eq (pts_oRowK3 (F := F) d L kt _ fo3).symm) $$ Ho3
  ihave Ho4' := (Entails.of_eq (pts_oRowK4 (F := F) d L kt _ fo4).symm) $$ Ho4
  ihave Ho5' := (Entails.of_eq (pts_oRowK5 (F := F) d L kt _ fo5).symm) $$ Ho5
  ihave Ho6' := (Entails.of_eq (pts_oRowK6 (F := F) d L kt _ fo6).symm) $$ Ho6
  ihave Ho7' := (Entails.of_eq (pts_oRowK7 (F := F) d L kt _ fo7).symm) $$ Ho7
  sl_exec
  iapply (gwaitV d L ft fi hfi (0 : Fin 8) (jOf kt.val 0) (o := ![0, 0, 0]) (inbo := inb_S8x56x128_S1x50x128_0_0_0) (sem := cc3_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV2; all_goals first | exact kt | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft fi hfi (0 : Fin 8) (jOf kt.val 0) gp0' := fun l e => (hrep0 l e l.isLt).trans (hwin0 l (Fin.castLE (by decide) e))
  sl_exec
  iapply (gwaitV d L ft fi hfi (1 : Fin 8) (jOf kt.val 1) (o := ![1, 0, 0]) (inbo := inb_S8x56x128_S1x50x128_1_0_0) (sem := cc3_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV3; all_goals first | exact kt | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft fi hfi (1 : Fin 8) (jOf kt.val 1) gp1' := fun l e => (hrep1 l e l.isLt).trans (hwin1 l (Fin.castLE (by decide) e))
  sl_exec
  iapply (gwaitV d L ft fi hfi (2 : Fin 8) (jOf kt.val 2) (o := ![2, 0, 0]) (inbo := inb_S8x56x128_S1x50x128_2_0_0) (sem := cc3_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV4; all_goals first | exact kt | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft fi hfi (2 : Fin 8) (jOf kt.val 2) gp2' := fun l e => (hrep2 l e l.isLt).trans (hwin2 l (Fin.castLE (by decide) e))
  sl_exec
  iapply (gwaitV d L ft fi hfi (3 : Fin 8) (jOf kt.val 3) (o := ![3, 0, 0]) (inbo := inb_S8x56x128_S1x50x128_3_0_0) (sem := cc3_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV5; all_goals first | exact kt | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft fi hfi (3 : Fin 8) (jOf kt.val 3) gp3' := fun l e => (hrep3 l e l.isLt).trans (hwin3 l (Fin.castLE (by decide) e))
  sl_exec
  iapply (gwaitV d L ft fi hfi (4 : Fin 8) (jOf kt.val 4) (o := ![4, 0, 0]) (inbo := inb_S8x56x128_S1x50x128_4_0_0) (sem := cc3_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV6; all_goals first | exact kt | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft fi hfi (4 : Fin 8) (jOf kt.val 4) gp4' := fun l e => (hrep4 l e l.isLt).trans (hwin4 l (Fin.castLE (by decide) e))
  sl_exec
  iapply (gwaitV d L ft fi hfi (5 : Fin 8) (jOf kt.val 5) (o := ![5, 0, 0]) (inbo := inb_S8x56x128_S1x50x128_5_0_0) (sem := cc3_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV7; all_goals first | exact kt | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft fi hfi (5 : Fin 8) (jOf kt.val 5) gp5' := fun l e => (hrep5 l e l.isLt).trans (hwin5 l (Fin.castLE (by decide) e))
  sl_exec
  iapply (gwaitV d L ft fi hfi (6 : Fin 8) (jOf kt.val 6) (o := ![6, 0, 0]) (inbo := inb_S8x56x128_S1x50x128_6_0_0) (sem := cc3_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV8; all_goals first | exact kt | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft fi hfi (6 : Fin 8) (jOf kt.val 6) gp6' := fun l e => (hrep6 l e l.isLt).trans (hwin6 l (Fin.castLE (by decide) e))
  sl_exec
  iapply (gwaitV d L ft fi hfi (7 : Fin 8) (jOf kt.val 7) (o := ![7, 0, 0]) (inbo := inb_S8x56x128_S1x50x128_7_0_0) (sem := cc3_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV9; all_goals first | exact kt | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft fi hfi (7 : Fin 8) (jOf kt.val 7) gp7' := fun l e => (hrep7 l e l.isLt).trans (hwin7 l (Fin.castLE (by decide) e))
  sl_exec
  iapply (gissueV d L ft fi hfi (0 : Fin 8) (jOf (kt.val + 1) 0) (o := ![0, 0, 0]) (inbo := inb_S8x56x128_S1x50x128_0_0_0) rfl (off := k3_off68 kt 0#32) (inb := k3_off68_inb kt 0) (hoff68_0 kt hk) (sem := cc3_scratch3.sem))
  isplitl [HT0]; · iexact HT0
  isplitl [HB0]; · iexact HB0
  isplitl [HI0]; · iexact HI0
  isplitl [HsG0]; · iexact HsG0
  iintro HG0
  sl_exec
  iapply (gissueV d L ft fi hfi (1 : Fin 8) (jOf (kt.val + 1) 1) (o := ![1, 0, 0]) (inbo := inb_S8x56x128_S1x50x128_1_0_0) rfl (off := k3_off68 kt 1#32) (inb := k3_off68_inb kt 1) (hoff68_1 kt hk) (sem := cc3_scratch4.sem))
  isplitl [HT1]; · iexact HT1
  isplitl [HB1]; · iexact HB1
  isplitl [HI1]; · iexact HI1
  isplitl [HsG1]; · iexact HsG1
  iintro HG1
  sl_exec
  iapply (gissueV d L ft fi hfi (2 : Fin 8) (jOf (kt.val + 1) 2) (o := ![2, 0, 0]) (inbo := inb_S8x56x128_S1x50x128_2_0_0) rfl (off := k3_off68 kt 2#32) (inb := k3_off68_inb kt 2) (hoff68_2 kt hk) (sem := cc3_scratch5.sem))
  isplitl [HT2]; · iexact HT2
  isplitl [HB2]; · iexact HB2
  isplitl [HI2]; · iexact HI2
  isplitl [HsG2]; · iexact HsG2
  iintro HG2
  sl_exec
  iapply (gissueV d L ft fi hfi (3 : Fin 8) (jOf (kt.val + 1) 3) (o := ![3, 0, 0]) (inbo := inb_S8x56x128_S1x50x128_3_0_0) rfl (off := k3_off68 kt 3#32) (inb := k3_off68_inb kt 3) (hoff68_3 kt hk) (sem := cc3_scratch6.sem))
  isplitl [HT3]; · iexact HT3
  isplitl [HB3]; · iexact HB3
  isplitl [HI3]; · iexact HI3
  isplitl [HsG3]; · iexact HsG3
  iintro HG3
  sl_exec
  iapply (gissueV d L ft fi hfi (4 : Fin 8) (jOf (kt.val + 1) 4) (o := ![4, 0, 0]) (inbo := inb_S8x56x128_S1x50x128_4_0_0) rfl (off := k3_off68 kt 4#32) (inb := k3_off68_inb kt 4) (hoff68_4 kt hk) (sem := cc3_scratch7.sem))
  isplitl [HT4]; · iexact HT4
  isplitl [HB4]; · iexact HB4
  isplitl [HI4]; · iexact HI4
  isplitl [HsG4]; · iexact HsG4
  iintro HG4
  sl_exec
  iapply (gissueV d L ft fi hfi (5 : Fin 8) (jOf (kt.val + 1) 5) (o := ![5, 0, 0]) (inbo := inb_S8x56x128_S1x50x128_5_0_0) rfl (off := k3_off68 kt 5#32) (inb := k3_off68_inb kt 5) (hoff68_5 kt hk) (sem := cc3_scratch8.sem))
  isplitl [HT5]; · iexact HT5
  isplitl [HB5]; · iexact HB5
  isplitl [HI5]; · iexact HI5
  isplitl [HsG5]; · iexact HsG5
  iintro HG5
  sl_exec
  iapply (gissueV d L ft fi hfi (6 : Fin 8) (jOf (kt.val + 1) 6) (o := ![6, 0, 0]) (inbo := inb_S8x56x128_S1x50x128_6_0_0) rfl (off := k3_off68 kt 6#32) (inb := k3_off68_inb kt 6) (hoff68_6 kt hk) (sem := cc3_scratch9.sem))
  isplitl [HT6]; · iexact HT6
  isplitl [HB6]; · iexact HB6
  isplitl [HI6]; · iexact HI6
  isplitl [HsG6]; · iexact HsG6
  iintro HG6
  sl_exec
  iapply (gissueV d L ft fi hfi (7 : Fin 8) (jOf (kt.val + 1) 7) (o := ![7, 0, 0]) (inbo := inb_S8x56x128_S1x50x128_7_0_0) rfl (off := k3_off68 kt 7#32) (inb := k3_off68_inb kt 7) (hoff68_7 kt hk) (sem := cc3_scratch10.sem))
  isplitl [HT7]; · iexact HT7
  isplitl [HB7]; · iexact HB7
  isplitl [HI7]; · iexact HI7
  isplitl [HsG7]; · iexact HsG7
  iintro HG7
  sl_exec
  sl_step
  ihave Ho0 := (Entails.of_eq (pts_oRowK0 (F := F) d L kt (by omega) _)) $$ Ho0'
  ihave Ho1 := (Entails.of_eq (pts_oRowK1 (F := F) d L kt (by omega) _)) $$ Ho1'
  ihave Ho2 := (Entails.of_eq (pts_oRowK2 (F := F) d L kt (by omega) _)) $$ Ho2'
  ihave Ho3 := (Entails.of_eq (pts_oRowK3 (F := F) d L kt (by omega) _)) $$ Ho3'
  ihave Ho4 := (Entails.of_eq (pts_oRowK4 (F := F) d L kt (by omega) _)) $$ Ho4'
  ihave Ho5 := (Entails.of_eq (pts_oRowK5 (F := F) d L kt (by omega) _)) $$ Ho5'
  ihave Ho6 := (Entails.of_eq (pts_oRowK6 (F := F) d L kt (by omega) _)) $$ Ho6'
  ihave Ho7 := (Entails.of_eq (pts_oRowK7 (F := F) d L kt (by omega) _)) $$ Ho7'
  ihave HRr' := (outRowsV_rest (F := F) (UU := UU) d ft fi hfi (widL L) (8 * kt.val) _) $$ HRr
  ihave HR := (Entails.of_eq (outRowsV_group (F := F) (UU := UU) d ft fi hfi (widL L) (8 * kt.val + 8) (8 * kt.val) (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft fi hfi d L (widL L) (0 : Fin 8) ⟨8 * kt.val + 0, by omega⟩ ![0, 0, 0] inb_S8x50x64_S1x50x64_0_0_0 rfl _ (k3_off11_inb L kt 0) (off11_eq0 L kt) _ _ _ rfl (ej0 ▸ hslot0)
      isplitl [Ho1]
      · iexists _; isplitr; swap; · iexact Ho1
        ipureintro; intro _; exact row_ok ft fi hfi d L (widL L) (1 : Fin 8) ⟨8 * kt.val + 1, by omega⟩ ![1, 0, 0] inb_S8x50x64_S1x50x64_1_0_0 rfl _ (k3_off11_inb L kt 1) (off11_eq1 L kt) _ _ _ rfl (ej1 ▸ hslot1)
      isplitl [Ho2]
      · iexists _; isplitr; swap; · iexact Ho2
        ipureintro; intro _; exact row_ok ft fi hfi d L (widL L) (2 : Fin 8) ⟨8 * kt.val + 2, by omega⟩ ![2, 0, 0] inb_S8x50x64_S1x50x64_2_0_0 rfl _ (k3_off11_inb L kt 2) (off11_eq2 L kt) _ _ _ rfl (ej2 ▸ hslot2)
      isplitl [Ho3]
      · iexists _; isplitr; swap; · iexact Ho3
        ipureintro; intro _; exact row_ok ft fi hfi d L (widL L) (3 : Fin 8) ⟨8 * kt.val + 3, by omega⟩ ![3, 0, 0] inb_S8x50x64_S1x50x64_3_0_0 rfl _ (k3_off11_inb L kt 3) (off11_eq3 L kt) _ _ _ rfl (ej3 ▸ hslot3)
      isplitl [Ho4]
      · iexists _; isplitr; swap; · iexact Ho4
        ipureintro; intro _; exact row_ok ft fi hfi d L (widL L) (4 : Fin 8) ⟨8 * kt.val + 4, by omega⟩ ![4, 0, 0] inb_S8x50x64_S1x50x64_4_0_0 rfl _ (k3_off11_inb L kt 4) (off11_eq4 L kt) _ _ _ rfl (ej4 ▸ hslot4)
      isplitl [Ho5]
      · iexists _; isplitr; swap; · iexact Ho5
        ipureintro; intro _; exact row_ok ft fi hfi d L (widL L) (5 : Fin 8) ⟨8 * kt.val + 5, by omega⟩ ![5, 0, 0] inb_S8x50x64_S1x50x64_5_0_0 rfl _ (k3_off11_inb L kt 5) (off11_eq5 L kt) _ _ _ rfl (ej5 ▸ hslot5)
      isplitl [Ho6]
      · iexists _; isplitr; swap; · iexact Ho6
        ipureintro; intro _; exact row_ok ft fi hfi d L (widL L) (6 : Fin 8) ⟨8 * kt.val + 6, by omega⟩ ![6, 0, 0] inb_S8x50x64_S1x50x64_6_0_0 rfl _ (k3_off11_inb L kt 6) (off11_eq6 L kt) _ _ _ rfl (ej6 ▸ hslot6)
      iexists _; isplitr; swap; · iexact Ho7
      ipureintro; intro _; exact row_ok ft fi hfi d L (widL L) (7 : Fin 8) ⟨8 * kt.val + 7, by omega⟩ ![7, 0, 0] inb_S8x50x64_S1x50x64_7_0_0 rfl _ (k3_off11_inb L kt 7) (off11_eq7 L kt) _ _ _ rfl (ej7 ▸ hslot7)
    · iexact HRr'
  rw [show 8 * (kt.val + 1) = 8 * kt.val + 8 by omega]
  isplitl [Hmw]; · iexact Hmw
  isplitl [HG0 HG1 HG2 HG3 HG4 HG5 HG6 HG7]
  · isplitl [HG0]; · iexact HG0
    isplitl [HG1]; · iexact HG1
    isplitl [HG2]; · iexact HG2
    isplitl [HG3]; · iexact HG3
    isplitl [HG4]; · iexact HG4
    isplitl [HG5]; · iexact HG5
    isplitl [HG6]; · iexact HG6
    iexact HG7
  isplitl [HP0 HP1 HP2 HP3 HP4 HP5 HP6 HP7]
  · isplitl [HP0]; · iexists _; iexact HP0
    isplitl [HP1]; · iexists _; iexact HP1
    isplitl [HP2]; · iexists _; iexact HP2
    isplitl [HP3]; · iexists _; iexact HP3
    isplitl [HP4]; · iexists _; iexact HP4
    isplitl [HP5]; · iexists _; iexact HP5
    isplitl [HP6]; · iexists _; iexact HP6
    iexists _; iexact HP7
  isplitl [HsO0 HsO1 HsO2 HsO3 HsO4 HsO5 HsO6 HsO7]
  · isplitl [HsO0]; · iexact HsO0
    isplitl [HsO1]; · iexact HsO1
    isplitl [HsO2]; · iexact HsO2
    isplitl [HsO3]; · iexact HsO3
    isplitl [HsO4]; · iexact HsO4
    isplitl [HsO5]; · iexact HsO5
    isplitl [HsO6]; · iexact HsO6
    iexact HsO7
  isplitl [HR]; · iexact HR
  iexists _; isplitr; swap; · iexact HO
  ipureintro
  repeat (first | exact hW' | apply waits_ok)

set_option maxHeartbeats 16000000 in
/-- One subcore's task of the fourth gather call, with what it writes: its block of the result ends holding the padded
    table's rows that its 128 index rows name. -/
theorem tile_body3V (hF : (K (F := F)).Facts) (hcats : ∀ j, (m (catsLoc d) j).toNat < 100000)
    (ft : Buf (Elt F) (tpadLoc d)) (f0 : Buf (Elt F) (out3Loc d))
    (O : CellTallies nD τ sig (HIx 4)) (W : Waits sig (HIx 4)) (hO : ∀ g, O g none = 0) :
    iprop(levAts (K (F := F)).L (K (F := F)).lev ∗ emp
        ∗ (catsSh m d (widL L) ∗ tpadSh d (widL L) ft ∗ outBlk3 d (widL L) f0)
        ∗ scopedBufs (thr d L) ∗ scopedSems0 (thr d L) ∗ owes (thr d L) O W)
      ⊢ (wp frame (wpE (defs₀ (F := F)) 𝒱₀ (thr d L) none) Set.univ
          (cc3_gk L tW (Memref.isWhole_whole _) cW (Memref.isWhole_whole _) oW (Memref.isWhole_whole _) iW (Memref.isWhole_whole _) bW (Memref.isWhole_whole _) pW (Memref.isWhole_whole _) cc3_scratch3 cc3_scratch4 cc3_scratch5 cc3_scratch6 cc3_scratch7 cc3_scratch8 cc3_scratch9 cc3_scratch10 cc3_scratch11 cc3_scratch12 cc3_scratch13 cc3_scratch14 cc3_scratch15 cc3_scratch16 cc3_scratch17 cc3_scratch18 cc3_scoped0)
          fun _ => iprop((catsSh m d (widL L) ∗ tpadSh d (widL L) ft
              ∗ ∃ f, ⌜GatherBlk (F := F) 3 (widL L) (m (catsLoc d)) ft f⌝ ∗ outBlk3 d (widL L) f)
            ∗ scopedBufs (thr d L) ∗ scopedSems0 (thr d L)
            ∗ ∃ W', ⌜∀ p ∈ W', p ∈ W ∨ p.2 = none⌝ ∗ owes (thr d L) O W') : sProp 𝕄) := by
  simp only [cc3_gk_eq_skeleton]; unfold cc3_gk_skel
  rw [(K (F := F)).scopedBufs_V hF d (cV L) (jV L), SparseCore.Cfg.scopedSems0_V (Val := Elt F) d (cV L) (jV L), ownSems0_split, ownBufs_split]
  iintro ⟨#Hlv, -, ⟨Hc, Ht, Ho⟩, ⟨⟨%fi0, Hi⟩, ⟨%fb0, Hb⟩, ⟨%fp0, Hp⟩, Hbufs⟩, ⟨⟨HsX, HsG0, HsG1, HsG2, HsG3, HsG4, HsG5, HsG6, HsG7, HsO0, HsO1, HsO2, HsO3, HsO4, HsO5, HsO6, HsO7⟩, Hsems⟩, HO⟩
  ihave Hmw := (show levAts (K (F := F)).L (K (F := F)).lev ⊢ Transfers.MayWaits (thr d L) (default : HIx 4) O from
    (K (F := F)).mayWaits_none (thr := thr d L) hO) $$ Hlv
  ihave Hc' := (Entails.of_eq (pts_cW (F := F) d L _ _).symm) $$ Hc
  ihave Ht' := (Entails.of_eq (pts_tW (F := F) d L _ _).symm) $$ Ht
  ihave Hi' := (Entails.of_eq (pts_iW (F := F) d L _).symm) $$ Hi
  ihave Hb' := (Entails.of_eq (pts_bW (F := F) d L _).symm) $$ Hb
  ihave Hp' := (Entails.of_eq (pts_pW (F := F) d L _).symm) $$ Hp
  sl_exec
  have hfi := idx_range m d L hcats fi0 (tile_body3V.sl.dma0 m d L) rfl
  have hfie := fun (j : Fin 128) (l : Fin 50) => fi_eq m d L fi0 (tile_body3V.sl.dma0 m d L) rfl j l
  ihave Ht8 := (Entails.of_eq (pts_oct (F := F) (UU := UU) Finset.univ ft (sh32 (widL L)))) $$ Ht'
  icases Ht8 with ⟨⟨⟨HT0, HT1⟩, ⟨HT2, HT3⟩⟩, ⟨⟨HT4, HT5⟩, ⟨HT6, HT7⟩⟩⟩
  ihave Hi8 := (Entails.of_eq (pts_oct (F := F) (UU := UU) Finset.univ (View.write (Elt F) (iW).view fi0 (tile_body3V.sl.dma0 m d L) Finset.univ) fullShare)) $$ Hi'
  icases Hi8 with ⟨⟨⟨HI0, HI1⟩, ⟨HI2, HI3⟩⟩, ⟨⟨HI4, HI5⟩, ⟨HI6, HI7⟩⟩⟩
  ihave Hb8 := (Entails.of_eq (bW_slabs (F := F) (UU := UU) d L fb0)) $$ Hb'
  icases Hb8 with ⟨Hbs0, Hbs1, Hbs2, Hbs3, Hbs4, Hbs5, Hbs6, Hbs7⟩
  ihave Hbw0 := (pointsTo_split_subset (q := fullShare) (f := fb0) bWin0_sub).1 $$ Hbs0
  icases Hbw0 with ⟨HB0, HBr0⟩
  ihave Hbw1 := (pointsTo_split_subset (q := fullShare) (f := fb0) bWin1_sub).1 $$ Hbs1
  icases Hbw1 with ⟨HB1, HBr1⟩
  ihave Hbw2 := (pointsTo_split_subset (q := fullShare) (f := fb0) bWin2_sub).1 $$ Hbs2
  icases Hbw2 with ⟨HB2, HBr2⟩
  ihave Hbw3 := (pointsTo_split_subset (q := fullShare) (f := fb0) bWin3_sub).1 $$ Hbs3
  icases Hbw3 with ⟨HB3, HBr3⟩
  ihave Hbw4 := (pointsTo_split_subset (q := fullShare) (f := fb0) bWin4_sub).1 $$ Hbs4
  icases Hbw4 with ⟨HB4, HBr4⟩
  ihave Hbw5 := (pointsTo_split_subset (q := fullShare) (f := fb0) bWin5_sub).1 $$ Hbs5
  icases Hbw5 with ⟨HB5, HBr5⟩
  ihave Hbw6 := (pointsTo_split_subset (q := fullShare) (f := fb0) bWin6_sub).1 $$ Hbs6
  icases Hbw6 with ⟨HB6, HBr6⟩
  ihave Hbw7 := (pointsTo_split_subset (q := fullShare) (f := fb0) bWin7_sub).1 $$ Hbs7
  icases Hbw7 with ⟨HB7, HBr7⟩
  ihave Hp8 := (Entails.of_eq (pW_slabs (F := F) (UU := UU) d L fp0)) $$ Hp'
  icases Hp8 with ⟨Hps0, Hps1, Hps2, Hps3, Hps4, Hps5, Hps6, Hps7⟩
  ihave Hpw0 := (pointsTo_split_subset (q := fullShare) (f := fp0) pWin0_sub).1 $$ Hps0
  icases Hpw0 with ⟨HP0, HPr0⟩
  ihave Hpw1 := (pointsTo_split_subset (q := fullShare) (f := fp0) pWin1_sub).1 $$ Hps1
  icases Hpw1 with ⟨HP1, HPr1⟩
  ihave Hpw2 := (pointsTo_split_subset (q := fullShare) (f := fp0) pWin2_sub).1 $$ Hps2
  icases Hpw2 with ⟨HP2, HPr2⟩
  ihave Hpw3 := (pointsTo_split_subset (q := fullShare) (f := fp0) pWin3_sub).1 $$ Hps3
  icases Hpw3 with ⟨HP3, HPr3⟩
  ihave Hpw4 := (pointsTo_split_subset (q := fullShare) (f := fp0) pWin4_sub).1 $$ Hps4
  icases Hpw4 with ⟨HP4, HPr4⟩
  ihave Hpw5 := (pointsTo_split_subset (q := fullShare) (f := fp0) pWin5_sub).1 $$ Hps5
  icases Hpw5 with ⟨HP5, HPr5⟩
  ihave Hpw6 := (pointsTo_split_subset (q := fullShare) (f := fp0) pWin6_sub).1 $$ Hps6
  icases Hpw6 with ⟨HP6, HPr6⟩
  ihave Hpw7 := (pointsTo_split_subset (q := fullShare) (f := fp0) pWin7_sub).1 $$ Hps7
  icases Hpw7 with ⟨HP7, HPr7⟩
  ihave HR := (outRowsV_intro (F := F) (UU := UU) d ft (View.write (Elt F) (iW).view fi0 (tile_body3V.sl.dma0 m d L) Finset.univ) hfi (widL L) f0) $$ Ho
  iapply (gissueV d L ft (View.write (Elt F) (iW).view fi0 (tile_body3V.sl.dma0 m d L) Finset.univ) hfi (0 : Fin 8) (jOf 0 0) (o := ![0, 0, 0]) (inbo := inb_S8x56x128_S1x50x128_0_0_0) rfl (off := ![0, 0]) (inb := inb_S128x50_S1x50_0_0) rfl (sem := cc3_scratch3.sem))
  isplitl [HT0]; · iexact HT0
  isplitl [HB0]; · iexact HB0
  isplitl [HI0]; · iexact HI0
  isplitl [HsG0]; · iexact HsG0
  iintro HG0
  sl_exec
  iapply (gissueV d L ft (View.write (Elt F) (iW).view fi0 (tile_body3V.sl.dma0 m d L) Finset.univ) hfi (1 : Fin 8) (jOf 0 1) (o := ![1, 0, 0]) (inbo := inb_S8x56x128_S1x50x128_1_0_0) rfl (off := ![1, 0]) (inb := inb_S128x50_S1x50_1_0) rfl (sem := cc3_scratch4.sem))
  isplitl [HT1]; · iexact HT1
  isplitl [HB1]; · iexact HB1
  isplitl [HI1]; · iexact HI1
  isplitl [HsG1]; · iexact HsG1
  iintro HG1
  sl_exec
  iapply (gissueV d L ft (View.write (Elt F) (iW).view fi0 (tile_body3V.sl.dma0 m d L) Finset.univ) hfi (2 : Fin 8) (jOf 0 2) (o := ![2, 0, 0]) (inbo := inb_S8x56x128_S1x50x128_2_0_0) rfl (off := ![2, 0]) (inb := inb_S128x50_S1x50_2_0) rfl (sem := cc3_scratch5.sem))
  isplitl [HT2]; · iexact HT2
  isplitl [HB2]; · iexact HB2
  isplitl [HI2]; · iexact HI2
  isplitl [HsG2]; · iexact HsG2
  iintro HG2
  sl_exec
  iapply (gissueV d L ft (View.write (Elt F) (iW).view fi0 (tile_body3V.sl.dma0 m d L) Finset.univ) hfi (3 : Fin 8) (jOf 0 3) (o := ![3, 0, 0]) (inbo := inb_S8x56x128_S1x50x128_3_0_0) rfl (off := ![3, 0]) (inb := inb_S128x50_S1x50_3_0) rfl (sem := cc3_scratch6.sem))
  isplitl [HT3]; · iexact HT3
  isplitl [HB3]; · iexact HB3
  isplitl [HI3]; · iexact HI3
  isplitl [HsG3]; · iexact HsG3
  iintro HG3
  sl_exec
  iapply (gissueV d L ft (View.write (Elt F) (iW).view fi0 (tile_body3V.sl.dma0 m d L) Finset.univ) hfi (4 : Fin 8) (jOf 0 4) (o := ![4, 0, 0]) (inbo := inb_S8x56x128_S1x50x128_4_0_0) rfl (off := ![4, 0]) (inb := inb_S128x50_S1x50_4_0) rfl (sem := cc3_scratch7.sem))
  isplitl [HT4]; · iexact HT4
  isplitl [HB4]; · iexact HB4
  isplitl [HI4]; · iexact HI4
  isplitl [HsG4]; · iexact HsG4
  iintro HG4
  sl_exec
  iapply (gissueV d L ft (View.write (Elt F) (iW).view fi0 (tile_body3V.sl.dma0 m d L) Finset.univ) hfi (5 : Fin 8) (jOf 0 5) (o := ![5, 0, 0]) (inbo := inb_S8x56x128_S1x50x128_5_0_0) rfl (off := ![5, 0]) (inb := inb_S128x50_S1x50_5_0) rfl (sem := cc3_scratch8.sem))
  isplitl [HT5]; · iexact HT5
  isplitl [HB5]; · iexact HB5
  isplitl [HI5]; · iexact HI5
  isplitl [HsG5]; · iexact HsG5
  iintro HG5
  sl_exec
  iapply (gissueV d L ft (View.write (Elt F) (iW).view fi0 (tile_body3V.sl.dma0 m d L) Finset.univ) hfi (6 : Fin 8) (jOf 0 6) (o := ![6, 0, 0]) (inbo := inb_S8x56x128_S1x50x128_6_0_0) rfl (off := ![6, 0]) (inb := inb_S128x50_S1x50_6_0) rfl (sem := cc3_scratch9.sem))
  isplitl [HT6]; · iexact HT6
  isplitl [HB6]; · iexact HB6
  isplitl [HI6]; · iexact HI6
  isplitl [HsG6]; · iexact HsG6
  iintro HG6
  sl_exec
  iapply (gissueV d L ft (View.write (Elt F) (iW).view fi0 (tile_body3V.sl.dma0 m d L) Finset.univ) hfi (7 : Fin 8) (jOf 0 7) (o := ![7, 0, 0]) (inbo := inb_S8x56x128_S1x50x128_7_0_0) rfl (off := ![7, 0]) (inb := inb_S128x50_S1x50_7_0) rfl (sem := cc3_scratch10.sem))
  isplitl [HT7]; · iexact HT7
  isplitl [HB7]; · iexact HB7
  isplitl [HI7]; · iexact HI7
  isplitl [HsG7]; · iexact HsG7
  iintro HG7
  sl_exec
  sl_for (INVV (F := F) (UU := UU) d L ft (View.write (Elt F) (iW).view fi0 (tile_body3V.sl.dma0 m d L) Finset.univ) hfi O W) $$ [Hmw HG0 HG1 HG2 HG3 HG4 HG5 HG6 HG7 HP0 HP1 HP2 HP3 HP4 HP5 HP6 HP7 HsO0 HsO1 HsO2 HsO3 HsO4 HsO5 HsO6 HsO7 HR HO]
  case region => intro k u; exact tripV d L ft _ hfi O W _ k u
  · unfold INVV
    isplitl [Hmw]; · iexact Hmw
    isplitl [HG0 HG1 HG2 HG3 HG4 HG5 HG6 HG7]
    · isplitl [HG0]; · iexact HG0
      isplitl [HG1]; · iexact HG1
      isplitl [HG2]; · iexact HG2
      isplitl [HG3]; · iexact HG3
      isplitl [HG4]; · iexact HG4
      isplitl [HG5]; · iexact HG5
      isplitl [HG6]; · iexact HG6
      iexact HG7
    isplitl [HP0 HP1 HP2 HP3 HP4 HP5 HP6 HP7]
    · isplitl [HP0]; · iexists _; iexact HP0
      isplitl [HP1]; · iexists _; iexact HP1
      isplitl [HP2]; · iexists _; iexact HP2
      isplitl [HP3]; · iexists _; iexact HP3
      isplitl [HP4]; · iexists _; iexact HP4
      isplitl [HP5]; · iexists _; iexact HP5
      isplitl [HP6]; · iexists _; iexact HP6
      iexists _; iexact HP7
    isplitl [HsO0 HsO1 HsO2 HsO3 HsO4 HsO5 HsO6 HsO7]
    · isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    isplitl [HR]; · iexact HR
    iexists _; isplitr; swap; · iexact HO
    ipureintro
    repeat (first | exact (fun p hp => Or.inl hp) | apply waits_ok)
  iintro %_ HI
  unfold INVV
  icases HI with ⟨#Hmw, ⟨HG0, HG1, HG2, HG3, HG4, HG5, HG6, HG7⟩, ⟨⟨%gp0, HP0⟩, ⟨%gp1, HP1⟩, ⟨%gp2, HP2⟩, ⟨%gp3, HP3⟩, ⟨%gp4, HP4⟩, ⟨%gp5, HP5⟩, ⟨%gp6, HP6⟩, ⟨%gp7, HP7⟩⟩, ⟨HsO0, HsO1, HsO2, HsO3, HsO4, HsO5, HsO6, HsO7⟩, HR, %W', %hW', HO⟩
  ihave HR := (Entails.of_eq (congrArg (fun n => (outRowsV (F := F) (UU := UU) d ft (View.write (Elt F) (iW).view fi0 (tile_body3V.sl.dma0 m d L) Finset.univ) hfi (widL L) n : sProp 𝕄)) (show 8 * k3_t1_loop.trips = 120 from rfl))) $$ HR
  ihave HR' := (Entails.of_eq (outRowsV_group (F := F) (UU := UU) d ft (View.write (Elt F) (iW).view fi0 (tile_body3V.sl.dma0 m d L) Finset.univ) hfi (widL L) 120 120 (by omega))) $$ HR
  icases HR' with ⟨⟨⟨%fo0, -, Ho0⟩, ⟨%fo1, -, Ho1⟩, ⟨%fo2, -, Ho2⟩, ⟨%fo3, -, Ho3⟩, ⟨%fo4, -, Ho4⟩, ⟨%fo5, -, Ho5⟩, ⟨%fo6, -, Ho6⟩, ⟨%fo7, -, Ho7⟩⟩, HRr⟩
  ihave Ho0' := (Entails.of_eq (pts_oRowE0 (F := F) d L _ fo0).symm) $$ Ho0
  ihave Ho1' := (Entails.of_eq (pts_oRowE1 (F := F) d L _ fo1).symm) $$ Ho1
  ihave Ho2' := (Entails.of_eq (pts_oRowE2 (F := F) d L _ fo2).symm) $$ Ho2
  ihave Ho3' := (Entails.of_eq (pts_oRowE3 (F := F) d L _ fo3).symm) $$ Ho3
  ihave Ho4' := (Entails.of_eq (pts_oRowE4 (F := F) d L _ fo4).symm) $$ Ho4
  ihave Ho5' := (Entails.of_eq (pts_oRowE5 (F := F) d L _ fo5).symm) $$ Ho5
  ihave Ho6' := (Entails.of_eq (pts_oRowE6 (F := F) d L _ fo6).symm) $$ Ho6
  ihave Ho7' := (Entails.of_eq (pts_oRowE7 (F := F) d L _ fo7).symm) $$ Ho7
  sl_exec
  iapply (gwaitV d L ft (View.write (Elt F) (iW).view fi0 (tile_body3V.sl.dma0 m d L) Finset.univ) hfi (0 : Fin 8) (jOf k3_t1_loop.trips 0) (o := ![0, 0, 0]) (inbo := inb_S8x56x128_S1x50x128_0_0_0) (sem := cc3_scratch3.sem) rfl)
  isplitl [HG0]; · iexact HG0
  isplitl [HO]; · iexact HO
  isplitr; · iexact Hmw
  iintro ⟨⟨%fb0, %hwin0, HB0⟩, HT0, HI0, HsG0, HO⟩
  sl_exec
  sl_for (RInvV0 (F := F) (UU := UU) d L fb0) $$ [HB0 HP0]
  case region => intro k u; apply repackV10; all_goals first | exact 0#32 | exact ()
  · unfold RInvV0
    isplitl [HB0]; · iexact HB0
    iexists _; isplitl [HP0]; · iexact HP0
    ipureintro; intro r e h; exact absurd h (Nat.not_lt_zero _)
  iintro %_ HI
  unfold RInvV0
  icases HI with ⟨HB0, %gp0', HP0, %hrep0⟩
  have hslot0 : SlotOK ft (View.write (Elt F) (iW).view fi0 (tile_body3V.sl.dma0 m d L) Finset.univ) hfi (0 : Fin 8) (jOf k3_t1_loop.trips 0) gp0' := fun l e => (hrep0 l e l.isLt).trans (hwin0 l (Fin.castLE (by decide) e))
  sl_exec
  iapply (gwaitV d L ft (View.write (Elt F) (iW).view fi0 (tile_body3V.sl.dma0 m d L) Finset.univ) hfi (1 : Fin 8) (jOf k3_t1_loop.trips 1) (o := ![1, 0, 0]) (inbo := inb_S8x56x128_S1x50x128_1_0_0) (sem := cc3_scratch4.sem) rfl)
  isplitl [HG1]; · iexact HG1
  isplitl [HO]; · iexact HO
  isplitr; · iexact Hmw
  iintro ⟨⟨%fb1, %hwin1, HB1⟩, HT1, HI1, HsG1, HO⟩
  sl_exec
  sl_for (RInvV1 (F := F) (UU := UU) d L fb1) $$ [HB1 HP1]
  case region => intro k u; apply repackV11; all_goals first | exact 0#32 | exact ()
  · unfold RInvV1
    isplitl [HB1]; · iexact HB1
    iexists _; isplitl [HP1]; · iexact HP1
    ipureintro; intro r e h; exact absurd h (Nat.not_lt_zero _)
  iintro %_ HI
  unfold RInvV1
  icases HI with ⟨HB1, %gp1', HP1, %hrep1⟩
  have hslot1 : SlotOK ft (View.write (Elt F) (iW).view fi0 (tile_body3V.sl.dma0 m d L) Finset.univ) hfi (1 : Fin 8) (jOf k3_t1_loop.trips 1) gp1' := fun l e => (hrep1 l e l.isLt).trans (hwin1 l (Fin.castLE (by decide) e))
  sl_exec
  iapply (gwaitV d L ft (View.write (Elt F) (iW).view fi0 (tile_body3V.sl.dma0 m d L) Finset.univ) hfi (2 : Fin 8) (jOf k3_t1_loop.trips 2) (o := ![2, 0, 0]) (inbo := inb_S8x56x128_S1x50x128_2_0_0) (sem := cc3_scratch5.sem) rfl)
  isplitl [HG2]; · iexact HG2
  isplitl [HO]; · iexact HO
  isplitr; · iexact Hmw
  iintro ⟨⟨%fb2, %hwin2, HB2⟩, HT2, HI2, HsG2, HO⟩
  sl_exec
  sl_for (RInvV2 (F := F) (UU := UU) d L fb2) $$ [HB2 HP2]
  case region => intro k u; apply repackV12; all_goals first | exact 0#32 | exact ()
  · unfold RInvV2
    isplitl [HB2]; · iexact HB2
    iexists _; isplitl [HP2]; · iexact HP2
    ipureintro; intro r e h; exact absurd h (Nat.not_lt_zero _)
  iintro %_ HI
  unfold RInvV2
  icases HI with ⟨HB2, %gp2', HP2, %hrep2⟩
  have hslot2 : SlotOK ft (View.write (Elt F) (iW).view fi0 (tile_body3V.sl.dma0 m d L) Finset.univ) hfi (2 : Fin 8) (jOf k3_t1_loop.trips 2) gp2' := fun l e => (hrep2 l e l.isLt).trans (hwin2 l (Fin.castLE (by decide) e))
  sl_exec
  iapply (gwaitV d L ft (View.write (Elt F) (iW).view fi0 (tile_body3V.sl.dma0 m d L) Finset.univ) hfi (3 : Fin 8) (jOf k3_t1_loop.trips 3) (o := ![3, 0, 0]) (inbo := inb_S8x56x128_S1x50x128_3_0_0) (sem := cc3_scratch6.sem) rfl)
  isplitl [HG3]; · iexact HG3
  isplitl [HO]; · iexact HO
  isplitr; · iexact Hmw
  iintro ⟨⟨%fb3, %hwin3, HB3⟩, HT3, HI3, HsG3, HO⟩
  sl_exec
  sl_for (RInvV3 (F := F) (UU := UU) d L fb3) $$ [HB3 HP3]
  case region => intro k u; apply repackV13; all_goals first | exact 0#32 | exact ()
  · unfold RInvV3
    isplitl [HB3]; · iexact HB3
    iexists _; isplitl [HP3]; · iexact HP3
    ipureintro; intro r e h; exact absurd h (Nat.not_lt_zero _)
  iintro %_ HI
  unfold RInvV3
  icases HI with ⟨HB3, %gp3', HP3, %hrep3⟩
  have hslot3 : SlotOK ft (View.write (Elt F) (iW).view fi0 (tile_body3V.sl.dma0 m d L) Finset.univ) hfi (3 : Fin 8) (jOf k3_t1_loop.trips 3) gp3' := fun l e => (hrep3 l e l.isLt).trans (hwin3 l (Fin.castLE (by decide) e))
  sl_exec
  iapply (gwaitV d L ft (View.write (Elt F) (iW).view fi0 (tile_body3V.sl.dma0 m d L) Finset.univ) hfi (4 : Fin 8) (jOf k3_t1_loop.trips 4) (o := ![4, 0, 0]) (inbo := inb_S8x56x128_S1x50x128_4_0_0) (sem := cc3_scratch7.sem) rfl)
  isplitl [HG4]; · iexact HG4
  isplitl [HO]; · iexact HO
  isplitr; · iexact Hmw
  iintro ⟨⟨%fb4, %hwin4, HB4⟩, HT4, HI4, HsG4, HO⟩
  sl_exec
  sl_for (RInvV4 (F := F) (UU := UU) d L fb4) $$ [HB4 HP4]
  case region => intro k u; apply repackV14; all_goals first | exact 0#32 | exact ()
  · unfold RInvV4
    isplitl [HB4]; · iexact HB4
    iexists _; isplitl [HP4]; · iexact HP4
    ipureintro; intro r e h; exact absurd h (Nat.not_lt_zero _)
  iintro %_ HI
  unfold RInvV4
  icases HI with ⟨HB4, %gp4', HP4, %hrep4⟩
  have hslot4 : SlotOK ft (View.write (Elt F) (iW).view fi0 (tile_body3V.sl.dma0 m d L) Finset.univ) hfi (4 : Fin 8) (jOf k3_t1_loop.trips 4) gp4' := fun l e => (hrep4 l e l.isLt).trans (hwin4 l (Fin.castLE (by decide) e))
  sl_exec
  iapply (gwaitV d L ft (View.write (Elt F) (iW).view fi0 (tile_body3V.sl.dma0 m d L) Finset.univ) hfi (5 : Fin 8) (jOf k3_t1_loop.trips 5) (o := ![5, 0, 0]) (inbo := inb_S8x56x128_S1x50x128_5_0_0) (sem := cc3_scratch8.sem) rfl)
  isplitl [HG5]; · iexact HG5
  isplitl [HO]; · iexact HO
  isplitr; · iexact Hmw
  iintro ⟨⟨%fb5, %hwin5, HB5⟩, HT5, HI5, HsG5, HO⟩
  sl_exec
  sl_for (RInvV5 (F := F) (UU := UU) d L fb5) $$ [HB5 HP5]
  case region => intro k u; apply repackV15; all_goals first | exact 0#32 | exact ()
  · unfold RInvV5
    isplitl [HB5]; · iexact HB5
    iexists _; isplitl [HP5]; · iexact HP5
    ipureintro; intro r e h; exact absurd h (Nat.not_lt_zero _)
  iintro %_ HI
  unfold RInvV5
  icases HI with ⟨HB5, %gp5', HP5, %hrep5⟩
  have hslot5 : SlotOK ft (View.write (Elt F) (iW).view fi0 (tile_body3V.sl.dma0 m d L) Finset.univ) hfi (5 : Fin 8) (jOf k3_t1_loop.trips 5) gp5' := fun l e => (hrep5 l e l.isLt).trans (hwin5 l (Fin.castLE (by decide) e))
  sl_exec
  iapply (gwaitV d L ft (View.write (Elt F) (iW).view fi0 (tile_body3V.sl.dma0 m d L) Finset.univ) hfi (6 : Fin 8) (jOf k3_t1_loop.trips 6) (o := ![6, 0, 0]) (inbo := inb_S8x56x128_S1x50x128_6_0_0) (sem := cc3_scratch9.sem) rfl)
  isplitl [HG6]; · iexact HG6
  isplitl [HO]; · iexact HO
  isplitr; · iexact Hmw
  iintro ⟨⟨%fb6, %hwin6, HB6⟩, HT6, HI6, HsG6, HO⟩
  sl_exec
  sl_for (RInvV6 (F := F) (UU := UU) d L fb6) $$ [HB6 HP6]
  case region => intro k u; apply repackV16; all_goals first | exact 0#32 | exact ()
  · unfold RInvV6
    isplitl [HB6]; · iexact HB6
    iexists _; isplitl [HP6]; · iexact HP6
    ipureintro; intro r e h; exact absurd h (Nat.not_lt_zero _)
  iintro %_ HI
  unfold RInvV6
  icases HI with ⟨HB6, %gp6', HP6, %hrep6⟩
  have hslot6 : SlotOK ft (View.write (Elt F) (iW).view fi0 (tile_body3V.sl.dma0 m d L) Finset.univ) hfi (6 : Fin 8) (jOf k3_t1_loop.trips 6) gp6' := fun l e => (hrep6 l e l.isLt).trans (hwin6 l (Fin.castLE (by decide) e))
  sl_exec
  iapply (gwaitV d L ft (View.write (Elt F) (iW).view fi0 (tile_body3V.sl.dma0 m d L) Finset.univ) hfi (7 : Fin 8) (jOf k3_t1_loop.trips 7) (o := ![7, 0, 0]) (inbo := inb_S8x56x128_S1x50x128_7_0_0) (sem := cc3_scratch10.sem) rfl)
  isplitl [HG7]; · iexact HG7
  isplitl [HO]; · iexact HO
  isplitr; · iexact Hmw
  iintro ⟨⟨%fb7, %hwin7, HB7⟩, HT7, HI7, HsG7, HO⟩
  sl_exec
  sl_for (RInvV7 (F := F) (UU := UU) d L fb7) $$ [HB7 HP7]
  case region => intro k u; apply repackV17; all_goals first | exact 0#32 | exact ()
  · unfold RInvV7
    isplitl [HB7]; · iexact HB7
    iexists _; isplitl [HP7]; · iexact HP7
    ipureintro; intro r e h; exact absurd h (Nat.not_lt_zero _)
  iintro %_ HI
  unfold RInvV7
  icases HI with ⟨HB7, %gp7', HP7, %hrep7⟩
  have hslot7 : SlotOK ft (View.write (Elt F) (iW).view fi0 (tile_body3V.sl.dma0 m d L) Finset.univ) hfi (7 : Fin 8) (jOf k3_t1_loop.trips 7) gp7' := fun l e => (hrep7 l e l.isLt).trans (hwin7 l (Fin.castLE (by decide) e))
  sl_exec
  sl_step
  -- the last rows home, and the block whole
  ihave Ho0 := (Entails.of_eq (pts_oRowE0 (F := F) d L (by omega) _)) $$ Ho0'
  ihave Ho1 := (Entails.of_eq (pts_oRowE1 (F := F) d L (by omega) _)) $$ Ho1'
  ihave Ho2 := (Entails.of_eq (pts_oRowE2 (F := F) d L (by omega) _)) $$ Ho2'
  ihave Ho3 := (Entails.of_eq (pts_oRowE3 (F := F) d L (by omega) _)) $$ Ho3'
  ihave Ho4 := (Entails.of_eq (pts_oRowE4 (F := F) d L (by omega) _)) $$ Ho4'
  ihave Ho5 := (Entails.of_eq (pts_oRowE5 (F := F) d L (by omega) _)) $$ Ho5'
  ihave Ho6 := (Entails.of_eq (pts_oRowE6 (F := F) d L (by omega) _)) $$ Ho6'
  ihave Ho7 := (Entails.of_eq (pts_oRowE7 (F := F) d L (by omega) _)) $$ Ho7'
  ihave HRr' := (outRowsV_rest (F := F) (UU := UU) d ft (View.write (Elt F) (iW).view fi0 (tile_body3V.sl.dma0 m d L) Finset.univ) hfi (widL L) 120 _) $$ HRr
  ihave HR := (Entails.of_eq (outRowsV_group (F := F) (UU := UU) d ft (View.write (Elt F) (iW).view fi0 (tile_body3V.sl.dma0 m d L) Finset.univ) hfi (widL L) (120 + 8) 120 (by omega)).symm) $$ [Ho0 Ho1 Ho2 Ho3 Ho4 Ho5 Ho6 Ho7 HRr']
  · isplitl [Ho0 Ho1 Ho2 Ho3 Ho4 Ho5 Ho6 Ho7]
    · isplitl [Ho0]
      · iexists _; isplitr; swap; · iexact Ho0
        ipureintro; intro _; exact row_ok ft (View.write (Elt F) (iW).view fi0 (tile_body3V.sl.dma0 m d L) Finset.univ) hfi d L (widL L) (0 : Fin 8) ⟨120 + 0, by omega⟩ ![0, 0, 0] inb_S8x50x64_S1x50x64_0_0_0 rfl _ (k3_off77_inb L 0) (off77_eq0 L) _ _ _ rfl (jOf15_0 ▸ hslot0)
      isplitl [Ho1]
      · iexists _; isplitr; swap; · iexact Ho1
        ipureintro; intro _; exact row_ok ft (View.write (Elt F) (iW).view fi0 (tile_body3V.sl.dma0 m d L) Finset.univ) hfi d L (widL L) (1 : Fin 8) ⟨120 + 1, by omega⟩ ![1, 0, 0] inb_S8x50x64_S1x50x64_1_0_0 rfl _ (k3_off77_inb L 1) (off77_eq1 L) _ _ _ rfl (jOf15_1 ▸ hslot1)
      isplitl [Ho2]
      · iexists _; isplitr; swap; · iexact Ho2
        ipureintro; intro _; exact row_ok ft (View.write (Elt F) (iW).view fi0 (tile_body3V.sl.dma0 m d L) Finset.univ) hfi d L (widL L) (2 : Fin 8) ⟨120 + 2, by omega⟩ ![2, 0, 0] inb_S8x50x64_S1x50x64_2_0_0 rfl _ (k3_off77_inb L 2) (off77_eq2 L) _ _ _ rfl (jOf15_2 ▸ hslot2)
      isplitl [Ho3]
      · iexists _; isplitr; swap; · iexact Ho3
        ipureintro; intro _; exact row_ok ft (View.write (Elt F) (iW).view fi0 (tile_body3V.sl.dma0 m d L) Finset.univ) hfi d L (widL L) (3 : Fin 8) ⟨120 + 3, by omega⟩ ![3, 0, 0] inb_S8x50x64_S1x50x64_3_0_0 rfl _ (k3_off77_inb L 3) (off77_eq3 L) _ _ _ rfl (jOf15_3 ▸ hslot3)
      isplitl [Ho4]
      · iexists _; isplitr; swap; · iexact Ho4
        ipureintro; intro _; exact row_ok ft (View.write (Elt F) (iW).view fi0 (tile_body3V.sl.dma0 m d L) Finset.univ) hfi d L (widL L) (4 : Fin 8) ⟨120 + 4, by omega⟩ ![4, 0, 0] inb_S8x50x64_S1x50x64_4_0_0 rfl _ (k3_off77_inb L 4) (off77_eq4 L) _ _ _ rfl (jOf15_4 ▸ hslot4)
      isplitl [Ho5]
      · iexists _; isplitr; swap; · iexact Ho5
        ipureintro; intro _; exact row_ok ft (View.write (Elt F) (iW).view fi0 (tile_body3V.sl.dma0 m d L) Finset.univ) hfi d L (widL L) (5 : Fin 8) ⟨120 + 5, by omega⟩ ![5, 0, 0] inb_S8x50x64_S1x50x64_5_0_0 rfl _ (k3_off77_inb L 5) (off77_eq5 L) _ _ _ rfl (jOf15_5 ▸ hslot5)
      isplitl [Ho6]
      · iexists _; isplitr; swap; · iexact Ho6
        ipureintro; intro _; exact row_ok ft (View.write (Elt F) (iW).view fi0 (tile_body3V.sl.dma0 m d L) Finset.univ) hfi d L (widL L) (6 : Fin 8) ⟨120 + 6, by omega⟩ ![6, 0, 0] inb_S8x50x64_S1x50x64_6_0_0 rfl _ (k3_off77_inb L 6) (off77_eq6 L) _ _ _ rfl (jOf15_6 ▸ hslot6)
      iexists _; isplitr; swap; · iexact Ho7
      ipureintro; intro _; exact row_ok ft (View.write (Elt F) (iW).view fi0 (tile_body3V.sl.dma0 m d L) Finset.univ) hfi d L (widL L) (7 : Fin 8) ⟨120 + 7, by omega⟩ ![7, 0, 0] inb_S8x50x64_S1x50x64_7_0_0 rfl _ (k3_off77_inb L 7) (off77_eq7 L) _ _ _ rfl (jOf15_7 ▸ hslot7)
    · iexact HRr'
  ihave Hout := (outRowsV_join (F := F) (UU := UU) m d L ft (View.write (Elt F) (iW).view fi0 (tile_body3V.sl.dma0 m d L) Finset.univ) hfi hfie f0) $$ HR
  -- the read shares whole
  ihave Ht' := (Entails.of_eq (pts_oct (F := F) (UU := UU) (ℓ := (tW).view.loc (thr d L)) Finset.univ ft (sh32 (widL L))).symm) $$ [HT0 HT1 HT2 HT3 HT4 HT5 HT6 HT7]
  · isplitl [HT0 HT1 HT2 HT3]
    · isplitl [HT0 HT1]
      · isplitl [HT0] <;> iassumption
      · isplitl [HT2] <;> iassumption
    · isplitl [HT4 HT5]
      · isplitl [HT4] <;> iassumption
      · isplitl [HT6] <;> iassumption
  ihave Hi' := (Entails.of_eq (pts_oct (F := F) (UU := UU) (ℓ := (iW).view.loc (thr d L)) Finset.univ (View.write (Elt F) (iW).view fi0 (tile_body3V.sl.dma0 m d L) Finset.univ) fullShare).symm) $$ [HI0 HI1 HI2 HI3 HI4 HI5 HI6 HI7]
  · isplitl [HI0 HI1 HI2 HI3]
    · isplitl [HI0 HI1]
      · isplitl [HI0] <;> iassumption
      · isplitl [HI2] <;> iassumption
    · isplitl [HI4 HI5]
      · isplitl [HI4] <;> iassumption
      · isplitl [HI6] <;> iassumption
  -- the two buffers whole, at some contents
  ihave Hbs0 := (pointsTo_join_subset (ℓ := (bW).view.loc (thr d L)) (q := fullShare) bWin0_sub) $$ [HB0 HBr0]
  · isplitl [HB0] <;> iassumption
  ihave Hbs1 := (pointsTo_join_subset (ℓ := (bW).view.loc (thr d L)) (q := fullShare) bWin1_sub) $$ [HB1 HBr1]
  · isplitl [HB1] <;> iassumption
  ihave Hbs2 := (pointsTo_join_subset (ℓ := (bW).view.loc (thr d L)) (q := fullShare) bWin2_sub) $$ [HB2 HBr2]
  · isplitl [HB2] <;> iassumption
  ihave Hbs3 := (pointsTo_join_subset (ℓ := (bW).view.loc (thr d L)) (q := fullShare) bWin3_sub) $$ [HB3 HBr3]
  · isplitl [HB3] <;> iassumption
  ihave Hbs4 := (pointsTo_join_subset (ℓ := (bW).view.loc (thr d L)) (q := fullShare) bWin4_sub) $$ [HB4 HBr4]
  · isplitl [HB4] <;> iassumption
  ihave Hbs5 := (pointsTo_join_subset (ℓ := (bW).view.loc (thr d L)) (q := fullShare) bWin5_sub) $$ [HB5 HBr5]
  · isplitl [HB5] <;> iassumption
  ihave Hbs6 := (pointsTo_join_subset (ℓ := (bW).view.loc (thr d L)) (q := fullShare) bWin6_sub) $$ [HB6 HBr6]
  · isplitl [HB6] <;> iassumption
  ihave Hbs7 := (pointsTo_join_subset (ℓ := (bW).view.loc (thr d L)) (q := fullShare) bWin7_sub) $$ [HB7 HBr7]
  · isplitl [HB7] <;> iassumption
  ihave Hb := (join8 (F := F) (UU := UU) (ℓ := (bW).view.loc (thr d L)) bSlab bSlabs_disjoint bSlabs_cover _ _ _ _ _ _ _ _) $$ [Hbs0 Hbs1 Hbs2 Hbs3 Hbs4 Hbs5 Hbs6 Hbs7]
  · isplitl [Hbs0]; · iexact Hbs0
    isplitl [Hbs1]; · iexact Hbs1
    isplitl [Hbs2]; · iexact Hbs2
    isplitl [Hbs3]; · iexact Hbs3
    isplitl [Hbs4]; · iexact Hbs4
    isplitl [Hbs5]; · iexact Hbs5
    isplitl [Hbs6]; · iexact Hbs6
    iexact Hbs7
  ihave Hps0 := (pointsTo_join_subset (ℓ := (pW).view.loc (thr d L)) (q := fullShare) pWin0_sub) $$ [HP0 HPr0]
  · isplitl [HP0] <;> iassumption
  ihave Hps1 := (pointsTo_join_subset (ℓ := (pW).view.loc (thr d L)) (q := fullShare) pWin1_sub) $$ [HP1 HPr1]
  · isplitl [HP1] <;> iassumption
  ihave Hps2 := (pointsTo_join_subset (ℓ := (pW).view.loc (thr d L)) (q := fullShare) pWin2_sub) $$ [HP2 HPr2]
  · isplitl [HP2] <;> iassumption
  ihave Hps3 := (pointsTo_join_subset (ℓ := (pW).view.loc (thr d L)) (q := fullShare) pWin3_sub) $$ [HP3 HPr3]
  · isplitl [HP3] <;> iassumption
  ihave Hps4 := (pointsTo_join_subset (ℓ := (pW).view.loc (thr d L)) (q := fullShare) pWin4_sub) $$ [HP4 HPr4]
  · isplitl [HP4] <;> iassumption
  ihave Hps5 := (pointsTo_join_subset (ℓ := (pW).view.loc (thr d L)) (q := fullShare) pWin5_sub) $$ [HP5 HPr5]
  · isplitl [HP5] <;> iassumption
  ihave Hps6 := (pointsTo_join_subset (ℓ := (pW).view.loc (thr d L)) (q := fullShare) pWin6_sub) $$ [HP6 HPr6]
  · isplitl [HP6] <;> iassumption
  ihave Hps7 := (pointsTo_join_subset (ℓ := (pW).view.loc (thr d L)) (q := fullShare) pWin7_sub) $$ [HP7 HPr7]
  · isplitl [HP7] <;> iassumption
  ihave Hp := (join8 (F := F) (UU := UU) (ℓ := (pW).view.loc (thr d L)) pSlab pSlabs_disjoint pSlabs_cover _ _ _ _ _ _ _ _) $$ [Hps0 Hps1 Hps2 Hps3 Hps4 Hps5 Hps6 Hps7]
  · isplitl [Hps0]; · iexact Hps0
    isplitl [Hps1]; · iexact Hps1
    isplitl [Hps2]; · iexact Hps2
    isplitl [Hps3]; · iexact Hps3
    isplitl [Hps4]; · iexact Hps4
    isplitl [Hps5]; · iexact Hps5
    isplitl [Hps6]; · iexact Hps6
    iexact Hps7
  icases Hb with ⟨%gb, Hb⟩
  icases Hp with ⟨%gq, Hp⟩
  -- the post
  isplitl [Hc' Ht' Hout]
  · isplitl [Hc']; · iapply (Entails.of_eq (pts_cW (F := F) d L _ _)); iexact Hc'
    isplitl [Ht']; · iapply (Entails.of_eq (pts_tW (F := F) d L _ _)); iexact Ht'
    iexact Hout
  isplitl [Hi' Hb Hp Hbufs]
  · isplitl [Hi']; · iexists _; iapply (Entails.of_eq (pts_iW (F := F) d L _)); iexact Hi'
    isplitl [Hb]; · iexists gb; iapply (Entails.of_eq (pts_bW (F := F) d L _)); iexact Hb
    isplitl [Hp]; · iexists gq; iapply (Entails.of_eq (pts_pW (F := F) d L _)); iexact Hp
    iexact Hbufs
  isplitl [HsX HsG0 HsG1 HsG2 HsG3 HsG4 HsG5 HsG6 HsG7 HsO0 HsO1 HsO2 HsO3 HsO4 HsO5 HsO6 HsO7 Hsems]
  · isplitl [HsX HsG0 HsG1 HsG2 HsG3 HsG4 HsG5 HsG6 HsG7 HsO0 HsO1 HsO2 HsO3 HsO4 HsO5 HsO6 HsO7]
    · isplitl [HsX]; · iexact HsX
      isplitl [HsG0]; · iexact HsG0
      isplitl [HsG1]; · iexact HsG1
      isplitl [HsG2]; · iexact HsG2
      isplitl [HsG3]; · iexact HsG3
      isplitl [HsG4]; · iexact HsG4
      isplitl [HsG5]; · iexact HsG5
      isplitl [HsG6]; · iexact HsG6
      isplitl [HsG7]; · iexact HsG7
      isplitl [HsO0]; · iexact HsO0
      isplitl [HsO1]; · iexact HsO1
      isplitl [HsO2]; · iexact HsO2
      isplitl [HsO3]; · iexact HsO3
      isplitl [HsO4]; · iexact HsO4
      isplitl [HsO5]; · iexact HsO5
      isplitl [HsO6]; · iexact HsO6
      iexact HsO7
    · iexact Hsems
  iexists _; isplitr; swap; · iexact HO
  ipureintro
  repeat (first | exact hW' | apply waits_ok)

end BodyV

end Cert.Proof.Tile3

end
-- ==== Proof.TileBodiesV.lean ====
/-
  The four gather tasks' bodies with what they write, in the form the launch uses them.
-/
import proofs.«204056_g19739669692900_cont_8to1_1488_31_alg».proof.Proof.TileOblV
import proofs.«204056_g19739669692900_cont_8to1_1488_31_alg».proof.Proof.TileBodyV0
import proofs.«204056_g19739669692900_cont_8to1_1488_31_alg».proof.Proof.TileBodyVQ1
import proofs.«204056_g19739669692900_cont_8to1_1488_31_alg».proof.Proof.TileBodyVQ2
import proofs.«204056_g19739669692900_cont_8to1_1488_31_alg».proof.Proof.TileBodyVQ3

noncomputable section

namespace Cert.Proof.LaunchI

open Cert.KernelIdeal Cert.KernelIdeal.Gen
open Idealize.ShloMosaic
open Idealize.ShloMosaic.SparseCore.Cfg (HIx)
open Idealize.SL Idealize.SL.RA

variable {F : FTy → Type} [FloatOps F]
variable {UU : Type} [URA UU] [CountersIn UU]
variable (m : (ℓ : Loc nD τ sig) → Buf (Elt F) ℓ)

theorem tileBodyV0 : TileBodyV0 (F := F) (UU := UU) m :=
  fun d hc L ft f0 O W hO => Cert.Proof.Tile0.tile_body0V m d L facts hc ft f0 O W hO

theorem tileBodyV1 : TileBodyV1 (F := F) (UU := UU) m :=
  fun d hc L ft f0 O W hO => Cert.Proof.Tile1.tile_body1V m d L facts hc ft f0 O W hO

theorem tileBodyV2 : TileBodyV2 (F := F) (UU := UU) m :=
  fun d hc L ft f0 O W hO => Cert.Proof.Tile2.tile_body2V m d L facts hc ft f0 O W hO

theorem tileBodyV3 : TileBodyV3 (F := F) (UU := UU) m :=
  fun d hc L ft f0 O W hO => Cert.Proof.Tile3.tile_body3V m d L facts hc ft f0 O W hO

end Cert.Proof.LaunchI

end
-- ==== Proof.LaunchSplitV.lean ====
/-
  The gather calls' results joined, with what they hold.

  Index `[128 w + r, l, e]` lies in block `w` of the result. The 32 blocks, each at contents satisfying its
  block's statement, join to the whole result at contents that agree with each block on its rows, hence
  satisfying the whole result's statement.
-/
import proofs.«204056_g19739669692900_cont_8to1_1488_31_alg».proof.Proof.LaunchSplit
import proofs.«204056_g19739669692900_cont_8to1_1488_31_alg».proof.Proof.LaunchPayV

noncomputable section

namespace Cert.Proof.LaunchI

open Cert.KernelIdeal Cert.KernelIdeal.Gen
open Cert.Proof.Shares

open Idealize.ShloMosaic Idealize.ShloMosaic.ValueIdx
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}
variable {UU : Type} [URA UU] [CountersIn UU]

local notation "𝕄" => MT nD τ sig (HIx 4) (Elt F) ℕ UU ℕ

/-- Row `128 w + r` is in block `w`. -/
theorem mem_blk (w : Fin 32) (r : Fin 128) (l : Fin 50) (e : Fin 64) :
    ix3 (⟨128 * w.val + r.val, by omega⟩ : Fin 4096) l e ∈ (blkRect w).set := by
  unfold blkRect Rect.part Rect.block
  rw [Rect.mem_set_unit]
  intro a
  match a with
  | 0 => simp [Shape.partIx, Shape.partSize]; omega
  | 1 => simp [Shape.partIx, Shape.partSize]
  | 2 => simp [Shape.partIx, Shape.partSize]

variable [FloatOps F] [∀ e, Nonempty (Elt F e)]
variable (m : (ℓ : Loc nD τ sig) → Buf (Elt F) ℓ)

/-! ## Call 0 -/

set_option maxRecDepth 4096 in
theorem out0_joinV (d : Dev nD) (ft : Buf (Elt F) (tpadLoc d)) :
    (bigSep Finset.univ fun w : Fin 32 => iprop(∃ f, ⌜GatherBlk 0 w (m (catsLoc d)) ft f⌝ ∗ outBlk0 d w f))
      ⊢ (iprop(∃ f, ⌜GatherAll 0 (m (catsLoc d)) ft f⌝ ∗ out0Loc d ↦{fullShare} f) : sProp 𝕄) := by
  refine (bigSep_exists_pi Finset.univ (fun w (f : Buf (Elt F) (out0Loc d)) => iprop(⌜GatherBlk 0 w (m (catsLoc d)) ft f⌝ ∗ outBlk0 d w f))).trans ?_
  iintro ⟨%fs, H⟩
  ihave H2 := (bigSep_pure_sep Finset.univ (fun w => GatherBlk 0 w (m (catsLoc d)) ft (fs w)) (fun w => outBlk0 d w (fs w))) $$ H
  icases H2 with ⟨%hp, H⟩
  have : Nonempty (Buf (Elt F) (out0Loc d)) := ⟨fs 0⟩
  ihave H' := (pointsTo_biUnion_join (ℓ := out0Loc d) (q := fullShare) (Val := Elt F) Finset.univ blkSet0 fs (fs 0) blks0_disjoint) $$ H
  icases H' with ⟨%g, %hg, Hg⟩
  rw [blks0_cover]
  iexists g
  isplitr
  · ipureintro
    refine gatherAll_of_blks 0 _ _ _ fun w r l e => ?_
    have hm : ix3 (⟨128 * w.val + r.val, by omega⟩ : Fin 4096) l e ∈ blkSet0 w := by rw [blkSet0_eq]; exact mem_blk w r l e
    exact (hg w (Finset.mem_univ w) _ hm).trans (hp w (Finset.mem_univ w) r l e)
  · iexact Hg

/-- What the tasks of call 0 hand back, joined: the shares whole again, the result with what it holds. -/
theorem join0V (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, ⌜GatherBlk 0 (wid c s) (m (catsLoc d)) ft f⌝ ∗ outBlk0 d (wid c s) f))
      ⊢ (iprop((catsLoc d ↦{fullShare} m (catsLoc d)) ∗ (tpadLoc d ↦{fullShare} ft)
          ∗ ∃ f, ⌜GatherAll 0 (m (catsLoc d)) ft f⌝ ∗ out0Loc d ↦{fullShare} f) : sProp 𝕄) := by
  rw [bigSep_workers (fun w => iprop(catsSh m d w ∗ tpadSh d w ft ∗ ∃ f, ⌜GatherBlk 0 w (m (catsLoc d)) ft f⌝ ∗ outBlk0 d w f)), bigSep_sep', bigSep_sep',
    cats_shares, tpad_shares]
  iintro ⟨Hc, Ht, Ho⟩
  isplitl [Hc]; · iexact Hc
  isplitl [Ht]; · iexact Ht
  iapply (out0_joinV m d ft); iexact Ho

/-! ## Call 1 -/

set_option maxRecDepth 4096 in
theorem out1_joinV (d : Dev nD) (ft : Buf (Elt F) (tpadLoc d)) :
    (bigSep Finset.univ fun w : Fin 32 => iprop(∃ f, ⌜GatherBlk 1 w (m (catsLoc d)) ft f⌝ ∗ outBlk1 d w f))
      ⊢ (iprop(∃ f, ⌜GatherAll 1 (m (catsLoc d)) ft f⌝ ∗ out1Loc d ↦{fullShare} f) : sProp 𝕄) := by
  refine (bigSep_exists_pi Finset.univ (fun w (f : Buf (Elt F) (out1Loc d)) => iprop(⌜GatherBlk 1 w (m (catsLoc d)) ft f⌝ ∗ outBlk1 d w f))).trans ?_
  iintro ⟨%fs, H⟩
  ihave H2 := (bigSep_pure_sep Finset.univ (fun w => GatherBlk 1 w (m (catsLoc d)) ft (fs w)) (fun w => outBlk1 d w (fs w))) $$ H
  icases H2 with ⟨%hp, H⟩
  have : Nonempty (Buf (Elt F) (out1Loc d)) := ⟨fs 0⟩
  ihave H' := (pointsTo_biUnion_join (ℓ := out1Loc d) (q := fullShare) (Val := Elt F) Finset.univ blkSet1 fs (fs 0) blks1_disjoint) $$ H
  icases H' with ⟨%g, %hg, Hg⟩
  rw [blks1_cover]
  iexists g
  isplitr
  · ipureintro
    refine gatherAll_of_blks 1 _ _ _ fun w r l e => ?_
    have hm : ix3 (⟨128 * w.val + r.val, by omega⟩ : Fin 4096) l e ∈ blkSet1 w := by rw [blkSet1_eq]; exact mem_blk w r l e
    exact (hg w (Finset.mem_univ w) _ hm).trans (hp w (Finset.mem_univ w) r l e)
  · iexact Hg

/-- What the tasks of call 1 hand back, joined: the shares whole again, the result with what it holds. -/
theorem join1V (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, ⌜GatherBlk 1 (wid c s) (m (catsLoc d)) ft f⌝ ∗ outBlk1 d (wid c s) f))
      ⊢ (iprop((catsLoc d ↦{fullShare} m (catsLoc d)) ∗ (tpadLoc d ↦{fullShare} ft)
          ∗ ∃ f, ⌜GatherAll 1 (m (catsLoc d)) ft f⌝ ∗ out1Loc d ↦{fullShare} f) : sProp 𝕄) := by
  rw [bigSep_workers (fun w => iprop(catsSh m d w ∗ tpadSh d w ft ∗ ∃ f, ⌜GatherBlk 1 w (m (catsLoc d)) ft f⌝ ∗ outBlk1 d w f)), bigSep_sep', bigSep_sep',
    cats_shares, tpad_shares]
  iintro ⟨Hc, Ht, Ho⟩
  isplitl [Hc]; · iexact Hc
  isplitl [Ht]; · iexact Ht
  iapply (out1_joinV m d ft); iexact Ho

/-! ## Call 2 -/

set_option maxRecDepth 4096 in
theorem out2_joinV (d : Dev nD) (ft : Buf (Elt F) (tpadLoc d)) :
    (bigSep Finset.univ fun w : Fin 32 => iprop(∃ f, ⌜GatherBlk 2 w (m (catsLoc d)) ft f⌝ ∗ outBlk2 d w f))
      ⊢ (iprop(∃ f, ⌜GatherAll 2 (m (catsLoc d)) ft f⌝ ∗ out2Loc d ↦{fullShare} f) : sProp 𝕄) := by
  refine (bigSep_exists_pi Finset.univ (fun w (f : Buf (Elt F) (out2Loc d)) => iprop(⌜GatherBlk 2 w (m (catsLoc d)) ft f⌝ ∗ outBlk2 d w f))).trans ?_
  iintro ⟨%fs, H⟩
  ihave H2 := (bigSep_pure_sep Finset.univ (fun w => GatherBlk 2 w (m (catsLoc d)) ft (fs w)) (fun w => outBlk2 d w (fs w))) $$ H
  icases H2 with ⟨%hp, H⟩
  have : Nonempty (Buf (Elt F) (out2Loc d)) := ⟨fs 0⟩
  ihave H' := (pointsTo_biUnion_join (ℓ := out2Loc d) (q := fullShare) (Val := Elt F) Finset.univ blkSet2 fs (fs 0) blks2_disjoint) $$ H
  icases H' with ⟨%g, %hg, Hg⟩
  rw [blks2_cover]
  iexists g
  isplitr
  · ipureintro
    refine gatherAll_of_blks 2 _ _ _ fun w r l e => ?_
    have hm : ix3 (⟨128 * w.val + r.val, by omega⟩ : Fin 4096) l e ∈ blkSet2 w := by rw [blkSet2_eq]; exact mem_blk w r l e
    exact (hg w (Finset.mem_univ w) _ hm).trans (hp w (Finset.mem_univ w) r l e)
  · iexact Hg

/-- What the tasks of call 2 hand back, joined: the shares whole again, the result with what it holds. -/
theorem join2V (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, ⌜GatherBlk 2 (wid c s) (m (catsLoc d)) ft f⌝ ∗ outBlk2 d (wid c s) f))
      ⊢ (iprop((catsLoc d ↦{fullShare} m (catsLoc d)) ∗ (tpadLoc d ↦{fullShare} ft)
          ∗ ∃ f, ⌜GatherAll 2 (m (catsLoc d)) ft f⌝ ∗ out2Loc d ↦{fullShare} f) : sProp 𝕄) := by
  rw [bigSep_workers (fun w => iprop(catsSh m d w ∗ tpadSh d w ft ∗ ∃ f, ⌜GatherBlk 2 w (m (catsLoc d)) ft f⌝ ∗ outBlk2 d w f)), bigSep_sep', bigSep_sep',
    cats_shares, tpad_shares]
  iintro ⟨Hc, Ht, Ho⟩
  isplitl [Hc]; · iexact Hc
  isplitl [Ht]; · iexact Ht
  iapply (out2_joinV m d ft); iexact Ho

/-! ## Call 3 -/

set_option maxRecDepth 4096 in
theorem out3_joinV (d : Dev nD) (ft : Buf (Elt F) (tpadLoc d)) :
    (bigSep Finset.univ fun w : Fin 32 => iprop(∃ f, ⌜GatherBlk 3 w (m (catsLoc d)) ft f⌝ ∗ outBlk3 d w f))
      ⊢ (iprop(∃ f, ⌜GatherAll 3 (m (catsLoc d)) ft f⌝ ∗ out3Loc d ↦{fullShare} f) : sProp 𝕄) := by
  refine (bigSep_exists_pi Finset.univ (fun w (f : Buf (Elt F) (out3Loc d)) => iprop(⌜GatherBlk 3 w (m (catsLoc d)) ft f⌝ ∗ outBlk3 d w f))).trans ?_
  iintro ⟨%fs, H⟩
  ihave H2 := (bigSep_pure_sep Finset.univ (fun w => GatherBlk 3 w (m (catsLoc d)) ft (fs w)) (fun w => outBlk3 d w (fs w))) $$ H
  icases H2 with ⟨%hp, H⟩
  have : Nonempty (Buf (Elt F) (out3Loc d)) := ⟨fs 0⟩
  ihave H' := (pointsTo_biUnion_join (ℓ := out3Loc d) (q := fullShare) (Val := Elt F) Finset.univ blkSet3 fs (fs 0) blks3_disjoint) $$ H
  icases H' with ⟨%g, %hg, Hg⟩
  rw [blks3_cover]
  iexists g
  isplitr
  · ipureintro
    refine gatherAll_of_blks 3 _ _ _ fun w r l e => ?_
    have hm : ix3 (⟨128 * w.val + r.val, by omega⟩ : Fin 4096) l e ∈ blkSet3 w := by rw [blkSet3_eq]; exact mem_blk w r l e
    exact (hg w (Finset.mem_univ w) _ hm).trans (hp w (Finset.mem_univ w) r l e)
  · iexact Hg

/-- What the tasks of call 3 hand back, joined: the shares whole again, the result with what it holds. -/
theorem join3V (d : Dev nD) (ft : Buf (Elt F) (tpadLoc d)) :
    (bigSep Finset.univ fun c : Fin 2 => bigSep Finset.univ fun s : Fin 16 =>
        iprop(catsSh m d (wid c s) ∗ tpadSh d (wid c s) ft ∗ ∃ f, ⌜GatherBlk 3 (wid c s) (m (catsLoc d)) ft f⌝ ∗ outBlk3 d (wid c s) f))
      ⊢ (iprop((catsLoc d ↦{fullShare} m (catsLoc d)) ∗ (tpadLoc d ↦{fullShare} ft)
          ∗ ∃ f, ⌜GatherAll 3 (m (catsLoc d)) ft f⌝ ∗ out3Loc d ↦{fullShare} f) : sProp 𝕄) := by
  rw [bigSep_workers (fun w => iprop(catsSh m d w ∗ tpadSh d w ft ∗ ∃ f, ⌜GatherBlk 3 w (m (catsLoc d)) ft f⌝ ∗ outBlk3 d w f)), bigSep_sep', bigSep_sep',
    cats_shares, tpad_shares]
  iintro ⟨Hc, Ht, Ho⟩
  isplitl [Hc]; · iexact Hc
  isplitl [Ht]; · iexact Ht
  iapply (out3_joinV m d ft); iexact Ho

end Cert.Proof.LaunchI

end
-- ==== Proof.LaunchMainV.lean ====
/-
  @main on the TensorCore, with what the arrays hold.

  The same walk as for the frame, now remembering values. After gather call `q` its result holds the padded
  table's rows named by index rows `4096 q … 4096 q + 4095`. Projection call `p` writes, in columns
  `4096 p … 4096 p + 4095` of the output array, the contraction of the gathered rows with the transposed weights
  plus the bias column, and leaves every other column as it found it; before calls 1, 2, 3 the output so far is
  copied into the next call's array. The result is the last output array transposed.
-/
import proofs.«204056_g19739669692900_cont_8to1_1488_31_alg».proof.Proof.LaunchMain
import proofs.«204056_g19739669692900_cont_8to1_1488_31_alg».proof.Proof.LaunchSplitV

noncomputable section

namespace Cert.Proof.LaunchI

open Cert.KernelIdeal Cert.KernelIdeal.Gen
open Cert.Proof.Shares

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

local notation "𝕄" => MT nD τ sig (HIx 4) (Elt Ideal) ℕ UU ℕ

/-- Projection call `p`'s output `g`, from the gathered block `fi`, the transposed weights `fw`, the bias column
    `fb` and the output array's entry contents `fo`: its own 4096 columns hold the contraction plus the bias,
    every other column is as at entry. -/
def ProjBlk (p : Fin 4) (fi : FVec Ideal S4096x50x64 .f32) (fw : FVec Ideal S64x64 .f32) (fb : FVec Ideal S64x1 .f32)
    (fo g : FVec Ideal S50x64x16384 .f32) : Prop :=
  (∀ (l : Fin 50) (o : Fin 64) (b' : Fin 4096),
      g (ix3 l o (⟨4096 * p.val + b'.val, by omega⟩ : Fin 16384)) = (∑ e : Fin 64, fw (ix2 e o) * fi (ix3 b' l e)) + fb (ix2 o (0 : Fin 1)))
    ∧ (∀ (l : Fin 50) (o : Fin 64) (b : Fin 16384), (b.val < 4096 * p.val ∨ 4096 * (p.val + 1) ≤ b.val) → g (ix3 l o b) = fo (ix3 l o b))

/-- Projection call 0, with what it writes. -/
def RegionSpecV0 : Prop :=
  ∀ (d : Dev nD) (W : Waits sig (HIx 4)), (K (F := Ideal)).WBelow (T d) W 32 →
    ∀ (fi : Buf (Elt Ideal) ((SparseCore.T d).loc main_v3)) (fw : Buf (Elt Ideal) ((SparseCore.T d).loc main_v1))
      (fb : Buf (Elt Ideal) ((SparseCore.T d).loc main_v2)) (fo : Buf (Elt Ideal) ((SparseCore.T d).loc main_v7)) (Ψ : PUnit → sProp 𝕄),
    iprop(((boundary (T d) ∗ ((SparseCore.T d).loc main_v3 ↦{fullShare} fi) ∗ ((SparseCore.T d).loc main_v1 ↦{fullShare} fw)
              ∗ ((SparseCore.T d).loc main_v2 ↦{fullShare} fb) ∗ (∃ g, ⌜ProjBlk 0 fi fw fb fo g⌝ ∗ (SparseCore.T d).loc main_v7 ↦{fullShare} g)
              ∗ ∃ W', ⌜(K (F := Ideal)).WBelow (T d) W' 32⌝ ∗ owes (T d) 0 W') -∗ Ψ ⟨⟩)
        ∗ boundary (T d) ∗ levAts (K (F := Ideal)).L (K (F := Ideal)).lev ∗ owes (T d) 0 W
        ∗ ((SparseCore.T d).loc main_v3 ↦{fullShare} fi) ∗ ((SparseCore.T d).loc main_v1 ↦{fullShare} fw)
        ∗ ((SparseCore.T d).loc main_v2 ↦{fullShare} fb) ∗ ((SparseCore.T d).loc main_v7 ↦{fullShare} fo)
        ∗ Pipeline.cellsGhost cfgs (EP (F := Ideal)) 0 d ∗ Pipeline.toksInit cfgs (EP (F := Ideal)) 0 d)
      ⊢ wp frame (wpE ((K (F := Ideal)).defs (D (F := Ideal))) 𝒱 (SparseCore.T d) none) Set.univ
          (Prog.lift (.customCall (SparseCore.inner (Pipeline.entry 0)) ())) Ψ

/-- Projection call 1, with what it writes. -/
def RegionSpecV1 : Prop :=
  ∀ (d : Dev nD) (W : Waits sig (HIx 4)), (K (F := Ideal)).WBelow (T d) W 32 →
    ∀ (fi : Buf (Elt Ideal) ((SparseCore.T d).loc main_v4)) (fw : Buf (Elt Ideal) ((SparseCore.T d).loc main_v1))
      (fb : Buf (Elt Ideal) ((SparseCore.T d).loc main_v2)) (fo : Buf (Elt Ideal) ((SparseCore.T d).loc main_v8)) (Ψ : PUnit → sProp 𝕄),
    iprop(((boundary (T d) ∗ ((SparseCore.T d).loc main_v4 ↦{fullShare} fi) ∗ ((SparseCore.T d).loc main_v1 ↦{fullShare} fw)
              ∗ ((SparseCore.T d).loc main_v2 ↦{fullShare} fb) ∗ (∃ g, ⌜ProjBlk 1 fi fw fb fo g⌝ ∗ (SparseCore.T d).loc main_v8 ↦{fullShare} g)
              ∗ ∃ W', ⌜(K (F := Ideal)).WBelow (T d) W' 32⌝ ∗ owes (T d) 0 W') -∗ Ψ ⟨⟩)
        ∗ boundary (T d) ∗ levAts (K (F := Ideal)).L (K (F := Ideal)).lev ∗ owes (T d) 0 W
        ∗ ((SparseCore.T d).loc main_v4 ↦{fullShare} fi) ∗ ((SparseCore.T d).loc main_v1 ↦{fullShare} fw)
        ∗ ((SparseCore.T d).loc main_v2 ↦{fullShare} fb) ∗ ((SparseCore.T d).loc main_v8 ↦{fullShare} fo)
        ∗ Pipeline.cellsGhost cfgs (EP (F := Ideal)) 1 d ∗ Pipeline.toksInit cfgs (EP (F := Ideal)) 1 d)
      ⊢ wp frame (wpE ((K (F := Ideal)).defs (D (F := Ideal))) 𝒱 (SparseCore.T d) none) Set.univ
          (Prog.lift (.customCall (SparseCore.inner (Pipeline.entry 1)) ())) Ψ

/-- Projection call 2, with what it writes. -/
def RegionSpecV2 : Prop :=
  ∀ (d : Dev nD) (W : Waits sig (HIx 4)), (K (F := Ideal)).WBelow (T d) W 32 →
    ∀ (fi : Buf (Elt Ideal) ((SparseCore.T d).loc main_v5)) (fw : Buf (Elt Ideal) ((SparseCore.T d).loc main_v1))
      (fb : Buf (Elt Ideal) ((SparseCore.T d).loc main_v2)) (fo : Buf (Elt Ideal) ((SparseCore.T d).loc main_v9)) (Ψ : PUnit → sProp 𝕄),
    iprop(((boundary (T d) ∗ ((SparseCore.T d).loc main_v5 ↦{fullShare} fi) ∗ ((SparseCore.T d).loc main_v1 ↦{fullShare} fw)
              ∗ ((SparseCore.T d).loc main_v2 ↦{fullShare} fb) ∗ (∃ g, ⌜ProjBlk 2 fi fw fb fo g⌝ ∗ (SparseCore.T d).loc main_v9 ↦{fullShare} g)
              ∗ ∃ W', ⌜(K (F := Ideal)).WBelow (T d) W' 32⌝ ∗ owes (T d) 0 W') -∗ Ψ ⟨⟩)
        ∗ boundary (T d) ∗ levAts (K (F := Ideal)).L (K (F := Ideal)).lev ∗ owes (T d) 0 W
        ∗ ((SparseCore.T d).loc main_v5 ↦{fullShare} fi) ∗ ((SparseCore.T d).loc main_v1 ↦{fullShare} fw)
        ∗ ((SparseCore.T d).loc main_v2 ↦{fullShare} fb) ∗ ((SparseCore.T d).loc main_v9 ↦{fullShare} fo)
        ∗ Pipeline.cellsGhost cfgs (EP (F := Ideal)) 2 d ∗ Pipeline.toksInit cfgs (EP (F := Ideal)) 2 d)
      ⊢ wp frame (wpE ((K (F := Ideal)).defs (D (F := Ideal))) 𝒱 (SparseCore.T d) none) Set.univ
          (Prog.lift (.customCall (SparseCore.inner (Pipeline.entry 2)) ())) Ψ

/-- Projection call 3, with what it writes. -/
def RegionSpecV3 : Prop :=
  ∀ (d : Dev nD) (W : Waits sig (HIx 4)), (K (F := Ideal)).WBelow (T d) W 32 →
    ∀ (fi : Buf (Elt Ideal) ((SparseCore.T d).loc main_v6)) (fw : Buf (Elt Ideal) ((SparseCore.T d).loc main_v1))
      (fb : Buf (Elt Ideal) ((SparseCore.T d).loc main_v2)) (fo : Buf (Elt Ideal) ((SparseCore.T d).loc main_v10)) (Ψ : PUnit → sProp 𝕄),
    iprop(((boundary (T d) ∗ ((SparseCore.T d).loc main_v6 ↦{fullShare} fi) ∗ ((SparseCore.T d).loc main_v1 ↦{fullShare} fw)
              ∗ ((SparseCore.T d).loc main_v2 ↦{fullShare} fb) ∗ (∃ g, ⌜ProjBlk 3 fi fw fb fo g⌝ ∗ (SparseCore.T d).loc main_v10 ↦{fullShare} g)
              ∗ ∃ W', ⌜(K (F := Ideal)).WBelow (T d) W' 32⌝ ∗ owes (T d) 0 W') -∗ Ψ ⟨⟩)
        ∗ boundary (T d) ∗ levAts (K (F := Ideal)).L (K (F := Ideal)).lev ∗ owes (T d) 0 W
        ∗ ((SparseCore.T d).loc main_v6 ↦{fullShare} fi) ∗ ((SparseCore.T d).loc main_v1 ↦{fullShare} fw)
        ∗ ((SparseCore.T d).loc main_v2 ↦{fullShare} fb) ∗ ((SparseCore.T d).loc main_v10 ↦{fullShare} fo)
        ∗ Pipeline.cellsGhost cfgs (EP (F := Ideal)) 3 d ∗ Pipeline.toksInit cfgs (EP (F := Ideal)) 3 d)
      ⊢ wp frame (wpE ((K (F := Ideal)).defs (D (F := Ideal))) 𝒱 (SparseCore.T d) none) Set.univ
          (Prog.lift (.customCall (SparseCore.inner (Pipeline.entry 3)) ())) Ψ

variable (m : (ℓ : Loc nD τ sig) → Buf (Elt Ideal) ℓ) (ρ : Dev nD → PrngReg)

theorem st0_ofV (d : Dev nD) :
    (iprop((catsLoc d ↦{fullShare} m (catsLoc d)) ∗ (tpadLoc d ↦{fullShare} ftOf m d) ∗ out0Loc d ↦{fullShare} m (out0Loc d)) : sProp 𝕄)
      ⊢ bigSep Finset.univ fun c : Fin ((K (F := Ideal)).nCore 0) => (PV (UU := UU) m (ftOf m)).st 0 d c :=
  split0 m d (ftOf m d) (m (out0Loc d))
theorem dn0_toV (d : Dev nD) :
    (bigSep Finset.univ fun c : Fin ((K (F := Ideal)).nCore 0) => (PV (UU := UU) m (ftOf m)).dn 0 d c)
      ⊢ (iprop((catsLoc d ↦{fullShare} m (catsLoc d)) ∗ (tpadLoc d ↦{fullShare} ftOf m d)
          ∗ ∃ f, ⌜GatherAll (F := Ideal) 0 (m (catsLoc d)) (ftOf m d) f⌝ ∗ out0Loc d ↦{fullShare} f) : sProp 𝕄) :=
  join0V m d (ftOf m d)

theorem st1_ofV (d : Dev nD) :
    (iprop((catsLoc d ↦{fullShare} m (catsLoc d)) ∗ (tpadLoc d ↦{fullShare} ftOf m d) ∗ out1Loc d ↦{fullShare} m (out1Loc d)) : sProp 𝕄)
      ⊢ bigSep Finset.univ fun c : Fin ((K (F := Ideal)).nCore 1) => (PV (UU := UU) m (ftOf m)).st 1 d c :=
  split1 m d (ftOf m d) (m (out1Loc d))
theorem dn1_toV (d : Dev nD) :
    (bigSep Finset.univ fun c : Fin ((K (F := Ideal)).nCore 1) => (PV (UU := UU) m (ftOf m)).dn 1 d c)
      ⊢ (iprop((catsLoc d ↦{fullShare} m (catsLoc d)) ∗ (tpadLoc d ↦{fullShare} ftOf m d)
          ∗ ∃ f, ⌜GatherAll (F := Ideal) 1 (m (catsLoc d)) (ftOf m d) f⌝ ∗ out1Loc d ↦{fullShare} f) : sProp 𝕄) :=
  join1V m d (ftOf m d)

theorem st2_ofV (d : Dev nD) :
    (iprop((catsLoc d ↦{fullShare} m (catsLoc d)) ∗ (tpadLoc d ↦{fullShare} ftOf m d) ∗ out2Loc d ↦{fullShare} m (out2Loc d)) : sProp 𝕄)
      ⊢ bigSep Finset.univ fun c : Fin ((K (F := Ideal)).nCore 2) => (PV (UU := UU) m (ftOf m)).st 2 d c :=
  split2 m d (ftOf m d) (m (out2Loc d))
theorem dn2_toV (d : Dev nD) :
    (bigSep Finset.univ fun c : Fin ((K (F := Ideal)).nCore 2) => (PV (UU := UU) m (ftOf m)).dn 2 d c)
      ⊢ (iprop((catsLoc d ↦{fullShare} m (catsLoc d)) ∗ (tpadLoc d ↦{fullShare} ftOf m d)
          ∗ ∃ f, ⌜GatherAll (F := Ideal) 2 (m (catsLoc d)) (ftOf m d) f⌝ ∗ out2Loc d ↦{fullShare} f) : sProp 𝕄) :=
  join2V m d (ftOf m d)

theorem st3_ofV (d : Dev nD) :
    (iprop((catsLoc d ↦{fullShare} m (catsLoc d)) ∗ (tpadLoc d ↦{fullShare} ftOf m d) ∗ out3Loc d ↦{fullShare} m (out3Loc d)) : sProp 𝕄)
      ⊢ bigSep Finset.univ fun c : Fin ((K (F := Ideal)).nCore 3) => (PV (UU := UU) m (ftOf m)).st 3 d c :=
  split3 m d (ftOf m d) (m (out3Loc d))
theorem dn3_toV (d : Dev nD) :
    (bigSep Finset.univ fun c : Fin ((K (F := Ideal)).nCore 3) => (PV (UU := UU) m (ftOf m)).dn 3 d c)
      ⊢ (iprop((catsLoc d ↦{fullShare} m (catsLoc d)) ∗ (tpadLoc d ↦{fullShare} ftOf m d)
          ∗ ∃ f, ⌜GatherAll (F := Ideal) 3 (m (catsLoc d)) (ftOf m d) f⌝ ∗ out3Loc d ↦{fullShare} f) : sProp 𝕄) :=
  join3V m d (ftOf m d)

/-- The copy of the output so far into the next call's array leaves both at the copied contents. -/
theorem copy7_out (d : Dev nD) (h : Buf (Elt Ideal) ((SparseCore.T d).loc main_v7)) (f : Buf (Elt Ideal) ((SparseCore.T d).loc main_v8)) :
    (held (T d) {v7', v8'} ((opId78 (F := Ideal)).result (Function.update (Function.update (V0 m d) v7' h) v8' f)) : sProp 𝕄)
      ⊢ iprop(((SparseCore.T d).loc main_v7 ↦{fullShare} h) ∗ ((SparseCore.T d).loc main_v8 ↦{fullShare} h)) := by
  have e1 : (opId78 (F := Ideal)).result (Function.update (Function.update (V0 m d) v7' h) v8' f) v7' = h := by
    rw [(opId78 (F := Ideal)).result_of_not_mem _ (show v7' ∉ ({v8'} : Finset (DevRef τ sig)) by decide),
      Function.update_of_ne (show v7' ≠ v8' by decide), Function.update_self]
  have e2 : (opId78 (F := Ideal)).result (Function.update (Function.update (V0 m d) v7' h) v8' f) v8' = h := by
    rw [(opId78 (F := Ideal)).result_of_mem _ (show v8' ∈ ({v8'} : Finset (DevRef τ sig)) from Finset.mem_singleton_self _)]
    show Function.update (Function.update (V0 m d) v7' h) v8' f v7' = h
    rw [Function.update_of_ne (show v7' ≠ v8' by decide), Function.update_self]
  rw [held_pair d v7' v8' (by decide), e1, e2]

/-- The copy of the output so far into the next call's array leaves both at the copied contents. -/
theorem copy8_out (d : Dev nD) (h : Buf (Elt Ideal) ((SparseCore.T d).loc main_v8)) (f : Buf (Elt Ideal) ((SparseCore.T d).loc main_v9)) :
    (held (T d) {v8', v9'} ((opId89 (F := Ideal)).result (Function.update (Function.update (V0 m d) v8' h) v9' f)) : sProp 𝕄)
      ⊢ iprop(((SparseCore.T d).loc main_v8 ↦{fullShare} h) ∗ ((SparseCore.T d).loc main_v9 ↦{fullShare} h)) := by
  have e1 : (opId89 (F := Ideal)).result (Function.update (Function.update (V0 m d) v8' h) v9' f) v8' = h := by
    rw [(opId89 (F := Ideal)).result_of_not_mem _ (show v8' ∉ ({v9'} : Finset (DevRef τ sig)) by decide),
      Function.update_of_ne (show v8' ≠ v9' by decide), Function.update_self]
  have e2 : (opId89 (F := Ideal)).result (Function.update (Function.update (V0 m d) v8' h) v9' f) v9' = h := by
    rw [(opId89 (F := Ideal)).result_of_mem _ (show v9' ∈ ({v9'} : Finset (DevRef τ sig)) from Finset.mem_singleton_self _)]
    show Function.update (Function.update (V0 m d) v8' h) v9' f v8' = h
    rw [Function.update_of_ne (show v8' ≠ v9' by decide), Function.update_self]
  rw [held_pair d v8' v9' (by decide), e1, e2]

/-- The copy of the output so far into the next call's array leaves both at the copied contents. -/
theorem copy9_out (d : Dev nD) (h : Buf (Elt Ideal) ((SparseCore.T d).loc main_v9)) (f : Buf (Elt Ideal) ((SparseCore.T d).loc main_v10)) :
    (held (T d) {v9', v10'} ((opId910 (F := Ideal)).result (Function.update (Function.update (V0 m d) v9' h) v10' f)) : sProp 𝕄)
      ⊢ iprop(((SparseCore.T d).loc main_v9 ↦{fullShare} h) ∗ ((SparseCore.T d).loc main_v10 ↦{fullShare} h)) := by
  have e1 : (opId910 (F := Ideal)).result (Function.update (Function.update (V0 m d) v9' h) v10' f) v9' = h := by
    rw [(opId910 (F := Ideal)).result_of_not_mem _ (show v9' ∉ ({v10'} : Finset (DevRef τ sig)) by decide),
      Function.update_of_ne (show v9' ≠ v10' by decide), Function.update_self]
  have e2 : (opId910 (F := Ideal)).result (Function.update (Function.update (V0 m d) v9' h) v10' f) v10' = h := by
    rw [(opId910 (F := Ideal)).result_of_mem _ (show v10' ∈ ({v10'} : Finset (DevRef τ sig)) from Finset.mem_singleton_self _)]
    show Function.update (Function.update (V0 m d) v9' h) v10' f v9' = h
    rw [Function.update_of_ne (show v9' ≠ v10' by decide), Function.update_self]
  rw [held_pair d v9' v10' (by decide), e1, e2]

/-- What the result array holds at the end, stage by stage: the four gathered arrays, the four output arrays
    (each projection call starting from the previous one's), and the last one transposed. -/
def KernelOut (d : Dev nD) (y : Buf (Elt Ideal) ((SparseCore.T d : Thread nD τ).loc main_v11)) : Prop :=
  ∃ (g3 : Buf (Elt Ideal) (out0Loc d)) (g4 : Buf (Elt Ideal) (out1Loc d)) (g5 : Buf (Elt Ideal) (out2Loc d)) (g6 : Buf (Elt Ideal) (out3Loc d))
    (h7 : Buf (Elt Ideal) ((SparseCore.T d : Thread nD τ).loc main_v7)) (h8 : Buf (Elt Ideal) ((SparseCore.T d : Thread nD τ).loc main_v8))
    (h9 : Buf (Elt Ideal) ((SparseCore.T d : Thread nD τ).loc main_v9)) (h10 : Buf (Elt Ideal) ((SparseCore.T d : Thread nD τ).loc main_v10)),
    GatherAll (F := Ideal) 0 (m (catsLoc d)) (ftOf m d) g3 ∧ GatherAll (F := Ideal) 1 (m (catsLoc d)) (ftOf m d) g4
    ∧ GatherAll (F := Ideal) 2 (m (catsLoc d)) (ftOf m d) g5 ∧ GatherAll (F := Ideal) 3 (m (catsLoc d)) (ftOf m d) g6
    ∧ ProjBlk 0 g3 (V5 m d v1') (V5 m d v2') (m ((SparseCore.T d : Thread nD τ).loc main_v7)) h7
    ∧ ProjBlk 1 g4 (V5 m d v1') (V5 m d v2') h7 h8
    ∧ ProjBlk 2 g5 (V5 m d v1') (V5 m d v2') h8 h9
    ∧ ProjBlk 3 g6 (V5 m d v1') (V5 m d v2') h9 h10
    ∧ y = (opOut (F := Ideal)).result (Function.update (Function.update (V0 m d) v10' h10) v11' (m ((SparseCore.T d : Thread nD τ).loc main_v11))) v11'

/-- What @main leaves the claim: the arguments at their launch contents, the result at what `KernelOut` describes. -/
abbrev FINV (d : Dev nD) : sProp 𝕄 :=
  iprop(FIN m d ∗ ∃ y, ⌜KernelOut m d y⌝ ∗ (SparseCore.T d).loc main_v11 ↦{fullShare} y)

/-! ## @main, with what the arrays hold -/

set_option maxHeartbeats 4000000 in
/-- @main on device `d`'s TensorCore: as the frame's, and the result array ends at contents described by
    `KernelOut`. -/
theorem hmainV (hR0 : RegionSpecV0) (hR1 : RegionSpecV1) (hR2 : RegionSpecV2) (hR3 : RegionSpecV3)
    (κ : GSem nD τ sig → ℕ) (d : Dev nD) :
    iprop((K (F := Ideal)).ctx EH (PV m (ftOf m)) κ ∗ (K (F := Ideal)).tcSt EH d 0 ∗ (K (F := Ideal)).tcRes m ρ d ∗ G (F := Ideal) d)
      ⊢ wp frame (wpE ((K (F := Ideal)).defs (D (F := Ideal))) 𝒱 (SparseCore.T d) none) Set.univ (main d)
          fun _ => iprop((K (F := Ideal)).tcSt EH d 4 ∗ FINV m d) := by
  unfold SparseCore.Cfg.tcRes
  rw [unscoped_held, G_eq]
  simp only [main, fn_pad.body, wp_bind, wp_pure]
  iintro ⟨#Hctx, Hst, ⟨Hb, Hheld, -, -⟩, ⟨Hcg0, Htk0⟩, ⟨Hcg1, Htk1⟩, ⟨Hcg2, Htk2⟩, ⟨Hcg3, Htk3⟩⟩
  iapply (wp_hlo_within 𝒱 (SparseCore.T d) none Set.univ (op := opC) (S := S18) hC (V := V0 m d)) $$ [Hb Hheld]
  · isplitl [Hb] <;> iassumption
  iintro ⟨Hb, Hheld⟩
  rw [wp_ret]; imodintro
  iapply (wp_hlo_within 𝒱 (SparseCore.T d) none Set.univ (op := opCf) (S := S18) hCf (V := (opC (F := Ideal)).result (V0 m d))) $$ [Hb Hheld]
  · isplitl [Hb] <;> iassumption
  iintro ⟨Hb, Hheld⟩
  rw [wp_ret]; imodintro
  iapply (wp_hlo_within 𝒱 (SparseCore.T d) none Set.univ (op := opPad) (S := S18) hPad (V := (opCf (F := Ideal)).result ((opC (F := Ideal)).result (V0 m d)))) $$ [Hb Hheld]
  · isplitl [Hb] <;> iassumption
  iintro ⟨Hb, Hheld⟩
  rw [wp_ret]; imodintro; imodintro
  iapply (wp_hlo_within 𝒱 (SparseCore.T d) none Set.univ (op := opWt) (S := S18) hWt (V := (opPad (F := Ideal)).result ((opCf (F := Ideal)).result ((opC (F := Ideal)).result (V0 m d))))) $$ [Hb Hheld]
  · isplitl [Hb] <;> iassumption
  iintro ⟨Hb, Hheld⟩
  rw [wp_ret]; imodintro
  iapply (wp_hlo_within 𝒱 (SparseCore.T d) none Set.univ (op := opBc) (S := S18) hBc (V := (opWt (F := Ideal)).result ((opPad (F := Ideal)).result ((opCf (F := Ideal)).result ((opC (F := Ideal)).result (V0 m d)))))) $$ [Hb Hheld]
  · isplitl [Hb] <;> iassumption
  iintro ⟨Hb, Hheld⟩
  rw [wp_ret]; imodintro
  ihave Hh := (Entails.of_eq (held_V5 (F := Ideal) m d)) $$ Hheld
  icases Hh with ⟨Ha0, Ha1, Ha2, Ha3, Hc, Hcf, Hv0, Hv1, Hv2, Hv3, Hv4, Hv5, Hv6, Hv7, Hv8, Hv9, Hv10, Hv11⟩
  -- gather call 0
  iapply ((K (F := Ideal)).wp_run (D (F := Ideal)) 𝒱 (EH := EH) (P := PV m (ftOf m)) κ d 0) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv3]
  · iapply (st0_ofV m d)
    isplitl [Ha0]; · iexact Ha0
    isplitl [Hv0]; · iexact Hv0
    iexact Hv3
  iintro ⟨Hst, Hdn⟩
  ihave Hdn' := (dn0_toV m d) $$ Hdn
  icases Hdn' with ⟨Ha0, Hv0, ⟨%g3, %hg3, Hv3⟩⟩
  -- gather call 1
  iapply ((K (F := Ideal)).wp_run (D (F := Ideal)) 𝒱 (EH := EH) (P := PV m (ftOf m)) κ d 1) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv4]
  · iapply (st1_ofV m d)
    isplitl [Ha0]; · iexact Ha0
    isplitl [Hv0]; · iexact Hv0
    iexact Hv4
  iintro ⟨Hst, Hdn⟩
  ihave Hdn' := (dn1_toV m d) $$ Hdn
  icases Hdn' with ⟨Ha0, Hv0, ⟨%g4, %hg4, Hv4⟩⟩
  -- gather call 2
  iapply ((K (F := Ideal)).wp_run (D (F := Ideal)) 𝒱 (EH := EH) (P := PV m (ftOf m)) κ d 2) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv5]
  · iapply (st2_ofV m d)
    isplitl [Ha0]; · iexact Ha0
    isplitl [Hv0]; · iexact Hv0
    iexact Hv5
  iintro ⟨Hst, Hdn⟩
  ihave Hdn' := (dn2_toV m d) $$ Hdn
  icases Hdn' with ⟨Ha0, Hv0, ⟨%g5, %hg5, Hv5⟩⟩
  -- gather call 3
  iapply ((K (F := Ideal)).wp_run (D (F := Ideal)) 𝒱 (EH := EH) (P := PV m (ftOf m)) κ d 3) $$ [Hst Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3]
  isplitr; · iexact Hctx
  isplitl [Hst]; · iexact Hst
  isplitl [Ha0 Hv0 Hv6]
  · iapply (st3_ofV m d)
    isplitl [Ha0]; · iexact Ha0
    isplitl [Hv0]; · iexact Hv0
    iexact Hv6
  iintro ⟨Hst, Hdn⟩
  ihave Hdn' := (dn3_toV m d) $$ Hdn
  icases Hdn' with ⟨Ha0, Hv0, ⟨%g6, %hg6, Hv6⟩⟩
  ihave Hst := (Entails.of_eq (show ((K (F := Ideal)).tcSt (EH (F := Ideal)) d ((3 : Fin 4).val + 1) : sProp 𝕄) = (K (F := Ideal)).tcSt (EH (F := Ideal)) d 4 from rfl)) $$ Hst
  ihave Ho := (tcSt4_open (F := Ideal) d) $$ Hst
  icases Ho with ⟨⟨%W0, %hW0, HO⟩, Hclose⟩
  ihave #Hlev := ((K (F := Ideal)).ctx_levAts (EH := EH) (P := PV m (ftOf m)) κ) $$ Hctx
  -- projection call 0
  iapply (hR0 d W0 hW0 _ _ _ _ _) $$ [Hb Ha0 Ha1 Ha2 Ha3 Hc Hcf Hv0 Hv1 Hv2 Hv3 Hv4 Hv5 Hv6 Hv7 Hv8 Hv9 Hv10 Hv11 Hcg0 Htk0 Hcg1 Htk1 Hcg2 Htk2 Hcg3 Htk3 HO Hclose]
  isplitr [Hb HO Hv3 Hv1 Hv2 Hv7 Hcg0 Htk0]
  swap
  · isplitl [Hb]; · iexact Hb
    isplitr; · iexact Hlev
    isplitl [HO]; · iexact HO
    isplitl [Hv3]; · iexact Hv3
    isplitl [Hv1]; · iexact Hv1
    isplitl [Hv2]; · iexact Hv2
    isplitl [Hv7]; · iexact Hv7
    isplitl [Hcg0]; · iexact Hcg0
    iexact Htk0
  iintro ⟨Hb, Hv3, Hv1, Hv2, ⟨%h7, %hh7, Hv7⟩, %W1, %hW1, HO⟩
  iapply (wp_hlo_within 𝒱 (SparseCore.T d) none Set.univ (op := opId78) (S := {v7', v8'}) (Finset.Subset.refl _)
      (V := Function.update (Function.update (V0 m d) v7' h7) v8' (m ((SparseCore.T d).loc main_v8)))) $$ [Hb Hv7 Hv8]
  · isplitl [Hb]; · iexact Hb
    iapply (held_pair_mk m d v7' v8' (by decide) _ _)
    isplitl [Hv7] <;> iassumption
  iintro ⟨Hb, Hheld⟩
  rw [wp_ret]; imodintro
  ihave Hp := (copy7_out m d h7 _) $$ Hheld
  icases Hp with ⟨Hv7, Hv8⟩
  -- projection call 1
  iapply (hR1 d W1 hW1 _ _ _ _ _) $$ [Hb Ha0 Ha1 Ha2 Ha3 Hc Hcf Hv0 Hv1 Hv2 Hv3 Hv4 Hv5 Hv6 Hv7 Hv8 Hv9 Hv10 Hv11 Hcg1 Htk1 Hcg2 Htk2 Hcg3 Htk3 HO Hclose]
  isplitr [Hb HO Hv4 Hv1 Hv2 Hv8 Hcg1 Htk1]
  swap
  · isplitl [Hb]; · iexact Hb
    isplitr; · iexact Hlev
    isplitl [HO]; · iexact HO
    isplitl [Hv4]; · iexact Hv4
    isplitl [Hv1]; · iexact Hv1
    isplitl [Hv2]; · iexact Hv2
    isplitl [Hv8]; · iexact Hv8
    isplitl [Hcg1]; · iexact Hcg1
    iexact Htk1
  iintro ⟨Hb, Hv4, Hv1, Hv2, ⟨%h8, %hh8, Hv8⟩, %W2, %hW2, HO⟩
  iapply (wp_hlo_within 𝒱 (SparseCore.T d) none Set.univ (op := opId89) (S := {v8', v9'}) (Finset.Subset.refl _)
      (V := Function.update (Function.update (V0 m d) v8' h8) v9' (m ((SparseCore.T d).loc main_v9)))) $$ [Hb Hv8 Hv9]
  · isplitl [Hb]; · iexact Hb
    iapply (held_pair_mk m d v8' v9' (by decide) _ _)
    isplitl [Hv8] <;> iassumption
  iintro ⟨Hb, Hheld⟩
  rw [wp_ret]; imodintro
  ihave Hp := (copy8_out m d h8 _) $$ Hheld
  icases Hp with ⟨Hv8, Hv9⟩
  -- projection call 2
  iapply (hR2 d W2 hW2 _ _ _ _ _) $$ [Hb Ha0 Ha1 Ha2 Ha3 Hc Hcf Hv0 Hv1 Hv2 Hv3 Hv4 Hv5 Hv6 Hv7 Hv8 Hv9 Hv10 Hv11 Hcg2 Htk2 Hcg3 Htk3 HO Hclose]
  isplitr [Hb HO Hv5 Hv1 Hv2 Hv9 Hcg2 Htk2]
  swap
  · isplitl [Hb]; · iexact Hb
    isplitr; · iexact Hlev
    isplitl [HO]; · iexact HO
    isplitl [Hv5]; · iexact Hv5
    isplitl [Hv1]; · iexact Hv1
    isplitl [Hv2]; · iexact Hv2
    isplitl [Hv9]; · iexact Hv9
    isplitl [Hcg2]; · iexact Hcg2
    iexact Htk2
  iintro ⟨Hb, Hv5, Hv1, Hv2, ⟨%h9, %hh9, Hv9⟩, %W3, %hW3, HO⟩
  iapply (wp_hlo_within 𝒱 (SparseCore.T d) none Set.univ (op := opId910) (S := {v9', v10'}) (Finset.Subset.refl _)
      (V := Function.update (Function.update (V0 m d) v9' h9) v10' (m ((SparseCore.T d).loc main_v10)))) $$ [Hb Hv9 Hv10]
  · isplitl [Hb]; · iexact Hb
    iapply (held_pair_mk m d v9' v10' (by decide) _ _)
    isplitl [Hv9] <;> iassumption
  iintro ⟨Hb, Hheld⟩
  rw [wp_ret]; imodintro
  ihave Hp := (copy9_out m d h9 _) $$ Hheld
  icases Hp with ⟨Hv9, Hv10⟩
  -- projection call 3
  iapply (hR3 d W3 hW3 _ _ _ _ _) $$ [Hb Ha0 Ha1 Ha2 Ha3 Hc Hcf Hv0 Hv1 Hv2 Hv3 Hv4 Hv5 Hv6 Hv7 Hv8 Hv9 Hv10 Hv11 Hcg3 Htk3 HO Hclose]
  isplitr [Hb HO Hv6 Hv1 Hv2 Hv10 Hcg3 Htk3]
  swap
  · isplitl [Hb]; · iexact Hb
    isplitr; · iexact Hlev
    isplitl [HO]; · iexact HO
    isplitl [Hv6]; · iexact Hv6
    isplitl [Hv1]; · iexact Hv1
    isplitl [Hv2]; · iexact Hv2
    isplitl [Hv10]; · iexact Hv10
    isplitl [Hcg3]; · iexact Hcg3
    iexact Htk3
  iintro ⟨Hb, Hv6, Hv1, Hv2, ⟨%h10, %hh10, Hv10⟩, %W4, %hW4, HO⟩
  -- the final transpose
  iapply (wp_hlo_within 𝒱 (SparseCore.T d) none Set.univ (op := opOut) (S := {v10', v11'}) (Finset.Subset.refl _)
      (V := Function.update (Function.update (V0 m d) v10' h10) v11' (m ((SparseCore.T d).loc main_v11)))) $$ [Hb Hv10 Hv11]
  · isplitl [Hb]; · iexact Hb
    iapply (held_pair_mk m d v10' v11' (by decide) _ _)
    isplitl [Hv10] <;> iassumption
  iintro ⟨Hb, Hheld⟩
  rw [wp_ret]; imodintro; imodintro
  ihave Hp := (Entails.of_eq (held_pair (F := Ideal) d v10' v11' (by decide) _)) $$ Hheld
  icases Hp with ⟨-, Hv11⟩
  isplitl [Hclose HO]
  · iapply Hclose
    iexists W4; isplitr
    · ipureintro; exact hW4
    · iexact HO
  isplitl [Ha0 Ha1 Ha2 Ha3]
  · isplitl [Ha0]; · iexact Ha0
    isplitl [Ha1]; · iexact Ha1
    isplitl [Ha2]; · iexact Ha2
    iexact Ha3
  iexists _
  isplitr
  · ipureintro
    exact ⟨g3, g4, g5, g6, h7, h8, h9, h10, hg3, hg4, hg5, hg6, hh7, hh8, hh9, hh10, rfl⟩
  · iexact Hv11

end Cert.Proof.LaunchI

end
-- ==== Proof.Region4Pay.lean ====
/-
  What the first projection kernel's body stores, slice by slice.

  For history position l the body stores, as slice l of its 50 x 64 x 512 output block, the 64 x 512 matrix
      out[o, j] = sum_e W[e, o] * x[j, l, e] + bias[o]
  (W the staged transposed weights, x the staged block of 512 gathered batch entries): the contraction of the
  weights with the position's 512 x 64 slice, plus the bias column broadcast along the batch. The fifty stores
  are listed here as pieces over the output block.
-/
import proofs.«204056_g19739669692900_cont_8to1_1488_31_alg».proof.Proof.Region4Body

noncomputable section

namespace Cert.Proof.Region4

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The block the body leaves, as one function -/

theorem inbIn (l : Fin 50) : ∀ a : Fin (Nat.succ 2), ![0, l.val, 0] a + S512x1x64.size a ≤ S512x50x64.size a := by
  intro a
  have := l.isLt
  match a with
  | ⟨0, _⟩ => show 0 + 512 ≤ 512; omega
  | ⟨1, _⟩ => show l.val + 1 ≤ 50; omega
  | ⟨2, _⟩ => show 0 + 64 ≤ 64; omega

theorem inbOut (l : Fin 50) : ∀ a : Fin (Nat.succ 2), ![l.val, 0, 0] a + S1x64x512.size a ≤ S50x64x512.size a := by
  intro a
  have := l.isLt
  match a with
  | ⟨0, _⟩ => show l.val + 1 ≤ 50; omega
  | ⟨1, _⟩ => show 0 + 64 ≤ 64; omega
  | ⟨2, _⟩ => show 0 + 512 ≤ 512; omega

/-- One history position's result: the weights contracted with the position's 512 x 64 slice, plus the bias column
    broadcast along the batch. -/
def PAY (W : FVec F S64x64 .f32) (b : FVec F S64x1 .f32) (x : Vec F S512x1x64 .f32) : FVec F S1x64x512 .f32 :=
  shapeCast S1x64x512 (addf (matmul dot_S64x64_S512x64_S64x512_0_1_1_0_n_n none W (shapeCast S512x64 x shapeCasts_S512x1x64_S512x64)
    (constant S64x512 .f32 0x00000000#32)) (broadcastTo S64x512 b broadcasts_S64x1_S64x512)) shapeCasts_S64x512_S1x64x512

section Pieces

variable (c : Dev nD) (M1 : Memref sig .tc .vmem S512x50x64 .f32) (M2 : Memref sig .tc .vmem S64x64 .f32)
  (M3 : Memref sig .tc .vmem S64x1 .f32) (f1 : Bf (F := F) c M1) (f2 : Bf (F := F) c M2) (f3 : Bf (F := F) c M3)

/-- The weights and the bias as the body loads them. -/
def Wv : FVec F S64x64 .f32 :=
  shapeCast S64x64 (View.readAt (Elt F) M2.view (Rect.unit (s := S64x64) ![0, 0] S64x64.size inb_S64x64_S64x64_0_0).toLoadRect f2) shapeCasts_S64x64_S64x64
def bv : FVec F S64x1 .f32 :=
  shapeCast S64x1 (View.readAt (Elt F) M3.view (Rect.unit (s := S64x1) ![0, 0] S64x1.size inb_S64x1_S64x1_0_0).toLoadRect f3) shapeCasts_S64x1_S64x1

/-- Slice `l` of the output block and what the body stores there. -/
def piece (l : Fin 50) : View.Piece (Elt F) S50x64x512 .f32 :=
  ⟨Rect.unit (s := S50x64x512) ![l.val, 0, 0] S1x64x512.size (inbOut l),
    PAY (Wv c M2 f2) (bv c M3 f3) (View.readAt (Elt F) M1.view (Rect.unit (s := S512x50x64) ![0, l.val, 0] S512x1x64.size (inbIn l)).toLoadRect f1)⟩

/-- The first `n` slices' stores, the last first. -/
def pieces : (n : ℕ) → n ≤ 50 → List (View.Piece (Elt F) S50x64x512 .f32)
  | 0, _ => []
  | n + 1, h => piece c M1 M2 M3 f1 f2 f3 ⟨n, h⟩ :: pieces n (Nat.le_of_succ_le h)

end Pieces

end Cert.Proof.Region4

end
-- ==== Proof.Region4Run.lean ====
/-
  The body of the first projection kernel run once more, now NAMING what it leaves in the output block: the
  fifty slices' stores over whatever the block held (every element of the block is in one of them).
-/
import proofs.«204056_g19739669692900_cont_8to1_1488_31_alg».proof.Proof.Region4Pay

noncomputable section

namespace Cert.Proof.Region4

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Ix : Type} [DecidableEq Ix] {UU : Type} [URA UU]

local notation "𝕄" => MT nD τ sig Ix (Elt F) ℕ UU ℕ

set_option maxHeartbeats 4000000 in
/-- The output block's contents after the body, with the proof that from the four buffers held whole the body runs to
    its return handing back the three inputs unchanged and the output block at those contents. -/
noncomputable def run4v (c : Dev nD) (i : grid4.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (M4 : Memref sig .tc .vmem S50x64x512 .f32) (h4 : M4.IsWhole)
    (f1 : Bf (F := F) c M1) (f2 : Bf (F := F) c M2) (f3 : Bf (F := F) c M3) :
    { Wo : Bf (F := F) c M4 // ∀ (f4 : Bf (F := F) c M4) (E : Set ℕ) (Q : PUnit → sProp 𝕄),
        iprop(pt c M1 f1 ∗ pt c M2 f2 ∗ pt c M3 f3 ∗ pt c M4 f4
            ∗ (iprop(pt c M1 f1 ∗ pt c M2 f2 ∗ pt c M3 f3 ∗ pt c M4 Wo) -∗ Q ⟨⟩))
          ⊢ wp frame (wpE (defs₀ (F := F)) Variants.none c none) E (cc4_body i M1 h1 M2 h2 M3 h3 M4 h4) Q } := by
  refine ⟨?_, fun f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxRecDepth 65536 in
set_option maxHeartbeats 4000000 in
/-- The contents found are the fifty slices' stores over whatever the block held. -/
theorem bridge (c : Dev nD) (i : grid4.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (M4 : Memref sig .tc .vmem S50x64x512 .f32) (h4 : M4.IsWhole)
    (f1 : Bf (F := F) c M1) (f2 : Bf (F := F) c M2) (f3 : Bf (F := F) c M3) :
    (run4v (Ix := Ix) (UU := UU) c i M1 h1 M2 h2 M3 h3 M4 h4 f1 f2 f3).1
      = M4.view.writes (Elt F) M4.view.junk (pieces c M1 M2 M3 f1 f2 f3 50 le_rfl) := rfl

end Cert.Proof.Region4

end
-- ==== Proof.Region4Read.lean ====
/-
  What the first projection kernel's body leaves in its output block, read at an index.

  The block after the body is the fifty slices' stores; element (l, o, j) lies in slice l alone and holds what
  was stored there: row o of the staged weights (as a column of the transposed matrix) contracted with batch entry
  j's gathered row at history position l, plus the bias at o. At the exact values the contraction is the sum
      sum_e W[e, o] * x[j, l, e] + bias[o].
-/
import proofs.«204056_g19739669692900_cont_8to1_1488_31_alg».proof.Proof.Region4Run
import Idealize.ShloMosaic.Lib.Writes
import Idealize.ShloMosaic.Lib.ValueIdx
import Idealize.ShloMosaic.Lib.Pipeline.Value
import Idealize.ShloMosaic.PureOps.Ideal.Laws

noncomputable section

namespace Cert.Proof.Region4

open Cert.KernelIdeal Cert.KernelIdeal.Gen

open Idealize.ShloMosaic Idealize.ShloMosaic.ValueIdx
open Idealize.ShloMosaic.TcCoe

variable {F : FTy → Type} [FloatOps F]

section Read

variable (c : Dev nD) (M1 : Memref sig .tc .vmem S512x50x64 .f32) (M2 : Memref sig .tc .vmem S64x64 .f32)
  (M3 : Memref sig .tc .vmem S64x1 .f32) (f1 : Bf (F := F) c M1) (f2 : Bf (F := F) c M2) (f3 : Bf (F := F) c M3)

/-- Slice `l` of the output block. -/
abbrev slab (l : Fin 50) : Rect S50x64x512 := Rect.unit (s := S50x64x512) ![l.val, 0, 0] S1x64x512.size (inbOut l)

omit [FloatOps F] in
/-- Slice `l`'s rectangle places its own index `(0, o, j)` at `(l, o, j)` of the block. -/
theorem slab_emb (l : Fin 50) (o : Fin 64) (j : Fin 512) : (slab l).emb (ix3 (0 : Fin 1) o j) = ix3 l o j := by
  funext a
  refine Fin.ext ?_
  rw [Rect.emb_apply]
  simp only [slab, Rect.off_unit, Rect.stride_unit, Nat.one_mul]
  match a with
  | ⟨0, _⟩ => show l.val + 0 = l.val; omega
  | ⟨1, _⟩ => show 0 + o.val = o.val; omega
  | ⟨2, _⟩ => show 0 + j.val = j.val; omega

omit [FloatOps F] in
/-- An element of slice `l` is in no other slice. -/
theorem not_mem_slab {l l' : Fin 50} (h : l ≠ l') (o : Fin 64) (j : Fin 512) :
    ix3 l o j ∉ Finset.univ.map (slab l').emb := by
  rw [Rect.map_emb_univ]
  intro hm
  have h0 := (Rect.mem_set_unit (s := S50x64x512) (off := ![l'.val, 0, 0]) (size := S1x64x512.size) (inb := inbOut l') (i := ix3 l o j)).mp hm ⟨0, by decide⟩
  have : l.val = l'.val := by
    have h1 : l'.val ≤ l.val := h0.1
    have h2 : l.val < l'.val + 1 := h0.2
    omega
  exact h (Fin.ext this)

/-- History position `l`'s 512 x 1 x 64 slice of the staged block of gathered rows, as the body loads it. -/
abbrev xslice (l : Fin 50) : Vec F S512x1x64 .f32 :=
  View.readAt (Elt F) M1.view (Rect.unit (s := S512x50x64) ![0, l.val, 0] S512x1x64.size (inbIn l)).toLoadRect f1

/-- After the first `n` slices' stores over any contents, slice `l < n` of the block reads what was stored there. -/
theorem read_pieces (M4 : Memref sig .tc .vmem S50x64x512 .f32) (g : Bf (F := F) c M4) :
    ∀ (n : ℕ) (hn : n ≤ 50) (l : Fin 50), l.val < n → ∀ (o : Fin 64) (j : Fin 512),
      M4.view.read (Elt F) (M4.view.writes (Elt F) g (pieces c M1 M2 M3 f1 f2 f3 n hn)) (ix3 l o j)
        = PAY (Wv c M2 f2) (bv c M3 f3) (xslice c M1 f1 l) (ix3 (0 : Fin 1) o j)
  | 0, _, _, hl, _, _ => absurd hl (Nat.not_lt_zero _)
  | n + 1, hn, l, hl, o, j => by
    rw [pieces]
    by_cases e : l.val = n
    · obtain rfl : l = ⟨n, hn⟩ := Fin.ext e
      rw [← slab_emb ⟨n, hn⟩ o j]
      exact View.read_writes_cons_emb _ _ (slab ⟨n, hn⟩) (piece c M1 M2 M3 f1 f2 f3 ⟨n, hn⟩).2 _ _
    · have hnm := not_mem_slab (l' := ⟨n, hn⟩) (fun h => e (congrArg Fin.val h)) o j
      refine (View.read_slice_write_of_not_mem (v := M4.view) (slab ⟨n, hn⟩) _ (piece c M1 M2 M3 f1 f2 f3 ⟨n, hn⟩).2 Finset.univ hnm).trans ?_
      exact read_pieces M4 g n (Nat.le_of_succ_le hn) l (by omega) o j

/-- The loaded weights, bias and slices read the staged buffers through their memrefs. -/
theorem Wv_apply (e o : Fin 64) : Wv c M2 f2 (ix2 e o) = M2.view.read (Elt F) f2 (ix2 e o) := by
  unfold Wv
  refine (congrFun (shapeCast_self (s := S64x64) _ _) _).trans ?_
  rw [View.readAt_apply]
  congr 1
  funext a; refine Fin.ext ?_
  rw [LoadRect.idx_apply]
  match a with
  | ⟨0, _⟩ => show 0 + 1 * e.val = e.val; omega
  | ⟨1, _⟩ => show 0 + 1 * o.val = o.val; omega

theorem bv_apply (o : Fin 64) : bv c M3 f3 (ix2 o (0 : Fin 1)) = M3.view.read (Elt F) f3 (ix2 o (0 : Fin 1)) := by
  unfold bv
  refine (congrFun (shapeCast_self (s := S64x1) _ _) _).trans ?_
  rw [View.readAt_apply]
  congr 1
  funext a; refine Fin.ext ?_
  rw [LoadRect.idx_apply]
  match a with
  | ⟨0, _⟩ => show 0 + 1 * o.val = o.val; omega
  | ⟨1, _⟩ => show 0 + 1 * 0 = 0; omega

theorem xslice_apply (l : Fin 50) (j : Fin 512) (e : Fin 64) :
    xslice c M1 f1 l (ix3 j (0 : Fin 1) e) = M1.view.read (Elt F) f1 (ix3 j l e) := by
  unfold xslice
  rw [View.readAt_apply]
  congr 1
  funext a; refine Fin.ext ?_
  rw [LoadRect.idx_apply]
  match a with
  | ⟨0, _⟩ => show 0 + 1 * j.val = j.val; omega
  | ⟨1, _⟩ => show l.val + 1 * 0 = l.val; omega
  | ⟨2, _⟩ => show 0 + 1 * e.val = e.val; omega

end Read

/-! ## At the exact values -/

/-- One slice's stored value at the exact values: the contraction as a sum over the 64 features, plus the bias. -/
theorem PAY_apply (W : FVec Ideal S64x64 .f32) (b : FVec Ideal S64x1 .f32) (x : Vec Ideal S512x1x64 .f32) (o : Fin 64) (j : Fin 512) :
    PAY W b x (ix3 (0 : Fin 1) o j) = (∑ e : Fin 64, W (ix2 e o) * x (ix3 j (0 : Fin 1) e)) + b (ix2 o (0 : Fin 1)) := by
  unfold PAY
  rw [shapeCast_addUnit_apply (n := 2) (d := ![64, 512])]
  rw [show (fun a : Fin 2 => (ix3 (0 : Fin 1) o j) a.succ) = ix2 o j from by funext a; match a with | ⟨0, _⟩ => rfl | ⟨1, _⟩ => rfl]
  rw [addf_apply]
  simp only [matmul]
  rw [Ideal.matmul_constant_zero_apply]
  have hl : ∀ e : Fin 64, dot_S64x64_S512x64_S64x512_0_1_1_0_n_n.lhsIdx (ix2 o j)
      ((contrEquiv1 dot_S64x64_S512x64_S64x512_0_1_1_0_n_n 64 rfl rfl).symm e) = ix2 e o := by
    intro e; funext a; refine Fin.ext ?_
    match a with
    | ⟨0, _⟩ =>
      rw [dot_S64x64_S512x64_S64x512_0_1_1_0_n_n.lhsIdx_val_of_single (cl := ⟨0, by decide⟩) rfl]
      exact contrEquiv1_symm_val dot_S64x64_S512x64_S64x512_0_1_1_0_n_n 64 rfl rfl e
    | ⟨1, _⟩ =>
      simp [DotDims.lhsIdx, dot_S64x64_S512x64_S64x512_0_1_1_0_n_n]
      rfl
  have hr : ∀ e : Fin 64, dot_S64x64_S512x64_S64x512_0_1_1_0_n_n.rhsIdx (ix2 o j)
      ((contrEquiv1 dot_S64x64_S512x64_S64x512_0_1_1_0_n_n 64 rfl rfl).symm e) = ix2 j e := by
    intro e; funext a; refine Fin.ext ?_
    match a with
    | ⟨0, _⟩ =>
      simp [DotDims.rhsIdx, dot_S64x64_S512x64_S64x512_0_1_1_0_n_n]
      rfl
    | ⟨1, _⟩ =>
      rw [dot_S64x64_S512x64_S64x512_0_1_1_0_n_n.rhsIdx_val_of_single (cr := ⟨1, by decide⟩) rfl]
      exact contrEquiv1_symm_val dot_S64x64_S512x64_S64x512_0_1_1_0_n_n 64 rfl rfl e
  rw [← Equiv.sum_comp (contrEquiv1 dot_S64x64_S512x64_S64x512_0_1_1_0_n_n 64 rfl rfl).symm]
  simp only [hl, hr]
  have hx : ∀ e : Fin 64, shapeCast S512x64 x shapeCasts_S512x1x64_S512x64 (ix2 j e) = x (ix3 j (0 : Fin 1) e) := fun e =>
    shapeCast_apply x shapeCasts_S512x1x64_S512x64 (ix2 j e) (ix3 j (0 : Fin 1) e) (by
      rw [Shape.rowMajor_val_three, Shape.rowMajor_val_two]
      show (j.val * 1 + 0) * 64 + e.val = j.val * 64 + e.val
      omega)
  have hb : broadcastTo S64x512 b broadcasts_S64x1_S64x512 (ix2 o j) = b (ix2 o (0 : Fin 1)) :=
    broadcastTo_apply b broadcasts_S64x1_S64x512 (ix2 o j) (ix2 o (0 : Fin 1)) (fun a => by
      match a with
      | ⟨0, _⟩ => rfl
      | ⟨1, _⟩ => rfl)
  simp only [hx, hb]

/-- **The body's output block, named.** After the body, element `(l, o, j)` of the output block — whatever the block
    held before — is the contraction of the staged weights' column `o` with the staged batch entry `j`'s row at history
    position `l`, plus the staged bias at `o`. -/
theorem run_value {Ix : Type} [DecidableEq Ix] {UU : Type} [Idealize.SL.RA.URA UU] (c : Dev nD) (i : grid4.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (M4 : Memref sig .tc .vmem S50x64x512 .f32) (h4 : M4.IsWhole)
    (f1 : Bf (F := Ideal) c M1) (f2 : Bf (F := Ideal) c M2) (f3 : Bf (F := Ideal) c M3) (l : Fin 50) (o : Fin 64) (j : Fin 512) :
    M4.view.read (Elt Ideal) (run4v (F := Ideal) (Ix := Ix) (UU := UU) c i M1 h1 M2 h2 M3 h3 M4 h4 f1 f2 f3).1 (ix3 l o j)
      = (∑ e : Fin 64, (M2.view.read (Elt Ideal) f2 : FVec Ideal S64x64 .f32) (ix2 e o)
            * (M1.view.read (Elt Ideal) f1 : FVec Ideal S512x50x64 .f32) (ix3 j l e))
          + (M3.view.read (Elt Ideal) f3 : FVec Ideal S64x1 .f32) (ix2 o (0 : Fin 1)) := by
  rw [bridge, read_pieces c M1 M2 M3 f1 f2 f3 M4 _ 50 le_rfl l l.isLt o j, PAY_apply]
  simp only [Wv_apply, bv_apply, xslice_apply]

end Cert.Proof.Region4

end
-- ==== Proof.Region4Val.lean ====
/-
  Projection kernel number 1 as a region of the TensorCore's program, with what it writes.

  At grid point t the body is handed block t of the gathered rows (batch entries 512 t … 512 t + 511) and the whole
  transposed weights and bias column, and leaves in the output's staging buffer the block
      out_t[l, o, j] = sum_e W[e, o] * x[512 t + j, l, e] + bias[o, 0];
  the pipeline writes that block back to columns 0 + 512 t … 0 + 512 t + 511 of the output array. After the eight points
  the output array holds the projection of the 4096 gathered batch entries in its columns 0 … 4095 and what it
  held at entry in every other column; the three arrays the region reads are unchanged.
-/
import proofs.«204056_g19739669692900_cont_8to1_1488_31_alg».proof.Proof.Region4Read
import proofs.«204056_g19739669692900_cont_8to1_1488_31_alg».proof.Proof.Region4
import proofs.«204056_g19739669692900_cont_8to1_1488_31_alg».proof.Proof.LaunchMainV
import Idealize.ShloMosaic.Lib.Pipeline.FrameBody

noncomputable section

namespace Cert.Proof.Region4

open Cert.KernelIdeal Cert.KernelIdeal.Gen

open Idealize.ShloMosaic Idealize.ShloMosaic.ValueIdx
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.LaunchI (ProjBlk)

variable {UU : Type} [URA UU]

local notation "𝕄" => MT nD τ sig (HIx 4) (Elt Ideal) ℕ UU ℕ

/-! ## What a grid point's output block holds -/

theorem N4 : cfg4.N = 8 := N_4

/-- At grid point `t` the output block is the projection of batch entries `512 t … 512 t + 511`: element `(l, o, j)` is the
    weights' column `o` contracted with entry `512 t + j`'s gathered row at history position `l`, plus the bias at `o`. -/
def BlkOK (x : FVec Ideal S4096x50x64 .f32) (w : FVec Ideal S64x64 .f32) (b : FVec Ideal S64x1 .f32) (t : Fin cfg4.N)
    (X : FVec Ideal S50x64x512 .f32) : Prop :=
  ∀ (l : Fin 50) (o : Fin 64) (j : Fin 512),
    X (ix3 l o j) = (∑ e : Fin 64, w (ix2 e o) * x (ix3 (⟨512 * t.val + j.val, by have := lt_of_lt_of_eq t.isLt N4; omega⟩ : Fin 4096) l e))
      + b (ix2 o (0 : Fin 1))

/-- The region's proof data with values: an input's staging buffer is left as found, the output's holds the point's block. -/
def rd4v (c : Dev nD) (A : (w : Fin cfg4.W) → Buf (Elt Ideal) ((cfg4.win w).arr.view.loc (c.tc : Thread nD τ))) :
    RDat τ (Elt Ideal) (HIx 4) ℕ UU ℕ cfg4 c where
  A := A
  after w t := match w with
    | ⟨0, _⟩ => fun Y X => X = Y
    | ⟨1, _⟩ => fun Y X => X = Y
    | ⟨2, _⟩ => fun Y X => X = Y
    | ⟨3, _⟩ => fun _ X => BlkOK (A 0) (A 1) (A 2) t X
    | ⟨_ + 4, h⟩ => absurd h (Nat.not_lt.2 (Nat.le_add_left _ _))
  Φ _ := Pipeline.scopedRest spec4 c
  q _ := fullShare
  owed _ := 0
  recorded _ := Bd (F := Ideal) c

/-- Window 0's block index at point `t` is `(t, 0, 0)`; the output window's is `(0, 0, t)`. -/
theorem idx4_0 : ∀ t : Fin grid4.N, win4_0.index t = ![t.val, 0, 0] := by decide +kernel
theorem idx4_3 : ∀ t : Fin grid4.N, win4_3.index t = ![0, 0, 8 * 0 + t.val] := by decide +kernel
theorem idx4_1 : ∀ t : Fin grid4.N, win4_1.index t = ![0, 0] := by decide +kernel
theorem idx4_2 : ∀ t : Fin grid4.N, win4_2.index t = ![0, 0] := by decide +kernel

section Finds

variable (c : Dev nD) (A : (w : Fin cfg4.W) → Buf (Elt Ideal) ((cfg4.win w).arr.view.loc (c.tc : Thread nD τ)))

/-- The gathered rows' staging buffer holds, at point `t`, batch entries `512 t … 512 t + 511` of the array. -/
theorem finds0 (t : Fin cfg4.N) (Y : (cfg4.win 0).block.Idx → Elt Ideal (cfg4.win 0).elt)
    (hY : (rd4v (UU := UU) c A).Finds 0 t Y) (j : Fin 512) (l : Fin 50) (e : Fin 64) :
    (Y : FVec Ideal S512x50x64 .f32) (ix3 j l e)
      = (A 0 : FVec Ideal S4096x50x64 .f32) (ix3 (⟨512 * t.val + j.val, by have := lt_of_lt_of_eq t.isLt N4; omega⟩ : Fin 4096) l e) := by
  obtain ⟨d, rfl⟩ := RDat.finds_in_eq_fetched (rd4v (UU := UU) c A) 0 rfl (fun _ _ _ => rfl) (fun _ _ _ h => h) t Y hY
  show ((cfg4.win 0).blk t).view.read (Elt Ideal) (A 0) (ix3 j l e) = _
  have hemb : ((cfg4.win 0).blk t).view.emb (ix3 j l e)
      = ix3 (⟨512 * t.val + j.val, by have := lt_of_lt_of_eq t.isLt N4; omega⟩ : Fin 4096) l e := by
    funext a; refine Fin.ext ?_
    show win4_0.index t a * win4_0.size a + 1 * (ix3 j l e a).val = _
    rw [idx4_0 t]
    match a with
    | ⟨0, _⟩ => show t.val * 512 + 1 * j.val = 512 * t.val + j.val; omega
    | ⟨1, _⟩ => show 0 * 50 + 1 * l.val = l.val; omega
    | ⟨2, _⟩ => show 0 * 64 + 1 * e.val = e.val; omega
  show (A 0) (((cfg4.win 0).blk t).view.emb (ix3 j l e)) = _
  rw [hemb]

/-- The weights' and the bias's staging buffers hold the whole arrays at every point (fetched once, left as found). -/
theorem finds1 (t : Fin cfg4.N) (Y : (cfg4.win 1).block.Idx → Elt Ideal (cfg4.win 1).elt)
    (hY : (rd4v (UU := UU) c A).Finds 1 t Y) : (Y : FVec Ideal S64x64 .f32) = (A 1 : FVec Ideal S64x64 .f32) := by
  obtain ⟨d, rfl⟩ := RDat.finds_in_eq_fetched (rd4v (UU := UU) c A) 1 rfl (fun _ _ _ => rfl) (fun _ _ _ h => h) t Y hY
  show ((cfg4.win 1).blk t).view.read (Elt Ideal) (A 1) = _
  funext y
  show (A 1) (((cfg4.win 1).blk t).view.emb y) = A 1 y
  congr 1
  funext a; refine Fin.ext ?_
  show win4_1.index t a * win4_1.size a + 1 * (y a).val = (y a).val
  rw [idx4_1 t]
  match a with
  | ⟨0, _⟩ => show 0 * 64 + 1 * _ = _; omega
  | ⟨1, _⟩ => show 0 * 64 + 1 * _ = _; omega

theorem finds2 (t : Fin cfg4.N) (Y : (cfg4.win 2).block.Idx → Elt Ideal (cfg4.win 2).elt)
    (hY : (rd4v (UU := UU) c A).Finds 2 t Y) : (Y : FVec Ideal S64x1 .f32) = (A 2 : FVec Ideal S64x1 .f32) := by
  obtain ⟨d, rfl⟩ := RDat.finds_in_eq_fetched (rd4v (UU := UU) c A) 2 rfl (fun _ _ _ => rfl) (fun _ _ _ h => h) t Y hY
  show ((cfg4.win 2).blk t).view.read (Elt Ideal) (A 2) = _
  funext y
  show (A 2) (((cfg4.win 2).blk t).view.emb y) = A 2 y
  congr 1
  funext a; refine Fin.ext ?_
  show win4_2.index t a * win4_2.size a + 1 * (y a).val = (y a).val
  rw [idx4_2 t]
  match a with
  | ⟨0, _⟩ => show 0 * 64 + 1 * _ = _; omega
  | ⟨1, _⟩ => show 0 * 1 + 1 * _ = _; omega

end Finds

/-! ## The body obligation, with values -/

theorem owns_whole_elim' (c : Thread nD τ) {sp : Space} {sh : Shape} {e : EltTy} (m : Memref sig c.2.kind sp sh e) (h : m.IsWhole)
    (q : PosShare TreeShare) (X : sh.Idx → Elt Ideal e) :
    (owns c m q X : sProp 𝕄) ⊢ iprop(∃ f, ⌜m.view.read (Elt Ideal) f = X⌝ ∗ m.view.loc c ↦{q} f) := by
  unfold owns; rw [h.set_eq_univ]

theorem owns_whole_intro' (c : Thread nD τ) {sp : Space} {sh : Shape} {e : EltTy} (m : Memref sig c.2.kind sp sh e) (h : m.IsWhole)
    (q : PosShare TreeShare) (f : Buf (Elt Ideal) (m.view.loc c)) :
    (m.view.loc c ↦{q} f : sProp 𝕄) ⊢ owns c m q (m.view.read (Elt Ideal) f) := by
  unfold owns; rw [h.set_eq_univ]
  iintro H; iexists f; isplitr; · ipureintro; rfl
  iexact H

section Body

variable (c : Dev nD) (A : (w : Fin cfg4.W) → Buf (Elt Ideal) ((cfg4.win w).arr.view.loc (c.tc : Thread nD τ)))

theorem sound_bodyV (t : Fin cfg4.N) (Y : (w : Fin cfg4.W) → (cfg4.win w).block.Idx → Elt Ideal (cfg4.win w).elt)
    (hY : ∀ w, (rd4v (UU := UU) c A).Finds w t (Y w)) :
    iprop((rd4v (UU := UU) c A).Φ t.castSucc ∗ (rd4v (UU := UU) c A).owesAt none t.castSucc
        ∗ owns (c : Thread nD τ) (st4_0 t) fullShare (Y 0) ∗ owns (c : Thread nD τ) (st4_1 t) fullShare (Y 1)
        ∗ owns (c : Thread nD τ) (st4_2 t) fullShare (Y 2) ∗ owns (c : Thread nD τ) (st4_3 t) fullShare (Y 3))
      ⊢ wp frame (wpE (defs₀ (F := Ideal)) 𝒱₀ c none) Set.univ (bodyAt4 t) fun _ =>
          iprop((rd4v (UU := UU) c A).Φ t.succ ∗ (rd4v (UU := UU) c A).owesAt none t.succ
            ∗ (∃ X, ⌜(rd4v (UU := UU) c A).after 0 t (Y 0) X⌝ ∗ owns (c : Thread nD τ) (st4_0 t) fullShare X)
            ∗ (∃ X, ⌜(rd4v (UU := UU) c A).after 1 t (Y 1) X⌝ ∗ owns (c : Thread nD τ) (st4_1 t) fullShare X)
            ∗ (∃ X, ⌜(rd4v (UU := UU) c A).after 2 t (Y 2) X⌝ ∗ owns (c : Thread nD τ) (st4_2 t) fullShare X)
            ∗ (∃ X, ⌜(rd4v (UU := UU) c A).after 3 t (Y 3) X⌝ ∗ owns (c : Thread nD τ) (st4_3 t) fullShare X)) := by
  rw [show (rd4v (UU := UU) c A).Φ t.succ = (rd4v (UU := UU) c A).Φ t.castSucc from rfl,
    show (rd4v (UU := UU) c A).owesAt none t.succ = (rd4v (UU := UU) c A).owesAt none t.castSucc from rfl]
  have hs0 := hstage4_0 ((cfg4.slots t 0).cast nbuf4_0)
  have hs1 := hstage4_1 ((cfg4.slots t 1).cast nbuf4_1)
  have hs2 := hstage4_2 ((cfg4.slots t 2).cast nbuf4_2)
  have hs3 := hstage4_3 ((cfg4.slots t 3).cast nbuf4_3)
  iintro ⟨HΦ, HO, H0, H1, H2, H3⟩
  ihave H0 := (owns_whole_elim' (c : Thread nD τ) (st4_0 t) hs0 fullShare (Y 0)) $$ H0
  ihave H1 := (owns_whole_elim' (c : Thread nD τ) (st4_1 t) hs1 fullShare (Y 1)) $$ H1
  ihave H2 := (owns_whole_elim' (c : Thread nD τ) (st4_2 t) hs2 fullShare (Y 2)) $$ H2
  ihave H3 := (owns_whole_elim (c : Thread nD τ) (st4_3 t) hs3 fullShare (Y 3)) $$ H3
  icases H0 with ⟨%f0, %hf0, H0⟩
  icases H1 with ⟨%f1, %hf1, H1⟩
  icases H2 with ⟨%f2, %hf2, H2⟩
  icases H3 with ⟨%f3, H3⟩
  iapply ((run4v (F := Ideal) (Ix := HIx 4) (UU := UU) c (grid4.coords t) (st4_0 t) hs0 (st4_1 t) hs1 (st4_2 t) hs2 (st4_3 t) hs3 f0 f1 f2).2 f3 Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · ipureintro; exact rfl
    rw [← hf0]; iapply (owns_whole_intro' (c : Thread nD τ) (st4_0 t) hs0 fullShare f0); iexact H0
  isplitl [H1]
  · iexists Y 1; isplitr; · ipureintro; exact rfl
    rw [← hf1]; iapply (owns_whole_intro' (c : Thread nD τ) (st4_1 t) hs1 fullShare f1); iexact H1
  isplitl [H2]
  · iexists Y 2; isplitr; · ipureintro; exact rfl
    rw [← hf2]; iapply (owns_whole_intro' (c : Thread nD τ) (st4_2 t) hs2 fullShare f2); iexact H2
  iexists _; isplitr; swap
  · iapply (owns_whole_intro' (c : Thread nD τ) (st4_3 t) hs3 fullShare _); iexact H3
  ipureintro
  show BlkOK (A 0) (A 1) (A 2) t _
  intro l o j
  rw [run_value]
  have e1 := finds1 (UU := UU) c A t (Y 1) (hY 1)
  have e2 := finds2 (UU := UU) c A t (Y 2) (hY 2)
  rw [hf1, hf2, hf0, e1, e2]
  congr 1
  refine Finset.sum_congr rfl fun e _ => ?_
  rw [finds0 (UU := UU) c A t (Y 0) (hY 0) j l e]

/-- The library's body obligation for the valued proof data. -/
theorem body4v : (rd4v (UU := UU) c A).BodyObligation (defs₀ (F := Ideal)) 𝒱₀ none Set.univ := fun t Y hY => by
  rw [bigSep_W4, bigSep_W4]
  exact sound_bodyV c A t Y hY

end Body

/-! ## The output array after the eight write-backs -/

section Exit

variable (c : Dev nD) (A : (w : Fin cfg4.W) → Buf (Elt Ideal) ((cfg4.win w).arr.view.loc (c.tc : Thread nD τ)))

/-- The write-back of point `u`, read at an element of its block: what the staging buffer held there … -/
theorem wb_emb (u : Fin cfg4.N) (G₀ : Buf (Elt Ideal) ((cfg4.win 3).arr.view.loc (c.tc : Thread nD τ)))
    (X : (cfg4.win 3).block.Idx → Elt Ideal (cfg4.win 3).elt) (x : (win4_3.rect u).shape.Idx) :
    (View.whole main_v7).read (Elt Ideal) (((cfg4.win 3).blk u).view.write (Elt Ideal) G₀ ((cfg4.win 3).cut (cfg4.grid.coords u) X) Finset.univ)
        ((win4_3.rect u).emb x) = (cfg4.win 3).cut (cfg4.grid.coords u) X x :=
  View.read_slice_write_emb (v := View.whole main_v7) (win4_3.rect u) G₀ _ (Finset.mem_univ x)

/-- … and outside its block: what the array held. -/
theorem wb_not_mem (u : Fin cfg4.N) (G₀ : Buf (Elt Ideal) ((cfg4.win 3).arr.view.loc (c.tc : Thread nD τ)))
    (X : (cfg4.win 3).block.Idx → Elt Ideal (cfg4.win 3).elt) (y : S50x64x16384.Idx) (hy : y ∉ (win4_3.rect u).set) :
    (View.whole main_v7).read (Elt Ideal) (((cfg4.win 3).blk u).view.write (Elt Ideal) G₀ ((cfg4.win 3).cut (cfg4.grid.coords u) X) Finset.univ) y
      = (View.whole main_v7).read (Elt Ideal) G₀ y :=
  View.read_slice_write_of_not_mem (v := View.whole main_v7) (win4_3.rect u) G₀ _ Finset.univ (by rw [Rect.map_emb_univ]; exact hy)

omit [URA UU] in
/-- Block `u` of the output window is columns `512 u … 512 u + 511`. -/
theorem emb3 (u : Fin cfg4.N) (l : Fin 50) (o : Fin 64) (j : Fin 512) :
    (win4_3.rect u).emb (ix3 l o j) = ix3 l o (⟨4096 * 0 + 512 * u.val + j.val, by have := lt_of_lt_of_eq u.isLt N4; omega⟩ : Fin 16384) := by
  funext a; refine Fin.ext ?_
  show win4_3.index u a * win4_3.size a + 1 * (ix3 l o j a).val = _
  rw [idx4_3 u]
  match a with
  | ⟨0, _⟩ => show 0 * 50 + 1 * l.val = l.val; omega
  | ⟨1, _⟩ => show 0 * 64 + 1 * o.val = o.val; omega
  | ⟨2, _⟩ => show (8 * 0 + u.val) * 512 + 1 * j.val = 4096 * 0 + 512 * u.val + j.val; omega

omit [URA UU] in
theorem mem3_iff (u : Fin cfg4.N) (y : S50x64x16384.Idx) :
    y ∈ (win4_3.rect u).set
      ↔ ∀ a, win4_3.index u a * win4_3.size a ≤ (y a : ℕ) ∧ (y a : ℕ) < win4_3.index u a * win4_3.size a + win4_3.xsize (grid4.coords u) a :=
  Rect.mem_set_unit (s := win4_3.shape) (off := fun a => win4_3.index u a * win4_3.size a) (size := win4_3.xsize (grid4.coords u))
    (inb := fun a => Pipeline.Clip.inb (win4_3.hclip (grid4.coords u) a)) (i := y)

omit [URA UU] in
theorem not_mem3 (u : Fin cfg4.N) (l : Fin 50) (o : Fin 64) (b : Fin 16384) (hb : b.val < 4096 * 0 + 512 * u.val ∨ 4096 * 0 + 512 * (u.val + 1) ≤ b.val) :
    ix3 l o b ∉ (win4_3.rect u).set := by
  rw [mem3_iff]
  intro hm
  have h2 := hm ⟨2, by decide⟩
  rw [idx4_3 u] at h2
  have h2a : (8 * 0 + u.val) * 512 ≤ b.val := h2.1
  have h2b : b.val < (8 * 0 + u.val) * 512 + 512 := h2.2
  omega

/-- After the write-backs of the points below `n`: columns `0 … 512 n − 1` hold the projection, every other column is as at
    entry. -/
def Upto (x : FVec Ideal S4096x50x64 .f32) (w : FVec Ideal S64x64 .f32) (b : FVec Ideal S64x1 .f32) (a3 : FVec Ideal S50x64x16384 .f32)
    (n : ℕ) (F : FVec Ideal S50x64x16384 .f32) : Prop :=
  (∀ (l : Fin 50) (o : Fin 64) (b' : Fin 4096), b'.val < 512 * n →
      F (ix3 l o (⟨4096 * 0 + b'.val, by omega⟩ : Fin 16384)) = (∑ e : Fin 64, w (ix2 e o) * x (ix3 b' l e)) + b (ix2 o (0 : Fin 1)))
  ∧ (∀ (l : Fin 50) (o : Fin 64) (b : Fin 16384), (b.val < 4096 * 0 ∨ 4096 * 0 + 512 * n ≤ b.val) → F (ix3 l o b) = a3 (ix3 l o b))

theorem arrStep3 (n : ℕ) (hu : n < cfg4.N) (F : Buf (Elt Ideal) ((cfg4.win 3).arr.view.loc (c.tc : Thread nD τ)))
    (h : (rd4v (UU := UU) c A).ArrAt 3 (n + 1) F) :
    (rd4v (UU := UU) c A).ArrStep 3 ⟨n, hu⟩ ((rd4v (UU := UU) c A).ArrAt 3 n) F := by
  have e := RDat.ArrAt_succ (rd4v (UU := UU) c A) 3 ⟨n, hu⟩
  rw [if_pos (flush4_3 ⟨n, hu⟩)] at e
  exact (congrFun e F).mp h

set_option maxHeartbeats 1000000 in
theorem arrAt3 : ∀ (n : ℕ) (_ : n ≤ 8) (F : Buf (Elt Ideal) ((cfg4.win 3).arr.view.loc (c.tc : Thread nD τ))),
    (rd4v (UU := UU) c A).ArrAt 3 n F → Upto (A 0) (A 1) (A 2) (A 3) n F
  | 0, _, F, h => by
    have hF : F = A 3 := h
    subst hF
    exact ⟨fun _ _ b' hb => absurd hb (by omega), fun _ _ _ _ => rfl⟩
  | n + 1, hn, F, h => by
    have hu : n < cfg4.N := by rw [N4]; omega
    obtain ⟨G₀, X, hG₀, ⟨Yb, -, hX⟩, rfl⟩ := arrStep3 c A n hu F h
    have ih := arrAt3 n (by omega) G₀ hG₀
    have hXok : BlkOK (A 0) (A 1) (A 2) ⟨n, hu⟩ X := hX
    refine ⟨fun l o b' hb => ?_, fun l o b hb => ?_⟩
    · by_cases hlt : b'.val < 512 * n
      · have e0 := wb_not_mem c ⟨n, hu⟩ G₀ X _ (not_mem3 ⟨n, hu⟩ l o ⟨4096 * 0 + b'.val, by omega⟩
          (Or.inl (by show 4096 * 0 + b'.val < 4096 * 0 + 512 * n; omega)))
        rw [View.read_whole, View.read_whole] at e0
        exact e0.trans (ih.1 l o b' hlt)
      · have hj : b'.val - 512 * n < 512 := by omega
        have e1 := wb_emb c ⟨n, hu⟩ G₀ X (ix3 l o ⟨b'.val - 512 * n, hj⟩)
        rw [emb3, View.read_whole] at e1
        have hidx : (⟨4096 * 0 + 512 * (⟨n, hu⟩ : Fin cfg4.N).val + (⟨b'.val - 512 * n, hj⟩ : Fin 512).val, by
              have := lt_of_lt_of_eq (⟨n, hu⟩ : Fin cfg4.N).isLt N4; omega⟩ : Fin 16384)
            = ⟨4096 * 0 + b'.val, by omega⟩ := Fin.ext (by show 4096 * 0 + 512 * n + (b'.val - 512 * n) = 4096 * 0 + b'.val; omega)
        rw [hidx] at e1
        refine e1.trans ?_
        have hq : (⟨512 * (⟨n, hu⟩ : Fin cfg4.N).val + (⟨b'.val - 512 * n, hj⟩ : Fin 512).val, by
              have := lt_of_lt_of_eq (⟨n, hu⟩ : Fin cfg4.N).isLt N4; omega⟩ : Fin 4096) = b' :=
          Fin.ext (by show 512 * n + (b'.val - 512 * n) = b'.val; omega)
        have e2 := hXok l o ⟨b'.val - 512 * n, hj⟩
        rw [hq] at e2
        exact e2
    · have e0 := wb_not_mem c ⟨n, hu⟩ G₀ X _ (not_mem3 ⟨n, hu⟩ l o b (by
          rcases hb with hb | hb
          · exact Or.inl (by omega)
          · exact Or.inr (by show 4096 * 0 + 512 * (n + 1) ≤ b.val; omega)))
      rw [View.read_whole, View.read_whole] at e0
      exact e0.trans (ih.2 l o b (by rcases hb with hb | hb; exact Or.inl hb; exact Or.inr (by omega)))

/-- After the region the output array holds the projection in columns `0 … 4095` and its entry contents elsewhere. -/
theorem projBlk4 (F : Buf (Elt Ideal) ((cfg4.win 3).arr.view.loc (c.tc : Thread nD τ)))
    (h : (rd4v (UU := UU) c A).ArrAt 3 cfg4.N F) : ProjBlk 0 (A 0) (A 1) (A 2) (A 3) F := by
  obtain ⟨h1, h2⟩ := arrAt3 c A cfg4.N (le_of_eq N4) F h
  refine ⟨fun l o b' => ?_, fun l o b hb => ?_⟩
  · exact h1 l o b' (by have := N4; have := b'.isLt; omega)
  · refine h2 l o b ?_
    have h8 := N4
    simp only [show ((0 : Fin 4) : ℕ) = 0 from rfl] at hb
    rcases hb with hb | hb
    · exact Or.inl (by omega)
    · exact Or.inr (by omega)

end Exit

/-! ## The region's proof data, for every pipeline and core

The library's region rule is stated over a family of proof data, one per pipeline and core, of which it reads only the one
at the pipeline and core entered. The family below is the region's data at pipeline 0 and says nothing elsewhere. -/

section RegionV

variable (d : Dev nD) (f3 : Buf (Elt Ideal) ((T d : Thread nD τ).loc main_v3)) (fw : Buf (Elt Ideal) ((T d : Thread nD τ).loc main_v1))
  (fb : Buf (Elt Ideal) ((T d : Thread nD τ).loc main_v2)) (f7 : Buf (Elt Ideal) ((T d : Thread nD τ).loc main_v7))

/-- The family: the region's data at pipeline 0, data that says nothing at the others. -/
def rdatsV : (p : Fin 4) → (c : Dev nD) → RDat τ (Elt Ideal) (HIx 4) ℕ UU ℕ (Pipeline.pin (pcfgs (F := Ideal)) adm p) c
  | ⟨0, _⟩, c => rd4v c (A4c d f3 fw fb f7 c)
  | ⟨_ + 1, _⟩, _ => { A := fun _ _ => default, after := fun _ _ _ _ => True, Φ := fun _ => iprop(emp), q := fun _ => fullShare, owed := fun _ => 0 }

theorem rdatsV_zero (c : Dev nD) : rdatsV (UU := UU) d f3 fw fb f7 0 c = rd4v c (A4c d f3 fw fb f7 c) := rfl

end RegionV

/-! ## The region as the library's record, and its step at @main's line -/

section StepV

variable (d : Dev nD) (f3 : Buf (Elt Ideal) ((T d : Thread nD τ).loc main_v3)) (fw : Buf (Elt Ideal) ((T d : Thread nD τ).loc main_v1))
  (fb : Buf (Elt Ideal) ((T d : Thread nD τ).loc main_v2)) (f7 : Buf (Elt Ideal) ((T d : Thread nD τ).loc main_v7))

theorem share4v (c : Dev nD) (w : Fin cfg4.W) : (rdatsV (UU := UU) d f3 fw fb f7 0 c).share w = fullShare :=
  (rdatsV (UU := UU) d f3 fw fb f7 0 c).share_full (fun _ => rfl) w

/-- The region's four arrays, one by one. -/
theorem arrays4v (c : Dev nD) (G : (w : Fin cfg4.W) → Buf (Elt Ideal) ((cfg4.win w).arr.view.loc (c.tc : Thread nD τ))) :
    ((rdatsV (UU := UU) d f3 fw fb f7 0 c).arrays G : sProp 𝕄)
      = iprop((((c.tc : Thread nD τ).loc main_v3) ↦{fullShare} G 0) ∗ (((c.tc : Thread nD τ).loc main_v1) ↦{fullShare} G 1)
          ∗ (((c.tc : Thread nD τ).loc main_v2) ↦{fullShare} G 2) ∗ (((c.tc : Thread nD τ).loc main_v7) ↦{fullShare} G 3)) := by
  rw [Pipeline.RDat.arrays_eq (pcfgs (F := Ideal)) adm (rdatsV (UU := UU) d f3 fw fb f7) 0 c launch4.arr_whole (share4v d f3 fw fb f7 c) G, bigSep_W4]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg4v : Pipeline.RDat.RegionSeg (pcfgs (F := Ideal)) adm (rdatsV (UU := UU) d f3 fw fb f7) none defs₀ 𝒱₀ (K (F := Ideal)).L (K (F := Ideal)).lev 0 where
  win := launch4.win.to₀
  block_pos := launch4.block_pos
  stage_whole := launch4.stage_whole
  K := PEmpty
  osem := fun k => k.elim
  ho := Pipeline.OwnSemFacts.none _
  hbody c := body4v c _
  hwaits := Pipeline.RDat.hwaits_of_owed_zero _ _ _ _ _ _ 0 fun _ _ => rfl
  pre c := iprop((rdatsV (UU := UU) d f3 fw fb f7 0 c).arrays (rdatsV (UU := UU) d f3 fw fb f7 0 c).A ∗ (rdatsV (UU := UU) d f3 fw fb f7 0 c).owesAt none 0)
  post c := iprop((rdatsV (UU := UU) d f3 fw fb f7 0 c).arraysAt cfg4.N ∗ (rdatsV (UU := UU) d f3 fw fb f7 0 c).owesAt none (Fin.last cfg4.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec4 c) ⊢ Pipeline.scopedRest spec4 c
    iintro ⟨-, -, Hr⟩; iexact Hr
  hout c := by
    rw [Pipeline.ownSems0_none]
    show Pipeline.scopedRest spec4 c ⊢ iprop(_ ∗ _ ∗ Pipeline.scopedRest spec4 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre4v (W : Waits sig (HIx 4)) (hW : (K (F := Ideal)).WBelow (T d) W 32) :
    iprop(owes (T d : Thread nD τ) (0 : CellTallies nD τ sig (HIx 4)) W
        ∗ (((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7))
      ⊢ ((reg4v (UU := UU) d f3 fw fb f7).pre d : sProp 𝕄) := by
  show _ ⊢ iprop((rdatsV (UU := UU) d f3 fw fb f7 0 d).arrays (rdatsV (UU := UU) d f3 fw fb f7 0 d).A ∗ (rdatsV (UU := UU) d f3 fw fb f7 0 d).owesAt none 0)
  rw [arrays4v, show (rdatsV (UU := UU) d f3 fw fb f7 0 d).A = A4 d f3 fw fb f7 from A4c_self d f3 fw fb f7]
  show _ ⊢ iprop(((((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7))
      ∗ ∃ W' : Waits sig (HIx 4), ⌜(↑W' : Set (SemLoc sig × HIx 4)) ⊆ (rdatsV (UU := UU) d f3 fw fb f7 0 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_belowV (t : Fin (cfg4.N + 1)) (W' : Waits sig (HIx 4))
    (h : (↑W' : Set (SemLoc sig × HIx 4)) ⊆ (rdatsV (UU := UU) d f3 fw fb f7 0 d).bound none t) : (K (F := Ideal)).WBelow (T d) W' 32 := by
  intro p hp
  rcases h (Finset.mem_coe.mpr hp) with h | ⟨w, s, rfl⟩
  · exact h
  · exact Nat.zero_le _

/-- EXIT at device `d`: the arrays the region reads are as they were, its output holds the projection in its 4096 columns and its
    entry contents elsewhere, the core owes nothing. -/
theorem post4v :
    ((reg4v (UU := UU) d f3 fw fb f7).post d : sProp 𝕄)
      ⊢ iprop((((T d : Thread nD τ).loc main_v3) ↦{fullShare} f3) ∗ (((T d : Thread nD τ).loc main_v1) ↦{fullShare} fw)
        ∗ (((T d : Thread nD τ).loc main_v2) ↦{fullShare} fb) ∗ (∃ g, ⌜ProjBlk 0 f3 fw fb f7 g⌝ ∗ ((T d : Thread nD τ).loc main_v7) ↦{fullShare} g)
        ∗ ∃ W', ⌜(K (F := Ideal)).WBelow (T d) W' 32⌝ ∗ owes (T d : Thread nD τ) (0 : CellTallies nD τ sig (HIx 4)) W') := by
  have hA : (rdatsV (UU := UU) d f3 fw fb f7 0 d).A = A4 d f3 fw fb f7 := A4c_self d f3 fw fb f7
  have e0 := (rdatsV (UU := UU) d f3 fw fb f7 0 d).ArrAt_in 0 rfl cfg4.N
  have e1 := (rdatsV (UU := UU) d f3 fw fb f7 0 d).ArrAt_in 1 rfl cfg4.N
  have e2 := (rdatsV (UU := UU) d f3 fw fb f7 0 d).ArrAt_in 2 rfl cfg4.N
  show iprop((rdatsV (UU := UU) d f3 fw fb f7 0 d).arraysAt cfg4.N
      ∗ ∃ W' : Waits sig (HIx 4), ⌜(↑W' : Set (SemLoc sig × HIx 4)) ⊆ (rdatsV (UU := UU) d f3 fw fb f7 0 d).bound none (Fin.last cfg4.N)⌝ ∗ owes (T d : Thread nD τ) (0 : CellTallies nD τ sig (HIx 4)) W') ⊢ _
  unfold RDat.arraysAt
  rw [bigSep_W4, e0, e1, e2, hA]
  simp only [share4v, (launch4.arr_whole _).set_eq_univ]
  iintro ⟨⟨⟨%F0, %h0, H0⟩, ⟨%F1, %h1, H1⟩, ⟨%F2, %h2, H2⟩, ⟨%F3, %h3, H3⟩⟩, ⟨%W', %hW', HO⟩⟩
  have hP : ProjBlk 0 f3 fw fb f7 F3 := by
    have h3' : (rd4v (UU := UU) d (A4 d f3 fw fb f7)).ArrAt 3 cfg4.N F3 := by
      have h := h3
      rw [rdatsV_zero, A4c_self] at h
      exact h
    exact projBlk4 d (A4 d f3 fw fb f7) F3 h3'
  subst h0; subst h1; subst h2
  isplitl [H0]; · iexact H0
  isplitl [H1]; · iexact H1
  isplitl [H2]; · iexact H2
  isplitl [H3]
  · iexists F3; isplitr; · ipureintro; exact hP
    iexact H3
  iexists W'; isplitr
  · ipureintro; exact bound_belowV _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 0, the region's call runs
    — under any continuation — to the boundary again, the three arrays it reads unchanged, the output holding the projection of the
    4096 gathered batch entries in its columns 0 … 4095 and its entry contents in the others, and the TensorCore still owing
    nothing. -/
theorem region0V (EP : Emb (URounds (GSem nD τ sig) Unit) 𝕄) [EP.LandsIn (upEmb : UEmb _ 𝕄)]
    (W : Waits sig (HIx 4)) (hW : (K (F := Ideal)).WBelow (T d) W 32)
    {α : Type} (k : PUnit → Prog (TpuEff nD τ sig (Elt Ideal) (SparseCore.Sig (ΛP (F := Ideal)) 4) .tc) α) (Q : α → sProp 𝕄) :
    iprop((iprop(boundary (T d : Thread nD τ) ∗ (((T d : Thread nD τ).loc main_v3) ↦{fullShare} f3) ∗ (((T d : Thread nD τ).loc main_v1) ↦{fullShare} fw)
              ∗ (((T d : Thread nD τ).loc main_v2) ↦{fullShare} fb) ∗ (∃ g, ⌜ProjBlk 0 f3 fw fb f7 g⌝ ∗ ((T d : Thread nD τ).loc main_v7) ↦{fullShare} g)
              ∗ ∃ W', ⌜(K (F := Ideal)).WBelow (T d) W' 32⌝ ∗ owes (T d : Thread nD τ) (0 : CellTallies nD τ sig (HIx 4)) W')
            -∗ wp frame (wpE ((K (F := Ideal)).defs D) 𝒱 (T d) none) Set.univ (k ⟨⟩) Q)
        ∗ boundary (T d : Thread nD τ) ∗ levAts (K (F := Ideal)).L (K (F := Ideal)).lev ∗ owes (T d : Thread nD τ) (0 : CellTallies nD τ sig (HIx 4)) W
        ∗ (((T d : Thread nD τ).loc main_v3) ↦{fullShare} f3) ∗ (((T d : Thread nD τ).loc main_v1) ↦{fullShare} fw)
        ∗ (((T d : Thread nD τ).loc main_v2) ↦{fullShare} fb) ∗ (((T d : Thread nD τ).loc main_v7) ↦{fullShare} f7)
        ∗ Pipeline.cellsGhost cfgs EP 0 d ∗ Pipeline.toksInit cfgs EP 0 d)
      ⊢ wp frame (wpE ((K (F := Ideal)).defs D) 𝒱 (T d) none) Set.univ (.op (.customCall (SparseCore.inner (Pipeline.entry 0)) ()) k) Q := by
  have hop : (Prog.op (.customCall (SparseCore.inner (Pipeline.entry 0)) ()) k : Prog (TpuEff nD τ sig (Elt Ideal) (SparseCore.Sig (ΛP (F := Ideal)) 4) .tc) α)
      = (SparseCore.liftProg (Q := 4) (Prog.op (.customCall (Pipeline.entry (0 : Fin 4)) ()) fun x => .ret x : Prog (TpuEff nD τ sig (Elt Ideal) (ΛP (F := Ideal)) .tc) PUnit) >>= k) := rfl
  rw [hop, wp_bind]
  refine BIBase.Entails.trans ?_ ((K (F := Ideal)).wp_liftProg D 𝒱 (T d) Set.univ none _ _)
  refine BIBase.Entails.trans ?_ (Pipeline.RDat.RegionSeg.wp (pcfgs (F := Ideal)) adm (rdatsV (UU := UU) d f3 fw fb f7) none cellOf_inj EP defs₀ 𝒱₀
    (K (F := Ideal)).L (K (F := Ideal)).lev (reg4v d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post4v d f3 fw fb f7); iexact Hpost
  isplitl [Hbd]; · iexact Hbd
  isplitl [HO H3 H1 H2 H7]
  · iapply (pre4v d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end StepV

end Cert.Proof.Region4

end
-- ==== Proof.Region5Run.lean ====
/-
  The body of projection kernel number 2 run once more, now NAMING what it leaves in the output block: the
  fifty slices' stores over whatever the block held (every element of the block is in one of them).
-/
import proofs.«204056_g19739669692900_cont_8to1_1488_31_alg».proof.Proof.Region4Pay
import proofs.«204056_g19739669692900_cont_8to1_1488_31_alg».proof.Proof.Region5Body

noncomputable section

namespace Cert.Proof.Region5

open Cert.KernelIdeal Cert.KernelIdeal.Gen
open Cert.Proof.Region4 (pieces)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Ix : Type} [DecidableEq Ix] {UU : Type} [URA UU]

local notation "𝕄" => MT nD τ sig Ix (Elt F) ℕ UU ℕ

set_option maxHeartbeats 4000000 in
/-- The output block's contents after the body, with the proof that from the four buffers held whole the body runs to
    its return handing back the three inputs unchanged and the output block at those contents. -/
noncomputable def run5v (c : Dev nD) (i : grid5.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) :
    { Wo : Bf (F := F) c M4 // ∀ (f4 : Bf (F := F) c M4) (E : Set ℕ) (Q : PUnit → sProp 𝕄),
        iprop(pt c M1 f1 ∗ pt c M2 f2 ∗ pt c M3 f3 ∗ pt c M4 f4
            ∗ (iprop(pt c M1 f1 ∗ pt c M2 f2 ∗ pt c M3 f3 ∗ pt c M4 Wo) -∗ Q ⟨⟩))
          ⊢ wp frame (wpE (defs₀ (F := F)) Variants.none c none) E (cc5_body i M1 h1 M2 h2 M3 h3 Mp hp M4 h4) Q } := by
  refine ⟨?_, fun f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxRecDepth 65536 in
set_option maxHeartbeats 4000000 in
/-- The contents found are the fifty slices' stores over whatever the block held. -/
theorem bridge (c : Dev nD) (i : grid5.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) :
    (run5v (Ix := Ix) (UU := UU) c i M1 h1 M2 h2 M3 h3 Mp hp M4 h4 f1 f2 f3).1
      = M4.view.writes (Elt F) M4.view.junk (pieces c M1 M2 M3 f1 f2 f3 50 le_rfl) := rfl

end Cert.Proof.Region5

end
-- ==== Proof.Region5Read.lean ====
/-
  What projection kernel number 2's body leaves in its output block, read at an index: element (l, o, j) is the
  contraction of the staged weights' column o with the staged batch entry j's row at history position l, plus the
  staged bias at o (the same body as the first projection kernel's: its fifty stores are the same pieces).
-/
import proofs.«204056_g19739669692900_cont_8to1_1488_31_alg».proof.Proof.Region4Read
import proofs.«204056_g19739669692900_cont_8to1_1488_31_alg».proof.Proof.Region5Run

noncomputable section

namespace Cert.Proof.Region5

open Cert.KernelIdeal Cert.KernelIdeal.Gen

open Idealize.ShloMosaic Idealize.ShloMosaic.ValueIdx
open Idealize.ShloMosaic.TcCoe
open Cert.Proof.Region4 (read_pieces PAY_apply Wv_apply bv_apply xslice_apply)

/-- **The body's output block, named.** After the body, element `(l, o, j)` of the output block — whatever the block
    held before — is the contraction of the staged weights' column `o` with the staged batch entry `j`'s row at history
    position `l`, plus the staged bias at `o`. -/
theorem run_value {Ix : Type} [DecidableEq Ix] {UU : Type} [Idealize.SL.RA.URA UU] (c : Dev nD) (i : grid5.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := Ideal) c M1) (f2 : Bf (F := Ideal) c M2) (f3 : Bf (F := Ideal) c M3) (l : Fin 50) (o : Fin 64) (j : Fin 512) :
    M4.view.read (Elt Ideal) (run5v (F := Ideal) (Ix := Ix) (UU := UU) c i M1 h1 M2 h2 M3 h3 Mp hp M4 h4 f1 f2 f3).1 (ix3 l o j)
      = (∑ e : Fin 64, (M2.view.read (Elt Ideal) f2 : FVec Ideal S64x64 .f32) (ix2 e o)
            * (M1.view.read (Elt Ideal) f1 : FVec Ideal S512x50x64 .f32) (ix3 j l e))
          + (M3.view.read (Elt Ideal) f3 : FVec Ideal S64x1 .f32) (ix2 o (0 : Fin 1)) := by
  rw [bridge, read_pieces c M1 M2 M3 f1 f2 f3 M4 _ 50 le_rfl l l.isLt o j, PAY_apply]
  simp only [Wv_apply, bv_apply, xslice_apply]

end Cert.Proof.Region5

end
-- ==== Proof.Region5Val.lean ====
/-
  Projection kernel number 2 as a region of the TensorCore's program, with what it writes.

  At grid point t the body is handed block t of the gathered rows (batch entries 512 t … 512 t + 511) and the whole
  transposed weights and bias column, and leaves in the output's staging buffer the block
      out_t[l, o, j] = sum_e W[e, o] * x[512 t + j, l, e] + bias[o, 0];
  the pipeline writes that block back to columns 4096 + 512 t … 4096 + 512 t + 511 of the output array. After the eight points
  the output array holds the projection of the 4096 gathered batch entries in its columns 4096 … 8191 and what it
  held at entry in every other column; the three arrays the region reads are unchanged.
-/
import proofs.«204056_g19739669692900_cont_8to1_1488_31_alg».proof.Proof.Region5Read
import proofs.«204056_g19739669692900_cont_8to1_1488_31_alg».proof.Proof.Region5
import proofs.«204056_g19739669692900_cont_8to1_1488_31_alg».proof.Proof.LaunchMainV
import Idealize.ShloMosaic.Lib.Pipeline.FrameBody

noncomputable section

namespace Cert.Proof.Region5

open Cert.KernelIdeal Cert.KernelIdeal.Gen

open Idealize.ShloMosaic Idealize.ShloMosaic.ValueIdx
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.LaunchI (ProjBlk)

variable {UU : Type} [URA UU]

local notation "𝕄" => MT nD τ sig (HIx 4) (Elt Ideal) ℕ UU ℕ

/-! ## What a grid point's output block holds -/

theorem N5 : cfg5.N = 8 := N_5

/-- At grid point `t` the output block is the projection of batch entries `512 t … 512 t + 511`: element `(l, o, j)` is the
    weights' column `o` contracted with entry `512 t + j`'s gathered row at history position `l`, plus the bias at `o`. -/
def BlkOK (x : FVec Ideal S4096x50x64 .f32) (w : FVec Ideal S64x64 .f32) (b : FVec Ideal S64x1 .f32) (t : Fin cfg5.N)
    (X : FVec Ideal S50x64x512 .f32) : Prop :=
  ∀ (l : Fin 50) (o : Fin 64) (j : Fin 512),
    X (ix3 l o j) = (∑ e : Fin 64, w (ix2 e o) * x (ix3 (⟨512 * t.val + j.val, by have := lt_of_lt_of_eq t.isLt N5; omega⟩ : Fin 4096) l e))
      + b (ix2 o (0 : Fin 1))

/-- The region's proof data with values: an input's staging buffer is left as found, the output's holds the point's block. -/
def rd5v (c : Dev nD) (A : (w : Fin cfg5.W) → Buf (Elt Ideal) ((cfg5.win w).arr.view.loc (c.tc : Thread nD τ))) :
    RDat τ (Elt Ideal) (HIx 4) ℕ UU ℕ cfg5 c where
  A := A
  after w t := match w with
    | ⟨0, _⟩ => fun Y X => X = Y
    | ⟨1, _⟩ => fun Y X => X = Y
    | ⟨2, _⟩ => fun Y X => X = Y
    | ⟨3, _⟩ => fun _ X => BlkOK (A 0) (A 1) (A 2) t X
    | ⟨_ + 4, h⟩ => absurd h (Nat.not_lt.2 (Nat.le_add_left _ _))
  Φ _ := Pipeline.scopedRest spec5 c
  q _ := fullShare
  owed _ := 0
  recorded _ := Bd (F := Ideal) c

/-- Window 0's block index at point `t` is `(t, 0, 0)`; the output window's is `(0, 0, t)`. -/
theorem idx5_0 : ∀ t : Fin grid5.N, win5_0.index t = ![t.val, 0, 0] := by decide +kernel
theorem idx5_3 : ∀ t : Fin grid5.N, win5_3.index t = ![0, 0, 8 * 1 + t.val] := by decide +kernel
theorem idx5_1 : ∀ t : Fin grid5.N, win5_1.index t = ![0, 0] := by decide +kernel
theorem idx5_2 : ∀ t : Fin grid5.N, win5_2.index t = ![0, 0] := by decide +kernel

section Finds

variable (c : Dev nD) (A : (w : Fin cfg5.W) → Buf (Elt Ideal) ((cfg5.win w).arr.view.loc (c.tc : Thread nD τ)))

/-- The gathered rows' staging buffer holds, at point `t`, batch entries `512 t … 512 t + 511` of the array. -/
theorem finds0 (t : Fin cfg5.N) (Y : (cfg5.win 0).block.Idx → Elt Ideal (cfg5.win 0).elt)
    (hY : (rd5v (UU := UU) c A).Finds 0 t Y) (j : Fin 512) (l : Fin 50) (e : Fin 64) :
    (Y : FVec Ideal S512x50x64 .f32) (ix3 j l e)
      = (A 0 : FVec Ideal S4096x50x64 .f32) (ix3 (⟨512 * t.val + j.val, by have := lt_of_lt_of_eq t.isLt N5; omega⟩ : Fin 4096) l e) := by
  obtain ⟨d, rfl⟩ := RDat.finds_in_eq_fetched (rd5v (UU := UU) c A) 0 rfl (fun _ _ _ => rfl) (fun _ _ _ h => h) t Y hY
  show ((cfg5.win 0).blk t).view.read (Elt Ideal) (A 0) (ix3 j l e) = _
  have hemb : ((cfg5.win 0).blk t).view.emb (ix3 j l e)
      = ix3 (⟨512 * t.val + j.val, by have := lt_of_lt_of_eq t.isLt N5; omega⟩ : Fin 4096) l e := by
    funext a; refine Fin.ext ?_
    show win5_0.index t a * win5_0.size a + 1 * (ix3 j l e a).val = _
    rw [idx5_0 t]
    match a with
    | ⟨0, _⟩ => show t.val * 512 + 1 * j.val = 512 * t.val + j.val; omega
    | ⟨1, _⟩ => show 0 * 50 + 1 * l.val = l.val; omega
    | ⟨2, _⟩ => show 0 * 64 + 1 * e.val = e.val; omega
  show (A 0) (((cfg5.win 0).blk t).view.emb (ix3 j l e)) = _
  rw [hemb]

/-- The weights' and the bias's staging buffers hold the whole arrays at every point (fetched once, left as found). -/
theorem finds1 (t : Fin cfg5.N) (Y : (cfg5.win 1).block.Idx → Elt Ideal (cfg5.win 1).elt)
    (hY : (rd5v (UU := UU) c A).Finds 1 t Y) : (Y : FVec Ideal S64x64 .f32) = (A 1 : FVec Ideal S64x64 .f32) := by
  obtain ⟨d, rfl⟩ := RDat.finds_in_eq_fetched (rd5v (UU := UU) c A) 1 rfl (fun _ _ _ => rfl) (fun _ _ _ h => h) t Y hY
  show ((cfg5.win 1).blk t).view.read (Elt Ideal) (A 1) = _
  funext y
  show (A 1) (((cfg5.win 1).blk t).view.emb y) = A 1 y
  congr 1
  funext a; refine Fin.ext ?_
  show win5_1.index t a * win5_1.size a + 1 * (y a).val = (y a).val
  rw [idx5_1 t]
  match a with
  | ⟨0, _⟩ => show 0 * 64 + 1 * _ = _; omega
  | ⟨1, _⟩ => show 0 * 64 + 1 * _ = _; omega

theorem finds2 (t : Fin cfg5.N) (Y : (cfg5.win 2).block.Idx → Elt Ideal (cfg5.win 2).elt)
    (hY : (rd5v (UU := UU) c A).Finds 2 t Y) : (Y : FVec Ideal S64x1 .f32) = (A 2 : FVec Ideal S64x1 .f32) := by
  obtain ⟨d, rfl⟩ := RDat.finds_in_eq_fetched (rd5v (UU := UU) c A) 2 rfl (fun _ _ _ => rfl) (fun _ _ _ h => h) t Y hY
  show ((cfg5.win 2).blk t).view.read (Elt Ideal) (A 2) = _
  funext y
  show (A 2) (((cfg5.win 2).blk t).view.emb y) = A 2 y
  congr 1
  funext a; refine Fin.ext ?_
  show win5_2.index t a * win5_2.size a + 1 * (y a).val = (y a).val
  rw [idx5_2 t]
  match a with
  | ⟨0, _⟩ => show 0 * 64 + 1 * _ = _; omega
  | ⟨1, _⟩ => show 0 * 1 + 1 * _ = _; omega

end Finds

/-! ## The body obligation, with values -/

theorem owns_whole_elim' (c : Thread nD τ) {sp : Space} {sh : Shape} {e : EltTy} (m : Memref sig c.2.kind sp sh e) (h : m.IsWhole)
    (q : PosShare TreeShare) (X : sh.Idx → Elt Ideal e) :
    (owns c m q X : sProp 𝕄) ⊢ iprop(∃ f, ⌜m.view.read (Elt Ideal) f = X⌝ ∗ m.view.loc c ↦{q} f) := by
  unfold owns; rw [h.set_eq_univ]

theorem owns_whole_intro' (c : Thread nD τ) {sp : Space} {sh : Shape} {e : EltTy} (m : Memref sig c.2.kind sp sh e) (h : m.IsWhole)
    (q : PosShare TreeShare) (f : Buf (Elt Ideal) (m.view.loc c)) :
    (m.view.loc c ↦{q} f : sProp 𝕄) ⊢ owns c m q (m.view.read (Elt Ideal) f) := by
  unfold owns; rw [h.set_eq_univ]
  iintro H; iexists f; isplitr; · ipureintro; rfl
  iexact H

section Body

variable (c : Dev nD) (A : (w : Fin cfg5.W) → Buf (Elt Ideal) ((cfg5.win w).arr.view.loc (c.tc : Thread nD τ)))

theorem sound_bodyV (t : Fin cfg5.N) (Y : (w : Fin cfg5.W) → (cfg5.win w).block.Idx → Elt Ideal (cfg5.win w).elt)
    (hY : ∀ w, (rd5v (UU := UU) c A).Finds w t (Y w)) :
    iprop((rd5v (UU := UU) c A).Φ t.castSucc ∗ (rd5v (UU := UU) c A).owesAt none t.castSucc
        ∗ owns (c : Thread nD τ) (st5_0 t) fullShare (Y 0) ∗ owns (c : Thread nD τ) (st5_1 t) fullShare (Y 1)
        ∗ owns (c : Thread nD τ) (st5_2 t) fullShare (Y 2) ∗ owns (c : Thread nD τ) (st5_3 t) fullShare (Y 3))
      ⊢ wp frame (wpE (defs₀ (F := Ideal)) 𝒱₀ c none) Set.univ (bodyAt5 t) fun _ =>
          iprop((rd5v (UU := UU) c A).Φ t.succ ∗ (rd5v (UU := UU) c A).owesAt none t.succ
            ∗ (∃ X, ⌜(rd5v (UU := UU) c A).after 0 t (Y 0) X⌝ ∗ owns (c : Thread nD τ) (st5_0 t) fullShare X)
            ∗ (∃ X, ⌜(rd5v (UU := UU) c A).after 1 t (Y 1) X⌝ ∗ owns (c : Thread nD τ) (st5_1 t) fullShare X)
            ∗ (∃ X, ⌜(rd5v (UU := UU) c A).after 2 t (Y 2) X⌝ ∗ owns (c : Thread nD τ) (st5_2 t) fullShare X)
            ∗ (∃ X, ⌜(rd5v (UU := UU) c A).after 3 t (Y 3) X⌝ ∗ owns (c : Thread nD τ) (st5_3 t) fullShare X)) := by
  rw [show (rd5v (UU := UU) c A).Φ t.succ = (rd5v (UU := UU) c A).Φ t.castSucc from rfl,
    show (rd5v (UU := UU) c A).owesAt none t.succ = (rd5v (UU := UU) c A).owesAt none t.castSucc from rfl]
  have hs0 := hstage5_0 ((cfg5.slots t 0).cast nbuf5_0)
  have hs1 := hstage5_1 ((cfg5.slots t 1).cast nbuf5_1)
  have hs2 := hstage5_2 ((cfg5.slots t 2).cast nbuf5_2)
  have hs3 := hstage5_3 ((cfg5.slots t 3).cast nbuf5_3)
  iintro ⟨HΦ, HO, H0, H1, H2, H3⟩
  ihave H0 := (owns_whole_elim' (c : Thread nD τ) (st5_0 t) hs0 fullShare (Y 0)) $$ H0
  ihave H1 := (owns_whole_elim' (c : Thread nD τ) (st5_1 t) hs1 fullShare (Y 1)) $$ H1
  ihave H2 := (owns_whole_elim' (c : Thread nD τ) (st5_2 t) hs2 fullShare (Y 2)) $$ H2
  ihave H3 := (owns_whole_elim (c : Thread nD τ) (st5_3 t) hs3 fullShare (Y 3)) $$ H3
  icases H0 with ⟨%f0, %hf0, H0⟩
  icases H1 with ⟨%f1, %hf1, H1⟩
  icases H2 with ⟨%f2, %hf2, H2⟩
  icases H3 with ⟨%f3, H3⟩
  iapply ((run5v (F := Ideal) (Ix := HIx 4) (UU := UU) c (grid5.coords t) (st5_0 t) hs0 (st5_1 t) hs1 (st5_2 t) hs2 (Memref.whole main_v7) (Memref.isWhole_whole _) (st5_3 t) hs3 f0 f1 f2).2 f3 Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · ipureintro; exact rfl
    rw [← hf0]; iapply (owns_whole_intro' (c : Thread nD τ) (st5_0 t) hs0 fullShare f0); iexact H0
  isplitl [H1]
  · iexists Y 1; isplitr; · ipureintro; exact rfl
    rw [← hf1]; iapply (owns_whole_intro' (c : Thread nD τ) (st5_1 t) hs1 fullShare f1); iexact H1
  isplitl [H2]
  · iexists Y 2; isplitr; · ipureintro; exact rfl
    rw [← hf2]; iapply (owns_whole_intro' (c : Thread nD τ) (st5_2 t) hs2 fullShare f2); iexact H2
  iexists _; isplitr; swap
  · iapply (owns_whole_intro' (c : Thread nD τ) (st5_3 t) hs3 fullShare _); iexact H3
  ipureintro
  show BlkOK (A 0) (A 1) (A 2) t _
  intro l o j
  rw [run_value]
  have e1 := finds1 (UU := UU) c A t (Y 1) (hY 1)
  have e2 := finds2 (UU := UU) c A t (Y 2) (hY 2)
  rw [hf1, hf2, hf0, e1, e2]
  congr 1
  refine Finset.sum_congr rfl fun e _ => ?_
  rw [finds0 (UU := UU) c A t (Y 0) (hY 0) j l e]

/-- The library's body obligation for the valued proof data. -/
theorem body5v : (rd5v (UU := UU) c A).BodyObligation (defs₀ (F := Ideal)) 𝒱₀ none Set.univ := fun t Y hY => by
  rw [bigSep_W5, bigSep_W5]
  exact sound_bodyV c A t Y hY

end Body

/-! ## The output array after the eight write-backs -/

section Exit

variable (c : Dev nD) (A : (w : Fin cfg5.W) → Buf (Elt Ideal) ((cfg5.win w).arr.view.loc (c.tc : Thread nD τ)))

/-- The write-back of point `u`, read at an element of its block: what the staging buffer held there … -/
theorem wb_emb (u : Fin cfg5.N) (G₀ : Buf (Elt Ideal) ((cfg5.win 3).arr.view.loc (c.tc : Thread nD τ)))
    (X : (cfg5.win 3).block.Idx → Elt Ideal (cfg5.win 3).elt) (x : (win5_3.rect u).shape.Idx) :
    (View.whole main_v8).read (Elt Ideal) (((cfg5.win 3).blk u).view.write (Elt Ideal) G₀ ((cfg5.win 3).cut (cfg5.grid.coords u) X) Finset.univ)
        ((win5_3.rect u).emb x) = (cfg5.win 3).cut (cfg5.grid.coords u) X x :=
  View.read_slice_write_emb (v := View.whole main_v8) (win5_3.rect u) G₀ _ (Finset.mem_univ x)

/-- … and outside its block: what the array held. -/
theorem wb_not_mem (u : Fin cfg5.N) (G₀ : Buf (Elt Ideal) ((cfg5.win 3).arr.view.loc (c.tc : Thread nD τ)))
    (X : (cfg5.win 3).block.Idx → Elt Ideal (cfg5.win 3).elt) (y : S50x64x16384.Idx) (hy : y ∉ (win5_3.rect u).set) :
    (View.whole main_v8).read (Elt Ideal) (((cfg5.win 3).blk u).view.write (Elt Ideal) G₀ ((cfg5.win 3).cut (cfg5.grid.coords u) X) Finset.univ) y
      = (View.whole main_v8).read (Elt Ideal) G₀ y :=
  View.read_slice_write_of_not_mem (v := View.whole main_v8) (win5_3.rect u) G₀ _ Finset.univ (by rw [Rect.map_emb_univ]; exact hy)

omit [URA UU] in
/-- Block `u` of the output window is columns `512 u … 512 u + 511`. -/
theorem emb3 (u : Fin cfg5.N) (l : Fin 50) (o : Fin 64) (j : Fin 512) :
    (win5_3.rect u).emb (ix3 l o j) = ix3 l o (⟨4096 * 1 + 512 * u.val + j.val, by have := lt_of_lt_of_eq u.isLt N5; omega⟩ : Fin 16384) := by
  funext a; refine Fin.ext ?_
  show win5_3.index u a * win5_3.size a + 1 * (ix3 l o j a).val = _
  rw [idx5_3 u]
  match a with
  | ⟨0, _⟩ => show 0 * 50 + 1 * l.val = l.val; omega
  | ⟨1, _⟩ => show 0 * 64 + 1 * o.val = o.val; omega
  | ⟨2, _⟩ => show (8 * 1 + u.val) * 512 + 1 * j.val = 4096 * 1 + 512 * u.val + j.val; omega

omit [URA UU] in
theorem mem3_iff (u : Fin cfg5.N) (y : S50x64x16384.Idx) :
    y ∈ (win5_3.rect u).set
      ↔ ∀ a, win5_3.index u a * win5_3.size a ≤ (y a : ℕ) ∧ (y a : ℕ) < win5_3.index u a * win5_3.size a + win5_3.xsize (grid5.coords u) a :=
  Rect.mem_set_unit (s := win5_3.shape) (off := fun a => win5_3.index u a * win5_3.size a) (size := win5_3.xsize (grid5.coords u))
    (inb := fun a => Pipeline.Clip.inb (win5_3.hclip (grid5.coords u) a)) (i := y)

omit [URA UU] in
theorem not_mem3 (u : Fin cfg5.N) (l : Fin 50) (o : Fin 64) (b : Fin 16384) (hb : b.val < 4096 * 1 + 512 * u.val ∨ 4096 * 1 + 512 * (u.val + 1) ≤ b.val) :
    ix3 l o b ∉ (win5_3.rect u).set := by
  rw [mem3_iff]
  intro hm
  have h2 := hm ⟨2, by decide⟩
  rw [idx5_3 u] at h2
  have h2a : (8 * 1 + u.val) * 512 ≤ b.val := h2.1
  have h2b : b.val < (8 * 1 + u.val) * 512 + 512 := h2.2
  omega

/-- After the write-backs of the points below `n`: columns `4096 … 4096 + 512 n − 1` hold the projection, every other column is as at
    entry. -/
def Upto (x : FVec Ideal S4096x50x64 .f32) (w : FVec Ideal S64x64 .f32) (b : FVec Ideal S64x1 .f32) (a3 : FVec Ideal S50x64x16384 .f32)
    (n : ℕ) (F : FVec Ideal S50x64x16384 .f32) : Prop :=
  (∀ (l : Fin 50) (o : Fin 64) (b' : Fin 4096), b'.val < 512 * n →
      F (ix3 l o (⟨4096 * 1 + b'.val, by omega⟩ : Fin 16384)) = (∑ e : Fin 64, w (ix2 e o) * x (ix3 b' l e)) + b (ix2 o (0 : Fin 1)))
  ∧ (∀ (l : Fin 50) (o : Fin 64) (b : Fin 16384), (b.val < 4096 * 1 ∨ 4096 * 1 + 512 * n ≤ b.val) → F (ix3 l o b) = a3 (ix3 l o b))

theorem arrStep3 (n : ℕ) (hu : n < cfg5.N) (F : Buf (Elt Ideal) ((cfg5.win 3).arr.view.loc (c.tc : Thread nD τ)))
    (h : (rd5v (UU := UU) c A).ArrAt 3 (n + 1) F) :
    (rd5v (UU := UU) c A).ArrStep 3 ⟨n, hu⟩ ((rd5v (UU := UU) c A).ArrAt 3 n) F := by
  have e := RDat.ArrAt_succ (rd5v (UU := UU) c A) 3 ⟨n, hu⟩
  rw [if_pos (flush5_3 ⟨n, hu⟩)] at e
  exact (congrFun e F).mp h

set_option maxHeartbeats 1000000 in
theorem arrAt3 : ∀ (n : ℕ) (_ : n ≤ 8) (F : Buf (Elt Ideal) ((cfg5.win 3).arr.view.loc (c.tc : Thread nD τ))),
    (rd5v (UU := UU) c A).ArrAt 3 n F → Upto (A 0) (A 1) (A 2) (A 3) n F
  | 0, _, F, h => by
    have hF : F = A 3 := h
    subst hF
    exact ⟨fun _ _ b' hb => absurd hb (by omega), fun _ _ _ _ => rfl⟩
  | n + 1, hn, F, h => by
    have hu : n < cfg5.N := by rw [N5]; omega
    obtain ⟨G₀, X, hG₀, ⟨Yb, -, hX⟩, rfl⟩ := arrStep3 c A n hu F h
    have ih := arrAt3 n (by omega) G₀ hG₀
    have hXok : BlkOK (A 0) (A 1) (A 2) ⟨n, hu⟩ X := hX
    refine ⟨fun l o b' hb => ?_, fun l o b hb => ?_⟩
    · by_cases hlt : b'.val < 512 * n
      · have e0 := wb_not_mem c ⟨n, hu⟩ G₀ X _ (not_mem3 ⟨n, hu⟩ l o ⟨4096 * 1 + b'.val, by omega⟩
          (Or.inl (by show 4096 * 1 + b'.val < 4096 * 1 + 512 * n; omega)))
        rw [View.read_whole, View.read_whole] at e0
        exact e0.trans (ih.1 l o b' hlt)
      · have hj : b'.val - 512 * n < 512 := by omega
        have e1 := wb_emb c ⟨n, hu⟩ G₀ X (ix3 l o ⟨b'.val - 512 * n, hj⟩)
        rw [emb3, View.read_whole] at e1
        have hidx : (⟨4096 * 1 + 512 * (⟨n, hu⟩ : Fin cfg5.N).val + (⟨b'.val - 512 * n, hj⟩ : Fin 512).val, by
              have := lt_of_lt_of_eq (⟨n, hu⟩ : Fin cfg5.N).isLt N5; omega⟩ : Fin 16384)
            = ⟨4096 * 1 + b'.val, by omega⟩ := Fin.ext (by show 4096 * 1 + 512 * n + (b'.val - 512 * n) = 4096 * 1 + b'.val; omega)
        rw [hidx] at e1
        refine e1.trans ?_
        have hq : (⟨512 * (⟨n, hu⟩ : Fin cfg5.N).val + (⟨b'.val - 512 * n, hj⟩ : Fin 512).val, by
              have := lt_of_lt_of_eq (⟨n, hu⟩ : Fin cfg5.N).isLt N5; omega⟩ : Fin 4096) = b' :=
          Fin.ext (by show 512 * n + (b'.val - 512 * n) = b'.val; omega)
        have e2 := hXok l o ⟨b'.val - 512 * n, hj⟩
        rw [hq] at e2
        exact e2
    · have e0 := wb_not_mem c ⟨n, hu⟩ G₀ X _ (not_mem3 ⟨n, hu⟩ l o b (by
          rcases hb with hb | hb
          · exact Or.inl (by omega)
          · exact Or.inr (by show 4096 * 1 + 512 * (n + 1) ≤ b.val; omega)))
      rw [View.read_whole, View.read_whole] at e0
      exact e0.trans (ih.2 l o b (by rcases hb with hb | hb; exact Or.inl hb; exact Or.inr (by omega)))

/-- After the region the output array holds the projection in columns `4096 … 8191` and its entry contents elsewhere. -/
theorem projBlk5 (F : Buf (Elt Ideal) ((cfg5.win 3).arr.view.loc (c.tc : Thread nD τ)))
    (h : (rd5v (UU := UU) c A).ArrAt 3 cfg5.N F) : ProjBlk 1 (A 0) (A 1) (A 2) (A 3) F := by
  obtain ⟨h1, h2⟩ := arrAt3 c A cfg5.N (le_of_eq N5) F h
  refine ⟨fun l o b' => ?_, fun l o b hb => ?_⟩
  · exact h1 l o b' (by have := N5; have := b'.isLt; omega)
  · refine h2 l o b ?_
    have h8 := N5
    simp only [show ((1 : Fin 4) : ℕ) = 1 from rfl] at hb
    rcases hb with hb | hb
    · exact Or.inl (by omega)
    · exact Or.inr (by omega)

end Exit

/-! ## The region's proof data, for every pipeline and core

The library's region rule is stated over a family of proof data, one per pipeline and core, of which it reads only the one
at the pipeline and core entered. The family below is the region's data at pipeline 1 and says nothing elsewhere. -/

section RegionV

variable (d : Dev nD) (f3 : Buf (Elt Ideal) ((T d : Thread nD τ).loc main_v4)) (fw : Buf (Elt Ideal) ((T d : Thread nD τ).loc main_v1))
  (fb : Buf (Elt Ideal) ((T d : Thread nD τ).loc main_v2)) (f7 : Buf (Elt Ideal) ((T d : Thread nD τ).loc main_v8))

/-- The family: the region's data at pipeline 1, data that says nothing at the others. -/
def rdatsV : (p : Fin 4) → (c : Dev nD) → RDat τ (Elt Ideal) (HIx 4) ℕ UU ℕ (Pipeline.pin (pcfgs (F := Ideal)) adm p) c
  | ⟨0, _⟩, _ => { A := fun _ _ => default, after := fun _ _ _ _ => True, Φ := fun _ => iprop(emp), q := fun _ => fullShare, owed := fun _ => 0 }
  | ⟨1, _⟩, c => rd5v c (A5c d f3 fw fb f7 c)
  | ⟨_ + 2, _⟩, _ => { A := fun _ _ => default, after := fun _ _ _ _ => True, Φ := fun _ => iprop(emp), q := fun _ => fullShare, owed := fun _ => 0 }

theorem rdatsV_zero (c : Dev nD) : rdatsV (UU := UU) d f3 fw fb f7 1 c = rd5v c (A5c d f3 fw fb f7 c) := rfl

end RegionV

/-! ## The region as the library's record, and its step at @main's line -/

section StepV

variable (d : Dev nD) (f3 : Buf (Elt Ideal) ((T d : Thread nD τ).loc main_v4)) (fw : Buf (Elt Ideal) ((T d : Thread nD τ).loc main_v1))
  (fb : Buf (Elt Ideal) ((T d : Thread nD τ).loc main_v2)) (f7 : Buf (Elt Ideal) ((T d : Thread nD τ).loc main_v8))

theorem share5v (c : Dev nD) (w : Fin cfg5.W) : (rdatsV (UU := UU) d f3 fw fb f7 1 c).share w = fullShare :=
  (rdatsV (UU := UU) d f3 fw fb f7 1 c).share_full (fun _ => rfl) w

/-- The region's four arrays, one by one. -/
theorem arrays5v (c : Dev nD) (G : (w : Fin cfg5.W) → Buf (Elt Ideal) ((cfg5.win w).arr.view.loc (c.tc : Thread nD τ))) :
    ((rdatsV (UU := UU) d f3 fw fb f7 1 c).arrays G : sProp 𝕄)
      = iprop((((c.tc : Thread nD τ).loc main_v4) ↦{fullShare} G 0) ∗ (((c.tc : Thread nD τ).loc main_v1) ↦{fullShare} G 1)
          ∗ (((c.tc : Thread nD τ).loc main_v2) ↦{fullShare} G 2) ∗ (((c.tc : Thread nD τ).loc main_v8) ↦{fullShare} G 3)) := by
  rw [Pipeline.RDat.arrays_eq (pcfgs (F := Ideal)) adm (rdatsV (UU := UU) d f3 fw fb f7) 1 c launch5.arr_whole (share5v d f3 fw fb f7 c) G, bigSep_W5]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg5v : Pipeline.RDat.RegionSeg (pcfgs (F := Ideal)) adm (rdatsV (UU := UU) d f3 fw fb f7) none defs₀ 𝒱₀ (K (F := Ideal)).L (K (F := Ideal)).lev 1 where
  win := launch5.win.to₀
  block_pos := launch5.block_pos
  stage_whole := launch5.stage_whole
  K := PEmpty
  osem := fun k => k.elim
  ho := Pipeline.OwnSemFacts.none _
  hbody c := body5v c _
  hwaits := Pipeline.RDat.hwaits_of_owed_zero _ _ _ _ _ _ 1 fun _ _ => rfl
  pre c := iprop((rdatsV (UU := UU) d f3 fw fb f7 1 c).arrays (rdatsV (UU := UU) d f3 fw fb f7 1 c).A ∗ (rdatsV (UU := UU) d f3 fw fb f7 1 c).owesAt none 0)
  post c := iprop((rdatsV (UU := UU) d f3 fw fb f7 1 c).arraysAt cfg5.N ∗ (rdatsV (UU := UU) d f3 fw fb f7 1 c).owesAt none (Fin.last cfg5.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec5 c) ⊢ Pipeline.scopedRest spec5 c
    iintro ⟨-, -, Hr⟩; iexact Hr
  hout c := by
    rw [Pipeline.ownSems0_none]
    show Pipeline.scopedRest spec5 c ⊢ iprop(_ ∗ _ ∗ Pipeline.scopedRest spec5 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre5v (W : Waits sig (HIx 4)) (hW : (K (F := Ideal)).WBelow (T d) W 32) :
    iprop(owes (T d : Thread nD τ) (0 : CellTallies nD τ sig (HIx 4)) W
        ∗ (((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7))
      ⊢ ((reg5v (UU := UU) d f3 fw fb f7).pre d : sProp 𝕄) := by
  show _ ⊢ iprop((rdatsV (UU := UU) d f3 fw fb f7 1 d).arrays (rdatsV (UU := UU) d f3 fw fb f7 1 d).A ∗ (rdatsV (UU := UU) d f3 fw fb f7 1 d).owesAt none 0)
  rw [arrays5v, show (rdatsV (UU := UU) d f3 fw fb f7 1 d).A = A5 d f3 fw fb f7 from A5c_self d f3 fw fb f7]
  show _ ⊢ iprop(((((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7))
      ∗ ∃ W' : Waits sig (HIx 4), ⌜(↑W' : Set (SemLoc sig × HIx 4)) ⊆ (rdatsV (UU := UU) d f3 fw fb f7 1 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_belowV (t : Fin (cfg5.N + 1)) (W' : Waits sig (HIx 4))
    (h : (↑W' : Set (SemLoc sig × HIx 4)) ⊆ (rdatsV (UU := UU) d f3 fw fb f7 1 d).bound none t) : (K (F := Ideal)).WBelow (T d) W' 32 := by
  intro p hp
  rcases h (Finset.mem_coe.mpr hp) with h | ⟨w, s, rfl⟩
  · exact h
  · exact Nat.zero_le _

/-- EXIT at device `d`: the arrays the region reads are as they were, its output holds the projection in its 4096 columns and its
    entry contents elsewhere, the core owes nothing. -/
theorem post5v :
    ((reg5v (UU := UU) d f3 fw fb f7).post d : sProp 𝕄)
      ⊢ iprop((((T d : Thread nD τ).loc main_v4) ↦{fullShare} f3) ∗ (((T d : Thread nD τ).loc main_v1) ↦{fullShare} fw)
        ∗ (((T d : Thread nD τ).loc main_v2) ↦{fullShare} fb) ∗ (∃ g, ⌜ProjBlk 1 f3 fw fb f7 g⌝ ∗ ((T d : Thread nD τ).loc main_v8) ↦{fullShare} g)
        ∗ ∃ W', ⌜(K (F := Ideal)).WBelow (T d) W' 32⌝ ∗ owes (T d : Thread nD τ) (0 : CellTallies nD τ sig (HIx 4)) W') := by
  have hA : (rdatsV (UU := UU) d f3 fw fb f7 1 d).A = A5 d f3 fw fb f7 := A5c_self d f3 fw fb f7
  have e0 := (rdatsV (UU := UU) d f3 fw fb f7 1 d).ArrAt_in 0 rfl cfg5.N
  have e1 := (rdatsV (UU := UU) d f3 fw fb f7 1 d).ArrAt_in 1 rfl cfg5.N
  have e2 := (rdatsV (UU := UU) d f3 fw fb f7 1 d).ArrAt_in 2 rfl cfg5.N
  show iprop((rdatsV (UU := UU) d f3 fw fb f7 1 d).arraysAt cfg5.N
      ∗ ∃ W' : Waits sig (HIx 4), ⌜(↑W' : Set (SemLoc sig × HIx 4)) ⊆ (rdatsV (UU := UU) d f3 fw fb f7 1 d).bound none (Fin.last cfg5.N)⌝ ∗ owes (T d : Thread nD τ) (0 : CellTallies nD τ sig (HIx 4)) W') ⊢ _
  unfold RDat.arraysAt
  rw [bigSep_W5, e0, e1, e2, hA]
  simp only [share5v, (launch5.arr_whole _).set_eq_univ]
  iintro ⟨⟨⟨%F0, %h0, H0⟩, ⟨%F1, %h1, H1⟩, ⟨%F2, %h2, H2⟩, ⟨%F3, %h3, H3⟩⟩, ⟨%W', %hW', HO⟩⟩
  have hP : ProjBlk 1 f3 fw fb f7 F3 := by
    have h3' : (rd5v (UU := UU) d (A5 d f3 fw fb f7)).ArrAt 3 cfg5.N F3 := by
      have h := h3
      rw [rdatsV_zero, A5c_self] at h
      exact h
    exact projBlk5 d (A5 d f3 fw fb f7) F3 h3'
  subst h0; subst h1; subst h2
  isplitl [H0]; · iexact H0
  isplitl [H1]; · iexact H1
  isplitl [H2]; · iexact H2
  isplitl [H3]
  · iexists F3; isplitr; · ipureintro; exact hP
    iexact H3
  iexists W'; isplitr
  · ipureintro; exact bound_belowV _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 1, the region's call runs
    — under any continuation — to the boundary again, the three arrays it reads unchanged, the output holding the projection of the
    4096 gathered batch entries in its columns 4096 … 8191 and its entry contents in the others, and the TensorCore still owing
    nothing. -/
theorem region1V (EP : Emb (URounds (GSem nD τ sig) Unit) 𝕄) [EP.LandsIn (upEmb : UEmb _ 𝕄)]
    (W : Waits sig (HIx 4)) (hW : (K (F := Ideal)).WBelow (T d) W 32)
    {α : Type} (k : PUnit → Prog (TpuEff nD τ sig (Elt Ideal) (SparseCore.Sig (ΛP (F := Ideal)) 4) .tc) α) (Q : α → sProp 𝕄) :
    iprop((iprop(boundary (T d : Thread nD τ) ∗ (((T d : Thread nD τ).loc main_v4) ↦{fullShare} f3) ∗ (((T d : Thread nD τ).loc main_v1) ↦{fullShare} fw)
              ∗ (((T d : Thread nD τ).loc main_v2) ↦{fullShare} fb) ∗ (∃ g, ⌜ProjBlk 1 f3 fw fb f7 g⌝ ∗ ((T d : Thread nD τ).loc main_v8) ↦{fullShare} g)
              ∗ ∃ W', ⌜(K (F := Ideal)).WBelow (T d) W' 32⌝ ∗ owes (T d : Thread nD τ) (0 : CellTallies nD τ sig (HIx 4)) W')
            -∗ wp frame (wpE ((K (F := Ideal)).defs D) 𝒱 (T d) none) Set.univ (k ⟨⟩) Q)
        ∗ boundary (T d : Thread nD τ) ∗ levAts (K (F := Ideal)).L (K (F := Ideal)).lev ∗ owes (T d : Thread nD τ) (0 : CellTallies nD τ sig (HIx 4)) W
        ∗ (((T d : Thread nD τ).loc main_v4) ↦{fullShare} f3) ∗ (((T d : Thread nD τ).loc main_v1) ↦{fullShare} fw)
        ∗ (((T d : Thread nD τ).loc main_v2) ↦{fullShare} fb) ∗ (((T d : Thread nD τ).loc main_v8) ↦{fullShare} f7)
        ∗ Pipeline.cellsGhost cfgs EP 1 d ∗ Pipeline.toksInit cfgs EP 1 d)
      ⊢ wp frame (wpE ((K (F := Ideal)).defs D) 𝒱 (T d) none) Set.univ (.op (.customCall (SparseCore.inner (Pipeline.entry 1)) ()) k) Q := by
  have hop : (Prog.op (.customCall (SparseCore.inner (Pipeline.entry 1)) ()) k : Prog (TpuEff nD τ sig (Elt Ideal) (SparseCore.Sig (ΛP (F := Ideal)) 4) .tc) α)
      = (SparseCore.liftProg (Q := 4) (Prog.op (.customCall (Pipeline.entry (1 : Fin 4)) ()) fun x => .ret x : Prog (TpuEff nD τ sig (Elt Ideal) (ΛP (F := Ideal)) .tc) PUnit) >>= k) := rfl
  rw [hop, wp_bind]
  refine BIBase.Entails.trans ?_ ((K (F := Ideal)).wp_liftProg D 𝒱 (T d) Set.univ none _ _)
  refine BIBase.Entails.trans ?_ (Pipeline.RDat.RegionSeg.wp (pcfgs (F := Ideal)) adm (rdatsV (UU := UU) d f3 fw fb f7) none cellOf_inj EP defs₀ 𝒱₀
    (K (F := Ideal)).L (K (F := Ideal)).lev (reg5v d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post5v d f3 fw fb f7); iexact Hpost
  isplitl [Hbd]; · iexact Hbd
  isplitl [HO H3 H1 H2 H7]
  · iapply (pre5v d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end StepV

end Cert.Proof.Region5

end
-- ==== Proof.Region6Run.lean ====
/-
  The body of projection kernel number 3 run once more, now NAMING what it leaves in the output block: the
  fifty slices' stores over whatever the block held (every element of the block is in one of them).
-/
import proofs.«204056_g19739669692900_cont_8to1_1488_31_alg».proof.Proof.Region4Pay
import proofs.«204056_g19739669692900_cont_8to1_1488_31_alg».proof.Proof.Region6Body

noncomputable section

namespace Cert.Proof.Region6

open Cert.KernelIdeal Cert.KernelIdeal.Gen
open Cert.Proof.Region4 (pieces)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Ix : Type} [DecidableEq Ix] {UU : Type} [URA UU]

local notation "𝕄" => MT nD τ sig Ix (Elt F) ℕ UU ℕ

set_option maxHeartbeats 4000000 in
/-- The output block's contents after the body, with the proof that from the four buffers held whole the body runs to
    its return handing back the three inputs unchanged and the output block at those contents. -/
noncomputable def run6v (c : Dev nD) (i : grid6.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) :
    { Wo : Bf (F := F) c M4 // ∀ (f4 : Bf (F := F) c M4) (E : Set ℕ) (Q : PUnit → sProp 𝕄),
        iprop(pt c M1 f1 ∗ pt c M2 f2 ∗ pt c M3 f3 ∗ pt c M4 f4
            ∗ (iprop(pt c M1 f1 ∗ pt c M2 f2 ∗ pt c M3 f3 ∗ pt c M4 Wo) -∗ Q ⟨⟩))
          ⊢ wp frame (wpE (defs₀ (F := F)) Variants.none c none) E (cc6_body i M1 h1 M2 h2 M3 h3 Mp hp M4 h4) Q } := by
  refine ⟨?_, fun f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxRecDepth 65536 in
set_option maxHeartbeats 4000000 in
/-- The contents found are the fifty slices' stores over whatever the block held. -/
theorem bridge (c : Dev nD) (i : grid6.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) :
    (run6v (Ix := Ix) (UU := UU) c i M1 h1 M2 h2 M3 h3 Mp hp M4 h4 f1 f2 f3).1
      = M4.view.writes (Elt F) M4.view.junk (pieces c M1 M2 M3 f1 f2 f3 50 le_rfl) := rfl

end Cert.Proof.Region6

end
-- ==== Proof.Region6Read.lean ====
/-
  What projection kernel number 3's body leaves in its output block, read at an index: element (l, o, j) is the
  contraction of the staged weights' column o with the staged batch entry j's row at history position l, plus the
  staged bias at o (the same body as the first projection kernel's: its fifty stores are the same pieces).
-/
import proofs.«204056_g19739669692900_cont_8to1_1488_31_alg».proof.Proof.Region4Read
import proofs.«204056_g19739669692900_cont_8to1_1488_31_alg».proof.Proof.Region6Run

noncomputable section

namespace Cert.Proof.Region6

open Cert.KernelIdeal Cert.KernelIdeal.Gen

open Idealize.ShloMosaic Idealize.ShloMosaic.ValueIdx
open Idealize.ShloMosaic.TcCoe
open Cert.Proof.Region4 (read_pieces PAY_apply Wv_apply bv_apply xslice_apply)

/-- **The body's output block, named.** After the body, element `(l, o, j)` of the output block — whatever the block
    held before — is the contraction of the staged weights' column `o` with the staged batch entry `j`'s row at history
    position `l`, plus the staged bias at `o`. -/
theorem run_value {Ix : Type} [DecidableEq Ix] {UU : Type} [Idealize.SL.RA.URA UU] (c : Dev nD) (i : grid6.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := Ideal) c M1) (f2 : Bf (F := Ideal) c M2) (f3 : Bf (F := Ideal) c M3) (l : Fin 50) (o : Fin 64) (j : Fin 512) :
    M4.view.read (Elt Ideal) (run6v (F := Ideal) (Ix := Ix) (UU := UU) c i M1 h1 M2 h2 M3 h3 Mp hp M4 h4 f1 f2 f3).1 (ix3 l o j)
      = (∑ e : Fin 64, (M2.view.read (Elt Ideal) f2 : FVec Ideal S64x64 .f32) (ix2 e o)
            * (M1.view.read (Elt Ideal) f1 : FVec Ideal S512x50x64 .f32) (ix3 j l e))
          + (M3.view.read (Elt Ideal) f3 : FVec Ideal S64x1 .f32) (ix2 o (0 : Fin 1)) := by
  rw [bridge, read_pieces c M1 M2 M3 f1 f2 f3 M4 _ 50 le_rfl l l.isLt o j, PAY_apply]
  simp only [Wv_apply, bv_apply, xslice_apply]

end Cert.Proof.Region6

end
-- ==== Proof.Region6Val.lean ====
/-
  Projection kernel number 3 as a region of the TensorCore's program, with what it writes.

  At grid point t the body is handed block t of the gathered rows (batch entries 512 t … 512 t + 511) and the whole
  transposed weights and bias column, and leaves in the output's staging buffer the block
      out_t[l, o, j] = sum_e W[e, o] * x[512 t + j, l, e] + bias[o, 0];
  the pipeline writes that block back to columns 8192 + 512 t … 8192 + 512 t + 511 of the output array. After the eight points
  the output array holds the projection of the 4096 gathered batch entries in its columns 8192 … 12287 and what it
  held at entry in every other column; the three arrays the region reads are unchanged.
-/
import proofs.«204056_g19739669692900_cont_8to1_1488_31_alg».proof.Proof.Region6Read
import proofs.«204056_g19739669692900_cont_8to1_1488_31_alg».proof.Proof.Region6
import proofs.«204056_g19739669692900_cont_8to1_1488_31_alg».proof.Proof.LaunchMainV
import Idealize.ShloMosaic.Lib.Pipeline.FrameBody

noncomputable section

namespace Cert.Proof.Region6

open Cert.KernelIdeal Cert.KernelIdeal.Gen

open Idealize.ShloMosaic Idealize.ShloMosaic.ValueIdx
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.LaunchI (ProjBlk)

variable {UU : Type} [URA UU]

local notation "𝕄" => MT nD τ sig (HIx 4) (Elt Ideal) ℕ UU ℕ

/-! ## What a grid point's output block holds -/

theorem N6 : cfg6.N = 8 := N_6

/-- At grid point `t` the output block is the projection of batch entries `512 t … 512 t + 511`: element `(l, o, j)` is the
    weights' column `o` contracted with entry `512 t + j`'s gathered row at history position `l`, plus the bias at `o`. -/
def BlkOK (x : FVec Ideal S4096x50x64 .f32) (w : FVec Ideal S64x64 .f32) (b : FVec Ideal S64x1 .f32) (t : Fin cfg6.N)
    (X : FVec Ideal S50x64x512 .f32) : Prop :=
  ∀ (l : Fin 50) (o : Fin 64) (j : Fin 512),
    X (ix3 l o j) = (∑ e : Fin 64, w (ix2 e o) * x (ix3 (⟨512 * t.val + j.val, by have := lt_of_lt_of_eq t.isLt N6; omega⟩ : Fin 4096) l e))
      + b (ix2 o (0 : Fin 1))

/-- The region's proof data with values: an input's staging buffer is left as found, the output's holds the point's block. -/
def rd6v (c : Dev nD) (A : (w : Fin cfg6.W) → Buf (Elt Ideal) ((cfg6.win w).arr.view.loc (c.tc : Thread nD τ))) :
    RDat τ (Elt Ideal) (HIx 4) ℕ UU ℕ cfg6 c where
  A := A
  after w t := match w with
    | ⟨0, _⟩ => fun Y X => X = Y
    | ⟨1, _⟩ => fun Y X => X = Y
    | ⟨2, _⟩ => fun Y X => X = Y
    | ⟨3, _⟩ => fun _ X => BlkOK (A 0) (A 1) (A 2) t X
    | ⟨_ + 4, h⟩ => absurd h (Nat.not_lt.2 (Nat.le_add_left _ _))
  Φ _ := Pipeline.scopedRest spec6 c
  q _ := fullShare
  owed _ := 0
  recorded _ := Bd (F := Ideal) c

/-- Window 0's block index at point `t` is `(t, 0, 0)`; the output window's is `(0, 0, t)`. -/
theorem idx6_0 : ∀ t : Fin grid6.N, win6_0.index t = ![t.val, 0, 0] := by decide +kernel
theorem idx6_3 : ∀ t : Fin grid6.N, win6_3.index t = ![0, 0, 8 * 2 + t.val] := by decide +kernel
theorem idx6_1 : ∀ t : Fin grid6.N, win6_1.index t = ![0, 0] := by decide +kernel
theorem idx6_2 : ∀ t : Fin grid6.N, win6_2.index t = ![0, 0] := by decide +kernel

section Finds

variable (c : Dev nD) (A : (w : Fin cfg6.W) → Buf (Elt Ideal) ((cfg6.win w).arr.view.loc (c.tc : Thread nD τ)))

/-- The gathered rows' staging buffer holds, at point `t`, batch entries `512 t … 512 t + 511` of the array. -/
theorem finds0 (t : Fin cfg6.N) (Y : (cfg6.win 0).block.Idx → Elt Ideal (cfg6.win 0).elt)
    (hY : (rd6v (UU := UU) c A).Finds 0 t Y) (j : Fin 512) (l : Fin 50) (e : Fin 64) :
    (Y : FVec Ideal S512x50x64 .f32) (ix3 j l e)
      = (A 0 : FVec Ideal S4096x50x64 .f32) (ix3 (⟨512 * t.val + j.val, by have := lt_of_lt_of_eq t.isLt N6; omega⟩ : Fin 4096) l e) := by
  obtain ⟨d, rfl⟩ := RDat.finds_in_eq_fetched (rd6v (UU := UU) c A) 0 rfl (fun _ _ _ => rfl) (fun _ _ _ h => h) t Y hY
  show ((cfg6.win 0).blk t).view.read (Elt Ideal) (A 0) (ix3 j l e) = _
  have hemb : ((cfg6.win 0).blk t).view.emb (ix3 j l e)
      = ix3 (⟨512 * t.val + j.val, by have := lt_of_lt_of_eq t.isLt N6; omega⟩ : Fin 4096) l e := by
    funext a; refine Fin.ext ?_
    show win6_0.index t a * win6_0.size a + 1 * (ix3 j l e a).val = _
    rw [idx6_0 t]
    match a with
    | ⟨0, _⟩ => show t.val * 512 + 1 * j.val = 512 * t.val + j.val; omega
    | ⟨1, _⟩ => show 0 * 50 + 1 * l.val = l.val; omega
    | ⟨2, _⟩ => show 0 * 64 + 1 * e.val = e.val; omega
  show (A 0) (((cfg6.win 0).blk t).view.emb (ix3 j l e)) = _
  rw [hemb]

/-- The weights' and the bias's staging buffers hold the whole arrays at every point (fetched once, left as found). -/
theorem finds1 (t : Fin cfg6.N) (Y : (cfg6.win 1).block.Idx → Elt Ideal (cfg6.win 1).elt)
    (hY : (rd6v (UU := UU) c A).Finds 1 t Y) : (Y : FVec Ideal S64x64 .f32) = (A 1 : FVec Ideal S64x64 .f32) := by
  obtain ⟨d, rfl⟩ := RDat.finds_in_eq_fetched (rd6v (UU := UU) c A) 1 rfl (fun _ _ _ => rfl) (fun _ _ _ h => h) t Y hY
  show ((cfg6.win 1).blk t).view.read (Elt Ideal) (A 1) = _
  funext y
  show (A 1) (((cfg6.win 1).blk t).view.emb y) = A 1 y
  congr 1
  funext a; refine Fin.ext ?_
  show win6_1.index t a * win6_1.size a + 1 * (y a).val = (y a).val
  rw [idx6_1 t]
  match a with
  | ⟨0, _⟩ => show 0 * 64 + 1 * _ = _; omega
  | ⟨1, _⟩ => show 0 * 64 + 1 * _ = _; omega

theorem finds2 (t : Fin cfg6.N) (Y : (cfg6.win 2).block.Idx → Elt Ideal (cfg6.win 2).elt)
    (hY : (rd6v (UU := UU) c A).Finds 2 t Y) : (Y : FVec Ideal S64x1 .f32) = (A 2 : FVec Ideal S64x1 .f32) := by
  obtain ⟨d, rfl⟩ := RDat.finds_in_eq_fetched (rd6v (UU := UU) c A) 2 rfl (fun _ _ _ => rfl) (fun _ _ _ h => h) t Y hY
  show ((cfg6.win 2).blk t).view.read (Elt Ideal) (A 2) = _
  funext y
  show (A 2) (((cfg6.win 2).blk t).view.emb y) = A 2 y
  congr 1
  funext a; refine Fin.ext ?_
  show win6_2.index t a * win6_2.size a + 1 * (y a).val = (y a).val
  rw [idx6_2 t]
  match a with
  | ⟨0, _⟩ => show 0 * 64 + 1 * _ = _; omega
  | ⟨1, _⟩ => show 0 * 1 + 1 * _ = _; omega

end Finds

/-! ## The body obligation, with values -/

theorem owns_whole_elim' (c : Thread nD τ) {sp : Space} {sh : Shape} {e : EltTy} (m : Memref sig c.2.kind sp sh e) (h : m.IsWhole)
    (q : PosShare TreeShare) (X : sh.Idx → Elt Ideal e) :
    (owns c m q X : sProp 𝕄) ⊢ iprop(∃ f, ⌜m.view.read (Elt Ideal) f = X⌝ ∗ m.view.loc c ↦{q} f) := by
  unfold owns; rw [h.set_eq_univ]

theorem owns_whole_intro' (c : Thread nD τ) {sp : Space} {sh : Shape} {e : EltTy} (m : Memref sig c.2.kind sp sh e) (h : m.IsWhole)
    (q : PosShare TreeShare) (f : Buf (Elt Ideal) (m.view.loc c)) :
    (m.view.loc c ↦{q} f : sProp 𝕄) ⊢ owns c m q (m.view.read (Elt Ideal) f) := by
  unfold owns; rw [h.set_eq_univ]
  iintro H; iexists f; isplitr; · ipureintro; rfl
  iexact H

section Body

variable (c : Dev nD) (A : (w : Fin cfg6.W) → Buf (Elt Ideal) ((cfg6.win w).arr.view.loc (c.tc : Thread nD τ)))

theorem sound_bodyV (t : Fin cfg6.N) (Y : (w : Fin cfg6.W) → (cfg6.win w).block.Idx → Elt Ideal (cfg6.win w).elt)
    (hY : ∀ w, (rd6v (UU := UU) c A).Finds w t (Y w)) :
    iprop((rd6v (UU := UU) c A).Φ t.castSucc ∗ (rd6v (UU := UU) c A).owesAt none t.castSucc
        ∗ owns (c : Thread nD τ) (st6_0 t) fullShare (Y 0) ∗ owns (c : Thread nD τ) (st6_1 t) fullShare (Y 1)
        ∗ owns (c : Thread nD τ) (st6_2 t) fullShare (Y 2) ∗ owns (c : Thread nD τ) (st6_3 t) fullShare (Y 3))
      ⊢ wp frame (wpE (defs₀ (F := Ideal)) 𝒱₀ c none) Set.univ (bodyAt6 t) fun _ =>
          iprop((rd6v (UU := UU) c A).Φ t.succ ∗ (rd6v (UU := UU) c A).owesAt none t.succ
            ∗ (∃ X, ⌜(rd6v (UU := UU) c A).after 0 t (Y 0) X⌝ ∗ owns (c : Thread nD τ) (st6_0 t) fullShare X)
            ∗ (∃ X, ⌜(rd6v (UU := UU) c A).after 1 t (Y 1) X⌝ ∗ owns (c : Thread nD τ) (st6_1 t) fullShare X)
            ∗ (∃ X, ⌜(rd6v (UU := UU) c A).after 2 t (Y 2) X⌝ ∗ owns (c : Thread nD τ) (st6_2 t) fullShare X)
            ∗ (∃ X, ⌜(rd6v (UU := UU) c A).after 3 t (Y 3) X⌝ ∗ owns (c : Thread nD τ) (st6_3 t) fullShare X)) := by
  rw [show (rd6v (UU := UU) c A).Φ t.succ = (rd6v (UU := UU) c A).Φ t.castSucc from rfl,
    show (rd6v (UU := UU) c A).owesAt none t.succ = (rd6v (UU := UU) c A).owesAt none t.castSucc from rfl]
  have hs0 := hstage6_0 ((cfg6.slots t 0).cast nbuf6_0)
  have hs1 := hstage6_1 ((cfg6.slots t 1).cast nbuf6_1)
  have hs2 := hstage6_2 ((cfg6.slots t 2).cast nbuf6_2)
  have hs3 := hstage6_3 ((cfg6.slots t 3).cast nbuf6_3)
  iintro ⟨HΦ, HO, H0, H1, H2, H3⟩
  ihave H0 := (owns_whole_elim' (c : Thread nD τ) (st6_0 t) hs0 fullShare (Y 0)) $$ H0
  ihave H1 := (owns_whole_elim' (c : Thread nD τ) (st6_1 t) hs1 fullShare (Y 1)) $$ H1
  ihave H2 := (owns_whole_elim' (c : Thread nD τ) (st6_2 t) hs2 fullShare (Y 2)) $$ H2
  ihave H3 := (owns_whole_elim (c : Thread nD τ) (st6_3 t) hs3 fullShare (Y 3)) $$ H3
  icases H0 with ⟨%f0, %hf0, H0⟩
  icases H1 with ⟨%f1, %hf1, H1⟩
  icases H2 with ⟨%f2, %hf2, H2⟩
  icases H3 with ⟨%f3, H3⟩
  iapply ((run6v (F := Ideal) (Ix := HIx 4) (UU := UU) c (grid6.coords t) (st6_0 t) hs0 (st6_1 t) hs1 (st6_2 t) hs2 (Memref.whole main_v8) (Memref.isWhole_whole _) (st6_3 t) hs3 f0 f1 f2).2 f3 Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · ipureintro; exact rfl
    rw [← hf0]; iapply (owns_whole_intro' (c : Thread nD τ) (st6_0 t) hs0 fullShare f0); iexact H0
  isplitl [H1]
  · iexists Y 1; isplitr; · ipureintro; exact rfl
    rw [← hf1]; iapply (owns_whole_intro' (c : Thread nD τ) (st6_1 t) hs1 fullShare f1); iexact H1
  isplitl [H2]
  · iexists Y 2; isplitr; · ipureintro; exact rfl
    rw [← hf2]; iapply (owns_whole_intro' (c : Thread nD τ) (st6_2 t) hs2 fullShare f2); iexact H2
  iexists _; isplitr; swap
  · iapply (owns_whole_intro' (c : Thread nD τ) (st6_3 t) hs3 fullShare _); iexact H3
  ipureintro
  show BlkOK (A 0) (A 1) (A 2) t _
  intro l o j
  rw [run_value]
  have e1 := finds1 (UU := UU) c A t (Y 1) (hY 1)
  have e2 := finds2 (UU := UU) c A t (Y 2) (hY 2)
  rw [hf1, hf2, hf0, e1, e2]
  congr 1
  refine Finset.sum_congr rfl fun e _ => ?_
  rw [finds0 (UU := UU) c A t (Y 0) (hY 0) j l e]

/-- The library's body obligation for the valued proof data. -/
theorem body6v : (rd6v (UU := UU) c A).BodyObligation (defs₀ (F := Ideal)) 𝒱₀ none Set.univ := fun t Y hY => by
  rw [bigSep_W6, bigSep_W6]
  exact sound_bodyV c A t Y hY

end Body

/-! ## The output array after the eight write-backs -/

section Exit

variable (c : Dev nD) (A : (w : Fin cfg6.W) → Buf (Elt Ideal) ((cfg6.win w).arr.view.loc (c.tc : Thread nD τ)))

/-- The write-back of point `u`, read at an element of its block: what the staging buffer held there … -/
theorem wb_emb (u : Fin cfg6.N) (G₀ : Buf (Elt Ideal) ((cfg6.win 3).arr.view.loc (c.tc : Thread nD τ)))
    (X : (cfg6.win 3).block.Idx → Elt Ideal (cfg6.win 3).elt) (x : (win6_3.rect u).shape.Idx) :
    (View.whole main_v9).read (Elt Ideal) (((cfg6.win 3).blk u).view.write (Elt Ideal) G₀ ((cfg6.win 3).cut (cfg6.grid.coords u) X) Finset.univ)
        ((win6_3.rect u).emb x) = (cfg6.win 3).cut (cfg6.grid.coords u) X x :=
  View.read_slice_write_emb (v := View.whole main_v9) (win6_3.rect u) G₀ _ (Finset.mem_univ x)

/-- … and outside its block: what the array held. -/
theorem wb_not_mem (u : Fin cfg6.N) (G₀ : Buf (Elt Ideal) ((cfg6.win 3).arr.view.loc (c.tc : Thread nD τ)))
    (X : (cfg6.win 3).block.Idx → Elt Ideal (cfg6.win 3).elt) (y : S50x64x16384.Idx) (hy : y ∉ (win6_3.rect u).set) :
    (View.whole main_v9).read (Elt Ideal) (((cfg6.win 3).blk u).view.write (Elt Ideal) G₀ ((cfg6.win 3).cut (cfg6.grid.coords u) X) Finset.univ) y
      = (View.whole main_v9).read (Elt Ideal) G₀ y :=
  View.read_slice_write_of_not_mem (v := View.whole main_v9) (win6_3.rect u) G₀ _ Finset.univ (by rw [Rect.map_emb_univ]; exact hy)

omit [URA UU] in
/-- Block `u` of the output window is columns `512 u … 512 u + 511`. -/
theorem emb3 (u : Fin cfg6.N) (l : Fin 50) (o : Fin 64) (j : Fin 512) :
    (win6_3.rect u).emb (ix3 l o j) = ix3 l o (⟨4096 * 2 + 512 * u.val + j.val, by have := lt_of_lt_of_eq u.isLt N6; omega⟩ : Fin 16384) := by
  funext a; refine Fin.ext ?_
  show win6_3.index u a * win6_3.size a + 1 * (ix3 l o j a).val = _
  rw [idx6_3 u]
  match a with
  | ⟨0, _⟩ => show 0 * 50 + 1 * l.val = l.val; omega
  | ⟨1, _⟩ => show 0 * 64 + 1 * o.val = o.val; omega
  | ⟨2, _⟩ => show (8 * 2 + u.val) * 512 + 1 * j.val = 4096 * 2 + 512 * u.val + j.val; omega

omit [URA UU] in
theorem mem3_iff (u : Fin cfg6.N) (y : S50x64x16384.Idx) :
    y ∈ (win6_3.rect u).set
      ↔ ∀ a, win6_3.index u a * win6_3.size a ≤ (y a : ℕ) ∧ (y a : ℕ) < win6_3.index u a * win6_3.size a + win6_3.xsize (grid6.coords u) a :=
  Rect.mem_set_unit (s := win6_3.shape) (off := fun a => win6_3.index u a * win6_3.size a) (size := win6_3.xsize (grid6.coords u))
    (inb := fun a => Pipeline.Clip.inb (win6_3.hclip (grid6.coords u) a)) (i := y)

omit [URA UU] in
theorem not_mem3 (u : Fin cfg6.N) (l : Fin 50) (o : Fin 64) (b : Fin 16384) (hb : b.val < 4096 * 2 + 512 * u.val ∨ 4096 * 2 + 512 * (u.val + 1) ≤ b.val) :
    ix3 l o b ∉ (win6_3.rect u).set := by
  rw [mem3_iff]
  intro hm
  have h2 := hm ⟨2, by decide⟩
  rw [idx6_3 u] at h2
  have h2a : (8 * 2 + u.val) * 512 ≤ b.val := h2.1
  have h2b : b.val < (8 * 2 + u.val) * 512 + 512 := h2.2
  omega

/-- After the write-backs of the points below `n`: columns `8192 … 8192 + 512 n − 1` hold the projection, every other column is as at
    entry. -/
def Upto (x : FVec Ideal S4096x50x64 .f32) (w : FVec Ideal S64x64 .f32) (b : FVec Ideal S64x1 .f32) (a3 : FVec Ideal S50x64x16384 .f32)
    (n : ℕ) (F : FVec Ideal S50x64x16384 .f32) : Prop :=
  (∀ (l : Fin 50) (o : Fin 64) (b' : Fin 4096), b'.val < 512 * n →
      F (ix3 l o (⟨4096 * 2 + b'.val, by omega⟩ : Fin 16384)) = (∑ e : Fin 64, w (ix2 e o) * x (ix3 b' l e)) + b (ix2 o (0 : Fin 1)))
  ∧ (∀ (l : Fin 50) (o : Fin 64) (b : Fin 16384), (b.val < 4096 * 2 ∨ 4096 * 2 + 512 * n ≤ b.val) → F (ix3 l o b) = a3 (ix3 l o b))

theorem arrStep3 (n : ℕ) (hu : n < cfg6.N) (F : Buf (Elt Ideal) ((cfg6.win 3).arr.view.loc (c.tc : Thread nD τ)))
    (h : (rd6v (UU := UU) c A).ArrAt 3 (n + 1) F) :
    (rd6v (UU := UU) c A).ArrStep 3 ⟨n, hu⟩ ((rd6v (UU := UU) c A).ArrAt 3 n) F := by
  have e := RDat.ArrAt_succ (rd6v (UU := UU) c A) 3 ⟨n, hu⟩
  rw [if_pos (flush6_3 ⟨n, hu⟩)] at e
  exact (congrFun e F).mp h

set_option maxHeartbeats 1000000 in
theorem arrAt3 : ∀ (n : ℕ) (_ : n ≤ 8) (F : Buf (Elt Ideal) ((cfg6.win 3).arr.view.loc (c.tc : Thread nD τ))),
    (rd6v (UU := UU) c A).ArrAt 3 n F → Upto (A 0) (A 1) (A 2) (A 3) n F
  | 0, _, F, h => by
    have hF : F = A 3 := h
    subst hF
    exact ⟨fun _ _ b' hb => absurd hb (by omega), fun _ _ _ _ => rfl⟩
  | n + 1, hn, F, h => by
    have hu : n < cfg6.N := by rw [N6]; omega
    obtain ⟨G₀, X, hG₀, ⟨Yb, -, hX⟩, rfl⟩ := arrStep3 c A n hu F h
    have ih := arrAt3 n (by omega) G₀ hG₀
    have hXok : BlkOK (A 0) (A 1) (A 2) ⟨n, hu⟩ X := hX
    refine ⟨fun l o b' hb => ?_, fun l o b hb => ?_⟩
    · by_cases hlt : b'.val < 512 * n
      · have e0 := wb_not_mem c ⟨n, hu⟩ G₀ X _ (not_mem3 ⟨n, hu⟩ l o ⟨4096 * 2 + b'.val, by omega⟩
          (Or.inl (by show 4096 * 2 + b'.val < 4096 * 2 + 512 * n; omega)))
        rw [View.read_whole, View.read_whole] at e0
        exact e0.trans (ih.1 l o b' hlt)
      · have hj : b'.val - 512 * n < 512 := by omega
        have e1 := wb_emb c ⟨n, hu⟩ G₀ X (ix3 l o ⟨b'.val - 512 * n, hj⟩)
        rw [emb3, View.read_whole] at e1
        have hidx : (⟨4096 * 2 + 512 * (⟨n, hu⟩ : Fin cfg6.N).val + (⟨b'.val - 512 * n, hj⟩ : Fin 512).val, by
              have := lt_of_lt_of_eq (⟨n, hu⟩ : Fin cfg6.N).isLt N6; omega⟩ : Fin 16384)
            = ⟨4096 * 2 + b'.val, by omega⟩ := Fin.ext (by show 4096 * 2 + 512 * n + (b'.val - 512 * n) = 4096 * 2 + b'.val; omega)
        rw [hidx] at e1
        refine e1.trans ?_
        have hq : (⟨512 * (⟨n, hu⟩ : Fin cfg6.N).val + (⟨b'.val - 512 * n, hj⟩ : Fin 512).val, by
              have := lt_of_lt_of_eq (⟨n, hu⟩ : Fin cfg6.N).isLt N6; omega⟩ : Fin 4096) = b' :=
          Fin.ext (by show 512 * n + (b'.val - 512 * n) = b'.val; omega)
        have e2 := hXok l o ⟨b'.val - 512 * n, hj⟩
        rw [hq] at e2
        exact e2
    · have e0 := wb_not_mem c ⟨n, hu⟩ G₀ X _ (not_mem3 ⟨n, hu⟩ l o b (by
          rcases hb with hb | hb
          · exact Or.inl (by omega)
          · exact Or.inr (by show 4096 * 2 + 512 * (n + 1) ≤ b.val; omega)))
      rw [View.read_whole, View.read_whole] at e0
      exact e0.trans (ih.2 l o b (by rcases hb with hb | hb; exact Or.inl hb; exact Or.inr (by omega)))

/-- After the region the output array holds the projection in columns `8192 … 12287` and its entry contents elsewhere. -/
theorem projBlk6 (F : Buf (Elt Ideal) ((cfg6.win 3).arr.view.loc (c.tc : Thread nD τ)))
    (h : (rd6v (UU := UU) c A).ArrAt 3 cfg6.N F) : ProjBlk 2 (A 0) (A 1) (A 2) (A 3) F := by
  obtain ⟨h1, h2⟩ := arrAt3 c A cfg6.N (le_of_eq N6) F h
  refine ⟨fun l o b' => ?_, fun l o b hb => ?_⟩
  · exact h1 l o b' (by have := N6; have := b'.isLt; omega)
  · refine h2 l o b ?_
    have h8 := N6
    simp only [show ((2 : Fin 4) : ℕ) = 2 from rfl] at hb
    rcases hb with hb | hb
    · exact Or.inl (by omega)
    · exact Or.inr (by omega)

end Exit

/-! ## The region's proof data, for every pipeline and core

The library's region rule is stated over a family of proof data, one per pipeline and core, of which it reads only the one
at the pipeline and core entered. The family below is the region's data at pipeline 2 and says nothing elsewhere. -/

section RegionV

variable (d : Dev nD) (f3 : Buf (Elt Ideal) ((T d : Thread nD τ).loc main_v5)) (fw : Buf (Elt Ideal) ((T d : Thread nD τ).loc main_v1))
  (fb : Buf (Elt Ideal) ((T d : Thread nD τ).loc main_v2)) (f7 : Buf (Elt Ideal) ((T d : Thread nD τ).loc main_v9))

/-- The family: the region's data at pipeline 2, data that says nothing at the others. -/
def rdatsV : (p : Fin 4) → (c : Dev nD) → RDat τ (Elt Ideal) (HIx 4) ℕ UU ℕ (Pipeline.pin (pcfgs (F := Ideal)) adm p) c
  | ⟨0, _⟩, _ => { A := fun _ _ => default, after := fun _ _ _ _ => True, Φ := fun _ => iprop(emp), q := fun _ => fullShare, owed := fun _ => 0 }
  | ⟨1, _⟩, _ => { A := fun _ _ => default, after := fun _ _ _ _ => True, Φ := fun _ => iprop(emp), q := fun _ => fullShare, owed := fun _ => 0 }
  | ⟨2, _⟩, c => rd6v c (A6c d f3 fw fb f7 c)
  | ⟨_ + 3, _⟩, _ => { A := fun _ _ => default, after := fun _ _ _ _ => True, Φ := fun _ => iprop(emp), q := fun _ => fullShare, owed := fun _ => 0 }

theorem rdatsV_zero (c : Dev nD) : rdatsV (UU := UU) d f3 fw fb f7 2 c = rd6v c (A6c d f3 fw fb f7 c) := rfl

end RegionV

/-! ## The region as the library's record, and its step at @main's line -/

section StepV

variable (d : Dev nD) (f3 : Buf (Elt Ideal) ((T d : Thread nD τ).loc main_v5)) (fw : Buf (Elt Ideal) ((T d : Thread nD τ).loc main_v1))
  (fb : Buf (Elt Ideal) ((T d : Thread nD τ).loc main_v2)) (f7 : Buf (Elt Ideal) ((T d : Thread nD τ).loc main_v9))

theorem share6v (c : Dev nD) (w : Fin cfg6.W) : (rdatsV (UU := UU) d f3 fw fb f7 2 c).share w = fullShare :=
  (rdatsV (UU := UU) d f3 fw fb f7 2 c).share_full (fun _ => rfl) w

/-- The region's four arrays, one by one. -/
theorem arrays6v (c : Dev nD) (G : (w : Fin cfg6.W) → Buf (Elt Ideal) ((cfg6.win w).arr.view.loc (c.tc : Thread nD τ))) :
    ((rdatsV (UU := UU) d f3 fw fb f7 2 c).arrays G : sProp 𝕄)
      = iprop((((c.tc : Thread nD τ).loc main_v5) ↦{fullShare} G 0) ∗ (((c.tc : Thread nD τ).loc main_v1) ↦{fullShare} G 1)
          ∗ (((c.tc : Thread nD τ).loc main_v2) ↦{fullShare} G 2) ∗ (((c.tc : Thread nD τ).loc main_v9) ↦{fullShare} G 3)) := by
  rw [Pipeline.RDat.arrays_eq (pcfgs (F := Ideal)) adm (rdatsV (UU := UU) d f3 fw fb f7) 2 c launch6.arr_whole (share6v d f3 fw fb f7 c) G, bigSep_W6]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg6v : Pipeline.RDat.RegionSeg (pcfgs (F := Ideal)) adm (rdatsV (UU := UU) d f3 fw fb f7) none defs₀ 𝒱₀ (K (F := Ideal)).L (K (F := Ideal)).lev 2 where
  win := launch6.win.to₀
  block_pos := launch6.block_pos
  stage_whole := launch6.stage_whole
  K := PEmpty
  osem := fun k => k.elim
  ho := Pipeline.OwnSemFacts.none _
  hbody c := body6v c _
  hwaits := Pipeline.RDat.hwaits_of_owed_zero _ _ _ _ _ _ 2 fun _ _ => rfl
  pre c := iprop((rdatsV (UU := UU) d f3 fw fb f7 2 c).arrays (rdatsV (UU := UU) d f3 fw fb f7 2 c).A ∗ (rdatsV (UU := UU) d f3 fw fb f7 2 c).owesAt none 0)
  post c := iprop((rdatsV (UU := UU) d f3 fw fb f7 2 c).arraysAt cfg6.N ∗ (rdatsV (UU := UU) d f3 fw fb f7 2 c).owesAt none (Fin.last cfg6.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec6 c) ⊢ Pipeline.scopedRest spec6 c
    iintro ⟨-, -, Hr⟩; iexact Hr
  hout c := by
    rw [Pipeline.ownSems0_none]
    show Pipeline.scopedRest spec6 c ⊢ iprop(_ ∗ _ ∗ Pipeline.scopedRest spec6 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre6v (W : Waits sig (HIx 4)) (hW : (K (F := Ideal)).WBelow (T d) W 32) :
    iprop(owes (T d : Thread nD τ) (0 : CellTallies nD τ sig (HIx 4)) W
        ∗ (((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7))
      ⊢ ((reg6v (UU := UU) d f3 fw fb f7).pre d : sProp 𝕄) := by
  show _ ⊢ iprop((rdatsV (UU := UU) d f3 fw fb f7 2 d).arrays (rdatsV (UU := UU) d f3 fw fb f7 2 d).A ∗ (rdatsV (UU := UU) d f3 fw fb f7 2 d).owesAt none 0)
  rw [arrays6v, show (rdatsV (UU := UU) d f3 fw fb f7 2 d).A = A6 d f3 fw fb f7 from A6c_self d f3 fw fb f7]
  show _ ⊢ iprop(((((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7))
      ∗ ∃ W' : Waits sig (HIx 4), ⌜(↑W' : Set (SemLoc sig × HIx 4)) ⊆ (rdatsV (UU := UU) d f3 fw fb f7 2 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_belowV (t : Fin (cfg6.N + 1)) (W' : Waits sig (HIx 4))
    (h : (↑W' : Set (SemLoc sig × HIx 4)) ⊆ (rdatsV (UU := UU) d f3 fw fb f7 2 d).bound none t) : (K (F := Ideal)).WBelow (T d) W' 32 := by
  intro p hp
  rcases h (Finset.mem_coe.mpr hp) with h | ⟨w, s, rfl⟩
  · exact h
  · exact Nat.zero_le _

/-- EXIT at device `d`: the arrays the region reads are as they were, its output holds the projection in its 4096 columns and its
    entry contents elsewhere, the core owes nothing. -/
theorem post6v :
    ((reg6v (UU := UU) d f3 fw fb f7).post d : sProp 𝕄)
      ⊢ iprop((((T d : Thread nD τ).loc main_v5) ↦{fullShare} f3) ∗ (((T d : Thread nD τ).loc main_v1) ↦{fullShare} fw)
        ∗ (((T d : Thread nD τ).loc main_v2) ↦{fullShare} fb) ∗ (∃ g, ⌜ProjBlk 2 f3 fw fb f7 g⌝ ∗ ((T d : Thread nD τ).loc main_v9) ↦{fullShare} g)
        ∗ ∃ W', ⌜(K (F := Ideal)).WBelow (T d) W' 32⌝ ∗ owes (T d : Thread nD τ) (0 : CellTallies nD τ sig (HIx 4)) W') := by
  have hA : (rdatsV (UU := UU) d f3 fw fb f7 2 d).A = A6 d f3 fw fb f7 := A6c_self d f3 fw fb f7
  have e0 := (rdatsV (UU := UU) d f3 fw fb f7 2 d).ArrAt_in 0 rfl cfg6.N
  have e1 := (rdatsV (UU := UU) d f3 fw fb f7 2 d).ArrAt_in 1 rfl cfg6.N
  have e2 := (rdatsV (UU := UU) d f3 fw fb f7 2 d).ArrAt_in 2 rfl cfg6.N
  show iprop((rdatsV (UU := UU) d f3 fw fb f7 2 d).arraysAt cfg6.N
      ∗ ∃ W' : Waits sig (HIx 4), ⌜(↑W' : Set (SemLoc sig × HIx 4)) ⊆ (rdatsV (UU := UU) d f3 fw fb f7 2 d).bound none (Fin.last cfg6.N)⌝ ∗ owes (T d : Thread nD τ) (0 : CellTallies nD τ sig (HIx 4)) W') ⊢ _
  unfold RDat.arraysAt
  rw [bigSep_W6, e0, e1, e2, hA]
  simp only [share6v, (launch6.arr_whole _).set_eq_univ]
  iintro ⟨⟨⟨%F0, %h0, H0⟩, ⟨%F1, %h1, H1⟩, ⟨%F2, %h2, H2⟩, ⟨%F3, %h3, H3⟩⟩, ⟨%W', %hW', HO⟩⟩
  have hP : ProjBlk 2 f3 fw fb f7 F3 := by
    have h3' : (rd6v (UU := UU) d (A6 d f3 fw fb f7)).ArrAt 3 cfg6.N F3 := by
      have h := h3
      rw [rdatsV_zero, A6c_self] at h
      exact h
    exact projBlk6 d (A6 d f3 fw fb f7) F3 h3'
  subst h0; subst h1; subst h2
  isplitl [H0]; · iexact H0
  isplitl [H1]; · iexact H1
  isplitl [H2]; · iexact H2
  isplitl [H3]
  · iexists F3; isplitr; · ipureintro; exact hP
    iexact H3
  iexists W'; isplitr
  · ipureintro; exact bound_belowV _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 2, the region's call runs
    — under any continuation — to the boundary again, the three arrays it reads unchanged, the output holding the projection of the
    4096 gathered batch entries in its columns 8192 … 12287 and its entry contents in the others, and the TensorCore still owing
    nothing. -/
theorem region2V (EP : Emb (URounds (GSem nD τ sig) Unit) 𝕄) [EP.LandsIn (upEmb : UEmb _ 𝕄)]
    (W : Waits sig (HIx 4)) (hW : (K (F := Ideal)).WBelow (T d) W 32)
    {α : Type} (k : PUnit → Prog (TpuEff nD τ sig (Elt Ideal) (SparseCore.Sig (ΛP (F := Ideal)) 4) .tc) α) (Q : α → sProp 𝕄) :
    iprop((iprop(boundary (T d : Thread nD τ) ∗ (((T d : Thread nD τ).loc main_v5) ↦{fullShare} f3) ∗ (((T d : Thread nD τ).loc main_v1) ↦{fullShare} fw)
              ∗ (((T d : Thread nD τ).loc main_v2) ↦{fullShare} fb) ∗ (∃ g, ⌜ProjBlk 2 f3 fw fb f7 g⌝ ∗ ((T d : Thread nD τ).loc main_v9) ↦{fullShare} g)
              ∗ ∃ W', ⌜(K (F := Ideal)).WBelow (T d) W' 32⌝ ∗ owes (T d : Thread nD τ) (0 : CellTallies nD τ sig (HIx 4)) W')
            -∗ wp frame (wpE ((K (F := Ideal)).defs D) 𝒱 (T d) none) Set.univ (k ⟨⟩) Q)
        ∗ boundary (T d : Thread nD τ) ∗ levAts (K (F := Ideal)).L (K (F := Ideal)).lev ∗ owes (T d : Thread nD τ) (0 : CellTallies nD τ sig (HIx 4)) W
        ∗ (((T d : Thread nD τ).loc main_v5) ↦{fullShare} f3) ∗ (((T d : Thread nD τ).loc main_v1) ↦{fullShare} fw)
        ∗ (((T d : Thread nD τ).loc main_v2) ↦{fullShare} fb) ∗ (((T d : Thread nD τ).loc main_v9) ↦{fullShare} f7)
        ∗ Pipeline.cellsGhost cfgs EP 2 d ∗ Pipeline.toksInit cfgs EP 2 d)
      ⊢ wp frame (wpE ((K (F := Ideal)).defs D) 𝒱 (T d) none) Set.univ (.op (.customCall (SparseCore.inner (Pipeline.entry 2)) ()) k) Q := by
  have hop : (Prog.op (.customCall (SparseCore.inner (Pipeline.entry 2)) ()) k : Prog (TpuEff nD τ sig (Elt Ideal) (SparseCore.Sig (ΛP (F := Ideal)) 4) .tc) α)
      = (SparseCore.liftProg (Q := 4) (Prog.op (.customCall (Pipeline.entry (2 : Fin 4)) ()) fun x => .ret x : Prog (TpuEff nD τ sig (Elt Ideal) (ΛP (F := Ideal)) .tc) PUnit) >>= k) := rfl
  rw [hop, wp_bind]
  refine BIBase.Entails.trans ?_ ((K (F := Ideal)).wp_liftProg D 𝒱 (T d) Set.univ none _ _)
  refine BIBase.Entails.trans ?_ (Pipeline.RDat.RegionSeg.wp (pcfgs (F := Ideal)) adm (rdatsV (UU := UU) d f3 fw fb f7) none cellOf_inj EP defs₀ 𝒱₀
    (K (F := Ideal)).L (K (F := Ideal)).lev (reg6v d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post6v d f3 fw fb f7); iexact Hpost
  isplitl [Hbd]; · iexact Hbd
  isplitl [HO H3 H1 H2 H7]
  · iapply (pre6v d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end StepV

end Cert.Proof.Region6

end
-- ==== Proof.Region7Run.lean ====
/-
  The body of projection kernel number 4 run once more, now NAMING what it leaves in the output block: the
  fifty slices' stores over whatever the block held (every element of the block is in one of them).
-/
import proofs.«204056_g19739669692900_cont_8to1_1488_31_alg».proof.Proof.Region4Pay
import proofs.«204056_g19739669692900_cont_8to1_1488_31_alg».proof.Proof.Region7Body

noncomputable section

namespace Cert.Proof.Region7

open Cert.KernelIdeal Cert.KernelIdeal.Gen
open Cert.Proof.Region4 (pieces)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

variable {Ix : Type} [DecidableEq Ix] {UU : Type} [URA UU]

local notation "𝕄" => MT nD τ sig Ix (Elt F) ℕ UU ℕ

set_option maxHeartbeats 4000000 in
/-- The output block's contents after the body, with the proof that from the four buffers held whole the body runs to
    its return handing back the three inputs unchanged and the output block at those contents. -/
noncomputable def run7v (c : Dev nD) (i : grid7.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) :
    { Wo : Bf (F := F) c M4 // ∀ (f4 : Bf (F := F) c M4) (E : Set ℕ) (Q : PUnit → sProp 𝕄),
        iprop(pt c M1 f1 ∗ pt c M2 f2 ∗ pt c M3 f3 ∗ pt c M4 f4
            ∗ (iprop(pt c M1 f1 ∗ pt c M2 f2 ∗ pt c M3 f3 ∗ pt c M4 Wo) -∗ Q ⟨⟩))
          ⊢ wp frame (wpE (defs₀ (F := F)) Variants.none c none) E (cc7_body i M1 h1 M2 h2 M3 h3 Mp hp M4 h4) Q } := by
  refine ⟨?_, fun f4 E Q => ?run⟩
  case run =>
    iintro ⟨H1, H2, H3, H4, Hk⟩
    sl_exec_parts!
    sl_step
    iapply Hk
    isplitl [H1]; · iexact H1
    isplitl [H2]; · iexact H2
    isplitl [H3]; · iexact H3
    iexact H4

set_option maxRecDepth 65536 in
set_option maxHeartbeats 4000000 in
/-- The contents found are the fifty slices' stores over whatever the block held. -/
theorem bridge (c : Dev nD) (i : grid7.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := F) c M1) (f2 : Bf (F := F) c M2) (f3 : Bf (F := F) c M3) :
    (run7v (Ix := Ix) (UU := UU) c i M1 h1 M2 h2 M3 h3 Mp hp M4 h4 f1 f2 f3).1
      = M4.view.writes (Elt F) M4.view.junk (pieces c M1 M2 M3 f1 f2 f3 50 le_rfl) := rfl

end Cert.Proof.Region7

end
-- ==== Proof.Region7Read.lean ====
/-
  What projection kernel number 4's body leaves in its output block, read at an index: element (l, o, j) is the
  contraction of the staged weights' column o with the staged batch entry j's row at history position l, plus the
  staged bias at o (the same body as the first projection kernel's: its fifty stores are the same pieces).
-/
import proofs.«204056_g19739669692900_cont_8to1_1488_31_alg».proof.Proof.Region4Read
import proofs.«204056_g19739669692900_cont_8to1_1488_31_alg».proof.Proof.Region7Run

noncomputable section

namespace Cert.Proof.Region7

open Cert.KernelIdeal Cert.KernelIdeal.Gen

open Idealize.ShloMosaic Idealize.ShloMosaic.ValueIdx
open Idealize.ShloMosaic.TcCoe
open Cert.Proof.Region4 (read_pieces PAY_apply Wv_apply bv_apply xslice_apply)

/-- **The body's output block, named.** After the body, element `(l, o, j)` of the output block — whatever the block
    held before — is the contraction of the staged weights' column `o` with the staged batch entry `j`'s row at history
    position `l`, plus the staged bias at `o`. -/
theorem run_value {Ix : Type} [DecidableEq Ix] {UU : Type} [Idealize.SL.RA.URA UU] (c : Dev nD) (i : grid7.Coords)
    (M1 : Memref sig .tc .vmem S512x50x64 .f32) (h1 : M1.IsWhole) (M2 : Memref sig .tc .vmem S64x64 .f32) (h2 : M2.IsWhole)
    (M3 : Memref sig .tc .vmem S64x1 .f32) (h3 : M3.IsWhole) (Mp : Memref sig .tc .hbm S50x64x16384 .f32) (hp : Mp.IsWhole)
    (M4 : Memref sig .tc .vmem S50x64x512 .f32) (h4 : M4.IsWhole)
    (f1 : Bf (F := Ideal) c M1) (f2 : Bf (F := Ideal) c M2) (f3 : Bf (F := Ideal) c M3) (l : Fin 50) (o : Fin 64) (j : Fin 512) :
    M4.view.read (Elt Ideal) (run7v (F := Ideal) (Ix := Ix) (UU := UU) c i M1 h1 M2 h2 M3 h3 Mp hp M4 h4 f1 f2 f3).1 (ix3 l o j)
      = (∑ e : Fin 64, (M2.view.read (Elt Ideal) f2 : FVec Ideal S64x64 .f32) (ix2 e o)
            * (M1.view.read (Elt Ideal) f1 : FVec Ideal S512x50x64 .f32) (ix3 j l e))
          + (M3.view.read (Elt Ideal) f3 : FVec Ideal S64x1 .f32) (ix2 o (0 : Fin 1)) := by
  rw [bridge, read_pieces c M1 M2 M3 f1 f2 f3 M4 _ 50 le_rfl l l.isLt o j, PAY_apply]
  simp only [Wv_apply, bv_apply, xslice_apply]

end Cert.Proof.Region7

end
-- ==== Proof.Region7Val.lean ====
/-
  Projection kernel number 4 as a region of the TensorCore's program, with what it writes.

  At grid point t the body is handed block t of the gathered rows (batch entries 512 t … 512 t + 511) and the whole
  transposed weights and bias column, and leaves in the output's staging buffer the block
      out_t[l, o, j] = sum_e W[e, o] * x[512 t + j, l, e] + bias[o, 0];
  the pipeline writes that block back to columns 12288 + 512 t … 12288 + 512 t + 511 of the output array. After the eight points
  the output array holds the projection of the 4096 gathered batch entries in its columns 12288 … 16383 and what it
  held at entry in every other column; the three arrays the region reads are unchanged.
-/
import proofs.«204056_g19739669692900_cont_8to1_1488_31_alg».proof.Proof.Region7Read
import proofs.«204056_g19739669692900_cont_8to1_1488_31_alg».proof.Proof.Region7
import proofs.«204056_g19739669692900_cont_8to1_1488_31_alg».proof.Proof.LaunchMainV
import Idealize.ShloMosaic.Lib.Pipeline.FrameBody

noncomputable section

namespace Cert.Proof.Region7

open Cert.KernelIdeal Cert.KernelIdeal.Gen

open Idealize.ShloMosaic Idealize.ShloMosaic.ValueIdx
open Idealize.ShloMosaic.TcCoe Idealize.ShloMosaic.Tactic
open Idealize.ShloMosaic.SparseCore (T)
open Idealize.ShloMosaic.SparseCore.Cfg (HIx)
open Idealize.ShloMosaic.Pipeline (RDat)
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Proof.LaunchI (ProjBlk)

variable {UU : Type} [URA UU]

local notation "𝕄" => MT nD τ sig (HIx 4) (Elt Ideal) ℕ UU ℕ

/-! ## What a grid point's output block holds -/

theorem N7 : cfg7.N = 8 := N_7

/-- At grid point `t` the output block is the projection of batch entries `512 t … 512 t + 511`: element `(l, o, j)` is the
    weights' column `o` contracted with entry `512 t + j`'s gathered row at history position `l`, plus the bias at `o`. -/
def BlkOK (x : FVec Ideal S4096x50x64 .f32) (w : FVec Ideal S64x64 .f32) (b : FVec Ideal S64x1 .f32) (t : Fin cfg7.N)
    (X : FVec Ideal S50x64x512 .f32) : Prop :=
  ∀ (l : Fin 50) (o : Fin 64) (j : Fin 512),
    X (ix3 l o j) = (∑ e : Fin 64, w (ix2 e o) * x (ix3 (⟨512 * t.val + j.val, by have := lt_of_lt_of_eq t.isLt N7; omega⟩ : Fin 4096) l e))
      + b (ix2 o (0 : Fin 1))

/-- The region's proof data with values: an input's staging buffer is left as found, the output's holds the point's block. -/
def rd7v (c : Dev nD) (A : (w : Fin cfg7.W) → Buf (Elt Ideal) ((cfg7.win w).arr.view.loc (c.tc : Thread nD τ))) :
    RDat τ (Elt Ideal) (HIx 4) ℕ UU ℕ cfg7 c where
  A := A
  after w t := match w with
    | ⟨0, _⟩ => fun Y X => X = Y
    | ⟨1, _⟩ => fun Y X => X = Y
    | ⟨2, _⟩ => fun Y X => X = Y
    | ⟨3, _⟩ => fun _ X => BlkOK (A 0) (A 1) (A 2) t X
    | ⟨_ + 4, h⟩ => absurd h (Nat.not_lt.2 (Nat.le_add_left _ _))
  Φ _ := Pipeline.scopedRest spec7 c
  q _ := fullShare
  owed _ := 0
  recorded _ := Bd (F := Ideal) c

/-- Window 0's block index at point `t` is `(t, 0, 0)`; the output window's is `(0, 0, t)`. -/
theorem idx7_0 : ∀ t : Fin grid7.N, win7_0.index t = ![t.val, 0, 0] := by decide +kernel
theorem idx7_3 : ∀ t : Fin grid7.N, win7_3.index t = ![0, 0, 8 * 3 + t.val] := by decide +kernel
theorem idx7_1 : ∀ t : Fin grid7.N, win7_1.index t = ![0, 0] := by decide +kernel
theorem idx7_2 : ∀ t : Fin grid7.N, win7_2.index t = ![0, 0] := by decide +kernel

section Finds

variable (c : Dev nD) (A : (w : Fin cfg7.W) → Buf (Elt Ideal) ((cfg7.win w).arr.view.loc (c.tc : Thread nD τ)))

/-- The gathered rows' staging buffer holds, at point `t`, batch entries `512 t … 512 t + 511` of the array. -/
theorem finds0 (t : Fin cfg7.N) (Y : (cfg7.win 0).block.Idx → Elt Ideal (cfg7.win 0).elt)
    (hY : (rd7v (UU := UU) c A).Finds 0 t Y) (j : Fin 512) (l : Fin 50) (e : Fin 64) :
    (Y : FVec Ideal S512x50x64 .f32) (ix3 j l e)
      = (A 0 : FVec Ideal S4096x50x64 .f32) (ix3 (⟨512 * t.val + j.val, by have := lt_of_lt_of_eq t.isLt N7; omega⟩ : Fin 4096) l e) := by
  obtain ⟨d, rfl⟩ := RDat.finds_in_eq_fetched (rd7v (UU := UU) c A) 0 rfl (fun _ _ _ => rfl) (fun _ _ _ h => h) t Y hY
  show ((cfg7.win 0).blk t).view.read (Elt Ideal) (A 0) (ix3 j l e) = _
  have hemb : ((cfg7.win 0).blk t).view.emb (ix3 j l e)
      = ix3 (⟨512 * t.val + j.val, by have := lt_of_lt_of_eq t.isLt N7; omega⟩ : Fin 4096) l e := by
    funext a; refine Fin.ext ?_
    show win7_0.index t a * win7_0.size a + 1 * (ix3 j l e a).val = _
    rw [idx7_0 t]
    match a with
    | ⟨0, _⟩ => show t.val * 512 + 1 * j.val = 512 * t.val + j.val; omega
    | ⟨1, _⟩ => show 0 * 50 + 1 * l.val = l.val; omega
    | ⟨2, _⟩ => show 0 * 64 + 1 * e.val = e.val; omega
  show (A 0) (((cfg7.win 0).blk t).view.emb (ix3 j l e)) = _
  rw [hemb]

/-- The weights' and the bias's staging buffers hold the whole arrays at every point (fetched once, left as found). -/
theorem finds1 (t : Fin cfg7.N) (Y : (cfg7.win 1).block.Idx → Elt Ideal (cfg7.win 1).elt)
    (hY : (rd7v (UU := UU) c A).Finds 1 t Y) : (Y : FVec Ideal S64x64 .f32) = (A 1 : FVec Ideal S64x64 .f32) := by
  obtain ⟨d, rfl⟩ := RDat.finds_in_eq_fetched (rd7v (UU := UU) c A) 1 rfl (fun _ _ _ => rfl) (fun _ _ _ h => h) t Y hY
  show ((cfg7.win 1).blk t).view.read (Elt Ideal) (A 1) = _
  funext y
  show (A 1) (((cfg7.win 1).blk t).view.emb y) = A 1 y
  congr 1
  funext a; refine Fin.ext ?_
  show win7_1.index t a * win7_1.size a + 1 * (y a).val = (y a).val
  rw [idx7_1 t]
  match a with
  | ⟨0, _⟩ => show 0 * 64 + 1 * _ = _; omega
  | ⟨1, _⟩ => show 0 * 64 + 1 * _ = _; omega

theorem finds2 (t : Fin cfg7.N) (Y : (cfg7.win 2).block.Idx → Elt Ideal (cfg7.win 2).elt)
    (hY : (rd7v (UU := UU) c A).Finds 2 t Y) : (Y : FVec Ideal S64x1 .f32) = (A 2 : FVec Ideal S64x1 .f32) := by
  obtain ⟨d, rfl⟩ := RDat.finds_in_eq_fetched (rd7v (UU := UU) c A) 2 rfl (fun _ _ _ => rfl) (fun _ _ _ h => h) t Y hY
  show ((cfg7.win 2).blk t).view.read (Elt Ideal) (A 2) = _
  funext y
  show (A 2) (((cfg7.win 2).blk t).view.emb y) = A 2 y
  congr 1
  funext a; refine Fin.ext ?_
  show win7_2.index t a * win7_2.size a + 1 * (y a).val = (y a).val
  rw [idx7_2 t]
  match a with
  | ⟨0, _⟩ => show 0 * 64 + 1 * _ = _; omega
  | ⟨1, _⟩ => show 0 * 1 + 1 * _ = _; omega

end Finds

/-! ## The body obligation, with values -/

theorem owns_whole_elim' (c : Thread nD τ) {sp : Space} {sh : Shape} {e : EltTy} (m : Memref sig c.2.kind sp sh e) (h : m.IsWhole)
    (q : PosShare TreeShare) (X : sh.Idx → Elt Ideal e) :
    (owns c m q X : sProp 𝕄) ⊢ iprop(∃ f, ⌜m.view.read (Elt Ideal) f = X⌝ ∗ m.view.loc c ↦{q} f) := by
  unfold owns; rw [h.set_eq_univ]

theorem owns_whole_intro' (c : Thread nD τ) {sp : Space} {sh : Shape} {e : EltTy} (m : Memref sig c.2.kind sp sh e) (h : m.IsWhole)
    (q : PosShare TreeShare) (f : Buf (Elt Ideal) (m.view.loc c)) :
    (m.view.loc c ↦{q} f : sProp 𝕄) ⊢ owns c m q (m.view.read (Elt Ideal) f) := by
  unfold owns; rw [h.set_eq_univ]
  iintro H; iexists f; isplitr; · ipureintro; rfl
  iexact H

section Body

variable (c : Dev nD) (A : (w : Fin cfg7.W) → Buf (Elt Ideal) ((cfg7.win w).arr.view.loc (c.tc : Thread nD τ)))

theorem sound_bodyV (t : Fin cfg7.N) (Y : (w : Fin cfg7.W) → (cfg7.win w).block.Idx → Elt Ideal (cfg7.win w).elt)
    (hY : ∀ w, (rd7v (UU := UU) c A).Finds w t (Y w)) :
    iprop((rd7v (UU := UU) c A).Φ t.castSucc ∗ (rd7v (UU := UU) c A).owesAt none t.castSucc
        ∗ owns (c : Thread nD τ) (st7_0 t) fullShare (Y 0) ∗ owns (c : Thread nD τ) (st7_1 t) fullShare (Y 1)
        ∗ owns (c : Thread nD τ) (st7_2 t) fullShare (Y 2) ∗ owns (c : Thread nD τ) (st7_3 t) fullShare (Y 3))
      ⊢ wp frame (wpE (defs₀ (F := Ideal)) 𝒱₀ c none) Set.univ (bodyAt7 t) fun _ =>
          iprop((rd7v (UU := UU) c A).Φ t.succ ∗ (rd7v (UU := UU) c A).owesAt none t.succ
            ∗ (∃ X, ⌜(rd7v (UU := UU) c A).after 0 t (Y 0) X⌝ ∗ owns (c : Thread nD τ) (st7_0 t) fullShare X)
            ∗ (∃ X, ⌜(rd7v (UU := UU) c A).after 1 t (Y 1) X⌝ ∗ owns (c : Thread nD τ) (st7_1 t) fullShare X)
            ∗ (∃ X, ⌜(rd7v (UU := UU) c A).after 2 t (Y 2) X⌝ ∗ owns (c : Thread nD τ) (st7_2 t) fullShare X)
            ∗ (∃ X, ⌜(rd7v (UU := UU) c A).after 3 t (Y 3) X⌝ ∗ owns (c : Thread nD τ) (st7_3 t) fullShare X)) := by
  rw [show (rd7v (UU := UU) c A).Φ t.succ = (rd7v (UU := UU) c A).Φ t.castSucc from rfl,
    show (rd7v (UU := UU) c A).owesAt none t.succ = (rd7v (UU := UU) c A).owesAt none t.castSucc from rfl]
  have hs0 := hstage7_0 ((cfg7.slots t 0).cast nbuf7_0)
  have hs1 := hstage7_1 ((cfg7.slots t 1).cast nbuf7_1)
  have hs2 := hstage7_2 ((cfg7.slots t 2).cast nbuf7_2)
  have hs3 := hstage7_3 ((cfg7.slots t 3).cast nbuf7_3)
  iintro ⟨HΦ, HO, H0, H1, H2, H3⟩
  ihave H0 := (owns_whole_elim' (c : Thread nD τ) (st7_0 t) hs0 fullShare (Y 0)) $$ H0
  ihave H1 := (owns_whole_elim' (c : Thread nD τ) (st7_1 t) hs1 fullShare (Y 1)) $$ H1
  ihave H2 := (owns_whole_elim' (c : Thread nD τ) (st7_2 t) hs2 fullShare (Y 2)) $$ H2
  ihave H3 := (owns_whole_elim (c : Thread nD τ) (st7_3 t) hs3 fullShare (Y 3)) $$ H3
  icases H0 with ⟨%f0, %hf0, H0⟩
  icases H1 with ⟨%f1, %hf1, H1⟩
  icases H2 with ⟨%f2, %hf2, H2⟩
  icases H3 with ⟨%f3, H3⟩
  iapply ((run7v (F := Ideal) (Ix := HIx 4) (UU := UU) c (grid7.coords t) (st7_0 t) hs0 (st7_1 t) hs1 (st7_2 t) hs2 (Memref.whole main_v9) (Memref.isWhole_whole _) (st7_3 t) hs3 f0 f1 f2).2 f3 Set.univ)
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]
  · iexists Y 0; isplitr; · ipureintro; exact rfl
    rw [← hf0]; iapply (owns_whole_intro' (c : Thread nD τ) (st7_0 t) hs0 fullShare f0); iexact H0
  isplitl [H1]
  · iexists Y 1; isplitr; · ipureintro; exact rfl
    rw [← hf1]; iapply (owns_whole_intro' (c : Thread nD τ) (st7_1 t) hs1 fullShare f1); iexact H1
  isplitl [H2]
  · iexists Y 2; isplitr; · ipureintro; exact rfl
    rw [← hf2]; iapply (owns_whole_intro' (c : Thread nD τ) (st7_2 t) hs2 fullShare f2); iexact H2
  iexists _; isplitr; swap
  · iapply (owns_whole_intro' (c : Thread nD τ) (st7_3 t) hs3 fullShare _); iexact H3
  ipureintro
  show BlkOK (A 0) (A 1) (A 2) t _
  intro l o j
  rw [run_value]
  have e1 := finds1 (UU := UU) c A t (Y 1) (hY 1)
  have e2 := finds2 (UU := UU) c A t (Y 2) (hY 2)
  rw [hf1, hf2, hf0, e1, e2]
  congr 1
  refine Finset.sum_congr rfl fun e _ => ?_
  rw [finds0 (UU := UU) c A t (Y 0) (hY 0) j l e]

/-- The library's body obligation for the valued proof data. -/
theorem body7v : (rd7v (UU := UU) c A).BodyObligation (defs₀ (F := Ideal)) 𝒱₀ none Set.univ := fun t Y hY => by
  rw [bigSep_W7, bigSep_W7]
  exact sound_bodyV c A t Y hY

end Body

/-! ## The output array after the eight write-backs -/

section Exit

variable (c : Dev nD) (A : (w : Fin cfg7.W) → Buf (Elt Ideal) ((cfg7.win w).arr.view.loc (c.tc : Thread nD τ)))

/-- The write-back of point `u`, read at an element of its block: what the staging buffer held there … -/
theorem wb_emb (u : Fin cfg7.N) (G₀ : Buf (Elt Ideal) ((cfg7.win 3).arr.view.loc (c.tc : Thread nD τ)))
    (X : (cfg7.win 3).block.Idx → Elt Ideal (cfg7.win 3).elt) (x : (win7_3.rect u).shape.Idx) :
    (View.whole main_v10).read (Elt Ideal) (((cfg7.win 3).blk u).view.write (Elt Ideal) G₀ ((cfg7.win 3).cut (cfg7.grid.coords u) X) Finset.univ)
        ((win7_3.rect u).emb x) = (cfg7.win 3).cut (cfg7.grid.coords u) X x :=
  View.read_slice_write_emb (v := View.whole main_v10) (win7_3.rect u) G₀ _ (Finset.mem_univ x)

/-- … and outside its block: what the array held. -/
theorem wb_not_mem (u : Fin cfg7.N) (G₀ : Buf (Elt Ideal) ((cfg7.win 3).arr.view.loc (c.tc : Thread nD τ)))
    (X : (cfg7.win 3).block.Idx → Elt Ideal (cfg7.win 3).elt) (y : S50x64x16384.Idx) (hy : y ∉ (win7_3.rect u).set) :
    (View.whole main_v10).read (Elt Ideal) (((cfg7.win 3).blk u).view.write (Elt Ideal) G₀ ((cfg7.win 3).cut (cfg7.grid.coords u) X) Finset.univ) y
      = (View.whole main_v10).read (Elt Ideal) G₀ y :=
  View.read_slice_write_of_not_mem (v := View.whole main_v10) (win7_3.rect u) G₀ _ Finset.univ (by rw [Rect.map_emb_univ]; exact hy)

omit [URA UU] in
/-- Block `u` of the output window is columns `512 u … 512 u + 511`. -/
theorem emb3 (u : Fin cfg7.N) (l : Fin 50) (o : Fin 64) (j : Fin 512) :
    (win7_3.rect u).emb (ix3 l o j) = ix3 l o (⟨4096 * 3 + 512 * u.val + j.val, by have := lt_of_lt_of_eq u.isLt N7; omega⟩ : Fin 16384) := by
  funext a; refine Fin.ext ?_
  show win7_3.index u a * win7_3.size a + 1 * (ix3 l o j a).val = _
  rw [idx7_3 u]
  match a with
  | ⟨0, _⟩ => show 0 * 50 + 1 * l.val = l.val; omega
  | ⟨1, _⟩ => show 0 * 64 + 1 * o.val = o.val; omega
  | ⟨2, _⟩ => show (8 * 3 + u.val) * 512 + 1 * j.val = 4096 * 3 + 512 * u.val + j.val; omega

omit [URA UU] in
theorem mem3_iff (u : Fin cfg7.N) (y : S50x64x16384.Idx) :
    y ∈ (win7_3.rect u).set
      ↔ ∀ a, win7_3.index u a * win7_3.size a ≤ (y a : ℕ) ∧ (y a : ℕ) < win7_3.index u a * win7_3.size a + win7_3.xsize (grid7.coords u) a :=
  Rect.mem_set_unit (s := win7_3.shape) (off := fun a => win7_3.index u a * win7_3.size a) (size := win7_3.xsize (grid7.coords u))
    (inb := fun a => Pipeline.Clip.inb (win7_3.hclip (grid7.coords u) a)) (i := y)

omit [URA UU] in
theorem not_mem3 (u : Fin cfg7.N) (l : Fin 50) (o : Fin 64) (b : Fin 16384) (hb : b.val < 4096 * 3 + 512 * u.val ∨ 4096 * 3 + 512 * (u.val + 1) ≤ b.val) :
    ix3 l o b ∉ (win7_3.rect u).set := by
  rw [mem3_iff]
  intro hm
  have h2 := hm ⟨2, by decide⟩
  rw [idx7_3 u] at h2
  have h2a : (8 * 3 + u.val) * 512 ≤ b.val := h2.1
  have h2b : b.val < (8 * 3 + u.val) * 512 + 512 := h2.2
  omega

/-- After the write-backs of the points below `n`: columns `12288 … 12288 + 512 n − 1` hold the projection, every other column is as at
    entry. -/
def Upto (x : FVec Ideal S4096x50x64 .f32) (w : FVec Ideal S64x64 .f32) (b : FVec Ideal S64x1 .f32) (a3 : FVec Ideal S50x64x16384 .f32)
    (n : ℕ) (F : FVec Ideal S50x64x16384 .f32) : Prop :=
  (∀ (l : Fin 50) (o : Fin 64) (b' : Fin 4096), b'.val < 512 * n →
      F (ix3 l o (⟨4096 * 3 + b'.val, by omega⟩ : Fin 16384)) = (∑ e : Fin 64, w (ix2 e o) * x (ix3 b' l e)) + b (ix2 o (0 : Fin 1)))
  ∧ (∀ (l : Fin 50) (o : Fin 64) (b : Fin 16384), (b.val < 4096 * 3 ∨ 4096 * 3 + 512 * n ≤ b.val) → F (ix3 l o b) = a3 (ix3 l o b))

theorem arrStep3 (n : ℕ) (hu : n < cfg7.N) (F : Buf (Elt Ideal) ((cfg7.win 3).arr.view.loc (c.tc : Thread nD τ)))
    (h : (rd7v (UU := UU) c A).ArrAt 3 (n + 1) F) :
    (rd7v (UU := UU) c A).ArrStep 3 ⟨n, hu⟩ ((rd7v (UU := UU) c A).ArrAt 3 n) F := by
  have e := RDat.ArrAt_succ (rd7v (UU := UU) c A) 3 ⟨n, hu⟩
  rw [if_pos (flush7_3 ⟨n, hu⟩)] at e
  exact (congrFun e F).mp h

set_option maxHeartbeats 1000000 in
theorem arrAt3 : ∀ (n : ℕ) (_ : n ≤ 8) (F : Buf (Elt Ideal) ((cfg7.win 3).arr.view.loc (c.tc : Thread nD τ))),
    (rd7v (UU := UU) c A).ArrAt 3 n F → Upto (A 0) (A 1) (A 2) (A 3) n F
  | 0, _, F, h => by
    have hF : F = A 3 := h
    subst hF
    exact ⟨fun _ _ b' hb => absurd hb (by omega), fun _ _ _ _ => rfl⟩
  | n + 1, hn, F, h => by
    have hu : n < cfg7.N := by rw [N7]; omega
    obtain ⟨G₀, X, hG₀, ⟨Yb, -, hX⟩, rfl⟩ := arrStep3 c A n hu F h
    have ih := arrAt3 n (by omega) G₀ hG₀
    have hXok : BlkOK (A 0) (A 1) (A 2) ⟨n, hu⟩ X := hX
    refine ⟨fun l o b' hb => ?_, fun l o b hb => ?_⟩
    · by_cases hlt : b'.val < 512 * n
      · have e0 := wb_not_mem c ⟨n, hu⟩ G₀ X _ (not_mem3 ⟨n, hu⟩ l o ⟨4096 * 3 + b'.val, by omega⟩
          (Or.inl (by show 4096 * 3 + b'.val < 4096 * 3 + 512 * n; omega)))
        rw [View.read_whole, View.read_whole] at e0
        exact e0.trans (ih.1 l o b' hlt)
      · have hj : b'.val - 512 * n < 512 := by omega
        have e1 := wb_emb c ⟨n, hu⟩ G₀ X (ix3 l o ⟨b'.val - 512 * n, hj⟩)
        rw [emb3, View.read_whole] at e1
        have hidx : (⟨4096 * 3 + 512 * (⟨n, hu⟩ : Fin cfg7.N).val + (⟨b'.val - 512 * n, hj⟩ : Fin 512).val, by
              have := lt_of_lt_of_eq (⟨n, hu⟩ : Fin cfg7.N).isLt N7; omega⟩ : Fin 16384)
            = ⟨4096 * 3 + b'.val, by omega⟩ := Fin.ext (by show 4096 * 3 + 512 * n + (b'.val - 512 * n) = 4096 * 3 + b'.val; omega)
        rw [hidx] at e1
        refine e1.trans ?_
        have hq : (⟨512 * (⟨n, hu⟩ : Fin cfg7.N).val + (⟨b'.val - 512 * n, hj⟩ : Fin 512).val, by
              have := lt_of_lt_of_eq (⟨n, hu⟩ : Fin cfg7.N).isLt N7; omega⟩ : Fin 4096) = b' :=
          Fin.ext (by show 512 * n + (b'.val - 512 * n) = b'.val; omega)
        have e2 := hXok l o ⟨b'.val - 512 * n, hj⟩
        rw [hq] at e2
        exact e2
    · have e0 := wb_not_mem c ⟨n, hu⟩ G₀ X _ (not_mem3 ⟨n, hu⟩ l o b (by
          rcases hb with hb | hb
          · exact Or.inl (by omega)
          · exact Or.inr (by show 4096 * 3 + 512 * (n + 1) ≤ b.val; omega)))
      rw [View.read_whole, View.read_whole] at e0
      exact e0.trans (ih.2 l o b (by rcases hb with hb | hb; exact Or.inl hb; exact Or.inr (by omega)))

/-- After the region the output array holds the projection in columns `12288 … 16383` and its entry contents elsewhere. -/
theorem projBlk7 (F : Buf (Elt Ideal) ((cfg7.win 3).arr.view.loc (c.tc : Thread nD τ)))
    (h : (rd7v (UU := UU) c A).ArrAt 3 cfg7.N F) : ProjBlk 3 (A 0) (A 1) (A 2) (A 3) F := by
  obtain ⟨h1, h2⟩ := arrAt3 c A cfg7.N (le_of_eq N7) F h
  refine ⟨fun l o b' => ?_, fun l o b hb => ?_⟩
  · exact h1 l o b' (by have := N7; have := b'.isLt; omega)
  · refine h2 l o b ?_
    have h8 := N7
    simp only [show ((3 : Fin 4) : ℕ) = 3 from rfl] at hb
    rcases hb with hb | hb
    · exact Or.inl (by omega)
    · exact Or.inr (by omega)

end Exit

/-! ## The region's proof data, for every pipeline and core

The library's region rule is stated over a family of proof data, one per pipeline and core, of which it reads only the one
at the pipeline and core entered. The family below is the region's data at pipeline 3 and says nothing elsewhere. -/

section RegionV

variable (d : Dev nD) (f3 : Buf (Elt Ideal) ((T d : Thread nD τ).loc main_v6)) (fw : Buf (Elt Ideal) ((T d : Thread nD τ).loc main_v1))
  (fb : Buf (Elt Ideal) ((T d : Thread nD τ).loc main_v2)) (f7 : Buf (Elt Ideal) ((T d : Thread nD τ).loc main_v10))

/-- The family: the region's data at pipeline 3, data that says nothing at the others. -/
def rdatsV : (p : Fin 4) → (c : Dev nD) → RDat τ (Elt Ideal) (HIx 4) ℕ UU ℕ (Pipeline.pin (pcfgs (F := Ideal)) adm p) c
  | ⟨0, _⟩, _ => { A := fun _ _ => default, after := fun _ _ _ _ => True, Φ := fun _ => iprop(emp), q := fun _ => fullShare, owed := fun _ => 0 }
  | ⟨1, _⟩, _ => { A := fun _ _ => default, after := fun _ _ _ _ => True, Φ := fun _ => iprop(emp), q := fun _ => fullShare, owed := fun _ => 0 }
  | ⟨2, _⟩, _ => { A := fun _ _ => default, after := fun _ _ _ _ => True, Φ := fun _ => iprop(emp), q := fun _ => fullShare, owed := fun _ => 0 }
  | ⟨3, _⟩, c => rd7v c (A7c d f3 fw fb f7 c)
  | ⟨_ + 4, _⟩, _ => { A := fun _ _ => default, after := fun _ _ _ _ => True, Φ := fun _ => iprop(emp), q := fun _ => fullShare, owed := fun _ => 0 }

theorem rdatsV_zero (c : Dev nD) : rdatsV (UU := UU) d f3 fw fb f7 3 c = rd7v c (A7c d f3 fw fb f7 c) := rfl

end RegionV

/-! ## The region as the library's record, and its step at @main's line -/

section StepV

variable (d : Dev nD) (f3 : Buf (Elt Ideal) ((T d : Thread nD τ).loc main_v6)) (fw : Buf (Elt Ideal) ((T d : Thread nD τ).loc main_v1))
  (fb : Buf (Elt Ideal) ((T d : Thread nD τ).loc main_v2)) (f7 : Buf (Elt Ideal) ((T d : Thread nD τ).loc main_v10))

theorem share7v (c : Dev nD) (w : Fin cfg7.W) : (rdatsV (UU := UU) d f3 fw fb f7 3 c).share w = fullShare :=
  (rdatsV (UU := UU) d f3 fw fb f7 3 c).share_full (fun _ => rfl) w

/-- The region's four arrays, one by one. -/
theorem arrays7v (c : Dev nD) (G : (w : Fin cfg7.W) → Buf (Elt Ideal) ((cfg7.win w).arr.view.loc (c.tc : Thread nD τ))) :
    ((rdatsV (UU := UU) d f3 fw fb f7 3 c).arrays G : sProp 𝕄)
      = iprop((((c.tc : Thread nD τ).loc main_v6) ↦{fullShare} G 0) ∗ (((c.tc : Thread nD τ).loc main_v1) ↦{fullShare} G 1)
          ∗ (((c.tc : Thread nD τ).loc main_v2) ↦{fullShare} G 2) ∗ (((c.tc : Thread nD τ).loc main_v10) ↦{fullShare} G 3)) := by
  rw [Pipeline.RDat.arrays_eq (pcfgs (F := Ideal)) adm (rdatsV (UU := UU) d f3 fw fb f7) 3 c launch7.arr_whole (share7v d f3 fw fb f7 c) G, bigSep_W7]
  rfl

-- the record's fields are stated over the pipeline's configuration at the pinned tables, which is the printed one by unfolding
set_option backward.isDefEq.respectTransparency.types false in
/-- The region: the decided layout, no semaphore of the kernel's own, the body obligation; entered from the four arrays and
    the core owing nothing, left with the arrays at what the write-backs may have made of them. -/
def reg7v : Pipeline.RDat.RegionSeg (pcfgs (F := Ideal)) adm (rdatsV (UU := UU) d f3 fw fb f7) none defs₀ 𝒱₀ (K (F := Ideal)).L (K (F := Ideal)).lev 3 where
  win := launch7.win.to₀
  block_pos := launch7.block_pos
  stage_whole := launch7.stage_whole
  K := PEmpty
  osem := fun k => k.elim
  ho := Pipeline.OwnSemFacts.none _
  hbody c := body7v c _
  hwaits := Pipeline.RDat.hwaits_of_owed_zero _ _ _ _ _ _ 3 fun _ _ => rfl
  pre c := iprop((rdatsV (UU := UU) d f3 fw fb f7 3 c).arrays (rdatsV (UU := UU) d f3 fw fb f7 3 c).A ∗ (rdatsV (UU := UU) d f3 fw fb f7 3 c).owesAt none 0)
  post c := iprop((rdatsV (UU := UU) d f3 fw fb f7 3 c).arraysAt cfg7.N ∗ (rdatsV (UU := UU) d f3 fw fb f7 3 c).owesAt none (Fin.last cfg7.N))
  X _ := iprop(emp)
  Y _ := iprop(emp)
  Z _ := iprop(emp)
  hentry c := by
    iintro ⟨⟨Ha, HO⟩, -, -⟩
    imodintro
    isplitl [Ha]; · iexact Ha
    isplitr; · unfold Pipeline.prefHeld; rw [show (Finset.univ : Finset (Fin 0)) = ∅ from rfl, BI.bigSep_empty]; iempintro
    isplitl [HO]; · iexact HO
    isplitr <;> iempintro
  hin c := by
    show iprop(_ ∗ _ ∗ Pipeline.scopedRest spec7 c) ⊢ Pipeline.scopedRest spec7 c
    iintro ⟨-, -, Hr⟩; iexact Hr
  hout c := by
    rw [Pipeline.ownSems0_none]
    show Pipeline.scopedRest spec7 c ⊢ iprop(_ ∗ _ ∗ Pipeline.scopedRest spec7 c)
    iintro Hr
    isplitr; · iempintro
    isplitr; · iempintro
    iexact Hr
  hexit c := by
    iintro ⟨Ha, HO, -, -⟩
    imodintro
    isplitl [Ha]; · iexact Ha
    iexact HO

/-- ENTRY at device `d`: the four arrays at their contents and the core owing nothing, its recorded pairs at level 32 or
    below, are the region's entry state. -/
theorem pre7v (W : Waits sig (HIx 4)) (hW : (K (F := Ideal)).WBelow (T d) W 32) :
    iprop(owes (T d : Thread nD τ) (0 : CellTallies nD τ sig (HIx 4)) W
        ∗ (((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7))
      ⊢ ((reg7v (UU := UU) d f3 fw fb f7).pre d : sProp 𝕄) := by
  show _ ⊢ iprop((rdatsV (UU := UU) d f3 fw fb f7 3 d).arrays (rdatsV (UU := UU) d f3 fw fb f7 3 d).A ∗ (rdatsV (UU := UU) d f3 fw fb f7 3 d).owesAt none 0)
  rw [arrays7v, show (rdatsV (UU := UU) d f3 fw fb f7 3 d).A = A7 d f3 fw fb f7 from A7c_self d f3 fw fb f7]
  show _ ⊢ iprop(((((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7))
      ∗ ∃ W' : Waits sig (HIx 4), ⌜(↑W' : Set (SemLoc sig × HIx 4)) ⊆ (rdatsV (UU := UU) d f3 fw fb f7 3 d).bound none 0⌝ ∗ owes (T d : Thread nD τ) (0 : CellTallies nD τ sig (HIx 4)) W')
  iintro ⟨HO, H3, H1, H2, H7⟩
  isplitr [HO]
  · isplitl [H3]; · iexact H3
    isplitl [H1]; · iexact H1
    isplitl [H2]; · iexact H2
    iexact H7
  · iexists W; isplitr
    · ipureintro; exact fun p hp => Or.inl (hW p (Finset.mem_coe.mp hp))
    iexact HO

/-- Every pair within the region's bound sits at level 32 or below: the pairs recorded before do, and the pipeline's own
    waits are recorded at the index of level 0. -/
theorem bound_belowV (t : Fin (cfg7.N + 1)) (W' : Waits sig (HIx 4))
    (h : (↑W' : Set (SemLoc sig × HIx 4)) ⊆ (rdatsV (UU := UU) d f3 fw fb f7 3 d).bound none t) : (K (F := Ideal)).WBelow (T d) W' 32 := by
  intro p hp
  rcases h (Finset.mem_coe.mpr hp) with h | ⟨w, s, rfl⟩
  · exact h
  · exact Nat.zero_le _

/-- EXIT at device `d`: the arrays the region reads are as they were, its output holds the projection in its 4096 columns and its
    entry contents elsewhere, the core owes nothing. -/
theorem post7v :
    ((reg7v (UU := UU) d f3 fw fb f7).post d : sProp 𝕄)
      ⊢ iprop((((T d : Thread nD τ).loc main_v6) ↦{fullShare} f3) ∗ (((T d : Thread nD τ).loc main_v1) ↦{fullShare} fw)
        ∗ (((T d : Thread nD τ).loc main_v2) ↦{fullShare} fb) ∗ (∃ g, ⌜ProjBlk 3 f3 fw fb f7 g⌝ ∗ ((T d : Thread nD τ).loc main_v10) ↦{fullShare} g)
        ∗ ∃ W', ⌜(K (F := Ideal)).WBelow (T d) W' 32⌝ ∗ owes (T d : Thread nD τ) (0 : CellTallies nD τ sig (HIx 4)) W') := by
  have hA : (rdatsV (UU := UU) d f3 fw fb f7 3 d).A = A7 d f3 fw fb f7 := A7c_self d f3 fw fb f7
  have e0 := (rdatsV (UU := UU) d f3 fw fb f7 3 d).ArrAt_in 0 rfl cfg7.N
  have e1 := (rdatsV (UU := UU) d f3 fw fb f7 3 d).ArrAt_in 1 rfl cfg7.N
  have e2 := (rdatsV (UU := UU) d f3 fw fb f7 3 d).ArrAt_in 2 rfl cfg7.N
  show iprop((rdatsV (UU := UU) d f3 fw fb f7 3 d).arraysAt cfg7.N
      ∗ ∃ W' : Waits sig (HIx 4), ⌜(↑W' : Set (SemLoc sig × HIx 4)) ⊆ (rdatsV (UU := UU) d f3 fw fb f7 3 d).bound none (Fin.last cfg7.N)⌝ ∗ owes (T d : Thread nD τ) (0 : CellTallies nD τ sig (HIx 4)) W') ⊢ _
  unfold RDat.arraysAt
  rw [bigSep_W7, e0, e1, e2, hA]
  simp only [share7v, (launch7.arr_whole _).set_eq_univ]
  iintro ⟨⟨⟨%F0, %h0, H0⟩, ⟨%F1, %h1, H1⟩, ⟨%F2, %h2, H2⟩, ⟨%F3, %h3, H3⟩⟩, ⟨%W', %hW', HO⟩⟩
  have hP : ProjBlk 3 f3 fw fb f7 F3 := by
    have h3' : (rd7v (UU := UU) d (A7 d f3 fw fb f7)).ArrAt 3 cfg7.N F3 := by
      have h := h3
      rw [rdatsV_zero, A7c_self] at h
      exact h
    exact projBlk7 d (A7 d f3 fw fb f7) F3 h3'
  subst h0; subst h1; subst h2
  isplitl [H0]; · iexact H0
  isplitl [H1]; · iexact H1
  isplitl [H2]; · iexact H2
  isplitl [H3]
  · iexists F3; isplitr; · ipureintro; exact hP
    iexact H3
  iexists W'; isplitr
  · ipureintro; exact bound_belowV _ _ _ _ _ _ W' hW'
  iexact HO

/-- **The region at @main's line.** On device `d`, after the four gather calls: from the thread's region boundary, the level
    facts, the TensorCore owing nothing (its recorded pairs at level 32 or below), the gathered rows, the transposed weights,
    the bias column and the output array held whole, and the ghost state the launch dealt pipeline 3, the region's call runs
    — under any continuation — to the boundary again, the three arrays it reads unchanged, the output holding the projection of the
    4096 gathered batch entries in its columns 12288 … 16383 and its entry contents in the others, and the TensorCore still owing
    nothing. -/
theorem region3V (EP : Emb (URounds (GSem nD τ sig) Unit) 𝕄) [EP.LandsIn (upEmb : UEmb _ 𝕄)]
    (W : Waits sig (HIx 4)) (hW : (K (F := Ideal)).WBelow (T d) W 32)
    {α : Type} (k : PUnit → Prog (TpuEff nD τ sig (Elt Ideal) (SparseCore.Sig (ΛP (F := Ideal)) 4) .tc) α) (Q : α → sProp 𝕄) :
    iprop((iprop(boundary (T d : Thread nD τ) ∗ (((T d : Thread nD τ).loc main_v6) ↦{fullShare} f3) ∗ (((T d : Thread nD τ).loc main_v1) ↦{fullShare} fw)
              ∗ (((T d : Thread nD τ).loc main_v2) ↦{fullShare} fb) ∗ (∃ g, ⌜ProjBlk 3 f3 fw fb f7 g⌝ ∗ ((T d : Thread nD τ).loc main_v10) ↦{fullShare} g)
              ∗ ∃ W', ⌜(K (F := Ideal)).WBelow (T d) W' 32⌝ ∗ owes (T d : Thread nD τ) (0 : CellTallies nD τ sig (HIx 4)) W')
            -∗ wp frame (wpE ((K (F := Ideal)).defs D) 𝒱 (T d) none) Set.univ (k ⟨⟩) Q)
        ∗ boundary (T d : Thread nD τ) ∗ levAts (K (F := Ideal)).L (K (F := Ideal)).lev ∗ owes (T d : Thread nD τ) (0 : CellTallies nD τ sig (HIx 4)) W
        ∗ (((T d : Thread nD τ).loc main_v6) ↦{fullShare} f3) ∗ (((T d : Thread nD τ).loc main_v1) ↦{fullShare} fw)
        ∗ (((T d : Thread nD τ).loc main_v2) ↦{fullShare} fb) ∗ (((T d : Thread nD τ).loc main_v10) ↦{fullShare} f7)
        ∗ Pipeline.cellsGhost cfgs EP 3 d ∗ Pipeline.toksInit cfgs EP 3 d)
      ⊢ wp frame (wpE ((K (F := Ideal)).defs D) 𝒱 (T d) none) Set.univ (.op (.customCall (SparseCore.inner (Pipeline.entry 3)) ()) k) Q := by
  have hop : (Prog.op (.customCall (SparseCore.inner (Pipeline.entry 3)) ()) k : Prog (TpuEff nD τ sig (Elt Ideal) (SparseCore.Sig (ΛP (F := Ideal)) 4) .tc) α)
      = (SparseCore.liftProg (Q := 4) (Prog.op (.customCall (Pipeline.entry (3 : Fin 4)) ()) fun x => .ret x : Prog (TpuEff nD τ sig (Elt Ideal) (ΛP (F := Ideal)) .tc) PUnit) >>= k) := rfl
  rw [hop, wp_bind]
  refine BIBase.Entails.trans ?_ ((K (F := Ideal)).wp_liftProg D 𝒱 (T d) Set.univ none _ _)
  refine BIBase.Entails.trans ?_ (Pipeline.RDat.RegionSeg.wp (pcfgs (F := Ideal)) adm (rdatsV (UU := UU) d f3 fw fb f7) none cellOf_inj EP defs₀ 𝒱₀
    (K (F := Ideal)).L (K (F := Ideal)).lev (reg7v d f3 fw fb f7) d none (fun u h => nomatch h) (fun x => .ret x) _)
  iintro ⟨Hk, Hbd, #Hla, HO, H3, H1, H2, H7, Hg, Ht⟩
  isplitl [Hk]
  · iintro ⟨Hbd, Hpost⟩
    rw [wp_ret]; imodintro
    iapply Hk
    isplitl [Hbd]; · iexact Hbd
    iapply (post7v d f3 fw fb f7); iexact Hpost
  isplitl [Hbd]; · iexact Hbd
  isplitl [HO H3 H1 H2 H7]
  · iapply (pre7v d f3 fw fb f7 W hW)
    isplitl [HO]; · iexact HO
    isplitl [H3]; · iexact H3
    isplitl [H1]; · iexact H1
    isplitl [H2]; · iexact H2
    iexact H7
  isplitr; · iexact Hla
  isplitl [Hg]; · iexact Hg
  iexact Ht

end StepV

end Cert.Proof.Region7

end
-- ==== Proof.LaunchRegionsV.lean ====
/-
  The projection calls' regions with what they write, in the form @main uses them.
-/
import proofs.«204056_g19739669692900_cont_8to1_1488_31_alg».proof.Proof.LaunchMainV
import proofs.«204056_g19739669692900_cont_8to1_1488_31_alg».proof.Proof.Region4Val
import proofs.«204056_g19739669692900_cont_8to1_1488_31_alg».proof.Proof.Region5Val
import proofs.«204056_g19739669692900_cont_8to1_1488_31_alg».proof.Proof.Region6Val
import proofs.«204056_g19739669692900_cont_8to1_1488_31_alg».proof.Proof.Region7Val

noncomputable section

namespace Cert.Proof.LaunchI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

local notation "𝕄" => MT nD τ sig (HIx 4) (Elt Ideal) ℕ UU ℕ

theorem regionSpecV0 : RegionSpecV0 := by
  intro d W hW fi fw fb fo Ψ
  have h := Cert.Proof.Region4.region0V d fi fw fb fo (EP (F := Ideal)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpecV1 : RegionSpecV1 := by
  intro d W hW fi fw fb fo Ψ
  have h := Cert.Proof.Region5.region1V d fi fw fb fo (EP (F := Ideal)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpecV2 : RegionSpecV2 := by
  intro d W hW fi fw fb fo Ψ
  have h := Cert.Proof.Region6.region2V d fi fw fb fo (EP (F := Ideal)) W hW (fun _ => Prog.ret PUnit.unit) Ψ
  iintro ⟨Hk, Hrest⟩
  iapply h
  isplitl [Hk]
  · iintro Hpost
    rw [wp_ret]; imodintro
    iapply Hk; iexact Hpost
  · iexact Hrest

theorem regionSpecV3 : RegionSpecV3 := by
  intro d W hW fi fw fb fo Ψ
  have h := Cert.Proof.Region7.region3V d fi fw fb fo (EP (F := Ideal)) W hW (fun _ => Prog.ret PUnit.unit) Ψ
  iintro ⟨Hk, Hrest⟩
  iapply h
  isplitl [Hk]
  · iintro Hpost
    rw [wp_ret]; imodintro
    iapply Hk; iexact Hpost
  · iexact Hrest

end Cert.Proof.LaunchI

end
-- ==== Proof.RefValue.lean ====
/-
  The reference's value. Its operations, composed, are the term `refOut` of the four argument arrays: the
  lookup's index normalisation `where(i < 0, i + 100000, i)`, the in-range mask `0 ≤ i ≤ 99999` (an `and`
  over the index vector's one component), the gather of whole rows of the table, the select of the gathered
  rows against a NaN splat, the contraction with the weight over the embedding axis and the broadcast bias.

  Read at `[b, l, o]` under the precondition's range (every index word between 0 and 99999 read signed):
  the normalisation keeps the word, the mask is one, the select takes the gathered row, the gather's own
  clamp of the start index is `Spec.rowOf`, and the contraction is the sum over the embedding coordinate:
      refOut[b, l, o] = Σ_e table[rowOf categories[b, l], e] · W[o, e] + bias[o] = Spec.G[b, l, o].
  The range itself is decoded from the printed precondition in its own module.
-/
import proofs.«204056_g19739669692900_cont_8to1_1488_31_alg».proof.Proof.Gen.ReferenceIdeal
import proofs.«204056_g19739669692900_cont_8to1_1488_31_alg».proof.Proof.Spec
import Idealize.ShloMosaic.Lib.ValueIdx
import Idealize.ShloMosaic.Lib.IdealHost
import Idealize.ShloMosaic.Lib.Pipeline.Value
import Idealize.ShloMosaic.PureOps.Ideal.Laws
import Idealize.ShloMosaic.Lib.ReduceAll

noncomputable section

namespace Cert.Proof.Ref

open Idealize.ShloMosaic Idealize.ShloMosaic.ValueIdx
open scoped BigOperators

/-! ## A gather of whole rows of a rank-2 table at a rank-3 array of start indices, read at an index

What `table[idx]` of a table `[N, D]` at an integer array `idx : [R, C]` lowers to: offset_dims `[2]`,
collapsed_slice_dims `[0]`, start_index_map `[0]`, slice_sizes `[1, D]` and index_vector_dim 2 over the indices as
`[R, C, 1]`. Result element `(r, c, e)` is the table at row `idx[r, c, 0]` — read signed and clamped into
`[0, N − 1]` — and column `e`. -/

section Rows
variable {α : Type}

abbrev rowsDims (N D R C : Nat)
    (wf : GatherDims.WF ⟨2, ![N, D]⟩ ⟨3, ![R, C, 1]⟩ ⟨3, ![R, C, D]⟩ [2] [0] [] [0] [] 2 ![1, D]) :
    GatherDims ⟨2, ![N, D]⟩ ⟨3, ![R, C, 1]⟩ ⟨3, ![R, C, D]⟩ where
  offsetDims := [2]
  collapsedSliceDims := [0]
  operandBatchingDims := []
  startIndicesBatchingDims := []
  startIndexMap := [0]
  indexVectorDim := 2
  sliceSizes := ![1, D]
  wf := wf

theorem gather_rows_apply {N D R C w : Nat} (hN : 0 < N)
    (wf : GatherDims.WF ⟨2, ![N, D]⟩ ⟨3, ![R, C, 1]⟩ ⟨3, ![R, C, D]⟩ [2] [0] [] [0] [] 2 ![1, D])
    (x : (⟨2, ![N, D]⟩ : Shape).Idx → α) (idx : IVec ⟨3, ![R, C, 1]⟩ w) (r : Fin R) (c : Fin C) (e : Fin D) :
    Host.gather (rowsDims N D R C wf) x idx (ix3 r c e)
      = x (ix2 ⟨min (idx (ix3 r c (0 : Fin 1))).toInt.toNat (N - 1), by omega⟩ e) := by
  unfold Host.gather
  refine congrArg x (funext fun a => Fin.ext ?_)
  match a with
  | ⟨0, _⟩ =>
    show (rowsDims N D R C wf).start (ix3 r c e) idx 0 + (rowsDims N D R C wf).batchCoord (ix3 r c e) 0
        + (rowsDims N D R C wf).offCoord (ix3 r c e) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N D R C wf).startIndexMap from List.mem_singleton.mpr rfl)]
    have hsi : (rowsDims N D R C wf).siIdx (ix3 r c e) ⟨List.idxOf (0 : Fin 2) (rowsDims N D R C wf).startIndexMap,
        List.idxOf_lt_length_iff.2 (List.mem_singleton.mpr rfl)⟩ = ix3 r c (0 : Fin 1) := by
      funext b; refine Fin.ext ?_
      match b with
      | ⟨0, _⟩ => rfl
      | ⟨1, _⟩ => rfl
      | ⟨2, _⟩ => rfl
    rw [hsi]
    rfl
  | ⟨1, _⟩ =>
    show (rowsDims N D R C wf).start (ix3 r c e) idx 1 + (rowsDims N D R C wf).batchCoord (ix3 r c e) 1
        + (rowsDims N D R C wf).offCoord (ix3 r c e) 1 = e.val
    rw [GatherDims.batchCoord_eq_zero _ _ _ List.not_mem_nil]
    have hs : (rowsDims N D R C wf).start (ix3 r c e) idx 1 = 0 := by
      unfold GatherDims.start
      rw [dif_neg (fun h => Nat.one_ne_zero (congrArg Fin.val (List.mem_singleton.mp h)))]
    rw [hs]
    simp only [Nat.add_zero, Nat.zero_add]
    unfold GatherDims.offCoord
    rw [dif_pos ((GatherDims.mem_sKept _ _).mpr
      ⟨fun h => Nat.one_ne_zero (congrArg Fin.val (List.mem_singleton.mp h)), List.not_mem_nil⟩)]
    rfl

end Rows

/-! ## A reduce by `and` whose operand is all ones -/

theorem foldl_andi_one {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from rfl]
    exact foldl_andi_one f l (fun n hn => h n (List.mem_cons_of_mem _ hn))

theorem reduce_andi_of_all {s t u : Shape} {axes : List (Fin s.rank)} (x : s.Idx → BitVec 1) (init : u.Idx → BitVec 1)
    (h : s.ReducesTo axes t) (hu : 0 < u.numel) (hinit : ∀ k, init k = 1#1) (hx : ∀ i, x i = 1#1) (j : t.Idx) :
    Host.reduce IntOp.andi x init h hu j = 1#1 := by
  rw [Host.reduce_eq_foldl, hinit]
  exact foldl_andi_one x _ (fun n _ => hx n)

/-! ## The projection -/

abbrev projDims (R C D O : Nat)
    (wf : DotDims.WF ⟨3, ![R, C, D]⟩ ⟨2, ![O, D]⟩ ⟨3, ![R, C, O]⟩ [2] [1] [0, 1] [0] [] []) :
    DotDims ⟨3, ![R, C, D]⟩ ⟨2, ![O, D]⟩ ⟨3, ![R, C, O]⟩ where
  lhsContracting := [2]
  rhsContracting := [1]
  lhsNonContracting := [0, 1]
  rhsNonContracting := [0]
  lhsBatch := []
  rhsBatch := []
  wf := wf

theorem proj_apply {R C D O : Nat} {φ₁ φ₂ : FTy}
    (wf : DotDims.WF ⟨3, ![R, C, D]⟩ ⟨2, ![O, D]⟩ ⟨3, ![R, C, O]⟩ [2] [1] [0, 1] [0] [] [])
    (prec : Option ContractPrecision) (X : FVec Ideal ⟨3, ![R, C, D]⟩ φ₁) (W : FVec Ideal ⟨2, ![O, D]⟩ φ₂)
    (r : Fin R) (c : Fin C) (o : Fin O) :
    Host.dotGeneral (projDims R C D O wf) prec X W (ix3 r c o) = ∑ e : Fin D, X (ix3 r c e) * W (ix2 o e) := by
  show FloatOps.dotGeneral _ prec _ X W (ix3 r c o) = _
  rw [Ideal.dotGeneral_apply, ← Equiv.sum_comp (contrEquiv1 (projDims R C D O wf) D rfl rfl).symm]
  refine Finset.sum_congr rfl fun e _ => ?_
  have c2 := contrEquiv1_symm_val (projDims R C D O wf) D rfl rfl e
  have l2 : (projDims R C D O wf).lhsIdx (ix3 r c o) ((contrEquiv1 _ D rfl rfl).symm e) = ix3 r c e := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c2
  have r2 : (projDims R C D O wf).rhsIdx (ix3 r c o) ((contrEquiv1 _ D rfl rfl).symm e) = ix2 o e := by
    funext ax; apply Fin.ext
    match ax with
    | ⟨0, _⟩ => simp [DotDims.rhsIdx]; rfl
    | ⟨1, _⟩ => simp [DotDims.rhsIdx]; exact c2
  rw [l2, r2]

/-! ## The reference's composed term -/

open Cert.ReferenceIdeal Cert.ReferenceIdeal.Gen

/-- The lookup's index normalisation: `where(i < 0, i + 100000, i)`. -/
def normIdx (cats : IVec S16384x50 32) : IVec S16384x50 32 :=
  select (cmpi .slt cats (broadcastInDim S16384x50 ![] bcast_S_S16384x50 (constantI S_ 32 0#32)))
    (addi cats (broadcastInDim S16384x50 ![] bcast_S_S16384x50 (constantI S_ 32 100000#32))) cats

/-- The start indices, one component each. -/
def startIdx (cats : IVec S16384x50 32) : IVec S16384x50x1 32 :=
  broadcastInDim S16384x50x1 ![0, 1] bcast_S16384x50_S16384x50x1_0_1 (normIdx cats)

/-- `0 ≤ i` and `i ≤ 99999` on every component of a start index. -/
def rangeBits (cats : IVec S16384x50 32) : IVec S16384x50x1 1 :=
  andi (cmpi .sge (startIdx cats) (broadcastInDim S16384x50x1 ![] bcast_S_S16384x50x1 (constantI S_ 32 0#32)))
    (cmpi .sle (startIdx cats) (broadcastInDim S16384x50x1 ![0, 1, 2] bcast_S1x1x1_S16384x50x1_0_1_2
      (broadcastInDim S1x1x1 ![2] bcast_S1_S1x1x1_2 (constantI S1 32 99999#32))))

/-- The in-range mask of the lookup. -/
def inRange (cats : IVec S16384x50 32) : IVec S16384x50 1 :=
  Host.reduce IntOp.andi (rangeBits cats) (constantI S_ 1 1#1) reducesTo_S16384x50x1_S16384x50_d2 h_S_

/-- The looked-up rows: the gathered rows where the index is in range, NaN elsewhere. -/
def taken {F : FTy → Type} [FloatOps F] (cats : IVec S16384x50 32) (table : FVec F S100000x64 .f32) : FVec F S16384x50x64 .f32 :=
  select (broadcastInDim S16384x50x64 ![0, 1] bcast_S16384x50_S16384x50x64_0_1 (inRange cats))
    (Host.gather gather_S100000x64_S16384x50x1_S16384x50x64_2_0_n_n_0_2_164 table (startIdx cats))
    (broadcastInDim S16384x50x64 ![] bcast_S_S16384x50x64 (constant (F := F) S_ .f32 0x7FC00000#32))

/-- The reference's result as a term of its arguments, at any float instance. -/
def refOut {F : FTy → Type} [FloatOps F] (cats : IVec S16384x50 32) (table : FVec F S100000x64 .f32) (W : FVec F S64x64 .f32)
    (bias : FVec F S64 .f32) : FVec F S16384x50x64 .f32 :=
  addf (Host.dotGeneral dot_S16384x50x64_S64x64_S16384x50x64_2_1_01_0_n_n none (taken cats table) W)
    (broadcastInDim S16384x50x64 ![0, 1, 2] bcast_S1x1x64_S16384x50x64_0_1_2
      (broadcastInDim S1x1x64 ![2] bcast_S64_S1x1x64_2 bias))

/-! ## The stages at an index, under the range -/

/-- A nonnegative index word is kept by the normalisation. -/
theorem normIdx_apply (cats : IVec S16384x50 32) (i : S16384x50.Idx) (h : 0 ≤ (cats i).toInt) :
    normIdx cats i = cats i := by
  have hc : ¬IntOp.cmpi .slt (cats i) 0#32 = 1#1 := by
    rw [IntOp.cmpi_slt, show (0#32 : BitVec 32).toInt = 0 from rfl]; omega
  show Scalar.select (IntOp.cmpi .slt (cats i) 0#32) _ _ = _
  exact if_neg hc

/-- A start index's one component is the normalised index word. -/
theorem startIdx_apply (cats : IVec S16384x50 32) (b : Fin 16384) (l : Fin 50) (z : Fin 1) :
    startIdx cats (ix3 b l z) = normIdx cats (ix2 b l) := by
  unfold startIdx
  refine broadcastInDim_apply _ _ _ _ (ix2 b l) fun a => ?_
  match a with
  | ⟨0, _⟩ => rfl
  | ⟨1, _⟩ => rfl

/-- Under the range every component tests in range. -/
theorem rangeBits_apply (cats : IVec S16384x50 32) (hr : ∀ i, 0 ≤ (cats i).toInt ∧ (cats i).toInt ≤ 99999)
    (j : S16384x50x1.Idx) : rangeBits cats j = 1#1 := by
  obtain ⟨b, l, z, rfl⟩ : ∃ (b : Fin 16384) (l : Fin 50) (z : Fin 1), j = ix3 b l z := ⟨j 0, j 1, j 2, eq_ix3 j⟩
  show IntOp.andi (IntOp.cmpi .sge (startIdx cats (ix3 b l z)) 0#32) (IntOp.cmpi .sle (startIdx cats (ix3 b l z)) 99999#32) = 1#1
  rw [startIdx_apply, normIdx_apply cats _ (hr _).1, IntOp.andi_eq_one, IntOp.cmpi_sge, IntOp.cmpi_sle,
    show (0#32 : BitVec 32).toInt = 0 from rfl, show (99999#32 : BitVec 32).toInt = 99999 from by decide]
  exact hr _

/-- So the mask is one everywhere. -/
theorem inRange_apply (cats : IVec S16384x50 32) (hr : ∀ i, 0 ≤ (cats i).toInt ∧ (cats i).toInt ≤ 99999)
    (i : S16384x50.Idx) : inRange cats i = 1#1 :=
  reduce_andi_of_all _ _ _ _ (fun _ => rfl) (rangeBits_apply cats hr) i

/-- The looked-up row at `[b, l, e]`: the table's row `rowOf categories[b, l]` at column `e`. -/
theorem taken_apply (cats : IVec S16384x50 32) (table : FVec Ideal S100000x64 .f32)
    (hr : ∀ i, 0 ≤ (cats i).toInt ∧ (cats i).toInt ≤ 99999) (b : Fin 16384) (l : Fin 50) (e : Fin 64) :
    taken cats table (ix3 b l e) = table (ix2 (Cert.Spec.rowOf (cats (ix2 b l))) e) := by
  have hm : broadcastInDim S16384x50x64 ![0, 1] bcast_S16384x50_S16384x50x64_0_1 (inRange cats) (ix3 b l e) = 1#1 := by
    refine (broadcastInDim_apply _ _ _ _ (ix2 b l) fun a => ?_).trans (inRange_apply cats hr _)
    match a with
    | ⟨0, _⟩ => rfl
    | ⟨1, _⟩ => rfl
  unfold taken
  rw [select_apply, hm, select_one]
  refine (gather_rows_apply (by decide) gather_S100000x64_S16384x50x1_S16384x50x64_2_0_n_n_0_2_164_wf table (startIdx cats) b l e).trans ?_
  refine congrArg table (congrArg (fun p => ix2 p e) (Fin.ext ?_))
  show min (startIdx cats (ix3 b l (0 : Fin 1))).toInt.toNat (100000 - 1) = min (cats (ix2 b l)).toInt.toNat 99999
  rw [startIdx_apply, normIdx_apply cats _ (hr _).1]

/-- The broadcast bias at `[b, l, o]` is the bias at `o`. -/
theorem bias_apply (bias : FVec Ideal S64 .f32) (b : Fin 16384) (l : Fin 50) (o : Fin 64) :
    broadcastInDim S16384x50x64 ![0, 1, 2] bcast_S1x1x64_S16384x50x64_0_1_2
      (broadcastInDim S1x1x64 ![2] bcast_S64_S1x1x64_2 bias) (ix3 b l o) = bias (ix1 o) := by
  refine (broadcastInDim_apply _ _ _ _ (ix3 (0 : Fin 1) (0 : Fin 1) o) fun a => ?_).trans
    (broadcastInDim_apply _ _ _ _ (ix1 o) fun a => ?_)
  · match a with
    | ⟨0, _⟩ => rfl
    | ⟨1, _⟩ => rfl
    | ⟨2, _⟩ => rfl
  · match a with
    | ⟨0, _⟩ => rfl

/-- The program's contraction record is the projection's. -/
theorem dot_eq : dot_S16384x50x64_S64x64_S16384x50x64_2_1_01_0_n_n
    = projDims 16384 50 64 64 dot_S16384x50x64_S64x64_S16384x50x64_2_1_01_0_n_n_wf := rfl

/-- The contraction at `[b, l, o]`: the sum over the embedding coordinate. -/
theorem dot_apply (X : FVec Ideal S16384x50x64 .f32) (W : FVec Ideal S64x64 .f32) (b : Fin 16384) (l : Fin 50) (o : Fin 64) :
    Host.dotGeneral dot_S16384x50x64_S64x64_S16384x50x64_2_1_01_0_n_n none X W (ix3 b l o)
      = ∑ e : Fin 64, X (ix3 b l e) * W (ix2 o e) := by
  rw [dot_eq]
  exact proj_apply _ none X W b l o

/-- THE REFERENCE IS `G`: under the range the composed term is the shared specification. -/
theorem refOut_eq_G (cats : IVec S16384x50 32) (table : FVec Ideal S100000x64 .f32) (W : FVec Ideal S64x64 .f32)
    (bias : FVec Ideal S64 .f32) (hr : ∀ i, 0 ≤ (cats i).toInt ∧ (cats i).toInt ≤ 99999) :
    refOut cats table W bias = Cert.Spec.G cats table W bias := by
  funext i
  obtain ⟨b, l, o, rfl⟩ : ∃ (b : Fin 16384) (l : Fin 50) (o : Fin 64), i = ix3 b l o := ⟨i 0, i 1, i 2, eq_ix3 i⟩
  rw [Cert.Spec.G_apply]
  unfold refOut
  rw [addf_apply, bias_apply, dot_apply]
  exact congrArg (· + bias (ix1 o)) (Finset.sum_congr rfl fun e _ => by rw [taken_apply cats table hr])

end Cert.Proof.Ref

end
-- ==== Proof.RefRun.lean ====
/-
  The reference's run. @main calls the lookup function, which calls the select function; with the two calls
  unfolded at their sites @main is a straight line of 27 host operations (`ops`, `main_eq`): the lookup's
  23 (the index normalisation, the in-range mask, the gather of rows, the select against NaN) and @main's own
  4 (the contraction with the weight, the bias broadcast twice, the sum). A straight line of host operations
  runs to its end from any memory, every buffer ending at the fold of the operations' results over the launch
  contents (`run_main`). Read at the result buffer the fold is the composed term `refOut` of the argument
  arrays (`out_eq`), which under the precondition's range is the shared specification `Spec.G`
  (`refOut_eq_G`, with the range decoded from the precondition by `PreRange.cats_range`); read at an argument buffer it is the launch contents (no operation writes
  an argument). `run` states both; `frame` is `run` with the value dropped.
-/
import proofs.«204056_g19739669692900_cont_8to1_1488_31_alg».proof.Defs
import proofs.«204056_g19739669692900_cont_8to1_1488_31_alg».proof.Proof.Gen.ReferenceIdeal
import proofs.«204056_g19739669692900_cont_8to1_1488_31_alg».proof.Proof.Gen.Pre_input_domain
import proofs.«204056_g19739669692900_cont_8to1_1488_31_alg».proof.Proof.Spec
import proofs.«204056_g19739669692900_cont_8to1_1488_31_alg».proof.Proof.PreRange
import proofs.«204056_g19739669692900_cont_8to1_1488_31_alg».proof.Proof.RefValue
import Idealize.ShloMosaic.Lib.StableHlo.Run

noncomputable section

namespace Cert.Proof.Ref

open Cert.ReferenceIdeal Cert.ReferenceIdeal.Gen Idealize.ShloMosaic Idealize.ShloMosaic.TcCoe Idealize.SL.Sem
open Idealize.ShloMosaic.StableHlo

section Line

variable {F : FTy → Type} [FloatOps F]

/-- @main's 27 operations in order, the two calls unfolded, each over the buffers the call's record names: the
    lookup runs into the buffers `main_call0_…` (its select into `main_call0_v4`), its result the buffer `main_v0`.
    Each function is stated at the value's type, which is the literal buffer's own. -/
abbrev ops : List (HloOp τ sig (Elt F)) :=
  [ nullary main_call0_c (constantI S_ 32 0#32 : (⟨S_, .i32⟩ : BufTy).Contents (Elt F)),
    unary main_call0_c main_call0_v0 (broadcastInDim S16384x50 ![] bcast_S_S16384x50 : (⟨S_, .i32⟩ : BufTy).Contents (Elt F) → (⟨S16384x50, .i32⟩ : BufTy).Contents (Elt F)),
    binary main_arg0 main_call0_v0 main_call0_v1 (cmpi .slt : (⟨S16384x50, .i32⟩ : BufTy).Contents (Elt F) → (⟨S16384x50, .i32⟩ : BufTy).Contents (Elt F) → (⟨S16384x50, .i1⟩ : BufTy).Contents (Elt F)),
    nullary main_call0_c_0 (constantI S_ 32 100000#32 : (⟨S_, .i32⟩ : BufTy).Contents (Elt F)),
    unary main_call0_c_0 main_call0_v2 (broadcastInDim S16384x50 ![] bcast_S_S16384x50 : (⟨S_, .i32⟩ : BufTy).Contents (Elt F) → (⟨S16384x50, .i32⟩ : BufTy).Contents (Elt F)),
    binary main_arg0 main_call0_v2 main_call0_v3 (addi : (⟨S16384x50, .i32⟩ : BufTy).Contents (Elt F) → (⟨S16384x50, .i32⟩ : BufTy).Contents (Elt F) → (⟨S16384x50, .i32⟩ : BufTy).Contents (Elt F)),
    ternary main_call0_v1 main_call0_v3 main_arg0 main_call0_v4 (select : (⟨S16384x50, .i1⟩ : BufTy).Contents (Elt F) → (⟨S16384x50, .i32⟩ : BufTy).Contents (Elt F) → (⟨S16384x50, .i32⟩ : BufTy).Contents (Elt F) → (⟨S16384x50, .i32⟩ : BufTy).Contents (Elt F)),
    unary main_call0_v4 main_call0_v5 (broadcastInDim S16384x50x1 ![0, 1] bcast_S16384x50_S16384x50x1_0_1 : (⟨S16384x50, .i32⟩ : BufTy).Contents (Elt F) → (⟨S16384x50x1, .i32⟩ : BufTy).Contents (Elt F)),
    nullary main_call0_c_1 (constantI S1 32 99999#32 : (⟨S1, .i32⟩ : BufTy).Contents (Elt F)),
    nullary main_call0_c_2 (constantI S_ 32 0#32 : (⟨S_, .i32⟩ : BufTy).Contents (Elt F)),
    unary main_call0_c_2 main_call0_v6 (broadcastInDim S16384x50x1 ![] bcast_S_S16384x50x1 : (⟨S_, .i32⟩ : BufTy).Contents (Elt F) → (⟨S16384x50x1, .i32⟩ : BufTy).Contents (Elt F)),
    binary main_call0_v5 main_call0_v6 main_call0_v7 (cmpi .sge : (⟨S16384x50x1, .i32⟩ : BufTy).Contents (Elt F) → (⟨S16384x50x1, .i32⟩ : BufTy).Contents (Elt F) → (⟨S16384x50x1, .i1⟩ : BufTy).Contents (Elt F)),
    unary main_call0_c_1 main_call0_v8 (broadcastInDim S1x1x1 ![2] bcast_S1_S1x1x1_2 : (⟨S1, .i32⟩ : BufTy).Contents (Elt F) → (⟨S1x1x1, .i32⟩ : BufTy).Contents (Elt F)),
    unary main_call0_v8 main_call0_v9 (broadcastInDim S16384x50x1 ![0, 1, 2] bcast_S1x1x1_S16384x50x1_0_1_2 : (⟨S1x1x1, .i32⟩ : BufTy).Contents (Elt F) → (⟨S16384x50x1, .i32⟩ : BufTy).Contents (Elt F)),
    binary main_call0_v5 main_call0_v9 main_call0_v10 (cmpi .sle : (⟨S16384x50x1, .i32⟩ : BufTy).Contents (Elt F) → (⟨S16384x50x1, .i32⟩ : BufTy).Contents (Elt F) → (⟨S16384x50x1, .i1⟩ : BufTy).Contents (Elt F)),
    binary main_call0_v7 main_call0_v10 main_call0_v11 (andi : (⟨S16384x50x1, .i1⟩ : BufTy).Contents (Elt F) → (⟨S16384x50x1, .i1⟩ : BufTy).Contents (Elt F) → (⟨S16384x50x1, .i1⟩ : BufTy).Contents (Elt F)),
    nullary main_call0_c_3 (constantI S_ 1 1#1 : (⟨S_, .i1⟩ : BufTy).Contents (Elt F)),
    binary main_call0_v11 main_call0_c_3 main_call0_v12 (fun x v => Host.reduce IntOp.andi x v reducesTo_S16384x50x1_S16384x50_d2 h_S_ : (⟨S16384x50x1, .i1⟩ : BufTy).Contents (Elt F) → (⟨S_, .i1⟩ : BufTy).Contents (Elt F) → (⟨S16384x50, .i1⟩ : BufTy).Contents (Elt F)),
    binary main_arg1 main_call0_v5 main_call0_v13 (fun x i => Host.gather gather_S100000x64_S16384x50x1_S16384x50x64_2_0_n_n_0_2_164 x i : (⟨S100000x64, .f32⟩ : BufTy).Contents (Elt F) → (⟨S16384x50x1, .i32⟩ : BufTy).Contents (Elt F) → (⟨S16384x50x64, .f32⟩ : BufTy).Contents (Elt F)),
    unary main_call0_v12 main_call0_v14 (broadcastInDim S16384x50x64 ![0, 1] bcast_S16384x50_S16384x50x64_0_1 : (⟨S16384x50, .i1⟩ : BufTy).Contents (Elt F) → (⟨S16384x50x64, .i1⟩ : BufTy).Contents (Elt F)),
    nullary main_call0_cst (constant S_ .f32 0x7FC00000#32 : (⟨S_, .f32⟩ : BufTy).Contents (Elt F)),
    unary main_call0_cst main_call0_v15 (broadcastInDim S16384x50x64 ![] bcast_S_S16384x50x64 : (⟨S_, .f32⟩ : BufTy).Contents (Elt F) → (⟨S16384x50x64, .f32⟩ : BufTy).Contents (Elt F)),
    ternary main_call0_v14 main_call0_v13 main_call0_v15 main_v0 (select : (⟨S16384x50x64, .i1⟩ : BufTy).Contents (Elt F) → (⟨S16384x50x64, .f32⟩ : BufTy).Contents (Elt F) → (⟨S16384x50x64, .f32⟩ : BufTy).Contents (Elt F) → (⟨S16384x50x64, .f32⟩ : BufTy).Contents (Elt F)),
    binary main_v0 main_arg2 main_v1 (fun l r => Host.dotGeneral dot_S16384x50x64_S64x64_S16384x50x64_2_1_01_0_n_n none l r : (⟨S16384x50x64, .f32⟩ : BufTy).Contents (Elt F) → (⟨S64x64, .f32⟩ : BufTy).Contents (Elt F) → (⟨S16384x50x64, .f32⟩ : BufTy).Contents (Elt F)),
    unary main_arg3 main_v2 (broadcastInDim S1x1x64 ![2] bcast_S64_S1x1x64_2 : (⟨S64, .f32⟩ : BufTy).Contents (Elt F) → (⟨S1x1x64, .f32⟩ : BufTy).Contents (Elt F)),
    unary main_v2 main_v3 (broadcastInDim S16384x50x64 ![0, 1, 2] bcast_S1x1x64_S16384x50x64_0_1_2 : (⟨S1x1x64, .f32⟩ : BufTy).Contents (Elt F) → (⟨S16384x50x64, .f32⟩ : BufTy).Contents (Elt F)),
    binary main_v1 main_v3 main_v4 (addf : (⟨S16384x50x64, .f32⟩ : BufTy).Contents (Elt F) → (⟨S16384x50x64, .f32⟩ : BufTy).Contents (Elt F) → (⟨S16384x50x64, .f32⟩ : BufTy).Contents (Elt F)) ]

-- twenty-seven binds re-associated under the two unfolded calls, then compared step by step; the reduce and the gather
-- are kept folded meanwhile (their bodies are folds and searches over the operand's elements)
attribute [local irreducible] Host.reduce Host.gather in
set_option maxRecDepth 8192 in
/-- @main is that straight line: the two functions' definitions unfolded at their calls and the records at their
    fields, both sides are one chain of host steps once sequencing is reassociated. -/
theorem main_eq (c : Dev nD) : main (F := F) c = seq ops := by
  simp only [main, fn_take.body, fn_where.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., nullary_bufs_sub .., unary_bufs_sub .., binary_bufs_sub ..,
    unary_bufs_sub .., unary_bufs_sub .., binary_bufs_sub .., binary_bufs_sub .., nullary_bufs_sub .., binary_bufs_sub ..,
    binary_bufs_sub .., unary_bufs_sub .., nullary_bufs_sub .., unary_bufs_sub .., ternary_bufs_sub .., binary_bufs_sub ..,
    unary_bufs_sub .., unary_bufs_sub .., binary_bufs_sub ..⟩

/-- At the compiled mesh, for any float values, from any memory with zero counters: every weakly fair execution of
    @main on the TensorCore terminates, and every final state has each buffer at the operations' fold over the
    launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold at the result and at the arguments -/

attribute [local irreducible] Host.reduce Host.gather in
set_option maxRecDepth 8192 in
set_option maxHeartbeats 400000 in
/-- The fold at the result buffer is `refOut` of the arguments' contents: the fold unrolled, each operation's
    result rewritten at its own result buffer to its function's value and at any other buffer to what was there.
    The reduce and the gather are kept folded meanwhile: the equation never looks inside them. -/
theorem out_eq (V : Valuation τ sig (Elt F)) :
    after ops V (main_v4 : DevRef τ sig)
      = refOut (F := F) (V (main_arg0 : DevRef τ sig)) (V (main_arg1 : DevRef τ sig)) (V (main_arg2 : DevRef τ sig))
          (V (main_arg3 : DevRef τ sig)) := by
  unfold refOut taken inRange rangeBits startIdx normIdx
  after_results_simp

attribute [local irreducible] Host.reduce Host.gather in
set_option maxRecDepth 8192 in
/-- No operation writes argument 0. -/
theorem arg0_eq (V : Valuation τ sig (Elt F)) :
    after ops V (main_arg0 : DevRef τ sig) = V (main_arg0 : DevRef τ sig) := by
  after_results_simp

attribute [local irreducible] Host.reduce Host.gather in
set_option maxRecDepth 8192 in
/-- No operation writes argument 1. -/
theorem arg1_eq (V : Valuation τ sig (Elt F)) :
    after ops V (main_arg1 : DevRef τ sig) = V (main_arg1 : DevRef τ sig) := by
  after_results_simp

attribute [local irreducible] Host.reduce Host.gather in
set_option maxRecDepth 8192 in
/-- No operation writes argument 2. -/
theorem arg2_eq (V : Valuation τ sig (Elt F)) :
    after ops V (main_arg2 : DevRef τ sig) = V (main_arg2 : DevRef τ sig) := by
  after_results_simp

attribute [local irreducible] Host.reduce Host.gather in
set_option maxRecDepth 8192 in
/-- No operation writes argument 3. -/
theorem arg3_eq (V : Valuation τ sig (Elt F)) :
    after ops V (main_arg3 : DevRef τ sig) = V (main_arg3 : DevRef τ sig) := by
  after_results_simp

end Line

/-! ## The run and the frame -/

/-- Under the precondition every weakly fair execution of the reference terminates with its result the shared
    specification `Spec.G` of the argument arrays, and the arguments unchanged. -/
theorem run (m : (ℓ : Loc Cert.ReferenceIdeal.nD Cert.ReferenceIdeal.τ Cert.ReferenceIdeal.sig) → Buf (Elt Ideal) ℓ)
    (g : Dev Cert.ReferenceIdeal.nD → PrngReg) (hpre : Cert.Pre_ReferenceIdeal m) :
    θ_run (Cert.ReferenceIdeal.defs (F := Ideal)) (onTc (τ := Cert.ReferenceIdeal.τ) (Cert.ReferenceIdeal.main (F := Ideal))) ⟨m, fun _ => 0, g⟩
      (fun r => ∀ c : Dev Cert.ReferenceIdeal.nD,
        r.2.mem ((c.tc : Thread Cert.ReferenceIdeal.nD Cert.ReferenceIdeal.τ).loc Cert.ReferenceIdeal.main_v4) = Cert.Spec.G (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run (Cert.ReferenceIdeal.defs (F := Ideal)) _ _).mono (fun r h c =>
    ⟨(h c main_v4).trans ((out_eq _).trans (refOut_eq_G _ _ _ _ (Cert.Proof.PreRange.cats_range _ _ _ _ (hpre c)))),
      (h c main_arg0).trans (arg0_eq _), (h c main_arg1).trans (arg1_eq _),
      (h c main_arg2).trans (arg2_eq _), (h c main_arg3).trans (arg3_eq _)⟩)
    (run_main m g)

/-- The reference's frame: it runs and its arguments end unchanged. -/
theorem frame : Cert.frame_ReferenceIdeal := fun m g hpre =>
  (θ_run (Cert.ReferenceIdeal.defs (F := Ideal)) _ _).mono (fun r h c => (h c).2) (run m g hpre)

end Cert.Proof.Ref

end
-- ==== Proof.LaunchRunV.lean ====
/-
  The program's run with what the result array holds.

  As for the frame, with the tasks' obligations and the regions in their value-carrying form: the final memory
  has the arguments unchanged and the result array at contents the stage-by-stage description `KernelOut` holds of.
-/
import proofs.«204056_g19739669692900_cont_8to1_1488_31_alg».proof.Proof.LaunchMainV
import proofs.«204056_g19739669692900_cont_8to1_1488_31_alg».proof.Proof.LaunchRun

noncomputable section

namespace Cert.Proof.LaunchI

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig (HIx 4) (Elt Ideal) ℕ UU ℕ

variable (m : (ℓ : Loc nD τ sig) → Buf (Elt Ideal) ℓ) (ρ : Dev nD → PrngReg)

instance tdResV_storable (ft : (d : Dev nD) → Buf (Elt Ideal) (tpadLoc d)) (q : Fin 4) (d : Dev nD) (c : Fin ((K (F := Ideal)).nCore q)) (i : Fin ((K (F := Ideal)).nSub q)) :
    BI.Storable (upEmb : UEmb _ 𝕄) (tdResV (UU := UU) m ft q d c i) := by
  match q, c, i with
  | 0, c, i => exact (inferInstance : BI.Storable (upEmb : UEmb _ 𝕄) iprop(catsSh m d (wid c i) ∗ tpadSh d (wid c i) (ft d) ∗ ∃ f, ⌜GatherBlk (F := Ideal) 0 (wid c i) (m (catsLoc d)) (ft d) f⌝ ∗ outBlk0 d (wid c i) f))
  | 1, c, i => exact (inferInstance : BI.Storable (upEmb : UEmb _ 𝕄) iprop(catsSh m d (wid c i) ∗ tpadSh d (wid c i) (ft d) ∗ ∃ f, ⌜GatherBlk (F := Ideal) 1 (wid c i) (m (catsLoc d)) (ft d) f⌝ ∗ outBlk1 d (wid c i) f))
  | 2, c, i => exact (inferInstance : BI.Storable (upEmb : UEmb _ 𝕄) iprop(catsSh m d (wid c i) ∗ tpadSh d (wid c i) (ft d) ∗ ∃ f, ⌜GatherBlk (F := Ideal) 2 (wid c i) (m (catsLoc d)) (ft d) f⌝ ∗ outBlk2 d (wid c i) f))
  | 3, c, i => exact (inferInstance : BI.Storable (upEmb : UEmb _ 𝕄) iprop(catsSh m d (wid c i) ∗ tpadSh d (wid c i) (ft d) ∗ ∃ f, ⌜GatherBlk (F := Ideal) 3 (wid c i) (m (catsLoc d)) (ft d) f⌝ ∗ outBlk3 d (wid c i) f))

instance PV_storable (ft : (d : Dev nD) → Buf (Elt Ideal) (tpadLoc d)) : (PV (UU := UU) m ft).IsStorable where
  st q d c := (inferInstance : BI.Storable (upEmb : UEmb _ 𝕄) (bigSep Finset.univ fun i : Fin ((K (F := Ideal)).nSub q) => goRes (UU := UU) m ft q d c i))
  dn q d c := (inferInstance : BI.Storable (upEmb : UEmb _ 𝕄) (bigSep Finset.univ fun i : Fin ((K (F := Ideal)).nSub q) => tdResV (UU := UU) m ft q d c i))
  go q d c i := goRes_storable m ft q d c i
  td q d c i := tdResV_storable m ft q d c i

/-- The launch element funds the same staging cells; the gather kernels' proofs still consume nothing of it. -/
theorem hu₀V (ft : (d : Dev nD) → Buf (Elt Ideal) (tpadLoc d)) : (ownU (u₀ (F := Ideal)) : sProp 𝕄)
    ⊢ |={Set.univ}=> iprop(BI.own (EH (F := Ideal) (initOf (K (F := Ideal)).hsCells (K (F := Ideal)).hsToks)) ∗ (bigSep Finset.univ fun d : Dev nD => G (F := Ideal) d)
        ∗ bigSep Finset.univ fun thr : Thread nD τ => bigSep Finset.univ fun q : Fin 4 => (PV m ft).x q thr) :=
  hu₀ m ft

def fqV (d : Dev nD) (s' : Phys nD τ sig (Elt Ideal)) : Prop :=
  fq m d s' ∧ ∃ y, KernelOut m d y ∧ s'.mem.mem ((SparseCore.T d).loc main_v11) = y

set_option maxRecDepth 16384 in
theorem hfinV (d : Dev nD) (s' : Phys nD τ sig (Elt Ideal)) : iprop(FINV m d ∗ SI s') ⊢ (⌜fqV m d s'⌝ : sProp 𝕄) := by
  iintro ⟨⟨HF, %y, %hy, Hy⟩, HSI⟩
  ihave H := (persistent_entails_right (SI_pointsTo_agree (st := s') (ℓ := (SparseCore.T d).loc main_v11) (I := Finset.univ) (q := fullShare) (f := y))) $$ [HSI Hy]
  · isplitl [HSI] <;> iassumption
  icases H with ⟨%h11, HSI, -⟩
  ihave H := (hfin m d s') $$ [HF HSI]
  · isplitl [HF] <;> iassumption
  icases H with %hf
  ipureintro
  exact ⟨hf, y, hy, funext fun i => h11 i (Finset.mem_univ i)⟩

def QCV : PUnit × MemSt nD τ sig (Elt Ideal) → Prop := fun r => ∀ c : Dev nD,
  (∃ y, KernelOut m c y ∧ r.2.mem ((SparseCore.T c).loc main_v11) = y)
    ∧ r.2.mem ((SparseCore.T c).loc main_arg0) = m ((SparseCore.T c).loc main_arg0) ∧ r.2.mem ((SparseCore.T c).loc main_arg1) = m ((SparseCore.T c).loc main_arg1)
    ∧ r.2.mem ((SparseCore.T c).loc main_arg2) = m ((SparseCore.T c).loc main_arg2) ∧ r.2.mem ((SparseCore.T c).loc main_arg3) = m ((SparseCore.T c).loc main_arg3)

/-- Every weakly fair execution of the program's threads ends, faulting nowhere, with the arguments unchanged
    and the result array as `KernelOut` describes — given each gather call's task and each projection call's
    region with what they write. -/
theorem run_mainV (hT : ∀ q : Fin 4, (K (F := Ideal)).TileObl (D (F := Ideal)) 𝒱 (PV (UU := UU) m (ftOf m)) v₀ q)
    (hR0 : RegionSpecV0) (hR1 : RegionSpecV1) (hR2 : RegionSpecV2) (hR3 : RegionSpecV3) :
    θ_run (Cert.KernelIdeal.defs (F := Ideal)) (Cert.KernelIdeal.threads (F := Ideal)) ⟨m, fun _ => 0, ρ⟩ (QCV m) :=
  SparseCore.Cfg.θ_run_sc (K := K (F := Ideal)) (D := D (F := Ideal)) (𝒱 := 𝒱) (EH := EH) (P := PV m (ftOf m)) facts v₀
    (fun q hq => absurd ((kind_eq (F := Ideal) q).symm.trans hq) (by decide))
    (fun q _ => hT q)
    (fun q _ => SparseCore.Cfg.VecSplit.of_plain (vecSplitV m (ftOf m) q))
    m ρ main (fun d => G (F := Ideal) d) (FINV m) (u₀ (F := Ideal)) (sep_elim_left.trans (hu₀V m (ftOf m))) (hmainV m ρ hR0 hR1 hR2 hR3) (fqV m) (hfinV m)
    (QCV m) (fun _ h c => ⟨(h c).2, (h c).1.1, (h c).1.2.1, (h c).1.2.2.1, (h c).1.2.2.2⟩)

end Cert.Proof.LaunchI

end
-- ==== Proof.KernelAlg.lean ====
/-
  From the stage-by-stage description to one statement about the last output array.

  Projection call `p` writes columns `4096 p … 4096 p + 4095` and keeps every other column of the array it
  starts from, and each call starts from the previous call's array. So in the last array the columns of block
  `q` are still what call `q` wrote: calls `q + 1, …, 3` did not touch them.
-/
import proofs.«204056_g19739669692900_cont_8to1_1488_31_alg».proof.Proof.LaunchMainV

noncomputable section

namespace Cert.Proof.LaunchI

open Cert.KernelIdeal Cert.KernelIdeal.Gen
open Idealize.ShloMosaic Idealize.ShloMosaic.ValueIdx

/-- The gathered array of call `q`. -/
def gsel (g3 g4 g5 g6 : FVec Ideal S4096x50x64 .f32) : Fin 4 → FVec Ideal S4096x50x64 .f32
  | 0 => g3 | 1 => g4 | 2 => g5 | 3 => g6

theorem proj_chain (g3 g4 g5 g6 : FVec Ideal S4096x50x64 .f32) (fw : FVec Ideal S64x64 .f32) (fb : FVec Ideal S64x1 .f32)
    (f7 h7 h8 h9 h10 : FVec Ideal S50x64x16384 .f32)
    (hh7 : ProjBlk 0 g3 fw fb f7 h7) (hh8 : ProjBlk 1 g4 fw fb h7 h8) (hh9 : ProjBlk 2 g5 fw fb h8 h9) (hh10 : ProjBlk 3 g6 fw fb h9 h10)
    (q : Fin 4) (l : Fin 50) (o : Fin 64) (b' : Fin 4096) :
    h10 (ix3 l o (⟨4096 * q.val + b'.val, by omega⟩ : Fin 16384))
      = (∑ e : Fin 64, fw (ix2 e o) * gsel g3 g4 g5 g6 q (ix3 b' l e)) + fb (ix2 o (0 : Fin 1)) := by
  have v0 : ((0 : Fin 4) : ℕ) = 0 := rfl
  have v1 : ((1 : Fin 4) : ℕ) = 1 := rfl
  have v2 : ((2 : Fin 4) : ℕ) = 2 := rfl
  have v3 : ((3 : Fin 4) : ℕ) = 3 := rfl
  have hb := b'.isLt
  match q with
  | 3 => exact hh10.1 l o b'
  | 2 =>
    rw [hh10.2 l o _ (Or.inl (by show 4096 * ((2 : Fin 4) : ℕ) + b'.val < 4096 * ((3 : Fin 4) : ℕ); omega))]
    exact hh9.1 l o b'
  | 1 =>
    rw [hh10.2 l o _ (Or.inl (by show 4096 * ((1 : Fin 4) : ℕ) + b'.val < 4096 * ((3 : Fin 4) : ℕ); omega)),
      hh9.2 l o _ (Or.inl (by show 4096 * ((1 : Fin 4) : ℕ) + b'.val < 4096 * ((2 : Fin 4) : ℕ); omega))]
    exact hh8.1 l o b'
  | 0 =>
    rw [hh10.2 l o _ (Or.inl (by show 4096 * ((0 : Fin 4) : ℕ) + b'.val < 4096 * ((3 : Fin 4) : ℕ); omega)),
      hh9.2 l o _ (Or.inl (by show 4096 * ((0 : Fin 4) : ℕ) + b'.val < 4096 * ((2 : Fin 4) : ℕ); omega)),
      hh8.2 l o _ (Or.inl (by show 4096 * ((0 : Fin 4) : ℕ) + b'.val < 4096 * ((1 : Fin 4) : ℕ); omega))]
    exact hh7.1 l o b'

/-! ## The host stages' results as terms -/

variable (m : (ℓ : Loc nD τ sig) → Buf (Elt Ideal) ℓ)

/-- The padded table the gather calls read: the table padded with the converted zero. -/
theorem ftOf_eq (d : Dev nD) :
    ftOf m d = pad S100000x128 ![0, 0] ![0, 64] ![0, 0] (m ((SparseCore.T d).loc main_arg1))
      (sitofp (F := Ideal) .f32 (constantI S_ 32 0#32)) pads_S100000x64_S100000x128_000_0640 h_S_ := by
  unfold ftOf V5
  rw [(opBc (F := Ideal)).result_of_not_mem _ (show v0' ∉ ({v2'} : Finset (DevRef τ sig)) by decide),
    (opWt (F := Ideal)).result_of_not_mem _ (show v0' ∉ ({v1'} : Finset (DevRef τ sig)) by decide),
    (opPad (F := Ideal)).result_of_mem _ (show v0' ∈ ({v0'} : Finset (DevRef τ sig)) from Finset.mem_singleton_self _)]
  rfl

/-- The transposed weights the projection calls read. -/
theorem wt_eq (d : Dev nD) :
    V5 m d v1' = transpose S64x64 [1, 0] (m ((SparseCore.T d).loc main_arg2)) transposes_S64x64_S64x64_1_0 := by
  unfold V5
  rw [(opBc (F := Ideal)).result_of_not_mem _ (show v1' ∉ ({v2'} : Finset (DevRef τ sig)) by decide),
    (opWt (F := Ideal)).result_of_mem _ (show v1' ∈ ({v1'} : Finset (DevRef τ sig)) from Finset.mem_singleton_self _)]
  rfl

/-- The bias column the projection calls read. -/
theorem bc_eq (d : Dev nD) :
    V5 m d v2' = shapeCast S64x1 (m ((SparseCore.T d).loc main_arg3)) shapeCasts_S64_S64x1 := by
  unfold V5
  rw [(opBc (F := Ideal)).result_of_mem _ (show v2' ∈ ({v2'} : Finset (DevRef τ sig)) from Finset.mem_singleton_self _)]
  rfl

/-- The result array: the last output array with the batch axis brought first. -/
theorem out_eq (d : Dev nD) (h10 : Buf (Elt Ideal) ((SparseCore.T d : Thread nD τ).loc main_v10)) :
    (opOut (F := Ideal)).result (Function.update (Function.update (V0 m d) v10' h10) v11' (m ((SparseCore.T d).loc main_v11))) v11'
      = transpose S16384x50x64 [2, 0, 1] h10 transposes_S50x64x16384_S16384x50x64_2_0_1 := by
  rw [(opOut (F := Ideal)).result_of_mem _ (show v11' ∈ ({v11'} : Finset (DevRef τ sig)) from Finset.mem_singleton_self _)]
  show transpose S16384x50x64 [2, 0, 1] (Function.update (Function.update (V0 m d) v10' h10) v11' (m ((SparseCore.T d).loc main_v11)) v10') _ = _
  rw [Function.update_of_ne (show v10' ≠ v11' by decide), Function.update_self]

end Cert.Proof.LaunchI

end
-- ==== Proof.KernelValue.lean ====
/-
  The kernel side's algebra, over the argument arrays and the intermediate arrays alone (no program).

  The kernel pads the table to 128 lanes, gathers the rows the index words name in four calls of 4096 batch
  entries each, contracts each gathered block with the transposed weight and adds the bias column, writing
  the result feature-major, and transposes it back. Given what each stage leaves, read at an index —
      tpad[r, e]            = table[r, e]                                      (e < 64)
      g_q[b', l, e]         = tpad[rowOf categories[4096 q + b', l], e]
      Wt[e, o]              = W[o, e],        bcol[o, 0] = bias[o]
      x[l, o, 4096 q + b']  = Σ_e Wt[e, o] · g_q[b', l, e] + bcol[o, 0]
      y[b, l, o]            = x[l, o, b]
  — the result is the shared specification: every batch entry `b` is `4096 q + b'` for `q = b / 4096` and
  `b' = b % 4096`, and the factors of each product commute.
-/
import proofs.«204056_g19739669692900_cont_8to1_1488_31_alg».proof.Proof.Spec
import Idealize.ShloMosaic.Lib.ValueIdx
import Idealize.ShloMosaic.PureOps.Ideal
import Idealize.ShloMosaic.PureOps.Ideal.Laws

noncomputable section

namespace Cert.Proof.KValue

open Idealize.ShloMosaic Idealize.ShloMosaic.ValueIdx
open scoped BigOperators

/-- Batch entry `b'` of call `q`. -/
abbrev entry (q : Fin 4) (b' : Fin 4096) : Fin 16384 := ⟨4096 * q.val + b'.val, by omega⟩

/-- Every batch entry is entry `b % 4096` of call `b / 4096`. -/
theorem exists_entry (b : Fin 16384) : ∃ (q : Fin 4) (b' : Fin 4096), b = entry q b' :=
  ⟨⟨b.val / 4096, by omega⟩, ⟨b.val % 4096, Nat.mod_lt _ (by decide)⟩, Fin.ext (by
    show b.val = 4096 * (b.val / 4096) + b.val % 4096
    omega)⟩

/-- THE KERNEL'S VALUE: the transposed, projected, gathered rows are the shared specification. -/
theorem kernel_value (cats : IVec ⟨2, ![16384, 50]⟩ 32) (table : FVec Ideal ⟨2, ![100000, 64]⟩ .f32)
    (W : FVec Ideal ⟨2, ![64, 64]⟩ .f32) (bias : FVec Ideal ⟨1, ![64]⟩ .f32)
    (tpad : FVec Ideal ⟨2, ![100000, 128]⟩ .f32) (g : Fin 4 → FVec Ideal ⟨3, ![4096, 50, 64]⟩ .f32)
    (Wt : FVec Ideal ⟨2, ![64, 64]⟩ .f32) (bcol : FVec Ideal ⟨2, ![64, 1]⟩ .f32)
    (x : FVec Ideal ⟨3, ![50, 64, 16384]⟩ .f32) (y : FVec Ideal ⟨3, ![16384, 50, 64]⟩ .f32)
    (hpad : ∀ (r : Fin 100000) (e : Fin 64), tpad (ix2 r (Fin.castLE (by decide) e)) = table (ix2 r e))
    (hg : ∀ (q : Fin 4) (b' : Fin 4096) (l : Fin 50) (e : Fin 64),
      g q (ix3 b' l e) = tpad (ix2 (Cert.Spec.rowOf (cats (ix2 (entry q b') l))) (Fin.castLE (by decide) e)))
    (hWt : ∀ e o : Fin 64, Wt (ix2 e o) = W (ix2 o e)) (hbcol : ∀ o : Fin 64, bcol (ix2 o (0 : Fin 1)) = bias (ix1 o))
    (hx : ∀ (q : Fin 4) (l : Fin 50) (o : Fin 64) (b' : Fin 4096),
      x (ix3 l o (entry q b')) = (∑ e : Fin 64, Wt (ix2 e o) * g q (ix3 b' l e)) + bcol (ix2 o (0 : Fin 1)))
    (hy : ∀ (b : Fin 16384) (l : Fin 50) (o : Fin 64), y (ix3 b l o) = x (ix3 l o b)) :
    y = Cert.Spec.G cats table W bias := by
  funext i
  obtain ⟨b, l, o, rfl⟩ : ∃ (b : Fin 16384) (l : Fin 50) (o : Fin 64), i = ix3 b l o := ⟨i 0, i 1, i 2, eq_ix3 i⟩
  obtain ⟨q, b', rfl⟩ := exists_entry b
  rw [Cert.Spec.G_apply_comm, hy, hx, hbcol]
  refine congrArg (· + bias (ix1 o)) (Finset.sum_congr rfl fun e _ => ?_)
  rw [hWt, hg, hpad]

end Cert.Proof.KValue

end
-- ==== Proof.KernelHostValue.lean ====
/-
  The kernel's host stages read at an index: the pad of the table to 128 lanes, the transpose of the weight,
  the reshape of the bias into a column and the final transpose of the feature-major result. Each is a layout
  operation, the same at every element type; each is stated over the literal shapes and for ANY witness of its
  shape relation, so it applies to the printed operation of either instance of the program.
-/
import Idealize.ShloMosaic.Lib.ValueIdx
import Idealize.ShloMosaic.Lib.Pipeline.Value
import Idealize.ShloMosaic.Lib.KernelVsHost

noncomputable section

namespace Cert.Proof.KValue

open Idealize.ShloMosaic Idealize.ShloMosaic.ValueIdx

variable {α : Type}

/-- The padded table keeps lanes 0 … 63: `pad(x, v, low = [0, 0], high = [0, 64])[r, e] = x[r, e]` for `e < 64`. -/
theorem pad_lanes_apply (x : (⟨2, ![100000, 64]⟩ : Shape).Idx → α) {u : Shape} (v : u.Idx → α)
    (h : (⟨2, ![100000, 64]⟩ : Shape).Pads ![0, 0] ![0, 64] ![0, 0] ⟨2, ![100000, 128]⟩) (hu : 0 < u.numel)
    (r : Fin 100000) (e : Fin 64) :
    pad ⟨2, ![100000, 128]⟩ ![0, 0] ![0, 64] ![0, 0] x v h hu (ix2 r (Fin.castLE (by decide) e)) = x (ix2 r e) := by
  refine pad_apply_of_inside _ _ _ x v h hu _ (ix2 r e) fun a => ?_
  match a with
  | ⟨0, _⟩ => show r.val = 0 + r.val * (0 + 1); omega
  | ⟨1, _⟩ => show e.val = 0 + e.val * (0 + 1); omega

/-- Lanes 64 … 127 of the padded table hold the padding value. -/
theorem pad_lanes_apply_high (x : (⟨2, ![100000, 64]⟩ : Shape).Idx → α) (v : (⟨0, ![]⟩ : Shape).Idx → α)
    (h : (⟨2, ![100000, 64]⟩ : Shape).Pads ![0, 0] ![0, 64] ![0, 0] ⟨2, ![100000, 128]⟩) (hu : 0 < (⟨0, ![]⟩ : Shape).numel)
    (r : Fin 100000) (e : Fin 128) (he : 64 ≤ e.val) :
    pad ⟨2, ![100000, 128]⟩ ![0, 0] ![0, 64] ![0, 0] x v h hu (ix2 r e) = v ix0 := by
  rw [pad_apply_of_not_inside _ _ _ x v h hu _ (1 : Fin 2) (fun hin => by
    have h3 : (e.val - 0) / (0 + 1) < 64 := hin.2.2
    omega)]
  exact congrArg v (eq_ix0 _)

/-- The transposed weight: `transpose(x, [1, 0])[e, o] = x[o, e]`. -/
theorem transpose_weight_apply (x : (⟨2, ![64, 64]⟩ : Shape).Idx → α)
    (h : (⟨2, ![64, 64]⟩ : Shape).Transposes [1, 0] ⟨2, ![64, 64]⟩) (e o : Fin 64) :
    transpose ⟨2, ![64, 64]⟩ [1, 0] x h (ix2 e o) = x (ix2 o e) := by
  refine transpose_apply _ x h _ (ix2 o e) fun b => ?_
  match b with
  | ⟨0, _⟩ => rfl
  | ⟨1, _⟩ => rfl

/-- The bias as a column: `reshape(x : [64] → [64, 1])[o, 0] = x[o]`. -/
theorem reshape_bias_apply (x : (⟨1, ![64]⟩ : Shape).Idx → α)
    (h : (⟨1, ![64]⟩ : Shape).ShapeCasts ⟨2, ![64, 1]⟩) (o : Fin 64) :
    shapeCast ⟨2, ![64, 1]⟩ x h (ix2 o (0 : Fin 1)) = x (ix1 o) := by
  refine shapeCast_apply x h _ (ix1 o) ?_
  rw [Shape.rowMajor_val_one, Shape.rowMajor_val_two]
  show o.val = o.val * 1 + 0
  omega

/-- The final transpose: `transpose(x : [50, 64, 16384], [2, 0, 1])[b, l, o] = x[l, o, b]`. -/
theorem transpose_out_apply (x : (⟨3, ![50, 64, 16384]⟩ : Shape).Idx → α)
    (h : (⟨3, ![50, 64, 16384]⟩ : Shape).Transposes [2, 0, 1] ⟨3, ![16384, 50, 64]⟩) (b : Fin 16384) (l : Fin 50) (o : Fin 64) :
    transpose ⟨3, ![16384, 50, 64]⟩ [2, 0, 1] x h (ix3 b l o) = x (ix3 l o b) := by
  refine transpose_apply _ x h _ (ix3 l o b) fun a => ?_
  match a with
  | ⟨0, _⟩ => rfl
  | ⟨1, _⟩ => rfl
  | ⟨2, _⟩ => rfl

end Cert.Proof.KValue

end
-- ==== Proof.KernelOutG.lean ====
/-
  The stage-by-stage description of the kernel's result is `G` of the arguments.

  The padded table keeps the table in lanes 0..63; each gathered array holds the padded rows the index words
  name; the last output array holds, in every block of columns, the contraction of the gathered rows with the
  transposed weights plus the bias column; the result is that array with the batch axis first. Read together
  that is `Σ_e W[o, e] · table[categories[b, l], e] + bias[o]`, the weight first; multiplication commutes.
-/
import proofs.«204056_g19739669692900_cont_8to1_1488_31_alg».proof.Proof.KernelAlg
import proofs.«204056_g19739669692900_cont_8to1_1488_31_alg».proof.Proof.KernelValue
import proofs.«204056_g19739669692900_cont_8to1_1488_31_alg».proof.Proof.KernelHostValue

noncomputable section

namespace Cert.Proof.LaunchI

open Cert.KernelIdeal Cert.KernelIdeal.Gen
open Idealize.ShloMosaic Idealize.ShloMosaic.ValueIdx

theorem kernelOut_eq_G (m : (ℓ : Loc nD τ sig) → Buf (Elt Ideal) ℓ) (d : Dev nD)
    (y : Buf (Elt Ideal) ((SparseCore.T d : Thread nD τ).loc main_v11)) (hy : KernelOut m d y) :
    y = Cert.Spec.G (m ((SparseCore.T d).loc main_arg0)) (m ((SparseCore.T d).loc main_arg1))
      (m ((SparseCore.T d).loc main_arg2)) (m ((SparseCore.T d).loc main_arg3)) := by
  obtain ⟨g3, g4, g5, g6, h7, h8, h9, h10, hg3, hg4, hg5, hg6, hh7, hh8, hh9, hh10, rfl⟩ := hy
  rw [out_eq]
  refine Cert.Proof.KValue.kernel_value _ _ _ _ (ftOf m d) (gsel g3 g4 g5 g6) (V5 m d v1') (V5 m d v2') h10 _ ?_ ?_ ?_ ?_ ?_ ?_
  · intro r e
    rw [ftOf_eq]
    exact Cert.Proof.KValue.pad_lanes_apply _ _ _ _ r e
  · intro q b' l e
    match q with
    | 0 => exact hg3 b' l e
    | 1 => exact hg4 b' l e
    | 2 => exact hg5 b' l e
    | 3 => exact hg6 b' l e
  · intro e o
    rw [wt_eq]
    exact Cert.Proof.KValue.transpose_weight_apply _ _ e o
  · intro o
    rw [bc_eq]
    exact Cert.Proof.KValue.reshape_bias_apply _ _ o
  · intro q l o b'
    exact proj_chain g3 g4 g5 g6 _ _ _ h7 h8 h9 h10 hh7 hh8 hh9 hh10 q l o b'
  · intro b l o
    exact Cert.Proof.KValue.transpose_out_apply _ _ b l o

end Cert.Proof.LaunchI

end
-- ==== Proof.Algebraic.lean ====
/-
  The two idealized programs compute one function.

  From memories that agree on the arguments, the idealized kernel ends with its result array at `G` of the
  arguments (the stage-by-stage description read as one formula), and the idealized reference ends with its
  result at the same `G` (its composed term read index by index); both leave the arguments unchanged.
-/
import proofs.«204056_g19739669692900_cont_8to1_1488_31_alg».proof.Proof.LaunchRunV
import proofs.«204056_g19739669692900_cont_8to1_1488_31_alg».proof.Proof.TileOblV
import proofs.«204056_g19739669692900_cont_8to1_1488_31_alg».proof.Proof.KernelOutG
import proofs.«204056_g19739669692900_cont_8to1_1488_31_alg».proof.Proof.FrameI
import proofs.«204056_g19739669692900_cont_8to1_1488_31_alg».proof.Proof.RefRun

noncomputable section

namespace Cert.Proof.LaunchI

open Cert.KernelIdeal Cert.KernelIdeal.Gen
open Idealize.ShloMosaic Idealize.SL.Sem

/-- The kernel's run with its result named: `G` of the arguments. -/
theorem run_G (m : (ℓ : Loc nD τ sig) → Buf (Elt Ideal) ℓ) (ρ : Dev nD → PrngReg) (hpre : PreM m)
    (hb0 : TileBodyV0 (F := Ideal) (UU := UU) m) (hb1 : TileBodyV1 (F := Ideal) (UU := UU) m)
    (hb2 : TileBodyV2 (F := Ideal) (UU := UU) m) (hb3 : TileBodyV3 (F := Ideal) (UU := UU) m)
    (hR0 : RegionSpecV0) (hR1 : RegionSpecV1) (hR2 : RegionSpecV2) (hR3 : RegionSpecV3) :
    θ_run (Cert.KernelIdeal.defs (F := Ideal)) (Cert.KernelIdeal.threads (F := Ideal)) ⟨m, fun _ => 0, ρ⟩ (fun r => ∀ c : Dev nD,
      r.2.mem ((SparseCore.T c).loc main_v11) = Cert.Spec.G (m ((SparseCore.T c).loc main_arg0)) (m ((SparseCore.T c).loc main_arg1))
          (m ((SparseCore.T c).loc main_arg2)) (m ((SparseCore.T c).loc main_arg3))
      ∧ r.2.mem ((SparseCore.T c).loc main_arg0) = m ((SparseCore.T c).loc main_arg0) ∧ r.2.mem ((SparseCore.T c).loc main_arg1) = m ((SparseCore.T c).loc main_arg1)
      ∧ r.2.mem ((SparseCore.T c).loc main_arg2) = m ((SparseCore.T c).loc main_arg2) ∧ r.2.mem ((SparseCore.T c).loc main_arg3) = m ((SparseCore.T c).loc main_arg3)) :=
  (θ_run _ _ _).mono (fun r h c => by
      obtain ⟨⟨y, hy, e⟩, h0, h1, h2, h3⟩ := h c
      exact ⟨e.trans (kernelOut_eq_G m c y hy), h0, h1, h2, h3⟩)
    (run_mainV m ρ
      (fun q => match q with
        | 0 => tileOblV0 m (ftOf m) (hcats_of_pre m hpre) hb0
        | 1 => tileOblV1 m (ftOf m) (hcats_of_pre m hpre) hb1
        | 2 => tileOblV2 m (ftOf m) (hcats_of_pre m hpre) hb2
        | 3 => tileOblV3 m (ftOf m) (hcats_of_pre m hpre) hb3)
      hR0 hR1 hR2 hR3)

/-- The algebraic claim, from the four tasks and the four projection regions with what they write. -/
theorem algebraic_of
    (hb0 : ∀ m, TileBodyV0 (F := Ideal) (UU := UU) m) (hb1 : ∀ m, TileBodyV1 (F := Ideal) (UU := UU) m)
    (hb2 : ∀ m, TileBodyV2 (F := Ideal) (UU := UU) m) (hb3 : ∀ m, TileBodyV3 (F := Ideal) (UU := UU) m)
    (hR0 : RegionSpecV0) (hR1 : RegionSpecV1) (hR2 : RegionSpecV2) (hR3 : RegionSpecV3) :
    Cert.algebraic_KernelIdeal_ReferenceIdeal (hKernelIdeal := Cert.KernelIdeal.Gen.facts) (hReferenceIdeal := Cert.ReferenceIdeal.Gen.facts)
      (hPre_input_domain := Cert.Pre_input_domain.Gen.facts) := by
  intro m g m' g' hpre hagree
  refine ⟨fun c => Cert.Spec.G (m ((c.tc : Thread nD τ).loc main_arg0)) (m ((c.tc : Thread nD τ).loc main_arg1))
    (m ((c.tc : Thread nD τ).loc main_arg2)) (m ((c.tc : Thread nD τ).loc main_arg3)), ?_, ?_⟩
  · exact (θ_run _ _ _).mono (fun r h c => h c) (run_G m g hpre (hb0 m) (hb1 m) (hb2 m) (hb3 m) hR0 hR1 hR2 hR3)
  · have hpre' : Cert.Pre_ReferenceIdeal (hPre_input_domain := Cert.Pre_input_domain.Gen.facts) m' := fun c => by
      rw [(hagree c).1, (hagree c).2.1, (hagree c).2.2.1, (hagree c).2.2.2]; exact hpre c
    exact (θ_run _ _ _).mono
      (fun _ h c => ⟨by rw [(h c).1, (hagree c).1, (hagree c).2.1, (hagree c).2.2.1, (hagree c).2.2.2], (h c).2⟩)
      (Cert.Proof.Ref.run m' g' hpre')

end Cert.Proof.LaunchI

end
-- ==== Proof.lean ====
/-
  The certificate: the kernel against its reference.

  Both programs compute, for a batch entry `b`, a history position `l` and an output feature `o`,
      Σ_e table[categories[b, l], e] · W[o, e] + bias[o].
  The reference takes the table's rows, contracts them with the weights and adds the bias. The kernel pads the
  table to 128 lanes; four gather calls on the SparseCores' 32 vector subcores each copy 4096 batch entries' rows
  out of the padded table (each subcore 128 entries, through a ring of eight slots, one semaphore per slot and
  direction); four projection calls on the TensorCore contract the gathered blocks with the transposed weights
  and add the bias column, each writing its eight blocks of columns of one [50, 64, 16384] array; a transpose
  brings the batch axis first.

  The three frames: the reference's run is a straight line of host operations; each kernel program's run is
  the launch theorem applied to the tasks' proofs at a symbolic subcore, the projection calls' regions and
  @main, written once for both float instances. No operation was rewritten by the idealization, so
  `preserves` has nothing to state.
-/
import proofs.«204056_g19739669692900_cont_8to1_1488_31_alg».proof.Defs
import proofs.«204056_g19739669692900_cont_8to1_1488_31_alg».proof.Proof.Gen.Kernel
import proofs.«204056_g19739669692900_cont_8to1_1488_31_alg».proof.Proof.Gen.KernelIdeal
import proofs.«204056_g19739669692900_cont_8to1_1488_31_alg».proof.Proof.Gen.ReferenceIdeal
import proofs.«204056_g19739669692900_cont_8to1_1488_31_alg».proof.Proof.Gen.Pre_input_domain
import proofs.«204056_g19739669692900_cont_8to1_1488_31_alg».proof.Proof.FrameI
import proofs.«204056_g19739669692900_cont_8to1_1488_31_alg».proof.Proof.FrameIB
import proofs.«204056_g19739669692900_cont_8to1_1488_31_alg».proof.Proof.TileBodiesB
import proofs.«204056_g19739669692900_cont_8to1_1488_31_alg».proof.Proof.TileBodiesV
import proofs.«204056_g19739669692900_cont_8to1_1488_31_alg».proof.Proof.LaunchRegionsV
import proofs.«204056_g19739669692900_cont_8to1_1488_31_alg».proof.Proof.RefRun
import proofs.«204056_g19739669692900_cont_8to1_1488_31_alg».proof.Proof.Algebraic
import Idealize.ShloMosaic.Adequacy
import Idealize.ShloMosaic.Init

noncomputable section

namespace Cert.Proof

open Idealize.ShloMosaic Idealize.SL.Sem

/-- The word-level kernel runs to its end, faulting nowhere, its arguments unchanged. -/
theorem frame_Kernel : Cert.frame_Kernel (hKernel := Cert.Kernel.Gen.facts) (hPre_input_domain := Cert.Pre_input_domain.Gen.facts) := fun m g hpre =>
  (θ_run Cert.Kernel.defs _ _).mono (fun _ h c => h c)
    (Cert.Proof.LaunchB.frame_of_bodies (F := Bits) m g hpre
      (Cert.Proof.LaunchB.tileBody0 m) (Cert.Proof.LaunchB.tileBody1 m) (Cert.Proof.LaunchB.tileBody2 m) (Cert.Proof.LaunchB.tileBody3 m))

/-- So does the idealized kernel: a task that says what it wrote is a task. -/
theorem frame_KernelIdeal : Cert.frame_KernelIdeal (hKernelIdeal := Cert.KernelIdeal.Gen.facts) (hPre_input_domain := Cert.Pre_input_domain.Gen.facts) := fun m g hpre =>
  (θ_run Cert.KernelIdeal.defs _ _).mono (fun _ h c => h c)
    (Cert.Proof.LaunchI.frame_of_bodies (F := Ideal) m g hpre
      (Cert.Proof.LaunchI.tileBody0_of_V m (Cert.Proof.LaunchI.tileBodyV0 m)) (Cert.Proof.LaunchI.tileBody1_of_V m (Cert.Proof.LaunchI.tileBodyV1 m))
      (Cert.Proof.LaunchI.tileBody2_of_V m (Cert.Proof.LaunchI.tileBodyV2 m)) (Cert.Proof.LaunchI.tileBody3_of_V m (Cert.Proof.LaunchI.tileBodyV3 m)))

/-- From memories agreeing on the arguments both idealized programs end with their results at `G` of them. -/
theorem algebraic : Cert.algebraic_KernelIdeal_ReferenceIdeal (hKernelIdeal := Cert.KernelIdeal.Gen.facts) (hReferenceIdeal := Cert.ReferenceIdeal.Gen.facts)
    (hPre_input_domain := Cert.Pre_input_domain.Gen.facts) :=
  Cert.Proof.LaunchI.algebraic_of (fun m => Cert.Proof.LaunchI.tileBodyV0 m) (fun m => Cert.Proof.LaunchI.tileBodyV1 m)
    (fun m => Cert.Proof.LaunchI.tileBodyV2 m) (fun m => Cert.Proof.LaunchI.tileBodyV3 m)
    Cert.Proof.LaunchI.regionSpecV0 Cert.Proof.LaunchI.regionSpecV1 Cert.Proof.LaunchI.regionSpecV2 Cert.Proof.LaunchI.regionSpecV3

theorem claim : Cert.Claim :=
  ⟨Cert.Kernel.Gen.facts, Cert.KernelIdeal.Gen.facts, Cert.ReferenceIdeal.Gen.facts, Cert.Pre_input_domain.Gen.facts,
    frame_Kernel, frame_KernelIdeal, Cert.Proof.Ref.frame, trivial, algebraic⟩

end Cert.Proof

end
